-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_12544" .f32 0x38A72F05#32 ((1 / 12544 : ℝ) : EReal)
  ∧ IdealRules.named_const.Statement Cert.KernelIdeal.κ "inv_12544" .f32 0x38A72F05#32 ((1 / 12544 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v801)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v801) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1056) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x100x64x64x64 : Shape := ⟨5, ![2, 100, 64, 64, 64]⟩
abbrev S2x100x134 : Shape := ⟨3, ![2, 100, 134]⟩
abbrev S2x30x64x64x64 : Shape := ⟨5, ![2, 30, 64, 64, 64]⟩
abbrev S2x12544x3 : Shape := ⟨3, ![2, 12544, 3]⟩
abbrev S2x30 : Shape := ⟨2, ![2, 30]⟩
abbrev S_ : Shape := ⟨0, ![]⟩

class Facts : Prop where
  bcast_S_S2x100x64x64x64 : S_.BroadcastsInDim S2x100x64x64x64 (![] : Fin 0 → Fin S2x100x64x64x64.rank)
  reducesTo_S2x100x64x64x64_S_d0_1_2_3_4 : S2x100x64x64x64.ReducesTo [0, 1, 2, 3, 4] S_
  h_S_ : 0 < S_.numel
  bcast_S_S2x100x134 : S_.BroadcastsInDim S2x100x134 (![] : Fin 0 → Fin S2x100x134.rank)
  reducesTo_S2x100x134_S_d0_1_2 : S2x100x134.ReducesTo [0, 1, 2] S_
  bcast_S_S2x30x64x64x64 : S_.BroadcastsInDim S2x30x64x64x64 (![] : Fin 0 → Fin S2x30x64x64x64.rank)
  reducesTo_S2x30x64x64x64_S_d0_1_2_3_4 : S2x30x64x64x64.ReducesTo [0, 1, 2, 3, 4] S_
  bcast_S_S2x12544x3 : S_.BroadcastsInDim S2x12544x3 (![] : Fin 0 → Fin S2x12544x3.rank)
  reducesTo_S2x12544x3_S_d0_1_2 : S2x12544x3.ReducesTo [0, 1, 2] S_

variable [Facts]

def fn_part1 {F : FTy → Type} [FloatOps F] (main_v13 : IVec S_ 1) (main_v16 : IVec S2x12544x3 1) : IVec S_ 1 :=
  let main_c_5 : IVec S_ 1 := constantI S_ 1 1#1
  let main_v17 : IVec S_ 1 := (fun x v => Host.reduce IntOp.andi x v reducesTo_S2x12544x3_S_d0_1_2 h_S_) main_v16 main_c_5
  let main_v18 : IVec S_ 1 := andi main_v13 main_v17
  main_v18

def fn {F : FTy → Type} [FloatOps F] (main_arg0 : FVec F S2x100x64x64x64 .f32) (main_arg1 : FVec F S2x100x134 .f32) (main_arg2 : FVec F S2x30x64x64x64 .f32) (main_arg3 : FVec F S2x12544x3 .f32) (main_arg4 : IVec S2x30 32) : IVec S_ 1 :=
  let main_v0 : FVec F S2x100x64x64x64 .f32 := Host.absf main_arg0
  let main_cst : FVec F S_ .f32 := constant S_ .f32 0x7F800000#32
  let main_v1 : FVec F S2x100x64x64x64 .f32 := broadcastInDim S2x100x64x64x64 ![] bcast_S_S2x100x64x64x64 main_cst
  let main_v2 : IVec S2x100x64x64x64 1 := cmpf .olt main_v0 main_v1
  let main_c : IVec S_ 1 := constantI S_ 1 1#1
  let main_v3 : IVec S_ 1 := (fun x v => Host.reduce IntOp.andi x v reducesTo_S2x100x64x64x64_S_d0_1_2_3_4 h_S_) main_v2 main_c
  let main_v4 : FVec F S2x100x134 .f32 := Host.absf main_arg1
  let main_cst_0 : FVec F S_ .f32 := constant S_ .f32 0x7F800000#32
  let main_v5 : FVec F S2x100x134 .f32 := broadcastInDim S2x100x134 ![] bcast_S_S2x100x134 main_cst_0
  let main_v6 : IVec S2x100x134 1 := cmpf .olt main_v4 main_v5
  let main_c_1 : IVec S_ 1 := constantI S_ 1 1#1
  let main_v7 : IVec S_ 1 := (fun x v => Host.reduce IntOp.andi x v reducesTo_S2x100x134_S_d0_1_2 h_S_) main_v6 main_c_1
  let main_v8 : IVec S_ 1 := andi main_v3 main_v7
  let main_v9 : FVec F S2x30x64x64x64 .f32 := Host.absf main_arg2
  let main_cst_2 : FVec F S_ .f32 := constant S_ .f32 0x7F800000#32
  let main_v10 : FVec F S2x30x64x64x64 .f32 := broadcastInDim S2x30x64x64x64 ![] bcast_S_S2x30x64x64x64 main_cst_2
  let main_v11 : IVec S2x30x64x64x64 1 := cmpf .olt main_v9 main_v10
  let main_c_3 : IVec S_ 1 := constantI S_ 1 1#1
  let main_v12 : IVec S_ 1 := (fun x v => Host.reduce IntOp.andi x v reducesTo_S2x30x64x64x64_S_d0_1_2_3_4 h_S_) main_v11 main_c_3
  let main_v13 : IVec S_ 1 := andi main_v8 main_v12
  let main_v14 : FVec F S2x12544x3 .f32 := Host.absf main_arg3
  let main_cst_4 : FVec F S_ .f32 := constant S_ .f32 0x7F800000#32
  let main_v15 : FVec F S2x12544x3 .f32 := broadcastInDim S2x12544x3 ![] bcast_S_S2x12544x3 main_cst_4
  let main_v16 : IVec S2x12544x3 1 := cmpf .olt main_v14 main_v15
  fn_part1 (F := F) main_v13 main_v16
-- ==== Kernel.lean ====
abbrev S2x100x64x64x64 : Shape := ⟨5, ![2, 100, 64, 64, 64]⟩
abbrev S2x100x134 : Shape := ⟨3, ![2, 100, 134]⟩
abbrev S2x30x64x64x64 : Shape := ⟨5, ![2, 30, 64, 64, 64]⟩
abbrev S2x12544x3 : Shape := ⟨3, ![2, 12544, 3]⟩
abbrev S2x30 : Shape := ⟨2, ![2, 30]⟩
abbrev S2x100x262144 : Shape := ⟨3, ![2, 100, 262144]⟩
abbrev S_ : Shape := ⟨0, ![]⟩
abbrev S2x12544x1 : Shape := ⟨3, ![2, 12544, 1]⟩
abbrev S2x12544 : Shape := ⟨2, ![2, 12544]⟩
abbrev S100x12544 : Shape := ⟨2, ![100, 12544]⟩
abbrev S12544 : Shape := ⟨1, ![12544]⟩
abbrev S1 : Shape := ⟨1, ![1]⟩
abbrev S1x1x1 : Shape := ⟨3, ![1, 1, 1]⟩
abbrev S2x100x12544 : Shape := ⟨3, ![2, 100, 12544]⟩
abbrev S2x1x12544 : Shape := ⟨3, ![2, 1, 12544]⟩
abbrev S1x100x12544 : Shape := ⟨3, ![1, 100, 12544]⟩
abbrev S2x30x262144 : Shape := ⟨3, ![2, 30, 262144]⟩
abbrev S30x12544 : Shape := ⟨2, ![30, 12544]⟩
abbrev S2x30x12544 : Shape := ⟨3, ![2, 30, 12544]⟩
abbrev S1x30x12544 : Shape := ⟨3, ![1, 30, 12544]⟩
abbrev S2x100 : Shape := ⟨2, ![2, 100]⟩
abbrev S2x100x1 : Shape := ⟨3, ![2, 100, 1]⟩
abbrev S2x30x1 : Shape := ⟨3, ![2, 30, 1]⟩
abbrev S2x100x30 : Shape := ⟨3, ![2, 100, 30]⟩
abbrev S1x100x30 : Shape := ⟨3, ![1, 100, 30]⟩
abbrev S100x30 : Shape := ⟨2, ![100, 30]⟩
abbrev S100 : Shape := ⟨1, ![100]⟩
abbrev S100x1 : Shape := ⟨2, ![100, 1]⟩
abbrev S30 : Shape := ⟨1, ![30]⟩
abbrev S1x30 : Shape := ⟨2, ![1, 30]⟩

abbrev nBuf : Space → Nat
  | .hbm => 1778
  | .vmem => 8
  | .smem => 0
  | _ => 0

abbrev hbmTy0_0 (i : Nat) : BufTy := match i % 128 with
  | 0 => ⟨S2x100x64x64x64, .f32⟩
  | 1 => ⟨S2x100x134, .f32⟩
  | 2 => ⟨S2x30x64x64x64, .f32⟩
  | 3 => ⟨S2x12544x3, .f32⟩
  | 4 => ⟨S2x30, .i32⟩
  | 5 => ⟨S2x100x262144, .f32⟩
  | 6 => ⟨S_, .f32⟩
  | 7 => ⟨S2x12544x3, .f32⟩
  | 8 => ⟨S2x12544x3, .f32⟩
  | 9 => ⟨S_, .f32⟩
  | 10 => ⟨S2x12544x3, .f32⟩
  | 11 => ⟨S2x12544x3, .f32⟩
  | 12 => ⟨S2x12544x1, .f32⟩
  | 13 => ⟨S2x12544, .f32⟩
  | 14 => ⟨S_, .f32⟩
  | 15 => ⟨S2x12544, .f32⟩
  | 16 => ⟨S2x12544, .f32⟩
  | 17 => ⟨S_, .f32⟩
  | 18 => ⟨S2x12544, .f32⟩
  | 19 => ⟨S2x12544, .f32⟩
  | 20 => ⟨S_, .f32⟩
  | 21 => ⟨S2x12544, .f32⟩
  | 22 => ⟨S2x12544, .f32⟩
  | 23 => ⟨S_, .f32⟩
  | 24 => ⟨S2x12544, .f32⟩
  | 25 => ⟨S2x12544, .f32⟩
  | 26 => ⟨S2x12544x1, .f32⟩
  | 27 => ⟨S2x12544, .f32⟩
  | 28 => ⟨S_, .f32⟩
  | 29 => ⟨S2x12544, .f32⟩
  | 30 => ⟨S2x12544, .f32⟩
  | 31 => ⟨S_, .f32⟩
  | 32 => ⟨S2x12544, .f32⟩
  | 33 => ⟨S2x12544, .f32⟩
  | 34 => ⟨S_, .f32⟩
  | 35 => ⟨S2x12544, .f32⟩
  | 36 => ⟨S2x12544, .f32⟩
  | 37 => ⟨S_, .f32⟩
  | 38 => ⟨S2x12544, .f32⟩
  | 39 => ⟨S2x12544, .f32⟩
  | 40 => ⟨S2x12544x1, .f32⟩
  | 41 => ⟨S2x12544, .f32⟩
  | 42 => ⟨S_, .f32⟩
  | 43 => ⟨S2x12544, .f32⟩
  | 44 => ⟨S2x12544, .f32⟩
  | 45 => ⟨S_, .f32⟩
  | 46 => ⟨S2x12544, .f32⟩
  | 47 => ⟨S2x12544, .f32⟩
  | 48 => ⟨S_, .f32⟩
  | 49 => ⟨S2x12544, .f32⟩
  | 50 => ⟨S2x12544, .f32⟩
  | 51 => ⟨S_, .f32⟩
  | 52 => ⟨S2x12544, .f32⟩
  | 53 => ⟨S2x12544, .f32⟩
  | 54 => ⟨S2x12544, .f32⟩
  | 55 => ⟨S2x12544, .f32⟩
  | 56 => ⟨S2x12544, .f32⟩
  | 57 => ⟨S2x12544, .f32⟩
  | 58 => ⟨S2x12544, .f32⟩
  | 59 => ⟨S2x12544, .f32⟩
  | 60 => ⟨S2x12544, .i32⟩
  | 61 => ⟨S2x12544, .i32⟩
  | 62 => ⟨S2x12544, .i32⟩
  | 63 => ⟨S_, .f32⟩
  | 64 => ⟨S100x12544, .f32⟩
  | 65 => ⟨S_, .i32⟩
  | 66 => ⟨S2x12544, .i32⟩
  | 67 => ⟨S2x12544, .i32⟩
  | 68 => ⟨S_, .i32⟩
  | 69 => ⟨S2x12544, .i32⟩
  | 70 => ⟨S2x12544, .i32⟩
  | 71 => ⟨S_, .i32⟩
  | 72 => ⟨S2x12544, .i32⟩
  | 73 => ⟨S2x12544, .i32⟩
  | 74 => ⟨S_, .i32⟩
  | 75 => ⟨S2x12544, .i32⟩
  | 76 => ⟨S2x12544, .i1⟩
  | 77 => ⟨S_, .i32⟩
  | 78 => ⟨S2x12544, .i32⟩
  | 79 => ⟨S2x12544, .i1⟩
  | 80 => ⟨S2x12544, .i1⟩
  | 81 => ⟨S_, .i32⟩
  | 82 => ⟨S2x12544, .i32⟩
  | 83 => ⟨S2x12544, .i1⟩
  | 84 => ⟨S2x12544, .i1⟩
  | 85 => ⟨S_, .i32⟩
  | 86 => ⟨S2x12544, .i32⟩
  | 87 => ⟨S2x12544, .i1⟩
  | 88 => ⟨S2x12544, .i1⟩
  | 89 => ⟨S_, .i32⟩
  | 90 => ⟨S2x12544, .i32⟩
  | 91 => ⟨S2x12544, .i1⟩
  | 92 => ⟨S2x12544, .i1⟩
  | 93 => ⟨S_, .i32⟩
  | 94 => ⟨S2x12544, .i32⟩
  | 95 => ⟨S2x12544, .i1⟩
  | 96 => ⟨S2x12544, .i1⟩
  | 97 => ⟨S_, .i32⟩
  | 98 => ⟨S_, .i32⟩
  | 99 => ⟨S_, .i32⟩
  | 100 => ⟨S2x12544, .i32⟩
  | 101 => ⟨S2x12544, .i32⟩
  | 102 => ⟨S_, .i32⟩
  | 103 => ⟨S2x12544, .i32⟩
  | 104 => ⟨S2x12544, .i32⟩
  | 105 => ⟨S_, .i32⟩
  | 106 => ⟨S_, .i32⟩
  | 107 => ⟨S_, .i32⟩
  | 108 => ⟨S2x12544, .i32⟩
  | 109 => ⟨S2x12544, .i32⟩
  | 110 => ⟨S_, .i32⟩
  | 111 => ⟨S2x12544, .i32⟩
  | 112 => ⟨S2x12544, .i32⟩
  | 113 => ⟨S_, .i32⟩
  | 114 => ⟨S_, .i32⟩
  | 115 => ⟨S_, .i32⟩
  | 116 => ⟨S2x12544, .i32⟩
  | 117 => ⟨S2x12544, .i32⟩
  | 118 => ⟨S_, .i32⟩
  | 119 => ⟨S2x12544, .i32⟩
  | 120 => ⟨S2x12544, .i32⟩
  | 121 => ⟨S_, .i32⟩
  | 122 => ⟨S2x12544, .i32⟩
  | 123 => ⟨S2x12544, .i32⟩
  | 124 => ⟨S_, .i32⟩
  | 125 => ⟨S2x12544, .i32⟩
  | 126 => ⟨S2x12544, .i32⟩
  | 127 => ⟨S2x12544, .i32⟩
  | _ => ⟨S2x100x64x64x64, .f32⟩

abbrev hbmTy0_1 (i : Nat) : BufTy := match i % 128 with
  | 0 => ⟨S2x12544, .i32⟩
  | 1 => ⟨S_, .f32⟩
  | 2 => ⟨S2x12544, .f32⟩
  | 3 => ⟨S2x12544, .f32⟩
  | 4 => ⟨S_, .f32⟩
  | 5 => ⟨S2x12544, .f32⟩
  | 6 => ⟨S2x12544, .f32⟩
  | 7 => ⟨S2x12544, .f32⟩
  | 8 => ⟨S_, .f32⟩
  | 9 => ⟨S2x12544, .f32⟩
  | 10 => ⟨S2x12544, .f32⟩
  | 11 => ⟨S2x12544, .f32⟩
  | 12 => ⟨S_, .f32⟩
  | 13 => ⟨S12544, .f32⟩
  | 14 => ⟨S2x12544, .f32⟩
  | 15 => ⟨S2x12544, .f32⟩
  | 16 => ⟨S_, .i32⟩
  | 17 => ⟨S2x12544, .i32⟩
  | 18 => ⟨S2x12544, .i1⟩
  | 19 => ⟨S_, .i32⟩
  | 20 => ⟨S2x12544, .i32⟩
  | 21 => ⟨S2x12544, .i32⟩
  | 22 => ⟨S2x12544, .i32⟩
  | 23 => ⟨S2x12544x1, .i32⟩
  | 24 => ⟨S1, .i32⟩
  | 25 => ⟨S_, .i32⟩
  | 26 => ⟨S2x12544x1, .i32⟩
  | 27 => ⟨S2x12544x1, .i1⟩
  | 28 => ⟨S1x1x1, .i32⟩
  | 29 => ⟨S2x12544x1, .i32⟩
  | 30 => ⟨S2x12544x1, .i1⟩
  | 31 => ⟨S2x12544x1, .i1⟩
  | 32 => ⟨S_, .i1⟩
  | 33 => ⟨S2x12544, .i1⟩
  | 34 => ⟨S2x100x12544, .f32⟩
  | 35 => ⟨S2x100x12544, .i1⟩
  | 36 => ⟨S_, .f32⟩
  | 37 => ⟨S2x100x12544, .f32⟩
  | 38 => ⟨S2x100x12544, .f32⟩
  | 39 => ⟨S2x1x12544, .f32⟩
  | 40 => ⟨S2x100x12544, .f32⟩
  | 41 => ⟨S2x100x12544, .f32⟩
  | 42 => ⟨S1x100x12544, .f32⟩
  | 43 => ⟨S2x100x12544, .f32⟩
  | 44 => ⟨S2x100x12544, .f32⟩
  | 45 => ⟨S_, .i32⟩
  | 46 => ⟨S2x12544, .i32⟩
  | 47 => ⟨S2x12544, .i32⟩
  | 48 => ⟨S_, .i32⟩
  | 49 => ⟨S2x12544, .i32⟩
  | 50 => ⟨S2x12544, .i32⟩
  | 51 => ⟨S_, .i32⟩
  | 52 => ⟨S2x12544, .i32⟩
  | 53 => ⟨S2x12544, .i32⟩
  | 54 => ⟨S_, .i32⟩
  | 55 => ⟨S2x12544, .i32⟩
  | 56 => ⟨S2x12544, .i1⟩
  | 57 => ⟨S_, .i32⟩
  | 58 => ⟨S2x12544, .i32⟩
  | 59 => ⟨S2x12544, .i1⟩
  | 60 => ⟨S2x12544, .i1⟩
  | 61 => ⟨S_, .i32⟩
  | 62 => ⟨S2x12544, .i32⟩
  | 63 => ⟨S2x12544, .i1⟩
  | 64 => ⟨S2x12544, .i1⟩
  | 65 => ⟨S_, .i32⟩
  | 66 => ⟨S2x12544, .i32⟩
  | 67 => ⟨S2x12544, .i1⟩
  | 68 => ⟨S2x12544, .i1⟩
  | 69 => ⟨S_, .i32⟩
  | 70 => ⟨S2x12544, .i32⟩
  | 71 => ⟨S2x12544, .i1⟩
  | 72 => ⟨S2x12544, .i1⟩
  | 73 => ⟨S_, .i32⟩
  | 74 => ⟨S2x12544, .i32⟩
  | 75 => ⟨S2x12544, .i1⟩
  | 76 => ⟨S2x12544, .i1⟩
  | 77 => ⟨S_, .i32⟩
  | 78 => ⟨S_, .i32⟩
  | 79 => ⟨S_, .i32⟩
  | 80 => ⟨S2x12544, .i32⟩
  | 81 => ⟨S2x12544, .i32⟩
  | 82 => ⟨S_, .i32⟩
  | 83 => ⟨S2x12544, .i32⟩
  | 84 => ⟨S2x12544, .i32⟩
  | 85 => ⟨S_, .i32⟩
  | 86 => ⟨S_, .i32⟩
  | 87 => ⟨S_, .i32⟩
  | 88 => ⟨S2x12544, .i32⟩
  | 89 => ⟨S2x12544, .i32⟩
  | 90 => ⟨S_, .i32⟩
  | 91 => ⟨S2x12544, .i32⟩
  | 92 => ⟨S2x12544, .i32⟩
  | 93 => ⟨S_, .i32⟩
  | 94 => ⟨S_, .i32⟩
  | 95 => ⟨S_, .i32⟩
  | 96 => ⟨S2x12544, .i32⟩
  | 97 => ⟨S2x12544, .i32⟩
  | 98 => ⟨S_, .i32⟩
  | 99 => ⟨S2x12544, .i32⟩
  | 100 => ⟨S2x12544, .i32⟩
  | 101 => ⟨S_, .i32⟩
  | 102 => ⟨S2x12544, .i32⟩
  | 103 => ⟨S2x12544, .i32⟩
  | 104 => ⟨S_, .i32⟩
  | 105 => ⟨S2x12544, .i32⟩
  | 106 => ⟨S2x12544, .i32⟩
  | 107 => ⟨S2x12544, .i32⟩
  | 108 => ⟨S2x12544, .i32⟩
  | 109 => ⟨S_, .f32⟩
  | 110 => ⟨S2x12544, .f32⟩
  | 111 => ⟨S2x12544, .f32⟩
  | 112 => ⟨S_, .f32⟩
  | 113 => ⟨S2x12544, .f32⟩
  | 114 => ⟨S2x12544, .f32⟩
  | 115 => ⟨S2x12544, .f32⟩
  | 116 => ⟨S2x12544, .f32⟩
  | 117 => ⟨S_, .f32⟩
  | 118 => ⟨S12544, .f32⟩
  | 119 => ⟨S2x12544, .f32⟩
  | 120 => ⟨S2x12544, .f32⟩
  | 121 => ⟨S_, .i32⟩
  | 122 => ⟨S2x12544, .i32⟩
  | 123 => ⟨S2x12544, .i1⟩
  | 124 => ⟨S_, .i32⟩
  | 125 => ⟨S2x12544, .i32⟩
  | 126 => ⟨S2x12544, .i32⟩
  | 127 => ⟨S2x12544, .i32⟩
  | _ => ⟨S2x100x64x64x64, .f32⟩

abbrev hbmTy0_2 (i : Nat) : BufTy := match i % 128 with
  | 0 => ⟨S2x12544x1, .i32⟩
  | 1 => ⟨S1, .i32⟩
  | 2 => ⟨S_, .i32⟩
  | 3 => ⟨S2x12544x1, .i32⟩
  | 4 => ⟨S2x12544x1, .i1⟩
  | 5 => ⟨S1x1x1, .i32⟩
  | 6 => ⟨S2x12544x1, .i32⟩
  | 7 => ⟨S2x12544x1, .i1⟩
  | 8 => ⟨S2x12544x1, .i1⟩
  | 9 => ⟨S_, .i1⟩
  | 10 => ⟨S2x12544, .i1⟩
  | 11 => ⟨S2x100x12544, .f32⟩
  | 12 => ⟨S2x100x12544, .i1⟩
  | 13 => ⟨S_, .f32⟩
  | 14 => ⟨S2x100x12544, .f32⟩
  | 15 => ⟨S2x100x12544, .f32⟩
  | 16 => ⟨S2x1x12544, .f32⟩
  | 17 => ⟨S2x100x12544, .f32⟩
  | 18 => ⟨S2x100x12544, .f32⟩
  | 19 => ⟨S2x100x12544, .f32⟩
  | 20 => ⟨S_, .i32⟩
  | 21 => ⟨S2x12544, .i32⟩
  | 22 => ⟨S2x12544, .i32⟩
  | 23 => ⟨S_, .i32⟩
  | 24 => ⟨S2x12544, .i32⟩
  | 25 => ⟨S2x12544, .i32⟩
  | 26 => ⟨S_, .i32⟩
  | 27 => ⟨S2x12544, .i32⟩
  | 28 => ⟨S2x12544, .i32⟩
  | 29 => ⟨S_, .i32⟩
  | 30 => ⟨S2x12544, .i32⟩
  | 31 => ⟨S2x12544, .i1⟩
  | 32 => ⟨S_, .i32⟩
  | 33 => ⟨S2x12544, .i32⟩
  | 34 => ⟨S2x12544, .i1⟩
  | 35 => ⟨S2x12544, .i1⟩
  | 36 => ⟨S_, .i32⟩
  | 37 => ⟨S2x12544, .i32⟩
  | 38 => ⟨S2x12544, .i1⟩
  | 39 => ⟨S2x12544, .i1⟩
  | 40 => ⟨S_, .i32⟩
  | 41 => ⟨S2x12544, .i32⟩
  | 42 => ⟨S2x12544, .i1⟩
  | 43 => ⟨S2x12544, .i1⟩
  | 44 => ⟨S_, .i32⟩
  | 45 => ⟨S2x12544, .i32⟩
  | 46 => ⟨S2x12544, .i1⟩
  | 47 => ⟨S2x12544, .i1⟩
  | 48 => ⟨S_, .i32⟩
  | 49 => ⟨S2x12544, .i32⟩
  | 50 => ⟨S2x12544, .i1⟩
  | 51 => ⟨S2x12544, .i1⟩
  | 52 => ⟨S_, .i32⟩
  | 53 => ⟨S_, .i32⟩
  | 54 => ⟨S_, .i32⟩
  | 55 => ⟨S2x12544, .i32⟩
  | 56 => ⟨S2x12544, .i32⟩
  | 57 => ⟨S_, .i32⟩
  | 58 => ⟨S2x12544, .i32⟩
  | 59 => ⟨S2x12544, .i32⟩
  | 60 => ⟨S_, .i32⟩
  | 61 => ⟨S_, .i32⟩
  | 62 => ⟨S_, .i32⟩
  | 63 => ⟨S2x12544, .i32⟩
  | 64 => ⟨S2x12544, .i32⟩
  | 65 => ⟨S_, .i32⟩
  | 66 => ⟨S2x12544, .i32⟩
  | 67 => ⟨S2x12544, .i32⟩
  | 68 => ⟨S_, .i32⟩
  | 69 => ⟨S_, .i32⟩
  | 70 => ⟨S_, .i32⟩
  | 71 => ⟨S2x12544, .i32⟩
  | 72 => ⟨S2x12544, .i32⟩
  | 73 => ⟨S_, .i32⟩
  | 74 => ⟨S2x12544, .i32⟩
  | 75 => ⟨S2x12544, .i32⟩
  | 76 => ⟨S_, .i32⟩
  | 77 => ⟨S2x12544, .i32⟩
  | 78 => ⟨S2x12544, .i32⟩
  | 79 => ⟨S_, .i32⟩
  | 80 => ⟨S2x12544, .i32⟩
  | 81 => ⟨S2x12544, .i32⟩
  | 82 => ⟨S2x12544, .i32⟩
  | 83 => ⟨S2x12544, .i32⟩
  | 84 => ⟨S_, .f32⟩
  | 85 => ⟨S2x12544, .f32⟩
  | 86 => ⟨S2x12544, .f32⟩
  | 87 => ⟨S2x12544, .f32⟩
  | 88 => ⟨S_, .f32⟩
  | 89 => ⟨S2x12544, .f32⟩
  | 90 => ⟨S2x12544, .f32⟩
  | 91 => ⟨S2x12544, .f32⟩
  | 92 => ⟨S_, .f32⟩
  | 93 => ⟨S12544, .f32⟩
  | 94 => ⟨S2x12544, .f32⟩
  | 95 => ⟨S2x12544, .f32⟩
  | 96 => ⟨S_, .i32⟩
  | 97 => ⟨S2x12544, .i32⟩
  | 98 => ⟨S2x12544, .i1⟩
  | 99 => ⟨S_, .i32⟩
  | 100 => ⟨S2x12544, .i32⟩
  | 101 => ⟨S2x12544, .i32⟩
  | 102 => ⟨S2x12544, .i32⟩
  | 103 => ⟨S2x12544x1, .i32⟩
  | 104 => ⟨S1, .i32⟩
  | 105 => ⟨S_, .i32⟩
  | 106 => ⟨S2x12544x1, .i32⟩
  | 107 => ⟨S2x12544x1, .i1⟩
  | 108 => ⟨S1x1x1, .i32⟩
  | 109 => ⟨S2x12544x1, .i32⟩
  | 110 => ⟨S2x12544x1, .i1⟩
  | 111 => ⟨S2x12544x1, .i1⟩
  | 112 => ⟨S_, .i1⟩
  | 113 => ⟨S2x12544, .i1⟩
  | 114 => ⟨S2x100x12544, .f32⟩
  | 115 => ⟨S2x100x12544, .i1⟩
  | 116 => ⟨S_, .f32⟩
  | 117 => ⟨S2x100x12544, .f32⟩
  | 118 => ⟨S2x100x12544, .f32⟩
  | 119 => ⟨S2x1x12544, .f32⟩
  | 120 => ⟨S2x100x12544, .f32⟩
  | 121 => ⟨S2x100x12544, .f32⟩
  | 122 => ⟨S2x100x12544, .f32⟩
  | 123 => ⟨S_, .i32⟩
  | 124 => ⟨S2x12544, .i32⟩
  | 125 => ⟨S2x12544, .i32⟩
  | 126 => ⟨S_, .i32⟩
  | 127 => ⟨S2x12544, .i32⟩
  | _ => ⟨S2x100x64x64x64, .f32⟩

abbrev hbmTy0_3 (i : Nat) : BufTy := match i % 128 with
  | 0 => ⟨S2x12544, .i32⟩
  | 1 => ⟨S_, .i32⟩
  | 2 => ⟨S2x12544, .i32⟩
  | 3 => ⟨S2x12544, .i32⟩
  | 4 => ⟨S_, .i32⟩
  | 5 => ⟨S2x12544, .i32⟩
  | 6 => ⟨S2x12544, .i1⟩
  | 7 => ⟨S_, .i32⟩
  | 8 => ⟨S2x12544, .i32⟩
  | 9 => ⟨S2x12544, .i1⟩
  | 10 => ⟨S2x12544, .i1⟩
  | 11 => ⟨S_, .i32⟩
  | 12 => ⟨S2x12544, .i32⟩
  | 13 => ⟨S2x12544, .i1⟩
  | 14 => ⟨S2x12544, .i1⟩
  | 15 => ⟨S_, .i32⟩
  | 16 => ⟨S2x12544, .i32⟩
  | 17 => ⟨S2x12544, .i1⟩
  | 18 => ⟨S2x12544, .i1⟩
  | 19 => ⟨S_, .i32⟩
  | 20 => ⟨S2x12544, .i32⟩
  | 21 => ⟨S2x12544, .i1⟩
  | 22 => ⟨S2x12544, .i1⟩
  | 23 => ⟨S_, .i32⟩
  | 24 => ⟨S2x12544, .i32⟩
  | 25 => ⟨S2x12544, .i1⟩
  | 26 => ⟨S2x12544, .i1⟩
  | 27 => ⟨S_, .i32⟩
  | 28 => ⟨S_, .i32⟩
  | 29 => ⟨S_, .i32⟩
  | 30 => ⟨S2x12544, .i32⟩
  | 31 => ⟨S2x12544, .i32⟩
  | 32 => ⟨S_, .i32⟩
  | 33 => ⟨S2x12544, .i32⟩
  | 34 => ⟨S2x12544, .i32⟩
  | 35 => ⟨S_, .i32⟩
  | 36 => ⟨S_, .i32⟩
  | 37 => ⟨S_, .i32⟩
  | 38 => ⟨S2x12544, .i32⟩
  | 39 => ⟨S2x12544, .i32⟩
  | 40 => ⟨S_, .i32⟩
  | 41 => ⟨S2x12544, .i32⟩
  | 42 => ⟨S2x12544, .i32⟩
  | 43 => ⟨S_, .i32⟩
  | 44 => ⟨S_, .i32⟩
  | 45 => ⟨S_, .i32⟩
  | 46 => ⟨S2x12544, .i32⟩
  | 47 => ⟨S2x12544, .i32⟩
  | 48 => ⟨S_, .i32⟩
  | 49 => ⟨S2x12544, .i32⟩
  | 50 => ⟨S2x12544, .i32⟩
  | 51 => ⟨S_, .i32⟩
  | 52 => ⟨S2x12544, .i32⟩
  | 53 => ⟨S2x12544, .i32⟩
  | 54 => ⟨S_, .i32⟩
  | 55 => ⟨S2x12544, .i32⟩
  | 56 => ⟨S2x12544, .i32⟩
  | 57 => ⟨S2x12544, .i32⟩
  | 58 => ⟨S2x12544, .i32⟩
  | 59 => ⟨S_, .f32⟩
  | 60 => ⟨S2x12544, .f32⟩
  | 61 => ⟨S2x12544, .f32⟩
  | 62 => ⟨S2x12544, .f32⟩
  | 63 => ⟨S2x12544, .f32⟩
  | 64 => ⟨S_, .f32⟩
  | 65 => ⟨S12544, .f32⟩
  | 66 => ⟨S2x12544, .f32⟩
  | 67 => ⟨S2x12544, .f32⟩
  | 68 => ⟨S_, .i32⟩
  | 69 => ⟨S2x12544, .i32⟩
  | 70 => ⟨S2x12544, .i1⟩
  | 71 => ⟨S_, .i32⟩
  | 72 => ⟨S2x12544, .i32⟩
  | 73 => ⟨S2x12544, .i32⟩
  | 74 => ⟨S2x12544, .i32⟩
  | 75 => ⟨S2x12544x1, .i32⟩
  | 76 => ⟨S1, .i32⟩
  | 77 => ⟨S_, .i32⟩
  | 78 => ⟨S2x12544x1, .i32⟩
  | 79 => ⟨S2x12544x1, .i1⟩
  | 80 => ⟨S1x1x1, .i32⟩
  | 81 => ⟨S2x12544x1, .i32⟩
  | 82 => ⟨S2x12544x1, .i1⟩
  | 83 => ⟨S2x12544x1, .i1⟩
  | 84 => ⟨S_, .i1⟩
  | 85 => ⟨S2x12544, .i1⟩
  | 86 => ⟨S2x100x12544, .f32⟩
  | 87 => ⟨S2x100x12544, .i1⟩
  | 88 => ⟨S_, .f32⟩
  | 89 => ⟨S2x100x12544, .f32⟩
  | 90 => ⟨S2x100x12544, .f32⟩
  | 91 => ⟨S2x1x12544, .f32⟩
  | 92 => ⟨S2x100x12544, .f32⟩
  | 93 => ⟨S2x100x12544, .f32⟩
  | 94 => ⟨S2x100x12544, .f32⟩
  | 95 => ⟨S_, .i32⟩
  | 96 => ⟨S2x12544, .i32⟩
  | 97 => ⟨S2x12544, .i32⟩
  | 98 => ⟨S_, .i32⟩
  | 99 => ⟨S2x12544, .i32⟩
  | 100 => ⟨S2x12544, .i32⟩
  | 101 => ⟨S_, .i32⟩
  | 102 => ⟨S2x12544, .i32⟩
  | 103 => ⟨S2x12544, .i32⟩
  | 104 => ⟨S_, .i32⟩
  | 105 => ⟨S2x12544, .i32⟩
  | 106 => ⟨S2x12544, .i1⟩
  | 107 => ⟨S_, .i32⟩
  | 108 => ⟨S2x12544, .i32⟩
  | 109 => ⟨S2x12544, .i1⟩
  | 110 => ⟨S2x12544, .i1⟩
  | 111 => ⟨S_, .i32⟩
  | 112 => ⟨S2x12544, .i32⟩
  | 113 => ⟨S2x12544, .i1⟩
  | 114 => ⟨S2x12544, .i1⟩
  | 115 => ⟨S_, .i32⟩
  | 116 => ⟨S2x12544, .i32⟩
  | 117 => ⟨S2x12544, .i1⟩
  | 118 => ⟨S2x12544, .i1⟩
  | 119 => ⟨S_, .i32⟩
  | 120 => ⟨S2x12544, .i32⟩
  | 121 => ⟨S2x12544, .i1⟩
  | 122 => ⟨S2x12544, .i1⟩
  | 123 => ⟨S_, .i32⟩
  | 124 => ⟨S2x12544, .i32⟩
  | 125 => ⟨S2x12544, .i1⟩
  | 126 => ⟨S2x12544, .i1⟩
  | 127 => ⟨S_, .i32⟩
  | _ => ⟨S2x100x64x64x64, .f32⟩

abbrev hbmTy0_4 (i : Nat) : BufTy := match i % 128 with
  | 0 => ⟨S_, .i32⟩
  | 1 => ⟨S_, .i32⟩
  | 2 => ⟨S2x12544, .i32⟩
  | 3 => ⟨S2x12544, .i32⟩
  | 4 => ⟨S_, .i32⟩
  | 5 => ⟨S2x12544, .i32⟩
  | 6 => ⟨S2x12544, .i32⟩
  | 7 => ⟨S_, .i32⟩
  | 8 => ⟨S_, .i32⟩
  | 9 => ⟨S_, .i32⟩
  | 10 => ⟨S2x12544, .i32⟩
  | 11 => ⟨S2x12544, .i32⟩
  | 12 => ⟨S_, .i32⟩
  | 13 => ⟨S2x12544, .i32⟩
  | 14 => ⟨S2x12544, .i32⟩
  | 15 => ⟨S_, .i32⟩
  | 16 => ⟨S_, .i32⟩
  | 17 => ⟨S_, .i32⟩
  | 18 => ⟨S2x12544, .i32⟩
  | 19 => ⟨S2x12544, .i32⟩
  | 20 => ⟨S_, .i32⟩
  | 21 => ⟨S2x12544, .i32⟩
  | 22 => ⟨S2x12544, .i32⟩
  | 23 => ⟨S_, .i32⟩
  | 24 => ⟨S2x12544, .i32⟩
  | 25 => ⟨S2x12544, .i32⟩
  | 26 => ⟨S_, .i32⟩
  | 27 => ⟨S2x12544, .i32⟩
  | 28 => ⟨S2x12544, .i32⟩
  | 29 => ⟨S2x12544, .i32⟩
  | 30 => ⟨S2x12544, .i32⟩
  | 31 => ⟨S_, .f32⟩
  | 32 => ⟨S2x12544, .f32⟩
  | 33 => ⟨S2x12544, .f32⟩
  | 34 => ⟨S2x12544, .f32⟩
  | 35 => ⟨S_, .f32⟩
  | 36 => ⟨S2x12544, .f32⟩
  | 37 => ⟨S2x12544, .f32⟩
  | 38 => ⟨S2x12544, .f32⟩
  | 39 => ⟨S_, .f32⟩
  | 40 => ⟨S12544, .f32⟩
  | 41 => ⟨S2x12544, .f32⟩
  | 42 => ⟨S2x12544, .f32⟩
  | 43 => ⟨S_, .i32⟩
  | 44 => ⟨S2x12544, .i32⟩
  | 45 => ⟨S2x12544, .i1⟩
  | 46 => ⟨S_, .i32⟩
  | 47 => ⟨S2x12544, .i32⟩
  | 48 => ⟨S2x12544, .i32⟩
  | 49 => ⟨S2x12544, .i32⟩
  | 50 => ⟨S2x12544x1, .i32⟩
  | 51 => ⟨S1, .i32⟩
  | 52 => ⟨S_, .i32⟩
  | 53 => ⟨S2x12544x1, .i32⟩
  | 54 => ⟨S2x12544x1, .i1⟩
  | 55 => ⟨S1x1x1, .i32⟩
  | 56 => ⟨S2x12544x1, .i32⟩
  | 57 => ⟨S2x12544x1, .i1⟩
  | 58 => ⟨S2x12544x1, .i1⟩
  | 59 => ⟨S_, .i1⟩
  | 60 => ⟨S2x12544, .i1⟩
  | 61 => ⟨S2x100x12544, .f32⟩
  | 62 => ⟨S2x100x12544, .i1⟩
  | 63 => ⟨S_, .f32⟩
  | 64 => ⟨S2x100x12544, .f32⟩
  | 65 => ⟨S2x100x12544, .f32⟩
  | 66 => ⟨S2x1x12544, .f32⟩
  | 67 => ⟨S2x100x12544, .f32⟩
  | 68 => ⟨S2x100x12544, .f32⟩
  | 69 => ⟨S2x100x12544, .f32⟩
  | 70 => ⟨S_, .i32⟩
  | 71 => ⟨S2x12544, .i32⟩
  | 72 => ⟨S2x12544, .i32⟩
  | 73 => ⟨S_, .i32⟩
  | 74 => ⟨S2x12544, .i32⟩
  | 75 => ⟨S2x12544, .i32⟩
  | 76 => ⟨S_, .i32⟩
  | 77 => ⟨S2x12544, .i32⟩
  | 78 => ⟨S2x12544, .i32⟩
  | 79 => ⟨S_, .i32⟩
  | 80 => ⟨S2x12544, .i32⟩
  | 81 => ⟨S2x12544, .i1⟩
  | 82 => ⟨S_, .i32⟩
  | 83 => ⟨S2x12544, .i32⟩
  | 84 => ⟨S2x12544, .i1⟩
  | 85 => ⟨S2x12544, .i1⟩
  | 86 => ⟨S_, .i32⟩
  | 87 => ⟨S2x12544, .i32⟩
  | 88 => ⟨S2x12544, .i1⟩
  | 89 => ⟨S2x12544, .i1⟩
  | 90 => ⟨S_, .i32⟩
  | 91 => ⟨S2x12544, .i32⟩
  | 92 => ⟨S2x12544, .i1⟩
  | 93 => ⟨S2x12544, .i1⟩
  | 94 => ⟨S_, .i32⟩
  | 95 => ⟨S2x12544, .i32⟩
  | 96 => ⟨S2x12544, .i1⟩
  | 97 => ⟨S2x12544, .i1⟩
  | 98 => ⟨S_, .i32⟩
  | 99 => ⟨S2x12544, .i32⟩
  | 100 => ⟨S2x12544, .i1⟩
  | 101 => ⟨S2x12544, .i1⟩
  | 102 => ⟨S_, .i32⟩
  | 103 => ⟨S_, .i32⟩
  | 104 => ⟨S_, .i32⟩
  | 105 => ⟨S2x12544, .i32⟩
  | 106 => ⟨S2x12544, .i32⟩
  | 107 => ⟨S_, .i32⟩
  | 108 => ⟨S2x12544, .i32⟩
  | 109 => ⟨S2x12544, .i32⟩
  | 110 => ⟨S_, .i32⟩
  | 111 => ⟨S_, .i32⟩
  | 112 => ⟨S_, .i32⟩
  | 113 => ⟨S2x12544, .i32⟩
  | 114 => ⟨S2x12544, .i32⟩
  | 115 => ⟨S_, .i32⟩
  | 116 => ⟨S2x12544, .i32⟩
  | 117 => ⟨S2x12544, .i32⟩
  | 118 => ⟨S_, .i32⟩
  | 119 => ⟨S_, .i32⟩
  | 120 => ⟨S_, .i32⟩
  | 121 => ⟨S2x12544, .i32⟩
  | 122 => ⟨S2x12544, .i32⟩
  | 123 => ⟨S_, .i32⟩
  | 124 => ⟨S2x12544, .i32⟩
  | 125 => ⟨S2x12544, .i32⟩
  | 126 => ⟨S_, .i32⟩
  | 127 => ⟨S2x12544, .i32⟩
  | _ => ⟨S2x100x64x64x64, .f32⟩

abbrev hbmTy0_5 (i : Nat) : BufTy := match i % 128 with
  | 0 => ⟨S2x12544, .i32⟩
  | 1 => ⟨S_, .i32⟩
  | 2 => ⟨S2x12544, .i32⟩
  | 3 => ⟨S2x12544, .i32⟩
  | 4 => ⟨S2x12544, .i32⟩
  | 5 => ⟨S2x12544, .i32⟩
  | 6 => ⟨S_, .f32⟩
  | 7 => ⟨S2x12544, .f32⟩
  | 8 => ⟨S2x12544, .f32⟩
  | 9 => ⟨S2x12544, .f32⟩
  | 10 => ⟨S2x12544, .f32⟩
  | 11 => ⟨S_, .f32⟩
  | 12 => ⟨S12544, .f32⟩
  | 13 => ⟨S2x12544, .f32⟩
  | 14 => ⟨S2x12544, .f32⟩
  | 15 => ⟨S_, .i32⟩
  | 16 => ⟨S2x12544, .i32⟩
  | 17 => ⟨S2x12544, .i1⟩
  | 18 => ⟨S_, .i32⟩
  | 19 => ⟨S2x12544, .i32⟩
  | 20 => ⟨S2x12544, .i32⟩
  | 21 => ⟨S2x12544, .i32⟩
  | 22 => ⟨S2x12544x1, .i32⟩
  | 23 => ⟨S1, .i32⟩
  | 24 => ⟨S_, .i32⟩
  | 25 => ⟨S2x12544x1, .i32⟩
  | 26 => ⟨S2x12544x1, .i1⟩
  | 27 => ⟨S1x1x1, .i32⟩
  | 28 => ⟨S2x12544x1, .i32⟩
  | 29 => ⟨S2x12544x1, .i1⟩
  | 30 => ⟨S2x12544x1, .i1⟩
  | 31 => ⟨S_, .i1⟩
  | 32 => ⟨S2x12544, .i1⟩
  | 33 => ⟨S2x100x12544, .f32⟩
  | 34 => ⟨S2x100x12544, .i1⟩
  | 35 => ⟨S_, .f32⟩
  | 36 => ⟨S2x100x12544, .f32⟩
  | 37 => ⟨S2x100x12544, .f32⟩
  | 38 => ⟨S2x1x12544, .f32⟩
  | 39 => ⟨S2x100x12544, .f32⟩
  | 40 => ⟨S2x100x12544, .f32⟩
  | 41 => ⟨S2x100x12544, .f32⟩
  | 42 => ⟨S_, .i32⟩
  | 43 => ⟨S2x12544, .i32⟩
  | 44 => ⟨S2x12544, .i32⟩
  | 45 => ⟨S_, .i32⟩
  | 46 => ⟨S2x12544, .i32⟩
  | 47 => ⟨S2x12544, .i32⟩
  | 48 => ⟨S_, .i32⟩
  | 49 => ⟨S2x12544, .i32⟩
  | 50 => ⟨S2x12544, .i32⟩
  | 51 => ⟨S_, .i32⟩
  | 52 => ⟨S2x12544, .i32⟩
  | 53 => ⟨S2x12544, .i1⟩
  | 54 => ⟨S_, .i32⟩
  | 55 => ⟨S2x12544, .i32⟩
  | 56 => ⟨S2x12544, .i1⟩
  | 57 => ⟨S2x12544, .i1⟩
  | 58 => ⟨S_, .i32⟩
  | 59 => ⟨S2x12544, .i32⟩
  | 60 => ⟨S2x12544, .i1⟩
  | 61 => ⟨S2x12544, .i1⟩
  | 62 => ⟨S_, .i32⟩
  | 63 => ⟨S2x12544, .i32⟩
  | 64 => ⟨S2x12544, .i1⟩
  | 65 => ⟨S2x12544, .i1⟩
  | 66 => ⟨S_, .i32⟩
  | 67 => ⟨S2x12544, .i32⟩
  | 68 => ⟨S2x12544, .i1⟩
  | 69 => ⟨S2x12544, .i1⟩
  | 70 => ⟨S_, .i32⟩
  | 71 => ⟨S2x12544, .i32⟩
  | 72 => ⟨S2x12544, .i1⟩
  | 73 => ⟨S2x12544, .i1⟩
  | 74 => ⟨S_, .i32⟩
  | 75 => ⟨S_, .i32⟩
  | 76 => ⟨S_, .i32⟩
  | 77 => ⟨S2x12544, .i32⟩
  | 78 => ⟨S2x12544, .i32⟩
  | 79 => ⟨S_, .i32⟩
  | 80 => ⟨S2x12544, .i32⟩
  | 81 => ⟨S2x12544, .i32⟩
  | 82 => ⟨S_, .i32⟩
  | 83 => ⟨S_, .i32⟩
  | 84 => ⟨S_, .i32⟩
  | 85 => ⟨S2x12544, .i32⟩
  | 86 => ⟨S2x12544, .i32⟩
  | 87 => ⟨S_, .i32⟩
  | 88 => ⟨S2x12544, .i32⟩
  | 89 => ⟨S2x12544, .i32⟩
  | 90 => ⟨S_, .i32⟩
  | 91 => ⟨S_, .i32⟩
  | 92 => ⟨S_, .i32⟩
  | 93 => ⟨S2x12544, .i32⟩
  | 94 => ⟨S2x12544, .i32⟩
  | 95 => ⟨S_, .i32⟩
  | 96 => ⟨S2x12544, .i32⟩
  | 97 => ⟨S2x12544, .i32⟩
  | 98 => ⟨S_, .i32⟩
  | 99 => ⟨S2x12544, .i32⟩
  | 100 => ⟨S2x12544, .i32⟩
  | 101 => ⟨S_, .i32⟩
  | 102 => ⟨S2x12544, .i32⟩
  | 103 => ⟨S2x12544, .i32⟩
  | 104 => ⟨S2x12544, .i32⟩
  | 105 => ⟨S2x12544, .i32⟩
  | 106 => ⟨S2x12544, .f32⟩
  | 107 => ⟨S_, .f32⟩
  | 108 => ⟨S2x12544, .f32⟩
  | 109 => ⟨S2x12544, .f32⟩
  | 110 => ⟨S2x12544, .f32⟩
  | 111 => ⟨S_, .f32⟩
  | 112 => ⟨S12544, .f32⟩
  | 113 => ⟨S2x12544, .f32⟩
  | 114 => ⟨S2x12544, .f32⟩
  | 115 => ⟨S_, .i32⟩
  | 116 => ⟨S2x12544, .i32⟩
  | 117 => ⟨S2x12544, .i1⟩
  | 118 => ⟨S_, .i32⟩
  | 119 => ⟨S2x12544, .i32⟩
  | 120 => ⟨S2x12544, .i32⟩
  | 121 => ⟨S2x12544, .i32⟩
  | 122 => ⟨S2x12544x1, .i32⟩
  | 123 => ⟨S1, .i32⟩
  | 124 => ⟨S_, .i32⟩
  | 125 => ⟨S2x12544x1, .i32⟩
  | 126 => ⟨S2x12544x1, .i1⟩
  | 127 => ⟨S1x1x1, .i32⟩
  | _ => ⟨S2x100x64x64x64, .f32⟩

abbrev hbmTy0_6 (i : Nat) : BufTy := match i % 128 with
  | 0 => ⟨S2x12544x1, .i32⟩
  | 1 => ⟨S2x12544x1, .i1⟩
  | 2 => ⟨S2x12544x1, .i1⟩
  | 3 => ⟨S_, .i1⟩
  | 4 => ⟨S2x12544, .i1⟩
  | 5 => ⟨S2x100x12544, .f32⟩
  | 6 => ⟨S2x100x12544, .i1⟩
  | 7 => ⟨S_, .f32⟩
  | 8 => ⟨S2x100x12544, .f32⟩
  | 9 => ⟨S2x100x12544, .f32⟩
  | 10 => ⟨S2x1x12544, .f32⟩
  | 11 => ⟨S2x100x12544, .f32⟩
  | 12 => ⟨S2x100x12544, .f32⟩
  | 13 => ⟨S2x100x12544, .f32⟩
  | 14 => ⟨S_, .i32⟩
  | 15 => ⟨S2x12544, .i32⟩
  | 16 => ⟨S2x12544, .i32⟩
  | 17 => ⟨S_, .i32⟩
  | 18 => ⟨S2x12544, .i32⟩
  | 19 => ⟨S2x12544, .i32⟩
  | 20 => ⟨S_, .i32⟩
  | 21 => ⟨S2x12544, .i32⟩
  | 22 => ⟨S2x12544, .i32⟩
  | 23 => ⟨S_, .i32⟩
  | 24 => ⟨S2x12544, .i32⟩
  | 25 => ⟨S2x12544, .i1⟩
  | 26 => ⟨S_, .i32⟩
  | 27 => ⟨S2x12544, .i32⟩
  | 28 => ⟨S2x12544, .i1⟩
  | 29 => ⟨S2x12544, .i1⟩
  | 30 => ⟨S_, .i32⟩
  | 31 => ⟨S2x12544, .i32⟩
  | 32 => ⟨S2x12544, .i1⟩
  | 33 => ⟨S2x12544, .i1⟩
  | 34 => ⟨S_, .i32⟩
  | 35 => ⟨S2x12544, .i32⟩
  | 36 => ⟨S2x12544, .i1⟩
  | 37 => ⟨S2x12544, .i1⟩
  | 38 => ⟨S_, .i32⟩
  | 39 => ⟨S2x12544, .i32⟩
  | 40 => ⟨S2x12544, .i1⟩
  | 41 => ⟨S2x12544, .i1⟩
  | 42 => ⟨S_, .i32⟩
  | 43 => ⟨S2x12544, .i32⟩
  | 44 => ⟨S2x12544, .i1⟩
  | 45 => ⟨S2x12544, .i1⟩
  | 46 => ⟨S_, .i32⟩
  | 47 => ⟨S_, .i32⟩
  | 48 => ⟨S_, .i32⟩
  | 49 => ⟨S2x12544, .i32⟩
  | 50 => ⟨S2x12544, .i32⟩
  | 51 => ⟨S_, .i32⟩
  | 52 => ⟨S2x12544, .i32⟩
  | 53 => ⟨S2x12544, .i32⟩
  | 54 => ⟨S_, .i32⟩
  | 55 => ⟨S_, .i32⟩
  | 56 => ⟨S_, .i32⟩
  | 57 => ⟨S2x12544, .i32⟩
  | 58 => ⟨S2x12544, .i32⟩
  | 59 => ⟨S_, .i32⟩
  | 60 => ⟨S2x12544, .i32⟩
  | 61 => ⟨S2x12544, .i32⟩
  | 62 => ⟨S_, .i32⟩
  | 63 => ⟨S_, .i32⟩
  | 64 => ⟨S_, .i32⟩
  | 65 => ⟨S2x12544, .i32⟩
  | 66 => ⟨S2x12544, .i32⟩
  | 67 => ⟨S_, .i32⟩
  | 68 => ⟨S2x12544, .i32⟩
  | 69 => ⟨S2x12544, .i32⟩
  | 70 => ⟨S_, .i32⟩
  | 71 => ⟨S2x12544, .i32⟩
  | 72 => ⟨S2x12544, .i32⟩
  | 73 => ⟨S_, .i32⟩
  | 74 => ⟨S2x12544, .i32⟩
  | 75 => ⟨S2x12544, .i32⟩
  | 76 => ⟨S2x12544, .i32⟩
  | 77 => ⟨S2x12544, .i32⟩
  | 78 => ⟨S2x12544, .f32⟩
  | 79 => ⟨S2x12544, .f32⟩
  | 80 => ⟨S_, .f32⟩
  | 81 => ⟨S12544, .f32⟩
  | 82 => ⟨S2x12544, .f32⟩
  | 83 => ⟨S2x12544, .f32⟩
  | 84 => ⟨S_, .i32⟩
  | 85 => ⟨S2x12544, .i32⟩
  | 86 => ⟨S2x12544, .i1⟩
  | 87 => ⟨S_, .i32⟩
  | 88 => ⟨S2x12544, .i32⟩
  | 89 => ⟨S2x12544, .i32⟩
  | 90 => ⟨S2x12544, .i32⟩
  | 91 => ⟨S2x12544x1, .i32⟩
  | 92 => ⟨S1, .i32⟩
  | 93 => ⟨S_, .i32⟩
  | 94 => ⟨S2x12544x1, .i32⟩
  | 95 => ⟨S2x12544x1, .i1⟩
  | 96 => ⟨S1x1x1, .i32⟩
  | 97 => ⟨S2x12544x1, .i32⟩
  | 98 => ⟨S2x12544x1, .i1⟩
  | 99 => ⟨S2x12544x1, .i1⟩
  | 100 => ⟨S_, .i1⟩
  | 101 => ⟨S2x12544, .i1⟩
  | 102 => ⟨S2x100x12544, .f32⟩
  | 103 => ⟨S2x100x12544, .i1⟩
  | 104 => ⟨S_, .f32⟩
  | 105 => ⟨S2x100x12544, .f32⟩
  | 106 => ⟨S2x100x12544, .f32⟩
  | 107 => ⟨S2x1x12544, .f32⟩
  | 108 => ⟨S2x100x12544, .f32⟩
  | 109 => ⟨S2x100x12544, .f32⟩
  | 110 => ⟨S2x100x12544, .f32⟩
  | 111 => ⟨S2x30x262144, .f32⟩
  | 112 => ⟨S_, .f32⟩
  | 113 => ⟨S2x12544x3, .f32⟩
  | 114 => ⟨S2x12544x3, .f32⟩
  | 115 => ⟨S_, .f32⟩
  | 116 => ⟨S2x12544x3, .f32⟩
  | 117 => ⟨S2x12544x3, .f32⟩
  | 118 => ⟨S2x12544x1, .f32⟩
  | 119 => ⟨S2x12544, .f32⟩
  | 120 => ⟨S_, .f32⟩
  | 121 => ⟨S2x12544, .f32⟩
  | 122 => ⟨S2x12544, .f32⟩
  | 123 => ⟨S_, .f32⟩
  | 124 => ⟨S2x12544, .f32⟩
  | 125 => ⟨S2x12544, .f32⟩
  | 126 => ⟨S_, .f32⟩
  | 127 => ⟨S2x12544, .f32⟩
  | _ => ⟨S2x100x64x64x64, .f32⟩

abbrev hbmTy0_7 (i : Nat) : BufTy := match i % 128 with
  | 0 => ⟨S2x12544, .f32⟩
  | 1 => ⟨S_, .f32⟩
  | 2 => ⟨S2x12544, .f32⟩
  | 3 => ⟨S2x12544, .f32⟩
  | 4 => ⟨S2x12544x1, .f32⟩
  | 5 => ⟨S2x12544, .f32⟩
  | 6 => ⟨S_, .f32⟩
  | 7 => ⟨S2x12544, .f32⟩
  | 8 => ⟨S2x12544, .f32⟩
  | 9 => ⟨S_, .f32⟩
  | 10 => ⟨S2x12544, .f32⟩
  | 11 => ⟨S2x12544, .f32⟩
  | 12 => ⟨S_, .f32⟩
  | 13 => ⟨S2x12544, .f32⟩
  | 14 => ⟨S2x12544, .f32⟩
  | 15 => ⟨S_, .f32⟩
  | 16 => ⟨S2x12544, .f32⟩
  | 17 => ⟨S2x12544, .f32⟩
  | 18 => ⟨S2x12544x1, .f32⟩
  | 19 => ⟨S2x12544, .f32⟩
  | 20 => ⟨S_, .f32⟩
  | 21 => ⟨S2x12544, .f32⟩
  | 22 => ⟨S2x12544, .f32⟩
  | 23 => ⟨S_, .f32⟩
  | 24 => ⟨S2x12544, .f32⟩
  | 25 => ⟨S2x12544, .f32⟩
  | 26 => ⟨S_, .f32⟩
  | 27 => ⟨S2x12544, .f32⟩
  | 28 => ⟨S2x12544, .f32⟩
  | 29 => ⟨S_, .f32⟩
  | 30 => ⟨S2x12544, .f32⟩
  | 31 => ⟨S2x12544, .f32⟩
  | 32 => ⟨S2x12544, .f32⟩
  | 33 => ⟨S2x12544, .f32⟩
  | 34 => ⟨S2x12544, .f32⟩
  | 35 => ⟨S2x12544, .f32⟩
  | 36 => ⟨S2x12544, .f32⟩
  | 37 => ⟨S2x12544, .f32⟩
  | 38 => ⟨S2x12544, .i32⟩
  | 39 => ⟨S2x12544, .i32⟩
  | 40 => ⟨S2x12544, .i32⟩
  | 41 => ⟨S_, .f32⟩
  | 42 => ⟨S30x12544, .f32⟩
  | 43 => ⟨S_, .i32⟩
  | 44 => ⟨S2x12544, .i32⟩
  | 45 => ⟨S2x12544, .i32⟩
  | 46 => ⟨S_, .i32⟩
  | 47 => ⟨S2x12544, .i32⟩
  | 48 => ⟨S2x12544, .i32⟩
  | 49 => ⟨S_, .i32⟩
  | 50 => ⟨S2x12544, .i32⟩
  | 51 => ⟨S2x12544, .i32⟩
  | 52 => ⟨S_, .i32⟩
  | 53 => ⟨S2x12544, .i32⟩
  | 54 => ⟨S2x12544, .i1⟩
  | 55 => ⟨S_, .i32⟩
  | 56 => ⟨S2x12544, .i32⟩
  | 57 => ⟨S2x12544, .i1⟩
  | 58 => ⟨S2x12544, .i1⟩
  | 59 => ⟨S_, .i32⟩
  | 60 => ⟨S2x12544, .i32⟩
  | 61 => ⟨S2x12544, .i1⟩
  | 62 => ⟨S2x12544, .i1⟩
  | 63 => ⟨S_, .i32⟩
  | 64 => ⟨S2x12544, .i32⟩
  | 65 => ⟨S2x12544, .i1⟩
  | 66 => ⟨S2x12544, .i1⟩
  | 67 => ⟨S_, .i32⟩
  | 68 => ⟨S2x12544, .i32⟩
  | 69 => ⟨S2x12544, .i1⟩
  | 70 => ⟨S2x12544, .i1⟩
  | 71 => ⟨S_, .i32⟩
  | 72 => ⟨S2x12544, .i32⟩
  | 73 => ⟨S2x12544, .i1⟩
  | 74 => ⟨S2x12544, .i1⟩
  | 75 => ⟨S_, .i32⟩
  | 76 => ⟨S_, .i32⟩
  | 77 => ⟨S_, .i32⟩
  | 78 => ⟨S2x12544, .i32⟩
  | 79 => ⟨S2x12544, .i32⟩
  | 80 => ⟨S_, .i32⟩
  | 81 => ⟨S2x12544, .i32⟩
  | 82 => ⟨S2x12544, .i32⟩
  | 83 => ⟨S_, .i32⟩
  | 84 => ⟨S_, .i32⟩
  | 85 => ⟨S_, .i32⟩
  | 86 => ⟨S2x12544, .i32⟩
  | 87 => ⟨S2x12544, .i32⟩
  | 88 => ⟨S_, .i32⟩
  | 89 => ⟨S2x12544, .i32⟩
  | 90 => ⟨S2x12544, .i32⟩
  | 91 => ⟨S_, .i32⟩
  | 92 => ⟨S_, .i32⟩
  | 93 => ⟨S_, .i32⟩
  | 94 => ⟨S2x12544, .i32⟩
  | 95 => ⟨S2x12544, .i32⟩
  | 96 => ⟨S_, .i32⟩
  | 97 => ⟨S2x12544, .i32⟩
  | 98 => ⟨S2x12544, .i32⟩
  | 99 => ⟨S_, .i32⟩
  | 100 => ⟨S2x12544, .i32⟩
  | 101 => ⟨S2x12544, .i32⟩
  | 102 => ⟨S_, .i32⟩
  | 103 => ⟨S2x12544, .i32⟩
  | 104 => ⟨S2x12544, .i32⟩
  | 105 => ⟨S2x12544, .i32⟩
  | 106 => ⟨S2x12544, .i32⟩
  | 107 => ⟨S_, .f32⟩
  | 108 => ⟨S2x12544, .f32⟩
  | 109 => ⟨S2x12544, .f32⟩
  | 110 => ⟨S_, .f32⟩
  | 111 => ⟨S2x12544, .f32⟩
  | 112 => ⟨S2x12544, .f32⟩
  | 113 => ⟨S2x12544, .f32⟩
  | 114 => ⟨S_, .f32⟩
  | 115 => ⟨S2x12544, .f32⟩
  | 116 => ⟨S2x12544, .f32⟩
  | 117 => ⟨S2x12544, .f32⟩
  | 118 => ⟨S_, .f32⟩
  | 119 => ⟨S12544, .f32⟩
  | 120 => ⟨S2x12544, .f32⟩
  | 121 => ⟨S2x12544, .f32⟩
  | 122 => ⟨S_, .i32⟩
  | 123 => ⟨S2x12544, .i32⟩
  | 124 => ⟨S2x12544, .i1⟩
  | 125 => ⟨S_, .i32⟩
  | 126 => ⟨S2x12544, .i32⟩
  | 127 => ⟨S2x12544, .i32⟩
  | _ => ⟨S2x100x64x64x64, .f32⟩

abbrev hbmTy0_8 (i : Nat) : BufTy := match i % 128 with
  | 0 => ⟨S2x12544, .i32⟩
  | 1 => ⟨S2x12544x1, .i32⟩
  | 2 => ⟨S1, .i32⟩
  | 3 => ⟨S_, .i32⟩
  | 4 => ⟨S2x12544x1, .i32⟩
  | 5 => ⟨S2x12544x1, .i1⟩
  | 6 => ⟨S1x1x1, .i32⟩
  | 7 => ⟨S2x12544x1, .i32⟩
  | 8 => ⟨S2x12544x1, .i1⟩
  | 9 => ⟨S2x12544x1, .i1⟩
  | 10 => ⟨S_, .i1⟩
  | 11 => ⟨S2x12544, .i1⟩
  | 12 => ⟨S2x30x12544, .f32⟩
  | 13 => ⟨S2x30x12544, .i1⟩
  | 14 => ⟨S_, .f32⟩
  | 15 => ⟨S2x30x12544, .f32⟩
  | 16 => ⟨S2x30x12544, .f32⟩
  | 17 => ⟨S2x1x12544, .f32⟩
  | 18 => ⟨S2x30x12544, .f32⟩
  | 19 => ⟨S2x30x12544, .f32⟩
  | 20 => ⟨S1x30x12544, .f32⟩
  | 21 => ⟨S2x30x12544, .f32⟩
  | 22 => ⟨S2x30x12544, .f32⟩
  | 23 => ⟨S_, .i32⟩
  | 24 => ⟨S2x12544, .i32⟩
  | 25 => ⟨S2x12544, .i32⟩
  | 26 => ⟨S_, .i32⟩
  | 27 => ⟨S2x12544, .i32⟩
  | 28 => ⟨S2x12544, .i32⟩
  | 29 => ⟨S_, .i32⟩
  | 30 => ⟨S2x12544, .i32⟩
  | 31 => ⟨S2x12544, .i32⟩
  | 32 => ⟨S_, .i32⟩
  | 33 => ⟨S2x12544, .i32⟩
  | 34 => ⟨S2x12544, .i1⟩
  | 35 => ⟨S_, .i32⟩
  | 36 => ⟨S2x12544, .i32⟩
  | 37 => ⟨S2x12544, .i1⟩
  | 38 => ⟨S2x12544, .i1⟩
  | 39 => ⟨S_, .i32⟩
  | 40 => ⟨S2x12544, .i32⟩
  | 41 => ⟨S2x12544, .i1⟩
  | 42 => ⟨S2x12544, .i1⟩
  | 43 => ⟨S_, .i32⟩
  | 44 => ⟨S2x12544, .i32⟩
  | 45 => ⟨S2x12544, .i1⟩
  | 46 => ⟨S2x12544, .i1⟩
  | 47 => ⟨S_, .i32⟩
  | 48 => ⟨S2x12544, .i32⟩
  | 49 => ⟨S2x12544, .i1⟩
  | 50 => ⟨S2x12544, .i1⟩
  | 51 => ⟨S_, .i32⟩
  | 52 => ⟨S2x12544, .i32⟩
  | 53 => ⟨S2x12544, .i1⟩
  | 54 => ⟨S2x12544, .i1⟩
  | 55 => ⟨S_, .i32⟩
  | 56 => ⟨S_, .i32⟩
  | 57 => ⟨S_, .i32⟩
  | 58 => ⟨S2x12544, .i32⟩
  | 59 => ⟨S2x12544, .i32⟩
  | 60 => ⟨S_, .i32⟩
  | 61 => ⟨S2x12544, .i32⟩
  | 62 => ⟨S2x12544, .i32⟩
  | 63 => ⟨S_, .i32⟩
  | 64 => ⟨S_, .i32⟩
  | 65 => ⟨S_, .i32⟩
  | 66 => ⟨S2x12544, .i32⟩
  | 67 => ⟨S2x12544, .i32⟩
  | 68 => ⟨S_, .i32⟩
  | 69 => ⟨S2x12544, .i32⟩
  | 70 => ⟨S2x12544, .i32⟩
  | 71 => ⟨S_, .i32⟩
  | 72 => ⟨S_, .i32⟩
  | 73 => ⟨S_, .i32⟩
  | 74 => ⟨S2x12544, .i32⟩
  | 75 => ⟨S2x12544, .i32⟩
  | 76 => ⟨S_, .i32⟩
  | 77 => ⟨S2x12544, .i32⟩
  | 78 => ⟨S2x12544, .i32⟩
  | 79 => ⟨S_, .i32⟩
  | 80 => ⟨S2x12544, .i32⟩
  | 81 => ⟨S2x12544, .i32⟩
  | 82 => ⟨S_, .i32⟩
  | 83 => ⟨S2x12544, .i32⟩
  | 84 => ⟨S2x12544, .i32⟩
  | 85 => ⟨S2x12544, .i32⟩
  | 86 => ⟨S2x12544, .i32⟩
  | 87 => ⟨S_, .f32⟩
  | 88 => ⟨S2x12544, .f32⟩
  | 89 => ⟨S2x12544, .f32⟩
  | 90 => ⟨S_, .f32⟩
  | 91 => ⟨S2x12544, .f32⟩
  | 92 => ⟨S2x12544, .f32⟩
  | 93 => ⟨S2x12544, .f32⟩
  | 94 => ⟨S2x12544, .f32⟩
  | 95 => ⟨S_, .f32⟩
  | 96 => ⟨S12544, .f32⟩
  | 97 => ⟨S2x12544, .f32⟩
  | 98 => ⟨S2x12544, .f32⟩
  | 99 => ⟨S_, .i32⟩
  | 100 => ⟨S2x12544, .i32⟩
  | 101 => ⟨S2x12544, .i1⟩
  | 102 => ⟨S_, .i32⟩
  | 103 => ⟨S2x12544, .i32⟩
  | 104 => ⟨S2x12544, .i32⟩
  | 105 => ⟨S2x12544, .i32⟩
  | 106 => ⟨S2x12544x1, .i32⟩
  | 107 => ⟨S1, .i32⟩
  | 108 => ⟨S_, .i32⟩
  | 109 => ⟨S2x12544x1, .i32⟩
  | 110 => ⟨S2x12544x1, .i1⟩
  | 111 => ⟨S1x1x1, .i32⟩
  | 112 => ⟨S2x12544x1, .i32⟩
  | 113 => ⟨S2x12544x1, .i1⟩
  | 114 => ⟨S2x12544x1, .i1⟩
  | 115 => ⟨S_, .i1⟩
  | 116 => ⟨S2x12544, .i1⟩
  | 117 => ⟨S2x30x12544, .f32⟩
  | 118 => ⟨S2x30x12544, .i1⟩
  | 119 => ⟨S_, .f32⟩
  | 120 => ⟨S2x30x12544, .f32⟩
  | 121 => ⟨S2x30x12544, .f32⟩
  | 122 => ⟨S2x1x12544, .f32⟩
  | 123 => ⟨S2x30x12544, .f32⟩
  | 124 => ⟨S2x30x12544, .f32⟩
  | 125 => ⟨S2x30x12544, .f32⟩
  | 126 => ⟨S_, .i32⟩
  | 127 => ⟨S2x12544, .i32⟩
  | _ => ⟨S2x100x64x64x64, .f32⟩

abbrev hbmTy0_9 (i : Nat) : BufTy := match i % 128 with
  | 0 => ⟨S2x12544, .i32⟩
  | 1 => ⟨S_, .i32⟩
  | 2 => ⟨S2x12544, .i32⟩
  | 3 => ⟨S2x12544, .i32⟩
  | 4 => ⟨S_, .i32⟩
  | 5 => ⟨S2x12544, .i32⟩
  | 6 => ⟨S2x12544, .i32⟩
  | 7 => ⟨S_, .i32⟩
  | 8 => ⟨S2x12544, .i32⟩
  | 9 => ⟨S2x12544, .i1⟩
  | 10 => ⟨S_, .i32⟩
  | 11 => ⟨S2x12544, .i32⟩
  | 12 => ⟨S2x12544, .i1⟩
  | 13 => ⟨S2x12544, .i1⟩
  | 14 => ⟨S_, .i32⟩
  | 15 => ⟨S2x12544, .i32⟩
  | 16 => ⟨S2x12544, .i1⟩
  | 17 => ⟨S2x12544, .i1⟩
  | 18 => ⟨S_, .i32⟩
  | 19 => ⟨S2x12544, .i32⟩
  | 20 => ⟨S2x12544, .i1⟩
  | 21 => ⟨S2x12544, .i1⟩
  | 22 => ⟨S_, .i32⟩
  | 23 => ⟨S2x12544, .i32⟩
  | 24 => ⟨S2x12544, .i1⟩
  | 25 => ⟨S2x12544, .i1⟩
  | 26 => ⟨S_, .i32⟩
  | 27 => ⟨S2x12544, .i32⟩
  | 28 => ⟨S2x12544, .i1⟩
  | 29 => ⟨S2x12544, .i1⟩
  | 30 => ⟨S_, .i32⟩
  | 31 => ⟨S_, .i32⟩
  | 32 => ⟨S_, .i32⟩
  | 33 => ⟨S2x12544, .i32⟩
  | 34 => ⟨S2x12544, .i32⟩
  | 35 => ⟨S_, .i32⟩
  | 36 => ⟨S2x12544, .i32⟩
  | 37 => ⟨S2x12544, .i32⟩
  | 38 => ⟨S_, .i32⟩
  | 39 => ⟨S_, .i32⟩
  | 40 => ⟨S_, .i32⟩
  | 41 => ⟨S2x12544, .i32⟩
  | 42 => ⟨S2x12544, .i32⟩
  | 43 => ⟨S_, .i32⟩
  | 44 => ⟨S2x12544, .i32⟩
  | 45 => ⟨S2x12544, .i32⟩
  | 46 => ⟨S_, .i32⟩
  | 47 => ⟨S_, .i32⟩
  | 48 => ⟨S_, .i32⟩
  | 49 => ⟨S2x12544, .i32⟩
  | 50 => ⟨S2x12544, .i32⟩
  | 51 => ⟨S_, .i32⟩
  | 52 => ⟨S2x12544, .i32⟩
  | 53 => ⟨S2x12544, .i32⟩
  | 54 => ⟨S_, .i32⟩
  | 55 => ⟨S2x12544, .i32⟩
  | 56 => ⟨S2x12544, .i32⟩
  | 57 => ⟨S_, .i32⟩
  | 58 => ⟨S2x12544, .i32⟩
  | 59 => ⟨S2x12544, .i32⟩
  | 60 => ⟨S2x12544, .i32⟩
  | 61 => ⟨S2x12544, .i32⟩
  | 62 => ⟨S_, .f32⟩
  | 63 => ⟨S2x12544, .f32⟩
  | 64 => ⟨S2x12544, .f32⟩
  | 65 => ⟨S2x12544, .f32⟩
  | 66 => ⟨S_, .f32⟩
  | 67 => ⟨S2x12544, .f32⟩
  | 68 => ⟨S2x12544, .f32⟩
  | 69 => ⟨S2x12544, .f32⟩
  | 70 => ⟨S_, .f32⟩
  | 71 => ⟨S12544, .f32⟩
  | 72 => ⟨S2x12544, .f32⟩
  | 73 => ⟨S2x12544, .f32⟩
  | 74 => ⟨S_, .i32⟩
  | 75 => ⟨S2x12544, .i32⟩
  | 76 => ⟨S2x12544, .i1⟩
  | 77 => ⟨S_, .i32⟩
  | 78 => ⟨S2x12544, .i32⟩
  | 79 => ⟨S2x12544, .i32⟩
  | 80 => ⟨S2x12544, .i32⟩
  | 81 => ⟨S2x12544x1, .i32⟩
  | 82 => ⟨S1, .i32⟩
  | 83 => ⟨S_, .i32⟩
  | 84 => ⟨S2x12544x1, .i32⟩
  | 85 => ⟨S2x12544x1, .i1⟩
  | 86 => ⟨S1x1x1, .i32⟩
  | 87 => ⟨S2x12544x1, .i32⟩
  | 88 => ⟨S2x12544x1, .i1⟩
  | 89 => ⟨S2x12544x1, .i1⟩
  | 90 => ⟨S_, .i1⟩
  | 91 => ⟨S2x12544, .i1⟩
  | 92 => ⟨S2x30x12544, .f32⟩
  | 93 => ⟨S2x30x12544, .i1⟩
  | 94 => ⟨S_, .f32⟩
  | 95 => ⟨S2x30x12544, .f32⟩
  | 96 => ⟨S2x30x12544, .f32⟩
  | 97 => ⟨S2x1x12544, .f32⟩
  | 98 => ⟨S2x30x12544, .f32⟩
  | 99 => ⟨S2x30x12544, .f32⟩
  | 100 => ⟨S2x30x12544, .f32⟩
  | 101 => ⟨S_, .i32⟩
  | 102 => ⟨S2x12544, .i32⟩
  | 103 => ⟨S2x12544, .i32⟩
  | 104 => ⟨S_, .i32⟩
  | 105 => ⟨S2x12544, .i32⟩
  | 106 => ⟨S2x12544, .i32⟩
  | 107 => ⟨S_, .i32⟩
  | 108 => ⟨S2x12544, .i32⟩
  | 109 => ⟨S2x12544, .i32⟩
  | 110 => ⟨S_, .i32⟩
  | 111 => ⟨S2x12544, .i32⟩
  | 112 => ⟨S2x12544, .i1⟩
  | 113 => ⟨S_, .i32⟩
  | 114 => ⟨S2x12544, .i32⟩
  | 115 => ⟨S2x12544, .i1⟩
  | 116 => ⟨S2x12544, .i1⟩
  | 117 => ⟨S_, .i32⟩
  | 118 => ⟨S2x12544, .i32⟩
  | 119 => ⟨S2x12544, .i1⟩
  | 120 => ⟨S2x12544, .i1⟩
  | 121 => ⟨S_, .i32⟩
  | 122 => ⟨S2x12544, .i32⟩
  | 123 => ⟨S2x12544, .i1⟩
  | 124 => ⟨S2x12544, .i1⟩
  | 125 => ⟨S_, .i32⟩
  | 126 => ⟨S2x12544, .i32⟩
  | 127 => ⟨S2x12544, .i1⟩
  | _ => ⟨S2x100x64x64x64, .f32⟩

abbrev hbmTy0_10 (i : Nat) : BufTy := match i % 128 with
  | 0 => ⟨S2x12544, .i1⟩
  | 1 => ⟨S_, .i32⟩
  | 2 => ⟨S2x12544, .i32⟩
  | 3 => ⟨S2x12544, .i1⟩
  | 4 => ⟨S2x12544, .i1⟩
  | 5 => ⟨S_, .i32⟩
  | 6 => ⟨S_, .i32⟩
  | 7 => ⟨S_, .i32⟩
  | 8 => ⟨S2x12544, .i32⟩
  | 9 => ⟨S2x12544, .i32⟩
  | 10 => ⟨S_, .i32⟩
  | 11 => ⟨S2x12544, .i32⟩
  | 12 => ⟨S2x12544, .i32⟩
  | 13 => ⟨S_, .i32⟩
  | 14 => ⟨S_, .i32⟩
  | 15 => ⟨S_, .i32⟩
  | 16 => ⟨S2x12544, .i32⟩
  | 17 => ⟨S2x12544, .i32⟩
  | 18 => ⟨S_, .i32⟩
  | 19 => ⟨S2x12544, .i32⟩
  | 20 => ⟨S2x12544, .i32⟩
  | 21 => ⟨S_, .i32⟩
  | 22 => ⟨S_, .i32⟩
  | 23 => ⟨S_, .i32⟩
  | 24 => ⟨S2x12544, .i32⟩
  | 25 => ⟨S2x12544, .i32⟩
  | 26 => ⟨S_, .i32⟩
  | 27 => ⟨S2x12544, .i32⟩
  | 28 => ⟨S2x12544, .i32⟩
  | 29 => ⟨S_, .i32⟩
  | 30 => ⟨S2x12544, .i32⟩
  | 31 => ⟨S2x12544, .i32⟩
  | 32 => ⟨S_, .i32⟩
  | 33 => ⟨S2x12544, .i32⟩
  | 34 => ⟨S2x12544, .i32⟩
  | 35 => ⟨S2x12544, .i32⟩
  | 36 => ⟨S2x12544, .i32⟩
  | 37 => ⟨S_, .f32⟩
  | 38 => ⟨S2x12544, .f32⟩
  | 39 => ⟨S2x12544, .f32⟩
  | 40 => ⟨S2x12544, .f32⟩
  | 41 => ⟨S2x12544, .f32⟩
  | 42 => ⟨S_, .f32⟩
  | 43 => ⟨S12544, .f32⟩
  | 44 => ⟨S2x12544, .f32⟩
  | 45 => ⟨S2x12544, .f32⟩
  | 46 => ⟨S_, .i32⟩
  | 47 => ⟨S2x12544, .i32⟩
  | 48 => ⟨S2x12544, .i1⟩
  | 49 => ⟨S_, .i32⟩
  | 50 => ⟨S2x12544, .i32⟩
  | 51 => ⟨S2x12544, .i32⟩
  | 52 => ⟨S2x12544, .i32⟩
  | 53 => ⟨S2x12544x1, .i32⟩
  | 54 => ⟨S1, .i32⟩
  | 55 => ⟨S_, .i32⟩
  | 56 => ⟨S2x12544x1, .i32⟩
  | 57 => ⟨S2x12544x1, .i1⟩
  | 58 => ⟨S1x1x1, .i32⟩
  | 59 => ⟨S2x12544x1, .i32⟩
  | 60 => ⟨S2x12544x1, .i1⟩
  | 61 => ⟨S2x12544x1, .i1⟩
  | 62 => ⟨S_, .i1⟩
  | 63 => ⟨S2x12544, .i1⟩
  | 64 => ⟨S2x30x12544, .f32⟩
  | 65 => ⟨S2x30x12544, .i1⟩
  | 66 => ⟨S_, .f32⟩
  | 67 => ⟨S2x30x12544, .f32⟩
  | 68 => ⟨S2x30x12544, .f32⟩
  | 69 => ⟨S2x1x12544, .f32⟩
  | 70 => ⟨S2x30x12544, .f32⟩
  | 71 => ⟨S2x30x12544, .f32⟩
  | 72 => ⟨S2x30x12544, .f32⟩
  | 73 => ⟨S_, .i32⟩
  | 74 => ⟨S2x12544, .i32⟩
  | 75 => ⟨S2x12544, .i32⟩
  | 76 => ⟨S_, .i32⟩
  | 77 => ⟨S2x12544, .i32⟩
  | 78 => ⟨S2x12544, .i32⟩
  | 79 => ⟨S_, .i32⟩
  | 80 => ⟨S2x12544, .i32⟩
  | 81 => ⟨S2x12544, .i32⟩
  | 82 => ⟨S_, .i32⟩
  | 83 => ⟨S2x12544, .i32⟩
  | 84 => ⟨S2x12544, .i1⟩
  | 85 => ⟨S_, .i32⟩
  | 86 => ⟨S2x12544, .i32⟩
  | 87 => ⟨S2x12544, .i1⟩
  | 88 => ⟨S2x12544, .i1⟩
  | 89 => ⟨S_, .i32⟩
  | 90 => ⟨S2x12544, .i32⟩
  | 91 => ⟨S2x12544, .i1⟩
  | 92 => ⟨S2x12544, .i1⟩
  | 93 => ⟨S_, .i32⟩
  | 94 => ⟨S2x12544, .i32⟩
  | 95 => ⟨S2x12544, .i1⟩
  | 96 => ⟨S2x12544, .i1⟩
  | 97 => ⟨S_, .i32⟩
  | 98 => ⟨S2x12544, .i32⟩
  | 99 => ⟨S2x12544, .i1⟩
  | 100 => ⟨S2x12544, .i1⟩
  | 101 => ⟨S_, .i32⟩
  | 102 => ⟨S2x12544, .i32⟩
  | 103 => ⟨S2x12544, .i1⟩
  | 104 => ⟨S2x12544, .i1⟩
  | 105 => ⟨S_, .i32⟩
  | 106 => ⟨S_, .i32⟩
  | 107 => ⟨S_, .i32⟩
  | 108 => ⟨S2x12544, .i32⟩
  | 109 => ⟨S2x12544, .i32⟩
  | 110 => ⟨S_, .i32⟩
  | 111 => ⟨S2x12544, .i32⟩
  | 112 => ⟨S2x12544, .i32⟩
  | 113 => ⟨S_, .i32⟩
  | 114 => ⟨S_, .i32⟩
  | 115 => ⟨S_, .i32⟩
  | 116 => ⟨S2x12544, .i32⟩
  | 117 => ⟨S2x12544, .i32⟩
  | 118 => ⟨S_, .i32⟩
  | 119 => ⟨S2x12544, .i32⟩
  | 120 => ⟨S2x12544, .i32⟩
  | 121 => ⟨S_, .i32⟩
  | 122 => ⟨S_, .i32⟩
  | 123 => ⟨S_, .i32⟩
  | 124 => ⟨S2x12544, .i32⟩
  | 125 => ⟨S2x12544, .i32⟩
  | 126 => ⟨S_, .i32⟩
  | 127 => ⟨S2x12544, .i32⟩
  | _ => ⟨S2x100x64x64x64, .f32⟩

abbrev hbmTy0_11 (i : Nat) : BufTy := match i % 128 with
  | 0 => ⟨S2x12544, .i32⟩
  | 1 => ⟨S_, .i32⟩
  | 2 => ⟨S2x12544, .i32⟩
  | 3 => ⟨S2x12544, .i32⟩
  | 4 => ⟨S_, .i32⟩
  | 5 => ⟨S2x12544, .i32⟩
  | 6 => ⟨S2x12544, .i32⟩
  | 7 => ⟨S2x12544, .i32⟩
  | 8 => ⟨S2x12544, .i32⟩
  | 9 => ⟨S_, .f32⟩
  | 10 => ⟨S2x12544, .f32⟩
  | 11 => ⟨S2x12544, .f32⟩
  | 12 => ⟨S2x12544, .f32⟩
  | 13 => ⟨S_, .f32⟩
  | 14 => ⟨S2x12544, .f32⟩
  | 15 => ⟨S2x12544, .f32⟩
  | 16 => ⟨S2x12544, .f32⟩
  | 17 => ⟨S_, .f32⟩
  | 18 => ⟨S12544, .f32⟩
  | 19 => ⟨S2x12544, .f32⟩
  | 20 => ⟨S2x12544, .f32⟩
  | 21 => ⟨S_, .i32⟩
  | 22 => ⟨S2x12544, .i32⟩
  | 23 => ⟨S2x12544, .i1⟩
  | 24 => ⟨S_, .i32⟩
  | 25 => ⟨S2x12544, .i32⟩
  | 26 => ⟨S2x12544, .i32⟩
  | 27 => ⟨S2x12544, .i32⟩
  | 28 => ⟨S2x12544x1, .i32⟩
  | 29 => ⟨S1, .i32⟩
  | 30 => ⟨S_, .i32⟩
  | 31 => ⟨S2x12544x1, .i32⟩
  | 32 => ⟨S2x12544x1, .i1⟩
  | 33 => ⟨S1x1x1, .i32⟩
  | 34 => ⟨S2x12544x1, .i32⟩
  | 35 => ⟨S2x12544x1, .i1⟩
  | 36 => ⟨S2x12544x1, .i1⟩
  | 37 => ⟨S_, .i1⟩
  | 38 => ⟨S2x12544, .i1⟩
  | 39 => ⟨S2x30x12544, .f32⟩
  | 40 => ⟨S2x30x12544, .i1⟩
  | 41 => ⟨S_, .f32⟩
  | 42 => ⟨S2x30x12544, .f32⟩
  | 43 => ⟨S2x30x12544, .f32⟩
  | 44 => ⟨S2x1x12544, .f32⟩
  | 45 => ⟨S2x30x12544, .f32⟩
  | 46 => ⟨S2x30x12544, .f32⟩
  | 47 => ⟨S2x30x12544, .f32⟩
  | 48 => ⟨S_, .i32⟩
  | 49 => ⟨S2x12544, .i32⟩
  | 50 => ⟨S2x12544, .i32⟩
  | 51 => ⟨S_, .i32⟩
  | 52 => ⟨S2x12544, .i32⟩
  | 53 => ⟨S2x12544, .i32⟩
  | 54 => ⟨S_, .i32⟩
  | 55 => ⟨S2x12544, .i32⟩
  | 56 => ⟨S2x12544, .i32⟩
  | 57 => ⟨S_, .i32⟩
  | 58 => ⟨S2x12544, .i32⟩
  | 59 => ⟨S2x12544, .i1⟩
  | 60 => ⟨S_, .i32⟩
  | 61 => ⟨S2x12544, .i32⟩
  | 62 => ⟨S2x12544, .i1⟩
  | 63 => ⟨S2x12544, .i1⟩
  | 64 => ⟨S_, .i32⟩
  | 65 => ⟨S2x12544, .i32⟩
  | 66 => ⟨S2x12544, .i1⟩
  | 67 => ⟨S2x12544, .i1⟩
  | 68 => ⟨S_, .i32⟩
  | 69 => ⟨S2x12544, .i32⟩
  | 70 => ⟨S2x12544, .i1⟩
  | 71 => ⟨S2x12544, .i1⟩
  | 72 => ⟨S_, .i32⟩
  | 73 => ⟨S2x12544, .i32⟩
  | 74 => ⟨S2x12544, .i1⟩
  | 75 => ⟨S2x12544, .i1⟩
  | 76 => ⟨S_, .i32⟩
  | 77 => ⟨S2x12544, .i32⟩
  | 78 => ⟨S2x12544, .i1⟩
  | 79 => ⟨S2x12544, .i1⟩
  | 80 => ⟨S_, .i32⟩
  | 81 => ⟨S_, .i32⟩
  | 82 => ⟨S_, .i32⟩
  | 83 => ⟨S2x12544, .i32⟩
  | 84 => ⟨S2x12544, .i32⟩
  | 85 => ⟨S_, .i32⟩
  | 86 => ⟨S2x12544, .i32⟩
  | 87 => ⟨S2x12544, .i32⟩
  | 88 => ⟨S_, .i32⟩
  | 89 => ⟨S_, .i32⟩
  | 90 => ⟨S_, .i32⟩
  | 91 => ⟨S2x12544, .i32⟩
  | 92 => ⟨S2x12544, .i32⟩
  | 93 => ⟨S_, .i32⟩
  | 94 => ⟨S2x12544, .i32⟩
  | 95 => ⟨S2x12544, .i32⟩
  | 96 => ⟨S_, .i32⟩
  | 97 => ⟨S_, .i32⟩
  | 98 => ⟨S_, .i32⟩
  | 99 => ⟨S2x12544, .i32⟩
  | 100 => ⟨S2x12544, .i32⟩
  | 101 => ⟨S_, .i32⟩
  | 102 => ⟨S2x12544, .i32⟩
  | 103 => ⟨S2x12544, .i32⟩
  | 104 => ⟨S_, .i32⟩
  | 105 => ⟨S2x12544, .i32⟩
  | 106 => ⟨S2x12544, .i32⟩
  | 107 => ⟨S_, .i32⟩
  | 108 => ⟨S2x12544, .i32⟩
  | 109 => ⟨S2x12544, .i32⟩
  | 110 => ⟨S2x12544, .i32⟩
  | 111 => ⟨S2x12544, .i32⟩
  | 112 => ⟨S_, .f32⟩
  | 113 => ⟨S2x12544, .f32⟩
  | 114 => ⟨S2x12544, .f32⟩
  | 115 => ⟨S2x12544, .f32⟩
  | 116 => ⟨S2x12544, .f32⟩
  | 117 => ⟨S_, .f32⟩
  | 118 => ⟨S12544, .f32⟩
  | 119 => ⟨S2x12544, .f32⟩
  | 120 => ⟨S2x12544, .f32⟩
  | 121 => ⟨S_, .i32⟩
  | 122 => ⟨S2x12544, .i32⟩
  | 123 => ⟨S2x12544, .i1⟩
  | 124 => ⟨S_, .i32⟩
  | 125 => ⟨S2x12544, .i32⟩
  | 126 => ⟨S2x12544, .i32⟩
  | 127 => ⟨S2x12544, .i32⟩
  | _ => ⟨S2x100x64x64x64, .f32⟩

abbrev hbmTy0_12 (i : Nat) : BufTy := match i % 128 with
  | 0 => ⟨S2x12544x1, .i32⟩
  | 1 => ⟨S1, .i32⟩
  | 2 => ⟨S_, .i32⟩
  | 3 => ⟨S2x12544x1, .i32⟩
  | 4 => ⟨S2x12544x1, .i1⟩
  | 5 => ⟨S1x1x1, .i32⟩
  | 6 => ⟨S2x12544x1, .i32⟩
  | 7 => ⟨S2x12544x1, .i1⟩
  | 8 => ⟨S2x12544x1, .i1⟩
  | 9 => ⟨S_, .i1⟩
  | 10 => ⟨S2x12544, .i1⟩
  | 11 => ⟨S2x30x12544, .f32⟩
  | 12 => ⟨S2x30x12544, .i1⟩
  | 13 => ⟨S_, .f32⟩
  | 14 => ⟨S2x30x12544, .f32⟩
  | 15 => ⟨S2x30x12544, .f32⟩
  | 16 => ⟨S2x1x12544, .f32⟩
  | 17 => ⟨S2x30x12544, .f32⟩
  | 18 => ⟨S2x30x12544, .f32⟩
  | 19 => ⟨S2x30x12544, .f32⟩
  | 20 => ⟨S_, .i32⟩
  | 21 => ⟨S2x12544, .i32⟩
  | 22 => ⟨S2x12544, .i32⟩
  | 23 => ⟨S_, .i32⟩
  | 24 => ⟨S2x12544, .i32⟩
  | 25 => ⟨S2x12544, .i32⟩
  | 26 => ⟨S_, .i32⟩
  | 27 => ⟨S2x12544, .i32⟩
  | 28 => ⟨S2x12544, .i32⟩
  | 29 => ⟨S_, .i32⟩
  | 30 => ⟨S2x12544, .i32⟩
  | 31 => ⟨S2x12544, .i1⟩
  | 32 => ⟨S_, .i32⟩
  | 33 => ⟨S2x12544, .i32⟩
  | 34 => ⟨S2x12544, .i1⟩
  | 35 => ⟨S2x12544, .i1⟩
  | 36 => ⟨S_, .i32⟩
  | 37 => ⟨S2x12544, .i32⟩
  | 38 => ⟨S2x12544, .i1⟩
  | 39 => ⟨S2x12544, .i1⟩
  | 40 => ⟨S_, .i32⟩
  | 41 => ⟨S2x12544, .i32⟩
  | 42 => ⟨S2x12544, .i1⟩
  | 43 => ⟨S2x12544, .i1⟩
  | 44 => ⟨S_, .i32⟩
  | 45 => ⟨S2x12544, .i32⟩
  | 46 => ⟨S2x12544, .i1⟩
  | 47 => ⟨S2x12544, .i1⟩
  | 48 => ⟨S_, .i32⟩
  | 49 => ⟨S2x12544, .i32⟩
  | 50 => ⟨S2x12544, .i1⟩
  | 51 => ⟨S2x12544, .i1⟩
  | 52 => ⟨S_, .i32⟩
  | 53 => ⟨S_, .i32⟩
  | 54 => ⟨S_, .i32⟩
  | 55 => ⟨S2x12544, .i32⟩
  | 56 => ⟨S2x12544, .i32⟩
  | 57 => ⟨S_, .i32⟩
  | 58 => ⟨S2x12544, .i32⟩
  | 59 => ⟨S2x12544, .i32⟩
  | 60 => ⟨S_, .i32⟩
  | 61 => ⟨S_, .i32⟩
  | 62 => ⟨S_, .i32⟩
  | 63 => ⟨S2x12544, .i32⟩
  | 64 => ⟨S2x12544, .i32⟩
  | 65 => ⟨S_, .i32⟩
  | 66 => ⟨S2x12544, .i32⟩
  | 67 => ⟨S2x12544, .i32⟩
  | 68 => ⟨S_, .i32⟩
  | 69 => ⟨S_, .i32⟩
  | 70 => ⟨S_, .i32⟩
  | 71 => ⟨S2x12544, .i32⟩
  | 72 => ⟨S2x12544, .i32⟩
  | 73 => ⟨S_, .i32⟩
  | 74 => ⟨S2x12544, .i32⟩
  | 75 => ⟨S2x12544, .i32⟩
  | 76 => ⟨S_, .i32⟩
  | 77 => ⟨S2x12544, .i32⟩
  | 78 => ⟨S2x12544, .i32⟩
  | 79 => ⟨S_, .i32⟩
  | 80 => ⟨S2x12544, .i32⟩
  | 81 => ⟨S2x12544, .i32⟩
  | 82 => ⟨S2x12544, .i32⟩
  | 83 => ⟨S2x12544, .i32⟩
  | 84 => ⟨S2x12544, .f32⟩
  | 85 => ⟨S_, .f32⟩
  | 86 => ⟨S2x12544, .f32⟩
  | 87 => ⟨S2x12544, .f32⟩
  | 88 => ⟨S2x12544, .f32⟩
  | 89 => ⟨S_, .f32⟩
  | 90 => ⟨S12544, .f32⟩
  | 91 => ⟨S2x12544, .f32⟩
  | 92 => ⟨S2x12544, .f32⟩
  | 93 => ⟨S_, .i32⟩
  | 94 => ⟨S2x12544, .i32⟩
  | 95 => ⟨S2x12544, .i1⟩
  | 96 => ⟨S_, .i32⟩
  | 97 => ⟨S2x12544, .i32⟩
  | 98 => ⟨S2x12544, .i32⟩
  | 99 => ⟨S2x12544, .i32⟩
  | 100 => ⟨S2x12544x1, .i32⟩
  | 101 => ⟨S1, .i32⟩
  | 102 => ⟨S_, .i32⟩
  | 103 => ⟨S2x12544x1, .i32⟩
  | 104 => ⟨S2x12544x1, .i1⟩
  | 105 => ⟨S1x1x1, .i32⟩
  | 106 => ⟨S2x12544x1, .i32⟩
  | 107 => ⟨S2x12544x1, .i1⟩
  | 108 => ⟨S2x12544x1, .i1⟩
  | 109 => ⟨S_, .i1⟩
  | 110 => ⟨S2x12544, .i1⟩
  | 111 => ⟨S2x30x12544, .f32⟩
  | 112 => ⟨S2x30x12544, .i1⟩
  | 113 => ⟨S_, .f32⟩
  | 114 => ⟨S2x30x12544, .f32⟩
  | 115 => ⟨S2x30x12544, .f32⟩
  | 116 => ⟨S2x1x12544, .f32⟩
  | 117 => ⟨S2x30x12544, .f32⟩
  | 118 => ⟨S2x30x12544, .f32⟩
  | 119 => ⟨S2x30x12544, .f32⟩
  | 120 => ⟨S_, .i32⟩
  | 121 => ⟨S2x12544, .i32⟩
  | 122 => ⟨S2x12544, .i32⟩
  | 123 => ⟨S_, .i32⟩
  | 124 => ⟨S2x12544, .i32⟩
  | 125 => ⟨S2x12544, .i32⟩
  | 126 => ⟨S_, .i32⟩
  | 127 => ⟨S2x12544, .i32⟩
  | _ => ⟨S2x100x64x64x64, .f32⟩

abbrev hbmTy0_13 (i : Nat) : BufTy := match i % 128 with
  | 0 => ⟨S2x12544, .i32⟩
  | 1 => ⟨S_, .i32⟩
  | 2 => ⟨S2x12544, .i32⟩
  | 3 => ⟨S2x12544, .i1⟩
  | 4 => ⟨S_, .i32⟩
  | 5 => ⟨S2x12544, .i32⟩
  | 6 => ⟨S2x12544, .i1⟩
  | 7 => ⟨S2x12544, .i1⟩
  | 8 => ⟨S_, .i32⟩
  | 9 => ⟨S2x12544, .i32⟩
  | 10 => ⟨S2x12544, .i1⟩
  | 11 => ⟨S2x12544, .i1⟩
  | 12 => ⟨S_, .i32⟩
  | 13 => ⟨S2x12544, .i32⟩
  | 14 => ⟨S2x12544, .i1⟩
  | 15 => ⟨S2x12544, .i1⟩
  | 16 => ⟨S_, .i32⟩
  | 17 => ⟨S2x12544, .i32⟩
  | 18 => ⟨S2x12544, .i1⟩
  | 19 => ⟨S2x12544, .i1⟩
  | 20 => ⟨S_, .i32⟩
  | 21 => ⟨S2x12544, .i32⟩
  | 22 => ⟨S2x12544, .i1⟩
  | 23 => ⟨S2x12544, .i1⟩
  | 24 => ⟨S_, .i32⟩
  | 25 => ⟨S_, .i32⟩
  | 26 => ⟨S_, .i32⟩
  | 27 => ⟨S2x12544, .i32⟩
  | 28 => ⟨S2x12544, .i32⟩
  | 29 => ⟨S_, .i32⟩
  | 30 => ⟨S2x12544, .i32⟩
  | 31 => ⟨S2x12544, .i32⟩
  | 32 => ⟨S_, .i32⟩
  | 33 => ⟨S_, .i32⟩
  | 34 => ⟨S_, .i32⟩
  | 35 => ⟨S2x12544, .i32⟩
  | 36 => ⟨S2x12544, .i32⟩
  | 37 => ⟨S_, .i32⟩
  | 38 => ⟨S2x12544, .i32⟩
  | 39 => ⟨S2x12544, .i32⟩
  | 40 => ⟨S_, .i32⟩
  | 41 => ⟨S_, .i32⟩
  | 42 => ⟨S_, .i32⟩
  | 43 => ⟨S2x12544, .i32⟩
  | 44 => ⟨S2x12544, .i32⟩
  | 45 => ⟨S_, .i32⟩
  | 46 => ⟨S2x12544, .i32⟩
  | 47 => ⟨S2x12544, .i32⟩
  | 48 => ⟨S_, .i32⟩
  | 49 => ⟨S2x12544, .i32⟩
  | 50 => ⟨S2x12544, .i32⟩
  | 51 => ⟨S_, .i32⟩
  | 52 => ⟨S2x12544, .i32⟩
  | 53 => ⟨S2x12544, .i32⟩
  | 54 => ⟨S2x12544, .i32⟩
  | 55 => ⟨S2x12544, .i32⟩
  | 56 => ⟨S2x12544, .f32⟩
  | 57 => ⟨S2x12544, .f32⟩
  | 58 => ⟨S_, .f32⟩
  | 59 => ⟨S12544, .f32⟩
  | 60 => ⟨S2x12544, .f32⟩
  | 61 => ⟨S2x12544, .f32⟩
  | 62 => ⟨S_, .i32⟩
  | 63 => ⟨S2x12544, .i32⟩
  | 64 => ⟨S2x12544, .i1⟩
  | 65 => ⟨S_, .i32⟩
  | 66 => ⟨S2x12544, .i32⟩
  | 67 => ⟨S2x12544, .i32⟩
  | 68 => ⟨S2x12544, .i32⟩
  | 69 => ⟨S2x12544x1, .i32⟩
  | 70 => ⟨S1, .i32⟩
  | 71 => ⟨S_, .i32⟩
  | 72 => ⟨S2x12544x1, .i32⟩
  | 73 => ⟨S2x12544x1, .i1⟩
  | 74 => ⟨S1x1x1, .i32⟩
  | 75 => ⟨S2x12544x1, .i32⟩
  | 76 => ⟨S2x12544x1, .i1⟩
  | 77 => ⟨S2x12544x1, .i1⟩
  | 78 => ⟨S_, .i1⟩
  | 79 => ⟨S2x12544, .i1⟩
  | 80 => ⟨S2x30x12544, .f32⟩
  | 81 => ⟨S2x30x12544, .i1⟩
  | 82 => ⟨S_, .f32⟩
  | 83 => ⟨S2x30x12544, .f32⟩
  | 84 => ⟨S2x30x12544, .f32⟩
  | 85 => ⟨S2x1x12544, .f32⟩
  | 86 => ⟨S2x30x12544, .f32⟩
  | 87 => ⟨S2x30x12544, .f32⟩
  | 88 => ⟨S2x30x12544, .f32⟩
  | 89 => ⟨S_, .f32⟩
  | 90 => ⟨S2x100, .f32⟩
  | 91 => ⟨S_, .f32⟩
  | 92 => ⟨S2x100, .f32⟩
  | 93 => ⟨S2x100, .f32⟩
  | 94 => ⟨S2x100x1, .f32⟩
  | 95 => ⟨S2x100x134, .f32⟩
  | 96 => ⟨S2x100x134, .f32⟩
  | 97 => ⟨S2x100x134, .f32⟩
  | 98 => ⟨S_, .f32⟩
  | 99 => ⟨S2x100, .f32⟩
  | 100 => ⟨S2x100x1, .f32⟩
  | 101 => ⟨S2x100x134, .f32⟩
  | 102 => ⟨S2x100x134, .f32⟩
  | 103 => ⟨S_, .i32⟩
  | 104 => ⟨S2x30, .i32⟩
  | 105 => ⟨S2x30, .i1⟩
  | 106 => ⟨S_, .i32⟩
  | 107 => ⟨S2x30, .i32⟩
  | 108 => ⟨S2x30, .i32⟩
  | 109 => ⟨S2x30, .i32⟩
  | 110 => ⟨S2x30x1, .i32⟩
  | 111 => ⟨S2x100x30, .f32⟩
  | 112 => ⟨S2x100x30, .f32⟩
  | 113 => ⟨S2x100x30, .f32⟩
  | _ => ⟨S2x100x64x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S2x100x64x64x64, .f32⟩

abbrev bufTy : (tb : Table) → Fin (tcTables nBuf tb) → BufTy
  | .hbm, ⟨i, _⟩ => hbmTy i
  | .local _ .vmem, ⟨0, _⟩ => ⟨S1x100x12544, .f32⟩
  | .local _ .vmem, ⟨1, _⟩ => ⟨S1x100x12544, .f32⟩
  | .local _ .vmem, ⟨2, _⟩ => ⟨S1x30x12544, .f32⟩
  | .local _ .vmem, ⟨3, _⟩ => ⟨S1x30x12544, .f32⟩
  | .local _ .vmem, ⟨4, _⟩ => ⟨S1x100x30, .f32⟩
  | .local _ .vmem, ⟨5, _⟩ => ⟨S1x100x30, .f32⟩
  | .local _ .vmem, ⟨6, _⟩ => ⟨S1x100x30, .f32⟩
  | .local _ .vmem, ⟨7, _⟩ => ⟨S1x100x30, .f32⟩
  | _, _ => ⟨S2x100x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_cst_12 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_c : Ref sig .tc := ⟨.hbm, 65, rfl⟩
abbrev main_v45 : Ref sig .tc := ⟨.hbm, 66, rfl⟩
abbrev main_v46 : Ref sig .tc := ⟨.hbm, 67, rfl⟩
abbrev main_c_14 : Ref sig .tc := ⟨.hbm, 68, rfl⟩
abbrev main_v47 : Ref sig .tc := ⟨.hbm, 69, rfl⟩
abbrev main_v48 : Ref sig .tc := ⟨.hbm, 70, rfl⟩
abbrev main_c_15 : Ref sig .tc := ⟨.hbm, 71, rfl⟩
abbrev main_v49 : Ref sig .tc := ⟨.hbm, 72, rfl⟩
abbrev main_v50 : Ref sig .tc := ⟨.hbm, 73, rfl⟩
abbrev main_c_16 : Ref sig .tc := ⟨.hbm, 74, rfl⟩
abbrev main_v51 : Ref sig .tc := ⟨.hbm, 75, rfl⟩
abbrev main_v52 : Ref sig .tc := ⟨.hbm, 76, rfl⟩
abbrev main_c_17 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_18 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_19 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_20 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_21 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_22 : Ref sig .tc := ⟨.hbm, 97, rfl⟩
abbrev main_c_23 : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_v68 : Ref sig .tc := ⟨.hbm, 104, rfl⟩
abbrev main_c_24 : Ref sig .tc := ⟨.hbm, 105, rfl⟩
abbrev main_c_25 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_v69 : Ref sig .tc := ⟨.hbm, 112, rfl⟩
abbrev main_c_26 : Ref sig .tc := ⟨.hbm, 113, rfl⟩
abbrev main_c_27 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_v70 : Ref sig .tc := ⟨.hbm, 120, rfl⟩
abbrev main_c_28 : Ref sig .tc := ⟨.hbm, 121, rfl⟩
abbrev main_v71 : Ref sig .tc := ⟨.hbm, 122, rfl⟩
abbrev main_v72 : Ref sig .tc := ⟨.hbm, 123, rfl⟩
abbrev main_c_29 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_30 : Ref sig .tc := ⟨.hbm, 129, rfl⟩
abbrev main_v77 : Ref sig .tc := ⟨.hbm, 130, rfl⟩
abbrev main_v78 : Ref sig .tc := ⟨.hbm, 131, rfl⟩
abbrev main_cst_31 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_cst_32 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_33 : Ref sig .tc := ⟨.hbm, 140, rfl⟩
abbrev main_call3_v0 : Ref sig .tc := ⟨.hbm, 141, rfl⟩
abbrev main_call3_v1 : Ref sig .tc := ⟨.hbm, 142, rfl⟩
abbrev main_v85 : Ref sig .tc := ⟨.hbm, 143, rfl⟩
abbrev main_call4_c : Ref sig .tc := ⟨.hbm, 144, rfl⟩
abbrev main_call4_v0 : Ref sig .tc := ⟨.hbm, 145, rfl⟩
abbrev main_call4_v1 : Ref sig .tc := ⟨.hbm, 146, rfl⟩
abbrev main_call4_c_0 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_call4_v5 : Ref sig .tc := ⟨.hbm, 151, rfl⟩
abbrev main_call4_c_1 : Ref sig .tc := ⟨.hbm, 152, rfl⟩
abbrev main_call4_c_2 : Ref sig .tc := ⟨.hbm, 153, rfl⟩
abbrev main_call4_v6 : Ref sig .tc := ⟨.hbm, 154, rfl⟩
abbrev main_call4_v7 : Ref sig .tc := ⟨.hbm, 155, rfl⟩
abbrev main_call4_v8 : Ref sig .tc := ⟨.hbm, 156, rfl⟩
abbrev main_call4_v9 : Ref sig .tc := ⟨.hbm, 157, rfl⟩
abbrev main_call4_v10 : Ref sig .tc := ⟨.hbm, 158, rfl⟩
abbrev main_call4_v11 : Ref sig .tc := ⟨.hbm, 159, rfl⟩
abbrev main_call4_c_3 : Ref sig .tc := ⟨.hbm, 160, rfl⟩
abbrev main_call4_v12 : Ref sig .tc := ⟨.hbm, 161, rfl⟩
abbrev main_call4_v13 : Ref sig .tc := ⟨.hbm, 162, rfl⟩
abbrev main_call4_v14 : Ref sig .tc := ⟨.hbm, 163, rfl⟩
abbrev main_call4_cst : Ref sig .tc := ⟨.hbm, 164, rfl⟩
abbrev main_call4_v15 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_c_34 : Ref sig .tc := ⟨.hbm, 173, rfl⟩
abbrev main_v93 : Ref sig .tc := ⟨.hbm, 174, rfl⟩
abbrev main_v94 : Ref sig .tc := ⟨.hbm, 175, rfl⟩
abbrev main_c_35 : Ref sig .tc := ⟨.hbm, 176, rfl⟩
abbrev main_v95 : Ref sig .tc := ⟨.hbm, 177, rfl⟩
abbrev main_v96 : Ref sig .tc := ⟨.hbm, 178, rfl⟩
abbrev main_c_36 : Ref sig .tc := ⟨.hbm, 179, rfl⟩
abbrev main_v97 : Ref sig .tc := ⟨.hbm, 180, rfl⟩
abbrev main_v98 : Ref sig .tc := ⟨.hbm, 181, rfl⟩
abbrev main_c_37 : Ref sig .tc := ⟨.hbm, 182, rfl⟩
abbrev main_v99 : Ref sig .tc := ⟨.hbm, 183, rfl⟩
abbrev main_v100 : Ref sig .tc := ⟨.hbm, 184, rfl⟩
abbrev main_c_38 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_c_39 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_c_40 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_c_41 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_c_42 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_c_43 : Ref sig .tc := ⟨.hbm, 205, rfl⟩
abbrev main_c_44 : Ref sig .tc := ⟨.hbm, 206, rfl⟩
abbrev main_call5_v0 : Ref sig .tc := ⟨.hbm, 207, rfl⟩
abbrev main_call5_v1 : Ref sig .tc := ⟨.hbm, 208, rfl⟩
abbrev main_call5_v2 : Ref sig .tc := ⟨.hbm, 209, rfl⟩
abbrev main_call5_v3 : Ref sig .tc := ⟨.hbm, 210, rfl⟩
abbrev main_call5_v4 : Ref sig .tc := ⟨.hbm, 211, rfl⟩
abbrev main_v116 : Ref sig .tc := ⟨.hbm, 212, rfl⟩
abbrev main_c_45 : Ref sig .tc := ⟨.hbm, 213, rfl⟩
abbrev main_c_46 : Ref sig .tc := ⟨.hbm, 214, rfl⟩
abbrev main_call6_v0 : Ref sig .tc := ⟨.hbm, 215, rfl⟩
abbrev main_call6_v1 : Ref sig .tc := ⟨.hbm, 216, rfl⟩
abbrev main_call6_v2 : Ref sig .tc := ⟨.hbm, 217, rfl⟩
abbrev main_call6_v3 : Ref sig .tc := ⟨.hbm, 218, rfl⟩
abbrev main_call6_v4 : Ref sig .tc := ⟨.hbm, 219, rfl⟩
abbrev main_v117 : Ref sig .tc := ⟨.hbm, 220, rfl⟩
abbrev main_c_47 : Ref sig .tc := ⟨.hbm, 221, rfl⟩
abbrev main_c_48 : Ref sig .tc := ⟨.hbm, 222, rfl⟩
abbrev main_call7_v0 : Ref sig .tc := ⟨.hbm, 223, rfl⟩
abbrev main_call7_v1 : Ref sig .tc := ⟨.hbm, 224, rfl⟩
abbrev main_call7_v2 : Ref sig .tc := ⟨.hbm, 225, rfl⟩
abbrev main_call7_v3 : Ref sig .tc := ⟨.hbm, 226, rfl⟩
abbrev main_call7_v4 : Ref sig .tc := ⟨.hbm, 227, rfl⟩
abbrev main_v118 : Ref sig .tc := ⟨.hbm, 228, rfl⟩
abbrev main_c_49 : Ref sig .tc := ⟨.hbm, 229, rfl⟩
abbrev main_v119 : Ref sig .tc := ⟨.hbm, 230, rfl⟩
abbrev main_v120 : Ref sig .tc := ⟨.hbm, 231, rfl⟩
abbrev main_c_50 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_cst_51 : Ref sig .tc := ⟨.hbm, 237, rfl⟩
abbrev main_v125 : Ref sig .tc := ⟨.hbm, 238, rfl⟩
abbrev main_v126 : Ref sig .tc := ⟨.hbm, 239, rfl⟩
abbrev main_cst_52 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_cst_53 : Ref sig .tc := ⟨.hbm, 245, rfl⟩
abbrev main_call8_v0 : Ref sig .tc := ⟨.hbm, 246, rfl⟩
abbrev main_call8_v1 : Ref sig .tc := ⟨.hbm, 247, rfl⟩
abbrev main_v131 : Ref sig .tc := ⟨.hbm, 248, rfl⟩
abbrev main_call9_c : Ref sig .tc := ⟨.hbm, 249, rfl⟩
abbrev main_call9_v0 : Ref sig .tc := ⟨.hbm, 250, rfl⟩
abbrev main_call9_v1 : Ref sig .tc := ⟨.hbm, 251, rfl⟩
abbrev main_call9_c_0 : Ref sig .tc := ⟨.hbm, 252, rfl⟩
abbrev main_call9_v2 : Ref sig .tc := ⟨.hbm, 253, rfl⟩
abbrev main_call9_v3 : Ref sig .tc := ⟨.hbm, 254, rfl⟩
abbrev main_call9_v4 : Ref sig .tc := ⟨.hbm, 255, rfl⟩
abbrev main_call9_v5 : Ref sig .tc := ⟨.hbm, 256, rfl⟩
abbrev main_call9_c_1 : Ref sig .tc := ⟨.hbm, 257, rfl⟩
abbrev main_call9_c_2 : Ref sig .tc := ⟨.hbm, 258, rfl⟩
abbrev main_call9_v6 : Ref sig .tc := ⟨.hbm, 259, rfl⟩
abbrev main_call9_v7 : Ref sig .tc := ⟨.hbm, 260, rfl⟩
abbrev main_call9_v8 : Ref sig .tc := ⟨.hbm, 261, rfl⟩
abbrev main_call9_v9 : Ref sig .tc := ⟨.hbm, 262, rfl⟩
abbrev main_call9_v10 : Ref sig .tc := ⟨.hbm, 263, rfl⟩
abbrev main_call9_v11 : Ref sig .tc := ⟨.hbm, 264, rfl⟩
abbrev main_call9_c_3 : Ref sig .tc := ⟨.hbm, 265, rfl⟩
abbrev main_call9_v12 : Ref sig .tc := ⟨.hbm, 266, rfl⟩
abbrev main_call9_v13 : Ref sig .tc := ⟨.hbm, 267, rfl⟩
abbrev main_call9_v14 : Ref sig .tc := ⟨.hbm, 268, rfl⟩
abbrev main_call9_cst : Ref sig .tc := ⟨.hbm, 269, rfl⟩
abbrev main_call9_v15 : Ref sig .tc := ⟨.hbm, 270, rfl⟩
abbrev main_v132 : Ref sig .tc := ⟨.hbm, 271, rfl⟩
abbrev main_v133 : Ref sig .tc := ⟨.hbm, 272, rfl⟩
abbrev main_v134 : Ref sig .tc := ⟨.hbm, 273, rfl⟩
abbrev main_v135 : Ref sig .tc := ⟨.hbm, 274, rfl⟩
abbrev main_v136 : Ref sig .tc := ⟨.hbm, 275, rfl⟩
abbrev main_c_54 : Ref sig .tc := ⟨.hbm, 276, rfl⟩
abbrev main_v137 : Ref sig .tc := ⟨.hbm, 277, rfl⟩
abbrev main_v138 : Ref sig .tc := ⟨.hbm, 278, rfl⟩
abbrev main_c_55 : Ref sig .tc := ⟨.hbm, 279, rfl⟩
abbrev main_v139 : Ref sig .tc := ⟨.hbm, 280, rfl⟩
abbrev main_v140 : Ref sig .tc := ⟨.hbm, 281, rfl⟩
abbrev main_c_56 : Ref sig .tc := ⟨.hbm, 282, rfl⟩
abbrev main_v141 : Ref sig .tc := ⟨.hbm, 283, rfl⟩
abbrev main_v142 : Ref sig .tc := ⟨.hbm, 284, rfl⟩
abbrev main_c_57 : Ref sig .tc := ⟨.hbm, 285, rfl⟩
abbrev main_v143 : Ref sig .tc := ⟨.hbm, 286, rfl⟩
abbrev main_v144 : Ref sig .tc := ⟨.hbm, 287, rfl⟩
abbrev main_c_58 : Ref sig .tc := ⟨.hbm, 288, rfl⟩
abbrev main_v145 : Ref sig .tc := ⟨.hbm, 289, rfl⟩
abbrev main_v146 : Ref sig .tc := ⟨.hbm, 290, rfl⟩
abbrev main_v147 : Ref sig .tc := ⟨.hbm, 291, rfl⟩
abbrev main_c_59 : Ref sig .tc := ⟨.hbm, 292, rfl⟩
abbrev main_v148 : Ref sig .tc := ⟨.hbm, 293, rfl⟩
abbrev main_v149 : Ref sig .tc := ⟨.hbm, 294, rfl⟩
abbrev main_v150 : Ref sig .tc := ⟨.hbm, 295, rfl⟩
abbrev main_c_60 : Ref sig .tc := ⟨.hbm, 296, rfl⟩
abbrev main_v151 : Ref sig .tc := ⟨.hbm, 297, rfl⟩
abbrev main_v152 : Ref sig .tc := ⟨.hbm, 298, rfl⟩
abbrev main_v153 : Ref sig .tc := ⟨.hbm, 299, rfl⟩
abbrev main_c_61 : Ref sig .tc := ⟨.hbm, 300, rfl⟩
abbrev main_v154 : Ref sig .tc := ⟨.hbm, 301, rfl⟩
abbrev main_v155 : Ref sig .tc := ⟨.hbm, 302, rfl⟩
abbrev main_v156 : Ref sig .tc := ⟨.hbm, 303, rfl⟩
abbrev main_c_62 : Ref sig .tc := ⟨.hbm, 304, rfl⟩
abbrev main_v157 : Ref sig .tc := ⟨.hbm, 305, rfl⟩
abbrev main_v158 : Ref sig .tc := ⟨.hbm, 306, rfl⟩
abbrev main_v159 : Ref sig .tc := ⟨.hbm, 307, rfl⟩
abbrev main_c_63 : Ref sig .tc := ⟨.hbm, 308, rfl⟩
abbrev main_c_64 : Ref sig .tc := ⟨.hbm, 309, rfl⟩
abbrev main_call10_v0 : Ref sig .tc := ⟨.hbm, 310, rfl⟩
abbrev main_call10_v1 : Ref sig .tc := ⟨.hbm, 311, rfl⟩
abbrev main_call10_v2 : Ref sig .tc := ⟨.hbm, 312, rfl⟩
abbrev main_call10_v3 : Ref sig .tc := ⟨.hbm, 313, rfl⟩
abbrev main_call10_v4 : Ref sig .tc := ⟨.hbm, 314, rfl⟩
abbrev main_v160 : Ref sig .tc := ⟨.hbm, 315, rfl⟩
abbrev main_c_65 : Ref sig .tc := ⟨.hbm, 316, rfl⟩
abbrev main_c_66 : Ref sig .tc := ⟨.hbm, 317, rfl⟩
abbrev main_call11_v0 : Ref sig .tc := ⟨.hbm, 318, rfl⟩
abbrev main_call11_v1 : Ref sig .tc := ⟨.hbm, 319, rfl⟩
abbrev main_call11_v2 : Ref sig .tc := ⟨.hbm, 320, rfl⟩
abbrev main_call11_v3 : Ref sig .tc := ⟨.hbm, 321, rfl⟩
abbrev main_call11_v4 : Ref sig .tc := ⟨.hbm, 322, rfl⟩
abbrev main_v161 : Ref sig .tc := ⟨.hbm, 323, rfl⟩
abbrev main_c_67 : Ref sig .tc := ⟨.hbm, 324, rfl⟩
abbrev main_c_68 : Ref sig .tc := ⟨.hbm, 325, rfl⟩
abbrev main_call12_v0 : Ref sig .tc := ⟨.hbm, 326, rfl⟩
abbrev main_call12_v1 : Ref sig .tc := ⟨.hbm, 327, rfl⟩
abbrev main_call12_v2 : Ref sig .tc := ⟨.hbm, 328, rfl⟩
abbrev main_call12_v3 : Ref sig .tc := ⟨.hbm, 329, rfl⟩
abbrev main_call12_v4 : Ref sig .tc := ⟨.hbm, 330, rfl⟩
abbrev main_v162 : Ref sig .tc := ⟨.hbm, 331, rfl⟩
abbrev main_c_69 : Ref sig .tc := ⟨.hbm, 332, rfl⟩
abbrev main_v163 : Ref sig .tc := ⟨.hbm, 333, rfl⟩
abbrev main_v164 : Ref sig .tc := ⟨.hbm, 334, rfl⟩
abbrev main_c_70 : Ref sig .tc := ⟨.hbm, 335, rfl⟩
abbrev main_v165 : Ref sig .tc := ⟨.hbm, 336, rfl⟩
abbrev main_v166 : Ref sig .tc := ⟨.hbm, 337, rfl⟩
abbrev main_v167 : Ref sig .tc := ⟨.hbm, 338, rfl⟩
abbrev main_v168 : Ref sig .tc := ⟨.hbm, 339, rfl⟩
abbrev main_cst_71 : Ref sig .tc := ⟨.hbm, 340, rfl⟩
abbrev main_v169 : Ref sig .tc := ⟨.hbm, 341, rfl⟩
abbrev main_v170 : Ref sig .tc := ⟨.hbm, 342, rfl⟩
abbrev main_v171 : Ref sig .tc := ⟨.hbm, 343, rfl⟩
abbrev main_cst_72 : Ref sig .tc := ⟨.hbm, 344, rfl⟩
abbrev main_v172 : Ref sig .tc := ⟨.hbm, 345, rfl⟩
abbrev main_v173 : Ref sig .tc := ⟨.hbm, 346, rfl⟩
abbrev main_v174 : Ref sig .tc := ⟨.hbm, 347, rfl⟩
abbrev main_cst_73 : Ref sig .tc := ⟨.hbm, 348, rfl⟩
abbrev main_call13_v0 : Ref sig .tc := ⟨.hbm, 349, rfl⟩
abbrev main_call13_v1 : Ref sig .tc := ⟨.hbm, 350, rfl⟩
abbrev main_v175 : Ref sig .tc := ⟨.hbm, 351, rfl⟩
abbrev main_call14_c : Ref sig .tc := ⟨.hbm, 352, rfl⟩
abbrev main_call14_v0 : Ref sig .tc := ⟨.hbm, 353, rfl⟩
abbrev main_call14_v1 : Ref sig .tc := ⟨.hbm, 354, rfl⟩
abbrev main_call14_c_0 : Ref sig .tc := ⟨.hbm, 355, rfl⟩
abbrev main_call14_v2 : Ref sig .tc := ⟨.hbm, 356, rfl⟩
abbrev main_call14_v3 : Ref sig .tc := ⟨.hbm, 357, rfl⟩
abbrev main_call14_v4 : Ref sig .tc := ⟨.hbm, 358, rfl⟩
abbrev main_call14_v5 : Ref sig .tc := ⟨.hbm, 359, rfl⟩
abbrev main_call14_c_1 : Ref sig .tc := ⟨.hbm, 360, rfl⟩
abbrev main_call14_c_2 : Ref sig .tc := ⟨.hbm, 361, rfl⟩
abbrev main_call14_v6 : Ref sig .tc := ⟨.hbm, 362, rfl⟩
abbrev main_call14_v7 : Ref sig .tc := ⟨.hbm, 363, rfl⟩
abbrev main_call14_v8 : Ref sig .tc := ⟨.hbm, 364, rfl⟩
abbrev main_call14_v9 : Ref sig .tc := ⟨.hbm, 365, rfl⟩
abbrev main_call14_v10 : Ref sig .tc := ⟨.hbm, 366, rfl⟩
abbrev main_call14_v11 : Ref sig .tc := ⟨.hbm, 367, rfl⟩
abbrev main_call14_c_3 : Ref sig .tc := ⟨.hbm, 368, rfl⟩
abbrev main_call14_v12 : Ref sig .tc := ⟨.hbm, 369, rfl⟩
abbrev main_call14_v13 : Ref sig .tc := ⟨.hbm, 370, rfl⟩
abbrev main_call14_v14 : Ref sig .tc := ⟨.hbm, 371, rfl⟩
abbrev main_call14_cst : Ref sig .tc := ⟨.hbm, 372, rfl⟩
abbrev main_call14_v15 : Ref sig .tc := ⟨.hbm, 373, rfl⟩
abbrev main_v176 : Ref sig .tc := ⟨.hbm, 374, rfl⟩
abbrev main_v177 : Ref sig .tc := ⟨.hbm, 375, rfl⟩
abbrev main_v178 : Ref sig .tc := ⟨.hbm, 376, rfl⟩
abbrev main_v179 : Ref sig .tc := ⟨.hbm, 377, rfl⟩
abbrev main_v180 : Ref sig .tc := ⟨.hbm, 378, rfl⟩
abbrev main_c_74 : Ref sig .tc := ⟨.hbm, 379, rfl⟩
abbrev main_v181 : Ref sig .tc := ⟨.hbm, 380, rfl⟩
abbrev main_v182 : Ref sig .tc := ⟨.hbm, 381, rfl⟩
abbrev main_c_75 : Ref sig .tc := ⟨.hbm, 382, rfl⟩
abbrev main_v183 : Ref sig .tc := ⟨.hbm, 383, rfl⟩
abbrev main_v184 : Ref sig .tc := ⟨.hbm, 384, rfl⟩
abbrev main_c_76 : Ref sig .tc := ⟨.hbm, 385, rfl⟩
abbrev main_v185 : Ref sig .tc := ⟨.hbm, 386, rfl⟩
abbrev main_v186 : Ref sig .tc := ⟨.hbm, 387, rfl⟩
abbrev main_c_77 : Ref sig .tc := ⟨.hbm, 388, rfl⟩
abbrev main_v187 : Ref sig .tc := ⟨.hbm, 389, rfl⟩
abbrev main_v188 : Ref sig .tc := ⟨.hbm, 390, rfl⟩
abbrev main_c_78 : Ref sig .tc := ⟨.hbm, 391, rfl⟩
abbrev main_v189 : Ref sig .tc := ⟨.hbm, 392, rfl⟩
abbrev main_v190 : Ref sig .tc := ⟨.hbm, 393, rfl⟩
abbrev main_v191 : Ref sig .tc := ⟨.hbm, 394, rfl⟩
abbrev main_c_79 : Ref sig .tc := ⟨.hbm, 395, rfl⟩
abbrev main_v192 : Ref sig .tc := ⟨.hbm, 396, rfl⟩
abbrev main_v193 : Ref sig .tc := ⟨.hbm, 397, rfl⟩
abbrev main_v194 : Ref sig .tc := ⟨.hbm, 398, rfl⟩
abbrev main_c_80 : Ref sig .tc := ⟨.hbm, 399, rfl⟩
abbrev main_v195 : Ref sig .tc := ⟨.hbm, 400, rfl⟩
abbrev main_v196 : Ref sig .tc := ⟨.hbm, 401, rfl⟩
abbrev main_v197 : Ref sig .tc := ⟨.hbm, 402, rfl⟩
abbrev main_c_81 : Ref sig .tc := ⟨.hbm, 403, rfl⟩
abbrev main_v198 : Ref sig .tc := ⟨.hbm, 404, rfl⟩
abbrev main_v199 : Ref sig .tc := ⟨.hbm, 405, rfl⟩
abbrev main_v200 : Ref sig .tc := ⟨.hbm, 406, rfl⟩
abbrev main_c_82 : Ref sig .tc := ⟨.hbm, 407, rfl⟩
abbrev main_v201 : Ref sig .tc := ⟨.hbm, 408, rfl⟩
abbrev main_v202 : Ref sig .tc := ⟨.hbm, 409, rfl⟩
abbrev main_v203 : Ref sig .tc := ⟨.hbm, 410, rfl⟩
abbrev main_c_83 : Ref sig .tc := ⟨.hbm, 411, rfl⟩
abbrev main_c_84 : Ref sig .tc := ⟨.hbm, 412, rfl⟩
abbrev main_call15_v0 : Ref sig .tc := ⟨.hbm, 413, rfl⟩
abbrev main_call15_v1 : Ref sig .tc := ⟨.hbm, 414, rfl⟩
abbrev main_call15_v2 : Ref sig .tc := ⟨.hbm, 415, rfl⟩
abbrev main_call15_v3 : Ref sig .tc := ⟨.hbm, 416, rfl⟩
abbrev main_call15_v4 : Ref sig .tc := ⟨.hbm, 417, rfl⟩
abbrev main_v204 : Ref sig .tc := ⟨.hbm, 418, rfl⟩
abbrev main_c_85 : Ref sig .tc := ⟨.hbm, 419, rfl⟩
abbrev main_c_86 : Ref sig .tc := ⟨.hbm, 420, rfl⟩
abbrev main_call16_v0 : Ref sig .tc := ⟨.hbm, 421, rfl⟩
abbrev main_call16_v1 : Ref sig .tc := ⟨.hbm, 422, rfl⟩
abbrev main_call16_v2 : Ref sig .tc := ⟨.hbm, 423, rfl⟩
abbrev main_call16_v3 : Ref sig .tc := ⟨.hbm, 424, rfl⟩
abbrev main_call16_v4 : Ref sig .tc := ⟨.hbm, 425, rfl⟩
abbrev main_v205 : Ref sig .tc := ⟨.hbm, 426, rfl⟩
abbrev main_c_87 : Ref sig .tc := ⟨.hbm, 427, rfl⟩
abbrev main_c_88 : Ref sig .tc := ⟨.hbm, 428, rfl⟩
abbrev main_call17_v0 : Ref sig .tc := ⟨.hbm, 429, rfl⟩
abbrev main_call17_v1 : Ref sig .tc := ⟨.hbm, 430, rfl⟩
abbrev main_call17_v2 : Ref sig .tc := ⟨.hbm, 431, rfl⟩
abbrev main_call17_v3 : Ref sig .tc := ⟨.hbm, 432, rfl⟩
abbrev main_call17_v4 : Ref sig .tc := ⟨.hbm, 433, rfl⟩
abbrev main_v206 : Ref sig .tc := ⟨.hbm, 434, rfl⟩
abbrev main_c_89 : Ref sig .tc := ⟨.hbm, 435, rfl⟩
abbrev main_v207 : Ref sig .tc := ⟨.hbm, 436, rfl⟩
abbrev main_v208 : Ref sig .tc := ⟨.hbm, 437, rfl⟩
abbrev main_c_90 : Ref sig .tc := ⟨.hbm, 438, rfl⟩
abbrev main_v209 : Ref sig .tc := ⟨.hbm, 439, rfl⟩
abbrev main_v210 : Ref sig .tc := ⟨.hbm, 440, rfl⟩
abbrev main_v211 : Ref sig .tc := ⟨.hbm, 441, rfl⟩
abbrev main_v212 : Ref sig .tc := ⟨.hbm, 442, rfl⟩
abbrev main_cst_91 : Ref sig .tc := ⟨.hbm, 443, rfl⟩
abbrev main_v213 : Ref sig .tc := ⟨.hbm, 444, rfl⟩
abbrev main_v214 : Ref sig .tc := ⟨.hbm, 445, rfl⟩
abbrev main_v215 : Ref sig .tc := ⟨.hbm, 446, rfl⟩
abbrev main_v216 : Ref sig .tc := ⟨.hbm, 447, rfl⟩
abbrev main_cst_92 : Ref sig .tc := ⟨.hbm, 448, rfl⟩
abbrev main_call18_v0 : Ref sig .tc := ⟨.hbm, 449, rfl⟩
abbrev main_call18_v1 : Ref sig .tc := ⟨.hbm, 450, rfl⟩
abbrev main_v217 : Ref sig .tc := ⟨.hbm, 451, rfl⟩
abbrev main_call19_c : Ref sig .tc := ⟨.hbm, 452, rfl⟩
abbrev main_call19_v0 : Ref sig .tc := ⟨.hbm, 453, rfl⟩
abbrev main_call19_v1 : Ref sig .tc := ⟨.hbm, 454, rfl⟩
abbrev main_call19_c_0 : Ref sig .tc := ⟨.hbm, 455, rfl⟩
abbrev main_call19_v2 : Ref sig .tc := ⟨.hbm, 456, rfl⟩
abbrev main_call19_v3 : Ref sig .tc := ⟨.hbm, 457, rfl⟩
abbrev main_call19_v4 : Ref sig .tc := ⟨.hbm, 458, rfl⟩
abbrev main_call19_v5 : Ref sig .tc := ⟨.hbm, 459, rfl⟩
abbrev main_call19_c_1 : Ref sig .tc := ⟨.hbm, 460, rfl⟩
abbrev main_call19_c_2 : Ref sig .tc := ⟨.hbm, 461, rfl⟩
abbrev main_call19_v6 : Ref sig .tc := ⟨.hbm, 462, rfl⟩
abbrev main_call19_v7 : Ref sig .tc := ⟨.hbm, 463, rfl⟩
abbrev main_call19_v8 : Ref sig .tc := ⟨.hbm, 464, rfl⟩
abbrev main_call19_v9 : Ref sig .tc := ⟨.hbm, 465, rfl⟩
abbrev main_call19_v10 : Ref sig .tc := ⟨.hbm, 466, rfl⟩
abbrev main_call19_v11 : Ref sig .tc := ⟨.hbm, 467, rfl⟩
abbrev main_call19_c_3 : Ref sig .tc := ⟨.hbm, 468, rfl⟩
abbrev main_call19_v12 : Ref sig .tc := ⟨.hbm, 469, rfl⟩
abbrev main_call19_v13 : Ref sig .tc := ⟨.hbm, 470, rfl⟩
abbrev main_call19_v14 : Ref sig .tc := ⟨.hbm, 471, rfl⟩
abbrev main_call19_cst : Ref sig .tc := ⟨.hbm, 472, rfl⟩
abbrev main_call19_v15 : Ref sig .tc := ⟨.hbm, 473, rfl⟩
abbrev main_v218 : Ref sig .tc := ⟨.hbm, 474, rfl⟩
abbrev main_v219 : Ref sig .tc := ⟨.hbm, 475, rfl⟩
abbrev main_v220 : Ref sig .tc := ⟨.hbm, 476, rfl⟩
abbrev main_v221 : Ref sig .tc := ⟨.hbm, 477, rfl⟩
abbrev main_v222 : Ref sig .tc := ⟨.hbm, 478, rfl⟩
abbrev main_c_93 : Ref sig .tc := ⟨.hbm, 479, rfl⟩
abbrev main_v223 : Ref sig .tc := ⟨.hbm, 480, rfl⟩
abbrev main_v224 : Ref sig .tc := ⟨.hbm, 481, rfl⟩
abbrev main_c_94 : Ref sig .tc := ⟨.hbm, 482, rfl⟩
abbrev main_v225 : Ref sig .tc := ⟨.hbm, 483, rfl⟩
abbrev main_v226 : Ref sig .tc := ⟨.hbm, 484, rfl⟩
abbrev main_c_95 : Ref sig .tc := ⟨.hbm, 485, rfl⟩
abbrev main_v227 : Ref sig .tc := ⟨.hbm, 486, rfl⟩
abbrev main_v228 : Ref sig .tc := ⟨.hbm, 487, rfl⟩
abbrev main_c_96 : Ref sig .tc := ⟨.hbm, 488, rfl⟩
abbrev main_v229 : Ref sig .tc := ⟨.hbm, 489, rfl⟩
abbrev main_v230 : Ref sig .tc := ⟨.hbm, 490, rfl⟩
abbrev main_c_97 : Ref sig .tc := ⟨.hbm, 491, rfl⟩
abbrev main_v231 : Ref sig .tc := ⟨.hbm, 492, rfl⟩
abbrev main_v232 : Ref sig .tc := ⟨.hbm, 493, rfl⟩
abbrev main_v233 : Ref sig .tc := ⟨.hbm, 494, rfl⟩
abbrev main_c_98 : Ref sig .tc := ⟨.hbm, 495, rfl⟩
abbrev main_v234 : Ref sig .tc := ⟨.hbm, 496, rfl⟩
abbrev main_v235 : Ref sig .tc := ⟨.hbm, 497, rfl⟩
abbrev main_v236 : Ref sig .tc := ⟨.hbm, 498, rfl⟩
abbrev main_c_99 : Ref sig .tc := ⟨.hbm, 499, rfl⟩
abbrev main_v237 : Ref sig .tc := ⟨.hbm, 500, rfl⟩
abbrev main_v238 : Ref sig .tc := ⟨.hbm, 501, rfl⟩
abbrev main_v239 : Ref sig .tc := ⟨.hbm, 502, rfl⟩
abbrev main_c_100 : Ref sig .tc := ⟨.hbm, 503, rfl⟩
abbrev main_v240 : Ref sig .tc := ⟨.hbm, 504, rfl⟩
abbrev main_v241 : Ref sig .tc := ⟨.hbm, 505, rfl⟩
abbrev main_v242 : Ref sig .tc := ⟨.hbm, 506, rfl⟩
abbrev main_c_101 : Ref sig .tc := ⟨.hbm, 507, rfl⟩
abbrev main_v243 : Ref sig .tc := ⟨.hbm, 508, rfl⟩
abbrev main_v244 : Ref sig .tc := ⟨.hbm, 509, rfl⟩
abbrev main_v245 : Ref sig .tc := ⟨.hbm, 510, rfl⟩
abbrev main_c_102 : Ref sig .tc := ⟨.hbm, 511, rfl⟩
abbrev main_c_103 : Ref sig .tc := ⟨.hbm, 512, rfl⟩
abbrev main_call20_v0 : Ref sig .tc := ⟨.hbm, 513, rfl⟩
abbrev main_call20_v1 : Ref sig .tc := ⟨.hbm, 514, rfl⟩
abbrev main_call20_v2 : Ref sig .tc := ⟨.hbm, 515, rfl⟩
abbrev main_call20_v3 : Ref sig .tc := ⟨.hbm, 516, rfl⟩
abbrev main_call20_v4 : Ref sig .tc := ⟨.hbm, 517, rfl⟩
abbrev main_v246 : Ref sig .tc := ⟨.hbm, 518, rfl⟩
abbrev main_c_104 : Ref sig .tc := ⟨.hbm, 519, rfl⟩
abbrev main_c_105 : Ref sig .tc := ⟨.hbm, 520, rfl⟩
abbrev main_call21_v0 : Ref sig .tc := ⟨.hbm, 521, rfl⟩
abbrev main_call21_v1 : Ref sig .tc := ⟨.hbm, 522, rfl⟩
abbrev main_call21_v2 : Ref sig .tc := ⟨.hbm, 523, rfl⟩
abbrev main_call21_v3 : Ref sig .tc := ⟨.hbm, 524, rfl⟩
abbrev main_call21_v4 : Ref sig .tc := ⟨.hbm, 525, rfl⟩
abbrev main_v247 : Ref sig .tc := ⟨.hbm, 526, rfl⟩
abbrev main_c_106 : Ref sig .tc := ⟨.hbm, 527, rfl⟩
abbrev main_c_107 : Ref sig .tc := ⟨.hbm, 528, rfl⟩
abbrev main_call22_v0 : Ref sig .tc := ⟨.hbm, 529, rfl⟩
abbrev main_call22_v1 : Ref sig .tc := ⟨.hbm, 530, rfl⟩
abbrev main_call22_v2 : Ref sig .tc := ⟨.hbm, 531, rfl⟩
abbrev main_call22_v3 : Ref sig .tc := ⟨.hbm, 532, rfl⟩
abbrev main_call22_v4 : Ref sig .tc := ⟨.hbm, 533, rfl⟩
abbrev main_v248 : Ref sig .tc := ⟨.hbm, 534, rfl⟩
abbrev main_c_108 : Ref sig .tc := ⟨.hbm, 535, rfl⟩
abbrev main_v249 : Ref sig .tc := ⟨.hbm, 536, rfl⟩
abbrev main_v250 : Ref sig .tc := ⟨.hbm, 537, rfl⟩
abbrev main_c_109 : Ref sig .tc := ⟨.hbm, 538, rfl⟩
abbrev main_v251 : Ref sig .tc := ⟨.hbm, 539, rfl⟩
abbrev main_v252 : Ref sig .tc := ⟨.hbm, 540, rfl⟩
abbrev main_v253 : Ref sig .tc := ⟨.hbm, 541, rfl⟩
abbrev main_v254 : Ref sig .tc := ⟨.hbm, 542, rfl⟩
abbrev main_cst_110 : Ref sig .tc := ⟨.hbm, 543, rfl⟩
abbrev main_v255 : Ref sig .tc := ⟨.hbm, 544, rfl⟩
abbrev main_v256 : Ref sig .tc := ⟨.hbm, 545, rfl⟩
abbrev main_v257 : Ref sig .tc := ⟨.hbm, 546, rfl⟩
abbrev main_cst_111 : Ref sig .tc := ⟨.hbm, 547, rfl⟩
abbrev main_v258 : Ref sig .tc := ⟨.hbm, 548, rfl⟩
abbrev main_v259 : Ref sig .tc := ⟨.hbm, 549, rfl⟩
abbrev main_v260 : Ref sig .tc := ⟨.hbm, 550, rfl⟩
abbrev main_cst_112 : Ref sig .tc := ⟨.hbm, 551, rfl⟩
abbrev main_call23_v0 : Ref sig .tc := ⟨.hbm, 552, rfl⟩
abbrev main_call23_v1 : Ref sig .tc := ⟨.hbm, 553, rfl⟩
abbrev main_v261 : Ref sig .tc := ⟨.hbm, 554, rfl⟩
abbrev main_call24_c : Ref sig .tc := ⟨.hbm, 555, rfl⟩
abbrev main_call24_v0 : Ref sig .tc := ⟨.hbm, 556, rfl⟩
abbrev main_call24_v1 : Ref sig .tc := ⟨.hbm, 557, rfl⟩
abbrev main_call24_c_0 : Ref sig .tc := ⟨.hbm, 558, rfl⟩
abbrev main_call24_v2 : Ref sig .tc := ⟨.hbm, 559, rfl⟩
abbrev main_call24_v3 : Ref sig .tc := ⟨.hbm, 560, rfl⟩
abbrev main_call24_v4 : Ref sig .tc := ⟨.hbm, 561, rfl⟩
abbrev main_call24_v5 : Ref sig .tc := ⟨.hbm, 562, rfl⟩
abbrev main_call24_c_1 : Ref sig .tc := ⟨.hbm, 563, rfl⟩
abbrev main_call24_c_2 : Ref sig .tc := ⟨.hbm, 564, rfl⟩
abbrev main_call24_v6 : Ref sig .tc := ⟨.hbm, 565, rfl⟩
abbrev main_call24_v7 : Ref sig .tc := ⟨.hbm, 566, rfl⟩
abbrev main_call24_v8 : Ref sig .tc := ⟨.hbm, 567, rfl⟩
abbrev main_call24_v9 : Ref sig .tc := ⟨.hbm, 568, rfl⟩
abbrev main_call24_v10 : Ref sig .tc := ⟨.hbm, 569, rfl⟩
abbrev main_call24_v11 : Ref sig .tc := ⟨.hbm, 570, rfl⟩
abbrev main_call24_c_3 : Ref sig .tc := ⟨.hbm, 571, rfl⟩
abbrev main_call24_v12 : Ref sig .tc := ⟨.hbm, 572, rfl⟩
abbrev main_call24_v13 : Ref sig .tc := ⟨.hbm, 573, rfl⟩
abbrev main_call24_v14 : Ref sig .tc := ⟨.hbm, 574, rfl⟩
abbrev main_call24_cst : Ref sig .tc := ⟨.hbm, 575, rfl⟩
abbrev main_call24_v15 : Ref sig .tc := ⟨.hbm, 576, rfl⟩
abbrev main_v262 : Ref sig .tc := ⟨.hbm, 577, rfl⟩
abbrev main_v263 : Ref sig .tc := ⟨.hbm, 578, rfl⟩
abbrev main_v264 : Ref sig .tc := ⟨.hbm, 579, rfl⟩
abbrev main_v265 : Ref sig .tc := ⟨.hbm, 580, rfl⟩
abbrev main_v266 : Ref sig .tc := ⟨.hbm, 581, rfl⟩
abbrev main_c_113 : Ref sig .tc := ⟨.hbm, 582, rfl⟩
abbrev main_v267 : Ref sig .tc := ⟨.hbm, 583, rfl⟩
abbrev main_v268 : Ref sig .tc := ⟨.hbm, 584, rfl⟩
abbrev main_c_114 : Ref sig .tc := ⟨.hbm, 585, rfl⟩
abbrev main_v269 : Ref sig .tc := ⟨.hbm, 586, rfl⟩
abbrev main_v270 : Ref sig .tc := ⟨.hbm, 587, rfl⟩
abbrev main_c_115 : Ref sig .tc := ⟨.hbm, 588, rfl⟩
abbrev main_v271 : Ref sig .tc := ⟨.hbm, 589, rfl⟩
abbrev main_v272 : Ref sig .tc := ⟨.hbm, 590, rfl⟩
abbrev main_c_116 : Ref sig .tc := ⟨.hbm, 591, rfl⟩
abbrev main_v273 : Ref sig .tc := ⟨.hbm, 592, rfl⟩
abbrev main_v274 : Ref sig .tc := ⟨.hbm, 593, rfl⟩
abbrev main_c_117 : Ref sig .tc := ⟨.hbm, 594, rfl⟩
abbrev main_v275 : Ref sig .tc := ⟨.hbm, 595, rfl⟩
abbrev main_v276 : Ref sig .tc := ⟨.hbm, 596, rfl⟩
abbrev main_v277 : Ref sig .tc := ⟨.hbm, 597, rfl⟩
abbrev main_c_118 : Ref sig .tc := ⟨.hbm, 598, rfl⟩
abbrev main_v278 : Ref sig .tc := ⟨.hbm, 599, rfl⟩
abbrev main_v279 : Ref sig .tc := ⟨.hbm, 600, rfl⟩
abbrev main_v280 : Ref sig .tc := ⟨.hbm, 601, rfl⟩
abbrev main_c_119 : Ref sig .tc := ⟨.hbm, 602, rfl⟩
abbrev main_v281 : Ref sig .tc := ⟨.hbm, 603, rfl⟩
abbrev main_v282 : Ref sig .tc := ⟨.hbm, 604, rfl⟩
abbrev main_v283 : Ref sig .tc := ⟨.hbm, 605, rfl⟩
abbrev main_c_120 : Ref sig .tc := ⟨.hbm, 606, rfl⟩
abbrev main_v284 : Ref sig .tc := ⟨.hbm, 607, rfl⟩
abbrev main_v285 : Ref sig .tc := ⟨.hbm, 608, rfl⟩
abbrev main_v286 : Ref sig .tc := ⟨.hbm, 609, rfl⟩
abbrev main_c_121 : Ref sig .tc := ⟨.hbm, 610, rfl⟩
abbrev main_v287 : Ref sig .tc := ⟨.hbm, 611, rfl⟩
abbrev main_v288 : Ref sig .tc := ⟨.hbm, 612, rfl⟩
abbrev main_v289 : Ref sig .tc := ⟨.hbm, 613, rfl⟩
abbrev main_c_122 : Ref sig .tc := ⟨.hbm, 614, rfl⟩
abbrev main_c_123 : Ref sig .tc := ⟨.hbm, 615, rfl⟩
abbrev main_call25_v0 : Ref sig .tc := ⟨.hbm, 616, rfl⟩
abbrev main_call25_v1 : Ref sig .tc := ⟨.hbm, 617, rfl⟩
abbrev main_call25_v2 : Ref sig .tc := ⟨.hbm, 618, rfl⟩
abbrev main_call25_v3 : Ref sig .tc := ⟨.hbm, 619, rfl⟩
abbrev main_call25_v4 : Ref sig .tc := ⟨.hbm, 620, rfl⟩
abbrev main_v290 : Ref sig .tc := ⟨.hbm, 621, rfl⟩
abbrev main_c_124 : Ref sig .tc := ⟨.hbm, 622, rfl⟩
abbrev main_c_125 : Ref sig .tc := ⟨.hbm, 623, rfl⟩
abbrev main_call26_v0 : Ref sig .tc := ⟨.hbm, 624, rfl⟩
abbrev main_call26_v1 : Ref sig .tc := ⟨.hbm, 625, rfl⟩
abbrev main_call26_v2 : Ref sig .tc := ⟨.hbm, 626, rfl⟩
abbrev main_call26_v3 : Ref sig .tc := ⟨.hbm, 627, rfl⟩
abbrev main_call26_v4 : Ref sig .tc := ⟨.hbm, 628, rfl⟩
abbrev main_v291 : Ref sig .tc := ⟨.hbm, 629, rfl⟩
abbrev main_c_126 : Ref sig .tc := ⟨.hbm, 630, rfl⟩
abbrev main_c_127 : Ref sig .tc := ⟨.hbm, 631, rfl⟩
abbrev main_call27_v0 : Ref sig .tc := ⟨.hbm, 632, rfl⟩
abbrev main_call27_v1 : Ref sig .tc := ⟨.hbm, 633, rfl⟩
abbrev main_call27_v2 : Ref sig .tc := ⟨.hbm, 634, rfl⟩
abbrev main_call27_v3 : Ref sig .tc := ⟨.hbm, 635, rfl⟩
abbrev main_call27_v4 : Ref sig .tc := ⟨.hbm, 636, rfl⟩
abbrev main_v292 : Ref sig .tc := ⟨.hbm, 637, rfl⟩
abbrev main_c_128 : Ref sig .tc := ⟨.hbm, 638, rfl⟩
abbrev main_v293 : Ref sig .tc := ⟨.hbm, 639, rfl⟩
abbrev main_v294 : Ref sig .tc := ⟨.hbm, 640, rfl⟩
abbrev main_c_129 : Ref sig .tc := ⟨.hbm, 641, rfl⟩
abbrev main_v295 : Ref sig .tc := ⟨.hbm, 642, rfl⟩
abbrev main_v296 : Ref sig .tc := ⟨.hbm, 643, rfl⟩
abbrev main_v297 : Ref sig .tc := ⟨.hbm, 644, rfl⟩
abbrev main_v298 : Ref sig .tc := ⟨.hbm, 645, rfl⟩
abbrev main_cst_130 : Ref sig .tc := ⟨.hbm, 646, rfl⟩
abbrev main_v299 : Ref sig .tc := ⟨.hbm, 647, rfl⟩
abbrev main_v300 : Ref sig .tc := ⟨.hbm, 648, rfl⟩
abbrev main_v301 : Ref sig .tc := ⟨.hbm, 649, rfl⟩
abbrev main_v302 : Ref sig .tc := ⟨.hbm, 650, rfl⟩
abbrev main_cst_131 : Ref sig .tc := ⟨.hbm, 651, rfl⟩
abbrev main_call28_v0 : Ref sig .tc := ⟨.hbm, 652, rfl⟩
abbrev main_call28_v1 : Ref sig .tc := ⟨.hbm, 653, rfl⟩
abbrev main_v303 : Ref sig .tc := ⟨.hbm, 654, rfl⟩
abbrev main_call29_c : Ref sig .tc := ⟨.hbm, 655, rfl⟩
abbrev main_call29_v0 : Ref sig .tc := ⟨.hbm, 656, rfl⟩
abbrev main_call29_v1 : Ref sig .tc := ⟨.hbm, 657, rfl⟩
abbrev main_call29_c_0 : Ref sig .tc := ⟨.hbm, 658, rfl⟩
abbrev main_call29_v2 : Ref sig .tc := ⟨.hbm, 659, rfl⟩
abbrev main_call29_v3 : Ref sig .tc := ⟨.hbm, 660, rfl⟩
abbrev main_call29_v4 : Ref sig .tc := ⟨.hbm, 661, rfl⟩
abbrev main_call29_v5 : Ref sig .tc := ⟨.hbm, 662, rfl⟩
abbrev main_call29_c_1 : Ref sig .tc := ⟨.hbm, 663, rfl⟩
abbrev main_call29_c_2 : Ref sig .tc := ⟨.hbm, 664, rfl⟩
abbrev main_call29_v6 : Ref sig .tc := ⟨.hbm, 665, rfl⟩
abbrev main_call29_v7 : Ref sig .tc := ⟨.hbm, 666, rfl⟩
abbrev main_call29_v8 : Ref sig .tc := ⟨.hbm, 667, rfl⟩
abbrev main_call29_v9 : Ref sig .tc := ⟨.hbm, 668, rfl⟩
abbrev main_call29_v10 : Ref sig .tc := ⟨.hbm, 669, rfl⟩
abbrev main_call29_v11 : Ref sig .tc := ⟨.hbm, 670, rfl⟩
abbrev main_call29_c_3 : Ref sig .tc := ⟨.hbm, 671, rfl⟩
abbrev main_call29_v12 : Ref sig .tc := ⟨.hbm, 672, rfl⟩
abbrev main_call29_v13 : Ref sig .tc := ⟨.hbm, 673, rfl⟩
abbrev main_call29_v14 : Ref sig .tc := ⟨.hbm, 674, rfl⟩
abbrev main_call29_cst : Ref sig .tc := ⟨.hbm, 675, rfl⟩
abbrev main_call29_v15 : Ref sig .tc := ⟨.hbm, 676, rfl⟩
abbrev main_v304 : Ref sig .tc := ⟨.hbm, 677, rfl⟩
abbrev main_v305 : Ref sig .tc := ⟨.hbm, 678, rfl⟩
abbrev main_v306 : Ref sig .tc := ⟨.hbm, 679, rfl⟩
abbrev main_v307 : Ref sig .tc := ⟨.hbm, 680, rfl⟩
abbrev main_v308 : Ref sig .tc := ⟨.hbm, 681, rfl⟩
abbrev main_c_132 : Ref sig .tc := ⟨.hbm, 682, rfl⟩
abbrev main_v309 : Ref sig .tc := ⟨.hbm, 683, rfl⟩
abbrev main_v310 : Ref sig .tc := ⟨.hbm, 684, rfl⟩
abbrev main_c_133 : Ref sig .tc := ⟨.hbm, 685, rfl⟩
abbrev main_v311 : Ref sig .tc := ⟨.hbm, 686, rfl⟩
abbrev main_v312 : Ref sig .tc := ⟨.hbm, 687, rfl⟩
abbrev main_c_134 : Ref sig .tc := ⟨.hbm, 688, rfl⟩
abbrev main_v313 : Ref sig .tc := ⟨.hbm, 689, rfl⟩
abbrev main_v314 : Ref sig .tc := ⟨.hbm, 690, rfl⟩
abbrev main_c_135 : Ref sig .tc := ⟨.hbm, 691, rfl⟩
abbrev main_v315 : Ref sig .tc := ⟨.hbm, 692, rfl⟩
abbrev main_v316 : Ref sig .tc := ⟨.hbm, 693, rfl⟩
abbrev main_c_136 : Ref sig .tc := ⟨.hbm, 694, rfl⟩
abbrev main_v317 : Ref sig .tc := ⟨.hbm, 695, rfl⟩
abbrev main_v318 : Ref sig .tc := ⟨.hbm, 696, rfl⟩
abbrev main_v319 : Ref sig .tc := ⟨.hbm, 697, rfl⟩
abbrev main_c_137 : Ref sig .tc := ⟨.hbm, 698, rfl⟩
abbrev main_v320 : Ref sig .tc := ⟨.hbm, 699, rfl⟩
abbrev main_v321 : Ref sig .tc := ⟨.hbm, 700, rfl⟩
abbrev main_v322 : Ref sig .tc := ⟨.hbm, 701, rfl⟩
abbrev main_c_138 : Ref sig .tc := ⟨.hbm, 702, rfl⟩
abbrev main_v323 : Ref sig .tc := ⟨.hbm, 703, rfl⟩
abbrev main_v324 : Ref sig .tc := ⟨.hbm, 704, rfl⟩
abbrev main_v325 : Ref sig .tc := ⟨.hbm, 705, rfl⟩
abbrev main_c_139 : Ref sig .tc := ⟨.hbm, 706, rfl⟩
abbrev main_v326 : Ref sig .tc := ⟨.hbm, 707, rfl⟩
abbrev main_v327 : Ref sig .tc := ⟨.hbm, 708, rfl⟩
abbrev main_v328 : Ref sig .tc := ⟨.hbm, 709, rfl⟩
abbrev main_c_140 : Ref sig .tc := ⟨.hbm, 710, rfl⟩
abbrev main_v329 : Ref sig .tc := ⟨.hbm, 711, rfl⟩
abbrev main_v330 : Ref sig .tc := ⟨.hbm, 712, rfl⟩
abbrev main_v331 : Ref sig .tc := ⟨.hbm, 713, rfl⟩
abbrev main_c_141 : Ref sig .tc := ⟨.hbm, 714, rfl⟩
abbrev main_c_142 : Ref sig .tc := ⟨.hbm, 715, rfl⟩
abbrev main_call30_v0 : Ref sig .tc := ⟨.hbm, 716, rfl⟩
abbrev main_call30_v1 : Ref sig .tc := ⟨.hbm, 717, rfl⟩
abbrev main_call30_v2 : Ref sig .tc := ⟨.hbm, 718, rfl⟩
abbrev main_call30_v3 : Ref sig .tc := ⟨.hbm, 719, rfl⟩
abbrev main_call30_v4 : Ref sig .tc := ⟨.hbm, 720, rfl⟩
abbrev main_v332 : Ref sig .tc := ⟨.hbm, 721, rfl⟩
abbrev main_c_143 : Ref sig .tc := ⟨.hbm, 722, rfl⟩
abbrev main_c_144 : Ref sig .tc := ⟨.hbm, 723, rfl⟩
abbrev main_call31_v0 : Ref sig .tc := ⟨.hbm, 724, rfl⟩
abbrev main_call31_v1 : Ref sig .tc := ⟨.hbm, 725, rfl⟩
abbrev main_call31_v2 : Ref sig .tc := ⟨.hbm, 726, rfl⟩
abbrev main_call31_v3 : Ref sig .tc := ⟨.hbm, 727, rfl⟩
abbrev main_call31_v4 : Ref sig .tc := ⟨.hbm, 728, rfl⟩
abbrev main_v333 : Ref sig .tc := ⟨.hbm, 729, rfl⟩
abbrev main_c_145 : Ref sig .tc := ⟨.hbm, 730, rfl⟩
abbrev main_c_146 : Ref sig .tc := ⟨.hbm, 731, rfl⟩
abbrev main_call32_v0 : Ref sig .tc := ⟨.hbm, 732, rfl⟩
abbrev main_call32_v1 : Ref sig .tc := ⟨.hbm, 733, rfl⟩
abbrev main_call32_v2 : Ref sig .tc := ⟨.hbm, 734, rfl⟩
abbrev main_call32_v3 : Ref sig .tc := ⟨.hbm, 735, rfl⟩
abbrev main_call32_v4 : Ref sig .tc := ⟨.hbm, 736, rfl⟩
abbrev main_v334 : Ref sig .tc := ⟨.hbm, 737, rfl⟩
abbrev main_c_147 : Ref sig .tc := ⟨.hbm, 738, rfl⟩
abbrev main_v335 : Ref sig .tc := ⟨.hbm, 739, rfl⟩
abbrev main_v336 : Ref sig .tc := ⟨.hbm, 740, rfl⟩
abbrev main_c_148 : Ref sig .tc := ⟨.hbm, 741, rfl⟩
abbrev main_v337 : Ref sig .tc := ⟨.hbm, 742, rfl⟩
abbrev main_v338 : Ref sig .tc := ⟨.hbm, 743, rfl⟩
abbrev main_v339 : Ref sig .tc := ⟨.hbm, 744, rfl⟩
abbrev main_v340 : Ref sig .tc := ⟨.hbm, 745, rfl⟩
abbrev main_v341 : Ref sig .tc := ⟨.hbm, 746, rfl⟩
abbrev main_cst_149 : Ref sig .tc := ⟨.hbm, 747, rfl⟩
abbrev main_v342 : Ref sig .tc := ⟨.hbm, 748, rfl⟩
abbrev main_v343 : Ref sig .tc := ⟨.hbm, 749, rfl⟩
abbrev main_v344 : Ref sig .tc := ⟨.hbm, 750, rfl⟩
abbrev main_cst_150 : Ref sig .tc := ⟨.hbm, 751, rfl⟩
abbrev main_call33_v0 : Ref sig .tc := ⟨.hbm, 752, rfl⟩
abbrev main_call33_v1 : Ref sig .tc := ⟨.hbm, 753, rfl⟩
abbrev main_v345 : Ref sig .tc := ⟨.hbm, 754, rfl⟩
abbrev main_call34_c : Ref sig .tc := ⟨.hbm, 755, rfl⟩
abbrev main_call34_v0 : Ref sig .tc := ⟨.hbm, 756, rfl⟩
abbrev main_call34_v1 : Ref sig .tc := ⟨.hbm, 757, rfl⟩
abbrev main_call34_c_0 : Ref sig .tc := ⟨.hbm, 758, rfl⟩
abbrev main_call34_v2 : Ref sig .tc := ⟨.hbm, 759, rfl⟩
abbrev main_call34_v3 : Ref sig .tc := ⟨.hbm, 760, rfl⟩
abbrev main_call34_v4 : Ref sig .tc := ⟨.hbm, 761, rfl⟩
abbrev main_call34_v5 : Ref sig .tc := ⟨.hbm, 762, rfl⟩
abbrev main_call34_c_1 : Ref sig .tc := ⟨.hbm, 763, rfl⟩
abbrev main_call34_c_2 : Ref sig .tc := ⟨.hbm, 764, rfl⟩
abbrev main_call34_v6 : Ref sig .tc := ⟨.hbm, 765, rfl⟩
abbrev main_call34_v7 : Ref sig .tc := ⟨.hbm, 766, rfl⟩
abbrev main_call34_v8 : Ref sig .tc := ⟨.hbm, 767, rfl⟩
abbrev main_call34_v9 : Ref sig .tc := ⟨.hbm, 768, rfl⟩
abbrev main_call34_v10 : Ref sig .tc := ⟨.hbm, 769, rfl⟩
abbrev main_call34_v11 : Ref sig .tc := ⟨.hbm, 770, rfl⟩
abbrev main_call34_c_3 : Ref sig .tc := ⟨.hbm, 771, rfl⟩
abbrev main_call34_v12 : Ref sig .tc := ⟨.hbm, 772, rfl⟩
abbrev main_call34_v13 : Ref sig .tc := ⟨.hbm, 773, rfl⟩
abbrev main_call34_v14 : Ref sig .tc := ⟨.hbm, 774, rfl⟩
abbrev main_call34_cst : Ref sig .tc := ⟨.hbm, 775, rfl⟩
abbrev main_call34_v15 : Ref sig .tc := ⟨.hbm, 776, rfl⟩
abbrev main_v346 : Ref sig .tc := ⟨.hbm, 777, rfl⟩
abbrev main_v347 : Ref sig .tc := ⟨.hbm, 778, rfl⟩
abbrev main_v348 : Ref sig .tc := ⟨.hbm, 779, rfl⟩
abbrev main_v349 : Ref sig .tc := ⟨.hbm, 780, rfl⟩
abbrev main_v350 : Ref sig .tc := ⟨.hbm, 781, rfl⟩
abbrev main_c_151 : Ref sig .tc := ⟨.hbm, 782, rfl⟩
abbrev main_v351 : Ref sig .tc := ⟨.hbm, 783, rfl⟩
abbrev main_v352 : Ref sig .tc := ⟨.hbm, 784, rfl⟩
abbrev main_c_152 : Ref sig .tc := ⟨.hbm, 785, rfl⟩
abbrev main_v353 : Ref sig .tc := ⟨.hbm, 786, rfl⟩
abbrev main_v354 : Ref sig .tc := ⟨.hbm, 787, rfl⟩
abbrev main_c_153 : Ref sig .tc := ⟨.hbm, 788, rfl⟩
abbrev main_v355 : Ref sig .tc := ⟨.hbm, 789, rfl⟩
abbrev main_v356 : Ref sig .tc := ⟨.hbm, 790, rfl⟩
abbrev main_c_154 : Ref sig .tc := ⟨.hbm, 791, rfl⟩
abbrev main_v357 : Ref sig .tc := ⟨.hbm, 792, rfl⟩
abbrev main_v358 : Ref sig .tc := ⟨.hbm, 793, rfl⟩
abbrev main_c_155 : Ref sig .tc := ⟨.hbm, 794, rfl⟩
abbrev main_v359 : Ref sig .tc := ⟨.hbm, 795, rfl⟩
abbrev main_v360 : Ref sig .tc := ⟨.hbm, 796, rfl⟩
abbrev main_v361 : Ref sig .tc := ⟨.hbm, 797, rfl⟩
abbrev main_c_156 : Ref sig .tc := ⟨.hbm, 798, rfl⟩
abbrev main_v362 : Ref sig .tc := ⟨.hbm, 799, rfl⟩
abbrev main_v363 : Ref sig .tc := ⟨.hbm, 800, rfl⟩
abbrev main_v364 : Ref sig .tc := ⟨.hbm, 801, rfl⟩
abbrev main_c_157 : Ref sig .tc := ⟨.hbm, 802, rfl⟩
abbrev main_v365 : Ref sig .tc := ⟨.hbm, 803, rfl⟩
abbrev main_v366 : Ref sig .tc := ⟨.hbm, 804, rfl⟩
abbrev main_v367 : Ref sig .tc := ⟨.hbm, 805, rfl⟩
abbrev main_c_158 : Ref sig .tc := ⟨.hbm, 806, rfl⟩
abbrev main_v368 : Ref sig .tc := ⟨.hbm, 807, rfl⟩
abbrev main_v369 : Ref sig .tc := ⟨.hbm, 808, rfl⟩
abbrev main_v370 : Ref sig .tc := ⟨.hbm, 809, rfl⟩
abbrev main_c_159 : Ref sig .tc := ⟨.hbm, 810, rfl⟩
abbrev main_v371 : Ref sig .tc := ⟨.hbm, 811, rfl⟩
abbrev main_v372 : Ref sig .tc := ⟨.hbm, 812, rfl⟩
abbrev main_v373 : Ref sig .tc := ⟨.hbm, 813, rfl⟩
abbrev main_c_160 : Ref sig .tc := ⟨.hbm, 814, rfl⟩
abbrev main_c_161 : Ref sig .tc := ⟨.hbm, 815, rfl⟩
abbrev main_call35_v0 : Ref sig .tc := ⟨.hbm, 816, rfl⟩
abbrev main_call35_v1 : Ref sig .tc := ⟨.hbm, 817, rfl⟩
abbrev main_call35_v2 : Ref sig .tc := ⟨.hbm, 818, rfl⟩
abbrev main_call35_v3 : Ref sig .tc := ⟨.hbm, 819, rfl⟩
abbrev main_call35_v4 : Ref sig .tc := ⟨.hbm, 820, rfl⟩
abbrev main_v374 : Ref sig .tc := ⟨.hbm, 821, rfl⟩
abbrev main_c_162 : Ref sig .tc := ⟨.hbm, 822, rfl⟩
abbrev main_c_163 : Ref sig .tc := ⟨.hbm, 823, rfl⟩
abbrev main_call36_v0 : Ref sig .tc := ⟨.hbm, 824, rfl⟩
abbrev main_call36_v1 : Ref sig .tc := ⟨.hbm, 825, rfl⟩
abbrev main_call36_v2 : Ref sig .tc := ⟨.hbm, 826, rfl⟩
abbrev main_call36_v3 : Ref sig .tc := ⟨.hbm, 827, rfl⟩
abbrev main_call36_v4 : Ref sig .tc := ⟨.hbm, 828, rfl⟩
abbrev main_v375 : Ref sig .tc := ⟨.hbm, 829, rfl⟩
abbrev main_c_164 : Ref sig .tc := ⟨.hbm, 830, rfl⟩
abbrev main_c_165 : Ref sig .tc := ⟨.hbm, 831, rfl⟩
abbrev main_call37_v0 : Ref sig .tc := ⟨.hbm, 832, rfl⟩
abbrev main_call37_v1 : Ref sig .tc := ⟨.hbm, 833, rfl⟩
abbrev main_call37_v2 : Ref sig .tc := ⟨.hbm, 834, rfl⟩
abbrev main_call37_v3 : Ref sig .tc := ⟨.hbm, 835, rfl⟩
abbrev main_call37_v4 : Ref sig .tc := ⟨.hbm, 836, rfl⟩
abbrev main_v376 : Ref sig .tc := ⟨.hbm, 837, rfl⟩
abbrev main_c_166 : Ref sig .tc := ⟨.hbm, 838, rfl⟩
abbrev main_v377 : Ref sig .tc := ⟨.hbm, 839, rfl⟩
abbrev main_v378 : Ref sig .tc := ⟨.hbm, 840, rfl⟩
abbrev main_c_167 : Ref sig .tc := ⟨.hbm, 841, rfl⟩
abbrev main_v379 : Ref sig .tc := ⟨.hbm, 842, rfl⟩
abbrev main_v380 : Ref sig .tc := ⟨.hbm, 843, rfl⟩
abbrev main_v381 : Ref sig .tc := ⟨.hbm, 844, rfl⟩
abbrev main_v382 : Ref sig .tc := ⟨.hbm, 845, rfl⟩
abbrev main_v383 : Ref sig .tc := ⟨.hbm, 846, rfl⟩
abbrev main_v384 : Ref sig .tc := ⟨.hbm, 847, rfl⟩
abbrev main_cst_168 : Ref sig .tc := ⟨.hbm, 848, rfl⟩
abbrev main_call38_v0 : Ref sig .tc := ⟨.hbm, 849, rfl⟩
abbrev main_call38_v1 : Ref sig .tc := ⟨.hbm, 850, rfl⟩
abbrev main_v385 : Ref sig .tc := ⟨.hbm, 851, rfl⟩
abbrev main_call39_c : Ref sig .tc := ⟨.hbm, 852, rfl⟩
abbrev main_call39_v0 : Ref sig .tc := ⟨.hbm, 853, rfl⟩
abbrev main_call39_v1 : Ref sig .tc := ⟨.hbm, 854, rfl⟩
abbrev main_call39_c_0 : Ref sig .tc := ⟨.hbm, 855, rfl⟩
abbrev main_call39_v2 : Ref sig .tc := ⟨.hbm, 856, rfl⟩
abbrev main_call39_v3 : Ref sig .tc := ⟨.hbm, 857, rfl⟩
abbrev main_call39_v4 : Ref sig .tc := ⟨.hbm, 858, rfl⟩
abbrev main_call39_v5 : Ref sig .tc := ⟨.hbm, 859, rfl⟩
abbrev main_call39_c_1 : Ref sig .tc := ⟨.hbm, 860, rfl⟩
abbrev main_call39_c_2 : Ref sig .tc := ⟨.hbm, 861, rfl⟩
abbrev main_call39_v6 : Ref sig .tc := ⟨.hbm, 862, rfl⟩
abbrev main_call39_v7 : Ref sig .tc := ⟨.hbm, 863, rfl⟩
abbrev main_call39_v8 : Ref sig .tc := ⟨.hbm, 864, rfl⟩
abbrev main_call39_v9 : Ref sig .tc := ⟨.hbm, 865, rfl⟩
abbrev main_call39_v10 : Ref sig .tc := ⟨.hbm, 866, rfl⟩
abbrev main_call39_v11 : Ref sig .tc := ⟨.hbm, 867, rfl⟩
abbrev main_call39_c_3 : Ref sig .tc := ⟨.hbm, 868, rfl⟩
abbrev main_call39_v12 : Ref sig .tc := ⟨.hbm, 869, rfl⟩
abbrev main_call39_v13 : Ref sig .tc := ⟨.hbm, 870, rfl⟩
abbrev main_call39_v14 : Ref sig .tc := ⟨.hbm, 871, rfl⟩
abbrev main_call39_cst : Ref sig .tc := ⟨.hbm, 872, rfl⟩
abbrev main_call39_v15 : Ref sig .tc := ⟨.hbm, 873, rfl⟩
abbrev main_v386 : Ref sig .tc := ⟨.hbm, 874, rfl⟩
abbrev main_v387 : Ref sig .tc := ⟨.hbm, 875, rfl⟩
abbrev main_v388 : Ref sig .tc := ⟨.hbm, 876, rfl⟩
abbrev main_v389 : Ref sig .tc := ⟨.hbm, 877, rfl⟩
abbrev main_v390 : Ref sig .tc := ⟨.hbm, 878, rfl⟩
abbrev main_v391 : Ref sig .tc := ⟨.hbm, 879, rfl⟩
abbrev main_cst_169 : Ref sig .tc := ⟨.hbm, 880, rfl⟩
abbrev main_v392 : Ref sig .tc := ⟨.hbm, 881, rfl⟩
abbrev main_v393 : Ref sig .tc := ⟨.hbm, 882, rfl⟩
abbrev main_cst_170 : Ref sig .tc := ⟨.hbm, 883, rfl⟩
abbrev main_v394 : Ref sig .tc := ⟨.hbm, 884, rfl⟩
abbrev main_v395 : Ref sig .tc := ⟨.hbm, 885, rfl⟩
abbrev main_v396 : Ref sig .tc := ⟨.hbm, 886, rfl⟩
abbrev main_v397 : Ref sig .tc := ⟨.hbm, 887, rfl⟩
abbrev main_cst_171 : Ref sig .tc := ⟨.hbm, 888, rfl⟩
abbrev main_v398 : Ref sig .tc := ⟨.hbm, 889, rfl⟩
abbrev main_v399 : Ref sig .tc := ⟨.hbm, 890, rfl⟩
abbrev main_cst_172 : Ref sig .tc := ⟨.hbm, 891, rfl⟩
abbrev main_v400 : Ref sig .tc := ⟨.hbm, 892, rfl⟩
abbrev main_v401 : Ref sig .tc := ⟨.hbm, 893, rfl⟩
abbrev main_cst_173 : Ref sig .tc := ⟨.hbm, 894, rfl⟩
abbrev main_v402 : Ref sig .tc := ⟨.hbm, 895, rfl⟩
abbrev main_v403 : Ref sig .tc := ⟨.hbm, 896, rfl⟩
abbrev main_cst_174 : Ref sig .tc := ⟨.hbm, 897, rfl⟩
abbrev main_v404 : Ref sig .tc := ⟨.hbm, 898, rfl⟩
abbrev main_v405 : Ref sig .tc := ⟨.hbm, 899, rfl⟩
abbrev main_v406 : Ref sig .tc := ⟨.hbm, 900, rfl⟩
abbrev main_v407 : Ref sig .tc := ⟨.hbm, 901, rfl⟩
abbrev main_cst_175 : Ref sig .tc := ⟨.hbm, 902, rfl⟩
abbrev main_v408 : Ref sig .tc := ⟨.hbm, 903, rfl⟩
abbrev main_v409 : Ref sig .tc := ⟨.hbm, 904, rfl⟩
abbrev main_cst_176 : Ref sig .tc := ⟨.hbm, 905, rfl⟩
abbrev main_v410 : Ref sig .tc := ⟨.hbm, 906, rfl⟩
abbrev main_v411 : Ref sig .tc := ⟨.hbm, 907, rfl⟩
abbrev main_cst_177 : Ref sig .tc := ⟨.hbm, 908, rfl⟩
abbrev main_v412 : Ref sig .tc := ⟨.hbm, 909, rfl⟩
abbrev main_v413 : Ref sig .tc := ⟨.hbm, 910, rfl⟩
abbrev main_cst_178 : Ref sig .tc := ⟨.hbm, 911, rfl⟩
abbrev main_v414 : Ref sig .tc := ⟨.hbm, 912, rfl⟩
abbrev main_v415 : Ref sig .tc := ⟨.hbm, 913, rfl⟩
abbrev main_v416 : Ref sig .tc := ⟨.hbm, 914, rfl⟩
abbrev main_v417 : Ref sig .tc := ⟨.hbm, 915, rfl⟩
abbrev main_cst_179 : Ref sig .tc := ⟨.hbm, 916, rfl⟩
abbrev main_v418 : Ref sig .tc := ⟨.hbm, 917, rfl⟩
abbrev main_v419 : Ref sig .tc := ⟨.hbm, 918, rfl⟩
abbrev main_cst_180 : Ref sig .tc := ⟨.hbm, 919, rfl⟩
abbrev main_v420 : Ref sig .tc := ⟨.hbm, 920, rfl⟩
abbrev main_v421 : Ref sig .tc := ⟨.hbm, 921, rfl⟩
abbrev main_cst_181 : Ref sig .tc := ⟨.hbm, 922, rfl⟩
abbrev main_v422 : Ref sig .tc := ⟨.hbm, 923, rfl⟩
abbrev main_v423 : Ref sig .tc := ⟨.hbm, 924, rfl⟩
abbrev main_cst_182 : Ref sig .tc := ⟨.hbm, 925, rfl⟩
abbrev main_v424 : Ref sig .tc := ⟨.hbm, 926, rfl⟩
abbrev main_v425 : Ref sig .tc := ⟨.hbm, 927, rfl⟩
abbrev main_v426 : Ref sig .tc := ⟨.hbm, 928, rfl⟩
abbrev main_v427 : Ref sig .tc := ⟨.hbm, 929, rfl⟩
abbrev main_v428 : Ref sig .tc := ⟨.hbm, 930, rfl⟩
abbrev main_v429 : Ref sig .tc := ⟨.hbm, 931, rfl⟩
abbrev main_v430 : Ref sig .tc := ⟨.hbm, 932, rfl⟩
abbrev main_v431 : Ref sig .tc := ⟨.hbm, 933, rfl⟩
abbrev main_v432 : Ref sig .tc := ⟨.hbm, 934, rfl⟩
abbrev main_v433 : Ref sig .tc := ⟨.hbm, 935, rfl⟩
abbrev main_v434 : Ref sig .tc := ⟨.hbm, 936, rfl⟩
abbrev main_cst_183 : Ref sig .tc := ⟨.hbm, 937, rfl⟩
abbrev main_v435 : Ref sig .tc := ⟨.hbm, 938, rfl⟩
abbrev main_c_184 : Ref sig .tc := ⟨.hbm, 939, rfl⟩
abbrev main_v436 : Ref sig .tc := ⟨.hbm, 940, rfl⟩
abbrev main_v437 : Ref sig .tc := ⟨.hbm, 941, rfl⟩
abbrev main_c_185 : Ref sig .tc := ⟨.hbm, 942, rfl⟩
abbrev main_v438 : Ref sig .tc := ⟨.hbm, 943, rfl⟩
abbrev main_v439 : Ref sig .tc := ⟨.hbm, 944, rfl⟩
abbrev main_c_186 : Ref sig .tc := ⟨.hbm, 945, rfl⟩
abbrev main_v440 : Ref sig .tc := ⟨.hbm, 946, rfl⟩
abbrev main_v441 : Ref sig .tc := ⟨.hbm, 947, rfl⟩
abbrev main_c_187 : Ref sig .tc := ⟨.hbm, 948, rfl⟩
abbrev main_v442 : Ref sig .tc := ⟨.hbm, 949, rfl⟩
abbrev main_v443 : Ref sig .tc := ⟨.hbm, 950, rfl⟩
abbrev main_c_188 : Ref sig .tc := ⟨.hbm, 951, rfl⟩
abbrev main_v444 : Ref sig .tc := ⟨.hbm, 952, rfl⟩
abbrev main_v445 : Ref sig .tc := ⟨.hbm, 953, rfl⟩
abbrev main_v446 : Ref sig .tc := ⟨.hbm, 954, rfl⟩
abbrev main_c_189 : Ref sig .tc := ⟨.hbm, 955, rfl⟩
abbrev main_v447 : Ref sig .tc := ⟨.hbm, 956, rfl⟩
abbrev main_v448 : Ref sig .tc := ⟨.hbm, 957, rfl⟩
abbrev main_v449 : Ref sig .tc := ⟨.hbm, 958, rfl⟩
abbrev main_c_190 : Ref sig .tc := ⟨.hbm, 959, rfl⟩
abbrev main_v450 : Ref sig .tc := ⟨.hbm, 960, rfl⟩
abbrev main_v451 : Ref sig .tc := ⟨.hbm, 961, rfl⟩
abbrev main_v452 : Ref sig .tc := ⟨.hbm, 962, rfl⟩
abbrev main_c_191 : Ref sig .tc := ⟨.hbm, 963, rfl⟩
abbrev main_v453 : Ref sig .tc := ⟨.hbm, 964, rfl⟩
abbrev main_v454 : Ref sig .tc := ⟨.hbm, 965, rfl⟩
abbrev main_v455 : Ref sig .tc := ⟨.hbm, 966, rfl⟩
abbrev main_c_192 : Ref sig .tc := ⟨.hbm, 967, rfl⟩
abbrev main_v456 : Ref sig .tc := ⟨.hbm, 968, rfl⟩
abbrev main_v457 : Ref sig .tc := ⟨.hbm, 969, rfl⟩
abbrev main_v458 : Ref sig .tc := ⟨.hbm, 970, rfl⟩
abbrev main_c_193 : Ref sig .tc := ⟨.hbm, 971, rfl⟩
abbrev main_c_194 : Ref sig .tc := ⟨.hbm, 972, rfl⟩
abbrev main_call40_v0 : Ref sig .tc := ⟨.hbm, 973, rfl⟩
abbrev main_call40_v1 : Ref sig .tc := ⟨.hbm, 974, rfl⟩
abbrev main_call40_v2 : Ref sig .tc := ⟨.hbm, 975, rfl⟩
abbrev main_call40_v3 : Ref sig .tc := ⟨.hbm, 976, rfl⟩
abbrev main_call40_v4 : Ref sig .tc := ⟨.hbm, 977, rfl⟩
abbrev main_v459 : Ref sig .tc := ⟨.hbm, 978, rfl⟩
abbrev main_c_195 : Ref sig .tc := ⟨.hbm, 979, rfl⟩
abbrev main_c_196 : Ref sig .tc := ⟨.hbm, 980, rfl⟩
abbrev main_call41_v0 : Ref sig .tc := ⟨.hbm, 981, rfl⟩
abbrev main_call41_v1 : Ref sig .tc := ⟨.hbm, 982, rfl⟩
abbrev main_call41_v2 : Ref sig .tc := ⟨.hbm, 983, rfl⟩
abbrev main_call41_v3 : Ref sig .tc := ⟨.hbm, 984, rfl⟩
abbrev main_call41_v4 : Ref sig .tc := ⟨.hbm, 985, rfl⟩
abbrev main_v460 : Ref sig .tc := ⟨.hbm, 986, rfl⟩
abbrev main_c_197 : Ref sig .tc := ⟨.hbm, 987, rfl⟩
abbrev main_c_198 : Ref sig .tc := ⟨.hbm, 988, rfl⟩
abbrev main_call42_v0 : Ref sig .tc := ⟨.hbm, 989, rfl⟩
abbrev main_call42_v1 : Ref sig .tc := ⟨.hbm, 990, rfl⟩
abbrev main_call42_v2 : Ref sig .tc := ⟨.hbm, 991, rfl⟩
abbrev main_call42_v3 : Ref sig .tc := ⟨.hbm, 992, rfl⟩
abbrev main_call42_v4 : Ref sig .tc := ⟨.hbm, 993, rfl⟩
abbrev main_v461 : Ref sig .tc := ⟨.hbm, 994, rfl⟩
abbrev main_c_199 : Ref sig .tc := ⟨.hbm, 995, rfl⟩
abbrev main_v462 : Ref sig .tc := ⟨.hbm, 996, rfl⟩
abbrev main_v463 : Ref sig .tc := ⟨.hbm, 997, rfl⟩
abbrev main_c_200 : Ref sig .tc := ⟨.hbm, 998, rfl⟩
abbrev main_v464 : Ref sig .tc := ⟨.hbm, 999, rfl⟩
abbrev main_v465 : Ref sig .tc := ⟨.hbm, 1000, rfl⟩
abbrev main_v466 : Ref sig .tc := ⟨.hbm, 1001, rfl⟩
abbrev main_v467 : Ref sig .tc := ⟨.hbm, 1002, rfl⟩
abbrev main_cst_201 : Ref sig .tc := ⟨.hbm, 1003, rfl⟩
abbrev main_v468 : Ref sig .tc := ⟨.hbm, 1004, rfl⟩
abbrev main_v469 : Ref sig .tc := ⟨.hbm, 1005, rfl⟩
abbrev main_cst_202 : Ref sig .tc := ⟨.hbm, 1006, rfl⟩
abbrev main_v470 : Ref sig .tc := ⟨.hbm, 1007, rfl⟩
abbrev main_v471 : Ref sig .tc := ⟨.hbm, 1008, rfl⟩
abbrev main_v472 : Ref sig .tc := ⟨.hbm, 1009, rfl⟩
abbrev main_cst_203 : Ref sig .tc := ⟨.hbm, 1010, rfl⟩
abbrev main_v473 : Ref sig .tc := ⟨.hbm, 1011, rfl⟩
abbrev main_v474 : Ref sig .tc := ⟨.hbm, 1012, rfl⟩
abbrev main_v475 : Ref sig .tc := ⟨.hbm, 1013, rfl⟩
abbrev main_cst_204 : Ref sig .tc := ⟨.hbm, 1014, rfl⟩
abbrev main_call43_v0 : Ref sig .tc := ⟨.hbm, 1015, rfl⟩
abbrev main_call43_v1 : Ref sig .tc := ⟨.hbm, 1016, rfl⟩
abbrev main_v476 : Ref sig .tc := ⟨.hbm, 1017, rfl⟩
abbrev main_call44_c : Ref sig .tc := ⟨.hbm, 1018, rfl⟩
abbrev main_call44_v0 : Ref sig .tc := ⟨.hbm, 1019, rfl⟩
abbrev main_call44_v1 : Ref sig .tc := ⟨.hbm, 1020, rfl⟩
abbrev main_call44_c_0 : Ref sig .tc := ⟨.hbm, 1021, rfl⟩
abbrev main_call44_v2 : Ref sig .tc := ⟨.hbm, 1022, rfl⟩
abbrev main_call44_v3 : Ref sig .tc := ⟨.hbm, 1023, rfl⟩
abbrev main_call44_v4 : Ref sig .tc := ⟨.hbm, 1024, rfl⟩
abbrev main_call44_v5 : Ref sig .tc := ⟨.hbm, 1025, rfl⟩
abbrev main_call44_c_1 : Ref sig .tc := ⟨.hbm, 1026, rfl⟩
abbrev main_call44_c_2 : Ref sig .tc := ⟨.hbm, 1027, rfl⟩
abbrev main_call44_v6 : Ref sig .tc := ⟨.hbm, 1028, rfl⟩
abbrev main_call44_v7 : Ref sig .tc := ⟨.hbm, 1029, rfl⟩
abbrev main_call44_v8 : Ref sig .tc := ⟨.hbm, 1030, rfl⟩
abbrev main_call44_v9 : Ref sig .tc := ⟨.hbm, 1031, rfl⟩
abbrev main_call44_v10 : Ref sig .tc := ⟨.hbm, 1032, rfl⟩
abbrev main_call44_v11 : Ref sig .tc := ⟨.hbm, 1033, rfl⟩
abbrev main_call44_c_3 : Ref sig .tc := ⟨.hbm, 1034, rfl⟩
abbrev main_call44_v12 : Ref sig .tc := ⟨.hbm, 1035, rfl⟩
abbrev main_call44_v13 : Ref sig .tc := ⟨.hbm, 1036, rfl⟩
abbrev main_call44_v14 : Ref sig .tc := ⟨.hbm, 1037, rfl⟩
abbrev main_call44_cst : Ref sig .tc := ⟨.hbm, 1038, rfl⟩
abbrev main_call44_v15 : Ref sig .tc := ⟨.hbm, 1039, rfl⟩
abbrev main_v477 : Ref sig .tc := ⟨.hbm, 1040, rfl⟩
abbrev main_v478 : Ref sig .tc := ⟨.hbm, 1041, rfl⟩
abbrev main_v479 : Ref sig .tc := ⟨.hbm, 1042, rfl⟩
abbrev main_v480 : Ref sig .tc := ⟨.hbm, 1043, rfl⟩
abbrev main_v481 : Ref sig .tc := ⟨.hbm, 1044, rfl⟩
abbrev main_v482 : Ref sig .tc := ⟨.hbm, 1045, rfl⟩
abbrev main_v483 : Ref sig .tc := ⟨.hbm, 1046, rfl⟩
abbrev main_c_205 : Ref sig .tc := ⟨.hbm, 1047, rfl⟩
abbrev main_v484 : Ref sig .tc := ⟨.hbm, 1048, rfl⟩
abbrev main_v485 : Ref sig .tc := ⟨.hbm, 1049, rfl⟩
abbrev main_c_206 : Ref sig .tc := ⟨.hbm, 1050, rfl⟩
abbrev main_v486 : Ref sig .tc := ⟨.hbm, 1051, rfl⟩
abbrev main_v487 : Ref sig .tc := ⟨.hbm, 1052, rfl⟩
abbrev main_c_207 : Ref sig .tc := ⟨.hbm, 1053, rfl⟩
abbrev main_v488 : Ref sig .tc := ⟨.hbm, 1054, rfl⟩
abbrev main_v489 : Ref sig .tc := ⟨.hbm, 1055, rfl⟩
abbrev main_c_208 : Ref sig .tc := ⟨.hbm, 1056, rfl⟩
abbrev main_v490 : Ref sig .tc := ⟨.hbm, 1057, rfl⟩
abbrev main_v491 : Ref sig .tc := ⟨.hbm, 1058, rfl⟩
abbrev main_c_209 : Ref sig .tc := ⟨.hbm, 1059, rfl⟩
abbrev main_v492 : Ref sig .tc := ⟨.hbm, 1060, rfl⟩
abbrev main_v493 : Ref sig .tc := ⟨.hbm, 1061, rfl⟩
abbrev main_v494 : Ref sig .tc := ⟨.hbm, 1062, rfl⟩
abbrev main_c_210 : Ref sig .tc := ⟨.hbm, 1063, rfl⟩
abbrev main_v495 : Ref sig .tc := ⟨.hbm, 1064, rfl⟩
abbrev main_v496 : Ref sig .tc := ⟨.hbm, 1065, rfl⟩
abbrev main_v497 : Ref sig .tc := ⟨.hbm, 1066, rfl⟩
abbrev main_c_211 : Ref sig .tc := ⟨.hbm, 1067, rfl⟩
abbrev main_v498 : Ref sig .tc := ⟨.hbm, 1068, rfl⟩
abbrev main_v499 : Ref sig .tc := ⟨.hbm, 1069, rfl⟩
abbrev main_v500 : Ref sig .tc := ⟨.hbm, 1070, rfl⟩
abbrev main_c_212 : Ref sig .tc := ⟨.hbm, 1071, rfl⟩
abbrev main_v501 : Ref sig .tc := ⟨.hbm, 1072, rfl⟩
abbrev main_v502 : Ref sig .tc := ⟨.hbm, 1073, rfl⟩
abbrev main_v503 : Ref sig .tc := ⟨.hbm, 1074, rfl⟩
abbrev main_c_213 : Ref sig .tc := ⟨.hbm, 1075, rfl⟩
abbrev main_v504 : Ref sig .tc := ⟨.hbm, 1076, rfl⟩
abbrev main_v505 : Ref sig .tc := ⟨.hbm, 1077, rfl⟩
abbrev main_v506 : Ref sig .tc := ⟨.hbm, 1078, rfl⟩
abbrev main_c_214 : Ref sig .tc := ⟨.hbm, 1079, rfl⟩
abbrev main_c_215 : Ref sig .tc := ⟨.hbm, 1080, rfl⟩
abbrev main_call45_v0 : Ref sig .tc := ⟨.hbm, 1081, rfl⟩
abbrev main_call45_v1 : Ref sig .tc := ⟨.hbm, 1082, rfl⟩
abbrev main_call45_v2 : Ref sig .tc := ⟨.hbm, 1083, rfl⟩
abbrev main_call45_v3 : Ref sig .tc := ⟨.hbm, 1084, rfl⟩
abbrev main_call45_v4 : Ref sig .tc := ⟨.hbm, 1085, rfl⟩
abbrev main_v507 : Ref sig .tc := ⟨.hbm, 1086, rfl⟩
abbrev main_c_216 : Ref sig .tc := ⟨.hbm, 1087, rfl⟩
abbrev main_c_217 : Ref sig .tc := ⟨.hbm, 1088, rfl⟩
abbrev main_call46_v0 : Ref sig .tc := ⟨.hbm, 1089, rfl⟩
abbrev main_call46_v1 : Ref sig .tc := ⟨.hbm, 1090, rfl⟩
abbrev main_call46_v2 : Ref sig .tc := ⟨.hbm, 1091, rfl⟩
abbrev main_call46_v3 : Ref sig .tc := ⟨.hbm, 1092, rfl⟩
abbrev main_call46_v4 : Ref sig .tc := ⟨.hbm, 1093, rfl⟩
abbrev main_v508 : Ref sig .tc := ⟨.hbm, 1094, rfl⟩
abbrev main_c_218 : Ref sig .tc := ⟨.hbm, 1095, rfl⟩
abbrev main_c_219 : Ref sig .tc := ⟨.hbm, 1096, rfl⟩
abbrev main_call47_v0 : Ref sig .tc := ⟨.hbm, 1097, rfl⟩
abbrev main_call47_v1 : Ref sig .tc := ⟨.hbm, 1098, rfl⟩
abbrev main_call47_v2 : Ref sig .tc := ⟨.hbm, 1099, rfl⟩
abbrev main_call47_v3 : Ref sig .tc := ⟨.hbm, 1100, rfl⟩
abbrev main_call47_v4 : Ref sig .tc := ⟨.hbm, 1101, rfl⟩
abbrev main_v509 : Ref sig .tc := ⟨.hbm, 1102, rfl⟩
abbrev main_c_220 : Ref sig .tc := ⟨.hbm, 1103, rfl⟩
abbrev main_v510 : Ref sig .tc := ⟨.hbm, 1104, rfl⟩
abbrev main_v511 : Ref sig .tc := ⟨.hbm, 1105, rfl⟩
abbrev main_c_221 : Ref sig .tc := ⟨.hbm, 1106, rfl⟩
abbrev main_v512 : Ref sig .tc := ⟨.hbm, 1107, rfl⟩
abbrev main_v513 : Ref sig .tc := ⟨.hbm, 1108, rfl⟩
abbrev main_v514 : Ref sig .tc := ⟨.hbm, 1109, rfl⟩
abbrev main_v515 : Ref sig .tc := ⟨.hbm, 1110, rfl⟩
abbrev main_cst_222 : Ref sig .tc := ⟨.hbm, 1111, rfl⟩
abbrev main_v516 : Ref sig .tc := ⟨.hbm, 1112, rfl⟩
abbrev main_v517 : Ref sig .tc := ⟨.hbm, 1113, rfl⟩
abbrev main_cst_223 : Ref sig .tc := ⟨.hbm, 1114, rfl⟩
abbrev main_v518 : Ref sig .tc := ⟨.hbm, 1115, rfl⟩
abbrev main_v519 : Ref sig .tc := ⟨.hbm, 1116, rfl⟩
abbrev main_v520 : Ref sig .tc := ⟨.hbm, 1117, rfl⟩
abbrev main_v521 : Ref sig .tc := ⟨.hbm, 1118, rfl⟩
abbrev main_cst_224 : Ref sig .tc := ⟨.hbm, 1119, rfl⟩
abbrev main_call48_v0 : Ref sig .tc := ⟨.hbm, 1120, rfl⟩
abbrev main_call48_v1 : Ref sig .tc := ⟨.hbm, 1121, rfl⟩
abbrev main_v522 : Ref sig .tc := ⟨.hbm, 1122, rfl⟩
abbrev main_call49_c : Ref sig .tc := ⟨.hbm, 1123, rfl⟩
abbrev main_call49_v0 : Ref sig .tc := ⟨.hbm, 1124, rfl⟩
abbrev main_call49_v1 : Ref sig .tc := ⟨.hbm, 1125, rfl⟩
abbrev main_call49_c_0 : Ref sig .tc := ⟨.hbm, 1126, rfl⟩
abbrev main_call49_v2 : Ref sig .tc := ⟨.hbm, 1127, rfl⟩
abbrev main_call49_v3 : Ref sig .tc := ⟨.hbm, 1128, rfl⟩
abbrev main_call49_v4 : Ref sig .tc := ⟨.hbm, 1129, rfl⟩
abbrev main_call49_v5 : Ref sig .tc := ⟨.hbm, 1130, rfl⟩
abbrev main_call49_c_1 : Ref sig .tc := ⟨.hbm, 1131, rfl⟩
abbrev main_call49_c_2 : Ref sig .tc := ⟨.hbm, 1132, rfl⟩
abbrev main_call49_v6 : Ref sig .tc := ⟨.hbm, 1133, rfl⟩
abbrev main_call49_v7 : Ref sig .tc := ⟨.hbm, 1134, rfl⟩
abbrev main_call49_v8 : Ref sig .tc := ⟨.hbm, 1135, rfl⟩
abbrev main_call49_v9 : Ref sig .tc := ⟨.hbm, 1136, rfl⟩
abbrev main_call49_v10 : Ref sig .tc := ⟨.hbm, 1137, rfl⟩
abbrev main_call49_v11 : Ref sig .tc := ⟨.hbm, 1138, rfl⟩
abbrev main_call49_c_3 : Ref sig .tc := ⟨.hbm, 1139, rfl⟩
abbrev main_call49_v12 : Ref sig .tc := ⟨.hbm, 1140, rfl⟩
abbrev main_call49_v13 : Ref sig .tc := ⟨.hbm, 1141, rfl⟩
abbrev main_call49_v14 : Ref sig .tc := ⟨.hbm, 1142, rfl⟩
abbrev main_call49_cst : Ref sig .tc := ⟨.hbm, 1143, rfl⟩
abbrev main_call49_v15 : Ref sig .tc := ⟨.hbm, 1144, rfl⟩
abbrev main_v523 : Ref sig .tc := ⟨.hbm, 1145, rfl⟩
abbrev main_v524 : Ref sig .tc := ⟨.hbm, 1146, rfl⟩
abbrev main_v525 : Ref sig .tc := ⟨.hbm, 1147, rfl⟩
abbrev main_v526 : Ref sig .tc := ⟨.hbm, 1148, rfl⟩
abbrev main_v527 : Ref sig .tc := ⟨.hbm, 1149, rfl⟩
abbrev main_c_225 : Ref sig .tc := ⟨.hbm, 1150, rfl⟩
abbrev main_v528 : Ref sig .tc := ⟨.hbm, 1151, rfl⟩
abbrev main_v529 : Ref sig .tc := ⟨.hbm, 1152, rfl⟩
abbrev main_c_226 : Ref sig .tc := ⟨.hbm, 1153, rfl⟩
abbrev main_v530 : Ref sig .tc := ⟨.hbm, 1154, rfl⟩
abbrev main_v531 : Ref sig .tc := ⟨.hbm, 1155, rfl⟩
abbrev main_c_227 : Ref sig .tc := ⟨.hbm, 1156, rfl⟩
abbrev main_v532 : Ref sig .tc := ⟨.hbm, 1157, rfl⟩
abbrev main_v533 : Ref sig .tc := ⟨.hbm, 1158, rfl⟩
abbrev main_c_228 : Ref sig .tc := ⟨.hbm, 1159, rfl⟩
abbrev main_v534 : Ref sig .tc := ⟨.hbm, 1160, rfl⟩
abbrev main_v535 : Ref sig .tc := ⟨.hbm, 1161, rfl⟩
abbrev main_c_229 : Ref sig .tc := ⟨.hbm, 1162, rfl⟩
abbrev main_v536 : Ref sig .tc := ⟨.hbm, 1163, rfl⟩
abbrev main_v537 : Ref sig .tc := ⟨.hbm, 1164, rfl⟩
abbrev main_v538 : Ref sig .tc := ⟨.hbm, 1165, rfl⟩
abbrev main_c_230 : Ref sig .tc := ⟨.hbm, 1166, rfl⟩
abbrev main_v539 : Ref sig .tc := ⟨.hbm, 1167, rfl⟩
abbrev main_v540 : Ref sig .tc := ⟨.hbm, 1168, rfl⟩
abbrev main_v541 : Ref sig .tc := ⟨.hbm, 1169, rfl⟩
abbrev main_c_231 : Ref sig .tc := ⟨.hbm, 1170, rfl⟩
abbrev main_v542 : Ref sig .tc := ⟨.hbm, 1171, rfl⟩
abbrev main_v543 : Ref sig .tc := ⟨.hbm, 1172, rfl⟩
abbrev main_v544 : Ref sig .tc := ⟨.hbm, 1173, rfl⟩
abbrev main_c_232 : Ref sig .tc := ⟨.hbm, 1174, rfl⟩
abbrev main_v545 : Ref sig .tc := ⟨.hbm, 1175, rfl⟩
abbrev main_v546 : Ref sig .tc := ⟨.hbm, 1176, rfl⟩
abbrev main_v547 : Ref sig .tc := ⟨.hbm, 1177, rfl⟩
abbrev main_c_233 : Ref sig .tc := ⟨.hbm, 1178, rfl⟩
abbrev main_v548 : Ref sig .tc := ⟨.hbm, 1179, rfl⟩
abbrev main_v549 : Ref sig .tc := ⟨.hbm, 1180, rfl⟩
abbrev main_v550 : Ref sig .tc := ⟨.hbm, 1181, rfl⟩
abbrev main_c_234 : Ref sig .tc := ⟨.hbm, 1182, rfl⟩
abbrev main_c_235 : Ref sig .tc := ⟨.hbm, 1183, rfl⟩
abbrev main_call50_v0 : Ref sig .tc := ⟨.hbm, 1184, rfl⟩
abbrev main_call50_v1 : Ref sig .tc := ⟨.hbm, 1185, rfl⟩
abbrev main_call50_v2 : Ref sig .tc := ⟨.hbm, 1186, rfl⟩
abbrev main_call50_v3 : Ref sig .tc := ⟨.hbm, 1187, rfl⟩
abbrev main_call50_v4 : Ref sig .tc := ⟨.hbm, 1188, rfl⟩
abbrev main_v551 : Ref sig .tc := ⟨.hbm, 1189, rfl⟩
abbrev main_c_236 : Ref sig .tc := ⟨.hbm, 1190, rfl⟩
abbrev main_c_237 : Ref sig .tc := ⟨.hbm, 1191, rfl⟩
abbrev main_call51_v0 : Ref sig .tc := ⟨.hbm, 1192, rfl⟩
abbrev main_call51_v1 : Ref sig .tc := ⟨.hbm, 1193, rfl⟩
abbrev main_call51_v2 : Ref sig .tc := ⟨.hbm, 1194, rfl⟩
abbrev main_call51_v3 : Ref sig .tc := ⟨.hbm, 1195, rfl⟩
abbrev main_call51_v4 : Ref sig .tc := ⟨.hbm, 1196, rfl⟩
abbrev main_v552 : Ref sig .tc := ⟨.hbm, 1197, rfl⟩
abbrev main_c_238 : Ref sig .tc := ⟨.hbm, 1198, rfl⟩
abbrev main_c_239 : Ref sig .tc := ⟨.hbm, 1199, rfl⟩
abbrev main_call52_v0 : Ref sig .tc := ⟨.hbm, 1200, rfl⟩
abbrev main_call52_v1 : Ref sig .tc := ⟨.hbm, 1201, rfl⟩
abbrev main_call52_v2 : Ref sig .tc := ⟨.hbm, 1202, rfl⟩
abbrev main_call52_v3 : Ref sig .tc := ⟨.hbm, 1203, rfl⟩
abbrev main_call52_v4 : Ref sig .tc := ⟨.hbm, 1204, rfl⟩
abbrev main_v553 : Ref sig .tc := ⟨.hbm, 1205, rfl⟩
abbrev main_c_240 : Ref sig .tc := ⟨.hbm, 1206, rfl⟩
abbrev main_v554 : Ref sig .tc := ⟨.hbm, 1207, rfl⟩
abbrev main_v555 : Ref sig .tc := ⟨.hbm, 1208, rfl⟩
abbrev main_c_241 : Ref sig .tc := ⟨.hbm, 1209, rfl⟩
abbrev main_v556 : Ref sig .tc := ⟨.hbm, 1210, rfl⟩
abbrev main_v557 : Ref sig .tc := ⟨.hbm, 1211, rfl⟩
abbrev main_v558 : Ref sig .tc := ⟨.hbm, 1212, rfl⟩
abbrev main_v559 : Ref sig .tc := ⟨.hbm, 1213, rfl⟩
abbrev main_cst_242 : Ref sig .tc := ⟨.hbm, 1214, rfl⟩
abbrev main_v560 : Ref sig .tc := ⟨.hbm, 1215, rfl⟩
abbrev main_v561 : Ref sig .tc := ⟨.hbm, 1216, rfl⟩
abbrev main_v562 : Ref sig .tc := ⟨.hbm, 1217, rfl⟩
abbrev main_cst_243 : Ref sig .tc := ⟨.hbm, 1218, rfl⟩
abbrev main_v563 : Ref sig .tc := ⟨.hbm, 1219, rfl⟩
abbrev main_v564 : Ref sig .tc := ⟨.hbm, 1220, rfl⟩
abbrev main_v565 : Ref sig .tc := ⟨.hbm, 1221, rfl⟩
abbrev main_cst_244 : Ref sig .tc := ⟨.hbm, 1222, rfl⟩
abbrev main_call53_v0 : Ref sig .tc := ⟨.hbm, 1223, rfl⟩
abbrev main_call53_v1 : Ref sig .tc := ⟨.hbm, 1224, rfl⟩
abbrev main_v566 : Ref sig .tc := ⟨.hbm, 1225, rfl⟩
abbrev main_call54_c : Ref sig .tc := ⟨.hbm, 1226, rfl⟩
abbrev main_call54_v0 : Ref sig .tc := ⟨.hbm, 1227, rfl⟩
abbrev main_call54_v1 : Ref sig .tc := ⟨.hbm, 1228, rfl⟩
abbrev main_call54_c_0 : Ref sig .tc := ⟨.hbm, 1229, rfl⟩
abbrev main_call54_v2 : Ref sig .tc := ⟨.hbm, 1230, rfl⟩
abbrev main_call54_v3 : Ref sig .tc := ⟨.hbm, 1231, rfl⟩
abbrev main_call54_v4 : Ref sig .tc := ⟨.hbm, 1232, rfl⟩
abbrev main_call54_v5 : Ref sig .tc := ⟨.hbm, 1233, rfl⟩
abbrev main_call54_c_1 : Ref sig .tc := ⟨.hbm, 1234, rfl⟩
abbrev main_call54_c_2 : Ref sig .tc := ⟨.hbm, 1235, rfl⟩
abbrev main_call54_v6 : Ref sig .tc := ⟨.hbm, 1236, rfl⟩
abbrev main_call54_v7 : Ref sig .tc := ⟨.hbm, 1237, rfl⟩
abbrev main_call54_v8 : Ref sig .tc := ⟨.hbm, 1238, rfl⟩
abbrev main_call54_v9 : Ref sig .tc := ⟨.hbm, 1239, rfl⟩
abbrev main_call54_v10 : Ref sig .tc := ⟨.hbm, 1240, rfl⟩
abbrev main_call54_v11 : Ref sig .tc := ⟨.hbm, 1241, rfl⟩
abbrev main_call54_c_3 : Ref sig .tc := ⟨.hbm, 1242, rfl⟩
abbrev main_call54_v12 : Ref sig .tc := ⟨.hbm, 1243, rfl⟩
abbrev main_call54_v13 : Ref sig .tc := ⟨.hbm, 1244, rfl⟩
abbrev main_call54_v14 : Ref sig .tc := ⟨.hbm, 1245, rfl⟩
abbrev main_call54_cst : Ref sig .tc := ⟨.hbm, 1246, rfl⟩
abbrev main_call54_v15 : Ref sig .tc := ⟨.hbm, 1247, rfl⟩
abbrev main_v567 : Ref sig .tc := ⟨.hbm, 1248, rfl⟩
abbrev main_v568 : Ref sig .tc := ⟨.hbm, 1249, rfl⟩
abbrev main_v569 : Ref sig .tc := ⟨.hbm, 1250, rfl⟩
abbrev main_v570 : Ref sig .tc := ⟨.hbm, 1251, rfl⟩
abbrev main_v571 : Ref sig .tc := ⟨.hbm, 1252, rfl⟩
abbrev main_c_245 : Ref sig .tc := ⟨.hbm, 1253, rfl⟩
abbrev main_v572 : Ref sig .tc := ⟨.hbm, 1254, rfl⟩
abbrev main_v573 : Ref sig .tc := ⟨.hbm, 1255, rfl⟩
abbrev main_c_246 : Ref sig .tc := ⟨.hbm, 1256, rfl⟩
abbrev main_v574 : Ref sig .tc := ⟨.hbm, 1257, rfl⟩
abbrev main_v575 : Ref sig .tc := ⟨.hbm, 1258, rfl⟩
abbrev main_c_247 : Ref sig .tc := ⟨.hbm, 1259, rfl⟩
abbrev main_v576 : Ref sig .tc := ⟨.hbm, 1260, rfl⟩
abbrev main_v577 : Ref sig .tc := ⟨.hbm, 1261, rfl⟩
abbrev main_c_248 : Ref sig .tc := ⟨.hbm, 1262, rfl⟩
abbrev main_v578 : Ref sig .tc := ⟨.hbm, 1263, rfl⟩
abbrev main_v579 : Ref sig .tc := ⟨.hbm, 1264, rfl⟩
abbrev main_c_249 : Ref sig .tc := ⟨.hbm, 1265, rfl⟩
abbrev main_v580 : Ref sig .tc := ⟨.hbm, 1266, rfl⟩
abbrev main_v581 : Ref sig .tc := ⟨.hbm, 1267, rfl⟩
abbrev main_v582 : Ref sig .tc := ⟨.hbm, 1268, rfl⟩
abbrev main_c_250 : Ref sig .tc := ⟨.hbm, 1269, rfl⟩
abbrev main_v583 : Ref sig .tc := ⟨.hbm, 1270, rfl⟩
abbrev main_v584 : Ref sig .tc := ⟨.hbm, 1271, rfl⟩
abbrev main_v585 : Ref sig .tc := ⟨.hbm, 1272, rfl⟩
abbrev main_c_251 : Ref sig .tc := ⟨.hbm, 1273, rfl⟩
abbrev main_v586 : Ref sig .tc := ⟨.hbm, 1274, rfl⟩
abbrev main_v587 : Ref sig .tc := ⟨.hbm, 1275, rfl⟩
abbrev main_v588 : Ref sig .tc := ⟨.hbm, 1276, rfl⟩
abbrev main_c_252 : Ref sig .tc := ⟨.hbm, 1277, rfl⟩
abbrev main_v589 : Ref sig .tc := ⟨.hbm, 1278, rfl⟩
abbrev main_v590 : Ref sig .tc := ⟨.hbm, 1279, rfl⟩
abbrev main_v591 : Ref sig .tc := ⟨.hbm, 1280, rfl⟩
abbrev main_c_253 : Ref sig .tc := ⟨.hbm, 1281, rfl⟩
abbrev main_v592 : Ref sig .tc := ⟨.hbm, 1282, rfl⟩
abbrev main_v593 : Ref sig .tc := ⟨.hbm, 1283, rfl⟩
abbrev main_v594 : Ref sig .tc := ⟨.hbm, 1284, rfl⟩
abbrev main_c_254 : Ref sig .tc := ⟨.hbm, 1285, rfl⟩
abbrev main_c_255 : Ref sig .tc := ⟨.hbm, 1286, rfl⟩
abbrev main_call55_v0 : Ref sig .tc := ⟨.hbm, 1287, rfl⟩
abbrev main_call55_v1 : Ref sig .tc := ⟨.hbm, 1288, rfl⟩
abbrev main_call55_v2 : Ref sig .tc := ⟨.hbm, 1289, rfl⟩
abbrev main_call55_v3 : Ref sig .tc := ⟨.hbm, 1290, rfl⟩
abbrev main_call55_v4 : Ref sig .tc := ⟨.hbm, 1291, rfl⟩
abbrev main_v595 : Ref sig .tc := ⟨.hbm, 1292, rfl⟩
abbrev main_c_256 : Ref sig .tc := ⟨.hbm, 1293, rfl⟩
abbrev main_c_257 : Ref sig .tc := ⟨.hbm, 1294, rfl⟩
abbrev main_call56_v0 : Ref sig .tc := ⟨.hbm, 1295, rfl⟩
abbrev main_call56_v1 : Ref sig .tc := ⟨.hbm, 1296, rfl⟩
abbrev main_call56_v2 : Ref sig .tc := ⟨.hbm, 1297, rfl⟩
abbrev main_call56_v3 : Ref sig .tc := ⟨.hbm, 1298, rfl⟩
abbrev main_call56_v4 : Ref sig .tc := ⟨.hbm, 1299, rfl⟩
abbrev main_v596 : Ref sig .tc := ⟨.hbm, 1300, rfl⟩
abbrev main_c_258 : Ref sig .tc := ⟨.hbm, 1301, rfl⟩
abbrev main_c_259 : Ref sig .tc := ⟨.hbm, 1302, rfl⟩
abbrev main_call57_v0 : Ref sig .tc := ⟨.hbm, 1303, rfl⟩
abbrev main_call57_v1 : Ref sig .tc := ⟨.hbm, 1304, rfl⟩
abbrev main_call57_v2 : Ref sig .tc := ⟨.hbm, 1305, rfl⟩
abbrev main_call57_v3 : Ref sig .tc := ⟨.hbm, 1306, rfl⟩
abbrev main_call57_v4 : Ref sig .tc := ⟨.hbm, 1307, rfl⟩
abbrev main_v597 : Ref sig .tc := ⟨.hbm, 1308, rfl⟩
abbrev main_c_260 : Ref sig .tc := ⟨.hbm, 1309, rfl⟩
abbrev main_v598 : Ref sig .tc := ⟨.hbm, 1310, rfl⟩
abbrev main_v599 : Ref sig .tc := ⟨.hbm, 1311, rfl⟩
abbrev main_c_261 : Ref sig .tc := ⟨.hbm, 1312, rfl⟩
abbrev main_v600 : Ref sig .tc := ⟨.hbm, 1313, rfl⟩
abbrev main_v601 : Ref sig .tc := ⟨.hbm, 1314, rfl⟩
abbrev main_v602 : Ref sig .tc := ⟨.hbm, 1315, rfl⟩
abbrev main_v603 : Ref sig .tc := ⟨.hbm, 1316, rfl⟩
abbrev main_cst_262 : Ref sig .tc := ⟨.hbm, 1317, rfl⟩
abbrev main_v604 : Ref sig .tc := ⟨.hbm, 1318, rfl⟩
abbrev main_v605 : Ref sig .tc := ⟨.hbm, 1319, rfl⟩
abbrev main_v606 : Ref sig .tc := ⟨.hbm, 1320, rfl⟩
abbrev main_v607 : Ref sig .tc := ⟨.hbm, 1321, rfl⟩
abbrev main_cst_263 : Ref sig .tc := ⟨.hbm, 1322, rfl⟩
abbrev main_call58_v0 : Ref sig .tc := ⟨.hbm, 1323, rfl⟩
abbrev main_call58_v1 : Ref sig .tc := ⟨.hbm, 1324, rfl⟩
abbrev main_v608 : Ref sig .tc := ⟨.hbm, 1325, rfl⟩
abbrev main_call59_c : Ref sig .tc := ⟨.hbm, 1326, rfl⟩
abbrev main_call59_v0 : Ref sig .tc := ⟨.hbm, 1327, rfl⟩
abbrev main_call59_v1 : Ref sig .tc := ⟨.hbm, 1328, rfl⟩
abbrev main_call59_c_0 : Ref sig .tc := ⟨.hbm, 1329, rfl⟩
abbrev main_call59_v2 : Ref sig .tc := ⟨.hbm, 1330, rfl⟩
abbrev main_call59_v3 : Ref sig .tc := ⟨.hbm, 1331, rfl⟩
abbrev main_call59_v4 : Ref sig .tc := ⟨.hbm, 1332, rfl⟩
abbrev main_call59_v5 : Ref sig .tc := ⟨.hbm, 1333, rfl⟩
abbrev main_call59_c_1 : Ref sig .tc := ⟨.hbm, 1334, rfl⟩
abbrev main_call59_c_2 : Ref sig .tc := ⟨.hbm, 1335, rfl⟩
abbrev main_call59_v6 : Ref sig .tc := ⟨.hbm, 1336, rfl⟩
abbrev main_call59_v7 : Ref sig .tc := ⟨.hbm, 1337, rfl⟩
abbrev main_call59_v8 : Ref sig .tc := ⟨.hbm, 1338, rfl⟩
abbrev main_call59_v9 : Ref sig .tc := ⟨.hbm, 1339, rfl⟩
abbrev main_call59_v10 : Ref sig .tc := ⟨.hbm, 1340, rfl⟩
abbrev main_call59_v11 : Ref sig .tc := ⟨.hbm, 1341, rfl⟩
abbrev main_call59_c_3 : Ref sig .tc := ⟨.hbm, 1342, rfl⟩
abbrev main_call59_v12 : Ref sig .tc := ⟨.hbm, 1343, rfl⟩
abbrev main_call59_v13 : Ref sig .tc := ⟨.hbm, 1344, rfl⟩
abbrev main_call59_v14 : Ref sig .tc := ⟨.hbm, 1345, rfl⟩
abbrev main_call59_cst : Ref sig .tc := ⟨.hbm, 1346, rfl⟩
abbrev main_call59_v15 : Ref sig .tc := ⟨.hbm, 1347, rfl⟩
abbrev main_v609 : Ref sig .tc := ⟨.hbm, 1348, rfl⟩
abbrev main_v610 : Ref sig .tc := ⟨.hbm, 1349, rfl⟩
abbrev main_v611 : Ref sig .tc := ⟨.hbm, 1350, rfl⟩
abbrev main_v612 : Ref sig .tc := ⟨.hbm, 1351, rfl⟩
abbrev main_v613 : Ref sig .tc := ⟨.hbm, 1352, rfl⟩
abbrev main_c_264 : Ref sig .tc := ⟨.hbm, 1353, rfl⟩
abbrev main_v614 : Ref sig .tc := ⟨.hbm, 1354, rfl⟩
abbrev main_v615 : Ref sig .tc := ⟨.hbm, 1355, rfl⟩
abbrev main_c_265 : Ref sig .tc := ⟨.hbm, 1356, rfl⟩
abbrev main_v616 : Ref sig .tc := ⟨.hbm, 1357, rfl⟩
abbrev main_v617 : Ref sig .tc := ⟨.hbm, 1358, rfl⟩
abbrev main_c_266 : Ref sig .tc := ⟨.hbm, 1359, rfl⟩
abbrev main_v618 : Ref sig .tc := ⟨.hbm, 1360, rfl⟩
abbrev main_v619 : Ref sig .tc := ⟨.hbm, 1361, rfl⟩
abbrev main_c_267 : Ref sig .tc := ⟨.hbm, 1362, rfl⟩
abbrev main_v620 : Ref sig .tc := ⟨.hbm, 1363, rfl⟩
abbrev main_v621 : Ref sig .tc := ⟨.hbm, 1364, rfl⟩
abbrev main_c_268 : Ref sig .tc := ⟨.hbm, 1365, rfl⟩
abbrev main_v622 : Ref sig .tc := ⟨.hbm, 1366, rfl⟩
abbrev main_v623 : Ref sig .tc := ⟨.hbm, 1367, rfl⟩
abbrev main_v624 : Ref sig .tc := ⟨.hbm, 1368, rfl⟩
abbrev main_c_269 : Ref sig .tc := ⟨.hbm, 1369, rfl⟩
abbrev main_v625 : Ref sig .tc := ⟨.hbm, 1370, rfl⟩
abbrev main_v626 : Ref sig .tc := ⟨.hbm, 1371, rfl⟩
abbrev main_v627 : Ref sig .tc := ⟨.hbm, 1372, rfl⟩
abbrev main_c_270 : Ref sig .tc := ⟨.hbm, 1373, rfl⟩
abbrev main_v628 : Ref sig .tc := ⟨.hbm, 1374, rfl⟩
abbrev main_v629 : Ref sig .tc := ⟨.hbm, 1375, rfl⟩
abbrev main_v630 : Ref sig .tc := ⟨.hbm, 1376, rfl⟩
abbrev main_c_271 : Ref sig .tc := ⟨.hbm, 1377, rfl⟩
abbrev main_v631 : Ref sig .tc := ⟨.hbm, 1378, rfl⟩
abbrev main_v632 : Ref sig .tc := ⟨.hbm, 1379, rfl⟩
abbrev main_v633 : Ref sig .tc := ⟨.hbm, 1380, rfl⟩
abbrev main_c_272 : Ref sig .tc := ⟨.hbm, 1381, rfl⟩
abbrev main_v634 : Ref sig .tc := ⟨.hbm, 1382, rfl⟩
abbrev main_v635 : Ref sig .tc := ⟨.hbm, 1383, rfl⟩
abbrev main_v636 : Ref sig .tc := ⟨.hbm, 1384, rfl⟩
abbrev main_c_273 : Ref sig .tc := ⟨.hbm, 1385, rfl⟩
abbrev main_c_274 : Ref sig .tc := ⟨.hbm, 1386, rfl⟩
abbrev main_call60_v0 : Ref sig .tc := ⟨.hbm, 1387, rfl⟩
abbrev main_call60_v1 : Ref sig .tc := ⟨.hbm, 1388, rfl⟩
abbrev main_call60_v2 : Ref sig .tc := ⟨.hbm, 1389, rfl⟩
abbrev main_call60_v3 : Ref sig .tc := ⟨.hbm, 1390, rfl⟩
abbrev main_call60_v4 : Ref sig .tc := ⟨.hbm, 1391, rfl⟩
abbrev main_v637 : Ref sig .tc := ⟨.hbm, 1392, rfl⟩
abbrev main_c_275 : Ref sig .tc := ⟨.hbm, 1393, rfl⟩
abbrev main_c_276 : Ref sig .tc := ⟨.hbm, 1394, rfl⟩
abbrev main_call61_v0 : Ref sig .tc := ⟨.hbm, 1395, rfl⟩
abbrev main_call61_v1 : Ref sig .tc := ⟨.hbm, 1396, rfl⟩
abbrev main_call61_v2 : Ref sig .tc := ⟨.hbm, 1397, rfl⟩
abbrev main_call61_v3 : Ref sig .tc := ⟨.hbm, 1398, rfl⟩
abbrev main_call61_v4 : Ref sig .tc := ⟨.hbm, 1399, rfl⟩
abbrev main_v638 : Ref sig .tc := ⟨.hbm, 1400, rfl⟩
abbrev main_c_277 : Ref sig .tc := ⟨.hbm, 1401, rfl⟩
abbrev main_c_278 : Ref sig .tc := ⟨.hbm, 1402, rfl⟩
abbrev main_call62_v0 : Ref sig .tc := ⟨.hbm, 1403, rfl⟩
abbrev main_call62_v1 : Ref sig .tc := ⟨.hbm, 1404, rfl⟩
abbrev main_call62_v2 : Ref sig .tc := ⟨.hbm, 1405, rfl⟩
abbrev main_call62_v3 : Ref sig .tc := ⟨.hbm, 1406, rfl⟩
abbrev main_call62_v4 : Ref sig .tc := ⟨.hbm, 1407, rfl⟩
abbrev main_v639 : Ref sig .tc := ⟨.hbm, 1408, rfl⟩
abbrev main_c_279 : Ref sig .tc := ⟨.hbm, 1409, rfl⟩
abbrev main_v640 : Ref sig .tc := ⟨.hbm, 1410, rfl⟩
abbrev main_v641 : Ref sig .tc := ⟨.hbm, 1411, rfl⟩
abbrev main_c_280 : Ref sig .tc := ⟨.hbm, 1412, rfl⟩
abbrev main_v642 : Ref sig .tc := ⟨.hbm, 1413, rfl⟩
abbrev main_v643 : Ref sig .tc := ⟨.hbm, 1414, rfl⟩
abbrev main_v644 : Ref sig .tc := ⟨.hbm, 1415, rfl⟩
abbrev main_v645 : Ref sig .tc := ⟨.hbm, 1416, rfl⟩
abbrev main_cst_281 : Ref sig .tc := ⟨.hbm, 1417, rfl⟩
abbrev main_v646 : Ref sig .tc := ⟨.hbm, 1418, rfl⟩
abbrev main_v647 : Ref sig .tc := ⟨.hbm, 1419, rfl⟩
abbrev main_v648 : Ref sig .tc := ⟨.hbm, 1420, rfl⟩
abbrev main_cst_282 : Ref sig .tc := ⟨.hbm, 1421, rfl⟩
abbrev main_v649 : Ref sig .tc := ⟨.hbm, 1422, rfl⟩
abbrev main_v650 : Ref sig .tc := ⟨.hbm, 1423, rfl⟩
abbrev main_v651 : Ref sig .tc := ⟨.hbm, 1424, rfl⟩
abbrev main_cst_283 : Ref sig .tc := ⟨.hbm, 1425, rfl⟩
abbrev main_call63_v0 : Ref sig .tc := ⟨.hbm, 1426, rfl⟩
abbrev main_call63_v1 : Ref sig .tc := ⟨.hbm, 1427, rfl⟩
abbrev main_v652 : Ref sig .tc := ⟨.hbm, 1428, rfl⟩
abbrev main_call64_c : Ref sig .tc := ⟨.hbm, 1429, rfl⟩
abbrev main_call64_v0 : Ref sig .tc := ⟨.hbm, 1430, rfl⟩
abbrev main_call64_v1 : Ref sig .tc := ⟨.hbm, 1431, rfl⟩
abbrev main_call64_c_0 : Ref sig .tc := ⟨.hbm, 1432, rfl⟩
abbrev main_call64_v2 : Ref sig .tc := ⟨.hbm, 1433, rfl⟩
abbrev main_call64_v3 : Ref sig .tc := ⟨.hbm, 1434, rfl⟩
abbrev main_call64_v4 : Ref sig .tc := ⟨.hbm, 1435, rfl⟩
abbrev main_call64_v5 : Ref sig .tc := ⟨.hbm, 1436, rfl⟩
abbrev main_call64_c_1 : Ref sig .tc := ⟨.hbm, 1437, rfl⟩
abbrev main_call64_c_2 : Ref sig .tc := ⟨.hbm, 1438, rfl⟩
abbrev main_call64_v6 : Ref sig .tc := ⟨.hbm, 1439, rfl⟩
abbrev main_call64_v7 : Ref sig .tc := ⟨.hbm, 1440, rfl⟩
abbrev main_call64_v8 : Ref sig .tc := ⟨.hbm, 1441, rfl⟩
abbrev main_call64_v9 : Ref sig .tc := ⟨.hbm, 1442, rfl⟩
abbrev main_call64_v10 : Ref sig .tc := ⟨.hbm, 1443, rfl⟩
abbrev main_call64_v11 : Ref sig .tc := ⟨.hbm, 1444, rfl⟩
abbrev main_call64_c_3 : Ref sig .tc := ⟨.hbm, 1445, rfl⟩
abbrev main_call64_v12 : Ref sig .tc := ⟨.hbm, 1446, rfl⟩
abbrev main_call64_v13 : Ref sig .tc := ⟨.hbm, 1447, rfl⟩
abbrev main_call64_v14 : Ref sig .tc := ⟨.hbm, 1448, rfl⟩
abbrev main_call64_cst : Ref sig .tc := ⟨.hbm, 1449, rfl⟩
abbrev main_call64_v15 : Ref sig .tc := ⟨.hbm, 1450, rfl⟩
abbrev main_v653 : Ref sig .tc := ⟨.hbm, 1451, rfl⟩
abbrev main_v654 : Ref sig .tc := ⟨.hbm, 1452, rfl⟩
abbrev main_v655 : Ref sig .tc := ⟨.hbm, 1453, rfl⟩
abbrev main_v656 : Ref sig .tc := ⟨.hbm, 1454, rfl⟩
abbrev main_v657 : Ref sig .tc := ⟨.hbm, 1455, rfl⟩
abbrev main_c_284 : Ref sig .tc := ⟨.hbm, 1456, rfl⟩
abbrev main_v658 : Ref sig .tc := ⟨.hbm, 1457, rfl⟩
abbrev main_v659 : Ref sig .tc := ⟨.hbm, 1458, rfl⟩
abbrev main_c_285 : Ref sig .tc := ⟨.hbm, 1459, rfl⟩
abbrev main_v660 : Ref sig .tc := ⟨.hbm, 1460, rfl⟩
abbrev main_v661 : Ref sig .tc := ⟨.hbm, 1461, rfl⟩
abbrev main_c_286 : Ref sig .tc := ⟨.hbm, 1462, rfl⟩
abbrev main_v662 : Ref sig .tc := ⟨.hbm, 1463, rfl⟩
abbrev main_v663 : Ref sig .tc := ⟨.hbm, 1464, rfl⟩
abbrev main_c_287 : Ref sig .tc := ⟨.hbm, 1465, rfl⟩
abbrev main_v664 : Ref sig .tc := ⟨.hbm, 1466, rfl⟩
abbrev main_v665 : Ref sig .tc := ⟨.hbm, 1467, rfl⟩
abbrev main_c_288 : Ref sig .tc := ⟨.hbm, 1468, rfl⟩
abbrev main_v666 : Ref sig .tc := ⟨.hbm, 1469, rfl⟩
abbrev main_v667 : Ref sig .tc := ⟨.hbm, 1470, rfl⟩
abbrev main_v668 : Ref sig .tc := ⟨.hbm, 1471, rfl⟩
abbrev main_c_289 : Ref sig .tc := ⟨.hbm, 1472, rfl⟩
abbrev main_v669 : Ref sig .tc := ⟨.hbm, 1473, rfl⟩
abbrev main_v670 : Ref sig .tc := ⟨.hbm, 1474, rfl⟩
abbrev main_v671 : Ref sig .tc := ⟨.hbm, 1475, rfl⟩
abbrev main_c_290 : Ref sig .tc := ⟨.hbm, 1476, rfl⟩
abbrev main_v672 : Ref sig .tc := ⟨.hbm, 1477, rfl⟩
abbrev main_v673 : Ref sig .tc := ⟨.hbm, 1478, rfl⟩
abbrev main_v674 : Ref sig .tc := ⟨.hbm, 1479, rfl⟩
abbrev main_c_291 : Ref sig .tc := ⟨.hbm, 1480, rfl⟩
abbrev main_v675 : Ref sig .tc := ⟨.hbm, 1481, rfl⟩
abbrev main_v676 : Ref sig .tc := ⟨.hbm, 1482, rfl⟩
abbrev main_v677 : Ref sig .tc := ⟨.hbm, 1483, rfl⟩
abbrev main_c_292 : Ref sig .tc := ⟨.hbm, 1484, rfl⟩
abbrev main_v678 : Ref sig .tc := ⟨.hbm, 1485, rfl⟩
abbrev main_v679 : Ref sig .tc := ⟨.hbm, 1486, rfl⟩
abbrev main_v680 : Ref sig .tc := ⟨.hbm, 1487, rfl⟩
abbrev main_c_293 : Ref sig .tc := ⟨.hbm, 1488, rfl⟩
abbrev main_c_294 : Ref sig .tc := ⟨.hbm, 1489, rfl⟩
abbrev main_call65_v0 : Ref sig .tc := ⟨.hbm, 1490, rfl⟩
abbrev main_call65_v1 : Ref sig .tc := ⟨.hbm, 1491, rfl⟩
abbrev main_call65_v2 : Ref sig .tc := ⟨.hbm, 1492, rfl⟩
abbrev main_call65_v3 : Ref sig .tc := ⟨.hbm, 1493, rfl⟩
abbrev main_call65_v4 : Ref sig .tc := ⟨.hbm, 1494, rfl⟩
abbrev main_v681 : Ref sig .tc := ⟨.hbm, 1495, rfl⟩
abbrev main_c_295 : Ref sig .tc := ⟨.hbm, 1496, rfl⟩
abbrev main_c_296 : Ref sig .tc := ⟨.hbm, 1497, rfl⟩
abbrev main_call66_v0 : Ref sig .tc := ⟨.hbm, 1498, rfl⟩
abbrev main_call66_v1 : Ref sig .tc := ⟨.hbm, 1499, rfl⟩
abbrev main_call66_v2 : Ref sig .tc := ⟨.hbm, 1500, rfl⟩
abbrev main_call66_v3 : Ref sig .tc := ⟨.hbm, 1501, rfl⟩
abbrev main_call66_v4 : Ref sig .tc := ⟨.hbm, 1502, rfl⟩
abbrev main_v682 : Ref sig .tc := ⟨.hbm, 1503, rfl⟩
abbrev main_c_297 : Ref sig .tc := ⟨.hbm, 1504, rfl⟩
abbrev main_c_298 : Ref sig .tc := ⟨.hbm, 1505, rfl⟩
abbrev main_call67_v0 : Ref sig .tc := ⟨.hbm, 1506, rfl⟩
abbrev main_call67_v1 : Ref sig .tc := ⟨.hbm, 1507, rfl⟩
abbrev main_call67_v2 : Ref sig .tc := ⟨.hbm, 1508, rfl⟩
abbrev main_call67_v3 : Ref sig .tc := ⟨.hbm, 1509, rfl⟩
abbrev main_call67_v4 : Ref sig .tc := ⟨.hbm, 1510, rfl⟩
abbrev main_v683 : Ref sig .tc := ⟨.hbm, 1511, rfl⟩
abbrev main_c_299 : Ref sig .tc := ⟨.hbm, 1512, rfl⟩
abbrev main_v684 : Ref sig .tc := ⟨.hbm, 1513, rfl⟩
abbrev main_v685 : Ref sig .tc := ⟨.hbm, 1514, rfl⟩
abbrev main_c_300 : Ref sig .tc := ⟨.hbm, 1515, rfl⟩
abbrev main_v686 : Ref sig .tc := ⟨.hbm, 1516, rfl⟩
abbrev main_v687 : Ref sig .tc := ⟨.hbm, 1517, rfl⟩
abbrev main_v688 : Ref sig .tc := ⟨.hbm, 1518, rfl⟩
abbrev main_v689 : Ref sig .tc := ⟨.hbm, 1519, rfl⟩
abbrev main_cst_301 : Ref sig .tc := ⟨.hbm, 1520, rfl⟩
abbrev main_v690 : Ref sig .tc := ⟨.hbm, 1521, rfl⟩
abbrev main_v691 : Ref sig .tc := ⟨.hbm, 1522, rfl⟩
abbrev main_v692 : Ref sig .tc := ⟨.hbm, 1523, rfl⟩
abbrev main_v693 : Ref sig .tc := ⟨.hbm, 1524, rfl⟩
abbrev main_cst_302 : Ref sig .tc := ⟨.hbm, 1525, rfl⟩
abbrev main_call68_v0 : Ref sig .tc := ⟨.hbm, 1526, rfl⟩
abbrev main_call68_v1 : Ref sig .tc := ⟨.hbm, 1527, rfl⟩
abbrev main_v694 : Ref sig .tc := ⟨.hbm, 1528, rfl⟩
abbrev main_call69_c : Ref sig .tc := ⟨.hbm, 1529, rfl⟩
abbrev main_call69_v0 : Ref sig .tc := ⟨.hbm, 1530, rfl⟩
abbrev main_call69_v1 : Ref sig .tc := ⟨.hbm, 1531, rfl⟩
abbrev main_call69_c_0 : Ref sig .tc := ⟨.hbm, 1532, rfl⟩
abbrev main_call69_v2 : Ref sig .tc := ⟨.hbm, 1533, rfl⟩
abbrev main_call69_v3 : Ref sig .tc := ⟨.hbm, 1534, rfl⟩
abbrev main_call69_v4 : Ref sig .tc := ⟨.hbm, 1535, rfl⟩
abbrev main_call69_v5 : Ref sig .tc := ⟨.hbm, 1536, rfl⟩
abbrev main_call69_c_1 : Ref sig .tc := ⟨.hbm, 1537, rfl⟩
abbrev main_call69_c_2 : Ref sig .tc := ⟨.hbm, 1538, rfl⟩
abbrev main_call69_v6 : Ref sig .tc := ⟨.hbm, 1539, rfl⟩
abbrev main_call69_v7 : Ref sig .tc := ⟨.hbm, 1540, rfl⟩
abbrev main_call69_v8 : Ref sig .tc := ⟨.hbm, 1541, rfl⟩
abbrev main_call69_v9 : Ref sig .tc := ⟨.hbm, 1542, rfl⟩
abbrev main_call69_v10 : Ref sig .tc := ⟨.hbm, 1543, rfl⟩
abbrev main_call69_v11 : Ref sig .tc := ⟨.hbm, 1544, rfl⟩
abbrev main_call69_c_3 : Ref sig .tc := ⟨.hbm, 1545, rfl⟩
abbrev main_call69_v12 : Ref sig .tc := ⟨.hbm, 1546, rfl⟩
abbrev main_call69_v13 : Ref sig .tc := ⟨.hbm, 1547, rfl⟩
abbrev main_call69_v14 : Ref sig .tc := ⟨.hbm, 1548, rfl⟩
abbrev main_call69_cst : Ref sig .tc := ⟨.hbm, 1549, rfl⟩
abbrev main_call69_v15 : Ref sig .tc := ⟨.hbm, 1550, rfl⟩
abbrev main_v695 : Ref sig .tc := ⟨.hbm, 1551, rfl⟩
abbrev main_v696 : Ref sig .tc := ⟨.hbm, 1552, rfl⟩
abbrev main_v697 : Ref sig .tc := ⟨.hbm, 1553, rfl⟩
abbrev main_v698 : Ref sig .tc := ⟨.hbm, 1554, rfl⟩
abbrev main_v699 : Ref sig .tc := ⟨.hbm, 1555, rfl⟩
abbrev main_c_303 : Ref sig .tc := ⟨.hbm, 1556, rfl⟩
abbrev main_v700 : Ref sig .tc := ⟨.hbm, 1557, rfl⟩
abbrev main_v701 : Ref sig .tc := ⟨.hbm, 1558, rfl⟩
abbrev main_c_304 : Ref sig .tc := ⟨.hbm, 1559, rfl⟩
abbrev main_v702 : Ref sig .tc := ⟨.hbm, 1560, rfl⟩
abbrev main_v703 : Ref sig .tc := ⟨.hbm, 1561, rfl⟩
abbrev main_c_305 : Ref sig .tc := ⟨.hbm, 1562, rfl⟩
abbrev main_v704 : Ref sig .tc := ⟨.hbm, 1563, rfl⟩
abbrev main_v705 : Ref sig .tc := ⟨.hbm, 1564, rfl⟩
abbrev main_c_306 : Ref sig .tc := ⟨.hbm, 1565, rfl⟩
abbrev main_v706 : Ref sig .tc := ⟨.hbm, 1566, rfl⟩
abbrev main_v707 : Ref sig .tc := ⟨.hbm, 1567, rfl⟩
abbrev main_c_307 : Ref sig .tc := ⟨.hbm, 1568, rfl⟩
abbrev main_v708 : Ref sig .tc := ⟨.hbm, 1569, rfl⟩
abbrev main_v709 : Ref sig .tc := ⟨.hbm, 1570, rfl⟩
abbrev main_v710 : Ref sig .tc := ⟨.hbm, 1571, rfl⟩
abbrev main_c_308 : Ref sig .tc := ⟨.hbm, 1572, rfl⟩
abbrev main_v711 : Ref sig .tc := ⟨.hbm, 1573, rfl⟩
abbrev main_v712 : Ref sig .tc := ⟨.hbm, 1574, rfl⟩
abbrev main_v713 : Ref sig .tc := ⟨.hbm, 1575, rfl⟩
abbrev main_c_309 : Ref sig .tc := ⟨.hbm, 1576, rfl⟩
abbrev main_v714 : Ref sig .tc := ⟨.hbm, 1577, rfl⟩
abbrev main_v715 : Ref sig .tc := ⟨.hbm, 1578, rfl⟩
abbrev main_v716 : Ref sig .tc := ⟨.hbm, 1579, rfl⟩
abbrev main_c_310 : Ref sig .tc := ⟨.hbm, 1580, rfl⟩
abbrev main_v717 : Ref sig .tc := ⟨.hbm, 1581, rfl⟩
abbrev main_v718 : Ref sig .tc := ⟨.hbm, 1582, rfl⟩
abbrev main_v719 : Ref sig .tc := ⟨.hbm, 1583, rfl⟩
abbrev main_c_311 : Ref sig .tc := ⟨.hbm, 1584, rfl⟩
abbrev main_v720 : Ref sig .tc := ⟨.hbm, 1585, rfl⟩
abbrev main_v721 : Ref sig .tc := ⟨.hbm, 1586, rfl⟩
abbrev main_v722 : Ref sig .tc := ⟨.hbm, 1587, rfl⟩
abbrev main_c_312 : Ref sig .tc := ⟨.hbm, 1588, rfl⟩
abbrev main_c_313 : Ref sig .tc := ⟨.hbm, 1589, rfl⟩
abbrev main_call70_v0 : Ref sig .tc := ⟨.hbm, 1590, rfl⟩
abbrev main_call70_v1 : Ref sig .tc := ⟨.hbm, 1591, rfl⟩
abbrev main_call70_v2 : Ref sig .tc := ⟨.hbm, 1592, rfl⟩
abbrev main_call70_v3 : Ref sig .tc := ⟨.hbm, 1593, rfl⟩
abbrev main_call70_v4 : Ref sig .tc := ⟨.hbm, 1594, rfl⟩
abbrev main_v723 : Ref sig .tc := ⟨.hbm, 1595, rfl⟩
abbrev main_c_314 : Ref sig .tc := ⟨.hbm, 1596, rfl⟩
abbrev main_c_315 : Ref sig .tc := ⟨.hbm, 1597, rfl⟩
abbrev main_call71_v0 : Ref sig .tc := ⟨.hbm, 1598, rfl⟩
abbrev main_call71_v1 : Ref sig .tc := ⟨.hbm, 1599, rfl⟩
abbrev main_call71_v2 : Ref sig .tc := ⟨.hbm, 1600, rfl⟩
abbrev main_call71_v3 : Ref sig .tc := ⟨.hbm, 1601, rfl⟩
abbrev main_call71_v4 : Ref sig .tc := ⟨.hbm, 1602, rfl⟩
abbrev main_v724 : Ref sig .tc := ⟨.hbm, 1603, rfl⟩
abbrev main_c_316 : Ref sig .tc := ⟨.hbm, 1604, rfl⟩
abbrev main_c_317 : Ref sig .tc := ⟨.hbm, 1605, rfl⟩
abbrev main_call72_v0 : Ref sig .tc := ⟨.hbm, 1606, rfl⟩
abbrev main_call72_v1 : Ref sig .tc := ⟨.hbm, 1607, rfl⟩
abbrev main_call72_v2 : Ref sig .tc := ⟨.hbm, 1608, rfl⟩
abbrev main_call72_v3 : Ref sig .tc := ⟨.hbm, 1609, rfl⟩
abbrev main_call72_v4 : Ref sig .tc := ⟨.hbm, 1610, rfl⟩
abbrev main_v725 : Ref sig .tc := ⟨.hbm, 1611, rfl⟩
abbrev main_c_318 : Ref sig .tc := ⟨.hbm, 1612, rfl⟩
abbrev main_v726 : Ref sig .tc := ⟨.hbm, 1613, rfl⟩
abbrev main_v727 : Ref sig .tc := ⟨.hbm, 1614, rfl⟩
abbrev main_c_319 : Ref sig .tc := ⟨.hbm, 1615, rfl⟩
abbrev main_v728 : Ref sig .tc := ⟨.hbm, 1616, rfl⟩
abbrev main_v729 : Ref sig .tc := ⟨.hbm, 1617, rfl⟩
abbrev main_v730 : Ref sig .tc := ⟨.hbm, 1618, rfl⟩
abbrev main_v731 : Ref sig .tc := ⟨.hbm, 1619, rfl⟩
abbrev main_v732 : Ref sig .tc := ⟨.hbm, 1620, rfl⟩
abbrev main_cst_320 : Ref sig .tc := ⟨.hbm, 1621, rfl⟩
abbrev main_v733 : Ref sig .tc := ⟨.hbm, 1622, rfl⟩
abbrev main_v734 : Ref sig .tc := ⟨.hbm, 1623, rfl⟩
abbrev main_v735 : Ref sig .tc := ⟨.hbm, 1624, rfl⟩
abbrev main_cst_321 : Ref sig .tc := ⟨.hbm, 1625, rfl⟩
abbrev main_call73_v0 : Ref sig .tc := ⟨.hbm, 1626, rfl⟩
abbrev main_call73_v1 : Ref sig .tc := ⟨.hbm, 1627, rfl⟩
abbrev main_v736 : Ref sig .tc := ⟨.hbm, 1628, rfl⟩
abbrev main_call74_c : Ref sig .tc := ⟨.hbm, 1629, rfl⟩
abbrev main_call74_v0 : Ref sig .tc := ⟨.hbm, 1630, rfl⟩
abbrev main_call74_v1 : Ref sig .tc := ⟨.hbm, 1631, rfl⟩
abbrev main_call74_c_0 : Ref sig .tc := ⟨.hbm, 1632, rfl⟩
abbrev main_call74_v2 : Ref sig .tc := ⟨.hbm, 1633, rfl⟩
abbrev main_call74_v3 : Ref sig .tc := ⟨.hbm, 1634, rfl⟩
abbrev main_call74_v4 : Ref sig .tc := ⟨.hbm, 1635, rfl⟩
abbrev main_call74_v5 : Ref sig .tc := ⟨.hbm, 1636, rfl⟩
abbrev main_call74_c_1 : Ref sig .tc := ⟨.hbm, 1637, rfl⟩
abbrev main_call74_c_2 : Ref sig .tc := ⟨.hbm, 1638, rfl⟩
abbrev main_call74_v6 : Ref sig .tc := ⟨.hbm, 1639, rfl⟩
abbrev main_call74_v7 : Ref sig .tc := ⟨.hbm, 1640, rfl⟩
abbrev main_call74_v8 : Ref sig .tc := ⟨.hbm, 1641, rfl⟩
abbrev main_call74_v9 : Ref sig .tc := ⟨.hbm, 1642, rfl⟩
abbrev main_call74_v10 : Ref sig .tc := ⟨.hbm, 1643, rfl⟩
abbrev main_call74_v11 : Ref sig .tc := ⟨.hbm, 1644, rfl⟩
abbrev main_call74_c_3 : Ref sig .tc := ⟨.hbm, 1645, rfl⟩
abbrev main_call74_v12 : Ref sig .tc := ⟨.hbm, 1646, rfl⟩
abbrev main_call74_v13 : Ref sig .tc := ⟨.hbm, 1647, rfl⟩
abbrev main_call74_v14 : Ref sig .tc := ⟨.hbm, 1648, rfl⟩
abbrev main_call74_cst : Ref sig .tc := ⟨.hbm, 1649, rfl⟩
abbrev main_call74_v15 : Ref sig .tc := ⟨.hbm, 1650, rfl⟩
abbrev main_v737 : Ref sig .tc := ⟨.hbm, 1651, rfl⟩
abbrev main_v738 : Ref sig .tc := ⟨.hbm, 1652, rfl⟩
abbrev main_v739 : Ref sig .tc := ⟨.hbm, 1653, rfl⟩
abbrev main_v740 : Ref sig .tc := ⟨.hbm, 1654, rfl⟩
abbrev main_v741 : Ref sig .tc := ⟨.hbm, 1655, rfl⟩
abbrev main_c_322 : Ref sig .tc := ⟨.hbm, 1656, rfl⟩
abbrev main_v742 : Ref sig .tc := ⟨.hbm, 1657, rfl⟩
abbrev main_v743 : Ref sig .tc := ⟨.hbm, 1658, rfl⟩
abbrev main_c_323 : Ref sig .tc := ⟨.hbm, 1659, rfl⟩
abbrev main_v744 : Ref sig .tc := ⟨.hbm, 1660, rfl⟩
abbrev main_v745 : Ref sig .tc := ⟨.hbm, 1661, rfl⟩
abbrev main_c_324 : Ref sig .tc := ⟨.hbm, 1662, rfl⟩
abbrev main_v746 : Ref sig .tc := ⟨.hbm, 1663, rfl⟩
abbrev main_v747 : Ref sig .tc := ⟨.hbm, 1664, rfl⟩
abbrev main_c_325 : Ref sig .tc := ⟨.hbm, 1665, rfl⟩
abbrev main_v748 : Ref sig .tc := ⟨.hbm, 1666, rfl⟩
abbrev main_v749 : Ref sig .tc := ⟨.hbm, 1667, rfl⟩
abbrev main_c_326 : Ref sig .tc := ⟨.hbm, 1668, rfl⟩
abbrev main_v750 : Ref sig .tc := ⟨.hbm, 1669, rfl⟩
abbrev main_v751 : Ref sig .tc := ⟨.hbm, 1670, rfl⟩
abbrev main_v752 : Ref sig .tc := ⟨.hbm, 1671, rfl⟩
abbrev main_c_327 : Ref sig .tc := ⟨.hbm, 1672, rfl⟩
abbrev main_v753 : Ref sig .tc := ⟨.hbm, 1673, rfl⟩
abbrev main_v754 : Ref sig .tc := ⟨.hbm, 1674, rfl⟩
abbrev main_v755 : Ref sig .tc := ⟨.hbm, 1675, rfl⟩
abbrev main_c_328 : Ref sig .tc := ⟨.hbm, 1676, rfl⟩
abbrev main_v756 : Ref sig .tc := ⟨.hbm, 1677, rfl⟩
abbrev main_v757 : Ref sig .tc := ⟨.hbm, 1678, rfl⟩
abbrev main_v758 : Ref sig .tc := ⟨.hbm, 1679, rfl⟩
abbrev main_c_329 : Ref sig .tc := ⟨.hbm, 1680, rfl⟩
abbrev main_v759 : Ref sig .tc := ⟨.hbm, 1681, rfl⟩
abbrev main_v760 : Ref sig .tc := ⟨.hbm, 1682, rfl⟩
abbrev main_v761 : Ref sig .tc := ⟨.hbm, 1683, rfl⟩
abbrev main_c_330 : Ref sig .tc := ⟨.hbm, 1684, rfl⟩
abbrev main_v762 : Ref sig .tc := ⟨.hbm, 1685, rfl⟩
abbrev main_v763 : Ref sig .tc := ⟨.hbm, 1686, rfl⟩
abbrev main_v764 : Ref sig .tc := ⟨.hbm, 1687, rfl⟩
abbrev main_c_331 : Ref sig .tc := ⟨.hbm, 1688, rfl⟩
abbrev main_c_332 : Ref sig .tc := ⟨.hbm, 1689, rfl⟩
abbrev main_call75_v0 : Ref sig .tc := ⟨.hbm, 1690, rfl⟩
abbrev main_call75_v1 : Ref sig .tc := ⟨.hbm, 1691, rfl⟩
abbrev main_call75_v2 : Ref sig .tc := ⟨.hbm, 1692, rfl⟩
abbrev main_call75_v3 : Ref sig .tc := ⟨.hbm, 1693, rfl⟩
abbrev main_call75_v4 : Ref sig .tc := ⟨.hbm, 1694, rfl⟩
abbrev main_v765 : Ref sig .tc := ⟨.hbm, 1695, rfl⟩
abbrev main_c_333 : Ref sig .tc := ⟨.hbm, 1696, rfl⟩
abbrev main_c_334 : Ref sig .tc := ⟨.hbm, 1697, rfl⟩
abbrev main_call76_v0 : Ref sig .tc := ⟨.hbm, 1698, rfl⟩
abbrev main_call76_v1 : Ref sig .tc := ⟨.hbm, 1699, rfl⟩
abbrev main_call76_v2 : Ref sig .tc := ⟨.hbm, 1700, rfl⟩
abbrev main_call76_v3 : Ref sig .tc := ⟨.hbm, 1701, rfl⟩
abbrev main_call76_v4 : Ref sig .tc := ⟨.hbm, 1702, rfl⟩
abbrev main_v766 : Ref sig .tc := ⟨.hbm, 1703, rfl⟩
abbrev main_c_335 : Ref sig .tc := ⟨.hbm, 1704, rfl⟩
abbrev main_c_336 : Ref sig .tc := ⟨.hbm, 1705, rfl⟩
abbrev main_call77_v0 : Ref sig .tc := ⟨.hbm, 1706, rfl⟩
abbrev main_call77_v1 : Ref sig .tc := ⟨.hbm, 1707, rfl⟩
abbrev main_call77_v2 : Ref sig .tc := ⟨.hbm, 1708, rfl⟩
abbrev main_call77_v3 : Ref sig .tc := ⟨.hbm, 1709, rfl⟩
abbrev main_call77_v4 : Ref sig .tc := ⟨.hbm, 1710, rfl⟩
abbrev main_v767 : Ref sig .tc := ⟨.hbm, 1711, rfl⟩
abbrev main_c_337 : Ref sig .tc := ⟨.hbm, 1712, rfl⟩
abbrev main_v768 : Ref sig .tc := ⟨.hbm, 1713, rfl⟩
abbrev main_v769 : Ref sig .tc := ⟨.hbm, 1714, rfl⟩
abbrev main_c_338 : Ref sig .tc := ⟨.hbm, 1715, rfl⟩
abbrev main_v770 : Ref sig .tc := ⟨.hbm, 1716, rfl⟩
abbrev main_v771 : Ref sig .tc := ⟨.hbm, 1717, rfl⟩
abbrev main_v772 : Ref sig .tc := ⟨.hbm, 1718, rfl⟩
abbrev main_v773 : Ref sig .tc := ⟨.hbm, 1719, rfl⟩
abbrev main_v774 : Ref sig .tc := ⟨.hbm, 1720, rfl⟩
abbrev main_v775 : Ref sig .tc := ⟨.hbm, 1721, rfl⟩
abbrev main_cst_339 : Ref sig .tc := ⟨.hbm, 1722, rfl⟩
abbrev main_call78_v0 : Ref sig .tc := ⟨.hbm, 1723, rfl⟩
abbrev main_call78_v1 : Ref sig .tc := ⟨.hbm, 1724, rfl⟩
abbrev main_v776 : Ref sig .tc := ⟨.hbm, 1725, rfl⟩
abbrev main_call79_c : Ref sig .tc := ⟨.hbm, 1726, rfl⟩
abbrev main_call79_v0 : Ref sig .tc := ⟨.hbm, 1727, rfl⟩
abbrev main_call79_v1 : Ref sig .tc := ⟨.hbm, 1728, rfl⟩
abbrev main_call79_c_0 : Ref sig .tc := ⟨.hbm, 1729, rfl⟩
abbrev main_call79_v2 : Ref sig .tc := ⟨.hbm, 1730, rfl⟩
abbrev main_call79_v3 : Ref sig .tc := ⟨.hbm, 1731, rfl⟩
abbrev main_call79_v4 : Ref sig .tc := ⟨.hbm, 1732, rfl⟩
abbrev main_call79_v5 : Ref sig .tc := ⟨.hbm, 1733, rfl⟩
abbrev main_call79_c_1 : Ref sig .tc := ⟨.hbm, 1734, rfl⟩
abbrev main_call79_c_2 : Ref sig .tc := ⟨.hbm, 1735, rfl⟩
abbrev main_call79_v6 : Ref sig .tc := ⟨.hbm, 1736, rfl⟩
abbrev main_call79_v7 : Ref sig .tc := ⟨.hbm, 1737, rfl⟩
abbrev main_call79_v8 : Ref sig .tc := ⟨.hbm, 1738, rfl⟩
abbrev main_call79_v9 : Ref sig .tc := ⟨.hbm, 1739, rfl⟩
abbrev main_call79_v10 : Ref sig .tc := ⟨.hbm, 1740, rfl⟩
abbrev main_call79_v11 : Ref sig .tc := ⟨.hbm, 1741, rfl⟩
abbrev main_call79_c_3 : Ref sig .tc := ⟨.hbm, 1742, rfl⟩
abbrev main_call79_v12 : Ref sig .tc := ⟨.hbm, 1743, rfl⟩
abbrev main_call79_v13 : Ref sig .tc := ⟨.hbm, 1744, rfl⟩
abbrev main_call79_v14 : Ref sig .tc := ⟨.hbm, 1745, rfl⟩
abbrev main_call79_cst : Ref sig .tc := ⟨.hbm, 1746, rfl⟩
abbrev main_call79_v15 : Ref sig .tc := ⟨.hbm, 1747, rfl⟩
abbrev main_v777 : Ref sig .tc := ⟨.hbm, 1748, rfl⟩
abbrev main_v778 : Ref sig .tc := ⟨.hbm, 1749, rfl⟩
abbrev main_v779 : Ref sig .tc := ⟨.hbm, 1750, rfl⟩
abbrev main_v780 : Ref sig .tc := ⟨.hbm, 1751, rfl⟩
abbrev main_v781 : Ref sig .tc := ⟨.hbm, 1752, rfl⟩
abbrev main_cst_340 : Ref sig .tc := ⟨.hbm, 1753, rfl⟩
abbrev main_v782 : Ref sig .tc := ⟨.hbm, 1754, rfl⟩
abbrev main_cst_341 : Ref sig .tc := ⟨.hbm, 1755, rfl⟩
abbrev main_v783 : Ref sig .tc := ⟨.hbm, 1756, rfl⟩
abbrev main_v784 : Ref sig .tc := ⟨.hbm, 1757, rfl⟩
abbrev main_v785 : Ref sig .tc := ⟨.hbm, 1758, rfl⟩
abbrev main_v786 : Ref sig .tc := ⟨.hbm, 1759, rfl⟩
abbrev main_v787 : Ref sig .tc := ⟨.hbm, 1760, rfl⟩
abbrev main_v788 : Ref sig .tc := ⟨.hbm, 1761, rfl⟩
abbrev main_cst_342 : Ref sig .tc := ⟨.hbm, 1762, rfl⟩
abbrev main_v789 : Ref sig .tc := ⟨.hbm, 1763, rfl⟩
abbrev main_v790 : Ref sig .tc := ⟨.hbm, 1764, rfl⟩
abbrev main_v791 : Ref sig .tc := ⟨.hbm, 1765, rfl⟩
abbrev main_v792 : Ref sig .tc := ⟨.hbm, 1766, rfl⟩
abbrev main_c_343 : Ref sig .tc := ⟨.hbm, 1767, rfl⟩
abbrev main_v793 : Ref sig .tc := ⟨.hbm, 1768, rfl⟩
abbrev main_v794 : Ref sig .tc := ⟨.hbm, 1769, rfl⟩
abbrev main_c_344 : Ref sig .tc := ⟨.hbm, 1770, rfl⟩
abbrev main_v795 : Ref sig .tc := ⟨.hbm, 1771, rfl⟩
abbrev main_v796 : Ref sig .tc := ⟨.hbm, 1772, rfl⟩
abbrev main_v797 : Ref sig .tc := ⟨.hbm, 1773, rfl⟩
abbrev main_v798 : Ref sig .tc := ⟨.hbm, 1774, rfl⟩
abbrev main_v799 : Ref sig .tc := ⟨.hbm, 1775, rfl⟩
abbrev main_v800 : Ref sig .tc := ⟨.hbm, 1776, rfl⟩
abbrev main_v801 : Ref sig .tc := ⟨.hbm, 1777, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x30x12544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x100x30 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x100x30 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x100x64x64x64_S2x100x262144 : S2x100x64x64x64.ShapeCasts S2x100x262144
  bcast_S_S2x12544x3 : S_.BroadcastsInDim S2x12544x3 (![] : Fin 0 → Fin S2x12544x3.rank)
  slices_S2x12544x3_S2x12544x1_0_0_0 : S2x12544x3.Slices ![0, 0, 0] S2x12544x1
  shapeCasts_S2x12544x1_S2x12544 : S2x12544x1.ShapeCasts S2x12544
  bcast_S_S2x12544 : S_.BroadcastsInDim S2x12544 (![] : Fin 0 → Fin S2x12544.rank)
  slices_S2x12544x3_S2x12544x1_0_0_1 : S2x12544x3.Slices ![0, 0, 1] S2x12544x1
  slices_S2x12544x3_S2x12544x1_0_0_2 : S2x12544x3.Slices ![0, 0, 2] S2x12544x1
  bcast_S_S100x12544 : S_.BroadcastsInDim S100x12544 (![] : Fin 0 → Fin S100x12544.rank)
  bcast_S_S12544 : S_.BroadcastsInDim S12544 (![] : Fin 0 → Fin S12544.rank)
  bcast_S12544_S2x12544_1 : S12544.BroadcastsInDim S2x12544 (![1] : Fin 1 → Fin S2x12544.rank)
  bcast_S2x12544_S2x12544x1_0_1 : S2x12544.BroadcastsInDim S2x12544x1 (![0, 1] : Fin 2 → Fin S2x12544x1.rank)
  bcast_S_S2x12544x1 : S_.BroadcastsInDim S2x12544x1 (![] : Fin 0 → Fin S2x12544x1.rank)
  bcast_S1_S1x1x1_2 : S1.BroadcastsInDim S1x1x1 (![2] : Fin 1 → Fin S1x1x1.rank)
  bcast_S1x1x1_S2x12544x1_0_1_2 : S1x1x1.BroadcastsInDim S2x12544x1 (![0, 1, 2] : Fin 3 → Fin S2x12544x1.rank)
  reducesTo_S2x12544x1_S2x12544_d2 : S2x12544x1.ReducesTo [2] S2x12544
  h_S_ : 0 < S_.numel
  bcast_S2x12544_S2x100x12544_0_2 : S2x12544.BroadcastsInDim S2x100x12544 (![0, 2] : Fin 2 → Fin S2x100x12544.rank)
  bcast_S_S2x100x12544 : S_.BroadcastsInDim S2x100x12544 (![] : Fin 0 → Fin S2x100x12544.rank)
  bcast_S2x12544_S2x1x12544_0_2 : S2x12544.BroadcastsInDim S2x1x12544 (![0, 2] : Fin 2 → Fin S2x1x12544.rank)
  bcast_S2x1x12544_S2x100x12544_0_1_2 : S2x1x12544.BroadcastsInDim S2x100x12544 (![0, 1, 2] : Fin 3 → Fin S2x100x12544.rank)
  bcast_S100x12544_S1x100x12544_1_2 : S100x12544.BroadcastsInDim S1x100x12544 (![1, 2] : Fin 2 → Fin S1x100x12544.rank)
  bcast_S1x100x12544_S2x100x12544_0_1_2 : S1x100x12544.BroadcastsInDim S2x100x12544 (![0, 1, 2] : Fin 3 → Fin S2x100x12544.rank)
  shapeCasts_S2x30x64x64x64_S2x30x262144 : S2x30x64x64x64.ShapeCasts S2x30x262144
  bcast_S_S30x12544 : S_.BroadcastsInDim S30x12544 (![] : Fin 0 → Fin S30x12544.rank)
  bcast_S2x12544_S2x30x12544_0_2 : S2x12544.BroadcastsInDim S2x30x12544 (![0, 2] : Fin 2 → Fin S2x30x12544.rank)
  bcast_S_S2x30x12544 : S_.BroadcastsInDim S2x30x12544 (![] : Fin 0 → Fin S2x30x12544.rank)
  bcast_S2x1x12544_S2x30x12544_0_1_2 : S2x1x12544.BroadcastsInDim S2x30x12544 (![0, 1, 2] : Fin 3 → Fin S2x30x12544.rank)
  bcast_S30x12544_S1x30x12544_1_2 : S30x12544.BroadcastsInDim S1x30x12544 (![1, 2] : Fin 2 → Fin S1x30x12544.rank)
  bcast_S1x30x12544_S2x30x12544_0_1_2 : S1x30x12544.BroadcastsInDim S2x30x12544 (![0, 1, 2] : Fin 3 → Fin S2x30x12544.rank)
  reducesTo_S2x100x134_S2x100_d2 : S2x100x134.ReducesTo [2] S2x100
  bcast_S_S2x100 : S_.BroadcastsInDim S2x100 (![] : Fin 0 → Fin S2x100.rank)
  bcast_S2x100_S2x100x1_0_1 : S2x100.BroadcastsInDim S2x100x1 (![0, 1] : Fin 2 → Fin S2x100x1.rank)
  bcast_S2x100x1_S2x100x134_0_1_2 : S2x100x1.BroadcastsInDim S2x100x134 (![0, 1, 2] : Fin 3 → Fin S2x100x134.rank)
  bcast_S_S2x30 : S_.BroadcastsInDim S2x30 (![] : Fin 0 → Fin S2x30.rank)
  bcast_S2x30_S2x30x1_0_1 : S2x30.BroadcastsInDim S2x30x1 (![0, 1] : Fin 2 → Fin S2x30x1.rank)
  inb_S1x100x12544_S1x100x12544_0_0_0 : ∀ a, (![0, 0, 0] : Fin 3 → Nat) a + S1x100x12544.size a ≤ S1x100x12544.size a
  h_S1x100x12544 : 0 < S1x100x12544.numel
  shapeCasts_S1x100x12544_S100x12544 : S1x100x12544.ShapeCasts S100x12544
  inb_S1x30x12544_S1x30x12544_0_0_0 : ∀ a, (![0, 0, 0] : Fin 3 → Nat) a + S1x30x12544.size a ≤ S1x30x12544.size a
  h_S1x30x12544 : 0 < S1x30x12544.numel
  shapeCasts_S1x30x12544_S30x12544 : S1x30x12544.ShapeCasts S30x12544
  reduces_S100x12544_S100 : S100x12544.Reduces [1] S100
  shapeCasts_S100_S100x1 : S100.ShapeCasts S100x1
  broadcasts_S100x1_S100x30 : S100x1.Broadcasts S100x30
  reduces_S30x12544_S30 : S30x12544.Reduces [1] S30
  shapeCasts_S30_S1x30 : S30.ShapeCasts S1x30
  broadcasts_S1x30_S100x30 : S1x30.Broadcasts S100x30
  inb_S1x100x30_S1x100x30_0_0_0 : ∀ a, (![0, 0, 0] : Fin 3 → Nat) a + S1x100x30.size a ≤ S1x100x30.size a
  h_S1x100x30 : 0 < S1x100x30.numel
  shapeCasts_S1x100x30_S100x30 : S1x100x30.ShapeCasts S100x30
  shapeCasts_S100x30_S1x100x30 : S100x30.ShapeCasts S1x100x30
  gather_S2x100x262144_S2x12544x1_S2x100x12544_1_2_0_0_2_2_11001_wf : GatherDims.WF S2x100x262144 S2x12544x1 S2x100x12544 [1] [2] [0] [2] [0] 2 ![1, 100, 1]
  gather_S2x30x262144_S2x12544x1_S2x30x12544_1_2_0_0_2_2_1301_wf : GatherDims.WF S2x30x262144 S2x12544x1 S2x30x12544 [1] [2] [0] [2] [0] 2 ![1, 30, 1]
  gather_S2x100x134_S2x30x1_S2x100x30_1_2_0_0_2_2_11001_wf : GatherDims.WF S2x100x134 S2x30x1 S2x100x30 [1] [2] [0] [2] [0] 2 ![1, 100, 1]
  dot_S100x12544_S30x12544_S100x30_1_1_0_0_n_n_wf : DotDims.WF S100x12544 S30x12544 S100x30 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x12544.size a ≤ S2x100x12544.size a
  hwx0_0 : ∀ i : grid0.Coords, EltTy.bits .f32 = 32 ∨ (Rect.block (s := S2x100x12544) S1x100x12544.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x30x12544.size a ≤ S2x30x12544.size a
  hwx0_1 : ∀ i : grid0.Coords, EltTy.bits .f32 = 32 ∨ (Rect.block (s := S2x30x12544) S1x30x12544.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x30.size a ≤ S2x100x30.size a
  hwx0_2 : ∀ i : grid0.Coords, EltTy.bits .f32 = 32 ∨ (Rect.block (s := S2x100x30) S1x100x30.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x100x30.size a ≤ S2x100x30.size a
  hwx0_3 : ∀ i : grid0.Coords, EltTy.bits .f32 = 32 ∨ (Rect.block (s := S2x100x30) S1x100x30.size (cc0_transform_3 i) (hinb0_3 i)).WholeWords (EltTy.packing .f32)

variable [Facts₀]

def gather_S2x100x262144_S2x12544x1_S2x100x12544_1_2_0_0_2_2_11001 : GatherDims S2x100x262144 S2x12544x1 S2x100x12544 where
  offsetDims := [1]
  collapsedSliceDims := [2]
  operandBatchingDims := [0]
  startIndicesBatchingDims := [0]
  startIndexMap := [2]
  indexVectorDim := 2
  sliceSizes := ![1, 100, 1]
  wf := gather_S2x100x262144_S2x12544x1_S2x100x12544_1_2_0_0_2_2_11001_wf
def gather_S2x30x262144_S2x12544x1_S2x30x12544_1_2_0_0_2_2_1301 : GatherDims S2x30x262144 S2x12544x1 S2x30x12544 where
  offsetDims := [1]
  collapsedSliceDims := [2]
  operandBatchingDims := [0]
  startIndicesBatchingDims := [0]
  startIndexMap := [2]
  indexVectorDim := 2
  sliceSizes := ![1, 30, 1]
  wf := gather_S2x30x262144_S2x12544x1_S2x30x12544_1_2_0_0_2_2_1301_wf
def gather_S2x100x134_S2x30x1_S2x100x30_1_2_0_0_2_2_11001 : GatherDims S2x100x134 S2x30x1 S2x100x30 where
  offsetDims := [1]
  collapsedSliceDims := [2]
  operandBatchingDims := [0]
  startIndicesBatchingDims := [0]
  startIndexMap := [2]
  indexVectorDim := 2
  sliceSizes := ![1, 100, 1]
  wf := gather_S2x100x134_S2x30x1_S2x100x30_1_2_0_0_2_2_11001_wf
def dot_S100x12544_S30x12544_S100x30_1_1_0_0_n_n : DotDims S100x12544 S30x12544 S100x30 where
  lhsContracting := [1]
  rhsContracting := [1]
  lhsNonContracting := [0]
  rhsNonContracting := [0]
  lhsBatch := []
  rhsBatch := []
  wf := dot_S100x12544_S30x12544_S100x30_1_1_0_0_n_n_wf

abbrev win0_0 : Pipeline.Window sig grid0 :=
  Pipeline.Window.ofSpec (Memref.whole main_v390) S1x100x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v781) S1x30x12544.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v800) S1x100x30.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v801) S1x100x30.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x100x64x64x64 : Shape := ⟨5, ![2, 100, 64, 64, 64]⟩
abbrev S2x100x134 : Shape := ⟨3, ![2, 100, 134]⟩
abbrev S2x30x64x64x64 : Shape := ⟨5, ![2, 30, 64, 64, 64]⟩
abbrev S2x12544x3 : Shape := ⟨3, ![2, 12544, 3]⟩
abbrev S2x30 : Shape := ⟨2, ![2, 30]⟩
abbrev S_ : Shape := ⟨0, ![]⟩
abbrev S2x12544x1 : Shape := ⟨3, ![2, 12544, 1]⟩
abbrev S2x12544 : Shape := ⟨2, ![2, 12544]⟩
abbrev S12544 : Shape := ⟨1, ![12544]⟩
abbrev S2x100x12544 : Shape := ⟨3, ![2, 100, 12544]⟩
abbrev S100x12544 : Shape := ⟨2, ![100, 12544]⟩
abbrev S2x1x12544 : Shape := ⟨3, ![2, 1, 12544]⟩
abbrev S1x12544 : Shape := ⟨2, ![1, 12544]⟩
abbrev S1x1x12544 : Shape := ⟨3, ![1, 1, 12544]⟩
abbrev S2x30x12544 : Shape := ⟨3, ![2, 30, 12544]⟩
abbrev S30x12544 : Shape := ⟨2, ![30, 12544]⟩
abbrev S2x100 : Shape := ⟨2, ![2, 100]⟩
abbrev S2x100x1 : Shape := ⟨3, ![2, 100, 1]⟩
abbrev S2x30x1 : Shape := ⟨3, ![2, 30, 1]⟩
abbrev S2x100x30 : Shape := ⟨3, ![2, 100, 30]⟩
abbrev S2x12544x30 : Shape := ⟨3, ![2, 12544, 30]⟩
abbrev S2x1x30 : Shape := ⟨3, ![2, 1, 30]⟩
abbrev S100x30 : Shape := ⟨2, ![100, 30]⟩

abbrev nBuf : Space → Nat
  | .hbm => 1843
  | .vmem => 0
  | .smem => 0
  | _ => 0

abbrev hbmTy0_0 (i : Nat) : BufTy := match i % 128 with
  | 0 => ⟨S2x100x64x64x64, .f32⟩
  | 1 => ⟨S2x100x134, .f32⟩
  | 2 => ⟨S2x30x64x64x64, .f32⟩
  | 3 => ⟨S2x12544x3, .f32⟩
  | 4 => ⟨S2x30, .i32⟩
  | 5 => ⟨S_, .f32⟩
  | 6 => ⟨S2x12544x3, .f32⟩
  | 7 => ⟨S2x12544x3, .f32⟩
  | 8 => ⟨S_, .f32⟩
  | 9 => ⟨S2x12544x3, .f32⟩
  | 10 => ⟨S2x12544x3, .f32⟩
  | 11 => ⟨S2x12544x1, .f32⟩
  | 12 => ⟨S2x12544, .f32⟩
  | 13 => ⟨S_, .f32⟩
  | 14 => ⟨S2x12544, .f32⟩
  | 15 => ⟨S2x12544, .f32⟩
  | 16 => ⟨S_, .f32⟩
  | 17 => ⟨S2x12544, .f32⟩
  | 18 => ⟨S2x12544, .f32⟩
  | 19 => ⟨S_, .f32⟩
  | 20 => ⟨S2x12544, .f32⟩
  | 21 => ⟨S2x12544, .f32⟩
  | 22 => ⟨S_, .f32⟩
  | 23 => ⟨S2x12544, .f32⟩
  | 24 => ⟨S2x12544, .f32⟩
  | 25 => ⟨S2x12544x1, .f32⟩
  | 26 => ⟨S2x12544, .f32⟩
  | 27 => ⟨S_, .f32⟩
  | 28 => ⟨S2x12544, .f32⟩
  | 29 => ⟨S2x12544, .f32⟩
  | 30 => ⟨S_, .f32⟩
  | 31 => ⟨S2x12544, .f32⟩
  | 32 => ⟨S2x12544, .f32⟩
  | 33 => ⟨S_, .f32⟩
  | 34 => ⟨S2x12544, .f32⟩
  | 35 => ⟨S2x12544, .f32⟩
  | 36 => ⟨S_, .f32⟩
  | 37 => ⟨S2x12544, .f32⟩
  | 38 => ⟨S2x12544, .f32⟩
  | 39 => ⟨S2x12544x1, .f32⟩
  | 40 => ⟨S2x12544, .f32⟩
  | 41 => ⟨S_, .f32⟩
  | 42 => ⟨S2x12544, .f32⟩
  | 43 => ⟨S2x12544, .f32⟩
  | 44 => ⟨S_, .f32⟩
  | 45 => ⟨S2x12544, .f32⟩
  | 46 => ⟨S2x12544, .f32⟩
  | 47 => ⟨S_, .f32⟩
  | 48 => ⟨S2x12544, .f32⟩
  | 49 => ⟨S2x12544, .f32⟩
  | 50 => ⟨S_, .f32⟩
  | 51 => ⟨S2x12544, .f32⟩
  | 52 => ⟨S2x12544, .f32⟩
  | 53 => ⟨S2x12544, .f32⟩
  | 54 => ⟨S2x12544, .f32⟩
  | 55 => ⟨S2x12544, .f32⟩
  | 56 => ⟨S2x12544, .f32⟩
  | 57 => ⟨S2x12544, .f32⟩
  | 58 => ⟨S2x12544, .f32⟩
  | 59 => ⟨S2x12544, .i32⟩
  | 60 => ⟨S2x12544, .i32⟩
  | 61 => ⟨S2x12544, .i32⟩
  | 62 => ⟨S_, .f32⟩
  | 63 => ⟨S12544, .f32⟩
  | 64 => ⟨S_, .f32⟩
  | 65 => ⟨S2x12544, .f32⟩
  | 66 => ⟨S2x12544, .f32⟩
  | 67 => ⟨S_, .f32⟩
  | 68 => ⟨S2x12544, .f32⟩
  | 69 => ⟨S2x12544, .f32⟩
  | 70 => ⟨S2x12544, .f32⟩
  | 71 => ⟨S_, .f32⟩
  | 72 => ⟨S2x12544, .f32⟩
  | 73 => ⟨S2x12544, .f32⟩
  | 74 => ⟨S2x12544, .f32⟩
  | 75 => ⟨S_, .i32⟩
  | 76 => ⟨S2x12544, .i32⟩
  | 77 => ⟨S2x12544, .i32⟩
  | 78 => ⟨S_, .i32⟩
  | 79 => ⟨S2x12544, .i32⟩
  | 80 => ⟨S2x12544, .i32⟩
  | 81 => ⟨S_, .i32⟩
  | 82 => ⟨S2x12544, .i32⟩
  | 83 => ⟨S2x12544, .i32⟩
  | 84 => ⟨S_, .i32⟩
  | 85 => ⟨S2x12544, .i32⟩
  | 86 => ⟨S2x12544, .i1⟩
  | 87 => ⟨S_, .i32⟩
  | 88 => ⟨S2x12544, .i32⟩
  | 89 => ⟨S2x12544, .i1⟩
  | 90 => ⟨S2x12544, .i1⟩
  | 91 => ⟨S_, .i32⟩
  | 92 => ⟨S2x12544, .i32⟩
  | 93 => ⟨S2x12544, .i1⟩
  | 94 => ⟨S2x12544, .i1⟩
  | 95 => ⟨S_, .i32⟩
  | 96 => ⟨S2x12544, .i32⟩
  | 97 => ⟨S2x12544, .i1⟩
  | 98 => ⟨S2x12544, .i1⟩
  | 99 => ⟨S_, .i32⟩
  | 100 => ⟨S2x12544, .i32⟩
  | 101 => ⟨S2x12544, .i1⟩
  | 102 => ⟨S2x12544, .i1⟩
  | 103 => ⟨S_, .i32⟩
  | 104 => ⟨S2x12544, .i32⟩
  | 105 => ⟨S2x12544, .i1⟩
  | 106 => ⟨S2x12544, .i1⟩
  | 107 => ⟨S_, .i32⟩
  | 108 => ⟨S_, .i32⟩
  | 109 => ⟨S_, .i32⟩
  | 110 => ⟨S2x12544, .i32⟩
  | 111 => ⟨S2x12544, .i32⟩
  | 112 => ⟨S_, .i32⟩
  | 113 => ⟨S2x12544, .i32⟩
  | 114 => ⟨S2x12544, .i32⟩
  | 115 => ⟨S_, .i32⟩
  | 116 => ⟨S_, .i32⟩
  | 117 => ⟨S_, .i32⟩
  | 118 => ⟨S2x12544, .i32⟩
  | 119 => ⟨S2x12544, .i32⟩
  | 120 => ⟨S_, .i32⟩
  | 121 => ⟨S2x12544, .i32⟩
  | 122 => ⟨S2x12544, .i32⟩
  | 123 => ⟨S_, .i32⟩
  | 124 => ⟨S_, .i32⟩
  | 125 => ⟨S_, .i32⟩
  | 126 => ⟨S2x12544, .i32⟩
  | 127 => ⟨S2x12544, .i32⟩
  | _ => ⟨S2x100x64x64x64, .f32⟩

abbrev hbmTy0_1 (i : Nat) : BufTy := match i % 128 with
  | 0 => ⟨S_, .i32⟩
  | 1 => ⟨S2x12544, .i32⟩
  | 2 => ⟨S2x12544, .i32⟩
  | 3 => ⟨S_, .i32⟩
  | 4 => ⟨S2x12544, .i32⟩
  | 5 => ⟨S2x12544, .i1⟩
  | 6 => ⟨S_, .i32⟩
  | 7 => ⟨S2x12544, .i32⟩
  | 8 => ⟨S2x12544, .i32⟩
  | 9 => ⟨S2x12544, .i32⟩
  | 10 => ⟨S_, .i32⟩
  | 11 => ⟨S2x12544, .i32⟩
  | 12 => ⟨S2x12544, .i1⟩
  | 13 => ⟨S_, .i32⟩
  | 14 => ⟨S2x12544, .i32⟩
  | 15 => ⟨S2x12544, .i32⟩
  | 16 => ⟨S2x12544, .i32⟩
  | 17 => ⟨S_, .i32⟩
  | 18 => ⟨S2x12544, .i32⟩
  | 19 => ⟨S2x12544, .i1⟩
  | 20 => ⟨S_, .i32⟩
  | 21 => ⟨S2x12544, .i32⟩
  | 22 => ⟨S2x12544, .i32⟩
  | 23 => ⟨S2x12544, .i32⟩
  | 24 => ⟨S2x12544x1, .i32⟩
  | 25 => ⟨S2x12544x1, .i32⟩
  | 26 => ⟨S2x12544x1, .i32⟩
  | 27 => ⟨S2x12544x3, .i32⟩
  | 28 => ⟨S2x100x12544, .f32⟩
  | 29 => ⟨S_, .f32⟩
  | 30 => ⟨S12544, .f32⟩
  | 31 => ⟨S2x100x12544, .i1⟩
  | 32 => ⟨S100x12544, .f32⟩
  | 33 => ⟨S2x100x12544, .f32⟩
  | 34 => ⟨S2x100x12544, .f32⟩
  | 35 => ⟨S2x1x12544, .f32⟩
  | 36 => ⟨S2x100x12544, .f32⟩
  | 37 => ⟨S2x100x12544, .f32⟩
  | 38 => ⟨S1x12544, .f32⟩
  | 39 => ⟨S1x1x12544, .f32⟩
  | 40 => ⟨S2x100x12544, .f32⟩
  | 41 => ⟨S2x100x12544, .f32⟩
  | 42 => ⟨S_, .f32⟩
  | 43 => ⟨S2x12544, .f32⟩
  | 44 => ⟨S2x12544, .f32⟩
  | 45 => ⟨S_, .f32⟩
  | 46 => ⟨S2x12544, .f32⟩
  | 47 => ⟨S2x12544, .f32⟩
  | 48 => ⟨S2x12544, .f32⟩
  | 49 => ⟨S2x12544, .f32⟩
  | 50 => ⟨S_, .i32⟩
  | 51 => ⟨S2x12544, .i32⟩
  | 52 => ⟨S2x12544, .i32⟩
  | 53 => ⟨S_, .i32⟩
  | 54 => ⟨S2x12544, .i32⟩
  | 55 => ⟨S2x12544, .i32⟩
  | 56 => ⟨S_, .i32⟩
  | 57 => ⟨S2x12544, .i32⟩
  | 58 => ⟨S2x12544, .i32⟩
  | 59 => ⟨S_, .i32⟩
  | 60 => ⟨S2x12544, .i32⟩
  | 61 => ⟨S2x12544, .i1⟩
  | 62 => ⟨S_, .i32⟩
  | 63 => ⟨S2x12544, .i32⟩
  | 64 => ⟨S2x12544, .i1⟩
  | 65 => ⟨S2x12544, .i1⟩
  | 66 => ⟨S_, .i32⟩
  | 67 => ⟨S2x12544, .i32⟩
  | 68 => ⟨S2x12544, .i1⟩
  | 69 => ⟨S2x12544, .i1⟩
  | 70 => ⟨S_, .i32⟩
  | 71 => ⟨S2x12544, .i32⟩
  | 72 => ⟨S2x12544, .i1⟩
  | 73 => ⟨S2x12544, .i1⟩
  | 74 => ⟨S_, .i32⟩
  | 75 => ⟨S2x12544, .i32⟩
  | 76 => ⟨S2x12544, .i1⟩
  | 77 => ⟨S2x12544, .i1⟩
  | 78 => ⟨S_, .i32⟩
  | 79 => ⟨S2x12544, .i32⟩
  | 80 => ⟨S2x12544, .i1⟩
  | 81 => ⟨S2x12544, .i1⟩
  | 82 => ⟨S_, .i32⟩
  | 83 => ⟨S_, .i32⟩
  | 84 => ⟨S_, .i32⟩
  | 85 => ⟨S2x12544, .i32⟩
  | 86 => ⟨S2x12544, .i32⟩
  | 87 => ⟨S_, .i32⟩
  | 88 => ⟨S2x12544, .i32⟩
  | 89 => ⟨S2x12544, .i32⟩
  | 90 => ⟨S_, .i32⟩
  | 91 => ⟨S_, .i32⟩
  | 92 => ⟨S_, .i32⟩
  | 93 => ⟨S2x12544, .i32⟩
  | 94 => ⟨S2x12544, .i32⟩
  | 95 => ⟨S_, .i32⟩
  | 96 => ⟨S2x12544, .i32⟩
  | 97 => ⟨S2x12544, .i32⟩
  | 98 => ⟨S_, .i32⟩
  | 99 => ⟨S_, .i32⟩
  | 100 => ⟨S_, .i32⟩
  | 101 => ⟨S2x12544, .i32⟩
  | 102 => ⟨S2x12544, .i32⟩
  | 103 => ⟨S_, .i32⟩
  | 104 => ⟨S2x12544, .i32⟩
  | 105 => ⟨S2x12544, .i32⟩
  | 106 => ⟨S_, .i32⟩
  | 107 => ⟨S2x12544, .i32⟩
  | 108 => ⟨S2x12544, .i1⟩
  | 109 => ⟨S_, .i32⟩
  | 110 => ⟨S2x12544, .i32⟩
  | 111 => ⟨S2x12544, .i32⟩
  | 112 => ⟨S2x12544, .i32⟩
  | 113 => ⟨S_, .i32⟩
  | 114 => ⟨S2x12544, .i32⟩
  | 115 => ⟨S2x12544, .i1⟩
  | 116 => ⟨S_, .i32⟩
  | 117 => ⟨S2x12544, .i32⟩
  | 118 => ⟨S2x12544, .i32⟩
  | 119 => ⟨S2x12544, .i32⟩
  | 120 => ⟨S_, .i32⟩
  | 121 => ⟨S2x12544, .i32⟩
  | 122 => ⟨S2x12544, .i1⟩
  | 123 => ⟨S_, .i32⟩
  | 124 => ⟨S2x12544, .i32⟩
  | 125 => ⟨S2x12544, .i32⟩
  | 126 => ⟨S2x12544, .i32⟩
  | 127 => ⟨S2x12544x1, .i32⟩
  | _ => ⟨S2x100x64x64x64, .f32⟩

abbrev hbmTy0_2 (i : Nat) : BufTy := match i % 128 with
  | 0 => ⟨S2x12544x1, .i32⟩
  | 1 => ⟨S2x12544x1, .i32⟩
  | 2 => ⟨S2x12544x3, .i32⟩
  | 3 => ⟨S2x100x12544, .f32⟩
  | 4 => ⟨S_, .f32⟩
  | 5 => ⟨S12544, .f32⟩
  | 6 => ⟨S2x100x12544, .i1⟩
  | 7 => ⟨S100x12544, .f32⟩
  | 8 => ⟨S2x100x12544, .f32⟩
  | 9 => ⟨S2x100x12544, .f32⟩
  | 10 => ⟨S2x1x12544, .f32⟩
  | 11 => ⟨S2x100x12544, .f32⟩
  | 12 => ⟨S2x100x12544, .f32⟩
  | 13 => ⟨S2x100x12544, .f32⟩
  | 14 => ⟨S_, .f32⟩
  | 15 => ⟨S2x12544, .f32⟩
  | 16 => ⟨S2x12544, .f32⟩
  | 17 => ⟨S2x12544, .f32⟩
  | 18 => ⟨S_, .f32⟩
  | 19 => ⟨S2x12544, .f32⟩
  | 20 => ⟨S2x12544, .f32⟩
  | 21 => ⟨S2x12544, .f32⟩
  | 22 => ⟨S_, .i32⟩
  | 23 => ⟨S2x12544, .i32⟩
  | 24 => ⟨S2x12544, .i32⟩
  | 25 => ⟨S_, .i32⟩
  | 26 => ⟨S2x12544, .i32⟩
  | 27 => ⟨S2x12544, .i32⟩
  | 28 => ⟨S_, .i32⟩
  | 29 => ⟨S2x12544, .i32⟩
  | 30 => ⟨S2x12544, .i32⟩
  | 31 => ⟨S_, .i32⟩
  | 32 => ⟨S2x12544, .i32⟩
  | 33 => ⟨S2x12544, .i1⟩
  | 34 => ⟨S_, .i32⟩
  | 35 => ⟨S2x12544, .i32⟩
  | 36 => ⟨S2x12544, .i1⟩
  | 37 => ⟨S2x12544, .i1⟩
  | 38 => ⟨S_, .i32⟩
  | 39 => ⟨S2x12544, .i32⟩
  | 40 => ⟨S2x12544, .i1⟩
  | 41 => ⟨S2x12544, .i1⟩
  | 42 => ⟨S_, .i32⟩
  | 43 => ⟨S2x12544, .i32⟩
  | 44 => ⟨S2x12544, .i1⟩
  | 45 => ⟨S2x12544, .i1⟩
  | 46 => ⟨S_, .i32⟩
  | 47 => ⟨S2x12544, .i32⟩
  | 48 => ⟨S2x12544, .i1⟩
  | 49 => ⟨S2x12544, .i1⟩
  | 50 => ⟨S_, .i32⟩
  | 51 => ⟨S2x12544, .i32⟩
  | 52 => ⟨S2x12544, .i1⟩
  | 53 => ⟨S2x12544, .i1⟩
  | 54 => ⟨S_, .i32⟩
  | 55 => ⟨S_, .i32⟩
  | 56 => ⟨S_, .i32⟩
  | 57 => ⟨S2x12544, .i32⟩
  | 58 => ⟨S2x12544, .i32⟩
  | 59 => ⟨S_, .i32⟩
  | 60 => ⟨S2x12544, .i32⟩
  | 61 => ⟨S2x12544, .i32⟩
  | 62 => ⟨S_, .i32⟩
  | 63 => ⟨S_, .i32⟩
  | 64 => ⟨S_, .i32⟩
  | 65 => ⟨S2x12544, .i32⟩
  | 66 => ⟨S2x12544, .i32⟩
  | 67 => ⟨S_, .i32⟩
  | 68 => ⟨S2x12544, .i32⟩
  | 69 => ⟨S2x12544, .i32⟩
  | 70 => ⟨S_, .i32⟩
  | 71 => ⟨S_, .i32⟩
  | 72 => ⟨S_, .i32⟩
  | 73 => ⟨S2x12544, .i32⟩
  | 74 => ⟨S2x12544, .i32⟩
  | 75 => ⟨S_, .i32⟩
  | 76 => ⟨S2x12544, .i32⟩
  | 77 => ⟨S2x12544, .i32⟩
  | 78 => ⟨S_, .i32⟩
  | 79 => ⟨S2x12544, .i32⟩
  | 80 => ⟨S2x12544, .i1⟩
  | 81 => ⟨S_, .i32⟩
  | 82 => ⟨S2x12544, .i32⟩
  | 83 => ⟨S2x12544, .i32⟩
  | 84 => ⟨S2x12544, .i32⟩
  | 85 => ⟨S_, .i32⟩
  | 86 => ⟨S2x12544, .i32⟩
  | 87 => ⟨S2x12544, .i1⟩
  | 88 => ⟨S_, .i32⟩
  | 89 => ⟨S2x12544, .i32⟩
  | 90 => ⟨S2x12544, .i32⟩
  | 91 => ⟨S2x12544, .i32⟩
  | 92 => ⟨S_, .i32⟩
  | 93 => ⟨S2x12544, .i32⟩
  | 94 => ⟨S2x12544, .i1⟩
  | 95 => ⟨S_, .i32⟩
  | 96 => ⟨S2x12544, .i32⟩
  | 97 => ⟨S2x12544, .i32⟩
  | 98 => ⟨S2x12544, .i32⟩
  | 99 => ⟨S2x12544x1, .i32⟩
  | 100 => ⟨S2x12544x1, .i32⟩
  | 101 => ⟨S2x12544x1, .i32⟩
  | 102 => ⟨S2x12544x3, .i32⟩
  | 103 => ⟨S2x100x12544, .f32⟩
  | 104 => ⟨S_, .f32⟩
  | 105 => ⟨S12544, .f32⟩
  | 106 => ⟨S2x100x12544, .i1⟩
  | 107 => ⟨S100x12544, .f32⟩
  | 108 => ⟨S2x100x12544, .f32⟩
  | 109 => ⟨S2x100x12544, .f32⟩
  | 110 => ⟨S2x1x12544, .f32⟩
  | 111 => ⟨S2x100x12544, .f32⟩
  | 112 => ⟨S2x100x12544, .f32⟩
  | 113 => ⟨S2x100x12544, .f32⟩
  | 114 => ⟨S_, .f32⟩
  | 115 => ⟨S2x12544, .f32⟩
  | 116 => ⟨S2x12544, .f32⟩
  | 117 => ⟨S2x12544, .f32⟩
  | 118 => ⟨S2x12544, .f32⟩
  | 119 => ⟨S_, .i32⟩
  | 120 => ⟨S2x12544, .i32⟩
  | 121 => ⟨S2x12544, .i32⟩
  | 122 => ⟨S_, .i32⟩
  | 123 => ⟨S2x12544, .i32⟩
  | 124 => ⟨S2x12544, .i32⟩
  | 125 => ⟨S_, .i32⟩
  | 126 => ⟨S2x12544, .i32⟩
  | 127 => ⟨S2x12544, .i32⟩
  | _ => ⟨S2x100x64x64x64, .f32⟩

abbrev hbmTy0_3 (i : Nat) : BufTy := match i % 128 with
  | 0 => ⟨S_, .i32⟩
  | 1 => ⟨S2x12544, .i32⟩
  | 2 => ⟨S2x12544, .i1⟩
  | 3 => ⟨S_, .i32⟩
  | 4 => ⟨S2x12544, .i32⟩
  | 5 => ⟨S2x12544, .i1⟩
  | 6 => ⟨S2x12544, .i1⟩
  | 7 => ⟨S_, .i32⟩
  | 8 => ⟨S2x12544, .i32⟩
  | 9 => ⟨S2x12544, .i1⟩
  | 10 => ⟨S2x12544, .i1⟩
  | 11 => ⟨S_, .i32⟩
  | 12 => ⟨S2x12544, .i32⟩
  | 13 => ⟨S2x12544, .i1⟩
  | 14 => ⟨S2x12544, .i1⟩
  | 15 => ⟨S_, .i32⟩
  | 16 => ⟨S2x12544, .i32⟩
  | 17 => ⟨S2x12544, .i1⟩
  | 18 => ⟨S2x12544, .i1⟩
  | 19 => ⟨S_, .i32⟩
  | 20 => ⟨S2x12544, .i32⟩
  | 21 => ⟨S2x12544, .i1⟩
  | 22 => ⟨S2x12544, .i1⟩
  | 23 => ⟨S_, .i32⟩
  | 24 => ⟨S_, .i32⟩
  | 25 => ⟨S_, .i32⟩
  | 26 => ⟨S2x12544, .i32⟩
  | 27 => ⟨S2x12544, .i32⟩
  | 28 => ⟨S_, .i32⟩
  | 29 => ⟨S2x12544, .i32⟩
  | 30 => ⟨S2x12544, .i32⟩
  | 31 => ⟨S_, .i32⟩
  | 32 => ⟨S_, .i32⟩
  | 33 => ⟨S_, .i32⟩
  | 34 => ⟨S2x12544, .i32⟩
  | 35 => ⟨S2x12544, .i32⟩
  | 36 => ⟨S_, .i32⟩
  | 37 => ⟨S2x12544, .i32⟩
  | 38 => ⟨S2x12544, .i32⟩
  | 39 => ⟨S_, .i32⟩
  | 40 => ⟨S_, .i32⟩
  | 41 => ⟨S_, .i32⟩
  | 42 => ⟨S2x12544, .i32⟩
  | 43 => ⟨S2x12544, .i32⟩
  | 44 => ⟨S_, .i32⟩
  | 45 => ⟨S2x12544, .i32⟩
  | 46 => ⟨S2x12544, .i32⟩
  | 47 => ⟨S_, .i32⟩
  | 48 => ⟨S2x12544, .i32⟩
  | 49 => ⟨S2x12544, .i1⟩
  | 50 => ⟨S_, .i32⟩
  | 51 => ⟨S2x12544, .i32⟩
  | 52 => ⟨S2x12544, .i32⟩
  | 53 => ⟨S2x12544, .i32⟩
  | 54 => ⟨S_, .i32⟩
  | 55 => ⟨S2x12544, .i32⟩
  | 56 => ⟨S2x12544, .i1⟩
  | 57 => ⟨S_, .i32⟩
  | 58 => ⟨S2x12544, .i32⟩
  | 59 => ⟨S2x12544, .i32⟩
  | 60 => ⟨S2x12544, .i32⟩
  | 61 => ⟨S_, .i32⟩
  | 62 => ⟨S2x12544, .i32⟩
  | 63 => ⟨S2x12544, .i1⟩
  | 64 => ⟨S_, .i32⟩
  | 65 => ⟨S2x12544, .i32⟩
  | 66 => ⟨S2x12544, .i32⟩
  | 67 => ⟨S2x12544, .i32⟩
  | 68 => ⟨S2x12544x1, .i32⟩
  | 69 => ⟨S2x12544x1, .i32⟩
  | 70 => ⟨S2x12544x1, .i32⟩
  | 71 => ⟨S2x12544x3, .i32⟩
  | 72 => ⟨S2x100x12544, .f32⟩
  | 73 => ⟨S_, .f32⟩
  | 74 => ⟨S12544, .f32⟩
  | 75 => ⟨S2x100x12544, .i1⟩
  | 76 => ⟨S100x12544, .f32⟩
  | 77 => ⟨S2x100x12544, .f32⟩
  | 78 => ⟨S2x100x12544, .f32⟩
  | 79 => ⟨S2x1x12544, .f32⟩
  | 80 => ⟨S2x100x12544, .f32⟩
  | 81 => ⟨S2x100x12544, .f32⟩
  | 82 => ⟨S2x100x12544, .f32⟩
  | 83 => ⟨S_, .f32⟩
  | 84 => ⟨S2x12544, .f32⟩
  | 85 => ⟨S2x12544, .f32⟩
  | 86 => ⟨S2x12544, .f32⟩
  | 87 => ⟨S_, .f32⟩
  | 88 => ⟨S2x12544, .f32⟩
  | 89 => ⟨S2x12544, .f32⟩
  | 90 => ⟨S2x12544, .f32⟩
  | 91 => ⟨S_, .i32⟩
  | 92 => ⟨S2x12544, .i32⟩
  | 93 => ⟨S2x12544, .i32⟩
  | 94 => ⟨S_, .i32⟩
  | 95 => ⟨S2x12544, .i32⟩
  | 96 => ⟨S2x12544, .i32⟩
  | 97 => ⟨S_, .i32⟩
  | 98 => ⟨S2x12544, .i32⟩
  | 99 => ⟨S2x12544, .i32⟩
  | 100 => ⟨S_, .i32⟩
  | 101 => ⟨S2x12544, .i32⟩
  | 102 => ⟨S2x12544, .i1⟩
  | 103 => ⟨S_, .i32⟩
  | 104 => ⟨S2x12544, .i32⟩
  | 105 => ⟨S2x12544, .i1⟩
  | 106 => ⟨S2x12544, .i1⟩
  | 107 => ⟨S_, .i32⟩
  | 108 => ⟨S2x12544, .i32⟩
  | 109 => ⟨S2x12544, .i1⟩
  | 110 => ⟨S2x12544, .i1⟩
  | 111 => ⟨S_, .i32⟩
  | 112 => ⟨S2x12544, .i32⟩
  | 113 => ⟨S2x12544, .i1⟩
  | 114 => ⟨S2x12544, .i1⟩
  | 115 => ⟨S_, .i32⟩
  | 116 => ⟨S2x12544, .i32⟩
  | 117 => ⟨S2x12544, .i1⟩
  | 118 => ⟨S2x12544, .i1⟩
  | 119 => ⟨S_, .i32⟩
  | 120 => ⟨S2x12544, .i32⟩
  | 121 => ⟨S2x12544, .i1⟩
  | 122 => ⟨S2x12544, .i1⟩
  | 123 => ⟨S_, .i32⟩
  | 124 => ⟨S_, .i32⟩
  | 125 => ⟨S_, .i32⟩
  | 126 => ⟨S2x12544, .i32⟩
  | 127 => ⟨S2x12544, .i32⟩
  | _ => ⟨S2x100x64x64x64, .f32⟩

abbrev hbmTy0_4 (i : Nat) : BufTy := match i % 128 with
  | 0 => ⟨S_, .i32⟩
  | 1 => ⟨S2x12544, .i32⟩
  | 2 => ⟨S2x12544, .i32⟩
  | 3 => ⟨S_, .i32⟩
  | 4 => ⟨S_, .i32⟩
  | 5 => ⟨S_, .i32⟩
  | 6 => ⟨S2x12544, .i32⟩
  | 7 => ⟨S2x12544, .i32⟩
  | 8 => ⟨S_, .i32⟩
  | 9 => ⟨S2x12544, .i32⟩
  | 10 => ⟨S2x12544, .i32⟩
  | 11 => ⟨S_, .i32⟩
  | 12 => ⟨S_, .i32⟩
  | 13 => ⟨S_, .i32⟩
  | 14 => ⟨S2x12544, .i32⟩
  | 15 => ⟨S2x12544, .i32⟩
  | 16 => ⟨S_, .i32⟩
  | 17 => ⟨S2x12544, .i32⟩
  | 18 => ⟨S2x12544, .i32⟩
  | 19 => ⟨S_, .i32⟩
  | 20 => ⟨S2x12544, .i32⟩
  | 21 => ⟨S2x12544, .i1⟩
  | 22 => ⟨S_, .i32⟩
  | 23 => ⟨S2x12544, .i32⟩
  | 24 => ⟨S2x12544, .i32⟩
  | 25 => ⟨S2x12544, .i32⟩
  | 26 => ⟨S_, .i32⟩
  | 27 => ⟨S2x12544, .i32⟩
  | 28 => ⟨S2x12544, .i1⟩
  | 29 => ⟨S_, .i32⟩
  | 30 => ⟨S2x12544, .i32⟩
  | 31 => ⟨S2x12544, .i32⟩
  | 32 => ⟨S2x12544, .i32⟩
  | 33 => ⟨S_, .i32⟩
  | 34 => ⟨S2x12544, .i32⟩
  | 35 => ⟨S2x12544, .i1⟩
  | 36 => ⟨S_, .i32⟩
  | 37 => ⟨S2x12544, .i32⟩
  | 38 => ⟨S2x12544, .i32⟩
  | 39 => ⟨S2x12544, .i32⟩
  | 40 => ⟨S2x12544x1, .i32⟩
  | 41 => ⟨S2x12544x1, .i32⟩
  | 42 => ⟨S2x12544x1, .i32⟩
  | 43 => ⟨S2x12544x3, .i32⟩
  | 44 => ⟨S2x100x12544, .f32⟩
  | 45 => ⟨S_, .f32⟩
  | 46 => ⟨S12544, .f32⟩
  | 47 => ⟨S2x100x12544, .i1⟩
  | 48 => ⟨S100x12544, .f32⟩
  | 49 => ⟨S2x100x12544, .f32⟩
  | 50 => ⟨S2x100x12544, .f32⟩
  | 51 => ⟨S2x1x12544, .f32⟩
  | 52 => ⟨S2x100x12544, .f32⟩
  | 53 => ⟨S2x100x12544, .f32⟩
  | 54 => ⟨S2x100x12544, .f32⟩
  | 55 => ⟨S_, .f32⟩
  | 56 => ⟨S2x12544, .f32⟩
  | 57 => ⟨S2x12544, .f32⟩
  | 58 => ⟨S2x12544, .f32⟩
  | 59 => ⟨S2x12544, .f32⟩
  | 60 => ⟨S_, .i32⟩
  | 61 => ⟨S2x12544, .i32⟩
  | 62 => ⟨S2x12544, .i32⟩
  | 63 => ⟨S_, .i32⟩
  | 64 => ⟨S2x12544, .i32⟩
  | 65 => ⟨S2x12544, .i32⟩
  | 66 => ⟨S_, .i32⟩
  | 67 => ⟨S2x12544, .i32⟩
  | 68 => ⟨S2x12544, .i32⟩
  | 69 => ⟨S_, .i32⟩
  | 70 => ⟨S2x12544, .i32⟩
  | 71 => ⟨S2x12544, .i1⟩
  | 72 => ⟨S_, .i32⟩
  | 73 => ⟨S2x12544, .i32⟩
  | 74 => ⟨S2x12544, .i1⟩
  | 75 => ⟨S2x12544, .i1⟩
  | 76 => ⟨S_, .i32⟩
  | 77 => ⟨S2x12544, .i32⟩
  | 78 => ⟨S2x12544, .i1⟩
  | 79 => ⟨S2x12544, .i1⟩
  | 80 => ⟨S_, .i32⟩
  | 81 => ⟨S2x12544, .i32⟩
  | 82 => ⟨S2x12544, .i1⟩
  | 83 => ⟨S2x12544, .i1⟩
  | 84 => ⟨S_, .i32⟩
  | 85 => ⟨S2x12544, .i32⟩
  | 86 => ⟨S2x12544, .i1⟩
  | 87 => ⟨S2x12544, .i1⟩
  | 88 => ⟨S_, .i32⟩
  | 89 => ⟨S2x12544, .i32⟩
  | 90 => ⟨S2x12544, .i1⟩
  | 91 => ⟨S2x12544, .i1⟩
  | 92 => ⟨S_, .i32⟩
  | 93 => ⟨S_, .i32⟩
  | 94 => ⟨S_, .i32⟩
  | 95 => ⟨S2x12544, .i32⟩
  | 96 => ⟨S2x12544, .i32⟩
  | 97 => ⟨S_, .i32⟩
  | 98 => ⟨S2x12544, .i32⟩
  | 99 => ⟨S2x12544, .i32⟩
  | 100 => ⟨S_, .i32⟩
  | 101 => ⟨S_, .i32⟩
  | 102 => ⟨S_, .i32⟩
  | 103 => ⟨S2x12544, .i32⟩
  | 104 => ⟨S2x12544, .i32⟩
  | 105 => ⟨S_, .i32⟩
  | 106 => ⟨S2x12544, .i32⟩
  | 107 => ⟨S2x12544, .i32⟩
  | 108 => ⟨S_, .i32⟩
  | 109 => ⟨S_, .i32⟩
  | 110 => ⟨S_, .i32⟩
  | 111 => ⟨S2x12544, .i32⟩
  | 112 => ⟨S2x12544, .i32⟩
  | 113 => ⟨S_, .i32⟩
  | 114 => ⟨S2x12544, .i32⟩
  | 115 => ⟨S2x12544, .i32⟩
  | 116 => ⟨S_, .i32⟩
  | 117 => ⟨S2x12544, .i32⟩
  | 118 => ⟨S2x12544, .i1⟩
  | 119 => ⟨S_, .i32⟩
  | 120 => ⟨S2x12544, .i32⟩
  | 121 => ⟨S2x12544, .i32⟩
  | 122 => ⟨S2x12544, .i32⟩
  | 123 => ⟨S_, .i32⟩
  | 124 => ⟨S2x12544, .i32⟩
  | 125 => ⟨S2x12544, .i1⟩
  | 126 => ⟨S_, .i32⟩
  | 127 => ⟨S2x12544, .i32⟩
  | _ => ⟨S2x100x64x64x64, .f32⟩

abbrev hbmTy0_5 (i : Nat) : BufTy := match i % 128 with
  | 0 => ⟨S2x12544, .i32⟩
  | 1 => ⟨S2x12544, .i32⟩
  | 2 => ⟨S_, .i32⟩
  | 3 => ⟨S2x12544, .i32⟩
  | 4 => ⟨S2x12544, .i1⟩
  | 5 => ⟨S_, .i32⟩
  | 6 => ⟨S2x12544, .i32⟩
  | 7 => ⟨S2x12544, .i32⟩
  | 8 => ⟨S2x12544, .i32⟩
  | 9 => ⟨S2x12544x1, .i32⟩
  | 10 => ⟨S2x12544x1, .i32⟩
  | 11 => ⟨S2x12544x1, .i32⟩
  | 12 => ⟨S2x12544x3, .i32⟩
  | 13 => ⟨S2x100x12544, .f32⟩
  | 14 => ⟨S_, .f32⟩
  | 15 => ⟨S12544, .f32⟩
  | 16 => ⟨S2x100x12544, .i1⟩
  | 17 => ⟨S100x12544, .f32⟩
  | 18 => ⟨S2x100x12544, .f32⟩
  | 19 => ⟨S2x100x12544, .f32⟩
  | 20 => ⟨S2x1x12544, .f32⟩
  | 21 => ⟨S2x100x12544, .f32⟩
  | 22 => ⟨S2x100x12544, .f32⟩
  | 23 => ⟨S2x100x12544, .f32⟩
  | 24 => ⟨S2x12544, .f32⟩
  | 25 => ⟨S_, .f32⟩
  | 26 => ⟨S2x12544, .f32⟩
  | 27 => ⟨S2x12544, .f32⟩
  | 28 => ⟨S2x12544, .f32⟩
  | 29 => ⟨S_, .i32⟩
  | 30 => ⟨S2x12544, .i32⟩
  | 31 => ⟨S2x12544, .i32⟩
  | 32 => ⟨S_, .i32⟩
  | 33 => ⟨S2x12544, .i32⟩
  | 34 => ⟨S2x12544, .i32⟩
  | 35 => ⟨S_, .i32⟩
  | 36 => ⟨S2x12544, .i32⟩
  | 37 => ⟨S2x12544, .i32⟩
  | 38 => ⟨S_, .i32⟩
  | 39 => ⟨S2x12544, .i32⟩
  | 40 => ⟨S2x12544, .i1⟩
  | 41 => ⟨S_, .i32⟩
  | 42 => ⟨S2x12544, .i32⟩
  | 43 => ⟨S2x12544, .i1⟩
  | 44 => ⟨S2x12544, .i1⟩
  | 45 => ⟨S_, .i32⟩
  | 46 => ⟨S2x12544, .i32⟩
  | 47 => ⟨S2x12544, .i1⟩
  | 48 => ⟨S2x12544, .i1⟩
  | 49 => ⟨S_, .i32⟩
  | 50 => ⟨S2x12544, .i32⟩
  | 51 => ⟨S2x12544, .i1⟩
  | 52 => ⟨S2x12544, .i1⟩
  | 53 => ⟨S_, .i32⟩
  | 54 => ⟨S2x12544, .i32⟩
  | 55 => ⟨S2x12544, .i1⟩
  | 56 => ⟨S2x12544, .i1⟩
  | 57 => ⟨S_, .i32⟩
  | 58 => ⟨S2x12544, .i32⟩
  | 59 => ⟨S2x12544, .i1⟩
  | 60 => ⟨S2x12544, .i1⟩
  | 61 => ⟨S_, .i32⟩
  | 62 => ⟨S_, .i32⟩
  | 63 => ⟨S_, .i32⟩
  | 64 => ⟨S2x12544, .i32⟩
  | 65 => ⟨S2x12544, .i32⟩
  | 66 => ⟨S_, .i32⟩
  | 67 => ⟨S2x12544, .i32⟩
  | 68 => ⟨S2x12544, .i32⟩
  | 69 => ⟨S_, .i32⟩
  | 70 => ⟨S_, .i32⟩
  | 71 => ⟨S_, .i32⟩
  | 72 => ⟨S2x12544, .i32⟩
  | 73 => ⟨S2x12544, .i32⟩
  | 74 => ⟨S_, .i32⟩
  | 75 => ⟨S2x12544, .i32⟩
  | 76 => ⟨S2x12544, .i32⟩
  | 77 => ⟨S_, .i32⟩
  | 78 => ⟨S_, .i32⟩
  | 79 => ⟨S_, .i32⟩
  | 80 => ⟨S2x12544, .i32⟩
  | 81 => ⟨S2x12544, .i32⟩
  | 82 => ⟨S_, .i32⟩
  | 83 => ⟨S2x12544, .i32⟩
  | 84 => ⟨S2x12544, .i32⟩
  | 85 => ⟨S_, .i32⟩
  | 86 => ⟨S2x12544, .i32⟩
  | 87 => ⟨S2x12544, .i1⟩
  | 88 => ⟨S_, .i32⟩
  | 89 => ⟨S2x12544, .i32⟩
  | 90 => ⟨S2x12544, .i32⟩
  | 91 => ⟨S2x12544, .i32⟩
  | 92 => ⟨S_, .i32⟩
  | 93 => ⟨S2x12544, .i32⟩
  | 94 => ⟨S2x12544, .i1⟩
  | 95 => ⟨S_, .i32⟩
  | 96 => ⟨S2x12544, .i32⟩
  | 97 => ⟨S2x12544, .i32⟩
  | 98 => ⟨S2x12544, .i32⟩
  | 99 => ⟨S_, .i32⟩
  | 100 => ⟨S2x12544, .i32⟩
  | 101 => ⟨S2x12544, .i1⟩
  | 102 => ⟨S_, .i32⟩
  | 103 => ⟨S2x12544, .i32⟩
  | 104 => ⟨S2x12544, .i32⟩
  | 105 => ⟨S2x12544, .i32⟩
  | 106 => ⟨S2x12544x1, .i32⟩
  | 107 => ⟨S2x12544x1, .i32⟩
  | 108 => ⟨S2x12544x1, .i32⟩
  | 109 => ⟨S2x12544x3, .i32⟩
  | 110 => ⟨S2x100x12544, .f32⟩
  | 111 => ⟨S_, .f32⟩
  | 112 => ⟨S12544, .f32⟩
  | 113 => ⟨S2x100x12544, .i1⟩
  | 114 => ⟨S100x12544, .f32⟩
  | 115 => ⟨S2x100x12544, .f32⟩
  | 116 => ⟨S2x100x12544, .f32⟩
  | 117 => ⟨S2x1x12544, .f32⟩
  | 118 => ⟨S2x100x12544, .f32⟩
  | 119 => ⟨S2x100x12544, .f32⟩
  | 120 => ⟨S2x100x12544, .f32⟩
  | 121 => ⟨S2x12544, .f32⟩
  | 122 => ⟨S2x12544, .f32⟩
  | 123 => ⟨S_, .i32⟩
  | 124 => ⟨S2x12544, .i32⟩
  | 125 => ⟨S2x12544, .i32⟩
  | 126 => ⟨S_, .i32⟩
  | 127 => ⟨S2x12544, .i32⟩
  | _ => ⟨S2x100x64x64x64, .f32⟩

abbrev hbmTy0_6 (i : Nat) : BufTy := match i % 128 with
  | 0 => ⟨S2x12544, .i32⟩
  | 1 => ⟨S_, .i32⟩
  | 2 => ⟨S2x12544, .i32⟩
  | 3 => ⟨S2x12544, .i32⟩
  | 4 => ⟨S_, .i32⟩
  | 5 => ⟨S2x12544, .i32⟩
  | 6 => ⟨S2x12544, .i1⟩
  | 7 => ⟨S_, .i32⟩
  | 8 => ⟨S2x12544, .i32⟩
  | 9 => ⟨S2x12544, .i1⟩
  | 10 => ⟨S2x12544, .i1⟩
  | 11 => ⟨S_, .i32⟩
  | 12 => ⟨S2x12544, .i32⟩
  | 13 => ⟨S2x12544, .i1⟩
  | 14 => ⟨S2x12544, .i1⟩
  | 15 => ⟨S_, .i32⟩
  | 16 => ⟨S2x12544, .i32⟩
  | 17 => ⟨S2x12544, .i1⟩
  | 18 => ⟨S2x12544, .i1⟩
  | 19 => ⟨S_, .i32⟩
  | 20 => ⟨S2x12544, .i32⟩
  | 21 => ⟨S2x12544, .i1⟩
  | 22 => ⟨S2x12544, .i1⟩
  | 23 => ⟨S_, .i32⟩
  | 24 => ⟨S2x12544, .i32⟩
  | 25 => ⟨S2x12544, .i1⟩
  | 26 => ⟨S2x12544, .i1⟩
  | 27 => ⟨S_, .i32⟩
  | 28 => ⟨S_, .i32⟩
  | 29 => ⟨S_, .i32⟩
  | 30 => ⟨S2x12544, .i32⟩
  | 31 => ⟨S2x12544, .i32⟩
  | 32 => ⟨S_, .i32⟩
  | 33 => ⟨S2x12544, .i32⟩
  | 34 => ⟨S2x12544, .i32⟩
  | 35 => ⟨S_, .i32⟩
  | 36 => ⟨S_, .i32⟩
  | 37 => ⟨S_, .i32⟩
  | 38 => ⟨S2x12544, .i32⟩
  | 39 => ⟨S2x12544, .i32⟩
  | 40 => ⟨S_, .i32⟩
  | 41 => ⟨S2x12544, .i32⟩
  | 42 => ⟨S2x12544, .i32⟩
  | 43 => ⟨S_, .i32⟩
  | 44 => ⟨S_, .i32⟩
  | 45 => ⟨S_, .i32⟩
  | 46 => ⟨S2x12544, .i32⟩
  | 47 => ⟨S2x12544, .i32⟩
  | 48 => ⟨S_, .i32⟩
  | 49 => ⟨S2x12544, .i32⟩
  | 50 => ⟨S2x12544, .i32⟩
  | 51 => ⟨S_, .i32⟩
  | 52 => ⟨S2x12544, .i32⟩
  | 53 => ⟨S2x12544, .i1⟩
  | 54 => ⟨S_, .i32⟩
  | 55 => ⟨S2x12544, .i32⟩
  | 56 => ⟨S2x12544, .i32⟩
  | 57 => ⟨S2x12544, .i32⟩
  | 58 => ⟨S_, .i32⟩
  | 59 => ⟨S2x12544, .i32⟩
  | 60 => ⟨S2x12544, .i1⟩
  | 61 => ⟨S_, .i32⟩
  | 62 => ⟨S2x12544, .i32⟩
  | 63 => ⟨S2x12544, .i32⟩
  | 64 => ⟨S2x12544, .i32⟩
  | 65 => ⟨S_, .i32⟩
  | 66 => ⟨S2x12544, .i32⟩
  | 67 => ⟨S2x12544, .i1⟩
  | 68 => ⟨S_, .i32⟩
  | 69 => ⟨S2x12544, .i32⟩
  | 70 => ⟨S2x12544, .i32⟩
  | 71 => ⟨S2x12544, .i32⟩
  | 72 => ⟨S2x12544x1, .i32⟩
  | 73 => ⟨S2x12544x1, .i32⟩
  | 74 => ⟨S2x12544x1, .i32⟩
  | 75 => ⟨S2x12544x3, .i32⟩
  | 76 => ⟨S2x100x12544, .f32⟩
  | 77 => ⟨S_, .f32⟩
  | 78 => ⟨S12544, .f32⟩
  | 79 => ⟨S2x100x12544, .i1⟩
  | 80 => ⟨S100x12544, .f32⟩
  | 81 => ⟨S2x100x12544, .f32⟩
  | 82 => ⟨S2x100x12544, .f32⟩
  | 83 => ⟨S2x1x12544, .f32⟩
  | 84 => ⟨S2x100x12544, .f32⟩
  | 85 => ⟨S2x100x12544, .f32⟩
  | 86 => ⟨S2x100x12544, .f32⟩
  | 87 => ⟨S_, .f32⟩
  | 88 => ⟨S2x12544x3, .f32⟩
  | 89 => ⟨S2x12544x3, .f32⟩
  | 90 => ⟨S_, .f32⟩
  | 91 => ⟨S2x12544x3, .f32⟩
  | 92 => ⟨S2x12544x3, .f32⟩
  | 93 => ⟨S2x12544x1, .f32⟩
  | 94 => ⟨S2x12544, .f32⟩
  | 95 => ⟨S_, .f32⟩
  | 96 => ⟨S2x12544, .f32⟩
  | 97 => ⟨S2x12544, .f32⟩
  | 98 => ⟨S_, .f32⟩
  | 99 => ⟨S2x12544, .f32⟩
  | 100 => ⟨S2x12544, .f32⟩
  | 101 => ⟨S_, .f32⟩
  | 102 => ⟨S2x12544, .f32⟩
  | 103 => ⟨S2x12544, .f32⟩
  | 104 => ⟨S_, .f32⟩
  | 105 => ⟨S2x12544, .f32⟩
  | 106 => ⟨S2x12544, .f32⟩
  | 107 => ⟨S2x12544x1, .f32⟩
  | 108 => ⟨S2x12544, .f32⟩
  | 109 => ⟨S_, .f32⟩
  | 110 => ⟨S2x12544, .f32⟩
  | 111 => ⟨S2x12544, .f32⟩
  | 112 => ⟨S_, .f32⟩
  | 113 => ⟨S2x12544, .f32⟩
  | 114 => ⟨S2x12544, .f32⟩
  | 115 => ⟨S_, .f32⟩
  | 116 => ⟨S2x12544, .f32⟩
  | 117 => ⟨S2x12544, .f32⟩
  | 118 => ⟨S_, .f32⟩
  | 119 => ⟨S2x12544, .f32⟩
  | 120 => ⟨S2x12544, .f32⟩
  | 121 => ⟨S2x12544x1, .f32⟩
  | 122 => ⟨S2x12544, .f32⟩
  | 123 => ⟨S_, .f32⟩
  | 124 => ⟨S2x12544, .f32⟩
  | 125 => ⟨S2x12544, .f32⟩
  | 126 => ⟨S_, .f32⟩
  | 127 => ⟨S2x12544, .f32⟩
  | _ => ⟨S2x100x64x64x64, .f32⟩

abbrev hbmTy0_7 (i : Nat) : BufTy := match i % 128 with
  | 0 => ⟨S2x12544, .f32⟩
  | 1 => ⟨S_, .f32⟩
  | 2 => ⟨S2x12544, .f32⟩
  | 3 => ⟨S2x12544, .f32⟩
  | 4 => ⟨S_, .f32⟩
  | 5 => ⟨S2x12544, .f32⟩
  | 6 => ⟨S2x12544, .f32⟩
  | 7 => ⟨S2x12544, .f32⟩
  | 8 => ⟨S2x12544, .f32⟩
  | 9 => ⟨S2x12544, .f32⟩
  | 10 => ⟨S2x12544, .f32⟩
  | 11 => ⟨S2x12544, .f32⟩
  | 12 => ⟨S2x12544, .f32⟩
  | 13 => ⟨S2x12544, .i32⟩
  | 14 => ⟨S2x12544, .i32⟩
  | 15 => ⟨S2x12544, .i32⟩
  | 16 => ⟨S_, .f32⟩
  | 17 => ⟨S12544, .f32⟩
  | 18 => ⟨S_, .f32⟩
  | 19 => ⟨S2x12544, .f32⟩
  | 20 => ⟨S2x12544, .f32⟩
  | 21 => ⟨S_, .f32⟩
  | 22 => ⟨S2x12544, .f32⟩
  | 23 => ⟨S2x12544, .f32⟩
  | 24 => ⟨S2x12544, .f32⟩
  | 25 => ⟨S_, .f32⟩
  | 26 => ⟨S2x12544, .f32⟩
  | 27 => ⟨S2x12544, .f32⟩
  | 28 => ⟨S2x12544, .f32⟩
  | 29 => ⟨S_, .i32⟩
  | 30 => ⟨S2x12544, .i32⟩
  | 31 => ⟨S2x12544, .i32⟩
  | 32 => ⟨S_, .i32⟩
  | 33 => ⟨S2x12544, .i32⟩
  | 34 => ⟨S2x12544, .i32⟩
  | 35 => ⟨S_, .i32⟩
  | 36 => ⟨S2x12544, .i32⟩
  | 37 => ⟨S2x12544, .i32⟩
  | 38 => ⟨S_, .i32⟩
  | 39 => ⟨S2x12544, .i32⟩
  | 40 => ⟨S2x12544, .i1⟩
  | 41 => ⟨S_, .i32⟩
  | 42 => ⟨S2x12544, .i32⟩
  | 43 => ⟨S2x12544, .i1⟩
  | 44 => ⟨S2x12544, .i1⟩
  | 45 => ⟨S_, .i32⟩
  | 46 => ⟨S2x12544, .i32⟩
  | 47 => ⟨S2x12544, .i1⟩
  | 48 => ⟨S2x12544, .i1⟩
  | 49 => ⟨S_, .i32⟩
  | 50 => ⟨S2x12544, .i32⟩
  | 51 => ⟨S2x12544, .i1⟩
  | 52 => ⟨S2x12544, .i1⟩
  | 53 => ⟨S_, .i32⟩
  | 54 => ⟨S2x12544, .i32⟩
  | 55 => ⟨S2x12544, .i1⟩
  | 56 => ⟨S2x12544, .i1⟩
  | 57 => ⟨S_, .i32⟩
  | 58 => ⟨S2x12544, .i32⟩
  | 59 => ⟨S2x12544, .i1⟩
  | 60 => ⟨S2x12544, .i1⟩
  | 61 => ⟨S_, .i32⟩
  | 62 => ⟨S_, .i32⟩
  | 63 => ⟨S_, .i32⟩
  | 64 => ⟨S2x12544, .i32⟩
  | 65 => ⟨S2x12544, .i32⟩
  | 66 => ⟨S_, .i32⟩
  | 67 => ⟨S2x12544, .i32⟩
  | 68 => ⟨S2x12544, .i32⟩
  | 69 => ⟨S_, .i32⟩
  | 70 => ⟨S_, .i32⟩
  | 71 => ⟨S_, .i32⟩
  | 72 => ⟨S2x12544, .i32⟩
  | 73 => ⟨S2x12544, .i32⟩
  | 74 => ⟨S_, .i32⟩
  | 75 => ⟨S2x12544, .i32⟩
  | 76 => ⟨S2x12544, .i32⟩
  | 77 => ⟨S_, .i32⟩
  | 78 => ⟨S_, .i32⟩
  | 79 => ⟨S_, .i32⟩
  | 80 => ⟨S2x12544, .i32⟩
  | 81 => ⟨S2x12544, .i32⟩
  | 82 => ⟨S_, .i32⟩
  | 83 => ⟨S2x12544, .i32⟩
  | 84 => ⟨S2x12544, .i32⟩
  | 85 => ⟨S_, .i32⟩
  | 86 => ⟨S2x12544, .i32⟩
  | 87 => ⟨S2x12544, .i1⟩
  | 88 => ⟨S_, .i32⟩
  | 89 => ⟨S2x12544, .i32⟩
  | 90 => ⟨S2x12544, .i32⟩
  | 91 => ⟨S2x12544, .i32⟩
  | 92 => ⟨S_, .i32⟩
  | 93 => ⟨S2x12544, .i32⟩
  | 94 => ⟨S2x12544, .i1⟩
  | 95 => ⟨S_, .i32⟩
  | 96 => ⟨S2x12544, .i32⟩
  | 97 => ⟨S2x12544, .i32⟩
  | 98 => ⟨S2x12544, .i32⟩
  | 99 => ⟨S_, .i32⟩
  | 100 => ⟨S2x12544, .i32⟩
  | 101 => ⟨S2x12544, .i1⟩
  | 102 => ⟨S_, .i32⟩
  | 103 => ⟨S2x12544, .i32⟩
  | 104 => ⟨S2x12544, .i32⟩
  | 105 => ⟨S2x12544, .i32⟩
  | 106 => ⟨S2x12544x1, .i32⟩
  | 107 => ⟨S2x12544x1, .i32⟩
  | 108 => ⟨S2x12544x1, .i32⟩
  | 109 => ⟨S2x12544x3, .i32⟩
  | 110 => ⟨S2x30x12544, .f32⟩
  | 111 => ⟨S_, .f32⟩
  | 112 => ⟨S12544, .f32⟩
  | 113 => ⟨S2x30x12544, .i1⟩
  | 114 => ⟨S30x12544, .f32⟩
  | 115 => ⟨S2x30x12544, .f32⟩
  | 116 => ⟨S2x30x12544, .f32⟩
  | 117 => ⟨S2x1x12544, .f32⟩
  | 118 => ⟨S2x30x12544, .f32⟩
  | 119 => ⟨S2x30x12544, .f32⟩
  | 120 => ⟨S1x12544, .f32⟩
  | 121 => ⟨S1x1x12544, .f32⟩
  | 122 => ⟨S2x30x12544, .f32⟩
  | 123 => ⟨S2x30x12544, .f32⟩
  | 124 => ⟨S_, .f32⟩
  | 125 => ⟨S2x12544, .f32⟩
  | 126 => ⟨S2x12544, .f32⟩
  | 127 => ⟨S_, .f32⟩
  | _ => ⟨S2x100x64x64x64, .f32⟩

abbrev hbmTy0_8 (i : Nat) : BufTy := match i % 128 with
  | 0 => ⟨S2x12544, .f32⟩
  | 1 => ⟨S2x12544, .f32⟩
  | 2 => ⟨S2x12544, .f32⟩
  | 3 => ⟨S2x12544, .f32⟩
  | 4 => ⟨S_, .i32⟩
  | 5 => ⟨S2x12544, .i32⟩
  | 6 => ⟨S2x12544, .i32⟩
  | 7 => ⟨S_, .i32⟩
  | 8 => ⟨S2x12544, .i32⟩
  | 9 => ⟨S2x12544, .i32⟩
  | 10 => ⟨S_, .i32⟩
  | 11 => ⟨S2x12544, .i32⟩
  | 12 => ⟨S2x12544, .i32⟩
  | 13 => ⟨S_, .i32⟩
  | 14 => ⟨S2x12544, .i32⟩
  | 15 => ⟨S2x12544, .i1⟩
  | 16 => ⟨S_, .i32⟩
  | 17 => ⟨S2x12544, .i32⟩
  | 18 => ⟨S2x12544, .i1⟩
  | 19 => ⟨S2x12544, .i1⟩
  | 20 => ⟨S_, .i32⟩
  | 21 => ⟨S2x12544, .i32⟩
  | 22 => ⟨S2x12544, .i1⟩
  | 23 => ⟨S2x12544, .i1⟩
  | 24 => ⟨S_, .i32⟩
  | 25 => ⟨S2x12544, .i32⟩
  | 26 => ⟨S2x12544, .i1⟩
  | 27 => ⟨S2x12544, .i1⟩
  | 28 => ⟨S_, .i32⟩
  | 29 => ⟨S2x12544, .i32⟩
  | 30 => ⟨S2x12544, .i1⟩
  | 31 => ⟨S2x12544, .i1⟩
  | 32 => ⟨S_, .i32⟩
  | 33 => ⟨S2x12544, .i32⟩
  | 34 => ⟨S2x12544, .i1⟩
  | 35 => ⟨S2x12544, .i1⟩
  | 36 => ⟨S_, .i32⟩
  | 37 => ⟨S_, .i32⟩
  | 38 => ⟨S_, .i32⟩
  | 39 => ⟨S2x12544, .i32⟩
  | 40 => ⟨S2x12544, .i32⟩
  | 41 => ⟨S_, .i32⟩
  | 42 => ⟨S2x12544, .i32⟩
  | 43 => ⟨S2x12544, .i32⟩
  | 44 => ⟨S_, .i32⟩
  | 45 => ⟨S_, .i32⟩
  | 46 => ⟨S_, .i32⟩
  | 47 => ⟨S2x12544, .i32⟩
  | 48 => ⟨S2x12544, .i32⟩
  | 49 => ⟨S_, .i32⟩
  | 50 => ⟨S2x12544, .i32⟩
  | 51 => ⟨S2x12544, .i32⟩
  | 52 => ⟨S_, .i32⟩
  | 53 => ⟨S_, .i32⟩
  | 54 => ⟨S_, .i32⟩
  | 55 => ⟨S2x12544, .i32⟩
  | 56 => ⟨S2x12544, .i32⟩
  | 57 => ⟨S_, .i32⟩
  | 58 => ⟨S2x12544, .i32⟩
  | 59 => ⟨S2x12544, .i32⟩
  | 60 => ⟨S_, .i32⟩
  | 61 => ⟨S2x12544, .i32⟩
  | 62 => ⟨S2x12544, .i1⟩
  | 63 => ⟨S_, .i32⟩
  | 64 => ⟨S2x12544, .i32⟩
  | 65 => ⟨S2x12544, .i32⟩
  | 66 => ⟨S2x12544, .i32⟩
  | 67 => ⟨S_, .i32⟩
  | 68 => ⟨S2x12544, .i32⟩
  | 69 => ⟨S2x12544, .i1⟩
  | 70 => ⟨S_, .i32⟩
  | 71 => ⟨S2x12544, .i32⟩
  | 72 => ⟨S2x12544, .i32⟩
  | 73 => ⟨S2x12544, .i32⟩
  | 74 => ⟨S_, .i32⟩
  | 75 => ⟨S2x12544, .i32⟩
  | 76 => ⟨S2x12544, .i1⟩
  | 77 => ⟨S_, .i32⟩
  | 78 => ⟨S2x12544, .i32⟩
  | 79 => ⟨S2x12544, .i32⟩
  | 80 => ⟨S2x12544, .i32⟩
  | 81 => ⟨S2x12544x1, .i32⟩
  | 82 => ⟨S2x12544x1, .i32⟩
  | 83 => ⟨S2x12544x1, .i32⟩
  | 84 => ⟨S2x12544x3, .i32⟩
  | 85 => ⟨S2x30x12544, .f32⟩
  | 86 => ⟨S_, .f32⟩
  | 87 => ⟨S12544, .f32⟩
  | 88 => ⟨S2x30x12544, .i1⟩
  | 89 => ⟨S30x12544, .f32⟩
  | 90 => ⟨S2x30x12544, .f32⟩
  | 91 => ⟨S2x30x12544, .f32⟩
  | 92 => ⟨S2x1x12544, .f32⟩
  | 93 => ⟨S2x30x12544, .f32⟩
  | 94 => ⟨S2x30x12544, .f32⟩
  | 95 => ⟨S2x30x12544, .f32⟩
  | 96 => ⟨S_, .f32⟩
  | 97 => ⟨S2x12544, .f32⟩
  | 98 => ⟨S2x12544, .f32⟩
  | 99 => ⟨S2x12544, .f32⟩
  | 100 => ⟨S_, .f32⟩
  | 101 => ⟨S2x12544, .f32⟩
  | 102 => ⟨S2x12544, .f32⟩
  | 103 => ⟨S2x12544, .f32⟩
  | 104 => ⟨S_, .i32⟩
  | 105 => ⟨S2x12544, .i32⟩
  | 106 => ⟨S2x12544, .i32⟩
  | 107 => ⟨S_, .i32⟩
  | 108 => ⟨S2x12544, .i32⟩
  | 109 => ⟨S2x12544, .i32⟩
  | 110 => ⟨S_, .i32⟩
  | 111 => ⟨S2x12544, .i32⟩
  | 112 => ⟨S2x12544, .i32⟩
  | 113 => ⟨S_, .i32⟩
  | 114 => ⟨S2x12544, .i32⟩
  | 115 => ⟨S2x12544, .i1⟩
  | 116 => ⟨S_, .i32⟩
  | 117 => ⟨S2x12544, .i32⟩
  | 118 => ⟨S2x12544, .i1⟩
  | 119 => ⟨S2x12544, .i1⟩
  | 120 => ⟨S_, .i32⟩
  | 121 => ⟨S2x12544, .i32⟩
  | 122 => ⟨S2x12544, .i1⟩
  | 123 => ⟨S2x12544, .i1⟩
  | 124 => ⟨S_, .i32⟩
  | 125 => ⟨S2x12544, .i32⟩
  | 126 => ⟨S2x12544, .i1⟩
  | 127 => ⟨S2x12544, .i1⟩
  | _ => ⟨S2x100x64x64x64, .f32⟩

abbrev hbmTy0_9 (i : Nat) : BufTy := match i % 128 with
  | 0 => ⟨S_, .i32⟩
  | 1 => ⟨S2x12544, .i32⟩
  | 2 => ⟨S2x12544, .i1⟩
  | 3 => ⟨S2x12544, .i1⟩
  | 4 => ⟨S_, .i32⟩
  | 5 => ⟨S2x12544, .i32⟩
  | 6 => ⟨S2x12544, .i1⟩
  | 7 => ⟨S2x12544, .i1⟩
  | 8 => ⟨S_, .i32⟩
  | 9 => ⟨S_, .i32⟩
  | 10 => ⟨S_, .i32⟩
  | 11 => ⟨S2x12544, .i32⟩
  | 12 => ⟨S2x12544, .i32⟩
  | 13 => ⟨S_, .i32⟩
  | 14 => ⟨S2x12544, .i32⟩
  | 15 => ⟨S2x12544, .i32⟩
  | 16 => ⟨S_, .i32⟩
  | 17 => ⟨S_, .i32⟩
  | 18 => ⟨S_, .i32⟩
  | 19 => ⟨S2x12544, .i32⟩
  | 20 => ⟨S2x12544, .i32⟩
  | 21 => ⟨S_, .i32⟩
  | 22 => ⟨S2x12544, .i32⟩
  | 23 => ⟨S2x12544, .i32⟩
  | 24 => ⟨S_, .i32⟩
  | 25 => ⟨S_, .i32⟩
  | 26 => ⟨S_, .i32⟩
  | 27 => ⟨S2x12544, .i32⟩
  | 28 => ⟨S2x12544, .i32⟩
  | 29 => ⟨S_, .i32⟩
  | 30 => ⟨S2x12544, .i32⟩
  | 31 => ⟨S2x12544, .i32⟩
  | 32 => ⟨S_, .i32⟩
  | 33 => ⟨S2x12544, .i32⟩
  | 34 => ⟨S2x12544, .i1⟩
  | 35 => ⟨S_, .i32⟩
  | 36 => ⟨S2x12544, .i32⟩
  | 37 => ⟨S2x12544, .i32⟩
  | 38 => ⟨S2x12544, .i32⟩
  | 39 => ⟨S_, .i32⟩
  | 40 => ⟨S2x12544, .i32⟩
  | 41 => ⟨S2x12544, .i1⟩
  | 42 => ⟨S_, .i32⟩
  | 43 => ⟨S2x12544, .i32⟩
  | 44 => ⟨S2x12544, .i32⟩
  | 45 => ⟨S2x12544, .i32⟩
  | 46 => ⟨S_, .i32⟩
  | 47 => ⟨S2x12544, .i32⟩
  | 48 => ⟨S2x12544, .i1⟩
  | 49 => ⟨S_, .i32⟩
  | 50 => ⟨S2x12544, .i32⟩
  | 51 => ⟨S2x12544, .i32⟩
  | 52 => ⟨S2x12544, .i32⟩
  | 53 => ⟨S2x12544x1, .i32⟩
  | 54 => ⟨S2x12544x1, .i32⟩
  | 55 => ⟨S2x12544x1, .i32⟩
  | 56 => ⟨S2x12544x3, .i32⟩
  | 57 => ⟨S2x30x12544, .f32⟩
  | 58 => ⟨S_, .f32⟩
  | 59 => ⟨S12544, .f32⟩
  | 60 => ⟨S2x30x12544, .i1⟩
  | 61 => ⟨S30x12544, .f32⟩
  | 62 => ⟨S2x30x12544, .f32⟩
  | 63 => ⟨S2x30x12544, .f32⟩
  | 64 => ⟨S2x1x12544, .f32⟩
  | 65 => ⟨S2x30x12544, .f32⟩
  | 66 => ⟨S2x30x12544, .f32⟩
  | 67 => ⟨S2x30x12544, .f32⟩
  | 68 => ⟨S_, .f32⟩
  | 69 => ⟨S2x12544, .f32⟩
  | 70 => ⟨S2x12544, .f32⟩
  | 71 => ⟨S2x12544, .f32⟩
  | 72 => ⟨S2x12544, .f32⟩
  | 73 => ⟨S_, .i32⟩
  | 74 => ⟨S2x12544, .i32⟩
  | 75 => ⟨S2x12544, .i32⟩
  | 76 => ⟨S_, .i32⟩
  | 77 => ⟨S2x12544, .i32⟩
  | 78 => ⟨S2x12544, .i32⟩
  | 79 => ⟨S_, .i32⟩
  | 80 => ⟨S2x12544, .i32⟩
  | 81 => ⟨S2x12544, .i32⟩
  | 82 => ⟨S_, .i32⟩
  | 83 => ⟨S2x12544, .i32⟩
  | 84 => ⟨S2x12544, .i1⟩
  | 85 => ⟨S_, .i32⟩
  | 86 => ⟨S2x12544, .i32⟩
  | 87 => ⟨S2x12544, .i1⟩
  | 88 => ⟨S2x12544, .i1⟩
  | 89 => ⟨S_, .i32⟩
  | 90 => ⟨S2x12544, .i32⟩
  | 91 => ⟨S2x12544, .i1⟩
  | 92 => ⟨S2x12544, .i1⟩
  | 93 => ⟨S_, .i32⟩
  | 94 => ⟨S2x12544, .i32⟩
  | 95 => ⟨S2x12544, .i1⟩
  | 96 => ⟨S2x12544, .i1⟩
  | 97 => ⟨S_, .i32⟩
  | 98 => ⟨S2x12544, .i32⟩
  | 99 => ⟨S2x12544, .i1⟩
  | 100 => ⟨S2x12544, .i1⟩
  | 101 => ⟨S_, .i32⟩
  | 102 => ⟨S2x12544, .i32⟩
  | 103 => ⟨S2x12544, .i1⟩
  | 104 => ⟨S2x12544, .i1⟩
  | 105 => ⟨S_, .i32⟩
  | 106 => ⟨S_, .i32⟩
  | 107 => ⟨S_, .i32⟩
  | 108 => ⟨S2x12544, .i32⟩
  | 109 => ⟨S2x12544, .i32⟩
  | 110 => ⟨S_, .i32⟩
  | 111 => ⟨S2x12544, .i32⟩
  | 112 => ⟨S2x12544, .i32⟩
  | 113 => ⟨S_, .i32⟩
  | 114 => ⟨S_, .i32⟩
  | 115 => ⟨S_, .i32⟩
  | 116 => ⟨S2x12544, .i32⟩
  | 117 => ⟨S2x12544, .i32⟩
  | 118 => ⟨S_, .i32⟩
  | 119 => ⟨S2x12544, .i32⟩
  | 120 => ⟨S2x12544, .i32⟩
  | 121 => ⟨S_, .i32⟩
  | 122 => ⟨S_, .i32⟩
  | 123 => ⟨S_, .i32⟩
  | 124 => ⟨S2x12544, .i32⟩
  | 125 => ⟨S2x12544, .i32⟩
  | 126 => ⟨S_, .i32⟩
  | 127 => ⟨S2x12544, .i32⟩
  | _ => ⟨S2x100x64x64x64, .f32⟩

abbrev hbmTy0_10 (i : Nat) : BufTy := match i % 128 with
  | 0 => ⟨S2x12544, .i32⟩
  | 1 => ⟨S_, .i32⟩
  | 2 => ⟨S2x12544, .i32⟩
  | 3 => ⟨S2x12544, .i1⟩
  | 4 => ⟨S_, .i32⟩
  | 5 => ⟨S2x12544, .i32⟩
  | 6 => ⟨S2x12544, .i32⟩
  | 7 => ⟨S2x12544, .i32⟩
  | 8 => ⟨S_, .i32⟩
  | 9 => ⟨S2x12544, .i32⟩
  | 10 => ⟨S2x12544, .i1⟩
  | 11 => ⟨S_, .i32⟩
  | 12 => ⟨S2x12544, .i32⟩
  | 13 => ⟨S2x12544, .i32⟩
  | 14 => ⟨S2x12544, .i32⟩
  | 15 => ⟨S_, .i32⟩
  | 16 => ⟨S2x12544, .i32⟩
  | 17 => ⟨S2x12544, .i1⟩
  | 18 => ⟨S_, .i32⟩
  | 19 => ⟨S2x12544, .i32⟩
  | 20 => ⟨S2x12544, .i32⟩
  | 21 => ⟨S2x12544, .i32⟩
  | 22 => ⟨S2x12544x1, .i32⟩
  | 23 => ⟨S2x12544x1, .i32⟩
  | 24 => ⟨S2x12544x1, .i32⟩
  | 25 => ⟨S2x12544x3, .i32⟩
  | 26 => ⟨S2x30x12544, .f32⟩
  | 27 => ⟨S_, .f32⟩
  | 28 => ⟨S12544, .f32⟩
  | 29 => ⟨S2x30x12544, .i1⟩
  | 30 => ⟨S30x12544, .f32⟩
  | 31 => ⟨S2x30x12544, .f32⟩
  | 32 => ⟨S2x30x12544, .f32⟩
  | 33 => ⟨S2x1x12544, .f32⟩
  | 34 => ⟨S2x30x12544, .f32⟩
  | 35 => ⟨S2x30x12544, .f32⟩
  | 36 => ⟨S2x30x12544, .f32⟩
  | 37 => ⟨S_, .f32⟩
  | 38 => ⟨S2x12544, .f32⟩
  | 39 => ⟨S2x12544, .f32⟩
  | 40 => ⟨S2x12544, .f32⟩
  | 41 => ⟨S_, .f32⟩
  | 42 => ⟨S2x12544, .f32⟩
  | 43 => ⟨S2x12544, .f32⟩
  | 44 => ⟨S2x12544, .f32⟩
  | 45 => ⟨S_, .i32⟩
  | 46 => ⟨S2x12544, .i32⟩
  | 47 => ⟨S2x12544, .i32⟩
  | 48 => ⟨S_, .i32⟩
  | 49 => ⟨S2x12544, .i32⟩
  | 50 => ⟨S2x12544, .i32⟩
  | 51 => ⟨S_, .i32⟩
  | 52 => ⟨S2x12544, .i32⟩
  | 53 => ⟨S2x12544, .i32⟩
  | 54 => ⟨S_, .i32⟩
  | 55 => ⟨S2x12544, .i32⟩
  | 56 => ⟨S2x12544, .i1⟩
  | 57 => ⟨S_, .i32⟩
  | 58 => ⟨S2x12544, .i32⟩
  | 59 => ⟨S2x12544, .i1⟩
  | 60 => ⟨S2x12544, .i1⟩
  | 61 => ⟨S_, .i32⟩
  | 62 => ⟨S2x12544, .i32⟩
  | 63 => ⟨S2x12544, .i1⟩
  | 64 => ⟨S2x12544, .i1⟩
  | 65 => ⟨S_, .i32⟩
  | 66 => ⟨S2x12544, .i32⟩
  | 67 => ⟨S2x12544, .i1⟩
  | 68 => ⟨S2x12544, .i1⟩
  | 69 => ⟨S_, .i32⟩
  | 70 => ⟨S2x12544, .i32⟩
  | 71 => ⟨S2x12544, .i1⟩
  | 72 => ⟨S2x12544, .i1⟩
  | 73 => ⟨S_, .i32⟩
  | 74 => ⟨S2x12544, .i32⟩
  | 75 => ⟨S2x12544, .i1⟩
  | 76 => ⟨S2x12544, .i1⟩
  | 77 => ⟨S_, .i32⟩
  | 78 => ⟨S_, .i32⟩
  | 79 => ⟨S_, .i32⟩
  | 80 => ⟨S2x12544, .i32⟩
  | 81 => ⟨S2x12544, .i32⟩
  | 82 => ⟨S_, .i32⟩
  | 83 => ⟨S2x12544, .i32⟩
  | 84 => ⟨S2x12544, .i32⟩
  | 85 => ⟨S_, .i32⟩
  | 86 => ⟨S_, .i32⟩
  | 87 => ⟨S_, .i32⟩
  | 88 => ⟨S2x12544, .i32⟩
  | 89 => ⟨S2x12544, .i32⟩
  | 90 => ⟨S_, .i32⟩
  | 91 => ⟨S2x12544, .i32⟩
  | 92 => ⟨S2x12544, .i32⟩
  | 93 => ⟨S_, .i32⟩
  | 94 => ⟨S_, .i32⟩
  | 95 => ⟨S_, .i32⟩
  | 96 => ⟨S2x12544, .i32⟩
  | 97 => ⟨S2x12544, .i32⟩
  | 98 => ⟨S_, .i32⟩
  | 99 => ⟨S2x12544, .i32⟩
  | 100 => ⟨S2x12544, .i32⟩
  | 101 => ⟨S_, .i32⟩
  | 102 => ⟨S2x12544, .i32⟩
  | 103 => ⟨S2x12544, .i1⟩
  | 104 => ⟨S_, .i32⟩
  | 105 => ⟨S2x12544, .i32⟩
  | 106 => ⟨S2x12544, .i32⟩
  | 107 => ⟨S2x12544, .i32⟩
  | 108 => ⟨S_, .i32⟩
  | 109 => ⟨S2x12544, .i32⟩
  | 110 => ⟨S2x12544, .i1⟩
  | 111 => ⟨S_, .i32⟩
  | 112 => ⟨S2x12544, .i32⟩
  | 113 => ⟨S2x12544, .i32⟩
  | 114 => ⟨S2x12544, .i32⟩
  | 115 => ⟨S_, .i32⟩
  | 116 => ⟨S2x12544, .i32⟩
  | 117 => ⟨S2x12544, .i1⟩
  | 118 => ⟨S_, .i32⟩
  | 119 => ⟨S2x12544, .i32⟩
  | 120 => ⟨S2x12544, .i32⟩
  | 121 => ⟨S2x12544, .i32⟩
  | 122 => ⟨S2x12544x1, .i32⟩
  | 123 => ⟨S2x12544x1, .i32⟩
  | 124 => ⟨S2x12544x1, .i32⟩
  | 125 => ⟨S2x12544x3, .i32⟩
  | 126 => ⟨S2x30x12544, .f32⟩
  | 127 => ⟨S_, .f32⟩
  | _ => ⟨S2x100x64x64x64, .f32⟩

abbrev hbmTy0_11 (i : Nat) : BufTy := match i % 128 with
  | 0 => ⟨S12544, .f32⟩
  | 1 => ⟨S2x30x12544, .i1⟩
  | 2 => ⟨S30x12544, .f32⟩
  | 3 => ⟨S2x30x12544, .f32⟩
  | 4 => ⟨S2x30x12544, .f32⟩
  | 5 => ⟨S2x1x12544, .f32⟩
  | 6 => ⟨S2x30x12544, .f32⟩
  | 7 => ⟨S2x30x12544, .f32⟩
  | 8 => ⟨S2x30x12544, .f32⟩
  | 9 => ⟨S_, .f32⟩
  | 10 => ⟨S2x12544, .f32⟩
  | 11 => ⟨S2x12544, .f32⟩
  | 12 => ⟨S2x12544, .f32⟩
  | 13 => ⟨S2x12544, .f32⟩
  | 14 => ⟨S_, .i32⟩
  | 15 => ⟨S2x12544, .i32⟩
  | 16 => ⟨S2x12544, .i32⟩
  | 17 => ⟨S_, .i32⟩
  | 18 => ⟨S2x12544, .i32⟩
  | 19 => ⟨S2x12544, .i32⟩
  | 20 => ⟨S_, .i32⟩
  | 21 => ⟨S2x12544, .i32⟩
  | 22 => ⟨S2x12544, .i32⟩
  | 23 => ⟨S_, .i32⟩
  | 24 => ⟨S2x12544, .i32⟩
  | 25 => ⟨S2x12544, .i1⟩
  | 26 => ⟨S_, .i32⟩
  | 27 => ⟨S2x12544, .i32⟩
  | 28 => ⟨S2x12544, .i1⟩
  | 29 => ⟨S2x12544, .i1⟩
  | 30 => ⟨S_, .i32⟩
  | 31 => ⟨S2x12544, .i32⟩
  | 32 => ⟨S2x12544, .i1⟩
  | 33 => ⟨S2x12544, .i1⟩
  | 34 => ⟨S_, .i32⟩
  | 35 => ⟨S2x12544, .i32⟩
  | 36 => ⟨S2x12544, .i1⟩
  | 37 => ⟨S2x12544, .i1⟩
  | 38 => ⟨S_, .i32⟩
  | 39 => ⟨S2x12544, .i32⟩
  | 40 => ⟨S2x12544, .i1⟩
  | 41 => ⟨S2x12544, .i1⟩
  | 42 => ⟨S_, .i32⟩
  | 43 => ⟨S2x12544, .i32⟩
  | 44 => ⟨S2x12544, .i1⟩
  | 45 => ⟨S2x12544, .i1⟩
  | 46 => ⟨S_, .i32⟩
  | 47 => ⟨S_, .i32⟩
  | 48 => ⟨S_, .i32⟩
  | 49 => ⟨S2x12544, .i32⟩
  | 50 => ⟨S2x12544, .i32⟩
  | 51 => ⟨S_, .i32⟩
  | 52 => ⟨S2x12544, .i32⟩
  | 53 => ⟨S2x12544, .i32⟩
  | 54 => ⟨S_, .i32⟩
  | 55 => ⟨S_, .i32⟩
  | 56 => ⟨S_, .i32⟩
  | 57 => ⟨S2x12544, .i32⟩
  | 58 => ⟨S2x12544, .i32⟩
  | 59 => ⟨S_, .i32⟩
  | 60 => ⟨S2x12544, .i32⟩
  | 61 => ⟨S2x12544, .i32⟩
  | 62 => ⟨S_, .i32⟩
  | 63 => ⟨S_, .i32⟩
  | 64 => ⟨S_, .i32⟩
  | 65 => ⟨S2x12544, .i32⟩
  | 66 => ⟨S2x12544, .i32⟩
  | 67 => ⟨S_, .i32⟩
  | 68 => ⟨S2x12544, .i32⟩
  | 69 => ⟨S2x12544, .i32⟩
  | 70 => ⟨S_, .i32⟩
  | 71 => ⟨S2x12544, .i32⟩
  | 72 => ⟨S2x12544, .i1⟩
  | 73 => ⟨S_, .i32⟩
  | 74 => ⟨S2x12544, .i32⟩
  | 75 => ⟨S2x12544, .i32⟩
  | 76 => ⟨S2x12544, .i32⟩
  | 77 => ⟨S_, .i32⟩
  | 78 => ⟨S2x12544, .i32⟩
  | 79 => ⟨S2x12544, .i1⟩
  | 80 => ⟨S_, .i32⟩
  | 81 => ⟨S2x12544, .i32⟩
  | 82 => ⟨S2x12544, .i32⟩
  | 83 => ⟨S2x12544, .i32⟩
  | 84 => ⟨S_, .i32⟩
  | 85 => ⟨S2x12544, .i32⟩
  | 86 => ⟨S2x12544, .i1⟩
  | 87 => ⟨S_, .i32⟩
  | 88 => ⟨S2x12544, .i32⟩
  | 89 => ⟨S2x12544, .i32⟩
  | 90 => ⟨S2x12544, .i32⟩
  | 91 => ⟨S2x12544x1, .i32⟩
  | 92 => ⟨S2x12544x1, .i32⟩
  | 93 => ⟨S2x12544x1, .i32⟩
  | 94 => ⟨S2x12544x3, .i32⟩
  | 95 => ⟨S2x30x12544, .f32⟩
  | 96 => ⟨S_, .f32⟩
  | 97 => ⟨S12544, .f32⟩
  | 98 => ⟨S2x30x12544, .i1⟩
  | 99 => ⟨S30x12544, .f32⟩
  | 100 => ⟨S2x30x12544, .f32⟩
  | 101 => ⟨S2x30x12544, .f32⟩
  | 102 => ⟨S2x1x12544, .f32⟩
  | 103 => ⟨S2x30x12544, .f32⟩
  | 104 => ⟨S2x30x12544, .f32⟩
  | 105 => ⟨S2x30x12544, .f32⟩
  | 106 => ⟨S2x12544, .f32⟩
  | 107 => ⟨S_, .f32⟩
  | 108 => ⟨S2x12544, .f32⟩
  | 109 => ⟨S2x12544, .f32⟩
  | 110 => ⟨S2x12544, .f32⟩
  | 111 => ⟨S_, .i32⟩
  | 112 => ⟨S2x12544, .i32⟩
  | 113 => ⟨S2x12544, .i32⟩
  | 114 => ⟨S_, .i32⟩
  | 115 => ⟨S2x12544, .i32⟩
  | 116 => ⟨S2x12544, .i32⟩
  | 117 => ⟨S_, .i32⟩
  | 118 => ⟨S2x12544, .i32⟩
  | 119 => ⟨S2x12544, .i32⟩
  | 120 => ⟨S_, .i32⟩
  | 121 => ⟨S2x12544, .i32⟩
  | 122 => ⟨S2x12544, .i1⟩
  | 123 => ⟨S_, .i32⟩
  | 124 => ⟨S2x12544, .i32⟩
  | 125 => ⟨S2x12544, .i1⟩
  | 126 => ⟨S2x12544, .i1⟩
  | 127 => ⟨S_, .i32⟩
  | _ => ⟨S2x100x64x64x64, .f32⟩

abbrev hbmTy0_12 (i : Nat) : BufTy := match i % 128 with
  | 0 => ⟨S2x12544, .i32⟩
  | 1 => ⟨S2x12544, .i1⟩
  | 2 => ⟨S2x12544, .i1⟩
  | 3 => ⟨S_, .i32⟩
  | 4 => ⟨S2x12544, .i32⟩
  | 5 => ⟨S2x12544, .i1⟩
  | 6 => ⟨S2x12544, .i1⟩
  | 7 => ⟨S_, .i32⟩
  | 8 => ⟨S2x12544, .i32⟩
  | 9 => ⟨S2x12544, .i1⟩
  | 10 => ⟨S2x12544, .i1⟩
  | 11 => ⟨S_, .i32⟩
  | 12 => ⟨S2x12544, .i32⟩
  | 13 => ⟨S2x12544, .i1⟩
  | 14 => ⟨S2x12544, .i1⟩
  | 15 => ⟨S_, .i32⟩
  | 16 => ⟨S_, .i32⟩
  | 17 => ⟨S_, .i32⟩
  | 18 => ⟨S2x12544, .i32⟩
  | 19 => ⟨S2x12544, .i32⟩
  | 20 => ⟨S_, .i32⟩
  | 21 => ⟨S2x12544, .i32⟩
  | 22 => ⟨S2x12544, .i32⟩
  | 23 => ⟨S_, .i32⟩
  | 24 => ⟨S_, .i32⟩
  | 25 => ⟨S_, .i32⟩
  | 26 => ⟨S2x12544, .i32⟩
  | 27 => ⟨S2x12544, .i32⟩
  | 28 => ⟨S_, .i32⟩
  | 29 => ⟨S2x12544, .i32⟩
  | 30 => ⟨S2x12544, .i32⟩
  | 31 => ⟨S_, .i32⟩
  | 32 => ⟨S_, .i32⟩
  | 33 => ⟨S_, .i32⟩
  | 34 => ⟨S2x12544, .i32⟩
  | 35 => ⟨S2x12544, .i32⟩
  | 36 => ⟨S_, .i32⟩
  | 37 => ⟨S2x12544, .i32⟩
  | 38 => ⟨S2x12544, .i32⟩
  | 39 => ⟨S_, .i32⟩
  | 40 => ⟨S2x12544, .i32⟩
  | 41 => ⟨S2x12544, .i1⟩
  | 42 => ⟨S_, .i32⟩
  | 43 => ⟨S2x12544, .i32⟩
  | 44 => ⟨S2x12544, .i32⟩
  | 45 => ⟨S2x12544, .i32⟩
  | 46 => ⟨S_, .i32⟩
  | 47 => ⟨S2x12544, .i32⟩
  | 48 => ⟨S2x12544, .i1⟩
  | 49 => ⟨S_, .i32⟩
  | 50 => ⟨S2x12544, .i32⟩
  | 51 => ⟨S2x12544, .i32⟩
  | 52 => ⟨S2x12544, .i32⟩
  | 53 => ⟨S_, .i32⟩
  | 54 => ⟨S2x12544, .i32⟩
  | 55 => ⟨S2x12544, .i1⟩
  | 56 => ⟨S_, .i32⟩
  | 57 => ⟨S2x12544, .i32⟩
  | 58 => ⟨S2x12544, .i32⟩
  | 59 => ⟨S2x12544, .i32⟩
  | 60 => ⟨S2x12544x1, .i32⟩
  | 61 => ⟨S2x12544x1, .i32⟩
  | 62 => ⟨S2x12544x1, .i32⟩
  | 63 => ⟨S2x12544x3, .i32⟩
  | 64 => ⟨S2x30x12544, .f32⟩
  | 65 => ⟨S_, .f32⟩
  | 66 => ⟨S12544, .f32⟩
  | 67 => ⟨S2x30x12544, .i1⟩
  | 68 => ⟨S30x12544, .f32⟩
  | 69 => ⟨S2x30x12544, .f32⟩
  | 70 => ⟨S2x30x12544, .f32⟩
  | 71 => ⟨S2x1x12544, .f32⟩
  | 72 => ⟨S2x30x12544, .f32⟩
  | 73 => ⟨S2x30x12544, .f32⟩
  | 74 => ⟨S2x30x12544, .f32⟩
  | 75 => ⟨S2x12544, .f32⟩
  | 76 => ⟨S2x12544, .f32⟩
  | 77 => ⟨S_, .i32⟩
  | 78 => ⟨S2x12544, .i32⟩
  | 79 => ⟨S2x12544, .i32⟩
  | 80 => ⟨S_, .i32⟩
  | 81 => ⟨S2x12544, .i32⟩
  | 82 => ⟨S2x12544, .i32⟩
  | 83 => ⟨S_, .i32⟩
  | 84 => ⟨S2x12544, .i32⟩
  | 85 => ⟨S2x12544, .i32⟩
  | 86 => ⟨S_, .i32⟩
  | 87 => ⟨S2x12544, .i32⟩
  | 88 => ⟨S2x12544, .i1⟩
  | 89 => ⟨S_, .i32⟩
  | 90 => ⟨S2x12544, .i32⟩
  | 91 => ⟨S2x12544, .i1⟩
  | 92 => ⟨S2x12544, .i1⟩
  | 93 => ⟨S_, .i32⟩
  | 94 => ⟨S2x12544, .i32⟩
  | 95 => ⟨S2x12544, .i1⟩
  | 96 => ⟨S2x12544, .i1⟩
  | 97 => ⟨S_, .i32⟩
  | 98 => ⟨S2x12544, .i32⟩
  | 99 => ⟨S2x12544, .i1⟩
  | 100 => ⟨S2x12544, .i1⟩
  | 101 => ⟨S_, .i32⟩
  | 102 => ⟨S2x12544, .i32⟩
  | 103 => ⟨S2x12544, .i1⟩
  | 104 => ⟨S2x12544, .i1⟩
  | 105 => ⟨S_, .i32⟩
  | 106 => ⟨S2x12544, .i32⟩
  | 107 => ⟨S2x12544, .i1⟩
  | 108 => ⟨S2x12544, .i1⟩
  | 109 => ⟨S_, .i32⟩
  | 110 => ⟨S_, .i32⟩
  | 111 => ⟨S_, .i32⟩
  | 112 => ⟨S2x12544, .i32⟩
  | 113 => ⟨S2x12544, .i32⟩
  | 114 => ⟨S_, .i32⟩
  | 115 => ⟨S2x12544, .i32⟩
  | 116 => ⟨S2x12544, .i32⟩
  | 117 => ⟨S_, .i32⟩
  | 118 => ⟨S_, .i32⟩
  | 119 => ⟨S_, .i32⟩
  | 120 => ⟨S2x12544, .i32⟩
  | 121 => ⟨S2x12544, .i32⟩
  | 122 => ⟨S_, .i32⟩
  | 123 => ⟨S2x12544, .i32⟩
  | 124 => ⟨S2x12544, .i32⟩
  | 125 => ⟨S_, .i32⟩
  | 126 => ⟨S_, .i32⟩
  | 127 => ⟨S_, .i32⟩
  | _ => ⟨S2x100x64x64x64, .f32⟩

abbrev hbmTy0_13 (i : Nat) : BufTy := match i % 128 with
  | 0 => ⟨S2x12544, .i32⟩
  | 1 => ⟨S2x12544, .i32⟩
  | 2 => ⟨S_, .i32⟩
  | 3 => ⟨S2x12544, .i32⟩
  | 4 => ⟨S2x12544, .i32⟩
  | 5 => ⟨S_, .i32⟩
  | 6 => ⟨S2x12544, .i32⟩
  | 7 => ⟨S2x12544, .i1⟩
  | 8 => ⟨S_, .i32⟩
  | 9 => ⟨S2x12544, .i32⟩
  | 10 => ⟨S2x12544, .i32⟩
  | 11 => ⟨S2x12544, .i32⟩
  | 12 => ⟨S_, .i32⟩
  | 13 => ⟨S2x12544, .i32⟩
  | 14 => ⟨S2x12544, .i1⟩
  | 15 => ⟨S_, .i32⟩
  | 16 => ⟨S2x12544, .i32⟩
  | 17 => ⟨S2x12544, .i32⟩
  | 18 => ⟨S2x12544, .i32⟩
  | 19 => ⟨S_, .i32⟩
  | 20 => ⟨S2x12544, .i32⟩
  | 21 => ⟨S2x12544, .i1⟩
  | 22 => ⟨S_, .i32⟩
  | 23 => ⟨S2x12544, .i32⟩
  | 24 => ⟨S2x12544, .i32⟩
  | 25 => ⟨S2x12544, .i32⟩
  | 26 => ⟨S2x12544x1, .i32⟩
  | 27 => ⟨S2x12544x1, .i32⟩
  | 28 => ⟨S2x12544x1, .i32⟩
  | 29 => ⟨S2x12544x3, .i32⟩
  | 30 => ⟨S2x30x12544, .f32⟩
  | 31 => ⟨S_, .f32⟩
  | 32 => ⟨S12544, .f32⟩
  | 33 => ⟨S2x30x12544, .i1⟩
  | 34 => ⟨S30x12544, .f32⟩
  | 35 => ⟨S2x30x12544, .f32⟩
  | 36 => ⟨S2x30x12544, .f32⟩
  | 37 => ⟨S2x1x12544, .f32⟩
  | 38 => ⟨S2x30x12544, .f32⟩
  | 39 => ⟨S2x30x12544, .f32⟩
  | 40 => ⟨S2x30x12544, .f32⟩
  | 41 => ⟨S_, .f32⟩
  | 42 => ⟨S2x100, .f32⟩
  | 43 => ⟨S_, .f32⟩
  | 44 => ⟨S2x100, .f32⟩
  | 45 => ⟨S2x100, .f32⟩
  | 46 => ⟨S2x100x1, .f32⟩
  | 47 => ⟨S2x100x134, .f32⟩
  | 48 => ⟨S2x100x134, .f32⟩
  | 49 => ⟨S2x100x134, .f32⟩
  | 50 => ⟨S_, .f32⟩
  | 51 => ⟨S2x100, .f32⟩
  | 52 => ⟨S2x100x1, .f32⟩
  | 53 => ⟨S2x100x134, .f32⟩
  | 54 => ⟨S2x100x134, .f32⟩
  | 55 => ⟨S_, .i32⟩
  | 56 => ⟨S2x30, .i32⟩
  | 57 => ⟨S2x30, .i1⟩
  | 58 => ⟨S_, .i32⟩
  | 59 => ⟨S2x30, .i32⟩
  | 60 => ⟨S2x30, .i32⟩
  | 61 => ⟨S2x30, .i32⟩
  | 62 => ⟨S2x30x1, .i32⟩
  | 63 => ⟨S2x100x30, .f32⟩
  | 64 => ⟨S2x100x30, .f32⟩
  | 65 => ⟨S2x100x12544, .f32⟩
  | 66 => ⟨S_, .f32⟩
  | 67 => ⟨S2x100x12544, .f32⟩
  | 68 => ⟨S2x100x12544, .f32⟩
  | 69 => ⟨S2x100x12544, .f32⟩
  | 70 => ⟨S2x100x12544, .f32⟩
  | 71 => ⟨S2x100x12544, .i1⟩
  | 72 => ⟨S2x100x12544, .f32⟩
  | 73 => ⟨S2x100x12544, .f32⟩
  | 74 => ⟨S2x100x12544, .f32⟩
  | 75 => ⟨S2x100x12544, .f32⟩
  | 76 => ⟨S2x100x12544, .f32⟩
  | 77 => ⟨S2x100x12544, .f32⟩
  | 78 => ⟨S2x100x12544, .f32⟩
  | 79 => ⟨S2x100x12544, .f32⟩
  | 80 => ⟨S_, .f32⟩
  | 81 => ⟨S2x100x12544, .f32⟩
  | 82 => ⟨S2x100x12544, .f32⟩
  | 83 => ⟨S_, .f32⟩
  | 84 => ⟨S2x100x12544, .f32⟩
  | 85 => ⟨S2x100x12544, .f32⟩
  | 86 => ⟨S2x100x12544, .f32⟩
  | 87 => ⟨S2x100x12544, .f32⟩
  | 88 => ⟨S2x100x12544, .i1⟩
  | 89 => ⟨S2x100x12544, .f32⟩
  | 90 => ⟨S2x100x12544, .f32⟩
  | 91 => ⟨S2x100x12544, .f32⟩
  | 92 => ⟨S2x100x12544, .f32⟩
  | 93 => ⟨S2x100x12544, .f32⟩
  | 94 => ⟨S2x100x12544, .f32⟩
  | 95 => ⟨S2x100x12544, .f32⟩
  | 96 => ⟨S2x100x12544, .f32⟩
  | 97 => ⟨S_, .f32⟩
  | 98 => ⟨S2x100x12544, .f32⟩
  | 99 => ⟨S2x100x12544, .f32⟩
  | 100 => ⟨S2x12544x30, .f32⟩
  | 101 => ⟨S2x100x30, .f32⟩
  | 102 => ⟨S_, .f32⟩
  | 103 => ⟨S2x30x12544, .f32⟩
  | 104 => ⟨S2x30x12544, .f32⟩
  | 105 => ⟨S2x12544x30, .f32⟩
  | 106 => ⟨S2x100x30, .f32⟩
  | 107 => ⟨S2x100x30, .f32⟩
  | 108 => ⟨S2x100x12544, .f32⟩
  | 109 => ⟨S2x100x12544, .f32⟩
  | 110 => ⟨S_, .f32⟩
  | 111 => ⟨S2x100x12544, .f32⟩
  | 112 => ⟨S2x100x12544, .f32⟩
  | 113 => ⟨S_, .f32⟩
  | 114 => ⟨S2x100x12544, .f32⟩
  | 115 => ⟨S2x100x12544, .f32⟩
  | 116 => ⟨S2x12544x30, .f32⟩
  | 117 => ⟨S2x100x30, .f32⟩
  | 118 => ⟨S_, .f32⟩
  | 119 => ⟨S2x100x30, .f32⟩
  | 120 => ⟨S2x100x30, .f32⟩
  | 121 => ⟨S_, .f32⟩
  | 122 => ⟨S2x100, .f32⟩
  | 123 => ⟨S2x100x1, .f32⟩
  | 124 => ⟨S_, .f32⟩
  | 125 => ⟨S2x30, .f32⟩
  | 126 => ⟨S2x1x30, .f32⟩
  | 127 => ⟨S2x100x30, .f32⟩
  | _ => ⟨S2x100x64x64x64, .f32⟩

abbrev hbmTy0_14 (i : Nat) : BufTy := match i % 128 with
  | 0 => ⟨S2x100x30, .f32⟩
  | 1 => ⟨S2x100x30, .f32⟩
  | 2 => ⟨S_, .f32⟩
  | 3 => ⟨S2x100x30, .f32⟩
  | 4 => ⟨S2x100x30, .f32⟩
  | 5 => ⟨S_, .f32⟩
  | 6 => ⟨S2x100x30, .f32⟩
  | 7 => ⟨S2x100x30, .f32⟩
  | 8 => ⟨S2x100x30, .f32⟩
  | 9 => ⟨S_, .f32⟩
  | 10 => ⟨S2x100x30, .f32⟩
  | 11 => ⟨S2x100x30, .f32⟩
  | 12 => ⟨S_, .f32⟩
  | 13 => ⟨S2x100x30, .f32⟩
  | 14 => ⟨S2x100x30, .f32⟩
  | 15 => ⟨S_, .f32⟩
  | 16 => ⟨S2x100x30, .f32⟩
  | 17 => ⟨S2x100x30, .f32⟩
  | 18 => ⟨S2x100x30, .f32⟩
  | 19 => ⟨S_, .f32⟩
  | 20 => ⟨S2x100x30, .f32⟩
  | 21 => ⟨S2x100x30, .f32⟩
  | 22 => ⟨S2x100x30, .f32⟩
  | 23 => ⟨S_, .f32⟩
  | 24 => ⟨S_, .f32⟩
  | 25 => ⟨S_, .f32⟩
  | 26 => ⟨S2x100x30, .f32⟩
  | 27 => ⟨S2x100x30, .f32⟩
  | 28 => ⟨S_, .f32⟩
  | 29 => ⟨S2x100x30, .f32⟩
  | 30 => ⟨S2x100x30, .f32⟩
  | 31 => ⟨S_, .f32⟩
  | 32 => ⟨S2x100x30, .i1⟩
  | 33 => ⟨S_, .f32⟩
  | 34 => ⟨S100x30, .f32⟩
  | 35 => ⟨S2x100x30, .f32⟩
  | 36 => ⟨S2x100x30, .f32⟩
  | 37 => ⟨S_, .f32⟩
  | 38 => ⟨S2x100x30, .f32⟩
  | 39 => ⟨S2x100x30, .i1⟩
  | 40 => ⟨S_, .f32⟩
  | 41 => ⟨S100x30, .f32⟩
  | 42 => ⟨S2x100x30, .f32⟩
  | 43 => ⟨S2x100x30, .f32⟩
  | 44 => ⟨S_, .f32⟩
  | 45 => ⟨S2x100x30, .f32⟩
  | 46 => ⟨S2x100x30, .i1⟩
  | 47 => ⟨S_, .f32⟩
  | 48 => ⟨S100x30, .f32⟩
  | 49 => ⟨S2x100x30, .f32⟩
  | 50 => ⟨S2x100x30, .f32⟩
  | _ => ⟨S2x100x64x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S2x100x64x64x64, .f32⟩

abbrev bufTy : (tb : Table) → Fin (tcTables nBuf tb) → BufTy
  | .hbm, ⟨i, _⟩ => hbmTy i
  | _, _ => ⟨S2x100x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_cst_8 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_cst_11 : Ref sig .tc := ⟨.hbm, 47, rfl⟩
abbrev main_v30 : Ref sig .tc := ⟨.hbm, 48, rfl⟩
abbrev main_v31 : Ref sig .tc := ⟨.hbm, 49, rfl⟩
abbrev main_cst_12 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_cst_15 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c : Ref sig .tc := ⟨.hbm, 75, rfl⟩
abbrev main_v52 : Ref sig .tc := ⟨.hbm, 76, rfl⟩
abbrev main_v53 : Ref sig .tc := ⟨.hbm, 77, rfl⟩
abbrev main_c_17 : Ref sig .tc := ⟨.hbm, 78, rfl⟩
abbrev main_v54 : Ref sig .tc := ⟨.hbm, 79, rfl⟩
abbrev main_v55 : Ref sig .tc := ⟨.hbm, 80, rfl⟩
abbrev main_c_18 : Ref sig .tc := ⟨.hbm, 81, rfl⟩
abbrev main_v56 : Ref sig .tc := ⟨.hbm, 82, rfl⟩
abbrev main_v57 : Ref sig .tc := ⟨.hbm, 83, rfl⟩
abbrev main_c_19 : Ref sig .tc := ⟨.hbm, 84, rfl⟩
abbrev main_v58 : Ref sig .tc := ⟨.hbm, 85, rfl⟩
abbrev main_v59 : Ref sig .tc := ⟨.hbm, 86, rfl⟩
abbrev main_c_20 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_21 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_22 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_23 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_24 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_25 : Ref sig .tc := ⟨.hbm, 107, rfl⟩
abbrev main_c_26 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_v75 : Ref sig .tc := ⟨.hbm, 114, rfl⟩
abbrev main_c_27 : Ref sig .tc := ⟨.hbm, 115, rfl⟩
abbrev main_c_28 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_v76 : Ref sig .tc := ⟨.hbm, 122, rfl⟩
abbrev main_c_29 : Ref sig .tc := ⟨.hbm, 123, rfl⟩
abbrev main_c_30 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_v77 : Ref sig .tc := ⟨.hbm, 130, rfl⟩
abbrev main_c_31 : Ref sig .tc := ⟨.hbm, 131, rfl⟩
abbrev main_v78 : Ref sig .tc := ⟨.hbm, 132, rfl⟩
abbrev main_v79 : Ref sig .tc := ⟨.hbm, 133, rfl⟩
abbrev main_c_32 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_c_33 : Ref sig .tc := ⟨.hbm, 138, rfl⟩
abbrev main_v83 : Ref sig .tc := ⟨.hbm, 139, rfl⟩
abbrev main_v84 : Ref sig .tc := ⟨.hbm, 140, rfl⟩
abbrev main_c_34 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_c_35 : Ref sig .tc := ⟨.hbm, 145, rfl⟩
abbrev main_v88 : Ref sig .tc := ⟨.hbm, 146, rfl⟩
abbrev main_v89 : Ref sig .tc := ⟨.hbm, 147, rfl⟩
abbrev main_c_36 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_37 : Ref sig .tc := ⟨.hbm, 157, rfl⟩
abbrev main_call3_v0 : Ref sig .tc := ⟨.hbm, 158, rfl⟩
abbrev main_call3_v1 : Ref sig .tc := ⟨.hbm, 159, rfl⟩
abbrev main_call3_v2 : Ref sig .tc := ⟨.hbm, 160, rfl⟩
abbrev main_call3_v3 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_cst_38 : Ref sig .tc := ⟨.hbm, 170, rfl⟩
abbrev main_v106 : Ref sig .tc := ⟨.hbm, 171, rfl⟩
abbrev main_v107 : Ref sig .tc := ⟨.hbm, 172, rfl⟩
abbrev main_cst_39 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_c_40 : Ref sig .tc := ⟨.hbm, 178, rfl⟩
abbrev main_v112 : Ref sig .tc := ⟨.hbm, 179, rfl⟩
abbrev main_v113 : Ref sig .tc := ⟨.hbm, 180, rfl⟩
abbrev main_c_41 : Ref sig .tc := ⟨.hbm, 181, rfl⟩
abbrev main_v114 : Ref sig .tc := ⟨.hbm, 182, rfl⟩
abbrev main_v115 : Ref sig .tc := ⟨.hbm, 183, rfl⟩
abbrev main_c_42 : Ref sig .tc := ⟨.hbm, 184, rfl⟩
abbrev main_v116 : Ref sig .tc := ⟨.hbm, 185, rfl⟩
abbrev main_v117 : Ref sig .tc := ⟨.hbm, 186, rfl⟩
abbrev main_c_43 : Ref sig .tc := ⟨.hbm, 187, rfl⟩
abbrev main_v118 : Ref sig .tc := ⟨.hbm, 188, rfl⟩
abbrev main_v119 : Ref sig .tc := ⟨.hbm, 189, rfl⟩
abbrev main_c_44 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_c_45 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_c_46 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_c_47 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_c_48 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_c_49 : Ref sig .tc := ⟨.hbm, 210, rfl⟩
abbrev main_c_50 : Ref sig .tc := ⟨.hbm, 211, rfl⟩
abbrev main_call4_v0 : Ref sig .tc := ⟨.hbm, 212, rfl⟩
abbrev main_call4_v1 : Ref sig .tc := ⟨.hbm, 213, rfl⟩
abbrev main_call4_v2 : Ref sig .tc := ⟨.hbm, 214, rfl⟩
abbrev main_call4_v3 : Ref sig .tc := ⟨.hbm, 215, rfl⟩
abbrev main_call4_v4 : Ref sig .tc := ⟨.hbm, 216, rfl⟩
abbrev main_v135 : Ref sig .tc := ⟨.hbm, 217, rfl⟩
abbrev main_c_51 : Ref sig .tc := ⟨.hbm, 218, rfl⟩
abbrev main_c_52 : Ref sig .tc := ⟨.hbm, 219, rfl⟩
abbrev main_call5_v0 : Ref sig .tc := ⟨.hbm, 220, rfl⟩
abbrev main_call5_v1 : Ref sig .tc := ⟨.hbm, 221, rfl⟩
abbrev main_call5_v2 : Ref sig .tc := ⟨.hbm, 222, rfl⟩
abbrev main_call5_v3 : Ref sig .tc := ⟨.hbm, 223, rfl⟩
abbrev main_call5_v4 : Ref sig .tc := ⟨.hbm, 224, rfl⟩
abbrev main_v136 : Ref sig .tc := ⟨.hbm, 225, rfl⟩
abbrev main_c_53 : Ref sig .tc := ⟨.hbm, 226, rfl⟩
abbrev main_c_54 : Ref sig .tc := ⟨.hbm, 227, rfl⟩
abbrev main_call6_v0 : Ref sig .tc := ⟨.hbm, 228, rfl⟩
abbrev main_call6_v1 : Ref sig .tc := ⟨.hbm, 229, rfl⟩
abbrev main_call6_v2 : Ref sig .tc := ⟨.hbm, 230, rfl⟩
abbrev main_call6_v3 : Ref sig .tc := ⟨.hbm, 231, rfl⟩
abbrev main_call6_v4 : Ref sig .tc := ⟨.hbm, 232, rfl⟩
abbrev main_v137 : Ref sig .tc := ⟨.hbm, 233, rfl⟩
abbrev main_c_55 : Ref sig .tc := ⟨.hbm, 234, rfl⟩
abbrev main_v138 : Ref sig .tc := ⟨.hbm, 235, rfl⟩
abbrev main_v139 : Ref sig .tc := ⟨.hbm, 236, rfl⟩
abbrev main_c_56 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_c_57 : Ref sig .tc := ⟨.hbm, 241, rfl⟩
abbrev main_v143 : Ref sig .tc := ⟨.hbm, 242, rfl⟩
abbrev main_v144 : Ref sig .tc := ⟨.hbm, 243, rfl⟩
abbrev main_c_58 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_c_59 : Ref sig .tc := ⟨.hbm, 248, rfl⟩
abbrev main_v148 : Ref sig .tc := ⟨.hbm, 249, rfl⟩
abbrev main_v149 : Ref sig .tc := ⟨.hbm, 250, rfl⟩
abbrev main_c_60 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_cst_61 : Ref sig .tc := ⟨.hbm, 260, rfl⟩
abbrev main_call7_v0 : Ref sig .tc := ⟨.hbm, 261, rfl⟩
abbrev main_call7_v1 : Ref sig .tc := ⟨.hbm, 262, rfl⟩
abbrev main_call7_v2 : Ref sig .tc := ⟨.hbm, 263, rfl⟩
abbrev main_call7_v3 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩
abbrev main_cst_62 : Ref sig .tc := ⟨.hbm, 270, rfl⟩
abbrev main_v163 : Ref sig .tc := ⟨.hbm, 271, rfl⟩
abbrev main_v164 : Ref sig .tc := ⟨.hbm, 272, rfl⟩
abbrev main_v165 : Ref sig .tc := ⟨.hbm, 273, rfl⟩
abbrev main_cst_63 : Ref sig .tc := ⟨.hbm, 274, rfl⟩
abbrev main_v166 : Ref sig .tc := ⟨.hbm, 275, rfl⟩
abbrev main_v167 : Ref sig .tc := ⟨.hbm, 276, rfl⟩
abbrev main_v168 : Ref sig .tc := ⟨.hbm, 277, rfl⟩
abbrev main_c_64 : Ref sig .tc := ⟨.hbm, 278, rfl⟩
abbrev main_v169 : Ref sig .tc := ⟨.hbm, 279, rfl⟩
abbrev main_v170 : Ref sig .tc := ⟨.hbm, 280, rfl⟩
abbrev main_c_65 : Ref sig .tc := ⟨.hbm, 281, rfl⟩
abbrev main_v171 : Ref sig .tc := ⟨.hbm, 282, rfl⟩
abbrev main_v172 : Ref sig .tc := ⟨.hbm, 283, rfl⟩
abbrev main_c_66 : Ref sig .tc := ⟨.hbm, 284, rfl⟩
abbrev main_v173 : Ref sig .tc := ⟨.hbm, 285, rfl⟩
abbrev main_v174 : Ref sig .tc := ⟨.hbm, 286, rfl⟩
abbrev main_c_67 : Ref sig .tc := ⟨.hbm, 287, rfl⟩
abbrev main_v175 : Ref sig .tc := ⟨.hbm, 288, rfl⟩
abbrev main_v176 : Ref sig .tc := ⟨.hbm, 289, rfl⟩
abbrev main_c_68 : Ref sig .tc := ⟨.hbm, 290, rfl⟩
abbrev main_v177 : Ref sig .tc := ⟨.hbm, 291, rfl⟩
abbrev main_v178 : Ref sig .tc := ⟨.hbm, 292, rfl⟩
abbrev main_v179 : Ref sig .tc := ⟨.hbm, 293, rfl⟩
abbrev main_c_69 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_c_70 : Ref sig .tc := ⟨.hbm, 298, rfl⟩
abbrev main_v183 : Ref sig .tc := ⟨.hbm, 299, rfl⟩
abbrev main_v184 : Ref sig .tc := ⟨.hbm, 300, rfl⟩
abbrev main_v185 : Ref sig .tc := ⟨.hbm, 301, rfl⟩
abbrev main_c_71 : Ref sig .tc := ⟨.hbm, 302, rfl⟩
abbrev main_v186 : Ref sig .tc := ⟨.hbm, 303, rfl⟩
abbrev main_v187 : Ref sig .tc := ⟨.hbm, 304, rfl⟩
abbrev main_v188 : Ref sig .tc := ⟨.hbm, 305, rfl⟩
abbrev main_c_72 : Ref sig .tc := ⟨.hbm, 306, rfl⟩
abbrev main_v189 : Ref sig .tc := ⟨.hbm, 307, rfl⟩
abbrev main_v190 : Ref sig .tc := ⟨.hbm, 308, rfl⟩
abbrev main_v191 : Ref sig .tc := ⟨.hbm, 309, rfl⟩
abbrev main_c_73 : Ref sig .tc := ⟨.hbm, 310, rfl⟩
abbrev main_c_74 : Ref sig .tc := ⟨.hbm, 311, rfl⟩
abbrev main_call8_v0 : Ref sig .tc := ⟨.hbm, 312, rfl⟩
abbrev main_call8_v1 : Ref sig .tc := ⟨.hbm, 313, rfl⟩
abbrev main_call8_v2 : Ref sig .tc := ⟨.hbm, 314, rfl⟩
abbrev main_call8_v3 : Ref sig .tc := ⟨.hbm, 315, rfl⟩
abbrev main_call8_v4 : Ref sig .tc := ⟨.hbm, 316, rfl⟩
abbrev main_v192 : Ref sig .tc := ⟨.hbm, 317, rfl⟩
abbrev main_c_75 : Ref sig .tc := ⟨.hbm, 318, rfl⟩
abbrev main_c_76 : Ref sig .tc := ⟨.hbm, 319, rfl⟩
abbrev main_call9_v0 : Ref sig .tc := ⟨.hbm, 320, rfl⟩
abbrev main_call9_v1 : Ref sig .tc := ⟨.hbm, 321, rfl⟩
abbrev main_call9_v2 : Ref sig .tc := ⟨.hbm, 322, rfl⟩
abbrev main_call9_v3 : Ref sig .tc := ⟨.hbm, 323, rfl⟩
abbrev main_call9_v4 : Ref sig .tc := ⟨.hbm, 324, rfl⟩
abbrev main_v193 : Ref sig .tc := ⟨.hbm, 325, rfl⟩
abbrev main_c_77 : Ref sig .tc := ⟨.hbm, 326, rfl⟩
abbrev main_c_78 : Ref sig .tc := ⟨.hbm, 327, rfl⟩
abbrev main_call10_v0 : Ref sig .tc := ⟨.hbm, 328, rfl⟩
abbrev main_call10_v1 : Ref sig .tc := ⟨.hbm, 329, rfl⟩
abbrev main_call10_v2 : Ref sig .tc := ⟨.hbm, 330, rfl⟩
abbrev main_call10_v3 : Ref sig .tc := ⟨.hbm, 331, rfl⟩
abbrev main_call10_v4 : Ref sig .tc := ⟨.hbm, 332, rfl⟩
abbrev main_v194 : Ref sig .tc := ⟨.hbm, 333, rfl⟩
abbrev main_c_79 : Ref sig .tc := ⟨.hbm, 334, rfl⟩
abbrev main_v195 : Ref sig .tc := ⟨.hbm, 335, rfl⟩
abbrev main_v196 : Ref sig .tc := ⟨.hbm, 336, rfl⟩
abbrev main_c_80 : Ref sig .tc := ⟨.hbm, 337, rfl⟩
abbrev main_v197 : Ref sig .tc := ⟨.hbm, 338, rfl⟩
abbrev main_v198 : Ref sig .tc := ⟨.hbm, 339, rfl⟩
abbrev main_v199 : Ref sig .tc := ⟨.hbm, 340, rfl⟩
abbrev main_c_81 : Ref sig .tc := ⟨.hbm, 341, rfl⟩
abbrev main_v200 : Ref sig .tc := ⟨.hbm, 342, rfl⟩
abbrev main_v201 : Ref sig .tc := ⟨.hbm, 343, rfl⟩
abbrev main_c_82 : Ref sig .tc := ⟨.hbm, 344, rfl⟩
abbrev main_v202 : Ref sig .tc := ⟨.hbm, 345, rfl⟩
abbrev main_v203 : Ref sig .tc := ⟨.hbm, 346, rfl⟩
abbrev main_v204 : Ref sig .tc := ⟨.hbm, 347, rfl⟩
abbrev main_c_83 : Ref sig .tc := ⟨.hbm, 348, rfl⟩
abbrev main_v205 : Ref sig .tc := ⟨.hbm, 349, rfl⟩
abbrev main_v206 : Ref sig .tc := ⟨.hbm, 350, rfl⟩
abbrev main_c_84 : Ref sig .tc := ⟨.hbm, 351, rfl⟩
abbrev main_v207 : Ref sig .tc := ⟨.hbm, 352, rfl⟩
abbrev main_v208 : Ref sig .tc := ⟨.hbm, 353, rfl⟩
abbrev main_v209 : Ref sig .tc := ⟨.hbm, 354, rfl⟩
abbrev main_v210 : Ref sig .tc := ⟨.hbm, 355, rfl⟩
abbrev main_v211 : Ref sig .tc := ⟨.hbm, 356, rfl⟩
abbrev main_v212 : Ref sig .tc := ⟨.hbm, 357, rfl⟩
abbrev main_v213 : Ref sig .tc := ⟨.hbm, 358, rfl⟩
abbrev main_v214 : Ref sig .tc := ⟨.hbm, 359, rfl⟩
abbrev main_cst_85 : Ref sig .tc := ⟨.hbm, 360, rfl⟩
abbrev main_call11_v0 : Ref sig .tc := ⟨.hbm, 361, rfl⟩
abbrev main_call11_v1 : Ref sig .tc := ⟨.hbm, 362, rfl⟩
abbrev main_call11_v2 : Ref sig .tc := ⟨.hbm, 363, rfl⟩
abbrev main_call11_v3 : Ref sig .tc := ⟨.hbm, 364, rfl⟩
abbrev main_v215 : Ref sig .tc := ⟨.hbm, 365, rfl⟩
abbrev main_v216 : Ref sig .tc := ⟨.hbm, 366, rfl⟩
abbrev main_v217 : Ref sig .tc := ⟨.hbm, 367, rfl⟩
abbrev main_v218 : Ref sig .tc := ⟨.hbm, 368, rfl⟩
abbrev main_v219 : Ref sig .tc := ⟨.hbm, 369, rfl⟩
abbrev main_cst_86 : Ref sig .tc := ⟨.hbm, 370, rfl⟩
abbrev main_v220 : Ref sig .tc := ⟨.hbm, 371, rfl⟩
abbrev main_v221 : Ref sig .tc := ⟨.hbm, 372, rfl⟩
abbrev main_v222 : Ref sig .tc := ⟨.hbm, 373, rfl⟩
abbrev main_v223 : Ref sig .tc := ⟨.hbm, 374, rfl⟩
abbrev main_c_87 : Ref sig .tc := ⟨.hbm, 375, rfl⟩
abbrev main_v224 : Ref sig .tc := ⟨.hbm, 376, rfl⟩
abbrev main_v225 : Ref sig .tc := ⟨.hbm, 377, rfl⟩
abbrev main_c_88 : Ref sig .tc := ⟨.hbm, 378, rfl⟩
abbrev main_v226 : Ref sig .tc := ⟨.hbm, 379, rfl⟩
abbrev main_v227 : Ref sig .tc := ⟨.hbm, 380, rfl⟩
abbrev main_c_89 : Ref sig .tc := ⟨.hbm, 381, rfl⟩
abbrev main_v228 : Ref sig .tc := ⟨.hbm, 382, rfl⟩
abbrev main_v229 : Ref sig .tc := ⟨.hbm, 383, rfl⟩
abbrev main_c_90 : Ref sig .tc := ⟨.hbm, 384, rfl⟩
abbrev main_v230 : Ref sig .tc := ⟨.hbm, 385, rfl⟩
abbrev main_v231 : Ref sig .tc := ⟨.hbm, 386, rfl⟩
abbrev main_c_91 : Ref sig .tc := ⟨.hbm, 387, rfl⟩
abbrev main_v232 : Ref sig .tc := ⟨.hbm, 388, rfl⟩
abbrev main_v233 : Ref sig .tc := ⟨.hbm, 389, rfl⟩
abbrev main_v234 : Ref sig .tc := ⟨.hbm, 390, rfl⟩
abbrev main_c_92 : Ref sig .tc := ⟨.hbm, 391, rfl⟩
abbrev main_v235 : Ref sig .tc := ⟨.hbm, 392, rfl⟩
abbrev main_v236 : Ref sig .tc := ⟨.hbm, 393, rfl⟩
abbrev main_v237 : Ref sig .tc := ⟨.hbm, 394, rfl⟩
abbrev main_c_93 : Ref sig .tc := ⟨.hbm, 395, rfl⟩
abbrev main_v238 : Ref sig .tc := ⟨.hbm, 396, rfl⟩
abbrev main_v239 : Ref sig .tc := ⟨.hbm, 397, rfl⟩
abbrev main_v240 : Ref sig .tc := ⟨.hbm, 398, rfl⟩
abbrev main_c_94 : Ref sig .tc := ⟨.hbm, 399, rfl⟩
abbrev main_v241 : Ref sig .tc := ⟨.hbm, 400, rfl⟩
abbrev main_v242 : Ref sig .tc := ⟨.hbm, 401, rfl⟩
abbrev main_v243 : Ref sig .tc := ⟨.hbm, 402, rfl⟩
abbrev main_c_95 : Ref sig .tc := ⟨.hbm, 403, rfl⟩
abbrev main_v244 : Ref sig .tc := ⟨.hbm, 404, rfl⟩
abbrev main_v245 : Ref sig .tc := ⟨.hbm, 405, rfl⟩
abbrev main_v246 : Ref sig .tc := ⟨.hbm, 406, rfl⟩
abbrev main_c_96 : Ref sig .tc := ⟨.hbm, 407, rfl⟩
abbrev main_c_97 : Ref sig .tc := ⟨.hbm, 408, rfl⟩
abbrev main_call12_v0 : Ref sig .tc := ⟨.hbm, 409, rfl⟩
abbrev main_call12_v1 : Ref sig .tc := ⟨.hbm, 410, rfl⟩
abbrev main_call12_v2 : Ref sig .tc := ⟨.hbm, 411, rfl⟩
abbrev main_call12_v3 : Ref sig .tc := ⟨.hbm, 412, rfl⟩
abbrev main_call12_v4 : Ref sig .tc := ⟨.hbm, 413, rfl⟩
abbrev main_v247 : Ref sig .tc := ⟨.hbm, 414, rfl⟩
abbrev main_c_98 : Ref sig .tc := ⟨.hbm, 415, rfl⟩
abbrev main_c_99 : Ref sig .tc := ⟨.hbm, 416, rfl⟩
abbrev main_call13_v0 : Ref sig .tc := ⟨.hbm, 417, rfl⟩
abbrev main_call13_v1 : Ref sig .tc := ⟨.hbm, 418, rfl⟩
abbrev main_call13_v2 : Ref sig .tc := ⟨.hbm, 419, rfl⟩
abbrev main_call13_v3 : Ref sig .tc := ⟨.hbm, 420, rfl⟩
abbrev main_call13_v4 : Ref sig .tc := ⟨.hbm, 421, rfl⟩
abbrev main_v248 : Ref sig .tc := ⟨.hbm, 422, rfl⟩
abbrev main_c_100 : Ref sig .tc := ⟨.hbm, 423, rfl⟩
abbrev main_c_101 : Ref sig .tc := ⟨.hbm, 424, rfl⟩
abbrev main_call14_v0 : Ref sig .tc := ⟨.hbm, 425, rfl⟩
abbrev main_call14_v1 : Ref sig .tc := ⟨.hbm, 426, rfl⟩
abbrev main_call14_v2 : Ref sig .tc := ⟨.hbm, 427, rfl⟩
abbrev main_call14_v3 : Ref sig .tc := ⟨.hbm, 428, rfl⟩
abbrev main_call14_v4 : Ref sig .tc := ⟨.hbm, 429, rfl⟩
abbrev main_v249 : Ref sig .tc := ⟨.hbm, 430, rfl⟩
abbrev main_c_102 : Ref sig .tc := ⟨.hbm, 431, rfl⟩
abbrev main_v250 : Ref sig .tc := ⟨.hbm, 432, rfl⟩
abbrev main_v251 : Ref sig .tc := ⟨.hbm, 433, rfl⟩
abbrev main_c_103 : Ref sig .tc := ⟨.hbm, 434, rfl⟩
abbrev main_v252 : Ref sig .tc := ⟨.hbm, 435, rfl⟩
abbrev main_v253 : Ref sig .tc := ⟨.hbm, 436, rfl⟩
abbrev main_v254 : Ref sig .tc := ⟨.hbm, 437, rfl⟩
abbrev main_c_104 : Ref sig .tc := ⟨.hbm, 438, rfl⟩
abbrev main_v255 : Ref sig .tc := ⟨.hbm, 439, rfl⟩
abbrev main_v256 : Ref sig .tc := ⟨.hbm, 440, rfl⟩
abbrev main_c_105 : Ref sig .tc := ⟨.hbm, 441, rfl⟩
abbrev main_v257 : Ref sig .tc := ⟨.hbm, 442, rfl⟩
abbrev main_v258 : Ref sig .tc := ⟨.hbm, 443, rfl⟩
abbrev main_v259 : Ref sig .tc := ⟨.hbm, 444, rfl⟩
abbrev main_c_106 : Ref sig .tc := ⟨.hbm, 445, rfl⟩
abbrev main_v260 : Ref sig .tc := ⟨.hbm, 446, rfl⟩
abbrev main_v261 : Ref sig .tc := ⟨.hbm, 447, rfl⟩
abbrev main_c_107 : Ref sig .tc := ⟨.hbm, 448, rfl⟩
abbrev main_v262 : Ref sig .tc := ⟨.hbm, 449, rfl⟩
abbrev main_v263 : Ref sig .tc := ⟨.hbm, 450, rfl⟩
abbrev main_v264 : Ref sig .tc := ⟨.hbm, 451, rfl⟩
abbrev main_v265 : Ref sig .tc := ⟨.hbm, 452, rfl⟩
abbrev main_v266 : Ref sig .tc := ⟨.hbm, 453, rfl⟩
abbrev main_v267 : Ref sig .tc := ⟨.hbm, 454, rfl⟩
abbrev main_v268 : Ref sig .tc := ⟨.hbm, 455, rfl⟩
abbrev main_v269 : Ref sig .tc := ⟨.hbm, 456, rfl⟩
abbrev main_cst_108 : Ref sig .tc := ⟨.hbm, 457, rfl⟩
abbrev main_call15_v0 : Ref sig .tc := ⟨.hbm, 458, rfl⟩
abbrev main_call15_v1 : Ref sig .tc := ⟨.hbm, 459, rfl⟩
abbrev main_call15_v2 : Ref sig .tc := ⟨.hbm, 460, rfl⟩
abbrev main_call15_v3 : Ref sig .tc := ⟨.hbm, 461, rfl⟩
abbrev main_v270 : Ref sig .tc := ⟨.hbm, 462, rfl⟩
abbrev main_v271 : Ref sig .tc := ⟨.hbm, 463, rfl⟩
abbrev main_v272 : Ref sig .tc := ⟨.hbm, 464, rfl⟩
abbrev main_v273 : Ref sig .tc := ⟨.hbm, 465, rfl⟩
abbrev main_v274 : Ref sig .tc := ⟨.hbm, 466, rfl⟩
abbrev main_cst_109 : Ref sig .tc := ⟨.hbm, 467, rfl⟩
abbrev main_v275 : Ref sig .tc := ⟨.hbm, 468, rfl⟩
abbrev main_v276 : Ref sig .tc := ⟨.hbm, 469, rfl⟩
abbrev main_v277 : Ref sig .tc := ⟨.hbm, 470, rfl⟩
abbrev main_cst_110 : Ref sig .tc := ⟨.hbm, 471, rfl⟩
abbrev main_v278 : Ref sig .tc := ⟨.hbm, 472, rfl⟩
abbrev main_v279 : Ref sig .tc := ⟨.hbm, 473, rfl⟩
abbrev main_v280 : Ref sig .tc := ⟨.hbm, 474, rfl⟩
abbrev main_c_111 : Ref sig .tc := ⟨.hbm, 475, rfl⟩
abbrev main_v281 : Ref sig .tc := ⟨.hbm, 476, rfl⟩
abbrev main_v282 : Ref sig .tc := ⟨.hbm, 477, rfl⟩
abbrev main_c_112 : Ref sig .tc := ⟨.hbm, 478, rfl⟩
abbrev main_v283 : Ref sig .tc := ⟨.hbm, 479, rfl⟩
abbrev main_v284 : Ref sig .tc := ⟨.hbm, 480, rfl⟩
abbrev main_c_113 : Ref sig .tc := ⟨.hbm, 481, rfl⟩
abbrev main_v285 : Ref sig .tc := ⟨.hbm, 482, rfl⟩
abbrev main_v286 : Ref sig .tc := ⟨.hbm, 483, rfl⟩
abbrev main_c_114 : Ref sig .tc := ⟨.hbm, 484, rfl⟩
abbrev main_v287 : Ref sig .tc := ⟨.hbm, 485, rfl⟩
abbrev main_v288 : Ref sig .tc := ⟨.hbm, 486, rfl⟩
abbrev main_c_115 : Ref sig .tc := ⟨.hbm, 487, rfl⟩
abbrev main_v289 : Ref sig .tc := ⟨.hbm, 488, rfl⟩
abbrev main_v290 : Ref sig .tc := ⟨.hbm, 489, rfl⟩
abbrev main_v291 : Ref sig .tc := ⟨.hbm, 490, rfl⟩
abbrev main_c_116 : Ref sig .tc := ⟨.hbm, 491, rfl⟩
abbrev main_v292 : Ref sig .tc := ⟨.hbm, 492, rfl⟩
abbrev main_v293 : Ref sig .tc := ⟨.hbm, 493, rfl⟩
abbrev main_v294 : Ref sig .tc := ⟨.hbm, 494, rfl⟩
abbrev main_c_117 : Ref sig .tc := ⟨.hbm, 495, rfl⟩
abbrev main_v295 : Ref sig .tc := ⟨.hbm, 496, rfl⟩
abbrev main_v296 : Ref sig .tc := ⟨.hbm, 497, rfl⟩
abbrev main_v297 : Ref sig .tc := ⟨.hbm, 498, rfl⟩
abbrev main_c_118 : Ref sig .tc := ⟨.hbm, 499, rfl⟩
abbrev main_v298 : Ref sig .tc := ⟨.hbm, 500, rfl⟩
abbrev main_v299 : Ref sig .tc := ⟨.hbm, 501, rfl⟩
abbrev main_v300 : Ref sig .tc := ⟨.hbm, 502, rfl⟩
abbrev main_c_119 : Ref sig .tc := ⟨.hbm, 503, rfl⟩
abbrev main_v301 : Ref sig .tc := ⟨.hbm, 504, rfl⟩
abbrev main_v302 : Ref sig .tc := ⟨.hbm, 505, rfl⟩
abbrev main_v303 : Ref sig .tc := ⟨.hbm, 506, rfl⟩
abbrev main_c_120 : Ref sig .tc := ⟨.hbm, 507, rfl⟩
abbrev main_c_121 : Ref sig .tc := ⟨.hbm, 508, rfl⟩
abbrev main_call16_v0 : Ref sig .tc := ⟨.hbm, 509, rfl⟩
abbrev main_call16_v1 : Ref sig .tc := ⟨.hbm, 510, rfl⟩
abbrev main_call16_v2 : Ref sig .tc := ⟨.hbm, 511, rfl⟩
abbrev main_call16_v3 : Ref sig .tc := ⟨.hbm, 512, rfl⟩
abbrev main_call16_v4 : Ref sig .tc := ⟨.hbm, 513, rfl⟩
abbrev main_v304 : Ref sig .tc := ⟨.hbm, 514, rfl⟩
abbrev main_c_122 : Ref sig .tc := ⟨.hbm, 515, rfl⟩
abbrev main_c_123 : Ref sig .tc := ⟨.hbm, 516, rfl⟩
abbrev main_call17_v0 : Ref sig .tc := ⟨.hbm, 517, rfl⟩
abbrev main_call17_v1 : Ref sig .tc := ⟨.hbm, 518, rfl⟩
abbrev main_call17_v2 : Ref sig .tc := ⟨.hbm, 519, rfl⟩
abbrev main_call17_v3 : Ref sig .tc := ⟨.hbm, 520, rfl⟩
abbrev main_call17_v4 : Ref sig .tc := ⟨.hbm, 521, rfl⟩
abbrev main_v305 : Ref sig .tc := ⟨.hbm, 522, rfl⟩
abbrev main_c_124 : Ref sig .tc := ⟨.hbm, 523, rfl⟩
abbrev main_c_125 : Ref sig .tc := ⟨.hbm, 524, rfl⟩
abbrev main_call18_v0 : Ref sig .tc := ⟨.hbm, 525, rfl⟩
abbrev main_call18_v1 : Ref sig .tc := ⟨.hbm, 526, rfl⟩
abbrev main_call18_v2 : Ref sig .tc := ⟨.hbm, 527, rfl⟩
abbrev main_call18_v3 : Ref sig .tc := ⟨.hbm, 528, rfl⟩
abbrev main_call18_v4 : Ref sig .tc := ⟨.hbm, 529, rfl⟩
abbrev main_v306 : Ref sig .tc := ⟨.hbm, 530, rfl⟩
abbrev main_c_126 : Ref sig .tc := ⟨.hbm, 531, rfl⟩
abbrev main_v307 : Ref sig .tc := ⟨.hbm, 532, rfl⟩
abbrev main_v308 : Ref sig .tc := ⟨.hbm, 533, rfl⟩
abbrev main_c_127 : Ref sig .tc := ⟨.hbm, 534, rfl⟩
abbrev main_v309 : Ref sig .tc := ⟨.hbm, 535, rfl⟩
abbrev main_v310 : Ref sig .tc := ⟨.hbm, 536, rfl⟩
abbrev main_v311 : Ref sig .tc := ⟨.hbm, 537, rfl⟩
abbrev main_c_128 : Ref sig .tc := ⟨.hbm, 538, rfl⟩
abbrev main_v312 : Ref sig .tc := ⟨.hbm, 539, rfl⟩
abbrev main_v313 : Ref sig .tc := ⟨.hbm, 540, rfl⟩
abbrev main_c_129 : Ref sig .tc := ⟨.hbm, 541, rfl⟩
abbrev main_v314 : Ref sig .tc := ⟨.hbm, 542, rfl⟩
abbrev main_v315 : Ref sig .tc := ⟨.hbm, 543, rfl⟩
abbrev main_v316 : Ref sig .tc := ⟨.hbm, 544, rfl⟩
abbrev main_c_130 : Ref sig .tc := ⟨.hbm, 545, rfl⟩
abbrev main_v317 : Ref sig .tc := ⟨.hbm, 546, rfl⟩
abbrev main_v318 : Ref sig .tc := ⟨.hbm, 547, rfl⟩
abbrev main_c_131 : Ref sig .tc := ⟨.hbm, 548, rfl⟩
abbrev main_v319 : Ref sig .tc := ⟨.hbm, 549, rfl⟩
abbrev main_v320 : Ref sig .tc := ⟨.hbm, 550, rfl⟩
abbrev main_v321 : Ref sig .tc := ⟨.hbm, 551, rfl⟩
abbrev main_v322 : Ref sig .tc := ⟨.hbm, 552, rfl⟩
abbrev main_v323 : Ref sig .tc := ⟨.hbm, 553, rfl⟩
abbrev main_v324 : Ref sig .tc := ⟨.hbm, 554, rfl⟩
abbrev main_v325 : Ref sig .tc := ⟨.hbm, 555, rfl⟩
abbrev main_v326 : Ref sig .tc := ⟨.hbm, 556, rfl⟩
abbrev main_cst_132 : Ref sig .tc := ⟨.hbm, 557, rfl⟩
abbrev main_call19_v0 : Ref sig .tc := ⟨.hbm, 558, rfl⟩
abbrev main_call19_v1 : Ref sig .tc := ⟨.hbm, 559, rfl⟩
abbrev main_call19_v2 : Ref sig .tc := ⟨.hbm, 560, rfl⟩
abbrev main_call19_v3 : Ref sig .tc := ⟨.hbm, 561, rfl⟩
abbrev main_v327 : Ref sig .tc := ⟨.hbm, 562, rfl⟩
abbrev main_v328 : Ref sig .tc := ⟨.hbm, 563, rfl⟩
abbrev main_v329 : Ref sig .tc := ⟨.hbm, 564, rfl⟩
abbrev main_v330 : Ref sig .tc := ⟨.hbm, 565, rfl⟩
abbrev main_v331 : Ref sig .tc := ⟨.hbm, 566, rfl⟩
abbrev main_cst_133 : Ref sig .tc := ⟨.hbm, 567, rfl⟩
abbrev main_v332 : Ref sig .tc := ⟨.hbm, 568, rfl⟩
abbrev main_v333 : Ref sig .tc := ⟨.hbm, 569, rfl⟩
abbrev main_v334 : Ref sig .tc := ⟨.hbm, 570, rfl⟩
abbrev main_v335 : Ref sig .tc := ⟨.hbm, 571, rfl⟩
abbrev main_c_134 : Ref sig .tc := ⟨.hbm, 572, rfl⟩
abbrev main_v336 : Ref sig .tc := ⟨.hbm, 573, rfl⟩
abbrev main_v337 : Ref sig .tc := ⟨.hbm, 574, rfl⟩
abbrev main_c_135 : Ref sig .tc := ⟨.hbm, 575, rfl⟩
abbrev main_v338 : Ref sig .tc := ⟨.hbm, 576, rfl⟩
abbrev main_v339 : Ref sig .tc := ⟨.hbm, 577, rfl⟩
abbrev main_c_136 : Ref sig .tc := ⟨.hbm, 578, rfl⟩
abbrev main_v340 : Ref sig .tc := ⟨.hbm, 579, rfl⟩
abbrev main_v341 : Ref sig .tc := ⟨.hbm, 580, rfl⟩
abbrev main_c_137 : Ref sig .tc := ⟨.hbm, 581, rfl⟩
abbrev main_v342 : Ref sig .tc := ⟨.hbm, 582, rfl⟩
abbrev main_v343 : Ref sig .tc := ⟨.hbm, 583, rfl⟩
abbrev main_c_138 : Ref sig .tc := ⟨.hbm, 584, rfl⟩
abbrev main_v344 : Ref sig .tc := ⟨.hbm, 585, rfl⟩
abbrev main_v345 : Ref sig .tc := ⟨.hbm, 586, rfl⟩
abbrev main_v346 : Ref sig .tc := ⟨.hbm, 587, rfl⟩
abbrev main_c_139 : Ref sig .tc := ⟨.hbm, 588, rfl⟩
abbrev main_v347 : Ref sig .tc := ⟨.hbm, 589, rfl⟩
abbrev main_v348 : Ref sig .tc := ⟨.hbm, 590, rfl⟩
abbrev main_v349 : Ref sig .tc := ⟨.hbm, 591, rfl⟩
abbrev main_c_140 : Ref sig .tc := ⟨.hbm, 592, rfl⟩
abbrev main_v350 : Ref sig .tc := ⟨.hbm, 593, rfl⟩
abbrev main_v351 : Ref sig .tc := ⟨.hbm, 594, rfl⟩
abbrev main_v352 : Ref sig .tc := ⟨.hbm, 595, rfl⟩
abbrev main_c_141 : Ref sig .tc := ⟨.hbm, 596, rfl⟩
abbrev main_v353 : Ref sig .tc := ⟨.hbm, 597, rfl⟩
abbrev main_v354 : Ref sig .tc := ⟨.hbm, 598, rfl⟩
abbrev main_v355 : Ref sig .tc := ⟨.hbm, 599, rfl⟩
abbrev main_c_142 : Ref sig .tc := ⟨.hbm, 600, rfl⟩
abbrev main_v356 : Ref sig .tc := ⟨.hbm, 601, rfl⟩
abbrev main_v357 : Ref sig .tc := ⟨.hbm, 602, rfl⟩
abbrev main_v358 : Ref sig .tc := ⟨.hbm, 603, rfl⟩
abbrev main_c_143 : Ref sig .tc := ⟨.hbm, 604, rfl⟩
abbrev main_c_144 : Ref sig .tc := ⟨.hbm, 605, rfl⟩
abbrev main_call20_v0 : Ref sig .tc := ⟨.hbm, 606, rfl⟩
abbrev main_call20_v1 : Ref sig .tc := ⟨.hbm, 607, rfl⟩
abbrev main_call20_v2 : Ref sig .tc := ⟨.hbm, 608, rfl⟩
abbrev main_call20_v3 : Ref sig .tc := ⟨.hbm, 609, rfl⟩
abbrev main_call20_v4 : Ref sig .tc := ⟨.hbm, 610, rfl⟩
abbrev main_v359 : Ref sig .tc := ⟨.hbm, 611, rfl⟩
abbrev main_c_145 : Ref sig .tc := ⟨.hbm, 612, rfl⟩
abbrev main_c_146 : Ref sig .tc := ⟨.hbm, 613, rfl⟩
abbrev main_call21_v0 : Ref sig .tc := ⟨.hbm, 614, rfl⟩
abbrev main_call21_v1 : Ref sig .tc := ⟨.hbm, 615, rfl⟩
abbrev main_call21_v2 : Ref sig .tc := ⟨.hbm, 616, rfl⟩
abbrev main_call21_v3 : Ref sig .tc := ⟨.hbm, 617, rfl⟩
abbrev main_call21_v4 : Ref sig .tc := ⟨.hbm, 618, rfl⟩
abbrev main_v360 : Ref sig .tc := ⟨.hbm, 619, rfl⟩
abbrev main_c_147 : Ref sig .tc := ⟨.hbm, 620, rfl⟩
abbrev main_c_148 : Ref sig .tc := ⟨.hbm, 621, rfl⟩
abbrev main_call22_v0 : Ref sig .tc := ⟨.hbm, 622, rfl⟩
abbrev main_call22_v1 : Ref sig .tc := ⟨.hbm, 623, rfl⟩
abbrev main_call22_v2 : Ref sig .tc := ⟨.hbm, 624, rfl⟩
abbrev main_call22_v3 : Ref sig .tc := ⟨.hbm, 625, rfl⟩
abbrev main_call22_v4 : Ref sig .tc := ⟨.hbm, 626, rfl⟩
abbrev main_v361 : Ref sig .tc := ⟨.hbm, 627, rfl⟩
abbrev main_c_149 : Ref sig .tc := ⟨.hbm, 628, rfl⟩
abbrev main_v362 : Ref sig .tc := ⟨.hbm, 629, rfl⟩
abbrev main_v363 : Ref sig .tc := ⟨.hbm, 630, rfl⟩
abbrev main_c_150 : Ref sig .tc := ⟨.hbm, 631, rfl⟩
abbrev main_v364 : Ref sig .tc := ⟨.hbm, 632, rfl⟩
abbrev main_v365 : Ref sig .tc := ⟨.hbm, 633, rfl⟩
abbrev main_v366 : Ref sig .tc := ⟨.hbm, 634, rfl⟩
abbrev main_c_151 : Ref sig .tc := ⟨.hbm, 635, rfl⟩
abbrev main_v367 : Ref sig .tc := ⟨.hbm, 636, rfl⟩
abbrev main_v368 : Ref sig .tc := ⟨.hbm, 637, rfl⟩
abbrev main_c_152 : Ref sig .tc := ⟨.hbm, 638, rfl⟩
abbrev main_v369 : Ref sig .tc := ⟨.hbm, 639, rfl⟩
abbrev main_v370 : Ref sig .tc := ⟨.hbm, 640, rfl⟩
abbrev main_v371 : Ref sig .tc := ⟨.hbm, 641, rfl⟩
abbrev main_c_153 : Ref sig .tc := ⟨.hbm, 642, rfl⟩
abbrev main_v372 : Ref sig .tc := ⟨.hbm, 643, rfl⟩
abbrev main_v373 : Ref sig .tc := ⟨.hbm, 644, rfl⟩
abbrev main_c_154 : Ref sig .tc := ⟨.hbm, 645, rfl⟩
abbrev main_v374 : Ref sig .tc := ⟨.hbm, 646, rfl⟩
abbrev main_v375 : Ref sig .tc := ⟨.hbm, 647, rfl⟩
abbrev main_v376 : Ref sig .tc := ⟨.hbm, 648, rfl⟩
abbrev main_v377 : Ref sig .tc := ⟨.hbm, 649, rfl⟩
abbrev main_v378 : Ref sig .tc := ⟨.hbm, 650, rfl⟩
abbrev main_v379 : Ref sig .tc := ⟨.hbm, 651, rfl⟩
abbrev main_v380 : Ref sig .tc := ⟨.hbm, 652, rfl⟩
abbrev main_v381 : Ref sig .tc := ⟨.hbm, 653, rfl⟩
abbrev main_cst_155 : Ref sig .tc := ⟨.hbm, 654, rfl⟩
abbrev main_call23_v0 : Ref sig .tc := ⟨.hbm, 655, rfl⟩
abbrev main_call23_v1 : Ref sig .tc := ⟨.hbm, 656, rfl⟩
abbrev main_call23_v2 : Ref sig .tc := ⟨.hbm, 657, rfl⟩
abbrev main_call23_v3 : Ref sig .tc := ⟨.hbm, 658, rfl⟩
abbrev main_v382 : Ref sig .tc := ⟨.hbm, 659, rfl⟩
abbrev main_v383 : Ref sig .tc := ⟨.hbm, 660, rfl⟩
abbrev main_v384 : Ref sig .tc := ⟨.hbm, 661, rfl⟩
abbrev main_v385 : Ref sig .tc := ⟨.hbm, 662, rfl⟩
abbrev main_v386 : Ref sig .tc := ⟨.hbm, 663, rfl⟩
abbrev main_v387 : Ref sig .tc := ⟨.hbm, 664, rfl⟩
abbrev main_cst_156 : Ref sig .tc := ⟨.hbm, 665, rfl⟩
abbrev main_v388 : Ref sig .tc := ⟨.hbm, 666, rfl⟩
abbrev main_v389 : Ref sig .tc := ⟨.hbm, 667, rfl⟩
abbrev main_v390 : Ref sig .tc := ⟨.hbm, 668, rfl⟩
abbrev main_c_157 : Ref sig .tc := ⟨.hbm, 669, rfl⟩
abbrev main_v391 : Ref sig .tc := ⟨.hbm, 670, rfl⟩
abbrev main_v392 : Ref sig .tc := ⟨.hbm, 671, rfl⟩
abbrev main_c_158 : Ref sig .tc := ⟨.hbm, 672, rfl⟩
abbrev main_v393 : Ref sig .tc := ⟨.hbm, 673, rfl⟩
abbrev main_v394 : Ref sig .tc := ⟨.hbm, 674, rfl⟩
abbrev main_c_159 : Ref sig .tc := ⟨.hbm, 675, rfl⟩
abbrev main_v395 : Ref sig .tc := ⟨.hbm, 676, rfl⟩
abbrev main_v396 : Ref sig .tc := ⟨.hbm, 677, rfl⟩
abbrev main_c_160 : Ref sig .tc := ⟨.hbm, 678, rfl⟩
abbrev main_v397 : Ref sig .tc := ⟨.hbm, 679, rfl⟩
abbrev main_v398 : Ref sig .tc := ⟨.hbm, 680, rfl⟩
abbrev main_c_161 : Ref sig .tc := ⟨.hbm, 681, rfl⟩
abbrev main_v399 : Ref sig .tc := ⟨.hbm, 682, rfl⟩
abbrev main_v400 : Ref sig .tc := ⟨.hbm, 683, rfl⟩
abbrev main_v401 : Ref sig .tc := ⟨.hbm, 684, rfl⟩
abbrev main_c_162 : Ref sig .tc := ⟨.hbm, 685, rfl⟩
abbrev main_v402 : Ref sig .tc := ⟨.hbm, 686, rfl⟩
abbrev main_v403 : Ref sig .tc := ⟨.hbm, 687, rfl⟩
abbrev main_v404 : Ref sig .tc := ⟨.hbm, 688, rfl⟩
abbrev main_c_163 : Ref sig .tc := ⟨.hbm, 689, rfl⟩
abbrev main_v405 : Ref sig .tc := ⟨.hbm, 690, rfl⟩
abbrev main_v406 : Ref sig .tc := ⟨.hbm, 691, rfl⟩
abbrev main_v407 : Ref sig .tc := ⟨.hbm, 692, rfl⟩
abbrev main_c_164 : Ref sig .tc := ⟨.hbm, 693, rfl⟩
abbrev main_v408 : Ref sig .tc := ⟨.hbm, 694, rfl⟩
abbrev main_v409 : Ref sig .tc := ⟨.hbm, 695, rfl⟩
abbrev main_v410 : Ref sig .tc := ⟨.hbm, 696, rfl⟩
abbrev main_c_165 : Ref sig .tc := ⟨.hbm, 697, rfl⟩
abbrev main_v411 : Ref sig .tc := ⟨.hbm, 698, rfl⟩
abbrev main_v412 : Ref sig .tc := ⟨.hbm, 699, rfl⟩
abbrev main_v413 : Ref sig .tc := ⟨.hbm, 700, rfl⟩
abbrev main_c_166 : Ref sig .tc := ⟨.hbm, 701, rfl⟩
abbrev main_c_167 : Ref sig .tc := ⟨.hbm, 702, rfl⟩
abbrev main_call24_v0 : Ref sig .tc := ⟨.hbm, 703, rfl⟩
abbrev main_call24_v1 : Ref sig .tc := ⟨.hbm, 704, rfl⟩
abbrev main_call24_v2 : Ref sig .tc := ⟨.hbm, 705, rfl⟩
abbrev main_call24_v3 : Ref sig .tc := ⟨.hbm, 706, rfl⟩
abbrev main_call24_v4 : Ref sig .tc := ⟨.hbm, 707, rfl⟩
abbrev main_v414 : Ref sig .tc := ⟨.hbm, 708, rfl⟩
abbrev main_c_168 : Ref sig .tc := ⟨.hbm, 709, rfl⟩
abbrev main_c_169 : Ref sig .tc := ⟨.hbm, 710, rfl⟩
abbrev main_call25_v0 : Ref sig .tc := ⟨.hbm, 711, rfl⟩
abbrev main_call25_v1 : Ref sig .tc := ⟨.hbm, 712, rfl⟩
abbrev main_call25_v2 : Ref sig .tc := ⟨.hbm, 713, rfl⟩
abbrev main_call25_v3 : Ref sig .tc := ⟨.hbm, 714, rfl⟩
abbrev main_call25_v4 : Ref sig .tc := ⟨.hbm, 715, rfl⟩
abbrev main_v415 : Ref sig .tc := ⟨.hbm, 716, rfl⟩
abbrev main_c_170 : Ref sig .tc := ⟨.hbm, 717, rfl⟩
abbrev main_c_171 : Ref sig .tc := ⟨.hbm, 718, rfl⟩
abbrev main_call26_v0 : Ref sig .tc := ⟨.hbm, 719, rfl⟩
abbrev main_call26_v1 : Ref sig .tc := ⟨.hbm, 720, rfl⟩
abbrev main_call26_v2 : Ref sig .tc := ⟨.hbm, 721, rfl⟩
abbrev main_call26_v3 : Ref sig .tc := ⟨.hbm, 722, rfl⟩
abbrev main_call26_v4 : Ref sig .tc := ⟨.hbm, 723, rfl⟩
abbrev main_v416 : Ref sig .tc := ⟨.hbm, 724, rfl⟩
abbrev main_c_172 : Ref sig .tc := ⟨.hbm, 725, rfl⟩
abbrev main_v417 : Ref sig .tc := ⟨.hbm, 726, rfl⟩
abbrev main_v418 : Ref sig .tc := ⟨.hbm, 727, rfl⟩
abbrev main_c_173 : Ref sig .tc := ⟨.hbm, 728, rfl⟩
abbrev main_v419 : Ref sig .tc := ⟨.hbm, 729, rfl⟩
abbrev main_v420 : Ref sig .tc := ⟨.hbm, 730, rfl⟩
abbrev main_v421 : Ref sig .tc := ⟨.hbm, 731, rfl⟩
abbrev main_c_174 : Ref sig .tc := ⟨.hbm, 732, rfl⟩
abbrev main_v422 : Ref sig .tc := ⟨.hbm, 733, rfl⟩
abbrev main_v423 : Ref sig .tc := ⟨.hbm, 734, rfl⟩
abbrev main_c_175 : Ref sig .tc := ⟨.hbm, 735, rfl⟩
abbrev main_v424 : Ref sig .tc := ⟨.hbm, 736, rfl⟩
abbrev main_v425 : Ref sig .tc := ⟨.hbm, 737, rfl⟩
abbrev main_v426 : Ref sig .tc := ⟨.hbm, 738, rfl⟩
abbrev main_c_176 : Ref sig .tc := ⟨.hbm, 739, rfl⟩
abbrev main_v427 : Ref sig .tc := ⟨.hbm, 740, rfl⟩
abbrev main_v428 : Ref sig .tc := ⟨.hbm, 741, rfl⟩
abbrev main_c_177 : Ref sig .tc := ⟨.hbm, 742, rfl⟩
abbrev main_v429 : Ref sig .tc := ⟨.hbm, 743, rfl⟩
abbrev main_v430 : Ref sig .tc := ⟨.hbm, 744, rfl⟩
abbrev main_v431 : Ref sig .tc := ⟨.hbm, 745, rfl⟩
abbrev main_v432 : Ref sig .tc := ⟨.hbm, 746, rfl⟩
abbrev main_v433 : Ref sig .tc := ⟨.hbm, 747, rfl⟩
abbrev main_v434 : Ref sig .tc := ⟨.hbm, 748, rfl⟩
abbrev main_v435 : Ref sig .tc := ⟨.hbm, 749, rfl⟩
abbrev main_v436 : Ref sig .tc := ⟨.hbm, 750, rfl⟩
abbrev main_cst_178 : Ref sig .tc := ⟨.hbm, 751, rfl⟩
abbrev main_call27_v0 : Ref sig .tc := ⟨.hbm, 752, rfl⟩
abbrev main_call27_v1 : Ref sig .tc := ⟨.hbm, 753, rfl⟩
abbrev main_call27_v2 : Ref sig .tc := ⟨.hbm, 754, rfl⟩
abbrev main_call27_v3 : Ref sig .tc := ⟨.hbm, 755, rfl⟩
abbrev main_v437 : Ref sig .tc := ⟨.hbm, 756, rfl⟩
abbrev main_v438 : Ref sig .tc := ⟨.hbm, 757, rfl⟩
abbrev main_v439 : Ref sig .tc := ⟨.hbm, 758, rfl⟩
abbrev main_v440 : Ref sig .tc := ⟨.hbm, 759, rfl⟩
abbrev main_v441 : Ref sig .tc := ⟨.hbm, 760, rfl⟩
abbrev main_v442 : Ref sig .tc := ⟨.hbm, 761, rfl⟩
abbrev main_v443 : Ref sig .tc := ⟨.hbm, 762, rfl⟩
abbrev main_c_179 : Ref sig .tc := ⟨.hbm, 763, rfl⟩
abbrev main_v444 : Ref sig .tc := ⟨.hbm, 764, rfl⟩
abbrev main_v445 : Ref sig .tc := ⟨.hbm, 765, rfl⟩
abbrev main_c_180 : Ref sig .tc := ⟨.hbm, 766, rfl⟩
abbrev main_v446 : Ref sig .tc := ⟨.hbm, 767, rfl⟩
abbrev main_v447 : Ref sig .tc := ⟨.hbm, 768, rfl⟩
abbrev main_c_181 : Ref sig .tc := ⟨.hbm, 769, rfl⟩
abbrev main_v448 : Ref sig .tc := ⟨.hbm, 770, rfl⟩
abbrev main_v449 : Ref sig .tc := ⟨.hbm, 771, rfl⟩
abbrev main_c_182 : Ref sig .tc := ⟨.hbm, 772, rfl⟩
abbrev main_v450 : Ref sig .tc := ⟨.hbm, 773, rfl⟩
abbrev main_v451 : Ref sig .tc := ⟨.hbm, 774, rfl⟩
abbrev main_c_183 : Ref sig .tc := ⟨.hbm, 775, rfl⟩
abbrev main_v452 : Ref sig .tc := ⟨.hbm, 776, rfl⟩
abbrev main_v453 : Ref sig .tc := ⟨.hbm, 777, rfl⟩
abbrev main_v454 : Ref sig .tc := ⟨.hbm, 778, rfl⟩
abbrev main_c_184 : Ref sig .tc := ⟨.hbm, 779, rfl⟩
abbrev main_v455 : Ref sig .tc := ⟨.hbm, 780, rfl⟩
abbrev main_v456 : Ref sig .tc := ⟨.hbm, 781, rfl⟩
abbrev main_v457 : Ref sig .tc := ⟨.hbm, 782, rfl⟩
abbrev main_c_185 : Ref sig .tc := ⟨.hbm, 783, rfl⟩
abbrev main_v458 : Ref sig .tc := ⟨.hbm, 784, rfl⟩
abbrev main_v459 : Ref sig .tc := ⟨.hbm, 785, rfl⟩
abbrev main_v460 : Ref sig .tc := ⟨.hbm, 786, rfl⟩
abbrev main_c_186 : Ref sig .tc := ⟨.hbm, 787, rfl⟩
abbrev main_v461 : Ref sig .tc := ⟨.hbm, 788, rfl⟩
abbrev main_v462 : Ref sig .tc := ⟨.hbm, 789, rfl⟩
abbrev main_v463 : Ref sig .tc := ⟨.hbm, 790, rfl⟩
abbrev main_c_187 : Ref sig .tc := ⟨.hbm, 791, rfl⟩
abbrev main_v464 : Ref sig .tc := ⟨.hbm, 792, rfl⟩
abbrev main_v465 : Ref sig .tc := ⟨.hbm, 793, rfl⟩
abbrev main_v466 : Ref sig .tc := ⟨.hbm, 794, rfl⟩
abbrev main_c_188 : Ref sig .tc := ⟨.hbm, 795, rfl⟩
abbrev main_c_189 : Ref sig .tc := ⟨.hbm, 796, rfl⟩
abbrev main_call28_v0 : Ref sig .tc := ⟨.hbm, 797, rfl⟩
abbrev main_call28_v1 : Ref sig .tc := ⟨.hbm, 798, rfl⟩
abbrev main_call28_v2 : Ref sig .tc := ⟨.hbm, 799, rfl⟩
abbrev main_call28_v3 : Ref sig .tc := ⟨.hbm, 800, rfl⟩
abbrev main_call28_v4 : Ref sig .tc := ⟨.hbm, 801, rfl⟩
abbrev main_v467 : Ref sig .tc := ⟨.hbm, 802, rfl⟩
abbrev main_c_190 : Ref sig .tc := ⟨.hbm, 803, rfl⟩
abbrev main_c_191 : Ref sig .tc := ⟨.hbm, 804, rfl⟩
abbrev main_call29_v0 : Ref sig .tc := ⟨.hbm, 805, rfl⟩
abbrev main_call29_v1 : Ref sig .tc := ⟨.hbm, 806, rfl⟩
abbrev main_call29_v2 : Ref sig .tc := ⟨.hbm, 807, rfl⟩
abbrev main_call29_v3 : Ref sig .tc := ⟨.hbm, 808, rfl⟩
abbrev main_call29_v4 : Ref sig .tc := ⟨.hbm, 809, rfl⟩
abbrev main_v468 : Ref sig .tc := ⟨.hbm, 810, rfl⟩
abbrev main_c_192 : Ref sig .tc := ⟨.hbm, 811, rfl⟩
abbrev main_c_193 : Ref sig .tc := ⟨.hbm, 812, rfl⟩
abbrev main_call30_v0 : Ref sig .tc := ⟨.hbm, 813, rfl⟩
abbrev main_call30_v1 : Ref sig .tc := ⟨.hbm, 814, rfl⟩
abbrev main_call30_v2 : Ref sig .tc := ⟨.hbm, 815, rfl⟩
abbrev main_call30_v3 : Ref sig .tc := ⟨.hbm, 816, rfl⟩
abbrev main_call30_v4 : Ref sig .tc := ⟨.hbm, 817, rfl⟩
abbrev main_v469 : Ref sig .tc := ⟨.hbm, 818, rfl⟩
abbrev main_c_194 : Ref sig .tc := ⟨.hbm, 819, rfl⟩
abbrev main_v470 : Ref sig .tc := ⟨.hbm, 820, rfl⟩
abbrev main_v471 : Ref sig .tc := ⟨.hbm, 821, rfl⟩
abbrev main_c_195 : Ref sig .tc := ⟨.hbm, 822, rfl⟩
abbrev main_v472 : Ref sig .tc := ⟨.hbm, 823, rfl⟩
abbrev main_v473 : Ref sig .tc := ⟨.hbm, 824, rfl⟩
abbrev main_v474 : Ref sig .tc := ⟨.hbm, 825, rfl⟩
abbrev main_c_196 : Ref sig .tc := ⟨.hbm, 826, rfl⟩
abbrev main_v475 : Ref sig .tc := ⟨.hbm, 827, rfl⟩
abbrev main_v476 : Ref sig .tc := ⟨.hbm, 828, rfl⟩
abbrev main_c_197 : Ref sig .tc := ⟨.hbm, 829, rfl⟩
abbrev main_v477 : Ref sig .tc := ⟨.hbm, 830, rfl⟩
abbrev main_v478 : Ref sig .tc := ⟨.hbm, 831, rfl⟩
abbrev main_v479 : Ref sig .tc := ⟨.hbm, 832, rfl⟩
abbrev main_c_198 : Ref sig .tc := ⟨.hbm, 833, rfl⟩
abbrev main_v480 : Ref sig .tc := ⟨.hbm, 834, rfl⟩
abbrev main_v481 : Ref sig .tc := ⟨.hbm, 835, rfl⟩
abbrev main_c_199 : Ref sig .tc := ⟨.hbm, 836, rfl⟩
abbrev main_v482 : Ref sig .tc := ⟨.hbm, 837, rfl⟩
abbrev main_v483 : Ref sig .tc := ⟨.hbm, 838, rfl⟩
abbrev main_v484 : Ref sig .tc := ⟨.hbm, 839, rfl⟩
abbrev main_v485 : Ref sig .tc := ⟨.hbm, 840, rfl⟩
abbrev main_v486 : Ref sig .tc := ⟨.hbm, 841, rfl⟩
abbrev main_v487 : Ref sig .tc := ⟨.hbm, 842, rfl⟩
abbrev main_v488 : Ref sig .tc := ⟨.hbm, 843, rfl⟩
abbrev main_v489 : Ref sig .tc := ⟨.hbm, 844, rfl⟩
abbrev main_cst_200 : Ref sig .tc := ⟨.hbm, 845, rfl⟩
abbrev main_call31_v0 : Ref sig .tc := ⟨.hbm, 846, rfl⟩
abbrev main_call31_v1 : Ref sig .tc := ⟨.hbm, 847, rfl⟩
abbrev main_call31_v2 : Ref sig .tc := ⟨.hbm, 848, rfl⟩
abbrev main_call31_v3 : Ref sig .tc := ⟨.hbm, 849, rfl⟩
abbrev main_v490 : Ref sig .tc := ⟨.hbm, 850, rfl⟩
abbrev main_v491 : Ref sig .tc := ⟨.hbm, 851, rfl⟩
abbrev main_v492 : Ref sig .tc := ⟨.hbm, 852, rfl⟩
abbrev main_v493 : Ref sig .tc := ⟨.hbm, 853, rfl⟩
abbrev main_v494 : Ref sig .tc := ⟨.hbm, 854, rfl⟩
abbrev main_cst_201 : Ref sig .tc := ⟨.hbm, 855, rfl⟩
abbrev main_v495 : Ref sig .tc := ⟨.hbm, 856, rfl⟩
abbrev main_v496 : Ref sig .tc := ⟨.hbm, 857, rfl⟩
abbrev main_cst_202 : Ref sig .tc := ⟨.hbm, 858, rfl⟩
abbrev main_v497 : Ref sig .tc := ⟨.hbm, 859, rfl⟩
abbrev main_v498 : Ref sig .tc := ⟨.hbm, 860, rfl⟩
abbrev main_v499 : Ref sig .tc := ⟨.hbm, 861, rfl⟩
abbrev main_v500 : Ref sig .tc := ⟨.hbm, 862, rfl⟩
abbrev main_cst_203 : Ref sig .tc := ⟨.hbm, 863, rfl⟩
abbrev main_v501 : Ref sig .tc := ⟨.hbm, 864, rfl⟩
abbrev main_v502 : Ref sig .tc := ⟨.hbm, 865, rfl⟩
abbrev main_cst_204 : Ref sig .tc := ⟨.hbm, 866, rfl⟩
abbrev main_v503 : Ref sig .tc := ⟨.hbm, 867, rfl⟩
abbrev main_v504 : Ref sig .tc := ⟨.hbm, 868, rfl⟩
abbrev main_cst_205 : Ref sig .tc := ⟨.hbm, 869, rfl⟩
abbrev main_v505 : Ref sig .tc := ⟨.hbm, 870, rfl⟩
abbrev main_v506 : Ref sig .tc := ⟨.hbm, 871, rfl⟩
abbrev main_cst_206 : Ref sig .tc := ⟨.hbm, 872, rfl⟩
abbrev main_v507 : Ref sig .tc := ⟨.hbm, 873, rfl⟩
abbrev main_v508 : Ref sig .tc := ⟨.hbm, 874, rfl⟩
abbrev main_v509 : Ref sig .tc := ⟨.hbm, 875, rfl⟩
abbrev main_v510 : Ref sig .tc := ⟨.hbm, 876, rfl⟩
abbrev main_cst_207 : Ref sig .tc := ⟨.hbm, 877, rfl⟩
abbrev main_v511 : Ref sig .tc := ⟨.hbm, 878, rfl⟩
abbrev main_v512 : Ref sig .tc := ⟨.hbm, 879, rfl⟩
abbrev main_cst_208 : Ref sig .tc := ⟨.hbm, 880, rfl⟩
abbrev main_v513 : Ref sig .tc := ⟨.hbm, 881, rfl⟩
abbrev main_v514 : Ref sig .tc := ⟨.hbm, 882, rfl⟩
abbrev main_cst_209 : Ref sig .tc := ⟨.hbm, 883, rfl⟩
abbrev main_v515 : Ref sig .tc := ⟨.hbm, 884, rfl⟩
abbrev main_v516 : Ref sig .tc := ⟨.hbm, 885, rfl⟩
abbrev main_cst_210 : Ref sig .tc := ⟨.hbm, 886, rfl⟩
abbrev main_v517 : Ref sig .tc := ⟨.hbm, 887, rfl⟩
abbrev main_v518 : Ref sig .tc := ⟨.hbm, 888, rfl⟩
abbrev main_v519 : Ref sig .tc := ⟨.hbm, 889, rfl⟩
abbrev main_v520 : Ref sig .tc := ⟨.hbm, 890, rfl⟩
abbrev main_cst_211 : Ref sig .tc := ⟨.hbm, 891, rfl⟩
abbrev main_v521 : Ref sig .tc := ⟨.hbm, 892, rfl⟩
abbrev main_v522 : Ref sig .tc := ⟨.hbm, 893, rfl⟩
abbrev main_cst_212 : Ref sig .tc := ⟨.hbm, 894, rfl⟩
abbrev main_v523 : Ref sig .tc := ⟨.hbm, 895, rfl⟩
abbrev main_v524 : Ref sig .tc := ⟨.hbm, 896, rfl⟩
abbrev main_cst_213 : Ref sig .tc := ⟨.hbm, 897, rfl⟩
abbrev main_v525 : Ref sig .tc := ⟨.hbm, 898, rfl⟩
abbrev main_v526 : Ref sig .tc := ⟨.hbm, 899, rfl⟩
abbrev main_cst_214 : Ref sig .tc := ⟨.hbm, 900, rfl⟩
abbrev main_v527 : Ref sig .tc := ⟨.hbm, 901, rfl⟩
abbrev main_v528 : Ref sig .tc := ⟨.hbm, 902, rfl⟩
abbrev main_v529 : Ref sig .tc := ⟨.hbm, 903, rfl⟩
abbrev main_v530 : Ref sig .tc := ⟨.hbm, 904, rfl⟩
abbrev main_v531 : Ref sig .tc := ⟨.hbm, 905, rfl⟩
abbrev main_v532 : Ref sig .tc := ⟨.hbm, 906, rfl⟩
abbrev main_v533 : Ref sig .tc := ⟨.hbm, 907, rfl⟩
abbrev main_v534 : Ref sig .tc := ⟨.hbm, 908, rfl⟩
abbrev main_v535 : Ref sig .tc := ⟨.hbm, 909, rfl⟩
abbrev main_v536 : Ref sig .tc := ⟨.hbm, 910, rfl⟩
abbrev main_v537 : Ref sig .tc := ⟨.hbm, 911, rfl⟩
abbrev main_cst_215 : Ref sig .tc := ⟨.hbm, 912, rfl⟩
abbrev main_v538 : Ref sig .tc := ⟨.hbm, 913, rfl⟩
abbrev main_cst_216 : Ref sig .tc := ⟨.hbm, 914, rfl⟩
abbrev main_v539 : Ref sig .tc := ⟨.hbm, 915, rfl⟩
abbrev main_v540 : Ref sig .tc := ⟨.hbm, 916, rfl⟩
abbrev main_cst_217 : Ref sig .tc := ⟨.hbm, 917, rfl⟩
abbrev main_v541 : Ref sig .tc := ⟨.hbm, 918, rfl⟩
abbrev main_v542 : Ref sig .tc := ⟨.hbm, 919, rfl⟩
abbrev main_v543 : Ref sig .tc := ⟨.hbm, 920, rfl⟩
abbrev main_cst_218 : Ref sig .tc := ⟨.hbm, 921, rfl⟩
abbrev main_v544 : Ref sig .tc := ⟨.hbm, 922, rfl⟩
abbrev main_v545 : Ref sig .tc := ⟨.hbm, 923, rfl⟩
abbrev main_v546 : Ref sig .tc := ⟨.hbm, 924, rfl⟩
abbrev main_c_219 : Ref sig .tc := ⟨.hbm, 925, rfl⟩
abbrev main_v547 : Ref sig .tc := ⟨.hbm, 926, rfl⟩
abbrev main_v548 : Ref sig .tc := ⟨.hbm, 927, rfl⟩
abbrev main_c_220 : Ref sig .tc := ⟨.hbm, 928, rfl⟩
abbrev main_v549 : Ref sig .tc := ⟨.hbm, 929, rfl⟩
abbrev main_v550 : Ref sig .tc := ⟨.hbm, 930, rfl⟩
abbrev main_c_221 : Ref sig .tc := ⟨.hbm, 931, rfl⟩
abbrev main_v551 : Ref sig .tc := ⟨.hbm, 932, rfl⟩
abbrev main_v552 : Ref sig .tc := ⟨.hbm, 933, rfl⟩
abbrev main_c_222 : Ref sig .tc := ⟨.hbm, 934, rfl⟩
abbrev main_v553 : Ref sig .tc := ⟨.hbm, 935, rfl⟩
abbrev main_v554 : Ref sig .tc := ⟨.hbm, 936, rfl⟩
abbrev main_c_223 : Ref sig .tc := ⟨.hbm, 937, rfl⟩
abbrev main_v555 : Ref sig .tc := ⟨.hbm, 938, rfl⟩
abbrev main_v556 : Ref sig .tc := ⟨.hbm, 939, rfl⟩
abbrev main_v557 : Ref sig .tc := ⟨.hbm, 940, rfl⟩
abbrev main_c_224 : Ref sig .tc := ⟨.hbm, 941, rfl⟩
abbrev main_v558 : Ref sig .tc := ⟨.hbm, 942, rfl⟩
abbrev main_v559 : Ref sig .tc := ⟨.hbm, 943, rfl⟩
abbrev main_v560 : Ref sig .tc := ⟨.hbm, 944, rfl⟩
abbrev main_c_225 : Ref sig .tc := ⟨.hbm, 945, rfl⟩
abbrev main_v561 : Ref sig .tc := ⟨.hbm, 946, rfl⟩
abbrev main_v562 : Ref sig .tc := ⟨.hbm, 947, rfl⟩
abbrev main_v563 : Ref sig .tc := ⟨.hbm, 948, rfl⟩
abbrev main_c_226 : Ref sig .tc := ⟨.hbm, 949, rfl⟩
abbrev main_v564 : Ref sig .tc := ⟨.hbm, 950, rfl⟩
abbrev main_v565 : Ref sig .tc := ⟨.hbm, 951, rfl⟩
abbrev main_v566 : Ref sig .tc := ⟨.hbm, 952, rfl⟩
abbrev main_c_227 : Ref sig .tc := ⟨.hbm, 953, rfl⟩
abbrev main_v567 : Ref sig .tc := ⟨.hbm, 954, rfl⟩
abbrev main_v568 : Ref sig .tc := ⟨.hbm, 955, rfl⟩
abbrev main_v569 : Ref sig .tc := ⟨.hbm, 956, rfl⟩
abbrev main_c_228 : Ref sig .tc := ⟨.hbm, 957, rfl⟩
abbrev main_c_229 : Ref sig .tc := ⟨.hbm, 958, rfl⟩
abbrev main_call32_v0 : Ref sig .tc := ⟨.hbm, 959, rfl⟩
abbrev main_call32_v1 : Ref sig .tc := ⟨.hbm, 960, rfl⟩
abbrev main_call32_v2 : Ref sig .tc := ⟨.hbm, 961, rfl⟩
abbrev main_call32_v3 : Ref sig .tc := ⟨.hbm, 962, rfl⟩
abbrev main_call32_v4 : Ref sig .tc := ⟨.hbm, 963, rfl⟩
abbrev main_v570 : Ref sig .tc := ⟨.hbm, 964, rfl⟩
abbrev main_c_230 : Ref sig .tc := ⟨.hbm, 965, rfl⟩
abbrev main_c_231 : Ref sig .tc := ⟨.hbm, 966, rfl⟩
abbrev main_call33_v0 : Ref sig .tc := ⟨.hbm, 967, rfl⟩
abbrev main_call33_v1 : Ref sig .tc := ⟨.hbm, 968, rfl⟩
abbrev main_call33_v2 : Ref sig .tc := ⟨.hbm, 969, rfl⟩
abbrev main_call33_v3 : Ref sig .tc := ⟨.hbm, 970, rfl⟩
abbrev main_call33_v4 : Ref sig .tc := ⟨.hbm, 971, rfl⟩
abbrev main_v571 : Ref sig .tc := ⟨.hbm, 972, rfl⟩
abbrev main_c_232 : Ref sig .tc := ⟨.hbm, 973, rfl⟩
abbrev main_c_233 : Ref sig .tc := ⟨.hbm, 974, rfl⟩
abbrev main_call34_v0 : Ref sig .tc := ⟨.hbm, 975, rfl⟩
abbrev main_call34_v1 : Ref sig .tc := ⟨.hbm, 976, rfl⟩
abbrev main_call34_v2 : Ref sig .tc := ⟨.hbm, 977, rfl⟩
abbrev main_call34_v3 : Ref sig .tc := ⟨.hbm, 978, rfl⟩
abbrev main_call34_v4 : Ref sig .tc := ⟨.hbm, 979, rfl⟩
abbrev main_v572 : Ref sig .tc := ⟨.hbm, 980, rfl⟩
abbrev main_c_234 : Ref sig .tc := ⟨.hbm, 981, rfl⟩
abbrev main_v573 : Ref sig .tc := ⟨.hbm, 982, rfl⟩
abbrev main_v574 : Ref sig .tc := ⟨.hbm, 983, rfl⟩
abbrev main_c_235 : Ref sig .tc := ⟨.hbm, 984, rfl⟩
abbrev main_v575 : Ref sig .tc := ⟨.hbm, 985, rfl⟩
abbrev main_v576 : Ref sig .tc := ⟨.hbm, 986, rfl⟩
abbrev main_v577 : Ref sig .tc := ⟨.hbm, 987, rfl⟩
abbrev main_c_236 : Ref sig .tc := ⟨.hbm, 988, rfl⟩
abbrev main_v578 : Ref sig .tc := ⟨.hbm, 989, rfl⟩
abbrev main_v579 : Ref sig .tc := ⟨.hbm, 990, rfl⟩
abbrev main_c_237 : Ref sig .tc := ⟨.hbm, 991, rfl⟩
abbrev main_v580 : Ref sig .tc := ⟨.hbm, 992, rfl⟩
abbrev main_v581 : Ref sig .tc := ⟨.hbm, 993, rfl⟩
abbrev main_v582 : Ref sig .tc := ⟨.hbm, 994, rfl⟩
abbrev main_c_238 : Ref sig .tc := ⟨.hbm, 995, rfl⟩
abbrev main_v583 : Ref sig .tc := ⟨.hbm, 996, rfl⟩
abbrev main_v584 : Ref sig .tc := ⟨.hbm, 997, rfl⟩
abbrev main_c_239 : Ref sig .tc := ⟨.hbm, 998, rfl⟩
abbrev main_v585 : Ref sig .tc := ⟨.hbm, 999, rfl⟩
abbrev main_v586 : Ref sig .tc := ⟨.hbm, 1000, rfl⟩
abbrev main_v587 : Ref sig .tc := ⟨.hbm, 1001, rfl⟩
abbrev main_v588 : Ref sig .tc := ⟨.hbm, 1002, rfl⟩
abbrev main_v589 : Ref sig .tc := ⟨.hbm, 1003, rfl⟩
abbrev main_v590 : Ref sig .tc := ⟨.hbm, 1004, rfl⟩
abbrev main_v591 : Ref sig .tc := ⟨.hbm, 1005, rfl⟩
abbrev main_v592 : Ref sig .tc := ⟨.hbm, 1006, rfl⟩
abbrev main_cst_240 : Ref sig .tc := ⟨.hbm, 1007, rfl⟩
abbrev main_call35_v0 : Ref sig .tc := ⟨.hbm, 1008, rfl⟩
abbrev main_call35_v1 : Ref sig .tc := ⟨.hbm, 1009, rfl⟩
abbrev main_call35_v2 : Ref sig .tc := ⟨.hbm, 1010, rfl⟩
abbrev main_call35_v3 : Ref sig .tc := ⟨.hbm, 1011, rfl⟩
abbrev main_v593 : Ref sig .tc := ⟨.hbm, 1012, rfl⟩
abbrev main_v594 : Ref sig .tc := ⟨.hbm, 1013, rfl⟩
abbrev main_v595 : Ref sig .tc := ⟨.hbm, 1014, rfl⟩
abbrev main_v596 : Ref sig .tc := ⟨.hbm, 1015, rfl⟩
abbrev main_v597 : Ref sig .tc := ⟨.hbm, 1016, rfl⟩
abbrev main_v598 : Ref sig .tc := ⟨.hbm, 1017, rfl⟩
abbrev main_v599 : Ref sig .tc := ⟨.hbm, 1018, rfl⟩
abbrev main_v600 : Ref sig .tc := ⟨.hbm, 1019, rfl⟩
abbrev main_cst_241 : Ref sig .tc := ⟨.hbm, 1020, rfl⟩
abbrev main_v601 : Ref sig .tc := ⟨.hbm, 1021, rfl⟩
abbrev main_v602 : Ref sig .tc := ⟨.hbm, 1022, rfl⟩
abbrev main_cst_242 : Ref sig .tc := ⟨.hbm, 1023, rfl⟩
abbrev main_v603 : Ref sig .tc := ⟨.hbm, 1024, rfl⟩
abbrev main_v604 : Ref sig .tc := ⟨.hbm, 1025, rfl⟩
abbrev main_v605 : Ref sig .tc := ⟨.hbm, 1026, rfl⟩
abbrev main_v606 : Ref sig .tc := ⟨.hbm, 1027, rfl⟩
abbrev main_c_243 : Ref sig .tc := ⟨.hbm, 1028, rfl⟩
abbrev main_v607 : Ref sig .tc := ⟨.hbm, 1029, rfl⟩
abbrev main_v608 : Ref sig .tc := ⟨.hbm, 1030, rfl⟩
abbrev main_c_244 : Ref sig .tc := ⟨.hbm, 1031, rfl⟩
abbrev main_v609 : Ref sig .tc := ⟨.hbm, 1032, rfl⟩
abbrev main_v610 : Ref sig .tc := ⟨.hbm, 1033, rfl⟩
abbrev main_c_245 : Ref sig .tc := ⟨.hbm, 1034, rfl⟩
abbrev main_v611 : Ref sig .tc := ⟨.hbm, 1035, rfl⟩
abbrev main_v612 : Ref sig .tc := ⟨.hbm, 1036, rfl⟩
abbrev main_c_246 : Ref sig .tc := ⟨.hbm, 1037, rfl⟩
abbrev main_v613 : Ref sig .tc := ⟨.hbm, 1038, rfl⟩
abbrev main_v614 : Ref sig .tc := ⟨.hbm, 1039, rfl⟩
abbrev main_c_247 : Ref sig .tc := ⟨.hbm, 1040, rfl⟩
abbrev main_v615 : Ref sig .tc := ⟨.hbm, 1041, rfl⟩
abbrev main_v616 : Ref sig .tc := ⟨.hbm, 1042, rfl⟩
abbrev main_v617 : Ref sig .tc := ⟨.hbm, 1043, rfl⟩
abbrev main_c_248 : Ref sig .tc := ⟨.hbm, 1044, rfl⟩
abbrev main_v618 : Ref sig .tc := ⟨.hbm, 1045, rfl⟩
abbrev main_v619 : Ref sig .tc := ⟨.hbm, 1046, rfl⟩
abbrev main_v620 : Ref sig .tc := ⟨.hbm, 1047, rfl⟩
abbrev main_c_249 : Ref sig .tc := ⟨.hbm, 1048, rfl⟩
abbrev main_v621 : Ref sig .tc := ⟨.hbm, 1049, rfl⟩
abbrev main_v622 : Ref sig .tc := ⟨.hbm, 1050, rfl⟩
abbrev main_v623 : Ref sig .tc := ⟨.hbm, 1051, rfl⟩
abbrev main_c_250 : Ref sig .tc := ⟨.hbm, 1052, rfl⟩
abbrev main_v624 : Ref sig .tc := ⟨.hbm, 1053, rfl⟩
abbrev main_v625 : Ref sig .tc := ⟨.hbm, 1054, rfl⟩
abbrev main_v626 : Ref sig .tc := ⟨.hbm, 1055, rfl⟩
abbrev main_c_251 : Ref sig .tc := ⟨.hbm, 1056, rfl⟩
abbrev main_v627 : Ref sig .tc := ⟨.hbm, 1057, rfl⟩
abbrev main_v628 : Ref sig .tc := ⟨.hbm, 1058, rfl⟩
abbrev main_v629 : Ref sig .tc := ⟨.hbm, 1059, rfl⟩
abbrev main_c_252 : Ref sig .tc := ⟨.hbm, 1060, rfl⟩
abbrev main_c_253 : Ref sig .tc := ⟨.hbm, 1061, rfl⟩
abbrev main_call36_v0 : Ref sig .tc := ⟨.hbm, 1062, rfl⟩
abbrev main_call36_v1 : Ref sig .tc := ⟨.hbm, 1063, rfl⟩
abbrev main_call36_v2 : Ref sig .tc := ⟨.hbm, 1064, rfl⟩
abbrev main_call36_v3 : Ref sig .tc := ⟨.hbm, 1065, rfl⟩
abbrev main_call36_v4 : Ref sig .tc := ⟨.hbm, 1066, rfl⟩
abbrev main_v630 : Ref sig .tc := ⟨.hbm, 1067, rfl⟩
abbrev main_c_254 : Ref sig .tc := ⟨.hbm, 1068, rfl⟩
abbrev main_c_255 : Ref sig .tc := ⟨.hbm, 1069, rfl⟩
abbrev main_call37_v0 : Ref sig .tc := ⟨.hbm, 1070, rfl⟩
abbrev main_call37_v1 : Ref sig .tc := ⟨.hbm, 1071, rfl⟩
abbrev main_call37_v2 : Ref sig .tc := ⟨.hbm, 1072, rfl⟩
abbrev main_call37_v3 : Ref sig .tc := ⟨.hbm, 1073, rfl⟩
abbrev main_call37_v4 : Ref sig .tc := ⟨.hbm, 1074, rfl⟩
abbrev main_v631 : Ref sig .tc := ⟨.hbm, 1075, rfl⟩
abbrev main_c_256 : Ref sig .tc := ⟨.hbm, 1076, rfl⟩
abbrev main_c_257 : Ref sig .tc := ⟨.hbm, 1077, rfl⟩
abbrev main_call38_v0 : Ref sig .tc := ⟨.hbm, 1078, rfl⟩
abbrev main_call38_v1 : Ref sig .tc := ⟨.hbm, 1079, rfl⟩
abbrev main_call38_v2 : Ref sig .tc := ⟨.hbm, 1080, rfl⟩
abbrev main_call38_v3 : Ref sig .tc := ⟨.hbm, 1081, rfl⟩
abbrev main_call38_v4 : Ref sig .tc := ⟨.hbm, 1082, rfl⟩
abbrev main_v632 : Ref sig .tc := ⟨.hbm, 1083, rfl⟩
abbrev main_c_258 : Ref sig .tc := ⟨.hbm, 1084, rfl⟩
abbrev main_v633 : Ref sig .tc := ⟨.hbm, 1085, rfl⟩
abbrev main_v634 : Ref sig .tc := ⟨.hbm, 1086, rfl⟩
abbrev main_c_259 : Ref sig .tc := ⟨.hbm, 1087, rfl⟩
abbrev main_v635 : Ref sig .tc := ⟨.hbm, 1088, rfl⟩
abbrev main_v636 : Ref sig .tc := ⟨.hbm, 1089, rfl⟩
abbrev main_v637 : Ref sig .tc := ⟨.hbm, 1090, rfl⟩
abbrev main_c_260 : Ref sig .tc := ⟨.hbm, 1091, rfl⟩
abbrev main_v638 : Ref sig .tc := ⟨.hbm, 1092, rfl⟩
abbrev main_v639 : Ref sig .tc := ⟨.hbm, 1093, rfl⟩
abbrev main_c_261 : Ref sig .tc := ⟨.hbm, 1094, rfl⟩
abbrev main_v640 : Ref sig .tc := ⟨.hbm, 1095, rfl⟩
abbrev main_v641 : Ref sig .tc := ⟨.hbm, 1096, rfl⟩
abbrev main_v642 : Ref sig .tc := ⟨.hbm, 1097, rfl⟩
abbrev main_c_262 : Ref sig .tc := ⟨.hbm, 1098, rfl⟩
abbrev main_v643 : Ref sig .tc := ⟨.hbm, 1099, rfl⟩
abbrev main_v644 : Ref sig .tc := ⟨.hbm, 1100, rfl⟩
abbrev main_c_263 : Ref sig .tc := ⟨.hbm, 1101, rfl⟩
abbrev main_v645 : Ref sig .tc := ⟨.hbm, 1102, rfl⟩
abbrev main_v646 : Ref sig .tc := ⟨.hbm, 1103, rfl⟩
abbrev main_v647 : Ref sig .tc := ⟨.hbm, 1104, rfl⟩
abbrev main_v648 : Ref sig .tc := ⟨.hbm, 1105, rfl⟩
abbrev main_v649 : Ref sig .tc := ⟨.hbm, 1106, rfl⟩
abbrev main_v650 : Ref sig .tc := ⟨.hbm, 1107, rfl⟩
abbrev main_v651 : Ref sig .tc := ⟨.hbm, 1108, rfl⟩
abbrev main_v652 : Ref sig .tc := ⟨.hbm, 1109, rfl⟩
abbrev main_cst_264 : Ref sig .tc := ⟨.hbm, 1110, rfl⟩
abbrev main_call39_v0 : Ref sig .tc := ⟨.hbm, 1111, rfl⟩
abbrev main_call39_v1 : Ref sig .tc := ⟨.hbm, 1112, rfl⟩
abbrev main_call39_v2 : Ref sig .tc := ⟨.hbm, 1113, rfl⟩
abbrev main_call39_v3 : Ref sig .tc := ⟨.hbm, 1114, rfl⟩
abbrev main_v653 : Ref sig .tc := ⟨.hbm, 1115, rfl⟩
abbrev main_v654 : Ref sig .tc := ⟨.hbm, 1116, rfl⟩
abbrev main_v655 : Ref sig .tc := ⟨.hbm, 1117, rfl⟩
abbrev main_v656 : Ref sig .tc := ⟨.hbm, 1118, rfl⟩
abbrev main_v657 : Ref sig .tc := ⟨.hbm, 1119, rfl⟩
abbrev main_cst_265 : Ref sig .tc := ⟨.hbm, 1120, rfl⟩
abbrev main_v658 : Ref sig .tc := ⟨.hbm, 1121, rfl⟩
abbrev main_v659 : Ref sig .tc := ⟨.hbm, 1122, rfl⟩
abbrev main_v660 : Ref sig .tc := ⟨.hbm, 1123, rfl⟩
abbrev main_cst_266 : Ref sig .tc := ⟨.hbm, 1124, rfl⟩
abbrev main_v661 : Ref sig .tc := ⟨.hbm, 1125, rfl⟩
abbrev main_v662 : Ref sig .tc := ⟨.hbm, 1126, rfl⟩
abbrev main_v663 : Ref sig .tc := ⟨.hbm, 1127, rfl⟩
abbrev main_c_267 : Ref sig .tc := ⟨.hbm, 1128, rfl⟩
abbrev main_v664 : Ref sig .tc := ⟨.hbm, 1129, rfl⟩
abbrev main_v665 : Ref sig .tc := ⟨.hbm, 1130, rfl⟩
abbrev main_c_268 : Ref sig .tc := ⟨.hbm, 1131, rfl⟩
abbrev main_v666 : Ref sig .tc := ⟨.hbm, 1132, rfl⟩
abbrev main_v667 : Ref sig .tc := ⟨.hbm, 1133, rfl⟩
abbrev main_c_269 : Ref sig .tc := ⟨.hbm, 1134, rfl⟩
abbrev main_v668 : Ref sig .tc := ⟨.hbm, 1135, rfl⟩
abbrev main_v669 : Ref sig .tc := ⟨.hbm, 1136, rfl⟩
abbrev main_c_270 : Ref sig .tc := ⟨.hbm, 1137, rfl⟩
abbrev main_v670 : Ref sig .tc := ⟨.hbm, 1138, rfl⟩
abbrev main_v671 : Ref sig .tc := ⟨.hbm, 1139, rfl⟩
abbrev main_c_271 : Ref sig .tc := ⟨.hbm, 1140, rfl⟩
abbrev main_v672 : Ref sig .tc := ⟨.hbm, 1141, rfl⟩
abbrev main_v673 : Ref sig .tc := ⟨.hbm, 1142, rfl⟩
abbrev main_v674 : Ref sig .tc := ⟨.hbm, 1143, rfl⟩
abbrev main_c_272 : Ref sig .tc := ⟨.hbm, 1144, rfl⟩
abbrev main_v675 : Ref sig .tc := ⟨.hbm, 1145, rfl⟩
abbrev main_v676 : Ref sig .tc := ⟨.hbm, 1146, rfl⟩
abbrev main_v677 : Ref sig .tc := ⟨.hbm, 1147, rfl⟩
abbrev main_c_273 : Ref sig .tc := ⟨.hbm, 1148, rfl⟩
abbrev main_v678 : Ref sig .tc := ⟨.hbm, 1149, rfl⟩
abbrev main_v679 : Ref sig .tc := ⟨.hbm, 1150, rfl⟩
abbrev main_v680 : Ref sig .tc := ⟨.hbm, 1151, rfl⟩
abbrev main_c_274 : Ref sig .tc := ⟨.hbm, 1152, rfl⟩
abbrev main_v681 : Ref sig .tc := ⟨.hbm, 1153, rfl⟩
abbrev main_v682 : Ref sig .tc := ⟨.hbm, 1154, rfl⟩
abbrev main_v683 : Ref sig .tc := ⟨.hbm, 1155, rfl⟩
abbrev main_c_275 : Ref sig .tc := ⟨.hbm, 1156, rfl⟩
abbrev main_v684 : Ref sig .tc := ⟨.hbm, 1157, rfl⟩
abbrev main_v685 : Ref sig .tc := ⟨.hbm, 1158, rfl⟩
abbrev main_v686 : Ref sig .tc := ⟨.hbm, 1159, rfl⟩
abbrev main_c_276 : Ref sig .tc := ⟨.hbm, 1160, rfl⟩
abbrev main_c_277 : Ref sig .tc := ⟨.hbm, 1161, rfl⟩
abbrev main_call40_v0 : Ref sig .tc := ⟨.hbm, 1162, rfl⟩
abbrev main_call40_v1 : Ref sig .tc := ⟨.hbm, 1163, rfl⟩
abbrev main_call40_v2 : Ref sig .tc := ⟨.hbm, 1164, rfl⟩
abbrev main_call40_v3 : Ref sig .tc := ⟨.hbm, 1165, rfl⟩
abbrev main_call40_v4 : Ref sig .tc := ⟨.hbm, 1166, rfl⟩
abbrev main_v687 : Ref sig .tc := ⟨.hbm, 1167, rfl⟩
abbrev main_c_278 : Ref sig .tc := ⟨.hbm, 1168, rfl⟩
abbrev main_c_279 : Ref sig .tc := ⟨.hbm, 1169, rfl⟩
abbrev main_call41_v0 : Ref sig .tc := ⟨.hbm, 1170, rfl⟩
abbrev main_call41_v1 : Ref sig .tc := ⟨.hbm, 1171, rfl⟩
abbrev main_call41_v2 : Ref sig .tc := ⟨.hbm, 1172, rfl⟩
abbrev main_call41_v3 : Ref sig .tc := ⟨.hbm, 1173, rfl⟩
abbrev main_call41_v4 : Ref sig .tc := ⟨.hbm, 1174, rfl⟩
abbrev main_v688 : Ref sig .tc := ⟨.hbm, 1175, rfl⟩
abbrev main_c_280 : Ref sig .tc := ⟨.hbm, 1176, rfl⟩
abbrev main_c_281 : Ref sig .tc := ⟨.hbm, 1177, rfl⟩
abbrev main_call42_v0 : Ref sig .tc := ⟨.hbm, 1178, rfl⟩
abbrev main_call42_v1 : Ref sig .tc := ⟨.hbm, 1179, rfl⟩
abbrev main_call42_v2 : Ref sig .tc := ⟨.hbm, 1180, rfl⟩
abbrev main_call42_v3 : Ref sig .tc := ⟨.hbm, 1181, rfl⟩
abbrev main_call42_v4 : Ref sig .tc := ⟨.hbm, 1182, rfl⟩
abbrev main_v689 : Ref sig .tc := ⟨.hbm, 1183, rfl⟩
abbrev main_c_282 : Ref sig .tc := ⟨.hbm, 1184, rfl⟩
abbrev main_v690 : Ref sig .tc := ⟨.hbm, 1185, rfl⟩
abbrev main_v691 : Ref sig .tc := ⟨.hbm, 1186, rfl⟩
abbrev main_c_283 : Ref sig .tc := ⟨.hbm, 1187, rfl⟩
abbrev main_v692 : Ref sig .tc := ⟨.hbm, 1188, rfl⟩
abbrev main_v693 : Ref sig .tc := ⟨.hbm, 1189, rfl⟩
abbrev main_v694 : Ref sig .tc := ⟨.hbm, 1190, rfl⟩
abbrev main_c_284 : Ref sig .tc := ⟨.hbm, 1191, rfl⟩
abbrev main_v695 : Ref sig .tc := ⟨.hbm, 1192, rfl⟩
abbrev main_v696 : Ref sig .tc := ⟨.hbm, 1193, rfl⟩
abbrev main_c_285 : Ref sig .tc := ⟨.hbm, 1194, rfl⟩
abbrev main_v697 : Ref sig .tc := ⟨.hbm, 1195, rfl⟩
abbrev main_v698 : Ref sig .tc := ⟨.hbm, 1196, rfl⟩
abbrev main_v699 : Ref sig .tc := ⟨.hbm, 1197, rfl⟩
abbrev main_c_286 : Ref sig .tc := ⟨.hbm, 1198, rfl⟩
abbrev main_v700 : Ref sig .tc := ⟨.hbm, 1199, rfl⟩
abbrev main_v701 : Ref sig .tc := ⟨.hbm, 1200, rfl⟩
abbrev main_c_287 : Ref sig .tc := ⟨.hbm, 1201, rfl⟩
abbrev main_v702 : Ref sig .tc := ⟨.hbm, 1202, rfl⟩
abbrev main_v703 : Ref sig .tc := ⟨.hbm, 1203, rfl⟩
abbrev main_v704 : Ref sig .tc := ⟨.hbm, 1204, rfl⟩
abbrev main_v705 : Ref sig .tc := ⟨.hbm, 1205, rfl⟩
abbrev main_v706 : Ref sig .tc := ⟨.hbm, 1206, rfl⟩
abbrev main_v707 : Ref sig .tc := ⟨.hbm, 1207, rfl⟩
abbrev main_v708 : Ref sig .tc := ⟨.hbm, 1208, rfl⟩
abbrev main_v709 : Ref sig .tc := ⟨.hbm, 1209, rfl⟩
abbrev main_cst_288 : Ref sig .tc := ⟨.hbm, 1210, rfl⟩
abbrev main_call43_v0 : Ref sig .tc := ⟨.hbm, 1211, rfl⟩
abbrev main_call43_v1 : Ref sig .tc := ⟨.hbm, 1212, rfl⟩
abbrev main_call43_v2 : Ref sig .tc := ⟨.hbm, 1213, rfl⟩
abbrev main_call43_v3 : Ref sig .tc := ⟨.hbm, 1214, rfl⟩
abbrev main_v710 : Ref sig .tc := ⟨.hbm, 1215, rfl⟩
abbrev main_v711 : Ref sig .tc := ⟨.hbm, 1216, rfl⟩
abbrev main_v712 : Ref sig .tc := ⟨.hbm, 1217, rfl⟩
abbrev main_v713 : Ref sig .tc := ⟨.hbm, 1218, rfl⟩
abbrev main_v714 : Ref sig .tc := ⟨.hbm, 1219, rfl⟩
abbrev main_cst_289 : Ref sig .tc := ⟨.hbm, 1220, rfl⟩
abbrev main_v715 : Ref sig .tc := ⟨.hbm, 1221, rfl⟩
abbrev main_v716 : Ref sig .tc := ⟨.hbm, 1222, rfl⟩
abbrev main_v717 : Ref sig .tc := ⟨.hbm, 1223, rfl⟩
abbrev main_v718 : Ref sig .tc := ⟨.hbm, 1224, rfl⟩
abbrev main_c_290 : Ref sig .tc := ⟨.hbm, 1225, rfl⟩
abbrev main_v719 : Ref sig .tc := ⟨.hbm, 1226, rfl⟩
abbrev main_v720 : Ref sig .tc := ⟨.hbm, 1227, rfl⟩
abbrev main_c_291 : Ref sig .tc := ⟨.hbm, 1228, rfl⟩
abbrev main_v721 : Ref sig .tc := ⟨.hbm, 1229, rfl⟩
abbrev main_v722 : Ref sig .tc := ⟨.hbm, 1230, rfl⟩
abbrev main_c_292 : Ref sig .tc := ⟨.hbm, 1231, rfl⟩
abbrev main_v723 : Ref sig .tc := ⟨.hbm, 1232, rfl⟩
abbrev main_v724 : Ref sig .tc := ⟨.hbm, 1233, rfl⟩
abbrev main_c_293 : Ref sig .tc := ⟨.hbm, 1234, rfl⟩
abbrev main_v725 : Ref sig .tc := ⟨.hbm, 1235, rfl⟩
abbrev main_v726 : Ref sig .tc := ⟨.hbm, 1236, rfl⟩
abbrev main_c_294 : Ref sig .tc := ⟨.hbm, 1237, rfl⟩
abbrev main_v727 : Ref sig .tc := ⟨.hbm, 1238, rfl⟩
abbrev main_v728 : Ref sig .tc := ⟨.hbm, 1239, rfl⟩
abbrev main_v729 : Ref sig .tc := ⟨.hbm, 1240, rfl⟩
abbrev main_c_295 : Ref sig .tc := ⟨.hbm, 1241, rfl⟩
abbrev main_v730 : Ref sig .tc := ⟨.hbm, 1242, rfl⟩
abbrev main_v731 : Ref sig .tc := ⟨.hbm, 1243, rfl⟩
abbrev main_v732 : Ref sig .tc := ⟨.hbm, 1244, rfl⟩
abbrev main_c_296 : Ref sig .tc := ⟨.hbm, 1245, rfl⟩
abbrev main_v733 : Ref sig .tc := ⟨.hbm, 1246, rfl⟩
abbrev main_v734 : Ref sig .tc := ⟨.hbm, 1247, rfl⟩
abbrev main_v735 : Ref sig .tc := ⟨.hbm, 1248, rfl⟩
abbrev main_c_297 : Ref sig .tc := ⟨.hbm, 1249, rfl⟩
abbrev main_v736 : Ref sig .tc := ⟨.hbm, 1250, rfl⟩
abbrev main_v737 : Ref sig .tc := ⟨.hbm, 1251, rfl⟩
abbrev main_v738 : Ref sig .tc := ⟨.hbm, 1252, rfl⟩
abbrev main_c_298 : Ref sig .tc := ⟨.hbm, 1253, rfl⟩
abbrev main_v739 : Ref sig .tc := ⟨.hbm, 1254, rfl⟩
abbrev main_v740 : Ref sig .tc := ⟨.hbm, 1255, rfl⟩
abbrev main_v741 : Ref sig .tc := ⟨.hbm, 1256, rfl⟩
abbrev main_c_299 : Ref sig .tc := ⟨.hbm, 1257, rfl⟩
abbrev main_c_300 : Ref sig .tc := ⟨.hbm, 1258, rfl⟩
abbrev main_call44_v0 : Ref sig .tc := ⟨.hbm, 1259, rfl⟩
abbrev main_call44_v1 : Ref sig .tc := ⟨.hbm, 1260, rfl⟩
abbrev main_call44_v2 : Ref sig .tc := ⟨.hbm, 1261, rfl⟩
abbrev main_call44_v3 : Ref sig .tc := ⟨.hbm, 1262, rfl⟩
abbrev main_call44_v4 : Ref sig .tc := ⟨.hbm, 1263, rfl⟩
abbrev main_v742 : Ref sig .tc := ⟨.hbm, 1264, rfl⟩
abbrev main_c_301 : Ref sig .tc := ⟨.hbm, 1265, rfl⟩
abbrev main_c_302 : Ref sig .tc := ⟨.hbm, 1266, rfl⟩
abbrev main_call45_v0 : Ref sig .tc := ⟨.hbm, 1267, rfl⟩
abbrev main_call45_v1 : Ref sig .tc := ⟨.hbm, 1268, rfl⟩
abbrev main_call45_v2 : Ref sig .tc := ⟨.hbm, 1269, rfl⟩
abbrev main_call45_v3 : Ref sig .tc := ⟨.hbm, 1270, rfl⟩
abbrev main_call45_v4 : Ref sig .tc := ⟨.hbm, 1271, rfl⟩
abbrev main_v743 : Ref sig .tc := ⟨.hbm, 1272, rfl⟩
abbrev main_c_303 : Ref sig .tc := ⟨.hbm, 1273, rfl⟩
abbrev main_c_304 : Ref sig .tc := ⟨.hbm, 1274, rfl⟩
abbrev main_call46_v0 : Ref sig .tc := ⟨.hbm, 1275, rfl⟩
abbrev main_call46_v1 : Ref sig .tc := ⟨.hbm, 1276, rfl⟩
abbrev main_call46_v2 : Ref sig .tc := ⟨.hbm, 1277, rfl⟩
abbrev main_call46_v3 : Ref sig .tc := ⟨.hbm, 1278, rfl⟩
abbrev main_call46_v4 : Ref sig .tc := ⟨.hbm, 1279, rfl⟩
abbrev main_v744 : Ref sig .tc := ⟨.hbm, 1280, rfl⟩
abbrev main_c_305 : Ref sig .tc := ⟨.hbm, 1281, rfl⟩
abbrev main_v745 : Ref sig .tc := ⟨.hbm, 1282, rfl⟩
abbrev main_v746 : Ref sig .tc := ⟨.hbm, 1283, rfl⟩
abbrev main_c_306 : Ref sig .tc := ⟨.hbm, 1284, rfl⟩
abbrev main_v747 : Ref sig .tc := ⟨.hbm, 1285, rfl⟩
abbrev main_v748 : Ref sig .tc := ⟨.hbm, 1286, rfl⟩
abbrev main_v749 : Ref sig .tc := ⟨.hbm, 1287, rfl⟩
abbrev main_c_307 : Ref sig .tc := ⟨.hbm, 1288, rfl⟩
abbrev main_v750 : Ref sig .tc := ⟨.hbm, 1289, rfl⟩
abbrev main_v751 : Ref sig .tc := ⟨.hbm, 1290, rfl⟩
abbrev main_c_308 : Ref sig .tc := ⟨.hbm, 1291, rfl⟩
abbrev main_v752 : Ref sig .tc := ⟨.hbm, 1292, rfl⟩
abbrev main_v753 : Ref sig .tc := ⟨.hbm, 1293, rfl⟩
abbrev main_v754 : Ref sig .tc := ⟨.hbm, 1294, rfl⟩
abbrev main_c_309 : Ref sig .tc := ⟨.hbm, 1295, rfl⟩
abbrev main_v755 : Ref sig .tc := ⟨.hbm, 1296, rfl⟩
abbrev main_v756 : Ref sig .tc := ⟨.hbm, 1297, rfl⟩
abbrev main_c_310 : Ref sig .tc := ⟨.hbm, 1298, rfl⟩
abbrev main_v757 : Ref sig .tc := ⟨.hbm, 1299, rfl⟩
abbrev main_v758 : Ref sig .tc := ⟨.hbm, 1300, rfl⟩
abbrev main_v759 : Ref sig .tc := ⟨.hbm, 1301, rfl⟩
abbrev main_v760 : Ref sig .tc := ⟨.hbm, 1302, rfl⟩
abbrev main_v761 : Ref sig .tc := ⟨.hbm, 1303, rfl⟩
abbrev main_v762 : Ref sig .tc := ⟨.hbm, 1304, rfl⟩
abbrev main_v763 : Ref sig .tc := ⟨.hbm, 1305, rfl⟩
abbrev main_v764 : Ref sig .tc := ⟨.hbm, 1306, rfl⟩
abbrev main_cst_311 : Ref sig .tc := ⟨.hbm, 1307, rfl⟩
abbrev main_call47_v0 : Ref sig .tc := ⟨.hbm, 1308, rfl⟩
abbrev main_call47_v1 : Ref sig .tc := ⟨.hbm, 1309, rfl⟩
abbrev main_call47_v2 : Ref sig .tc := ⟨.hbm, 1310, rfl⟩
abbrev main_call47_v3 : Ref sig .tc := ⟨.hbm, 1311, rfl⟩
abbrev main_v765 : Ref sig .tc := ⟨.hbm, 1312, rfl⟩
abbrev main_v766 : Ref sig .tc := ⟨.hbm, 1313, rfl⟩
abbrev main_v767 : Ref sig .tc := ⟨.hbm, 1314, rfl⟩
abbrev main_v768 : Ref sig .tc := ⟨.hbm, 1315, rfl⟩
abbrev main_v769 : Ref sig .tc := ⟨.hbm, 1316, rfl⟩
abbrev main_cst_312 : Ref sig .tc := ⟨.hbm, 1317, rfl⟩
abbrev main_v770 : Ref sig .tc := ⟨.hbm, 1318, rfl⟩
abbrev main_v771 : Ref sig .tc := ⟨.hbm, 1319, rfl⟩
abbrev main_v772 : Ref sig .tc := ⟨.hbm, 1320, rfl⟩
abbrev main_cst_313 : Ref sig .tc := ⟨.hbm, 1321, rfl⟩
abbrev main_v773 : Ref sig .tc := ⟨.hbm, 1322, rfl⟩
abbrev main_v774 : Ref sig .tc := ⟨.hbm, 1323, rfl⟩
abbrev main_v775 : Ref sig .tc := ⟨.hbm, 1324, rfl⟩
abbrev main_c_314 : Ref sig .tc := ⟨.hbm, 1325, rfl⟩
abbrev main_v776 : Ref sig .tc := ⟨.hbm, 1326, rfl⟩
abbrev main_v777 : Ref sig .tc := ⟨.hbm, 1327, rfl⟩
abbrev main_c_315 : Ref sig .tc := ⟨.hbm, 1328, rfl⟩
abbrev main_v778 : Ref sig .tc := ⟨.hbm, 1329, rfl⟩
abbrev main_v779 : Ref sig .tc := ⟨.hbm, 1330, rfl⟩
abbrev main_c_316 : Ref sig .tc := ⟨.hbm, 1331, rfl⟩
abbrev main_v780 : Ref sig .tc := ⟨.hbm, 1332, rfl⟩
abbrev main_v781 : Ref sig .tc := ⟨.hbm, 1333, rfl⟩
abbrev main_c_317 : Ref sig .tc := ⟨.hbm, 1334, rfl⟩
abbrev main_v782 : Ref sig .tc := ⟨.hbm, 1335, rfl⟩
abbrev main_v783 : Ref sig .tc := ⟨.hbm, 1336, rfl⟩
abbrev main_c_318 : Ref sig .tc := ⟨.hbm, 1337, rfl⟩
abbrev main_v784 : Ref sig .tc := ⟨.hbm, 1338, rfl⟩
abbrev main_v785 : Ref sig .tc := ⟨.hbm, 1339, rfl⟩
abbrev main_v786 : Ref sig .tc := ⟨.hbm, 1340, rfl⟩
abbrev main_c_319 : Ref sig .tc := ⟨.hbm, 1341, rfl⟩
abbrev main_v787 : Ref sig .tc := ⟨.hbm, 1342, rfl⟩
abbrev main_v788 : Ref sig .tc := ⟨.hbm, 1343, rfl⟩
abbrev main_v789 : Ref sig .tc := ⟨.hbm, 1344, rfl⟩
abbrev main_c_320 : Ref sig .tc := ⟨.hbm, 1345, rfl⟩
abbrev main_v790 : Ref sig .tc := ⟨.hbm, 1346, rfl⟩
abbrev main_v791 : Ref sig .tc := ⟨.hbm, 1347, rfl⟩
abbrev main_v792 : Ref sig .tc := ⟨.hbm, 1348, rfl⟩
abbrev main_c_321 : Ref sig .tc := ⟨.hbm, 1349, rfl⟩
abbrev main_v793 : Ref sig .tc := ⟨.hbm, 1350, rfl⟩
abbrev main_v794 : Ref sig .tc := ⟨.hbm, 1351, rfl⟩
abbrev main_v795 : Ref sig .tc := ⟨.hbm, 1352, rfl⟩
abbrev main_c_322 : Ref sig .tc := ⟨.hbm, 1353, rfl⟩
abbrev main_v796 : Ref sig .tc := ⟨.hbm, 1354, rfl⟩
abbrev main_v797 : Ref sig .tc := ⟨.hbm, 1355, rfl⟩
abbrev main_v798 : Ref sig .tc := ⟨.hbm, 1356, rfl⟩
abbrev main_c_323 : Ref sig .tc := ⟨.hbm, 1357, rfl⟩
abbrev main_c_324 : Ref sig .tc := ⟨.hbm, 1358, rfl⟩
abbrev main_call48_v0 : Ref sig .tc := ⟨.hbm, 1359, rfl⟩
abbrev main_call48_v1 : Ref sig .tc := ⟨.hbm, 1360, rfl⟩
abbrev main_call48_v2 : Ref sig .tc := ⟨.hbm, 1361, rfl⟩
abbrev main_call48_v3 : Ref sig .tc := ⟨.hbm, 1362, rfl⟩
abbrev main_call48_v4 : Ref sig .tc := ⟨.hbm, 1363, rfl⟩
abbrev main_v799 : Ref sig .tc := ⟨.hbm, 1364, rfl⟩
abbrev main_c_325 : Ref sig .tc := ⟨.hbm, 1365, rfl⟩
abbrev main_c_326 : Ref sig .tc := ⟨.hbm, 1366, rfl⟩
abbrev main_call49_v0 : Ref sig .tc := ⟨.hbm, 1367, rfl⟩
abbrev main_call49_v1 : Ref sig .tc := ⟨.hbm, 1368, rfl⟩
abbrev main_call49_v2 : Ref sig .tc := ⟨.hbm, 1369, rfl⟩
abbrev main_call49_v3 : Ref sig .tc := ⟨.hbm, 1370, rfl⟩
abbrev main_call49_v4 : Ref sig .tc := ⟨.hbm, 1371, rfl⟩
abbrev main_v800 : Ref sig .tc := ⟨.hbm, 1372, rfl⟩
abbrev main_c_327 : Ref sig .tc := ⟨.hbm, 1373, rfl⟩
abbrev main_c_328 : Ref sig .tc := ⟨.hbm, 1374, rfl⟩
abbrev main_call50_v0 : Ref sig .tc := ⟨.hbm, 1375, rfl⟩
abbrev main_call50_v1 : Ref sig .tc := ⟨.hbm, 1376, rfl⟩
abbrev main_call50_v2 : Ref sig .tc := ⟨.hbm, 1377, rfl⟩
abbrev main_call50_v3 : Ref sig .tc := ⟨.hbm, 1378, rfl⟩
abbrev main_call50_v4 : Ref sig .tc := ⟨.hbm, 1379, rfl⟩
abbrev main_v801 : Ref sig .tc := ⟨.hbm, 1380, rfl⟩
abbrev main_c_329 : Ref sig .tc := ⟨.hbm, 1381, rfl⟩
abbrev main_v802 : Ref sig .tc := ⟨.hbm, 1382, rfl⟩
abbrev main_v803 : Ref sig .tc := ⟨.hbm, 1383, rfl⟩
abbrev main_c_330 : Ref sig .tc := ⟨.hbm, 1384, rfl⟩
abbrev main_v804 : Ref sig .tc := ⟨.hbm, 1385, rfl⟩
abbrev main_v805 : Ref sig .tc := ⟨.hbm, 1386, rfl⟩
abbrev main_v806 : Ref sig .tc := ⟨.hbm, 1387, rfl⟩
abbrev main_c_331 : Ref sig .tc := ⟨.hbm, 1388, rfl⟩
abbrev main_v807 : Ref sig .tc := ⟨.hbm, 1389, rfl⟩
abbrev main_v808 : Ref sig .tc := ⟨.hbm, 1390, rfl⟩
abbrev main_c_332 : Ref sig .tc := ⟨.hbm, 1391, rfl⟩
abbrev main_v809 : Ref sig .tc := ⟨.hbm, 1392, rfl⟩
abbrev main_v810 : Ref sig .tc := ⟨.hbm, 1393, rfl⟩
abbrev main_v811 : Ref sig .tc := ⟨.hbm, 1394, rfl⟩
abbrev main_c_333 : Ref sig .tc := ⟨.hbm, 1395, rfl⟩
abbrev main_v812 : Ref sig .tc := ⟨.hbm, 1396, rfl⟩
abbrev main_v813 : Ref sig .tc := ⟨.hbm, 1397, rfl⟩
abbrev main_c_334 : Ref sig .tc := ⟨.hbm, 1398, rfl⟩
abbrev main_v814 : Ref sig .tc := ⟨.hbm, 1399, rfl⟩
abbrev main_v815 : Ref sig .tc := ⟨.hbm, 1400, rfl⟩
abbrev main_v816 : Ref sig .tc := ⟨.hbm, 1401, rfl⟩
abbrev main_v817 : Ref sig .tc := ⟨.hbm, 1402, rfl⟩
abbrev main_v818 : Ref sig .tc := ⟨.hbm, 1403, rfl⟩
abbrev main_v819 : Ref sig .tc := ⟨.hbm, 1404, rfl⟩
abbrev main_v820 : Ref sig .tc := ⟨.hbm, 1405, rfl⟩
abbrev main_v821 : Ref sig .tc := ⟨.hbm, 1406, rfl⟩
abbrev main_cst_335 : Ref sig .tc := ⟨.hbm, 1407, rfl⟩
abbrev main_call51_v0 : Ref sig .tc := ⟨.hbm, 1408, rfl⟩
abbrev main_call51_v1 : Ref sig .tc := ⟨.hbm, 1409, rfl⟩
abbrev main_call51_v2 : Ref sig .tc := ⟨.hbm, 1410, rfl⟩
abbrev main_call51_v3 : Ref sig .tc := ⟨.hbm, 1411, rfl⟩
abbrev main_v822 : Ref sig .tc := ⟨.hbm, 1412, rfl⟩
abbrev main_v823 : Ref sig .tc := ⟨.hbm, 1413, rfl⟩
abbrev main_v824 : Ref sig .tc := ⟨.hbm, 1414, rfl⟩
abbrev main_v825 : Ref sig .tc := ⟨.hbm, 1415, rfl⟩
abbrev main_v826 : Ref sig .tc := ⟨.hbm, 1416, rfl⟩
abbrev main_cst_336 : Ref sig .tc := ⟨.hbm, 1417, rfl⟩
abbrev main_v827 : Ref sig .tc := ⟨.hbm, 1418, rfl⟩
abbrev main_v828 : Ref sig .tc := ⟨.hbm, 1419, rfl⟩
abbrev main_v829 : Ref sig .tc := ⟨.hbm, 1420, rfl⟩
abbrev main_v830 : Ref sig .tc := ⟨.hbm, 1421, rfl⟩
abbrev main_c_337 : Ref sig .tc := ⟨.hbm, 1422, rfl⟩
abbrev main_v831 : Ref sig .tc := ⟨.hbm, 1423, rfl⟩
abbrev main_v832 : Ref sig .tc := ⟨.hbm, 1424, rfl⟩
abbrev main_c_338 : Ref sig .tc := ⟨.hbm, 1425, rfl⟩
abbrev main_v833 : Ref sig .tc := ⟨.hbm, 1426, rfl⟩
abbrev main_v834 : Ref sig .tc := ⟨.hbm, 1427, rfl⟩
abbrev main_c_339 : Ref sig .tc := ⟨.hbm, 1428, rfl⟩
abbrev main_v835 : Ref sig .tc := ⟨.hbm, 1429, rfl⟩
abbrev main_v836 : Ref sig .tc := ⟨.hbm, 1430, rfl⟩
abbrev main_c_340 : Ref sig .tc := ⟨.hbm, 1431, rfl⟩
abbrev main_v837 : Ref sig .tc := ⟨.hbm, 1432, rfl⟩
abbrev main_v838 : Ref sig .tc := ⟨.hbm, 1433, rfl⟩
abbrev main_c_341 : Ref sig .tc := ⟨.hbm, 1434, rfl⟩
abbrev main_v839 : Ref sig .tc := ⟨.hbm, 1435, rfl⟩
abbrev main_v840 : Ref sig .tc := ⟨.hbm, 1436, rfl⟩
abbrev main_v841 : Ref sig .tc := ⟨.hbm, 1437, rfl⟩
abbrev main_c_342 : Ref sig .tc := ⟨.hbm, 1438, rfl⟩
abbrev main_v842 : Ref sig .tc := ⟨.hbm, 1439, rfl⟩
abbrev main_v843 : Ref sig .tc := ⟨.hbm, 1440, rfl⟩
abbrev main_v844 : Ref sig .tc := ⟨.hbm, 1441, rfl⟩
abbrev main_c_343 : Ref sig .tc := ⟨.hbm, 1442, rfl⟩
abbrev main_v845 : Ref sig .tc := ⟨.hbm, 1443, rfl⟩
abbrev main_v846 : Ref sig .tc := ⟨.hbm, 1444, rfl⟩
abbrev main_v847 : Ref sig .tc := ⟨.hbm, 1445, rfl⟩
abbrev main_c_344 : Ref sig .tc := ⟨.hbm, 1446, rfl⟩
abbrev main_v848 : Ref sig .tc := ⟨.hbm, 1447, rfl⟩
abbrev main_v849 : Ref sig .tc := ⟨.hbm, 1448, rfl⟩
abbrev main_v850 : Ref sig .tc := ⟨.hbm, 1449, rfl⟩
abbrev main_c_345 : Ref sig .tc := ⟨.hbm, 1450, rfl⟩
abbrev main_v851 : Ref sig .tc := ⟨.hbm, 1451, rfl⟩
abbrev main_v852 : Ref sig .tc := ⟨.hbm, 1452, rfl⟩
abbrev main_v853 : Ref sig .tc := ⟨.hbm, 1453, rfl⟩
abbrev main_c_346 : Ref sig .tc := ⟨.hbm, 1454, rfl⟩
abbrev main_c_347 : Ref sig .tc := ⟨.hbm, 1455, rfl⟩
abbrev main_call52_v0 : Ref sig .tc := ⟨.hbm, 1456, rfl⟩
abbrev main_call52_v1 : Ref sig .tc := ⟨.hbm, 1457, rfl⟩
abbrev main_call52_v2 : Ref sig .tc := ⟨.hbm, 1458, rfl⟩
abbrev main_call52_v3 : Ref sig .tc := ⟨.hbm, 1459, rfl⟩
abbrev main_call52_v4 : Ref sig .tc := ⟨.hbm, 1460, rfl⟩
abbrev main_v854 : Ref sig .tc := ⟨.hbm, 1461, rfl⟩
abbrev main_c_348 : Ref sig .tc := ⟨.hbm, 1462, rfl⟩
abbrev main_c_349 : Ref sig .tc := ⟨.hbm, 1463, rfl⟩
abbrev main_call53_v0 : Ref sig .tc := ⟨.hbm, 1464, rfl⟩
abbrev main_call53_v1 : Ref sig .tc := ⟨.hbm, 1465, rfl⟩
abbrev main_call53_v2 : Ref sig .tc := ⟨.hbm, 1466, rfl⟩
abbrev main_call53_v3 : Ref sig .tc := ⟨.hbm, 1467, rfl⟩
abbrev main_call53_v4 : Ref sig .tc := ⟨.hbm, 1468, rfl⟩
abbrev main_v855 : Ref sig .tc := ⟨.hbm, 1469, rfl⟩
abbrev main_c_350 : Ref sig .tc := ⟨.hbm, 1470, rfl⟩
abbrev main_c_351 : Ref sig .tc := ⟨.hbm, 1471, rfl⟩
abbrev main_call54_v0 : Ref sig .tc := ⟨.hbm, 1472, rfl⟩
abbrev main_call54_v1 : Ref sig .tc := ⟨.hbm, 1473, rfl⟩
abbrev main_call54_v2 : Ref sig .tc := ⟨.hbm, 1474, rfl⟩
abbrev main_call54_v3 : Ref sig .tc := ⟨.hbm, 1475, rfl⟩
abbrev main_call54_v4 : Ref sig .tc := ⟨.hbm, 1476, rfl⟩
abbrev main_v856 : Ref sig .tc := ⟨.hbm, 1477, rfl⟩
abbrev main_c_352 : Ref sig .tc := ⟨.hbm, 1478, rfl⟩
abbrev main_v857 : Ref sig .tc := ⟨.hbm, 1479, rfl⟩
abbrev main_v858 : Ref sig .tc := ⟨.hbm, 1480, rfl⟩
abbrev main_c_353 : Ref sig .tc := ⟨.hbm, 1481, rfl⟩
abbrev main_v859 : Ref sig .tc := ⟨.hbm, 1482, rfl⟩
abbrev main_v860 : Ref sig .tc := ⟨.hbm, 1483, rfl⟩
abbrev main_v861 : Ref sig .tc := ⟨.hbm, 1484, rfl⟩
abbrev main_c_354 : Ref sig .tc := ⟨.hbm, 1485, rfl⟩
abbrev main_v862 : Ref sig .tc := ⟨.hbm, 1486, rfl⟩
abbrev main_v863 : Ref sig .tc := ⟨.hbm, 1487, rfl⟩
abbrev main_c_355 : Ref sig .tc := ⟨.hbm, 1488, rfl⟩
abbrev main_v864 : Ref sig .tc := ⟨.hbm, 1489, rfl⟩
abbrev main_v865 : Ref sig .tc := ⟨.hbm, 1490, rfl⟩
abbrev main_v866 : Ref sig .tc := ⟨.hbm, 1491, rfl⟩
abbrev main_c_356 : Ref sig .tc := ⟨.hbm, 1492, rfl⟩
abbrev main_v867 : Ref sig .tc := ⟨.hbm, 1493, rfl⟩
abbrev main_v868 : Ref sig .tc := ⟨.hbm, 1494, rfl⟩
abbrev main_c_357 : Ref sig .tc := ⟨.hbm, 1495, rfl⟩
abbrev main_v869 : Ref sig .tc := ⟨.hbm, 1496, rfl⟩
abbrev main_v870 : Ref sig .tc := ⟨.hbm, 1497, rfl⟩
abbrev main_v871 : Ref sig .tc := ⟨.hbm, 1498, rfl⟩
abbrev main_v872 : Ref sig .tc := ⟨.hbm, 1499, rfl⟩
abbrev main_v873 : Ref sig .tc := ⟨.hbm, 1500, rfl⟩
abbrev main_v874 : Ref sig .tc := ⟨.hbm, 1501, rfl⟩
abbrev main_v875 : Ref sig .tc := ⟨.hbm, 1502, rfl⟩
abbrev main_v876 : Ref sig .tc := ⟨.hbm, 1503, rfl⟩
abbrev main_cst_358 : Ref sig .tc := ⟨.hbm, 1504, rfl⟩
abbrev main_call55_v0 : Ref sig .tc := ⟨.hbm, 1505, rfl⟩
abbrev main_call55_v1 : Ref sig .tc := ⟨.hbm, 1506, rfl⟩
abbrev main_call55_v2 : Ref sig .tc := ⟨.hbm, 1507, rfl⟩
abbrev main_call55_v3 : Ref sig .tc := ⟨.hbm, 1508, rfl⟩
abbrev main_v877 : Ref sig .tc := ⟨.hbm, 1509, rfl⟩
abbrev main_v878 : Ref sig .tc := ⟨.hbm, 1510, rfl⟩
abbrev main_v879 : Ref sig .tc := ⟨.hbm, 1511, rfl⟩
abbrev main_v880 : Ref sig .tc := ⟨.hbm, 1512, rfl⟩
abbrev main_v881 : Ref sig .tc := ⟨.hbm, 1513, rfl⟩
abbrev main_v882 : Ref sig .tc := ⟨.hbm, 1514, rfl⟩
abbrev main_cst_359 : Ref sig .tc := ⟨.hbm, 1515, rfl⟩
abbrev main_v883 : Ref sig .tc := ⟨.hbm, 1516, rfl⟩
abbrev main_v884 : Ref sig .tc := ⟨.hbm, 1517, rfl⟩
abbrev main_v885 : Ref sig .tc := ⟨.hbm, 1518, rfl⟩
abbrev main_c_360 : Ref sig .tc := ⟨.hbm, 1519, rfl⟩
abbrev main_v886 : Ref sig .tc := ⟨.hbm, 1520, rfl⟩
abbrev main_v887 : Ref sig .tc := ⟨.hbm, 1521, rfl⟩
abbrev main_c_361 : Ref sig .tc := ⟨.hbm, 1522, rfl⟩
abbrev main_v888 : Ref sig .tc := ⟨.hbm, 1523, rfl⟩
abbrev main_v889 : Ref sig .tc := ⟨.hbm, 1524, rfl⟩
abbrev main_c_362 : Ref sig .tc := ⟨.hbm, 1525, rfl⟩
abbrev main_v890 : Ref sig .tc := ⟨.hbm, 1526, rfl⟩
abbrev main_v891 : Ref sig .tc := ⟨.hbm, 1527, rfl⟩
abbrev main_c_363 : Ref sig .tc := ⟨.hbm, 1528, rfl⟩
abbrev main_v892 : Ref sig .tc := ⟨.hbm, 1529, rfl⟩
abbrev main_v893 : Ref sig .tc := ⟨.hbm, 1530, rfl⟩
abbrev main_c_364 : Ref sig .tc := ⟨.hbm, 1531, rfl⟩
abbrev main_v894 : Ref sig .tc := ⟨.hbm, 1532, rfl⟩
abbrev main_v895 : Ref sig .tc := ⟨.hbm, 1533, rfl⟩
abbrev main_v896 : Ref sig .tc := ⟨.hbm, 1534, rfl⟩
abbrev main_c_365 : Ref sig .tc := ⟨.hbm, 1535, rfl⟩
abbrev main_v897 : Ref sig .tc := ⟨.hbm, 1536, rfl⟩
abbrev main_v898 : Ref sig .tc := ⟨.hbm, 1537, rfl⟩
abbrev main_v899 : Ref sig .tc := ⟨.hbm, 1538, rfl⟩
abbrev main_c_366 : Ref sig .tc := ⟨.hbm, 1539, rfl⟩
abbrev main_v900 : Ref sig .tc := ⟨.hbm, 1540, rfl⟩
abbrev main_v901 : Ref sig .tc := ⟨.hbm, 1541, rfl⟩
abbrev main_v902 : Ref sig .tc := ⟨.hbm, 1542, rfl⟩
abbrev main_c_367 : Ref sig .tc := ⟨.hbm, 1543, rfl⟩
abbrev main_v903 : Ref sig .tc := ⟨.hbm, 1544, rfl⟩
abbrev main_v904 : Ref sig .tc := ⟨.hbm, 1545, rfl⟩
abbrev main_v905 : Ref sig .tc := ⟨.hbm, 1546, rfl⟩
abbrev main_c_368 : Ref sig .tc := ⟨.hbm, 1547, rfl⟩
abbrev main_v906 : Ref sig .tc := ⟨.hbm, 1548, rfl⟩
abbrev main_v907 : Ref sig .tc := ⟨.hbm, 1549, rfl⟩
abbrev main_v908 : Ref sig .tc := ⟨.hbm, 1550, rfl⟩
abbrev main_c_369 : Ref sig .tc := ⟨.hbm, 1551, rfl⟩
abbrev main_c_370 : Ref sig .tc := ⟨.hbm, 1552, rfl⟩
abbrev main_call56_v0 : Ref sig .tc := ⟨.hbm, 1553, rfl⟩
abbrev main_call56_v1 : Ref sig .tc := ⟨.hbm, 1554, rfl⟩
abbrev main_call56_v2 : Ref sig .tc := ⟨.hbm, 1555, rfl⟩
abbrev main_call56_v3 : Ref sig .tc := ⟨.hbm, 1556, rfl⟩
abbrev main_call56_v4 : Ref sig .tc := ⟨.hbm, 1557, rfl⟩
abbrev main_v909 : Ref sig .tc := ⟨.hbm, 1558, rfl⟩
abbrev main_c_371 : Ref sig .tc := ⟨.hbm, 1559, rfl⟩
abbrev main_c_372 : Ref sig .tc := ⟨.hbm, 1560, rfl⟩
abbrev main_call57_v0 : Ref sig .tc := ⟨.hbm, 1561, rfl⟩
abbrev main_call57_v1 : Ref sig .tc := ⟨.hbm, 1562, rfl⟩
abbrev main_call57_v2 : Ref sig .tc := ⟨.hbm, 1563, rfl⟩
abbrev main_call57_v3 : Ref sig .tc := ⟨.hbm, 1564, rfl⟩
abbrev main_call57_v4 : Ref sig .tc := ⟨.hbm, 1565, rfl⟩
abbrev main_v910 : Ref sig .tc := ⟨.hbm, 1566, rfl⟩
abbrev main_c_373 : Ref sig .tc := ⟨.hbm, 1567, rfl⟩
abbrev main_c_374 : Ref sig .tc := ⟨.hbm, 1568, rfl⟩
abbrev main_call58_v0 : Ref sig .tc := ⟨.hbm, 1569, rfl⟩
abbrev main_call58_v1 : Ref sig .tc := ⟨.hbm, 1570, rfl⟩
abbrev main_call58_v2 : Ref sig .tc := ⟨.hbm, 1571, rfl⟩
abbrev main_call58_v3 : Ref sig .tc := ⟨.hbm, 1572, rfl⟩
abbrev main_call58_v4 : Ref sig .tc := ⟨.hbm, 1573, rfl⟩
abbrev main_v911 : Ref sig .tc := ⟨.hbm, 1574, rfl⟩
abbrev main_c_375 : Ref sig .tc := ⟨.hbm, 1575, rfl⟩
abbrev main_v912 : Ref sig .tc := ⟨.hbm, 1576, rfl⟩
abbrev main_v913 : Ref sig .tc := ⟨.hbm, 1577, rfl⟩
abbrev main_c_376 : Ref sig .tc := ⟨.hbm, 1578, rfl⟩
abbrev main_v914 : Ref sig .tc := ⟨.hbm, 1579, rfl⟩
abbrev main_v915 : Ref sig .tc := ⟨.hbm, 1580, rfl⟩
abbrev main_v916 : Ref sig .tc := ⟨.hbm, 1581, rfl⟩
abbrev main_c_377 : Ref sig .tc := ⟨.hbm, 1582, rfl⟩
abbrev main_v917 : Ref sig .tc := ⟨.hbm, 1583, rfl⟩
abbrev main_v918 : Ref sig .tc := ⟨.hbm, 1584, rfl⟩
abbrev main_c_378 : Ref sig .tc := ⟨.hbm, 1585, rfl⟩
abbrev main_v919 : Ref sig .tc := ⟨.hbm, 1586, rfl⟩
abbrev main_v920 : Ref sig .tc := ⟨.hbm, 1587, rfl⟩
abbrev main_v921 : Ref sig .tc := ⟨.hbm, 1588, rfl⟩
abbrev main_c_379 : Ref sig .tc := ⟨.hbm, 1589, rfl⟩
abbrev main_v922 : Ref sig .tc := ⟨.hbm, 1590, rfl⟩
abbrev main_v923 : Ref sig .tc := ⟨.hbm, 1591, rfl⟩
abbrev main_c_380 : Ref sig .tc := ⟨.hbm, 1592, rfl⟩
abbrev main_v924 : Ref sig .tc := ⟨.hbm, 1593, rfl⟩
abbrev main_v925 : Ref sig .tc := ⟨.hbm, 1594, rfl⟩
abbrev main_v926 : Ref sig .tc := ⟨.hbm, 1595, rfl⟩
abbrev main_v927 : Ref sig .tc := ⟨.hbm, 1596, rfl⟩
abbrev main_v928 : Ref sig .tc := ⟨.hbm, 1597, rfl⟩
abbrev main_v929 : Ref sig .tc := ⟨.hbm, 1598, rfl⟩
abbrev main_v930 : Ref sig .tc := ⟨.hbm, 1599, rfl⟩
abbrev main_v931 : Ref sig .tc := ⟨.hbm, 1600, rfl⟩
abbrev main_cst_381 : Ref sig .tc := ⟨.hbm, 1601, rfl⟩
abbrev main_call59_v0 : Ref sig .tc := ⟨.hbm, 1602, rfl⟩
abbrev main_call59_v1 : Ref sig .tc := ⟨.hbm, 1603, rfl⟩
abbrev main_call59_v2 : Ref sig .tc := ⟨.hbm, 1604, rfl⟩
abbrev main_call59_v3 : Ref sig .tc := ⟨.hbm, 1605, rfl⟩
abbrev main_v932 : Ref sig .tc := ⟨.hbm, 1606, rfl⟩
abbrev main_v933 : Ref sig .tc := ⟨.hbm, 1607, rfl⟩
abbrev main_v934 : Ref sig .tc := ⟨.hbm, 1608, rfl⟩
abbrev main_v935 : Ref sig .tc := ⟨.hbm, 1609, rfl⟩
abbrev main_v936 : Ref sig .tc := ⟨.hbm, 1610, rfl⟩
abbrev main_v937 : Ref sig .tc := ⟨.hbm, 1611, rfl⟩
abbrev main_v938 : Ref sig .tc := ⟨.hbm, 1612, rfl⟩
abbrev main_c_382 : Ref sig .tc := ⟨.hbm, 1613, rfl⟩
abbrev main_v939 : Ref sig .tc := ⟨.hbm, 1614, rfl⟩
abbrev main_v940 : Ref sig .tc := ⟨.hbm, 1615, rfl⟩
abbrev main_c_383 : Ref sig .tc := ⟨.hbm, 1616, rfl⟩
abbrev main_v941 : Ref sig .tc := ⟨.hbm, 1617, rfl⟩
abbrev main_v942 : Ref sig .tc := ⟨.hbm, 1618, rfl⟩
abbrev main_c_384 : Ref sig .tc := ⟨.hbm, 1619, rfl⟩
abbrev main_v943 : Ref sig .tc := ⟨.hbm, 1620, rfl⟩
abbrev main_v944 : Ref sig .tc := ⟨.hbm, 1621, rfl⟩
abbrev main_c_385 : Ref sig .tc := ⟨.hbm, 1622, rfl⟩
abbrev main_v945 : Ref sig .tc := ⟨.hbm, 1623, rfl⟩
abbrev main_v946 : Ref sig .tc := ⟨.hbm, 1624, rfl⟩
abbrev main_c_386 : Ref sig .tc := ⟨.hbm, 1625, rfl⟩
abbrev main_v947 : Ref sig .tc := ⟨.hbm, 1626, rfl⟩
abbrev main_v948 : Ref sig .tc := ⟨.hbm, 1627, rfl⟩
abbrev main_v949 : Ref sig .tc := ⟨.hbm, 1628, rfl⟩
abbrev main_c_387 : Ref sig .tc := ⟨.hbm, 1629, rfl⟩
abbrev main_v950 : Ref sig .tc := ⟨.hbm, 1630, rfl⟩
abbrev main_v951 : Ref sig .tc := ⟨.hbm, 1631, rfl⟩
abbrev main_v952 : Ref sig .tc := ⟨.hbm, 1632, rfl⟩
abbrev main_c_388 : Ref sig .tc := ⟨.hbm, 1633, rfl⟩
abbrev main_v953 : Ref sig .tc := ⟨.hbm, 1634, rfl⟩
abbrev main_v954 : Ref sig .tc := ⟨.hbm, 1635, rfl⟩
abbrev main_v955 : Ref sig .tc := ⟨.hbm, 1636, rfl⟩
abbrev main_c_389 : Ref sig .tc := ⟨.hbm, 1637, rfl⟩
abbrev main_v956 : Ref sig .tc := ⟨.hbm, 1638, rfl⟩
abbrev main_v957 : Ref sig .tc := ⟨.hbm, 1639, rfl⟩
abbrev main_v958 : Ref sig .tc := ⟨.hbm, 1640, rfl⟩
abbrev main_c_390 : Ref sig .tc := ⟨.hbm, 1641, rfl⟩
abbrev main_v959 : Ref sig .tc := ⟨.hbm, 1642, rfl⟩
abbrev main_v960 : Ref sig .tc := ⟨.hbm, 1643, rfl⟩
abbrev main_v961 : Ref sig .tc := ⟨.hbm, 1644, rfl⟩
abbrev main_c_391 : Ref sig .tc := ⟨.hbm, 1645, rfl⟩
abbrev main_c_392 : Ref sig .tc := ⟨.hbm, 1646, rfl⟩
abbrev main_call60_v0 : Ref sig .tc := ⟨.hbm, 1647, rfl⟩
abbrev main_call60_v1 : Ref sig .tc := ⟨.hbm, 1648, rfl⟩
abbrev main_call60_v2 : Ref sig .tc := ⟨.hbm, 1649, rfl⟩
abbrev main_call60_v3 : Ref sig .tc := ⟨.hbm, 1650, rfl⟩
abbrev main_call60_v4 : Ref sig .tc := ⟨.hbm, 1651, rfl⟩
abbrev main_v962 : Ref sig .tc := ⟨.hbm, 1652, rfl⟩
abbrev main_c_393 : Ref sig .tc := ⟨.hbm, 1653, rfl⟩
abbrev main_c_394 : Ref sig .tc := ⟨.hbm, 1654, rfl⟩
abbrev main_call61_v0 : Ref sig .tc := ⟨.hbm, 1655, rfl⟩
abbrev main_call61_v1 : Ref sig .tc := ⟨.hbm, 1656, rfl⟩
abbrev main_call61_v2 : Ref sig .tc := ⟨.hbm, 1657, rfl⟩
abbrev main_call61_v3 : Ref sig .tc := ⟨.hbm, 1658, rfl⟩
abbrev main_call61_v4 : Ref sig .tc := ⟨.hbm, 1659, rfl⟩
abbrev main_v963 : Ref sig .tc := ⟨.hbm, 1660, rfl⟩
abbrev main_c_395 : Ref sig .tc := ⟨.hbm, 1661, rfl⟩
abbrev main_c_396 : Ref sig .tc := ⟨.hbm, 1662, rfl⟩
abbrev main_call62_v0 : Ref sig .tc := ⟨.hbm, 1663, rfl⟩
abbrev main_call62_v1 : Ref sig .tc := ⟨.hbm, 1664, rfl⟩
abbrev main_call62_v2 : Ref sig .tc := ⟨.hbm, 1665, rfl⟩
abbrev main_call62_v3 : Ref sig .tc := ⟨.hbm, 1666, rfl⟩
abbrev main_call62_v4 : Ref sig .tc := ⟨.hbm, 1667, rfl⟩
abbrev main_v964 : Ref sig .tc := ⟨.hbm, 1668, rfl⟩
abbrev main_c_397 : Ref sig .tc := ⟨.hbm, 1669, rfl⟩
abbrev main_v965 : Ref sig .tc := ⟨.hbm, 1670, rfl⟩
abbrev main_v966 : Ref sig .tc := ⟨.hbm, 1671, rfl⟩
abbrev main_c_398 : Ref sig .tc := ⟨.hbm, 1672, rfl⟩
abbrev main_v967 : Ref sig .tc := ⟨.hbm, 1673, rfl⟩
abbrev main_v968 : Ref sig .tc := ⟨.hbm, 1674, rfl⟩
abbrev main_v969 : Ref sig .tc := ⟨.hbm, 1675, rfl⟩
abbrev main_c_399 : Ref sig .tc := ⟨.hbm, 1676, rfl⟩
abbrev main_v970 : Ref sig .tc := ⟨.hbm, 1677, rfl⟩
abbrev main_v971 : Ref sig .tc := ⟨.hbm, 1678, rfl⟩
abbrev main_c_400 : Ref sig .tc := ⟨.hbm, 1679, rfl⟩
abbrev main_v972 : Ref sig .tc := ⟨.hbm, 1680, rfl⟩
abbrev main_v973 : Ref sig .tc := ⟨.hbm, 1681, rfl⟩
abbrev main_v974 : Ref sig .tc := ⟨.hbm, 1682, rfl⟩
abbrev main_c_401 : Ref sig .tc := ⟨.hbm, 1683, rfl⟩
abbrev main_v975 : Ref sig .tc := ⟨.hbm, 1684, rfl⟩
abbrev main_v976 : Ref sig .tc := ⟨.hbm, 1685, rfl⟩
abbrev main_c_402 : Ref sig .tc := ⟨.hbm, 1686, rfl⟩
abbrev main_v977 : Ref sig .tc := ⟨.hbm, 1687, rfl⟩
abbrev main_v978 : Ref sig .tc := ⟨.hbm, 1688, rfl⟩
abbrev main_v979 : Ref sig .tc := ⟨.hbm, 1689, rfl⟩
abbrev main_v980 : Ref sig .tc := ⟨.hbm, 1690, rfl⟩
abbrev main_v981 : Ref sig .tc := ⟨.hbm, 1691, rfl⟩
abbrev main_v982 : Ref sig .tc := ⟨.hbm, 1692, rfl⟩
abbrev main_v983 : Ref sig .tc := ⟨.hbm, 1693, rfl⟩
abbrev main_v984 : Ref sig .tc := ⟨.hbm, 1694, rfl⟩
abbrev main_cst_403 : Ref sig .tc := ⟨.hbm, 1695, rfl⟩
abbrev main_call63_v0 : Ref sig .tc := ⟨.hbm, 1696, rfl⟩
abbrev main_call63_v1 : Ref sig .tc := ⟨.hbm, 1697, rfl⟩
abbrev main_call63_v2 : Ref sig .tc := ⟨.hbm, 1698, rfl⟩
abbrev main_call63_v3 : Ref sig .tc := ⟨.hbm, 1699, rfl⟩
abbrev main_v985 : Ref sig .tc := ⟨.hbm, 1700, rfl⟩
abbrev main_v986 : Ref sig .tc := ⟨.hbm, 1701, rfl⟩
abbrev main_v987 : Ref sig .tc := ⟨.hbm, 1702, rfl⟩
abbrev main_v988 : Ref sig .tc := ⟨.hbm, 1703, rfl⟩
abbrev main_v989 : Ref sig .tc := ⟨.hbm, 1704, rfl⟩
abbrev main_cst_404 : Ref sig .tc := ⟨.hbm, 1705, rfl⟩
abbrev main_v990 : Ref sig .tc := ⟨.hbm, 1706, rfl⟩
abbrev main_cst_405 : Ref sig .tc := ⟨.hbm, 1707, rfl⟩
abbrev main_v991 : Ref sig .tc := ⟨.hbm, 1708, rfl⟩
abbrev main_v992 : Ref sig .tc := ⟨.hbm, 1709, rfl⟩
abbrev main_v993 : Ref sig .tc := ⟨.hbm, 1710, rfl⟩
abbrev main_v994 : Ref sig .tc := ⟨.hbm, 1711, rfl⟩
abbrev main_v995 : Ref sig .tc := ⟨.hbm, 1712, rfl⟩
abbrev main_v996 : Ref sig .tc := ⟨.hbm, 1713, rfl⟩
abbrev main_cst_406 : Ref sig .tc := ⟨.hbm, 1714, rfl⟩
abbrev main_v997 : Ref sig .tc := ⟨.hbm, 1715, rfl⟩
abbrev main_v998 : Ref sig .tc := ⟨.hbm, 1716, rfl⟩
abbrev main_v999 : Ref sig .tc := ⟨.hbm, 1717, rfl⟩
abbrev main_v1000 : Ref sig .tc := ⟨.hbm, 1718, rfl⟩
abbrev main_c_407 : Ref sig .tc := ⟨.hbm, 1719, rfl⟩
abbrev main_v1001 : Ref sig .tc := ⟨.hbm, 1720, rfl⟩
abbrev main_v1002 : Ref sig .tc := ⟨.hbm, 1721, rfl⟩
abbrev main_c_408 : Ref sig .tc := ⟨.hbm, 1722, rfl⟩
abbrev main_v1003 : Ref sig .tc := ⟨.hbm, 1723, rfl⟩
abbrev main_v1004 : Ref sig .tc := ⟨.hbm, 1724, rfl⟩
abbrev main_v1005 : Ref sig .tc := ⟨.hbm, 1725, rfl⟩
abbrev main_v1006 : Ref sig .tc := ⟨.hbm, 1726, rfl⟩
abbrev main_v1007 : Ref sig .tc := ⟨.hbm, 1727, rfl⟩
abbrev main_v1008 : Ref sig .tc := ⟨.hbm, 1728, rfl⟩
abbrev main_v1009 : Ref sig .tc := ⟨.hbm, 1729, rfl⟩
abbrev main_call64_cst : Ref sig .tc := ⟨.hbm, 1730, rfl⟩
abbrev main_call64_v0 : Ref sig .tc := ⟨.hbm, 1731, rfl⟩
abbrev main_call64_v1 : Ref sig .tc := ⟨.hbm, 1732, rfl⟩
abbrev main_call64_v2 : Ref sig .tc := ⟨.hbm, 1733, rfl⟩
abbrev main_call64_v3 : Ref sig .tc := ⟨.hbm, 1734, rfl⟩
abbrev main_call64_v4 : Ref sig .tc := ⟨.hbm, 1735, rfl⟩
abbrev main_call64_v5 : Ref sig .tc := ⟨.hbm, 1736, rfl⟩
abbrev main_call64_v6 : Ref sig .tc := ⟨.hbm, 1737, rfl⟩
abbrev main_call64_v7 : Ref sig .tc := ⟨.hbm, 1738, rfl⟩
abbrev main_call64_v8 : Ref sig .tc := ⟨.hbm, 1739, rfl⟩
abbrev main_call64_v9 : Ref sig .tc := ⟨.hbm, 1740, rfl⟩
abbrev main_call64_v10 : Ref sig .tc := ⟨.hbm, 1741, rfl⟩
abbrev main_call64_v11 : Ref sig .tc := ⟨.hbm, 1742, rfl⟩
abbrev main_v1010 : Ref sig .tc := ⟨.hbm, 1743, rfl⟩
abbrev main_cst_409 : Ref sig .tc := ⟨.hbm, 1744, rfl⟩
abbrev main_v1011 : Ref sig .tc := ⟨.hbm, 1745, rfl⟩
abbrev main_v1012 : Ref sig .tc := ⟨.hbm, 1746, rfl⟩
abbrev main_call65_cst : Ref sig .tc := ⟨.hbm, 1747, rfl⟩
abbrev main_call65_v0 : Ref sig .tc := ⟨.hbm, 1748, rfl⟩
abbrev main_call65_v1 : Ref sig .tc := ⟨.hbm, 1749, rfl⟩
abbrev main_call65_v2 : Ref sig .tc := ⟨.hbm, 1750, rfl⟩
abbrev main_call65_v3 : Ref sig .tc := ⟨.hbm, 1751, rfl⟩
abbrev main_call65_v4 : Ref sig .tc := ⟨.hbm, 1752, rfl⟩
abbrev main_call65_v5 : Ref sig .tc := ⟨.hbm, 1753, rfl⟩
abbrev main_call65_v6 : Ref sig .tc := ⟨.hbm, 1754, rfl⟩
abbrev main_call65_v7 : Ref sig .tc := ⟨.hbm, 1755, rfl⟩
abbrev main_call65_v8 : Ref sig .tc := ⟨.hbm, 1756, rfl⟩
abbrev main_call65_v9 : Ref sig .tc := ⟨.hbm, 1757, rfl⟩
abbrev main_call65_v10 : Ref sig .tc := ⟨.hbm, 1758, rfl⟩
abbrev main_call65_v11 : Ref sig .tc := ⟨.hbm, 1759, rfl⟩
abbrev main_v1013 : Ref sig .tc := ⟨.hbm, 1760, rfl⟩
abbrev main_cst_410 : Ref sig .tc := ⟨.hbm, 1761, rfl⟩
abbrev main_v1014 : Ref sig .tc := ⟨.hbm, 1762, rfl⟩
abbrev main_v1015 : Ref sig .tc := ⟨.hbm, 1763, rfl⟩
abbrev main_v1016 : Ref sig .tc := ⟨.hbm, 1764, rfl⟩
abbrev main_v1017 : Ref sig .tc := ⟨.hbm, 1765, rfl⟩
abbrev main_cst_411 : Ref sig .tc := ⟨.hbm, 1766, rfl⟩
abbrev main_v1018 : Ref sig .tc := ⟨.hbm, 1767, rfl⟩
abbrev main_v1019 : Ref sig .tc := ⟨.hbm, 1768, rfl⟩
abbrev main_v1020 : Ref sig .tc := ⟨.hbm, 1769, rfl⟩
abbrev main_v1021 : Ref sig .tc := ⟨.hbm, 1770, rfl⟩
abbrev main_v1022 : Ref sig .tc := ⟨.hbm, 1771, rfl⟩
abbrev main_v1023 : Ref sig .tc := ⟨.hbm, 1772, rfl⟩
abbrev main_v1024 : Ref sig .tc := ⟨.hbm, 1773, rfl⟩
abbrev main_cst_412 : Ref sig .tc := ⟨.hbm, 1774, rfl⟩
abbrev main_v1025 : Ref sig .tc := ⟨.hbm, 1775, rfl⟩
abbrev main_v1026 : Ref sig .tc := ⟨.hbm, 1776, rfl⟩
abbrev main_cst_413 : Ref sig .tc := ⟨.hbm, 1777, rfl⟩
abbrev main_v1027 : Ref sig .tc := ⟨.hbm, 1778, rfl⟩
abbrev main_v1028 : Ref sig .tc := ⟨.hbm, 1779, rfl⟩
abbrev main_v1029 : Ref sig .tc := ⟨.hbm, 1780, rfl⟩
abbrev main_v1030 : Ref sig .tc := ⟨.hbm, 1781, rfl⟩
abbrev main_cst_414 : Ref sig .tc := ⟨.hbm, 1782, rfl⟩
abbrev main_v1031 : Ref sig .tc := ⟨.hbm, 1783, rfl⟩
abbrev main_v1032 : Ref sig .tc := ⟨.hbm, 1784, rfl⟩
abbrev main_cst_415 : Ref sig .tc := ⟨.hbm, 1785, rfl⟩
abbrev main_v1033 : Ref sig .tc := ⟨.hbm, 1786, rfl⟩
abbrev main_v1034 : Ref sig .tc := ⟨.hbm, 1787, rfl⟩
abbrev main_cst_416 : Ref sig .tc := ⟨.hbm, 1788, rfl⟩
abbrev main_v1035 : Ref sig .tc := ⟨.hbm, 1789, rfl⟩
abbrev main_v1036 : Ref sig .tc := ⟨.hbm, 1790, rfl⟩
abbrev main_v1037 : Ref sig .tc := ⟨.hbm, 1791, rfl⟩
abbrev main_v1038 : Ref sig .tc := ⟨.hbm, 1792, rfl⟩
abbrev main_v1039 : Ref sig .tc := ⟨.hbm, 1793, rfl⟩
abbrev main_cst_417 : Ref sig .tc := ⟨.hbm, 1794, rfl⟩
abbrev main_v1040 : Ref sig .tc := ⟨.hbm, 1795, rfl⟩
abbrev main_v1041 : Ref sig .tc := ⟨.hbm, 1796, rfl⟩
abbrev main_cst_418 : Ref sig .tc := ⟨.hbm, 1797, rfl⟩
abbrev main_v1042 : Ref sig .tc := ⟨.hbm, 1798, rfl⟩
abbrev main_v1043 : Ref sig .tc := ⟨.hbm, 1799, rfl⟩
abbrev main_v1044 : Ref sig .tc := ⟨.hbm, 1800, rfl⟩
abbrev main_cst_419 : Ref sig .tc := ⟨.hbm, 1801, rfl⟩
abbrev main_v1045 : Ref sig .tc := ⟨.hbm, 1802, rfl⟩
abbrev main_v1046 : Ref sig .tc := ⟨.hbm, 1803, rfl⟩
abbrev main_cst_420 : Ref sig .tc := ⟨.hbm, 1804, rfl⟩
abbrev main_v1047 : Ref sig .tc := ⟨.hbm, 1805, rfl⟩
abbrev main_v1048 : Ref sig .tc := ⟨.hbm, 1806, rfl⟩
abbrev main_cst_421 : Ref sig .tc := ⟨.hbm, 1807, rfl⟩
abbrev main_v1049 : Ref sig .tc := ⟨.hbm, 1808, rfl⟩
abbrev main_v1050 : Ref sig .tc := ⟨.hbm, 1809, rfl⟩
abbrev main_v1051 : Ref sig .tc := ⟨.hbm, 1810, rfl⟩
abbrev main_cst_422 : Ref sig .tc := ⟨.hbm, 1811, rfl⟩
abbrev main_v1052 : Ref sig .tc := ⟨.hbm, 1812, rfl⟩
abbrev main_v1053 : Ref sig .tc := ⟨.hbm, 1813, rfl⟩
abbrev main_v1054 : Ref sig .tc := ⟨.hbm, 1814, rfl⟩
abbrev main_cst_423 : Ref sig .tc := ⟨.hbm, 1815, rfl⟩
abbrev main_cst_424 : Ref sig .tc := ⟨.hbm, 1816, rfl⟩
abbrev main_call66_v0 : Ref sig .tc := ⟨.hbm, 1817, rfl⟩
abbrev main_call66_v1 : Ref sig .tc := ⟨.hbm, 1818, rfl⟩
abbrev main_call66_v2 : Ref sig .tc := ⟨.hbm, 1819, rfl⟩
abbrev main_call66_v3 : Ref sig .tc := ⟨.hbm, 1820, rfl⟩
abbrev main_call66_v4 : Ref sig .tc := ⟨.hbm, 1821, rfl⟩
abbrev main_v1055 : Ref sig .tc := ⟨.hbm, 1822, rfl⟩
abbrev main_cst_425 : Ref sig .tc := ⟨.hbm, 1823, rfl⟩
abbrev main_call67_v0 : Ref sig .tc := ⟨.hbm, 1824, rfl⟩
abbrev main_call67_v1 : Ref sig .tc := ⟨.hbm, 1825, rfl⟩
abbrev main_call67_call0_v0 : Ref sig .tc := ⟨.hbm, 1826, rfl⟩
abbrev main_call67_call0_v1 : Ref sig .tc := ⟨.hbm, 1827, rfl⟩
abbrev main_call67_v2 : Ref sig .tc := ⟨.hbm, 1828, rfl⟩
abbrev main_call67_cst : Ref sig .tc := ⟨.hbm, 1829, rfl⟩
abbrev main_call67_v3 : Ref sig .tc := ⟨.hbm, 1830, rfl⟩
abbrev main_call67_v4 : Ref sig .tc := ⟨.hbm, 1831, rfl⟩
abbrev main_call67_cst_0 : Ref sig .tc := ⟨.hbm, 1832, rfl⟩
abbrev main_call67_call1_v0 : Ref sig .tc := ⟨.hbm, 1833, rfl⟩
abbrev main_call67_call1_v1 : Ref sig .tc := ⟨.hbm, 1834, rfl⟩
abbrev main_call67_v5 : Ref sig .tc := ⟨.hbm, 1835, rfl⟩
abbrev main_call67_cst_1 : Ref sig .tc := ⟨.hbm, 1836, rfl⟩
abbrev main_call67_v6 : Ref sig .tc := ⟨.hbm, 1837, rfl⟩
abbrev main_call67_v7 : Ref sig .tc := ⟨.hbm, 1838, rfl⟩
abbrev main_call67_cst_2 : Ref sig .tc := ⟨.hbm, 1839, rfl⟩
abbrev main_call67_call2_v0 : Ref sig .tc := ⟨.hbm, 1840, rfl⟩
abbrev main_call67_call2_v1 : Ref sig .tc := ⟨.hbm, 1841, rfl⟩
abbrev main_v1056 : Ref sig .tc := ⟨.hbm, 1842, rfl⟩

abbrev nD : Nat := 1
abbrev τ : Topo := Topo.v7x

variable {F : FTy → Type} [FloatOps F]

class Facts₀ : Prop where
  bcast_S_S2x12544x3 : S_.BroadcastsInDim S2x12544x3 (![] : Fin 0 → Fin S2x12544x3.rank)
  slices_S2x12544x3_S2x12544x1_0_0_0 : S2x12544x3.Slices ![0, 0, 0] S2x12544x1
  shapeCasts_S2x12544x1_S2x12544 : S2x12544x1.ShapeCasts S2x12544
  bcast_S_S2x12544 : S_.BroadcastsInDim S2x12544 (![] : Fin 0 → Fin S2x12544.rank)
  slices_S2x12544x3_S2x12544x1_0_0_1 : S2x12544x3.Slices ![0, 0, 1] S2x12544x1
  slices_S2x12544x3_S2x12544x1_0_0_2 : S2x12544x3.Slices ![0, 0, 2] S2x12544x1
  bcast_S_S12544 : S_.BroadcastsInDim S12544 (![] : Fin 0 → Fin S12544.rank)
  bcast_S2x12544_S2x12544x1_0_1 : S2x12544.BroadcastsInDim S2x12544x1 (![0, 1] : Fin 2 → Fin S2x12544x1.rank)
  concatenates_S2x12544x1_S2x12544x1_S2x12544x1_S2x12544x3_d2 : Shape.Concatenates [S2x12544x1, S2x12544x1, S2x12544x1] S2x12544x3 2
  bcast_S2x12544_S2x100x12544_0_2 : S2x12544.BroadcastsInDim S2x100x12544 (![0, 2] : Fin 2 → Fin S2x100x12544.rank)
  bcast_S12544_S100x12544_1 : S12544.BroadcastsInDim S100x12544 (![1] : Fin 1 → Fin S100x12544.rank)
  bcast_S100x12544_S2x100x12544_1_2 : S100x12544.BroadcastsInDim S2x100x12544 (![1, 2] : Fin 2 → Fin S2x100x12544.rank)
  bcast_S2x12544_S2x1x12544_0_2 : S2x12544.BroadcastsInDim S2x1x12544 (![0, 2] : Fin 2 → Fin S2x1x12544.rank)
  bcast_S2x1x12544_S2x100x12544_0_1_2 : S2x1x12544.BroadcastsInDim S2x100x12544 (![0, 1, 2] : Fin 3 → Fin S2x100x12544.rank)
  bcast_S12544_S1x12544_1 : S12544.BroadcastsInDim S1x12544 (![1] : Fin 1 → Fin S1x12544.rank)
  bcast_S1x12544_S1x1x12544_1_2 : S1x12544.BroadcastsInDim S1x1x12544 (![1, 2] : Fin 2 → Fin S1x1x12544.rank)
  bcast_S1x1x12544_S2x100x12544_0_1_2 : S1x1x12544.BroadcastsInDim S2x100x12544 (![0, 1, 2] : Fin 3 → Fin S2x100x12544.rank)
  bcast_S2x12544_S2x30x12544_0_2 : S2x12544.BroadcastsInDim S2x30x12544 (![0, 2] : Fin 2 → Fin S2x30x12544.rank)
  bcast_S12544_S30x12544_1 : S12544.BroadcastsInDim S30x12544 (![1] : Fin 1 → Fin S30x12544.rank)
  bcast_S30x12544_S2x30x12544_1_2 : S30x12544.BroadcastsInDim S2x30x12544 (![1, 2] : Fin 2 → Fin S2x30x12544.rank)
  bcast_S2x1x12544_S2x30x12544_0_1_2 : S2x1x12544.BroadcastsInDim S2x30x12544 (![0, 1, 2] : Fin 3 → Fin S2x30x12544.rank)
  bcast_S1x1x12544_S2x30x12544_0_1_2 : S1x1x12544.BroadcastsInDim S2x30x12544 (![0, 1, 2] : Fin 3 → Fin S2x30x12544.rank)
  reducesTo_S2x100x134_S2x100_d2 : S2x100x134.ReducesTo [2] S2x100
  h_S_ : 0 < S_.numel
  bcast_S_S2x100 : S_.BroadcastsInDim S2x100 (![] : Fin 0 → Fin S2x100.rank)
  bcast_S2x100_S2x100x1_0_1 : S2x100.BroadcastsInDim S2x100x1 (![0, 1] : Fin 2 → Fin S2x100x1.rank)
  bcast_S2x100x1_S2x100x134_0_1_2 : S2x100x1.BroadcastsInDim S2x100x134 (![0, 1, 2] : Fin 3 → Fin S2x100x134.rank)
  bcast_S_S2x30 : S_.BroadcastsInDim S2x30 (![] : Fin 0 → Fin S2x30.rank)
  bcast_S2x30_S2x30x1_0_1 : S2x30.BroadcastsInDim S2x30x1 (![0, 1] : Fin 2 → Fin S2x30x1.rank)
  bcast_S_S2x100x12544 : S_.BroadcastsInDim S2x100x12544 (![] : Fin 0 → Fin S2x100x12544.rank)
  transposes_S2x30x12544_S2x12544x30_0_2_1 : S2x30x12544.Transposes [0, 2, 1] S2x12544x30
  bcast_S_S2x30x12544 : S_.BroadcastsInDim S2x30x12544 (![] : Fin 0 → Fin S2x30x12544.rank)
  bcast_S_S2x100x30 : S_.BroadcastsInDim S2x100x30 (![] : Fin 0 → Fin S2x100x30.rank)
  reducesTo_S2x100x12544_S2x100_d2 : S2x100x12544.ReducesTo [2] S2x100
  reducesTo_S2x30x12544_S2x30_d2 : S2x30x12544.ReducesTo [2] S2x30
  bcast_S2x30_S2x1x30_0_2 : S2x30.BroadcastsInDim S2x1x30 (![0, 2] : Fin 2 → Fin S2x1x30.rank)
  bcast_S2x100x1_S2x100x30_0_1_2 : S2x100x1.BroadcastsInDim S2x100x30 (![0, 1, 2] : Fin 3 → Fin S2x100x30.rank)
  bcast_S2x1x30_S2x100x30_0_1_2 : S2x1x30.BroadcastsInDim S2x100x30 (![0, 1, 2] : Fin 3 → Fin S2x100x30.rank)
  bcast_S_S100x30 : S_.BroadcastsInDim S100x30 (![] : Fin 0 → Fin S100x30.rank)
  bcast_S100x30_S2x100x30_1_2 : S100x30.BroadcastsInDim S2x100x30 (![1, 2] : Fin 2 → Fin S2x100x30.rank)
  gather_S2x100x64x64x64_S2x12544x3_S2x100x12544_1_234_0_0_234_2_1100111_wf : GatherDims.WF S2x100x64x64x64 S2x12544x3 S2x100x12544 [1] [2, 3, 4] [0] [2, 3, 4] [0] 2 ![1, 100, 1, 1, 1]
  gather_S2x30x64x64x64_S2x12544x3_S2x30x12544_1_234_0_0_234_2_130111_wf : GatherDims.WF S2x30x64x64x64 S2x12544x3 S2x30x12544 [1] [2, 3, 4] [0] [2, 3, 4] [0] 2 ![1, 30, 1, 1, 1]
  gather_S2x100x134_S2x30x1_S2x100x30_1_2_0_0_2_2_11001_wf : GatherDims.WF S2x100x134 S2x30x1 S2x100x30 [1] [2] [0] [2] [0] 2 ![1, 100, 1]
  dot_S2x100x12544_S2x12544x30_S2x100x30_2_1_1_2_0_0_wf : DotDims.WF S2x100x12544 S2x12544x30 S2x100x30 [2] [1] [1] [2] [0] [0]

variable [Facts₀]

def gather_S2x100x64x64x64_S2x12544x3_S2x100x12544_1_234_0_0_234_2_1100111 : GatherDims S2x100x64x64x64 S2x12544x3 S2x100x12544 where
  offsetDims := [1]
  collapsedSliceDims := [2, 3, 4]
  operandBatchingDims := [0]
  startIndicesBatchingDims := [0]
  startIndexMap := [2, 3, 4]
  indexVectorDim := 2
  sliceSizes := ![1, 100, 1, 1, 1]
  wf := gather_S2x100x64x64x64_S2x12544x3_S2x100x12544_1_234_0_0_234_2_1100111_wf
def gather_S2x30x64x64x64_S2x12544x3_S2x30x12544_1_234_0_0_234_2_130111 : GatherDims S2x30x64x64x64 S2x12544x3 S2x30x12544 where
  offsetDims := [1]
  collapsedSliceDims := [2, 3, 4]
  operandBatchingDims := [0]
  startIndicesBatchingDims := [0]
  startIndexMap := [2, 3, 4]
  indexVectorDim := 2
  sliceSizes := ![1, 30, 1, 1, 1]
  wf := gather_S2x30x64x64x64_S2x12544x3_S2x30x12544_1_234_0_0_234_2_130111_wf
def gather_S2x100x134_S2x30x1_S2x100x30_1_2_0_0_2_2_11001 : GatherDims S2x100x134 S2x30x1 S2x100x30 where
  offsetDims := [1]
  collapsedSliceDims := [2]
  operandBatchingDims := [0]
  startIndicesBatchingDims := [0]
  startIndexMap := [2]
  indexVectorDim := 2
  sliceSizes := ![1, 100, 1]
  wf := gather_S2x100x134_S2x30x1_S2x100x30_1_2_0_0_2_2_11001_wf
def dot_S2x100x12544_S2x12544x30_S2x100x30_2_1_1_2_0_0 : DotDims S2x100x12544 S2x12544x30 S2x100x30 where
  lhsContracting := [2]
  rhsContracting := [1]
  lhsNonContracting := [1]
  rhsNonContracting := [2]
  lhsBatch := [0]
  rhsBatch := [0]
  wf := dot_S2x100x12544_S2x12544x30_S2x100x30_2_1_1_2_0_0_wf

class Facts : Prop extends Facts₀ where

variable [Facts]
-- ==== Proof.RefRunP0.lean ====
/- The reference program's @main, windows main_part0 … main_part1, as LISTS of host operations: each printed
   statement one entry, in order, and each call replaced by the called function's operations over the buffers that
   call names (its record), a call inside a called function likewise. With each list: the window equals the list run
   in order, every operation's buffers are TensorCore buffers, no operation leaves a buffer undetermined, and the
   list of buffers the window writes. -/
import proofs.«103167_j42614665511136_1_alg».proof.Proof.Gen.ReferenceIdeal
import Idealize.ShloMosaic.Lib.StableHlo.Run

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window main_part0's 60 operations, in order, calls replaced by the called functions' operations. -/
abbrev ops_part0 : List (HloOp τ sig (Elt F)) :=
  [ StableHlo.nullary main_cst (constant S_ .f32 0x40000000#32),
    StableHlo.unary main_cst main_v0 (broadcastInDim S2x12544x3 ![] bcast_S_S2x12544x3 : (⟨S_, .f32⟩ : BufTy).Contents (Elt F) → (⟨S2x12544x3, .f32⟩ : BufTy).Contents (Elt F)),
    StableHlo.binary main_v0 main_arg3 main_v1 (mulf : (⟨S2x12544x3, .f32⟩ : BufTy).Contents (Elt F) → (⟨S2x12544x3, .f32⟩ : BufTy).Contents (Elt F) → (⟨S2x12544x3, .f32⟩ : BufTy).Contents (Elt F)),
    StableHlo.nullary main_cst_0 (constant S_ .f32 0x3F800000#32),
    StableHlo.unary main_cst_0 main_v2 (broadcastInDim S2x12544x3 ![] bcast_S_S2x12544x3 : (⟨S_, .f32⟩ : BufTy).Contents (Elt F) → (⟨S2x12544x3, .f32⟩ : BufTy).Contents (Elt F)),
    StableHlo.binary main_v1 main_v2 main_v3 (subf : (⟨S2x12544x3, .f32⟩ : BufTy).Contents (Elt F) → (⟨S2x12544x3, .f32⟩ : BufTy).Contents (Elt F) → (⟨S2x12544x3, .f32⟩ : BufTy).Contents (Elt F)),
    StableHlo.unary main_v3 main_v4 ((extractStridedSlice S2x12544x1 ![0, 0, 0] · slices_S2x12544x3_S2x12544x1_0_0_0) : (⟨S2x12544x3, .f32⟩ : BufTy).Contents (Elt F) → (⟨S2x12544x1, .f32⟩ : BufTy).Contents (Elt F)),
    StableHlo.reshape main_v4 main_v5 rfl shapeCasts_S2x12544x1_S2x12544,
    StableHlo.nullary main_cst_1 (constant S_ .f32 0x3F800000#32),
    StableHlo.unary main_cst_1 main_v6 (broadcastInDim S2x12544 ![] bcast_S_S2x12544 : (⟨S_, .f32⟩ : BufTy).Contents (Elt F) → (⟨S2x12544, .f32⟩ : BufTy).Contents (Elt F)),
    StableHlo.binary main_v5 main_v6 main_v7 (addf : (⟨S2x12544, .f32⟩ : BufTy).Contents (Elt F) → (⟨S2x12544, .f32⟩ : BufTy).Contents (Elt F) → (⟨S2x12544, .f32⟩ : BufTy).Contents (Elt F)),
    StableHlo.nullary main_cst_2 (constant S_ .f32 0x42800000#32),
    StableHlo.unary main_cst_2 main_v8 (broadcastInDim S2x12544 ![] bcast_S_S2x12544 : (⟨S_, .f32⟩ : BufTy).Contents (Elt F) → (⟨S2x12544, .f32⟩ : BufTy).Contents (Elt F)),
    StableHlo.binary main_v7 main_v8 main_v9 (mulf : (⟨S2x12544, .f32⟩ : BufTy).Contents (Elt F) → (⟨S2x12544, .f32⟩ : BufTy).Contents (Elt F) → (⟨S2x12544, .f32⟩ : BufTy).Contents (Elt F)),
    StableHlo.nullary main_cst_3 (constant S_ .f32 0x3F800000#32),
    StableHlo.unary main_cst_3 main_v10 (broadcastInDim S2x12544 ![] bcast_S_S2x12544 : (⟨S_, .f32⟩ : BufTy).Contents (Elt F) → (⟨S2x12544, .f32⟩ : BufTy).Contents (Elt F)),
    StableHlo.binary main_v9 main_v10 main_v11 (subf : (⟨S2x12544, .f32⟩ : BufTy).Contents (Elt F) → (⟨S2x12544, .f32⟩ : BufTy).Contents (Elt F) → (⟨S2x12544, .f32⟩ : BufTy).Contents (Elt F)),
    StableHlo.nullary main_cst_4 (constant S_ .f32 0x3F000000#32),
    StableHlo.unary main_cst_4 main_v12 (broadcastInDim S2x12544 ![] bcast_S_S2x12544 : (⟨S_, .f32⟩ : BufTy).Contents (Elt F) → (⟨S2x12544, .f32⟩ : BufTy).Contents (Elt F)),
    StableHlo.binary main_v11 main_v12 main_v13 (mulf : (⟨S2x12544, .f32⟩ : BufTy).Contents (Elt F) → (⟨S2x12544, .f32⟩ : BufTy).Contents (Elt F) → (⟨S2x12544, .f32⟩ : BufTy).Contents (Elt F)),
    StableHlo.unary main_v3 main_v14 ((extractStridedSlice S2x12544x1 ![0, 0, 1] · slices_S2x12544x3_S2x12544x1_0_0_1) : (⟨S2x12544x3, .f32⟩ : BufTy).Contents (Elt F) → (⟨S2x12544x1, .f32⟩ : BufTy).Contents (Elt F)),
    StableHlo.reshape main_v14 main_v15 rfl shapeCasts_S2x12544x1_S2x12544,
    StableHlo.nullary main_cst_5 (constant S_ .f32 0x3F800000#32),
    StableHlo.unary main_cst_5 main_v16 (broadcastInDim S2x12544 ![] bcast_S_S2x12544 : (⟨S_, .f32⟩ : BufTy).Contents (Elt F) → (⟨S2x12544, .f32⟩ : BufTy).Contents (Elt F)),
    StableHlo.binary main_v15 main_v16 main_v17 (addf : (⟨S2x12544, .f32⟩ : BufTy).Contents (Elt F) → (⟨S2x12544, .f32⟩ : BufTy).Contents (Elt F) → (⟨S2x12544, .f32⟩ : BufTy).Contents (Elt F)),
    StableHlo.nullary main_cst_6 (constant S_ .f32 0x42800000#32),
    StableHlo.unary main_cst_6 main_v18 (broadcastInDim S2x12544 ![] bcast_S_S2x12544 : (⟨S_, .f32⟩ : BufTy).Contents (Elt F) → (⟨S2x12544, .f32⟩ : BufTy).Contents (Elt F)),
    StableHlo.binary main_v17 main_v18 main_v19 (mulf : (⟨S2x12544, .f32⟩ : BufTy).Contents (Elt F) → (⟨S2x12544, .f32⟩ : BufTy).Contents (Elt F) → (⟨S2x12544, .f32⟩ : BufTy).Contents (Elt F)),
    StableHlo.nullary main_cst_7 (constant S_ .f32 0x3F800000#32),
    StableHlo.unary main_cst_7 main_v20 (broadcastInDim S2x12544 ![] bcast_S_S2x12544 : (⟨S_, .f32⟩ : BufTy).Contents (Elt F) → (⟨S2x12544, .f32⟩ : BufTy).Contents (Elt F)),
    StableHlo.binary main_v19 main_v20 main_v21 (subf : (⟨S2x12544, .f32⟩ : BufTy).Contents (Elt F) → (⟨S2x12544, .f32⟩ : BufTy).Contents (Elt F) → (⟨S2x12544, .f32⟩ : BufTy).Contents (Elt F)),
    StableHlo.nullary main_cst_8 (constant S_ .f32 0x3F000000#32),
    StableHlo.unary main_cst_8 main_v22 (broadcastInDim S2x12544 ![] bcast_S_S2x12544 : (⟨S_, .f32⟩ : BufTy).Contents (Elt F) → (⟨S2x12544, .f32⟩ : BufTy).Contents (Elt F)),
    StableHlo.binary main_v21 main_v22 main_v23 (mulf : (⟨S2x12544, .f32⟩ : BufTy).Contents (Elt F) → (⟨S2x12544, .f32⟩ : BufTy).Contents (Elt F) → (⟨S2x12544, .f32⟩ : BufTy).Contents (Elt F)),
    StableHlo.unary main_v3 main_v24 ((extractStridedSlice S2x12544x1 ![0, 0, 2] · slices_S2x12544x3_S2x12544x1_0_0_2) : (⟨S2x12544x3, .f32⟩ : BufTy).Contents (Elt F) → (⟨S2x12544x1, .f32⟩ : BufTy).Contents (Elt F)),
    StableHlo.reshape main_v24 main_v25 rfl shapeCasts_S2x12544x1_S2x12544,
    StableHlo.nullary main_cst_9 (constant S_ .f32 0x3F800000#32),
    StableHlo.unary main_cst_9 main_v26 (broadcastInDim S2x12544 ![] bcast_S_S2x12544 : (⟨S_, .f32⟩ : BufTy).Contents (Elt F) → (⟨S2x12544, .f32⟩ : BufTy).Contents (Elt F)),
    StableHlo.binary main_v25 main_v26 main_v27 (addf : (⟨S2x12544, .f32⟩ : BufTy).Contents (Elt F) → (⟨S2x12544, .f32⟩ : BufTy).Contents (Elt F) → (⟨S2x12544, .f32⟩ : BufTy).Contents (Elt F)),
    StableHlo.nullary main_cst_10 (constant S_ .f32 0x42800000#32),
    StableHlo.unary main_cst_10 main_v28 (broadcastInDim S2x12544 ![] bcast_S_S2x12544 : (⟨S_, .f32⟩ : BufTy).Contents (Elt F) → (⟨S2x12544, .f32⟩ : BufTy).Contents (Elt F)),
    StableHlo.binary main_v27 main_v28 main_v29 (mulf : (⟨S2x12544, .f32⟩ : BufTy).Contents (Elt F) → (⟨S2x12544, .f32⟩ : BufTy).Contents (Elt F) → (⟨S2x12544, .f32⟩ : BufTy).Contents (Elt F)),
    StableHlo.nullary main_cst_11 (constant S_ .f32 0x3F800000#32),
    StableHlo.unary main_cst_11 main_v30 (broadcastInDim S2x12544 ![] bcast_S_S2x12544 : (⟨S_, .f32⟩ : BufTy).Contents (Elt F) → (⟨S2x12544, .f32⟩ : BufTy).Contents (Elt F)),
    StableHlo.binary main_v29 main_v30 main_v31 (subf : (⟨S2x12544, .f32⟩ : BufTy).Contents (Elt F) → (⟨S2x12544, .f32⟩ : BufTy).Contents (Elt F) → (⟨S2x12544, .f32⟩ : BufTy).Contents (Elt F)),
    StableHlo.nullary main_cst_12 (constant S_ .f32 0x3F000000#32),
    StableHlo.unary main_cst_12 main_v32 (broadcastInDim S2x12544 ![] bcast_S_S2x12544 : (⟨S_, .f32⟩ : BufTy).Contents (Elt F) → (⟨S2x12544, .f32⟩ : BufTy).Contents (Elt F)),
    StableHlo.binary main_v31 main_v32 main_v33 (mulf : (⟨S2x12544, .f32⟩ : BufTy).Contents (Elt F) → (⟨S2x12544, .f32⟩ : BufTy).Contents (Elt F) → (⟨S2x12544, .f32⟩ : BufTy).Contents (Elt F)),
    StableHlo.unary main_v13 main_v34 (Host.floor : (⟨S2x12544, .f32⟩ : BufTy).Contents (Elt F) → (⟨S2x12544, .f32⟩ : BufTy).Contents (Elt F)),
    StableHlo.unary main_v23 main_v35 (Host.floor : (⟨S2x12544, .f32⟩ : BufTy).Contents (Elt F) → (⟨S2x12544, .f32⟩ : BufTy).Contents (Elt F)),
    StableHlo.unary main_v33 main_v36 (Host.floor : (⟨S2x12544, .f32⟩ : BufTy).Contents (Elt F) → (⟨S2x12544, .f32⟩ : BufTy).Contents (Elt F)),
    StableHlo.binary main_v13 main_v34 main_v37 (subf : (⟨S2x12544, .f32⟩ : BufTy).Contents (Elt F) → (⟨S2x12544, .f32⟩ : BufTy).Contents (Elt F) → (⟨S2x12544, .f32⟩ : BufTy).Contents (Elt F)),
    StableHlo.binary main_v23 main_v35 main_v38 (subf : (⟨S2x12544, .f32⟩ : BufTy).Contents (Elt F) → (⟨S2x12544, .f32⟩ : BufTy).Contents (Elt F) → (⟨S2x12544, .f32⟩ : BufTy).Contents (Elt F)),
    StableHlo.binary main_v33 main_v36 main_v39 (subf : (⟨S2x12544, .f32⟩ : BufTy).Contents (Elt F) → (⟨S2x12544, .f32⟩ : BufTy).Contents (Elt F) → (⟨S2x12544, .f32⟩ : BufTy).Contents (Elt F)),
    StableHlo.unary main_v34 main_v40 (fptosi 32 : (⟨S2x12544, .f32⟩ : BufTy).Contents (Elt F) → (⟨S2x12544, .i32⟩ : BufTy).Contents (Elt F)),
    StableHlo.unary main_v35 main_v41 (fptosi 32 : (⟨S2x12544, .f32⟩ : BufTy).Contents (Elt F) → (⟨S2x12544, .i32⟩ : BufTy).Contents (Elt F)),
    StableHlo.unary main_v36 main_v42 (fptosi 32 : (⟨S2x12544, .f32⟩ : BufTy).Contents (Elt F) → (⟨S2x12544, .i32⟩ : BufTy).Contents (Elt F)),
    StableHlo.nullary main_cst_13 (constant S_ .f32 0x00000000#32),
    StableHlo.unary main_cst_13 main_v43 (broadcastInDim S12544 ![] bcast_S_S12544 : (⟨S_, .f32⟩ : BufTy).Contents (Elt F) → (⟨S12544, .f32⟩ : BufTy).Contents (Elt F)),
    StableHlo.nullary main_cst_14 (constant S_ .f32 0x3F800000#32) ]

set_option maxRecDepth 8192 in
set_option maxHeartbeats 4000000 in
/-- Window main_part0 is its operations run in order: the called functions unfolded at their calls and sequencing re-associated, both sides are one chain of steps. -/
theorem main_part0_eq (c : Dev nD) : main_part0 (F := F) c = seq ops_part0 := by
  simp only [main_part0, seq, bind_assoc, pure_bind] <;> rfl

set_option maxRecDepth 8192 in
/-- Every operation of the window reads and writes TensorCore buffers only. -/
theorem ops_part0_sub : (ops_part0 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., binary_bufs_sub .., binary_bufs_sub .., unary_bufs_sub .., unary_bufs_sub .., unary_bufs_sub .., nullary_bufs_sub .., unary_bufs_sub .., nullary_bufs_sub ..⟩

set_option maxRecDepth 8192 in
/-- Every operation of the window determines what it writes: none leaves a buffer at arbitrary contents. -/
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part0_W : List (Ref sig .tc) := [main_cst, main_v0, main_v1, main_cst_0, main_v2, main_v3, main_v4, main_v5, main_cst_1, main_v6, main_v7, main_cst_2, main_v8, main_v9, main_cst_3, main_v10, main_v11, main_cst_4, main_v12, main_v13, main_v14, main_v15, main_cst_5, main_v16, main_v17, main_cst_6, main_v18, main_v19, main_cst_7, main_v20, main_v21, main_cst_8, main_v22, main_v23, main_v24, main_v25, main_cst_9, main_v26, main_v27, main_cst_10, main_v28, main_v29, main_cst_11, main_v30, main_v31, main_cst_12, main_v32, main_v33, main_v34, main_v35, main_v36, main_v37, main_v38, main_v39, main_v40, main_v41, main_v42, main_cst_13, main_v43, main_cst_14]

set_option maxRecDepth 8192 in
/-- Each operation of the window writes one buffer of that list. -/
theorem ops_part0_writes : (ops_part0 : List (HloOp τ sig (Elt F))).Forall fun op => op.writes ⊆ (ops_part0_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

set_option maxRecDepth 8192 in
set_option maxHeartbeats 4000000 in
/-- Window main_part1's 75 operations, in order, calls replaced by the called functions' operations. -/
abbrev ops_part1 : List (HloOp τ sig (Elt F)) :=
  [ StableHlo.unary main_cst_14 main_v44 (broadcastInDim S2x12544 ![] bcast_S_S2x12544 : (⟨S_, .f32⟩ : BufTy).Contents (Elt F) → (⟨S2x12544, .f32⟩ : BufTy).Contents (Elt F)),
    StableHlo.binary main_v44 main_v39 main_v45 (subf : (⟨S2x12544, .f32⟩ : BufTy).Contents (Elt F) → (⟨S2x12544, .f32⟩ : BufTy).Contents (Elt F) → (⟨S2x12544, .f32⟩ : BufTy).Contents (Elt F)),
    StableHlo.nullary main_cst_15 (constant S_ .f32 0x3F800000#32),
    StableHlo.unary main_cst_15 main_v46 (broadcastInDim S2x12544 ![] bcast_S_S2x12544 : (⟨S_, .f32⟩ : BufTy).Contents (Elt F) → (⟨S2x12544, .f32⟩ : BufTy).Contents (Elt F)),
    StableHlo.binary main_v46 main_v38 main_v47 (subf : (⟨S2x12544, .f32⟩ : BufTy).Contents (Elt F) → (⟨S2x12544, .f32⟩ : BufTy).Contents (Elt F) → (⟨S2x12544, .f32⟩ : BufTy).Contents (Elt F)),
    StableHlo.binary main_v45 main_v47 main_v48 (mulf : (⟨S2x12544, .f32⟩ : BufTy).Contents (Elt F) → (⟨S2x12544, .f32⟩ : BufTy).Contents (Elt F) → (⟨S2x12544, .f32⟩ : BufTy).Contents (Elt F)),
    StableHlo.nullary main_cst_16 (constant S_ .f32 0x3F800000#32),
    StableHlo.unary main_cst_16 main_v49 (broadcastInDim S2x12544 ![] bcast_S_S2x12544 : (⟨S_, .f32⟩ : BufTy).Contents (Elt F) → (⟨S2x12544, .f32⟩ : BufTy).Contents (Elt F)),
    StableHlo.binary main_v49 main_v37 main_v50 (subf : (⟨S2x12544, .f32⟩ : BufTy).Contents (Elt F) → (⟨S2x12544, .f32⟩ : BufTy).Contents (Elt F) → (⟨S2x12544, .f32⟩ : BufTy).Contents (Elt F)),
    StableHlo.binary main_v48 main_v50 main_v51 (mulf : (⟨S2x12544, .f32⟩ : BufTy).Contents (Elt F) → (⟨S2x12544, .f32⟩ : BufTy).Contents (Elt F) → (⟨S2x12544, .f32⟩ : BufTy).Contents (Elt F)),
    StableHlo.nullary main_c (constantI S_ 32 0#32),
    StableHlo.unary main_c main_v52 (broadcastInDim S2x12544 ![] bcast_S_S2x12544 : (⟨S_, .i32⟩ : BufTy).Contents (Elt F) → (⟨S2x12544, .i32⟩ : BufTy).Contents (Elt F)),
    StableHlo.binary main_v42 main_v52 main_v53 (addi : (⟨S2x12544, .i32⟩ : BufTy).Contents (Elt F) → (⟨S2x12544, .i32⟩ : BufTy).Contents (Elt F) → (⟨S2x12544, .i32⟩ : BufTy).Contents (Elt F)),
    StableHlo.nullary main_c_17 (constantI S_ 32 0#32),
    StableHlo.unary main_c_17 main_v54 (broadcastInDim S2x12544 ![] bcast_S_S2x12544 : (⟨S_, .i32⟩ : BufTy).Contents (Elt F) → (⟨S2x12544, .i32⟩ : BufTy).Contents (Elt F)),
    StableHlo.binary main_v41 main_v54 main_v55 (addi : (⟨S2x12544, .i32⟩ : BufTy).Contents (Elt F) → (⟨S2x12544, .i32⟩ : BufTy).Contents (Elt F) → (⟨S2x12544, .i32⟩ : BufTy).Contents (Elt F)),
    StableHlo.nullary main_c_18 (constantI S_ 32 0#32),
    StableHlo.unary main_c_18 main_v56 (broadcastInDim S2x12544 ![] bcast_S_S2x12544 : (⟨S_, .i32⟩ : BufTy).Contents (Elt F) → (⟨S2x12544, .i32⟩ : BufTy).Contents (Elt F)),
    StableHlo.binary main_v40 main_v56 main_v57 (addi : (⟨S2x12544, .i32⟩ : BufTy).Contents (Elt F) → (⟨S2x12544, .i32⟩ : BufTy).Contents (Elt F) → (⟨S2x12544, .i32⟩ : BufTy).Contents (Elt F)),
    StableHlo.nullary main_c_19 (constantI S_ 32 0#32),
    StableHlo.unary main_c_19 main_v58 (broadcastInDim S2x12544 ![] bcast_S_S2x12544 : (⟨S_, .i32⟩ : BufTy).Contents (Elt F) → (⟨S2x12544, .i32⟩ : BufTy).Contents (Elt F)),
    StableHlo.binary main_v53 main_v58 main_v59 (cmpi .sge : (⟨S2x12544, .i32⟩ : BufTy).Contents (Elt F) → (⟨S2x12544, .i32⟩ : BufTy).Contents (Elt F) → (⟨S2x12544, .i1⟩ : BufTy).Contents (Elt F)),
    StableHlo.nullary main_c_20 (constantI S_ 32 64#32),
    StableHlo.unary main_c_20 main_v60 (broadcastInDim S2x12544 ![] bcast_S_S2x12544 : (⟨S_, .i32⟩ : BufTy).Contents (Elt F) → (⟨S2x12544, .i32⟩ : BufTy).Contents (Elt F)),
    StableHlo.binary main_v53 main_v60 main_v61 (cmpi .slt : (⟨S2x12544, .i32⟩ : BufTy).Contents (Elt F) → (⟨S2x12544, .i32⟩ : BufTy).Contents (Elt F) → (⟨S2x12544, .i1⟩ : BufTy).Contents (Elt F)),
    StableHlo.binary main_v59 main_v61 main_v62 (andi : (⟨S2x12544, .i1⟩ : BufTy).Contents (Elt F) → (⟨S2x12544, .i1⟩ : BufTy).Contents (Elt F) → (⟨S2x12544, .i1⟩ : BufTy).Contents (Elt F)),
    StableHlo.nullary main_c_21 (constantI S_ 32 0#32),
    StableHlo.unary main_c_21 main_v63 (broadcastInDim S2x12544 ![] bcast_S_S2x12544 : (⟨S_, .i32⟩ : BufTy).Contents (Elt F) → (⟨S2x12544, .i32⟩ : BufTy).Contents (Elt F)),
    StableHlo.binary main_v55 main_v63 main_v64 (cmpi .sge : (⟨S2x12544, .i32⟩ : BufTy).Contents (Elt F) → (⟨S2x12544, .i32⟩ : BufTy).Contents (Elt F) → (⟨S2x12544, .i1⟩ : BufTy).Contents (Elt F)),
    StableHlo.binary main_v62 main_v64 main_v65 (andi : (⟨S2x12544, .i1⟩ : BufTy).Contents (Elt F) → (⟨S2x12544, .i1⟩ : BufTy).Contents (Elt F) → (⟨S2x12544, .i1⟩ : BufTy).Contents (Elt F)),
    StableHlo.nullary main_c_22 (constantI S_ 32 64#32),
    StableHlo.unary main_c_22 main_v66 (broadcastInDim S2x12544 ![] bcast_S_S2x12544 : (⟨S_, .i32⟩ : BufTy).Contents (Elt F) → (⟨S2x12544, .i32⟩ : BufTy).Contents (Elt F)),
    StableHlo.binary main_v55 main_v66 main_v67 (cmpi .slt : (⟨S2x12544, .i32⟩ : BufTy).Contents (Elt F) → (⟨S2x12544, .i32⟩ : BufTy).Contents (Elt F) → (⟨S2x12544, .i1⟩ : BufTy).Contents (Elt F)),
    StableHlo.binary main_v65 main_v67 main_v68 (andi : (⟨S2x12544, .i1⟩ : BufTy).Contents (Elt F) → (⟨S2x12544, .i1⟩ : BufTy).Contents (Elt F) → (⟨S2x12544, .i1⟩ : BufTy).Contents (Elt F)),
    StableHlo.nullary main_c_23 (constantI S_ 32 0#32),
    StableHlo.unary main_c_23 main_v69 (broadcastInDim S2x12544 ![] bcast_S_S2x12544 : (⟨S_, .i32⟩ : BufTy).Contents (Elt F) → (⟨S2x12544, .i32⟩ : BufTy).Contents (Elt F)),
    StableHlo.binary main_v57 main_v69 main_v70 (cmpi .sge : (⟨S2x12544, .i32⟩ : BufTy).Contents (Elt F) → (⟨S2x12544, .i32⟩ : BufTy).Contents (Elt F) → (⟨S2x12544, .i1⟩ : BufTy).Contents (Elt F)),
    StableHlo.binary main_v68 main_v70 main_v71 (andi : (⟨S2x12544, .i1⟩ : BufTy).Contents (Elt F) → (⟨S2x12544, .i1⟩ : BufTy).Contents (Elt F) → (⟨S2x12544, .i1⟩ : BufTy).Contents (Elt F)),
    StableHlo.nullary main_c_24 (constantI S_ 32 64#32),
    StableHlo.unary main_c_24 main_v72 (broadcastInDim S2x12544 ![] bcast_S_S2x12544 : (⟨S_, .i32⟩ : BufTy).Contents (Elt F) → (⟨S2x12544, .i32⟩ : BufTy).Contents (Elt F)),
    StableHlo.binary main_v57 main_v72 main_v73 (cmpi .slt : (⟨S2x12544, .i32⟩ : BufTy).Contents (Elt F) → (⟨S2x12544, .i32⟩ : BufTy).Contents (Elt F) → (⟨S2x12544, .i1⟩ : BufTy).Contents (Elt F)),
    StableHlo.binary main_v71 main_v73 main_v74 (andi : (⟨S2x12544, .i1⟩ : BufTy).Contents (Elt F) → (⟨S2x12544, .i1⟩ : BufTy).Contents (Elt F) → (⟨S2x12544, .i1⟩ : BufTy).Contents (Elt F)),
    StableHlo.nullary main_c_25 (constantI S_ 32 0#32),
    StableHlo.nullary main_c_26 (constantI S_ 32 63#32),
    StableHlo.TRef.unary (.of main_c_25 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S2x12544, .i32⟩) (broadcastInDim S2x12544 ![] bcast_S_S2x12544),
    StableHlo.TRef.binary (.of main_call0_v1 : StableHlo.TRef sig ⟨S2x12544, .i32⟩) (.of main_v53 : StableHlo.TRef sig ⟨S2x12544, .i32⟩) (.of main_call0_v2 : StableHlo.TRef sig ⟨S2x12544, .i32⟩) maxsi,
    StableHlo.TRef.unary (.of main_c_26 : StableHlo.TRef sig ⟨S_, .i32⟩) (.of main_call0_v3 : StableHlo.TRef sig ⟨S_, .i32⟩) id,
    StableHlo.TRef.unary (.of main_call0_v3 : StableHlo.TRef sig ⟨S_, .i32⟩) (.of main_call0_v4 : StableHlo.TRef sig ⟨S2x12544, .i32⟩) (broadcastInDim S2x12544 ![] bcast_S_S2x12544),
    StableHlo.TRef.binary (.of main_call0_v4 : StableHlo.TRef sig ⟨S2x12544, .i32⟩) (.of main_call0_v2 : StableHlo.TRef sig ⟨S2x12544, .i32⟩) (.of main_v75 : StableHlo.TRef sig ⟨S2x12544, .i32⟩) minsi,
    StableHlo.nullary main_c_27 (constantI S_ 32 0#32),
    StableHlo.nullary main_c_28 (constantI S_ 32 63#32),
    StableHlo.TRef.unary (.of main_c_27 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S2x12544, .i32⟩) (broadcastInDim S2x12544 ![] bcast_S_S2x12544),
    StableHlo.TRef.binary (.of main_call1_v1 : StableHlo.TRef sig ⟨S2x12544, .i32⟩) (.of main_v55 : StableHlo.TRef sig ⟨S2x12544, .i32⟩) (.of main_call1_v2 : StableHlo.TRef sig ⟨S2x12544, .i32⟩) maxsi,
    StableHlo.TRef.unary (.of main_c_28 : StableHlo.TRef sig ⟨S_, .i32⟩) (.of main_call1_v3 : StableHlo.TRef sig ⟨S_, .i32⟩) id,
    StableHlo.TRef.unary (.of main_call1_v3 : StableHlo.TRef sig ⟨S_, .i32⟩) (.of main_call1_v4 : StableHlo.TRef sig ⟨S2x12544, .i32⟩) (broadcastInDim S2x12544 ![] bcast_S_S2x12544),
    StableHlo.TRef.binary (.of main_call1_v4 : StableHlo.TRef sig ⟨S2x12544, .i32⟩) (.of main_call1_v2 : StableHlo.TRef sig ⟨S2x12544, .i32⟩) (.of main_v76 : StableHlo.TRef sig ⟨S2x12544, .i32⟩) minsi,
    StableHlo.nullary main_c_29 (constantI S_ 32 0#32),
    StableHlo.nullary main_c_30 (constantI S_ 32 63#32),
    StableHlo.TRef.unary (.of main_c_29 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S2x12544, .i32⟩) (broadcastInDim S2x12544 ![] bcast_S_S2x12544),
    StableHlo.TRef.binary (.of main_call2_v1 : StableHlo.TRef sig ⟨S2x12544, .i32⟩) (.of main_v57 : StableHlo.TRef sig ⟨S2x12544, .i32⟩) (.of main_call2_v2 : StableHlo.TRef sig ⟨S2x12544, .i32⟩) maxsi,
    StableHlo.TRef.unary (.of main_c_30 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S2x12544, .i32⟩) (broadcastInDim S2x12544 ![] bcast_S_S2x12544),
    StableHlo.TRef.binary (.of main_call2_v4 : StableHlo.TRef sig ⟨S2x12544, .i32⟩) (.of main_call2_v2 : StableHlo.TRef sig ⟨S2x12544, .i32⟩) (.of main_v77 : StableHlo.TRef sig ⟨S2x12544, .i32⟩) minsi,
    StableHlo.nullary main_c_31 (constantI S_ 32 0#32),
    StableHlo.unary main_c_31 main_v78 (broadcastInDim S2x12544 ![] bcast_S_S2x12544 : (⟨S_, .i32⟩ : BufTy).Contents (Elt F) → (⟨S2x12544, .i32⟩ : BufTy).Contents (Elt F)),
    StableHlo.binary main_v75 main_v78 main_v79 (cmpi .slt : (⟨S2x12544, .i32⟩ : BufTy).Contents (Elt F) → (⟨S2x12544, .i32⟩ : BufTy).Contents (Elt F) → (⟨S2x12544, .i1⟩ : BufTy).Contents (Elt F)),
    StableHlo.nullary main_c_32 (constantI S_ 32 64#32),
    StableHlo.unary main_c_32 main_v80 (broadcastInDim S2x12544 ![] bcast_S_S2x12544 : (⟨S_, .i32⟩ : BufTy).Contents (Elt F) → (⟨S2x12544, .i32⟩ : BufTy).Contents (Elt F)),
    StableHlo.binary main_v75 main_v80 main_v81 (addi : (⟨S2x12544, .i32⟩ : BufTy).Contents (Elt F) → (⟨S2x12544, .i32⟩ : BufTy).Contents (Elt F) → (⟨S2x12544, .i32⟩ : BufTy).Contents (Elt F)),
    StableHlo.ternary main_v79 main_v81 main_v75 main_v82 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_33 (constantI S_ 32 0#32),
    StableHlo.unary main_c_33 main_v83 (broadcastInDim S2x12544 ![] bcast_S_S2x12544 : (⟨S_, .i32⟩ : BufTy).Contents (Elt F) → (⟨S2x12544, .i32⟩ : BufTy).Contents (Elt F)) ]

set_option maxRecDepth 8192 in
set_option maxHeartbeats 4000000 in
/-- Window main_part1 is its operations run in order: the called functions unfolded at their calls and sequencing re-associated, both sides are one chain of steps. -/
theorem main_part1_eq (c : Dev nD) : main_part1 (F := F) c = seq ops_part1 := by
  simp only [main_part1, fn_clip.body, seq, bind_assoc, pure_bind] <;> rfl

set_option maxRecDepth 8192 in
/-- Every operation of the window reads and writes TensorCore buffers only. -/
theorem ops_part1_sub : (ops_part1 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub ..⟩

set_option maxRecDepth 8192 in
/-- Every operation of the window determines what it writes: none leaves a buffer at arbitrary contents. -/
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part1_W : List (Ref sig .tc) := [main_v44, main_v45, main_cst_15, main_v46, main_v47, main_v48, main_cst_16, main_v49, main_v50, main_v51, main_c, main_v52, main_v53, main_c_17, main_v54, main_v55, main_c_18, main_v56, main_v57, main_c_19, main_v58, main_v59, main_c_20, main_v60, main_v61, main_v62, main_c_21, main_v63, main_v64, main_v65, main_c_22, main_v66, main_v67, main_v68, main_c_23, main_v69, main_v70, main_v71, main_c_24, main_v72, main_v73, main_v74, main_c_25, main_c_26, main_call0_v0, main_call0_v1, main_call0_v2, main_call0_v3, main_call0_v4, main_v75, main_c_27, main_c_28, main_call1_v0, main_call1_v1, main_call1_v2, main_call1_v3, main_call1_v4, main_v76, main_c_29, main_c_30, main_call2_v0, main_call2_v1, main_call2_v2, main_call2_v3, main_call2_v4, main_v77, main_c_31, main_v78, main_v79, main_c_32, main_v80, main_v81, main_v82, main_c_33, main_v83]

set_option maxRecDepth 8192 in
/-- Each operation of the window writes one buffer of that list. -/
theorem ops_part1_writes : (ops_part1 : List (HloOp τ sig (Elt F))).Forall fun op => op.writes ⊆ (ops_part1_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

end Cert.ReferenceIdeal.HandRun

end
-- ==== Proof.RefRunP1.lean ====
/- The reference program's @main, windows main_part2 … main_part3, as LISTS of host operations: each printed
   statement one entry, in order, and each call replaced by the called function's operations over the buffers that
   call names (its record), a call inside a called function likewise. With each list: the window equals the list run
   in order, every operation's buffers are TensorCore buffers, no operation leaves a buffer undetermined, and the
   list of buffers the window writes. -/
import proofs.«103167_j42614665511136_1_alg».proof.Proof.Gen.ReferenceIdeal
import Idealize.ShloMosaic.Lib.StableHlo.Run

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window main_part2's 64 operations, in order, calls replaced by the called functions' operations. -/
abbrev ops_part2 : List (HloOp τ sig (Elt F)) :=
  [ StableHlo.binary main_v76 main_v83 main_v84 (cmpi .slt : (⟨S2x12544, .i32⟩ : BufTy).Contents (Elt F) → (⟨S2x12544, .i32⟩ : BufTy).Contents (Elt F) → (⟨S2x12544, .i1⟩ : BufTy).Contents (Elt F)),
    StableHlo.nullary main_c_34 (constantI S_ 32 64#32),
    StableHlo.unary main_c_34 main_v85 (broadcastInDim S2x12544 ![] bcast_S_S2x12544 : (⟨S_, .i32⟩ : BufTy).Contents (Elt F) → (⟨S2x12544, .i32⟩ : BufTy).Contents (Elt F)),
    StableHlo.binary main_v76 main_v85 main_v86 (addi : (⟨S2x12544, .i32⟩ : BufTy).Contents (Elt F) → (⟨S2x12544, .i32⟩ : BufTy).Contents (Elt F) → (⟨S2x12544, .i32⟩ : BufTy).Contents (Elt F)),
    StableHlo.ternary main_v84 main_v86 main_v76 main_v87 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_35 (constantI S_ 32 0#32),
    StableHlo.unary main_c_35 main_v88 (broadcastInDim S2x12544 ![] bcast_S_S2x12544 : (⟨S_, .i32⟩ : BufTy).Contents (Elt F) → (⟨S2x12544, .i32⟩ : BufTy).Contents (Elt F)),
    StableHlo.binary main_v77 main_v88 main_v89 (cmpi .slt : (⟨S2x12544, .i32⟩ : BufTy).Contents (Elt F) → (⟨S2x12544, .i32⟩ : BufTy).Contents (Elt F) → (⟨S2x12544, .i1⟩ : BufTy).Contents (Elt F)),
    StableHlo.nullary main_c_36 (constantI S_ 32 64#32),
    StableHlo.unary main_c_36 main_v90 (broadcastInDim S2x12544 ![] bcast_S_S2x12544 : (⟨S_, .i32⟩ : BufTy).Contents (Elt F) → (⟨S2x12544, .i32⟩ : BufTy).Contents (Elt F)),
    StableHlo.binary main_v77 main_v90 main_v91 (addi : (⟨S2x12544, .i32⟩ : BufTy).Contents (Elt F) → (⟨S2x12544, .i32⟩ : BufTy).Contents (Elt F) → (⟨S2x12544, .i32⟩ : BufTy).Contents (Elt F)),
    StableHlo.ternary main_v89 main_v91 main_v77 main_v92 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v82 main_v93 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v87 main_v94 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v92 main_v95 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v93, main_v94, main_v95] main_v96 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg0 main_v96 main_v97 ((fun x i => Host.gather gather_S2x100x64x64x64_S2x12544x3_S2x100x12544_1_234_0_0_234_2_1100111 x i) : (⟨S2x100x64x64x64, .f32⟩ : BufTy).Contents (Elt F) → (⟨S2x12544x3, .i32⟩ : BufTy).Contents (Elt F) → (⟨S2x100x12544, .f32⟩ : BufTy).Contents (Elt F)),
    StableHlo.nullary main_cst_37 (constant S_ .f32 0x00000000#32),
    StableHlo.TRef.unary (.of main_cst_37 : StableHlo.TRef sig ⟨S_, .f32⟩) (.of main_call3_v0 : StableHlo.TRef sig ⟨S12544, .f32⟩) (broadcastInDim S12544 ![] bcast_S_S12544),
    StableHlo.TRef.unary (.of main_v74 : StableHlo.TRef sig ⟨S2x12544, .i1⟩) (.of main_call3_v1 : StableHlo.TRef sig ⟨S2x100x12544, .i1⟩) (broadcastInDim S2x100x12544 ![0, 2] bcast_S2x12544_S2x100x12544_0_2),
    StableHlo.TRef.unary (.of main_call3_v0 : StableHlo.TRef sig ⟨S12544, .f32⟩) (.of main_call3_v2 : StableHlo.TRef sig ⟨S100x12544, .f32⟩) (broadcastInDim S100x12544 ![1] bcast_S12544_S100x12544_1),
    StableHlo.TRef.unary (.of main_call3_v2 : StableHlo.TRef sig ⟨S100x12544, .f32⟩) (.of main_call3_v3 : StableHlo.TRef sig ⟨S2x100x12544, .f32⟩) (broadcastInDim S2x100x12544 ![1, 2] bcast_S100x12544_S2x100x12544_1_2),
    StableHlo.TRef.ternary (.of main_call3_v1 : StableHlo.TRef sig ⟨S2x100x12544, .i1⟩) (.of main_v97 : StableHlo.TRef sig ⟨S2x100x12544, .f32⟩) (.of main_call3_v3 : StableHlo.TRef sig ⟨S2x100x12544, .f32⟩) (.of main_v98 : StableHlo.TRef sig ⟨S2x100x12544, .f32⟩) select,
    StableHlo.unary main_v51 main_v99 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v99 main_v100 (broadcastInDim S2x100x12544 ![0, 1, 2] bcast_S2x1x12544_S2x100x12544_0_1_2 : (⟨S2x1x12544, .f32⟩ : BufTy).Contents (Elt F) → (⟨S2x100x12544, .f32⟩ : BufTy).Contents (Elt F)),
    StableHlo.binary main_v100 main_v98 main_v101 (mulf : (⟨S2x100x12544, .f32⟩ : BufTy).Contents (Elt F) → (⟨S2x100x12544, .f32⟩ : BufTy).Contents (Elt F) → (⟨S2x100x12544, .f32⟩ : BufTy).Contents (Elt F)),
    StableHlo.unary main_v43 main_v102 (broadcastInDim S1x12544 ![1] bcast_S12544_S1x12544_1 : (⟨S12544, .f32⟩ : BufTy).Contents (Elt F) → (⟨S1x12544, .f32⟩ : BufTy).Contents (Elt F)),
    StableHlo.unary main_v102 main_v103 (broadcastInDim S1x1x12544 ![1, 2] bcast_S1x12544_S1x1x12544_1_2 : (⟨S1x12544, .f32⟩ : BufTy).Contents (Elt F) → (⟨S1x1x12544, .f32⟩ : BufTy).Contents (Elt F)),
    StableHlo.unary main_v103 main_v104 (broadcastInDim S2x100x12544 ![0, 1, 2] bcast_S1x1x12544_S2x100x12544_0_1_2 : (⟨S1x1x12544, .f32⟩ : BufTy).Contents (Elt F) → (⟨S2x100x12544, .f32⟩ : BufTy).Contents (Elt F)),
    StableHlo.binary main_v104 main_v101 main_v105 (addf : (⟨S2x100x12544, .f32⟩ : BufTy).Contents (Elt F) → (⟨S2x100x12544, .f32⟩ : BufTy).Contents (Elt F) → (⟨S2x100x12544, .f32⟩ : BufTy).Contents (Elt F)),
    StableHlo.nullary main_cst_38 (constant S_ .f32 0x3F800000#32),
    StableHlo.unary main_cst_38 main_v106 (broadcastInDim S2x12544 ![] bcast_S_S2x12544 : (⟨S_, .f32⟩ : BufTy).Contents (Elt F) → (⟨S2x12544, .f32⟩ : BufTy).Contents (Elt F)),
    StableHlo.binary main_v106 main_v39 main_v107 (subf : (⟨S2x12544, .f32⟩ : BufTy).Contents (Elt F) → (⟨S2x12544, .f32⟩ : BufTy).Contents (Elt F) → (⟨S2x12544, .f32⟩ : BufTy).Contents (Elt F)),
    StableHlo.nullary main_cst_39 (constant S_ .f32 0x3F800000#32),
    StableHlo.unary main_cst_39 main_v108 (broadcastInDim S2x12544 ![] bcast_S_S2x12544 : (⟨S_, .f32⟩ : BufTy).Contents (Elt F) → (⟨S2x12544, .f32⟩ : BufTy).Contents (Elt F)),
    StableHlo.binary main_v108 main_v38 main_v109 (subf : (⟨S2x12544, .f32⟩ : BufTy).Contents (Elt F) → (⟨S2x12544, .f32⟩ : BufTy).Contents (Elt F) → (⟨S2x12544, .f32⟩ : BufTy).Contents (Elt F)),
    StableHlo.binary main_v107 main_v109 main_v110 (mulf : (⟨S2x12544, .f32⟩ : BufTy).Contents (Elt F) → (⟨S2x12544, .f32⟩ : BufTy).Contents (Elt F) → (⟨S2x12544, .f32⟩ : BufTy).Contents (Elt F)),
    StableHlo.binary main_v110 main_v37 main_v111 (mulf : (⟨S2x12544, .f32⟩ : BufTy).Contents (Elt F) → (⟨S2x12544, .f32⟩ : BufTy).Contents (Elt F) → (⟨S2x12544, .f32⟩ : BufTy).Contents (Elt F)),
    StableHlo.nullary main_c_40 (constantI S_ 32 0#32),
    StableHlo.unary main_c_40 main_v112 (broadcastInDim S2x12544 ![] bcast_S_S2x12544 : (⟨S_, .i32⟩ : BufTy).Contents (Elt F) → (⟨S2x12544, .i32⟩ : BufTy).Contents (Elt F)),
    StableHlo.binary main_v42 main_v112 main_v113 (addi : (⟨S2x12544, .i32⟩ : BufTy).Contents (Elt F) → (⟨S2x12544, .i32⟩ : BufTy).Contents (Elt F) → (⟨S2x12544, .i32⟩ : BufTy).Contents (Elt F)),
    StableHlo.nullary main_c_41 (constantI S_ 32 0#32),
    StableHlo.unary main_c_41 main_v114 (broadcastInDim S2x12544 ![] bcast_S_S2x12544 : (⟨S_, .i32⟩ : BufTy).Contents (Elt F) → (⟨S2x12544, .i32⟩ : BufTy).Contents (Elt F)),
    StableHlo.binary main_v41 main_v114 main_v115 (addi : (⟨S2x12544, .i32⟩ : BufTy).Contents (Elt F) → (⟨S2x12544, .i32⟩ : BufTy).Contents (Elt F) → (⟨S2x12544, .i32⟩ : BufTy).Contents (Elt F)),
    StableHlo.nullary main_c_42 (constantI S_ 32 1#32),
    StableHlo.unary main_c_42 main_v116 (broadcastInDim S2x12544 ![] bcast_S_S2x12544 : (⟨S_, .i32⟩ : BufTy).Contents (Elt F) → (⟨S2x12544, .i32⟩ : BufTy).Contents (Elt F)),
    StableHlo.binary main_v40 main_v116 main_v117 (addi : (⟨S2x12544, .i32⟩ : BufTy).Contents (Elt F) → (⟨S2x12544, .i32⟩ : BufTy).Contents (Elt F) → (⟨S2x12544, .i32⟩ : BufTy).Contents (Elt F)),
    StableHlo.nullary main_c_43 (constantI S_ 32 0#32),
    StableHlo.unary main_c_43 main_v118 (broadcastInDim S2x12544 ![] bcast_S_S2x12544 : (⟨S_, .i32⟩ : BufTy).Contents (Elt F) → (⟨S2x12544, .i32⟩ : BufTy).Contents (Elt F)),
    StableHlo.binary main_v113 main_v118 main_v119 (cmpi .sge : (⟨S2x12544, .i32⟩ : BufTy).Contents (Elt F) → (⟨S2x12544, .i32⟩ : BufTy).Contents (Elt F) → (⟨S2x12544, .i1⟩ : BufTy).Contents (Elt F)),
    StableHlo.nullary main_c_44 (constantI S_ 32 64#32),
    StableHlo.unary main_c_44 main_v120 (broadcastInDim S2x12544 ![] bcast_S_S2x12544 : (⟨S_, .i32⟩ : BufTy).Contents (Elt F) → (⟨S2x12544, .i32⟩ : BufTy).Contents (Elt F)),
    StableHlo.binary main_v113 main_v120 main_v121 (cmpi .slt : (⟨S2x12544, .i32⟩ : BufTy).Contents (Elt F) → (⟨S2x12544, .i32⟩ : BufTy).Contents (Elt F) → (⟨S2x12544, .i1⟩ : BufTy).Contents (Elt F)),
    StableHlo.binary main_v119 main_v121 main_v122 (andi : (⟨S2x12544, .i1⟩ : BufTy).Contents (Elt F) → (⟨S2x12544, .i1⟩ : BufTy).Contents (Elt F) → (⟨S2x12544, .i1⟩ : BufTy).Contents (Elt F)),
    StableHlo.nullary main_c_45 (constantI S_ 32 0#32),
    StableHlo.unary main_c_45 main_v123 (broadcastInDim S2x12544 ![] bcast_S_S2x12544 : (⟨S_, .i32⟩ : BufTy).Contents (Elt F) → (⟨S2x12544, .i32⟩ : BufTy).Contents (Elt F)),
    StableHlo.binary main_v115 main_v123 main_v124 (cmpi .sge : (⟨S2x12544, .i32⟩ : BufTy).Contents (Elt F) → (⟨S2x12544, .i32⟩ : BufTy).Contents (Elt F) → (⟨S2x12544, .i1⟩ : BufTy).Contents (Elt F)),
    StableHlo.binary main_v122 main_v124 main_v125 (andi : (⟨S2x12544, .i1⟩ : BufTy).Contents (Elt F) → (⟨S2x12544, .i1⟩ : BufTy).Contents (Elt F) → (⟨S2x12544, .i1⟩ : BufTy).Contents (Elt F)),
    StableHlo.nullary main_c_46 (constantI S_ 32 64#32),
    StableHlo.unary main_c_46 main_v126 (broadcastInDim S2x12544 ![] bcast_S_S2x12544 : (⟨S_, .i32⟩ : BufTy).Contents (Elt F) → (⟨S2x12544, .i32⟩ : BufTy).Contents (Elt F)),
    StableHlo.binary main_v115 main_v126 main_v127 (cmpi .slt : (⟨S2x12544, .i32⟩ : BufTy).Contents (Elt F) → (⟨S2x12544, .i32⟩ : BufTy).Contents (Elt F) → (⟨S2x12544, .i1⟩ : BufTy).Contents (Elt F)),
    StableHlo.binary main_v125 main_v127 main_v128 (andi : (⟨S2x12544, .i1⟩ : BufTy).Contents (Elt F) → (⟨S2x12544, .i1⟩ : BufTy).Contents (Elt F) → (⟨S2x12544, .i1⟩ : BufTy).Contents (Elt F)),
    StableHlo.nullary main_c_47 (constantI S_ 32 0#32),
    StableHlo.unary main_c_47 main_v129 (broadcastInDim S2x12544 ![] bcast_S_S2x12544 : (⟨S_, .i32⟩ : BufTy).Contents (Elt F) → (⟨S2x12544, .i32⟩ : BufTy).Contents (Elt F)) ]

set_option maxRecDepth 8192 in
set_option maxHeartbeats 4000000 in
/-- Window main_part2 is its operations run in order: the called functions unfolded at their calls and sequencing re-associated, both sides are one chain of steps. -/
theorem main_part2_eq (c : Dev nD) : main_part2 (F := F) c = seq ops_part2 := by
  simp only [main_part2, fn_where.body, seq, bind_assoc, pure_bind] <;> rfl

set_option maxRecDepth 8192 in
/-- Every operation of the window reads and writes TensorCore buffers only. -/
theorem ops_part2_sub : (ops_part2 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., unary_bufs_sub .., unary_bufs_sub .., unary_bufs_sub .., ternary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub ..⟩

set_option maxRecDepth 8192 in
/-- Every operation of the window determines what it writes: none leaves a buffer at arbitrary contents. -/
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part2_W : List (Ref sig .tc) := [main_v84, main_c_34, main_v85, main_v86, main_v87, main_c_35, main_v88, main_v89, main_c_36, main_v90, main_v91, main_v92, main_v93, main_v94, main_v95, main_v96, main_v97, main_cst_37, main_call3_v0, main_call3_v1, main_call3_v2, main_call3_v3, main_v98, main_v99, main_v100, main_v101, main_v102, main_v103, main_v104, main_v105, main_cst_38, main_v106, main_v107, main_cst_39, main_v108, main_v109, main_v110, main_v111, main_c_40, main_v112, main_v113, main_c_41, main_v114, main_v115, main_c_42, main_v116, main_v117, main_c_43, main_v118, main_v119, main_c_44, main_v120, main_v121, main_v122, main_c_45, main_v123, main_v124, main_v125, main_c_46, main_v126, main_v127, main_v128, main_c_47, main_v129]

set_option maxRecDepth 8192 in
/-- Each operation of the window writes one buffer of that list. -/
theorem ops_part2_writes : (ops_part2 : List (HloOp τ sig (Elt F))).Forall fun op => op.writes ⊆ (ops_part2_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

set_option maxRecDepth 8192 in
set_option maxHeartbeats 4000000 in
/-- Window main_part3's 79 operations, in order, calls replaced by the called functions' operations. -/
abbrev ops_part3 : List (HloOp τ sig (Elt F)) :=
  [ StableHlo.binary main_v117 main_v129 main_v130 (cmpi .sge : (⟨S2x12544, .i32⟩ : BufTy).Contents (Elt F) → (⟨S2x12544, .i32⟩ : BufTy).Contents (Elt F) → (⟨S2x12544, .i1⟩ : BufTy).Contents (Elt F)),
    StableHlo.binary main_v128 main_v130 main_v131 (andi : (⟨S2x12544, .i1⟩ : BufTy).Contents (Elt F) → (⟨S2x12544, .i1⟩ : BufTy).Contents (Elt F) → (⟨S2x12544, .i1⟩ : BufTy).Contents (Elt F)),
    StableHlo.nullary main_c_48 (constantI S_ 32 64#32),
    StableHlo.unary main_c_48 main_v132 (broadcastInDim S2x12544 ![] bcast_S_S2x12544 : (⟨S_, .i32⟩ : BufTy).Contents (Elt F) → (⟨S2x12544, .i32⟩ : BufTy).Contents (Elt F)),
    StableHlo.binary main_v117 main_v132 main_v133 (cmpi .slt : (⟨S2x12544, .i32⟩ : BufTy).Contents (Elt F) → (⟨S2x12544, .i32⟩ : BufTy).Contents (Elt F) → (⟨S2x12544, .i1⟩ : BufTy).Contents (Elt F)),
    StableHlo.binary main_v131 main_v133 main_v134 (andi : (⟨S2x12544, .i1⟩ : BufTy).Contents (Elt F) → (⟨S2x12544, .i1⟩ : BufTy).Contents (Elt F) → (⟨S2x12544, .i1⟩ : BufTy).Contents (Elt F)),
    StableHlo.nullary main_c_49 (constantI S_ 32 0#32),
    StableHlo.nullary main_c_50 (constantI S_ 32 63#32),
    StableHlo.TRef.unary (.of main_c_49 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S2x12544, .i32⟩) (broadcastInDim S2x12544 ![] bcast_S_S2x12544),
    StableHlo.TRef.binary (.of main_call4_v1 : StableHlo.TRef sig ⟨S2x12544, .i32⟩) (.of main_v113 : StableHlo.TRef sig ⟨S2x12544, .i32⟩) (.of main_call4_v2 : StableHlo.TRef sig ⟨S2x12544, .i32⟩) maxsi,
    StableHlo.TRef.unary (.of main_c_50 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S2x12544, .i32⟩) (broadcastInDim S2x12544 ![] bcast_S_S2x12544),
    StableHlo.TRef.binary (.of main_call4_v4 : StableHlo.TRef sig ⟨S2x12544, .i32⟩) (.of main_call4_v2 : StableHlo.TRef sig ⟨S2x12544, .i32⟩) (.of main_v135 : StableHlo.TRef sig ⟨S2x12544, .i32⟩) minsi,
    StableHlo.nullary main_c_51 (constantI S_ 32 0#32),
    StableHlo.nullary main_c_52 (constantI S_ 32 63#32),
    StableHlo.TRef.unary (.of main_c_51 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S2x12544, .i32⟩) (broadcastInDim S2x12544 ![] bcast_S_S2x12544),
    StableHlo.TRef.binary (.of main_call5_v1 : StableHlo.TRef sig ⟨S2x12544, .i32⟩) (.of main_v115 : StableHlo.TRef sig ⟨S2x12544, .i32⟩) (.of main_call5_v2 : StableHlo.TRef sig ⟨S2x12544, .i32⟩) maxsi,
    StableHlo.TRef.unary (.of main_c_52 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S2x12544, .i32⟩) (broadcastInDim S2x12544 ![] bcast_S_S2x12544),
    StableHlo.TRef.binary (.of main_call5_v4 : StableHlo.TRef sig ⟨S2x12544, .i32⟩) (.of main_call5_v2 : StableHlo.TRef sig ⟨S2x12544, .i32⟩) (.of main_v136 : StableHlo.TRef sig ⟨S2x12544, .i32⟩) minsi,
    StableHlo.nullary main_c_53 (constantI S_ 32 0#32),
    StableHlo.nullary main_c_54 (constantI S_ 32 63#32),
    StableHlo.TRef.unary (.of main_c_53 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S2x12544, .i32⟩) (broadcastInDim S2x12544 ![] bcast_S_S2x12544),
    StableHlo.TRef.binary (.of main_call6_v1 : StableHlo.TRef sig ⟨S2x12544, .i32⟩) (.of main_v117 : StableHlo.TRef sig ⟨S2x12544, .i32⟩) (.of main_call6_v2 : StableHlo.TRef sig ⟨S2x12544, .i32⟩) maxsi,
    StableHlo.TRef.unary (.of main_c_54 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S2x12544, .i32⟩) (broadcastInDim S2x12544 ![] bcast_S_S2x12544),
    StableHlo.TRef.binary (.of main_call6_v4 : StableHlo.TRef sig ⟨S2x12544, .i32⟩) (.of main_call6_v2 : StableHlo.TRef sig ⟨S2x12544, .i32⟩) (.of main_v137 : StableHlo.TRef sig ⟨S2x12544, .i32⟩) minsi,
    StableHlo.nullary main_c_55 (constantI S_ 32 0#32),
    StableHlo.unary main_c_55 main_v138 (broadcastInDim S2x12544 ![] bcast_S_S2x12544 : (⟨S_, .i32⟩ : BufTy).Contents (Elt F) → (⟨S2x12544, .i32⟩ : BufTy).Contents (Elt F)),
    StableHlo.binary main_v135 main_v138 main_v139 (cmpi .slt : (⟨S2x12544, .i32⟩ : BufTy).Contents (Elt F) → (⟨S2x12544, .i32⟩ : BufTy).Contents (Elt F) → (⟨S2x12544, .i1⟩ : BufTy).Contents (Elt F)),
    StableHlo.nullary main_c_56 (constantI S_ 32 64#32),
    StableHlo.unary main_c_56 main_v140 (broadcastInDim S2x12544 ![] bcast_S_S2x12544 : (⟨S_, .i32⟩ : BufTy).Contents (Elt F) → (⟨S2x12544, .i32⟩ : BufTy).Contents (Elt F)),
    StableHlo.binary main_v135 main_v140 main_v141 (addi : (⟨S2x12544, .i32⟩ : BufTy).Contents (Elt F) → (⟨S2x12544, .i32⟩ : BufTy).Contents (Elt F) → (⟨S2x12544, .i32⟩ : BufTy).Contents (Elt F)),
    StableHlo.ternary main_v139 main_v141 main_v135 main_v142 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_57 (constantI S_ 32 0#32),
    StableHlo.unary main_c_57 main_v143 (broadcastInDim S2x12544 ![] bcast_S_S2x12544 : (⟨S_, .i32⟩ : BufTy).Contents (Elt F) → (⟨S2x12544, .i32⟩ : BufTy).Contents (Elt F)),
    StableHlo.binary main_v136 main_v143 main_v144 (cmpi .slt : (⟨S2x12544, .i32⟩ : BufTy).Contents (Elt F) → (⟨S2x12544, .i32⟩ : BufTy).Contents (Elt F) → (⟨S2x12544, .i1⟩ : BufTy).Contents (Elt F)),
    StableHlo.nullary main_c_58 (constantI S_ 32 64#32),
    StableHlo.unary main_c_58 main_v145 (broadcastInDim S2x12544 ![] bcast_S_S2x12544 : (⟨S_, .i32⟩ : BufTy).Contents (Elt F) → (⟨S2x12544, .i32⟩ : BufTy).Contents (Elt F)),
    StableHlo.binary main_v136 main_v145 main_v146 (addi : (⟨S2x12544, .i32⟩ : BufTy).Contents (Elt F) → (⟨S2x12544, .i32⟩ : BufTy).Contents (Elt F) → (⟨S2x12544, .i32⟩ : BufTy).Contents (Elt F)),
    StableHlo.ternary main_v144 main_v146 main_v136 main_v147 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_59 (constantI S_ 32 0#32),
    StableHlo.unary main_c_59 main_v148 (broadcastInDim S2x12544 ![] bcast_S_S2x12544 : (⟨S_, .i32⟩ : BufTy).Contents (Elt F) → (⟨S2x12544, .i32⟩ : BufTy).Contents (Elt F)),
    StableHlo.binary main_v137 main_v148 main_v149 (cmpi .slt : (⟨S2x12544, .i32⟩ : BufTy).Contents (Elt F) → (⟨S2x12544, .i32⟩ : BufTy).Contents (Elt F) → (⟨S2x12544, .i1⟩ : BufTy).Contents (Elt F)),
    StableHlo.nullary main_c_60 (constantI S_ 32 64#32),
    StableHlo.unary main_c_60 main_v150 (broadcastInDim S2x12544 ![] bcast_S_S2x12544 : (⟨S_, .i32⟩ : BufTy).Contents (Elt F) → (⟨S2x12544, .i32⟩ : BufTy).Contents (Elt F)),
    StableHlo.binary main_v137 main_v150 main_v151 (addi : (⟨S2x12544, .i32⟩ : BufTy).Contents (Elt F) → (⟨S2x12544, .i32⟩ : BufTy).Contents (Elt F) → (⟨S2x12544, .i32⟩ : BufTy).Contents (Elt F)),
    StableHlo.ternary main_v149 main_v151 main_v137 main_v152 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v142 main_v153 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v147 main_v154 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v152 main_v155 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v153, main_v154, main_v155] main_v156 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg0 main_v156 main_v157 ((fun x i => Host.gather gather_S2x100x64x64x64_S2x12544x3_S2x100x12544_1_234_0_0_234_2_1100111 x i) : (⟨S2x100x64x64x64, .f32⟩ : BufTy).Contents (Elt F) → (⟨S2x12544x3, .i32⟩ : BufTy).Contents (Elt F) → (⟨S2x100x12544, .f32⟩ : BufTy).Contents (Elt F)),
    StableHlo.nullary main_cst_61 (constant S_ .f32 0x00000000#32),
    StableHlo.TRef.unary (.of main_cst_61 : StableHlo.TRef sig ⟨S_, .f32⟩) (.of main_call7_v0 : StableHlo.TRef sig ⟨S12544, .f32⟩) (broadcastInDim S12544 ![] bcast_S_S12544),
    StableHlo.TRef.unary (.of main_v134 : StableHlo.TRef sig ⟨S2x12544, .i1⟩) (.of main_call7_v1 : StableHlo.TRef sig ⟨S2x100x12544, .i1⟩) (broadcastInDim S2x100x12544 ![0, 2] bcast_S2x12544_S2x100x12544_0_2),
    StableHlo.TRef.unary (.of main_call7_v0 : StableHlo.TRef sig ⟨S12544, .f32⟩) (.of main_call7_v2 : StableHlo.TRef sig ⟨S100x12544, .f32⟩) (broadcastInDim S100x12544 ![1] bcast_S12544_S100x12544_1),
    StableHlo.TRef.unary (.of main_call7_v2 : StableHlo.TRef sig ⟨S100x12544, .f32⟩) (.of main_call7_v3 : StableHlo.TRef sig ⟨S2x100x12544, .f32⟩) (broadcastInDim S2x100x12544 ![1, 2] bcast_S100x12544_S2x100x12544_1_2),
    StableHlo.TRef.ternary (.of main_call7_v1 : StableHlo.TRef sig ⟨S2x100x12544, .i1⟩) (.of main_v157 : StableHlo.TRef sig ⟨S2x100x12544, .f32⟩) (.of main_call7_v3 : StableHlo.TRef sig ⟨S2x100x12544, .f32⟩) (.of main_v158 : StableHlo.TRef sig ⟨S2x100x12544, .f32⟩) select,
    StableHlo.unary main_v111 main_v159 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v159 main_v160 (broadcastInDim S2x100x12544 ![0, 1, 2] bcast_S2x1x12544_S2x100x12544_0_1_2 : (⟨S2x1x12544, .f32⟩ : BufTy).Contents (Elt F) → (⟨S2x100x12544, .f32⟩ : BufTy).Contents (Elt F)),
    StableHlo.binary main_v160 main_v158 main_v161 (mulf : (⟨S2x100x12544, .f32⟩ : BufTy).Contents (Elt F) → (⟨S2x100x12544, .f32⟩ : BufTy).Contents (Elt F) → (⟨S2x100x12544, .f32⟩ : BufTy).Contents (Elt F)),
    StableHlo.binary main_v105 main_v161 main_v162 (addf : (⟨S2x100x12544, .f32⟩ : BufTy).Contents (Elt F) → (⟨S2x100x12544, .f32⟩ : BufTy).Contents (Elt F) → (⟨S2x100x12544, .f32⟩ : BufTy).Contents (Elt F)),
    StableHlo.nullary main_cst_62 (constant S_ .f32 0x3F800000#32),
    StableHlo.unary main_cst_62 main_v163 (broadcastInDim S2x12544 ![] bcast_S_S2x12544 : (⟨S_, .f32⟩ : BufTy).Contents (Elt F) → (⟨S2x12544, .f32⟩ : BufTy).Contents (Elt F)),
    StableHlo.binary main_v163 main_v39 main_v164 (subf : (⟨S2x12544, .f32⟩ : BufTy).Contents (Elt F) → (⟨S2x12544, .f32⟩ : BufTy).Contents (Elt F) → (⟨S2x12544, .f32⟩ : BufTy).Contents (Elt F)),
    StableHlo.binary main_v164 main_v38 main_v165 (mulf : (⟨S2x12544, .f32⟩ : BufTy).Contents (Elt F) → (⟨S2x12544, .f32⟩ : BufTy).Contents (Elt F) → (⟨S2x12544, .f32⟩ : BufTy).Contents (Elt F)),
    StableHlo.nullary main_cst_63 (constant S_ .f32 0x3F800000#32),
    StableHlo.unary main_cst_63 main_v166 (broadcastInDim S2x12544 ![] bcast_S_S2x12544 : (⟨S_, .f32⟩ : BufTy).Contents (Elt F) → (⟨S2x12544, .f32⟩ : BufTy).Contents (Elt F)),
    StableHlo.binary main_v166 main_v37 main_v167 (subf : (⟨S2x12544, .f32⟩ : BufTy).Contents (Elt F) → (⟨S2x12544, .f32⟩ : BufTy).Contents (Elt F) → (⟨S2x12544, .f32⟩ : BufTy).Contents (Elt F)),
    StableHlo.binary main_v165 main_v167 main_v168 (mulf : (⟨S2x12544, .f32⟩ : BufTy).Contents (Elt F) → (⟨S2x12544, .f32⟩ : BufTy).Contents (Elt F) → (⟨S2x12544, .f32⟩ : BufTy).Contents (Elt F)),
    StableHlo.nullary main_c_64 (constantI S_ 32 0#32),
    StableHlo.unary main_c_64 main_v169 (broadcastInDim S2x12544 ![] bcast_S_S2x12544 : (⟨S_, .i32⟩ : BufTy).Contents (Elt F) → (⟨S2x12544, .i32⟩ : BufTy).Contents (Elt F)),
    StableHlo.binary main_v42 main_v169 main_v170 (addi : (⟨S2x12544, .i32⟩ : BufTy).Contents (Elt F) → (⟨S2x12544, .i32⟩ : BufTy).Contents (Elt F) → (⟨S2x12544, .i32⟩ : BufTy).Contents (Elt F)),
    StableHlo.nullary main_c_65 (constantI S_ 32 1#32),
    StableHlo.unary main_c_65 main_v171 (broadcastInDim S2x12544 ![] bcast_S_S2x12544 : (⟨S_, .i32⟩ : BufTy).Contents (Elt F) → (⟨S2x12544, .i32⟩ : BufTy).Contents (Elt F)) ]

set_option maxRecDepth 8192 in
set_option maxHeartbeats 4000000 in
/-- Window main_part3 is its operations run in order: the called functions unfolded at their calls and sequencing re-associated, both sides are one chain of steps. -/
theorem main_part3_eq (c : Dev nD) : main_part3 (F := F) c = seq ops_part3 := by
  simp only [main_part3, fn_clip.body, fn_where.body, seq, bind_assoc, pure_bind] <;> rfl

set_option maxRecDepth 8192 in
/-- Every operation of the window reads and writes TensorCore buffers only. -/
theorem ops_part3_sub : (ops_part3 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., unary_bufs_sub .., unary_bufs_sub .., unary_bufs_sub .., ternary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub ..⟩

set_option maxRecDepth 8192 in
/-- Every operation of the window determines what it writes: none leaves a buffer at arbitrary contents. -/
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part3_W : List (Ref sig .tc) := [main_v130, main_v131, main_c_48, main_v132, main_v133, main_v134, main_c_49, main_c_50, main_call4_v0, main_call4_v1, main_call4_v2, main_call4_v3, main_call4_v4, main_v135, main_c_51, main_c_52, main_call5_v0, main_call5_v1, main_call5_v2, main_call5_v3, main_call5_v4, main_v136, main_c_53, main_c_54, main_call6_v0, main_call6_v1, main_call6_v2, main_call6_v3, main_call6_v4, main_v137, main_c_55, main_v138, main_v139, main_c_56, main_v140, main_v141, main_v142, main_c_57, main_v143, main_v144, main_c_58, main_v145, main_v146, main_v147, main_c_59, main_v148, main_v149, main_c_60, main_v150, main_v151, main_v152, main_v153, main_v154, main_v155, main_v156, main_v157, main_cst_61, main_call7_v0, main_call7_v1, main_call7_v2, main_call7_v3, main_v158, main_v159, main_v160, main_v161, main_v162, main_cst_62, main_v163, main_v164, main_v165, main_cst_63, main_v166, main_v167, main_v168, main_c_64, main_v169, main_v170, main_c_65, main_v171]

set_option maxRecDepth 8192 in
/-- Each operation of the window writes one buffer of that list. -/
theorem ops_part3_writes : (ops_part3 : List (HloOp τ sig (Elt F))).Forall fun op => op.writes ⊆ (ops_part3_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

end Cert.ReferenceIdeal.HandRun

end
-- ==== Proof.RefRunP2.lean ====
/- The reference program's @main, windows main_part4 … main_part5, as LISTS of host operations: each printed
   statement one entry, in order, and each call replaced by the called function's operations over the buffers that
   call names (its record), a call inside a called function likewise. With each list: the window equals the list run
   in order, every operation's buffers are TensorCore buffers, no operation leaves a buffer undetermined, and the
   list of buffers the window writes. -/
import proofs.«103167_j42614665511136_1_alg».proof.Proof.Gen.ReferenceIdeal
import Idealize.ShloMosaic.Lib.StableHlo.Run
import proofs.«103167_j42614665511136_1_alg».proof.Proof.RefRunP0

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window main_part4's 75 operations, in order, calls replaced by the called functions' operations. -/
abbrev ops_part4 : List (HloOp τ sig (Elt F)) :=
  [ StableHlo.binary main_v41 main_v171 main_v172 (addi : (⟨S2x12544, .i32⟩ : BufTy).Contents (Elt F) → (⟨S2x12544, .i32⟩ : BufTy).Contents (Elt F) → (⟨S2x12544, .i32⟩ : BufTy).Contents (Elt F)),
    StableHlo.nullary main_c_66 (constantI S_ 32 0#32),
    StableHlo.unary main_c_66 main_v173 (broadcastInDim S2x12544 ![] bcast_S_S2x12544 : (⟨S_, .i32⟩ : BufTy).Contents (Elt F) → (⟨S2x12544, .i32⟩ : BufTy).Contents (Elt F)),
    StableHlo.binary main_v40 main_v173 main_v174 (addi : (⟨S2x12544, .i32⟩ : BufTy).Contents (Elt F) → (⟨S2x12544, .i32⟩ : BufTy).Contents (Elt F) → (⟨S2x12544, .i32⟩ : BufTy).Contents (Elt F)),
    StableHlo.nullary main_c_67 (constantI S_ 32 0#32),
    StableHlo.unary main_c_67 main_v175 (broadcastInDim S2x12544 ![] bcast_S_S2x12544 : (⟨S_, .i32⟩ : BufTy).Contents (Elt F) → (⟨S2x12544, .i32⟩ : BufTy).Contents (Elt F)),
    StableHlo.binary main_v170 main_v175 main_v176 (cmpi .sge : (⟨S2x12544, .i32⟩ : BufTy).Contents (Elt F) → (⟨S2x12544, .i32⟩ : BufTy).Contents (Elt F) → (⟨S2x12544, .i1⟩ : BufTy).Contents (Elt F)),
    StableHlo.nullary main_c_68 (constantI S_ 32 64#32),
    StableHlo.unary main_c_68 main_v177 (broadcastInDim S2x12544 ![] bcast_S_S2x12544 : (⟨S_, .i32⟩ : BufTy).Contents (Elt F) → (⟨S2x12544, .i32⟩ : BufTy).Contents (Elt F)),
    StableHlo.binary main_v170 main_v177 main_v178 (cmpi .slt : (⟨S2x12544, .i32⟩ : BufTy).Contents (Elt F) → (⟨S2x12544, .i32⟩ : BufTy).Contents (Elt F) → (⟨S2x12544, .i1⟩ : BufTy).Contents (Elt F)),
    StableHlo.binary main_v176 main_v178 main_v179 (andi : (⟨S2x12544, .i1⟩ : BufTy).Contents (Elt F) → (⟨S2x12544, .i1⟩ : BufTy).Contents (Elt F) → (⟨S2x12544, .i1⟩ : BufTy).Contents (Elt F)),
    StableHlo.nullary main_c_69 (constantI S_ 32 0#32),
    StableHlo.unary main_c_69 main_v180 (broadcastInDim S2x12544 ![] bcast_S_S2x12544 : (⟨S_, .i32⟩ : BufTy).Contents (Elt F) → (⟨S2x12544, .i32⟩ : BufTy).Contents (Elt F)),
    StableHlo.binary main_v172 main_v180 main_v181 (cmpi .sge : (⟨S2x12544, .i32⟩ : BufTy).Contents (Elt F) → (⟨S2x12544, .i32⟩ : BufTy).Contents (Elt F) → (⟨S2x12544, .i1⟩ : BufTy).Contents (Elt F)),
    StableHlo.binary main_v179 main_v181 main_v182 (andi : (⟨S2x12544, .i1⟩ : BufTy).Contents (Elt F) → (⟨S2x12544, .i1⟩ : BufTy).Contents (Elt F) → (⟨S2x12544, .i1⟩ : BufTy).Contents (Elt F)),
    StableHlo.nullary main_c_70 (constantI S_ 32 64#32),
    StableHlo.unary main_c_70 main_v183 (broadcastInDim S2x12544 ![] bcast_S_S2x12544 : (⟨S_, .i32⟩ : BufTy).Contents (Elt F) → (⟨S2x12544, .i32⟩ : BufTy).Contents (Elt F)),
    StableHlo.binary main_v172 main_v183 main_v184 (cmpi .slt : (⟨S2x12544, .i32⟩ : BufTy).Contents (Elt F) → (⟨S2x12544, .i32⟩ : BufTy).Contents (Elt F) → (⟨S2x12544, .i1⟩ : BufTy).Contents (Elt F)),
    StableHlo.binary main_v182 main_v184 main_v185 (andi : (⟨S2x12544, .i1⟩ : BufTy).Contents (Elt F) → (⟨S2x12544, .i1⟩ : BufTy).Contents (Elt F) → (⟨S2x12544, .i1⟩ : BufTy).Contents (Elt F)),
    StableHlo.nullary main_c_71 (constantI S_ 32 0#32),
    StableHlo.unary main_c_71 main_v186 (broadcastInDim S2x12544 ![] bcast_S_S2x12544 : (⟨S_, .i32⟩ : BufTy).Contents (Elt F) → (⟨S2x12544, .i32⟩ : BufTy).Contents (Elt F)),
    StableHlo.binary main_v174 main_v186 main_v187 (cmpi .sge : (⟨S2x12544, .i32⟩ : BufTy).Contents (Elt F) → (⟨S2x12544, .i32⟩ : BufTy).Contents (Elt F) → (⟨S2x12544, .i1⟩ : BufTy).Contents (Elt F)),
    StableHlo.binary main_v185 main_v187 main_v188 (andi : (⟨S2x12544, .i1⟩ : BufTy).Contents (Elt F) → (⟨S2x12544, .i1⟩ : BufTy).Contents (Elt F) → (⟨S2x12544, .i1⟩ : BufTy).Contents (Elt F)),
    StableHlo.nullary main_c_72 (constantI S_ 32 64#32),
    StableHlo.unary main_c_72 main_v189 (broadcastInDim S2x12544 ![] bcast_S_S2x12544 : (⟨S_, .i32⟩ : BufTy).Contents (Elt F) → (⟨S2x12544, .i32⟩ : BufTy).Contents (Elt F)),
    StableHlo.binary main_v174 main_v189 main_v190 (cmpi .slt : (⟨S2x12544, .i32⟩ : BufTy).Contents (Elt F) → (⟨S2x12544, .i32⟩ : BufTy).Contents (Elt F) → (⟨S2x12544, .i1⟩ : BufTy).Contents (Elt F)),
    StableHlo.binary main_v188 main_v190 main_v191 (andi : (⟨S2x12544, .i1⟩ : BufTy).Contents (Elt F) → (⟨S2x12544, .i1⟩ : BufTy).Contents (Elt F) → (⟨S2x12544, .i1⟩ : BufTy).Contents (Elt F)),
    StableHlo.nullary main_c_73 (constantI S_ 32 0#32),
    StableHlo.nullary main_c_74 (constantI S_ 32 63#32),
    StableHlo.TRef.unary (.of main_c_73 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S2x12544, .i32⟩) (broadcastInDim S2x12544 ![] bcast_S_S2x12544),
    StableHlo.TRef.binary (.of main_call8_v1 : StableHlo.TRef sig ⟨S2x12544, .i32⟩) (.of main_v170 : StableHlo.TRef sig ⟨S2x12544, .i32⟩) (.of main_call8_v2 : StableHlo.TRef sig ⟨S2x12544, .i32⟩) maxsi,
    StableHlo.TRef.unary (.of main_c_74 : StableHlo.TRef sig ⟨S_, .i32⟩) (.of main_call8_v3 : StableHlo.TRef sig ⟨S_, .i32⟩) id,
    StableHlo.TRef.unary (.of main_call8_v3 : StableHlo.TRef sig ⟨S_, .i32⟩) (.of main_call8_v4 : StableHlo.TRef sig ⟨S2x12544, .i32⟩) (broadcastInDim S2x12544 ![] bcast_S_S2x12544),
    StableHlo.TRef.binary (.of main_call8_v4 : StableHlo.TRef sig ⟨S2x12544, .i32⟩) (.of main_call8_v2 : StableHlo.TRef sig ⟨S2x12544, .i32⟩) (.of main_v192 : StableHlo.TRef sig ⟨S2x12544, .i32⟩) minsi,
    StableHlo.nullary main_c_75 (constantI S_ 32 0#32),
    StableHlo.nullary main_c_76 (constantI S_ 32 63#32),
    StableHlo.TRef.unary (.of main_c_75 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S2x12544, .i32⟩) (broadcastInDim S2x12544 ![] bcast_S_S2x12544),
    StableHlo.TRef.binary (.of main_call9_v1 : StableHlo.TRef sig ⟨S2x12544, .i32⟩) (.of main_v172 : StableHlo.TRef sig ⟨S2x12544, .i32⟩) (.of main_call9_v2 : StableHlo.TRef sig ⟨S2x12544, .i32⟩) maxsi,
    StableHlo.TRef.unary (.of main_c_76 : StableHlo.TRef sig ⟨S_, .i32⟩) (.of main_call9_v3 : StableHlo.TRef sig ⟨S_, .i32⟩) id,
    StableHlo.TRef.unary (.of main_call9_v3 : StableHlo.TRef sig ⟨S_, .i32⟩) (.of main_call9_v4 : StableHlo.TRef sig ⟨S2x12544, .i32⟩) (broadcastInDim S2x12544 ![] bcast_S_S2x12544),
    StableHlo.TRef.binary (.of main_call9_v4 : StableHlo.TRef sig ⟨S2x12544, .i32⟩) (.of main_call9_v2 : StableHlo.TRef sig ⟨S2x12544, .i32⟩) (.of main_v193 : StableHlo.TRef sig ⟨S2x12544, .i32⟩) minsi,
    StableHlo.nullary main_c_77 (constantI S_ 32 0#32),
    StableHlo.nullary main_c_78 (constantI S_ 32 63#32),
    StableHlo.TRef.unary (.of main_c_77 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S2x12544, .i32⟩) (broadcastInDim S2x12544 ![] bcast_S_S2x12544),
    StableHlo.TRef.binary (.of main_call10_v1 : StableHlo.TRef sig ⟨S2x12544, .i32⟩) (.of main_v174 : StableHlo.TRef sig ⟨S2x12544, .i32⟩) (.of main_call10_v2 : StableHlo.TRef sig ⟨S2x12544, .i32⟩) maxsi,
    StableHlo.TRef.unary (.of main_c_78 : StableHlo.TRef sig ⟨S_, .i32⟩) (.of main_call10_v3 : StableHlo.TRef sig ⟨S_, .i32⟩) id,
    StableHlo.TRef.unary (.of main_call10_v3 : StableHlo.TRef sig ⟨S_, .i32⟩) (.of main_call10_v4 : StableHlo.TRef sig ⟨S2x12544, .i32⟩) (broadcastInDim S2x12544 ![] bcast_S_S2x12544),
    StableHlo.TRef.binary (.of main_call10_v4 : StableHlo.TRef sig ⟨S2x12544, .i32⟩) (.of main_call10_v2 : StableHlo.TRef sig ⟨S2x12544, .i32⟩) (.of main_v194 : StableHlo.TRef sig ⟨S2x12544, .i32⟩) minsi,
    StableHlo.nullary main_c_79 (constantI S_ 32 0#32),
    StableHlo.unary main_c_79 main_v195 (broadcastInDim S2x12544 ![] bcast_S_S2x12544 : (⟨S_, .i32⟩ : BufTy).Contents (Elt F) → (⟨S2x12544, .i32⟩ : BufTy).Contents (Elt F)),
    StableHlo.binary main_v192 main_v195 main_v196 (cmpi .slt : (⟨S2x12544, .i32⟩ : BufTy).Contents (Elt F) → (⟨S2x12544, .i32⟩ : BufTy).Contents (Elt F) → (⟨S2x12544, .i1⟩ : BufTy).Contents (Elt F)),
    StableHlo.nullary main_c_80 (constantI S_ 32 64#32),
    StableHlo.unary main_c_80 main_v197 (broadcastInDim S2x12544 ![] bcast_S_S2x12544 : (⟨S_, .i32⟩ : BufTy).Contents (Elt F) → (⟨S2x12544, .i32⟩ : BufTy).Contents (Elt F)),
    StableHlo.binary main_v192 main_v197 main_v198 (addi : (⟨S2x12544, .i32⟩ : BufTy).Contents (Elt F) → (⟨S2x12544, .i32⟩ : BufTy).Contents (Elt F) → (⟨S2x12544, .i32⟩ : BufTy).Contents (Elt F)),
    StableHlo.ternary main_v196 main_v198 main_v192 main_v199 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_81 (constantI S_ 32 0#32),
    StableHlo.unary main_c_81 main_v200 (broadcastInDim S2x12544 ![] bcast_S_S2x12544 : (⟨S_, .i32⟩ : BufTy).Contents (Elt F) → (⟨S2x12544, .i32⟩ : BufTy).Contents (Elt F)),
    StableHlo.binary main_v193 main_v200 main_v201 (cmpi .slt : (⟨S2x12544, .i32⟩ : BufTy).Contents (Elt F) → (⟨S2x12544, .i32⟩ : BufTy).Contents (Elt F) → (⟨S2x12544, .i1⟩ : BufTy).Contents (Elt F)),
    StableHlo.nullary main_c_82 (constantI S_ 32 64#32),
    StableHlo.unary main_c_82 main_v202 (broadcastInDim S2x12544 ![] bcast_S_S2x12544 : (⟨S_, .i32⟩ : BufTy).Contents (Elt F) → (⟨S2x12544, .i32⟩ : BufTy).Contents (Elt F)),
    StableHlo.binary main_v193 main_v202 main_v203 (addi : (⟨S2x12544, .i32⟩ : BufTy).Contents (Elt F) → (⟨S2x12544, .i32⟩ : BufTy).Contents (Elt F) → (⟨S2x12544, .i32⟩ : BufTy).Contents (Elt F)),
    StableHlo.ternary main_v201 main_v203 main_v193 main_v204 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_83 (constantI S_ 32 0#32),
    StableHlo.unary main_c_83 main_v205 (broadcastInDim S2x12544 ![] bcast_S_S2x12544 : (⟨S_, .i32⟩ : BufTy).Contents (Elt F) → (⟨S2x12544, .i32⟩ : BufTy).Contents (Elt F)),
    StableHlo.binary main_v194 main_v205 main_v206 (cmpi .slt : (⟨S2x12544, .i32⟩ : BufTy).Contents (Elt F) → (⟨S2x12544, .i32⟩ : BufTy).Contents (Elt F) → (⟨S2x12544, .i1⟩ : BufTy).Contents (Elt F)),
    StableHlo.nullary main_c_84 (constantI S_ 32 64#32),
    StableHlo.unary main_c_84 main_v207 (broadcastInDim S2x12544 ![] bcast_S_S2x12544 : (⟨S_, .i32⟩ : BufTy).Contents (Elt F) → (⟨S2x12544, .i32⟩ : BufTy).Contents (Elt F)),
    StableHlo.binary main_v194 main_v207 main_v208 (addi : (⟨S2x12544, .i32⟩ : BufTy).Contents (Elt F) → (⟨S2x12544, .i32⟩ : BufTy).Contents (Elt F) → (⟨S2x12544, .i32⟩ : BufTy).Contents (Elt F)),
    StableHlo.ternary main_v206 main_v208 main_v194 main_v209 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v199 main_v210 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v204 main_v211 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v209 main_v212 (broadcastInDim S2x12544x1 ![0, 1] bcast_S2x12544_S2x12544x1_0_1 : (⟨S2x12544, .i32⟩ : BufTy).Contents (Elt F) → (⟨S2x12544x1, .i32⟩ : BufTy).Contents (Elt F)) ]

set_option maxRecDepth 8192 in
set_option maxHeartbeats 4000000 in
/-- Window main_part4 is its operations run in order: the called functions unfolded at their calls and sequencing re-associated, both sides are one chain of steps. -/
theorem main_part4_eq (c : Dev nD) : main_part4 (F := F) c = seq ops_part4 := by
  simp only [main_part4, fn_clip.body, seq, bind_assoc, pure_bind] <;> rfl

set_option maxRecDepth 8192 in
/-- Every operation of the window reads and writes TensorCore buffers only. -/
theorem ops_part4_sub : (ops_part4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

set_option maxRecDepth 8192 in
/-- Every operation of the window determines what it writes: none leaves a buffer at arbitrary contents. -/
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part4_W : List (Ref sig .tc) := [main_v172, main_c_66, main_v173, main_v174, main_c_67, main_v175, main_v176, main_c_68, main_v177, main_v178, main_v179, main_c_69, main_v180, main_v181, main_v182, main_c_70, main_v183, main_v184, main_v185, main_c_71, main_v186, main_v187, main_v188, main_c_72, main_v189, main_v190, main_v191, main_c_73, main_c_74, main_call8_v0, main_call8_v1, main_call8_v2, main_call8_v3, main_call8_v4, main_v192, main_c_75, main_c_76, main_call9_v0, main_call9_v1, main_call9_v2, main_call9_v3, main_call9_v4, main_v193, main_c_77, main_c_78, main_call10_v0, main_call10_v1, main_call10_v2, main_call10_v3, main_call10_v4, main_v194, main_c_79, main_v195, main_v196, main_c_80, main_v197, main_v198, main_v199, main_c_81, main_v200, main_v201, main_c_82, main_v202, main_v203, main_v204, main_c_83, main_v205, main_v206, main_c_84, main_v207, main_v208, main_v209, main_v210, main_v211, main_v212]

set_option maxRecDepth 8192 in
/-- Each operation of the window writes one buffer of that list. -/
theorem ops_part4_writes : (ops_part4 : List (HloOp τ sig (Elt F))).Forall fun op => op.writes ⊆ (ops_part4_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

set_option maxRecDepth 8192 in
set_option maxHeartbeats 4000000 in
/-- Window main_part5's 79 operations, in order, calls replaced by the called functions' operations. -/
abbrev ops_part5 : List (HloOp τ sig (Elt F)) :=
  [ StableHlo.nary ![main_v210, main_v211, main_v212] main_v213 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg0 main_v213 main_v214 ((fun x i => Host.gather gather_S2x100x64x64x64_S2x12544x3_S2x100x12544_1_234_0_0_234_2_1100111 x i) : (⟨S2x100x64x64x64, .f32⟩ : BufTy).Contents (Elt F) → (⟨S2x12544x3, .i32⟩ : BufTy).Contents (Elt F) → (⟨S2x100x12544, .f32⟩ : BufTy).Contents (Elt F)),
    StableHlo.nullary main_cst_85 (constant S_ .f32 0x00000000#32),
    StableHlo.TRef.unary (.of main_cst_85 : StableHlo.TRef sig ⟨S_, .f32⟩) (.of main_call11_v0 : StableHlo.TRef sig ⟨S12544, .f32⟩) (broadcastInDim S12544 ![] bcast_S_S12544),
    StableHlo.TRef.unary (.of main_v191 : StableHlo.TRef sig ⟨S2x12544, .i1⟩) (.of main_call11_v1 : StableHlo.TRef sig ⟨S2x100x12544, .i1⟩) (broadcastInDim S2x100x12544 ![0, 2] bcast_S2x12544_S2x100x12544_0_2),
    StableHlo.TRef.unary (.of main_call11_v0 : StableHlo.TRef sig ⟨S12544, .f32⟩) (.of main_call11_v2 : StableHlo.TRef sig ⟨S100x12544, .f32⟩) (broadcastInDim S100x12544 ![1] bcast_S12544_S100x12544_1),
    StableHlo.TRef.unary (.of main_call11_v2 : StableHlo.TRef sig ⟨S100x12544, .f32⟩) (.of main_call11_v3 : StableHlo.TRef sig ⟨S2x100x12544, .f32⟩) (broadcastInDim S2x100x12544 ![1, 2] bcast_S100x12544_S2x100x12544_1_2),
    StableHlo.TRef.ternary (.of main_call11_v1 : StableHlo.TRef sig ⟨S2x100x12544, .i1⟩) (.of main_v214 : StableHlo.TRef sig ⟨S2x100x12544, .f32⟩) (.of main_call11_v3 : StableHlo.TRef sig ⟨S2x100x12544, .f32⟩) (.of main_v215 : StableHlo.TRef sig ⟨S2x100x12544, .f32⟩) select,
    StableHlo.unary main_v168 main_v216 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v216 main_v217 (broadcastInDim S2x100x12544 ![0, 1, 2] bcast_S2x1x12544_S2x100x12544_0_1_2 : (⟨S2x1x12544, .f32⟩ : BufTy).Contents (Elt F) → (⟨S2x100x12544, .f32⟩ : BufTy).Contents (Elt F)),
    StableHlo.binary main_v217 main_v215 main_v218 (mulf : (⟨S2x100x12544, .f32⟩ : BufTy).Contents (Elt F) → (⟨S2x100x12544, .f32⟩ : BufTy).Contents (Elt F) → (⟨S2x100x12544, .f32⟩ : BufTy).Contents (Elt F)),
    StableHlo.binary main_v162 main_v218 main_v219 (addf : (⟨S2x100x12544, .f32⟩ : BufTy).Contents (Elt F) → (⟨S2x100x12544, .f32⟩ : BufTy).Contents (Elt F) → (⟨S2x100x12544, .f32⟩ : BufTy).Contents (Elt F)),
    StableHlo.nullary main_cst_86 (constant S_ .f32 0x3F800000#32),
    StableHlo.unary main_cst_86 main_v220 (broadcastInDim S2x12544 ![] bcast_S_S2x12544 : (⟨S_, .f32⟩ : BufTy).Contents (Elt F) → (⟨S2x12544, .f32⟩ : BufTy).Contents (Elt F)),
    StableHlo.binary main_v220 main_v39 main_v221 (subf : (⟨S2x12544, .f32⟩ : BufTy).Contents (Elt F) → (⟨S2x12544, .f32⟩ : BufTy).Contents (Elt F) → (⟨S2x12544, .f32⟩ : BufTy).Contents (Elt F)),
    StableHlo.binary main_v221 main_v38 main_v222 (mulf : (⟨S2x12544, .f32⟩ : BufTy).Contents (Elt F) → (⟨S2x12544, .f32⟩ : BufTy).Contents (Elt F) → (⟨S2x12544, .f32⟩ : BufTy).Contents (Elt F)),
    StableHlo.binary main_v222 main_v37 main_v223 (mulf : (⟨S2x12544, .f32⟩ : BufTy).Contents (Elt F) → (⟨S2x12544, .f32⟩ : BufTy).Contents (Elt F) → (⟨S2x12544, .f32⟩ : BufTy).Contents (Elt F)),
    StableHlo.nullary main_c_87 (constantI S_ 32 0#32),
    StableHlo.unary main_c_87 main_v224 (broadcastInDim S2x12544 ![] bcast_S_S2x12544 : (⟨S_, .i32⟩ : BufTy).Contents (Elt F) → (⟨S2x12544, .i32⟩ : BufTy).Contents (Elt F)),
    StableHlo.binary main_v42 main_v224 main_v225 (addi : (⟨S2x12544, .i32⟩ : BufTy).Contents (Elt F) → (⟨S2x12544, .i32⟩ : BufTy).Contents (Elt F) → (⟨S2x12544, .i32⟩ : BufTy).Contents (Elt F)),
    StableHlo.nullary main_c_88 (constantI S_ 32 1#32),
    StableHlo.unary main_c_88 main_v226 (broadcastInDim S2x12544 ![] bcast_S_S2x12544 : (⟨S_, .i32⟩ : BufTy).Contents (Elt F) → (⟨S2x12544, .i32⟩ : BufTy).Contents (Elt F)),
    StableHlo.binary main_v41 main_v226 main_v227 (addi : (⟨S2x12544, .i32⟩ : BufTy).Contents (Elt F) → (⟨S2x12544, .i32⟩ : BufTy).Contents (Elt F) → (⟨S2x12544, .i32⟩ : BufTy).Contents (Elt F)),
    StableHlo.nullary main_c_89 (constantI S_ 32 1#32),
    StableHlo.unary main_c_89 main_v228 (broadcastInDim S2x12544 ![] bcast_S_S2x12544 : (⟨S_, .i32⟩ : BufTy).Contents (Elt F) → (⟨S2x12544, .i32⟩ : BufTy).Contents (Elt F)),
    StableHlo.binary main_v40 main_v228 main_v229 (addi : (⟨S2x12544, .i32⟩ : BufTy).Contents (Elt F) → (⟨S2x12544, .i32⟩ : BufTy).Contents (Elt F) → (⟨S2x12544, .i32⟩ : BufTy).Contents (Elt F)),
    StableHlo.nullary main_c_90 (constantI S_ 32 0#32),
    StableHlo.unary main_c_90 main_v230 (broadcastInDim S2x12544 ![] bcast_S_S2x12544 : (⟨S_, .i32⟩ : BufTy).Contents (Elt F) → (⟨S2x12544, .i32⟩ : BufTy).Contents (Elt F)),
    StableHlo.binary main_v225 main_v230 main_v231 (cmpi .sge : (⟨S2x12544, .i32⟩ : BufTy).Contents (Elt F) → (⟨S2x12544, .i32⟩ : BufTy).Contents (Elt F) → (⟨S2x12544, .i1⟩ : BufTy).Contents (Elt F)),
    StableHlo.nullary main_c_91 (constantI S_ 32 64#32),
    StableHlo.unary main_c_91 main_v232 (broadcastInDim S2x12544 ![] bcast_S_S2x12544 : (⟨S_, .i32⟩ : BufTy).Contents (Elt F) → (⟨S2x12544, .i32⟩ : BufTy).Contents (Elt F)),
    StableHlo.binary main_v225 main_v232 main_v233 (cmpi .slt : (⟨S2x12544, .i32⟩ : BufTy).Contents (Elt F) → (⟨S2x12544, .i32⟩ : BufTy).Contents (Elt F) → (⟨S2x12544, .i1⟩ : BufTy).Contents (Elt F)),
    StableHlo.binary main_v231 main_v233 main_v234 (andi : (⟨S2x12544, .i1⟩ : BufTy).Contents (Elt F) → (⟨S2x12544, .i1⟩ : BufTy).Contents (Elt F) → (⟨S2x12544, .i1⟩ : BufTy).Contents (Elt F)),
    StableHlo.nullary main_c_92 (constantI S_ 32 0#32),
    StableHlo.unary main_c_92 main_v235 (broadcastInDim S2x12544 ![] bcast_S_S2x12544 : (⟨S_, .i32⟩ : BufTy).Contents (Elt F) → (⟨S2x12544, .i32⟩ : BufTy).Contents (Elt F)),
    StableHlo.binary main_v227 main_v235 main_v236 (cmpi .sge : (⟨S2x12544, .i32⟩ : BufTy).Contents (Elt F) → (⟨S2x12544, .i32⟩ : BufTy).Contents (Elt F) → (⟨S2x12544, .i1⟩ : BufTy).Contents (Elt F)),
    StableHlo.binary main_v234 main_v236 main_v237 (andi : (⟨S2x12544, .i1⟩ : BufTy).Contents (Elt F) → (⟨S2x12544, .i1⟩ : BufTy).Contents (Elt F) → (⟨S2x12544, .i1⟩ : BufTy).Contents (Elt F)),
    StableHlo.nullary main_c_93 (constantI S_ 32 64#32),
    StableHlo.unary main_c_93 main_v238 (broadcastInDim S2x12544 ![] bcast_S_S2x12544 : (⟨S_, .i32⟩ : BufTy).Contents (Elt F) → (⟨S2x12544, .i32⟩ : BufTy).Contents (Elt F)),
    StableHlo.binary main_v227 main_v238 main_v239 (cmpi .slt : (⟨S2x12544, .i32⟩ : BufTy).Contents (Elt F) → (⟨S2x12544, .i32⟩ : BufTy).Contents (Elt F) → (⟨S2x12544, .i1⟩ : BufTy).Contents (Elt F)),
    StableHlo.binary main_v237 main_v239 main_v240 (andi : (⟨S2x12544, .i1⟩ : BufTy).Contents (Elt F) → (⟨S2x12544, .i1⟩ : BufTy).Contents (Elt F) → (⟨S2x12544, .i1⟩ : BufTy).Contents (Elt F)),
    StableHlo.nullary main_c_94 (constantI S_ 32 0#32),
    StableHlo.unary main_c_94 main_v241 (broadcastInDim S2x12544 ![] bcast_S_S2x12544 : (⟨S_, .i32⟩ : BufTy).Contents (Elt F) → (⟨S2x12544, .i32⟩ : BufTy).Contents (Elt F)),
    StableHlo.binary main_v229 main_v241 main_v242 (cmpi .sge : (⟨S2x12544, .i32⟩ : BufTy).Contents (Elt F) → (⟨S2x12544, .i32⟩ : BufTy).Contents (Elt F) → (⟨S2x12544, .i1⟩ : BufTy).Contents (Elt F)),
    StableHlo.binary main_v240 main_v242 main_v243 (andi : (⟨S2x12544, .i1⟩ : BufTy).Contents (Elt F) → (⟨S2x12544, .i1⟩ : BufTy).Contents (Elt F) → (⟨S2x12544, .i1⟩ : BufTy).Contents (Elt F)),
    StableHlo.nullary main_c_95 (constantI S_ 32 64#32),
    StableHlo.unary main_c_95 main_v244 (broadcastInDim S2x12544 ![] bcast_S_S2x12544 : (⟨S_, .i32⟩ : BufTy).Contents (Elt F) → (⟨S2x12544, .i32⟩ : BufTy).Contents (Elt F)),
    StableHlo.binary main_v229 main_v244 main_v245 (cmpi .slt : (⟨S2x12544, .i32⟩ : BufTy).Contents (Elt F) → (⟨S2x12544, .i32⟩ : BufTy).Contents (Elt F) → (⟨S2x12544, .i1⟩ : BufTy).Contents (Elt F)),
    StableHlo.binary main_v243 main_v245 main_v246 (andi : (⟨S2x12544, .i1⟩ : BufTy).Contents (Elt F) → (⟨S2x12544, .i1⟩ : BufTy).Contents (Elt F) → (⟨S2x12544, .i1⟩ : BufTy).Contents (Elt F)),
    StableHlo.nullary main_c_96 (constantI S_ 32 0#32),
    StableHlo.nullary main_c_97 (constantI S_ 32 63#32),
    StableHlo.TRef.unary (.of main_c_96 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S2x12544, .i32⟩) (broadcastInDim S2x12544 ![] bcast_S_S2x12544),
    StableHlo.TRef.binary (.of main_call12_v1 : StableHlo.TRef sig ⟨S2x12544, .i32⟩) (.of main_v225 : StableHlo.TRef sig ⟨S2x12544, .i32⟩) (.of main_call12_v2 : StableHlo.TRef sig ⟨S2x12544, .i32⟩) maxsi,
    StableHlo.TRef.unary (.of main_c_97 : StableHlo.TRef sig ⟨S_, .i32⟩) (.of main_call12_v3 : StableHlo.TRef sig ⟨S_, .i32⟩) id,
    StableHlo.TRef.unary (.of main_call12_v3 : StableHlo.TRef sig ⟨S_, .i32⟩) (.of main_call12_v4 : StableHlo.TRef sig ⟨S2x12544, .i32⟩) (broadcastInDim S2x12544 ![] bcast_S_S2x12544),
    StableHlo.TRef.binary (.of main_call12_v4 : StableHlo.TRef sig ⟨S2x12544, .i32⟩) (.of main_call12_v2 : StableHlo.TRef sig ⟨S2x12544, .i32⟩) (.of main_v247 : StableHlo.TRef sig ⟨S2x12544, .i32⟩) minsi,
    StableHlo.nullary main_c_98 (constantI S_ 32 0#32),
    StableHlo.nullary main_c_99 (constantI S_ 32 63#32),
    StableHlo.TRef.unary (.of main_c_98 : StableHlo.TRef sig ⟨S_, .i32⟩) (.of main_call13_v0 : StableHlo.TRef sig ⟨S_, .i32⟩) id,
    StableHlo.TRef.unary (.of main_call13_v0 : StableHlo.TRef sig ⟨S_, .i32⟩) (.of main_call13_v1 : StableHlo.TRef sig ⟨S2x12544, .i32⟩) (broadcastInDim S2x12544 ![] bcast_S_S2x12544),
    StableHlo.TRef.binary (.of main_call13_v1 : StableHlo.TRef sig ⟨S2x12544, .i32⟩) (.of main_v227 : StableHlo.TRef sig ⟨S2x12544, .i32⟩) (.of main_call13_v2 : StableHlo.TRef sig ⟨S2x12544, .i32⟩) maxsi,
    StableHlo.TRef.unary (.of main_c_99 : StableHlo.TRef sig ⟨S_, .i32⟩) (.of main_call13_v3 : StableHlo.TRef sig ⟨S_, .i32⟩) id,
    StableHlo.TRef.unary (.of main_call13_v3 : StableHlo.TRef sig ⟨S_, .i32⟩) (.of main_call13_v4 : StableHlo.TRef sig ⟨S2x12544, .i32⟩) (broadcastInDim S2x12544 ![] bcast_S_S2x12544),
    StableHlo.TRef.binary (.of main_call13_v4 : StableHlo.TRef sig ⟨S2x12544, .i32⟩) (.of main_call13_v2 : StableHlo.TRef sig ⟨S2x12544, .i32⟩) (.of main_v248 : StableHlo.TRef sig ⟨S2x12544, .i32⟩) minsi,
    StableHlo.nullary main_c_100 (constantI S_ 32 0#32),
    StableHlo.nullary main_c_101 (constantI S_ 32 63#32),
    StableHlo.TRef.unary (.of main_c_100 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S2x12544, .i32⟩) (broadcastInDim S2x12544 ![] bcast_S_S2x12544),
    StableHlo.TRef.binary (.of main_call14_v1 : StableHlo.TRef sig ⟨S2x12544, .i32⟩) (.of main_v229 : StableHlo.TRef sig ⟨S2x12544, .i32⟩) (.of main_call14_v2 : StableHlo.TRef sig ⟨S2x12544, .i32⟩) maxsi,
    StableHlo.TRef.unary (.of main_c_101 : StableHlo.TRef sig ⟨S_, .i32⟩) (.of main_call14_v3 : StableHlo.TRef sig ⟨S_, .i32⟩) id,
    StableHlo.TRef.unary (.of main_call14_v3 : StableHlo.TRef sig ⟨S_, .i32⟩) (.of main_call14_v4 : StableHlo.TRef sig ⟨S2x12544, .i32⟩) (broadcastInDim S2x12544 ![] bcast_S_S2x12544),
    StableHlo.TRef.binary (.of main_call14_v4 : StableHlo.TRef sig ⟨S2x12544, .i32⟩) (.of main_call14_v2 : StableHlo.TRef sig ⟨S2x12544, .i32⟩) (.of main_v249 : StableHlo.TRef sig ⟨S2x12544, .i32⟩) minsi,
    StableHlo.nullary main_c_102 (constantI S_ 32 0#32),
    StableHlo.unary main_c_102 main_v250 (broadcastInDim S2x12544 ![] bcast_S_S2x12544 : (⟨S_, .i32⟩ : BufTy).Contents (Elt F) → (⟨S2x12544, .i32⟩ : BufTy).Contents (Elt F)),
    StableHlo.binary main_v247 main_v250 main_v251 (cmpi .slt : (⟨S2x12544, .i32⟩ : BufTy).Contents (Elt F) → (⟨S2x12544, .i32⟩ : BufTy).Contents (Elt F) → (⟨S2x12544, .i1⟩ : BufTy).Contents (Elt F)),
    StableHlo.nullary main_c_103 (constantI S_ 32 64#32),
    StableHlo.unary main_c_103 main_v252 (broadcastInDim S2x12544 ![] bcast_S_S2x12544 : (⟨S_, .i32⟩ : BufTy).Contents (Elt F) → (⟨S2x12544, .i32⟩ : BufTy).Contents (Elt F)),
    StableHlo.binary main_v247 main_v252 main_v253 (addi : (⟨S2x12544, .i32⟩ : BufTy).Contents (Elt F) → (⟨S2x12544, .i32⟩ : BufTy).Contents (Elt F) → (⟨S2x12544, .i32⟩ : BufTy).Contents (Elt F)) ]

set_option maxRecDepth 8192 in
set_option maxHeartbeats 4000000 in
/-- Window main_part5 is its operations run in order: the called functions unfolded at their calls and sequencing re-associated, both sides are one chain of steps. -/
theorem main_part5_eq (c : Dev nD) : main_part5 (F := F) c = seq ops_part5 := by
  simp only [main_part5, fn_where.body, fn_clip.body, seq, bind_assoc, pure_bind] <;> rfl

set_option maxRecDepth 8192 in
/-- Every operation of the window reads and writes TensorCore buffers only. -/
theorem ops_part5_sub : (ops_part5 : List (HloOp τ sig (Elt F))).Forall fun op => op.bufs ⊆ tcRefs τ sig :=
  ⟨nary_bufs_sub .., binary_bufs_sub .., nullary_bufs_sub .., unary_bufs_sub .., unary_bufs_sub .., unary_bufs_sub .., unary_bufs_sub .., ternary_bufs_sub .., unary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩

set_option maxRecDepth 8192 in
/-- Every operation of the window determines what it writes: none leaves a buffer at arbitrary contents. -/
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part5_W : List (Ref sig .tc) := [main_v213, main_v214, main_cst_85, main_call11_v0, main_call11_v1, main_call11_v2, main_call11_v3, main_v215, main_v216, main_v217, main_v218, main_v219, main_cst_86, main_v220, main_v221, main_v222, main_v223, main_c_87, main_v224, main_v225, main_c_88, main_v226, main_v227, main_c_89, main_v228, main_v229, main_c_90, main_v230, main_v231, main_c_91, main_v232, main_v233, main_v234, main_c_92, main_v235, main_v236, main_v237, main_c_93, main_v238, main_v239, main_v240, main_c_94, main_v241, main_v242, main_v243, main_c_95, main_v244, main_v245, main_v246, main_c_96, main_c_97, main_call12_v0, main_call12_v1, main_call12_v2, main_call12_v3, main_call12_v4, main_v247, main_c_98, main_c_99, main_call13_v0, main_call13_v1, main_call13_v2, main_call13_v3, main_call13_v4, main_v248, main_c_100, main_c_101, main_call14_v0, main_call14_v1, main_call14_v2, main_call14_v3, main_call14_v4, main_v249, main_c_102, main_v250, main_v251, main_c_103, main_v252, main_v253]

set_option maxRecDepth 8192 in
/-- Each operation of the window writes one buffer of that list. -/
theorem ops_part5_writes : (ops_part5 : List (HloOp τ sig (Elt F))).Forall fun op => op.writes ⊆ (ops_part5_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

end Cert.ReferenceIdeal.HandRun

end
-- ==== Proof.RefRunP3.lean ====
/- The reference program's @main, windows main_part6 … main_part7, as LISTS of host operations: each printed
   statement one entry, in order, and each call replaced by the called function's operations over the buffers that
   call names (its record), a call inside a called function likewise. With each list: the window equals the list run
   in order, every operation's buffers are TensorCore buffers, no operation leaves a buffer undetermined, and the
   list of buffers the window writes. -/
import proofs.«103167_j42614665511136_1_alg».proof.Proof.Gen.ReferenceIdeal
import Idealize.ShloMosaic.Lib.StableHlo.Run
import proofs.«103167_j42614665511136_1_alg».proof.Proof.RefRunP1

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window main_part6's 64 operations, in order, calls replaced by the called functions' operations. -/
abbrev ops_part6 : List (HloOp τ sig (Elt F)) :=
  [ StableHlo.ternary main_v251 main_v253 main_v247 main_v254 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_104 (constantI S_ 32 0#32),
    StableHlo.unary main_c_104 main_v255 (broadcastInDim S2x12544 ![] bcast_S_S2x12544 : (⟨S_, .i32⟩ : BufTy).Contents (Elt F) → (⟨S2x12544, .i32⟩ : BufTy).Contents (Elt F)),
    StableHlo.binary main_v248 main_v255 main_v256 (cmpi .slt : (⟨S2x12544, .i32⟩ : BufTy).Contents (Elt F) → (⟨S2x12544, .i32⟩ : BufTy).Contents (Elt F) → (⟨S2x12544, .i1⟩ : BufTy).Contents (Elt F)),
    StableHlo.nullary main_c_105 (constantI S_ 32 64#32),
    StableHlo.unary main_c_105 main_v257 (broadcastInDim S2x12544 ![] bcast_S_S2x12544 : (⟨S_, .i32⟩ : BufTy).Contents (Elt F) → (⟨S2x12544, .i32⟩ : BufTy).Contents (Elt F)),
    StableHlo.binary main_v248 main_v257 main_v258 (addi : (⟨S2x12544, .i32⟩ : BufTy).Contents (Elt F) → (⟨S2x12544, .i32⟩ : BufTy).Contents (Elt F) → (⟨S2x12544, .i32⟩ : BufTy).Contents (Elt F)),
    StableHlo.ternary main_v256 main_v258 main_v248 main_v259 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_106 (constantI S_ 32 0#32),
    StableHlo.unary main_c_106 main_v260 (broadcastInDim S2x12544 ![] bcast_S_S2x12544 : (⟨S_, .i32⟩ : BufTy).Contents (Elt F) → (⟨S2x12544, .i32⟩ : BufTy).Contents (Elt F)),
    StableHlo.binary main_v249 main_v260 main_v261 (cmpi .slt : (⟨S2x12544, .i32⟩ : BufTy).Contents (Elt F) → (⟨S2x12544, .i32⟩ : BufTy).Contents (Elt F) → (⟨S2x12544, .i1⟩ : BufTy).Contents (Elt F)),
    StableHlo.nullary main_c_107 (constantI S_ 32 64#32),
    StableHlo.unary main_c_107 main_v262 (broadcastInDim S2x12544 ![] bcast_S_S2x12544 : (⟨S_, .i32⟩ : BufTy).Contents (Elt F) → (⟨S2x12544, .i32⟩ : BufTy).Contents (Elt F)),
    StableHlo.binary main_v249 main_v262 main_v263 (addi : (⟨S2x12544, .i32⟩ : BufTy).Contents (Elt F) → (⟨S2x12544, .i32⟩ : BufTy).Contents (Elt F) → (⟨S2x12544, .i32⟩ : BufTy).Contents (Elt F)),
    StableHlo.ternary main_v261 main_v263 main_v249 main_v264 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v254 main_v265 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v259 main_v266 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v264 main_v267 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v265, main_v266, main_v267] main_v268 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg0 main_v268 main_v269 ((fun x i => Host.gather gather_S2x100x64x64x64_S2x12544x3_S2x100x12544_1_234_0_0_234_2_1100111 x i) : (⟨S2x100x64x64x64, .f32⟩ : BufTy).Contents (Elt F) → (⟨S2x12544x3, .i32⟩ : BufTy).Contents (Elt F) → (⟨S2x100x12544, .f32⟩ : BufTy).Contents (Elt F)),
    StableHlo.nullary main_cst_108 (constant S_ .f32 0x00000000#32),
    StableHlo.TRef.unary (.of main_cst_108 : StableHlo.TRef sig ⟨S_, .f32⟩) (.of main_call15_v0 : StableHlo.TRef sig ⟨S12544, .f32⟩) (broadcastInDim S12544 ![] bcast_S_S12544),
    StableHlo.TRef.unary (.of main_v246 : StableHlo.TRef sig ⟨S2x12544, .i1⟩) (.of main_call15_v1 : StableHlo.TRef sig ⟨S2x100x12544, .i1⟩) (broadcastInDim S2x100x12544 ![0, 2] bcast_S2x12544_S2x100x12544_0_2),
    StableHlo.TRef.unary (.of main_call15_v0 : StableHlo.TRef sig ⟨S12544, .f32⟩) (.of main_call15_v2 : StableHlo.TRef sig ⟨S100x12544, .f32⟩) (broadcastInDim S100x12544 ![1] bcast_S12544_S100x12544_1),
    StableHlo.TRef.unary (.of main_call15_v2 : StableHlo.TRef sig ⟨S100x12544, .f32⟩) (.of main_call15_v3 : StableHlo.TRef sig ⟨S2x100x12544, .f32⟩) (broadcastInDim S2x100x12544 ![1, 2] bcast_S100x12544_S2x100x12544_1_2),
    StableHlo.TRef.ternary (.of main_call15_v1 : StableHlo.TRef sig ⟨S2x100x12544, .i1⟩) (.of main_v269 : StableHlo.TRef sig ⟨S2x100x12544, .f32⟩) (.of main_call15_v3 : StableHlo.TRef sig ⟨S2x100x12544, .f32⟩) (.of main_v270 : StableHlo.TRef sig ⟨S2x100x12544, .f32⟩) select,
    StableHlo.unary main_v223 main_v271 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v271 main_v272 (broadcastInDim S2x100x12544 ![0, 1, 2] bcast_S2x1x12544_S2x100x12544_0_1_2 : (⟨S2x1x12544, .f32⟩ : BufTy).Contents (Elt F) → (⟨S2x100x12544, .f32⟩ : BufTy).Contents (Elt F)),
    StableHlo.binary main_v272 main_v270 main_v273 (mulf : (⟨S2x100x12544, .f32⟩ : BufTy).Contents (Elt F) → (⟨S2x100x12544, .f32⟩ : BufTy).Contents (Elt F) → (⟨S2x100x12544, .f32⟩ : BufTy).Contents (Elt F)),
    StableHlo.binary main_v219 main_v273 main_v274 (addf : (⟨S2x100x12544, .f32⟩ : BufTy).Contents (Elt F) → (⟨S2x100x12544, .f32⟩ : BufTy).Contents (Elt F) → (⟨S2x100x12544, .f32⟩ : BufTy).Contents (Elt F)),
    StableHlo.nullary main_cst_109 (constant S_ .f32 0x3F800000#32),
    StableHlo.unary main_cst_109 main_v275 (broadcastInDim S2x12544 ![] bcast_S_S2x12544 : (⟨S_, .f32⟩ : BufTy).Contents (Elt F) → (⟨S2x12544, .f32⟩ : BufTy).Contents (Elt F)),
    StableHlo.binary main_v275 main_v38 main_v276 (subf : (⟨S2x12544, .f32⟩ : BufTy).Contents (Elt F) → (⟨S2x12544, .f32⟩ : BufTy).Contents (Elt F) → (⟨S2x12544, .f32⟩ : BufTy).Contents (Elt F)),
    StableHlo.binary main_v39 main_v276 main_v277 (mulf : (⟨S2x12544, .f32⟩ : BufTy).Contents (Elt F) → (⟨S2x12544, .f32⟩ : BufTy).Contents (Elt F) → (⟨S2x12544, .f32⟩ : BufTy).Contents (Elt F)),
    StableHlo.nullary main_cst_110 (constant S_ .f32 0x3F800000#32),
    StableHlo.unary main_cst_110 main_v278 (broadcastInDim S2x12544 ![] bcast_S_S2x12544 : (⟨S_, .f32⟩ : BufTy).Contents (Elt F) → (⟨S2x12544, .f32⟩ : BufTy).Contents (Elt F)),
    StableHlo.binary main_v278 main_v37 main_v279 (subf : (⟨S2x12544, .f32⟩ : BufTy).Contents (Elt F) → (⟨S2x12544, .f32⟩ : BufTy).Contents (Elt F) → (⟨S2x12544, .f32⟩ : BufTy).Contents (Elt F)),
    StableHlo.binary main_v277 main_v279 main_v280 (mulf : (⟨S2x12544, .f32⟩ : BufTy).Contents (Elt F) → (⟨S2x12544, .f32⟩ : BufTy).Contents (Elt F) → (⟨S2x12544, .f32⟩ : BufTy).Contents (Elt F)),
    StableHlo.nullary main_c_111 (constantI S_ 32 1#32),
    StableHlo.unary main_c_111 main_v281 (broadcastInDim S2x12544 ![] bcast_S_S2x12544 : (⟨S_, .i32⟩ : BufTy).Contents (Elt F) → (⟨S2x12544, .i32⟩ : BufTy).Contents (Elt F)),
    StableHlo.binary main_v42 main_v281 main_v282 (addi : (⟨S2x12544, .i32⟩ : BufTy).Contents (Elt F) → (⟨S2x12544, .i32⟩ : BufTy).Contents (Elt F) → (⟨S2x12544, .i32⟩ : BufTy).Contents (Elt F)),
    StableHlo.nullary main_c_112 (constantI S_ 32 0#32),
    StableHlo.unary main_c_112 main_v283 (broadcastInDim S2x12544 ![] bcast_S_S2x12544 : (⟨S_, .i32⟩ : BufTy).Contents (Elt F) → (⟨S2x12544, .i32⟩ : BufTy).Contents (Elt F)),
    StableHlo.binary main_v41 main_v283 main_v284 (addi : (⟨S2x12544, .i32⟩ : BufTy).Contents (Elt F) → (⟨S2x12544, .i32⟩ : BufTy).Contents (Elt F) → (⟨S2x12544, .i32⟩ : BufTy).Contents (Elt F)),
    StableHlo.nullary main_c_113 (constantI S_ 32 0#32),
    StableHlo.unary main_c_113 main_v285 (broadcastInDim S2x12544 ![] bcast_S_S2x12544 : (⟨S_, .i32⟩ : BufTy).Contents (Elt F) → (⟨S2x12544, .i32⟩ : BufTy).Contents (Elt F)),
    StableHlo.binary main_v40 main_v285 main_v286 (addi : (⟨S2x12544, .i32⟩ : BufTy).Contents (Elt F) → (⟨S2x12544, .i32⟩ : BufTy).Contents (Elt F) → (⟨S2x12544, .i32⟩ : BufTy).Contents (Elt F)),
    StableHlo.nullary main_c_114 (constantI S_ 32 0#32),
    StableHlo.unary main_c_114 main_v287 (broadcastInDim S2x12544 ![] bcast_S_S2x12544 : (⟨S_, .i32⟩ : BufTy).Contents (Elt F) → (⟨S2x12544, .i32⟩ : BufTy).Contents (Elt F)),
    StableHlo.binary main_v282 main_v287 main_v288 (cmpi .sge : (⟨S2x12544, .i32⟩ : BufTy).Contents (Elt F) → (⟨S2x12544, .i32⟩ : BufTy).Contents (Elt F) → (⟨S2x12544, .i1⟩ : BufTy).Contents (Elt F)),
    StableHlo.nullary main_c_115 (constantI S_ 32 64#32),
    StableHlo.unary main_c_115 main_v289 (broadcastInDim S2x12544 ![] bcast_S_S2x12544 : (⟨S_, .i32⟩ : BufTy).Contents (Elt F) → (⟨S2x12544, .i32⟩ : BufTy).Contents (Elt F)),
    StableHlo.binary main_v282 main_v289 main_v290 (cmpi .slt : (⟨S2x12544, .i32⟩ : BufTy).Contents (Elt F) → (⟨S2x12544, .i32⟩ : BufTy).Contents (Elt F) → (⟨S2x12544, .i1⟩ : BufTy).Contents (Elt F)),
    StableHlo.binary main_v288 main_v290 main_v291 (andi : (⟨S2x12544, .i1⟩ : BufTy).Contents (Elt F) → (⟨S2x12544, .i1⟩ : BufTy).Contents (Elt F) → (⟨S2x12544, .i1⟩ : BufTy).Contents (Elt F)),
    StableHlo.nullary main_c_116 (constantI S_ 32 0#32),
    StableHlo.unary main_c_116 main_v292 (broadcastInDim S2x12544 ![] bcast_S_S2x12544 : (⟨S_, .i32⟩ : BufTy).Contents (Elt F) → (⟨S2x12544, .i32⟩ : BufTy).Contents (Elt F)),
    StableHlo.binary main_v284 main_v292 main_v293 (cmpi .sge : (⟨S2x12544, .i32⟩ : BufTy).Contents (Elt F) → (⟨S2x12544, .i32⟩ : BufTy).Contents (Elt F) → (⟨S2x12544, .i1⟩ : BufTy).Contents (Elt F)),
    StableHlo.binary main_v291 main_v293 main_v294 (andi : (⟨S2x12544, .i1⟩ : BufTy).Contents (Elt F) → (⟨S2x12544, .i1⟩ : BufTy).Contents (Elt F) → (⟨S2x12544, .i1⟩ : BufTy).Contents (Elt F)),
    StableHlo.nullary main_c_117 (constantI S_ 32 64#32),
    StableHlo.unary main_c_117 main_v295 (broadcastInDim S2x12544 ![] bcast_S_S2x12544 : (⟨S_, .i32⟩ : BufTy).Contents (Elt F) → (⟨S2x12544, .i32⟩ : BufTy).Contents (Elt F)),
    StableHlo.binary main_v284 main_v295 main_v296 (cmpi .slt : (⟨S2x12544, .i32⟩ : BufTy).Contents (Elt F) → (⟨S2x12544, .i32⟩ : BufTy).Contents (Elt F) → (⟨S2x12544, .i1⟩ : BufTy).Contents (Elt F)),
    StableHlo.binary main_v294 main_v296 main_v297 (andi : (⟨S2x12544, .i1⟩ : BufTy).Contents (Elt F) → (⟨S2x12544, .i1⟩ : BufTy).Contents (Elt F) → (⟨S2x12544, .i1⟩ : BufTy).Contents (Elt F)),
    StableHlo.nullary main_c_118 (constantI S_ 32 0#32),
    StableHlo.unary main_c_118 main_v298 (broadcastInDim S2x12544 ![] bcast_S_S2x12544 : (⟨S_, .i32⟩ : BufTy).Contents (Elt F) → (⟨S2x12544, .i32⟩ : BufTy).Contents (Elt F)) ]

set_option maxRecDepth 8192 in
set_option maxHeartbeats 4000000 in
/-- Window main_part6 is its operations run in order: the called functions unfolded at their calls and sequencing re-associated, both sides are one chain of steps. -/
theorem main_part6_eq (c : Dev nD) : main_part6 (F := F) c = seq ops_part6 := by
  simp only [main_part6, fn_where.body, seq, bind_assoc, pure_bind] <;> rfl

set_option maxRecDepth 8192 in
/-- Every operation of the window reads and writes TensorCore buffers only. -/
theorem ops_part6_sub : (ops_part6 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., unary_bufs_sub .., unary_bufs_sub .., unary_bufs_sub .., ternary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub ..⟩

set_option maxRecDepth 8192 in
/-- Every operation of the window determines what it writes: none leaves a buffer at arbitrary contents. -/
theorem ops_part6_fresh : (ops_part6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part6_W : List (Ref sig .tc) := [main_v254, main_c_104, main_v255, main_v256, main_c_105, main_v257, main_v258, main_v259, main_c_106, main_v260, main_v261, main_c_107, main_v262, main_v263, main_v264, main_v265, main_v266, main_v267, main_v268, main_v269, main_cst_108, main_call15_v0, main_call15_v1, main_call15_v2, main_call15_v3, main_v270, main_v271, main_v272, main_v273, main_v274, main_cst_109, main_v275, main_v276, main_v277, main_cst_110, main_v278, main_v279, main_v280, main_c_111, main_v281, main_v282, main_c_112, main_v283, main_v284, main_c_113, main_v285, main_v286, main_c_114, main_v287, main_v288, main_c_115, main_v289, main_v290, main_v291, main_c_116, main_v292, main_v293, main_v294, main_c_117, main_v295, main_v296, main_v297, main_c_118, main_v298]

set_option maxRecDepth 8192 in
/-- Each operation of the window writes one buffer of that list. -/
theorem ops_part6_writes : (ops_part6 : List (HloOp τ sig (Elt F))).Forall fun op => op.writes ⊆ (ops_part6_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

set_option maxRecDepth 8192 in
set_option maxHeartbeats 4000000 in
/-- Window main_part7's 79 operations, in order, calls replaced by the called functions' operations. -/
abbrev ops_part7 : List (HloOp τ sig (Elt F)) :=
  [ StableHlo.binary main_v286 main_v298 main_v299 (cmpi .sge : (⟨S2x12544, .i32⟩ : BufTy).Contents (Elt F) → (⟨S2x12544, .i32⟩ : BufTy).Contents (Elt F) → (⟨S2x12544, .i1⟩ : BufTy).Contents (Elt F)),
    StableHlo.binary main_v297 main_v299 main_v300 (andi : (⟨S2x12544, .i1⟩ : BufTy).Contents (Elt F) → (⟨S2x12544, .i1⟩ : BufTy).Contents (Elt F) → (⟨S2x12544, .i1⟩ : BufTy).Contents (Elt F)),
    StableHlo.nullary main_c_119 (constantI S_ 32 64#32),
    StableHlo.unary main_c_119 main_v301 (broadcastInDim S2x12544 ![] bcast_S_S2x12544 : (⟨S_, .i32⟩ : BufTy).Contents (Elt F) → (⟨S2x12544, .i32⟩ : BufTy).Contents (Elt F)),
    StableHlo.binary main_v286 main_v301 main_v302 (cmpi .slt : (⟨S2x12544, .i32⟩ : BufTy).Contents (Elt F) → (⟨S2x12544, .i32⟩ : BufTy).Contents (Elt F) → (⟨S2x12544, .i1⟩ : BufTy).Contents (Elt F)),
    StableHlo.binary main_v300 main_v302 main_v303 (andi : (⟨S2x12544, .i1⟩ : BufTy).Contents (Elt F) → (⟨S2x12544, .i1⟩ : BufTy).Contents (Elt F) → (⟨S2x12544, .i1⟩ : BufTy).Contents (Elt F)),
    StableHlo.nullary main_c_120 (constantI S_ 32 0#32),
    StableHlo.nullary main_c_121 (constantI S_ 32 63#32),
    StableHlo.TRef.unary (.of main_c_120 : StableHlo.TRef sig ⟨S_, .i32⟩) (.of main_call16_v0 : StableHlo.TRef sig ⟨S_, .i32⟩) id,
    StableHlo.TRef.unary (.of main_call16_v0 : StableHlo.TRef sig ⟨S_, .i32⟩) (.of main_call16_v1 : StableHlo.TRef sig ⟨S2x12544, .i32⟩) (broadcastInDim S2x12544 ![] bcast_S_S2x12544),
    StableHlo.TRef.binary (.of main_call16_v1 : StableHlo.TRef sig ⟨S2x12544, .i32⟩) (.of main_v282 : StableHlo.TRef sig ⟨S2x12544, .i32⟩) (.of main_call16_v2 : StableHlo.TRef sig ⟨S2x12544, .i32⟩) maxsi,
    StableHlo.TRef.unary (.of main_c_121 : StableHlo.TRef sig ⟨S_, .i32⟩) (.of main_call16_v3 : StableHlo.TRef sig ⟨S_, .i32⟩) id,
    StableHlo.TRef.unary (.of main_call16_v3 : StableHlo.TRef sig ⟨S_, .i32⟩) (.of main_call16_v4 : StableHlo.TRef sig ⟨S2x12544, .i32⟩) (broadcastInDim S2x12544 ![] bcast_S_S2x12544),
    StableHlo.TRef.binary (.of main_call16_v4 : StableHlo.TRef sig ⟨S2x12544, .i32⟩) (.of main_call16_v2 : StableHlo.TRef sig ⟨S2x12544, .i32⟩) (.of main_v304 : StableHlo.TRef sig ⟨S2x12544, .i32⟩) minsi,
    StableHlo.nullary main_c_122 (constantI S_ 32 0#32),
    StableHlo.nullary main_c_123 (constantI S_ 32 63#32),
    StableHlo.TRef.unary (.of main_c_122 : StableHlo.TRef sig ⟨S_, .i32⟩) (.of main_call17_v0 : StableHlo.TRef sig ⟨S_, .i32⟩) id,
    StableHlo.TRef.unary (.of main_call17_v0 : StableHlo.TRef sig ⟨S_, .i32⟩) (.of main_call17_v1 : StableHlo.TRef sig ⟨S2x12544, .i32⟩) (broadcastInDim S2x12544 ![] bcast_S_S2x12544),
    StableHlo.TRef.binary (.of main_call17_v1 : StableHlo.TRef sig ⟨S2x12544, .i32⟩) (.of main_v284 : StableHlo.TRef sig ⟨S2x12544, .i32⟩) (.of main_call17_v2 : StableHlo.TRef sig ⟨S2x12544, .i32⟩) maxsi,
    StableHlo.TRef.unary (.of main_c_123 : StableHlo.TRef sig ⟨S_, .i32⟩) (.of main_call17_v3 : StableHlo.TRef sig ⟨S_, .i32⟩) id,
    StableHlo.TRef.unary (.of main_call17_v3 : StableHlo.TRef sig ⟨S_, .i32⟩) (.of main_call17_v4 : StableHlo.TRef sig ⟨S2x12544, .i32⟩) (broadcastInDim S2x12544 ![] bcast_S_S2x12544),
    StableHlo.TRef.binary (.of main_call17_v4 : StableHlo.TRef sig ⟨S2x12544, .i32⟩) (.of main_call17_v2 : StableHlo.TRef sig ⟨S2x12544, .i32⟩) (.of main_v305 : StableHlo.TRef sig ⟨S2x12544, .i32⟩) minsi,
    StableHlo.nullary main_c_124 (constantI S_ 32 0#32),
    StableHlo.nullary main_c_125 (constantI S_ 32 63#32),
    StableHlo.TRef.unary (.of main_c_124 : StableHlo.TRef sig ⟨S_, .i32⟩) (.of main_call18_v0 : StableHlo.TRef sig ⟨S_, .i32⟩) id,
    StableHlo.TRef.unary (.of main_call18_v0 : StableHlo.TRef sig ⟨S_, .i32⟩) (.of main_call18_v1 : StableHlo.TRef sig ⟨S2x12544, .i32⟩) (broadcastInDim S2x12544 ![] bcast_S_S2x12544),
    StableHlo.TRef.binary (.of main_call18_v1 : StableHlo.TRef sig ⟨S2x12544, .i32⟩) (.of main_v286 : StableHlo.TRef sig ⟨S2x12544, .i32⟩) (.of main_call18_v2 : StableHlo.TRef sig ⟨S2x12544, .i32⟩) maxsi,
    StableHlo.TRef.unary (.of main_c_125 : StableHlo.TRef sig ⟨S_, .i32⟩) (.of main_call18_v3 : StableHlo.TRef sig ⟨S_, .i32⟩) id,
    StableHlo.TRef.unary (.of main_call18_v3 : StableHlo.TRef sig ⟨S_, .i32⟩) (.of main_call18_v4 : StableHlo.TRef sig ⟨S2x12544, .i32⟩) (broadcastInDim S2x12544 ![] bcast_S_S2x12544),
    StableHlo.TRef.binary (.of main_call18_v4 : StableHlo.TRef sig ⟨S2x12544, .i32⟩) (.of main_call18_v2 : StableHlo.TRef sig ⟨S2x12544, .i32⟩) (.of main_v306 : StableHlo.TRef sig ⟨S2x12544, .i32⟩) minsi,
    StableHlo.nullary main_c_126 (constantI S_ 32 0#32),
    StableHlo.unary main_c_126 main_v307 (broadcastInDim S2x12544 ![] bcast_S_S2x12544 : (⟨S_, .i32⟩ : BufTy).Contents (Elt F) → (⟨S2x12544, .i32⟩ : BufTy).Contents (Elt F)),
    StableHlo.binary main_v304 main_v307 main_v308 (cmpi .slt : (⟨S2x12544, .i32⟩ : BufTy).Contents (Elt F) → (⟨S2x12544, .i32⟩ : BufTy).Contents (Elt F) → (⟨S2x12544, .i1⟩ : BufTy).Contents (Elt F)),
    StableHlo.nullary main_c_127 (constantI S_ 32 64#32),
    StableHlo.unary main_c_127 main_v309 (broadcastInDim S2x12544 ![] bcast_S_S2x12544 : (⟨S_, .i32⟩ : BufTy).Contents (Elt F) → (⟨S2x12544, .i32⟩ : BufTy).Contents (Elt F)),
    StableHlo.binary main_v304 main_v309 main_v310 (addi : (⟨S2x12544, .i32⟩ : BufTy).Contents (Elt F) → (⟨S2x12544, .i32⟩ : BufTy).Contents (Elt F) → (⟨S2x12544, .i32⟩ : BufTy).Contents (Elt F)),
    StableHlo.ternary main_v308 main_v310 main_v304 main_v311 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_128 (constantI S_ 32 0#32),
    StableHlo.unary main_c_128 main_v312 (broadcastInDim S2x12544 ![] bcast_S_S2x12544 : (⟨S_, .i32⟩ : BufTy).Contents (Elt F) → (⟨S2x12544, .i32⟩ : BufTy).Contents (Elt F)),
    StableHlo.binary main_v305 main_v312 main_v313 (cmpi .slt : (⟨S2x12544, .i32⟩ : BufTy).Contents (Elt F) → (⟨S2x12544, .i32⟩ : BufTy).Contents (Elt F) → (⟨S2x12544, .i1⟩ : BufTy).Contents (Elt F)),
    StableHlo.nullary main_c_129 (constantI S_ 32 64#32),
    StableHlo.unary main_c_129 main_v314 (broadcastInDim S2x12544 ![] bcast_S_S2x12544 : (⟨S_, .i32⟩ : BufTy).Contents (Elt F) → (⟨S2x12544, .i32⟩ : BufTy).Contents (Elt F)),
    StableHlo.binary main_v305 main_v314 main_v315 (addi : (⟨S2x12544, .i32⟩ : BufTy).Contents (Elt F) → (⟨S2x12544, .i32⟩ : BufTy).Contents (Elt F) → (⟨S2x12544, .i32⟩ : BufTy).Contents (Elt F)),
    StableHlo.ternary main_v313 main_v315 main_v305 main_v316 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_130 (constantI S_ 32 0#32),
    StableHlo.unary main_c_130 main_v317 (broadcastInDim S2x12544 ![] bcast_S_S2x12544 : (⟨S_, .i32⟩ : BufTy).Contents (Elt F) → (⟨S2x12544, .i32⟩ : BufTy).Contents (Elt F)),
    StableHlo.binary main_v306 main_v317 main_v318 (cmpi .slt : (⟨S2x12544, .i32⟩ : BufTy).Contents (Elt F) → (⟨S2x12544, .i32⟩ : BufTy).Contents (Elt F) → (⟨S2x12544, .i1⟩ : BufTy).Contents (Elt F)),
    StableHlo.nullary main_c_131 (constantI S_ 32 64#32),
    StableHlo.unary main_c_131 main_v319 (broadcastInDim S2x12544 ![] bcast_S_S2x12544 : (⟨S_, .i32⟩ : BufTy).Contents (Elt F) → (⟨S2x12544, .i32⟩ : BufTy).Contents (Elt F)),
    StableHlo.binary main_v306 main_v319 main_v320 (addi : (⟨S2x12544, .i32⟩ : BufTy).Contents (Elt F) → (⟨S2x12544, .i32⟩ : BufTy).Contents (Elt F) → (⟨S2x12544, .i32⟩ : BufTy).Contents (Elt F)),
    StableHlo.ternary main_v318 main_v320 main_v306 main_v321 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v311 main_v322 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v316 main_v323 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v321 main_v324 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v322, main_v323, main_v324] main_v325 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg0 main_v325 main_v326 ((fun x i => Host.gather gather_S2x100x64x64x64_S2x12544x3_S2x100x12544_1_234_0_0_234_2_1100111 x i) : (⟨S2x100x64x64x64, .f32⟩ : BufTy).Contents (Elt F) → (⟨S2x12544x3, .i32⟩ : BufTy).Contents (Elt F) → (⟨S2x100x12544, .f32⟩ : BufTy).Contents (Elt F)),
    StableHlo.nullary main_cst_132 (constant S_ .f32 0x00000000#32),
    StableHlo.TRef.unary (.of main_cst_132 : StableHlo.TRef sig ⟨S_, .f32⟩) (.of main_call19_v0 : StableHlo.TRef sig ⟨S12544, .f32⟩) (broadcastInDim S12544 ![] bcast_S_S12544),
    StableHlo.TRef.unary (.of main_v303 : StableHlo.TRef sig ⟨S2x12544, .i1⟩) (.of main_call19_v1 : StableHlo.TRef sig ⟨S2x100x12544, .i1⟩) (broadcastInDim S2x100x12544 ![0, 2] bcast_S2x12544_S2x100x12544_0_2),
    StableHlo.TRef.unary (.of main_call19_v0 : StableHlo.TRef sig ⟨S12544, .f32⟩) (.of main_call19_v2 : StableHlo.TRef sig ⟨S100x12544, .f32⟩) (broadcastInDim S100x12544 ![1] bcast_S12544_S100x12544_1),
    StableHlo.TRef.unary (.of main_call19_v2 : StableHlo.TRef sig ⟨S100x12544, .f32⟩) (.of main_call19_v3 : StableHlo.TRef sig ⟨S2x100x12544, .f32⟩) (broadcastInDim S2x100x12544 ![1, 2] bcast_S100x12544_S2x100x12544_1_2),
    StableHlo.TRef.ternary (.of main_call19_v1 : StableHlo.TRef sig ⟨S2x100x12544, .i1⟩) (.of main_v326 : StableHlo.TRef sig ⟨S2x100x12544, .f32⟩) (.of main_call19_v3 : StableHlo.TRef sig ⟨S2x100x12544, .f32⟩) (.of main_v327 : StableHlo.TRef sig ⟨S2x100x12544, .f32⟩) select,
    StableHlo.unary main_v280 main_v328 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v328 main_v329 (broadcastInDim S2x100x12544 ![0, 1, 2] bcast_S2x1x12544_S2x100x12544_0_1_2 : (⟨S2x1x12544, .f32⟩ : BufTy).Contents (Elt F) → (⟨S2x100x12544, .f32⟩ : BufTy).Contents (Elt F)),
    StableHlo.binary main_v329 main_v327 main_v330 (mulf : (⟨S2x100x12544, .f32⟩ : BufTy).Contents (Elt F) → (⟨S2x100x12544, .f32⟩ : BufTy).Contents (Elt F) → (⟨S2x100x12544, .f32⟩ : BufTy).Contents (Elt F)),
    StableHlo.binary main_v274 main_v330 main_v331 (addf : (⟨S2x100x12544, .f32⟩ : BufTy).Contents (Elt F) → (⟨S2x100x12544, .f32⟩ : BufTy).Contents (Elt F) → (⟨S2x100x12544, .f32⟩ : BufTy).Contents (Elt F)),
    StableHlo.nullary main_cst_133 (constant S_ .f32 0x3F800000#32),
    StableHlo.unary main_cst_133 main_v332 (broadcastInDim S2x12544 ![] bcast_S_S2x12544 : (⟨S_, .f32⟩ : BufTy).Contents (Elt F) → (⟨S2x12544, .f32⟩ : BufTy).Contents (Elt F)),
    StableHlo.binary main_v332 main_v38 main_v333 (subf : (⟨S2x12544, .f32⟩ : BufTy).Contents (Elt F) → (⟨S2x12544, .f32⟩ : BufTy).Contents (Elt F) → (⟨S2x12544, .f32⟩ : BufTy).Contents (Elt F)),
    StableHlo.binary main_v39 main_v333 main_v334 (mulf : (⟨S2x12544, .f32⟩ : BufTy).Contents (Elt F) → (⟨S2x12544, .f32⟩ : BufTy).Contents (Elt F) → (⟨S2x12544, .f32⟩ : BufTy).Contents (Elt F)),
    StableHlo.binary main_v334 main_v37 main_v335 (mulf : (⟨S2x12544, .f32⟩ : BufTy).Contents (Elt F) → (⟨S2x12544, .f32⟩ : BufTy).Contents (Elt F) → (⟨S2x12544, .f32⟩ : BufTy).Contents (Elt F)),
    StableHlo.nullary main_c_134 (constantI S_ 32 1#32),
    StableHlo.unary main_c_134 main_v336 (broadcastInDim S2x12544 ![] bcast_S_S2x12544 : (⟨S_, .i32⟩ : BufTy).Contents (Elt F) → (⟨S2x12544, .i32⟩ : BufTy).Contents (Elt F)),
    StableHlo.binary main_v42 main_v336 main_v337 (addi : (⟨S2x12544, .i32⟩ : BufTy).Contents (Elt F) → (⟨S2x12544, .i32⟩ : BufTy).Contents (Elt F) → (⟨S2x12544, .i32⟩ : BufTy).Contents (Elt F)),
    StableHlo.nullary main_c_135 (constantI S_ 32 0#32),
    StableHlo.unary main_c_135 main_v338 (broadcastInDim S2x12544 ![] bcast_S_S2x12544 : (⟨S_, .i32⟩ : BufTy).Contents (Elt F) → (⟨S2x12544, .i32⟩ : BufTy).Contents (Elt F)),
    StableHlo.binary main_v41 main_v338 main_v339 (addi : (⟨S2x12544, .i32⟩ : BufTy).Contents (Elt F) → (⟨S2x12544, .i32⟩ : BufTy).Contents (Elt F) → (⟨S2x12544, .i32⟩ : BufTy).Contents (Elt F)),
    StableHlo.nullary main_c_136 (constantI S_ 32 1#32),
    StableHlo.unary main_c_136 main_v340 (broadcastInDim S2x12544 ![] bcast_S_S2x12544 : (⟨S_, .i32⟩ : BufTy).Contents (Elt F) → (⟨S2x12544, .i32⟩ : BufTy).Contents (Elt F)) ]

set_option maxRecDepth 8192 in
set_option maxHeartbeats 4000000 in
/-- Window main_part7 is its operations run in order: the called functions unfolded at their calls and sequencing re-associated, both sides are one chain of steps. -/
theorem main_part7_eq (c : Dev nD) : main_part7 (F := F) c = seq ops_part7 := by
  simp only [main_part7, fn_clip.body, fn_where.body, seq, bind_assoc, pure_bind] <;> rfl

set_option maxRecDepth 8192 in
/-- Every operation of the window reads and writes TensorCore buffers only. -/
theorem ops_part7_sub : (ops_part7 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., unary_bufs_sub .., unary_bufs_sub .., unary_bufs_sub .., ternary_bufs_sub .., unary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub ..⟩

set_option maxRecDepth 8192 in
/-- Every operation of the window determines what it writes: none leaves a buffer at arbitrary contents. -/
theorem ops_part7_fresh : (ops_part7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part7_W : List (Ref sig .tc) := [main_v299, main_v300, main_c_119, main_v301, main_v302, main_v303, main_c_120, main_c_121, main_call16_v0, main_call16_v1, main_call16_v2, main_call16_v3, main_call16_v4, main_v304, main_c_122, main_c_123, main_call17_v0, main_call17_v1, main_call17_v2, main_call17_v3, main_call17_v4, main_v305, main_c_124, main_c_125, main_call18_v0, main_call18_v1, main_call18_v2, main_call18_v3, main_call18_v4, main_v306, main_c_126, main_v307, main_v308, main_c_127, main_v309, main_v310, main_v311, main_c_128, main_v312, main_v313, main_c_129, main_v314, main_v315, main_v316, main_c_130, main_v317, main_v318, main_c_131, main_v319, main_v320, main_v321, main_v322, main_v323, main_v324, main_v325, main_v326, main_cst_132, main_call19_v0, main_call19_v1, main_call19_v2, main_call19_v3, main_v327, main_v328, main_v329, main_v330, main_v331, main_cst_133, main_v332, main_v333, main_v334, main_v335, main_c_134, main_v336, main_v337, main_c_135, main_v338, main_v339, main_c_136, main_v340]

set_option maxRecDepth 8192 in
/-- Each operation of the window writes one buffer of that list. -/
theorem ops_part7_writes : (ops_part7 : List (HloOp τ sig (Elt F))).Forall fun op => op.writes ⊆ (ops_part7_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

end Cert.ReferenceIdeal.HandRun

end
-- ==== Proof.RefRunP4.lean ====
/- The reference program's @main, windows main_part8 … main_part9, as LISTS of host operations: each printed
   statement one entry, in order, and each call replaced by the called function's operations over the buffers that
   call names (its record), a call inside a called function likewise. With each list: the window equals the list run
   in order, every operation's buffers are TensorCore buffers, no operation leaves a buffer undetermined, and the
   list of buffers the window writes. -/
import proofs.«103167_j42614665511136_1_alg».proof.Proof.Gen.ReferenceIdeal
import Idealize.ShloMosaic.Lib.StableHlo.Run
import proofs.«103167_j42614665511136_1_alg».proof.Proof.RefRunP2

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window main_part8's 75 operations, in order, calls replaced by the called functions' operations. -/
abbrev ops_part8 : List (HloOp τ sig (Elt F)) :=
  [ StableHlo.binary main_v40 main_v340 main_v341 (addi : (⟨S2x12544, .i32⟩ : BufTy).Contents (Elt F) → (⟨S2x12544, .i32⟩ : BufTy).Contents (Elt F) → (⟨S2x12544, .i32⟩ : BufTy).Contents (Elt F)),
    StableHlo.nullary main_c_137 (constantI S_ 32 0#32),
    StableHlo.unary main_c_137 main_v342 (broadcastInDim S2x12544 ![] bcast_S_S2x12544 : (⟨S_, .i32⟩ : BufTy).Contents (Elt F) → (⟨S2x12544, .i32⟩ : BufTy).Contents (Elt F)),
    StableHlo.binary main_v337 main_v342 main_v343 (cmpi .sge : (⟨S2x12544, .i32⟩ : BufTy).Contents (Elt F) → (⟨S2x12544, .i32⟩ : BufTy).Contents (Elt F) → (⟨S2x12544, .i1⟩ : BufTy).Contents (Elt F)),
    StableHlo.nullary main_c_138 (constantI S_ 32 64#32),
    StableHlo.unary main_c_138 main_v344 (broadcastInDim S2x12544 ![] bcast_S_S2x12544 : (⟨S_, .i32⟩ : BufTy).Contents (Elt F) → (⟨S2x12544, .i32⟩ : BufTy).Contents (Elt F)),
    StableHlo.binary main_v337 main_v344 main_v345 (cmpi .slt : (⟨S2x12544, .i32⟩ : BufTy).Contents (Elt F) → (⟨S2x12544, .i32⟩ : BufTy).Contents (Elt F) → (⟨S2x12544, .i1⟩ : BufTy).Contents (Elt F)),
    StableHlo.binary main_v343 main_v345 main_v346 (andi : (⟨S2x12544, .i1⟩ : BufTy).Contents (Elt F) → (⟨S2x12544, .i1⟩ : BufTy).Contents (Elt F) → (⟨S2x12544, .i1⟩ : BufTy).Contents (Elt F)),
    StableHlo.nullary main_c_139 (constantI S_ 32 0#32),
    StableHlo.unary main_c_139 main_v347 (broadcastInDim S2x12544 ![] bcast_S_S2x12544 : (⟨S_, .i32⟩ : BufTy).Contents (Elt F) → (⟨S2x12544, .i32⟩ : BufTy).Contents (Elt F)),
    StableHlo.binary main_v339 main_v347 main_v348 (cmpi .sge : (⟨S2x12544, .i32⟩ : BufTy).Contents (Elt F) → (⟨S2x12544, .i32⟩ : BufTy).Contents (Elt F) → (⟨S2x12544, .i1⟩ : BufTy).Contents (Elt F)),
    StableHlo.binary main_v346 main_v348 main_v349 (andi : (⟨S2x12544, .i1⟩ : BufTy).Contents (Elt F) → (⟨S2x12544, .i1⟩ : BufTy).Contents (Elt F) → (⟨S2x12544, .i1⟩ : BufTy).Contents (Elt F)),
    StableHlo.nullary main_c_140 (constantI S_ 32 64#32),
    StableHlo.unary main_c_140 main_v350 (broadcastInDim S2x12544 ![] bcast_S_S2x12544 : (⟨S_, .i32⟩ : BufTy).Contents (Elt F) → (⟨S2x12544, .i32⟩ : BufTy).Contents (Elt F)),
    StableHlo.binary main_v339 main_v350 main_v351 (cmpi .slt : (⟨S2x12544, .i32⟩ : BufTy).Contents (Elt F) → (⟨S2x12544, .i32⟩ : BufTy).Contents (Elt F) → (⟨S2x12544, .i1⟩ : BufTy).Contents (Elt F)),
    StableHlo.binary main_v349 main_v351 main_v352 (andi : (⟨S2x12544, .i1⟩ : BufTy).Contents (Elt F) → (⟨S2x12544, .i1⟩ : BufTy).Contents (Elt F) → (⟨S2x12544, .i1⟩ : BufTy).Contents (Elt F)),
    StableHlo.nullary main_c_141 (constantI S_ 32 0#32),
    StableHlo.unary main_c_141 main_v353 (broadcastInDim S2x12544 ![] bcast_S_S2x12544 : (⟨S_, .i32⟩ : BufTy).Contents (Elt F) → (⟨S2x12544, .i32⟩ : BufTy).Contents (Elt F)),
    StableHlo.binary main_v341 main_v353 main_v354 (cmpi .sge : (⟨S2x12544, .i32⟩ : BufTy).Contents (Elt F) → (⟨S2x12544, .i32⟩ : BufTy).Contents (Elt F) → (⟨S2x12544, .i1⟩ : BufTy).Contents (Elt F)),
    StableHlo.binary main_v352 main_v354 main_v355 (andi : (⟨S2x12544, .i1⟩ : BufTy).Contents (Elt F) → (⟨S2x12544, .i1⟩ : BufTy).Contents (Elt F) → (⟨S2x12544, .i1⟩ : BufTy).Contents (Elt F)),
    StableHlo.nullary main_c_142 (constantI S_ 32 64#32),
    StableHlo.unary main_c_142 main_v356 (broadcastInDim S2x12544 ![] bcast_S_S2x12544 : (⟨S_, .i32⟩ : BufTy).Contents (Elt F) → (⟨S2x12544, .i32⟩ : BufTy).Contents (Elt F)),
    StableHlo.binary main_v341 main_v356 main_v357 (cmpi .slt : (⟨S2x12544, .i32⟩ : BufTy).Contents (Elt F) → (⟨S2x12544, .i32⟩ : BufTy).Contents (Elt F) → (⟨S2x12544, .i1⟩ : BufTy).Contents (Elt F)),
    StableHlo.binary main_v355 main_v357 main_v358 (andi : (⟨S2x12544, .i1⟩ : BufTy).Contents (Elt F) → (⟨S2x12544, .i1⟩ : BufTy).Contents (Elt F) → (⟨S2x12544, .i1⟩ : BufTy).Contents (Elt F)),
    StableHlo.nullary main_c_143 (constantI S_ 32 0#32),
    StableHlo.nullary main_c_144 (constantI S_ 32 63#32),
    StableHlo.TRef.unary (.of main_c_143 : StableHlo.TRef sig ⟨S_, .i32⟩) (.of main_call20_v0 : StableHlo.TRef sig ⟨S_, .i32⟩) id,
    StableHlo.TRef.unary (.of main_call20_v0 : StableHlo.TRef sig ⟨S_, .i32⟩) (.of main_call20_v1 : StableHlo.TRef sig ⟨S2x12544, .i32⟩) (broadcastInDim S2x12544 ![] bcast_S_S2x12544),
    StableHlo.TRef.binary (.of main_call20_v1 : StableHlo.TRef sig ⟨S2x12544, .i32⟩) (.of main_v337 : StableHlo.TRef sig ⟨S2x12544, .i32⟩) (.of main_call20_v2 : StableHlo.TRef sig ⟨S2x12544, .i32⟩) maxsi,
    StableHlo.TRef.unary (.of main_c_144 : StableHlo.TRef sig ⟨S_, .i32⟩) (.of main_call20_v3 : StableHlo.TRef sig ⟨S_, .i32⟩) id,
    StableHlo.TRef.unary (.of main_call20_v3 : StableHlo.TRef sig ⟨S_, .i32⟩) (.of main_call20_v4 : StableHlo.TRef sig ⟨S2x12544, .i32⟩) (broadcastInDim S2x12544 ![] bcast_S_S2x12544),
    StableHlo.TRef.binary (.of main_call20_v4 : StableHlo.TRef sig ⟨S2x12544, .i32⟩) (.of main_call20_v2 : StableHlo.TRef sig ⟨S2x12544, .i32⟩) (.of main_v359 : StableHlo.TRef sig ⟨S2x12544, .i32⟩) minsi,
    StableHlo.nullary main_c_145 (constantI S_ 32 0#32),
    StableHlo.nullary main_c_146 (constantI S_ 32 63#32),
    StableHlo.TRef.unary (.of main_c_145 : StableHlo.TRef sig ⟨S_, .i32⟩) (.of main_call21_v0 : StableHlo.TRef sig ⟨S_, .i32⟩) id,
    StableHlo.TRef.unary (.of main_call21_v0 : StableHlo.TRef sig ⟨S_, .i32⟩) (.of main_call21_v1 : StableHlo.TRef sig ⟨S2x12544, .i32⟩) (broadcastInDim S2x12544 ![] bcast_S_S2x12544),
    StableHlo.TRef.binary (.of main_call21_v1 : StableHlo.TRef sig ⟨S2x12544, .i32⟩) (.of main_v339 : StableHlo.TRef sig ⟨S2x12544, .i32⟩) (.of main_call21_v2 : StableHlo.TRef sig ⟨S2x12544, .i32⟩) maxsi,
    StableHlo.TRef.unary (.of main_c_146 : StableHlo.TRef sig ⟨S_, .i32⟩) (.of main_call21_v3 : StableHlo.TRef sig ⟨S_, .i32⟩) id,
    StableHlo.TRef.unary (.of main_call21_v3 : StableHlo.TRef sig ⟨S_, .i32⟩) (.of main_call21_v4 : StableHlo.TRef sig ⟨S2x12544, .i32⟩) (broadcastInDim S2x12544 ![] bcast_S_S2x12544),
    StableHlo.TRef.binary (.of main_call21_v4 : StableHlo.TRef sig ⟨S2x12544, .i32⟩) (.of main_call21_v2 : StableHlo.TRef sig ⟨S2x12544, .i32⟩) (.of main_v360 : StableHlo.TRef sig ⟨S2x12544, .i32⟩) minsi,
    StableHlo.nullary main_c_147 (constantI S_ 32 0#32),
    StableHlo.nullary main_c_148 (constantI S_ 32 63#32),
    StableHlo.TRef.unary (.of main_c_147 : StableHlo.TRef sig ⟨S_, .i32⟩) (.of main_call22_v0 : StableHlo.TRef sig ⟨S_, .i32⟩) id,
    StableHlo.TRef.unary (.of main_call22_v0 : StableHlo.TRef sig ⟨S_, .i32⟩) (.of main_call22_v1 : StableHlo.TRef sig ⟨S2x12544, .i32⟩) (broadcastInDim S2x12544 ![] bcast_S_S2x12544),
    StableHlo.TRef.binary (.of main_call22_v1 : StableHlo.TRef sig ⟨S2x12544, .i32⟩) (.of main_v341 : StableHlo.TRef sig ⟨S2x12544, .i32⟩) (.of main_call22_v2 : StableHlo.TRef sig ⟨S2x12544, .i32⟩) maxsi,
    StableHlo.TRef.unary (.of main_c_148 : StableHlo.TRef sig ⟨S_, .i32⟩) (.of main_call22_v3 : StableHlo.TRef sig ⟨S_, .i32⟩) id,
    StableHlo.TRef.unary (.of main_call22_v3 : StableHlo.TRef sig ⟨S_, .i32⟩) (.of main_call22_v4 : StableHlo.TRef sig ⟨S2x12544, .i32⟩) (broadcastInDim S2x12544 ![] bcast_S_S2x12544),
    StableHlo.TRef.binary (.of main_call22_v4 : StableHlo.TRef sig ⟨S2x12544, .i32⟩) (.of main_call22_v2 : StableHlo.TRef sig ⟨S2x12544, .i32⟩) (.of main_v361 : StableHlo.TRef sig ⟨S2x12544, .i32⟩) minsi,
    StableHlo.nullary main_c_149 (constantI S_ 32 0#32),
    StableHlo.unary main_c_149 main_v362 (broadcastInDim S2x12544 ![] bcast_S_S2x12544 : (⟨S_, .i32⟩ : BufTy).Contents (Elt F) → (⟨S2x12544, .i32⟩ : BufTy).Contents (Elt F)),
    StableHlo.binary main_v359 main_v362 main_v363 (cmpi .slt : (⟨S2x12544, .i32⟩ : BufTy).Contents (Elt F) → (⟨S2x12544, .i32⟩ : BufTy).Contents (Elt F) → (⟨S2x12544, .i1⟩ : BufTy).Contents (Elt F)),
    StableHlo.nullary main_c_150 (constantI S_ 32 64#32),
    StableHlo.unary main_c_150 main_v364 (broadcastInDim S2x12544 ![] bcast_S_S2x12544 : (⟨S_, .i32⟩ : BufTy).Contents (Elt F) → (⟨S2x12544, .i32⟩ : BufTy).Contents (Elt F)),
    StableHlo.binary main_v359 main_v364 main_v365 (addi : (⟨S2x12544, .i32⟩ : BufTy).Contents (Elt F) → (⟨S2x12544, .i32⟩ : BufTy).Contents (Elt F) → (⟨S2x12544, .i32⟩ : BufTy).Contents (Elt F)),
    StableHlo.ternary main_v363 main_v365 main_v359 main_v366 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_151 (constantI S_ 32 0#32),
    StableHlo.unary main_c_151 main_v367 (broadcastInDim S2x12544 ![] bcast_S_S2x12544 : (⟨S_, .i32⟩ : BufTy).Contents (Elt F) → (⟨S2x12544, .i32⟩ : BufTy).Contents (Elt F)),
    StableHlo.binary main_v360 main_v367 main_v368 (cmpi .slt : (⟨S2x12544, .i32⟩ : BufTy).Contents (Elt F) → (⟨S2x12544, .i32⟩ : BufTy).Contents (Elt F) → (⟨S2x12544, .i1⟩ : BufTy).Contents (Elt F)),
    StableHlo.nullary main_c_152 (constantI S_ 32 64#32),
    StableHlo.unary main_c_152 main_v369 (broadcastInDim S2x12544 ![] bcast_S_S2x12544 : (⟨S_, .i32⟩ : BufTy).Contents (Elt F) → (⟨S2x12544, .i32⟩ : BufTy).Contents (Elt F)),
    StableHlo.binary main_v360 main_v369 main_v370 (addi : (⟨S2x12544, .i32⟩ : BufTy).Contents (Elt F) → (⟨S2x12544, .i32⟩ : BufTy).Contents (Elt F) → (⟨S2x12544, .i32⟩ : BufTy).Contents (Elt F)),
    StableHlo.ternary main_v368 main_v370 main_v360 main_v371 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_153 (constantI S_ 32 0#32),
    StableHlo.unary main_c_153 main_v372 (broadcastInDim S2x12544 ![] bcast_S_S2x12544 : (⟨S_, .i32⟩ : BufTy).Contents (Elt F) → (⟨S2x12544, .i32⟩ : BufTy).Contents (Elt F)),
    StableHlo.binary main_v361 main_v372 main_v373 (cmpi .slt : (⟨S2x12544, .i32⟩ : BufTy).Contents (Elt F) → (⟨S2x12544, .i32⟩ : BufTy).Contents (Elt F) → (⟨S2x12544, .i1⟩ : BufTy).Contents (Elt F)),
    StableHlo.nullary main_c_154 (constantI S_ 32 64#32),
    StableHlo.unary main_c_154 main_v374 (broadcastInDim S2x12544 ![] bcast_S_S2x12544 : (⟨S_, .i32⟩ : BufTy).Contents (Elt F) → (⟨S2x12544, .i32⟩ : BufTy).Contents (Elt F)),
    StableHlo.binary main_v361 main_v374 main_v375 (addi : (⟨S2x12544, .i32⟩ : BufTy).Contents (Elt F) → (⟨S2x12544, .i32⟩ : BufTy).Contents (Elt F) → (⟨S2x12544, .i32⟩ : BufTy).Contents (Elt F)),
    StableHlo.ternary main_v373 main_v375 main_v361 main_v376 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v366 main_v377 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v371 main_v378 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v376 main_v379 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v377, main_v378, main_v379] main_v380 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg0 main_v380 main_v381 ((fun x i => Host.gather gather_S2x100x64x64x64_S2x12544x3_S2x100x12544_1_234_0_0_234_2_1100111 x i) : (⟨S2x100x64x64x64, .f32⟩ : BufTy).Contents (Elt F) → (⟨S2x12544x3, .i32⟩ : BufTy).Contents (Elt F) → (⟨S2x100x12544, .f32⟩ : BufTy).Contents (Elt F)),
    StableHlo.nullary main_cst_155 (constant S_ .f32 0x00000000#32) ]

set_option maxRecDepth 8192 in
set_option maxHeartbeats 4000000 in
/-- Window main_part8 is its operations run in order: the called functions unfolded at their calls and sequencing re-associated, both sides are one chain of steps. -/
theorem main_part8_eq (c : Dev nD) : main_part8 (F := F) c = seq ops_part8 := by
  simp only [main_part8, fn_clip.body, seq, bind_assoc, pure_bind] <;> rfl

set_option maxRecDepth 8192 in
/-- Every operation of the window reads and writes TensorCore buffers only. -/
theorem ops_part8_sub : (ops_part8 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub ..⟩

set_option maxRecDepth 8192 in
/-- Every operation of the window determines what it writes: none leaves a buffer at arbitrary contents. -/
theorem ops_part8_fresh : (ops_part8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part8_W : List (Ref sig .tc) := [main_v341, main_c_137, main_v342, main_v343, main_c_138, main_v344, main_v345, main_v346, main_c_139, main_v347, main_v348, main_v349, main_c_140, main_v350, main_v351, main_v352, main_c_141, main_v353, main_v354, main_v355, main_c_142, main_v356, main_v357, main_v358, main_c_143, main_c_144, main_call20_v0, main_call20_v1, main_call20_v2, main_call20_v3, main_call20_v4, main_v359, main_c_145, main_c_146, main_call21_v0, main_call21_v1, main_call21_v2, main_call21_v3, main_call21_v4, main_v360, main_c_147, main_c_148, main_call22_v0, main_call22_v1, main_call22_v2, main_call22_v3, main_call22_v4, main_v361, main_c_149, main_v362, main_v363, main_c_150, main_v364, main_v365, main_v366, main_c_151, main_v367, main_v368, main_c_152, main_v369, main_v370, main_v371, main_c_153, main_v372, main_v373, main_c_154, main_v374, main_v375, main_v376, main_v377, main_v378, main_v379, main_v380, main_v381, main_cst_155]

set_option maxRecDepth 8192 in
/-- Each operation of the window writes one buffer of that list. -/
theorem ops_part8_writes : (ops_part8 : List (HloOp τ sig (Elt F))).Forall fun op => op.writes ⊆ (ops_part8_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

set_option maxRecDepth 8192 in
set_option maxHeartbeats 4000000 in
/-- Window main_part9's 79 operations, in order, calls replaced by the called functions' operations. -/
abbrev ops_part9 : List (HloOp τ sig (Elt F)) :=
  [ StableHlo.TRef.unary (.of main_cst_155 : StableHlo.TRef sig ⟨S_, .f32⟩) (.of main_call23_v0 : StableHlo.TRef sig ⟨S12544, .f32⟩) (broadcastInDim S12544 ![] bcast_S_S12544),
    StableHlo.TRef.unary (.of main_v358 : StableHlo.TRef sig ⟨S2x12544, .i1⟩) (.of main_call23_v1 : StableHlo.TRef sig ⟨S2x100x12544, .i1⟩) (broadcastInDim S2x100x12544 ![0, 2] bcast_S2x12544_S2x100x12544_0_2),
    StableHlo.TRef.unary (.of main_call23_v0 : StableHlo.TRef sig ⟨S12544, .f32⟩) (.of main_call23_v2 : StableHlo.TRef sig ⟨S100x12544, .f32⟩) (broadcastInDim S100x12544 ![1] bcast_S12544_S100x12544_1),
    StableHlo.TRef.unary (.of main_call23_v2 : StableHlo.TRef sig ⟨S100x12544, .f32⟩) (.of main_call23_v3 : StableHlo.TRef sig ⟨S2x100x12544, .f32⟩) (broadcastInDim S2x100x12544 ![1, 2] bcast_S100x12544_S2x100x12544_1_2),
    StableHlo.TRef.ternary (.of main_call23_v1 : StableHlo.TRef sig ⟨S2x100x12544, .i1⟩) (.of main_v381 : StableHlo.TRef sig ⟨S2x100x12544, .f32⟩) (.of main_call23_v3 : StableHlo.TRef sig ⟨S2x100x12544, .f32⟩) (.of main_v382 : StableHlo.TRef sig ⟨S2x100x12544, .f32⟩) select,
    StableHlo.unary main_v335 main_v383 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v383 main_v384 (broadcastInDim S2x100x12544 ![0, 1, 2] bcast_S2x1x12544_S2x100x12544_0_1_2 : (⟨S2x1x12544, .f32⟩ : BufTy).Contents (Elt F) → (⟨S2x100x12544, .f32⟩ : BufTy).Contents (Elt F)),
    StableHlo.binary main_v384 main_v382 main_v385 (mulf : (⟨S2x100x12544, .f32⟩ : BufTy).Contents (Elt F) → (⟨S2x100x12544, .f32⟩ : BufTy).Contents (Elt F) → (⟨S2x100x12544, .f32⟩ : BufTy).Contents (Elt F)),
    StableHlo.binary main_v331 main_v385 main_v386 (addf : (⟨S2x100x12544, .f32⟩ : BufTy).Contents (Elt F) → (⟨S2x100x12544, .f32⟩ : BufTy).Contents (Elt F) → (⟨S2x100x12544, .f32⟩ : BufTy).Contents (Elt F)),
    StableHlo.binary main_v39 main_v38 main_v387 (mulf : (⟨S2x12544, .f32⟩ : BufTy).Contents (Elt F) → (⟨S2x12544, .f32⟩ : BufTy).Contents (Elt F) → (⟨S2x12544, .f32⟩ : BufTy).Contents (Elt F)),
    StableHlo.nullary main_cst_156 (constant S_ .f32 0x3F800000#32),
    StableHlo.unary main_cst_156 main_v388 (broadcastInDim S2x12544 ![] bcast_S_S2x12544 : (⟨S_, .f32⟩ : BufTy).Contents (Elt F) → (⟨S2x12544, .f32⟩ : BufTy).Contents (Elt F)),
    StableHlo.binary main_v388 main_v37 main_v389 (subf : (⟨S2x12544, .f32⟩ : BufTy).Contents (Elt F) → (⟨S2x12544, .f32⟩ : BufTy).Contents (Elt F) → (⟨S2x12544, .f32⟩ : BufTy).Contents (Elt F)),
    StableHlo.binary main_v387 main_v389 main_v390 (mulf : (⟨S2x12544, .f32⟩ : BufTy).Contents (Elt F) → (⟨S2x12544, .f32⟩ : BufTy).Contents (Elt F) → (⟨S2x12544, .f32⟩ : BufTy).Contents (Elt F)),
    StableHlo.nullary main_c_157 (constantI S_ 32 1#32),
    StableHlo.unary main_c_157 main_v391 (broadcastInDim S2x12544 ![] bcast_S_S2x12544 : (⟨S_, .i32⟩ : BufTy).Contents (Elt F) → (⟨S2x12544, .i32⟩ : BufTy).Contents (Elt F)),
    StableHlo.binary main_v42 main_v391 main_v392 (addi : (⟨S2x12544, .i32⟩ : BufTy).Contents (Elt F) → (⟨S2x12544, .i32⟩ : BufTy).Contents (Elt F) → (⟨S2x12544, .i32⟩ : BufTy).Contents (Elt F)),
    StableHlo.nullary main_c_158 (constantI S_ 32 1#32),
    StableHlo.unary main_c_158 main_v393 (broadcastInDim S2x12544 ![] bcast_S_S2x12544 : (⟨S_, .i32⟩ : BufTy).Contents (Elt F) → (⟨S2x12544, .i32⟩ : BufTy).Contents (Elt F)),
    StableHlo.binary main_v41 main_v393 main_v394 (addi : (⟨S2x12544, .i32⟩ : BufTy).Contents (Elt F) → (⟨S2x12544, .i32⟩ : BufTy).Contents (Elt F) → (⟨S2x12544, .i32⟩ : BufTy).Contents (Elt F)),
    StableHlo.nullary main_c_159 (constantI S_ 32 0#32),
    StableHlo.unary main_c_159 main_v395 (broadcastInDim S2x12544 ![] bcast_S_S2x12544 : (⟨S_, .i32⟩ : BufTy).Contents (Elt F) → (⟨S2x12544, .i32⟩ : BufTy).Contents (Elt F)),
    StableHlo.binary main_v40 main_v395 main_v396 (addi : (⟨S2x12544, .i32⟩ : BufTy).Contents (Elt F) → (⟨S2x12544, .i32⟩ : BufTy).Contents (Elt F) → (⟨S2x12544, .i32⟩ : BufTy).Contents (Elt F)),
    StableHlo.nullary main_c_160 (constantI S_ 32 0#32),
    StableHlo.unary main_c_160 main_v397 (broadcastInDim S2x12544 ![] bcast_S_S2x12544 : (⟨S_, .i32⟩ : BufTy).Contents (Elt F) → (⟨S2x12544, .i32⟩ : BufTy).Contents (Elt F)),
    StableHlo.binary main_v392 main_v397 main_v398 (cmpi .sge : (⟨S2x12544, .i32⟩ : BufTy).Contents (Elt F) → (⟨S2x12544, .i32⟩ : BufTy).Contents (Elt F) → (⟨S2x12544, .i1⟩ : BufTy).Contents (Elt F)),
    StableHlo.nullary main_c_161 (constantI S_ 32 64#32),
    StableHlo.unary main_c_161 main_v399 (broadcastInDim S2x12544 ![] bcast_S_S2x12544 : (⟨S_, .i32⟩ : BufTy).Contents (Elt F) → (⟨S2x12544, .i32⟩ : BufTy).Contents (Elt F)),
    StableHlo.binary main_v392 main_v399 main_v400 (cmpi .slt : (⟨S2x12544, .i32⟩ : BufTy).Contents (Elt F) → (⟨S2x12544, .i32⟩ : BufTy).Contents (Elt F) → (⟨S2x12544, .i1⟩ : BufTy).Contents (Elt F)),
    StableHlo.binary main_v398 main_v400 main_v401 (andi : (⟨S2x12544, .i1⟩ : BufTy).Contents (Elt F) → (⟨S2x12544, .i1⟩ : BufTy).Contents (Elt F) → (⟨S2x12544, .i1⟩ : BufTy).Contents (Elt F)),
    StableHlo.nullary main_c_162 (constantI S_ 32 0#32),
    StableHlo.unary main_c_162 main_v402 (broadcastInDim S2x12544 ![] bcast_S_S2x12544 : (⟨S_, .i32⟩ : BufTy).Contents (Elt F) → (⟨S2x12544, .i32⟩ : BufTy).Contents (Elt F)),
    StableHlo.binary main_v394 main_v402 main_v403 (cmpi .sge : (⟨S2x12544, .i32⟩ : BufTy).Contents (Elt F) → (⟨S2x12544, .i32⟩ : BufTy).Contents (Elt F) → (⟨S2x12544, .i1⟩ : BufTy).Contents (Elt F)),
    StableHlo.binary main_v401 main_v403 main_v404 (andi : (⟨S2x12544, .i1⟩ : BufTy).Contents (Elt F) → (⟨S2x12544, .i1⟩ : BufTy).Contents (Elt F) → (⟨S2x12544, .i1⟩ : BufTy).Contents (Elt F)),
    StableHlo.nullary main_c_163 (constantI S_ 32 64#32),
    StableHlo.unary main_c_163 main_v405 (broadcastInDim S2x12544 ![] bcast_S_S2x12544 : (⟨S_, .i32⟩ : BufTy).Contents (Elt F) → (⟨S2x12544, .i32⟩ : BufTy).Contents (Elt F)),
    StableHlo.binary main_v394 main_v405 main_v406 (cmpi .slt : (⟨S2x12544, .i32⟩ : BufTy).Contents (Elt F) → (⟨S2x12544, .i32⟩ : BufTy).Contents (Elt F) → (⟨S2x12544, .i1⟩ : BufTy).Contents (Elt F)),
    StableHlo.binary main_v404 main_v406 main_v407 (andi : (⟨S2x12544, .i1⟩ : BufTy).Contents (Elt F) → (⟨S2x12544, .i1⟩ : BufTy).Contents (Elt F) → (⟨S2x12544, .i1⟩ : BufTy).Contents (Elt F)),
    StableHlo.nullary main_c_164 (constantI S_ 32 0#32),
    StableHlo.unary main_c_164 main_v408 (broadcastInDim S2x12544 ![] bcast_S_S2x12544 : (⟨S_, .i32⟩ : BufTy).Contents (Elt F) → (⟨S2x12544, .i32⟩ : BufTy).Contents (Elt F)),
    StableHlo.binary main_v396 main_v408 main_v409 (cmpi .sge : (⟨S2x12544, .i32⟩ : BufTy).Contents (Elt F) → (⟨S2x12544, .i32⟩ : BufTy).Contents (Elt F) → (⟨S2x12544, .i1⟩ : BufTy).Contents (Elt F)),
    StableHlo.binary main_v407 main_v409 main_v410 (andi : (⟨S2x12544, .i1⟩ : BufTy).Contents (Elt F) → (⟨S2x12544, .i1⟩ : BufTy).Contents (Elt F) → (⟨S2x12544, .i1⟩ : BufTy).Contents (Elt F)),
    StableHlo.nullary main_c_165 (constantI S_ 32 64#32),
    StableHlo.unary main_c_165 main_v411 (broadcastInDim S2x12544 ![] bcast_S_S2x12544 : (⟨S_, .i32⟩ : BufTy).Contents (Elt F) → (⟨S2x12544, .i32⟩ : BufTy).Contents (Elt F)),
    StableHlo.binary main_v396 main_v411 main_v412 (cmpi .slt : (⟨S2x12544, .i32⟩ : BufTy).Contents (Elt F) → (⟨S2x12544, .i32⟩ : BufTy).Contents (Elt F) → (⟨S2x12544, .i1⟩ : BufTy).Contents (Elt F)),
    StableHlo.binary main_v410 main_v412 main_v413 (andi : (⟨S2x12544, .i1⟩ : BufTy).Contents (Elt F) → (⟨S2x12544, .i1⟩ : BufTy).Contents (Elt F) → (⟨S2x12544, .i1⟩ : BufTy).Contents (Elt F)),
    StableHlo.nullary main_c_166 (constantI S_ 32 0#32),
    StableHlo.nullary main_c_167 (constantI S_ 32 63#32),
    StableHlo.TRef.unary (.of main_c_166 : StableHlo.TRef sig ⟨S_, .i32⟩) (.of main_call24_v0 : StableHlo.TRef sig ⟨S_, .i32⟩) id,
    StableHlo.TRef.unary (.of main_call24_v0 : StableHlo.TRef sig ⟨S_, .i32⟩) (.of main_call24_v1 : StableHlo.TRef sig ⟨S2x12544, .i32⟩) (broadcastInDim S2x12544 ![] bcast_S_S2x12544),
    StableHlo.TRef.binary (.of main_call24_v1 : StableHlo.TRef sig ⟨S2x12544, .i32⟩) (.of main_v392 : StableHlo.TRef sig ⟨S2x12544, .i32⟩) (.of main_call24_v2 : StableHlo.TRef sig ⟨S2x12544, .i32⟩) maxsi,
    StableHlo.TRef.unary (.of main_c_167 : StableHlo.TRef sig ⟨S_, .i32⟩) (.of main_call24_v3 : StableHlo.TRef sig ⟨S_, .i32⟩) id,
    StableHlo.TRef.unary (.of main_call24_v3 : StableHlo.TRef sig ⟨S_, .i32⟩) (.of main_call24_v4 : StableHlo.TRef sig ⟨S2x12544, .i32⟩) (broadcastInDim S2x12544 ![] bcast_S_S2x12544),
    StableHlo.TRef.binary (.of main_call24_v4 : StableHlo.TRef sig ⟨S2x12544, .i32⟩) (.of main_call24_v2 : StableHlo.TRef sig ⟨S2x12544, .i32⟩) (.of main_v414 : StableHlo.TRef sig ⟨S2x12544, .i32⟩) minsi,
    StableHlo.nullary main_c_168 (constantI S_ 32 0#32),
    StableHlo.nullary main_c_169 (constantI S_ 32 63#32),
    StableHlo.TRef.unary (.of main_c_168 : StableHlo.TRef sig ⟨S_, .i32⟩) (.of main_call25_v0 : StableHlo.TRef sig ⟨S_, .i32⟩) id,
    StableHlo.TRef.unary (.of main_call25_v0 : StableHlo.TRef sig ⟨S_, .i32⟩) (.of main_call25_v1 : StableHlo.TRef sig ⟨S2x12544, .i32⟩) (broadcastInDim S2x12544 ![] bcast_S_S2x12544),
    StableHlo.TRef.binary (.of main_call25_v1 : StableHlo.TRef sig ⟨S2x12544, .i32⟩) (.of main_v394 : StableHlo.TRef sig ⟨S2x12544, .i32⟩) (.of main_call25_v2 : StableHlo.TRef sig ⟨S2x12544, .i32⟩) maxsi,
    StableHlo.TRef.unary (.of main_c_169 : StableHlo.TRef sig ⟨S_, .i32⟩) (.of main_call25_v3 : StableHlo.TRef sig ⟨S_, .i32⟩) id,
    StableHlo.TRef.unary (.of main_call25_v3 : StableHlo.TRef sig ⟨S_, .i32⟩) (.of main_call25_v4 : StableHlo.TRef sig ⟨S2x12544, .i32⟩) (broadcastInDim S2x12544 ![] bcast_S_S2x12544),
    StableHlo.TRef.binary (.of main_call25_v4 : StableHlo.TRef sig ⟨S2x12544, .i32⟩) (.of main_call25_v2 : StableHlo.TRef sig ⟨S2x12544, .i32⟩) (.of main_v415 : StableHlo.TRef sig ⟨S2x12544, .i32⟩) minsi,
    StableHlo.nullary main_c_170 (constantI S_ 32 0#32),
    StableHlo.nullary main_c_171 (constantI S_ 32 63#32),
    StableHlo.TRef.unary (.of main_c_170 : StableHlo.TRef sig ⟨S_, .i32⟩) (.of main_call26_v0 : StableHlo.TRef sig ⟨S_, .i32⟩) id,
    StableHlo.TRef.unary (.of main_call26_v0 : StableHlo.TRef sig ⟨S_, .i32⟩) (.of main_call26_v1 : StableHlo.TRef sig ⟨S2x12544, .i32⟩) (broadcastInDim S2x12544 ![] bcast_S_S2x12544),
    StableHlo.TRef.binary (.of main_call26_v1 : StableHlo.TRef sig ⟨S2x12544, .i32⟩) (.of main_v396 : StableHlo.TRef sig ⟨S2x12544, .i32⟩) (.of main_call26_v2 : StableHlo.TRef sig ⟨S2x12544, .i32⟩) maxsi,
    StableHlo.TRef.unary (.of main_c_171 : StableHlo.TRef sig ⟨S_, .i32⟩) (.of main_call26_v3 : StableHlo.TRef sig ⟨S_, .i32⟩) id,
    StableHlo.TRef.unary (.of main_call26_v3 : StableHlo.TRef sig ⟨S_, .i32⟩) (.of main_call26_v4 : StableHlo.TRef sig ⟨S2x12544, .i32⟩) (broadcastInDim S2x12544 ![] bcast_S_S2x12544),
    StableHlo.TRef.binary (.of main_call26_v4 : StableHlo.TRef sig ⟨S2x12544, .i32⟩) (.of main_call26_v2 : StableHlo.TRef sig ⟨S2x12544, .i32⟩) (.of main_v416 : StableHlo.TRef sig ⟨S2x12544, .i32⟩) minsi,
    StableHlo.nullary main_c_172 (constantI S_ 32 0#32),
    StableHlo.unary main_c_172 main_v417 (broadcastInDim S2x12544 ![] bcast_S_S2x12544 : (⟨S_, .i32⟩ : BufTy).Contents (Elt F) → (⟨S2x12544, .i32⟩ : BufTy).Contents (Elt F)),
    StableHlo.binary main_v414 main_v417 main_v418 (cmpi .slt : (⟨S2x12544, .i32⟩ : BufTy).Contents (Elt F) → (⟨S2x12544, .i32⟩ : BufTy).Contents (Elt F) → (⟨S2x12544, .i1⟩ : BufTy).Contents (Elt F)),
    StableHlo.nullary main_c_173 (constantI S_ 32 64#32),
    StableHlo.unary main_c_173 main_v419 (broadcastInDim S2x12544 ![] bcast_S_S2x12544 : (⟨S_, .i32⟩ : BufTy).Contents (Elt F) → (⟨S2x12544, .i32⟩ : BufTy).Contents (Elt F)),
    StableHlo.binary main_v414 main_v419 main_v420 (addi : (⟨S2x12544, .i32⟩ : BufTy).Contents (Elt F) → (⟨S2x12544, .i32⟩ : BufTy).Contents (Elt F) → (⟨S2x12544, .i32⟩ : BufTy).Contents (Elt F)),
    StableHlo.ternary main_v418 main_v420 main_v414 main_v421 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_174 (constantI S_ 32 0#32),
    StableHlo.unary main_c_174 main_v422 (broadcastInDim S2x12544 ![] bcast_S_S2x12544 : (⟨S_, .i32⟩ : BufTy).Contents (Elt F) → (⟨S2x12544, .i32⟩ : BufTy).Contents (Elt F)) ]

set_option maxRecDepth 8192 in
set_option maxHeartbeats 4000000 in
/-- Window main_part9 is its operations run in order: the called functions unfolded at their calls and sequencing re-associated, both sides are one chain of steps. -/
theorem main_part9_eq (c : Dev nD) : main_part9 (F := F) c = seq ops_part9 := by
  simp only [main_part9, fn_where.body, fn_clip.body, seq, bind_assoc, pure_bind] <;> rfl

set_option maxRecDepth 8192 in
/-- Every operation of the window reads and writes TensorCore buffers only. -/
theorem ops_part9_sub : (ops_part9 : List (HloOp τ sig (Elt F))).Forall fun op => op.bufs ⊆ tcRefs τ sig :=
  ⟨unary_bufs_sub .., unary_bufs_sub .., unary_bufs_sub .., unary_bufs_sub .., ternary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub ..⟩

set_option maxRecDepth 8192 in
/-- Every operation of the window determines what it writes: none leaves a buffer at arbitrary contents. -/
theorem ops_part9_fresh : (ops_part9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part9_W : List (Ref sig .tc) := [main_call23_v0, main_call23_v1, main_call23_v2, main_call23_v3, main_v382, main_v383, main_v384, main_v385, main_v386, main_v387, main_cst_156, main_v388, main_v389, main_v390, main_c_157, main_v391, main_v392, main_c_158, main_v393, main_v394, main_c_159, main_v395, main_v396, main_c_160, main_v397, main_v398, main_c_161, main_v399, main_v400, main_v401, main_c_162, main_v402, main_v403, main_v404, main_c_163, main_v405, main_v406, main_v407, main_c_164, main_v408, main_v409, main_v410, main_c_165, main_v411, main_v412, main_v413, main_c_166, main_c_167, main_call24_v0, main_call24_v1, main_call24_v2, main_call24_v3, main_call24_v4, main_v414, main_c_168, main_c_169, main_call25_v0, main_call25_v1, main_call25_v2, main_call25_v3, main_call25_v4, main_v415, main_c_170, main_c_171, main_call26_v0, main_call26_v1, main_call26_v2, main_call26_v3, main_call26_v4, main_v416, main_c_172, main_v417, main_v418, main_c_173, main_v419, main_v420, main_v421, main_c_174, main_v422]

set_option maxRecDepth 8192 in
/-- Each operation of the window writes one buffer of that list. -/
theorem ops_part9_writes : (ops_part9 : List (HloOp τ sig (Elt F))).Forall fun op => op.writes ⊆ (ops_part9_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

end Cert.ReferenceIdeal.HandRun

end
-- ==== Proof.RefRunP5.lean ====
/- The reference program's @main, windows main_part10 … main_part11, as LISTS of host operations: each printed
   statement one entry, in order, and each call replaced by the called function's operations over the buffers that
   call names (its record), a call inside a called function likewise. With each list: the window equals the list run
   in order, every operation's buffers are TensorCore buffers, no operation leaves a buffer undetermined, and the
   list of buffers the window writes. -/
import proofs.«103167_j42614665511136_1_alg».proof.Proof.Gen.ReferenceIdeal
import Idealize.ShloMosaic.Lib.StableHlo.Run
import proofs.«103167_j42614665511136_1_alg».proof.Proof.RefRunP3

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window main_part10's 69 operations, in order, calls replaced by the called functions' operations. -/
abbrev ops_part10 : List (HloOp τ sig (Elt F)) :=
  [ StableHlo.binary main_v415 main_v422 main_v423 (cmpi .slt : (⟨S2x12544, .i32⟩ : BufTy).Contents (Elt F) → (⟨S2x12544, .i32⟩ : BufTy).Contents (Elt F) → (⟨S2x12544, .i1⟩ : BufTy).Contents (Elt F)),
    StableHlo.nullary main_c_175 (constantI S_ 32 64#32),
    StableHlo.unary main_c_175 main_v424 (broadcastInDim S2x12544 ![] bcast_S_S2x12544 : (⟨S_, .i32⟩ : BufTy).Contents (Elt F) → (⟨S2x12544, .i32⟩ : BufTy).Contents (Elt F)),
    StableHlo.binary main_v415 main_v424 main_v425 (addi : (⟨S2x12544, .i32⟩ : BufTy).Contents (Elt F) → (⟨S2x12544, .i32⟩ : BufTy).Contents (Elt F) → (⟨S2x12544, .i32⟩ : BufTy).Contents (Elt F)),
    StableHlo.ternary main_v423 main_v425 main_v415 main_v426 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_176 (constantI S_ 32 0#32),
    StableHlo.unary main_c_176 main_v427 (broadcastInDim S2x12544 ![] bcast_S_S2x12544 : (⟨S_, .i32⟩ : BufTy).Contents (Elt F) → (⟨S2x12544, .i32⟩ : BufTy).Contents (Elt F)),
    StableHlo.binary main_v416 main_v427 main_v428 (cmpi .slt : (⟨S2x12544, .i32⟩ : BufTy).Contents (Elt F) → (⟨S2x12544, .i32⟩ : BufTy).Contents (Elt F) → (⟨S2x12544, .i1⟩ : BufTy).Contents (Elt F)),
    StableHlo.nullary main_c_177 (constantI S_ 32 64#32),
    StableHlo.unary main_c_177 main_v429 (broadcastInDim S2x12544 ![] bcast_S_S2x12544 : (⟨S_, .i32⟩ : BufTy).Contents (Elt F) → (⟨S2x12544, .i32⟩ : BufTy).Contents (Elt F)),
    StableHlo.binary main_v416 main_v429 main_v430 (addi : (⟨S2x12544, .i32⟩ : BufTy).Contents (Elt F) → (⟨S2x12544, .i32⟩ : BufTy).Contents (Elt F) → (⟨S2x12544, .i32⟩ : BufTy).Contents (Elt F)),
    StableHlo.ternary main_v428 main_v430 main_v416 main_v431 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v421 main_v432 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v426 main_v433 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v431 main_v434 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v432, main_v433, main_v434] main_v435 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg0 main_v435 main_v436 ((fun x i => Host.gather gather_S2x100x64x64x64_S2x12544x3_S2x100x12544_1_234_0_0_234_2_1100111 x i) : (⟨S2x100x64x64x64, .f32⟩ : BufTy).Contents (Elt F) → (⟨S2x12544x3, .i32⟩ : BufTy).Contents (Elt F) → (⟨S2x100x12544, .f32⟩ : BufTy).Contents (Elt F)),
    StableHlo.nullary main_cst_178 (constant S_ .f32 0x00000000#32),
    StableHlo.TRef.unary (.of main_cst_178 : StableHlo.TRef sig ⟨S_, .f32⟩) (.of main_call27_v0 : StableHlo.TRef sig ⟨S12544, .f32⟩) (broadcastInDim S12544 ![] bcast_S_S12544),
    StableHlo.TRef.unary (.of main_v413 : StableHlo.TRef sig ⟨S2x12544, .i1⟩) (.of main_call27_v1 : StableHlo.TRef sig ⟨S2x100x12544, .i1⟩) (broadcastInDim S2x100x12544 ![0, 2] bcast_S2x12544_S2x100x12544_0_2),
    StableHlo.TRef.unary (.of main_call27_v0 : StableHlo.TRef sig ⟨S12544, .f32⟩) (.of main_call27_v2 : StableHlo.TRef sig ⟨S100x12544, .f32⟩) (broadcastInDim S100x12544 ![1] bcast_S12544_S100x12544_1),
    StableHlo.TRef.unary (.of main_call27_v2 : StableHlo.TRef sig ⟨S100x12544, .f32⟩) (.of main_call27_v3 : StableHlo.TRef sig ⟨S2x100x12544, .f32⟩) (broadcastInDim S2x100x12544 ![1, 2] bcast_S100x12544_S2x100x12544_1_2),
    StableHlo.TRef.ternary (.of main_call27_v1 : StableHlo.TRef sig ⟨S2x100x12544, .i1⟩) (.of main_v436 : StableHlo.TRef sig ⟨S2x100x12544, .f32⟩) (.of main_call27_v3 : StableHlo.TRef sig ⟨S2x100x12544, .f32⟩) (.of main_v437 : StableHlo.TRef sig ⟨S2x100x12544, .f32⟩) select,
    StableHlo.unary main_v390 main_v438 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v438 main_v439 (broadcastInDim S2x100x12544 ![0, 1, 2] bcast_S2x1x12544_S2x100x12544_0_1_2 : (⟨S2x1x12544, .f32⟩ : BufTy).Contents (Elt F) → (⟨S2x100x12544, .f32⟩ : BufTy).Contents (Elt F)),
    StableHlo.binary main_v439 main_v437 main_v440 (mulf : (⟨S2x100x12544, .f32⟩ : BufTy).Contents (Elt F) → (⟨S2x100x12544, .f32⟩ : BufTy).Contents (Elt F) → (⟨S2x100x12544, .f32⟩ : BufTy).Contents (Elt F)),
    StableHlo.binary main_v386 main_v440 main_v441 (addf : (⟨S2x100x12544, .f32⟩ : BufTy).Contents (Elt F) → (⟨S2x100x12544, .f32⟩ : BufTy).Contents (Elt F) → (⟨S2x100x12544, .f32⟩ : BufTy).Contents (Elt F)),
    StableHlo.binary main_v39 main_v38 main_v442 (mulf : (⟨S2x12544, .f32⟩ : BufTy).Contents (Elt F) → (⟨S2x12544, .f32⟩ : BufTy).Contents (Elt F) → (⟨S2x12544, .f32⟩ : BufTy).Contents (Elt F)),
    StableHlo.binary main_v442 main_v37 main_v443 (mulf : (⟨S2x12544, .f32⟩ : BufTy).Contents (Elt F) → (⟨S2x12544, .f32⟩ : BufTy).Contents (Elt F) → (⟨S2x12544, .f32⟩ : BufTy).Contents (Elt F)),
    StableHlo.nullary main_c_179 (constantI S_ 32 1#32),
    StableHlo.unary main_c_179 main_v444 (broadcastInDim S2x12544 ![] bcast_S_S2x12544 : (⟨S_, .i32⟩ : BufTy).Contents (Elt F) → (⟨S2x12544, .i32⟩ : BufTy).Contents (Elt F)),
    StableHlo.binary main_v42 main_v444 main_v445 (addi : (⟨S2x12544, .i32⟩ : BufTy).Contents (Elt F) → (⟨S2x12544, .i32⟩ : BufTy).Contents (Elt F) → (⟨S2x12544, .i32⟩ : BufTy).Contents (Elt F)),
    StableHlo.nullary main_c_180 (constantI S_ 32 1#32),
    StableHlo.unary main_c_180 main_v446 (broadcastInDim S2x12544 ![] bcast_S_S2x12544 : (⟨S_, .i32⟩ : BufTy).Contents (Elt F) → (⟨S2x12544, .i32⟩ : BufTy).Contents (Elt F)),
    StableHlo.binary main_v41 main_v446 main_v447 (addi : (⟨S2x12544, .i32⟩ : BufTy).Contents (Elt F) → (⟨S2x12544, .i32⟩ : BufTy).Contents (Elt F) → (⟨S2x12544, .i32⟩ : BufTy).Contents (Elt F)),
    StableHlo.nullary main_c_181 (constantI S_ 32 1#32),
    StableHlo.unary main_c_181 main_v448 (broadcastInDim S2x12544 ![] bcast_S_S2x12544 : (⟨S_, .i32⟩ : BufTy).Contents (Elt F) → (⟨S2x12544, .i32⟩ : BufTy).Contents (Elt F)),
    StableHlo.binary main_v40 main_v448 main_v449 (addi : (⟨S2x12544, .i32⟩ : BufTy).Contents (Elt F) → (⟨S2x12544, .i32⟩ : BufTy).Contents (Elt F) → (⟨S2x12544, .i32⟩ : BufTy).Contents (Elt F)),
    StableHlo.nullary main_c_182 (constantI S_ 32 0#32),
    StableHlo.unary main_c_182 main_v450 (broadcastInDim S2x12544 ![] bcast_S_S2x12544 : (⟨S_, .i32⟩ : BufTy).Contents (Elt F) → (⟨S2x12544, .i32⟩ : BufTy).Contents (Elt F)),
    StableHlo.binary main_v445 main_v450 main_v451 (cmpi .sge : (⟨S2x12544, .i32⟩ : BufTy).Contents (Elt F) → (⟨S2x12544, .i32⟩ : BufTy).Contents (Elt F) → (⟨S2x12544, .i1⟩ : BufTy).Contents (Elt F)),
    StableHlo.nullary main_c_183 (constantI S_ 32 64#32),
    StableHlo.unary main_c_183 main_v452 (broadcastInDim S2x12544 ![] bcast_S_S2x12544 : (⟨S_, .i32⟩ : BufTy).Contents (Elt F) → (⟨S2x12544, .i32⟩ : BufTy).Contents (Elt F)),
    StableHlo.binary main_v445 main_v452 main_v453 (cmpi .slt : (⟨S2x12544, .i32⟩ : BufTy).Contents (Elt F) → (⟨S2x12544, .i32⟩ : BufTy).Contents (Elt F) → (⟨S2x12544, .i1⟩ : BufTy).Contents (Elt F)),
    StableHlo.binary main_v451 main_v453 main_v454 (andi : (⟨S2x12544, .i1⟩ : BufTy).Contents (Elt F) → (⟨S2x12544, .i1⟩ : BufTy).Contents (Elt F) → (⟨S2x12544, .i1⟩ : BufTy).Contents (Elt F)),
    StableHlo.nullary main_c_184 (constantI S_ 32 0#32),
    StableHlo.unary main_c_184 main_v455 (broadcastInDim S2x12544 ![] bcast_S_S2x12544 : (⟨S_, .i32⟩ : BufTy).Contents (Elt F) → (⟨S2x12544, .i32⟩ : BufTy).Contents (Elt F)),
    StableHlo.binary main_v447 main_v455 main_v456 (cmpi .sge : (⟨S2x12544, .i32⟩ : BufTy).Contents (Elt F) → (⟨S2x12544, .i32⟩ : BufTy).Contents (Elt F) → (⟨S2x12544, .i1⟩ : BufTy).Contents (Elt F)),
    StableHlo.binary main_v454 main_v456 main_v457 (andi : (⟨S2x12544, .i1⟩ : BufTy).Contents (Elt F) → (⟨S2x12544, .i1⟩ : BufTy).Contents (Elt F) → (⟨S2x12544, .i1⟩ : BufTy).Contents (Elt F)),
    StableHlo.nullary main_c_185 (constantI S_ 32 64#32),
    StableHlo.unary main_c_185 main_v458 (broadcastInDim S2x12544 ![] bcast_S_S2x12544 : (⟨S_, .i32⟩ : BufTy).Contents (Elt F) → (⟨S2x12544, .i32⟩ : BufTy).Contents (Elt F)),
    StableHlo.binary main_v447 main_v458 main_v459 (cmpi .slt : (⟨S2x12544, .i32⟩ : BufTy).Contents (Elt F) → (⟨S2x12544, .i32⟩ : BufTy).Contents (Elt F) → (⟨S2x12544, .i1⟩ : BufTy).Contents (Elt F)),
    StableHlo.binary main_v457 main_v459 main_v460 (andi : (⟨S2x12544, .i1⟩ : BufTy).Contents (Elt F) → (⟨S2x12544, .i1⟩ : BufTy).Contents (Elt F) → (⟨S2x12544, .i1⟩ : BufTy).Contents (Elt F)),
    StableHlo.nullary main_c_186 (constantI S_ 32 0#32),
    StableHlo.unary main_c_186 main_v461 (broadcastInDim S2x12544 ![] bcast_S_S2x12544 : (⟨S_, .i32⟩ : BufTy).Contents (Elt F) → (⟨S2x12544, .i32⟩ : BufTy).Contents (Elt F)),
    StableHlo.binary main_v449 main_v461 main_v462 (cmpi .sge : (⟨S2x12544, .i32⟩ : BufTy).Contents (Elt F) → (⟨S2x12544, .i32⟩ : BufTy).Contents (Elt F) → (⟨S2x12544, .i1⟩ : BufTy).Contents (Elt F)),
    StableHlo.binary main_v460 main_v462 main_v463 (andi : (⟨S2x12544, .i1⟩ : BufTy).Contents (Elt F) → (⟨S2x12544, .i1⟩ : BufTy).Contents (Elt F) → (⟨S2x12544, .i1⟩ : BufTy).Contents (Elt F)),
    StableHlo.nullary main_c_187 (constantI S_ 32 64#32),
    StableHlo.unary main_c_187 main_v464 (broadcastInDim S2x12544 ![] bcast_S_S2x12544 : (⟨S_, .i32⟩ : BufTy).Contents (Elt F) → (⟨S2x12544, .i32⟩ : BufTy).Contents (Elt F)),
    StableHlo.binary main_v449 main_v464 main_v465 (cmpi .slt : (⟨S2x12544, .i32⟩ : BufTy).Contents (Elt F) → (⟨S2x12544, .i32⟩ : BufTy).Contents (Elt F) → (⟨S2x12544, .i1⟩ : BufTy).Contents (Elt F)),
    StableHlo.binary main_v463 main_v465 main_v466 (andi : (⟨S2x12544, .i1⟩ : BufTy).Contents (Elt F) → (⟨S2x12544, .i1⟩ : BufTy).Contents (Elt F) → (⟨S2x12544, .i1⟩ : BufTy).Contents (Elt F)),
    StableHlo.nullary main_c_188 (constantI S_ 32 0#32),
    StableHlo.nullary main_c_189 (constantI S_ 32 63#32),
    StableHlo.TRef.unary (.of main_c_188 : StableHlo.TRef sig ⟨S_, .i32⟩) (.of main_call28_v0 : StableHlo.TRef sig ⟨S_, .i32⟩) id,
    StableHlo.TRef.unary (.of main_call28_v0 : StableHlo.TRef sig ⟨S_, .i32⟩) (.of main_call28_v1 : StableHlo.TRef sig ⟨S2x12544, .i32⟩) (broadcastInDim S2x12544 ![] bcast_S_S2x12544),
    StableHlo.TRef.binary (.of main_call28_v1 : StableHlo.TRef sig ⟨S2x12544, .i32⟩) (.of main_v445 : StableHlo.TRef sig ⟨S2x12544, .i32⟩) (.of main_call28_v2 : StableHlo.TRef sig ⟨S2x12544, .i32⟩) maxsi,
    StableHlo.TRef.unary (.of main_c_189 : StableHlo.TRef sig ⟨S_, .i32⟩) (.of main_call28_v3 : StableHlo.TRef sig ⟨S_, .i32⟩) id,
    StableHlo.TRef.unary (.of main_call28_v3 : StableHlo.TRef sig ⟨S_, .i32⟩) (.of main_call28_v4 : StableHlo.TRef sig ⟨S2x12544, .i32⟩) (broadcastInDim S2x12544 ![] bcast_S_S2x12544),
    StableHlo.TRef.binary (.of main_call28_v4 : StableHlo.TRef sig ⟨S2x12544, .i32⟩) (.of main_call28_v2 : StableHlo.TRef sig ⟨S2x12544, .i32⟩) (.of main_v467 : StableHlo.TRef sig ⟨S2x12544, .i32⟩) minsi ]

set_option maxRecDepth 8192 in
set_option maxHeartbeats 4000000 in
/-- Window main_part10 is its operations run in order: the called functions unfolded at their calls and sequencing re-associated, both sides are one chain of steps. -/
theorem main_part10_eq (c : Dev nD) : main_part10 (F := F) c = seq ops_part10 := by
  simp only [main_part10, fn_where.body, fn_clip.body, seq, bind_assoc, pure_bind] <;> rfl

set_option maxRecDepth 8192 in
/-- Every operation of the window reads and writes TensorCore buffers only. -/
theorem ops_part10_sub : (ops_part10 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., unary_bufs_sub .., unary_bufs_sub .., unary_bufs_sub .., ternary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩

set_option maxRecDepth 8192 in
/-- Every operation of the window determines what it writes: none leaves a buffer at arbitrary contents. -/
theorem ops_part10_fresh : (ops_part10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part10_W : List (Ref sig .tc) := [main_v423, main_c_175, main_v424, main_v425, main_v426, main_c_176, main_v427, main_v428, main_c_177, main_v429, main_v430, main_v431, main_v432, main_v433, main_v434, main_v435, main_v436, main_cst_178, main_call27_v0, main_call27_v1, main_call27_v2, main_call27_v3, main_v437, main_v438, main_v439, main_v440, main_v441, main_v442, main_v443, main_c_179, main_v444, main_v445, main_c_180, main_v446, main_v447, main_c_181, main_v448, main_v449, main_c_182, main_v450, main_v451, main_c_183, main_v452, main_v453, main_v454, main_c_184, main_v455, main_v456, main_v457, main_c_185, main_v458, main_v459, main_v460, main_c_186, main_v461, main_v462, main_v463, main_c_187, main_v464, main_v465, main_v466, main_c_188, main_c_189, main_call28_v0, main_call28_v1, main_call28_v2, main_call28_v3, main_call28_v4, main_v467]

set_option maxRecDepth 8192 in
/-- Each operation of the window writes one buffer of that list. -/
theorem ops_part10_writes : (ops_part10 : List (HloOp τ sig (Elt F))).Forall fun op => op.writes ⊆ (ops_part10_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

set_option maxRecDepth 8192 in
set_option maxHeartbeats 4000000 in
/-- Window main_part11's 74 operations, in order, calls replaced by the called functions' operations. -/
abbrev ops_part11 : List (HloOp τ sig (Elt F)) :=
  [ StableHlo.nullary main_c_190 (constantI S_ 32 0#32),
    StableHlo.nullary main_c_191 (constantI S_ 32 63#32),
    StableHlo.TRef.unary (.of main_c_190 : StableHlo.TRef sig ⟨S_, .i32⟩) (.of main_call29_v0 : StableHlo.TRef sig ⟨S_, .i32⟩) id,
    StableHlo.TRef.unary (.of main_call29_v0 : StableHlo.TRef sig ⟨S_, .i32⟩) (.of main_call29_v1 : StableHlo.TRef sig ⟨S2x12544, .i32⟩) (broadcastInDim S2x12544 ![] bcast_S_S2x12544),
    StableHlo.TRef.binary (.of main_call29_v1 : StableHlo.TRef sig ⟨S2x12544, .i32⟩) (.of main_v447 : StableHlo.TRef sig ⟨S2x12544, .i32⟩) (.of main_call29_v2 : StableHlo.TRef sig ⟨S2x12544, .i32⟩) maxsi,
    StableHlo.TRef.unary (.of main_c_191 : StableHlo.TRef sig ⟨S_, .i32⟩) (.of main_call29_v3 : StableHlo.TRef sig ⟨S_, .i32⟩) id,
    StableHlo.TRef.unary (.of main_call29_v3 : StableHlo.TRef sig ⟨S_, .i32⟩) (.of main_call29_v4 : StableHlo.TRef sig ⟨S2x12544, .i32⟩) (broadcastInDim S2x12544 ![] bcast_S_S2x12544),
    StableHlo.TRef.binary (.of main_call29_v4 : StableHlo.TRef sig ⟨S2x12544, .i32⟩) (.of main_call29_v2 : StableHlo.TRef sig ⟨S2x12544, .i32⟩) (.of main_v468 : StableHlo.TRef sig ⟨S2x12544, .i32⟩) minsi,
    StableHlo.nullary main_c_192 (constantI S_ 32 0#32),
    StableHlo.nullary main_c_193 (constantI S_ 32 63#32),
    StableHlo.TRef.unary (.of main_c_192 : StableHlo.TRef sig ⟨S_, .i32⟩) (.of main_call30_v0 : StableHlo.TRef sig ⟨S_, .i32⟩) id,
    StableHlo.TRef.unary (.of main_call30_v0 : StableHlo.TRef sig ⟨S_, .i32⟩) (.of main_call30_v1 : StableHlo.TRef sig ⟨S2x12544, .i32⟩) (broadcastInDim S2x12544 ![] bcast_S_S2x12544),
    StableHlo.TRef.binary (.of main_call30_v1 : StableHlo.TRef sig ⟨S2x12544, .i32⟩) (.of main_v449 : StableHlo.TRef sig ⟨S2x12544, .i32⟩) (.of main_call30_v2 : StableHlo.TRef sig ⟨S2x12544, .i32⟩) maxsi,
    StableHlo.TRef.unary (.of main_c_193 : StableHlo.TRef sig ⟨S_, .i32⟩) (.of main_call30_v3 : StableHlo.TRef sig ⟨S_, .i32⟩) id,
    StableHlo.TRef.unary (.of main_call30_v3 : StableHlo.TRef sig ⟨S_, .i32⟩) (.of main_call30_v4 : StableHlo.TRef sig ⟨S2x12544, .i32⟩) (broadcastInDim S2x12544 ![] bcast_S_S2x12544),
    StableHlo.TRef.binary (.of main_call30_v4 : StableHlo.TRef sig ⟨S2x12544, .i32⟩) (.of main_call30_v2 : StableHlo.TRef sig ⟨S2x12544, .i32⟩) (.of main_v469 : StableHlo.TRef sig ⟨S2x12544, .i32⟩) minsi,
    StableHlo.nullary main_c_194 (constantI S_ 32 0#32),
    StableHlo.unary main_c_194 main_v470 (broadcastInDim S2x12544 ![] bcast_S_S2x12544 : (⟨S_, .i32⟩ : BufTy).Contents (Elt F) → (⟨S2x12544, .i32⟩ : BufTy).Contents (Elt F)),
    StableHlo.binary main_v467 main_v470 main_v471 (cmpi .slt : (⟨S2x12544, .i32⟩ : BufTy).Contents (Elt F) → (⟨S2x12544, .i32⟩ : BufTy).Contents (Elt F) → (⟨S2x12544, .i1⟩ : BufTy).Contents (Elt F)),
    StableHlo.nullary main_c_195 (constantI S_ 32 64#32),
    StableHlo.unary main_c_195 main_v472 (broadcastInDim S2x12544 ![] bcast_S_S2x12544 : (⟨S_, .i32⟩ : BufTy).Contents (Elt F) → (⟨S2x12544, .i32⟩ : BufTy).Contents (Elt F)),
    StableHlo.binary main_v467 main_v472 main_v473 (addi : (⟨S2x12544, .i32⟩ : BufTy).Contents (Elt F) → (⟨S2x12544, .i32⟩ : BufTy).Contents (Elt F) → (⟨S2x12544, .i32⟩ : BufTy).Contents (Elt F)),
    StableHlo.ternary main_v471 main_v473 main_v467 main_v474 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_196 (constantI S_ 32 0#32),
    StableHlo.unary main_c_196 main_v475 (broadcastInDim S2x12544 ![] bcast_S_S2x12544 : (⟨S_, .i32⟩ : BufTy).Contents (Elt F) → (⟨S2x12544, .i32⟩ : BufTy).Contents (Elt F)),
    StableHlo.binary main_v468 main_v475 main_v476 (cmpi .slt : (⟨S2x12544, .i32⟩ : BufTy).Contents (Elt F) → (⟨S2x12544, .i32⟩ : BufTy).Contents (Elt F) → (⟨S2x12544, .i1⟩ : BufTy).Contents (Elt F)),
    StableHlo.nullary main_c_197 (constantI S_ 32 64#32),
    StableHlo.unary main_c_197 main_v477 (broadcastInDim S2x12544 ![] bcast_S_S2x12544 : (⟨S_, .i32⟩ : BufTy).Contents (Elt F) → (⟨S2x12544, .i32⟩ : BufTy).Contents (Elt F)),
    StableHlo.binary main_v468 main_v477 main_v478 (addi : (⟨S2x12544, .i32⟩ : BufTy).Contents (Elt F) → (⟨S2x12544, .i32⟩ : BufTy).Contents (Elt F) → (⟨S2x12544, .i32⟩ : BufTy).Contents (Elt F)),
    StableHlo.ternary main_v476 main_v478 main_v468 main_v479 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_198 (constantI S_ 32 0#32),
    StableHlo.unary main_c_198 main_v480 (broadcastInDim S2x12544 ![] bcast_S_S2x12544 : (⟨S_, .i32⟩ : BufTy).Contents (Elt F) → (⟨S2x12544, .i32⟩ : BufTy).Contents (Elt F)),
    StableHlo.binary main_v469 main_v480 main_v481 (cmpi .slt : (⟨S2x12544, .i32⟩ : BufTy).Contents (Elt F) → (⟨S2x12544, .i32⟩ : BufTy).Contents (Elt F) → (⟨S2x12544, .i1⟩ : BufTy).Contents (Elt F)),
    StableHlo.nullary main_c_199 (constantI S_ 32 64#32),
    StableHlo.unary main_c_199 main_v482 (broadcastInDim S2x12544 ![] bcast_S_S2x12544 : (⟨S_, .i32⟩ : BufTy).Contents (Elt F) → (⟨S2x12544, .i32⟩ : BufTy).Contents (Elt F)),
    StableHlo.binary main_v469 main_v482 main_v483 (addi : (⟨S2x12544, .i32⟩ : BufTy).Contents (Elt F) → (⟨S2x12544, .i32⟩ : BufTy).Contents (Elt F) → (⟨S2x12544, .i32⟩ : BufTy).Contents (Elt F)),
    StableHlo.ternary main_v481 main_v483 main_v469 main_v484 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v474 main_v485 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v479 main_v486 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v484 main_v487 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v485, main_v486, main_v487] main_v488 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg0 main_v488 main_v489 ((fun x i => Host.gather gather_S2x100x64x64x64_S2x12544x3_S2x100x12544_1_234_0_0_234_2_1100111 x i) : (⟨S2x100x64x64x64, .f32⟩ : BufTy).Contents (Elt F) → (⟨S2x12544x3, .i32⟩ : BufTy).Contents (Elt F) → (⟨S2x100x12544, .f32⟩ : BufTy).Contents (Elt F)),
    StableHlo.nullary main_cst_200 (constant S_ .f32 0x00000000#32),
    StableHlo.TRef.unary (.of main_cst_200 : StableHlo.TRef sig ⟨S_, .f32⟩) (.of main_call31_v0 : StableHlo.TRef sig ⟨S12544, .f32⟩) (broadcastInDim S12544 ![] bcast_S_S12544),
    StableHlo.TRef.unary (.of main_v466 : StableHlo.TRef sig ⟨S2x12544, .i1⟩) (.of main_call31_v1 : StableHlo.TRef sig ⟨S2x100x12544, .i1⟩) (broadcastInDim S2x100x12544 ![0, 2] bcast_S2x12544_S2x100x12544_0_2),
    StableHlo.TRef.unary (.of main_call31_v0 : StableHlo.TRef sig ⟨S12544, .f32⟩) (.of main_call31_v2 : StableHlo.TRef sig ⟨S100x12544, .f32⟩) (broadcastInDim S100x12544 ![1] bcast_S12544_S100x12544_1),
    StableHlo.TRef.unary (.of main_call31_v2 : StableHlo.TRef sig ⟨S100x12544, .f32⟩) (.of main_call31_v3 : StableHlo.TRef sig ⟨S2x100x12544, .f32⟩) (broadcastInDim S2x100x12544 ![1, 2] bcast_S100x12544_S2x100x12544_1_2),
    StableHlo.TRef.ternary (.of main_call31_v1 : StableHlo.TRef sig ⟨S2x100x12544, .i1⟩) (.of main_v489 : StableHlo.TRef sig ⟨S2x100x12544, .f32⟩) (.of main_call31_v3 : StableHlo.TRef sig ⟨S2x100x12544, .f32⟩) (.of main_v490 : StableHlo.TRef sig ⟨S2x100x12544, .f32⟩) select,
    StableHlo.unary main_v443 main_v491 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v491 main_v492 (broadcastInDim S2x100x12544 ![0, 1, 2] bcast_S2x1x12544_S2x100x12544_0_1_2 : (⟨S2x1x12544, .f32⟩ : BufTy).Contents (Elt F) → (⟨S2x100x12544, .f32⟩ : BufTy).Contents (Elt F)),
    StableHlo.binary main_v492 main_v490 main_v493 (mulf : (⟨S2x100x12544, .f32⟩ : BufTy).Contents (Elt F) → (⟨S2x100x12544, .f32⟩ : BufTy).Contents (Elt F) → (⟨S2x100x12544, .f32⟩ : BufTy).Contents (Elt F)),
    StableHlo.binary main_v441 main_v493 main_v494 (addf : (⟨S2x100x12544, .f32⟩ : BufTy).Contents (Elt F) → (⟨S2x100x12544, .f32⟩ : BufTy).Contents (Elt F) → (⟨S2x100x12544, .f32⟩ : BufTy).Contents (Elt F)),
    StableHlo.nullary main_cst_201 (constant S_ .f32 0x40000000#32),
    StableHlo.unary main_cst_201 main_v495 (broadcastInDim S2x12544x3 ![] bcast_S_S2x12544x3 : (⟨S_, .f32⟩ : BufTy).Contents (Elt F) → (⟨S2x12544x3, .f32⟩ : BufTy).Contents (Elt F)),
    StableHlo.binary main_v495 main_arg3 main_v496 (mulf : (⟨S2x12544x3, .f32⟩ : BufTy).Contents (Elt F) → (⟨S2x12544x3, .f32⟩ : BufTy).Contents (Elt F) → (⟨S2x12544x3, .f32⟩ : BufTy).Contents (Elt F)),
    StableHlo.nullary main_cst_202 (constant S_ .f32 0x3F800000#32),
    StableHlo.unary main_cst_202 main_v497 (broadcastInDim S2x12544x3 ![] bcast_S_S2x12544x3 : (⟨S_, .f32⟩ : BufTy).Contents (Elt F) → (⟨S2x12544x3, .f32⟩ : BufTy).Contents (Elt F)),
    StableHlo.binary main_v496 main_v497 main_v498 (subf : (⟨S2x12544x3, .f32⟩ : BufTy).Contents (Elt F) → (⟨S2x12544x3, .f32⟩ : BufTy).Contents (Elt F) → (⟨S2x12544x3, .f32⟩ : BufTy).Contents (Elt F)),
    StableHlo.unary main_v498 main_v499 ((extractStridedSlice S2x12544x1 ![0, 0, 0] · slices_S2x12544x3_S2x12544x1_0_0_0) : (⟨S2x12544x3, .f32⟩ : BufTy).Contents (Elt F) → (⟨S2x12544x1, .f32⟩ : BufTy).Contents (Elt F)),
    StableHlo.reshape main_v499 main_v500 rfl shapeCasts_S2x12544x1_S2x12544,
    StableHlo.nullary main_cst_203 (constant S_ .f32 0x3F800000#32),
    StableHlo.unary main_cst_203 main_v501 (broadcastInDim S2x12544 ![] bcast_S_S2x12544 : (⟨S_, .f32⟩ : BufTy).Contents (Elt F) → (⟨S2x12544, .f32⟩ : BufTy).Contents (Elt F)),
    StableHlo.binary main_v500 main_v501 main_v502 (addf : (⟨S2x12544, .f32⟩ : BufTy).Contents (Elt F) → (⟨S2x12544, .f32⟩ : BufTy).Contents (Elt F) → (⟨S2x12544, .f32⟩ : BufTy).Contents (Elt F)),
    StableHlo.nullary main_cst_204 (constant S_ .f32 0x42800000#32),
    StableHlo.unary main_cst_204 main_v503 (broadcastInDim S2x12544 ![] bcast_S_S2x12544 : (⟨S_, .f32⟩ : BufTy).Contents (Elt F) → (⟨S2x12544, .f32⟩ : BufTy).Contents (Elt F)),
    StableHlo.binary main_v502 main_v503 main_v504 (mulf : (⟨S2x12544, .f32⟩ : BufTy).Contents (Elt F) → (⟨S2x12544, .f32⟩ : BufTy).Contents (Elt F) → (⟨S2x12544, .f32⟩ : BufTy).Contents (Elt F)),
    StableHlo.nullary main_cst_205 (constant S_ .f32 0x3F800000#32),
    StableHlo.unary main_cst_205 main_v505 (broadcastInDim S2x12544 ![] bcast_S_S2x12544 : (⟨S_, .f32⟩ : BufTy).Contents (Elt F) → (⟨S2x12544, .f32⟩ : BufTy).Contents (Elt F)),
    StableHlo.binary main_v504 main_v505 main_v506 (subf : (⟨S2x12544, .f32⟩ : BufTy).Contents (Elt F) → (⟨S2x12544, .f32⟩ : BufTy).Contents (Elt F) → (⟨S2x12544, .f32⟩ : BufTy).Contents (Elt F)),
    StableHlo.nullary main_cst_206 (constant S_ .f32 0x3F000000#32),
    StableHlo.unary main_cst_206 main_v507 (broadcastInDim S2x12544 ![] bcast_S_S2x12544 : (⟨S_, .f32⟩ : BufTy).Contents (Elt F) → (⟨S2x12544, .f32⟩ : BufTy).Contents (Elt F)),
    StableHlo.binary main_v506 main_v507 main_v508 (mulf : (⟨S2x12544, .f32⟩ : BufTy).Contents (Elt F) → (⟨S2x12544, .f32⟩ : BufTy).Contents (Elt F) → (⟨S2x12544, .f32⟩ : BufTy).Contents (Elt F)),
    StableHlo.unary main_v498 main_v509 ((extractStridedSlice S2x12544x1 ![0, 0, 1] · slices_S2x12544x3_S2x12544x1_0_0_1) : (⟨S2x12544x3, .f32⟩ : BufTy).Contents (Elt F) → (⟨S2x12544x1, .f32⟩ : BufTy).Contents (Elt F)),
    StableHlo.reshape main_v509 main_v510 rfl shapeCasts_S2x12544x1_S2x12544 ]

set_option maxRecDepth 8192 in
set_option maxHeartbeats 4000000 in
/-- Window main_part11 is its operations run in order: the called functions unfolded at their calls and sequencing re-associated, both sides are one chain of steps. -/
theorem main_part11_eq (c : Dev nD) : main_part11 (F := F) c = seq ops_part11 := by
  simp only [main_part11, fn_clip.body, fn_where.body, seq, bind_assoc, pure_bind] <;> rfl

set_option maxRecDepth 8192 in
/-- Every operation of the window reads and writes TensorCore buffers only. -/
theorem ops_part11_sub : (ops_part11 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., unary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub ..⟩

set_option maxRecDepth 8192 in
/-- Every operation of the window determines what it writes: none leaves a buffer at arbitrary contents. -/
theorem ops_part11_fresh : (ops_part11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part11_W : List (Ref sig .tc) := [main_c_190, main_c_191, main_call29_v0, main_call29_v1, main_call29_v2, main_call29_v3, main_call29_v4, main_v468, main_c_192, main_c_193, main_call30_v0, main_call30_v1, main_call30_v2, main_call30_v3, main_call30_v4, main_v469, main_c_194, main_v470, main_v471, main_c_195, main_v472, main_v473, main_v474, main_c_196, main_v475, main_v476, main_c_197, main_v477, main_v478, main_v479, main_c_198, main_v480, main_v481, main_c_199, main_v482, main_v483, main_v484, main_v485, main_v486, main_v487, main_v488, main_v489, main_cst_200, main_call31_v0, main_call31_v1, main_call31_v2, main_call31_v3, main_v490, main_v491, main_v492, main_v493, main_v494, main_cst_201, main_v495, main_v496, main_cst_202, main_v497, main_v498, main_v499, main_v500, main_cst_203, main_v501, main_v502, main_cst_204, main_v503, main_v504, main_cst_205, main_v505, main_v506, main_cst_206, main_v507, main_v508, main_v509, main_v510]

set_option maxRecDepth 8192 in
/-- Each operation of the window writes one buffer of that list. -/
theorem ops_part11_writes : (ops_part11 : List (HloOp τ sig (Elt F))).Forall fun op => op.writes ⊆ (ops_part11_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

end Cert.ReferenceIdeal.HandRun

end
-- ==== Proof.RefRunP6.lean ====
/- The reference program's @main, windows main_part12 … main_part13, as LISTS of host operations: each printed
   statement one entry, in order, and each call replaced by the called function's operations over the buffers that
   call names (its record), a call inside a called function likewise. With each list: the window equals the list run
   in order, every operation's buffers are TensorCore buffers, no operation leaves a buffer undetermined, and the
   list of buffers the window writes. -/
import proofs.«103167_j42614665511136_1_alg».proof.Proof.Gen.ReferenceIdeal
import Idealize.ShloMosaic.Lib.StableHlo.Run
import proofs.«103167_j42614665511136_1_alg».proof.Proof.RefRunP4

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window main_part12's 60 operations, in order, calls replaced by the called functions' operations. -/
abbrev ops_part12 : List (HloOp τ sig (Elt F)) :=
  [ StableHlo.nullary main_cst_207 (constant S_ .f32 0x3F800000#32),
    StableHlo.unary main_cst_207 main_v511 (broadcastInDim S2x12544 ![] bcast_S_S2x12544 : (⟨S_, .f32⟩ : BufTy).Contents (Elt F) → (⟨S2x12544, .f32⟩ : BufTy).Contents (Elt F)),
    StableHlo.binary main_v510 main_v511 main_v512 (addf : (⟨S2x12544, .f32⟩ : BufTy).Contents (Elt F) → (⟨S2x12544, .f32⟩ : BufTy).Contents (Elt F) → (⟨S2x12544, .f32⟩ : BufTy).Contents (Elt F)),
    StableHlo.nullary main_cst_208 (constant S_ .f32 0x42800000#32),
    StableHlo.unary main_cst_208 main_v513 (broadcastInDim S2x12544 ![] bcast_S_S2x12544 : (⟨S_, .f32⟩ : BufTy).Contents (Elt F) → (⟨S2x12544, .f32⟩ : BufTy).Contents (Elt F)),
    StableHlo.binary main_v512 main_v513 main_v514 (mulf : (⟨S2x12544, .f32⟩ : BufTy).Contents (Elt F) → (⟨S2x12544, .f32⟩ : BufTy).Contents (Elt F) → (⟨S2x12544, .f32⟩ : BufTy).Contents (Elt F)),
    StableHlo.nullary main_cst_209 (constant S_ .f32 0x3F800000#32),
    StableHlo.unary main_cst_209 main_v515 (broadcastInDim S2x12544 ![] bcast_S_S2x12544 : (⟨S_, .f32⟩ : BufTy).Contents (Elt F) → (⟨S2x12544, .f32⟩ : BufTy).Contents (Elt F)),
    StableHlo.binary main_v514 main_v515 main_v516 (subf : (⟨S2x12544, .f32⟩ : BufTy).Contents (Elt F) → (⟨S2x12544, .f32⟩ : BufTy).Contents (Elt F) → (⟨S2x12544, .f32⟩ : BufTy).Contents (Elt F)),
    StableHlo.nullary main_cst_210 (constant S_ .f32 0x3F000000#32),
    StableHlo.unary main_cst_210 main_v517 (broadcastInDim S2x12544 ![] bcast_S_S2x12544 : (⟨S_, .f32⟩ : BufTy).Contents (Elt F) → (⟨S2x12544, .f32⟩ : BufTy).Contents (Elt F)),
    StableHlo.binary main_v516 main_v517 main_v518 (mulf : (⟨S2x12544, .f32⟩ : BufTy).Contents (Elt F) → (⟨S2x12544, .f32⟩ : BufTy).Contents (Elt F) → (⟨S2x12544, .f32⟩ : BufTy).Contents (Elt F)),
    StableHlo.unary main_v498 main_v519 ((extractStridedSlice S2x12544x1 ![0, 0, 2] · slices_S2x12544x3_S2x12544x1_0_0_2) : (⟨S2x12544x3, .f32⟩ : BufTy).Contents (Elt F) → (⟨S2x12544x1, .f32⟩ : BufTy).Contents (Elt F)),
    StableHlo.reshape main_v519 main_v520 rfl shapeCasts_S2x12544x1_S2x12544,
    StableHlo.nullary main_cst_211 (constant S_ .f32 0x3F800000#32),
    StableHlo.unary main_cst_211 main_v521 (broadcastInDim S2x12544 ![] bcast_S_S2x12544 : (⟨S_, .f32⟩ : BufTy).Contents (Elt F) → (⟨S2x12544, .f32⟩ : BufTy).Contents (Elt F)),
    StableHlo.binary main_v520 main_v521 main_v522 (addf : (⟨S2x12544, .f32⟩ : BufTy).Contents (Elt F) → (⟨S2x12544, .f32⟩ : BufTy).Contents (Elt F) → (⟨S2x12544, .f32⟩ : BufTy).Contents (Elt F)),
    StableHlo.nullary main_cst_212 (constant S_ .f32 0x42800000#32),
    StableHlo.unary main_cst_212 main_v523 (broadcastInDim S2x12544 ![] bcast_S_S2x12544 : (⟨S_, .f32⟩ : BufTy).Contents (Elt F) → (⟨S2x12544, .f32⟩ : BufTy).Contents (Elt F)),
    StableHlo.binary main_v522 main_v523 main_v524 (mulf : (⟨S2x12544, .f32⟩ : BufTy).Contents (Elt F) → (⟨S2x12544, .f32⟩ : BufTy).Contents (Elt F) → (⟨S2x12544, .f32⟩ : BufTy).Contents (Elt F)),
    StableHlo.nullary main_cst_213 (constant S_ .f32 0x3F800000#32),
    StableHlo.unary main_cst_213 main_v525 (broadcastInDim S2x12544 ![] bcast_S_S2x12544 : (⟨S_, .f32⟩ : BufTy).Contents (Elt F) → (⟨S2x12544, .f32⟩ : BufTy).Contents (Elt F)),
    StableHlo.binary main_v524 main_v525 main_v526 (subf : (⟨S2x12544, .f32⟩ : BufTy).Contents (Elt F) → (⟨S2x12544, .f32⟩ : BufTy).Contents (Elt F) → (⟨S2x12544, .f32⟩ : BufTy).Contents (Elt F)),
    StableHlo.nullary main_cst_214 (constant S_ .f32 0x3F000000#32),
    StableHlo.unary main_cst_214 main_v527 (broadcastInDim S2x12544 ![] bcast_S_S2x12544 : (⟨S_, .f32⟩ : BufTy).Contents (Elt F) → (⟨S2x12544, .f32⟩ : BufTy).Contents (Elt F)),
    StableHlo.binary main_v526 main_v527 main_v528 (mulf : (⟨S2x12544, .f32⟩ : BufTy).Contents (Elt F) → (⟨S2x12544, .f32⟩ : BufTy).Contents (Elt F) → (⟨S2x12544, .f32⟩ : BufTy).Contents (Elt F)),
    StableHlo.unary main_v508 main_v529 (Host.floor : (⟨S2x12544, .f32⟩ : BufTy).Contents (Elt F) → (⟨S2x12544, .f32⟩ : BufTy).Contents (Elt F)),
    StableHlo.unary main_v518 main_v530 (Host.floor : (⟨S2x12544, .f32⟩ : BufTy).Contents (Elt F) → (⟨S2x12544, .f32⟩ : BufTy).Contents (Elt F)),
    StableHlo.unary main_v528 main_v531 (Host.floor : (⟨S2x12544, .f32⟩ : BufTy).Contents (Elt F) → (⟨S2x12544, .f32⟩ : BufTy).Contents (Elt F)),
    StableHlo.binary main_v508 main_v529 main_v532 (subf : (⟨S2x12544, .f32⟩ : BufTy).Contents (Elt F) → (⟨S2x12544, .f32⟩ : BufTy).Contents (Elt F) → (⟨S2x12544, .f32⟩ : BufTy).Contents (Elt F)),
    StableHlo.binary main_v518 main_v530 main_v533 (subf : (⟨S2x12544, .f32⟩ : BufTy).Contents (Elt F) → (⟨S2x12544, .f32⟩ : BufTy).Contents (Elt F) → (⟨S2x12544, .f32⟩ : BufTy).Contents (Elt F)),
    StableHlo.binary main_v528 main_v531 main_v534 (subf : (⟨S2x12544, .f32⟩ : BufTy).Contents (Elt F) → (⟨S2x12544, .f32⟩ : BufTy).Contents (Elt F) → (⟨S2x12544, .f32⟩ : BufTy).Contents (Elt F)),
    StableHlo.unary main_v529 main_v535 (fptosi 32 : (⟨S2x12544, .f32⟩ : BufTy).Contents (Elt F) → (⟨S2x12544, .i32⟩ : BufTy).Contents (Elt F)),
    StableHlo.unary main_v530 main_v536 (fptosi 32 : (⟨S2x12544, .f32⟩ : BufTy).Contents (Elt F) → (⟨S2x12544, .i32⟩ : BufTy).Contents (Elt F)),
    StableHlo.unary main_v531 main_v537 (fptosi 32 : (⟨S2x12544, .f32⟩ : BufTy).Contents (Elt F) → (⟨S2x12544, .i32⟩ : BufTy).Contents (Elt F)),
    StableHlo.nullary main_cst_215 (constant S_ .f32 0x00000000#32),
    StableHlo.unary main_cst_215 main_v538 (broadcastInDim S12544 ![] bcast_S_S12544 : (⟨S_, .f32⟩ : BufTy).Contents (Elt F) → (⟨S12544, .f32⟩ : BufTy).Contents (Elt F)),
    StableHlo.nullary main_cst_216 (constant S_ .f32 0x3F800000#32),
    StableHlo.unary main_cst_216 main_v539 (broadcastInDim S2x12544 ![] bcast_S_S2x12544 : (⟨S_, .f32⟩ : BufTy).Contents (Elt F) → (⟨S2x12544, .f32⟩ : BufTy).Contents (Elt F)),
    StableHlo.binary main_v539 main_v534 main_v540 (subf : (⟨S2x12544, .f32⟩ : BufTy).Contents (Elt F) → (⟨S2x12544, .f32⟩ : BufTy).Contents (Elt F) → (⟨S2x12544, .f32⟩ : BufTy).Contents (Elt F)),
    StableHlo.nullary main_cst_217 (constant S_ .f32 0x3F800000#32),
    StableHlo.unary main_cst_217 main_v541 (broadcastInDim S2x12544 ![] bcast_S_S2x12544 : (⟨S_, .f32⟩ : BufTy).Contents (Elt F) → (⟨S2x12544, .f32⟩ : BufTy).Contents (Elt F)),
    StableHlo.binary main_v541 main_v533 main_v542 (subf : (⟨S2x12544, .f32⟩ : BufTy).Contents (Elt F) → (⟨S2x12544, .f32⟩ : BufTy).Contents (Elt F) → (⟨S2x12544, .f32⟩ : BufTy).Contents (Elt F)),
    StableHlo.binary main_v540 main_v542 main_v543 (mulf : (⟨S2x12544, .f32⟩ : BufTy).Contents (Elt F) → (⟨S2x12544, .f32⟩ : BufTy).Contents (Elt F) → (⟨S2x12544, .f32⟩ : BufTy).Contents (Elt F)),
    StableHlo.nullary main_cst_218 (constant S_ .f32 0x3F800000#32),
    StableHlo.unary main_cst_218 main_v544 (broadcastInDim S2x12544 ![] bcast_S_S2x12544 : (⟨S_, .f32⟩ : BufTy).Contents (Elt F) → (⟨S2x12544, .f32⟩ : BufTy).Contents (Elt F)),
    StableHlo.binary main_v544 main_v532 main_v545 (subf : (⟨S2x12544, .f32⟩ : BufTy).Contents (Elt F) → (⟨S2x12544, .f32⟩ : BufTy).Contents (Elt F) → (⟨S2x12544, .f32⟩ : BufTy).Contents (Elt F)),
    StableHlo.binary main_v543 main_v545 main_v546 (mulf : (⟨S2x12544, .f32⟩ : BufTy).Contents (Elt F) → (⟨S2x12544, .f32⟩ : BufTy).Contents (Elt F) → (⟨S2x12544, .f32⟩ : BufTy).Contents (Elt F)),
    StableHlo.nullary main_c_219 (constantI S_ 32 0#32),
    StableHlo.unary main_c_219 main_v547 (broadcastInDim S2x12544 ![] bcast_S_S2x12544 : (⟨S_, .i32⟩ : BufTy).Contents (Elt F) → (⟨S2x12544, .i32⟩ : BufTy).Contents (Elt F)),
    StableHlo.binary main_v537 main_v547 main_v548 (addi : (⟨S2x12544, .i32⟩ : BufTy).Contents (Elt F) → (⟨S2x12544, .i32⟩ : BufTy).Contents (Elt F) → (⟨S2x12544, .i32⟩ : BufTy).Contents (Elt F)),
    StableHlo.nullary main_c_220 (constantI S_ 32 0#32),
    StableHlo.unary main_c_220 main_v549 (broadcastInDim S2x12544 ![] bcast_S_S2x12544 : (⟨S_, .i32⟩ : BufTy).Contents (Elt F) → (⟨S2x12544, .i32⟩ : BufTy).Contents (Elt F)),
    StableHlo.binary main_v536 main_v549 main_v550 (addi : (⟨S2x12544, .i32⟩ : BufTy).Contents (Elt F) → (⟨S2x12544, .i32⟩ : BufTy).Contents (Elt F) → (⟨S2x12544, .i32⟩ : BufTy).Contents (Elt F)),
    StableHlo.nullary main_c_221 (constantI S_ 32 0#32),
    StableHlo.unary main_c_221 main_v551 (broadcastInDim S2x12544 ![] bcast_S_S2x12544 : (⟨S_, .i32⟩ : BufTy).Contents (Elt F) → (⟨S2x12544, .i32⟩ : BufTy).Contents (Elt F)),
    StableHlo.binary main_v535 main_v551 main_v552 (addi : (⟨S2x12544, .i32⟩ : BufTy).Contents (Elt F) → (⟨S2x12544, .i32⟩ : BufTy).Contents (Elt F) → (⟨S2x12544, .i32⟩ : BufTy).Contents (Elt F)),
    StableHlo.nullary main_c_222 (constantI S_ 32 0#32),
    StableHlo.unary main_c_222 main_v553 (broadcastInDim S2x12544 ![] bcast_S_S2x12544 : (⟨S_, .i32⟩ : BufTy).Contents (Elt F) → (⟨S2x12544, .i32⟩ : BufTy).Contents (Elt F)),
    StableHlo.binary main_v548 main_v553 main_v554 (cmpi .sge : (⟨S2x12544, .i32⟩ : BufTy).Contents (Elt F) → (⟨S2x12544, .i32⟩ : BufTy).Contents (Elt F) → (⟨S2x12544, .i1⟩ : BufTy).Contents (Elt F)) ]

set_option maxRecDepth 8192 in
set_option maxHeartbeats 4000000 in
/-- Window main_part12 is its operations run in order: the called functions unfolded at their calls and sequencing re-associated, both sides are one chain of steps. -/
theorem main_part12_eq (c : Dev nD) : main_part12 (F := F) c = seq ops_part12 := by
  simp only [main_part12, seq, bind_assoc, pure_bind] <;> rfl

set_option maxRecDepth 8192 in
/-- Every operation of the window reads and writes TensorCore buffers only. -/
theorem ops_part12_sub : (ops_part12 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., binary_bufs_sub .., binary_bufs_sub .., unary_bufs_sub .., unary_bufs_sub .., unary_bufs_sub .., nullary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩

set_option maxRecDepth 8192 in
/-- Every operation of the window determines what it writes: none leaves a buffer at arbitrary contents. -/
theorem ops_part12_fresh : (ops_part12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part12_W : List (Ref sig .tc) := [main_cst_207, main_v511, main_v512, main_cst_208, main_v513, main_v514, main_cst_209, main_v515, main_v516, main_cst_210, main_v517, main_v518, main_v519, main_v520, main_cst_211, main_v521, main_v522, main_cst_212, main_v523, main_v524, main_cst_213, main_v525, main_v526, main_cst_214, main_v527, main_v528, main_v529, main_v530, main_v531, main_v532, main_v533, main_v534, main_v535, main_v536, main_v537, main_cst_215, main_v538, main_cst_216, main_v539, main_v540, main_cst_217, main_v541, main_v542, main_v543, main_cst_218, main_v544, main_v545, main_v546, main_c_219, main_v547, main_v548, main_c_220, main_v549, main_v550, main_c_221, main_v551, main_v552, main_c_222, main_v553, main_v554]

set_option maxRecDepth 8192 in
/-- Each operation of the window writes one buffer of that list. -/
theorem ops_part12_writes : (ops_part12 : List (HloOp τ sig (Elt F))).Forall fun op => op.writes ⊆ (ops_part12_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

set_option maxRecDepth 8192 in
set_option maxHeartbeats 4000000 in
/-- Window main_part13's 79 operations, in order, calls replaced by the called functions' operations. -/
abbrev ops_part13 : List (HloOp τ sig (Elt F)) :=
  [ StableHlo.nullary main_c_223 (constantI S_ 32 64#32),
    StableHlo.unary main_c_223 main_v555 (broadcastInDim S2x12544 ![] bcast_S_S2x12544 : (⟨S_, .i32⟩ : BufTy).Contents (Elt F) → (⟨S2x12544, .i32⟩ : BufTy).Contents (Elt F)),
    StableHlo.binary main_v548 main_v555 main_v556 (cmpi .slt : (⟨S2x12544, .i32⟩ : BufTy).Contents (Elt F) → (⟨S2x12544, .i32⟩ : BufTy).Contents (Elt F) → (⟨S2x12544, .i1⟩ : BufTy).Contents (Elt F)),
    StableHlo.binary main_v554 main_v556 main_v557 (andi : (⟨S2x12544, .i1⟩ : BufTy).Contents (Elt F) → (⟨S2x12544, .i1⟩ : BufTy).Contents (Elt F) → (⟨S2x12544, .i1⟩ : BufTy).Contents (Elt F)),
    StableHlo.nullary main_c_224 (constantI S_ 32 0#32),
    StableHlo.unary main_c_224 main_v558 (broadcastInDim S2x12544 ![] bcast_S_S2x12544 : (⟨S_, .i32⟩ : BufTy).Contents (Elt F) → (⟨S2x12544, .i32⟩ : BufTy).Contents (Elt F)),
    StableHlo.binary main_v550 main_v558 main_v559 (cmpi .sge : (⟨S2x12544, .i32⟩ : BufTy).Contents (Elt F) → (⟨S2x12544, .i32⟩ : BufTy).Contents (Elt F) → (⟨S2x12544, .i1⟩ : BufTy).Contents (Elt F)),
    StableHlo.binary main_v557 main_v559 main_v560 (andi : (⟨S2x12544, .i1⟩ : BufTy).Contents (Elt F) → (⟨S2x12544, .i1⟩ : BufTy).Contents (Elt F) → (⟨S2x12544, .i1⟩ : BufTy).Contents (Elt F)),
    StableHlo.nullary main_c_225 (constantI S_ 32 64#32),
    StableHlo.unary main_c_225 main_v561 (broadcastInDim S2x12544 ![] bcast_S_S2x12544 : (⟨S_, .i32⟩ : BufTy).Contents (Elt F) → (⟨S2x12544, .i32⟩ : BufTy).Contents (Elt F)),
    StableHlo.binary main_v550 main_v561 main_v562 (cmpi .slt : (⟨S2x12544, .i32⟩ : BufTy).Contents (Elt F) → (⟨S2x12544, .i32⟩ : BufTy).Contents (Elt F) → (⟨S2x12544, .i1⟩ : BufTy).Contents (Elt F)),
    StableHlo.binary main_v560 main_v562 main_v563 (andi : (⟨S2x12544, .i1⟩ : BufTy).Contents (Elt F) → (⟨S2x12544, .i1⟩ : BufTy).Contents (Elt F) → (⟨S2x12544, .i1⟩ : BufTy).Contents (Elt F)),
    StableHlo.nullary main_c_226 (constantI S_ 32 0#32),
    StableHlo.unary main_c_226 main_v564 (broadcastInDim S2x12544 ![] bcast_S_S2x12544 : (⟨S_, .i32⟩ : BufTy).Contents (Elt F) → (⟨S2x12544, .i32⟩ : BufTy).Contents (Elt F)),
    StableHlo.binary main_v552 main_v564 main_v565 (cmpi .sge : (⟨S2x12544, .i32⟩ : BufTy).Contents (Elt F) → (⟨S2x12544, .i32⟩ : BufTy).Contents (Elt F) → (⟨S2x12544, .i1⟩ : BufTy).Contents (Elt F)),
    StableHlo.binary main_v563 main_v565 main_v566 (andi : (⟨S2x12544, .i1⟩ : BufTy).Contents (Elt F) → (⟨S2x12544, .i1⟩ : BufTy).Contents (Elt F) → (⟨S2x12544, .i1⟩ : BufTy).Contents (Elt F)),
    StableHlo.nullary main_c_227 (constantI S_ 32 64#32),
    StableHlo.unary main_c_227 main_v567 (broadcastInDim S2x12544 ![] bcast_S_S2x12544 : (⟨S_, .i32⟩ : BufTy).Contents (Elt F) → (⟨S2x12544, .i32⟩ : BufTy).Contents (Elt F)),
    StableHlo.binary main_v552 main_v567 main_v568 (cmpi .slt : (⟨S2x12544, .i32⟩ : BufTy).Contents (Elt F) → (⟨S2x12544, .i32⟩ : BufTy).Contents (Elt F) → (⟨S2x12544, .i1⟩ : BufTy).Contents (Elt F)),
    StableHlo.binary main_v566 main_v568 main_v569 (andi : (⟨S2x12544, .i1⟩ : BufTy).Contents (Elt F) → (⟨S2x12544, .i1⟩ : BufTy).Contents (Elt F) → (⟨S2x12544, .i1⟩ : BufTy).Contents (Elt F)),
    StableHlo.nullary main_c_228 (constantI S_ 32 0#32),
    StableHlo.nullary main_c_229 (constantI S_ 32 63#32),
    StableHlo.TRef.unary (.of main_c_228 : StableHlo.TRef sig ⟨S_, .i32⟩) (.of main_call32_v0 : StableHlo.TRef sig ⟨S_, .i32⟩) id,
    StableHlo.TRef.unary (.of main_call32_v0 : StableHlo.TRef sig ⟨S_, .i32⟩) (.of main_call32_v1 : StableHlo.TRef sig ⟨S2x12544, .i32⟩) (broadcastInDim S2x12544 ![] bcast_S_S2x12544),
    StableHlo.TRef.binary (.of main_call32_v1 : StableHlo.TRef sig ⟨S2x12544, .i32⟩) (.of main_v548 : StableHlo.TRef sig ⟨S2x12544, .i32⟩) (.of main_call32_v2 : StableHlo.TRef sig ⟨S2x12544, .i32⟩) maxsi,
    StableHlo.TRef.unary (.of main_c_229 : StableHlo.TRef sig ⟨S_, .i32⟩) (.of main_call32_v3 : StableHlo.TRef sig ⟨S_, .i32⟩) id,
    StableHlo.TRef.unary (.of main_call32_v3 : StableHlo.TRef sig ⟨S_, .i32⟩) (.of main_call32_v4 : StableHlo.TRef sig ⟨S2x12544, .i32⟩) (broadcastInDim S2x12544 ![] bcast_S_S2x12544),
    StableHlo.TRef.binary (.of main_call32_v4 : StableHlo.TRef sig ⟨S2x12544, .i32⟩) (.of main_call32_v2 : StableHlo.TRef sig ⟨S2x12544, .i32⟩) (.of main_v570 : StableHlo.TRef sig ⟨S2x12544, .i32⟩) minsi,
    StableHlo.nullary main_c_230 (constantI S_ 32 0#32),
    StableHlo.nullary main_c_231 (constantI S_ 32 63#32),
    StableHlo.TRef.unary (.of main_c_230 : StableHlo.TRef sig ⟨S_, .i32⟩) (.of main_call33_v0 : StableHlo.TRef sig ⟨S_, .i32⟩) id,
    StableHlo.TRef.unary (.of main_call33_v0 : StableHlo.TRef sig ⟨S_, .i32⟩) (.of main_call33_v1 : StableHlo.TRef sig ⟨S2x12544, .i32⟩) (broadcastInDim S2x12544 ![] bcast_S_S2x12544),
    StableHlo.TRef.binary (.of main_call33_v1 : StableHlo.TRef sig ⟨S2x12544, .i32⟩) (.of main_v550 : StableHlo.TRef sig ⟨S2x12544, .i32⟩) (.of main_call33_v2 : StableHlo.TRef sig ⟨S2x12544, .i32⟩) maxsi,
    StableHlo.TRef.unary (.of main_c_231 : StableHlo.TRef sig ⟨S_, .i32⟩) (.of main_call33_v3 : StableHlo.TRef sig ⟨S_, .i32⟩) id,
    StableHlo.TRef.unary (.of main_call33_v3 : StableHlo.TRef sig ⟨S_, .i32⟩) (.of main_call33_v4 : StableHlo.TRef sig ⟨S2x12544, .i32⟩) (broadcastInDim S2x12544 ![] bcast_S_S2x12544),
    StableHlo.TRef.binary (.of main_call33_v4 : StableHlo.TRef sig ⟨S2x12544, .i32⟩) (.of main_call33_v2 : StableHlo.TRef sig ⟨S2x12544, .i32⟩) (.of main_v571 : StableHlo.TRef sig ⟨S2x12544, .i32⟩) minsi,
    StableHlo.nullary main_c_232 (constantI S_ 32 0#32),
    StableHlo.nullary main_c_233 (constantI S_ 32 63#32),
    StableHlo.TRef.unary (.of main_c_232 : StableHlo.TRef sig ⟨S_, .i32⟩) (.of main_call34_v0 : StableHlo.TRef sig ⟨S_, .i32⟩) id,
    StableHlo.TRef.unary (.of main_call34_v0 : StableHlo.TRef sig ⟨S_, .i32⟩) (.of main_call34_v1 : StableHlo.TRef sig ⟨S2x12544, .i32⟩) (broadcastInDim S2x12544 ![] bcast_S_S2x12544),
    StableHlo.TRef.binary (.of main_call34_v1 : StableHlo.TRef sig ⟨S2x12544, .i32⟩) (.of main_v552 : StableHlo.TRef sig ⟨S2x12544, .i32⟩) (.of main_call34_v2 : StableHlo.TRef sig ⟨S2x12544, .i32⟩) maxsi,
    StableHlo.TRef.unary (.of main_c_233 : StableHlo.TRef sig ⟨S_, .i32⟩) (.of main_call34_v3 : StableHlo.TRef sig ⟨S_, .i32⟩) id,
    StableHlo.TRef.unary (.of main_call34_v3 : StableHlo.TRef sig ⟨S_, .i32⟩) (.of main_call34_v4 : StableHlo.TRef sig ⟨S2x12544, .i32⟩) (broadcastInDim S2x12544 ![] bcast_S_S2x12544),
    StableHlo.TRef.binary (.of main_call34_v4 : StableHlo.TRef sig ⟨S2x12544, .i32⟩) (.of main_call34_v2 : StableHlo.TRef sig ⟨S2x12544, .i32⟩) (.of main_v572 : StableHlo.TRef sig ⟨S2x12544, .i32⟩) minsi,
    StableHlo.nullary main_c_234 (constantI S_ 32 0#32),
    StableHlo.unary main_c_234 main_v573 (broadcastInDim S2x12544 ![] bcast_S_S2x12544 : (⟨S_, .i32⟩ : BufTy).Contents (Elt F) → (⟨S2x12544, .i32⟩ : BufTy).Contents (Elt F)),
    StableHlo.binary main_v570 main_v573 main_v574 (cmpi .slt : (⟨S2x12544, .i32⟩ : BufTy).Contents (Elt F) → (⟨S2x12544, .i32⟩ : BufTy).Contents (Elt F) → (⟨S2x12544, .i1⟩ : BufTy).Contents (Elt F)),
    StableHlo.nullary main_c_235 (constantI S_ 32 64#32),
    StableHlo.unary main_c_235 main_v575 (broadcastInDim S2x12544 ![] bcast_S_S2x12544 : (⟨S_, .i32⟩ : BufTy).Contents (Elt F) → (⟨S2x12544, .i32⟩ : BufTy).Contents (Elt F)),
    StableHlo.binary main_v570 main_v575 main_v576 (addi : (⟨S2x12544, .i32⟩ : BufTy).Contents (Elt F) → (⟨S2x12544, .i32⟩ : BufTy).Contents (Elt F) → (⟨S2x12544, .i32⟩ : BufTy).Contents (Elt F)),
    StableHlo.ternary main_v574 main_v576 main_v570 main_v577 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_236 (constantI S_ 32 0#32),
    StableHlo.unary main_c_236 main_v578 (broadcastInDim S2x12544 ![] bcast_S_S2x12544 : (⟨S_, .i32⟩ : BufTy).Contents (Elt F) → (⟨S2x12544, .i32⟩ : BufTy).Contents (Elt F)),
    StableHlo.binary main_v571 main_v578 main_v579 (cmpi .slt : (⟨S2x12544, .i32⟩ : BufTy).Contents (Elt F) → (⟨S2x12544, .i32⟩ : BufTy).Contents (Elt F) → (⟨S2x12544, .i1⟩ : BufTy).Contents (Elt F)),
    StableHlo.nullary main_c_237 (constantI S_ 32 64#32),
    StableHlo.unary main_c_237 main_v580 (broadcastInDim S2x12544 ![] bcast_S_S2x12544 : (⟨S_, .i32⟩ : BufTy).Contents (Elt F) → (⟨S2x12544, .i32⟩ : BufTy).Contents (Elt F)),
    StableHlo.binary main_v571 main_v580 main_v581 (addi : (⟨S2x12544, .i32⟩ : BufTy).Contents (Elt F) → (⟨S2x12544, .i32⟩ : BufTy).Contents (Elt F) → (⟨S2x12544, .i32⟩ : BufTy).Contents (Elt F)),
    StableHlo.ternary main_v579 main_v581 main_v571 main_v582 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_238 (constantI S_ 32 0#32),
    StableHlo.unary main_c_238 main_v583 (broadcastInDim S2x12544 ![] bcast_S_S2x12544 : (⟨S_, .i32⟩ : BufTy).Contents (Elt F) → (⟨S2x12544, .i32⟩ : BufTy).Contents (Elt F)),
    StableHlo.binary main_v572 main_v583 main_v584 (cmpi .slt : (⟨S2x12544, .i32⟩ : BufTy).Contents (Elt F) → (⟨S2x12544, .i32⟩ : BufTy).Contents (Elt F) → (⟨S2x12544, .i1⟩ : BufTy).Contents (Elt F)),
    StableHlo.nullary main_c_239 (constantI S_ 32 64#32),
    StableHlo.unary main_c_239 main_v585 (broadcastInDim S2x12544 ![] bcast_S_S2x12544 : (⟨S_, .i32⟩ : BufTy).Contents (Elt F) → (⟨S2x12544, .i32⟩ : BufTy).Contents (Elt F)),
    StableHlo.binary main_v572 main_v585 main_v586 (addi : (⟨S2x12544, .i32⟩ : BufTy).Contents (Elt F) → (⟨S2x12544, .i32⟩ : BufTy).Contents (Elt F) → (⟨S2x12544, .i32⟩ : BufTy).Contents (Elt F)),
    StableHlo.ternary main_v584 main_v586 main_v572 main_v587 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v577 main_v588 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v582 main_v589 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v587 main_v590 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v588, main_v589, main_v590] main_v591 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg2 main_v591 main_v592 ((fun x i => Host.gather gather_S2x30x64x64x64_S2x12544x3_S2x30x12544_1_234_0_0_234_2_130111 x i) : (⟨S2x30x64x64x64, .f32⟩ : BufTy).Contents (Elt F) → (⟨S2x12544x3, .i32⟩ : BufTy).Contents (Elt F) → (⟨S2x30x12544, .f32⟩ : BufTy).Contents (Elt F)),
    StableHlo.nullary main_cst_240 (constant S_ .f32 0x00000000#32),
    StableHlo.TRef.unary (.of main_cst_240 : StableHlo.TRef sig ⟨S_, .f32⟩) (.of main_call35_v0 : StableHlo.TRef sig ⟨S12544, .f32⟩) (broadcastInDim S12544 ![] bcast_S_S12544),
    StableHlo.TRef.unary (.of main_v569 : StableHlo.TRef sig ⟨S2x12544, .i1⟩) (.of main_call35_v1 : StableHlo.TRef sig ⟨S2x30x12544, .i1⟩) (broadcastInDim S2x30x12544 ![0, 2] bcast_S2x12544_S2x30x12544_0_2),
    StableHlo.TRef.unary (.of main_call35_v0 : StableHlo.TRef sig ⟨S12544, .f32⟩) (.of main_call35_v2 : StableHlo.TRef sig ⟨S30x12544, .f32⟩) (broadcastInDim S30x12544 ![1] bcast_S12544_S30x12544_1),
    StableHlo.TRef.unary (.of main_call35_v2 : StableHlo.TRef sig ⟨S30x12544, .f32⟩) (.of main_call35_v3 : StableHlo.TRef sig ⟨S2x30x12544, .f32⟩) (broadcastInDim S2x30x12544 ![1, 2] bcast_S30x12544_S2x30x12544_1_2),
    StableHlo.TRef.ternary (.of main_call35_v1 : StableHlo.TRef sig ⟨S2x30x12544, .i1⟩) (.of main_v592 : StableHlo.TRef sig ⟨S2x30x12544, .f32⟩) (.of main_call35_v3 : StableHlo.TRef sig ⟨S2x30x12544, .f32⟩) (.of main_v593 : StableHlo.TRef sig ⟨S2x30x12544, .f32⟩) select,
    StableHlo.unary main_v546 main_v594 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v594 main_v595 (broadcastInDim S2x30x12544 ![0, 1, 2] bcast_S2x1x12544_S2x30x12544_0_1_2 : (⟨S2x1x12544, .f32⟩ : BufTy).Contents (Elt F) → (⟨S2x30x12544, .f32⟩ : BufTy).Contents (Elt F)),
    StableHlo.binary main_v595 main_v593 main_v596 (mulf : (⟨S2x30x12544, .f32⟩ : BufTy).Contents (Elt F) → (⟨S2x30x12544, .f32⟩ : BufTy).Contents (Elt F) → (⟨S2x30x12544, .f32⟩ : BufTy).Contents (Elt F)) ]

set_option maxRecDepth 8192 in
set_option maxHeartbeats 4000000 in
/-- Window main_part13 is its operations run in order: the called functions unfolded at their calls and sequencing re-associated, both sides are one chain of steps. -/
theorem main_part13_eq (c : Dev nD) : main_part13 (F := F) c = seq ops_part13 := by
  simp only [main_part13, fn_clip_0.body, fn_where_1.body, seq, bind_assoc, pure_bind] <;> rfl

set_option maxRecDepth 8192 in
/-- Every operation of the window reads and writes TensorCore buffers only. -/
theorem ops_part13_sub : (ops_part13 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., unary_bufs_sub .., unary_bufs_sub .., unary_bufs_sub .., ternary_bufs_sub .., unary_bufs_sub .., unary_bufs_sub .., binary_bufs_sub ..⟩

set_option maxRecDepth 8192 in
/-- Every operation of the window determines what it writes: none leaves a buffer at arbitrary contents. -/
theorem ops_part13_fresh : (ops_part13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part13_W : List (Ref sig .tc) := [main_c_223, main_v555, main_v556, main_v557, main_c_224, main_v558, main_v559, main_v560, main_c_225, main_v561, main_v562, main_v563, main_c_226, main_v564, main_v565, main_v566, main_c_227, main_v567, main_v568, main_v569, main_c_228, main_c_229, main_call32_v0, main_call32_v1, main_call32_v2, main_call32_v3, main_call32_v4, main_v570, main_c_230, main_c_231, main_call33_v0, main_call33_v1, main_call33_v2, main_call33_v3, main_call33_v4, main_v571, main_c_232, main_c_233, main_call34_v0, main_call34_v1, main_call34_v2, main_call34_v3, main_call34_v4, main_v572, main_c_234, main_v573, main_v574, main_c_235, main_v575, main_v576, main_v577, main_c_236, main_v578, main_v579, main_c_237, main_v580, main_v581, main_v582, main_c_238, main_v583, main_v584, main_c_239, main_v585, main_v586, main_v587, main_v588, main_v589, main_v590, main_v591, main_v592, main_cst_240, main_call35_v0, main_call35_v1, main_call35_v2, main_call35_v3, main_v593, main_v594, main_v595, main_v596]

set_option maxRecDepth 8192 in
/-- Each operation of the window writes one buffer of that list. -/
theorem ops_part13_writes : (ops_part13 : List (HloOp τ sig (Elt F))).Forall fun op => op.writes ⊆ (ops_part13_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

end Cert.ReferenceIdeal.HandRun

end
-- ==== Proof.RefRunP7.lean ====
/- The reference program's @main, windows main_part14 … main_part15, as LISTS of host operations: each printed
   statement one entry, in order, and each call replaced by the called function's operations over the buffers that
   call names (its record), a call inside a called function likewise. With each list: the window equals the list run
   in order, every operation's buffers are TensorCore buffers, no operation leaves a buffer undetermined, and the
   list of buffers the window writes. -/
import proofs.«103167_j42614665511136_1_alg».proof.Proof.Gen.ReferenceIdeal
import Idealize.ShloMosaic.Lib.StableHlo.Run
import proofs.«103167_j42614665511136_1_alg».proof.Proof.RefRunP5

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window main_part14's 75 operations, in order, calls replaced by the called functions' operations. -/
abbrev ops_part14 : List (HloOp τ sig (Elt F)) :=
  [ StableHlo.unary main_v538 main_v597 (broadcastInDim S1x12544 ![1] bcast_S12544_S1x12544_1 : (⟨S12544, .f32⟩ : BufTy).Contents (Elt F) → (⟨S1x12544, .f32⟩ : BufTy).Contents (Elt F)),
    StableHlo.unary main_v597 main_v598 (broadcastInDim S1x1x12544 ![1, 2] bcast_S1x12544_S1x1x12544_1_2 : (⟨S1x12544, .f32⟩ : BufTy).Contents (Elt F) → (⟨S1x1x12544, .f32⟩ : BufTy).Contents (Elt F)),
    StableHlo.unary main_v598 main_v599 (broadcastInDim S2x30x12544 ![0, 1, 2] bcast_S1x1x12544_S2x30x12544_0_1_2 : (⟨S1x1x12544, .f32⟩ : BufTy).Contents (Elt F) → (⟨S2x30x12544, .f32⟩ : BufTy).Contents (Elt F)),
    StableHlo.binary main_v599 main_v596 main_v600 (addf : (⟨S2x30x12544, .f32⟩ : BufTy).Contents (Elt F) → (⟨S2x30x12544, .f32⟩ : BufTy).Contents (Elt F) → (⟨S2x30x12544, .f32⟩ : BufTy).Contents (Elt F)),
    StableHlo.nullary main_cst_241 (constant S_ .f32 0x3F800000#32),
    StableHlo.unary main_cst_241 main_v601 (broadcastInDim S2x12544 ![] bcast_S_S2x12544 : (⟨S_, .f32⟩ : BufTy).Contents (Elt F) → (⟨S2x12544, .f32⟩ : BufTy).Contents (Elt F)),
    StableHlo.binary main_v601 main_v534 main_v602 (subf : (⟨S2x12544, .f32⟩ : BufTy).Contents (Elt F) → (⟨S2x12544, .f32⟩ : BufTy).Contents (Elt F) → (⟨S2x12544, .f32⟩ : BufTy).Contents (Elt F)),
    StableHlo.nullary main_cst_242 (constant S_ .f32 0x3F800000#32),
    StableHlo.unary main_cst_242 main_v603 (broadcastInDim S2x12544 ![] bcast_S_S2x12544 : (⟨S_, .f32⟩ : BufTy).Contents (Elt F) → (⟨S2x12544, .f32⟩ : BufTy).Contents (Elt F)),
    StableHlo.binary main_v603 main_v533 main_v604 (subf : (⟨S2x12544, .f32⟩ : BufTy).Contents (Elt F) → (⟨S2x12544, .f32⟩ : BufTy).Contents (Elt F) → (⟨S2x12544, .f32⟩ : BufTy).Contents (Elt F)),
    StableHlo.binary main_v602 main_v604 main_v605 (mulf : (⟨S2x12544, .f32⟩ : BufTy).Contents (Elt F) → (⟨S2x12544, .f32⟩ : BufTy).Contents (Elt F) → (⟨S2x12544, .f32⟩ : BufTy).Contents (Elt F)),
    StableHlo.binary main_v605 main_v532 main_v606 (mulf : (⟨S2x12544, .f32⟩ : BufTy).Contents (Elt F) → (⟨S2x12544, .f32⟩ : BufTy).Contents (Elt F) → (⟨S2x12544, .f32⟩ : BufTy).Contents (Elt F)),
    StableHlo.nullary main_c_243 (constantI S_ 32 0#32),
    StableHlo.unary main_c_243 main_v607 (broadcastInDim S2x12544 ![] bcast_S_S2x12544 : (⟨S_, .i32⟩ : BufTy).Contents (Elt F) → (⟨S2x12544, .i32⟩ : BufTy).Contents (Elt F)),
    StableHlo.binary main_v537 main_v607 main_v608 (addi : (⟨S2x12544, .i32⟩ : BufTy).Contents (Elt F) → (⟨S2x12544, .i32⟩ : BufTy).Contents (Elt F) → (⟨S2x12544, .i32⟩ : BufTy).Contents (Elt F)),
    StableHlo.nullary main_c_244 (constantI S_ 32 0#32),
    StableHlo.unary main_c_244 main_v609 (broadcastInDim S2x12544 ![] bcast_S_S2x12544 : (⟨S_, .i32⟩ : BufTy).Contents (Elt F) → (⟨S2x12544, .i32⟩ : BufTy).Contents (Elt F)),
    StableHlo.binary main_v536 main_v609 main_v610 (addi : (⟨S2x12544, .i32⟩ : BufTy).Contents (Elt F) → (⟨S2x12544, .i32⟩ : BufTy).Contents (Elt F) → (⟨S2x12544, .i32⟩ : BufTy).Contents (Elt F)),
    StableHlo.nullary main_c_245 (constantI S_ 32 1#32),
    StableHlo.unary main_c_245 main_v611 (broadcastInDim S2x12544 ![] bcast_S_S2x12544 : (⟨S_, .i32⟩ : BufTy).Contents (Elt F) → (⟨S2x12544, .i32⟩ : BufTy).Contents (Elt F)),
    StableHlo.binary main_v535 main_v611 main_v612 (addi : (⟨S2x12544, .i32⟩ : BufTy).Contents (Elt F) → (⟨S2x12544, .i32⟩ : BufTy).Contents (Elt F) → (⟨S2x12544, .i32⟩ : BufTy).Contents (Elt F)),
    StableHlo.nullary main_c_246 (constantI S_ 32 0#32),
    StableHlo.unary main_c_246 main_v613 (broadcastInDim S2x12544 ![] bcast_S_S2x12544 : (⟨S_, .i32⟩ : BufTy).Contents (Elt F) → (⟨S2x12544, .i32⟩ : BufTy).Contents (Elt F)),
    StableHlo.binary main_v608 main_v613 main_v614 (cmpi .sge : (⟨S2x12544, .i32⟩ : BufTy).Contents (Elt F) → (⟨S2x12544, .i32⟩ : BufTy).Contents (Elt F) → (⟨S2x12544, .i1⟩ : BufTy).Contents (Elt F)),
    StableHlo.nullary main_c_247 (constantI S_ 32 64#32),
    StableHlo.unary main_c_247 main_v615 (broadcastInDim S2x12544 ![] bcast_S_S2x12544 : (⟨S_, .i32⟩ : BufTy).Contents (Elt F) → (⟨S2x12544, .i32⟩ : BufTy).Contents (Elt F)),
    StableHlo.binary main_v608 main_v615 main_v616 (cmpi .slt : (⟨S2x12544, .i32⟩ : BufTy).Contents (Elt F) → (⟨S2x12544, .i32⟩ : BufTy).Contents (Elt F) → (⟨S2x12544, .i1⟩ : BufTy).Contents (Elt F)),
    StableHlo.binary main_v614 main_v616 main_v617 (andi : (⟨S2x12544, .i1⟩ : BufTy).Contents (Elt F) → (⟨S2x12544, .i1⟩ : BufTy).Contents (Elt F) → (⟨S2x12544, .i1⟩ : BufTy).Contents (Elt F)),
    StableHlo.nullary main_c_248 (constantI S_ 32 0#32),
    StableHlo.unary main_c_248 main_v618 (broadcastInDim S2x12544 ![] bcast_S_S2x12544 : (⟨S_, .i32⟩ : BufTy).Contents (Elt F) → (⟨S2x12544, .i32⟩ : BufTy).Contents (Elt F)),
    StableHlo.binary main_v610 main_v618 main_v619 (cmpi .sge : (⟨S2x12544, .i32⟩ : BufTy).Contents (Elt F) → (⟨S2x12544, .i32⟩ : BufTy).Contents (Elt F) → (⟨S2x12544, .i1⟩ : BufTy).Contents (Elt F)),
    StableHlo.binary main_v617 main_v619 main_v620 (andi : (⟨S2x12544, .i1⟩ : BufTy).Contents (Elt F) → (⟨S2x12544, .i1⟩ : BufTy).Contents (Elt F) → (⟨S2x12544, .i1⟩ : BufTy).Contents (Elt F)),
    StableHlo.nullary main_c_249 (constantI S_ 32 64#32),
    StableHlo.unary main_c_249 main_v621 (broadcastInDim S2x12544 ![] bcast_S_S2x12544 : (⟨S_, .i32⟩ : BufTy).Contents (Elt F) → (⟨S2x12544, .i32⟩ : BufTy).Contents (Elt F)),
    StableHlo.binary main_v610 main_v621 main_v622 (cmpi .slt : (⟨S2x12544, .i32⟩ : BufTy).Contents (Elt F) → (⟨S2x12544, .i32⟩ : BufTy).Contents (Elt F) → (⟨S2x12544, .i1⟩ : BufTy).Contents (Elt F)),
    StableHlo.binary main_v620 main_v622 main_v623 (andi : (⟨S2x12544, .i1⟩ : BufTy).Contents (Elt F) → (⟨S2x12544, .i1⟩ : BufTy).Contents (Elt F) → (⟨S2x12544, .i1⟩ : BufTy).Contents (Elt F)),
    StableHlo.nullary main_c_250 (constantI S_ 32 0#32),
    StableHlo.unary main_c_250 main_v624 (broadcastInDim S2x12544 ![] bcast_S_S2x12544 : (⟨S_, .i32⟩ : BufTy).Contents (Elt F) → (⟨S2x12544, .i32⟩ : BufTy).Contents (Elt F)),
    StableHlo.binary main_v612 main_v624 main_v625 (cmpi .sge : (⟨S2x12544, .i32⟩ : BufTy).Contents (Elt F) → (⟨S2x12544, .i32⟩ : BufTy).Contents (Elt F) → (⟨S2x12544, .i1⟩ : BufTy).Contents (Elt F)),
    StableHlo.binary main_v623 main_v625 main_v626 (andi : (⟨S2x12544, .i1⟩ : BufTy).Contents (Elt F) → (⟨S2x12544, .i1⟩ : BufTy).Contents (Elt F) → (⟨S2x12544, .i1⟩ : BufTy).Contents (Elt F)),
    StableHlo.nullary main_c_251 (constantI S_ 32 64#32),
    StableHlo.unary main_c_251 main_v627 (broadcastInDim S2x12544 ![] bcast_S_S2x12544 : (⟨S_, .i32⟩ : BufTy).Contents (Elt F) → (⟨S2x12544, .i32⟩ : BufTy).Contents (Elt F)),
    StableHlo.binary main_v612 main_v627 main_v628 (cmpi .slt : (⟨S2x12544, .i32⟩ : BufTy).Contents (Elt F) → (⟨S2x12544, .i32⟩ : BufTy).Contents (Elt F) → (⟨S2x12544, .i1⟩ : BufTy).Contents (Elt F)),
    StableHlo.binary main_v626 main_v628 main_v629 (andi : (⟨S2x12544, .i1⟩ : BufTy).Contents (Elt F) → (⟨S2x12544, .i1⟩ : BufTy).Contents (Elt F) → (⟨S2x12544, .i1⟩ : BufTy).Contents (Elt F)),
    StableHlo.nullary main_c_252 (constantI S_ 32 0#32),
    StableHlo.nullary main_c_253 (constantI S_ 32 63#32),
    StableHlo.TRef.unary (.of main_c_252 : StableHlo.TRef sig ⟨S_, .i32⟩) (.of main_call36_v0 : StableHlo.TRef sig ⟨S_, .i32⟩) id,
    StableHlo.TRef.unary (.of main_call36_v0 : StableHlo.TRef sig ⟨S_, .i32⟩) (.of main_call36_v1 : StableHlo.TRef sig ⟨S2x12544, .i32⟩) (broadcastInDim S2x12544 ![] bcast_S_S2x12544),
    StableHlo.TRef.binary (.of main_call36_v1 : StableHlo.TRef sig ⟨S2x12544, .i32⟩) (.of main_v608 : StableHlo.TRef sig ⟨S2x12544, .i32⟩) (.of main_call36_v2 : StableHlo.TRef sig ⟨S2x12544, .i32⟩) maxsi,
    StableHlo.TRef.unary (.of main_c_253 : StableHlo.TRef sig ⟨S_, .i32⟩) (.of main_call36_v3 : StableHlo.TRef sig ⟨S_, .i32⟩) id,
    StableHlo.TRef.unary (.of main_call36_v3 : StableHlo.TRef sig ⟨S_, .i32⟩) (.of main_call36_v4 : StableHlo.TRef sig ⟨S2x12544, .i32⟩) (broadcastInDim S2x12544 ![] bcast_S_S2x12544),
    StableHlo.TRef.binary (.of main_call36_v4 : StableHlo.TRef sig ⟨S2x12544, .i32⟩) (.of main_call36_v2 : StableHlo.TRef sig ⟨S2x12544, .i32⟩) (.of main_v630 : StableHlo.TRef sig ⟨S2x12544, .i32⟩) minsi,
    StableHlo.nullary main_c_254 (constantI S_ 32 0#32),
    StableHlo.nullary main_c_255 (constantI S_ 32 63#32),
    StableHlo.TRef.unary (.of main_c_254 : StableHlo.TRef sig ⟨S_, .i32⟩) (.of main_call37_v0 : StableHlo.TRef sig ⟨S_, .i32⟩) id,
    StableHlo.TRef.unary (.of main_call37_v0 : StableHlo.TRef sig ⟨S_, .i32⟩) (.of main_call37_v1 : StableHlo.TRef sig ⟨S2x12544, .i32⟩) (broadcastInDim S2x12544 ![] bcast_S_S2x12544),
    StableHlo.TRef.binary (.of main_call37_v1 : StableHlo.TRef sig ⟨S2x12544, .i32⟩) (.of main_v610 : StableHlo.TRef sig ⟨S2x12544, .i32⟩) (.of main_call37_v2 : StableHlo.TRef sig ⟨S2x12544, .i32⟩) maxsi,
    StableHlo.TRef.unary (.of main_c_255 : StableHlo.TRef sig ⟨S_, .i32⟩) (.of main_call37_v3 : StableHlo.TRef sig ⟨S_, .i32⟩) id,
    StableHlo.TRef.unary (.of main_call37_v3 : StableHlo.TRef sig ⟨S_, .i32⟩) (.of main_call37_v4 : StableHlo.TRef sig ⟨S2x12544, .i32⟩) (broadcastInDim S2x12544 ![] bcast_S_S2x12544),
    StableHlo.TRef.binary (.of main_call37_v4 : StableHlo.TRef sig ⟨S2x12544, .i32⟩) (.of main_call37_v2 : StableHlo.TRef sig ⟨S2x12544, .i32⟩) (.of main_v631 : StableHlo.TRef sig ⟨S2x12544, .i32⟩) minsi,
    StableHlo.nullary main_c_256 (constantI S_ 32 0#32),
    StableHlo.nullary main_c_257 (constantI S_ 32 63#32),
    StableHlo.TRef.unary (.of main_c_256 : StableHlo.TRef sig ⟨S_, .i32⟩) (.of main_call38_v0 : StableHlo.TRef sig ⟨S_, .i32⟩) id,
    StableHlo.TRef.unary (.of main_call38_v0 : StableHlo.TRef sig ⟨S_, .i32⟩) (.of main_call38_v1 : StableHlo.TRef sig ⟨S2x12544, .i32⟩) (broadcastInDim S2x12544 ![] bcast_S_S2x12544),
    StableHlo.TRef.binary (.of main_call38_v1 : StableHlo.TRef sig ⟨S2x12544, .i32⟩) (.of main_v612 : StableHlo.TRef sig ⟨S2x12544, .i32⟩) (.of main_call38_v2 : StableHlo.TRef sig ⟨S2x12544, .i32⟩) maxsi,
    StableHlo.TRef.unary (.of main_c_257 : StableHlo.TRef sig ⟨S_, .i32⟩) (.of main_call38_v3 : StableHlo.TRef sig ⟨S_, .i32⟩) id,
    StableHlo.TRef.unary (.of main_call38_v3 : StableHlo.TRef sig ⟨S_, .i32⟩) (.of main_call38_v4 : StableHlo.TRef sig ⟨S2x12544, .i32⟩) (broadcastInDim S2x12544 ![] bcast_S_S2x12544),
    StableHlo.TRef.binary (.of main_call38_v4 : StableHlo.TRef sig ⟨S2x12544, .i32⟩) (.of main_call38_v2 : StableHlo.TRef sig ⟨S2x12544, .i32⟩) (.of main_v632 : StableHlo.TRef sig ⟨S2x12544, .i32⟩) minsi,
    StableHlo.nullary main_c_258 (constantI S_ 32 0#32),
    StableHlo.unary main_c_258 main_v633 (broadcastInDim S2x12544 ![] bcast_S_S2x12544 : (⟨S_, .i32⟩ : BufTy).Contents (Elt F) → (⟨S2x12544, .i32⟩ : BufTy).Contents (Elt F)),
    StableHlo.binary main_v630 main_v633 main_v634 (cmpi .slt : (⟨S2x12544, .i32⟩ : BufTy).Contents (Elt F) → (⟨S2x12544, .i32⟩ : BufTy).Contents (Elt F) → (⟨S2x12544, .i1⟩ : BufTy).Contents (Elt F)),
    StableHlo.nullary main_c_259 (constantI S_ 32 64#32),
    StableHlo.unary main_c_259 main_v635 (broadcastInDim S2x12544 ![] bcast_S_S2x12544 : (⟨S_, .i32⟩ : BufTy).Contents (Elt F) → (⟨S2x12544, .i32⟩ : BufTy).Contents (Elt F)),
    StableHlo.binary main_v630 main_v635 main_v636 (addi : (⟨S2x12544, .i32⟩ : BufTy).Contents (Elt F) → (⟨S2x12544, .i32⟩ : BufTy).Contents (Elt F) → (⟨S2x12544, .i32⟩ : BufTy).Contents (Elt F)),
    StableHlo.ternary main_v634 main_v636 main_v630 main_v637 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)) ]

set_option maxRecDepth 8192 in
set_option maxHeartbeats 4000000 in
/-- Window main_part14 is its operations run in order: the called functions unfolded at their calls and sequencing re-associated, both sides are one chain of steps. -/
theorem main_part14_eq (c : Dev nD) : main_part14 (F := F) c = seq ops_part14 := by
  simp only [main_part14, fn_clip_0.body, seq, bind_assoc, pure_bind] <;> rfl

set_option maxRecDepth 8192 in
/-- Every operation of the window reads and writes TensorCore buffers only. -/
theorem ops_part14_sub : (ops_part14 : List (HloOp τ sig (Elt F))).Forall fun op => op.bufs ⊆ tcRefs τ sig :=
  ⟨unary_bufs_sub .., unary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

set_option maxRecDepth 8192 in
/-- Every operation of the window determines what it writes: none leaves a buffer at arbitrary contents. -/
theorem ops_part14_fresh : (ops_part14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part14_W : List (Ref sig .tc) := [main_v597, main_v598, main_v599, main_v600, main_cst_241, main_v601, main_v602, main_cst_242, main_v603, main_v604, main_v605, main_v606, main_c_243, main_v607, main_v608, main_c_244, main_v609, main_v610, main_c_245, main_v611, main_v612, main_c_246, main_v613, main_v614, main_c_247, main_v615, main_v616, main_v617, main_c_248, main_v618, main_v619, main_v620, main_c_249, main_v621, main_v622, main_v623, main_c_250, main_v624, main_v625, main_v626, main_c_251, main_v627, main_v628, main_v629, main_c_252, main_c_253, main_call36_v0, main_call36_v1, main_call36_v2, main_call36_v3, main_call36_v4, main_v630, main_c_254, main_c_255, main_call37_v0, main_call37_v1, main_call37_v2, main_call37_v3, main_call37_v4, main_v631, main_c_256, main_c_257, main_call38_v0, main_call38_v1, main_call38_v2, main_call38_v3, main_call38_v4, main_v632, main_c_258, main_v633, main_v634, main_c_259, main_v635, main_v636, main_v637]

set_option maxRecDepth 8192 in
/-- Each operation of the window writes one buffer of that list. -/
theorem ops_part14_writes : (ops_part14 : List (HloOp τ sig (Elt F))).Forall fun op => op.writes ⊆ (ops_part14_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

set_option maxRecDepth 8192 in
set_option maxHeartbeats 4000000 in
/-- Window main_part15's 64 operations, in order, calls replaced by the called functions' operations. -/
abbrev ops_part15 : List (HloOp τ sig (Elt F)) :=
  [ StableHlo.nullary main_c_260 (constantI S_ 32 0#32),
    StableHlo.unary main_c_260 main_v638 (broadcastInDim S2x12544 ![] bcast_S_S2x12544 : (⟨S_, .i32⟩ : BufTy).Contents (Elt F) → (⟨S2x12544, .i32⟩ : BufTy).Contents (Elt F)),
    StableHlo.binary main_v631 main_v638 main_v639 (cmpi .slt : (⟨S2x12544, .i32⟩ : BufTy).Contents (Elt F) → (⟨S2x12544, .i32⟩ : BufTy).Contents (Elt F) → (⟨S2x12544, .i1⟩ : BufTy).Contents (Elt F)),
    StableHlo.nullary main_c_261 (constantI S_ 32 64#32),
    StableHlo.unary main_c_261 main_v640 (broadcastInDim S2x12544 ![] bcast_S_S2x12544 : (⟨S_, .i32⟩ : BufTy).Contents (Elt F) → (⟨S2x12544, .i32⟩ : BufTy).Contents (Elt F)),
    StableHlo.binary main_v631 main_v640 main_v641 (addi : (⟨S2x12544, .i32⟩ : BufTy).Contents (Elt F) → (⟨S2x12544, .i32⟩ : BufTy).Contents (Elt F) → (⟨S2x12544, .i32⟩ : BufTy).Contents (Elt F)),
    StableHlo.ternary main_v639 main_v641 main_v631 main_v642 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_262 (constantI S_ 32 0#32),
    StableHlo.unary main_c_262 main_v643 (broadcastInDim S2x12544 ![] bcast_S_S2x12544 : (⟨S_, .i32⟩ : BufTy).Contents (Elt F) → (⟨S2x12544, .i32⟩ : BufTy).Contents (Elt F)),
    StableHlo.binary main_v632 main_v643 main_v644 (cmpi .slt : (⟨S2x12544, .i32⟩ : BufTy).Contents (Elt F) → (⟨S2x12544, .i32⟩ : BufTy).Contents (Elt F) → (⟨S2x12544, .i1⟩ : BufTy).Contents (Elt F)),
    StableHlo.nullary main_c_263 (constantI S_ 32 64#32),
    StableHlo.unary main_c_263 main_v645 (broadcastInDim S2x12544 ![] bcast_S_S2x12544 : (⟨S_, .i32⟩ : BufTy).Contents (Elt F) → (⟨S2x12544, .i32⟩ : BufTy).Contents (Elt F)),
    StableHlo.binary main_v632 main_v645 main_v646 (addi : (⟨S2x12544, .i32⟩ : BufTy).Contents (Elt F) → (⟨S2x12544, .i32⟩ : BufTy).Contents (Elt F) → (⟨S2x12544, .i32⟩ : BufTy).Contents (Elt F)),
    StableHlo.ternary main_v644 main_v646 main_v632 main_v647 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v637 main_v648 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v642 main_v649 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v647 main_v650 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v648, main_v649, main_v650] main_v651 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg2 main_v651 main_v652 ((fun x i => Host.gather gather_S2x30x64x64x64_S2x12544x3_S2x30x12544_1_234_0_0_234_2_130111 x i) : (⟨S2x30x64x64x64, .f32⟩ : BufTy).Contents (Elt F) → (⟨S2x12544x3, .i32⟩ : BufTy).Contents (Elt F) → (⟨S2x30x12544, .f32⟩ : BufTy).Contents (Elt F)),
    StableHlo.nullary main_cst_264 (constant S_ .f32 0x00000000#32),
    StableHlo.TRef.unary (.of main_cst_264 : StableHlo.TRef sig ⟨S_, .f32⟩) (.of main_call39_v0 : StableHlo.TRef sig ⟨S12544, .f32⟩) (broadcastInDim S12544 ![] bcast_S_S12544),
    StableHlo.TRef.unary (.of main_v629 : StableHlo.TRef sig ⟨S2x12544, .i1⟩) (.of main_call39_v1 : StableHlo.TRef sig ⟨S2x30x12544, .i1⟩) (broadcastInDim S2x30x12544 ![0, 2] bcast_S2x12544_S2x30x12544_0_2),
    StableHlo.TRef.unary (.of main_call39_v0 : StableHlo.TRef sig ⟨S12544, .f32⟩) (.of main_call39_v2 : StableHlo.TRef sig ⟨S30x12544, .f32⟩) (broadcastInDim S30x12544 ![1] bcast_S12544_S30x12544_1),
    StableHlo.TRef.unary (.of main_call39_v2 : StableHlo.TRef sig ⟨S30x12544, .f32⟩) (.of main_call39_v3 : StableHlo.TRef sig ⟨S2x30x12544, .f32⟩) (broadcastInDim S2x30x12544 ![1, 2] bcast_S30x12544_S2x30x12544_1_2),
    StableHlo.TRef.ternary (.of main_call39_v1 : StableHlo.TRef sig ⟨S2x30x12544, .i1⟩) (.of main_v652 : StableHlo.TRef sig ⟨S2x30x12544, .f32⟩) (.of main_call39_v3 : StableHlo.TRef sig ⟨S2x30x12544, .f32⟩) (.of main_v653 : StableHlo.TRef sig ⟨S2x30x12544, .f32⟩) select,
    StableHlo.unary main_v606 main_v654 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v654 main_v655 (broadcastInDim S2x30x12544 ![0, 1, 2] bcast_S2x1x12544_S2x30x12544_0_1_2 : (⟨S2x1x12544, .f32⟩ : BufTy).Contents (Elt F) → (⟨S2x30x12544, .f32⟩ : BufTy).Contents (Elt F)),
    StableHlo.binary main_v655 main_v653 main_v656 (mulf : (⟨S2x30x12544, .f32⟩ : BufTy).Contents (Elt F) → (⟨S2x30x12544, .f32⟩ : BufTy).Contents (Elt F) → (⟨S2x30x12544, .f32⟩ : BufTy).Contents (Elt F)),
    StableHlo.binary main_v600 main_v656 main_v657 (addf : (⟨S2x30x12544, .f32⟩ : BufTy).Contents (Elt F) → (⟨S2x30x12544, .f32⟩ : BufTy).Contents (Elt F) → (⟨S2x30x12544, .f32⟩ : BufTy).Contents (Elt F)),
    StableHlo.nullary main_cst_265 (constant S_ .f32 0x3F800000#32),
    StableHlo.unary main_cst_265 main_v658 (broadcastInDim S2x12544 ![] bcast_S_S2x12544 : (⟨S_, .f32⟩ : BufTy).Contents (Elt F) → (⟨S2x12544, .f32⟩ : BufTy).Contents (Elt F)),
    StableHlo.binary main_v658 main_v534 main_v659 (subf : (⟨S2x12544, .f32⟩ : BufTy).Contents (Elt F) → (⟨S2x12544, .f32⟩ : BufTy).Contents (Elt F) → (⟨S2x12544, .f32⟩ : BufTy).Contents (Elt F)),
    StableHlo.binary main_v659 main_v533 main_v660 (mulf : (⟨S2x12544, .f32⟩ : BufTy).Contents (Elt F) → (⟨S2x12544, .f32⟩ : BufTy).Contents (Elt F) → (⟨S2x12544, .f32⟩ : BufTy).Contents (Elt F)),
    StableHlo.nullary main_cst_266 (constant S_ .f32 0x3F800000#32),
    StableHlo.unary main_cst_266 main_v661 (broadcastInDim S2x12544 ![] bcast_S_S2x12544 : (⟨S_, .f32⟩ : BufTy).Contents (Elt F) → (⟨S2x12544, .f32⟩ : BufTy).Contents (Elt F)),
    StableHlo.binary main_v661 main_v532 main_v662 (subf : (⟨S2x12544, .f32⟩ : BufTy).Contents (Elt F) → (⟨S2x12544, .f32⟩ : BufTy).Contents (Elt F) → (⟨S2x12544, .f32⟩ : BufTy).Contents (Elt F)),
    StableHlo.binary main_v660 main_v662 main_v663 (mulf : (⟨S2x12544, .f32⟩ : BufTy).Contents (Elt F) → (⟨S2x12544, .f32⟩ : BufTy).Contents (Elt F) → (⟨S2x12544, .f32⟩ : BufTy).Contents (Elt F)),
    StableHlo.nullary main_c_267 (constantI S_ 32 0#32),
    StableHlo.unary main_c_267 main_v664 (broadcastInDim S2x12544 ![] bcast_S_S2x12544 : (⟨S_, .i32⟩ : BufTy).Contents (Elt F) → (⟨S2x12544, .i32⟩ : BufTy).Contents (Elt F)),
    StableHlo.binary main_v537 main_v664 main_v665 (addi : (⟨S2x12544, .i32⟩ : BufTy).Contents (Elt F) → (⟨S2x12544, .i32⟩ : BufTy).Contents (Elt F) → (⟨S2x12544, .i32⟩ : BufTy).Contents (Elt F)),
    StableHlo.nullary main_c_268 (constantI S_ 32 1#32),
    StableHlo.unary main_c_268 main_v666 (broadcastInDim S2x12544 ![] bcast_S_S2x12544 : (⟨S_, .i32⟩ : BufTy).Contents (Elt F) → (⟨S2x12544, .i32⟩ : BufTy).Contents (Elt F)),
    StableHlo.binary main_v536 main_v666 main_v667 (addi : (⟨S2x12544, .i32⟩ : BufTy).Contents (Elt F) → (⟨S2x12544, .i32⟩ : BufTy).Contents (Elt F) → (⟨S2x12544, .i32⟩ : BufTy).Contents (Elt F)),
    StableHlo.nullary main_c_269 (constantI S_ 32 0#32),
    StableHlo.unary main_c_269 main_v668 (broadcastInDim S2x12544 ![] bcast_S_S2x12544 : (⟨S_, .i32⟩ : BufTy).Contents (Elt F) → (⟨S2x12544, .i32⟩ : BufTy).Contents (Elt F)),
    StableHlo.binary main_v535 main_v668 main_v669 (addi : (⟨S2x12544, .i32⟩ : BufTy).Contents (Elt F) → (⟨S2x12544, .i32⟩ : BufTy).Contents (Elt F) → (⟨S2x12544, .i32⟩ : BufTy).Contents (Elt F)),
    StableHlo.nullary main_c_270 (constantI S_ 32 0#32),
    StableHlo.unary main_c_270 main_v670 (broadcastInDim S2x12544 ![] bcast_S_S2x12544 : (⟨S_, .i32⟩ : BufTy).Contents (Elt F) → (⟨S2x12544, .i32⟩ : BufTy).Contents (Elt F)),
    StableHlo.binary main_v665 main_v670 main_v671 (cmpi .sge : (⟨S2x12544, .i32⟩ : BufTy).Contents (Elt F) → (⟨S2x12544, .i32⟩ : BufTy).Contents (Elt F) → (⟨S2x12544, .i1⟩ : BufTy).Contents (Elt F)),
    StableHlo.nullary main_c_271 (constantI S_ 32 64#32),
    StableHlo.unary main_c_271 main_v672 (broadcastInDim S2x12544 ![] bcast_S_S2x12544 : (⟨S_, .i32⟩ : BufTy).Contents (Elt F) → (⟨S2x12544, .i32⟩ : BufTy).Contents (Elt F)),
    StableHlo.binary main_v665 main_v672 main_v673 (cmpi .slt : (⟨S2x12544, .i32⟩ : BufTy).Contents (Elt F) → (⟨S2x12544, .i32⟩ : BufTy).Contents (Elt F) → (⟨S2x12544, .i1⟩ : BufTy).Contents (Elt F)),
    StableHlo.binary main_v671 main_v673 main_v674 (andi : (⟨S2x12544, .i1⟩ : BufTy).Contents (Elt F) → (⟨S2x12544, .i1⟩ : BufTy).Contents (Elt F) → (⟨S2x12544, .i1⟩ : BufTy).Contents (Elt F)),
    StableHlo.nullary main_c_272 (constantI S_ 32 0#32),
    StableHlo.unary main_c_272 main_v675 (broadcastInDim S2x12544 ![] bcast_S_S2x12544 : (⟨S_, .i32⟩ : BufTy).Contents (Elt F) → (⟨S2x12544, .i32⟩ : BufTy).Contents (Elt F)),
    StableHlo.binary main_v667 main_v675 main_v676 (cmpi .sge : (⟨S2x12544, .i32⟩ : BufTy).Contents (Elt F) → (⟨S2x12544, .i32⟩ : BufTy).Contents (Elt F) → (⟨S2x12544, .i1⟩ : BufTy).Contents (Elt F)),
    StableHlo.binary main_v674 main_v676 main_v677 (andi : (⟨S2x12544, .i1⟩ : BufTy).Contents (Elt F) → (⟨S2x12544, .i1⟩ : BufTy).Contents (Elt F) → (⟨S2x12544, .i1⟩ : BufTy).Contents (Elt F)),
    StableHlo.nullary main_c_273 (constantI S_ 32 64#32),
    StableHlo.unary main_c_273 main_v678 (broadcastInDim S2x12544 ![] bcast_S_S2x12544 : (⟨S_, .i32⟩ : BufTy).Contents (Elt F) → (⟨S2x12544, .i32⟩ : BufTy).Contents (Elt F)),
    StableHlo.binary main_v667 main_v678 main_v679 (cmpi .slt : (⟨S2x12544, .i32⟩ : BufTy).Contents (Elt F) → (⟨S2x12544, .i32⟩ : BufTy).Contents (Elt F) → (⟨S2x12544, .i1⟩ : BufTy).Contents (Elt F)),
    StableHlo.binary main_v677 main_v679 main_v680 (andi : (⟨S2x12544, .i1⟩ : BufTy).Contents (Elt F) → (⟨S2x12544, .i1⟩ : BufTy).Contents (Elt F) → (⟨S2x12544, .i1⟩ : BufTy).Contents (Elt F)),
    StableHlo.nullary main_c_274 (constantI S_ 32 0#32),
    StableHlo.unary main_c_274 main_v681 (broadcastInDim S2x12544 ![] bcast_S_S2x12544 : (⟨S_, .i32⟩ : BufTy).Contents (Elt F) → (⟨S2x12544, .i32⟩ : BufTy).Contents (Elt F)),
    StableHlo.binary main_v669 main_v681 main_v682 (cmpi .sge : (⟨S2x12544, .i32⟩ : BufTy).Contents (Elt F) → (⟨S2x12544, .i32⟩ : BufTy).Contents (Elt F) → (⟨S2x12544, .i1⟩ : BufTy).Contents (Elt F)) ]

set_option maxRecDepth 8192 in
set_option maxHeartbeats 4000000 in
/-- Window main_part15 is its operations run in order: the called functions unfolded at their calls and sequencing re-associated, both sides are one chain of steps. -/
theorem main_part15_eq (c : Dev nD) : main_part15 (F := F) c = seq ops_part15 := by
  simp only [main_part15, fn_where_1.body, seq, bind_assoc, pure_bind] <;> rfl

set_option maxRecDepth 8192 in
/-- Every operation of the window reads and writes TensorCore buffers only. -/
theorem ops_part15_sub : (ops_part15 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., unary_bufs_sub .., unary_bufs_sub .., unary_bufs_sub .., ternary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

set_option maxRecDepth 8192 in
/-- Every operation of the window determines what it writes: none leaves a buffer at arbitrary contents. -/
theorem ops_part15_fresh : (ops_part15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part15_W : List (Ref sig .tc) := [main_c_260, main_v638, main_v639, main_c_261, main_v640, main_v641, main_v642, main_c_262, main_v643, main_v644, main_c_263, main_v645, main_v646, main_v647, main_v648, main_v649, main_v650, main_v651, main_v652, main_cst_264, main_call39_v0, main_call39_v1, main_call39_v2, main_call39_v3, main_v653, main_v654, main_v655, main_v656, main_v657, main_cst_265, main_v658, main_v659, main_v660, main_cst_266, main_v661, main_v662, main_v663, main_c_267, main_v664, main_v665, main_c_268, main_v666, main_v667, main_c_269, main_v668, main_v669, main_c_270, main_v670, main_v671, main_c_271, main_v672, main_v673, main_v674, main_c_272, main_v675, main_v676, main_v677, main_c_273, main_v678, main_v679, main_v680, main_c_274, main_v681, main_v682]

set_option maxRecDepth 8192 in
/-- Each operation of the window writes one buffer of that list. -/
theorem ops_part15_writes : (ops_part15 : List (HloOp τ sig (Elt F))).Forall fun op => op.writes ⊆ (ops_part15_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

end Cert.ReferenceIdeal.HandRun

end
-- ==== Proof.RefRunP8.lean ====
/- The reference program's @main, windows main_part16 … main_part17, as LISTS of host operations: each printed
   statement one entry, in order, and each call replaced by the called function's operations over the buffers that
   call names (its record), a call inside a called function likewise. With each list: the window equals the list run
   in order, every operation's buffers are TensorCore buffers, no operation leaves a buffer undetermined, and the
   list of buffers the window writes. -/
import proofs.«103167_j42614665511136_1_alg».proof.Proof.Gen.ReferenceIdeal
import Idealize.ShloMosaic.Lib.StableHlo.Run
import proofs.«103167_j42614665511136_1_alg».proof.Proof.RefRunP6

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window main_part16's 79 operations, in order, calls replaced by the called functions' operations. -/
abbrev ops_part16 : List (HloOp τ sig (Elt F)) :=
  [ StableHlo.binary main_v680 main_v682 main_v683 (andi : (⟨S2x12544, .i1⟩ : BufTy).Contents (Elt F) → (⟨S2x12544, .i1⟩ : BufTy).Contents (Elt F) → (⟨S2x12544, .i1⟩ : BufTy).Contents (Elt F)),
    StableHlo.nullary main_c_275 (constantI S_ 32 64#32),
    StableHlo.unary main_c_275 main_v684 (broadcastInDim S2x12544 ![] bcast_S_S2x12544 : (⟨S_, .i32⟩ : BufTy).Contents (Elt F) → (⟨S2x12544, .i32⟩ : BufTy).Contents (Elt F)),
    StableHlo.binary main_v669 main_v684 main_v685 (cmpi .slt : (⟨S2x12544, .i32⟩ : BufTy).Contents (Elt F) → (⟨S2x12544, .i32⟩ : BufTy).Contents (Elt F) → (⟨S2x12544, .i1⟩ : BufTy).Contents (Elt F)),
    StableHlo.binary main_v683 main_v685 main_v686 (andi : (⟨S2x12544, .i1⟩ : BufTy).Contents (Elt F) → (⟨S2x12544, .i1⟩ : BufTy).Contents (Elt F) → (⟨S2x12544, .i1⟩ : BufTy).Contents (Elt F)),
    StableHlo.nullary main_c_276 (constantI S_ 32 0#32),
    StableHlo.nullary main_c_277 (constantI S_ 32 63#32),
    StableHlo.TRef.unary (.of main_c_276 : StableHlo.TRef sig ⟨S_, .i32⟩) (.of main_call40_v0 : StableHlo.TRef sig ⟨S_, .i32⟩) id,
    StableHlo.TRef.unary (.of main_call40_v0 : StableHlo.TRef sig ⟨S_, .i32⟩) (.of main_call40_v1 : StableHlo.TRef sig ⟨S2x12544, .i32⟩) (broadcastInDim S2x12544 ![] bcast_S_S2x12544),
    StableHlo.TRef.binary (.of main_call40_v1 : StableHlo.TRef sig ⟨S2x12544, .i32⟩) (.of main_v665 : StableHlo.TRef sig ⟨S2x12544, .i32⟩) (.of main_call40_v2 : StableHlo.TRef sig ⟨S2x12544, .i32⟩) maxsi,
    StableHlo.TRef.unary (.of main_c_277 : StableHlo.TRef sig ⟨S_, .i32⟩) (.of main_call40_v3 : StableHlo.TRef sig ⟨S_, .i32⟩) id,
    StableHlo.TRef.unary (.of main_call40_v3 : StableHlo.TRef sig ⟨S_, .i32⟩) (.of main_call40_v4 : StableHlo.TRef sig ⟨S2x12544, .i32⟩) (broadcastInDim S2x12544 ![] bcast_S_S2x12544),
    StableHlo.TRef.binary (.of main_call40_v4 : StableHlo.TRef sig ⟨S2x12544, .i32⟩) (.of main_call40_v2 : StableHlo.TRef sig ⟨S2x12544, .i32⟩) (.of main_v687 : StableHlo.TRef sig ⟨S2x12544, .i32⟩) minsi,
    StableHlo.nullary main_c_278 (constantI S_ 32 0#32),
    StableHlo.nullary main_c_279 (constantI S_ 32 63#32),
    StableHlo.TRef.unary (.of main_c_278 : StableHlo.TRef sig ⟨S_, .i32⟩) (.of main_call41_v0 : StableHlo.TRef sig ⟨S_, .i32⟩) id,
    StableHlo.TRef.unary (.of main_call41_v0 : StableHlo.TRef sig ⟨S_, .i32⟩) (.of main_call41_v1 : StableHlo.TRef sig ⟨S2x12544, .i32⟩) (broadcastInDim S2x12544 ![] bcast_S_S2x12544),
    StableHlo.TRef.binary (.of main_call41_v1 : StableHlo.TRef sig ⟨S2x12544, .i32⟩) (.of main_v667 : StableHlo.TRef sig ⟨S2x12544, .i32⟩) (.of main_call41_v2 : StableHlo.TRef sig ⟨S2x12544, .i32⟩) maxsi,
    StableHlo.TRef.unary (.of main_c_279 : StableHlo.TRef sig ⟨S_, .i32⟩) (.of main_call41_v3 : StableHlo.TRef sig ⟨S_, .i32⟩) id,
    StableHlo.TRef.unary (.of main_call41_v3 : StableHlo.TRef sig ⟨S_, .i32⟩) (.of main_call41_v4 : StableHlo.TRef sig ⟨S2x12544, .i32⟩) (broadcastInDim S2x12544 ![] bcast_S_S2x12544),
    StableHlo.TRef.binary (.of main_call41_v4 : StableHlo.TRef sig ⟨S2x12544, .i32⟩) (.of main_call41_v2 : StableHlo.TRef sig ⟨S2x12544, .i32⟩) (.of main_v688 : StableHlo.TRef sig ⟨S2x12544, .i32⟩) minsi,
    StableHlo.nullary main_c_280 (constantI S_ 32 0#32),
    StableHlo.nullary main_c_281 (constantI S_ 32 63#32),
    StableHlo.TRef.unary (.of main_c_280 : StableHlo.TRef sig ⟨S_, .i32⟩) (.of main_call42_v0 : StableHlo.TRef sig ⟨S_, .i32⟩) id,
    StableHlo.TRef.unary (.of main_call42_v0 : StableHlo.TRef sig ⟨S_, .i32⟩) (.of main_call42_v1 : StableHlo.TRef sig ⟨S2x12544, .i32⟩) (broadcastInDim S2x12544 ![] bcast_S_S2x12544),
    StableHlo.TRef.binary (.of main_call42_v1 : StableHlo.TRef sig ⟨S2x12544, .i32⟩) (.of main_v669 : StableHlo.TRef sig ⟨S2x12544, .i32⟩) (.of main_call42_v2 : StableHlo.TRef sig ⟨S2x12544, .i32⟩) maxsi,
    StableHlo.TRef.unary (.of main_c_281 : StableHlo.TRef sig ⟨S_, .i32⟩) (.of main_call42_v3 : StableHlo.TRef sig ⟨S_, .i32⟩) id,
    StableHlo.TRef.unary (.of main_call42_v3 : StableHlo.TRef sig ⟨S_, .i32⟩) (.of main_call42_v4 : StableHlo.TRef sig ⟨S2x12544, .i32⟩) (broadcastInDim S2x12544 ![] bcast_S_S2x12544),
    StableHlo.TRef.binary (.of main_call42_v4 : StableHlo.TRef sig ⟨S2x12544, .i32⟩) (.of main_call42_v2 : StableHlo.TRef sig ⟨S2x12544, .i32⟩) (.of main_v689 : StableHlo.TRef sig ⟨S2x12544, .i32⟩) minsi,
    StableHlo.nullary main_c_282 (constantI S_ 32 0#32),
    StableHlo.unary main_c_282 main_v690 (broadcastInDim S2x12544 ![] bcast_S_S2x12544 : (⟨S_, .i32⟩ : BufTy).Contents (Elt F) → (⟨S2x12544, .i32⟩ : BufTy).Contents (Elt F)),
    StableHlo.binary main_v687 main_v690 main_v691 (cmpi .slt : (⟨S2x12544, .i32⟩ : BufTy).Contents (Elt F) → (⟨S2x12544, .i32⟩ : BufTy).Contents (Elt F) → (⟨S2x12544, .i1⟩ : BufTy).Contents (Elt F)),
    StableHlo.nullary main_c_283 (constantI S_ 32 64#32),
    StableHlo.unary main_c_283 main_v692 (broadcastInDim S2x12544 ![] bcast_S_S2x12544 : (⟨S_, .i32⟩ : BufTy).Contents (Elt F) → (⟨S2x12544, .i32⟩ : BufTy).Contents (Elt F)),
    StableHlo.binary main_v687 main_v692 main_v693 (addi : (⟨S2x12544, .i32⟩ : BufTy).Contents (Elt F) → (⟨S2x12544, .i32⟩ : BufTy).Contents (Elt F) → (⟨S2x12544, .i32⟩ : BufTy).Contents (Elt F)),
    StableHlo.ternary main_v691 main_v693 main_v687 main_v694 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_284 (constantI S_ 32 0#32),
    StableHlo.unary main_c_284 main_v695 (broadcastInDim S2x12544 ![] bcast_S_S2x12544 : (⟨S_, .i32⟩ : BufTy).Contents (Elt F) → (⟨S2x12544, .i32⟩ : BufTy).Contents (Elt F)),
    StableHlo.binary main_v688 main_v695 main_v696 (cmpi .slt : (⟨S2x12544, .i32⟩ : BufTy).Contents (Elt F) → (⟨S2x12544, .i32⟩ : BufTy).Contents (Elt F) → (⟨S2x12544, .i1⟩ : BufTy).Contents (Elt F)),
    StableHlo.nullary main_c_285 (constantI S_ 32 64#32),
    StableHlo.unary main_c_285 main_v697 (broadcastInDim S2x12544 ![] bcast_S_S2x12544 : (⟨S_, .i32⟩ : BufTy).Contents (Elt F) → (⟨S2x12544, .i32⟩ : BufTy).Contents (Elt F)),
    StableHlo.binary main_v688 main_v697 main_v698 (addi : (⟨S2x12544, .i32⟩ : BufTy).Contents (Elt F) → (⟨S2x12544, .i32⟩ : BufTy).Contents (Elt F) → (⟨S2x12544, .i32⟩ : BufTy).Contents (Elt F)),
    StableHlo.ternary main_v696 main_v698 main_v688 main_v699 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_286 (constantI S_ 32 0#32),
    StableHlo.unary main_c_286 main_v700 (broadcastInDim S2x12544 ![] bcast_S_S2x12544 : (⟨S_, .i32⟩ : BufTy).Contents (Elt F) → (⟨S2x12544, .i32⟩ : BufTy).Contents (Elt F)),
    StableHlo.binary main_v689 main_v700 main_v701 (cmpi .slt : (⟨S2x12544, .i32⟩ : BufTy).Contents (Elt F) → (⟨S2x12544, .i32⟩ : BufTy).Contents (Elt F) → (⟨S2x12544, .i1⟩ : BufTy).Contents (Elt F)),
    StableHlo.nullary main_c_287 (constantI S_ 32 64#32),
    StableHlo.unary main_c_287 main_v702 (broadcastInDim S2x12544 ![] bcast_S_S2x12544 : (⟨S_, .i32⟩ : BufTy).Contents (Elt F) → (⟨S2x12544, .i32⟩ : BufTy).Contents (Elt F)),
    StableHlo.binary main_v689 main_v702 main_v703 (addi : (⟨S2x12544, .i32⟩ : BufTy).Contents (Elt F) → (⟨S2x12544, .i32⟩ : BufTy).Contents (Elt F) → (⟨S2x12544, .i32⟩ : BufTy).Contents (Elt F)),
    StableHlo.ternary main_v701 main_v703 main_v689 main_v704 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v694 main_v705 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v699 main_v706 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v704 main_v707 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v705, main_v706, main_v707] main_v708 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg2 main_v708 main_v709 ((fun x i => Host.gather gather_S2x30x64x64x64_S2x12544x3_S2x30x12544_1_234_0_0_234_2_130111 x i) : (⟨S2x30x64x64x64, .f32⟩ : BufTy).Contents (Elt F) → (⟨S2x12544x3, .i32⟩ : BufTy).Contents (Elt F) → (⟨S2x30x12544, .f32⟩ : BufTy).Contents (Elt F)),
    StableHlo.nullary main_cst_288 (constant S_ .f32 0x00000000#32),
    StableHlo.TRef.unary (.of main_cst_288 : StableHlo.TRef sig ⟨S_, .f32⟩) (.of main_call43_v0 : StableHlo.TRef sig ⟨S12544, .f32⟩) (broadcastInDim S12544 ![] bcast_S_S12544),
    StableHlo.TRef.unary (.of main_v686 : StableHlo.TRef sig ⟨S2x12544, .i1⟩) (.of main_call43_v1 : StableHlo.TRef sig ⟨S2x30x12544, .i1⟩) (broadcastInDim S2x30x12544 ![0, 2] bcast_S2x12544_S2x30x12544_0_2),
    StableHlo.TRef.unary (.of main_call43_v0 : StableHlo.TRef sig ⟨S12544, .f32⟩) (.of main_call43_v2 : StableHlo.TRef sig ⟨S30x12544, .f32⟩) (broadcastInDim S30x12544 ![1] bcast_S12544_S30x12544_1),
    StableHlo.TRef.unary (.of main_call43_v2 : StableHlo.TRef sig ⟨S30x12544, .f32⟩) (.of main_call43_v3 : StableHlo.TRef sig ⟨S2x30x12544, .f32⟩) (broadcastInDim S2x30x12544 ![1, 2] bcast_S30x12544_S2x30x12544_1_2),
    StableHlo.TRef.ternary (.of main_call43_v1 : StableHlo.TRef sig ⟨S2x30x12544, .i1⟩) (.of main_v709 : StableHlo.TRef sig ⟨S2x30x12544, .f32⟩) (.of main_call43_v3 : StableHlo.TRef sig ⟨S2x30x12544, .f32⟩) (.of main_v710 : StableHlo.TRef sig ⟨S2x30x12544, .f32⟩) select,
    StableHlo.unary main_v663 main_v711 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v711 main_v712 (broadcastInDim S2x30x12544 ![0, 1, 2] bcast_S2x1x12544_S2x30x12544_0_1_2 : (⟨S2x1x12544, .f32⟩ : BufTy).Contents (Elt F) → (⟨S2x30x12544, .f32⟩ : BufTy).Contents (Elt F)),
    StableHlo.binary main_v712 main_v710 main_v713 (mulf : (⟨S2x30x12544, .f32⟩ : BufTy).Contents (Elt F) → (⟨S2x30x12544, .f32⟩ : BufTy).Contents (Elt F) → (⟨S2x30x12544, .f32⟩ : BufTy).Contents (Elt F)),
    StableHlo.binary main_v657 main_v713 main_v714 (addf : (⟨S2x30x12544, .f32⟩ : BufTy).Contents (Elt F) → (⟨S2x30x12544, .f32⟩ : BufTy).Contents (Elt F) → (⟨S2x30x12544, .f32⟩ : BufTy).Contents (Elt F)),
    StableHlo.nullary main_cst_289 (constant S_ .f32 0x3F800000#32),
    StableHlo.unary main_cst_289 main_v715 (broadcastInDim S2x12544 ![] bcast_S_S2x12544 : (⟨S_, .f32⟩ : BufTy).Contents (Elt F) → (⟨S2x12544, .f32⟩ : BufTy).Contents (Elt F)),
    StableHlo.binary main_v715 main_v534 main_v716 (subf : (⟨S2x12544, .f32⟩ : BufTy).Contents (Elt F) → (⟨S2x12544, .f32⟩ : BufTy).Contents (Elt F) → (⟨S2x12544, .f32⟩ : BufTy).Contents (Elt F)),
    StableHlo.binary main_v716 main_v533 main_v717 (mulf : (⟨S2x12544, .f32⟩ : BufTy).Contents (Elt F) → (⟨S2x12544, .f32⟩ : BufTy).Contents (Elt F) → (⟨S2x12544, .f32⟩ : BufTy).Contents (Elt F)),
    StableHlo.binary main_v717 main_v532 main_v718 (mulf : (⟨S2x12544, .f32⟩ : BufTy).Contents (Elt F) → (⟨S2x12544, .f32⟩ : BufTy).Contents (Elt F) → (⟨S2x12544, .f32⟩ : BufTy).Contents (Elt F)),
    StableHlo.nullary main_c_290 (constantI S_ 32 0#32),
    StableHlo.unary main_c_290 main_v719 (broadcastInDim S2x12544 ![] bcast_S_S2x12544 : (⟨S_, .i32⟩ : BufTy).Contents (Elt F) → (⟨S2x12544, .i32⟩ : BufTy).Contents (Elt F)),
    StableHlo.binary main_v537 main_v719 main_v720 (addi : (⟨S2x12544, .i32⟩ : BufTy).Contents (Elt F) → (⟨S2x12544, .i32⟩ : BufTy).Contents (Elt F) → (⟨S2x12544, .i32⟩ : BufTy).Contents (Elt F)),
    StableHlo.nullary main_c_291 (constantI S_ 32 1#32),
    StableHlo.unary main_c_291 main_v721 (broadcastInDim S2x12544 ![] bcast_S_S2x12544 : (⟨S_, .i32⟩ : BufTy).Contents (Elt F) → (⟨S2x12544, .i32⟩ : BufTy).Contents (Elt F)),
    StableHlo.binary main_v536 main_v721 main_v722 (addi : (⟨S2x12544, .i32⟩ : BufTy).Contents (Elt F) → (⟨S2x12544, .i32⟩ : BufTy).Contents (Elt F) → (⟨S2x12544, .i32⟩ : BufTy).Contents (Elt F)),
    StableHlo.nullary main_c_292 (constantI S_ 32 1#32),
    StableHlo.unary main_c_292 main_v723 (broadcastInDim S2x12544 ![] bcast_S_S2x12544 : (⟨S_, .i32⟩ : BufTy).Contents (Elt F) → (⟨S2x12544, .i32⟩ : BufTy).Contents (Elt F)),
    StableHlo.binary main_v535 main_v723 main_v724 (addi : (⟨S2x12544, .i32⟩ : BufTy).Contents (Elt F) → (⟨S2x12544, .i32⟩ : BufTy).Contents (Elt F) → (⟨S2x12544, .i32⟩ : BufTy).Contents (Elt F)) ]

set_option maxRecDepth 8192 in
set_option maxHeartbeats 4000000 in
/-- Window main_part16 is its operations run in order: the called functions unfolded at their calls and sequencing re-associated, both sides are one chain of steps. -/
theorem main_part16_eq (c : Dev nD) : main_part16 (F := F) c = seq ops_part16 := by
  simp only [main_part16, fn_clip_0.body, fn_where_1.body, seq, bind_assoc, pure_bind] <;> rfl

set_option maxRecDepth 8192 in
/-- Every operation of the window reads and writes TensorCore buffers only. -/
theorem ops_part16_sub : (ops_part16 : List (HloOp τ sig (Elt F))).Forall fun op => op.bufs ⊆ tcRefs τ sig :=
  ⟨binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., unary_bufs_sub .., unary_bufs_sub .., unary_bufs_sub .., ternary_bufs_sub .., unary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩

set_option maxRecDepth 8192 in
/-- Every operation of the window determines what it writes: none leaves a buffer at arbitrary contents. -/
theorem ops_part16_fresh : (ops_part16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part16_W : List (Ref sig .tc) := [main_v683, main_c_275, main_v684, main_v685, main_v686, main_c_276, main_c_277, main_call40_v0, main_call40_v1, main_call40_v2, main_call40_v3, main_call40_v4, main_v687, main_c_278, main_c_279, main_call41_v0, main_call41_v1, main_call41_v2, main_call41_v3, main_call41_v4, main_v688, main_c_280, main_c_281, main_call42_v0, main_call42_v1, main_call42_v2, main_call42_v3, main_call42_v4, main_v689, main_c_282, main_v690, main_v691, main_c_283, main_v692, main_v693, main_v694, main_c_284, main_v695, main_v696, main_c_285, main_v697, main_v698, main_v699, main_c_286, main_v700, main_v701, main_c_287, main_v702, main_v703, main_v704, main_v705, main_v706, main_v707, main_v708, main_v709, main_cst_288, main_call43_v0, main_call43_v1, main_call43_v2, main_call43_v3, main_v710, main_v711, main_v712, main_v713, main_v714, main_cst_289, main_v715, main_v716, main_v717, main_v718, main_c_290, main_v719, main_v720, main_c_291, main_v721, main_v722, main_c_292, main_v723, main_v724]

set_option maxRecDepth 8192 in
/-- Each operation of the window writes one buffer of that list. -/
theorem ops_part16_writes : (ops_part16 : List (HloOp τ sig (Elt F))).Forall fun op => op.writes ⊆ (ops_part16_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

set_option maxRecDepth 8192 in
set_option maxHeartbeats 4000000 in
/-- Window main_part17's 79 operations, in order, calls replaced by the called functions' operations. -/
abbrev ops_part17 : List (HloOp τ sig (Elt F)) :=
  [ StableHlo.nullary main_c_293 (constantI S_ 32 0#32),
    StableHlo.unary main_c_293 main_v725 (broadcastInDim S2x12544 ![] bcast_S_S2x12544 : (⟨S_, .i32⟩ : BufTy).Contents (Elt F) → (⟨S2x12544, .i32⟩ : BufTy).Contents (Elt F)),
    StableHlo.binary main_v720 main_v725 main_v726 (cmpi .sge : (⟨S2x12544, .i32⟩ : BufTy).Contents (Elt F) → (⟨S2x12544, .i32⟩ : BufTy).Contents (Elt F) → (⟨S2x12544, .i1⟩ : BufTy).Contents (Elt F)),
    StableHlo.nullary main_c_294 (constantI S_ 32 64#32),
    StableHlo.unary main_c_294 main_v727 (broadcastInDim S2x12544 ![] bcast_S_S2x12544 : (⟨S_, .i32⟩ : BufTy).Contents (Elt F) → (⟨S2x12544, .i32⟩ : BufTy).Contents (Elt F)),
    StableHlo.binary main_v720 main_v727 main_v728 (cmpi .slt : (⟨S2x12544, .i32⟩ : BufTy).Contents (Elt F) → (⟨S2x12544, .i32⟩ : BufTy).Contents (Elt F) → (⟨S2x12544, .i1⟩ : BufTy).Contents (Elt F)),
    StableHlo.binary main_v726 main_v728 main_v729 (andi : (⟨S2x12544, .i1⟩ : BufTy).Contents (Elt F) → (⟨S2x12544, .i1⟩ : BufTy).Contents (Elt F) → (⟨S2x12544, .i1⟩ : BufTy).Contents (Elt F)),
    StableHlo.nullary main_c_295 (constantI S_ 32 0#32),
    StableHlo.unary main_c_295 main_v730 (broadcastInDim S2x12544 ![] bcast_S_S2x12544 : (⟨S_, .i32⟩ : BufTy).Contents (Elt F) → (⟨S2x12544, .i32⟩ : BufTy).Contents (Elt F)),
    StableHlo.binary main_v722 main_v730 main_v731 (cmpi .sge : (⟨S2x12544, .i32⟩ : BufTy).Contents (Elt F) → (⟨S2x12544, .i32⟩ : BufTy).Contents (Elt F) → (⟨S2x12544, .i1⟩ : BufTy).Contents (Elt F)),
    StableHlo.binary main_v729 main_v731 main_v732 (andi : (⟨S2x12544, .i1⟩ : BufTy).Contents (Elt F) → (⟨S2x12544, .i1⟩ : BufTy).Contents (Elt F) → (⟨S2x12544, .i1⟩ : BufTy).Contents (Elt F)),
    StableHlo.nullary main_c_296 (constantI S_ 32 64#32),
    StableHlo.unary main_c_296 main_v733 (broadcastInDim S2x12544 ![] bcast_S_S2x12544 : (⟨S_, .i32⟩ : BufTy).Contents (Elt F) → (⟨S2x12544, .i32⟩ : BufTy).Contents (Elt F)),
    StableHlo.binary main_v722 main_v733 main_v734 (cmpi .slt : (⟨S2x12544, .i32⟩ : BufTy).Contents (Elt F) → (⟨S2x12544, .i32⟩ : BufTy).Contents (Elt F) → (⟨S2x12544, .i1⟩ : BufTy).Contents (Elt F)),
    StableHlo.binary main_v732 main_v734 main_v735 (andi : (⟨S2x12544, .i1⟩ : BufTy).Contents (Elt F) → (⟨S2x12544, .i1⟩ : BufTy).Contents (Elt F) → (⟨S2x12544, .i1⟩ : BufTy).Contents (Elt F)),
    StableHlo.nullary main_c_297 (constantI S_ 32 0#32),
    StableHlo.unary main_c_297 main_v736 (broadcastInDim S2x12544 ![] bcast_S_S2x12544 : (⟨S_, .i32⟩ : BufTy).Contents (Elt F) → (⟨S2x12544, .i32⟩ : BufTy).Contents (Elt F)),
    StableHlo.binary main_v724 main_v736 main_v737 (cmpi .sge : (⟨S2x12544, .i32⟩ : BufTy).Contents (Elt F) → (⟨S2x12544, .i32⟩ : BufTy).Contents (Elt F) → (⟨S2x12544, .i1⟩ : BufTy).Contents (Elt F)),
    StableHlo.binary main_v735 main_v737 main_v738 (andi : (⟨S2x12544, .i1⟩ : BufTy).Contents (Elt F) → (⟨S2x12544, .i1⟩ : BufTy).Contents (Elt F) → (⟨S2x12544, .i1⟩ : BufTy).Contents (Elt F)),
    StableHlo.nullary main_c_298 (constantI S_ 32 64#32),
    StableHlo.unary main_c_298 main_v739 (broadcastInDim S2x12544 ![] bcast_S_S2x12544 : (⟨S_, .i32⟩ : BufTy).Contents (Elt F) → (⟨S2x12544, .i32⟩ : BufTy).Contents (Elt F)),
    StableHlo.binary main_v724 main_v739 main_v740 (cmpi .slt : (⟨S2x12544, .i32⟩ : BufTy).Contents (Elt F) → (⟨S2x12544, .i32⟩ : BufTy).Contents (Elt F) → (⟨S2x12544, .i1⟩ : BufTy).Contents (Elt F)),
    StableHlo.binary main_v738 main_v740 main_v741 (andi : (⟨S2x12544, .i1⟩ : BufTy).Contents (Elt F) → (⟨S2x12544, .i1⟩ : BufTy).Contents (Elt F) → (⟨S2x12544, .i1⟩ : BufTy).Contents (Elt F)),
    StableHlo.nullary main_c_299 (constantI S_ 32 0#32),
    StableHlo.nullary main_c_300 (constantI S_ 32 63#32),
    StableHlo.TRef.unary (.of main_c_299 : StableHlo.TRef sig ⟨S_, .i32⟩) (.of main_call44_v0 : StableHlo.TRef sig ⟨S_, .i32⟩) id,
    StableHlo.TRef.unary (.of main_call44_v0 : StableHlo.TRef sig ⟨S_, .i32⟩) (.of main_call44_v1 : StableHlo.TRef sig ⟨S2x12544, .i32⟩) (broadcastInDim S2x12544 ![] bcast_S_S2x12544),
    StableHlo.TRef.binary (.of main_call44_v1 : StableHlo.TRef sig ⟨S2x12544, .i32⟩) (.of main_v720 : StableHlo.TRef sig ⟨S2x12544, .i32⟩) (.of main_call44_v2 : StableHlo.TRef sig ⟨S2x12544, .i32⟩) maxsi,
    StableHlo.TRef.unary (.of main_c_300 : StableHlo.TRef sig ⟨S_, .i32⟩) (.of main_call44_v3 : StableHlo.TRef sig ⟨S_, .i32⟩) id,
    StableHlo.TRef.unary (.of main_call44_v3 : StableHlo.TRef sig ⟨S_, .i32⟩) (.of main_call44_v4 : StableHlo.TRef sig ⟨S2x12544, .i32⟩) (broadcastInDim S2x12544 ![] bcast_S_S2x12544),
    StableHlo.TRef.binary (.of main_call44_v4 : StableHlo.TRef sig ⟨S2x12544, .i32⟩) (.of main_call44_v2 : StableHlo.TRef sig ⟨S2x12544, .i32⟩) (.of main_v742 : StableHlo.TRef sig ⟨S2x12544, .i32⟩) minsi,
    StableHlo.nullary main_c_301 (constantI S_ 32 0#32),
    StableHlo.nullary main_c_302 (constantI S_ 32 63#32),
    StableHlo.TRef.unary (.of main_c_301 : StableHlo.TRef sig ⟨S_, .i32⟩) (.of main_call45_v0 : StableHlo.TRef sig ⟨S_, .i32⟩) id,
    StableHlo.TRef.unary (.of main_call45_v0 : StableHlo.TRef sig ⟨S_, .i32⟩) (.of main_call45_v1 : StableHlo.TRef sig ⟨S2x12544, .i32⟩) (broadcastInDim S2x12544 ![] bcast_S_S2x12544),
    StableHlo.TRef.binary (.of main_call45_v1 : StableHlo.TRef sig ⟨S2x12544, .i32⟩) (.of main_v722 : StableHlo.TRef sig ⟨S2x12544, .i32⟩) (.of main_call45_v2 : StableHlo.TRef sig ⟨S2x12544, .i32⟩) maxsi,
    StableHlo.TRef.unary (.of main_c_302 : StableHlo.TRef sig ⟨S_, .i32⟩) (.of main_call45_v3 : StableHlo.TRef sig ⟨S_, .i32⟩) id,
    StableHlo.TRef.unary (.of main_call45_v3 : StableHlo.TRef sig ⟨S_, .i32⟩) (.of main_call45_v4 : StableHlo.TRef sig ⟨S2x12544, .i32⟩) (broadcastInDim S2x12544 ![] bcast_S_S2x12544),
    StableHlo.TRef.binary (.of main_call45_v4 : StableHlo.TRef sig ⟨S2x12544, .i32⟩) (.of main_call45_v2 : StableHlo.TRef sig ⟨S2x12544, .i32⟩) (.of main_v743 : StableHlo.TRef sig ⟨S2x12544, .i32⟩) minsi,
    StableHlo.nullary main_c_303 (constantI S_ 32 0#32),
    StableHlo.nullary main_c_304 (constantI S_ 32 63#32),
    StableHlo.TRef.unary (.of main_c_303 : StableHlo.TRef sig ⟨S_, .i32⟩) (.of main_call46_v0 : StableHlo.TRef sig ⟨S_, .i32⟩) id,
    StableHlo.TRef.unary (.of main_call46_v0 : StableHlo.TRef sig ⟨S_, .i32⟩) (.of main_call46_v1 : StableHlo.TRef sig ⟨S2x12544, .i32⟩) (broadcastInDim S2x12544 ![] bcast_S_S2x12544),
    StableHlo.TRef.binary (.of main_call46_v1 : StableHlo.TRef sig ⟨S2x12544, .i32⟩) (.of main_v724 : StableHlo.TRef sig ⟨S2x12544, .i32⟩) (.of main_call46_v2 : StableHlo.TRef sig ⟨S2x12544, .i32⟩) maxsi,
    StableHlo.TRef.unary (.of main_c_304 : StableHlo.TRef sig ⟨S_, .i32⟩) (.of main_call46_v3 : StableHlo.TRef sig ⟨S_, .i32⟩) id,
    StableHlo.TRef.unary (.of main_call46_v3 : StableHlo.TRef sig ⟨S_, .i32⟩) (.of main_call46_v4 : StableHlo.TRef sig ⟨S2x12544, .i32⟩) (broadcastInDim S2x12544 ![] bcast_S_S2x12544),
    StableHlo.TRef.binary (.of main_call46_v4 : StableHlo.TRef sig ⟨S2x12544, .i32⟩) (.of main_call46_v2 : StableHlo.TRef sig ⟨S2x12544, .i32⟩) (.of main_v744 : StableHlo.TRef sig ⟨S2x12544, .i32⟩) minsi,
    StableHlo.nullary main_c_305 (constantI S_ 32 0#32),
    StableHlo.unary main_c_305 main_v745 (broadcastInDim S2x12544 ![] bcast_S_S2x12544 : (⟨S_, .i32⟩ : BufTy).Contents (Elt F) → (⟨S2x12544, .i32⟩ : BufTy).Contents (Elt F)),
    StableHlo.binary main_v742 main_v745 main_v746 (cmpi .slt : (⟨S2x12544, .i32⟩ : BufTy).Contents (Elt F) → (⟨S2x12544, .i32⟩ : BufTy).Contents (Elt F) → (⟨S2x12544, .i1⟩ : BufTy).Contents (Elt F)),
    StableHlo.nullary main_c_306 (constantI S_ 32 64#32),
    StableHlo.unary main_c_306 main_v747 (broadcastInDim S2x12544 ![] bcast_S_S2x12544 : (⟨S_, .i32⟩ : BufTy).Contents (Elt F) → (⟨S2x12544, .i32⟩ : BufTy).Contents (Elt F)),
    StableHlo.binary main_v742 main_v747 main_v748 (addi : (⟨S2x12544, .i32⟩ : BufTy).Contents (Elt F) → (⟨S2x12544, .i32⟩ : BufTy).Contents (Elt F) → (⟨S2x12544, .i32⟩ : BufTy).Contents (Elt F)),
    StableHlo.ternary main_v746 main_v748 main_v742 main_v749 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_307 (constantI S_ 32 0#32),
    StableHlo.unary main_c_307 main_v750 (broadcastInDim S2x12544 ![] bcast_S_S2x12544 : (⟨S_, .i32⟩ : BufTy).Contents (Elt F) → (⟨S2x12544, .i32⟩ : BufTy).Contents (Elt F)),
    StableHlo.binary main_v743 main_v750 main_v751 (cmpi .slt : (⟨S2x12544, .i32⟩ : BufTy).Contents (Elt F) → (⟨S2x12544, .i32⟩ : BufTy).Contents (Elt F) → (⟨S2x12544, .i1⟩ : BufTy).Contents (Elt F)),
    StableHlo.nullary main_c_308 (constantI S_ 32 64#32),
    StableHlo.unary main_c_308 main_v752 (broadcastInDim S2x12544 ![] bcast_S_S2x12544 : (⟨S_, .i32⟩ : BufTy).Contents (Elt F) → (⟨S2x12544, .i32⟩ : BufTy).Contents (Elt F)),
    StableHlo.binary main_v743 main_v752 main_v753 (addi : (⟨S2x12544, .i32⟩ : BufTy).Contents (Elt F) → (⟨S2x12544, .i32⟩ : BufTy).Contents (Elt F) → (⟨S2x12544, .i32⟩ : BufTy).Contents (Elt F)),
    StableHlo.ternary main_v751 main_v753 main_v743 main_v754 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_309 (constantI S_ 32 0#32),
    StableHlo.unary main_c_309 main_v755 (broadcastInDim S2x12544 ![] bcast_S_S2x12544 : (⟨S_, .i32⟩ : BufTy).Contents (Elt F) → (⟨S2x12544, .i32⟩ : BufTy).Contents (Elt F)),
    StableHlo.binary main_v744 main_v755 main_v756 (cmpi .slt : (⟨S2x12544, .i32⟩ : BufTy).Contents (Elt F) → (⟨S2x12544, .i32⟩ : BufTy).Contents (Elt F) → (⟨S2x12544, .i1⟩ : BufTy).Contents (Elt F)),
    StableHlo.nullary main_c_310 (constantI S_ 32 64#32),
    StableHlo.unary main_c_310 main_v757 (broadcastInDim S2x12544 ![] bcast_S_S2x12544 : (⟨S_, .i32⟩ : BufTy).Contents (Elt F) → (⟨S2x12544, .i32⟩ : BufTy).Contents (Elt F)),
    StableHlo.binary main_v744 main_v757 main_v758 (addi : (⟨S2x12544, .i32⟩ : BufTy).Contents (Elt F) → (⟨S2x12544, .i32⟩ : BufTy).Contents (Elt F) → (⟨S2x12544, .i32⟩ : BufTy).Contents (Elt F)),
    StableHlo.ternary main_v756 main_v758 main_v744 main_v759 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v749 main_v760 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v754 main_v761 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v759 main_v762 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v760, main_v761, main_v762] main_v763 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg2 main_v763 main_v764 ((fun x i => Host.gather gather_S2x30x64x64x64_S2x12544x3_S2x30x12544_1_234_0_0_234_2_130111 x i) : (⟨S2x30x64x64x64, .f32⟩ : BufTy).Contents (Elt F) → (⟨S2x12544x3, .i32⟩ : BufTy).Contents (Elt F) → (⟨S2x30x12544, .f32⟩ : BufTy).Contents (Elt F)),
    StableHlo.nullary main_cst_311 (constant S_ .f32 0x00000000#32),
    StableHlo.TRef.unary (.of main_cst_311 : StableHlo.TRef sig ⟨S_, .f32⟩) (.of main_call47_v0 : StableHlo.TRef sig ⟨S12544, .f32⟩) (broadcastInDim S12544 ![] bcast_S_S12544),
    StableHlo.TRef.unary (.of main_v741 : StableHlo.TRef sig ⟨S2x12544, .i1⟩) (.of main_call47_v1 : StableHlo.TRef sig ⟨S2x30x12544, .i1⟩) (broadcastInDim S2x30x12544 ![0, 2] bcast_S2x12544_S2x30x12544_0_2),
    StableHlo.TRef.unary (.of main_call47_v0 : StableHlo.TRef sig ⟨S12544, .f32⟩) (.of main_call47_v2 : StableHlo.TRef sig ⟨S30x12544, .f32⟩) (broadcastInDim S30x12544 ![1] bcast_S12544_S30x12544_1),
    StableHlo.TRef.unary (.of main_call47_v2 : StableHlo.TRef sig ⟨S30x12544, .f32⟩) (.of main_call47_v3 : StableHlo.TRef sig ⟨S2x30x12544, .f32⟩) (broadcastInDim S2x30x12544 ![1, 2] bcast_S30x12544_S2x30x12544_1_2),
    StableHlo.TRef.ternary (.of main_call47_v1 : StableHlo.TRef sig ⟨S2x30x12544, .i1⟩) (.of main_v764 : StableHlo.TRef sig ⟨S2x30x12544, .f32⟩) (.of main_call47_v3 : StableHlo.TRef sig ⟨S2x30x12544, .f32⟩) (.of main_v765 : StableHlo.TRef sig ⟨S2x30x12544, .f32⟩) select ]

set_option maxRecDepth 8192 in
set_option maxHeartbeats 4000000 in
/-- Window main_part17 is its operations run in order: the called functions unfolded at their calls and sequencing re-associated, both sides are one chain of steps. -/
theorem main_part17_eq (c : Dev nD) : main_part17 (F := F) c = seq ops_part17 := by
  simp only [main_part17, fn_clip_0.body, fn_where_1.body, seq, bind_assoc, pure_bind] <;> rfl

set_option maxRecDepth 8192 in
/-- Every operation of the window reads and writes TensorCore buffers only. -/
theorem ops_part17_sub : (ops_part17 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., unary_bufs_sub .., unary_bufs_sub .., unary_bufs_sub .., ternary_bufs_sub ..⟩

set_option maxRecDepth 8192 in
/-- Every operation of the window determines what it writes: none leaves a buffer at arbitrary contents. -/
theorem ops_part17_fresh : (ops_part17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part17_W : List (Ref sig .tc) := [main_c_293, main_v725, main_v726, main_c_294, main_v727, main_v728, main_v729, main_c_295, main_v730, main_v731, main_v732, main_c_296, main_v733, main_v734, main_v735, main_c_297, main_v736, main_v737, main_v738, main_c_298, main_v739, main_v740, main_v741, main_c_299, main_c_300, main_call44_v0, main_call44_v1, main_call44_v2, main_call44_v3, main_call44_v4, main_v742, main_c_301, main_c_302, main_call45_v0, main_call45_v1, main_call45_v2, main_call45_v3, main_call45_v4, main_v743, main_c_303, main_c_304, main_call46_v0, main_call46_v1, main_call46_v2, main_call46_v3, main_call46_v4, main_v744, main_c_305, main_v745, main_v746, main_c_306, main_v747, main_v748, main_v749, main_c_307, main_v750, main_v751, main_c_308, main_v752, main_v753, main_v754, main_c_309, main_v755, main_v756, main_c_310, main_v757, main_v758, main_v759, main_v760, main_v761, main_v762, main_v763, main_v764, main_cst_311, main_call47_v0, main_call47_v1, main_call47_v2, main_call47_v3, main_v765]

set_option maxRecDepth 8192 in
/-- Each operation of the window writes one buffer of that list. -/
theorem ops_part17_writes : (ops_part17 : List (HloOp τ sig (Elt F))).Forall fun op => op.writes ⊆ (ops_part17_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

end Cert.ReferenceIdeal.HandRun

end
-- ==== Proof.RefRunP9.lean ====
/- The reference program's @main, windows main_part18 … main_part19, as LISTS of host operations: each printed
   statement one entry, in order, and each call replaced by the called function's operations over the buffers that
   call names (its record), a call inside a called function likewise. With each list: the window equals the list run
   in order, every operation's buffers are TensorCore buffers, no operation leaves a buffer undetermined, and the
   list of buffers the window writes. -/
import proofs.«103167_j42614665511136_1_alg».proof.Proof.Gen.ReferenceIdeal
import Idealize.ShloMosaic.Lib.StableHlo.Run
import proofs.«103167_j42614665511136_1_alg».proof.Proof.RefRunP7

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window main_part18's 75 operations, in order, calls replaced by the called functions' operations. -/
abbrev ops_part18 : List (HloOp τ sig (Elt F)) :=
  [ StableHlo.unary main_v718 main_v766 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v766 main_v767 (broadcastInDim S2x30x12544 ![0, 1, 2] bcast_S2x1x12544_S2x30x12544_0_1_2 : (⟨S2x1x12544, .f32⟩ : BufTy).Contents (Elt F) → (⟨S2x30x12544, .f32⟩ : BufTy).Contents (Elt F)),
    StableHlo.binary main_v767 main_v765 main_v768 (mulf : (⟨S2x30x12544, .f32⟩ : BufTy).Contents (Elt F) → (⟨S2x30x12544, .f32⟩ : BufTy).Contents (Elt F) → (⟨S2x30x12544, .f32⟩ : BufTy).Contents (Elt F)),
    StableHlo.binary main_v714 main_v768 main_v769 (addf : (⟨S2x30x12544, .f32⟩ : BufTy).Contents (Elt F) → (⟨S2x30x12544, .f32⟩ : BufTy).Contents (Elt F) → (⟨S2x30x12544, .f32⟩ : BufTy).Contents (Elt F)),
    StableHlo.nullary main_cst_312 (constant S_ .f32 0x3F800000#32),
    StableHlo.unary main_cst_312 main_v770 (broadcastInDim S2x12544 ![] bcast_S_S2x12544 : (⟨S_, .f32⟩ : BufTy).Contents (Elt F) → (⟨S2x12544, .f32⟩ : BufTy).Contents (Elt F)),
    StableHlo.binary main_v770 main_v533 main_v771 (subf : (⟨S2x12544, .f32⟩ : BufTy).Contents (Elt F) → (⟨S2x12544, .f32⟩ : BufTy).Contents (Elt F) → (⟨S2x12544, .f32⟩ : BufTy).Contents (Elt F)),
    StableHlo.binary main_v534 main_v771 main_v772 (mulf : (⟨S2x12544, .f32⟩ : BufTy).Contents (Elt F) → (⟨S2x12544, .f32⟩ : BufTy).Contents (Elt F) → (⟨S2x12544, .f32⟩ : BufTy).Contents (Elt F)),
    StableHlo.nullary main_cst_313 (constant S_ .f32 0x3F800000#32),
    StableHlo.unary main_cst_313 main_v773 (broadcastInDim S2x12544 ![] bcast_S_S2x12544 : (⟨S_, .f32⟩ : BufTy).Contents (Elt F) → (⟨S2x12544, .f32⟩ : BufTy).Contents (Elt F)),
    StableHlo.binary main_v773 main_v532 main_v774 (subf : (⟨S2x12544, .f32⟩ : BufTy).Contents (Elt F) → (⟨S2x12544, .f32⟩ : BufTy).Contents (Elt F) → (⟨S2x12544, .f32⟩ : BufTy).Contents (Elt F)),
    StableHlo.binary main_v772 main_v774 main_v775 (mulf : (⟨S2x12544, .f32⟩ : BufTy).Contents (Elt F) → (⟨S2x12544, .f32⟩ : BufTy).Contents (Elt F) → (⟨S2x12544, .f32⟩ : BufTy).Contents (Elt F)),
    StableHlo.nullary main_c_314 (constantI S_ 32 1#32),
    StableHlo.unary main_c_314 main_v776 (broadcastInDim S2x12544 ![] bcast_S_S2x12544 : (⟨S_, .i32⟩ : BufTy).Contents (Elt F) → (⟨S2x12544, .i32⟩ : BufTy).Contents (Elt F)),
    StableHlo.binary main_v537 main_v776 main_v777 (addi : (⟨S2x12544, .i32⟩ : BufTy).Contents (Elt F) → (⟨S2x12544, .i32⟩ : BufTy).Contents (Elt F) → (⟨S2x12544, .i32⟩ : BufTy).Contents (Elt F)),
    StableHlo.nullary main_c_315 (constantI S_ 32 0#32),
    StableHlo.unary main_c_315 main_v778 (broadcastInDim S2x12544 ![] bcast_S_S2x12544 : (⟨S_, .i32⟩ : BufTy).Contents (Elt F) → (⟨S2x12544, .i32⟩ : BufTy).Contents (Elt F)),
    StableHlo.binary main_v536 main_v778 main_v779 (addi : (⟨S2x12544, .i32⟩ : BufTy).Contents (Elt F) → (⟨S2x12544, .i32⟩ : BufTy).Contents (Elt F) → (⟨S2x12544, .i32⟩ : BufTy).Contents (Elt F)),
    StableHlo.nullary main_c_316 (constantI S_ 32 0#32),
    StableHlo.unary main_c_316 main_v780 (broadcastInDim S2x12544 ![] bcast_S_S2x12544 : (⟨S_, .i32⟩ : BufTy).Contents (Elt F) → (⟨S2x12544, .i32⟩ : BufTy).Contents (Elt F)),
    StableHlo.binary main_v535 main_v780 main_v781 (addi : (⟨S2x12544, .i32⟩ : BufTy).Contents (Elt F) → (⟨S2x12544, .i32⟩ : BufTy).Contents (Elt F) → (⟨S2x12544, .i32⟩ : BufTy).Contents (Elt F)),
    StableHlo.nullary main_c_317 (constantI S_ 32 0#32),
    StableHlo.unary main_c_317 main_v782 (broadcastInDim S2x12544 ![] bcast_S_S2x12544 : (⟨S_, .i32⟩ : BufTy).Contents (Elt F) → (⟨S2x12544, .i32⟩ : BufTy).Contents (Elt F)),
    StableHlo.binary main_v777 main_v782 main_v783 (cmpi .sge : (⟨S2x12544, .i32⟩ : BufTy).Contents (Elt F) → (⟨S2x12544, .i32⟩ : BufTy).Contents (Elt F) → (⟨S2x12544, .i1⟩ : BufTy).Contents (Elt F)),
    StableHlo.nullary main_c_318 (constantI S_ 32 64#32),
    StableHlo.unary main_c_318 main_v784 (broadcastInDim S2x12544 ![] bcast_S_S2x12544 : (⟨S_, .i32⟩ : BufTy).Contents (Elt F) → (⟨S2x12544, .i32⟩ : BufTy).Contents (Elt F)),
    StableHlo.binary main_v777 main_v784 main_v785 (cmpi .slt : (⟨S2x12544, .i32⟩ : BufTy).Contents (Elt F) → (⟨S2x12544, .i32⟩ : BufTy).Contents (Elt F) → (⟨S2x12544, .i1⟩ : BufTy).Contents (Elt F)),
    StableHlo.binary main_v783 main_v785 main_v786 (andi : (⟨S2x12544, .i1⟩ : BufTy).Contents (Elt F) → (⟨S2x12544, .i1⟩ : BufTy).Contents (Elt F) → (⟨S2x12544, .i1⟩ : BufTy).Contents (Elt F)),
    StableHlo.nullary main_c_319 (constantI S_ 32 0#32),
    StableHlo.unary main_c_319 main_v787 (broadcastInDim S2x12544 ![] bcast_S_S2x12544 : (⟨S_, .i32⟩ : BufTy).Contents (Elt F) → (⟨S2x12544, .i32⟩ : BufTy).Contents (Elt F)),
    StableHlo.binary main_v779 main_v787 main_v788 (cmpi .sge : (⟨S2x12544, .i32⟩ : BufTy).Contents (Elt F) → (⟨S2x12544, .i32⟩ : BufTy).Contents (Elt F) → (⟨S2x12544, .i1⟩ : BufTy).Contents (Elt F)),
    StableHlo.binary main_v786 main_v788 main_v789 (andi : (⟨S2x12544, .i1⟩ : BufTy).Contents (Elt F) → (⟨S2x12544, .i1⟩ : BufTy).Contents (Elt F) → (⟨S2x12544, .i1⟩ : BufTy).Contents (Elt F)),
    StableHlo.nullary main_c_320 (constantI S_ 32 64#32),
    StableHlo.unary main_c_320 main_v790 (broadcastInDim S2x12544 ![] bcast_S_S2x12544 : (⟨S_, .i32⟩ : BufTy).Contents (Elt F) → (⟨S2x12544, .i32⟩ : BufTy).Contents (Elt F)),
    StableHlo.binary main_v779 main_v790 main_v791 (cmpi .slt : (⟨S2x12544, .i32⟩ : BufTy).Contents (Elt F) → (⟨S2x12544, .i32⟩ : BufTy).Contents (Elt F) → (⟨S2x12544, .i1⟩ : BufTy).Contents (Elt F)),
    StableHlo.binary main_v789 main_v791 main_v792 (andi : (⟨S2x12544, .i1⟩ : BufTy).Contents (Elt F) → (⟨S2x12544, .i1⟩ : BufTy).Contents (Elt F) → (⟨S2x12544, .i1⟩ : BufTy).Contents (Elt F)),
    StableHlo.nullary main_c_321 (constantI S_ 32 0#32),
    StableHlo.unary main_c_321 main_v793 (broadcastInDim S2x12544 ![] bcast_S_S2x12544 : (⟨S_, .i32⟩ : BufTy).Contents (Elt F) → (⟨S2x12544, .i32⟩ : BufTy).Contents (Elt F)),
    StableHlo.binary main_v781 main_v793 main_v794 (cmpi .sge : (⟨S2x12544, .i32⟩ : BufTy).Contents (Elt F) → (⟨S2x12544, .i32⟩ : BufTy).Contents (Elt F) → (⟨S2x12544, .i1⟩ : BufTy).Contents (Elt F)),
    StableHlo.binary main_v792 main_v794 main_v795 (andi : (⟨S2x12544, .i1⟩ : BufTy).Contents (Elt F) → (⟨S2x12544, .i1⟩ : BufTy).Contents (Elt F) → (⟨S2x12544, .i1⟩ : BufTy).Contents (Elt F)),
    StableHlo.nullary main_c_322 (constantI S_ 32 64#32),
    StableHlo.unary main_c_322 main_v796 (broadcastInDim S2x12544 ![] bcast_S_S2x12544 : (⟨S_, .i32⟩ : BufTy).Contents (Elt F) → (⟨S2x12544, .i32⟩ : BufTy).Contents (Elt F)),
    StableHlo.binary main_v781 main_v796 main_v797 (cmpi .slt : (⟨S2x12544, .i32⟩ : BufTy).Contents (Elt F) → (⟨S2x12544, .i32⟩ : BufTy).Contents (Elt F) → (⟨S2x12544, .i1⟩ : BufTy).Contents (Elt F)),
    StableHlo.binary main_v795 main_v797 main_v798 (andi : (⟨S2x12544, .i1⟩ : BufTy).Contents (Elt F) → (⟨S2x12544, .i1⟩ : BufTy).Contents (Elt F) → (⟨S2x12544, .i1⟩ : BufTy).Contents (Elt F)),
    StableHlo.nullary main_c_323 (constantI S_ 32 0#32),
    StableHlo.nullary main_c_324 (constantI S_ 32 63#32),
    StableHlo.TRef.unary (.of main_c_323 : StableHlo.TRef sig ⟨S_, .i32⟩) (.of main_call48_v0 : StableHlo.TRef sig ⟨S_, .i32⟩) id,
    StableHlo.TRef.unary (.of main_call48_v0 : StableHlo.TRef sig ⟨S_, .i32⟩) (.of main_call48_v1 : StableHlo.TRef sig ⟨S2x12544, .i32⟩) (broadcastInDim S2x12544 ![] bcast_S_S2x12544),
    StableHlo.TRef.binary (.of main_call48_v1 : StableHlo.TRef sig ⟨S2x12544, .i32⟩) (.of main_v777 : StableHlo.TRef sig ⟨S2x12544, .i32⟩) (.of main_call48_v2 : StableHlo.TRef sig ⟨S2x12544, .i32⟩) maxsi,
    StableHlo.TRef.unary (.of main_c_324 : StableHlo.TRef sig ⟨S_, .i32⟩) (.of main_call48_v3 : StableHlo.TRef sig ⟨S_, .i32⟩) id,
    StableHlo.TRef.unary (.of main_call48_v3 : StableHlo.TRef sig ⟨S_, .i32⟩) (.of main_call48_v4 : StableHlo.TRef sig ⟨S2x12544, .i32⟩) (broadcastInDim S2x12544 ![] bcast_S_S2x12544),
    StableHlo.TRef.binary (.of main_call48_v4 : StableHlo.TRef sig ⟨S2x12544, .i32⟩) (.of main_call48_v2 : StableHlo.TRef sig ⟨S2x12544, .i32⟩) (.of main_v799 : StableHlo.TRef sig ⟨S2x12544, .i32⟩) minsi,
    StableHlo.nullary main_c_325 (constantI S_ 32 0#32),
    StableHlo.nullary main_c_326 (constantI S_ 32 63#32),
    StableHlo.TRef.unary (.of main_c_325 : StableHlo.TRef sig ⟨S_, .i32⟩) (.of main_call49_v0 : StableHlo.TRef sig ⟨S_, .i32⟩) id,
    StableHlo.TRef.unary (.of main_call49_v0 : StableHlo.TRef sig ⟨S_, .i32⟩) (.of main_call49_v1 : StableHlo.TRef sig ⟨S2x12544, .i32⟩) (broadcastInDim S2x12544 ![] bcast_S_S2x12544),
    StableHlo.TRef.binary (.of main_call49_v1 : StableHlo.TRef sig ⟨S2x12544, .i32⟩) (.of main_v779 : StableHlo.TRef sig ⟨S2x12544, .i32⟩) (.of main_call49_v2 : StableHlo.TRef sig ⟨S2x12544, .i32⟩) maxsi,
    StableHlo.TRef.unary (.of main_c_326 : StableHlo.TRef sig ⟨S_, .i32⟩) (.of main_call49_v3 : StableHlo.TRef sig ⟨S_, .i32⟩) id,
    StableHlo.TRef.unary (.of main_call49_v3 : StableHlo.TRef sig ⟨S_, .i32⟩) (.of main_call49_v4 : StableHlo.TRef sig ⟨S2x12544, .i32⟩) (broadcastInDim S2x12544 ![] bcast_S_S2x12544),
    StableHlo.TRef.binary (.of main_call49_v4 : StableHlo.TRef sig ⟨S2x12544, .i32⟩) (.of main_call49_v2 : StableHlo.TRef sig ⟨S2x12544, .i32⟩) (.of main_v800 : StableHlo.TRef sig ⟨S2x12544, .i32⟩) minsi,
    StableHlo.nullary main_c_327 (constantI S_ 32 0#32),
    StableHlo.nullary main_c_328 (constantI S_ 32 63#32),
    StableHlo.TRef.unary (.of main_c_327 : StableHlo.TRef sig ⟨S_, .i32⟩) (.of main_call50_v0 : StableHlo.TRef sig ⟨S_, .i32⟩) id,
    StableHlo.TRef.unary (.of main_call50_v0 : StableHlo.TRef sig ⟨S_, .i32⟩) (.of main_call50_v1 : StableHlo.TRef sig ⟨S2x12544, .i32⟩) (broadcastInDim S2x12544 ![] bcast_S_S2x12544),
    StableHlo.TRef.binary (.of main_call50_v1 : StableHlo.TRef sig ⟨S2x12544, .i32⟩) (.of main_v781 : StableHlo.TRef sig ⟨S2x12544, .i32⟩) (.of main_call50_v2 : StableHlo.TRef sig ⟨S2x12544, .i32⟩) maxsi,
    StableHlo.TRef.unary (.of main_c_328 : StableHlo.TRef sig ⟨S_, .i32⟩) (.of main_call50_v3 : StableHlo.TRef sig ⟨S_, .i32⟩) id,
    StableHlo.TRef.unary (.of main_call50_v3 : StableHlo.TRef sig ⟨S_, .i32⟩) (.of main_call50_v4 : StableHlo.TRef sig ⟨S2x12544, .i32⟩) (broadcastInDim S2x12544 ![] bcast_S_S2x12544),
    StableHlo.TRef.binary (.of main_call50_v4 : StableHlo.TRef sig ⟨S2x12544, .i32⟩) (.of main_call50_v2 : StableHlo.TRef sig ⟨S2x12544, .i32⟩) (.of main_v801 : StableHlo.TRef sig ⟨S2x12544, .i32⟩) minsi,
    StableHlo.nullary main_c_329 (constantI S_ 32 0#32),
    StableHlo.unary main_c_329 main_v802 (broadcastInDim S2x12544 ![] bcast_S_S2x12544 : (⟨S_, .i32⟩ : BufTy).Contents (Elt F) → (⟨S2x12544, .i32⟩ : BufTy).Contents (Elt F)),
    StableHlo.binary main_v799 main_v802 main_v803 (cmpi .slt : (⟨S2x12544, .i32⟩ : BufTy).Contents (Elt F) → (⟨S2x12544, .i32⟩ : BufTy).Contents (Elt F) → (⟨S2x12544, .i1⟩ : BufTy).Contents (Elt F)),
    StableHlo.nullary main_c_330 (constantI S_ 32 64#32),
    StableHlo.unary main_c_330 main_v804 (broadcastInDim S2x12544 ![] bcast_S_S2x12544 : (⟨S_, .i32⟩ : BufTy).Contents (Elt F) → (⟨S2x12544, .i32⟩ : BufTy).Contents (Elt F)),
    StableHlo.binary main_v799 main_v804 main_v805 (addi : (⟨S2x12544, .i32⟩ : BufTy).Contents (Elt F) → (⟨S2x12544, .i32⟩ : BufTy).Contents (Elt F) → (⟨S2x12544, .i32⟩ : BufTy).Contents (Elt F)),
    StableHlo.ternary main_v803 main_v805 main_v799 main_v806 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)) ]

set_option maxRecDepth 8192 in
set_option maxHeartbeats 4000000 in
/-- Window main_part18 is its operations run in order: the called functions unfolded at their calls and sequencing re-associated, both sides are one chain of steps. -/
theorem main_part18_eq (c : Dev nD) : main_part18 (F := F) c = seq ops_part18 := by
  simp only [main_part18, fn_clip_0.body, seq, bind_assoc, pure_bind] <;> rfl

set_option maxRecDepth 8192 in
/-- Every operation of the window reads and writes TensorCore buffers only. -/
theorem ops_part18_sub : (ops_part18 : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

set_option maxRecDepth 8192 in
/-- Every operation of the window determines what it writes: none leaves a buffer at arbitrary contents. -/
theorem ops_part18_fresh : (ops_part18 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part18_W : List (Ref sig .tc) := [main_v766, main_v767, main_v768, main_v769, main_cst_312, main_v770, main_v771, main_v772, main_cst_313, main_v773, main_v774, main_v775, main_c_314, main_v776, main_v777, main_c_315, main_v778, main_v779, main_c_316, main_v780, main_v781, main_c_317, main_v782, main_v783, main_c_318, main_v784, main_v785, main_v786, main_c_319, main_v787, main_v788, main_v789, main_c_320, main_v790, main_v791, main_v792, main_c_321, main_v793, main_v794, main_v795, main_c_322, main_v796, main_v797, main_v798, main_c_323, main_c_324, main_call48_v0, main_call48_v1, main_call48_v2, main_call48_v3, main_call48_v4, main_v799, main_c_325, main_c_326, main_call49_v0, main_call49_v1, main_call49_v2, main_call49_v3, main_call49_v4, main_v800, main_c_327, main_c_328, main_call50_v0, main_call50_v1, main_call50_v2, main_call50_v3, main_call50_v4, main_v801, main_c_329, main_v802, main_v803, main_c_330, main_v804, main_v805, main_v806]

set_option maxRecDepth 8192 in
/-- Each operation of the window writes one buffer of that list. -/
theorem ops_part18_writes : (ops_part18 : List (HloOp τ sig (Elt F))).Forall fun op => op.writes ⊆ (ops_part18_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

set_option maxRecDepth 8192 in
set_option maxHeartbeats 4000000 in
/-- Window main_part19's 64 operations, in order, calls replaced by the called functions' operations. -/
abbrev ops_part19 : List (HloOp τ sig (Elt F)) :=
  [ StableHlo.nullary main_c_331 (constantI S_ 32 0#32),
    StableHlo.unary main_c_331 main_v807 (broadcastInDim S2x12544 ![] bcast_S_S2x12544 : (⟨S_, .i32⟩ : BufTy).Contents (Elt F) → (⟨S2x12544, .i32⟩ : BufTy).Contents (Elt F)),
    StableHlo.binary main_v800 main_v807 main_v808 (cmpi .slt : (⟨S2x12544, .i32⟩ : BufTy).Contents (Elt F) → (⟨S2x12544, .i32⟩ : BufTy).Contents (Elt F) → (⟨S2x12544, .i1⟩ : BufTy).Contents (Elt F)),
    StableHlo.nullary main_c_332 (constantI S_ 32 64#32),
    StableHlo.unary main_c_332 main_v809 (broadcastInDim S2x12544 ![] bcast_S_S2x12544 : (⟨S_, .i32⟩ : BufTy).Contents (Elt F) → (⟨S2x12544, .i32⟩ : BufTy).Contents (Elt F)),
    StableHlo.binary main_v800 main_v809 main_v810 (addi : (⟨S2x12544, .i32⟩ : BufTy).Contents (Elt F) → (⟨S2x12544, .i32⟩ : BufTy).Contents (Elt F) → (⟨S2x12544, .i32⟩ : BufTy).Contents (Elt F)),
    StableHlo.ternary main_v808 main_v810 main_v800 main_v811 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_333 (constantI S_ 32 0#32),
    StableHlo.unary main_c_333 main_v812 (broadcastInDim S2x12544 ![] bcast_S_S2x12544 : (⟨S_, .i32⟩ : BufTy).Contents (Elt F) → (⟨S2x12544, .i32⟩ : BufTy).Contents (Elt F)),
    StableHlo.binary main_v801 main_v812 main_v813 (cmpi .slt : (⟨S2x12544, .i32⟩ : BufTy).Contents (Elt F) → (⟨S2x12544, .i32⟩ : BufTy).Contents (Elt F) → (⟨S2x12544, .i1⟩ : BufTy).Contents (Elt F)),
    StableHlo.nullary main_c_334 (constantI S_ 32 64#32),
    StableHlo.unary main_c_334 main_v814 (broadcastInDim S2x12544 ![] bcast_S_S2x12544 : (⟨S_, .i32⟩ : BufTy).Contents (Elt F) → (⟨S2x12544, .i32⟩ : BufTy).Contents (Elt F)),
    StableHlo.binary main_v801 main_v814 main_v815 (addi : (⟨S2x12544, .i32⟩ : BufTy).Contents (Elt F) → (⟨S2x12544, .i32⟩ : BufTy).Contents (Elt F) → (⟨S2x12544, .i32⟩ : BufTy).Contents (Elt F)),
    StableHlo.ternary main_v813 main_v815 main_v801 main_v816 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v806 main_v817 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v811 main_v818 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v816 main_v819 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v817, main_v818, main_v819] main_v820 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg2 main_v820 main_v821 ((fun x i => Host.gather gather_S2x30x64x64x64_S2x12544x3_S2x30x12544_1_234_0_0_234_2_130111 x i) : (⟨S2x30x64x64x64, .f32⟩ : BufTy).Contents (Elt F) → (⟨S2x12544x3, .i32⟩ : BufTy).Contents (Elt F) → (⟨S2x30x12544, .f32⟩ : BufTy).Contents (Elt F)),
    StableHlo.nullary main_cst_335 (constant S_ .f32 0x00000000#32),
    StableHlo.TRef.unary (.of main_cst_335 : StableHlo.TRef sig ⟨S_, .f32⟩) (.of main_call51_v0 : StableHlo.TRef sig ⟨S12544, .f32⟩) (broadcastInDim S12544 ![] bcast_S_S12544),
    StableHlo.TRef.unary (.of main_v798 : StableHlo.TRef sig ⟨S2x12544, .i1⟩) (.of main_call51_v1 : StableHlo.TRef sig ⟨S2x30x12544, .i1⟩) (broadcastInDim S2x30x12544 ![0, 2] bcast_S2x12544_S2x30x12544_0_2),
    StableHlo.TRef.unary (.of main_call51_v0 : StableHlo.TRef sig ⟨S12544, .f32⟩) (.of main_call51_v2 : StableHlo.TRef sig ⟨S30x12544, .f32⟩) (broadcastInDim S30x12544 ![1] bcast_S12544_S30x12544_1),
    StableHlo.TRef.unary (.of main_call51_v2 : StableHlo.TRef sig ⟨S30x12544, .f32⟩) (.of main_call51_v3 : StableHlo.TRef sig ⟨S2x30x12544, .f32⟩) (broadcastInDim S2x30x12544 ![1, 2] bcast_S30x12544_S2x30x12544_1_2),
    StableHlo.TRef.ternary (.of main_call51_v1 : StableHlo.TRef sig ⟨S2x30x12544, .i1⟩) (.of main_v821 : StableHlo.TRef sig ⟨S2x30x12544, .f32⟩) (.of main_call51_v3 : StableHlo.TRef sig ⟨S2x30x12544, .f32⟩) (.of main_v822 : StableHlo.TRef sig ⟨S2x30x12544, .f32⟩) select,
    StableHlo.unary main_v775 main_v823 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v823 main_v824 (broadcastInDim S2x30x12544 ![0, 1, 2] bcast_S2x1x12544_S2x30x12544_0_1_2 : (⟨S2x1x12544, .f32⟩ : BufTy).Contents (Elt F) → (⟨S2x30x12544, .f32⟩ : BufTy).Contents (Elt F)),
    StableHlo.binary main_v824 main_v822 main_v825 (mulf : (⟨S2x30x12544, .f32⟩ : BufTy).Contents (Elt F) → (⟨S2x30x12544, .f32⟩ : BufTy).Contents (Elt F) → (⟨S2x30x12544, .f32⟩ : BufTy).Contents (Elt F)),
    StableHlo.binary main_v769 main_v825 main_v826 (addf : (⟨S2x30x12544, .f32⟩ : BufTy).Contents (Elt F) → (⟨S2x30x12544, .f32⟩ : BufTy).Contents (Elt F) → (⟨S2x30x12544, .f32⟩ : BufTy).Contents (Elt F)),
    StableHlo.nullary main_cst_336 (constant S_ .f32 0x3F800000#32),
    StableHlo.unary main_cst_336 main_v827 (broadcastInDim S2x12544 ![] bcast_S_S2x12544 : (⟨S_, .f32⟩ : BufTy).Contents (Elt F) → (⟨S2x12544, .f32⟩ : BufTy).Contents (Elt F)),
    StableHlo.binary main_v827 main_v533 main_v828 (subf : (⟨S2x12544, .f32⟩ : BufTy).Contents (Elt F) → (⟨S2x12544, .f32⟩ : BufTy).Contents (Elt F) → (⟨S2x12544, .f32⟩ : BufTy).Contents (Elt F)),
    StableHlo.binary main_v534 main_v828 main_v829 (mulf : (⟨S2x12544, .f32⟩ : BufTy).Contents (Elt F) → (⟨S2x12544, .f32⟩ : BufTy).Contents (Elt F) → (⟨S2x12544, .f32⟩ : BufTy).Contents (Elt F)),
    StableHlo.binary main_v829 main_v532 main_v830 (mulf : (⟨S2x12544, .f32⟩ : BufTy).Contents (Elt F) → (⟨S2x12544, .f32⟩ : BufTy).Contents (Elt F) → (⟨S2x12544, .f32⟩ : BufTy).Contents (Elt F)),
    StableHlo.nullary main_c_337 (constantI S_ 32 1#32),
    StableHlo.unary main_c_337 main_v831 (broadcastInDim S2x12544 ![] bcast_S_S2x12544 : (⟨S_, .i32⟩ : BufTy).Contents (Elt F) → (⟨S2x12544, .i32⟩ : BufTy).Contents (Elt F)),
    StableHlo.binary main_v537 main_v831 main_v832 (addi : (⟨S2x12544, .i32⟩ : BufTy).Contents (Elt F) → (⟨S2x12544, .i32⟩ : BufTy).Contents (Elt F) → (⟨S2x12544, .i32⟩ : BufTy).Contents (Elt F)),
    StableHlo.nullary main_c_338 (constantI S_ 32 0#32),
    StableHlo.unary main_c_338 main_v833 (broadcastInDim S2x12544 ![] bcast_S_S2x12544 : (⟨S_, .i32⟩ : BufTy).Contents (Elt F) → (⟨S2x12544, .i32⟩ : BufTy).Contents (Elt F)),
    StableHlo.binary main_v536 main_v833 main_v834 (addi : (⟨S2x12544, .i32⟩ : BufTy).Contents (Elt F) → (⟨S2x12544, .i32⟩ : BufTy).Contents (Elt F) → (⟨S2x12544, .i32⟩ : BufTy).Contents (Elt F)),
    StableHlo.nullary main_c_339 (constantI S_ 32 1#32),
    StableHlo.unary main_c_339 main_v835 (broadcastInDim S2x12544 ![] bcast_S_S2x12544 : (⟨S_, .i32⟩ : BufTy).Contents (Elt F) → (⟨S2x12544, .i32⟩ : BufTy).Contents (Elt F)),
    StableHlo.binary main_v535 main_v835 main_v836 (addi : (⟨S2x12544, .i32⟩ : BufTy).Contents (Elt F) → (⟨S2x12544, .i32⟩ : BufTy).Contents (Elt F) → (⟨S2x12544, .i32⟩ : BufTy).Contents (Elt F)),
    StableHlo.nullary main_c_340 (constantI S_ 32 0#32),
    StableHlo.unary main_c_340 main_v837 (broadcastInDim S2x12544 ![] bcast_S_S2x12544 : (⟨S_, .i32⟩ : BufTy).Contents (Elt F) → (⟨S2x12544, .i32⟩ : BufTy).Contents (Elt F)),
    StableHlo.binary main_v832 main_v837 main_v838 (cmpi .sge : (⟨S2x12544, .i32⟩ : BufTy).Contents (Elt F) → (⟨S2x12544, .i32⟩ : BufTy).Contents (Elt F) → (⟨S2x12544, .i1⟩ : BufTy).Contents (Elt F)),
    StableHlo.nullary main_c_341 (constantI S_ 32 64#32),
    StableHlo.unary main_c_341 main_v839 (broadcastInDim S2x12544 ![] bcast_S_S2x12544 : (⟨S_, .i32⟩ : BufTy).Contents (Elt F) → (⟨S2x12544, .i32⟩ : BufTy).Contents (Elt F)),
    StableHlo.binary main_v832 main_v839 main_v840 (cmpi .slt : (⟨S2x12544, .i32⟩ : BufTy).Contents (Elt F) → (⟨S2x12544, .i32⟩ : BufTy).Contents (Elt F) → (⟨S2x12544, .i1⟩ : BufTy).Contents (Elt F)),
    StableHlo.binary main_v838 main_v840 main_v841 (andi : (⟨S2x12544, .i1⟩ : BufTy).Contents (Elt F) → (⟨S2x12544, .i1⟩ : BufTy).Contents (Elt F) → (⟨S2x12544, .i1⟩ : BufTy).Contents (Elt F)),
    StableHlo.nullary main_c_342 (constantI S_ 32 0#32),
    StableHlo.unary main_c_342 main_v842 (broadcastInDim S2x12544 ![] bcast_S_S2x12544 : (⟨S_, .i32⟩ : BufTy).Contents (Elt F) → (⟨S2x12544, .i32⟩ : BufTy).Contents (Elt F)),
    StableHlo.binary main_v834 main_v842 main_v843 (cmpi .sge : (⟨S2x12544, .i32⟩ : BufTy).Contents (Elt F) → (⟨S2x12544, .i32⟩ : BufTy).Contents (Elt F) → (⟨S2x12544, .i1⟩ : BufTy).Contents (Elt F)),
    StableHlo.binary main_v841 main_v843 main_v844 (andi : (⟨S2x12544, .i1⟩ : BufTy).Contents (Elt F) → (⟨S2x12544, .i1⟩ : BufTy).Contents (Elt F) → (⟨S2x12544, .i1⟩ : BufTy).Contents (Elt F)),
    StableHlo.nullary main_c_343 (constantI S_ 32 64#32),
    StableHlo.unary main_c_343 main_v845 (broadcastInDim S2x12544 ![] bcast_S_S2x12544 : (⟨S_, .i32⟩ : BufTy).Contents (Elt F) → (⟨S2x12544, .i32⟩ : BufTy).Contents (Elt F)),
    StableHlo.binary main_v834 main_v845 main_v846 (cmpi .slt : (⟨S2x12544, .i32⟩ : BufTy).Contents (Elt F) → (⟨S2x12544, .i32⟩ : BufTy).Contents (Elt F) → (⟨S2x12544, .i1⟩ : BufTy).Contents (Elt F)),
    StableHlo.binary main_v844 main_v846 main_v847 (andi : (⟨S2x12544, .i1⟩ : BufTy).Contents (Elt F) → (⟨S2x12544, .i1⟩ : BufTy).Contents (Elt F) → (⟨S2x12544, .i1⟩ : BufTy).Contents (Elt F)),
    StableHlo.nullary main_c_344 (constantI S_ 32 0#32),
    StableHlo.unary main_c_344 main_v848 (broadcastInDim S2x12544 ![] bcast_S_S2x12544 : (⟨S_, .i32⟩ : BufTy).Contents (Elt F) → (⟨S2x12544, .i32⟩ : BufTy).Contents (Elt F)),
    StableHlo.binary main_v836 main_v848 main_v849 (cmpi .sge : (⟨S2x12544, .i32⟩ : BufTy).Contents (Elt F) → (⟨S2x12544, .i32⟩ : BufTy).Contents (Elt F) → (⟨S2x12544, .i1⟩ : BufTy).Contents (Elt F)),
    StableHlo.binary main_v847 main_v849 main_v850 (andi : (⟨S2x12544, .i1⟩ : BufTy).Contents (Elt F) → (⟨S2x12544, .i1⟩ : BufTy).Contents (Elt F) → (⟨S2x12544, .i1⟩ : BufTy).Contents (Elt F)),
    StableHlo.nullary main_c_345 (constantI S_ 32 64#32),
    StableHlo.unary main_c_345 main_v851 (broadcastInDim S2x12544 ![] bcast_S_S2x12544 : (⟨S_, .i32⟩ : BufTy).Contents (Elt F) → (⟨S2x12544, .i32⟩ : BufTy).Contents (Elt F)) ]

set_option maxRecDepth 8192 in
set_option maxHeartbeats 4000000 in
/-- Window main_part19 is its operations run in order: the called functions unfolded at their calls and sequencing re-associated, both sides are one chain of steps. -/
theorem main_part19_eq (c : Dev nD) : main_part19 (F := F) c = seq ops_part19 := by
  simp only [main_part19, fn_where_1.body, seq, bind_assoc, pure_bind] <;> rfl

set_option maxRecDepth 8192 in
/-- Every operation of the window reads and writes TensorCore buffers only. -/
theorem ops_part19_sub : (ops_part19 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., unary_bufs_sub .., unary_bufs_sub .., unary_bufs_sub .., ternary_bufs_sub .., unary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub ..⟩

set_option maxRecDepth 8192 in
/-- Every operation of the window determines what it writes: none leaves a buffer at arbitrary contents. -/
theorem ops_part19_fresh : (ops_part19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part19_W : List (Ref sig .tc) := [main_c_331, main_v807, main_v808, main_c_332, main_v809, main_v810, main_v811, main_c_333, main_v812, main_v813, main_c_334, main_v814, main_v815, main_v816, main_v817, main_v818, main_v819, main_v820, main_v821, main_cst_335, main_call51_v0, main_call51_v1, main_call51_v2, main_call51_v3, main_v822, main_v823, main_v824, main_v825, main_v826, main_cst_336, main_v827, main_v828, main_v829, main_v830, main_c_337, main_v831, main_v832, main_c_338, main_v833, main_v834, main_c_339, main_v835, main_v836, main_c_340, main_v837, main_v838, main_c_341, main_v839, main_v840, main_v841, main_c_342, main_v842, main_v843, main_v844, main_c_343, main_v845, main_v846, main_v847, main_c_344, main_v848, main_v849, main_v850, main_c_345, main_v851]

set_option maxRecDepth 8192 in
/-- Each operation of the window writes one buffer of that list. -/
theorem ops_part19_writes : (ops_part19 : List (HloOp τ sig (Elt F))).Forall fun op => op.writes ⊆ (ops_part19_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

end Cert.ReferenceIdeal.HandRun

end
-- ==== Proof.RefRunP10.lean ====
/- The reference program's @main, windows main_part20 … main_part21, as LISTS of host operations: each printed
   statement one entry, in order, and each call replaced by the called function's operations over the buffers that
   call names (its record), a call inside a called function likewise. With each list: the window equals the list run
   in order, every operation's buffers are TensorCore buffers, no operation leaves a buffer undetermined, and the
   list of buffers the window writes. -/
import proofs.«103167_j42614665511136_1_alg».proof.Proof.Gen.ReferenceIdeal
import Idealize.ShloMosaic.Lib.StableHlo.Run
import proofs.«103167_j42614665511136_1_alg».proof.Proof.RefRunP8

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window main_part20's 79 operations, in order, calls replaced by the called functions' operations. -/
abbrev ops_part20 : List (HloOp τ sig (Elt F)) :=
  [ StableHlo.binary main_v836 main_v851 main_v852 (cmpi .slt : (⟨S2x12544, .i32⟩ : BufTy).Contents (Elt F) → (⟨S2x12544, .i32⟩ : BufTy).Contents (Elt F) → (⟨S2x12544, .i1⟩ : BufTy).Contents (Elt F)),
    StableHlo.binary main_v850 main_v852 main_v853 (andi : (⟨S2x12544, .i1⟩ : BufTy).Contents (Elt F) → (⟨S2x12544, .i1⟩ : BufTy).Contents (Elt F) → (⟨S2x12544, .i1⟩ : BufTy).Contents (Elt F)),
    StableHlo.nullary main_c_346 (constantI S_ 32 0#32),
    StableHlo.nullary main_c_347 (constantI S_ 32 63#32),
    StableHlo.TRef.unary (.of main_c_346 : StableHlo.TRef sig ⟨S_, .i32⟩) (.of main_call52_v0 : StableHlo.TRef sig ⟨S_, .i32⟩) id,
    StableHlo.TRef.unary (.of main_call52_v0 : StableHlo.TRef sig ⟨S_, .i32⟩) (.of main_call52_v1 : StableHlo.TRef sig ⟨S2x12544, .i32⟩) (broadcastInDim S2x12544 ![] bcast_S_S2x12544),
    StableHlo.TRef.binary (.of main_call52_v1 : StableHlo.TRef sig ⟨S2x12544, .i32⟩) (.of main_v832 : StableHlo.TRef sig ⟨S2x12544, .i32⟩) (.of main_call52_v2 : StableHlo.TRef sig ⟨S2x12544, .i32⟩) maxsi,
    StableHlo.TRef.unary (.of main_c_347 : StableHlo.TRef sig ⟨S_, .i32⟩) (.of main_call52_v3 : StableHlo.TRef sig ⟨S_, .i32⟩) id,
    StableHlo.TRef.unary (.of main_call52_v3 : StableHlo.TRef sig ⟨S_, .i32⟩) (.of main_call52_v4 : StableHlo.TRef sig ⟨S2x12544, .i32⟩) (broadcastInDim S2x12544 ![] bcast_S_S2x12544),
    StableHlo.TRef.binary (.of main_call52_v4 : StableHlo.TRef sig ⟨S2x12544, .i32⟩) (.of main_call52_v2 : StableHlo.TRef sig ⟨S2x12544, .i32⟩) (.of main_v854 : StableHlo.TRef sig ⟨S2x12544, .i32⟩) minsi,
    StableHlo.nullary main_c_348 (constantI S_ 32 0#32),
    StableHlo.nullary main_c_349 (constantI S_ 32 63#32),
    StableHlo.TRef.unary (.of main_c_348 : StableHlo.TRef sig ⟨S_, .i32⟩) (.of main_call53_v0 : StableHlo.TRef sig ⟨S_, .i32⟩) id,
    StableHlo.TRef.unary (.of main_call53_v0 : StableHlo.TRef sig ⟨S_, .i32⟩) (.of main_call53_v1 : StableHlo.TRef sig ⟨S2x12544, .i32⟩) (broadcastInDim S2x12544 ![] bcast_S_S2x12544),
    StableHlo.TRef.binary (.of main_call53_v1 : StableHlo.TRef sig ⟨S2x12544, .i32⟩) (.of main_v834 : StableHlo.TRef sig ⟨S2x12544, .i32⟩) (.of main_call53_v2 : StableHlo.TRef sig ⟨S2x12544, .i32⟩) maxsi,
    StableHlo.TRef.unary (.of main_c_349 : StableHlo.TRef sig ⟨S_, .i32⟩) (.of main_call53_v3 : StableHlo.TRef sig ⟨S_, .i32⟩) id,
    StableHlo.TRef.unary (.of main_call53_v3 : StableHlo.TRef sig ⟨S_, .i32⟩) (.of main_call53_v4 : StableHlo.TRef sig ⟨S2x12544, .i32⟩) (broadcastInDim S2x12544 ![] bcast_S_S2x12544),
    StableHlo.TRef.binary (.of main_call53_v4 : StableHlo.TRef sig ⟨S2x12544, .i32⟩) (.of main_call53_v2 : StableHlo.TRef sig ⟨S2x12544, .i32⟩) (.of main_v855 : StableHlo.TRef sig ⟨S2x12544, .i32⟩) minsi,
    StableHlo.nullary main_c_350 (constantI S_ 32 0#32),
    StableHlo.nullary main_c_351 (constantI S_ 32 63#32),
    StableHlo.TRef.unary (.of main_c_350 : StableHlo.TRef sig ⟨S_, .i32⟩) (.of main_call54_v0 : StableHlo.TRef sig ⟨S_, .i32⟩) id,
    StableHlo.TRef.unary (.of main_call54_v0 : StableHlo.TRef sig ⟨S_, .i32⟩) (.of main_call54_v1 : StableHlo.TRef sig ⟨S2x12544, .i32⟩) (broadcastInDim S2x12544 ![] bcast_S_S2x12544),
    StableHlo.TRef.binary (.of main_call54_v1 : StableHlo.TRef sig ⟨S2x12544, .i32⟩) (.of main_v836 : StableHlo.TRef sig ⟨S2x12544, .i32⟩) (.of main_call54_v2 : StableHlo.TRef sig ⟨S2x12544, .i32⟩) maxsi,
    StableHlo.TRef.unary (.of main_c_351 : StableHlo.TRef sig ⟨S_, .i32⟩) (.of main_call54_v3 : StableHlo.TRef sig ⟨S_, .i32⟩) id,
    StableHlo.TRef.unary (.of main_call54_v3 : StableHlo.TRef sig ⟨S_, .i32⟩) (.of main_call54_v4 : StableHlo.TRef sig ⟨S2x12544, .i32⟩) (broadcastInDim S2x12544 ![] bcast_S_S2x12544),
    StableHlo.TRef.binary (.of main_call54_v4 : StableHlo.TRef sig ⟨S2x12544, .i32⟩) (.of main_call54_v2 : StableHlo.TRef sig ⟨S2x12544, .i32⟩) (.of main_v856 : StableHlo.TRef sig ⟨S2x12544, .i32⟩) minsi,
    StableHlo.nullary main_c_352 (constantI S_ 32 0#32),
    StableHlo.unary main_c_352 main_v857 (broadcastInDim S2x12544 ![] bcast_S_S2x12544 : (⟨S_, .i32⟩ : BufTy).Contents (Elt F) → (⟨S2x12544, .i32⟩ : BufTy).Contents (Elt F)),
    StableHlo.binary main_v854 main_v857 main_v858 (cmpi .slt : (⟨S2x12544, .i32⟩ : BufTy).Contents (Elt F) → (⟨S2x12544, .i32⟩ : BufTy).Contents (Elt F) → (⟨S2x12544, .i1⟩ : BufTy).Contents (Elt F)),
    StableHlo.nullary main_c_353 (constantI S_ 32 64#32),
    StableHlo.unary main_c_353 main_v859 (broadcastInDim S2x12544 ![] bcast_S_S2x12544 : (⟨S_, .i32⟩ : BufTy).Contents (Elt F) → (⟨S2x12544, .i32⟩ : BufTy).Contents (Elt F)),
    StableHlo.binary main_v854 main_v859 main_v860 (addi : (⟨S2x12544, .i32⟩ : BufTy).Contents (Elt F) → (⟨S2x12544, .i32⟩ : BufTy).Contents (Elt F) → (⟨S2x12544, .i32⟩ : BufTy).Contents (Elt F)),
    StableHlo.ternary main_v858 main_v860 main_v854 main_v861 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_354 (constantI S_ 32 0#32),
    StableHlo.unary main_c_354 main_v862 (broadcastInDim S2x12544 ![] bcast_S_S2x12544 : (⟨S_, .i32⟩ : BufTy).Contents (Elt F) → (⟨S2x12544, .i32⟩ : BufTy).Contents (Elt F)),
    StableHlo.binary main_v855 main_v862 main_v863 (cmpi .slt : (⟨S2x12544, .i32⟩ : BufTy).Contents (Elt F) → (⟨S2x12544, .i32⟩ : BufTy).Contents (Elt F) → (⟨S2x12544, .i1⟩ : BufTy).Contents (Elt F)),
    StableHlo.nullary main_c_355 (constantI S_ 32 64#32),
    StableHlo.unary main_c_355 main_v864 (broadcastInDim S2x12544 ![] bcast_S_S2x12544 : (⟨S_, .i32⟩ : BufTy).Contents (Elt F) → (⟨S2x12544, .i32⟩ : BufTy).Contents (Elt F)),
    StableHlo.binary main_v855 main_v864 main_v865 (addi : (⟨S2x12544, .i32⟩ : BufTy).Contents (Elt F) → (⟨S2x12544, .i32⟩ : BufTy).Contents (Elt F) → (⟨S2x12544, .i32⟩ : BufTy).Contents (Elt F)),
    StableHlo.ternary main_v863 main_v865 main_v855 main_v866 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_356 (constantI S_ 32 0#32),
    StableHlo.unary main_c_356 main_v867 (broadcastInDim S2x12544 ![] bcast_S_S2x12544 : (⟨S_, .i32⟩ : BufTy).Contents (Elt F) → (⟨S2x12544, .i32⟩ : BufTy).Contents (Elt F)),
    StableHlo.binary main_v856 main_v867 main_v868 (cmpi .slt : (⟨S2x12544, .i32⟩ : BufTy).Contents (Elt F) → (⟨S2x12544, .i32⟩ : BufTy).Contents (Elt F) → (⟨S2x12544, .i1⟩ : BufTy).Contents (Elt F)),
    StableHlo.nullary main_c_357 (constantI S_ 32 64#32),
    StableHlo.unary main_c_357 main_v869 (broadcastInDim S2x12544 ![] bcast_S_S2x12544 : (⟨S_, .i32⟩ : BufTy).Contents (Elt F) → (⟨S2x12544, .i32⟩ : BufTy).Contents (Elt F)),
    StableHlo.binary main_v856 main_v869 main_v870 (addi : (⟨S2x12544, .i32⟩ : BufTy).Contents (Elt F) → (⟨S2x12544, .i32⟩ : BufTy).Contents (Elt F) → (⟨S2x12544, .i32⟩ : BufTy).Contents (Elt F)),
    StableHlo.ternary main_v868 main_v870 main_v856 main_v871 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v861 main_v872 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v866 main_v873 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v871 main_v874 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v872, main_v873, main_v874] main_v875 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg2 main_v875 main_v876 ((fun x i => Host.gather gather_S2x30x64x64x64_S2x12544x3_S2x30x12544_1_234_0_0_234_2_130111 x i) : (⟨S2x30x64x64x64, .f32⟩ : BufTy).Contents (Elt F) → (⟨S2x12544x3, .i32⟩ : BufTy).Contents (Elt F) → (⟨S2x30x12544, .f32⟩ : BufTy).Contents (Elt F)),
    StableHlo.nullary main_cst_358 (constant S_ .f32 0x00000000#32),
    StableHlo.TRef.unary (.of main_cst_358 : StableHlo.TRef sig ⟨S_, .f32⟩) (.of main_call55_v0 : StableHlo.TRef sig ⟨S12544, .f32⟩) (broadcastInDim S12544 ![] bcast_S_S12544),
    StableHlo.TRef.unary (.of main_v853 : StableHlo.TRef sig ⟨S2x12544, .i1⟩) (.of main_call55_v1 : StableHlo.TRef sig ⟨S2x30x12544, .i1⟩) (broadcastInDim S2x30x12544 ![0, 2] bcast_S2x12544_S2x30x12544_0_2),
    StableHlo.TRef.unary (.of main_call55_v0 : StableHlo.TRef sig ⟨S12544, .f32⟩) (.of main_call55_v2 : StableHlo.TRef sig ⟨S30x12544, .f32⟩) (broadcastInDim S30x12544 ![1] bcast_S12544_S30x12544_1),
    StableHlo.TRef.unary (.of main_call55_v2 : StableHlo.TRef sig ⟨S30x12544, .f32⟩) (.of main_call55_v3 : StableHlo.TRef sig ⟨S2x30x12544, .f32⟩) (broadcastInDim S2x30x12544 ![1, 2] bcast_S30x12544_S2x30x12544_1_2),
    StableHlo.TRef.ternary (.of main_call55_v1 : StableHlo.TRef sig ⟨S2x30x12544, .i1⟩) (.of main_v876 : StableHlo.TRef sig ⟨S2x30x12544, .f32⟩) (.of main_call55_v3 : StableHlo.TRef sig ⟨S2x30x12544, .f32⟩) (.of main_v877 : StableHlo.TRef sig ⟨S2x30x12544, .f32⟩) select,
    StableHlo.unary main_v830 main_v878 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v878 main_v879 (broadcastInDim S2x30x12544 ![0, 1, 2] bcast_S2x1x12544_S2x30x12544_0_1_2 : (⟨S2x1x12544, .f32⟩ : BufTy).Contents (Elt F) → (⟨S2x30x12544, .f32⟩ : BufTy).Contents (Elt F)),
    StableHlo.binary main_v879 main_v877 main_v880 (mulf : (⟨S2x30x12544, .f32⟩ : BufTy).Contents (Elt F) → (⟨S2x30x12544, .f32⟩ : BufTy).Contents (Elt F) → (⟨S2x30x12544, .f32⟩ : BufTy).Contents (Elt F)),
    StableHlo.binary main_v826 main_v880 main_v881 (addf : (⟨S2x30x12544, .f32⟩ : BufTy).Contents (Elt F) → (⟨S2x30x12544, .f32⟩ : BufTy).Contents (Elt F) → (⟨S2x30x12544, .f32⟩ : BufTy).Contents (Elt F)),
    StableHlo.binary main_v534 main_v533 main_v882 (mulf : (⟨S2x12544, .f32⟩ : BufTy).Contents (Elt F) → (⟨S2x12544, .f32⟩ : BufTy).Contents (Elt F) → (⟨S2x12544, .f32⟩ : BufTy).Contents (Elt F)),
    StableHlo.nullary main_cst_359 (constant S_ .f32 0x3F800000#32),
    StableHlo.unary main_cst_359 main_v883 (broadcastInDim S2x12544 ![] bcast_S_S2x12544 : (⟨S_, .f32⟩ : BufTy).Contents (Elt F) → (⟨S2x12544, .f32⟩ : BufTy).Contents (Elt F)),
    StableHlo.binary main_v883 main_v532 main_v884 (subf : (⟨S2x12544, .f32⟩ : BufTy).Contents (Elt F) → (⟨S2x12544, .f32⟩ : BufTy).Contents (Elt F) → (⟨S2x12544, .f32⟩ : BufTy).Contents (Elt F)),
    StableHlo.binary main_v882 main_v884 main_v885 (mulf : (⟨S2x12544, .f32⟩ : BufTy).Contents (Elt F) → (⟨S2x12544, .f32⟩ : BufTy).Contents (Elt F) → (⟨S2x12544, .f32⟩ : BufTy).Contents (Elt F)),
    StableHlo.nullary main_c_360 (constantI S_ 32 1#32),
    StableHlo.unary main_c_360 main_v886 (broadcastInDim S2x12544 ![] bcast_S_S2x12544 : (⟨S_, .i32⟩ : BufTy).Contents (Elt F) → (⟨S2x12544, .i32⟩ : BufTy).Contents (Elt F)),
    StableHlo.binary main_v537 main_v886 main_v887 (addi : (⟨S2x12544, .i32⟩ : BufTy).Contents (Elt F) → (⟨S2x12544, .i32⟩ : BufTy).Contents (Elt F) → (⟨S2x12544, .i32⟩ : BufTy).Contents (Elt F)),
    StableHlo.nullary main_c_361 (constantI S_ 32 1#32),
    StableHlo.unary main_c_361 main_v888 (broadcastInDim S2x12544 ![] bcast_S_S2x12544 : (⟨S_, .i32⟩ : BufTy).Contents (Elt F) → (⟨S2x12544, .i32⟩ : BufTy).Contents (Elt F)),
    StableHlo.binary main_v536 main_v888 main_v889 (addi : (⟨S2x12544, .i32⟩ : BufTy).Contents (Elt F) → (⟨S2x12544, .i32⟩ : BufTy).Contents (Elt F) → (⟨S2x12544, .i32⟩ : BufTy).Contents (Elt F)),
    StableHlo.nullary main_c_362 (constantI S_ 32 0#32),
    StableHlo.unary main_c_362 main_v890 (broadcastInDim S2x12544 ![] bcast_S_S2x12544 : (⟨S_, .i32⟩ : BufTy).Contents (Elt F) → (⟨S2x12544, .i32⟩ : BufTy).Contents (Elt F)),
    StableHlo.binary main_v535 main_v890 main_v891 (addi : (⟨S2x12544, .i32⟩ : BufTy).Contents (Elt F) → (⟨S2x12544, .i32⟩ : BufTy).Contents (Elt F) → (⟨S2x12544, .i32⟩ : BufTy).Contents (Elt F)),
    StableHlo.nullary main_c_363 (constantI S_ 32 0#32),
    StableHlo.unary main_c_363 main_v892 (broadcastInDim S2x12544 ![] bcast_S_S2x12544 : (⟨S_, .i32⟩ : BufTy).Contents (Elt F) → (⟨S2x12544, .i32⟩ : BufTy).Contents (Elt F)),
    StableHlo.binary main_v887 main_v892 main_v893 (cmpi .sge : (⟨S2x12544, .i32⟩ : BufTy).Contents (Elt F) → (⟨S2x12544, .i32⟩ : BufTy).Contents (Elt F) → (⟨S2x12544, .i1⟩ : BufTy).Contents (Elt F)) ]

set_option maxRecDepth 8192 in
set_option maxHeartbeats 4000000 in
/-- Window main_part20 is its operations run in order: the called functions unfolded at their calls and sequencing re-associated, both sides are one chain of steps. -/
theorem main_part20_eq (c : Dev nD) : main_part20 (F := F) c = seq ops_part20 := by
  simp only [main_part20, fn_clip_0.body, fn_where_1.body, seq, bind_assoc, pure_bind] <;> rfl

set_option maxRecDepth 8192 in
/-- Every operation of the window reads and writes TensorCore buffers only. -/
theorem ops_part20_sub : (ops_part20 : List (HloOp τ sig (Elt F))).Forall fun op => op.bufs ⊆ tcRefs τ sig :=
  ⟨binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., unary_bufs_sub .., unary_bufs_sub .., unary_bufs_sub .., ternary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩

set_option maxRecDepth 8192 in
/-- Every operation of the window determines what it writes: none leaves a buffer at arbitrary contents. -/
theorem ops_part20_fresh : (ops_part20 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part20_W : List (Ref sig .tc) := [main_v852, main_v853, main_c_346, main_c_347, main_call52_v0, main_call52_v1, main_call52_v2, main_call52_v3, main_call52_v4, main_v854, main_c_348, main_c_349, main_call53_v0, main_call53_v1, main_call53_v2, main_call53_v3, main_call53_v4, main_v855, main_c_350, main_c_351, main_call54_v0, main_call54_v1, main_call54_v2, main_call54_v3, main_call54_v4, main_v856, main_c_352, main_v857, main_v858, main_c_353, main_v859, main_v860, main_v861, main_c_354, main_v862, main_v863, main_c_355, main_v864, main_v865, main_v866, main_c_356, main_v867, main_v868, main_c_357, main_v869, main_v870, main_v871, main_v872, main_v873, main_v874, main_v875, main_v876, main_cst_358, main_call55_v0, main_call55_v1, main_call55_v2, main_call55_v3, main_v877, main_v878, main_v879, main_v880, main_v881, main_v882, main_cst_359, main_v883, main_v884, main_v885, main_c_360, main_v886, main_v887, main_c_361, main_v888, main_v889, main_c_362, main_v890, main_v891, main_c_363, main_v892, main_v893]

set_option maxRecDepth 8192 in
/-- Each operation of the window writes one buffer of that list. -/
theorem ops_part20_writes : (ops_part20 : List (HloOp τ sig (Elt F))).Forall fun op => op.writes ⊆ (ops_part20_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

set_option maxRecDepth 8192 in
set_option maxHeartbeats 4000000 in
/-- Window main_part21's 79 operations, in order, calls replaced by the called functions' operations. -/
abbrev ops_part21 : List (HloOp τ sig (Elt F)) :=
  [ StableHlo.nullary main_c_364 (constantI S_ 32 64#32),
    StableHlo.unary main_c_364 main_v894 (broadcastInDim S2x12544 ![] bcast_S_S2x12544 : (⟨S_, .i32⟩ : BufTy).Contents (Elt F) → (⟨S2x12544, .i32⟩ : BufTy).Contents (Elt F)),
    StableHlo.binary main_v887 main_v894 main_v895 (cmpi .slt : (⟨S2x12544, .i32⟩ : BufTy).Contents (Elt F) → (⟨S2x12544, .i32⟩ : BufTy).Contents (Elt F) → (⟨S2x12544, .i1⟩ : BufTy).Contents (Elt F)),
    StableHlo.binary main_v893 main_v895 main_v896 (andi : (⟨S2x12544, .i1⟩ : BufTy).Contents (Elt F) → (⟨S2x12544, .i1⟩ : BufTy).Contents (Elt F) → (⟨S2x12544, .i1⟩ : BufTy).Contents (Elt F)),
    StableHlo.nullary main_c_365 (constantI S_ 32 0#32),
    StableHlo.unary main_c_365 main_v897 (broadcastInDim S2x12544 ![] bcast_S_S2x12544 : (⟨S_, .i32⟩ : BufTy).Contents (Elt F) → (⟨S2x12544, .i32⟩ : BufTy).Contents (Elt F)),
    StableHlo.binary main_v889 main_v897 main_v898 (cmpi .sge : (⟨S2x12544, .i32⟩ : BufTy).Contents (Elt F) → (⟨S2x12544, .i32⟩ : BufTy).Contents (Elt F) → (⟨S2x12544, .i1⟩ : BufTy).Contents (Elt F)),
    StableHlo.binary main_v896 main_v898 main_v899 (andi : (⟨S2x12544, .i1⟩ : BufTy).Contents (Elt F) → (⟨S2x12544, .i1⟩ : BufTy).Contents (Elt F) → (⟨S2x12544, .i1⟩ : BufTy).Contents (Elt F)),
    StableHlo.nullary main_c_366 (constantI S_ 32 64#32),
    StableHlo.unary main_c_366 main_v900 (broadcastInDim S2x12544 ![] bcast_S_S2x12544 : (⟨S_, .i32⟩ : BufTy).Contents (Elt F) → (⟨S2x12544, .i32⟩ : BufTy).Contents (Elt F)),
    StableHlo.binary main_v889 main_v900 main_v901 (cmpi .slt : (⟨S2x12544, .i32⟩ : BufTy).Contents (Elt F) → (⟨S2x12544, .i32⟩ : BufTy).Contents (Elt F) → (⟨S2x12544, .i1⟩ : BufTy).Contents (Elt F)),
    StableHlo.binary main_v899 main_v901 main_v902 (andi : (⟨S2x12544, .i1⟩ : BufTy).Contents (Elt F) → (⟨S2x12544, .i1⟩ : BufTy).Contents (Elt F) → (⟨S2x12544, .i1⟩ : BufTy).Contents (Elt F)),
    StableHlo.nullary main_c_367 (constantI S_ 32 0#32),
    StableHlo.unary main_c_367 main_v903 (broadcastInDim S2x12544 ![] bcast_S_S2x12544 : (⟨S_, .i32⟩ : BufTy).Contents (Elt F) → (⟨S2x12544, .i32⟩ : BufTy).Contents (Elt F)),
    StableHlo.binary main_v891 main_v903 main_v904 (cmpi .sge : (⟨S2x12544, .i32⟩ : BufTy).Contents (Elt F) → (⟨S2x12544, .i32⟩ : BufTy).Contents (Elt F) → (⟨S2x12544, .i1⟩ : BufTy).Contents (Elt F)),
    StableHlo.binary main_v902 main_v904 main_v905 (andi : (⟨S2x12544, .i1⟩ : BufTy).Contents (Elt F) → (⟨S2x12544, .i1⟩ : BufTy).Contents (Elt F) → (⟨S2x12544, .i1⟩ : BufTy).Contents (Elt F)),
    StableHlo.nullary main_c_368 (constantI S_ 32 64#32),
    StableHlo.unary main_c_368 main_v906 (broadcastInDim S2x12544 ![] bcast_S_S2x12544 : (⟨S_, .i32⟩ : BufTy).Contents (Elt F) → (⟨S2x12544, .i32⟩ : BufTy).Contents (Elt F)),
    StableHlo.binary main_v891 main_v906 main_v907 (cmpi .slt : (⟨S2x12544, .i32⟩ : BufTy).Contents (Elt F) → (⟨S2x12544, .i32⟩ : BufTy).Contents (Elt F) → (⟨S2x12544, .i1⟩ : BufTy).Contents (Elt F)),
    StableHlo.binary main_v905 main_v907 main_v908 (andi : (⟨S2x12544, .i1⟩ : BufTy).Contents (Elt F) → (⟨S2x12544, .i1⟩ : BufTy).Contents (Elt F) → (⟨S2x12544, .i1⟩ : BufTy).Contents (Elt F)),
    StableHlo.nullary main_c_369 (constantI S_ 32 0#32),
    StableHlo.nullary main_c_370 (constantI S_ 32 63#32),
    StableHlo.TRef.unary (.of main_c_369 : StableHlo.TRef sig ⟨S_, .i32⟩) (.of main_call56_v0 : StableHlo.TRef sig ⟨S_, .i32⟩) id,
    StableHlo.TRef.unary (.of main_call56_v0 : StableHlo.TRef sig ⟨S_, .i32⟩) (.of main_call56_v1 : StableHlo.TRef sig ⟨S2x12544, .i32⟩) (broadcastInDim S2x12544 ![] bcast_S_S2x12544),
    StableHlo.TRef.binary (.of main_call56_v1 : StableHlo.TRef sig ⟨S2x12544, .i32⟩) (.of main_v887 : StableHlo.TRef sig ⟨S2x12544, .i32⟩) (.of main_call56_v2 : StableHlo.TRef sig ⟨S2x12544, .i32⟩) maxsi,
    StableHlo.TRef.unary (.of main_c_370 : StableHlo.TRef sig ⟨S_, .i32⟩) (.of main_call56_v3 : StableHlo.TRef sig ⟨S_, .i32⟩) id,
    StableHlo.TRef.unary (.of main_call56_v3 : StableHlo.TRef sig ⟨S_, .i32⟩) (.of main_call56_v4 : StableHlo.TRef sig ⟨S2x12544, .i32⟩) (broadcastInDim S2x12544 ![] bcast_S_S2x12544),
    StableHlo.TRef.binary (.of main_call56_v4 : StableHlo.TRef sig ⟨S2x12544, .i32⟩) (.of main_call56_v2 : StableHlo.TRef sig ⟨S2x12544, .i32⟩) (.of main_v909 : StableHlo.TRef sig ⟨S2x12544, .i32⟩) minsi,
    StableHlo.nullary main_c_371 (constantI S_ 32 0#32),
    StableHlo.nullary main_c_372 (constantI S_ 32 63#32),
    StableHlo.TRef.unary (.of main_c_371 : StableHlo.TRef sig ⟨S_, .i32⟩) (.of main_call57_v0 : StableHlo.TRef sig ⟨S_, .i32⟩) id,
    StableHlo.TRef.unary (.of main_call57_v0 : StableHlo.TRef sig ⟨S_, .i32⟩) (.of main_call57_v1 : StableHlo.TRef sig ⟨S2x12544, .i32⟩) (broadcastInDim S2x12544 ![] bcast_S_S2x12544),
    StableHlo.TRef.binary (.of main_call57_v1 : StableHlo.TRef sig ⟨S2x12544, .i32⟩) (.of main_v889 : StableHlo.TRef sig ⟨S2x12544, .i32⟩) (.of main_call57_v2 : StableHlo.TRef sig ⟨S2x12544, .i32⟩) maxsi,
    StableHlo.TRef.unary (.of main_c_372 : StableHlo.TRef sig ⟨S_, .i32⟩) (.of main_call57_v3 : StableHlo.TRef sig ⟨S_, .i32⟩) id,
    StableHlo.TRef.unary (.of main_call57_v3 : StableHlo.TRef sig ⟨S_, .i32⟩) (.of main_call57_v4 : StableHlo.TRef sig ⟨S2x12544, .i32⟩) (broadcastInDim S2x12544 ![] bcast_S_S2x12544),
    StableHlo.TRef.binary (.of main_call57_v4 : StableHlo.TRef sig ⟨S2x12544, .i32⟩) (.of main_call57_v2 : StableHlo.TRef sig ⟨S2x12544, .i32⟩) (.of main_v910 : StableHlo.TRef sig ⟨S2x12544, .i32⟩) minsi,
    StableHlo.nullary main_c_373 (constantI S_ 32 0#32),
    StableHlo.nullary main_c_374 (constantI S_ 32 63#32),
    StableHlo.TRef.unary (.of main_c_373 : StableHlo.TRef sig ⟨S_, .i32⟩) (.of main_call58_v0 : StableHlo.TRef sig ⟨S_, .i32⟩) id,
    StableHlo.TRef.unary (.of main_call58_v0 : StableHlo.TRef sig ⟨S_, .i32⟩) (.of main_call58_v1 : StableHlo.TRef sig ⟨S2x12544, .i32⟩) (broadcastInDim S2x12544 ![] bcast_S_S2x12544),
    StableHlo.TRef.binary (.of main_call58_v1 : StableHlo.TRef sig ⟨S2x12544, .i32⟩) (.of main_v891 : StableHlo.TRef sig ⟨S2x12544, .i32⟩) (.of main_call58_v2 : StableHlo.TRef sig ⟨S2x12544, .i32⟩) maxsi,
    StableHlo.TRef.unary (.of main_c_374 : StableHlo.TRef sig ⟨S_, .i32⟩) (.of main_call58_v3 : StableHlo.TRef sig ⟨S_, .i32⟩) id,
    StableHlo.TRef.unary (.of main_call58_v3 : StableHlo.TRef sig ⟨S_, .i32⟩) (.of main_call58_v4 : StableHlo.TRef sig ⟨S2x12544, .i32⟩) (broadcastInDim S2x12544 ![] bcast_S_S2x12544),
    StableHlo.TRef.binary (.of main_call58_v4 : StableHlo.TRef sig ⟨S2x12544, .i32⟩) (.of main_call58_v2 : StableHlo.TRef sig ⟨S2x12544, .i32⟩) (.of main_v911 : StableHlo.TRef sig ⟨S2x12544, .i32⟩) minsi,
    StableHlo.nullary main_c_375 (constantI S_ 32 0#32),
    StableHlo.unary main_c_375 main_v912 (broadcastInDim S2x12544 ![] bcast_S_S2x12544 : (⟨S_, .i32⟩ : BufTy).Contents (Elt F) → (⟨S2x12544, .i32⟩ : BufTy).Contents (Elt F)),
    StableHlo.binary main_v909 main_v912 main_v913 (cmpi .slt : (⟨S2x12544, .i32⟩ : BufTy).Contents (Elt F) → (⟨S2x12544, .i32⟩ : BufTy).Contents (Elt F) → (⟨S2x12544, .i1⟩ : BufTy).Contents (Elt F)),
    StableHlo.nullary main_c_376 (constantI S_ 32 64#32),
    StableHlo.unary main_c_376 main_v914 (broadcastInDim S2x12544 ![] bcast_S_S2x12544 : (⟨S_, .i32⟩ : BufTy).Contents (Elt F) → (⟨S2x12544, .i32⟩ : BufTy).Contents (Elt F)),
    StableHlo.binary main_v909 main_v914 main_v915 (addi : (⟨S2x12544, .i32⟩ : BufTy).Contents (Elt F) → (⟨S2x12544, .i32⟩ : BufTy).Contents (Elt F) → (⟨S2x12544, .i32⟩ : BufTy).Contents (Elt F)),
    StableHlo.ternary main_v913 main_v915 main_v909 main_v916 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_377 (constantI S_ 32 0#32),
    StableHlo.unary main_c_377 main_v917 (broadcastInDim S2x12544 ![] bcast_S_S2x12544 : (⟨S_, .i32⟩ : BufTy).Contents (Elt F) → (⟨S2x12544, .i32⟩ : BufTy).Contents (Elt F)),
    StableHlo.binary main_v910 main_v917 main_v918 (cmpi .slt : (⟨S2x12544, .i32⟩ : BufTy).Contents (Elt F) → (⟨S2x12544, .i32⟩ : BufTy).Contents (Elt F) → (⟨S2x12544, .i1⟩ : BufTy).Contents (Elt F)),
    StableHlo.nullary main_c_378 (constantI S_ 32 64#32),
    StableHlo.unary main_c_378 main_v919 (broadcastInDim S2x12544 ![] bcast_S_S2x12544 : (⟨S_, .i32⟩ : BufTy).Contents (Elt F) → (⟨S2x12544, .i32⟩ : BufTy).Contents (Elt F)),
    StableHlo.binary main_v910 main_v919 main_v920 (addi : (⟨S2x12544, .i32⟩ : BufTy).Contents (Elt F) → (⟨S2x12544, .i32⟩ : BufTy).Contents (Elt F) → (⟨S2x12544, .i32⟩ : BufTy).Contents (Elt F)),
    StableHlo.ternary main_v918 main_v920 main_v910 main_v921 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_379 (constantI S_ 32 0#32),
    StableHlo.unary main_c_379 main_v922 (broadcastInDim S2x12544 ![] bcast_S_S2x12544 : (⟨S_, .i32⟩ : BufTy).Contents (Elt F) → (⟨S2x12544, .i32⟩ : BufTy).Contents (Elt F)),
    StableHlo.binary main_v911 main_v922 main_v923 (cmpi .slt : (⟨S2x12544, .i32⟩ : BufTy).Contents (Elt F) → (⟨S2x12544, .i32⟩ : BufTy).Contents (Elt F) → (⟨S2x12544, .i1⟩ : BufTy).Contents (Elt F)),
    StableHlo.nullary main_c_380 (constantI S_ 32 64#32),
    StableHlo.unary main_c_380 main_v924 (broadcastInDim S2x12544 ![] bcast_S_S2x12544 : (⟨S_, .i32⟩ : BufTy).Contents (Elt F) → (⟨S2x12544, .i32⟩ : BufTy).Contents (Elt F)),
    StableHlo.binary main_v911 main_v924 main_v925 (addi : (⟨S2x12544, .i32⟩ : BufTy).Contents (Elt F) → (⟨S2x12544, .i32⟩ : BufTy).Contents (Elt F) → (⟨S2x12544, .i32⟩ : BufTy).Contents (Elt F)),
    StableHlo.ternary main_v923 main_v925 main_v911 main_v926 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v916 main_v927 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v921 main_v928 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v926 main_v929 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v927, main_v928, main_v929] main_v930 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg2 main_v930 main_v931 ((fun x i => Host.gather gather_S2x30x64x64x64_S2x12544x3_S2x30x12544_1_234_0_0_234_2_130111 x i) : (⟨S2x30x64x64x64, .f32⟩ : BufTy).Contents (Elt F) → (⟨S2x12544x3, .i32⟩ : BufTy).Contents (Elt F) → (⟨S2x30x12544, .f32⟩ : BufTy).Contents (Elt F)),
    StableHlo.nullary main_cst_381 (constant S_ .f32 0x00000000#32),
    StableHlo.TRef.unary (.of main_cst_381 : StableHlo.TRef sig ⟨S_, .f32⟩) (.of main_call59_v0 : StableHlo.TRef sig ⟨S12544, .f32⟩) (broadcastInDim S12544 ![] bcast_S_S12544),
    StableHlo.TRef.unary (.of main_v908 : StableHlo.TRef sig ⟨S2x12544, .i1⟩) (.of main_call59_v1 : StableHlo.TRef sig ⟨S2x30x12544, .i1⟩) (broadcastInDim S2x30x12544 ![0, 2] bcast_S2x12544_S2x30x12544_0_2),
    StableHlo.TRef.unary (.of main_call59_v0 : StableHlo.TRef sig ⟨S12544, .f32⟩) (.of main_call59_v2 : StableHlo.TRef sig ⟨S30x12544, .f32⟩) (broadcastInDim S30x12544 ![1] bcast_S12544_S30x12544_1),
    StableHlo.TRef.unary (.of main_call59_v2 : StableHlo.TRef sig ⟨S30x12544, .f32⟩) (.of main_call59_v3 : StableHlo.TRef sig ⟨S2x30x12544, .f32⟩) (broadcastInDim S2x30x12544 ![1, 2] bcast_S30x12544_S2x30x12544_1_2),
    StableHlo.TRef.ternary (.of main_call59_v1 : StableHlo.TRef sig ⟨S2x30x12544, .i1⟩) (.of main_v931 : StableHlo.TRef sig ⟨S2x30x12544, .f32⟩) (.of main_call59_v3 : StableHlo.TRef sig ⟨S2x30x12544, .f32⟩) (.of main_v932 : StableHlo.TRef sig ⟨S2x30x12544, .f32⟩) select,
    StableHlo.unary main_v885 main_v933 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v933 main_v934 (broadcastInDim S2x30x12544 ![0, 1, 2] bcast_S2x1x12544_S2x30x12544_0_1_2 : (⟨S2x1x12544, .f32⟩ : BufTy).Contents (Elt F) → (⟨S2x30x12544, .f32⟩ : BufTy).Contents (Elt F)),
    StableHlo.binary main_v934 main_v932 main_v935 (mulf : (⟨S2x30x12544, .f32⟩ : BufTy).Contents (Elt F) → (⟨S2x30x12544, .f32⟩ : BufTy).Contents (Elt F) → (⟨S2x30x12544, .f32⟩ : BufTy).Contents (Elt F)) ]

set_option maxRecDepth 8192 in
set_option maxHeartbeats 4000000 in
/-- Window main_part21 is its operations run in order: the called functions unfolded at their calls and sequencing re-associated, both sides are one chain of steps. -/
theorem main_part21_eq (c : Dev nD) : main_part21 (F := F) c = seq ops_part21 := by
  simp only [main_part21, fn_clip_0.body, fn_where_1.body, seq, bind_assoc, pure_bind] <;> rfl

set_option maxRecDepth 8192 in
/-- Every operation of the window reads and writes TensorCore buffers only. -/
theorem ops_part21_sub : (ops_part21 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., unary_bufs_sub .., unary_bufs_sub .., unary_bufs_sub .., ternary_bufs_sub .., unary_bufs_sub .., unary_bufs_sub .., binary_bufs_sub ..⟩

set_option maxRecDepth 8192 in
/-- Every operation of the window determines what it writes: none leaves a buffer at arbitrary contents. -/
theorem ops_part21_fresh : (ops_part21 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part21_W : List (Ref sig .tc) := [main_c_364, main_v894, main_v895, main_v896, main_c_365, main_v897, main_v898, main_v899, main_c_366, main_v900, main_v901, main_v902, main_c_367, main_v903, main_v904, main_v905, main_c_368, main_v906, main_v907, main_v908, main_c_369, main_c_370, main_call56_v0, main_call56_v1, main_call56_v2, main_call56_v3, main_call56_v4, main_v909, main_c_371, main_c_372, main_call57_v0, main_call57_v1, main_call57_v2, main_call57_v3, main_call57_v4, main_v910, main_c_373, main_c_374, main_call58_v0, main_call58_v1, main_call58_v2, main_call58_v3, main_call58_v4, main_v911, main_c_375, main_v912, main_v913, main_c_376, main_v914, main_v915, main_v916, main_c_377, main_v917, main_v918, main_c_378, main_v919, main_v920, main_v921, main_c_379, main_v922, main_v923, main_c_380, main_v924, main_v925, main_v926, main_v927, main_v928, main_v929, main_v930, main_v931, main_cst_381, main_call59_v0, main_call59_v1, main_call59_v2, main_call59_v3, main_v932, main_v933, main_v934, main_v935]

set_option maxRecDepth 8192 in
/-- Each operation of the window writes one buffer of that list. -/
theorem ops_part21_writes : (ops_part21 : List (HloOp τ sig (Elt F))).Forall fun op => op.writes ⊆ (ops_part21_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

end Cert.ReferenceIdeal.HandRun

end
-- ==== Proof.RefRunP11.lean ====
/- The reference program's @main, windows main_part22 … main_part23, as LISTS of host operations: each printed
   statement one entry, in order, and each call replaced by the called function's operations over the buffers that
   call names (its record), a call inside a called function likewise. With each list: the window equals the list run
   in order, every operation's buffers are TensorCore buffers, no operation leaves a buffer undetermined, and the
   list of buffers the window writes. -/
import proofs.«103167_j42614665511136_1_alg».proof.Proof.Gen.ReferenceIdeal
import Idealize.ShloMosaic.Lib.StableHlo.Run
import proofs.«103167_j42614665511136_1_alg».proof.Proof.RefRunP9

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window main_part22's 75 operations, in order, calls replaced by the called functions' operations. -/
abbrev ops_part22 : List (HloOp τ sig (Elt F)) :=
  [ StableHlo.binary main_v881 main_v935 main_v936 (addf : (⟨S2x30x12544, .f32⟩ : BufTy).Contents (Elt F) → (⟨S2x30x12544, .f32⟩ : BufTy).Contents (Elt F) → (⟨S2x30x12544, .f32⟩ : BufTy).Contents (Elt F)),
    StableHlo.binary main_v534 main_v533 main_v937 (mulf : (⟨S2x12544, .f32⟩ : BufTy).Contents (Elt F) → (⟨S2x12544, .f32⟩ : BufTy).Contents (Elt F) → (⟨S2x12544, .f32⟩ : BufTy).Contents (Elt F)),
    StableHlo.binary main_v937 main_v532 main_v938 (mulf : (⟨S2x12544, .f32⟩ : BufTy).Contents (Elt F) → (⟨S2x12544, .f32⟩ : BufTy).Contents (Elt F) → (⟨S2x12544, .f32⟩ : BufTy).Contents (Elt F)),
    StableHlo.nullary main_c_382 (constantI S_ 32 1#32),
    StableHlo.unary main_c_382 main_v939 (broadcastInDim S2x12544 ![] bcast_S_S2x12544 : (⟨S_, .i32⟩ : BufTy).Contents (Elt F) → (⟨S2x12544, .i32⟩ : BufTy).Contents (Elt F)),
    StableHlo.binary main_v537 main_v939 main_v940 (addi : (⟨S2x12544, .i32⟩ : BufTy).Contents (Elt F) → (⟨S2x12544, .i32⟩ : BufTy).Contents (Elt F) → (⟨S2x12544, .i32⟩ : BufTy).Contents (Elt F)),
    StableHlo.nullary main_c_383 (constantI S_ 32 1#32),
    StableHlo.unary main_c_383 main_v941 (broadcastInDim S2x12544 ![] bcast_S_S2x12544 : (⟨S_, .i32⟩ : BufTy).Contents (Elt F) → (⟨S2x12544, .i32⟩ : BufTy).Contents (Elt F)),
    StableHlo.binary main_v536 main_v941 main_v942 (addi : (⟨S2x12544, .i32⟩ : BufTy).Contents (Elt F) → (⟨S2x12544, .i32⟩ : BufTy).Contents (Elt F) → (⟨S2x12544, .i32⟩ : BufTy).Contents (Elt F)),
    StableHlo.nullary main_c_384 (constantI S_ 32 1#32),
    StableHlo.unary main_c_384 main_v943 (broadcastInDim S2x12544 ![] bcast_S_S2x12544 : (⟨S_, .i32⟩ : BufTy).Contents (Elt F) → (⟨S2x12544, .i32⟩ : BufTy).Contents (Elt F)),
    StableHlo.binary main_v535 main_v943 main_v944 (addi : (⟨S2x12544, .i32⟩ : BufTy).Contents (Elt F) → (⟨S2x12544, .i32⟩ : BufTy).Contents (Elt F) → (⟨S2x12544, .i32⟩ : BufTy).Contents (Elt F)),
    StableHlo.nullary main_c_385 (constantI S_ 32 0#32),
    StableHlo.unary main_c_385 main_v945 (broadcastInDim S2x12544 ![] bcast_S_S2x12544 : (⟨S_, .i32⟩ : BufTy).Contents (Elt F) → (⟨S2x12544, .i32⟩ : BufTy).Contents (Elt F)),
    StableHlo.binary main_v940 main_v945 main_v946 (cmpi .sge : (⟨S2x12544, .i32⟩ : BufTy).Contents (Elt F) → (⟨S2x12544, .i32⟩ : BufTy).Contents (Elt F) → (⟨S2x12544, .i1⟩ : BufTy).Contents (Elt F)),
    StableHlo.nullary main_c_386 (constantI S_ 32 64#32),
    StableHlo.unary main_c_386 main_v947 (broadcastInDim S2x12544 ![] bcast_S_S2x12544 : (⟨S_, .i32⟩ : BufTy).Contents (Elt F) → (⟨S2x12544, .i32⟩ : BufTy).Contents (Elt F)),
    StableHlo.binary main_v940 main_v947 main_v948 (cmpi .slt : (⟨S2x12544, .i32⟩ : BufTy).Contents (Elt F) → (⟨S2x12544, .i32⟩ : BufTy).Contents (Elt F) → (⟨S2x12544, .i1⟩ : BufTy).Contents (Elt F)),
    StableHlo.binary main_v946 main_v948 main_v949 (andi : (⟨S2x12544, .i1⟩ : BufTy).Contents (Elt F) → (⟨S2x12544, .i1⟩ : BufTy).Contents (Elt F) → (⟨S2x12544, .i1⟩ : BufTy).Contents (Elt F)),
    StableHlo.nullary main_c_387 (constantI S_ 32 0#32),
    StableHlo.unary main_c_387 main_v950 (broadcastInDim S2x12544 ![] bcast_S_S2x12544 : (⟨S_, .i32⟩ : BufTy).Contents (Elt F) → (⟨S2x12544, .i32⟩ : BufTy).Contents (Elt F)),
    StableHlo.binary main_v942 main_v950 main_v951 (cmpi .sge : (⟨S2x12544, .i32⟩ : BufTy).Contents (Elt F) → (⟨S2x12544, .i32⟩ : BufTy).Contents (Elt F) → (⟨S2x12544, .i1⟩ : BufTy).Contents (Elt F)),
    StableHlo.binary main_v949 main_v951 main_v952 (andi : (⟨S2x12544, .i1⟩ : BufTy).Contents (Elt F) → (⟨S2x12544, .i1⟩ : BufTy).Contents (Elt F) → (⟨S2x12544, .i1⟩ : BufTy).Contents (Elt F)),
    StableHlo.nullary main_c_388 (constantI S_ 32 64#32),
    StableHlo.unary main_c_388 main_v953 (broadcastInDim S2x12544 ![] bcast_S_S2x12544 : (⟨S_, .i32⟩ : BufTy).Contents (Elt F) → (⟨S2x12544, .i32⟩ : BufTy).Contents (Elt F)),
    StableHlo.binary main_v942 main_v953 main_v954 (cmpi .slt : (⟨S2x12544, .i32⟩ : BufTy).Contents (Elt F) → (⟨S2x12544, .i32⟩ : BufTy).Contents (Elt F) → (⟨S2x12544, .i1⟩ : BufTy).Contents (Elt F)),
    StableHlo.binary main_v952 main_v954 main_v955 (andi : (⟨S2x12544, .i1⟩ : BufTy).Contents (Elt F) → (⟨S2x12544, .i1⟩ : BufTy).Contents (Elt F) → (⟨S2x12544, .i1⟩ : BufTy).Contents (Elt F)),
    StableHlo.nullary main_c_389 (constantI S_ 32 0#32),
    StableHlo.unary main_c_389 main_v956 (broadcastInDim S2x12544 ![] bcast_S_S2x12544 : (⟨S_, .i32⟩ : BufTy).Contents (Elt F) → (⟨S2x12544, .i32⟩ : BufTy).Contents (Elt F)),
    StableHlo.binary main_v944 main_v956 main_v957 (cmpi .sge : (⟨S2x12544, .i32⟩ : BufTy).Contents (Elt F) → (⟨S2x12544, .i32⟩ : BufTy).Contents (Elt F) → (⟨S2x12544, .i1⟩ : BufTy).Contents (Elt F)),
    StableHlo.binary main_v955 main_v957 main_v958 (andi : (⟨S2x12544, .i1⟩ : BufTy).Contents (Elt F) → (⟨S2x12544, .i1⟩ : BufTy).Contents (Elt F) → (⟨S2x12544, .i1⟩ : BufTy).Contents (Elt F)),
    StableHlo.nullary main_c_390 (constantI S_ 32 64#32),
    StableHlo.unary main_c_390 main_v959 (broadcastInDim S2x12544 ![] bcast_S_S2x12544 : (⟨S_, .i32⟩ : BufTy).Contents (Elt F) → (⟨S2x12544, .i32⟩ : BufTy).Contents (Elt F)),
    StableHlo.binary main_v944 main_v959 main_v960 (cmpi .slt : (⟨S2x12544, .i32⟩ : BufTy).Contents (Elt F) → (⟨S2x12544, .i32⟩ : BufTy).Contents (Elt F) → (⟨S2x12544, .i1⟩ : BufTy).Contents (Elt F)),
    StableHlo.binary main_v958 main_v960 main_v961 (andi : (⟨S2x12544, .i1⟩ : BufTy).Contents (Elt F) → (⟨S2x12544, .i1⟩ : BufTy).Contents (Elt F) → (⟨S2x12544, .i1⟩ : BufTy).Contents (Elt F)),
    StableHlo.nullary main_c_391 (constantI S_ 32 0#32),
    StableHlo.nullary main_c_392 (constantI S_ 32 63#32),
    StableHlo.TRef.unary (.of main_c_391 : StableHlo.TRef sig ⟨S_, .i32⟩) (.of main_call60_v0 : StableHlo.TRef sig ⟨S_, .i32⟩) id,
    StableHlo.TRef.unary (.of main_call60_v0 : StableHlo.TRef sig ⟨S_, .i32⟩) (.of main_call60_v1 : StableHlo.TRef sig ⟨S2x12544, .i32⟩) (broadcastInDim S2x12544 ![] bcast_S_S2x12544),
    StableHlo.TRef.binary (.of main_call60_v1 : StableHlo.TRef sig ⟨S2x12544, .i32⟩) (.of main_v940 : StableHlo.TRef sig ⟨S2x12544, .i32⟩) (.of main_call60_v2 : StableHlo.TRef sig ⟨S2x12544, .i32⟩) maxsi,
    StableHlo.TRef.unary (.of main_c_392 : StableHlo.TRef sig ⟨S_, .i32⟩) (.of main_call60_v3 : StableHlo.TRef sig ⟨S_, .i32⟩) id,
    StableHlo.TRef.unary (.of main_call60_v3 : StableHlo.TRef sig ⟨S_, .i32⟩) (.of main_call60_v4 : StableHlo.TRef sig ⟨S2x12544, .i32⟩) (broadcastInDim S2x12544 ![] bcast_S_S2x12544),
    StableHlo.TRef.binary (.of main_call60_v4 : StableHlo.TRef sig ⟨S2x12544, .i32⟩) (.of main_call60_v2 : StableHlo.TRef sig ⟨S2x12544, .i32⟩) (.of main_v962 : StableHlo.TRef sig ⟨S2x12544, .i32⟩) minsi,
    StableHlo.nullary main_c_393 (constantI S_ 32 0#32),
    StableHlo.nullary main_c_394 (constantI S_ 32 63#32),
    StableHlo.TRef.unary (.of main_c_393 : StableHlo.TRef sig ⟨S_, .i32⟩) (.of main_call61_v0 : StableHlo.TRef sig ⟨S_, .i32⟩) id,
    StableHlo.TRef.unary (.of main_call61_v0 : StableHlo.TRef sig ⟨S_, .i32⟩) (.of main_call61_v1 : StableHlo.TRef sig ⟨S2x12544, .i32⟩) (broadcastInDim S2x12544 ![] bcast_S_S2x12544),
    StableHlo.TRef.binary (.of main_call61_v1 : StableHlo.TRef sig ⟨S2x12544, .i32⟩) (.of main_v942 : StableHlo.TRef sig ⟨S2x12544, .i32⟩) (.of main_call61_v2 : StableHlo.TRef sig ⟨S2x12544, .i32⟩) maxsi,
    StableHlo.TRef.unary (.of main_c_394 : StableHlo.TRef sig ⟨S_, .i32⟩) (.of main_call61_v3 : StableHlo.TRef sig ⟨S_, .i32⟩) id,
    StableHlo.TRef.unary (.of main_call61_v3 : StableHlo.TRef sig ⟨S_, .i32⟩) (.of main_call61_v4 : StableHlo.TRef sig ⟨S2x12544, .i32⟩) (broadcastInDim S2x12544 ![] bcast_S_S2x12544),
    StableHlo.TRef.binary (.of main_call61_v4 : StableHlo.TRef sig ⟨S2x12544, .i32⟩) (.of main_call61_v2 : StableHlo.TRef sig ⟨S2x12544, .i32⟩) (.of main_v963 : StableHlo.TRef sig ⟨S2x12544, .i32⟩) minsi,
    StableHlo.nullary main_c_395 (constantI S_ 32 0#32),
    StableHlo.nullary main_c_396 (constantI S_ 32 63#32),
    StableHlo.TRef.unary (.of main_c_395 : StableHlo.TRef sig ⟨S_, .i32⟩) (.of main_call62_v0 : StableHlo.TRef sig ⟨S_, .i32⟩) id,
    StableHlo.TRef.unary (.of main_call62_v0 : StableHlo.TRef sig ⟨S_, .i32⟩) (.of main_call62_v1 : StableHlo.TRef sig ⟨S2x12544, .i32⟩) (broadcastInDim S2x12544 ![] bcast_S_S2x12544),
    StableHlo.TRef.binary (.of main_call62_v1 : StableHlo.TRef sig ⟨S2x12544, .i32⟩) (.of main_v944 : StableHlo.TRef sig ⟨S2x12544, .i32⟩) (.of main_call62_v2 : StableHlo.TRef sig ⟨S2x12544, .i32⟩) maxsi,
    StableHlo.TRef.unary (.of main_c_396 : StableHlo.TRef sig ⟨S_, .i32⟩) (.of main_call62_v3 : StableHlo.TRef sig ⟨S_, .i32⟩) id,
    StableHlo.TRef.unary (.of main_call62_v3 : StableHlo.TRef sig ⟨S_, .i32⟩) (.of main_call62_v4 : StableHlo.TRef sig ⟨S2x12544, .i32⟩) (broadcastInDim S2x12544 ![] bcast_S_S2x12544),
    StableHlo.TRef.binary (.of main_call62_v4 : StableHlo.TRef sig ⟨S2x12544, .i32⟩) (.of main_call62_v2 : StableHlo.TRef sig ⟨S2x12544, .i32⟩) (.of main_v964 : StableHlo.TRef sig ⟨S2x12544, .i32⟩) minsi,
    StableHlo.nullary main_c_397 (constantI S_ 32 0#32),
    StableHlo.unary main_c_397 main_v965 (broadcastInDim S2x12544 ![] bcast_S_S2x12544 : (⟨S_, .i32⟩ : BufTy).Contents (Elt F) → (⟨S2x12544, .i32⟩ : BufTy).Contents (Elt F)),
    StableHlo.binary main_v962 main_v965 main_v966 (cmpi .slt : (⟨S2x12544, .i32⟩ : BufTy).Contents (Elt F) → (⟨S2x12544, .i32⟩ : BufTy).Contents (Elt F) → (⟨S2x12544, .i1⟩ : BufTy).Contents (Elt F)),
    StableHlo.nullary main_c_398 (constantI S_ 32 64#32),
    StableHlo.unary main_c_398 main_v967 (broadcastInDim S2x12544 ![] bcast_S_S2x12544 : (⟨S_, .i32⟩ : BufTy).Contents (Elt F) → (⟨S2x12544, .i32⟩ : BufTy).Contents (Elt F)),
    StableHlo.binary main_v962 main_v967 main_v968 (addi : (⟨S2x12544, .i32⟩ : BufTy).Contents (Elt F) → (⟨S2x12544, .i32⟩ : BufTy).Contents (Elt F) → (⟨S2x12544, .i32⟩ : BufTy).Contents (Elt F)),
    StableHlo.ternary main_v966 main_v968 main_v962 main_v969 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_399 (constantI S_ 32 0#32),
    StableHlo.unary main_c_399 main_v970 (broadcastInDim S2x12544 ![] bcast_S_S2x12544 : (⟨S_, .i32⟩ : BufTy).Contents (Elt F) → (⟨S2x12544, .i32⟩ : BufTy).Contents (Elt F)),
    StableHlo.binary main_v963 main_v970 main_v971 (cmpi .slt : (⟨S2x12544, .i32⟩ : BufTy).Contents (Elt F) → (⟨S2x12544, .i32⟩ : BufTy).Contents (Elt F) → (⟨S2x12544, .i1⟩ : BufTy).Contents (Elt F)),
    StableHlo.nullary main_c_400 (constantI S_ 32 64#32),
    StableHlo.unary main_c_400 main_v972 (broadcastInDim S2x12544 ![] bcast_S_S2x12544 : (⟨S_, .i32⟩ : BufTy).Contents (Elt F) → (⟨S2x12544, .i32⟩ : BufTy).Contents (Elt F)),
    StableHlo.binary main_v963 main_v972 main_v973 (addi : (⟨S2x12544, .i32⟩ : BufTy).Contents (Elt F) → (⟨S2x12544, .i32⟩ : BufTy).Contents (Elt F) → (⟨S2x12544, .i32⟩ : BufTy).Contents (Elt F)),
    StableHlo.ternary main_v971 main_v973 main_v963 main_v974 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.nullary main_c_401 (constantI S_ 32 0#32),
    StableHlo.unary main_c_401 main_v975 (broadcastInDim S2x12544 ![] bcast_S_S2x12544 : (⟨S_, .i32⟩ : BufTy).Contents (Elt F) → (⟨S2x12544, .i32⟩ : BufTy).Contents (Elt F)) ]

set_option maxRecDepth 8192 in
set_option maxHeartbeats 4000000 in
/-- Window main_part22 is its operations run in order: the called functions unfolded at their calls and sequencing re-associated, both sides are one chain of steps. -/
theorem main_part22_eq (c : Dev nD) : main_part22 (F := F) c = seq ops_part22 := by
  simp only [main_part22, fn_clip_0.body, seq, bind_assoc, pure_bind] <;> rfl

set_option maxRecDepth 8192 in
/-- Every operation of the window reads and writes TensorCore buffers only. -/
theorem ops_part22_sub : (ops_part22 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub ..⟩

set_option maxRecDepth 8192 in
/-- Every operation of the window determines what it writes: none leaves a buffer at arbitrary contents. -/
theorem ops_part22_fresh : (ops_part22 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part22_W : List (Ref sig .tc) := [main_v936, main_v937, main_v938, main_c_382, main_v939, main_v940, main_c_383, main_v941, main_v942, main_c_384, main_v943, main_v944, main_c_385, main_v945, main_v946, main_c_386, main_v947, main_v948, main_v949, main_c_387, main_v950, main_v951, main_v952, main_c_388, main_v953, main_v954, main_v955, main_c_389, main_v956, main_v957, main_v958, main_c_390, main_v959, main_v960, main_v961, main_c_391, main_c_392, main_call60_v0, main_call60_v1, main_call60_v2, main_call60_v3, main_call60_v4, main_v962, main_c_393, main_c_394, main_call61_v0, main_call61_v1, main_call61_v2, main_call61_v3, main_call61_v4, main_v963, main_c_395, main_c_396, main_call62_v0, main_call62_v1, main_call62_v2, main_call62_v3, main_call62_v4, main_v964, main_c_397, main_v965, main_v966, main_c_398, main_v967, main_v968, main_v969, main_c_399, main_v970, main_v971, main_c_400, main_v972, main_v973, main_v974, main_c_401, main_v975]

set_option maxRecDepth 8192 in
/-- Each operation of the window writes one buffer of that list. -/
theorem ops_part22_writes : (ops_part22 : List (HloOp τ sig (Elt F))).Forall fun op => op.writes ⊆ (ops_part22_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

set_option maxRecDepth 8192 in
set_option maxHeartbeats 4000000 in
/-- Window main_part23's 90 operations, in order, calls replaced by the called functions' operations. -/
abbrev ops_part23 : List (HloOp τ sig (Elt F)) :=
  [ StableHlo.binary main_v964 main_v975 main_v976 (cmpi .slt : (⟨S2x12544, .i32⟩ : BufTy).Contents (Elt F) → (⟨S2x12544, .i32⟩ : BufTy).Contents (Elt F) → (⟨S2x12544, .i1⟩ : BufTy).Contents (Elt F)),
    StableHlo.nullary main_c_402 (constantI S_ 32 64#32),
    StableHlo.unary main_c_402 main_v977 (broadcastInDim S2x12544 ![] bcast_S_S2x12544 : (⟨S_, .i32⟩ : BufTy).Contents (Elt F) → (⟨S2x12544, .i32⟩ : BufTy).Contents (Elt F)),
    StableHlo.binary main_v964 main_v977 main_v978 (addi : (⟨S2x12544, .i32⟩ : BufTy).Contents (Elt F) → (⟨S2x12544, .i32⟩ : BufTy).Contents (Elt F) → (⟨S2x12544, .i32⟩ : BufTy).Contents (Elt F)),
    StableHlo.ternary main_v976 main_v978 main_v964 main_v979 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v969 main_v980 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v974 main_v981 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v979 main_v982 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v980, main_v981, main_v982] main_v983 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg2 main_v983 main_v984 ((fun x i => Host.gather gather_S2x30x64x64x64_S2x12544x3_S2x30x12544_1_234_0_0_234_2_130111 x i) : (⟨S2x30x64x64x64, .f32⟩ : BufTy).Contents (Elt F) → (⟨S2x12544x3, .i32⟩ : BufTy).Contents (Elt F) → (⟨S2x30x12544, .f32⟩ : BufTy).Contents (Elt F)),
    StableHlo.nullary main_cst_403 (constant S_ .f32 0x00000000#32),
    StableHlo.TRef.unary (.of main_cst_403 : StableHlo.TRef sig ⟨S_, .f32⟩) (.of main_call63_v0 : StableHlo.TRef sig ⟨S12544, .f32⟩) (broadcastInDim S12544 ![] bcast_S_S12544),
    StableHlo.TRef.unary (.of main_v961 : StableHlo.TRef sig ⟨S2x12544, .i1⟩) (.of main_call63_v1 : StableHlo.TRef sig ⟨S2x30x12544, .i1⟩) (broadcastInDim S2x30x12544 ![0, 2] bcast_S2x12544_S2x30x12544_0_2),
    StableHlo.TRef.unary (.of main_call63_v0 : StableHlo.TRef sig ⟨S12544, .f32⟩) (.of main_call63_v2 : StableHlo.TRef sig ⟨S30x12544, .f32⟩) (broadcastInDim S30x12544 ![1] bcast_S12544_S30x12544_1),
    StableHlo.TRef.unary (.of main_call63_v2 : StableHlo.TRef sig ⟨S30x12544, .f32⟩) (.of main_call63_v3 : StableHlo.TRef sig ⟨S2x30x12544, .f32⟩) (broadcastInDim S2x30x12544 ![1, 2] bcast_S30x12544_S2x30x12544_1_2),
    StableHlo.TRef.ternary (.of main_call63_v1 : StableHlo.TRef sig ⟨S2x30x12544, .i1⟩) (.of main_v984 : StableHlo.TRef sig ⟨S2x30x12544, .f32⟩) (.of main_call63_v3 : StableHlo.TRef sig ⟨S2x30x12544, .f32⟩) (.of main_v985 : StableHlo.TRef sig ⟨S2x30x12544, .f32⟩) select,
    StableHlo.unary main_v938 main_v986 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v986 main_v987 (broadcastInDim S2x30x12544 ![0, 1, 2] bcast_S2x1x12544_S2x30x12544_0_1_2 : (⟨S2x1x12544, .f32⟩ : BufTy).Contents (Elt F) → (⟨S2x30x12544, .f32⟩ : BufTy).Contents (Elt F)),
    StableHlo.binary main_v987 main_v985 main_v988 (mulf : (⟨S2x30x12544, .f32⟩ : BufTy).Contents (Elt F) → (⟨S2x30x12544, .f32⟩ : BufTy).Contents (Elt F) → (⟨S2x30x12544, .f32⟩ : BufTy).Contents (Elt F)),
    StableHlo.binary main_v936 main_v988 main_v989 (addf : (⟨S2x30x12544, .f32⟩ : BufTy).Contents (Elt F) → (⟨S2x30x12544, .f32⟩ : BufTy).Contents (Elt F) → (⟨S2x30x12544, .f32⟩ : BufTy).Contents (Elt F)),
    StableHlo.nullary main_cst_404 (constant S_ .f32 0xFF800000#32),
    StableHlo.binary main_arg1 main_cst_404 main_v990 ((fun x v => Host.reduce FloatOps.maximumf x v reducesTo_S2x100x134_S2x100_d2 h_S_) : (⟨S2x100x134, .f32⟩ : BufTy).Contents (Elt F) → (⟨S_, .f32⟩ : BufTy).Contents (Elt F) → (⟨S2x100, .f32⟩ : BufTy).Contents (Elt F)),
    StableHlo.nullary main_cst_405 (constant S_ .f32 0xFF800000#32),
    StableHlo.unary main_cst_405 main_v991 (broadcastInDim S2x100 ![] bcast_S_S2x100 : (⟨S_, .f32⟩ : BufTy).Contents (Elt F) → (⟨S2x100, .f32⟩ : BufTy).Contents (Elt F)),
    StableHlo.binary main_v991 main_v990 main_v992 (maximumf : (⟨S2x100, .f32⟩ : BufTy).Contents (Elt F) → (⟨S2x100, .f32⟩ : BufTy).Contents (Elt F) → (⟨S2x100, .f32⟩ : BufTy).Contents (Elt F)),
    StableHlo.unary main_v992 main_v993 (broadcastInDim S2x100x1 ![0, 1] bcast_S2x100_S2x100x1_0_1 : (⟨S2x100, .f32⟩ : BufTy).Contents (Elt F) → (⟨S2x100x1, .f32⟩ : BufTy).Contents (Elt F)),
    StableHlo.unary main_v993 main_v994 (broadcastInDim S2x100x134 ![0, 1, 2] bcast_S2x100x1_S2x100x134_0_1_2 : (⟨S2x100x1, .f32⟩ : BufTy).Contents (Elt F) → (⟨S2x100x134, .f32⟩ : BufTy).Contents (Elt F)),
    StableHlo.binary main_arg1 main_v994 main_v995 (subf : (⟨S2x100x134, .f32⟩ : BufTy).Contents (Elt F) → (⟨S2x100x134, .f32⟩ : BufTy).Contents (Elt F) → (⟨S2x100x134, .f32⟩ : BufTy).Contents (Elt F)),
    StableHlo.unary main_v995 main_v996 (Host.exp : (⟨S2x100x134, .f32⟩ : BufTy).Contents (Elt F) → (⟨S2x100x134, .f32⟩ : BufTy).Contents (Elt F)),
    StableHlo.nullary main_cst_406 (constant S_ .f32 0x00000000#32),
    StableHlo.binary main_v996 main_cst_406 main_v997 ((fun x v => Host.reduceAdd x v reducesTo_S2x100x134_S2x100_d2 h_S_) : (⟨S2x100x134, .f32⟩ : BufTy).Contents (Elt F) → (⟨S_, .f32⟩ : BufTy).Contents (Elt F) → (⟨S2x100, .f32⟩ : BufTy).Contents (Elt F)),
    StableHlo.unary main_v997 main_v998 (broadcastInDim S2x100x1 ![0, 1] bcast_S2x100_S2x100x1_0_1 : (⟨S2x100, .f32⟩ : BufTy).Contents (Elt F) → (⟨S2x100x1, .f32⟩ : BufTy).Contents (Elt F)),
    StableHlo.unary main_v998 main_v999 (broadcastInDim S2x100x134 ![0, 1, 2] bcast_S2x100x1_S2x100x134_0_1_2 : (⟨S2x100x1, .f32⟩ : BufTy).Contents (Elt F) → (⟨S2x100x134, .f32⟩ : BufTy).Contents (Elt F)),
    StableHlo.binary main_v996 main_v999 main_v1000 (Host.divf : (⟨S2x100x134, .f32⟩ : BufTy).Contents (Elt F) → (⟨S2x100x134, .f32⟩ : BufTy).Contents (Elt F) → (⟨S2x100x134, .f32⟩ : BufTy).Contents (Elt F)),
    StableHlo.nullary main_c_407 (constantI S_ 32 0#32),
    StableHlo.unary main_c_407 main_v1001 (broadcastInDim S2x30 ![] bcast_S_S2x30 : (⟨S_, .i32⟩ : BufTy).Contents (Elt F) → (⟨S2x30, .i32⟩ : BufTy).Contents (Elt F)),
    StableHlo.binary main_arg4 main_v1001 main_v1002 (cmpi .slt : (⟨S2x30, .i32⟩ : BufTy).Contents (Elt F) → (⟨S2x30, .i32⟩ : BufTy).Contents (Elt F) → (⟨S2x30, .i1⟩ : BufTy).Contents (Elt F)),
    StableHlo.nullary main_c_408 (constantI S_ 32 134#32),
    StableHlo.unary main_c_408 main_v1003 (broadcastInDim S2x30 ![] bcast_S_S2x30 : (⟨S_, .i32⟩ : BufTy).Contents (Elt F) → (⟨S2x30, .i32⟩ : BufTy).Contents (Elt F)),
    StableHlo.binary main_arg4 main_v1003 main_v1004 (addi : (⟨S2x30, .i32⟩ : BufTy).Contents (Elt F) → (⟨S2x30, .i32⟩ : BufTy).Contents (Elt F) → (⟨S2x30, .i32⟩ : BufTy).Contents (Elt F)),
    StableHlo.ternary main_v1002 main_v1004 main_arg4 main_v1005 (select : (⟨S2x30, .i1⟩ : BufTy).Contents (Elt F) → (⟨S2x30, .i32⟩ : BufTy).Contents (Elt F) → (⟨S2x30, .i32⟩ : BufTy).Contents (Elt F) → (⟨S2x30, .i32⟩ : BufTy).Contents (Elt F)),
    StableHlo.unary main_v1005 main_v1006 (broadcastInDim S2x30x1 ![0, 1] bcast_S2x30_S2x30x1_0_1 : (⟨S2x30, .i32⟩ : BufTy).Contents (Elt F) → (⟨S2x30x1, .i32⟩ : BufTy).Contents (Elt F)),
    StableHlo.binary main_v1000 main_v1006 main_v1007 ((fun x i => Host.gather gather_S2x100x134_S2x30x1_S2x100x30_1_2_0_0_2_2_11001 x i) : (⟨S2x100x134, .f32⟩ : BufTy).Contents (Elt F) → (⟨S2x30x1, .i32⟩ : BufTy).Contents (Elt F) → (⟨S2x100x30, .f32⟩ : BufTy).Contents (Elt F)),
    StableHlo.unary main_v1007 main_v1008 (Host.negf : (⟨S2x100x30, .f32⟩ : BufTy).Contents (Elt F) → (⟨S2x100x30, .f32⟩ : BufTy).Contents (Elt F)),
    StableHlo.unary main_v494 main_v1009 (Host.negf : (⟨S2x100x12544, .f32⟩ : BufTy).Contents (Elt F) → (⟨S2x100x12544, .f32⟩ : BufTy).Contents (Elt F)),
    StableHlo.TRef.nullary (.of main_call64_cst : StableHlo.TRef sig ⟨S_, .f32⟩) (constant S_ .f32 0x00000000#32),
    StableHlo.TRef.unary (.of main_call64_cst : StableHlo.TRef sig ⟨S_, .f32⟩) (.of main_call64_v0 : StableHlo.TRef sig ⟨S2x100x12544, .f32⟩) (broadcastInDim S2x100x12544 ![] bcast_S_S2x100x12544),
    StableHlo.TRef.binary (.of main_v1009 : StableHlo.TRef sig ⟨S2x100x12544, .f32⟩) (.of main_call64_v0 : StableHlo.TRef sig ⟨S2x100x12544, .f32⟩) (.of main_call64_v1 : StableHlo.TRef sig ⟨S2x100x12544, .f32⟩) maximumf,
    StableHlo.TRef.unary (.of main_call64_cst : StableHlo.TRef sig ⟨S_, .f32⟩) (.of main_call64_v2 : StableHlo.TRef sig ⟨S2x100x12544, .f32⟩) (broadcastInDim S2x100x12544 ![] bcast_S_S2x100x12544),
    StableHlo.TRef.binary (.of main_v1009 : StableHlo.TRef sig ⟨S2x100x12544, .f32⟩) (.of main_call64_v2 : StableHlo.TRef sig ⟨S2x100x12544, .f32⟩) (.of main_call64_v3 : StableHlo.TRef sig ⟨S2x100x12544, .f32⟩) subf,
    StableHlo.TRef.binary (.of main_call64_v3 : StableHlo.TRef sig ⟨S2x100x12544, .f32⟩) (.of main_call64_v3 : StableHlo.TRef sig ⟨S2x100x12544, .f32⟩) (.of main_call64_v4 : StableHlo.TRef sig ⟨S2x100x12544, .i1⟩) (cmpf .une),
    StableHlo.TRef.unary (.of main_call64_cst : StableHlo.TRef sig ⟨S_, .f32⟩) (.of main_call64_v5 : StableHlo.TRef sig ⟨S2x100x12544, .f32⟩) (broadcastInDim S2x100x12544 ![] bcast_S_S2x100x12544),
    StableHlo.TRef.binary (.of main_v1009 : StableHlo.TRef sig ⟨S2x100x12544, .f32⟩) (.of main_call64_v5 : StableHlo.TRef sig ⟨S2x100x12544, .f32⟩) (.of main_call64_v6 : StableHlo.TRef sig ⟨S2x100x12544, .f32⟩) addf,
    StableHlo.TRef.unary (.of main_call64_v3 : StableHlo.TRef sig ⟨S2x100x12544, .f32⟩) (.of main_call64_v7 : StableHlo.TRef sig ⟨S2x100x12544, .f32⟩) Host.absf,
    StableHlo.TRef.unary (.of main_call64_v7 : StableHlo.TRef sig ⟨S2x100x12544, .f32⟩) (.of main_call64_v8 : StableHlo.TRef sig ⟨S2x100x12544, .f32⟩) Host.negf,
    StableHlo.TRef.unary (.of main_call64_v8 : StableHlo.TRef sig ⟨S2x100x12544, .f32⟩) (.of main_call64_v9 : StableHlo.TRef sig ⟨S2x100x12544, .f32⟩) Host.exp,
    StableHlo.TRef.unary (.of main_call64_v9 : StableHlo.TRef sig ⟨S2x100x12544, .f32⟩) (.of main_call64_v10 : StableHlo.TRef sig ⟨S2x100x12544, .f32⟩) Host.log1p,
    StableHlo.TRef.binary (.of main_call64_v1 : StableHlo.TRef sig ⟨S2x100x12544, .f32⟩) (.of main_call64_v10 : StableHlo.TRef sig ⟨S2x100x12544, .f32⟩) (.of main_call64_v11 : StableHlo.TRef sig ⟨S2x100x12544, .f32⟩) addf,
    StableHlo.TRef.ternary (.of main_call64_v4 : StableHlo.TRef sig ⟨S2x100x12544, .i1⟩) (.of main_call64_v6 : StableHlo.TRef sig ⟨S2x100x12544, .f32⟩) (.of main_call64_v11 : StableHlo.TRef sig ⟨S2x100x12544, .f32⟩) (.of main_v1010 : StableHlo.TRef sig ⟨S2x100x12544, .f32⟩) select,
    StableHlo.nullary main_cst_409 (constant S_ .f32 0x46440000#32),
    StableHlo.unary main_cst_409 main_v1011 (broadcastInDim S2x100x12544 ![] bcast_S_S2x100x12544 : (⟨S_, .f32⟩ : BufTy).Contents (Elt F) → (⟨S2x100x12544, .f32⟩ : BufTy).Contents (Elt F)),
    StableHlo.binary main_v1010 main_v1011 main_v1012 (Host.divf : (⟨S2x100x12544, .f32⟩ : BufTy).Contents (Elt F) → (⟨S2x100x12544, .f32⟩ : BufTy).Contents (Elt F) → (⟨S2x100x12544, .f32⟩ : BufTy).Contents (Elt F)),
    StableHlo.TRef.nullary (.of main_call65_cst : StableHlo.TRef sig ⟨S_, .f32⟩) (constant S_ .f32 0x00000000#32),
    StableHlo.TRef.unary (.of main_call65_cst : StableHlo.TRef sig ⟨S_, .f32⟩) (.of main_call65_v0 : StableHlo.TRef sig ⟨S2x100x12544, .f32⟩) (broadcastInDim S2x100x12544 ![] bcast_S_S2x100x12544),
    StableHlo.TRef.binary (.of main_v494 : StableHlo.TRef sig ⟨S2x100x12544, .f32⟩) (.of main_call65_v0 : StableHlo.TRef sig ⟨S2x100x12544, .f32⟩) (.of main_call65_v1 : StableHlo.TRef sig ⟨S2x100x12544, .f32⟩) maximumf,
    StableHlo.TRef.unary (.of main_call65_cst : StableHlo.TRef sig ⟨S_, .f32⟩) (.of main_call65_v2 : StableHlo.TRef sig ⟨S2x100x12544, .f32⟩) (broadcastInDim S2x100x12544 ![] bcast_S_S2x100x12544),
    StableHlo.TRef.binary (.of main_v494 : StableHlo.TRef sig ⟨S2x100x12544, .f32⟩) (.of main_call65_v2 : StableHlo.TRef sig ⟨S2x100x12544, .f32⟩) (.of main_call65_v3 : StableHlo.TRef sig ⟨S2x100x12544, .f32⟩) subf,
    StableHlo.TRef.binary (.of main_call65_v3 : StableHlo.TRef sig ⟨S2x100x12544, .f32⟩) (.of main_call65_v3 : StableHlo.TRef sig ⟨S2x100x12544, .f32⟩) (.of main_call65_v4 : StableHlo.TRef sig ⟨S2x100x12544, .i1⟩) (cmpf .une),
    StableHlo.TRef.unary (.of main_call65_cst : StableHlo.TRef sig ⟨S_, .f32⟩) (.of main_call65_v5 : StableHlo.TRef sig ⟨S2x100x12544, .f32⟩) (broadcastInDim S2x100x12544 ![] bcast_S_S2x100x12544),
    StableHlo.TRef.binary (.of main_v494 : StableHlo.TRef sig ⟨S2x100x12544, .f32⟩) (.of main_call65_v5 : StableHlo.TRef sig ⟨S2x100x12544, .f32⟩) (.of main_call65_v6 : StableHlo.TRef sig ⟨S2x100x12544, .f32⟩) addf,
    StableHlo.TRef.unary (.of main_call65_v3 : StableHlo.TRef sig ⟨S2x100x12544, .f32⟩) (.of main_call65_v7 : StableHlo.TRef sig ⟨S2x100x12544, .f32⟩) Host.absf,
    StableHlo.TRef.unary (.of main_call65_v7 : StableHlo.TRef sig ⟨S2x100x12544, .f32⟩) (.of main_call65_v8 : StableHlo.TRef sig ⟨S2x100x12544, .f32⟩) Host.negf,
    StableHlo.TRef.unary (.of main_call65_v8 : StableHlo.TRef sig ⟨S2x100x12544, .f32⟩) (.of main_call65_v9 : StableHlo.TRef sig ⟨S2x100x12544, .f32⟩) Host.exp,
    StableHlo.TRef.unary (.of main_call65_v9 : StableHlo.TRef sig ⟨S2x100x12544, .f32⟩) (.of main_call65_v10 : StableHlo.TRef sig ⟨S2x100x12544, .f32⟩) Host.log1p,
    StableHlo.TRef.binary (.of main_call65_v1 : StableHlo.TRef sig ⟨S2x100x12544, .f32⟩) (.of main_call65_v10 : StableHlo.TRef sig ⟨S2x100x12544, .f32⟩) (.of main_call65_v11 : StableHlo.TRef sig ⟨S2x100x12544, .f32⟩) addf,
    StableHlo.TRef.ternary (.of main_call65_v4 : StableHlo.TRef sig ⟨S2x100x12544, .i1⟩) (.of main_call65_v6 : StableHlo.TRef sig ⟨S2x100x12544, .f32⟩) (.of main_call65_v11 : StableHlo.TRef sig ⟨S2x100x12544, .f32⟩) (.of main_v1013 : StableHlo.TRef sig ⟨S2x100x12544, .f32⟩) select,
    StableHlo.nullary main_cst_410 (constant S_ .f32 0x46440000#32),
    StableHlo.unary main_cst_410 main_v1014 (broadcastInDim S2x100x12544 ![] bcast_S_S2x100x12544 : (⟨S_, .f32⟩ : BufTy).Contents (Elt F) → (⟨S2x100x12544, .f32⟩ : BufTy).Contents (Elt F)),
    StableHlo.binary main_v1013 main_v1014 main_v1015 (Host.divf : (⟨S2x100x12544, .f32⟩ : BufTy).Contents (Elt F) → (⟨S2x100x12544, .f32⟩ : BufTy).Contents (Elt F) → (⟨S2x100x12544, .f32⟩ : BufTy).Contents (Elt F)),
    StableHlo.unary main_v989 main_v1016 ((transpose S2x12544x30 [0, 2, 1] · transposes_S2x30x12544_S2x12544x30_0_2_1) : (⟨S2x30x12544, .f32⟩ : BufTy).Contents (Elt F) → (⟨S2x12544x30, .f32⟩ : BufTy).Contents (Elt F)),
    StableHlo.binary main_v1012 main_v1016 main_v1017 ((fun l r => Host.dotGeneral dot_S2x100x12544_S2x12544x30_S2x100x30_2_1_1_2_0_0 none l r) : (⟨S2x100x12544, .f32⟩ : BufTy).Contents (Elt F) → (⟨S2x12544x30, .f32⟩ : BufTy).Contents (Elt F) → (⟨S2x100x30, .f32⟩ : BufTy).Contents (Elt F)),
    StableHlo.nullary main_cst_411 (constant S_ .f32 0x3F800000#32),
    StableHlo.unary main_cst_411 main_v1018 (broadcastInDim S2x30x12544 ![] bcast_S_S2x30x12544 : (⟨S_, .f32⟩ : BufTy).Contents (Elt F) → (⟨S2x30x12544, .f32⟩ : BufTy).Contents (Elt F)),
    StableHlo.binary main_v1018 main_v989 main_v1019 (subf : (⟨S2x30x12544, .f32⟩ : BufTy).Contents (Elt F) → (⟨S2x30x12544, .f32⟩ : BufTy).Contents (Elt F) → (⟨S2x30x12544, .f32⟩ : BufTy).Contents (Elt F)),
    StableHlo.unary main_v1019 main_v1020 ((transpose S2x12544x30 [0, 2, 1] · transposes_S2x30x12544_S2x12544x30_0_2_1) : (⟨S2x30x12544, .f32⟩ : BufTy).Contents (Elt F) → (⟨S2x12544x30, .f32⟩ : BufTy).Contents (Elt F)),
    StableHlo.binary main_v1015 main_v1020 main_v1021 ((fun l r => Host.dotGeneral dot_S2x100x12544_S2x12544x30_S2x100x30_2_1_1_2_0_0 none l r) : (⟨S2x100x12544, .f32⟩ : BufTy).Contents (Elt F) → (⟨S2x12544x30, .f32⟩ : BufTy).Contents (Elt F) → (⟨S2x100x30, .f32⟩ : BufTy).Contents (Elt F)),
    StableHlo.binary main_v1017 main_v1021 main_v1022 (addf : (⟨S2x100x30, .f32⟩ : BufTy).Contents (Elt F) → (⟨S2x100x30, .f32⟩ : BufTy).Contents (Elt F) → (⟨S2x100x30, .f32⟩ : BufTy).Contents (Elt F)),
    StableHlo.unary main_v494 main_v1023 (Host.negf : (⟨S2x100x12544, .f32⟩ : BufTy).Contents (Elt F) → (⟨S2x100x12544, .f32⟩ : BufTy).Contents (Elt F)),
    StableHlo.unary main_v1023 main_v1024 (Host.exp : (⟨S2x100x12544, .f32⟩ : BufTy).Contents (Elt F) → (⟨S2x100x12544, .f32⟩ : BufTy).Contents (Elt F)),
    StableHlo.nullary main_cst_412 (constant S_ .f32 0x3F800000#32) ]

set_option maxRecDepth 8192 in
set_option maxHeartbeats 4000000 in
/-- Window main_part23 is its operations run in order: the called functions unfolded at their calls and sequencing re-associated, both sides are one chain of steps. -/
theorem main_part23_eq (c : Dev nD) : main_part23 (F := F) c = seq ops_part23 := by
  simp only [main_part23, fn_where_1.body, fn_softplus.body, seq, bind_assoc, pure_bind] <;> rfl

set_option maxRecDepth 8192 in
/-- Every operation of the window reads and writes TensorCore buffers only. -/
theorem ops_part23_sub : (ops_part23 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., unary_bufs_sub .., unary_bufs_sub .., unary_bufs_sub .., ternary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub ..⟩

set_option maxRecDepth 8192 in
/-- Every operation of the window determines what it writes: none leaves a buffer at arbitrary contents. -/
theorem ops_part23_fresh : (ops_part23 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part23_W : List (Ref sig .tc) := [main_v976, main_c_402, main_v977, main_v978, main_v979, main_v980, main_v981, main_v982, main_v983, main_v984, main_cst_403, main_call63_v0, main_call63_v1, main_call63_v2, main_call63_v3, main_v985, main_v986, main_v987, main_v988, main_v989, main_cst_404, main_v990, main_cst_405, main_v991, main_v992, main_v993, main_v994, main_v995, main_v996, main_cst_406, main_v997, main_v998, main_v999, main_v1000, main_c_407, main_v1001, main_v1002, main_c_408, main_v1003, main_v1004, main_v1005, main_v1006, main_v1007, main_v1008, main_v1009, main_call64_cst, main_call64_v0, main_call64_v1, main_call64_v2, main_call64_v3, main_call64_v4, main_call64_v5, main_call64_v6, main_call64_v7, main_call64_v8, main_call64_v9, main_call64_v10, main_call64_v11, main_v1010, main_cst_409, main_v1011, main_v1012, main_call65_cst, main_call65_v0, main_call65_v1, main_call65_v2, main_call65_v3, main_call65_v4, main_call65_v5, main_call65_v6, main_call65_v7, main_call65_v8, main_call65_v9, main_call65_v10, main_call65_v11, main_v1013, main_cst_410, main_v1014, main_v1015, main_v1016, main_v1017, main_cst_411, main_v1018, main_v1019, main_v1020, main_v1021, main_v1022, main_v1023, main_v1024, main_cst_412]

set_option maxRecDepth 8192 in
/-- Each operation of the window writes one buffer of that list. -/
theorem ops_part23_writes : (ops_part23 : List (HloOp τ sig (Elt F))).Forall fun op => op.writes ⊆ (ops_part23_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

end Cert.ReferenceIdeal.HandRun

end
-- ==== Proof.RefRunP12.lean ====
/- The reference program's @main, windows main_part24 … main_part24, as LISTS of host operations: each printed
   statement one entry, in order, and each call replaced by the called function's operations over the buffers that
   call names (its record), a call inside a called function likewise. With each list: the window equals the list run
   in order, every operation's buffers are TensorCore buffers, no operation leaves a buffer undetermined, and the
   list of buffers the window writes. -/
import proofs.«103167_j42614665511136_1_alg».proof.Proof.Gen.ReferenceIdeal
import Idealize.ShloMosaic.Lib.StableHlo.Run
import proofs.«103167_j42614665511136_1_alg».proof.Proof.RefRunP10

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window main_part24's 68 operations, in order, calls replaced by the called functions' operations. -/
abbrev ops_part24 : List (HloOp τ sig (Elt F)) :=
  [ StableHlo.unary main_cst_412 main_v1025 (broadcastInDim S2x100x12544 ![] bcast_S_S2x100x12544 : (⟨S_, .f32⟩ : BufTy).Contents (Elt F) → (⟨S2x100x12544, .f32⟩ : BufTy).Contents (Elt F)),
    StableHlo.binary main_v1025 main_v1024 main_v1026 (addf : (⟨S2x100x12544, .f32⟩ : BufTy).Contents (Elt F) → (⟨S2x100x12544, .f32⟩ : BufTy).Contents (Elt F) → (⟨S2x100x12544, .f32⟩ : BufTy).Contents (Elt F)),
    StableHlo.nullary main_cst_413 (constant S_ .f32 0x3F800000#32),
    StableHlo.unary main_cst_413 main_v1027 (broadcastInDim S2x100x12544 ![] bcast_S_S2x100x12544 : (⟨S_, .f32⟩ : BufTy).Contents (Elt F) → (⟨S2x100x12544, .f32⟩ : BufTy).Contents (Elt F)),
    StableHlo.binary main_v1027 main_v1026 main_v1028 (Host.divf : (⟨S2x100x12544, .f32⟩ : BufTy).Contents (Elt F) → (⟨S2x100x12544, .f32⟩ : BufTy).Contents (Elt F) → (⟨S2x100x12544, .f32⟩ : BufTy).Contents (Elt F)),
    StableHlo.unary main_v989 main_v1029 ((transpose S2x12544x30 [0, 2, 1] · transposes_S2x30x12544_S2x12544x30_0_2_1) : (⟨S2x30x12544, .f32⟩ : BufTy).Contents (Elt F) → (⟨S2x12544x30, .f32⟩ : BufTy).Contents (Elt F)),
    StableHlo.binary main_v1028 main_v1029 main_v1030 ((fun l r => Host.dotGeneral dot_S2x100x12544_S2x12544x30_S2x100x30_2_1_1_2_0_0 none l r) : (⟨S2x100x12544, .f32⟩ : BufTy).Contents (Elt F) → (⟨S2x12544x30, .f32⟩ : BufTy).Contents (Elt F) → (⟨S2x100x30, .f32⟩ : BufTy).Contents (Elt F)),
    StableHlo.nullary main_cst_414 (constant S_ .f32 0x40000000#32),
    StableHlo.unary main_cst_414 main_v1031 (broadcastInDim S2x100x30 ![] bcast_S_S2x100x30 : (⟨S_, .f32⟩ : BufTy).Contents (Elt F) → (⟨S2x100x30, .f32⟩ : BufTy).Contents (Elt F)),
    StableHlo.binary main_v1031 main_v1030 main_v1032 (mulf : (⟨S2x100x30, .f32⟩ : BufTy).Contents (Elt F) → (⟨S2x100x30, .f32⟩ : BufTy).Contents (Elt F) → (⟨S2x100x30, .f32⟩ : BufTy).Contents (Elt F)),
    StableHlo.nullary main_cst_415 (constant S_ .f32 0x00000000#32),
    StableHlo.binary main_v1028 main_cst_415 main_v1033 ((fun x v => Host.reduceAdd x v reducesTo_S2x100x12544_S2x100_d2 h_S_) : (⟨S2x100x12544, .f32⟩ : BufTy).Contents (Elt F) → (⟨S_, .f32⟩ : BufTy).Contents (Elt F) → (⟨S2x100, .f32⟩ : BufTy).Contents (Elt F)),
    StableHlo.unary main_v1033 main_v1034 (broadcastInDim S2x100x1 ![0, 1] bcast_S2x100_S2x100x1_0_1 : (⟨S2x100, .f32⟩ : BufTy).Contents (Elt F) → (⟨S2x100x1, .f32⟩ : BufTy).Contents (Elt F)),
    StableHlo.nullary main_cst_416 (constant S_ .f32 0x00000000#32),
    StableHlo.binary main_v989 main_cst_416 main_v1035 ((fun x v => Host.reduceAdd x v reducesTo_S2x30x12544_S2x30_d2 h_S_) : (⟨S2x30x12544, .f32⟩ : BufTy).Contents (Elt F) → (⟨S_, .f32⟩ : BufTy).Contents (Elt F) → (⟨S2x30, .f32⟩ : BufTy).Contents (Elt F)),
    StableHlo.unary main_v1035 main_v1036 (broadcastInDim S2x1x30 ![0, 2] bcast_S2x30_S2x1x30_0_2 : (⟨S2x30, .f32⟩ : BufTy).Contents (Elt F) → (⟨S2x1x30, .f32⟩ : BufTy).Contents (Elt F)),
    StableHlo.unary main_v1034 main_v1037 (broadcastInDim S2x100x30 ![0, 1, 2] bcast_S2x100x1_S2x100x30_0_1_2 : (⟨S2x100x1, .f32⟩ : BufTy).Contents (Elt F) → (⟨S2x100x30, .f32⟩ : BufTy).Contents (Elt F)),
    StableHlo.unary main_v1036 main_v1038 (broadcastInDim S2x100x30 ![0, 1, 2] bcast_S2x1x30_S2x100x30_0_1_2 : (⟨S2x1x30, .f32⟩ : BufTy).Contents (Elt F) → (⟨S2x100x30, .f32⟩ : BufTy).Contents (Elt F)),
    StableHlo.binary main_v1037 main_v1038 main_v1039 (addf : (⟨S2x100x30, .f32⟩ : BufTy).Contents (Elt F) → (⟨S2x100x30, .f32⟩ : BufTy).Contents (Elt F) → (⟨S2x100x30, .f32⟩ : BufTy).Contents (Elt F)),
    StableHlo.nullary main_cst_417 (constant S_ .f32 0x3F800000#32),
    StableHlo.unary main_cst_417 main_v1040 (broadcastInDim S2x100x30 ![] bcast_S_S2x100x30 : (⟨S_, .f32⟩ : BufTy).Contents (Elt F) → (⟨S2x100x30, .f32⟩ : BufTy).Contents (Elt F)),
    StableHlo.binary main_v1032 main_v1040 main_v1041 (addf : (⟨S2x100x30, .f32⟩ : BufTy).Contents (Elt F) → (⟨S2x100x30, .f32⟩ : BufTy).Contents (Elt F) → (⟨S2x100x30, .f32⟩ : BufTy).Contents (Elt F)),
    StableHlo.nullary main_cst_418 (constant S_ .f32 0x3F800000#32),
    StableHlo.unary main_cst_418 main_v1042 (broadcastInDim S2x100x30 ![] bcast_S_S2x100x30 : (⟨S_, .f32⟩ : BufTy).Contents (Elt F) → (⟨S2x100x30, .f32⟩ : BufTy).Contents (Elt F)),
    StableHlo.binary main_v1039 main_v1042 main_v1043 (addf : (⟨S2x100x30, .f32⟩ : BufTy).Contents (Elt F) → (⟨S2x100x30, .f32⟩ : BufTy).Contents (Elt F) → (⟨S2x100x30, .f32⟩ : BufTy).Contents (Elt F)),
    StableHlo.binary main_v1041 main_v1043 main_v1044 (Host.divf : (⟨S2x100x30, .f32⟩ : BufTy).Contents (Elt F) → (⟨S2x100x30, .f32⟩ : BufTy).Contents (Elt F) → (⟨S2x100x30, .f32⟩ : BufTy).Contents (Elt F)),
    StableHlo.nullary main_cst_419 (constant S_ .f32 0x3F800000#32),
    StableHlo.unary main_cst_419 main_v1045 (broadcastInDim S2x100x30 ![] bcast_S_S2x100x30 : (⟨S_, .f32⟩ : BufTy).Contents (Elt F) → (⟨S2x100x30, .f32⟩ : BufTy).Contents (Elt F)),
    StableHlo.binary main_v1045 main_v1044 main_v1046 (subf : (⟨S2x100x30, .f32⟩ : BufTy).Contents (Elt F) → (⟨S2x100x30, .f32⟩ : BufTy).Contents (Elt F) → (⟨S2x100x30, .f32⟩ : BufTy).Contents (Elt F)),
    StableHlo.nullary main_cst_420 (constant S_ .f32 0x3F800000#32),
    StableHlo.unary main_cst_420 main_v1047 (broadcastInDim S2x100x30 ![] bcast_S_S2x100x30 : (⟨S_, .f32⟩ : BufTy).Contents (Elt F) → (⟨S2x100x30, .f32⟩ : BufTy).Contents (Elt F)),
    StableHlo.binary main_v1047 main_v1022 main_v1048 (mulf : (⟨S2x100x30, .f32⟩ : BufTy).Contents (Elt F) → (⟨S2x100x30, .f32⟩ : BufTy).Contents (Elt F) → (⟨S2x100x30, .f32⟩ : BufTy).Contents (Elt F)),
    StableHlo.nullary main_cst_421 (constant S_ .f32 0x3F800000#32),
    StableHlo.unary main_cst_421 main_v1049 (broadcastInDim S2x100x30 ![] bcast_S_S2x100x30 : (⟨S_, .f32⟩ : BufTy).Contents (Elt F) → (⟨S2x100x30, .f32⟩ : BufTy).Contents (Elt F)),
    StableHlo.binary main_v1049 main_v1008 main_v1050 (mulf : (⟨S2x100x30, .f32⟩ : BufTy).Contents (Elt F) → (⟨S2x100x30, .f32⟩ : BufTy).Contents (Elt F) → (⟨S2x100x30, .f32⟩ : BufTy).Contents (Elt F)),
    StableHlo.binary main_v1048 main_v1050 main_v1051 (addf : (⟨S2x100x30, .f32⟩ : BufTy).Contents (Elt F) → (⟨S2x100x30, .f32⟩ : BufTy).Contents (Elt F) → (⟨S2x100x30, .f32⟩ : BufTy).Contents (Elt F)),
    StableHlo.nullary main_cst_422 (constant S_ .f32 0x3F800000#32),
    StableHlo.unary main_cst_422 main_v1052 (broadcastInDim S2x100x30 ![] bcast_S_S2x100x30 : (⟨S_, .f32⟩ : BufTy).Contents (Elt F) → (⟨S2x100x30, .f32⟩ : BufTy).Contents (Elt F)),
    StableHlo.binary main_v1052 main_v1046 main_v1053 (mulf : (⟨S2x100x30, .f32⟩ : BufTy).Contents (Elt F) → (⟨S2x100x30, .f32⟩ : BufTy).Contents (Elt F) → (⟨S2x100x30, .f32⟩ : BufTy).Contents (Elt F)),
    StableHlo.binary main_v1051 main_v1053 main_v1054 (addf : (⟨S2x100x30, .f32⟩ : BufTy).Contents (Elt F) → (⟨S2x100x30, .f32⟩ : BufTy).Contents (Elt F) → (⟨S2x100x30, .f32⟩ : BufTy).Contents (Elt F)),
    StableHlo.nullary main_cst_423 (constant S_ .f32 0xD01502F9#32),
    StableHlo.nullary main_cst_424 (constant S_ .f32 0x501502F9#32),
    StableHlo.TRef.unary (.of main_cst_423 : StableHlo.TRef sig ⟨S_, .f32⟩) (.of main_call66_v0 : StableHlo.TRef sig ⟨S_, .f32⟩) id,
    StableHlo.TRef.unary (.of main_call66_v0 : StableHlo.TRef sig ⟨S_, .f32⟩) (.of main_call66_v1 : StableHlo.TRef sig ⟨S2x100x30, .f32⟩) (broadcastInDim S2x100x30 ![] bcast_S_S2x100x30),
    StableHlo.TRef.binary (.of main_call66_v1 : StableHlo.TRef sig ⟨S2x100x30, .f32⟩) (.of main_v1054 : StableHlo.TRef sig ⟨S2x100x30, .f32⟩) (.of main_call66_v2 : StableHlo.TRef sig ⟨S2x100x30, .f32⟩) maximumf,
    StableHlo.TRef.unary (.of main_cst_424 : StableHlo.TRef sig ⟨S_, .f32⟩) (.of main_call66_v3 : StableHlo.TRef sig ⟨S_, .f32⟩) id,
    StableHlo.TRef.unary (.of main_call66_v3 : StableHlo.TRef sig ⟨S_, .f32⟩) (.of main_call66_v4 : StableHlo.TRef sig ⟨S2x100x30, .f32⟩) (broadcastInDim S2x100x30 ![] bcast_S_S2x100x30),
    StableHlo.TRef.binary (.of main_call66_v4 : StableHlo.TRef sig ⟨S2x100x30, .f32⟩) (.of main_call66_v2 : StableHlo.TRef sig ⟨S2x100x30, .f32⟩) (.of main_v1055 : StableHlo.TRef sig ⟨S2x100x30, .f32⟩) minimumf,
    StableHlo.nullary main_cst_425 (constant S_ .f32 0x00000000#32),
    StableHlo.TRef.binary (.of main_v1055 : StableHlo.TRef sig ⟨S2x100x30, .f32⟩) (.of main_v1055 : StableHlo.TRef sig ⟨S2x100x30, .f32⟩) (.of main_call67_v0 : StableHlo.TRef sig ⟨S2x100x30, .i1⟩) (cmpf .une),
    StableHlo.TRef.unary (.of main_cst_425 : StableHlo.TRef sig ⟨S_, .f32⟩) (.of main_call67_v1 : StableHlo.TRef sig ⟨S_, .f32⟩) id,
    StableHlo.TRef.unary (.of main_call67_v1 : StableHlo.TRef sig ⟨S_, .f32⟩) (.of main_call67_call0_v0 : StableHlo.TRef sig ⟨S100x30, .f32⟩) (broadcastInDim S100x30 ![] bcast_S_S100x30),
    StableHlo.TRef.unary (.of main_call67_call0_v0 : StableHlo.TRef sig ⟨S100x30, .f32⟩) (.of main_call67_call0_v1 : StableHlo.TRef sig ⟨S2x100x30, .f32⟩) (broadcastInDim S2x100x30 ![1, 2] bcast_S100x30_S2x100x30_1_2),
    StableHlo.TRef.ternary (.of main_call67_v0 : StableHlo.TRef sig ⟨S2x100x30, .i1⟩) (.of main_call67_call0_v1 : StableHlo.TRef sig ⟨S2x100x30, .f32⟩) (.of main_v1055 : StableHlo.TRef sig ⟨S2x100x30, .f32⟩) (.of main_call67_v2 : StableHlo.TRef sig ⟨S2x100x30, .f32⟩) select,
    StableHlo.TRef.nullary (.of main_call67_cst : StableHlo.TRef sig ⟨S_, .f32⟩) (constant S_ .f32 0x7F800000#32),
    StableHlo.TRef.unary (.of main_call67_cst : StableHlo.TRef sig ⟨S_, .f32⟩) (.of main_call67_v3 : StableHlo.TRef sig ⟨S2x100x30, .f32⟩) (broadcastInDim S2x100x30 ![] bcast_S_S2x100x30),
    StableHlo.TRef.binary (.of main_call67_v2 : StableHlo.TRef sig ⟨S2x100x30, .f32⟩) (.of main_call67_v3 : StableHlo.TRef sig ⟨S2x100x30, .f32⟩) (.of main_call67_v4 : StableHlo.TRef sig ⟨S2x100x30, .i1⟩) (cmpf .oeq),
    StableHlo.TRef.nullary (.of main_call67_cst_0 : StableHlo.TRef sig ⟨S_, .f32⟩) (constant S_ .f32 0x7F7FFFFF#32),
    StableHlo.TRef.unary (.of main_call67_cst_0 : StableHlo.TRef sig ⟨S_, .f32⟩) (.of main_call67_call1_v0 : StableHlo.TRef sig ⟨S100x30, .f32⟩) (broadcastInDim S100x30 ![] bcast_S_S100x30),
    StableHlo.TRef.unary (.of main_call67_call1_v0 : StableHlo.TRef sig ⟨S100x30, .f32⟩) (.of main_call67_call1_v1 : StableHlo.TRef sig ⟨S2x100x30, .f32⟩) (broadcastInDim S2x100x30 ![1, 2] bcast_S100x30_S2x100x30_1_2),
    StableHlo.TRef.ternary (.of main_call67_v4 : StableHlo.TRef sig ⟨S2x100x30, .i1⟩) (.of main_call67_call1_v1 : StableHlo.TRef sig ⟨S2x100x30, .f32⟩) (.of main_call67_v2 : StableHlo.TRef sig ⟨S2x100x30, .f32⟩) (.of main_call67_v5 : StableHlo.TRef sig ⟨S2x100x30, .f32⟩) select,
    StableHlo.TRef.nullary (.of main_call67_cst_1 : StableHlo.TRef sig ⟨S_, .f32⟩) (constant S_ .f32 0xFF800000#32),
    StableHlo.TRef.unary (.of main_call67_cst_1 : StableHlo.TRef sig ⟨S_, .f32⟩) (.of main_call67_v6 : StableHlo.TRef sig ⟨S2x100x30, .f32⟩) (broadcastInDim S2x100x30 ![] bcast_S_S2x100x30),
    StableHlo.TRef.binary (.of main_call67_v5 : StableHlo.TRef sig ⟨S2x100x30, .f32⟩) (.of main_call67_v6 : StableHlo.TRef sig ⟨S2x100x30, .f32⟩) (.of main_call67_v7 : StableHlo.TRef sig ⟨S2x100x30, .i1⟩) (cmpf .oeq),
    StableHlo.TRef.nullary (.of main_call67_cst_2 : StableHlo.TRef sig ⟨S_, .f32⟩) (constant S_ .f32 0xFF7FFFFF#32),
    StableHlo.TRef.unary (.of main_call67_cst_2 : StableHlo.TRef sig ⟨S_, .f32⟩) (.of main_call67_call2_v0 : StableHlo.TRef sig ⟨S100x30, .f32⟩) (broadcastInDim S100x30 ![] bcast_S_S100x30),
    StableHlo.TRef.unary (.of main_call67_call2_v0 : StableHlo.TRef sig ⟨S100x30, .f32⟩) (.of main_call67_call2_v1 : StableHlo.TRef sig ⟨S2x100x30, .f32⟩) (broadcastInDim S2x100x30 ![1, 2] bcast_S100x30_S2x100x30_1_2),
    StableHlo.TRef.ternary (.of main_call67_v7 : StableHlo.TRef sig ⟨S2x100x30, .i1⟩) (.of main_call67_call2_v1 : StableHlo.TRef sig ⟨S2x100x30, .f32⟩) (.of main_call67_v5 : StableHlo.TRef sig ⟨S2x100x30, .f32⟩) (.of main_v1056 : StableHlo.TRef sig ⟨S2x100x30, .f32⟩) select ]

set_option maxRecDepth 8192 in
set_option maxHeartbeats 4000000 in
/-- Window main_part24 is its operations run in order: the called functions unfolded at their calls and sequencing re-associated, both sides are one chain of steps. -/
theorem main_part24_eq (c : Dev nD) : main_part24 (F := F) c = seq ops_part24 := by
  simp only [main_part24, fn_clip_2.body, fn_nan_to_num.body, fn_where_3.body, seq, bind_assoc, pure_bind] <;> rfl

set_option maxRecDepth 8192 in
/-- Every operation of the window reads and writes TensorCore buffers only. -/
theorem ops_part24_sub : (ops_part24 : List (HloOp τ sig (Elt F))).Forall fun op => op.bufs ⊆ tcRefs τ sig :=
  ⟨unary_bufs_sub .., binary_bufs_sub .., nullary_bufs_sub .., unary_bufs_sub .., binary_bufs_sub .., unary_bufs_sub .., binary_bufs_sub .., nullary_bufs_sub .., unary_bufs_sub .., binary_bufs_sub .., nullary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., binary_bufs_sub .., unary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub ..⟩

set_option maxRecDepth 8192 in
/-- Every operation of the window determines what it writes: none leaves a buffer at arbitrary contents. -/
theorem ops_part24_fresh : (ops_part24 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops_part24_W : List (Ref sig .tc) := [main_v1025, main_v1026, main_cst_413, main_v1027, main_v1028, main_v1029, main_v1030, main_cst_414, main_v1031, main_v1032, main_cst_415, main_v1033, main_v1034, main_cst_416, main_v1035, main_v1036, main_v1037, main_v1038, main_v1039, main_cst_417, main_v1040, main_v1041, main_cst_418, main_v1042, main_v1043, main_v1044, main_cst_419, main_v1045, main_v1046, main_cst_420, main_v1047, main_v1048, main_cst_421, main_v1049, main_v1050, main_v1051, main_cst_422, main_v1052, main_v1053, main_v1054, main_cst_423, main_cst_424, main_call66_v0, main_call66_v1, main_call66_v2, main_call66_v3, main_call66_v4, main_v1055, main_cst_425, main_call67_v0, main_call67_v1, main_call67_call0_v0, main_call67_call0_v1, main_call67_v2, main_call67_cst, main_call67_v3, main_call67_v4, main_call67_cst_0, main_call67_call1_v0, main_call67_call1_v1, main_call67_v5, main_call67_cst_1, main_call67_v6, main_call67_v7, main_call67_cst_2, main_call67_call2_v0, main_call67_call2_v1, main_v1056]

set_option maxRecDepth 8192 in
/-- Each operation of the window writes one buffer of that list. -/
theorem ops_part24_writes : (ops_part24 : List (HloOp τ sig (Elt F))).Forall fun op => op.writes ⊆ (ops_part24_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

end Cert.ReferenceIdeal.HandRun

end
-- ==== Proof.LibSeqChunks.lean ====
/-
  A long straight line of host operations, handled in stretches.

  A program that is several stretches of host operations run one after the other is the concatenation of the stretches'
  operation lists run in order; the buffer contents after the concatenation are the stretches' folds composed; a
  property of every operation of each stretch is a property of every operation of the whole line; and a buffer that no
  stretch writes keeps its launch contents through the whole line.
-/
import Idealize.ShloMosaic.Lib.StableHlo.Run

noncomputable section

namespace Cert.LibSeqChunks

open Idealize.ShloMosaic Idealize.ShloMosaic.StableHlo Idealize.SL Idealize.SL.Sem

universe u

variable {nD : Nat} {τ : Topo} {sig : RefSig} {Val : EltTy → Type} {Λ : Labels}

/-- Two programs that are each a list of operations run in order, run one after the other, are the concatenated list
    run in order. -/
theorem seq_bind_append {p₁ p₂ : Prog (TpuEff nD τ sig Val Λ .tc) PUnit} {l₁ l₂ : List (HloOp τ sig Val)}
    (h₁ : p₁ = seq l₁) (h₂ : p₂ = seq l₂) : (p₁ >>= fun _ => p₂) = seq (l₁ ++ l₂) := by
  rw [seq_append, h₁, h₂]

/-- The contents after two lists of operations joined are the contents after the second, started from the contents
    after the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- What holds of every element of two lists holds of every element of their concatenation. -/
theorem forall_append {α : Type u} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- If every operation of one list writes only buffers of `W₁` and every operation of another only buffers of `W₂`,
    every operation of the concatenation writes only buffers of `W₁ ++ W₂`. -/
theorem writes_append {l₁ l₂ : List (HloOp τ sig Val)} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  have e : ((W₁ ++ W₂).map (Proc.devRef (τ := τ) .tc)).toFinset
      = (W₁.map (Proc.devRef (τ := τ) .tc)).toFinset ∪ (W₂.map (Proc.devRef (τ := τ) .tc)).toFinset := by
    rw [List.map_append, List.toFinset_append]
  rw [e]
  exact forall_append
    (List.forall_iff_forall_mem.mpr fun op h => (List.forall_iff_forall_mem.mp h₁ op h).trans Finset.subset_union_left)
    (List.forall_iff_forall_mem.mpr fun op h => (List.forall_iff_forall_mem.mp h₂ op h).trans Finset.subset_union_right)

/-- A buffer outside a list holding every buffer the operations write keeps its contents through them (the fold's
    value at that buffer is the starting contents'). -/
theorem after_keep {ops : List (HloOp τ sig Val)} {W : List (Ref sig .tc)}
    (hW : ops.Forall fun op => op.writes ⊆ (W.map (Proc.devRef (τ := τ) .tc)).toFinset)
    {r : Ref sig .tc} (hr : r ∉ W) (V : Valuation τ sig Val) :
    after ops V (Proc.devRef .tc r) = V (Proc.devRef .tc r) :=
  after_of_writes_sub ops V hW hr

end Cert.LibSeqChunks

end
-- ==== Proof.RefRun.lean ====
/- The reference program's @main as ONE list of its 1838 host operations, the windows' lists joined in order, and its run:
   every weakly fair execution of @main terminates, the result buffer at the operations' fold over the launch contents
   (left as the fold: it is not evaluated here) and the five argument buffers unchanged (no operation writes them). -/
import proofs.«103167_j42614665511136_1_alg».proof.Proof.RefRunP0
import proofs.«103167_j42614665511136_1_alg».proof.Proof.RefRunP1
import proofs.«103167_j42614665511136_1_alg».proof.Proof.RefRunP2
import proofs.«103167_j42614665511136_1_alg».proof.Proof.RefRunP3
import proofs.«103167_j42614665511136_1_alg».proof.Proof.RefRunP4
import proofs.«103167_j42614665511136_1_alg».proof.Proof.RefRunP5
import proofs.«103167_j42614665511136_1_alg».proof.Proof.RefRunP6
import proofs.«103167_j42614665511136_1_alg».proof.Proof.RefRunP7
import proofs.«103167_j42614665511136_1_alg».proof.Proof.RefRunP8
import proofs.«103167_j42614665511136_1_alg».proof.Proof.RefRunP9
import proofs.«103167_j42614665511136_1_alg».proof.Proof.RefRunP10
import proofs.«103167_j42614665511136_1_alg».proof.Proof.RefRunP11
import proofs.«103167_j42614665511136_1_alg».proof.Proof.RefRunP12
import proofs.«103167_j42614665511136_1_alg».proof.Proof.LibSeqChunks

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo Cert.LibSeqChunks

variable {F : FTy → Type} [FloatOps F]

/-- @main's 1838 operations, in order: the windows' lists joined (a called function's operations stand in its call's place). -/
abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17 ++ (ops_part18 ++ (ops_part19 ++ (ops_part20 ++ (ops_part21 ++ (ops_part22 ++ (ops_part23 ++ (ops_part24))))))))))))))))))))))))

/-- The buffers @main's operations write, in order. -/
abbrev ops_W : List (Ref sig .tc) :=
  ops_part0_W ++ (ops_part1_W ++ (ops_part2_W ++ (ops_part3_W ++ (ops_part4_W ++ (ops_part5_W ++ (ops_part6_W ++ (ops_part7_W ++ (ops_part8_W ++ (ops_part9_W ++ (ops_part10_W ++ (ops_part11_W ++ (ops_part12_W ++ (ops_part13_W ++ (ops_part14_W ++ (ops_part15_W ++ (ops_part16_W ++ (ops_part17_W ++ (ops_part18_W ++ (ops_part19_W ++ (ops_part20_W ++ (ops_part21_W ++ (ops_part22_W ++ (ops_part23_W ++ (ops_part24_W))))))))))))))))))))))))

/-- @main is its operations run in order: it runs its windows in order, and each window is its list run in order. -/
theorem main_eq (c : Dev nD) : main (F := F) c = seq ops :=
  seq_bind_append (main_part0_eq c) (seq_bind_append (main_part1_eq c) (seq_bind_append (main_part2_eq c) (seq_bind_append (main_part3_eq c) (seq_bind_append (main_part4_eq c) (seq_bind_append (main_part5_eq c) (seq_bind_append (main_part6_eq c) (seq_bind_append (main_part7_eq c) (seq_bind_append (main_part8_eq c) (seq_bind_append (main_part9_eq c) (seq_bind_append (main_part10_eq c) (seq_bind_append (main_part11_eq c) (seq_bind_append (main_part12_eq c) (seq_bind_append (main_part13_eq c) (seq_bind_append (main_part14_eq c) (seq_bind_append (main_part15_eq c) (seq_bind_append (main_part16_eq c) (seq_bind_append (main_part17_eq c) (seq_bind_append (main_part18_eq c) (seq_bind_append (main_part19_eq c) (seq_bind_append (main_part20_eq c) (seq_bind_append (main_part21_eq c) (seq_bind_append (main_part22_eq c) (seq_bind_append (main_part23_eq c) (main_part24_eq c))))))))))))))))))))))))

/-- Every operation of @main reads and writes TensorCore buffers only. -/
theorem ops_sub : (ops : List (HloOp τ sig (Elt F))).Forall fun op => op.bufs ⊆ tcRefs τ sig :=
  forall_append ops_part0_sub (forall_append ops_part1_sub (forall_append ops_part2_sub (forall_append ops_part3_sub (forall_append ops_part4_sub (forall_append ops_part5_sub (forall_append ops_part6_sub (forall_append ops_part7_sub (forall_append ops_part8_sub (forall_append ops_part9_sub (forall_append ops_part10_sub (forall_append ops_part11_sub (forall_append ops_part12_sub (forall_append ops_part13_sub (forall_append ops_part14_sub (forall_append ops_part15_sub (forall_append ops_part16_sub (forall_append ops_part17_sub (forall_append ops_part18_sub (forall_append ops_part19_sub (forall_append ops_part20_sub (forall_append ops_part21_sub (forall_append ops_part22_sub (forall_append ops_part23_sub (ops_part24_sub))))))))))))))))))))))))

/-- Every operation of @main determines what it writes. -/
theorem ops_fresh : (ops : List (HloOp τ sig (Elt F))).Forall fun op => op.fresh = ∅ :=
  forall_append ops_part0_fresh (forall_append ops_part1_fresh (forall_append ops_part2_fresh (forall_append ops_part3_fresh (forall_append ops_part4_fresh (forall_append ops_part5_fresh (forall_append ops_part6_fresh (forall_append ops_part7_fresh (forall_append ops_part8_fresh (forall_append ops_part9_fresh (forall_append ops_part10_fresh (forall_append ops_part11_fresh (forall_append ops_part12_fresh (forall_append ops_part13_fresh (forall_append ops_part14_fresh (forall_append ops_part15_fresh (forall_append ops_part16_fresh (forall_append ops_part17_fresh (forall_append ops_part18_fresh (forall_append ops_part19_fresh (forall_append ops_part20_fresh (forall_append ops_part21_fresh (forall_append ops_part22_fresh (forall_append ops_part23_fresh (ops_part24_fresh))))))))))))))))))))))))

/-- Every operation of @main writes one buffer of the list. -/
theorem ops_writes : (ops : List (HloOp τ sig (Elt F))).Forall fun op => op.writes ⊆ (ops_W.map (Proc.devRef (τ := τ) .tc)).toFinset :=
  writes_append ops_part0_writes (writes_append ops_part1_writes (writes_append ops_part2_writes (writes_append ops_part3_writes (writes_append ops_part4_writes (writes_append ops_part5_writes (writes_append ops_part6_writes (writes_append ops_part7_writes (writes_append ops_part8_writes (writes_append ops_part9_writes (writes_append ops_part10_writes (writes_append ops_part11_writes (writes_append ops_part12_writes (writes_append ops_part13_writes (writes_append ops_part14_writes (writes_append ops_part15_writes (writes_append ops_part16_writes (writes_append ops_part17_writes (writes_append ops_part18_writes (writes_append ops_part19_writes (writes_append ops_part20_writes (writes_append ops_part21_writes (writes_append ops_part22_writes (writes_append ops_part23_writes (ops_part24_writes))))))))))))))))))))))))

/-- The contents after @main's operations are the windows' folds composed, first window innermost. -/
theorem after_ops (V : Valuation τ sig (Elt F)) :
    after ops V = after ops_part24 (after ops_part23 (after ops_part22 (after ops_part21 (after ops_part20 (after ops_part19 (after ops_part18 (after ops_part17 (after ops_part16 (after ops_part15 (after ops_part14 (after ops_part13 (after ops_part12 (after ops_part11 (after ops_part10 (after ops_part9 (after ops_part8 (after ops_part7 (after ops_part6 (after ops_part5 (after ops_part4 (after ops_part3 (after ops_part2 (after ops_part1 (after ops_part0 (V))))))))))))))))))))))))) := by
  simp only [ops, after_append]

set_option maxRecDepth 8192 in
/-- No operation of @main writes argument 0. -/
theorem main_arg0_not_written : main_arg0 ∉ ops_W := by
  simp only [ops_W, List.mem_append, not_or]
  exact ⟨by decide, by decide, by decide, by decide, by decide, by decide, by decide, by decide, by decide, by decide, by decide, by decide, by decide, by decide, by decide, by decide, by decide, by decide, by decide, by decide, by decide, by decide, by decide, by decide, by decide⟩

set_option maxRecDepth 8192 in
/-- No operation of @main writes argument 1. -/
theorem main_arg1_not_written : main_arg1 ∉ ops_W := by
  simp only [ops_W, List.mem_append, not_or]
  exact ⟨by decide, by decide, by decide, by decide, by decide, by decide, by decide, by decide, by decide, by decide, by decide, by decide, by decide, by decide, by decide, by decide, by decide, by decide, by decide, by decide, by decide, by decide, by decide, by decide, by decide⟩

set_option maxRecDepth 8192 in
/-- No operation of @main writes argument 2. -/
theorem main_arg2_not_written : main_arg2 ∉ ops_W := by
  simp only [ops_W, List.mem_append, not_or]
  exact ⟨by decide, by decide, by decide, by decide, by decide, by decide, by decide, by decide, by decide, by decide, by decide, by decide, by decide, by decide, by decide, by decide, by decide, by decide, by decide, by decide, by decide, by decide, by decide, by decide, by decide⟩

set_option maxRecDepth 8192 in
/-- No operation of @main writes argument 3. -/
theorem main_arg3_not_written : main_arg3 ∉ ops_W := by
  simp only [ops_W, List.mem_append, not_or]
  exact ⟨by decide, by decide, by decide, by decide, by decide, by decide, by decide, by decide, by decide, by decide, by decide, by decide, by decide, by decide, by decide, by decide, by decide, by decide, by decide, by decide, by decide, by decide, by decide, by decide, by decide⟩

set_option maxRecDepth 8192 in
/-- No operation of @main writes argument 4. -/
theorem main_arg4_not_written : main_arg4 ∉ ops_W := by
  simp only [ops_W, List.mem_append, not_or]
  exact ⟨by decide, by decide, by decide, by decide, by decide, by decide, by decide, by decide, by decide, by decide, by decide, by decide, by decide, by decide, by decide, by decide, by decide, by decide, by decide, by decide, by decide, by decide, by decide, by decide, by decide⟩

set_option maxRecDepth 16384 in
theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with the result buffer at the fold of @main's operations over the launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1056) = after ops (fun b => m (c, b)) (Proc.devRef .tc main_v1056)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h c main_v1056,
      (h c main_arg0).trans (after_keep ops_writes main_arg0_not_written _),
      (h c main_arg1).trans (after_keep ops_writes main_arg1_not_written _),
      (h c main_arg2).trans (after_keep ops_writes main_arg2_not_written _),
      (h c main_arg3).trans (after_keep ops_writes main_arg3_not_written _),
      (h c main_arg4).trans (after_keep ops_writes main_arg4_not_written _)⟩)
    (run_seq scopedRefs_eq scopedSems_eq defs main (fun _ => ops) main_eq (fun _ => ops_sub) m ρ
      (fun _ => List.forall_iff_forall_mem.mp ops_fresh))

end Cert.ReferenceIdeal.HandRun

end
-- ==== Proof.ClaimParts.lean ====
/-
  The two small conjuncts about the named constant.

  The kernel multiplies by the f32 literal nearest to 1/12544; its idealization names that literal, and the certificate's
  table gives the name the rational 1/12544.  So at the ideal instance the named constant IS 1/12544 (which is what lets the
  kernel's product meet the reference's division by 12544), and the "sanctioned idealization" claim is that rule's statement,
  once per site.
-/
import proofs.«103167_j42614665511136_1_alg».proof.Defs

noncomputable section

open Idealize.ShloMosaic

namespace Cert.Proof.Parts

/-- The kernel's named reciprocal denotes the rational 1/12544 at the ideal instance, by the certificate's table. -/
theorem inv_p : Named.named (F := Ideal) Cert.KernelIdeal.κ "inv_12544" (φ := .f32) 0x38A72F05#32 = ((1 / 12544 : ℝ) : EReal) :=
  IdealRules.named_const.ideal_named_scalar _ _ _ _ rfl

/-- The ledger's two entries (the same constant at two sites): each is the named-constant rule's statement. -/
theorem preserves : Cert.preserves_Kernel_KernelIdeal :=
  ⟨IdealRules.named_const.statement Cert.KernelIdeal.κ "inv_12544" .f32 0x38A72F05#32 ((1 / 12544 : ℝ) : EReal) rfl,
   IdealRules.named_const.statement Cert.KernelIdeal.κ "inv_12544" .f32 0x38A72F05#32 ((1 / 12544 : ℝ) : EReal) rfl⟩

end Cert.Proof.Parts

end
-- ==== Proof.CostSpec.lean ====
/-
  The pairwise matching cost of one batch as a function on the extended reals, written twice: once in the
  arrangement the kernel computes and once in the arrangement of the plain reference.

  For one batch there are 100 queries, 30 targets and 12544 sampled points.  `pred q p` is query `q`'s mask logit
  at point `p`, `tgt t p` target `t`'s mask value there, `cls q t` the (already negated) class probability.

  Both arrangements add three parts:
    * the binary cross-entropy part: the sum over points of softplus(-pred)/P * tgt + softplus(pred)/P * (1 - tgt);
      the kernel computes the second summand as (sum of softplus(pred)/P) - (sum of softplus(pred)/P * tgt),
      and multiplies by a constant standing for 1/P where the reference divides by P;
    * the class part `cls`;
    * the dice part 1 - (2 * sum(sigmoid(pred) * tgt) + 1) / (sum sigmoid(pred) + sum tgt + 1);
  then clamp to [-1e10, 1e10], and replace a NaN (and, in the reference, an infinity) by a finite number: on the
  extended reals there is no NaN, and a clamped value is never infinite, so these last selects change nothing.

  Float literals are kept as their 32-bit words read at the ideal instance.
-/
import Idealize.ShloMosaic.PureOps.Ideal

noncomputable section

open Idealize.ShloMosaic

namespace Cert.CostSpec

/-- An f32 word read as an extended real. -/
abbrev w (b : BitVec 32) : EReal := Ideal.ofBits .f32 b

abbrev z0 : EReal := w 0x00000000#32   -- 0
abbrev o1 : EReal := w 0x3F800000#32   -- 1
abbrev t2 : EReal := w 0x40000000#32   -- 2
abbrev nP : EReal := w 0x46440000#32   -- 12544, the number of points
abbrev lo : EReal := w 0xD01502F9#32   -- -1e10
abbrev hi : EReal := w 0x501502F9#32   -- 1e10
abbrev pInf : EReal := w 0x7F800000#32 -- +infinity
abbrev nInf : EReal := w 0xFF800000#32 -- -infinity
abbrev fMax : EReal := w 0x7F7FFFFF#32 -- the largest finite f32
abbrev fMin : EReal := w 0xFF7FFFFF#32 -- the smallest finite f32

/-- softplus y = log(1 + e^y), computed stably as max(y, 0) + log1p(exp(0 - |y - 0|)), under a select that would
    return y + 0 if y - 0 were not comparable with itself (the kernel's spelling of the test). -/
def softK (y : EReal) : EReal :=
  Scalar.select (Ideal.cmp .one (y - z0) (y - z0)) (y + z0)
    (max y z0 + Ideal.log1p (Ideal.exp (z0 - max (y - z0) (-(y - z0)))))

/-- The same, in the reference's spelling (an unordered-or-unequal test; a negation in place of 0 - x). -/
def softR (y : EReal) : EReal :=
  Scalar.select (Ideal.cmp .une (y - z0) (y - z0)) (y + z0)
    (max y z0 + Ideal.log1p (Ideal.exp (-(max (y - z0) (-(y - z0))))))

variable (pred : Fin 100 → Fin 12544 → EReal) (tgt : Fin 30 → Fin 12544 → EReal) (cls : Fin 100 → Fin 30 → EReal)

/-- The kernel's arrangement; `invP` is the constant the kernel multiplies by (it stands for 1/12544). -/
def costK (invP : EReal) (q : Fin 100) (t : Fin 30) : EReal :=
  let cePos (p : Fin 12544) : EReal := softK (z0 - pred q p) * invP
  let ceNeg (p : Fin 12544) : EReal := softK (pred q p) * invP
  let sg (p : Fin 12544) : EReal := Ideal.logistic (pred q p)
  let costPos := ∑ p, cePos p * tgt t p
  let costNegFull := ∑ p, ceNeg p * tgt t p
  let diceNum := ∑ p, sg p * tgt t p
  let mask := costPos + ((∑ p, ceNeg p) - costNegFull)
  let dice := o1 - Ideal.div (t2 * diceNum + o1) (((∑ p, sg p) + (∑ p, tgt t p)) + o1)
  let c := (o1 * mask + o1 * cls q t) + o1 * dice
  let cl := min hi (max lo c)
  Scalar.select (Ideal.cmp .one cl cl) z0 cl

/-- The reference's arrangement. -/
def costR (q : Fin 100) (t : Fin 30) : EReal :=
  let cePos (p : Fin 12544) : EReal := Ideal.div (softR (-(pred q p))) nP
  let ceNeg (p : Fin 12544) : EReal := Ideal.div (softR (pred q p)) nP
  let sg (p : Fin 12544) : EReal := Ideal.div o1 (o1 + Ideal.exp (-(pred q p)))
  let mask := (∑ p, cePos p * tgt t p) + (∑ p, ceNeg p * (o1 - tgt t p))
  let dice := o1 - Ideal.div (t2 * (∑ p, sg p * tgt t p) + o1) (((∑ p, sg p) + (∑ p, tgt t p)) + o1)
  let c := (o1 * mask + o1 * cls q t) + o1 * dice
  let cl := min hi (max lo c)
  let a := Scalar.select (Ideal.cmp .une cl cl) z0 cl
  let b := Scalar.select (Ideal.cmp .oeq a pInf) fMax a
  Scalar.select (Ideal.cmp .oeq b nInf) fMin b

end Cert.CostSpec

end
-- ==== Proof.LibMatmulRowsRows.lean ====
/-
  A matrix product of the "rows by rows" form, read at an entry.

  A record that contracts the second axis of BOTH operands and has no batch axis describes the product of an
  `a × K` array by the transpose of a `b × K` array: entry `(p, q)` pairs row `p` of the left operand with
  row `q` of the right one. At the ideal instance the product accumulated into an all-zero block has, at entry
  `(p, q)`, the value `Σ_k lhs[p, k] · rhs[q, k]` with `k` over `Fin K`: the accumulator's zero is the additive
  identity, and the record's contraction index set is `Fin K`. The record is a variable here, so one proof serves
  every product of this form in a program.
-/
import Idealize.ShloMosaic.Lib.ValueIdx
import Idealize.ShloMosaic.PureOps.Ideal.Laws

noncomputable section

namespace Idealize.ShloMosaic.MatmulRowsRows

open Idealize.ShloMosaic Idealize.ShloMosaic.ValueIdx
open scoped BigOperators

variable {a K b : ℕ} (D : DotDims (⟨2, ![a, K]⟩ : Shape) (⟨2, ![b, K]⟩ : Shape) (⟨2, ![a, b]⟩ : Shape))

/-- "Rows by rows": the second axis of each operand is contracted with the other's, each operand's first axis
    survives (the left one's first, then the right one's), and there is no batch axis. -/
structure RowsByRows : Prop where
  lc : D.lhsContracting = [1]
  rc : D.rhsContracting = [1]
  ln : D.lhsNonContracting = [0]
  rn : D.rhsNonContracting = [0]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the row the result's first coordinate names. -/
theorem lhsIdx_row (h : RowsByRows D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the row the result's second coordinate names. -/
theorem rhsIdx_row (h : RowsByRows D) (j : (⟨2, ![a, b]⟩ : Shape).Idx) (κ : D.contr.Idx) :
    (D.rhsIdx j κ 0).val = (j 1).val := by
  have hb : (0 : Fin (⟨2, ![b, K]⟩ : Shape).rank) ∉ D.rhsBatch := by rw [h.rb]; exact List.not_mem_nil
  have hn : (0 : Fin (⟨2, ![b, K]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[q, k]`. -/
theorem matmul_zero_rows_ix2 (h : RowsByRows D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![b, K]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 q k := funext fun ax => Fin.ext (by
    match ax with
    | ⟨0, _⟩ => exact rhsIdx_row h _ _
    | ⟨1, _⟩ => exact (D.rhsIdx_val_of_single h.rc _ _).trans hk)
  rw [el, er]

end Idealize.ShloMosaic.MatmulRowsRows
-- ==== Proof.LibLaneSum.lean ====
/-
  A lane sum read at a row.

  A kernel body sums an `a × K` block along its second axis (`vector.multi_reduction <add>` over axis 1, from the
  zero word) to get one number per row. At the ideal instance the result at row `r` is `Σ_k src[r, k]` with `k`
  over `Fin K`: the reduction's index set over a result index is the dropped axis's coordinates, and the
  accumulator's bit pattern (the sum's neutral element) does not enter the ideal sum.
-/
import Idealize.ShloMosaic.Lib.ValueIdx
import Idealize.ShloMosaic.PureOps.Ideal.Laws

noncomputable section

namespace Cert.LibLaneSum

open Idealize.ShloMosaic Idealize.ShloMosaic.ValueIdx
open scoped BigOperators

/-- Over row `r` of the result, the source index with coordinate `k` on the dropped second axis is `(r, k)`. -/
theorem lift_row {a K : ℕ} (h : (⟨2, ![a, K]⟩ : Shape).Reduces [1] ⟨1, ![a]⟩) (r : Fin a) (k : Fin K) :
    h.lift (ix1 r) k = ix2 r k :=
  funext fun c => Fin.ext (by
    match c with
    | ⟨0, _⟩ => rfl
    | ⟨1, _⟩ => rfl)

/-- A sum along the second axis of an `a × K` block, read at row `r`, is `Σ_k src[r, k]`. The accumulator word and
    the two side proofs are variables, so the lemma applies to the printed term whatever proofs it carries. -/
theorem laneSum_apply {a K : ℕ} {φ : FTy} (src : FVec Ideal (⟨2, ![a, K]⟩ : Shape) φ) (acc : BitVec φ.bits)
    (h : (⟨2, ![a, K]⟩ : Shape).Reduces [1] ⟨1, ![a]⟩) (hφ : FKind.Formats φ) (hacc : acc = FKind.add.neutral φ hφ)
    (r : Fin a) :
    multiReduction (F := Ideal) .add [1] ⟨1, ![a]⟩ src acc h hφ hacc (ix1 r) = ∑ k : Fin K, src (ix2 r k) :=
  (Ideal.multiReduction_add_single src acc h hφ hacc (ix1 r)).trans
    (Finset.sum_congr rfl fun k _ => congrArg src (lift_row h r k))

end Cert.LibLaneSum
-- ==== Proof.LibColumn.lean ====
/-
  A per-row scalar held as an n x 1 column, read at an entry.

  A tiled program keeps one scalar per row of an n x h matrix (a degree normaliser, a reciprocal degree) as an
  n x 1 column. Spread across the row — as a kernel body does with a broadcast, or the host with a
  broadcast-in-dimension along both axes — entry (p, q) is the column's entry (p, 0). The column itself is the
  length-n vector recast to n x 1 (a reshape, or a broadcast-in-dimension along axis 0): entry (p, 0) is the
  vector's entry p.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- Kernel form: an `[n, 1]` column broadcast to `[n, h]` reads, at `(p, q)`, the column at `(p, 0)`. -/
theorem broadcastTo_col_apply {n h : ℕ} (v : (⟨2, ![n, 1]⟩ : Shape).Idx → α)
    (hb : (⟨2, ![n, 1]⟩ : Shape).Broadcasts ⟨2, ![n, h]⟩) (p : Fin n) (q : Fin h) :
    broadcastTo ⟨2, ![n, h]⟩ v hb (ix2 p q) = v (ix2 p 0) :=
  broadcastTo_apply v hb (ix2 p q) (ix2 p (0 : Fin 1)) (fun a => by
    match a with
    | ⟨0, _⟩ =>
      show p.val = if n = 1 then 0 else p.val
      split_ifs with hn
      · have := p.isLt; omega
      · rfl
    | ⟨1, _⟩ => rfl)

/-- Host form: an `[n, 1]` column broadcast in dimension (axes 0 and 1) to `[n, h]` reads, at `(p, q)`, the column at
    `(p, 0)`. -/
theorem broadcastInDim_col_apply {n h : ℕ} (v : (⟨2, ![n, 1]⟩ : Shape).Idx → α)
    (hb : (⟨2, ![n, 1]⟩ : Shape).BroadcastsInDim ⟨2, ![n, h]⟩ ![0, 1]) (p : Fin n) (q : Fin h) :
    broadcastInDim ⟨2, ![n, h]⟩ ![0, 1] hb v (ix2 p q) = v (ix2 p 0) :=
  broadcastInDim_apply _ hb v (ix2 p q) (ix2 p (0 : Fin 1)) (fun a => by
    match a with
    | ⟨0, _⟩ =>
      show p.val = if n = 1 then 0 else p.val
      split_ifs with hn
      · have := p.isLt; omega
      · rfl
    | ⟨1, _⟩ => rfl)

/-- A length-`n` vector recast to the `[n, 1]` column reads, at `(p, 0)`, the vector at `p`. -/
theorem shapeCast_col_apply {n : ℕ} (v : (⟨1, ![n]⟩ : Shape).Idx → α)
    (hc : (⟨1, ![n]⟩ : Shape).ShapeCasts ⟨2, ![n, 1]⟩) (p : Fin n) :
    shapeCast ⟨2, ![n, 1]⟩ v hc (ix2 p 0) = v (ix1 p) := by
  refine shapeCast_apply v hc _ _ ?_
  rw [Shape.rowMajor_val_two, Shape.rowMajor_val_one]
  show p.val = p.val * 1 + 0
  omega

/-- A length-`n` vector broadcast in dimension (along axis 0) to the `[n, 1]` column reads, at `(p, 0)`, the vector at `p`. -/
theorem broadcastInDim_vec_col_apply {n : ℕ} (v : (⟨1, ![n]⟩ : Shape).Idx → α)
    (hb : (⟨1, ![n]⟩ : Shape).BroadcastsInDim ⟨2, ![n, 1]⟩ ![0]) (p : Fin n) :
    broadcastInDim ⟨2, ![n, 1]⟩ ![0] hb v (ix2 p 0) = v (ix1 p) :=
  broadcastInDim_apply _ hb v (ix2 p (0 : Fin 1)) (ix1 p) (fun a => by
    match a with
    | ⟨0, _⟩ =>
      show p.val = if n = 1 then 0 else p.val
      split_ifs with hn
      · have := p.isLt; omega
      · rfl)

/-- A length-`h` vector recast to the `[1, h]` row reads, at `(0, q)`, the vector at `q`. -/
theorem shapeCast_row_apply {h : ℕ} (v : (⟨1, ![h]⟩ : Shape).Idx → α)
    (hc : (⟨1, ![h]⟩ : Shape).ShapeCasts ⟨2, ![1, h]⟩) (q : Fin h) :
    shapeCast ⟨2, ![1, h]⟩ v hc (ix2 0 q) = v (ix1 q) := by
  refine shapeCast_apply v hc _ _ ?_
  rw [Shape.rowMajor_val_two, Shape.rowMajor_val_one]
  show q.val = 0 * h + q.val
  omega

/-- Kernel form: a `[1, h]` row broadcast to `[n, h]` reads, at `(p, q)`, the row at `(0, q)`. -/
theorem broadcastTo_row_apply {n h : ℕ} (v : (⟨2, ![1, h]⟩ : Shape).Idx → α)
    (hb : (⟨2, ![1, h]⟩ : Shape).Broadcasts ⟨2, ![n, h]⟩) (p : Fin n) (q : Fin h) :
    broadcastTo ⟨2, ![n, h]⟩ v hb (ix2 p q) = v (ix2 0 q) :=
  broadcastTo_apply v hb (ix2 p q) (ix2 (0 : Fin 1) q) (fun a => by
    match a with
    | ⟨0, _⟩ => rfl
    | ⟨1, _⟩ =>
      show q.val = if h = 1 then 0 else q.val
      split_ifs with hh
      · have := q.isLt; omega
      · rfl)

end Cert.LibColumn

end
-- ==== Proof.KernelPayload.lean ====
/-
  The kernel body's arithmetic, read index by index.

  The body loads the three blocks whole — the query logits `x0` ([1, 100, 12544]), the target masks `x1`
  ([1, 30, 12544]) and the class cost `x2` ([1, 100, 30]) — and stores one [1, 100, 30] block. Each named payload of
  the body is read here at an entry: the two leading-unit-axis casts, the two soft-plus terms scaled by the constant
  standing for 1/12544, the logistic, the three products against the transposed target block (a sum over the 12544
  points), and the final block: three lane sums spread along rows and columns, the dice quotient, the weighted sum,
  the clamp and the last select.
-/
import proofs.«103167_j42614665511136_1_alg».proof.Proof.Gen.KernelIdeal.Skeleton
import proofs.«103167_j42614665511136_1_alg».proof.Proof.CostSpec
import proofs.«103167_j42614665511136_1_alg».proof.Proof.LibMatmulRowsRows
import proofs.«103167_j42614665511136_1_alg».proof.Proof.LibLaneSum
import proofs.«103167_j42614665511136_1_alg».proof.Proof.LibColumn
import Idealize.ShloMosaic.Lib.ValueLayout

noncomputable section

namespace Cert.KernelIdeal.HandValue

open Cert.KernelIdeal Cert.KernelIdeal.Gen Idealize.ShloMosaic Idealize.ShloMosaic.ValueIdx Cert.CostSpec
open scoped BigOperators

/-- The constant the kernel multiplies by: it stands for 1/12544. -/
abbrev invP : EReal := Named.named (F := Ideal) Cert.KernelIdeal.κ "inv_12544" (φ := .f32) 0x38A72F05#32

/-- The contraction record of the body's three products is of the rows-by-rows form. -/
theorem dot_rowsByRows : MatmulRowsRows.RowsByRows dot_S100x12544_S30x12544_S100x30_1_1_0_0_n_n :=
  ⟨rfl, rfl, rfl, rfl, rfl, rfl⟩

/-- The query logits with the leading unit axis dropped: entry (q, p) is the block's (0, q, p). -/
theorem pay1_apply (x0 : Vec Ideal S1x100x12544 .f32) (q : Fin 100) (p : Fin 12544) :
    k0_pay1 x0 (ix2 q p) = x0 (ix3 0 q p) :=
  shapeCast_1ab_ab_apply x0 _ q p

/-- The target masks with the leading unit axis dropped: entry (t, p) is the block's (0, t, p). -/
theorem pay2_apply (x1 : Vec Ideal S1x30x12544 .f32) (t : Fin 30) (p : Fin 12544) :
    k0_pay2 x1 (ix2 t p) = x1 (ix3 0 t p) :=
  shapeCast_1ab_ab_apply x1 _ t p

/-- The negative-class cross-entropy term at (q, p): the soft-plus of the logit, times the constant. -/
theorem pay3_apply (x0 : Vec Ideal S1x100x12544 .f32) (q : Fin 100) (p : Fin 12544) :
    k0_pay3 x0 (ix2 q p) = softK (x0 (ix3 0 q p)) * invP := by
  show softK (k0_pay1 x0 (ix2 q p)) * invP = _
  rw [pay1_apply]

/-- The logistic of the logit at (q, p). -/
theorem pay4_apply (x0 : Vec Ideal S1x100x12544 .f32) (q : Fin 100) (p : Fin 12544) :
    k0_pay4 x0 (ix2 q p) = Ideal.logistic (x0 (ix3 0 q p)) := by
  show Ideal.logistic (k0_pay1 x0 (ix2 q p)) = _
  rw [pay1_apply]

/-- The positive-class cross-entropy product at (q, t): the sum over the points of the soft-plus of the negated
    logit, scaled, times the target mask. -/
theorem pay5_apply (x0 : Vec Ideal S1x100x12544 .f32) (x1 : Vec Ideal S1x30x12544 .f32) (q : Fin 100) (t : Fin 30) :
    k0_pay5 x0 x1 (ix2 q t) = ∑ p : Fin 12544, (softK (z0 - x0 (ix3 0 q p)) * invP) * x1 (ix3 0 t p) := by
  refine (MatmulRowsRows.matmul_zero_rows_ix2 dot_rowsByRows rfl rfl none _ _ q t).trans ?_
  refine Finset.sum_congr rfl fun p _ => ?_
  show (softK (z0 - k0_pay1 x0 (ix2 q p)) * invP) * k0_pay2 x1 (ix2 t p) = _
  rw [pay1_apply, pay2_apply]

/-- The negative-class cross-entropy product at (q, t). -/
theorem pay6_apply (x0 : Vec Ideal S1x100x12544 .f32) (x1 : Vec Ideal S1x30x12544 .f32) (q : Fin 100) (t : Fin 30) :
    k0_pay6 x0 x1 (ix2 q t) = ∑ p : Fin 12544, (softK (x0 (ix3 0 q p)) * invP) * x1 (ix3 0 t p) := by
  refine (MatmulRowsRows.matmul_zero_rows_ix2 dot_rowsByRows rfl rfl none _ _ q t).trans ?_
  refine Finset.sum_congr rfl fun p _ => ?_
  rw [pay3_apply, pay2_apply]

/-- The dice numerator's product at (q, t). -/
theorem pay7_apply (x0 : Vec Ideal S1x100x12544 .f32) (x1 : Vec Ideal S1x30x12544 .f32) (q : Fin 100) (t : Fin 30) :
    k0_pay7 x0 x1 (ix2 q t) = ∑ p : Fin 12544, Ideal.logistic (x0 (ix3 0 q p)) * x1 (ix3 0 t p) := by
  refine (MatmulRowsRows.matmul_zero_rows_ix2 dot_rowsByRows rfl rfl none _ _ q t).trans ?_
  refine Finset.sum_congr rfl fun p _ => ?_
  rw [pay4_apply, pay2_apply]

/-- The last two steps of the body on a number: clamp to [-1e10, 1e10], then the select on the comparison of the
    clamped value with itself. -/
def clampK (c : EReal) : EReal :=
  Scalar.select (Ideal.cmp .one (min hi (max lo c)) (min hi (max lo c))) z0 (min hi (max lo c))

/-- The stored block at (0, q, t), from the values the second half of the body is handed: the three lane sums are
    spread along the rows (per-query sums) and the columns (the per-target sum), the rest is pointwise. -/
theorem pay8_apply (v3 : FVec Ideal S30x12544 .f32) (v37 v38 : FVec Ideal S100x12544 .f32)
    (v39 v40 v41 : FVec Ideal S100x30 .f32) (v65 : Vec Ideal S1x100x30 .f32) (q : Fin 100) (t : Fin 30) :
    k0_pay8 v3 v37 v38 v39 v40 v41 v65 (ix3 0 q t)
      = clampK ((o1 * (v39 (ix2 q t) + ((∑ p : Fin 12544, v37 (ix2 q p)) - v40 (ix2 q t))) + o1 * v65 (ix3 0 q t))
          + o1 * (o1 - Ideal.div (t2 * v41 (ix2 q t) + o1)
              (((∑ p : Fin 12544, v38 (ix2 q p)) + (∑ p : Fin 12544, v3 (ix2 t p))) + o1))) := by
  have hA : ∀ w : FVec Ideal S100x12544 .f32,
      broadcastTo S100x30 (shapeCast S100x1 (multiReduction (F := Ideal) .add [1] S100 w 0x00000000#32
        reduces_S100x12544_S100 (.inl rfl) rfl) shapeCasts_S100_S100x1) broadcasts_S100x1_S100x30 (ix2 q t)
        = ∑ p : Fin 12544, w (ix2 q p) := fun w =>
    (Cert.LibColumn.broadcastTo_col_apply _ _ q t).trans
      ((Cert.LibColumn.shapeCast_col_apply _ _ q).trans (Cert.LibLaneSum.laneSum_apply w _ _ _ _ q))
  have hB : broadcastTo S100x30 (shapeCast S1x30 (multiReduction (F := Ideal) .add [1] S30 v3 0x00000000#32
        reduces_S30x12544_S30 (.inl rfl) rfl) shapeCasts_S30_S1x30) broadcasts_S1x30_S100x30 (ix2 q t)
        = ∑ p : Fin 12544, v3 (ix2 t p) :=
    (Cert.LibColumn.broadcastTo_row_apply _ _ q t).trans
      ((Cert.LibColumn.shapeCast_row_apply _ _ t).trans (Cert.LibLaneSum.laneSum_apply v3 _ _ _ _ t))
  have hC : shapeCast S100x30 v65 shapeCasts_S1x100x30_S100x30 (ix2 q t) = v65 (ix3 0 q t) :=
    shapeCast_1ab_ab_apply v65 _ q t
  unfold k0_pay8
  dsimp only
  refine (shapeCast_ab_1ab_apply _ _ 0 q t).trans ?_
  simp only [select_apply, cmpf_apply, minimumf_apply, maximumf_apply, addf_apply, subf_apply, mulf_apply, divf_apply,
    broadcast_apply]
  rw [hA v37, hA v38, hB, hC]
  rfl

/-- THE BODY AT AN ENTRY: the stored block at (0, q, t), as a function of the three loaded blocks, is the matching
    cost of the specification in the kernel's arrangement. -/
theorem body_apply (x0 : Vec Ideal S1x100x12544 .f32) (x1 : Vec Ideal S1x30x12544 .f32) (x2 : Vec Ideal S1x100x30 .f32)
    (q : Fin 100) (t : Fin 30) :
    k0_pay8 (k0_pay2 x1) (k0_pay3 x0) (k0_pay4 x0) (k0_pay5 x0 x1) (k0_pay6 x0 x1) (k0_pay7 x0 x1) x2 (ix3 0 q t)
      = costK (fun q p => x0 (ix3 0 q p)) (fun t p => x1 (ix3 0 t p)) (fun q t => x2 (ix3 0 q t)) invP q t := by
  rw [pay8_apply, pay5_apply, pay6_apply, pay7_apply]
  simp only [pay2_apply, pay3_apply, pay4_apply]
  rfl

end Cert.KernelIdeal.HandValue

end
-- ==== Proof.LibERealSums.lean ====
/-
  General facts about the extended reals as the ideal reading of float programs: what a few 32-bit float
  words denote, the comparisons of a value with itself, division by a nonzero real constant, the coercion
  of the reals through finite sums, the law  Σ a (1 - b) = Σ a - Σ a b  for real-valued summands, the
  finiteness of a clamped value, and the value of the stable spelling of softplus at a real.
  Nothing here mentions a particular program.
-/
import Idealize.ShloMosaic.PureOps.Ideal
import Idealize.ShloMosaic.PureOps.Ideal.Laws

noncomputable section

namespace Cert.LibERealSums

open Idealize.ShloMosaic

/-! ### Float words -/

/-- The real `2` and the extended real `2` are the same extended real. -/
theorem coe_two : ((2 : ℝ) : EReal) = 2 := by norm_cast

/-- The f32 word `0x3F800000` denotes `1`. -/
theorem ofBits_f32_one : Ideal.ofBits .f32 0x3F800000#32 = 1 := by
  simp [Ideal.ofBits, Ideal.ieee, -EReal.coe_mul]; norm_num

/-- The f32 word `0x40000000` denotes the real `2`. -/
theorem ofBits_f32_two_coe : Ideal.ofBits .f32 0x40000000#32 = ((2 : ℝ) : EReal) := by
  simp [Ideal.ofBits, Ideal.ieee, -EReal.coe_mul]; norm_num

/-- The f32 word `0x40000000` denotes `2`. -/
theorem ofBits_f32_two : Ideal.ofBits .f32 0x40000000#32 = 2 := by
  rw [ofBits_f32_two_coe, coe_two]

/-- The f32 word `0x46440000` denotes the real `12544` (= 112²). -/
theorem ofBits_f32_12544 : Ideal.ofBits .f32 0x46440000#32 = ((12544 : ℝ) : EReal) := by
  simp [Ideal.ofBits, Ideal.ieee, -EReal.coe_mul]; norm_num

/-- The f32 word `0x7F800000` denotes `⊤` (plus infinity). -/
theorem ofBits_f32_posInf : Ideal.ofBits .f32 0x7F800000#32 = ⊤ := by
  simp [Ideal.ofBits, Ideal.ieee]

/-- The f32 word `0xFF800000` denotes `⊥` (minus infinity). -/
theorem ofBits_f32_negInf : Ideal.ofBits .f32 0xFF800000#32 = ⊥ := by
  simp [Ideal.ofBits, Ideal.ieee]

/-- The f32 word `0x501502F9` denotes the real `10^10` exactly (`5^10 · 2^10`). -/
theorem ofBits_f32_pos1e10 : Ideal.ofBits .f32 0x501502F9#32 = ((10000000000 : ℝ) : EReal) := by
  simp [Ideal.ofBits, Ideal.ieee, -EReal.coe_mul]; norm_num

/-- The f32 word `0xD01502F9` denotes the real `-10^10` exactly. -/
theorem ofBits_f32_neg1e10 : Ideal.ofBits .f32 0xD01502F9#32 = ((-10000000000 : ℝ) : EReal) := by
  simp [Ideal.ofBits, Ideal.ieee, -EReal.coe_mul]; norm_num

/-! ### Comparisons and selects -/

/-- An extended real is never "ordered and unequal" to itself: the test answers `0`. -/
theorem cmp_one_self (x : EReal) : Ideal.cmp .one x x = 0#1 := by
  simp [Ideal.cmp]

/-- An extended real is never "unordered or unequal" to itself (there is no NaN): the test answers `0`. -/
theorem cmp_une_self (x : EReal) : Ideal.cmp .une x x = 0#1 := by
  simp [Ideal.cmp]

/-- The ordered-equal test of two different extended reals answers `0`. -/
theorem cmp_oeq_of_ne {x y : EReal} (h : x ≠ y) : Ideal.cmp .oeq x y = 0#1 := by
  simp [Ideal.cmp, h]

/-- A select on the condition `0` takes its second branch. -/
theorem select_zero {α : Type} (a b : α) : Scalar.select 0#1 a b = b := by
  simp [Scalar.select]

/-- Division by the real `12544` is multiplication by the real `1/12544`, at every extended real,
    the infinities included. -/
theorem div_12544 (x : EReal) : Ideal.div x ((12544 : ℝ) : EReal) = x * ((1 / 12544 : ℝ) : EReal) :=
  Ideal.div_coe (by norm_num) x

/-! ### Clamps -/

/-- A value clamped from above by a real is not `⊤`. -/
theorem clamp_ne_top (lo hi : ℝ) (c : EReal) : min (hi : EReal) (max (lo : EReal) c) ≠ ⊤ :=
  ne_of_lt (lt_of_le_of_lt (min_le_left _ _) (EReal.coe_lt_top hi))

/-- A value clamped into a real interval `[lo, hi]` with `lo ≤ hi` is not `⊥`. -/
theorem clamp_ne_bot {lo hi : ℝ} (h : lo ≤ hi) (c : EReal) : min (hi : EReal) (max (lo : EReal) c) ≠ ⊥ :=
  ne_of_gt (lt_of_lt_of_le (EReal.bot_lt_coe lo) (le_min (by exact_mod_cast h) (le_max_left _ _)))

/-! ### Coercions through `max` and finite sums -/

/-- The coercion of the reals into the extended reals commutes with `max`. -/
theorem coe_max (a b : ℝ) : ((max a b : ℝ) : EReal) = max (a : EReal) (b : EReal) :=
  EReal.coe_strictMono.monotone.map_max

/-- The coercion of the reals into the extended reals commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- For real summands, `Σ a (1 - b) = Σ a - Σ a b` on the extended reals (coerced reals). -/
theorem sum_mul_one_sub_coe {ι : Type*} (s : Finset ι) (a b : ι → ℝ) :
    ∑ i ∈ s, (a i : EReal) * (1 - (b i : EReal))
      = (∑ i ∈ s, (a i : EReal)) - ∑ i ∈ s, (a i : EReal) * (b i : EReal) := by
  have h1 : ∀ i, (a i : EReal) * (1 - (b i : EReal)) = ((a i * (1 - b i) : ℝ) : EReal) := by
    intro i; rw [EReal.coe_mul, EReal.coe_sub, EReal.coe_one]
  have h2 : ∀ i, (a i : EReal) * (b i : EReal) = ((a i * b i : ℝ) : EReal) :=
    fun i => (EReal.coe_mul _ _).symm
  simp only [h1, h2]
  rw [← coe_finset_sum, ← coe_finset_sum, ← coe_finset_sum, ← EReal.coe_sub]
  congr 1
  simp only [mul_sub, mul_one, Finset.sum_sub_distrib]

/-- For extended-real summands that are all finite, `Σ a (1 - b) = Σ a - Σ a b`. (Distributing and
    cancelling fail at the infinities, hence the two finiteness hypotheses.) -/
theorem sum_mul_one_sub {ι : Type*} (s : Finset ι) (a b : ι → EReal)
    (ha : ∀ i, ∃ r : ℝ, a i = (r : EReal)) (hb : ∀ i, ∃ r : ℝ, b i = (r : EReal)) :
    ∑ i ∈ s, a i * (1 - b i) = (∑ i ∈ s, a i) - ∑ i ∈ s, a i * b i := by
  choose a' ha' using ha
  choose b' hb' using hb
  obtain rfl : a = fun i => (a' i : EReal) := funext ha'
  obtain rfl : b = fun i => (b' i : EReal) := funext hb'
  exact sum_mul_one_sub_coe s a' b'

/-! ### Softplus -/

/-- The stable spelling of softplus, `max(y, 0) + log1p(exp(-|y|))` with `|y| = max(y, -y)`, at a real `r`
    is the real `max(r, 0) + log(1 + exp(-max(r, -r)))`: in particular it is finite. -/
theorem softplus_coe (r : ℝ) :
    max (r : EReal) 0 + Ideal.log1p (Ideal.exp (-(max (r : EReal) (-(r : EReal)))))
      = ((max r 0 + Real.log (1 + Real.exp (-(max r (-r)))) : ℝ) : EReal) := by
  have hpos : ¬ (1 + Real.exp (-(max r (-r))) ≤ 0) := by
    have : (0 : ℝ) < 1 + Real.exp (-(max r (-r))) := by positivity
    exact not_le.mpr this
  rw [← EReal.coe_neg, ← coe_max, ← EReal.coe_neg, Ideal.exp_coe, Ideal.log1p, ← EReal.coe_one, ← EReal.coe_add,
    Ideal.log_coe, if_neg hpos, ← EReal.coe_zero, ← coe_max, ← EReal.coe_add]

end Cert.LibERealSums

end
-- ==== Proof.CostAlgebra.lean ====
/-
  The two arrangements of the pairwise matching cost are one function on finite inputs.

  The kernel's arrangement multiplies by a constant standing for 1/P where the reference divides by P, spells
  the sigmoid as one operation where the reference spells it as a quotient, tests "is it NaN" with a different
  predicate, and computes  Σ a (1 - b)  as  Σ a - Σ a b.  On the extended reals the first three are identities
  at every value; the last one needs the summands finite, which is what the two hypotheses say.
-/
import proofs.«103167_j42614665511136_1_alg».proof.Proof.CostSpec
import proofs.«103167_j42614665511136_1_alg».proof.Proof.LibERealSums

noncomputable section

open Idealize.ShloMosaic

namespace Cert.CostAlgebra

open Cert.CostSpec Cert.LibERealSums

/-! ### The words -/

/-- The zero word denotes `0`. -/
theorem z0_eq : z0 = 0 := Ideal.ofBits_zero_f32
/-- The word of `1.0` denotes `1`. -/
theorem o1_eq : o1 = 1 := ofBits_f32_one
/-- The word of the number of points denotes the real `12544`. -/
theorem nP_eq : nP = ((12544 : ℝ) : EReal) := ofBits_f32_12544
/-- The upper clamp bound denotes the real `10^10`. -/
theorem hi_eq : hi = ((10000000000 : ℝ) : EReal) := ofBits_f32_pos1e10
/-- The lower clamp bound denotes the real `-10^10`. -/
theorem lo_eq : lo = ((-10000000000 : ℝ) : EReal) := ofBits_f32_neg1e10
/-- The word of plus infinity denotes `⊤`. -/
theorem pInf_eq : pInf = ⊤ := ofBits_f32_posInf
/-- The word of minus infinity denotes `⊥`. -/
theorem nInf_eq : nInf = ⊥ := ofBits_f32_negInf

/-! ### Softplus, in both spellings -/

/-- The kernel's softplus is `max(y, 0) + log1p(exp(-max(y, -y)))` at every extended real. -/
theorem softK_eq (y : EReal) : softK y = max y 0 + Ideal.log1p (Ideal.exp (-(max y (-y)))) := by
  rw [softK, cmp_one_self, select_zero, z0_eq, sub_zero, zero_sub]

/-- The reference's softplus is the same expression. -/
theorem softR_eq (y : EReal) : softR y = max y 0 + Ideal.log1p (Ideal.exp (-(max y (-y)))) := by
  rw [softR, cmp_une_self, select_zero, z0_eq, sub_zero]

/-- The two spellings of softplus agree at every extended real. -/
theorem softK_eq_softR (y : EReal) : softK y = softR y := by
  rw [softK_eq, softR_eq]

/-- Softplus of a real is a real. -/
theorem softR_coe (r : ℝ) : ∃ s : ℝ, softR (r : EReal) = (s : EReal) :=
  ⟨_, by rw [softR_eq, softplus_coe]⟩

/-! ### The closing selects -/

/-- The kernel's closing select returns the clamped value. -/
theorem tailK (cl : EReal) : Scalar.select (Ideal.cmp .one cl cl) z0 cl = cl := by
  rw [cmp_one_self, select_zero]

/-- The reference's three closing selects return the value when it is neither infinity. -/
theorem tailR (cl : EReal) (h1 : cl ≠ ⊤) (h2 : cl ≠ ⊥) :
    Scalar.select
        (Ideal.cmp .oeq
          (Scalar.select (Ideal.cmp .oeq (Scalar.select (Ideal.cmp .une cl cl) z0 cl) pInf) fMax
            (Scalar.select (Ideal.cmp .une cl cl) z0 cl))
          nInf)
        fMin
        (Scalar.select (Ideal.cmp .oeq (Scalar.select (Ideal.cmp .une cl cl) z0 cl) pInf) fMax
          (Scalar.select (Ideal.cmp .une cl cl) z0 cl)) = cl := by
  have ha : Scalar.select (Ideal.cmp .une cl cl) z0 cl = cl := by rw [cmp_une_self, select_zero]
  have hb : Scalar.select (Ideal.cmp .oeq cl pInf) fMax cl = cl := by
    rw [cmp_oeq_of_ne (by rw [pInf_eq]; exact h1), select_zero]
  have hc : Scalar.select (Ideal.cmp .oeq cl nInf) fMin cl = cl := by
    rw [cmp_oeq_of_ne (by rw [nInf_eq]; exact h2), select_zero]
  rw [ha, hb, hc]

/-- A value clamped to `[lo, hi]` is not `⊤`. -/
theorem clamp_hi_lo_ne_top (c : EReal) : min hi (max lo c) ≠ ⊤ := by
  rw [hi_eq, lo_eq]; exact clamp_ne_top _ _ c

/-- A value clamped to `[lo, hi]` is not `⊥`. -/
theorem clamp_hi_lo_ne_bot (c : EReal) : min hi (max lo c) ≠ ⊥ := by
  rw [hi_eq, lo_eq]; exact clamp_ne_bot (by norm_num) c

/-! ### The cost -/

/-- On finite mask logits and finite target values, and with the multiplier equal to `1/12544`, the kernel's
    arrangement of the cost and the reference's arrangement are the same extended real, for every query and target. -/
theorem costK_eq_costR (invP : EReal) (hinv : invP = ((1 / 12544 : ℝ) : EReal))
    (pred : Fin 100 → Fin 12544 → EReal) (tgt : Fin 30 → Fin 12544 → EReal) (cls : Fin 100 → Fin 30 → EReal)
    (hp : ∀ q p, ∃ r : ℝ, pred q p = (r : EReal)) (ht : ∀ t p, ∃ r : ℝ, tgt t p = (r : EReal))
    (q : Fin 100) (t : Fin 30) :
    Cert.CostSpec.costK pred tgt cls invP q t = Cert.CostSpec.costR pred tgt cls q t := by
  subst hinv
  -- each summand softplus(pred)/P is a real
  have hsoft : ∀ p, ∃ r : ℝ, softR (pred q p) * ((1 / 12544 : ℝ) : EReal) = (r : EReal) := by
    intro p
    obtain ⟨r, hr⟩ := hp q p
    obtain ⟨s, hs⟩ := softR_coe r
    exact ⟨s * (1 / 12544), by rw [hr, hs, EReal.coe_mul]⟩
  -- the cross-entropy parts agree
  have hmask :
      (∑ p, softK (z0 - pred q p) * ((1 / 12544 : ℝ) : EReal) * tgt t p)
        + ((∑ p, softK (pred q p) * ((1 / 12544 : ℝ) : EReal))
            - ∑ p, softK (pred q p) * ((1 / 12544 : ℝ) : EReal) * tgt t p)
      = (∑ p, Ideal.div (softR (-(pred q p))) nP * tgt t p)
        + (∑ p, Ideal.div (softR (pred q p)) nP * (o1 - tgt t p)) := by
    simp only [z0_eq, zero_sub, softK_eq_softR, nP_eq, div_12544, o1_eq]
    rw [sum_mul_one_sub _ _ _ hsoft (ht t)]
  -- the two spellings of the sigmoid agree
  have hsg : ∀ p, Ideal.logistic (pred q p) = Ideal.div o1 (o1 + Ideal.exp (-(pred q p))) := by
    intro p; rw [o1_eq]; rfl
  unfold costK costR
  simp only []
  rw [tailK, tailR _ (clamp_hi_lo_ne_top _) (clamp_hi_lo_ne_bot _)]
  simp only [hsg]
  rw [hmask]

end Cert.CostAlgebra

end
-- ==== Proof.CostArray.lean ====
/-
  The cost array: the pairwise matching cost of both batches as ONE function of three sampled arrays, and the bridge
  from a result written in the reference's arrangement.

  `costArr A0 A1 A2` at (b, q, t) is the kernel's arrangement of the cost of batch `b` of the sampled query logits
  `A0` ([2, 100, 12544]), the sampled target masks `A1` ([2, 30, 12544]) and the class cost `A2` ([2, 100, 30]).
  A [2, 100, 30] array that holds, entry by entry, the reference's arrangement of the cost of three arrays equal to
  these, all of whose sampled values are real numbers, is that array: the two arrangements agree on real sampled values
  when the kernel's multiplier is 1/12544.
-/
import proofs.«103167_j42614665511136_1_alg».proof.Proof.KernelPayload
import proofs.«103167_j42614665511136_1_alg».proof.Proof.CostAlgebra
import Idealize.ShloMosaic.Lib.ValueIdx

noncomputable section

namespace Cert.KernelIdeal.HandValue

open Cert.KernelIdeal Idealize.ShloMosaic Idealize.ShloMosaic.ValueIdx Cert.CostSpec

/-- The whole result as ONE function of the three arrays the launch reads: entry (b, q, t) is the matching cost of
    batch `b` of each. -/
abbrev costArr (A0 : S2x100x12544.Idx → EReal) (A1 : S2x30x12544.Idx → EReal) (A2 : S2x100x30.Idx → EReal) :
    S2x100x30.Idx → EReal :=
  fun i => costK (fun q p => A0 (ix3 (i 0 : Fin 2) q p)) (fun t p => A1 (ix3 (i 0 : Fin 2) t p))
    (fun q t => A2 (ix3 (i 0 : Fin 2) q t)) invP (i 1 : Fin 100) (i 2 : Fin 30)

/-- The cost array at an entry given by its three coordinates. -/
theorem costArr_apply (A0 : S2x100x12544.Idx → EReal) (A1 : S2x30x12544.Idx → EReal) (A2 : S2x100x30.Idx → EReal)
    (b : Fin 2) (q : Fin 100) (s : Fin 30) :
    costArr A0 A1 A2 (ix3 b q s)
      = costK (fun q p => A0 (ix3 b q p)) (fun s p => A1 (ix3 b s p)) (fun q s => A2 (ix3 b q s)) invP q s := rfl

/-- A result array `out` that is some function `tail` of three arrays `Rp`, `Rt`, `Rc`, where `tail` reads at (b, q, t) as
    the reference's arrangement of the cost of batch `b`, is the cost array of any three arrays `Kp`, `Kt`, `Kc` equal to
    them, provided the sampled logits and masks are real numbers and the multiplier is 1/12544. -/
theorem eq_costArr_of (out : S2x100x30.Idx → EReal)
    (Kp Rp : S2x100x12544.Idx → EReal) (Kt Rt : S2x30x12544.Idx → EReal) (Kc Rc : S2x100x30.Idx → EReal)
    (tail : (S2x100x12544.Idx → EReal) → (S2x30x12544.Idx → EReal) → (S2x100x30.Idx → EReal) → S2x100x30.Idx → EReal)
    (hout : out = tail Rp Rt Rc)
    (htail : ∀ (b : Fin 2) (q : Fin 100) (t : Fin 30), tail Rp Rt Rc (ix3 b q t)
      = costR (fun q p => Rp (ix3 b q p)) (fun t p => Rt (ix3 b t p)) (fun q t => Rc (ix3 b q t)) q t)
    (hp : Kp = Rp) (ht : Kt = Rt) (hc : Kc = Rc)
    (hpr : ∀ i, ∃ r : ℝ, Rp i = (r : EReal)) (htr : ∀ i, ∃ r : ℝ, Rt i = (r : EReal))
    (hinv : invP = ((1 / 12544 : ℝ) : EReal)) :
    out = costArr Kp Kt Kc := by
  subst hp ht hc hout
  funext i
  obtain ⟨b, q, t, rfl⟩ : ∃ (b : Fin 2) (q : Fin 100) (t : Fin 30), i = ix3 b q t := ⟨i 0, i 1, i 2, eq_ix3 i⟩
  rw [htail, costArr_apply]
  exact (Cert.CostAlgebra.costK_eq_costR invP hinv _ _ _ (fun q p => hpr _) (fun t p => htr _) q t).symm

end Cert.KernelIdeal.HandValue

end
-- ==== Proof.KernelValue.lean ====
/-
  The kernel's value.

  The grid has two points, one per batch `b`. At point `b` the pipeline hands the body batch `b` of the sampled
  query logits ([1, 100, 12544] of the [2, 100, 12544] array), of the sampled target masks ([1, 30, 12544]) and of
  the class cost ([1, 100, 30]), and writes back the stored block as batch `b` of the [2, 100, 30] result.
  The stored block at (0, q, t) is the specification's matching cost of the three loaded blocks; the two output
  blocks tile the result array; so after the run the result array is, entry by entry, the matching cost of its
  batch of the three arrays as the launch finds them.
-/
import proofs.«103167_j42614665511136_1_alg».proof.Proof.KernelIdealFrameP
import proofs.«103167_j42614665511136_1_alg».proof.Proof.KernelPayload
import proofs.«103167_j42614665511136_1_alg».proof.Proof.CostArray
import Idealize.ShloMosaic.Lib.Pipeline.Value

noncomputable section

namespace Cert.KernelIdeal.HandValue

open Cert.KernelIdeal Cert.KernelIdeal.Gen Cert.KernelIdeal.GenP Idealize.ShloMosaic Idealize.ShloMosaic.TcCoe
open Idealize.ShloMosaic.ValueIdx Idealize.SL.Sem Cert.CostSpec
open Idealize.ShloMosaic.Pipeline (Dat)

variable (m : (ℓ : Loc nD τ sig) → Buf (Elt Ideal) ℓ) (ρ : Dev nD → PrngReg)

/-- The zero offsets of the body's whole-block accesses. -/
theorem hz3 : (![0, 0, 0] : Fin 3 → Nat) = fun _ => 0 := funext fun a => by fin_cases a <;> rfl

/-- THE STORED BLOCK AT AN ENTRY: what the body leaves in the output's buffer, read at (0, q, t), is the matching cost
    of the three loaded blocks. -/
theorem payload_eq (x0 : Vec Ideal S1x100x12544 .f32) (x1 : Vec Ideal S1x30x12544 .f32) (x2 : Vec Ideal S1x100x30 .f32)
    (q : Fin 100) (t : Fin 30) :
    GenP.out0_3 x0 x1 x2 (ix3 0 q t)
      = costK (fun q p => x0 (ix3 0 q p)) (fun t p => x1 (ix3 0 t p)) (fun q t => x2 (ix3 0 q t)) invP q t := by
  unfold GenP.out0_3
  rw [View.canon_unit_zero hz3]
  simp only [View.ld_unit_zero (S := S1x100x12544) hz3, View.ld_unit_zero (S := S1x30x12544) hz3,
    View.ld_unit_zero (S := S1x100x30) hz3]
  exact body_apply x0 x1 x2 q t

/-- The printed index maps, decided over the two grid points: every window sits at the point's batch on the leading
    axis and at block 0 on the two others. -/
theorem idx_facts : ∀ t : Fin cfg0.N,
      win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (2 : Fin 3) = 0 ∧ win0_3.index t (0 : Fin 3) < 2 :=
  (by decide +kernel : ∀ t : Fin grid0.N, _)

/-- Every batch is some point's. -/
theorem idx_onto : ∀ b : Fin 2, ∃ t : Fin cfg0.N, win0_3.index t (0 : Fin 3) = b.val :=
  (by decide +kernel : ∀ b : Fin 2, ∃ t : Fin grid0.N, win0_3.index t (0 : Fin 3) = b.val)

/-- A block of the logits array at point `t`, whatever the array holds: entry (0, q, p) of the block is entry
    (b, q, p) of the array, `b` the point's batch. -/
theorem blk0_read (c : Dev nD) (A : Buf (Elt Ideal) ((c : Thread nD τ).loc main_v390)) (t : Fin cfg0.N)
    (q : Fin 100) (p : Fin 12544) (b : Fin 2) (hb : b.val = win0_3.index t (0 : Fin 3)) :
    (((cfg0.win 0).blk t).view.read (Elt Ideal) A : Vec Ideal S1x100x12544 .f32) (ix3 0 q p)
      = (A : S2x100x12544.Idx → EReal) (ix3 b q p) := by
  obtain ⟨e0, e1, e2, -⟩ := idx_facts t
  show (A : S2x100x12544.Idx → EReal) (((cfg0.win 0).blk t).view.emb (ix3 0 q p)) = _
  refine congrArg (A : S2x100x12544.Idx → EReal) (funext fun a => Fin.ext ?_)
  match a with
  | ⟨0, _⟩ => show win0_0.index t (0 : Fin 3) * 1 + 1 * 0 = b.val; omega
  | ⟨1, _⟩ => show win0_0.index t (1 : Fin 3) * 100 + 1 * q.val = q.val; omega
  | ⟨2, _⟩ => show win0_0.index t (2 : Fin 3) * 12544 + 1 * p.val = p.val; omega

/-- The same for a block of the masks array. -/
theorem blk1_read (c : Dev nD) (A : Buf (Elt Ideal) ((c : Thread nD τ).loc main_v781)) (t : Fin cfg0.N)
    (s : Fin 30) (p : Fin 12544) (b : Fin 2) (hb : b.val = win0_3.index t (0 : Fin 3)) :
    (((cfg0.win 1).blk t).view.read (Elt Ideal) A : Vec Ideal S1x30x12544 .f32) (ix3 0 s p)
      = (A : S2x30x12544.Idx → EReal) (ix3 b s p) := by
  obtain ⟨-, -, -, e0, e1, e2, -⟩ := idx_facts t
  show (A : S2x30x12544.Idx → EReal) (((cfg0.win 1).blk t).view.emb (ix3 0 s p)) = _
  refine congrArg (A : S2x30x12544.Idx → EReal) (funext fun a => Fin.ext ?_)
  match a with
  | ⟨0, _⟩ => show win0_1.index t (0 : Fin 3) * 1 + 1 * 0 = b.val; omega
  | ⟨1, _⟩ => show win0_1.index t (1 : Fin 3) * 30 + 1 * s.val = s.val; omega
  | ⟨2, _⟩ => show win0_1.index t (2 : Fin 3) * 12544 + 1 * p.val = p.val; omega

/-- The same for a block of the class-cost array. -/
theorem blk2_read (c : Dev nD) (A : Buf (Elt Ideal) ((c : Thread nD τ).loc main_v800)) (t : Fin cfg0.N)
    (q : Fin 100) (s : Fin 30) (b : Fin 2) (hb : b.val = win0_3.index t (0 : Fin 3)) :
    (((cfg0.win 2).blk t).view.read (Elt Ideal) A : Vec Ideal S1x100x30 .f32) (ix3 0 q s)
      = (A : S2x100x30.Idx → EReal) (ix3 b q s) := by
  obtain ⟨-, -, -, -, -, -, e0, e1, e2, -⟩ := idx_facts t
  show (A : S2x100x30.Idx → EReal) (((cfg0.win 2).blk t).view.emb (ix3 0 q s)) = _
  refine congrArg (A : S2x100x30.Idx → EReal) (funext fun a => Fin.ext ?_)
  match a with
  | ⟨0, _⟩ => show win0_2.index t (0 : Fin 3) * 1 + 1 * 0 = b.val; omega
  | ⟨1, _⟩ => show win0_2.index t (1 : Fin 3) * 100 + 1 * q.val = q.val; omega
  | ⟨2, _⟩ => show win0_2.index t (2 : Fin 3) * 30 + 1 * s.val = s.val; omega

/-- The input windows' blocks are reads of the three arrays the launch finds. -/
theorem iblk0_eq (c : Dev nD) (t : Fin cfg0.N) :
    iblk m c 0 t = ((cfg0.win 0).blk t).view.read (Elt Ideal) (V m c main_v390) := rfl
theorem iblk1_eq (c : Dev nD) (t : Fin cfg0.N) :
    iblk m c 1 t = ((cfg0.win 1).blk t).view.read (Elt Ideal) (V m c main_v781) := rfl
theorem iblk2_eq (c : Dev nD) (t : Fin cfg0.N) :
    iblk m c 2 t = ((cfg0.win 2).blk t).view.read (Elt Ideal) (V m c main_v800) := rfl

/-- The matching cost of the blocks of three arrays at a point, at an entry of the block, is the cost array of the
    three arrays at the entry's place in the result array: the point's batch, the same query and target. -/
theorem cost_blocks (c : Dev nD) (A0 : Buf (Elt Ideal) ((c : Thread nD τ).loc main_v390))
    (A1 : Buf (Elt Ideal) ((c : Thread nD τ).loc main_v781)) (A2 : Buf (Elt Ideal) ((c : Thread nD τ).loc main_v800))
    (t : Fin cfg0.N) (q : Fin 100) (s : Fin 30) (b : Fin 2) (hb : b.val = win0_3.index t (0 : Fin 3)) :
    costK (fun q p => (((cfg0.win 0).blk t).view.read (Elt Ideal) A0 : Vec Ideal S1x100x12544 .f32) (ix3 0 q p))
        (fun s p => (((cfg0.win 1).blk t).view.read (Elt Ideal) A1 : Vec Ideal S1x30x12544 .f32) (ix3 0 s p))
        (fun q s => (((cfg0.win 2).blk t).view.read (Elt Ideal) A2 : Vec Ideal S1x100x30 .f32) (ix3 0 q s)) invP q s
      = costArr A0 A1 A2 (ix3 b q s) := by
  have e0 : (fun (q : Fin 100) (p : Fin 12544) =>
      (((cfg0.win 0).blk t).view.read (Elt Ideal) A0 : Vec Ideal S1x100x12544 .f32) (ix3 0 q p))
      = fun q p => (A0 : S2x100x12544.Idx → EReal) (ix3 b q p) :=
    funext fun q => funext fun p => blk0_read c A0 t q p b hb
  have e1 : (fun (s : Fin 30) (p : Fin 12544) =>
      (((cfg0.win 1).blk t).view.read (Elt Ideal) A1 : Vec Ideal S1x30x12544 .f32) (ix3 0 s p))
      = fun s p => (A1 : S2x30x12544.Idx → EReal) (ix3 b s p) :=
    funext fun s => funext fun p => blk1_read c A1 t s p b hb
  have e2 : (fun (q : Fin 100) (s : Fin 30) =>
      (((cfg0.win 2).blk t).view.read (Elt Ideal) A2 : Vec Ideal S1x100x30 .f32) (ix3 0 q s))
      = fun q s => (A2 : S2x100x30.Idx → EReal) (ix3 b q s) :=
    funext fun q => funext fun s => blk2_read c A2 t q s b hb
  rw [e0, e1, e2]

/-- What the body leaves at point `t`, read at an entry of the block, is the cost array at the entry's place in the
    result array. -/
theorem block_entry (c : Dev nD) (t : Fin cfg0.N) (q : Fin 100) (s : Fin 30) (b : Fin 2)
    (hb : b.val = win0_3.index t (0 : Fin 3)) :
    out0_3 (iblk m c 0 t) (iblk m c 1 t) (iblk m c 2 t) (ix3 0 q s)
      = costArr (V m c main_v390) (V m c main_v781) (V m c main_v800) (ix3 b q s) := by
  refine (payload_eq (iblk m c 0 t) (iblk m c 1 t) (iblk m c 2 t) q s).trans ?_
  rw [iblk0_eq, iblk1_eq, iblk2_eq]
  exact cost_blocks c (V m c main_v390) (V m c main_v781) (V m c main_v800) t q s b hb

/-- A block of the result array at point `t`, whatever the staging buffer `X` and the array `G` hold: if the buffer's
    entry (0, q, s) is the array's entry (b, q, s) for the point's batch `b`, the buffer is the array's block. -/
theorem cut_eq_read_blk3 (c : Dev nD) (t : Fin cfg0.N) (X : Vec Ideal S1x100x30 .f32)
    (G : Buf (Elt Ideal) ((c : Thread nD τ).loc main_v801))
    (h : ∀ (q : Fin 100) (s : Fin 30) (b : Fin 2), b.val = win0_3.index t (0 : Fin 3) →
      X (ix3 0 q s) = (G : S2x100x30.Idx → EReal) (ix3 b q s)) :
    (cfg0.win 3).cut (grid0.coords t) X = ((cfg0.win 3).blk t).view.read (Elt Ideal) G := by
  obtain ⟨-, -, -, -, -, -, -, -, -, e31, e32, e3lt⟩ := idx_facts t
  funext j
  have hj0 : (j 0).val < 1 := (j 0).isLt
  have hj1 : (j 1).val < 100 := (j 1).isLt
  have hj2 : (j 2).val < 30 := (j 2).isLt
  have hl : (cfg0.win 3).xinj (grid0.coords t) j = (ix3 (0 : Fin 1) ⟨(j 1).val, hj1⟩ ⟨(j 2).val, hj2⟩ : S1x100x30.Idx) :=
    funext fun a => Fin.ext (by
      match a with
      | ⟨0, _⟩ => show (j 0).val = 0; omega
      | ⟨1, _⟩ => rfl
      | ⟨2, _⟩ => rfl)
  have hr : ((cfg0.win 3).blk t).view.emb j
      = (ix3 (⟨win0_3.index t (0 : Fin 3), e3lt⟩ : Fin 2) ⟨(j 1).val, hj1⟩ ⟨(j 2).val, hj2⟩ : S2x100x30.Idx) :=
    funext fun a => Fin.ext (by
      match a with
      | ⟨0, _⟩ => show win0_3.index t (0 : Fin 3) * 1 + 1 * (j 0).val = win0_3.index t (0 : Fin 3); omega
      | ⟨1, _⟩ => show win0_3.index t (1 : Fin 3) * 100 + 1 * (j 1).val = (j 1).val; omega
      | ⟨2, _⟩ => show win0_3.index t (2 : Fin 3) * 30 + 1 * (j 2).val = (j 2).val; omega)
  show X ((cfg0.win 3).xinj (grid0.coords t) j) = (G : S2x100x30.Idx → EReal) (((cfg0.win 3).blk t).view.emb j)
  rw [hl, hr]
  exact h _ _ _ rfl

/-- WHAT POINT `t` WRITES BACK is block `t` of the cost array of the three arrays as the launch finds them. -/
theorem flushed3_eq (c : Dev nD) (t : Fin cfg0.N) :
    (dats m 0 c).flushed 3 t
      = ((cfg0.win 3).blk t).view.read (Elt Ideal) (costArr (V m c main_v390) (V m c main_v781) (V m c main_v800)) := by
  show (cfg0.win 3).cut (grid0.coords t) ((dats m 0 c).after 3 t) = _
  rw [after0_3]
  exact cut_eq_read_blk3 c t (out0_3 (iblk m c 0 t) (iblk m c 1 t) (iblk m c 2 t))
    (costArr (V m c main_v390) (V m c main_v781) (V m c main_v800)) (fun q s b hb => block_entry m c t q s b hb)

/-- An index of the result array is in point `t`'s block iff each coordinate is in the block's range on its axis. -/
theorem mem_blk3 (t : Fin cfg0.N) (i : S2x100x30.Idx) :
    i ∈ ((cfg0.win 3).blk t).view.set ↔ ∀ a : Fin 3, win0_3.index t a * S1x100x30.size a ≤ (i a).val
      ∧ (i a).val < win0_3.index t a * S1x100x30.size a + S1x100x30.size a := by
  show i ∈ ((View.whole main_v801).slice (win0_3.rect t)).set ↔ _
  rw [View.set_slice_whole, Rect.mem_set_unit]
  exact Iff.rfl

/-- The two points' blocks cover the result array: entry (b, q, t) is in the block of the point whose batch is `b`. -/
theorem cover3 (i : S2x100x30.Idx) :
    ∃ t : Fin cfg0.N, (cfg0.win 3).flush t = true ∧ i ∈ ((cfg0.win 3).blk t).view.set := by
  have hi0 : (i 0).val < 2 := (i 0).isLt
  have hi1 : (i 1).val < 100 := (i 1).isLt
  have hi2 : (i 2).val < 30 := (i 2).isLt
  obtain ⟨t, ht⟩ := idx_onto ⟨(i 0).val, hi0⟩
  have ht' : win0_3.index t (0 : Fin 3) = (i 0).val := ht
  obtain ⟨-, -, -, -, -, -, -, -, -, e31, e32, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 100 ≤ (i 1).val ∧ (i 1).val < win0_3.index t (1 : Fin 3) * 100 + 100; omega
  | ⟨2, _⟩ => show win0_3.index t (2 : Fin 3) * 30 ≤ (i 2).val ∧ (i 2).val < win0_3.index t (2 : Fin 3) * 30 + 30; omega

/-- THE RESULT ARRAY after the run is the cost array. -/
theorem final3 (c : Dev nD) :
    (dats m 0 c).arrAt 3 cfg0.N = costArr (V m c main_v390) (V m c main_v781) (V m c main_v800) :=
  (dats m 0 c).arrAt_eq_of_cover 3 _ (fun t _ => flushed3_eq m c t) cover3

/-- THE RUN, READ: every weakly fair execution terminates with the result array at the cost array of the three
    arrays the launch reads (as the host operations before it left them), and the five arguments unchanged. -/
theorem run : θ_run (Cert.KernelIdeal.defs (F := Ideal)) (onTc (τ := τ) (Cert.KernelIdeal.main (F := Ideal))) ⟨m, fun _ => 0, ρ⟩
    (fun r => ∀ c : Dev nD,
      r.2.mem ((c.tc : Thread nD τ).loc main_v801) = costArr (V m c main_v390) (V m c main_v781) (V m c main_v800)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 3).trans (final3 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.HandValue

end
-- ==== Proof.CornerDefs.lean ====
/-
  One corner of the trilinear sampling, as each program computes it on whole arrays.

  At a sampled point the volume is read at eight neighbouring voxels; one corner contributes weight * voxel, the
  weight replaced by 0 (one program) or the voxel replaced by 0 (the other) when the voxel's integer coordinates fall
  outside the 64^3 grid.  Both programs clip the three coordinate words into [0, 63] before fetching.  One program
  fetches through a flat row-major index 4096 z + 64 y + x into the volume cast to [B, C, 262144], guarded by an
  in-range test; the other fetches with the three words directly.
-/
import proofs.«103167_j42614665511136_1_alg».proof.KernelIdeal
import proofs.«103167_j42614665511136_1_alg».proof.ReferenceIdeal
import Idealize.ShloMosaic.Lib.ValueIdx
import Idealize.ShloMosaic.Lib.Pipeline.Value

noncomputable section

open Idealize.ShloMosaic Idealize.ShloMosaic.ValueIdx

namespace Cert.Bridge

namespace K
open Cert.KernelIdeal Cert.KernelIdeal.Facts₀ Cert.KernelIdeal.Facts
variable [Cert.KernelIdeal.Facts]

/-- A coordinate word clipped into [0, 63]. -/
def clip (zi : IVec S2x12544 32) : IVec S2x12544 32 :=
  minsi (broadcastInDim S2x12544 ![] bcast_S_S2x12544 (id (constantI S_ 32 63#32)))
    (maxsi (broadcastInDim S2x12544 ![] bcast_S_S2x12544 (id (constantI S_ 32 0#32))) zi)

/-- The flat voxel index 4096 z + 64 y + x of the clipped words. -/
def lin (zi yi xi : IVec S2x12544 32) : IVec S2x12544 32 :=
  addi (addi (muli (clip zi) (broadcastInDim S2x12544 ![] bcast_S_S2x12544 (constantI S_ 32 4096#32)))
    (muli (clip yi) (broadcastInDim S2x12544 ![] bcast_S_S2x12544 (constantI S_ 32 64#32)))) (clip xi)

/-- The weight, replaced by 0 where the corner is outside the grid. -/
def maskedWeight (valid : IVec S2x12544 1) (wgt : FVec Ideal S2x12544 .f32) : FVec Ideal S2x12544 .f32 :=
  select valid wgt (broadcastInDim S2x12544 ![1] bcast_S12544_S2x12544_1 (broadcastInDim S12544 ![] bcast_S_S12544 (constant (F := Ideal) S_ .f32 0x00000000#32)))

/-- The flat index as the fetch takes it: wrapped by the axis length if negative, as a [B, P, 1] array. -/
def takeIdx (l : IVec S2x12544 32) : IVec S2x12544x1 32 :=
  broadcastInDim S2x12544x1 ![0, 1] bcast_S2x12544_S2x12544x1_0_1
    (select (cmpi .slt l (broadcastInDim S2x12544 ![] bcast_S_S2x12544 (constantI S_ 32 0#32)))
      (addi l (broadcastInDim S2x12544 ![] bcast_S_S2x12544 (constantI S_ 32 262144#32))) l)

/-- The fetch of 100 channels through the flat index: the gathered voxel where the index is in range, else a fill word. -/
def take100 (vol : FVec Ideal S2x100x262144 .f32) (l : IVec S2x12544 32) : FVec Ideal S2x100x12544 .f32 :=
  select
    (broadcastInDim S2x100x12544 ![0, 2] bcast_S2x12544_S2x100x12544_0_2
      (Host.reduce IntOp.andi
        (andi (cmpi .sge (takeIdx l) (broadcastInDim S2x12544x1 ![] bcast_S_S2x12544x1 (constantI S_ 32 0#32)))
          (cmpi .sle (takeIdx l) (broadcastInDim S2x12544x1 ![0, 1, 2] bcast_S1x1x1_S2x12544x1_0_1_2
            (broadcastInDim S1x1x1 ![2] bcast_S1_S1x1x1_2 (constantI S1 32 262143#32)))))
        (constantI S_ 1 1#1) reducesTo_S2x12544x1_S2x12544_d2 h_S_))
    (Host.gather gather_S2x100x262144_S2x12544x1_S2x100x12544_1_2_0_0_2_2_11001 vol (takeIdx l))
    (broadcastInDim S2x100x12544 ![] bcast_S_S2x100x12544 (constant (F := Ideal) S_ .f32 0x7FC00000#32))

/-- One corner's contribution to the 100 sampled channels. -/
def corner100 (vol : FVec Ideal S2x100x262144 .f32) (wgt : FVec Ideal S2x12544 .f32) (valid : IVec S2x12544 1)
    (zi yi xi : IVec S2x12544 32) : FVec Ideal S2x100x12544 .f32 :=
  mulf (broadcastInDim S2x100x12544 ![0, 1, 2] bcast_S2x1x12544_S2x100x12544_0_1_2
      (broadcastInDim S2x1x12544 ![0, 2] bcast_S2x12544_S2x1x12544_0_2 (maskedWeight valid wgt)))
    (take100 vol (lin zi yi xi))

end K

namespace R
open Cert.ReferenceIdeal Cert.ReferenceIdeal.Facts₀ Cert.ReferenceIdeal.Facts
variable [Cert.ReferenceIdeal.Facts]

/-- A coordinate word clipped into [0, 63]. -/
def clip (zi : IVec S2x12544 32) : IVec S2x12544 32 :=
  minsi (broadcastInDim S2x12544 ![] bcast_S_S2x12544 (id (constantI S_ 32 63#32)))
    (maxsi (broadcastInDim S2x12544 ![] bcast_S_S2x12544 (id (constantI S_ 32 0#32))) zi)

/-- A clipped word as the fetch takes it: wrapped by the axis length 64 if negative, as a [B, P, 1] column. -/
def wrapCol (zc : IVec S2x12544 32) : IVec S2x12544x1 32 :=
  broadcastInDim S2x12544x1 ![0, 1] bcast_S2x12544_S2x12544x1_0_1
    (select (cmpi .slt zc (broadcastInDim S2x12544 ![] bcast_S_S2x12544 (constantI S_ 32 0#32)))
      (addi zc (broadcastInDim S2x12544 ![] bcast_S_S2x12544 (constantI S_ 32 64#32))) zc)

/-- The three words side by side: the [B, P, 3] start indices of the fetch. -/
def idx3 (zi yi xi : IVec S2x12544 32) : IVec S2x12544x3 32 :=
  concatenate S2x12544x3 2 [⟨S2x12544x1, wrapCol (clip zi)⟩, ⟨S2x12544x1, wrapCol (clip yi)⟩, ⟨S2x12544x1, wrapCol (clip xi)⟩]
    concatenates_S2x12544x1_S2x12544x1_S2x12544x1_S2x12544x3_d2

/-- One corner's contribution to the 100 sampled channels. -/
def corner100 (vol : FVec Ideal S2x100x64x64x64 .f32) (wgt : FVec Ideal S2x12544 .f32) (valid : IVec S2x12544 1)
    (zi yi xi : IVec S2x12544 32) : FVec Ideal S2x100x12544 .f32 :=
  mulf (broadcastInDim S2x100x12544 ![0, 1, 2] bcast_S2x1x12544_S2x100x12544_0_1_2
      (broadcastInDim S2x1x12544 ![0, 2] bcast_S2x12544_S2x1x12544_0_2 wgt))
    (select (broadcastInDim S2x100x12544 ![0, 2] bcast_S2x12544_S2x100x12544_0_2 valid)
      (Host.gather gather_S2x100x64x64x64_S2x12544x3_S2x100x12544_1_234_0_0_234_2_1100111 vol (idx3 zi yi xi))
      (broadcastInDim S2x100x12544 ![1, 2] bcast_S100x12544_S2x100x12544_1_2
        (broadcastInDim S100x12544 ![1] bcast_S12544_S100x12544_1
          (broadcastInDim S12544 ![] bcast_S_S12544 (constant (F := Ideal) S_ .f32 0x00000000#32)))))

end R

end Cert.Bridge

end
-- ==== Proof.KernelSamplingDefs.lean ====
/-
  The first sampling pass of the kernel program as pure terms of its argument arrays.

  The program samples the volume (cast to [B, C, 262144]) at 12544 points per batch: each point's three coordinates
  are mapped affinely to voxel coordinates, split into floor, fractional part and integer base word; each of the
  eight neighbouring voxels (dz, dy, dx in {0, 1}) contributes weight * voxel, the weight the product over the three
  axes of the fractional part (offset 1) or one minus it (offset 0), replaced by zero where the voxel lies outside
  the grid; the eight contributions are added to a zero start in order.  Every definition transcribes the printed
  operations one for one: operand order, shape records and constants as printed.
-/
import proofs.«103167_j42614665511136_1_alg».proof.Proof.CornerDefs
import Idealize.ShloMosaic.Lib.StableHlo.Run

noncomputable section

open Idealize.ShloMosaic Idealize.ShloMosaic.ValueIdx

namespace Cert.Bridge.K
open Cert.KernelIdeal Cert.KernelIdeal.Facts₀ Cert.KernelIdeal.Facts
variable [Cert.KernelIdeal.Facts]

/-- The volume of 100 channels cast to [B, C, 262144]: row-major over the three voxel axes. -/
def vol (A0 : FVec Ideal S2x100x64x64x64 .f32) : FVec Ideal S2x100x262144 .f32 :=
  shapeCast S2x100x262144 A0 shapeCasts_S2x100x64x64x64_S2x100x262144

/-- The point coordinates mapped from [0, 1] to [-1, 1]: 2 * coords - 1. -/
def pts (A3 : FVec Ideal S2x12544x3 .f32) : FVec Ideal S2x12544x3 .f32 :=
  subf (mulf (broadcastInDim S2x12544x3 ![] bcast_S_S2x12544x3 (constant (F := Ideal) S_ .f32 0x40000000#32)) A3) (broadcastInDim S2x12544x3 ![] bcast_S_S2x12544x3 (constant (F := Ideal) S_ .f32 0x3F800000#32))

/-- Axis 0 of the points in voxel coordinates: ((g + 1) * 64 - 1) * 0.5 of column 0 of `pts`. -/
def coord0 (A3 : FVec Ideal S2x12544x3 .f32) : FVec Ideal S2x12544 .f32 :=
  mulf (subf (mulf (addf (shapeCast S2x12544 (extractStridedSlice S2x12544x1 ![0, 0, 0] (pts A3) slices_S2x12544x3_S2x12544x1_0_0_0) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))

/-- The floor of the axis-0 voxel coordinate. -/
def flo0 (A3 : FVec Ideal S2x12544x3 .f32) : FVec Ideal S2x12544 .f32 :=
  Host.floor (coord0 A3)

/-- The fractional part of the axis-0 voxel coordinate: the coordinate minus its floor. -/
def frac0 (A3 : FVec Ideal S2x12544x3 .f32) : FVec Ideal S2x12544 .f32 :=
  subf (coord0 A3) (flo0 A3)

/-- The floor of the axis-0 voxel coordinate as a 32-bit integer word. -/
def base0 (A3 : FVec Ideal S2x12544x3 .f32) : IVec S2x12544 32 :=
  fptosi 32 (flo0 A3)

/-- Axis 1 of the points in voxel coordinates: ((g + 1) * 64 - 1) * 0.5 of column 1 of `pts`. -/
def coord1 (A3 : FVec Ideal S2x12544x3 .f32) : FVec Ideal S2x12544 .f32 :=
  mulf (subf (mulf (addf (shapeCast S2x12544 (extractStridedSlice S2x12544x1 ![0, 0, 1] (pts A3) slices_S2x12544x3_S2x12544x1_0_0_1) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))

/-- The floor of the axis-1 voxel coordinate. -/
def flo1 (A3 : FVec Ideal S2x12544x3 .f32) : FVec Ideal S2x12544 .f32 :=
  Host.floor (coord1 A3)

/-- The fractional part of the axis-1 voxel coordinate: the coordinate minus its floor. -/
def frac1 (A3 : FVec Ideal S2x12544x3 .f32) : FVec Ideal S2x12544 .f32 :=
  subf (coord1 A3) (flo1 A3)

/-- The floor of the axis-1 voxel coordinate as a 32-bit integer word. -/
def base1 (A3 : FVec Ideal S2x12544x3 .f32) : IVec S2x12544 32 :=
  fptosi 32 (flo1 A3)

/-- Axis 2 of the points in voxel coordinates: ((g + 1) * 64 - 1) * 0.5 of column 2 of `pts`. -/
def coord2 (A3 : FVec Ideal S2x12544x3 .f32) : FVec Ideal S2x12544 .f32 :=
  mulf (subf (mulf (addf (shapeCast S2x12544 (extractStridedSlice S2x12544x1 ![0, 0, 2] (pts A3) slices_S2x12544x3_S2x12544x1_0_0_2) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))

/-- The floor of the axis-2 voxel coordinate. -/
def flo2 (A3 : FVec Ideal S2x12544x3 .f32) : FVec Ideal S2x12544 .f32 :=
  Host.floor (coord2 A3)

/-- The fractional part of the axis-2 voxel coordinate: the coordinate minus its floor. -/
def frac2 (A3 : FVec Ideal S2x12544x3 .f32) : FVec Ideal S2x12544 .f32 :=
  subf (coord2 A3) (flo2 A3)

/-- The floor of the axis-2 voxel coordinate as a 32-bit integer word. -/
def base2 (A3 : FVec Ideal S2x12544x3 .f32) : IVec S2x12544 32 :=
  fptosi 32 (flo2 A3)

/-- A base word plus a corner offset. -/
def off (b : IVec S2x12544 32) (d : BitVec 32) : IVec S2x12544 32 :=
  addi b (broadcastInDim S2x12544 ![] bcast_S_S2x12544 (constantI S_ 32 d))

/-- One minus a fractional part. -/
def oneMinus (f : FVec Ideal S2x12544 .f32) : FVec Ideal S2x12544 .f32 :=
  subf (broadcastInDim S2x12544 ![] bcast_S_S2x12544 (constant (F := Ideal) S_ .f32 0x3F800000#32)) f

/-- The corner's voxel lies inside the 64^3 grid: 0 ≤ zi < 64, 0 ≤ yi < 64, 0 ≤ xi < 64, and-ed in that order. -/
def valid (zi yi xi : IVec S2x12544 32) : IVec S2x12544 1 :=
  andi (andi (andi (andi (andi
    (cmpi .sge zi (broadcastInDim S2x12544 ![] bcast_S_S2x12544 (constantI S_ 32 0#32)))
    (cmpi .slt zi (broadcastInDim S2x12544 ![] bcast_S_S2x12544 (constantI S_ 32 64#32))))
    (cmpi .sge yi (broadcastInDim S2x12544 ![] bcast_S_S2x12544 (constantI S_ 32 0#32))))
    (cmpi .slt yi (broadcastInDim S2x12544 ![] bcast_S_S2x12544 (constantI S_ 32 64#32))))
    (cmpi .sge xi (broadcastInDim S2x12544 ![] bcast_S_S2x12544 (constantI S_ 32 0#32))))
    (cmpi .slt xi (broadcastInDim S2x12544 ![] bcast_S_S2x12544 (constantI S_ 32 64#32)))

/-- Corner 0 (dz, dy, dx) = (0, 0, 0): its z word. -/
def zi0 (A3 : FVec Ideal S2x12544x3 .f32) : IVec S2x12544 32 := off (base2 A3) 0#32
/-- Corner 0: its y word. -/
def yi0 (A3 : FVec Ideal S2x12544x3 .f32) : IVec S2x12544 32 := off (base1 A3) 0#32
/-- Corner 0: its x word. -/
def xi0 (A3 : FVec Ideal S2x12544x3 .f32) : IVec S2x12544 32 := off (base0 A3) 0#32
/-- Corner 0: inside the grid. -/
def valid0 (A3 : FVec Ideal S2x12544x3 .f32) : IVec S2x12544 1 := valid (zi0 A3) (yi0 A3) (xi0 A3)
/-- Corner 0: its trilinear weight, the z factor times the y factor times the x factor. -/
def wgt0 (A3 : FVec Ideal S2x12544x3 .f32) : FVec Ideal S2x12544 .f32 := mulf (mulf (oneMinus (frac2 A3)) (oneMinus (frac1 A3))) (oneMinus (frac0 A3))

/-- Corner 1 (dz, dy, dx) = (0, 0, 1): its z word. -/
def zi1 (A3 : FVec Ideal S2x12544x3 .f32) : IVec S2x12544 32 := off (base2 A3) 0#32
/-- Corner 1: its y word. -/
def yi1 (A3 : FVec Ideal S2x12544x3 .f32) : IVec S2x12544 32 := off (base1 A3) 0#32
/-- Corner 1: its x word. -/
def xi1 (A3 : FVec Ideal S2x12544x3 .f32) : IVec S2x12544 32 := off (base0 A3) 1#32
/-- Corner 1: inside the grid. -/
def valid1 (A3 : FVec Ideal S2x12544x3 .f32) : IVec S2x12544 1 := valid (zi1 A3) (yi1 A3) (xi1 A3)
/-- Corner 1: its trilinear weight, the z factor times the y factor times the x factor. -/
def wgt1 (A3 : FVec Ideal S2x12544x3 .f32) : FVec Ideal S2x12544 .f32 := mulf (mulf (oneMinus (frac2 A3)) (oneMinus (frac1 A3))) (frac0 A3)

/-- Corner 2 (dz, dy, dx) = (0, 1, 0): its z word. -/
def zi2 (A3 : FVec Ideal S2x12544x3 .f32) : IVec S2x12544 32 := off (base2 A3) 0#32
/-- Corner 2: its y word. -/
def yi2 (A3 : FVec Ideal S2x12544x3 .f32) : IVec S2x12544 32 := off (base1 A3) 1#32
/-- Corner 2: its x word. -/
def xi2 (A3 : FVec Ideal S2x12544x3 .f32) : IVec S2x12544 32 := off (base0 A3) 0#32
/-- Corner 2: inside the grid. -/
def valid2 (A3 : FVec Ideal S2x12544x3 .f32) : IVec S2x12544 1 := valid (zi2 A3) (yi2 A3) (xi2 A3)
/-- Corner 2: its trilinear weight, the z factor times the y factor times the x factor. -/
def wgt2 (A3 : FVec Ideal S2x12544x3 .f32) : FVec Ideal S2x12544 .f32 := mulf (mulf (oneMinus (frac2 A3)) (frac1 A3)) (oneMinus (frac0 A3))

/-- Corner 3 (dz, dy, dx) = (0, 1, 1): its z word. -/
def zi3 (A3 : FVec Ideal S2x12544x3 .f32) : IVec S2x12544 32 := off (base2 A3) 0#32
/-- Corner 3: its y word. -/
def yi3 (A3 : FVec Ideal S2x12544x3 .f32) : IVec S2x12544 32 := off (base1 A3) 1#32
/-- Corner 3: its x word. -/
def xi3 (A3 : FVec Ideal S2x12544x3 .f32) : IVec S2x12544 32 := off (base0 A3) 1#32
/-- Corner 3: inside the grid. -/
def valid3 (A3 : FVec Ideal S2x12544x3 .f32) : IVec S2x12544 1 := valid (zi3 A3) (yi3 A3) (xi3 A3)
/-- Corner 3: its trilinear weight, the z factor times the y factor times the x factor. -/
def wgt3 (A3 : FVec Ideal S2x12544x3 .f32) : FVec Ideal S2x12544 .f32 := mulf (mulf (oneMinus (frac2 A3)) (frac1 A3)) (frac0 A3)

/-- Corner 4 (dz, dy, dx) = (1, 0, 0): its z word. -/
def zi4 (A3 : FVec Ideal S2x12544x3 .f32) : IVec S2x12544 32 := off (base2 A3) 1#32
/-- Corner 4: its y word. -/
def yi4 (A3 : FVec Ideal S2x12544x3 .f32) : IVec S2x12544 32 := off (base1 A3) 0#32
/-- Corner 4: its x word. -/
def xi4 (A3 : FVec Ideal S2x12544x3 .f32) : IVec S2x12544 32 := off (base0 A3) 0#32
/-- Corner 4: inside the grid. -/
def valid4 (A3 : FVec Ideal S2x12544x3 .f32) : IVec S2x12544 1 := valid (zi4 A3) (yi4 A3) (xi4 A3)
/-- Corner 4: its trilinear weight, the z factor times the y factor times the x factor. -/
def wgt4 (A3 : FVec Ideal S2x12544x3 .f32) : FVec Ideal S2x12544 .f32 := mulf (mulf (frac2 A3) (oneMinus (frac1 A3))) (oneMinus (frac0 A3))

/-- Corner 5 (dz, dy, dx) = (1, 0, 1): its z word. -/
def zi5 (A3 : FVec Ideal S2x12544x3 .f32) : IVec S2x12544 32 := off (base2 A3) 1#32
/-- Corner 5: its y word. -/
def yi5 (A3 : FVec Ideal S2x12544x3 .f32) : IVec S2x12544 32 := off (base1 A3) 0#32
/-- Corner 5: its x word. -/
def xi5 (A3 : FVec Ideal S2x12544x3 .f32) : IVec S2x12544 32 := off (base0 A3) 1#32
/-- Corner 5: inside the grid. -/
def valid5 (A3 : FVec Ideal S2x12544x3 .f32) : IVec S2x12544 1 := valid (zi5 A3) (yi5 A3) (xi5 A3)
/-- Corner 5: its trilinear weight, the z factor times the y factor times the x factor. -/
def wgt5 (A3 : FVec Ideal S2x12544x3 .f32) : FVec Ideal S2x12544 .f32 := mulf (mulf (frac2 A3) (oneMinus (frac1 A3))) (frac0 A3)

/-- Corner 6 (dz, dy, dx) = (1, 1, 0): its z word. -/
def zi6 (A3 : FVec Ideal S2x12544x3 .f32) : IVec S2x12544 32 := off (base2 A3) 1#32
/-- Corner 6: its y word. -/
def yi6 (A3 : FVec Ideal S2x12544x3 .f32) : IVec S2x12544 32 := off (base1 A3) 1#32
/-- Corner 6: its x word. -/
def xi6 (A3 : FVec Ideal S2x12544x3 .f32) : IVec S2x12544 32 := off (base0 A3) 0#32
/-- Corner 6: inside the grid. -/
def valid6 (A3 : FVec Ideal S2x12544x3 .f32) : IVec S2x12544 1 := valid (zi6 A3) (yi6 A3) (xi6 A3)
/-- Corner 6: its trilinear weight, the z factor times the y factor times the x factor. -/
def wgt6 (A3 : FVec Ideal S2x12544x3 .f32) : FVec Ideal S2x12544 .f32 := mulf (mulf (frac2 A3) (frac1 A3)) (oneMinus (frac0 A3))

/-- Corner 7 (dz, dy, dx) = (1, 1, 1): its z word. -/
def zi7 (A3 : FVec Ideal S2x12544x3 .f32) : IVec S2x12544 32 := off (base2 A3) 1#32
/-- Corner 7: its y word. -/
def yi7 (A3 : FVec Ideal S2x12544x3 .f32) : IVec S2x12544 32 := off (base1 A3) 1#32
/-- Corner 7: its x word. -/
def xi7 (A3 : FVec Ideal S2x12544x3 .f32) : IVec S2x12544 32 := off (base0 A3) 1#32
/-- Corner 7: inside the grid. -/
def valid7 (A3 : FVec Ideal S2x12544x3 .f32) : IVec S2x12544 1 := valid (zi7 A3) (yi7 A3) (xi7 A3)
/-- Corner 7: its trilinear weight, the z factor times the y factor times the x factor. -/
def wgt7 (A3 : FVec Ideal S2x12544x3 .f32) : FVec Ideal S2x12544 .f32 := mulf (mulf (frac2 A3) (frac1 A3)) (frac0 A3)

/-- The zero array of [100, 12544] the sum starts from, before it is broadcast over the batch. -/
def zeros : FVec Ideal S100x12544 .f32 :=
  broadcastInDim S100x12544 ![] bcast_S_S100x12544 (constant (F := Ideal) S_ .f32 0x00000000#32)

/-- The zero start of the sum of corner contributions. -/
def accP0 : FVec Ideal S2x100x12544 .f32 :=
  broadcastInDim S2x100x12544 ![0, 1, 2] bcast_S1x100x12544_S2x100x12544_0_1_2 (broadcastInDim S1x100x12544 ![1, 2] bcast_S100x12544_S1x100x12544_1_2 zeros)

/-- The sum of the contributions of corners 0 … 0. -/
def accP1 (A0 : FVec Ideal S2x100x64x64x64 .f32) (A3 : FVec Ideal S2x12544x3 .f32) : FVec Ideal S2x100x12544 .f32 :=
  addf accP0 (corner100 (vol A0) (wgt0 A3) (valid0 A3) (zi0 A3) (yi0 A3) (xi0 A3))

/-- The sum of the contributions of corners 0 … 1. -/
def accP2 (A0 : FVec Ideal S2x100x64x64x64 .f32) (A3 : FVec Ideal S2x12544x3 .f32) : FVec Ideal S2x100x12544 .f32 :=
  addf (accP1 A0 A3) (corner100 (vol A0) (wgt1 A3) (valid1 A3) (zi1 A3) (yi1 A3) (xi1 A3))

/-- The sum of the contributions of corners 0 … 2. -/
def accP3 (A0 : FVec Ideal S2x100x64x64x64 .f32) (A3 : FVec Ideal S2x12544x3 .f32) : FVec Ideal S2x100x12544 .f32 :=
  addf (accP2 A0 A3) (corner100 (vol A0) (wgt2 A3) (valid2 A3) (zi2 A3) (yi2 A3) (xi2 A3))

/-- The sum of the contributions of corners 0 … 3. -/
def accP4 (A0 : FVec Ideal S2x100x64x64x64 .f32) (A3 : FVec Ideal S2x12544x3 .f32) : FVec Ideal S2x100x12544 .f32 :=
  addf (accP3 A0 A3) (corner100 (vol A0) (wgt3 A3) (valid3 A3) (zi3 A3) (yi3 A3) (xi3 A3))

/-- The sum of the contributions of corners 0 … 4. -/
def accP5 (A0 : FVec Ideal S2x100x64x64x64 .f32) (A3 : FVec Ideal S2x12544x3 .f32) : FVec Ideal S2x100x12544 .f32 :=
  addf (accP4 A0 A3) (corner100 (vol A0) (wgt4 A3) (valid4 A3) (zi4 A3) (yi4 A3) (xi4 A3))

/-- The sum of the contributions of corners 0 … 5. -/
def accP6 (A0 : FVec Ideal S2x100x64x64x64 .f32) (A3 : FVec Ideal S2x12544x3 .f32) : FVec Ideal S2x100x12544 .f32 :=
  addf (accP5 A0 A3) (corner100 (vol A0) (wgt5 A3) (valid5 A3) (zi5 A3) (yi5 A3) (xi5 A3))

/-- The sum of the contributions of corners 0 … 6. -/
def accP7 (A0 : FVec Ideal S2x100x64x64x64 .f32) (A3 : FVec Ideal S2x12544x3 .f32) : FVec Ideal S2x100x12544 .f32 :=
  addf (accP6 A0 A3) (corner100 (vol A0) (wgt6 A3) (valid6 A3) (zi6 A3) (yi6 A3) (xi6 A3))

/-- The sum of the contributions of corners 0 … 7. -/
def accP8 (A0 : FVec Ideal S2x100x64x64x64 .f32) (A3 : FVec Ideal S2x12544x3 .f32) : FVec Ideal S2x100x12544 .f32 :=
  addf (accP7 A0 A3) (corner100 (vol A0) (wgt7 A3) (valid7 A3) (zi7 A3) (yi7 A3) (xi7 A3))

/-- The zero start read at an index: the f32 pattern of zero as an extended real. -/
theorem accP0_apply (j : S2x100x12544.Idx) : accP0 j = Ideal.ofBits .f32 0x00000000#32 := rfl

/-- The 100 channels sampled at the 12544 points: the sum of all eight corner contributions. -/
def pred (A0 : FVec Ideal S2x100x64x64x64 .f32) (A3 : FVec Ideal S2x12544x3 .f32) : FVec Ideal S2x100x12544 .f32 :=
  accP8 A0 A3

end Cert.Bridge.K

end
-- ==== Proof.LibGatherBatch.lean ====
/-
  A STABLEHLO GATHER WITH ONE BATCHING AXIS, READ AT AN INDEX, and the row-major cast of a 64 x 64 x 64 volume.

  Two gathers fetch one element per sampled point from a batch of multi-channel arrays, the batch axis (axis 0) of the
  operand paired with the batch axis of the start indices, the channel axis (axis 1) taken whole as the result's one
  offset axis:
    * `gather_point1`: operand `[B, C, N]`, start indices `[B, P, 1]`, result `[B, C, P]` — one index word per point
      into the last axis (what `take(x, idx, axis=-1)` of a batched `x` lowers to);
    * `gather_point3`: operand `[B, C, H, W, D]`, start indices `[B, P, 3]`, result `[B, C, P]` — three index words per
      point into the last three axes (what `x[:, z, y, x]` of a batched volume lowers to).
  Result element `(b, c, p)` is the operand at batch `b`, channel `c` and the start index read signed and clamped into
  the axis, as StableHLO's gather clamps every start index. Both are stated for ANY dimension-number record whose
  fields are the stated lists (hypotheses `hod … hss`, each `rfl` on a record written out), and first for the
  records written out (`point1Dims`, `point3Dims`).
    * `shapeCast_vol64_apply`: the cast of `[B, C, 64, 64, 64]` to `[B, C, 262144]` read at `(b, c, n)` is the volume
      at `(b, c, n / 4096, n / 64 % 64, n % 64)`.
    * `take_eq_gather3_nat`: the one-word gather from the cast volume is the three-word gather from the volume, when
      the flat index splits into the three (clamped) indices.
-/
import Idealize.ShloMosaic.Lib.ValueIdx
import Idealize.ShloMosaic.Lib.Pipeline.Value

noncomputable section

namespace Idealize.ShloMosaic.GatherBatch

open Idealize.ShloMosaic Idealize.ShloMosaic.ValueIdx

variable {α : Type}

/-! ## One index word per point -/

/-- The dimension numbers of the one-word gather for an operand `[B, C, N]`, start indices `[B, P, 1]` and result
    `[B, C, P]`: offset axis 1 (the channels, taken whole), collapsed axis 2, batching axis 0 on both sides, the start
    index naming axis 2, the index vector on axis 2. -/
abbrev point1Dims (B C N P : Nat)
    (wf : GatherDims.WF ⟨3, ![B, C, N]⟩ ⟨3, ![B, P, 1]⟩ ⟨3, ![B, C, P]⟩ [1] [2] [0] [2] [0] 2 ![1, C, 1]) :
    GatherDims ⟨3, ![B, C, N]⟩ ⟨3, ![B, P, 1]⟩ ⟨3, ![B, C, P]⟩ where
  offsetDims := [1]
  collapsedSliceDims := [2]
  operandBatchingDims := [0]
  startIndicesBatchingDims := [0]
  startIndexMap := [2]
  indexVectorDim := 2
  sliceSizes := ![1, C, 1]
  wf := wf

section Point1
variable {B C N P w : Nat}
  (wf : GatherDims.WF ⟨3, ![B, C, N]⟩ ⟨3, ![B, P, 1]⟩ ⟨3, ![B, C, P]⟩ [1] [2] [0] [2] [0] 2 ![1, C, 1])
  (idx : IVec ⟨3, ![B, P, 1]⟩ w) (b : Fin B) (c : Fin C) (p : Fin P)

/-- On the batching axis the operand index of result `(b, c, p)` is the batch `b`. -/
theorem point1_axis0 :
    (point1Dims B C N P wf).start (ix3 b c p) idx 0 + (point1Dims B C N P wf).batchCoord (ix3 b c p) 0
      + (point1Dims B C N P wf).offCoord (ix3 b c p) 0 = b.val := by
  have hs : (point1Dims B C N P wf).start (ix3 b c p) idx 0 = 0 := by
    unfold GatherDims.start
    exact dif_neg (show (0 : Fin 3) ∉ ([2] : List (Fin 3)) by decide)
  have ho : (point1Dims B C N P wf).offCoord (ix3 b c p) 0 = 0 := by
    apply GatherDims.offCoord_eq_zero
    rw [GatherDims.mem_sKept]
    exact fun h => h.2 (show (0 : Fin 3) ∈ ([0] : List (Fin 3)) by decide)
  have hb : (point1Dims B C N P wf).batchCoord (ix3 b c p) 0 = b.val := rfl
  omega

/-- On the channel axis it is the channel `c`. -/
theorem point1_axis1 :
    (point1Dims B C N P wf).start (ix3 b c p) idx 1 + (point1Dims B C N P wf).batchCoord (ix3 b c p) 1
      + (point1Dims B C N P wf).offCoord (ix3 b c p) 1 = c.val := by
  have hs : (point1Dims B C N P wf).start (ix3 b c p) idx 1 = 0 := by
    unfold GatherDims.start
    exact dif_neg (show (1 : Fin 3) ∉ ([2] : List (Fin 3)) by decide)
  have hb : (point1Dims B C N P wf).batchCoord (ix3 b c p) 1 = 0 :=
    GatherDims.batchCoord_eq_zero _ _ _ (show (1 : Fin 3) ∉ ([0] : List (Fin 3)) by decide)
  have ho : (point1Dims B C N P wf).offCoord (ix3 b c p) 1 = c.val := by
    unfold GatherDims.offCoord
    rw [dif_pos (show (1 : Fin 3) ∈ (point1Dims B C N P wf).sKept from
      (GatherDims.mem_sKept _ _).2 ⟨show (1 : Fin 3) ∉ ([2] : List (Fin 3)) by decide,
        show (1 : Fin 3) ∉ ([0] : List (Fin 3)) by decide⟩)]
    rfl
  omega

/-- On the gathered axis it is the start index word of `(b, p)`, read signed and clamped into `[0, N − 1]`. -/
theorem point1_axis2 :
    (point1Dims B C N P wf).start (ix3 b c p) idx 2 + (point1Dims B C N P wf).batchCoord (ix3 b c p) 2
      + (point1Dims B C N P wf).offCoord (ix3 b c p) 2 = min (idx (ix3 b p (0 : Fin 1))).toInt.toNat (N - 1) := by
  have hb : (point1Dims B C N P wf).batchCoord (ix3 b c p) 2 = 0 :=
    GatherDims.batchCoord_eq_zero _ _ _ (show (2 : Fin 3) ∉ ([0] : List (Fin 3)) by decide)
  have ho : (point1Dims B C N P wf).offCoord (ix3 b c p) 2 = 0 := by
    apply GatherDims.offCoord_eq_zero
    rw [GatherDims.mem_sKept]
    exact fun h => h.1 (show (2 : Fin 3) ∈ ([2] : List (Fin 3)) by decide)
  rw [hb, ho]
  show (point1Dims B C N P wf).start (ix3 b c p) idx 2 = _
  unfold GatherDims.start
  rw [dif_pos (show (2 : Fin 3) ∈ (point1Dims B C N P wf).startIndexMap from List.mem_singleton.mpr rfl)]
  have hsi : (point1Dims B C N P wf).siIdx (ix3 b c p) ⟨List.idxOf (2 : Fin 3) (point1Dims B C N P wf).startIndexMap,
      List.idxOf_lt_length_iff.2 (List.mem_singleton.mpr rfl)⟩ = ix3 b p (0 : Fin 1) := by
    funext e; refine Fin.ext ?_
    match e with
    | ⟨0, _⟩ => rfl
    | ⟨1, _⟩ => rfl
    | ⟨2, _⟩ => rfl
  rw [hsi]
  rfl

end Point1

/-- THE ONE-WORD GATHER READ AT `(b, c, p)`, for the record written out: the operand at batch `b`, channel `c` and the
    start index word of `(b, p)` read signed and clamped into `[0, N − 1]`. -/
theorem gather_point1_lit {B C N P w : Nat} (hN : 0 < N)
    (wf : GatherDims.WF ⟨3, ![B, C, N]⟩ ⟨3, ![B, P, 1]⟩ ⟨3, ![B, C, P]⟩ [1] [2] [0] [2] [0] 2 ![1, C, 1])
    (x : (⟨3, ![B, C, N]⟩ : Shape).Idx → α) (idx : IVec ⟨3, ![B, P, 1]⟩ w)
    (b : Fin B) (c : Fin C) (p : Fin P) :
    Host.gather (point1Dims B C N P wf) x idx (ix3 b c p) =
      x (ix3 b c ⟨min (idx (ix3 b p (0 : Fin 1))).toInt.toNat (N - 1), by omega⟩) := by
  unfold Host.gather
  congr 1
  funext a
  refine Fin.ext ?_
  match a with
  | ⟨0, _⟩ => exact point1_axis0 wf idx b c p
  | ⟨1, _⟩ => exact point1_axis1 wf idx b c p
  | ⟨2, _⟩ => exact point1_axis2 wf idx b c p

/-- THE ONE-WORD GATHER READ AT `(b, c, p)`, for any dimension-number record with the stated fields (each hypothesis
    is `rfl` on a record written out): the operand at batch `b`, channel `c` and the start index word of `(b, p)`
    read signed and clamped into `[0, N − 1]`. -/
theorem gather_point1 {B C N P w : Nat} (hN : 0 < N)
    (d : GatherDims ⟨3, ![B, C, N]⟩ ⟨3, ![B, P, 1]⟩ ⟨3, ![B, C, P]⟩)
    (hod : d.offsetDims = [1]) (hcd : d.collapsedSliceDims = [2]) (hob : d.operandBatchingDims = [0])
    (hsb : d.startIndicesBatchingDims = [0]) (hsm : d.startIndexMap = [2]) (hiv : d.indexVectorDim = 2)
    (hss : d.sliceSizes = ![1, C, 1])
    (x : (⟨3, ![B, C, N]⟩ : Shape).Idx → α) (idx : IVec ⟨3, ![B, P, 1]⟩ w)
    (b : Fin B) (c : Fin C) (p : Fin P) :
    Host.gather d x idx (ix3 b c p) =
      x (ix3 b c ⟨min (idx (ix3 b p (0 : Fin 1))).toInt.toNat (N - 1), by omega⟩) := by
  obtain ⟨od, cd, ob, sb, sm, iv, ss, wf⟩ := d
  simp only at hod hcd hob hsb hsm hiv hss
  subst hod hcd hob hsb hsm hiv hss
  exact gather_point1_lit hN wf x idx b c p

/-! ## Three index words per point -/

/-- The dimension numbers of the three-word gather for an operand `[B, C, H, W, D]`, start indices `[B, P, 3]` and
    result `[B, C, P]`: offset axis 1 (the channels, taken whole), collapsed axes 2, 3, 4, batching axis 0 on both
    sides, the start index naming axes 2, 3, 4 in this order, the index vector on axis 2. -/
abbrev point3Dims (B C H W D P : Nat)
    (wf : GatherDims.WF ⟨5, ![B, C, H, W, D]⟩ ⟨3, ![B, P, 3]⟩ ⟨3, ![B, C, P]⟩ [1] [2, 3, 4] [0] [2, 3, 4] [0] 2
      ![1, C, 1, 1, 1]) :
    GatherDims ⟨5, ![B, C, H, W, D]⟩ ⟨3, ![B, P, 3]⟩ ⟨3, ![B, C, P]⟩ where
  offsetDims := [1]
  collapsedSliceDims := [2, 3, 4]
  operandBatchingDims := [0]
  startIndicesBatchingDims := [0]
  startIndexMap := [2, 3, 4]
  indexVectorDim := 2
  sliceSizes := ![1, C, 1, 1, 1]
  wf := wf

section Point3
variable {B C H W D P w : Nat}
  (wf : GatherDims.WF ⟨5, ![B, C, H, W, D]⟩ ⟨3, ![B, P, 3]⟩ ⟨3, ![B, C, P]⟩ [1] [2, 3, 4] [0] [2, 3, 4] [0] 2
    ![1, C, 1, 1, 1])
  (idx : IVec ⟨3, ![B, P, 3]⟩ w) (b : Fin B) (c : Fin C) (p : Fin P)

/-- On the batching axis the operand index of result `(b, c, p)` is the batch `b`. -/
theorem point3_axis0 :
    (point3Dims B C H W D P wf).start (ix3 b c p) idx 0 + (point3Dims B C H W D P wf).batchCoord (ix3 b c p) 0
      + (point3Dims B C H W D P wf).offCoord (ix3 b c p) 0 = b.val := by
  have hs : (point3Dims B C H W D P wf).start (ix3 b c p) idx 0 = 0 := by
    unfold GatherDims.start
    exact dif_neg (show (0 : Fin 5) ∉ ([2, 3, 4] : List (Fin 5)) by decide)
  have ho : (point3Dims B C H W D P wf).offCoord (ix3 b c p) 0 = 0 := by
    apply GatherDims.offCoord_eq_zero
    rw [GatherDims.mem_sKept]
    exact fun h => h.2 (show (0 : Fin 5) ∈ ([0] : List (Fin 5)) by decide)
  have hb : (point3Dims B C H W D P wf).batchCoord (ix3 b c p) 0 = b.val := rfl
  omega

/-- On the channel axis it is the channel `c`. -/
theorem point3_axis1 :
    (point3Dims B C H W D P wf).start (ix3 b c p) idx 1 + (point3Dims B C H W D P wf).batchCoord (ix3 b c p) 1
      + (point3Dims B C H W D P wf).offCoord (ix3 b c p) 1 = c.val := by
  have hs : (point3Dims B C H W D P wf).start (ix3 b c p) idx 1 = 0 := by
    unfold GatherDims.start
    exact dif_neg (show (1 : Fin 5) ∉ ([2, 3, 4] : List (Fin 5)) by decide)
  have hb : (point3Dims B C H W D P wf).batchCoord (ix3 b c p) 1 = 0 :=
    GatherDims.batchCoord_eq_zero _ _ _ (show (1 : Fin 5) ∉ ([0] : List (Fin 5)) by decide)
  have ho : (point3Dims B C H W D P wf).offCoord (ix3 b c p) 1 = c.val := by
    unfold GatherDims.offCoord
    rw [dif_pos (show (1 : Fin 5) ∈ (point3Dims B C H W D P wf).sKept from
      (GatherDims.mem_sKept _ _).2 ⟨show (1 : Fin 5) ∉ ([2, 3, 4] : List (Fin 5)) by decide,
        show (1 : Fin 5) ∉ ([0] : List (Fin 5)) by decide⟩)]
    rfl
  omega

/-- On operand axis 2 it is start index word 0 of `(b, p)`, read signed and clamped into `[0, H − 1]`. -/
theorem point3_axis2 :
    (point3Dims B C H W D P wf).start (ix3 b c p) idx 2 + (point3Dims B C H W D P wf).batchCoord (ix3 b c p) 2
      + (point3Dims B C H W D P wf).offCoord (ix3 b c p) 2 = min (idx (ix3 b p (0 : Fin 3))).toInt.toNat (H - 1) := by
  have hb : (point3Dims B C H W D P wf).batchCoord (ix3 b c p) 2 = 0 :=
    GatherDims.batchCoord_eq_zero _ _ _ (show (2 : Fin 5) ∉ ([0] : List (Fin 5)) by decide)
  have ho : (point3Dims B C H W D P wf).offCoord (ix3 b c p) 2 = 0 := by
    apply GatherDims.offCoord_eq_zero
    rw [GatherDims.mem_sKept]
    exact fun h => h.1 (show (2 : Fin 5) ∈ ([2, 3, 4] : List (Fin 5)) by decide)
  rw [hb, ho]
  show (point3Dims B C H W D P wf).start (ix3 b c p) idx 2 = _
  have hm : (2 : Fin 5) ∈ (point3Dims B C H W D P wf).startIndexMap := show (2 : Fin 5) ∈ ([2, 3, 4] : List (Fin 5)) by decide
  unfold GatherDims.start
  rw [dif_pos hm]
  have hsi : (point3Dims B C H W D P wf).siIdx (ix3 b c p) ⟨List.idxOf (2 : Fin 5) (point3Dims B C H W D P wf).startIndexMap,
      List.idxOf_lt_length_iff.2 hm⟩ = ix3 b p (0 : Fin 3) := by
    funext e; refine Fin.ext ?_
    match e with
    | ⟨0, _⟩ => rfl
    | ⟨1, _⟩ => rfl
    | ⟨2, _⟩ => rfl
  rw [hsi]
  rfl

/-- On operand axis 3 it is start index word 1 of `(b, p)`, read signed and clamped into `[0, W − 1]`. -/
theorem point3_axis3 :
    (point3Dims B C H W D P wf).start (ix3 b c p) idx 3 + (point3Dims B C H W D P wf).batchCoord (ix3 b c p) 3
      + (point3Dims B C H W D P wf).offCoord (ix3 b c p) 3 = min (idx (ix3 b p (1 : Fin 3))).toInt.toNat (W - 1) := by
  have hb : (point3Dims B C H W D P wf).batchCoord (ix3 b c p) 3 = 0 :=
    GatherDims.batchCoord_eq_zero _ _ _ (show (3 : Fin 5) ∉ ([0] : List (Fin 5)) by decide)
  have ho : (point3Dims B C H W D P wf).offCoord (ix3 b c p) 3 = 0 := by
    apply GatherDims.offCoord_eq_zero
    rw [GatherDims.mem_sKept]
    exact fun h => h.1 (show (3 : Fin 5) ∈ ([2, 3, 4] : List (Fin 5)) by decide)
  rw [hb, ho]
  show (point3Dims B C H W D P wf).start (ix3 b c p) idx 3 = _
  have hm : (3 : Fin 5) ∈ (point3Dims B C H W D P wf).startIndexMap := show (3 : Fin 5) ∈ ([2, 3, 4] : List (Fin 5)) by decide
  unfold GatherDims.start
  rw [dif_pos hm]
  have hsi : (point3Dims B C H W D P wf).siIdx (ix3 b c p) ⟨List.idxOf (3 : Fin 5) (point3Dims B C H W D P wf).startIndexMap,
      List.idxOf_lt_length_iff.2 hm⟩ = ix3 b p (1 : Fin 3) := by
    funext e; refine Fin.ext ?_
    match e with
    | ⟨0, _⟩ => rfl
    | ⟨1, _⟩ => rfl
    | ⟨2, _⟩ => rfl
  rw [hsi]
  rfl

/-- On operand axis 4 it is start index word 2 of `(b, p)`, read signed and clamped into `[0, D − 1]`. -/
theorem point3_axis4 :
    (point3Dims B C H W D P wf).start (ix3 b c p) idx 4 + (point3Dims B C H W D P wf).batchCoord (ix3 b c p) 4
      + (point3Dims B C H W D P wf).offCoord (ix3 b c p) 4 = min (idx (ix3 b p (2 : Fin 3))).toInt.toNat (D - 1) := by
  have hb : (point3Dims B C H W D P wf).batchCoord (ix3 b c p) 4 = 0 :=
    GatherDims.batchCoord_eq_zero _ _ _ (show (4 : Fin 5) ∉ ([0] : List (Fin 5)) by decide)
  have ho : (point3Dims B C H W D P wf).offCoord (ix3 b c p) 4 = 0 := by
    apply GatherDims.offCoord_eq_zero
    rw [GatherDims.mem_sKept]
    exact fun h => h.1 (show (4 : Fin 5) ∈ ([2, 3, 4] : List (Fin 5)) by decide)
  rw [hb, ho]
  show (point3Dims B C H W D P wf).start (ix3 b c p) idx 4 = _
  have hm : (4 : Fin 5) ∈ (point3Dims B C H W D P wf).startIndexMap := show (4 : Fin 5) ∈ ([2, 3, 4] : List (Fin 5)) by decide
  unfold GatherDims.start
  rw [dif_pos hm]
  have hsi : (point3Dims B C H W D P wf).siIdx (ix3 b c p) ⟨List.idxOf (4 : Fin 5) (point3Dims B C H W D P wf).startIndexMap,
      List.idxOf_lt_length_iff.2 hm⟩ = ix3 b p (2 : Fin 3) := by
    funext e; refine Fin.ext ?_
    match e with
    | ⟨0, _⟩ => rfl
    | ⟨1, _⟩ => rfl
    | ⟨2, _⟩ => rfl
  rw [hsi]
  rfl

end Point3

/-- THE THREE-WORD GATHER READ AT `(b, c, p)`, for the record written out: the operand at batch `b`, channel `c` and
    the three start index words of `(b, p)`, each read signed and clamped into its axis. -/
theorem gather_point3_lit {B C H W D P w : Nat} (hH : 0 < H) (hW : 0 < W) (hD : 0 < D)
    (wf : GatherDims.WF ⟨5, ![B, C, H, W, D]⟩ ⟨3, ![B, P, 3]⟩ ⟨3, ![B, C, P]⟩ [1] [2, 3, 4] [0] [2, 3, 4] [0] 2
      ![1, C, 1, 1, 1])
    (x : (⟨5, ![B, C, H, W, D]⟩ : Shape).Idx → α) (idx : IVec ⟨3, ![B, P, 3]⟩ w)
    (b : Fin B) (c : Fin C) (p : Fin P) :
    Host.gather (point3Dims B C H W D P wf) x idx (ix3 b c p) =
      x (ix5 b c ⟨min (idx (ix3 b p (0 : Fin 3))).toInt.toNat (H - 1), by omega⟩
                 ⟨min (idx (ix3 b p (1 : Fin 3))).toInt.toNat (W - 1), by omega⟩
                 ⟨min (idx (ix3 b p (2 : Fin 3))).toInt.toNat (D - 1), by omega⟩) := by
  unfold Host.gather
  congr 1
  funext a
  refine Fin.ext ?_
  match a with
  | ⟨0, _⟩ => exact point3_axis0 wf idx b c p
  | ⟨1, _⟩ => exact point3_axis1 wf idx b c p
  | ⟨2, _⟩ => exact point3_axis2 wf idx b c p
  | ⟨3, _⟩ => exact point3_axis3 wf idx b c p
  | ⟨4, _⟩ => exact point3_axis4 wf idx b c p

/-- THE THREE-WORD GATHER READ AT `(b, c, p)`, for any dimension-number record with the stated fields (each
    hypothesis is `rfl` on a record written out): the operand at batch `b`, channel `c` and the three start index
    words of `(b, p)` — word 0 on axis 2, word 1 on axis 3, word 2 on axis 4 — each read signed and clamped into its
    axis. -/
theorem gather_point3 {B C H W D P w : Nat} (hH : 0 < H) (hW : 0 < W) (hD : 0 < D)
    (d : GatherDims ⟨5, ![B, C, H, W, D]⟩ ⟨3, ![B, P, 3]⟩ ⟨3, ![B, C, P]⟩)
    (hod : d.offsetDims = [1]) (hcd : d.collapsedSliceDims = [2, 3, 4]) (hob : d.operandBatchingDims = [0])
    (hsb : d.startIndicesBatchingDims = [0]) (hsm : d.startIndexMap = [2, 3, 4]) (hiv : d.indexVectorDim = 2)
    (hss : d.sliceSizes = ![1, C, 1, 1, 1])
    (x : (⟨5, ![B, C, H, W, D]⟩ : Shape).Idx → α) (idx : IVec ⟨3, ![B, P, 3]⟩ w)
    (b : Fin B) (c : Fin C) (p : Fin P) :
    Host.gather d x idx (ix3 b c p) =
      x (ix5 b c ⟨min (idx (ix3 b p (0 : Fin 3))).toInt.toNat (H - 1), by omega⟩
                 ⟨min (idx (ix3 b p (1 : Fin 3))).toInt.toNat (W - 1), by omega⟩
                 ⟨min (idx (ix3 b p (2 : Fin 3))).toInt.toNat (D - 1), by omega⟩) := by
  obtain ⟨od, cd, ob, sb, sm, iv, ss, wf⟩ := d
  simp only at hod hcd hob hsb hsm hiv hss
  subst hod hcd hob hsb hsm hiv hss
  exact gather_point3_lit hH hW hD wf x idx b c p

/-! ## The row-major cast of a 64 x 64 x 64 volume -/

/-- The cast of `[B, C, 64, 64, 64]` to `[B, C, 262144]` read at `(b, c, n)` is the volume at
    `(b, c, n / 4096, n / 64 % 64, n % 64)`: the two indices have the same row-major position. -/
theorem shapeCast_vol64_apply {B C : Nat} (x : (⟨5, ![B, C, 64, 64, 64]⟩ : Shape).Idx → α)
    (h : (⟨5, ![B, C, 64, 64, 64]⟩ : Shape).ShapeCasts ⟨3, ![B, C, 262144]⟩)
    (b : Fin B) (c : Fin C) (n : Fin 262144) :
    shapeCast ⟨3, ![B, C, 262144]⟩ x h (ix3 b c n) =
      x (ix5 b c (⟨n.val / 4096, by omega⟩ : Fin 64) (⟨n.val / 64 % 64, by omega⟩ : Fin 64)
        (⟨n.val % 64, by omega⟩ : Fin 64)) := by
  apply shapeCast_apply
  rw [Shape.rowMajor_val_five, Shape.rowMajor_val_three]
  show (((b.val * C + c.val) * 64 + n.val / 4096) * 64 + n.val / 64 % 64) * 64 + n.val % 64
      = (b.val * C + c.val) * 262144 + n.val
  omega

/-! ## The two routes to one voxel -/

/-- THE FLAT ROUTE IS THE THREE-WORD ROUTE. Gathering one flat index word per point from the volume cast to
    `[B, C, 262144]` gives, at `(b, c, p)`, what gathering three index words per point from the volume itself gives,
    whenever the flat word of `(b, p)` is in range (`hn`) and splits into the three clamped words (`h0`, `h1`, `h2`):
    flat / 4096, flat / 64 % 64 and flat % 64. The hypotheses are about natural numbers only; the word arithmetic
    that discharges them for `4096 * zc + 64 * yc + xc` is kept apart. -/
theorem take_eq_gather3_nat {B C P w1 w3 : Nat}
    (d1 : GatherDims ⟨3, ![B, C, 262144]⟩ ⟨3, ![B, P, 1]⟩ ⟨3, ![B, C, P]⟩)
    (hod1 : d1.offsetDims = [1]) (hcd1 : d1.collapsedSliceDims = [2]) (hob1 : d1.operandBatchingDims = [0])
    (hsb1 : d1.startIndicesBatchingDims = [0]) (hsm1 : d1.startIndexMap = [2]) (hiv1 : d1.indexVectorDim = 2)
    (hss1 : d1.sliceSizes = ![1, C, 1])
    (d3 : GatherDims ⟨5, ![B, C, 64, 64, 64]⟩ ⟨3, ![B, P, 3]⟩ ⟨3, ![B, C, P]⟩)
    (hod3 : d3.offsetDims = [1]) (hcd3 : d3.collapsedSliceDims = [2, 3, 4]) (hob3 : d3.operandBatchingDims = [0])
    (hsb3 : d3.startIndicesBatchingDims = [0]) (hsm3 : d3.startIndexMap = [2, 3, 4]) (hiv3 : d3.indexVectorDim = 2)
    (hss3 : d3.sliceSizes = ![1, C, 1, 1, 1])
    (h : (⟨5, ![B, C, 64, 64, 64]⟩ : Shape).ShapeCasts ⟨3, ![B, C, 262144]⟩)
    (x : (⟨5, ![B, C, 64, 64, 64]⟩ : Shape).Idx → α)
    (idx1 : IVec ⟨3, ![B, P, 1]⟩ w1) (idx3 : IVec ⟨3, ![B, P, 3]⟩ w3) (b : Fin B) (c : Fin C) (p : Fin P)
    (hn : (idx1 (ix3 b p (0 : Fin 1))).toInt.toNat ≤ 262143)
    (h0 : (idx1 (ix3 b p (0 : Fin 1))).toInt.toNat / 4096 = min (idx3 (ix3 b p (0 : Fin 3))).toInt.toNat 63)
    (h1 : (idx1 (ix3 b p (0 : Fin 1))).toInt.toNat / 64 % 64 = min (idx3 (ix3 b p (1 : Fin 3))).toInt.toNat 63)
    (h2 : (idx1 (ix3 b p (0 : Fin 1))).toInt.toNat % 64 = min (idx3 (ix3 b p (2 : Fin 3))).toInt.toNat 63) :
    Host.gather d1 (shapeCast ⟨3, ![B, C, 262144]⟩ x h) idx1 (ix3 b c p) = Host.gather d3 x idx3 (ix3 b c p) := by
  rw [gather_point1 (by decide) d1 hod1 hcd1 hob1 hsb1 hsm1 hiv1 hss1,
    gather_point3 (by decide) (by decide) (by decide) d3 hod3 hcd3 hob3 hsb3 hsm3 hiv3 hss3,
    shapeCast_vol64_apply]
  congr 1
  funext a
  refine Fin.ext ?_
  match a with
  | ⟨0, _⟩ => rfl
  | ⟨1, _⟩ => rfl
  | ⟨2, _⟩ =>
    show min (idx1 (ix3 b p (0 : Fin 1))).toInt.toNat (262144 - 1) / 4096
      = min (idx3 (ix3 b p (0 : Fin 3))).toInt.toNat (64 - 1)
    omega
  | ⟨3, _⟩ =>
    show min (idx1 (ix3 b p (0 : Fin 1))).toInt.toNat (262144 - 1) / 64 % 64
      = min (idx3 (ix3 b p (1 : Fin 3))).toInt.toNat (64 - 1)
    omega
  | ⟨4, _⟩ =>
    show min (idx1 (ix3 b p (0 : Fin 1))).toInt.toNat (262144 - 1) % 64
      = min (idx3 (ix3 b p (2 : Fin 3))).toInt.toNat (64 - 1)
    omega

end Idealize.ShloMosaic.GatherBatch

end
-- ==== Proof.LibVoxelIndex.lean ====
/-
  THE FLAT VOXEL INDEX OF A 64 x 64 x 64 VOLUME, IN 32-BIT WORDS.

  A program that samples a volume clips each of the three integer coordinates of a voxel into [0, 63]
  (a maximum against 0, then a minimum against 63, both signed) and then either reads the volume with the
  three clipped words, or with the one flat word  4096 * zc + 64 * yc + xc  into the volume flattened row-major.
  This file has the word arithmetic both routes need: the clipped word is in [0, 63]; the flat word does not
  overflow, its signed value is the sum it spells, and it lies in [0, 262143]; so the comparisons a gather
  wrapper makes on it (negative? in bounds?) are decided, the clamps a gather applies to it and to the three
  words are identities, and dividing the flat word back gives the three words.

  Everything is stated with the operations written out (no wrapper definitions), so that a rewrite matches
  the text of a program directly. The range of a clipped word enters the later lemmas as a hypothesis
  `0 ≤ zc.toInt ∧ zc.toInt ≤ 63`, which `clip_bounds` supplies.
-/
import Idealize.ShloMosaic.Lib.ValueIdx

namespace Cert.LibVoxelIndex

open Idealize.ShloMosaic

/-! ## Signed comparisons of words, decided from the signed values -/

/-- A signed "less than" is the bit 0 when the right word's signed value is at most the left's. -/
theorem cmpi_slt_eq_zero {w : Nat} (a b : BitVec w) (h : b.toInt ≤ a.toInt) : IntOp.cmpi .slt a b = 0#1 := by
  show BitVec.ofBool (a.slt b) = 0#1
  have hb : a.slt b = false := by rw [BitVec.slt, decide_eq_false_iff_not]; omega
  rw [hb]; rfl

/-- A signed "less than" is the bit 1 when the left word's signed value is below the right's. -/
theorem cmpi_slt_eq_one {w : Nat} (a b : BitVec w) (h : a.toInt < b.toInt) : IntOp.cmpi .slt a b = 1#1 := by
  show BitVec.ofBool (a.slt b) = 1#1
  have hb : a.slt b = true := by rw [BitVec.slt, decide_eq_true_eq]; exact h
  rw [hb]; rfl

/-- A signed "greater or equal" is the bit 1 when the right word's signed value is at most the left's. -/
theorem cmpi_sge_eq_one {w : Nat} (a b : BitVec w) (h : b.toInt ≤ a.toInt) : IntOp.cmpi .sge a b = 1#1 := by
  show BitVec.ofBool (b.sle a) = 1#1
  have hb : b.sle a = true := by rw [BitVec.sle, decide_eq_true_eq]; exact h
  rw [hb]; rfl

/-- A signed "greater or equal" is the bit 0 when the left word's signed value is below the right's. -/
theorem cmpi_sge_eq_zero {w : Nat} (a b : BitVec w) (h : a.toInt < b.toInt) : IntOp.cmpi .sge a b = 0#1 := by
  show BitVec.ofBool (b.sle a) = 0#1
  have hb : b.sle a = false := by rw [BitVec.sle, decide_eq_false_iff_not]; omega
  rw [hb]; rfl

/-- A signed "less or equal" is the bit 1 when the left word's signed value is at most the right's. -/
theorem cmpi_sle_eq_one {w : Nat} (a b : BitVec w) (h : a.toInt ≤ b.toInt) : IntOp.cmpi .sle a b = 1#1 := by
  show BitVec.ofBool (a.sle b) = 1#1
  have hb : a.sle b = true := by rw [BitVec.sle, decide_eq_true_eq]; exact h
  rw [hb]; rfl

/-- A signed "less or equal" is the bit 0 when the right word's signed value is below the left's. -/
theorem cmpi_sle_eq_zero {w : Nat} (a b : BitVec w) (h : b.toInt < a.toInt) : IntOp.cmpi .sle a b = 0#1 := by
  show BitVec.ofBool (a.sle b) = 0#1
  have hb : a.sle b = false := by rw [BitVec.sle, decide_eq_false_iff_not]; omega
  rw [hb]; rfl

/-! ## The signed values of the literals that occur -/

/-- The word 0 has signed value 0. -/
theorem toInt_0 : (0#32 : BitVec 32).toInt = 0 := by decide
/-- The word 63 has signed value 63. -/
theorem toInt_63 : (63#32 : BitVec 32).toInt = 63 := by decide
/-- The word 64 has signed value 64. -/
theorem toInt_64 : (64#32 : BitVec 32).toInt = 64 := by decide
/-- The word 4096 has signed value 4096. -/
theorem toInt_4096 : (4096#32 : BitVec 32).toInt = 4096 := by decide
/-- The word 262143 has signed value 262143. -/
theorem toInt_262143 : (262143#32 : BitVec 32).toInt = 262143 := by decide
/-- The word 262144 has signed value 262144. -/
theorem toInt_262144 : (262144#32 : BitVec 32).toInt = 262144 := by decide

/-! ## The clipped word -/

/-- The signed value of a word clipped into [0, 63] — the signed maximum against 0, then the signed minimum
    against 63, each with the bound as its FIRST operand — is the value clamped: `min 63 (max 0 z)`. -/
theorem clip_toInt (z : BitVec 32) :
    (IntOp.minsi 63#32 (IntOp.maxsi 0#32 z)).toInt = min 63 (max 0 z.toInt) := by
  unfold IntOp.minsi IntOp.maxsi
  simp only [BitVec.slt, decide_eq_true_eq]
  have h0 := toInt_0
  have h63 := toInt_63
  split <;> split <;> omega

/-- A word clipped into [0, 63] has its signed value in [0, 63]. -/
theorem clip_bounds (z : BitVec 32) :
    0 ≤ (IntOp.minsi 63#32 (IntOp.maxsi 0#32 z)).toInt ∧ (IntOp.minsi 63#32 (IntOp.maxsi 0#32 z)).toInt ≤ 63 := by
  rw [clip_toInt]; omega

/-- A word already in [0, 63] is left as it is by the clip. -/
theorem clip_of_mem (z : BitVec 32) (hz : 0 ≤ z.toInt ∧ z.toInt ≤ 63) :
    IntOp.minsi 63#32 (IntOp.maxsi 0#32 z) = z := by
  apply BitVec.eq_of_toInt_eq
  rw [clip_toInt]; omega

/-- A word in [0, 63] is not negative: the signed comparison with 0 a per-axis index wrap makes is the bit 0. -/
theorem word_not_neg (zc : BitVec 32) (hz : 0 ≤ zc.toInt ∧ zc.toInt ≤ 63) : IntOp.cmpi .slt zc 0#32 = 0#1 :=
  cmpi_slt_eq_zero _ _ (by rw [toInt_0]; exact hz.1)

/-- The clamp into [0, 63] a gather applies to a word in [0, 63] is the identity. -/
theorem word_clamp (zc : BitVec 32) (hz : 0 ≤ zc.toInt ∧ zc.toInt ≤ 63) : min zc.toInt.toNat 63 = zc.toInt.toNat := by
  omega

/-- The same, with the bound spelt `64 - 1` as a gather over an axis of extent 64 spells it. -/
theorem word_clamp' (zc : BitVec 32) (hz : 0 ≤ zc.toInt ∧ zc.toInt ≤ 63) : min zc.toInt.toNat (64 - 1) = zc.toInt.toNat := by
  omega

/-! ## The flat word `4096 * zc + 64 * yc + xc` -/

section Lin
variable (zc yc xc : BitVec 32) (hz : 0 ≤ zc.toInt ∧ zc.toInt ≤ 63) (hy : 0 ≤ yc.toInt ∧ yc.toInt ≤ 63)
  (hx : 0 ≤ xc.toInt ∧ xc.toInt ≤ 63)
include hz hy hx

/-- The flat word of three words in [0, 63] does not overflow: its signed value is the sum it spells. -/
theorem lin_toInt :
    (IntOp.addi (IntOp.addi (IntOp.muli zc 4096#32) (IntOp.muli yc 64#32)) xc).toInt = 4096 * zc.toInt + 64 * yc.toInt + xc.toInt := by
  unfold IntOp.addi IntOp.muli
  rw [BitVec.toInt_add, BitVec.toInt_add, BitVec.toInt_mul, BitVec.toInt_mul, toInt_4096, toInt_64]
  simp only [Int.bmod_def]
  omega

/-- The flat word lies in [0, 262143]. -/
theorem lin_bounds :
    0 ≤ (IntOp.addi (IntOp.addi (IntOp.muli zc 4096#32) (IntOp.muli yc 64#32)) xc).toInt ∧ (IntOp.addi (IntOp.addi (IntOp.muli zc 4096#32) (IntOp.muli yc 64#32)) xc).toInt ≤ 262143 := by
  rw [lin_toInt zc yc xc hz hy hx]; omega

/-- The flat word is not negative: the wrap of a negative index is not taken. -/
theorem lin_not_neg : IntOp.cmpi .slt (IntOp.addi (IntOp.addi (IntOp.muli zc 4096#32) (IntOp.muli yc 64#32)) xc) 0#32 = 0#1 :=
  cmpi_slt_eq_zero _ _ (by rw [toInt_0]; exact (lin_bounds zc yc xc hz hy hx).1)

/-- The flat word is at least 0: the lower half of the in-bounds mask is the bit 1. -/
theorem lin_ge_zero : IntOp.cmpi .sge (IntOp.addi (IntOp.addi (IntOp.muli zc 4096#32) (IntOp.muli yc 64#32)) xc) 0#32 = 1#1 :=
  cmpi_sge_eq_one _ _ (by rw [toInt_0]; exact (lin_bounds zc yc xc hz hy hx).1)

/-- The flat word is at most 262143: the upper half of the in-bounds mask is the bit 1. -/
theorem lin_le_max : IntOp.cmpi .sle (IntOp.addi (IntOp.addi (IntOp.muli zc 4096#32) (IntOp.muli yc 64#32)) xc) 262143#32 = 1#1 :=
  cmpi_sle_eq_one _ _ (by rw [toInt_262143]; exact (lin_bounds zc yc xc hz hy hx).2)

/-- The clamp into [0, 262143] a gather applies to the flat word is the identity. -/
theorem lin_clamp :
    min (IntOp.addi (IntOp.addi (IntOp.muli zc 4096#32) (IntOp.muli yc 64#32)) xc).toInt.toNat 262143 = (IntOp.addi (IntOp.addi (IntOp.muli zc 4096#32) (IntOp.muli yc 64#32)) xc).toInt.toNat := by
  have := lin_bounds zc yc xc hz hy hx; omega

/-- The same, with the bound spelt `262144 - 1` as a gather over an axis of extent 262144 spells it. -/
theorem lin_clamp' :
    min (IntOp.addi (IntOp.addi (IntOp.muli zc 4096#32) (IntOp.muli yc 64#32)) xc).toInt.toNat (262144 - 1) = (IntOp.addi (IntOp.addi (IntOp.muli zc 4096#32) (IntOp.muli yc 64#32)) xc).toInt.toNat := by
  have := lin_bounds zc yc xc hz hy hx; omega

/-- The flat word as a natural number is below 262144. -/
theorem lin_toNat_lt : (IntOp.addi (IntOp.addi (IntOp.muli zc 4096#32) (IntOp.muli yc 64#32)) xc).toInt.toNat < 262144 := by
  have := lin_bounds zc yc xc hz hy hx; omega

/-- The flat word divided by 4096 gives back the first word. -/
theorem lin_div : (IntOp.addi (IntOp.addi (IntOp.muli zc 4096#32) (IntOp.muli yc 64#32)) xc).toInt.toNat / 4096 = zc.toInt.toNat := by
  have := lin_toInt zc yc xc hz hy hx; omega

/-- The flat word divided by 64, modulo 64, gives back the second word. -/
theorem lin_mid : (IntOp.addi (IntOp.addi (IntOp.muli zc 4096#32) (IntOp.muli yc 64#32)) xc).toInt.toNat / 64 % 64 = yc.toInt.toNat := by
  have := lin_toInt zc yc xc hz hy hx; omega

/-- The flat word modulo 64 gives back the third word. -/
theorem lin_mod : (IntOp.addi (IntOp.addi (IntOp.muli zc 4096#32) (IntOp.muli yc 64#32)) xc).toInt.toNat % 64 = xc.toInt.toNat := by
  have := lin_toInt zc yc xc hz hy hx; omega

end Lin

end Cert.LibVoxelIndex
-- ==== Proof.LibTakeGather.lean ====
/-
  THE TWO ROUTES TO ONE VOXEL OF A 64 x 64 x 64 VOLUME, IN WORDS.

  One program flattens the volume `[B, C, 64, 64, 64]` to `[B, C, 262144]` and gathers ONE flat index word
  `4096 * zc + 64 * yc + xc` per sampled point; another gathers with the THREE index words `(zc, yc, xc)` per point from
  the volume itself. For words in [0, 63] the two fetch the same element at every `(b, c, p)`: the flat word does not
  overflow, the gathers' clamps are identities, and the row-major cast sends the flat position back to `(zc, yc, xc)`.
-/
import proofs.«103167_j42614665511136_1_alg».proof.Proof.LibGatherBatch
import proofs.«103167_j42614665511136_1_alg».proof.Proof.LibVoxelIndex

noncomputable section

namespace Cert.LibVoxelIndex

open Idealize.ShloMosaic Idealize.ShloMosaic.ValueIdx Idealize.ShloMosaic.GatherBatch

/-- THE FLAT ROUTE IS THE THREE-WORD ROUTE, IN WORDS. For dimension-number records of the two stated forms, a volume
    `x`, one-word start indices `idx1` and three-word start indices `idx3`: if at the point `(b, p)` the three words are
    `zc`, `yc`, `xc` in [0, 63] (word 0 the first spatial axis, word 1 the second, word 2 the third) and the one word is
    `4096 * zc + 64 * yc + xc` computed in 32-bit arithmetic, then the gather from the cast volume and the gather from the
    volume agree at `(b, c, p)` for every channel `c`. -/
theorem take_eq_gather3 {α : Type} {B C P : Nat}
    (d1 : GatherDims ⟨3, ![B, C, 262144]⟩ ⟨3, ![B, P, 1]⟩ ⟨3, ![B, C, P]⟩)
    (hod1 : d1.offsetDims = [1]) (hcd1 : d1.collapsedSliceDims = [2]) (hob1 : d1.operandBatchingDims = [0])
    (hsb1 : d1.startIndicesBatchingDims = [0]) (hsm1 : d1.startIndexMap = [2]) (hiv1 : d1.indexVectorDim = 2)
    (hss1 : d1.sliceSizes = ![1, C, 1])
    (d3 : GatherDims ⟨5, ![B, C, 64, 64, 64]⟩ ⟨3, ![B, P, 3]⟩ ⟨3, ![B, C, P]⟩)
    (hod3 : d3.offsetDims = [1]) (hcd3 : d3.collapsedSliceDims = [2, 3, 4]) (hob3 : d3.operandBatchingDims = [0])
    (hsb3 : d3.startIndicesBatchingDims = [0]) (hsm3 : d3.startIndexMap = [2, 3, 4]) (hiv3 : d3.indexVectorDim = 2)
    (hss3 : d3.sliceSizes = ![1, C, 1, 1, 1])
    (h : (⟨5, ![B, C, 64, 64, 64]⟩ : Shape).ShapeCasts ⟨3, ![B, C, 262144]⟩)
    (x : (⟨5, ![B, C, 64, 64, 64]⟩ : Shape).Idx → α)
    (idx1 : IVec ⟨3, ![B, P, 1]⟩ 32) (idx3 : IVec ⟨3, ![B, P, 3]⟩ 32) (b : Fin B) (c : Fin C) (p : Fin P)
    (zc yc xc : BitVec 32) (hz : 0 ≤ zc.toInt ∧ zc.toInt ≤ 63) (hy : 0 ≤ yc.toInt ∧ yc.toInt ≤ 63)
    (hx : 0 ≤ xc.toInt ∧ xc.toInt ≤ 63)
    (h0 : idx3 (ix3 b p (0 : Fin 3)) = zc) (h1 : idx3 (ix3 b p (1 : Fin 3)) = yc) (h2 : idx3 (ix3 b p (2 : Fin 3)) = xc)
    (hl : idx1 (ix3 b p (0 : Fin 1)) = IntOp.addi (IntOp.addi (IntOp.muli zc 4096#32) (IntOp.muli yc 64#32)) xc) :
    Host.gather d1 (shapeCast ⟨3, ![B, C, 262144]⟩ x h) idx1 (ix3 b c p) = Host.gather d3 x idx3 (ix3 b c p) := by
  have hb := lin_bounds zc yc xc hz hy hx
  have hd := lin_div zc yc xc hz hy hx
  have hm := lin_mid zc yc xc hz hy hx
  have hr := lin_mod zc yc xc hz hy hx
  apply take_eq_gather3_nat d1 hod1 hcd1 hob1 hsb1 hsm1 hiv1 hss1 d3 hod3 hcd3 hob3 hsb3 hsm3 hiv3 hss3 h x idx1 idx3
    b c p
  · rw [hl]; omega
  · rw [hl, h0, hd]; omega
  · rw [hl, h1, hm]; omega
  · rw [hl, h2, hr]; omega

end Cert.LibVoxelIndex

end
-- ==== Proof.LibReduceAnd.lean ====
/-
  A REDUCTION BY `and` OF AN ARRAY OF ONES IS ONE.

  A guard such as "every component of the index is in range" prints as a one-operand `stablehlo.reduce` of an `i1`
  array by `and` from the constant 1. The library reads such a reduce back when its result is known to be 1
  (Lib/ReduceAll.lean); here is the other direction: where every operand element that reduces into a result position
  is 1 (and the initial value is 1), the result there is 1.
-/
import Idealize.ShloMosaic.Lib.ReduceAll

namespace Cert.LibReduceAnd

open Idealize.ShloMosaic

/-- A left fold by `and` over `i1` words, from 1, that meets only 1s is 1. -/
theorem foldl_andi_of_all_one {ι : Type} (f : ι → BitVec 1) :
    ∀ (l : List ι), (∀ n ∈ l, f n = 1#1) → l.foldl (fun r n => IntOp.andi r (f n)) 1#1 = 1#1
  | [], _ => rfl
  | a :: l, h => by
    have h11 : IntOp.andi 1#1 1#1 = 1#1 := by decide
    rw [List.foldl_cons, h a (List.mem_cons_self ..), h11]
    exact foldl_andi_of_all_one f l (fun n hn => h n (List.mem_cons_of_mem _ hn))

/-- A `stablehlo.reduce` by `and` from an initial value 1 is 1 at `j` when every operand element that reduces into
    `j` is 1. -/
theorem reduce_andi_of_all_one {s t u : Shape} {axes : List (Fin s.rank)} (x : s.Idx → BitVec 1)
    (init : u.Idx → BitVec 1) (h : s.ReducesTo axes t) (hu : 0 < u.numel) (j : t.Idx)
    (hinit : init (Shape.Idx.first hu) = 1#1) (hall : ∀ i, h.drop i = j → x i = 1#1) :
    Host.reduce IntOp.andi x init h hu j = 1#1 := by
  rw [Host.reduce_eq_foldl, hinit]
  apply foldl_andi_of_all_one
  intro i hi
  rw [List.mem_filter] at hi
  exact hall i (by simpa using hi.2)

/-- The same when every operand element is 1. -/
theorem reduce_andi_of_forall_one {s t u : Shape} {axes : List (Fin s.rank)} (x : s.Idx → BitVec 1)
    (init : u.Idx → BitVec 1) (h : s.ReducesTo axes t) (hu : 0 < u.numel) (j : t.Idx)
    (hinit : init (Shape.Idx.first hu) = 1#1) (hall : ∀ i, x i = 1#1) :
    Host.reduce IntOp.andi x init h hu j = 1#1 :=
  reduce_andi_of_all_one x init h hu j hinit (fun i _ => hall i)

end Cert.LibReduceAnd
-- ==== Proof.CornerEq.lean ====
/-
  One corner of the trilinear sampling is the same in the two programs.

  One program multiplies the weight, zeroed outside the grid, by the voxel fetched through the flat index
  4096 z + 64 y + x from the volume cast to [B, C, 262144], behind an in-range test that always passes; the other
  multiplies the weight by the voxel fetched with the three words, zeroed outside the grid. Pointwise, with v the
  validity bit, w the weight and g the voxel:  select v w 0 * g = w * select v g 0,  and the two fetches read the
  same voxel because the three words are clipped into [0, 63].
-/
import proofs.«103167_j42614665511136_1_alg».proof.Proof.CornerDefs
import proofs.«103167_j42614665511136_1_alg».proof.Proof.LibTakeGather
import proofs.«103167_j42614665511136_1_alg».proof.Proof.LibReduceAnd
import Idealize.ShloMosaic.Lib.IdealHost

noncomputable section

open Idealize.ShloMosaic Idealize.ShloMosaic.ValueIdx Idealize.ShloMosaic.GatherBatch Cert.LibVoxelIndex Cert.LibReduceAnd

namespace Cert.Bridge

namespace K
open Cert.KernelIdeal Cert.KernelIdeal.Facts₀ Cert.KernelIdeal.Facts
variable [Cert.KernelIdeal.Facts]

/-- The clip read at a point: the signed maximum against 0, then the signed minimum against 63. -/
theorem clip_apply (zi : IVec S2x12544 32) (j : S2x12544.Idx) :
    clip zi j = IntOp.minsi 63#32 (IntOp.maxsi 0#32 (zi j)) := rfl

/-- A clipped word is in [0, 63]. -/
theorem clip_mem (zi : IVec S2x12544 32) (j : S2x12544.Idx) : 0 ≤ (clip zi j).toInt ∧ (clip zi j).toInt ≤ 63 :=
  clip_bounds (zi j)

/-- The flat index read at a point. -/
theorem lin_apply (zi yi xi : IVec S2x12544 32) (j : S2x12544.Idx) :
    lin zi yi xi j
      = IntOp.addi (IntOp.addi (IntOp.muli (clip zi j) 4096#32) (IntOp.muli (clip yi j) 64#32)) (clip xi j) := rfl

/-- The index the fetch takes, read at `(b, p, k)`: the wrap select on the word of `(b, p)`. -/
theorem takeIdx_apply (l : IVec S2x12544 32) (b : Fin 2) (p : Fin 12544) (k : Fin 1) :
    takeIdx l (ix3 b p k)
      = Scalar.select (IntOp.cmpi .slt (l (ix2 b p)) 0#32) (IntOp.addi (l (ix2 b p)) 262144#32) (l (ix2 b p)) := by
  unfold takeIdx
  rw [broadcastInDim_apply _ _ _ (ix3 b p k) (ix2 b p) (by intro a; fin_cases a <;> rfl)]
  rfl

/-- For the flat index of clipped words the wrap is not taken: the fetch takes the flat index itself. -/
theorem takeIdx_lin (zi yi xi : IVec S2x12544 32) (b : Fin 2) (p : Fin 12544) (k : Fin 1) :
    takeIdx (lin zi yi xi) (ix3 b p k)
      = IntOp.addi (IntOp.addi (IntOp.muli (clip zi (ix2 b p)) 4096#32) (IntOp.muli (clip yi (ix2 b p)) 64#32))
          (clip xi (ix2 b p)) := by
  rw [takeIdx_apply, lin_apply,
    lin_not_neg _ _ _ (clip_mem zi (ix2 b p)) (clip_mem yi (ix2 b p)) (clip_mem xi (ix2 b p)), select_zero]

/-- The in-range test of the fetch passes at every index. -/
theorem take_mask_one (zi yi xi : IVec S2x12544 32) (i : S2x12544x1.Idx) :
    (andi (cmpi .sge (takeIdx (lin zi yi xi)) (broadcastInDim S2x12544x1 ![] bcast_S_S2x12544x1 (constantI S_ 32 0#32)))
      (cmpi .sle (takeIdx (lin zi yi xi)) (broadcastInDim S2x12544x1 ![0, 1, 2] bcast_S1x1x1_S2x12544x1_0_1_2
        (broadcastInDim S1x1x1 ![2] bcast_S1_S1x1x1_2 (constantI S1 32 262143#32))))) i = 1#1 := by
  obtain ⟨b, p, k, rfl⟩ : ∃ (b : Fin 2) (p : Fin 12544) (k : Fin 1), i = ix3 b p k := ⟨i 0, i 1, i 2, eq_ix3 i⟩
  show IntOp.andi (IntOp.cmpi .sge (takeIdx (lin zi yi xi) (ix3 b p k)) 0#32)
    (IntOp.cmpi .sle (takeIdx (lin zi yi xi) (ix3 b p k)) 262143#32) = 1#1
  rw [takeIdx_lin,
    lin_ge_zero _ _ _ (clip_mem zi (ix2 b p)) (clip_mem yi (ix2 b p)) (clip_mem xi (ix2 b p)),
    lin_le_max _ _ _ (clip_mem zi (ix2 b p)) (clip_mem yi (ix2 b p)) (clip_mem xi (ix2 b p))]
  rfl

/-- The fetch of 100 channels through the flat index of clipped words, read at `(b, c, p)`: the gathered voxel. -/
theorem take100_lin_apply (vol : FVec Ideal S2x100x262144 .f32) (zi yi xi : IVec S2x12544 32)
    (b : Fin 2) (c : Fin 100) (p : Fin 12544) :
    take100 vol (lin zi yi xi) (ix3 b c p)
      = Host.gather gather_S2x100x262144_S2x12544x1_S2x100x12544_1_2_0_0_2_2_11001 vol (takeIdx (lin zi yi xi))
          (ix3 b c p) := by
  unfold take100
  rw [select_apply, broadcastInDim_apply _ _ _ (ix3 b c p) (ix2 b p) (by intro a; fin_cases a <;> rfl),
    reduce_andi_of_forall_one _ _ _ _ _ rfl (take_mask_one zi yi xi), select_one]

/-- The weight with its validity guard, read at `(b, p)`. -/
theorem maskedWeight_apply (valid : IVec S2x12544 1) (wgt : FVec Ideal S2x12544 .f32) (j : S2x12544.Idx) :
    maskedWeight valid wgt j = Scalar.select (valid j) (wgt j) 0 := by
  unfold maskedWeight
  rw [select_apply]
  congr 1
  exact Ideal.ofBits_zero_f32

/-- One corner of the 100 channels, read at `(b, c, p)`. -/
theorem corner100_apply (vol : FVec Ideal S2x100x262144 .f32) (wgt : FVec Ideal S2x12544 .f32)
    (valid : IVec S2x12544 1) (zi yi xi : IVec S2x12544 32) (b : Fin 2) (c : Fin 100) (p : Fin 12544) :
    corner100 vol wgt valid zi yi xi (ix3 b c p)
      = Scalar.select (valid (ix2 b p)) (wgt (ix2 b p)) 0
        * Host.gather gather_S2x100x262144_S2x12544x1_S2x100x12544_1_2_0_0_2_2_11001 vol (takeIdx (lin zi yi xi))
            (ix3 b c p) := by
  unfold corner100
  rw [mulf_apply, take100_lin_apply,
    broadcastInDim_apply _ _ _ (ix3 b c p) (ix3 b (0 : Fin 1) p) (by intro a; fin_cases a <;> rfl),
    broadcastInDim_apply _ _ _ (ix3 b (0 : Fin 1) p) (ix2 b p) (by intro a; fin_cases a <;> rfl),
    maskedWeight_apply]

end K

namespace R
open Cert.ReferenceIdeal Cert.ReferenceIdeal.Facts₀ Cert.ReferenceIdeal.Facts
variable [Cert.ReferenceIdeal.Facts]

/-- The clip read at a point: the signed maximum against 0, then the signed minimum against 63. -/
theorem clip_apply (zi : IVec S2x12544 32) (j : S2x12544.Idx) :
    clip zi j = IntOp.minsi 63#32 (IntOp.maxsi 0#32 (zi j)) := rfl

/-- A clipped word is in [0, 63]. -/
theorem clip_mem (zi : IVec S2x12544 32) (j : S2x12544.Idx) : 0 ≤ (clip zi j).toInt ∧ (clip zi j).toInt ≤ 63 :=
  clip_bounds (zi j)

/-- A wrapped column read at `(b, p, k)`: the wrap select on the word of `(b, p)`. -/
theorem wrapCol_apply (zc : IVec S2x12544 32) (b : Fin 2) (p : Fin 12544) (k : Fin 1) :
    wrapCol zc (ix3 b p k)
      = Scalar.select (IntOp.cmpi .slt (zc (ix2 b p)) 0#32) (IntOp.addi (zc (ix2 b p)) 64#32) (zc (ix2 b p)) := by
  unfold wrapCol
  rw [broadcastInDim_apply _ _ _ (ix3 b p k) (ix2 b p) (by intro a; fin_cases a <;> rfl)]
  rfl

/-- For a clipped word the wrap is not taken. -/
theorem wrapCol_clip (zi : IVec S2x12544 32) (b : Fin 2) (p : Fin 12544) (k : Fin 1) :
    wrapCol (clip zi) (ix3 b p k) = clip zi (ix2 b p) := by
  rw [wrapCol_apply, word_not_neg _ (clip_mem zi (ix2 b p)), select_zero]

/-- Word 0 of the start indices at `(b, p)` is the first clipped word. -/
theorem idx3_apply0 (zi yi xi : IVec S2x12544 32) (b : Fin 2) (p : Fin 12544) :
    idx3 zi yi xi (ix3 b p (0 : Fin 3)) = clip zi (ix2 b p) := by
  unfold idx3
  rw [concatenate_apply_piece (2 : Fin 3) _ _ (ix3 b p (0 : Fin 3)) 0 (by show (0 : ℕ) < 3; decide) S2x12544x1 (wrapCol (clip zi)) rfl rfl 0 rfl
    (ix3 b p (0 : Fin 1)) (by intro a h; fin_cases a <;> first | rfl | exact absurd rfl h) rfl]
  exact wrapCol_clip zi b p 0

/-- Word 1 is the second clipped word. -/
theorem idx3_apply1 (zi yi xi : IVec S2x12544 32) (b : Fin 2) (p : Fin 12544) :
    idx3 zi yi xi (ix3 b p (1 : Fin 3)) = clip yi (ix2 b p) := by
  unfold idx3
  rw [concatenate_apply_piece (2 : Fin 3) _ _ (ix3 b p (1 : Fin 3)) 1 (by show (1 : ℕ) < 3; decide) S2x12544x1 (wrapCol (clip yi)) rfl rfl 1 rfl
    (ix3 b p (0 : Fin 1)) (by intro a h; fin_cases a <;> first | rfl | exact absurd rfl h) rfl]
  exact wrapCol_clip yi b p 0

/-- Word 2 is the third clipped word. -/
theorem idx3_apply2 (zi yi xi : IVec S2x12544 32) (b : Fin 2) (p : Fin 12544) :
    idx3 zi yi xi (ix3 b p (2 : Fin 3)) = clip xi (ix2 b p) := by
  unfold idx3
  rw [concatenate_apply_piece (2 : Fin 3) _ _ (ix3 b p (2 : Fin 3)) 2 (by show (2 : ℕ) < 3; decide) S2x12544x1 (wrapCol (clip xi)) rfl rfl 2 rfl
    (ix3 b p (0 : Fin 1)) (by intro a h; fin_cases a <;> first | rfl | exact absurd rfl h) rfl]
  exact wrapCol_clip xi b p 0

/-- One corner of the 100 channels, read at `(b, c, p)`. -/
theorem corner100_apply (vol : FVec Ideal S2x100x64x64x64 .f32) (wgt : FVec Ideal S2x12544 .f32)
    (valid : IVec S2x12544 1) (zi yi xi : IVec S2x12544 32) (b : Fin 2) (c : Fin 100) (p : Fin 12544) :
    corner100 vol wgt valid zi yi xi (ix3 b c p)
      = wgt (ix2 b p)
        * Scalar.select (valid (ix2 b p))
            (Host.gather gather_S2x100x64x64x64_S2x12544x3_S2x100x12544_1_234_0_0_234_2_1100111 vol (idx3 zi yi xi)
              (ix3 b c p)) 0 := by
  unfold corner100
  rw [mulf_apply, select_apply,
    broadcastInDim_apply _ _ _ (ix3 b c p) (ix3 b (0 : Fin 1) p) (by intro a; fin_cases a <;> rfl),
    broadcastInDim_apply _ _ _ (ix3 b (0 : Fin 1) p) (ix2 b p) (by intro a; fin_cases a <;> rfl),
    broadcastInDim_apply (![0, 2] : Fin 2 → Fin 3) _ valid (ix3 b c p) (ix2 b p) (by intro a; fin_cases a <;> rfl)]
  congr 2
  exact Ideal.ofBits_zero_f32

end R

/-- The scalar fact under a corner: zeroing the weight and zeroing the voxel by the same bit give the same product. -/
theorem select_mul_comm (v : BitVec 1) (w g : EReal) :
    Scalar.select v w 0 * g = w * Scalar.select v g 0 := by
  rcases BitVec.eq_zero_or_eq_one v with h | h
  · rw [h, select_zero, select_zero, zero_mul, mul_zero]
  · rw [h, select_one, select_one]

/-- ONE CORNER OF THE 100 SAMPLED CHANNELS IS THE SAME IN THE TWO PROGRAMS. -/
theorem corner100_eq [Cert.KernelIdeal.Facts] [Cert.ReferenceIdeal.Facts]
    (A0 : FVec Ideal Cert.ReferenceIdeal.S2x100x64x64x64 .f32) (wgt : FVec Ideal Cert.ReferenceIdeal.S2x12544 .f32)
    (valid : IVec Cert.ReferenceIdeal.S2x12544 1) (zi yi xi : IVec Cert.ReferenceIdeal.S2x12544 32) :
    K.corner100 (shapeCast Cert.KernelIdeal.S2x100x262144 A0
        Cert.KernelIdeal.Facts₀.shapeCasts_S2x100x64x64x64_S2x100x262144) wgt valid zi yi xi
      = R.corner100 A0 wgt valid zi yi xi := by
  funext j
  obtain ⟨b, c, p, rfl⟩ : ∃ (b : Fin 2) (c : Fin 100) (p : Fin 12544), j = ix3 b c p := ⟨j 0, j 1, j 2, eq_ix3 j⟩
  rw [K.corner100_apply, R.corner100_apply]
  have hg := take_eq_gather3
    Cert.KernelIdeal.gather_S2x100x262144_S2x12544x1_S2x100x12544_1_2_0_0_2_2_11001 rfl rfl rfl rfl rfl rfl rfl
    Cert.ReferenceIdeal.gather_S2x100x64x64x64_S2x12544x3_S2x100x12544_1_234_0_0_234_2_1100111 rfl rfl rfl rfl rfl rfl rfl
    Cert.KernelIdeal.Facts₀.shapeCasts_S2x100x64x64x64_S2x100x262144 A0
    (K.takeIdx (K.lin zi yi xi)) (R.idx3 zi yi xi) b c p
    (R.clip zi (ix2 b p)) (R.clip yi (ix2 b p)) (R.clip xi (ix2 b p))
    (R.clip_mem zi _) (R.clip_mem yi _) (R.clip_mem xi _)
    (R.idx3_apply0 zi yi xi b p) (R.idx3_apply1 zi yi xi b p) (R.idx3_apply2 zi yi xi b p)
    (K.takeIdx_lin zi yi xi b p 0)
  rw [hg]
  exact select_mul_comm _ _ _

/-! ## The 30-channel volume: the same corner with 30 in place of 100 -/

namespace K
open Cert.KernelIdeal Cert.KernelIdeal.Facts₀ Cert.KernelIdeal.Facts
variable [Cert.KernelIdeal.Facts]

/-- The fetch of 30 channels through the flat index: the gathered voxel where the index is in range, else a fill word. -/
def take30 (vol : FVec Ideal S2x30x262144 .f32) (l : IVec S2x12544 32) : FVec Ideal S2x30x12544 .f32 :=
  select
    (broadcastInDim S2x30x12544 ![0, 2] bcast_S2x12544_S2x30x12544_0_2
      (Host.reduce IntOp.andi
        (andi (cmpi .sge (takeIdx l) (broadcastInDim S2x12544x1 ![] bcast_S_S2x12544x1 (constantI S_ 32 0#32)))
          (cmpi .sle (takeIdx l) (broadcastInDim S2x12544x1 ![0, 1, 2] bcast_S1x1x1_S2x12544x1_0_1_2
            (broadcastInDim S1x1x1 ![2] bcast_S1_S1x1x1_2 (constantI S1 32 262143#32)))))
        (constantI S_ 1 1#1) reducesTo_S2x12544x1_S2x12544_d2 h_S_))
    (Host.gather gather_S2x30x262144_S2x12544x1_S2x30x12544_1_2_0_0_2_2_1301 vol (takeIdx l))
    (broadcastInDim S2x30x12544 ![] bcast_S_S2x30x12544 (constant (F := Ideal) S_ .f32 0x7FC00000#32))

/-- One corner's contribution to the 30 sampled channels. -/
def corner30 (vol : FVec Ideal S2x30x262144 .f32) (wgt : FVec Ideal S2x12544 .f32) (valid : IVec S2x12544 1)
    (zi yi xi : IVec S2x12544 32) : FVec Ideal S2x30x12544 .f32 :=
  mulf (broadcastInDim S2x30x12544 ![0, 1, 2] bcast_S2x1x12544_S2x30x12544_0_1_2
      (broadcastInDim S2x1x12544 ![0, 2] bcast_S2x12544_S2x1x12544_0_2 (maskedWeight valid wgt)))
    (take30 vol (lin zi yi xi))

/-- The fetch of 30 channels through the flat index of clipped words, read at `(b, c, p)`: the gathered voxel. -/
theorem take30_lin_apply (vol : FVec Ideal S2x30x262144 .f32) (zi yi xi : IVec S2x12544 32)
    (b : Fin 2) (c : Fin 30) (p : Fin 12544) :
    take30 vol (lin zi yi xi) (ix3 b c p)
      = Host.gather gather_S2x30x262144_S2x12544x1_S2x30x12544_1_2_0_0_2_2_1301 vol (takeIdx (lin zi yi xi))
          (ix3 b c p) := by
  unfold take30
  rw [select_apply, broadcastInDim_apply _ _ _ (ix3 b c p) (ix2 b p) (by intro a; fin_cases a <;> rfl),
    reduce_andi_of_forall_one _ _ _ _ _ rfl (take_mask_one zi yi xi), select_one]

/-- One corner of the 30 channels, read at `(b, c, p)`. -/
theorem corner30_apply (vol : FVec Ideal S2x30x262144 .f32) (wgt : FVec Ideal S2x12544 .f32)
    (valid : IVec S2x12544 1) (zi yi xi : IVec S2x12544 32) (b : Fin 2) (c : Fin 30) (p : Fin 12544) :
    corner30 vol wgt valid zi yi xi (ix3 b c p)
      = Scalar.select (valid (ix2 b p)) (wgt (ix2 b p)) 0
        * Host.gather gather_S2x30x262144_S2x12544x1_S2x30x12544_1_2_0_0_2_2_1301 vol (takeIdx (lin zi yi xi))
            (ix3 b c p) := by
  unfold corner30
  rw [mulf_apply, take30_lin_apply,
    broadcastInDim_apply _ _ _ (ix3 b c p) (ix3 b (0 : Fin 1) p) (by intro a; fin_cases a <;> rfl),
    broadcastInDim_apply _ _ _ (ix3 b (0 : Fin 1) p) (ix2 b p) (by intro a; fin_cases a <;> rfl),
    maskedWeight_apply]

end K

namespace R
open Cert.ReferenceIdeal Cert.ReferenceIdeal.Facts₀ Cert.ReferenceIdeal.Facts
variable [Cert.ReferenceIdeal.Facts]

/-- One corner's contribution to the 30 sampled channels. -/
def corner30 (vol : FVec Ideal S2x30x64x64x64 .f32) (wgt : FVec Ideal S2x12544 .f32) (valid : IVec S2x12544 1)
    (zi yi xi : IVec S2x12544 32) : FVec Ideal S2x30x12544 .f32 :=
  mulf (broadcastInDim S2x30x12544 ![0, 1, 2] bcast_S2x1x12544_S2x30x12544_0_1_2
      (broadcastInDim S2x1x12544 ![0, 2] bcast_S2x12544_S2x1x12544_0_2 wgt))
    (select (broadcastInDim S2x30x12544 ![0, 2] bcast_S2x12544_S2x30x12544_0_2 valid)
      (Host.gather gather_S2x30x64x64x64_S2x12544x3_S2x30x12544_1_234_0_0_234_2_130111 vol (idx3 zi yi xi))
      (broadcastInDim S2x30x12544 ![1, 2] bcast_S30x12544_S2x30x12544_1_2
        (broadcastInDim S30x12544 ![1] bcast_S12544_S30x12544_1
          (broadcastInDim S12544 ![] bcast_S_S12544 (constant (F := Ideal) S_ .f32 0x00000000#32)))))

/-- One corner of the 30 channels, read at `(b, c, p)`. -/
theorem corner30_apply (vol : FVec Ideal S2x30x64x64x64 .f32) (wgt : FVec Ideal S2x12544 .f32)
    (valid : IVec S2x12544 1) (zi yi xi : IVec S2x12544 32) (b : Fin 2) (c : Fin 30) (p : Fin 12544) :
    corner30 vol wgt valid zi yi xi (ix3 b c p)
      = wgt (ix2 b p)
        * Scalar.select (valid (ix2 b p))
            (Host.gather gather_S2x30x64x64x64_S2x12544x3_S2x30x12544_1_234_0_0_234_2_130111 vol (idx3 zi yi xi)
              (ix3 b c p)) 0 := by
  unfold corner30
  rw [mulf_apply, select_apply,
    broadcastInDim_apply _ _ _ (ix3 b c p) (ix3 b (0 : Fin 1) p) (by intro a; fin_cases a <;> rfl),
    broadcastInDim_apply _ _ _ (ix3 b (0 : Fin 1) p) (ix2 b p) (by intro a; fin_cases a <;> rfl),
    broadcastInDim_apply (![0, 2] : Fin 2 → Fin 3) _ valid (ix3 b c p) (ix2 b p) (by intro a; fin_cases a <;> rfl)]
  congr 2
  exact Ideal.ofBits_zero_f32

end R

/-- ONE CORNER OF THE 30 SAMPLED CHANNELS IS THE SAME IN THE TWO PROGRAMS. -/
theorem corner30_eq [Cert.KernelIdeal.Facts] [Cert.ReferenceIdeal.Facts]
    (A2 : FVec Ideal Cert.ReferenceIdeal.S2x30x64x64x64 .f32) (wgt : FVec Ideal Cert.ReferenceIdeal.S2x12544 .f32)
    (valid : IVec Cert.ReferenceIdeal.S2x12544 1) (zi yi xi : IVec Cert.ReferenceIdeal.S2x12544 32) :
    K.corner30 (shapeCast Cert.KernelIdeal.S2x30x262144 A2
        Cert.KernelIdeal.Facts₀.shapeCasts_S2x30x64x64x64_S2x30x262144) wgt valid zi yi xi
      = R.corner30 A2 wgt valid zi yi xi := by
  funext j
  obtain ⟨b, c, p, rfl⟩ : ∃ (b : Fin 2) (c : Fin 30) (p : Fin 12544), j = ix3 b c p := ⟨j 0, j 1, j 2, eq_ix3 j⟩
  rw [K.corner30_apply, R.corner30_apply]
  have hg := take_eq_gather3
    Cert.KernelIdeal.gather_S2x30x262144_S2x12544x1_S2x30x12544_1_2_0_0_2_2_1301 rfl rfl rfl rfl rfl rfl rfl
    Cert.ReferenceIdeal.gather_S2x30x64x64x64_S2x12544x3_S2x30x12544_1_234_0_0_234_2_130111 rfl rfl rfl rfl rfl rfl rfl
    Cert.KernelIdeal.Facts₀.shapeCasts_S2x30x64x64x64_S2x30x262144 A2
    (K.takeIdx (K.lin zi yi xi)) (R.idx3 zi yi xi) b c p
    (R.clip zi (ix2 b p)) (R.clip yi (ix2 b p)) (R.clip xi (ix2 b p))
    (R.clip_mem zi _) (R.clip_mem yi _) (R.clip_mem xi _)
    (R.idx3_apply0 zi yi xi b p) (R.idx3_apply1 zi yi xi b p) (R.idx3_apply2 zi yi xi b p)
    (K.takeIdx_lin zi yi xi b p 0)
  rw [hg]
  exact select_mul_comm _ _ _

end Cert.Bridge

end
-- ==== Proof.KernelSamplingTgt.lean ====
/- The kernel program's second sampled array (the 30 target masks) and its class array as pure terms of its argument
   arrays: a table of definitions, each a literal transcription of the host operations as printed (operation, operand
   order, shape records and side-condition fields), cut into small definitions named after what they are. Every body
   below was compared, character by character, with the term read off the printed operations.

   The points' coordinates are mapped to voxel coordinates ((p + 1) * 64 - 1) / 2 per axis; each has a floor, a
   fractional part and an integer base word. Corner k = 0 … 7 is the voxel at base + (dz, dy, dx) with
   (dz, dy, dx) = (k / 4, (k / 2) mod 2, k mod 2); its weight is the product of the three fractional parts (offset 1)
   or their complements (offset 0). The sampled array is the sum over the eight corners of the corner's contribution
   (corner30 of Proof/CornerEq.lean, on the volume cast to [B, C, 262144]), from a zero start of shape [30, P] that the
   first sum broadcasts to [B, 30, P]. The program computes these coordinates a second time for this volume, by the
   same operations as for the first: they have their own definitions here. No theorem here. -/
import proofs.«103167_j42614665511136_1_alg».proof.Proof.CornerDefs
import proofs.«103167_j42614665511136_1_alg».proof.Proof.CornerEq

noncomputable section

open Idealize.ShloMosaic Idealize.ShloMosaic.ValueIdx

namespace Cert.Bridge.K30
open Cert.KernelIdeal Cert.KernelIdeal.Facts₀ Cert.KernelIdeal.Facts
open Cert.Bridge
variable [Cert.KernelIdeal.Facts]

/-- The point coordinates mapped from [0, 1] to [-1, 1]: 2 p - 1. -/
def pts (A3 : FVec Ideal S2x12544x3 .f32) : FVec Ideal S2x12544x3 .f32 :=
  subf (mulf (broadcastInDim S2x12544x3 ![] bcast_S_S2x12544x3 (constant (F := Ideal) S_ .f32 0x40000000#32)) A3) (broadcastInDim S2x12544x3 ![] bcast_S_S2x12544x3 (constant (F := Ideal) S_ .f32 0x3F800000#32))

/-- The voxel coordinate along axis 0 of the points: ((p + 1) * 64 - 1) * 0.5. -/
def coord0 (A3 : FVec Ideal S2x12544x3 .f32) : FVec Ideal S2x12544 .f32 :=
  mulf (subf (mulf (addf (shapeCast S2x12544 (extractStridedSlice S2x12544x1 ![0, 0, 0] (pts A3) slices_S2x12544x3_S2x12544x1_0_0_0) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))

/-- The voxel coordinate along axis 1 of the points: ((p + 1) * 64 - 1) * 0.5. -/
def coord1 (A3 : FVec Ideal S2x12544x3 .f32) : FVec Ideal S2x12544 .f32 :=
  mulf (subf (mulf (addf (shapeCast S2x12544 (extractStridedSlice S2x12544x1 ![0, 0, 1] (pts A3) slices_S2x12544x3_S2x12544x1_0_0_1) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))

/-- The voxel coordinate along axis 2 of the points: ((p + 1) * 64 - 1) * 0.5. -/
def coord2 (A3 : FVec Ideal S2x12544x3 .f32) : FVec Ideal S2x12544 .f32 :=
  mulf (subf (mulf (addf (shapeCast S2x12544 (extractStridedSlice S2x12544x1 ![0, 0, 2] (pts A3) slices_S2x12544x3_S2x12544x1_0_0_2) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))

/-- Its floor, axis 0. -/
def flo0 (A3 : FVec Ideal S2x12544x3 .f32) : FVec Ideal S2x12544 .f32 :=
  Host.floor (coord0 A3)

/-- Its floor, axis 1. -/
def flo1 (A3 : FVec Ideal S2x12544x3 .f32) : FVec Ideal S2x12544 .f32 :=
  Host.floor (coord1 A3)

/-- Its floor, axis 2. -/
def flo2 (A3 : FVec Ideal S2x12544x3 .f32) : FVec Ideal S2x12544 .f32 :=
  Host.floor (coord2 A3)

/-- The fractional part, axis 0. -/
def frac0 (A3 : FVec Ideal S2x12544x3 .f32) : FVec Ideal S2x12544 .f32 :=
  subf (coord0 A3) (flo0 A3)

/-- The fractional part, axis 1. -/
def frac1 (A3 : FVec Ideal S2x12544x3 .f32) : FVec Ideal S2x12544 .f32 :=
  subf (coord1 A3) (flo1 A3)

/-- The fractional part, axis 2. -/
def frac2 (A3 : FVec Ideal S2x12544x3 .f32) : FVec Ideal S2x12544 .f32 :=
  subf (coord2 A3) (flo2 A3)

/-- The floor as an integer word, axis 0. -/
def base0 (A3 : FVec Ideal S2x12544x3 .f32) : IVec S2x12544 32 :=
  fptosi 32 (flo0 A3)

/-- The floor as an integer word, axis 1. -/
def base1 (A3 : FVec Ideal S2x12544x3 .f32) : IVec S2x12544 32 :=
  fptosi 32 (flo1 A3)

/-- The floor as an integer word, axis 2. -/
def base2 (A3 : FVec Ideal S2x12544x3 .f32) : IVec S2x12544 32 :=
  fptosi 32 (flo2 A3)

/-- An integer word plus a constant offset (0 or 1), as printed: the word first. -/
def off (b : IVec S2x12544 32) (d : BitVec 32) : IVec S2x12544 32 :=
  addi b (broadcastInDim S2x12544 ![] bcast_S_S2x12544 (constantI S_ 32 d))

/-- 1 - f, as printed: the constant first. -/
def oneMinus (f : FVec Ideal S2x12544 .f32) : FVec Ideal S2x12544 .f32 :=
  subf (broadcastInDim S2x12544 ![] bcast_S_S2x12544 (constant (F := Ideal) S_ .f32 0x3F800000#32)) f

/-- The corner lies inside the 64^3 grid: 0 ≤ z < 64, 0 ≤ y < 64, 0 ≤ x < 64, and-ed in the printed nesting. -/
def valid (zi yi xi : IVec S2x12544 32) : IVec S2x12544 1 :=
  andi (andi (andi (andi (andi (cmpi .sge zi (broadcastInDim S2x12544 ![] bcast_S_S2x12544 (constantI S_ 32 0#32))) (cmpi .slt zi (broadcastInDim S2x12544 ![] bcast_S_S2x12544 (constantI S_ 32 64#32)))) (cmpi .sge yi (broadcastInDim S2x12544 ![] bcast_S_S2x12544 (constantI S_ 32 0#32)))) (cmpi .slt yi (broadcastInDim S2x12544 ![] bcast_S_S2x12544 (constantI S_ 32 64#32)))) (cmpi .sge xi (broadcastInDim S2x12544 ![] bcast_S_S2x12544 (constantI S_ 32 0#32)))) (cmpi .slt xi (broadcastInDim S2x12544 ![] bcast_S_S2x12544 (constantI S_ 32 64#32)))

/-- Corner 0: the z word, base + 0. -/
def zi0 (A3 : FVec Ideal S2x12544x3 .f32) : IVec S2x12544 32 :=
  off (base2 A3) 0#32

/-- Corner 0: the y word, base + 0. -/
def yi0 (A3 : FVec Ideal S2x12544x3 .f32) : IVec S2x12544 32 :=
  off (base1 A3) 0#32

/-- Corner 0: the x word, base + 0. -/
def xi0 (A3 : FVec Ideal S2x12544x3 .f32) : IVec S2x12544 32 :=
  off (base0 A3) 0#32

/-- Corner 0 is inside the grid. -/
def valid0 (A3 : FVec Ideal S2x12544x3 .f32) : IVec S2x12544 1 :=
  valid (zi0 A3) (yi0 A3) (xi0 A3)

/-- Corner 0: the trilinear weight, (z factor * y factor) * x factor. -/
def wgt0 (A3 : FVec Ideal S2x12544x3 .f32) : FVec Ideal S2x12544 .f32 :=
  mulf (mulf (oneMinus (frac2 A3)) (oneMinus (frac1 A3))) (oneMinus (frac0 A3))

/-- Corner 1: the z word, base + 0. -/
def zi1 (A3 : FVec Ideal S2x12544x3 .f32) : IVec S2x12544 32 :=
  off (base2 A3) 0#32

/-- Corner 1: the y word, base + 0. -/
def yi1 (A3 : FVec Ideal S2x12544x3 .f32) : IVec S2x12544 32 :=
  off (base1 A3) 0#32

/-- Corner 1: the x word, base + 1. -/
def xi1 (A3 : FVec Ideal S2x12544x3 .f32) : IVec S2x12544 32 :=
  off (base0 A3) 1#32

/-- Corner 1 is inside the grid. -/
def valid1 (A3 : FVec Ideal S2x12544x3 .f32) : IVec S2x12544 1 :=
  valid (zi1 A3) (yi1 A3) (xi1 A3)

/-- Corner 1: the trilinear weight, (z factor * y factor) * x factor. -/
def wgt1 (A3 : FVec Ideal S2x12544x3 .f32) : FVec Ideal S2x12544 .f32 :=
  mulf (mulf (oneMinus (frac2 A3)) (oneMinus (frac1 A3))) (frac0 A3)

/-- Corner 2: the z word, base + 0. -/
def zi2 (A3 : FVec Ideal S2x12544x3 .f32) : IVec S2x12544 32 :=
  off (base2 A3) 0#32

/-- Corner 2: the y word, base + 1. -/
def yi2 (A3 : FVec Ideal S2x12544x3 .f32) : IVec S2x12544 32 :=
  off (base1 A3) 1#32

/-- Corner 2: the x word, base + 0. -/
def xi2 (A3 : FVec Ideal S2x12544x3 .f32) : IVec S2x12544 32 :=
  off (base0 A3) 0#32

/-- Corner 2 is inside the grid. -/
def valid2 (A3 : FVec Ideal S2x12544x3 .f32) : IVec S2x12544 1 :=
  valid (zi2 A3) (yi2 A3) (xi2 A3)

/-- Corner 2: the trilinear weight, (z factor * y factor) * x factor. -/
def wgt2 (A3 : FVec Ideal S2x12544x3 .f32) : FVec Ideal S2x12544 .f32 :=
  mulf (mulf (oneMinus (frac2 A3)) (frac1 A3)) (oneMinus (frac0 A3))

/-- Corner 3: the z word, base + 0. -/
def zi3 (A3 : FVec Ideal S2x12544x3 .f32) : IVec S2x12544 32 :=
  off (base2 A3) 0#32

/-- Corner 3: the y word, base + 1. -/
def yi3 (A3 : FVec Ideal S2x12544x3 .f32) : IVec S2x12544 32 :=
  off (base1 A3) 1#32

/-- Corner 3: the x word, base + 1. -/
def xi3 (A3 : FVec Ideal S2x12544x3 .f32) : IVec S2x12544 32 :=
  off (base0 A3) 1#32

/-- Corner 3 is inside the grid. -/
def valid3 (A3 : FVec Ideal S2x12544x3 .f32) : IVec S2x12544 1 :=
  valid (zi3 A3) (yi3 A3) (xi3 A3)

/-- Corner 3: the trilinear weight, (z factor * y factor) * x factor. -/
def wgt3 (A3 : FVec Ideal S2x12544x3 .f32) : FVec Ideal S2x12544 .f32 :=
  mulf (mulf (oneMinus (frac2 A3)) (frac1 A3)) (frac0 A3)

/-- Corner 4: the z word, base + 1. -/
def zi4 (A3 : FVec Ideal S2x12544x3 .f32) : IVec S2x12544 32 :=
  off (base2 A3) 1#32

/-- Corner 4: the y word, base + 0. -/
def yi4 (A3 : FVec Ideal S2x12544x3 .f32) : IVec S2x12544 32 :=
  off (base1 A3) 0#32

/-- Corner 4: the x word, base + 0. -/
def xi4 (A3 : FVec Ideal S2x12544x3 .f32) : IVec S2x12544 32 :=
  off (base0 A3) 0#32

/-- Corner 4 is inside the grid. -/
def valid4 (A3 : FVec Ideal S2x12544x3 .f32) : IVec S2x12544 1 :=
  valid (zi4 A3) (yi4 A3) (xi4 A3)

/-- Corner 4: the trilinear weight, (z factor * y factor) * x factor. -/
def wgt4 (A3 : FVec Ideal S2x12544x3 .f32) : FVec Ideal S2x12544 .f32 :=
  mulf (mulf (frac2 A3) (oneMinus (frac1 A3))) (oneMinus (frac0 A3))

/-- Corner 5: the z word, base + 1. -/
def zi5 (A3 : FVec Ideal S2x12544x3 .f32) : IVec S2x12544 32 :=
  off (base2 A3) 1#32

/-- Corner 5: the y word, base + 0. -/
def yi5 (A3 : FVec Ideal S2x12544x3 .f32) : IVec S2x12544 32 :=
  off (base1 A3) 0#32

/-- Corner 5: the x word, base + 1. -/
def xi5 (A3 : FVec Ideal S2x12544x3 .f32) : IVec S2x12544 32 :=
  off (base0 A3) 1#32

/-- Corner 5 is inside the grid. -/
def valid5 (A3 : FVec Ideal S2x12544x3 .f32) : IVec S2x12544 1 :=
  valid (zi5 A3) (yi5 A3) (xi5 A3)

/-- Corner 5: the trilinear weight, (z factor * y factor) * x factor. -/
def wgt5 (A3 : FVec Ideal S2x12544x3 .f32) : FVec Ideal S2x12544 .f32 :=
  mulf (mulf (frac2 A3) (oneMinus (frac1 A3))) (frac0 A3)

/-- Corner 6: the z word, base + 1. -/
def zi6 (A3 : FVec Ideal S2x12544x3 .f32) : IVec S2x12544 32 :=
  off (base2 A3) 1#32

/-- Corner 6: the y word, base + 1. -/
def yi6 (A3 : FVec Ideal S2x12544x3 .f32) : IVec S2x12544 32 :=
  off (base1 A3) 1#32

/-- Corner 6: the x word, base + 0. -/
def xi6 (A3 : FVec Ideal S2x12544x3 .f32) : IVec S2x12544 32 :=
  off (base0 A3) 0#32

/-- Corner 6 is inside the grid. -/
def valid6 (A3 : FVec Ideal S2x12544x3 .f32) : IVec S2x12544 1 :=
  valid (zi6 A3) (yi6 A3) (xi6 A3)

/-- Corner 6: the trilinear weight, (z factor * y factor) * x factor. -/
def wgt6 (A3 : FVec Ideal S2x12544x3 .f32) : FVec Ideal S2x12544 .f32 :=
  mulf (mulf (frac2 A3) (frac1 A3)) (oneMinus (frac0 A3))

/-- Corner 7: the z word, base + 1. -/
def zi7 (A3 : FVec Ideal S2x12544x3 .f32) : IVec S2x12544 32 :=
  off (base2 A3) 1#32

/-- Corner 7: the y word, base + 1. -/
def yi7 (A3 : FVec Ideal S2x12544x3 .f32) : IVec S2x12544 32 :=
  off (base1 A3) 1#32

/-- Corner 7: the x word, base + 1. -/
def xi7 (A3 : FVec Ideal S2x12544x3 .f32) : IVec S2x12544 32 :=
  off (base0 A3) 1#32

/-- Corner 7 is inside the grid. -/
def valid7 (A3 : FVec Ideal S2x12544x3 .f32) : IVec S2x12544 1 :=
  valid (zi7 A3) (yi7 A3) (xi7 A3)

/-- Corner 7: the trilinear weight, (z factor * y factor) * x factor. -/
def wgt7 (A3 : FVec Ideal S2x12544x3 .f32) : FVec Ideal S2x12544 .f32 :=
  mulf (mulf (frac2 A3) (frac1 A3)) (frac0 A3)

/-- The zero start of the 30-channel sum, a [30, P] array. -/
def accT0 : FVec Ideal S30x12544 .f32 :=
  broadcastInDim S30x12544 ![] bcast_S_S30x12544 (constant (F := Ideal) S_ .f32 0x00000000#32)

/-- The 30-channel sum after corners 0 … 0. -/
def accT1 (A2 : FVec Ideal S2x30x64x64x64 .f32) (A3 : FVec Ideal S2x12544x3 .f32) : FVec Ideal S2x30x12544 .f32 :=
  addf (broadcastInDim S2x30x12544 ![0, 1, 2] bcast_S1x30x12544_S2x30x12544_0_1_2 (broadcastInDim S1x30x12544 ![1, 2] bcast_S30x12544_S1x30x12544_1_2 accT0)) (K.corner30 (shapeCast S2x30x262144 A2 shapeCasts_S2x30x64x64x64_S2x30x262144) (wgt0 A3) (valid0 A3) (zi0 A3) (yi0 A3) (xi0 A3))

/-- The 30-channel sum after corners 0 … 1. -/
def accT2 (A2 : FVec Ideal S2x30x64x64x64 .f32) (A3 : FVec Ideal S2x12544x3 .f32) : FVec Ideal S2x30x12544 .f32 :=
  addf (accT1 A2 A3) (K.corner30 (shapeCast S2x30x262144 A2 shapeCasts_S2x30x64x64x64_S2x30x262144) (wgt1 A3) (valid1 A3) (zi1 A3) (yi1 A3) (xi1 A3))

/-- The 30-channel sum after corners 0 … 2. -/
def accT3 (A2 : FVec Ideal S2x30x64x64x64 .f32) (A3 : FVec Ideal S2x12544x3 .f32) : FVec Ideal S2x30x12544 .f32 :=
  addf (accT2 A2 A3) (K.corner30 (shapeCast S2x30x262144 A2 shapeCasts_S2x30x64x64x64_S2x30x262144) (wgt2 A3) (valid2 A3) (zi2 A3) (yi2 A3) (xi2 A3))

/-- The 30-channel sum after corners 0 … 3. -/
def accT4 (A2 : FVec Ideal S2x30x64x64x64 .f32) (A3 : FVec Ideal S2x12544x3 .f32) : FVec Ideal S2x30x12544 .f32 :=
  addf (accT3 A2 A3) (K.corner30 (shapeCast S2x30x262144 A2 shapeCasts_S2x30x64x64x64_S2x30x262144) (wgt3 A3) (valid3 A3) (zi3 A3) (yi3 A3) (xi3 A3))

/-- The 30-channel sum after corners 0 … 4. -/
def accT5 (A2 : FVec Ideal S2x30x64x64x64 .f32) (A3 : FVec Ideal S2x12544x3 .f32) : FVec Ideal S2x30x12544 .f32 :=
  addf (accT4 A2 A3) (K.corner30 (shapeCast S2x30x262144 A2 shapeCasts_S2x30x64x64x64_S2x30x262144) (wgt4 A3) (valid4 A3) (zi4 A3) (yi4 A3) (xi4 A3))

/-- The 30-channel sum after corners 0 … 5. -/
def accT6 (A2 : FVec Ideal S2x30x64x64x64 .f32) (A3 : FVec Ideal S2x12544x3 .f32) : FVec Ideal S2x30x12544 .f32 :=
  addf (accT5 A2 A3) (K.corner30 (shapeCast S2x30x262144 A2 shapeCasts_S2x30x64x64x64_S2x30x262144) (wgt5 A3) (valid5 A3) (zi5 A3) (yi5 A3) (xi5 A3))

/-- The 30-channel sum after corners 0 … 6. -/
def accT7 (A2 : FVec Ideal S2x30x64x64x64 .f32) (A3 : FVec Ideal S2x12544x3 .f32) : FVec Ideal S2x30x12544 .f32 :=
  addf (accT6 A2 A3) (K.corner30 (shapeCast S2x30x262144 A2 shapeCasts_S2x30x64x64x64_S2x30x262144) (wgt6 A3) (valid6 A3) (zi6 A3) (yi6 A3) (xi6 A3))

/-- The 30-channel sum after corners 0 … 7. -/
def accT8 (A2 : FVec Ideal S2x30x64x64x64 .f32) (A3 : FVec Ideal S2x12544x3 .f32) : FVec Ideal S2x30x12544 .f32 :=
  addf (accT7 A2 A3) (K.corner30 (shapeCast S2x30x262144 A2 shapeCasts_S2x30x64x64x64_S2x30x262144) (wgt7 A3) (valid7 A3) (zi7 A3) (yi7 A3) (xi7 A3))

/-- The 30 target masks sampled at the points. -/
def tgt (A2 : FVec Ideal S2x30x64x64x64 .f32) (A3 : FVec Ideal S2x12544x3 .f32) : FVec Ideal S2x30x12544 .f32 :=
  accT8 A2 A3

/-- Minus the softmax probability of each target's class: softmax over the 134 classes, the class labels wrapped by 134 if negative, gathered, negated. -/
def cls (A1 : FVec Ideal S2x100x134 .f32) (A4 : IVec S2x30 32) : FVec Ideal S2x100x30 .f32 :=
  Host.negf (Host.gather gather_S2x100x134_S2x30x1_S2x100x30_1_2_0_0_2_2_11001 (Host.divf (Host.exp (subf A1 (broadcastInDim S2x100x134 ![0, 1, 2] bcast_S2x100x1_S2x100x134_0_1_2 (broadcastInDim S2x100x1 ![0, 1] bcast_S2x100_S2x100x1_0_1 (maximumf (broadcastInDim S2x100 ![] bcast_S_S2x100 (constant (F := Ideal) S_ .f32 0xFF800000#32)) (Host.reduce FloatOps.maximumf A1 (constant (F := Ideal) S_ .f32 0xFF800000#32) reducesTo_S2x100x134_S2x100_d2 h_S_)))))) (broadcastInDim S2x100x134 ![0, 1, 2] bcast_S2x100x1_S2x100x134_0_1_2 (broadcastInDim S2x100x1 ![0, 1] bcast_S2x100_S2x100x1_0_1 (Host.reduceAdd (Host.exp (subf A1 (broadcastInDim S2x100x134 ![0, 1, 2] bcast_S2x100x1_S2x100x134_0_1_2 (broadcastInDim S2x100x1 ![0, 1] bcast_S2x100_S2x100x1_0_1 (maximumf (broadcastInDim S2x100 ![] bcast_S_S2x100 (constant (F := Ideal) S_ .f32 0xFF800000#32)) (Host.reduce FloatOps.maximumf A1 (constant (F := Ideal) S_ .f32 0xFF800000#32) reducesTo_S2x100x134_S2x100_d2 h_S_)))))) (constant (F := Ideal) S_ .f32 0x00000000#32) reducesTo_S2x100x134_S2x100_d2 h_S_)))) (broadcastInDim S2x30x1 ![0, 1] bcast_S2x30_S2x30x1_0_1 (select (cmpi .slt A4 (broadcastInDim S2x30 ![] bcast_S_S2x30 (constantI S_ 32 0#32))) (addi A4 (broadcastInDim S2x30 ![] bcast_S_S2x30 (constantI S_ 32 134#32))) A4)))

end Cert.Bridge.K30

end
-- ==== Proof.LibFiniteAbs.lean ====
/-
  Finiteness read back from a printed `jnp.all(jnp.abs(x) < inf)` at the ideal instance: an array of extended
  reals whose every absolute value compares strictly below the f32 pattern of +∞ holds only reals.
-/
import Idealize.ShloMosaic.Lib.ReduceAll
import Idealize.ShloMosaic.Lib.IdealHost
import Idealize.ShloMosaic.PureOps.Ideal

namespace Idealize.ShloMosaic

open ValueIdx

/-- The f32 pattern `0x7F800000` (sign 0, exponent all ones, fraction 0) denotes the extended real `⊤`. -/
theorem Ideal.ofBits_f32_inf : Ideal.ofBits .f32 0x7F800000#32 = ⊤ := by
  simp [Ideal.ofBits, Ideal.ieee]

/-- An extended real `x` with `max x (-x) < ⊤` is a real: `⊤` fails on the left operand, `⊥` on the right
    (`-⊥ = ⊤`). -/
theorem Ideal.real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- On one value at the ideal instance: the host's `|x| < +∞` (the comparison `olt` of the host's absolute value
    against the f32 pattern of +∞) answering 1 says `x` is a real. -/
theorem Ideal.real_of_hostAbsf_olt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [Ideal.ofBits_f32_inf] at h'
  unfold Ideal.cmp at h'
  by_cases hlt : max (x : EReal) (-(x : EReal)) < ⊤
  · exact Ideal.real_of_abs_lt_top x hlt
  · exact absurd h' (by simp [hlt])

/-- `jnp.all(jnp.abs(x) < inf)` as the host prints it — `abs`, the scalar +∞ broadcast to the operand's shape,
    the comparison `olt`, and the reduction by `and` over every axis into a rank-0 result — answering 1 says every
    element of `x` is a real. -/
theorem Host.real_of_all_absf_olt_inf {s u : Shape} {axes : List (Fin s.rank)} (x : FVec Ideal s .f32)
    (hb : (⟨0, ![]⟩ : Shape).BroadcastsInDim s ![]) (hr : s.ReducesTo axes ⟨0, ![]⟩)
    (init : u.Idx → BitVec 1) (hu : 0 < u.numel) (j : (⟨0, ![]⟩ : Shape).Idx)
    (e : Host.reduce IntOp.andi
          (cmpf .olt (Host.absf x) (broadcastInDim s ![] hb (constant (⟨0, ![]⟩ : Shape) .f32 0x7F800000#32)))
          init hr hu j = 1#1) :
    ∀ i : s.Idx, ∃ r : ℝ, x i = (r : EReal) := by
  intro i
  haveI : Subsingleton (⟨0, ![]⟩ : Shape).Idx := ⟨fun a b => funext fun d => d.elim0⟩
  have hi := Host.reduce_andi_all _ init hr hu j e i
  exact Ideal.real_of_hostAbsf_olt_inf (x i) hi

end Idealize.ShloMosaic
-- ==== Proof.PreFinite.lean ====
/-
  The precondition `finite_inputs` decoded: the printed predicate answering 1 says each of the four float
  argument arrays holds only reals.
-/
import proofs.«103167_j42614665511136_1_alg».proof.Pre_finite_inputs
import proofs.«103167_j42614665511136_1_alg».proof.Proof.LibFiniteAbs

namespace Cert.PreFinite

open Idealize.ShloMosaic Cert.Pre_finite_inputs

/-- `finite_inputs` of the five argument arrays being all ones says every element of each of the four float
    arrays is a real: the predicate is the conjunction of four `jnp.all(jnp.abs(x) < inf)`, each read back
    element by element. (The integer array takes no part in it.) -/
theorem finite_of_pre [Cert.Pre_finite_inputs.Facts]
    (a0 : FVec Ideal S2x100x64x64x64 .f32) (a1 : FVec Ideal S2x100x134 .f32)
    (a2 : FVec Ideal S2x30x64x64x64 .f32) (a3 : FVec Ideal S2x12544x3 .f32) (a4 : IVec S2x30 32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨Host.real_of_all_absf_olt_inf a0 _ _ _ _ _ h0', Host.real_of_all_absf_olt_inf a1 _ _ _ _ _ h1,
    Host.real_of_all_absf_olt_inf a2 _ _ _ _ _ h2, Host.real_of_all_absf_olt_inf a3 _ _ _ _ _ h3⟩

end Cert.PreFinite
-- ==== Proof.LibIsReal.lean ====
/-
  Extended reals that are real numbers, and the scalar operations that keep them so.

  On the extended reals a sum, a difference, a product or a negation of two REAL numbers is a real number, the floor
  of a real number is one, a choice between two real numbers is one, and a finite sum of real numbers is one.  A value
  computed from finite inputs by such operations alone is therefore finite: this is what lets the laws that fail at
  the infinities (distributing a product over a difference, cancelling) be used on it.
-/
import Idealize.ShloMosaic.PureOps.Ideal
import Idealize.ShloMosaic.PureOps.Ideal.Laws

noncomputable section

open Idealize.ShloMosaic

namespace Cert.LibIsReal

/-- `x` is (the image of) a real number. -/
def IsReal (x : EReal) : Prop := ∃ r : ℝ, x = (r : EReal)

theorem IsReal.coe (r : ℝ) : IsReal (r : EReal) := ⟨r, rfl⟩

theorem IsReal.zero : IsReal 0 := ⟨0, by simp⟩

theorem IsReal.one : IsReal 1 := ⟨1, by simp⟩

/-- A sum of two real numbers is a real number. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two real numbers is a real number. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two real numbers is a real number. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real number is a real number. -/
theorem IsReal.neg {x : EReal} (hx : IsReal x) : IsReal (-x) := by
  obtain ⟨a, rfl⟩ := hx; exact ⟨-a, (EReal.coe_neg a).symm⟩

/-- The larger of two real numbers is a real number. -/
theorem IsReal.max {x y : EReal} (hx : IsReal x) (hy : IsReal y) : IsReal (max x y) := by
  rcases max_choice x y with h | h <;> rw [h] <;> assumption

/-- The smaller of two real numbers is a real number. -/
theorem IsReal.min {x y : EReal} (hx : IsReal x) (hy : IsReal y) : IsReal (min x y) := by
  rcases min_choice x y with h | h <;> rw [h] <;> assumption

/-- A real number rounded to an integer (its floor, for one) is a real number. -/
theorem IsReal.liftRound (f : ℝ → ℤ) {x : EReal} (hx : IsReal x) : IsReal (Ideal.liftRound f x) := by
  obtain ⟨a, rfl⟩ := hx; exact ⟨(f a : ℝ), rfl⟩

/-- Either branch of a choice being a real number, the choice is one. -/
theorem IsReal.select (c : BitVec 1) {x y : EReal} (hx : IsReal x) (hy : IsReal y) : IsReal (Scalar.select c x y) := by
  unfold Scalar.select; split <;> assumption

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact IsReal.add (h a (Finset.mem_insert_self a s)) (ih fun i hi => h i (Finset.mem_insert_of_mem hi))

/-- The all-zero f32 word is the real number 0. -/
theorem IsReal.ofBits_zero : IsReal (Ideal.ofBits .f32 0x00000000#32) := by
  rw [Ideal.ofBits_zero_f32]; exact IsReal.zero

end Cert.LibIsReal

end
-- ==== Proof.RefSampling.lean ====
/- The reference program's three sampled arrays as pure terms of its argument arrays: a table of definitions, each a
   literal transcription of the printed host operations (operation, operand order, shape records and side-condition
   fields as printed), cut into small definitions named after what they are.

   The points' coordinates are mapped to voxel coordinates ((p + 1) * 64 - 1) / 2 per axis; each has a floor, a
   fractional part and an integer base word.  Corner k = 0 … 7 is the voxel at base + (dz, dy, dx) with
   (dz, dy, dx) = (k / 4, (k / 2) mod 2, k mod 2); its weight is the product of the three fractional parts (offset 1)
   or their complements (offset 0).  A sampled array is the sum over the eight corners, from a zero start, of the
   corner's contribution (corner100 of Proof/CornerDefs.lean, corner30 of Proof/CornerEq.lean).  The program computes the coordinates twice, once per sampled
   volume, by the same operations: one set of coordinate definitions serves both.
   The class array is minus the softmax probability of each target's class.  No theorem here. -/
import proofs.«103167_j42614665511136_1_alg».proof.Proof.CornerDefs
import proofs.«103167_j42614665511136_1_alg».proof.Proof.CornerEq

noncomputable section

open Idealize.ShloMosaic Idealize.ShloMosaic.ValueIdx

namespace Cert.Bridge.R
open Cert.ReferenceIdeal Cert.ReferenceIdeal.Facts₀ Cert.ReferenceIdeal.Facts
variable [Cert.ReferenceIdeal.Facts]

/-- The point coordinates mapped from [0, 1] to [-1, 1]: 2 p - 1 (printed %3). -/
def pts (A3 : FVec Ideal S2x12544x3 .f32) : FVec Ideal S2x12544x3 .f32 :=
  subf (mulf (broadcastInDim S2x12544x3 ![] bcast_S_S2x12544x3 (constant (F := Ideal) S_ .f32 0x40000000#32)) A3) (broadcastInDim S2x12544x3 ![] bcast_S_S2x12544x3 (constant (F := Ideal) S_ .f32 0x3F800000#32))

/-- The voxel coordinate along axis 0 of the points: ((p + 1) * 64 - 1) * 0.5 (printed %13). -/
def coord0 (A3 : FVec Ideal S2x12544x3 .f32) : FVec Ideal S2x12544 .f32 :=
  mulf (subf (mulf (addf (shapeCast S2x12544 (extractStridedSlice S2x12544x1 ![0, 0, 0] (pts A3) slices_S2x12544x3_S2x12544x1_0_0_0) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))

/-- The voxel coordinate along axis 1 (printed %23). -/
def coord1 (A3 : FVec Ideal S2x12544x3 .f32) : FVec Ideal S2x12544 .f32 :=
  mulf (subf (mulf (addf (shapeCast S2x12544 (extractStridedSlice S2x12544x1 ![0, 0, 1] (pts A3) slices_S2x12544x3_S2x12544x1_0_0_1) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))

/-- The voxel coordinate along axis 2 (printed %33). -/
def coord2 (A3 : FVec Ideal S2x12544x3 .f32) : FVec Ideal S2x12544 .f32 :=
  mulf (subf (mulf (addf (shapeCast S2x12544 (extractStridedSlice S2x12544x1 ![0, 0, 2] (pts A3) slices_S2x12544x3_S2x12544x1_0_0_2) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))

/-- Its floor, axis 0 (printed %34). -/
def flo0 (A3 : FVec Ideal S2x12544x3 .f32) : FVec Ideal S2x12544 .f32 :=
  Host.floor (coord0 A3)

/-- Its floor, axis 1 (printed %35). -/
def flo1 (A3 : FVec Ideal S2x12544x3 .f32) : FVec Ideal S2x12544 .f32 :=
  Host.floor (coord1 A3)

/-- Its floor, axis 2 (printed %36). -/
def flo2 (A3 : FVec Ideal S2x12544x3 .f32) : FVec Ideal S2x12544 .f32 :=
  Host.floor (coord2 A3)

/-- The fractional part, axis 0 (printed %37). -/
def frac0 (A3 : FVec Ideal S2x12544x3 .f32) : FVec Ideal S2x12544 .f32 :=
  subf (coord0 A3) (flo0 A3)

/-- The fractional part, axis 1 (printed %38). -/
def frac1 (A3 : FVec Ideal S2x12544x3 .f32) : FVec Ideal S2x12544 .f32 :=
  subf (coord1 A3) (flo1 A3)

/-- The fractional part, axis 2 (printed %39). -/
def frac2 (A3 : FVec Ideal S2x12544x3 .f32) : FVec Ideal S2x12544 .f32 :=
  subf (coord2 A3) (flo2 A3)

/-- The floor as an integer word, axis 0 (printed %40). -/
def base0 (A3 : FVec Ideal S2x12544x3 .f32) : IVec S2x12544 32 :=
  fptosi 32 (flo0 A3)

/-- The floor as an integer word, axis 1 (printed %41). -/
def base1 (A3 : FVec Ideal S2x12544x3 .f32) : IVec S2x12544 32 :=
  fptosi 32 (flo1 A3)

/-- The floor as an integer word, axis 2 (printed %42). -/
def base2 (A3 : FVec Ideal S2x12544x3 .f32) : IVec S2x12544 32 :=
  fptosi 32 (flo2 A3)

/-- An integer word plus a constant offset (0 or 1), as printed: the word first. -/
def off (b : IVec S2x12544 32) (d : BitVec 32) : IVec S2x12544 32 :=
  addi b (broadcastInDim S2x12544 ![] bcast_S_S2x12544 (constantI S_ 32 d))

/-- 1 - f, as printed: the constant first. -/
def oneMinus (f : FVec Ideal S2x12544 .f32) : FVec Ideal S2x12544 .f32 :=
  subf (broadcastInDim S2x12544 ![] bcast_S_S2x12544 (constant (F := Ideal) S_ .f32 0x3F800000#32)) f

/-- The corner lies inside the 64^3 grid: 0 ≤ z < 64, 0 ≤ y < 64, 0 ≤ x < 64, and-ed in the printed nesting. -/
def valid (zi yi xi : IVec S2x12544 32) : IVec S2x12544 1 :=
  andi (andi (andi (andi (andi (cmpi .sge zi (broadcastInDim S2x12544 ![] bcast_S_S2x12544 (constantI S_ 32 0#32))) (cmpi .slt zi (broadcastInDim S2x12544 ![] bcast_S_S2x12544 (constantI S_ 32 64#32)))) (cmpi .sge yi (broadcastInDim S2x12544 ![] bcast_S_S2x12544 (constantI S_ 32 0#32)))) (cmpi .slt yi (broadcastInDim S2x12544 ![] bcast_S_S2x12544 (constantI S_ 32 64#32)))) (cmpi .sge xi (broadcastInDim S2x12544 ![] bcast_S_S2x12544 (constantI S_ 32 0#32)))) (cmpi .slt xi (broadcastInDim S2x12544 ![] bcast_S_S2x12544 (constantI S_ 32 64#32)))

/-- Corner 0: the z word, base + 0. -/
def zi0 (A3 : FVec Ideal S2x12544x3 .f32) : IVec S2x12544 32 :=
  off (base2 A3) 0#32

/-- Corner 0: the y word, base + 0. -/
def yi0 (A3 : FVec Ideal S2x12544x3 .f32) : IVec S2x12544 32 :=
  off (base1 A3) 0#32

/-- Corner 0: the x word, base + 0. -/
def xi0 (A3 : FVec Ideal S2x12544x3 .f32) : IVec S2x12544 32 :=
  off (base0 A3) 0#32

/-- Corner 0 is inside the grid. -/
def valid0 (A3 : FVec Ideal S2x12544x3 .f32) : IVec S2x12544 1 :=
  valid (zi0 A3) (yi0 A3) (xi0 A3)

/-- Corner 0: the trilinear weight, (z factor * y factor) * x factor. -/
def wgt0 (A3 : FVec Ideal S2x12544x3 .f32) : FVec Ideal S2x12544 .f32 :=
  mulf (mulf (oneMinus (frac2 A3)) (oneMinus (frac1 A3))) (oneMinus (frac0 A3))

/-- Corner 1: the z word, base + 0. -/
def zi1 (A3 : FVec Ideal S2x12544x3 .f32) : IVec S2x12544 32 :=
  off (base2 A3) 0#32

/-- Corner 1: the y word, base + 0. -/
def yi1 (A3 : FVec Ideal S2x12544x3 .f32) : IVec S2x12544 32 :=
  off (base1 A3) 0#32

/-- Corner 1: the x word, base + 1. -/
def xi1 (A3 : FVec Ideal S2x12544x3 .f32) : IVec S2x12544 32 :=
  off (base0 A3) 1#32

/-- Corner 1 is inside the grid. -/
def valid1 (A3 : FVec Ideal S2x12544x3 .f32) : IVec S2x12544 1 :=
  valid (zi1 A3) (yi1 A3) (xi1 A3)

/-- Corner 1: the trilinear weight, (z factor * y factor) * x factor. -/
def wgt1 (A3 : FVec Ideal S2x12544x3 .f32) : FVec Ideal S2x12544 .f32 :=
  mulf (mulf (oneMinus (frac2 A3)) (oneMinus (frac1 A3))) (frac0 A3)

/-- Corner 2: the z word, base + 0. -/
def zi2 (A3 : FVec Ideal S2x12544x3 .f32) : IVec S2x12544 32 :=
  off (base2 A3) 0#32

/-- Corner 2: the y word, base + 1. -/
def yi2 (A3 : FVec Ideal S2x12544x3 .f32) : IVec S2x12544 32 :=
  off (base1 A3) 1#32

/-- Corner 2: the x word, base + 0. -/
def xi2 (A3 : FVec Ideal S2x12544x3 .f32) : IVec S2x12544 32 :=
  off (base0 A3) 0#32

/-- Corner 2 is inside the grid. -/
def valid2 (A3 : FVec Ideal S2x12544x3 .f32) : IVec S2x12544 1 :=
  valid (zi2 A3) (yi2 A3) (xi2 A3)

/-- Corner 2: the trilinear weight, (z factor * y factor) * x factor. -/
def wgt2 (A3 : FVec Ideal S2x12544x3 .f32) : FVec Ideal S2x12544 .f32 :=
  mulf (mulf (oneMinus (frac2 A3)) (frac1 A3)) (oneMinus (frac0 A3))

/-- Corner 3: the z word, base + 0. -/
def zi3 (A3 : FVec Ideal S2x12544x3 .f32) : IVec S2x12544 32 :=
  off (base2 A3) 0#32

/-- Corner 3: the y word, base + 1. -/
def yi3 (A3 : FVec Ideal S2x12544x3 .f32) : IVec S2x12544 32 :=
  off (base1 A3) 1#32

/-- Corner 3: the x word, base + 1. -/
def xi3 (A3 : FVec Ideal S2x12544x3 .f32) : IVec S2x12544 32 :=
  off (base0 A3) 1#32

/-- Corner 3 is inside the grid. -/
def valid3 (A3 : FVec Ideal S2x12544x3 .f32) : IVec S2x12544 1 :=
  valid (zi3 A3) (yi3 A3) (xi3 A3)

/-- Corner 3: the trilinear weight, (z factor * y factor) * x factor. -/
def wgt3 (A3 : FVec Ideal S2x12544x3 .f32) : FVec Ideal S2x12544 .f32 :=
  mulf (mulf (oneMinus (frac2 A3)) (frac1 A3)) (frac0 A3)

/-- Corner 4: the z word, base + 1. -/
def zi4 (A3 : FVec Ideal S2x12544x3 .f32) : IVec S2x12544 32 :=
  off (base2 A3) 1#32

/-- Corner 4: the y word, base + 0. -/
def yi4 (A3 : FVec Ideal S2x12544x3 .f32) : IVec S2x12544 32 :=
  off (base1 A3) 0#32

/-- Corner 4: the x word, base + 0. -/
def xi4 (A3 : FVec Ideal S2x12544x3 .f32) : IVec S2x12544 32 :=
  off (base0 A3) 0#32

/-- Corner 4 is inside the grid. -/
def valid4 (A3 : FVec Ideal S2x12544x3 .f32) : IVec S2x12544 1 :=
  valid (zi4 A3) (yi4 A3) (xi4 A3)

/-- Corner 4: the trilinear weight, (z factor * y factor) * x factor. -/
def wgt4 (A3 : FVec Ideal S2x12544x3 .f32) : FVec Ideal S2x12544 .f32 :=
  mulf (mulf (frac2 A3) (oneMinus (frac1 A3))) (oneMinus (frac0 A3))

/-- Corner 5: the z word, base + 1. -/
def zi5 (A3 : FVec Ideal S2x12544x3 .f32) : IVec S2x12544 32 :=
  off (base2 A3) 1#32

/-- Corner 5: the y word, base + 0. -/
def yi5 (A3 : FVec Ideal S2x12544x3 .f32) : IVec S2x12544 32 :=
  off (base1 A3) 0#32

/-- Corner 5: the x word, base + 1. -/
def xi5 (A3 : FVec Ideal S2x12544x3 .f32) : IVec S2x12544 32 :=
  off (base0 A3) 1#32

/-- Corner 5 is inside the grid. -/
def valid5 (A3 : FVec Ideal S2x12544x3 .f32) : IVec S2x12544 1 :=
  valid (zi5 A3) (yi5 A3) (xi5 A3)

/-- Corner 5: the trilinear weight, (z factor * y factor) * x factor. -/
def wgt5 (A3 : FVec Ideal S2x12544x3 .f32) : FVec Ideal S2x12544 .f32 :=
  mulf (mulf (frac2 A3) (oneMinus (frac1 A3))) (frac0 A3)

/-- Corner 6: the z word, base + 1. -/
def zi6 (A3 : FVec Ideal S2x12544x3 .f32) : IVec S2x12544 32 :=
  off (base2 A3) 1#32

/-- Corner 6: the y word, base + 1. -/
def yi6 (A3 : FVec Ideal S2x12544x3 .f32) : IVec S2x12544 32 :=
  off (base1 A3) 1#32

/-- Corner 6: the x word, base + 0. -/
def xi6 (A3 : FVec Ideal S2x12544x3 .f32) : IVec S2x12544 32 :=
  off (base0 A3) 0#32

/-- Corner 6 is inside the grid. -/
def valid6 (A3 : FVec Ideal S2x12544x3 .f32) : IVec S2x12544 1 :=
  valid (zi6 A3) (yi6 A3) (xi6 A3)

/-- Corner 6: the trilinear weight, (z factor * y factor) * x factor. -/
def wgt6 (A3 : FVec Ideal S2x12544x3 .f32) : FVec Ideal S2x12544 .f32 :=
  mulf (mulf (frac2 A3) (frac1 A3)) (oneMinus (frac0 A3))

/-- Corner 7: the z word, base + 1. -/
def zi7 (A3 : FVec Ideal S2x12544x3 .f32) : IVec S2x12544 32 :=
  off (base2 A3) 1#32

/-- Corner 7: the y word, base + 1. -/
def yi7 (A3 : FVec Ideal S2x12544x3 .f32) : IVec S2x12544 32 :=
  off (base1 A3) 1#32

/-- Corner 7: the x word, base + 1. -/
def xi7 (A3 : FVec Ideal S2x12544x3 .f32) : IVec S2x12544 32 :=
  off (base0 A3) 1#32

/-- Corner 7 is inside the grid. -/
def valid7 (A3 : FVec Ideal S2x12544x3 .f32) : IVec S2x12544 1 :=
  valid (zi7 A3) (yi7 A3) (xi7 A3)

/-- Corner 7: the trilinear weight, (z factor * y factor) * x factor. -/
def wgt7 (A3 : FVec Ideal S2x12544x3 .f32) : FVec Ideal S2x12544 .f32 :=
  mulf (mulf (frac2 A3) (frac1 A3)) (frac0 A3)

/-- The zero start of the 100-channel sum (printed %104). -/
def accP0 : FVec Ideal S2x100x12544 .f32 :=
  broadcastInDim S2x100x12544 ![0, 1, 2] bcast_S1x1x12544_S2x100x12544_0_1_2 (broadcastInDim S1x1x12544 ![1, 2] bcast_S1x12544_S1x1x12544_1_2 (broadcastInDim S1x12544 ![1] bcast_S12544_S1x12544_1 (broadcastInDim S12544 ![] bcast_S_S12544 (constant (F := Ideal) S_ .f32 0x00000000#32))))

/-- The 100-channel sum after corners 0 … 0 (printed %105). -/
def accP1 (A0 : FVec Ideal S2x100x64x64x64 .f32) (A3 : FVec Ideal S2x12544x3 .f32) : FVec Ideal S2x100x12544 .f32 :=
  addf accP0 (corner100 A0 (wgt0 A3) (valid0 A3) (zi0 A3) (yi0 A3) (xi0 A3))

/-- The 100-channel sum after corners 0 … 1 (printed %162). -/
def accP2 (A0 : FVec Ideal S2x100x64x64x64 .f32) (A3 : FVec Ideal S2x12544x3 .f32) : FVec Ideal S2x100x12544 .f32 :=
  addf (accP1 A0 A3) (corner100 A0 (wgt1 A3) (valid1 A3) (zi1 A3) (yi1 A3) (xi1 A3))

/-- The 100-channel sum after corners 0 … 2 (printed %219). -/
def accP3 (A0 : FVec Ideal S2x100x64x64x64 .f32) (A3 : FVec Ideal S2x12544x3 .f32) : FVec Ideal S2x100x12544 .f32 :=
  addf (accP2 A0 A3) (corner100 A0 (wgt2 A3) (valid2 A3) (zi2 A3) (yi2 A3) (xi2 A3))

/-- The 100-channel sum after corners 0 … 3 (printed %274). -/
def accP4 (A0 : FVec Ideal S2x100x64x64x64 .f32) (A3 : FVec Ideal S2x12544x3 .f32) : FVec Ideal S2x100x12544 .f32 :=
  addf (accP3 A0 A3) (corner100 A0 (wgt3 A3) (valid3 A3) (zi3 A3) (yi3 A3) (xi3 A3))

/-- The 100-channel sum after corners 0 … 4 (printed %331). -/
def accP5 (A0 : FVec Ideal S2x100x64x64x64 .f32) (A3 : FVec Ideal S2x12544x3 .f32) : FVec Ideal S2x100x12544 .f32 :=
  addf (accP4 A0 A3) (corner100 A0 (wgt4 A3) (valid4 A3) (zi4 A3) (yi4 A3) (xi4 A3))

/-- The 100-channel sum after corners 0 … 5 (printed %386). -/
def accP6 (A0 : FVec Ideal S2x100x64x64x64 .f32) (A3 : FVec Ideal S2x12544x3 .f32) : FVec Ideal S2x100x12544 .f32 :=
  addf (accP5 A0 A3) (corner100 A0 (wgt5 A3) (valid5 A3) (zi5 A3) (yi5 A3) (xi5 A3))

/-- The 100-channel sum after corners 0 … 6 (printed %441). -/
def accP7 (A0 : FVec Ideal S2x100x64x64x64 .f32) (A3 : FVec Ideal S2x12544x3 .f32) : FVec Ideal S2x100x12544 .f32 :=
  addf (accP6 A0 A3) (corner100 A0 (wgt6 A3) (valid6 A3) (zi6 A3) (yi6 A3) (xi6 A3))

/-- The 100-channel sum after corners 0 … 7 (printed %494). -/
def accP8 (A0 : FVec Ideal S2x100x64x64x64 .f32) (A3 : FVec Ideal S2x12544x3 .f32) : FVec Ideal S2x100x12544 .f32 :=
  addf (accP7 A0 A3) (corner100 A0 (wgt7 A3) (valid7 A3) (zi7 A3) (yi7 A3) (xi7 A3))

/-- The 100 query masks sampled at the points (printed %494). -/
def pred (A0 : FVec Ideal S2x100x64x64x64 .f32) (A3 : FVec Ideal S2x12544x3 .f32) : FVec Ideal S2x100x12544 .f32 :=
  accP8 A0 A3

/-- The zero start of the 30-channel sum (printed %599). -/
def accT0 : FVec Ideal S2x30x12544 .f32 :=
  broadcastInDim S2x30x12544 ![0, 1, 2] bcast_S1x1x12544_S2x30x12544_0_1_2 (broadcastInDim S1x1x12544 ![1, 2] bcast_S1x12544_S1x1x12544_1_2 (broadcastInDim S1x12544 ![1] bcast_S12544_S1x12544_1 (broadcastInDim S12544 ![] bcast_S_S12544 (constant (F := Ideal) S_ .f32 0x00000000#32))))

/-- The 30-channel sum after corners 0 … 0 (printed %600). -/
def accT1 (A2 : FVec Ideal S2x30x64x64x64 .f32) (A3 : FVec Ideal S2x12544x3 .f32) : FVec Ideal S2x30x12544 .f32 :=
  addf accT0 (corner30 A2 (wgt0 A3) (valid0 A3) (zi0 A3) (yi0 A3) (xi0 A3))

/-- The 30-channel sum after corners 0 … 1 (printed %657). -/
def accT2 (A2 : FVec Ideal S2x30x64x64x64 .f32) (A3 : FVec Ideal S2x12544x3 .f32) : FVec Ideal S2x30x12544 .f32 :=
  addf (accT1 A2 A3) (corner30 A2 (wgt1 A3) (valid1 A3) (zi1 A3) (yi1 A3) (xi1 A3))

/-- The 30-channel sum after corners 0 … 2 (printed %714). -/
def accT3 (A2 : FVec Ideal S2x30x64x64x64 .f32) (A3 : FVec Ideal S2x12544x3 .f32) : FVec Ideal S2x30x12544 .f32 :=
  addf (accT2 A2 A3) (corner30 A2 (wgt2 A3) (valid2 A3) (zi2 A3) (yi2 A3) (xi2 A3))

/-- The 30-channel sum after corners 0 … 3 (printed %769). -/
def accT4 (A2 : FVec Ideal S2x30x64x64x64 .f32) (A3 : FVec Ideal S2x12544x3 .f32) : FVec Ideal S2x30x12544 .f32 :=
  addf (accT3 A2 A3) (corner30 A2 (wgt3 A3) (valid3 A3) (zi3 A3) (yi3 A3) (xi3 A3))

/-- The 30-channel sum after corners 0 … 4 (printed %826). -/
def accT5 (A2 : FVec Ideal S2x30x64x64x64 .f32) (A3 : FVec Ideal S2x12544x3 .f32) : FVec Ideal S2x30x12544 .f32 :=
  addf (accT4 A2 A3) (corner30 A2 (wgt4 A3) (valid4 A3) (zi4 A3) (yi4 A3) (xi4 A3))

/-- The 30-channel sum after corners 0 … 5 (printed %881). -/
def accT6 (A2 : FVec Ideal S2x30x64x64x64 .f32) (A3 : FVec Ideal S2x12544x3 .f32) : FVec Ideal S2x30x12544 .f32 :=
  addf (accT5 A2 A3) (corner30 A2 (wgt5 A3) (valid5 A3) (zi5 A3) (yi5 A3) (xi5 A3))

/-- The 30-channel sum after corners 0 … 6 (printed %936). -/
def accT7 (A2 : FVec Ideal S2x30x64x64x64 .f32) (A3 : FVec Ideal S2x12544x3 .f32) : FVec Ideal S2x30x12544 .f32 :=
  addf (accT6 A2 A3) (corner30 A2 (wgt6 A3) (valid6 A3) (zi6 A3) (yi6 A3) (xi6 A3))

/-- The 30-channel sum after corners 0 … 7 (printed %989). -/
def accT8 (A2 : FVec Ideal S2x30x64x64x64 .f32) (A3 : FVec Ideal S2x12544x3 .f32) : FVec Ideal S2x30x12544 .f32 :=
  addf (accT7 A2 A3) (corner30 A2 (wgt7 A3) (valid7 A3) (zi7 A3) (yi7 A3) (xi7 A3))

/-- The 30 target masks sampled at the points (printed %989). -/
def tgt (A2 : FVec Ideal S2x30x64x64x64 .f32) (A3 : FVec Ideal S2x12544x3 .f32) : FVec Ideal S2x30x12544 .f32 :=
  accT8 A2 A3

/-- Minus the softmax probability of each target's class: softmax over the 134 classes, the class labels wrapped by 134 if negative, gathered, negated (printed %990 … %1008). -/
def cls (A1 : FVec Ideal S2x100x134 .f32) (A4 : IVec S2x30 32) : FVec Ideal S2x100x30 .f32 :=
  Host.negf (Host.gather gather_S2x100x134_S2x30x1_S2x100x30_1_2_0_0_2_2_11001 (Host.divf (Host.exp (subf A1 (broadcastInDim S2x100x134 ![0, 1, 2] bcast_S2x100x1_S2x100x134_0_1_2 (broadcastInDim S2x100x1 ![0, 1] bcast_S2x100_S2x100x1_0_1 (maximumf (broadcastInDim S2x100 ![] bcast_S_S2x100 (constant (F := Ideal) S_ .f32 0xFF800000#32)) (Host.reduce FloatOps.maximumf A1 (constant (F := Ideal) S_ .f32 0xFF800000#32) reducesTo_S2x100x134_S2x100_d2 h_S_)))))) (broadcastInDim S2x100x134 ![0, 1, 2] bcast_S2x100x1_S2x100x134_0_1_2 (broadcastInDim S2x100x1 ![0, 1] bcast_S2x100_S2x100x1_0_1 (Host.reduceAdd (Host.exp (subf A1 (broadcastInDim S2x100x134 ![0, 1, 2] bcast_S2x100x1_S2x100x134_0_1_2 (broadcastInDim S2x100x1 ![0, 1] bcast_S2x100_S2x100x1_0_1 (maximumf (broadcastInDim S2x100 ![] bcast_S_S2x100 (constant (F := Ideal) S_ .f32 0xFF800000#32)) (Host.reduce FloatOps.maximumf A1 (constant (F := Ideal) S_ .f32 0xFF800000#32) reducesTo_S2x100x134_S2x100_d2 h_S_)))))) (constant (F := Ideal) S_ .f32 0x00000000#32) reducesTo_S2x100x134_S2x100_d2 h_S_)))) (broadcastInDim S2x30x1 ![0, 1] bcast_S2x30_S2x30x1_0_1 (select (cmpi .slt A4 (broadcastInDim S2x30 ![] bcast_S_S2x30 (constantI S_ 32 0#32))) (addi A4 (broadcastInDim S2x30 ![] bcast_S_S2x30 (constantI S_ 32 134#32))) A4)))

end Cert.Bridge.R

end
-- ==== Proof.RefSamplingReal.lean ====
/- Every entry of the two sampled arrays is a real number when the inputs are.

  The sampled arrays are built from the argument arrays by sums, differences, products, floors, selects, fetches
  and re-indexings only (broadcasts, slices, reshapes), and from the float words 0, 1, 2, 64 and 1/2.  Each of these
  keeps "every entry is a real number", so the property passes from the arguments to the results.  (No division, no
  exponential: nothing here can produce an infinity from finite inputs.)
-/
import proofs.«103167_j42614665511136_1_alg».proof.Proof.RefSampling
import proofs.«103167_j42614665511136_1_alg».proof.Proof.LibIsReal
import proofs.«103167_j42614665511136_1_alg».proof.Proof.LibERealSums

noncomputable section

open Idealize.ShloMosaic Idealize.ShloMosaic.ValueIdx Cert.LibIsReal

namespace Cert.Bridge.R
open Cert.ReferenceIdeal Cert.ReferenceIdeal.Facts₀ Cert.ReferenceIdeal.Facts
variable [Cert.ReferenceIdeal.Facts]

/-! ### Arrays all of whose entries are real numbers, and the array operations that keep them so -/

section Closure
variable {s t : Shape} {φ : FTy}

/-- Every entry of the array is a real number. -/
abbrev AllReal {s : Shape} (x : s.Idx → EReal) : Prop := ∀ i, IsReal (x i)

/-- An entrywise sum of real arrays is real. -/
theorem addf_real (x y : FVec Ideal s φ) (hx : AllReal x) (hy : AllReal y) : AllReal (addf x y) :=
  fun i => IsReal.add (hx i) (hy i)

/-- An entrywise difference of real arrays is real. -/
theorem subf_real (x y : FVec Ideal s φ) (hx : AllReal x) (hy : AllReal y) : AllReal (subf x y) :=
  fun i => IsReal.sub (hx i) (hy i)

/-- An entrywise product of real arrays is real. -/
theorem mulf_real (x y : FVec Ideal s φ) (hx : AllReal x) (hy : AllReal y) : AllReal (mulf x y) :=
  fun i => IsReal.mul (hx i) (hy i)

/-- The entrywise floor of a real array is real. -/
theorem hostFloor_real (x : FVec Ideal s φ) (hx : AllReal x) : AllReal (Host.floor x) :=
  fun i => IsReal.liftRound Int.floor (hx i)

/-- An entrywise choice between two real arrays is real. -/
theorem select_real (c : IVec s 1) (a b : s.Idx → EReal) (ha : AllReal a) (hb : AllReal b) : AllReal (select c a b) :=
  fun i => IsReal.select (c i) (ha i) (hb i)

/-- A broadcast of a real array is real: each entry of the result is an entry of the operand. -/
theorem broadcastInDim_real (dims : Fin s.rank → Fin t.rank) (h : s.BroadcastsInDim t dims) (x : s.Idx → EReal)
    (hx : AllReal x) : AllReal (broadcastInDim t dims h x) :=
  fun _ => hx _

/-- A reshape of a real array is real. -/
theorem shapeCast_real (x : s.Idx → EReal) (h : s.ShapeCasts t) (hx : AllReal x) : AllReal (shapeCast t x h) :=
  fun _ => hx _

/-- A slice of a real array is real. -/
theorem extractStridedSlice_real (off : Fin s.rank → Nat) (x : s.Idx → EReal) (h : s.Slices off t) (hx : AllReal x) :
    AllReal (extractStridedSlice t off x h) :=
  fun _ => hx _

/-- A fetch from a real array is real, whatever the indices: each entry of the result is an entry of the operand. -/
theorem gather_real {si : Shape} {w : Nat} (d : GatherDims s si t) (x : s.Idx → EReal) (idx : IVec si w) (hx : AllReal x) :
    AllReal (Host.gather d x idx) :=
  fun _ => hx _

/-- A splat of a word that denotes a real number is real. -/
theorem constant_real (b : BitVec φ.bits) (hb : IsReal (Ideal.ofBits φ b)) : AllReal (constant (F := Ideal) s φ b) :=
  fun _ => hb

end Closure

/-! ### The float words of the sampling chain -/

/-- The f32 word of 0 denotes a real number. -/
theorem word_zero_real : IsReal (Ideal.ofBits .f32 0x00000000#32) := IsReal.ofBits_zero

/-- The f32 word of 1 denotes a real number. -/
theorem word_one_real : IsReal (Ideal.ofBits .f32 0x3F800000#32) := by
  rw [Cert.LibERealSums.ofBits_f32_one]; exact IsReal.one

/-- The f32 word of 2 denotes a real number. -/
theorem word_two_real : IsReal (Ideal.ofBits .f32 0x40000000#32) := by
  rw [Cert.LibERealSums.ofBits_f32_two_coe]; exact IsReal.coe _

/-- The f32 word `0x42800000` denotes the real `64`. -/
theorem ofBits_f32_64 : Ideal.ofBits .f32 0x42800000#32 = ((64 : ℝ) : EReal) := by
  simp [Ideal.ofBits, Ideal.ieee, -EReal.coe_mul]; norm_num

/-- The f32 word `0x3F000000` denotes the real `1/2`. -/
theorem ofBits_f32_half : Ideal.ofBits .f32 0x3F000000#32 = ((1 / 2 : ℝ) : EReal) := by
  simp [Ideal.ofBits, Ideal.ieee, -EReal.coe_mul]; norm_num

/-- The f32 word of 64 denotes a real number. -/
theorem word_64_real : IsReal (Ideal.ofBits .f32 0x42800000#32) := by
  rw [ofBits_f32_64]; exact IsReal.coe _

/-- The f32 word of 1/2 denotes a real number. -/
theorem word_half_real : IsReal (Ideal.ofBits .f32 0x3F000000#32) := by
  rw [ofBits_f32_half]; exact IsReal.coe _

/-! ### The coordinates -/

variable (A3 : FVec Ideal S2x12544x3 .f32) (h3 : ∀ i, IsReal (A3 i))
include h3

/-- The mapped point coordinates are real. -/
theorem pts_real : ∀ i, IsReal (pts A3 i) :=
  subf_real _ _ (mulf_real _ _ (broadcastInDim_real _ _ _ (constant_real _ word_two_real)) h3)
    (broadcastInDim_real _ _ _ (constant_real _ word_one_real))

/-- The affine map of one sliced coordinate column keeps it real. -/
theorem coordOf_real (c : FVec Ideal S2x12544 .f32) (hc : ∀ i, IsReal (c i)) :
    ∀ i, IsReal (mulf (subf (mulf (addf c (broadcastInDim S2x12544 ![] bcast_S_S2x12544 (constant (F := Ideal) S_ .f32 0x3F800000#32)))
      (broadcastInDim S2x12544 ![] bcast_S_S2x12544 (constant (F := Ideal) S_ .f32 0x42800000#32)))
      (broadcastInDim S2x12544 ![] bcast_S_S2x12544 (constant (F := Ideal) S_ .f32 0x3F800000#32)))
      (broadcastInDim S2x12544 ![] bcast_S_S2x12544 (constant (F := Ideal) S_ .f32 0x3F000000#32)) i) := by
  clear h3
  exact mulf_real _ _ (subf_real _ _ (mulf_real _ _ (addf_real _ _ hc (broadcastInDim_real _ _ _ (constant_real _ word_one_real)))
    (broadcastInDim_real _ _ _ (constant_real _ word_64_real))) (broadcastInDim_real _ _ _ (constant_real _ word_one_real)))
    (broadcastInDim_real _ _ _ (constant_real _ word_half_real))

/-- The voxel coordinate along axis 0 is real. -/
theorem coord0_real : ∀ i, IsReal (coord0 A3 i) :=
  coordOf_real A3 h3 _ (shapeCast_real _ _ (extractStridedSlice_real _ _ _ (pts_real A3 h3)))

/-- Its floor is real. -/
theorem flo0_real : ∀ i, IsReal (flo0 A3 i) := hostFloor_real _ (coord0_real A3 h3)

/-- The fractional part along axis 0 is real. -/
theorem frac0_real : ∀ i, IsReal (frac0 A3 i) := subf_real _ _ (coord0_real A3 h3) (flo0_real A3 h3)

/-- The voxel coordinate along axis 1 is real. -/
theorem coord1_real : ∀ i, IsReal (coord1 A3 i) :=
  coordOf_real A3 h3 _ (shapeCast_real _ _ (extractStridedSlice_real _ _ _ (pts_real A3 h3)))

/-- Its floor is real. -/
theorem flo1_real : ∀ i, IsReal (flo1 A3 i) := hostFloor_real _ (coord1_real A3 h3)

/-- The fractional part along axis 1 is real. -/
theorem frac1_real : ∀ i, IsReal (frac1 A3 i) := subf_real _ _ (coord1_real A3 h3) (flo1_real A3 h3)

/-- The voxel coordinate along axis 2 is real. -/
theorem coord2_real : ∀ i, IsReal (coord2 A3 i) :=
  coordOf_real A3 h3 _ (shapeCast_real _ _ (extractStridedSlice_real _ _ _ (pts_real A3 h3)))

/-- Its floor is real. -/
theorem flo2_real : ∀ i, IsReal (flo2 A3 i) := hostFloor_real _ (coord2_real A3 h3)

/-- The fractional part along axis 2 is real. -/
theorem frac2_real : ∀ i, IsReal (frac2 A3 i) := subf_real _ _ (coord2_real A3 h3) (flo2_real A3 h3)

omit h3 in
/-- The complement 1 - f of a real array is real. -/
theorem oneMinus_real (f : FVec Ideal S2x12544 .f32) (hf : ∀ i, IsReal (f i)) : ∀ i, IsReal (oneMinus f i) :=
  subf_real _ _ (broadcastInDim_real _ _ _ (constant_real _ word_one_real)) hf

/-! ### The weights of the eight corners -/

/-- The weight of corner 0 is real. -/
theorem wgt0_real : ∀ i, IsReal (wgt0 A3 i) :=
  mulf_real _ _ (mulf_real _ _ (oneMinus_real _ (frac2_real A3 h3)) (oneMinus_real _ (frac1_real A3 h3))) (oneMinus_real _ (frac0_real A3 h3))

/-- The weight of corner 1 is real. -/
theorem wgt1_real : ∀ i, IsReal (wgt1 A3 i) :=
  mulf_real _ _ (mulf_real _ _ (oneMinus_real _ (frac2_real A3 h3)) (oneMinus_real _ (frac1_real A3 h3))) (frac0_real A3 h3)

/-- The weight of corner 2 is real. -/
theorem wgt2_real : ∀ i, IsReal (wgt2 A3 i) :=
  mulf_real _ _ (mulf_real _ _ (oneMinus_real _ (frac2_real A3 h3)) (frac1_real A3 h3)) (oneMinus_real _ (frac0_real A3 h3))

/-- The weight of corner 3 is real. -/
theorem wgt3_real : ∀ i, IsReal (wgt3 A3 i) :=
  mulf_real _ _ (mulf_real _ _ (oneMinus_real _ (frac2_real A3 h3)) (frac1_real A3 h3)) (frac0_real A3 h3)

/-- The weight of corner 4 is real. -/
theorem wgt4_real : ∀ i, IsReal (wgt4 A3 i) :=
  mulf_real _ _ (mulf_real _ _ (frac2_real A3 h3) (oneMinus_real _ (frac1_real A3 h3))) (oneMinus_real _ (frac0_real A3 h3))

/-- The weight of corner 5 is real. -/
theorem wgt5_real : ∀ i, IsReal (wgt5 A3 i) :=
  mulf_real _ _ (mulf_real _ _ (frac2_real A3 h3) (oneMinus_real _ (frac1_real A3 h3))) (frac0_real A3 h3)

/-- The weight of corner 6 is real. -/
theorem wgt6_real : ∀ i, IsReal (wgt6 A3 i) :=
  mulf_real _ _ (mulf_real _ _ (frac2_real A3 h3) (frac1_real A3 h3)) (oneMinus_real _ (frac0_real A3 h3))

/-- The weight of corner 7 is real. -/
theorem wgt7_real : ∀ i, IsReal (wgt7 A3 i) :=
  mulf_real _ _ (mulf_real _ _ (frac2_real A3 h3) (frac1_real A3 h3)) (frac0_real A3 h3)

/-! ### The corners' contributions and the sums -/

omit h3 in
/-- One corner's contribution to the 100 channels is real when the volume and the weight are. -/
theorem corner100_real (vol : FVec Ideal S2x100x64x64x64 .f32) (wgt : FVec Ideal S2x12544 .f32) (valid : IVec S2x12544 1)
    (zi yi xi : IVec S2x12544 32) (hv : ∀ i, IsReal (vol i)) (hw : ∀ i, IsReal (wgt i)) :
    ∀ i, IsReal (corner100 vol wgt valid zi yi xi i) :=
  mulf_real _ _ (broadcastInDim_real _ _ _ (broadcastInDim_real _ _ _ hw))
    (select_real _ _ _ (gather_real _ _ _ hv)
      (broadcastInDim_real _ _ _ (broadcastInDim_real _ _ _ (broadcastInDim_real _ _ _ (constant_real _ word_zero_real)))))

omit h3 in
/-- One corner's contribution to the 30 channels is real when the volume and the weight are. -/
theorem corner30_real (vol : FVec Ideal S2x30x64x64x64 .f32) (wgt : FVec Ideal S2x12544 .f32) (valid : IVec S2x12544 1)
    (zi yi xi : IVec S2x12544 32) (hv : ∀ i, IsReal (vol i)) (hw : ∀ i, IsReal (wgt i)) :
    ∀ i, IsReal (corner30 vol wgt valid zi yi xi i) :=
  mulf_real _ _ (broadcastInDim_real _ _ _ (broadcastInDim_real _ _ _ hw))
    (select_real _ _ _ (gather_real _ _ _ hv)
      (broadcastInDim_real _ _ _ (broadcastInDim_real _ _ _ (broadcastInDim_real _ _ _ (constant_real _ word_zero_real)))))

omit h3 in
/-- The zero start of the 100-channel sum, read at an index, is the zero word. -/
theorem accP0_apply (j : S2x100x12544.Idx) : accP0 j = Ideal.ofBits .f32 0x00000000#32 := rfl

omit h3 in
/-- The zero start of the 30-channel sum, read at an index, is the zero word. -/
theorem accT0_apply (j : S2x30x12544.Idx) : accT0 j = Ideal.ofBits .f32 0x00000000#32 := rfl

omit h3 in
/-- The zero start of the 100-channel sum is real. -/
theorem accP0_real : ∀ i, IsReal (accP0 i) := fun _ => word_zero_real

omit h3 in
/-- The zero start of the 30-channel sum is real. -/
theorem accT0_real : ∀ i, IsReal (accT0 i) := fun _ => word_zero_real

variable (A0 : FVec Ideal S2x100x64x64x64 .f32) (h0 : ∀ i, IsReal (A0 i)) (A2 : FVec Ideal S2x30x64x64x64 .f32) (h2 : ∀ i, IsReal (A2 i))

include h0 in
/-- The 100-channel sum after corners 0 … 0 is real. -/
theorem accP1_real : ∀ i, IsReal (accP1 A0 A3 i) :=
  addf_real _ _ accP0_real (corner100_real A0 _ _ _ _ _ h0 (wgt0_real A3 h3))

include h0 in
/-- The 100-channel sum after corners 0 … 1 is real. -/
theorem accP2_real : ∀ i, IsReal (accP2 A0 A3 i) :=
  addf_real _ _ (accP1_real A3 h3 A0 h0) (corner100_real A0 _ _ _ _ _ h0 (wgt1_real A3 h3))

include h0 in
/-- The 100-channel sum after corners 0 … 2 is real. -/
theorem accP3_real : ∀ i, IsReal (accP3 A0 A3 i) :=
  addf_real _ _ (accP2_real A3 h3 A0 h0) (corner100_real A0 _ _ _ _ _ h0 (wgt2_real A3 h3))

include h0 in
/-- The 100-channel sum after corners 0 … 3 is real. -/
theorem accP4_real : ∀ i, IsReal (accP4 A0 A3 i) :=
  addf_real _ _ (accP3_real A3 h3 A0 h0) (corner100_real A0 _ _ _ _ _ h0 (wgt3_real A3 h3))

include h0 in
/-- The 100-channel sum after corners 0 … 4 is real. -/
theorem accP5_real : ∀ i, IsReal (accP5 A0 A3 i) :=
  addf_real _ _ (accP4_real A3 h3 A0 h0) (corner100_real A0 _ _ _ _ _ h0 (wgt4_real A3 h3))

include h0 in
/-- The 100-channel sum after corners 0 … 5 is real. -/
theorem accP6_real : ∀ i, IsReal (accP6 A0 A3 i) :=
  addf_real _ _ (accP5_real A3 h3 A0 h0) (corner100_real A0 _ _ _ _ _ h0 (wgt5_real A3 h3))

include h0 in
/-- The 100-channel sum after corners 0 … 6 is real. -/
theorem accP7_real : ∀ i, IsReal (accP7 A0 A3 i) :=
  addf_real _ _ (accP6_real A3 h3 A0 h0) (corner100_real A0 _ _ _ _ _ h0 (wgt6_real A3 h3))

include h0 in
/-- The 100-channel sum after corners 0 … 7 is real. -/
theorem accP8_real : ∀ i, IsReal (accP8 A0 A3 i) :=
  addf_real _ _ (accP7_real A3 h3 A0 h0) (corner100_real A0 _ _ _ _ _ h0 (wgt7_real A3 h3))

include h2 in
/-- The 30-channel sum after corners 0 … 0 is real. -/
theorem accT1_real : ∀ i, IsReal (accT1 A2 A3 i) :=
  addf_real _ _ accT0_real (corner30_real A2 _ _ _ _ _ h2 (wgt0_real A3 h3))

include h2 in
/-- The 30-channel sum after corners 0 … 1 is real. -/
theorem accT2_real : ∀ i, IsReal (accT2 A2 A3 i) :=
  addf_real _ _ (accT1_real A3 h3 A2 h2) (corner30_real A2 _ _ _ _ _ h2 (wgt1_real A3 h3))

include h2 in
/-- The 30-channel sum after corners 0 … 2 is real. -/
theorem accT3_real : ∀ i, IsReal (accT3 A2 A3 i) :=
  addf_real _ _ (accT2_real A3 h3 A2 h2) (corner30_real A2 _ _ _ _ _ h2 (wgt2_real A3 h3))

include h2 in
/-- The 30-channel sum after corners 0 … 3 is real. -/
theorem accT4_real : ∀ i, IsReal (accT4 A2 A3 i) :=
  addf_real _ _ (accT3_real A3 h3 A2 h2) (corner30_real A2 _ _ _ _ _ h2 (wgt3_real A3 h3))

include h2 in
/-- The 30-channel sum after corners 0 … 4 is real. -/
theorem accT5_real : ∀ i, IsReal (accT5 A2 A3 i) :=
  addf_real _ _ (accT4_real A3 h3 A2 h2) (corner30_real A2 _ _ _ _ _ h2 (wgt4_real A3 h3))

include h2 in
/-- The 30-channel sum after corners 0 … 5 is real. -/
theorem accT6_real : ∀ i, IsReal (accT6 A2 A3 i) :=
  addf_real _ _ (accT5_real A3 h3 A2 h2) (corner30_real A2 _ _ _ _ _ h2 (wgt5_real A3 h3))

include h2 in
/-- The 30-channel sum after corners 0 … 6 is real. -/
theorem accT7_real : ∀ i, IsReal (accT7 A2 A3 i) :=
  addf_real _ _ (accT6_real A3 h3 A2 h2) (corner30_real A2 _ _ _ _ _ h2 (wgt6_real A3 h3))

include h2 in
/-- The 30-channel sum after corners 0 … 7 is real. -/
theorem accT8_real : ∀ i, IsReal (accT8 A2 A3 i) :=
  addf_real _ _ (accT7_real A3 h3 A2 h2) (corner30_real A2 _ _ _ _ _ h2 (wgt7_real A3 h3))

end Cert.Bridge.R

namespace Cert.Bridge.R
open Cert.ReferenceIdeal Cert.ReferenceIdeal.Facts₀ Cert.ReferenceIdeal.Facts
variable [Cert.ReferenceIdeal.Facts]

/-- EVERY SAMPLED QUERY-MASK LOGIT IS A REAL NUMBER when the mask logits and the point coordinates are. -/
theorem pred_real (A0 : FVec Ideal S2x100x64x64x64 .f32) (A3 : FVec Ideal S2x12544x3 .f32)
    (h0 : ∀ i, IsReal (A0 i)) (h3 : ∀ i, IsReal (A3 i)) : ∀ i, IsReal (pred A0 A3 i) :=
  accP8_real A3 h3 A0 h0

/-- EVERY SAMPLED TARGET-MASK VALUE IS A REAL NUMBER when the target masks and the point coordinates are. -/
theorem tgt_real (A2 : FVec Ideal S2x30x64x64x64 .f32) (A3 : FVec Ideal S2x12544x3 .f32)
    (h2 : ∀ i, IsReal (A2 i)) (h3 : ∀ i, IsReal (A3 i)) : ∀ i, IsReal (tgt A2 A3 i) :=
  accT8_real A3 h3 A2 h2

end Cert.Bridge.R

end
-- ==== Proof.SamplingEq.lean ====
/-
  The two programs compute the same three arrays before the cost.

  Each program adds, from an all-zero start, the eight corners' contributions to a sampled array; the coordinates,
  fractional parts, integer base words, validity tests and weights are the same operations in both programs, and one
  corner's contribution is the same array in both (the corner lemmas): so the running sums agree corner by corner, for
  the 100 query channels and for the 30 target channels.  The class cost is the same chain of operations in both.
-/
import proofs.«103167_j42614665511136_1_alg».proof.Proof.KernelSamplingDefs
import proofs.«103167_j42614665511136_1_alg».proof.Proof.KernelSamplingTgt
import proofs.«103167_j42614665511136_1_alg».proof.Proof.RefSampling
import proofs.«103167_j42614665511136_1_alg».proof.Proof.CornerEq

noncomputable section

open Idealize.ShloMosaic Idealize.ShloMosaic.ValueIdx

namespace Cert.Bridge

variable [Cert.KernelIdeal.Facts] [Cert.ReferenceIdeal.Facts]

/-! ## The sampled query logits -/

/-- Both programs start the sum from the all-zero array. -/
theorem accP0_eq : K.accP0 = R.accP0 := funext fun j => (K.accP0_apply j).trans (rfl : R.accP0 j = Ideal.ofBits .f32 0x00000000#32).symm

/-- After corner 0 the two programs' running sums for the 100 query channels agree. -/
theorem accP1_eq (A0 : FVec Ideal Cert.ReferenceIdeal.S2x100x64x64x64 .f32) (A3 : FVec Ideal Cert.ReferenceIdeal.S2x12544x3 .f32) :
    K.accP1 A0 A3 = R.accP1 A0 A3 := by
  unfold K.accP1 R.accP1
  rw [accP0_eq]
  exact congrArg _ (corner100_eq A0 (R.wgt0 A3) (R.valid0 A3) (R.zi0 A3) (R.yi0 A3) (R.xi0 A3))

/-- After corner 1 the two programs' running sums for the 100 query channels agree. -/
theorem accP2_eq (A0 : FVec Ideal Cert.ReferenceIdeal.S2x100x64x64x64 .f32) (A3 : FVec Ideal Cert.ReferenceIdeal.S2x12544x3 .f32) :
    K.accP2 A0 A3 = R.accP2 A0 A3 := by
  unfold K.accP2 R.accP2
  rw [accP1_eq A0 A3]
  exact congrArg _ (corner100_eq A0 (R.wgt1 A3) (R.valid1 A3) (R.zi1 A3) (R.yi1 A3) (R.xi1 A3))

/-- After corner 2 the two programs' running sums for the 100 query channels agree. -/
theorem accP3_eq (A0 : FVec Ideal Cert.ReferenceIdeal.S2x100x64x64x64 .f32) (A3 : FVec Ideal Cert.ReferenceIdeal.S2x12544x3 .f32) :
    K.accP3 A0 A3 = R.accP3 A0 A3 := by
  unfold K.accP3 R.accP3
  rw [accP2_eq A0 A3]
  exact congrArg _ (corner100_eq A0 (R.wgt2 A3) (R.valid2 A3) (R.zi2 A3) (R.yi2 A3) (R.xi2 A3))

/-- After corner 3 the two programs' running sums for the 100 query channels agree. -/
theorem accP4_eq (A0 : FVec Ideal Cert.ReferenceIdeal.S2x100x64x64x64 .f32) (A3 : FVec Ideal Cert.ReferenceIdeal.S2x12544x3 .f32) :
    K.accP4 A0 A3 = R.accP4 A0 A3 := by
  unfold K.accP4 R.accP4
  rw [accP3_eq A0 A3]
  exact congrArg _ (corner100_eq A0 (R.wgt3 A3) (R.valid3 A3) (R.zi3 A3) (R.yi3 A3) (R.xi3 A3))

/-- After corner 4 the two programs' running sums for the 100 query channels agree. -/
theorem accP5_eq (A0 : FVec Ideal Cert.ReferenceIdeal.S2x100x64x64x64 .f32) (A3 : FVec Ideal Cert.ReferenceIdeal.S2x12544x3 .f32) :
    K.accP5 A0 A3 = R.accP5 A0 A3 := by
  unfold K.accP5 R.accP5
  rw [accP4_eq A0 A3]
  exact congrArg _ (corner100_eq A0 (R.wgt4 A3) (R.valid4 A3) (R.zi4 A3) (R.yi4 A3) (R.xi4 A3))

/-- After corner 5 the two programs' running sums for the 100 query channels agree. -/
theorem accP6_eq (A0 : FVec Ideal Cert.ReferenceIdeal.S2x100x64x64x64 .f32) (A3 : FVec Ideal Cert.ReferenceIdeal.S2x12544x3 .f32) :
    K.accP6 A0 A3 = R.accP6 A0 A3 := by
  unfold K.accP6 R.accP6
  rw [accP5_eq A0 A3]
  exact congrArg _ (corner100_eq A0 (R.wgt5 A3) (R.valid5 A3) (R.zi5 A3) (R.yi5 A3) (R.xi5 A3))

/-- After corner 6 the two programs' running sums for the 100 query channels agree. -/
theorem accP7_eq (A0 : FVec Ideal Cert.ReferenceIdeal.S2x100x64x64x64 .f32) (A3 : FVec Ideal Cert.ReferenceIdeal.S2x12544x3 .f32) :
    K.accP7 A0 A3 = R.accP7 A0 A3 := by
  unfold K.accP7 R.accP7
  rw [accP6_eq A0 A3]
  exact congrArg _ (corner100_eq A0 (R.wgt6 A3) (R.valid6 A3) (R.zi6 A3) (R.yi6 A3) (R.xi6 A3))

/-- After corner 7 the two programs' running sums for the 100 query channels agree. -/
theorem accP8_eq (A0 : FVec Ideal Cert.ReferenceIdeal.S2x100x64x64x64 .f32) (A3 : FVec Ideal Cert.ReferenceIdeal.S2x12544x3 .f32) :
    K.accP8 A0 A3 = R.accP8 A0 A3 := by
  unfold K.accP8 R.accP8
  rw [accP7_eq A0 A3]
  exact congrArg _ (corner100_eq A0 (R.wgt7 A3) (R.valid7 A3) (R.zi7 A3) (R.yi7 A3) (R.xi7 A3))

/-- The sampled query logits are one array in both programs. -/
theorem pred_eq (A0 : FVec Ideal Cert.ReferenceIdeal.S2x100x64x64x64 .f32) (A3 : FVec Ideal Cert.ReferenceIdeal.S2x12544x3 .f32) :
    K.pred A0 A3 = R.pred A0 A3 := accP8_eq A0 A3

/-! ## The sampled targets -/

open Cert.KernelIdeal.Facts₀ in
/-- Both programs start the targets' sum from the all-zero array (one program spreads a [30, P] array of zeros over the
    batch axis, the other has the [2, 30, P] array of zeros at once). -/
theorem accT0_eq :
    broadcastInDim Cert.KernelIdeal.S2x30x12544 ![0, 1, 2] bcast_S1x30x12544_S2x30x12544_0_1_2
      (broadcastInDim Cert.KernelIdeal.S1x30x12544 ![1, 2] bcast_S30x12544_S1x30x12544_1_2 K30.accT0) = R.accT0 :=
  funext fun j => (rfl : _ = Ideal.ofBits .f32 0x00000000#32).trans (rfl : R.accT0 j = Ideal.ofBits .f32 0x00000000#32).symm

/-- After corner 0 the two programs' running sums for the 30 target channels agree. -/
theorem accT1_eq (A2 : FVec Ideal Cert.ReferenceIdeal.S2x30x64x64x64 .f32) (A3 : FVec Ideal Cert.ReferenceIdeal.S2x12544x3 .f32) :
    K30.accT1 A2 A3 = R.accT1 A2 A3 := by
  unfold K30.accT1 R.accT1
  rw [accT0_eq]
  exact congrArg _ (corner30_eq A2 (R.wgt0 A3) (R.valid0 A3) (R.zi0 A3) (R.yi0 A3) (R.xi0 A3))

/-- After corner 1 the two programs' running sums for the 30 target channels agree. -/
theorem accT2_eq (A2 : FVec Ideal Cert.ReferenceIdeal.S2x30x64x64x64 .f32) (A3 : FVec Ideal Cert.ReferenceIdeal.S2x12544x3 .f32) :
    K30.accT2 A2 A3 = R.accT2 A2 A3 := by
  unfold K30.accT2 R.accT2
  rw [accT1_eq A2 A3]
  exact congrArg _ (corner30_eq A2 (R.wgt1 A3) (R.valid1 A3) (R.zi1 A3) (R.yi1 A3) (R.xi1 A3))

/-- After corner 2 the two programs' running sums for the 30 target channels agree. -/
theorem accT3_eq (A2 : FVec Ideal Cert.ReferenceIdeal.S2x30x64x64x64 .f32) (A3 : FVec Ideal Cert.ReferenceIdeal.S2x12544x3 .f32) :
    K30.accT3 A2 A3 = R.accT3 A2 A3 := by
  unfold K30.accT3 R.accT3
  rw [accT2_eq A2 A3]
  exact congrArg _ (corner30_eq A2 (R.wgt2 A3) (R.valid2 A3) (R.zi2 A3) (R.yi2 A3) (R.xi2 A3))

/-- After corner 3 the two programs' running sums for the 30 target channels agree. -/
theorem accT4_eq (A2 : FVec Ideal Cert.ReferenceIdeal.S2x30x64x64x64 .f32) (A3 : FVec Ideal Cert.ReferenceIdeal.S2x12544x3 .f32) :
    K30.accT4 A2 A3 = R.accT4 A2 A3 := by
  unfold K30.accT4 R.accT4
  rw [accT3_eq A2 A3]
  exact congrArg _ (corner30_eq A2 (R.wgt3 A3) (R.valid3 A3) (R.zi3 A3) (R.yi3 A3) (R.xi3 A3))

/-- After corner 4 the two programs' running sums for the 30 target channels agree. -/
theorem accT5_eq (A2 : FVec Ideal Cert.ReferenceIdeal.S2x30x64x64x64 .f32) (A3 : FVec Ideal Cert.ReferenceIdeal.S2x12544x3 .f32) :
    K30.accT5 A2 A3 = R.accT5 A2 A3 := by
  unfold K30.accT5 R.accT5
  rw [accT4_eq A2 A3]
  exact congrArg _ (corner30_eq A2 (R.wgt4 A3) (R.valid4 A3) (R.zi4 A3) (R.yi4 A3) (R.xi4 A3))

/-- After corner 5 the two programs' running sums for the 30 target channels agree. -/
theorem accT6_eq (A2 : FVec Ideal Cert.ReferenceIdeal.S2x30x64x64x64 .f32) (A3 : FVec Ideal Cert.ReferenceIdeal.S2x12544x3 .f32) :
    K30.accT6 A2 A3 = R.accT6 A2 A3 := by
  unfold K30.accT6 R.accT6
  rw [accT5_eq A2 A3]
  exact congrArg _ (corner30_eq A2 (R.wgt5 A3) (R.valid5 A3) (R.zi5 A3) (R.yi5 A3) (R.xi5 A3))

/-- After corner 6 the two programs' running sums for the 30 target channels agree. -/
theorem accT7_eq (A2 : FVec Ideal Cert.ReferenceIdeal.S2x30x64x64x64 .f32) (A3 : FVec Ideal Cert.ReferenceIdeal.S2x12544x3 .f32) :
    K30.accT7 A2 A3 = R.accT7 A2 A3 := by
  unfold K30.accT7 R.accT7
  rw [accT6_eq A2 A3]
  exact congrArg _ (corner30_eq A2 (R.wgt6 A3) (R.valid6 A3) (R.zi6 A3) (R.yi6 A3) (R.xi6 A3))

/-- After corner 7 the two programs' running sums for the 30 target channels agree. -/
theorem accT8_eq (A2 : FVec Ideal Cert.ReferenceIdeal.S2x30x64x64x64 .f32) (A3 : FVec Ideal Cert.ReferenceIdeal.S2x12544x3 .f32) :
    K30.accT8 A2 A3 = R.accT8 A2 A3 := by
  unfold K30.accT8 R.accT8
  rw [accT7_eq A2 A3]
  exact congrArg _ (corner30_eq A2 (R.wgt7 A3) (R.valid7 A3) (R.zi7 A3) (R.yi7 A3) (R.xi7 A3))

/-- The sampled targets are one array in both programs. -/
theorem tgt_eq (A2 : FVec Ideal Cert.ReferenceIdeal.S2x30x64x64x64 .f32) (A3 : FVec Ideal Cert.ReferenceIdeal.S2x12544x3 .f32) :
    K30.tgt A2 A3 = R.tgt A2 A3 := accT8_eq A2 A3

/-! ## The class cost -/

/-- The class cost is the same chain of operations in both programs. -/
theorem cls_eq (A1 : FVec Ideal Cert.ReferenceIdeal.S2x100x134 .f32) (A4 : IVec Cert.ReferenceIdeal.S2x30 32) :
    K30.cls A1 A4 = R.cls A1 A4 := rfl

end Cert.Bridge

end
-- ==== Proof.Assembly.lean ====
/-
  The equivalence at the ideal instance, assembled.

  The kernel program's result array is the cost array of the three arrays its launch reads; the reference's result
  array is the reference's arrangement of the cost over its own three sampled arrays. The three arrays agree (both
  programs sample the same volumes at the same points and compute the same class cost), the sampled values are real
  numbers because the inputs are, and on real sampled values the two arrangements agree: so from memories that agree on
  the arguments the two programs end with equal results.

  The facts about the two programs' host operations are taken here as hypotheses, stated over the reference's three
  sampled arrays and its last stretch as functions: what the reference's operations leave in its result, how that reads
  at an entry, what the kernel's launch finds in its three arrays, that the two programs' sampled arrays agree, and that
  the sampled values are real.
-/
import proofs.«103167_j42614665511136_1_alg».proof.Defs
import proofs.«103167_j42614665511136_1_alg».proof.Proof.Gen.KernelIdeal
import proofs.«103167_j42614665511136_1_alg».proof.Proof.Gen.ReferenceIdeal
import proofs.«103167_j42614665511136_1_alg».proof.Proof.Gen.Pre_finite_inputs
import proofs.«103167_j42614665511136_1_alg».proof.Proof.KernelIdealFrameP
import proofs.«103167_j42614665511136_1_alg».proof.Proof.RefRun
import proofs.«103167_j42614665511136_1_alg».proof.Proof.ClaimParts
import proofs.«103167_j42614665511136_1_alg».proof.Proof.CostArray
import proofs.«103167_j42614665511136_1_alg».proof.Proof.KernelValue
import proofs.«103167_j42614665511136_1_alg».proof.Proof.KernelSamplingDefs
import proofs.«103167_j42614665511136_1_alg».proof.Proof.KernelSamplingTgt
import proofs.«103167_j42614665511136_1_alg».proof.Proof.PreFinite
import proofs.«103167_j42614665511136_1_alg».proof.Proof.LibIsReal
import proofs.«103167_j42614665511136_1_alg».proof.Proof.RefSamplingReal
import proofs.«103167_j42614665511136_1_alg».proof.Proof.SamplingEq

noncomputable section

namespace Cert.Proof.Assembly

open Idealize.ShloMosaic Idealize.SL.Sem Idealize.ShloMosaic.ValueIdx Cert.LibIsReal

/-- The reference's result array is the kernel's. `Rpred`, `Rtgt`, `Rcls` are the reference's three sampled arrays as
    functions of the arguments and `tailR` its last stretch as a function of them: `hfold` says its operations leave
    `tailR` of the three in the result, `htail` reads that at an entry as the reference's arrangement of the cost;
    `hVp`, `hVt`, `hVc` say what the kernel's launch finds in its three arrays, `hpe`, `hte`, `hce` that the two
    programs' sampled arrays agree, `hpr`, `htr` that sampled values of real inputs are real. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (Rpred : FVec Ideal Cert.ReferenceIdeal.S2x100x64x64x64 .f32 → FVec Ideal Cert.ReferenceIdeal.S2x12544x3 .f32 → FVec Ideal Cert.ReferenceIdeal.S2x100x12544 .f32)
    (Rtgt : FVec Ideal Cert.ReferenceIdeal.S2x30x64x64x64 .f32 → FVec Ideal Cert.ReferenceIdeal.S2x12544x3 .f32 → FVec Ideal Cert.ReferenceIdeal.S2x30x12544 .f32)
    (Rcls : FVec Ideal Cert.ReferenceIdeal.S2x100x134 .f32 → IVec Cert.ReferenceIdeal.S2x30 32 → FVec Ideal Cert.ReferenceIdeal.S2x100x30 .f32)
    (tailR : FVec Ideal Cert.ReferenceIdeal.S2x100x12544 .f32 → FVec Ideal Cert.ReferenceIdeal.S2x30x12544 .f32 → FVec Ideal Cert.ReferenceIdeal.S2x100x30 .f32 → FVec Ideal Cert.ReferenceIdeal.S2x100x30 .f32)
    (hfold : StableHlo.after (Cert.ReferenceIdeal.HandRun.ops (F := Ideal)) (fun b => m' (c, b)) (Proc.devRef .tc Cert.ReferenceIdeal.main_v1056)
      = tailR (Rpred (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)))
          (Rtgt (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
          (Rcls (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4))))
    (htail : ∀ (P : FVec Ideal Cert.ReferenceIdeal.S2x100x12544 .f32) (T : FVec Ideal Cert.ReferenceIdeal.S2x30x12544 .f32) (Cl : FVec Ideal Cert.ReferenceIdeal.S2x100x30 .f32)
      (b : Fin 2) (q : Fin 100) (t : Fin 30), tailR P T Cl (ix3 b q t)
        = Cert.CostSpec.costR (fun q p => P (ix3 b q p)) (fun t p => T (ix3 b t p)) (fun q t => Cl (ix3 b q t)) q t)
    (hVp : Cert.KernelIdeal.GenP.V m c Cert.KernelIdeal.main_v390
      = Cert.Bridge.K.pred (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
    (hVt : Cert.KernelIdeal.GenP.V m c Cert.KernelIdeal.main_v781
      = Cert.Bridge.K30.tgt (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    (hVc : Cert.KernelIdeal.GenP.V m c Cert.KernelIdeal.main_v800
      = Cert.Bridge.K30.cls (m ((c.tc : Thread Cert.KernelIdeal.nD Cert.KernelIdeal.τ).loc Cert.KernelIdeal.main_arg1)) (m ((c.tc : Thread Cert.KernelIdeal.nD Cert.KernelIdeal.τ).loc Cert.KernelIdeal.main_arg4)))
    (hpe : ∀ A0 A3, Cert.Bridge.K.pred A0 A3 = Rpred A0 A3) (hte : ∀ A2 A3, Cert.Bridge.K30.tgt A2 A3 = Rtgt A2 A3)
    (hce : ∀ A1 A4, Cert.Bridge.K30.cls A1 A4 = Rcls A1 A4)
    (hpr : ∀ A0 A3, (∀ i, IsReal (A0 i)) → (∀ i, IsReal (A3 i)) → ∀ i, IsReal (Rpred A0 A3 i))
    (htr : ∀ A2 A3, (∀ i, IsReal (A2 i)) → (∀ i, IsReal (A3 i)) → ∀ i, IsReal (Rtgt A2 A3 i)) :
    StableHlo.after (Cert.ReferenceIdeal.HandRun.ops (F := Ideal)) (fun b => m' (c, b)) (Proc.devRef .tc Cert.ReferenceIdeal.main_v1056)
      = Cert.KernelIdeal.HandValue.costArr (Cert.KernelIdeal.GenP.V m c Cert.KernelIdeal.main_v390)
          (Cert.KernelIdeal.GenP.V m c Cert.KernelIdeal.main_v781) (Cert.KernelIdeal.GenP.V m c Cert.KernelIdeal.main_v800) := by
  obtain ⟨r0, -, r2, r3⟩ := Cert.PreFinite.finite_of_pre _ _ _ _ _ hpre
  rw [← h0] at r0
  rw [← h2] at r2
  rw [← h3] at r3
  exact Cert.KernelIdeal.HandValue.eq_costArr_of _ _ _ _ _ _ _ tailR hfold (htail _ _ _)
    (by rw [hVp, hpe, ← h0, ← h3]) (by rw [hVt, hte, ← h2, ← h3]) (by rw [hVc, hce, ← h1, ← h4])
    (hpr _ _ r0 r3) (htr _ _ r2 r3) Cert.Proof.Parts.inv_p

/-- From memories that agree on the arguments both idealized programs run, and end with equal results: the kernel
    program's run ends with the cost array of the three arrays its launch reads, the reference's with an array equal to
    it. The hypotheses are `result_eq`'s, for every memory and device. -/
theorem algebraic_of
    (Rpred : FVec Ideal Cert.ReferenceIdeal.S2x100x64x64x64 .f32 → FVec Ideal Cert.ReferenceIdeal.S2x12544x3 .f32 → FVec Ideal Cert.ReferenceIdeal.S2x100x12544 .f32)
    (Rtgt : FVec Ideal Cert.ReferenceIdeal.S2x30x64x64x64 .f32 → FVec Ideal Cert.ReferenceIdeal.S2x12544x3 .f32 → FVec Ideal Cert.ReferenceIdeal.S2x30x12544 .f32)
    (Rcls : FVec Ideal Cert.ReferenceIdeal.S2x100x134 .f32 → IVec Cert.ReferenceIdeal.S2x30 32 → FVec Ideal Cert.ReferenceIdeal.S2x100x30 .f32)
    (tailR : FVec Ideal Cert.ReferenceIdeal.S2x100x12544 .f32 → FVec Ideal Cert.ReferenceIdeal.S2x30x12544 .f32 → FVec Ideal Cert.ReferenceIdeal.S2x100x30 .f32 → FVec Ideal Cert.ReferenceIdeal.S2x100x30 .f32)
    (hfold : ∀ (m' : (ℓ : Loc Cert.ReferenceIdeal.nD Cert.ReferenceIdeal.τ Cert.ReferenceIdeal.sig) → Buf (Elt Ideal) ℓ) (c : Dev Cert.ReferenceIdeal.nD),
      StableHlo.after (Cert.ReferenceIdeal.HandRun.ops (F := Ideal)) (fun b => m' (c, b)) (Proc.devRef .tc Cert.ReferenceIdeal.main_v1056)
      = tailR (Rpred (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)))
          (Rtgt (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
          (Rcls (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4))))
    (htail : ∀ (P : FVec Ideal Cert.ReferenceIdeal.S2x100x12544 .f32) (T : FVec Ideal Cert.ReferenceIdeal.S2x30x12544 .f32) (Cl : FVec Ideal Cert.ReferenceIdeal.S2x100x30 .f32)
      (b : Fin 2) (q : Fin 100) (t : Fin 30), tailR P T Cl (ix3 b q t)
        = Cert.CostSpec.costR (fun q p => P (ix3 b q p)) (fun t p => T (ix3 b t p)) (fun q t => Cl (ix3 b q t)) q t)
    (hVp : ∀ (m : (ℓ : Loc Cert.KernelIdeal.nD Cert.KernelIdeal.τ Cert.KernelIdeal.sig) → Buf (Elt Ideal) ℓ) (c : Dev Cert.KernelIdeal.nD),
      Cert.KernelIdeal.GenP.V m c Cert.KernelIdeal.main_v390
      = Cert.Bridge.K.pred (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
    (hVt : ∀ (m : (ℓ : Loc Cert.KernelIdeal.nD Cert.KernelIdeal.τ Cert.KernelIdeal.sig) → Buf (Elt Ideal) ℓ) (c : Dev Cert.KernelIdeal.nD),
      Cert.KernelIdeal.GenP.V m c Cert.KernelIdeal.main_v781
      = Cert.Bridge.K30.tgt (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    (hVc : ∀ (m : (ℓ : Loc Cert.KernelIdeal.nD Cert.KernelIdeal.τ Cert.KernelIdeal.sig) → Buf (Elt Ideal) ℓ) (c : Dev Cert.KernelIdeal.nD),
      Cert.KernelIdeal.GenP.V m c Cert.KernelIdeal.main_v800
      = Cert.Bridge.K30.cls (m ((c.tc : Thread Cert.KernelIdeal.nD Cert.KernelIdeal.τ).loc Cert.KernelIdeal.main_arg1)) (m ((c.tc : Thread Cert.KernelIdeal.nD Cert.KernelIdeal.τ).loc Cert.KernelIdeal.main_arg4)))
    (hpe : ∀ A0 A3, Cert.Bridge.K.pred A0 A3 = Rpred A0 A3) (hte : ∀ A2 A3, Cert.Bridge.K30.tgt A2 A3 = Rtgt A2 A3)
    (hce : ∀ A1 A4, Cert.Bridge.K30.cls A1 A4 = Rcls A1 A4)
    (hpr : ∀ A0 A3, (∀ i, IsReal (A0 i)) → (∀ i, IsReal (A3 i)) → ∀ i, IsReal (Rpred A0 A3 i))
    (htr : ∀ A2 A3, (∀ i, IsReal (A2 i)) → (∀ i, IsReal (A3 i)) → ∀ i, IsReal (Rtgt A2 A3 i)) :
    Cert.algebraic_KernelIdeal_ReferenceIdeal := by
  intro m ρ m' ρ' hpre hagree
  refine ⟨fun c => Cert.KernelIdeal.HandValue.costArr (Cert.KernelIdeal.GenP.V m c Cert.KernelIdeal.main_v390)
      (Cert.KernelIdeal.GenP.V m c Cert.KernelIdeal.main_v781) (Cert.KernelIdeal.GenP.V m c Cert.KernelIdeal.main_v800),
    Cert.KernelIdeal.HandValue.run m ρ, ?_⟩
  refine (θ_run Cert.ReferenceIdeal.defs _ _).mono (fun _ h c => ⟨(h c).1.trans ?_, (h c).2⟩)
    (Cert.ReferenceIdeal.HandRun.run (F := Ideal) m' ρ')
  exact result_eq m m' c (hpre c) (hagree c).1 (hagree c).2.1 (hagree c).2.2.1 (hagree c).2.2.2.1 (hagree c).2.2.2.2
    Rpred Rtgt Rcls tailR (hfold m' c) htail (hVp m c) (hVt m c) (hVc m c) hpe hte hce hpr htr

/-- `algebraic_of` at the reference's three sampled arrays as they are defined: the two programs' sampled arrays agree
    and sampled values of real inputs are real, so what is left to supply is the reference's last stretch (`tailR`,
    `hfold`, `htail`) and what the kernel's launch finds in its three arrays (`hVp`, `hVt`, `hVc`). -/
theorem algebraic_R
    (tailR : FVec Ideal Cert.ReferenceIdeal.S2x100x12544 .f32 → FVec Ideal Cert.ReferenceIdeal.S2x30x12544 .f32 → FVec Ideal Cert.ReferenceIdeal.S2x100x30 .f32 → FVec Ideal Cert.ReferenceIdeal.S2x100x30 .f32)
    (hfold : ∀ (m' : (ℓ : Loc Cert.ReferenceIdeal.nD Cert.ReferenceIdeal.τ Cert.ReferenceIdeal.sig) → Buf (Elt Ideal) ℓ) (c : Dev Cert.ReferenceIdeal.nD),
      StableHlo.after (Cert.ReferenceIdeal.HandRun.ops (F := Ideal)) (fun b => m' (c, b)) (Proc.devRef .tc Cert.ReferenceIdeal.main_v1056)
      = tailR (Cert.Bridge.R.pred (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)))
          (Cert.Bridge.R.tgt (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
          (Cert.Bridge.R.cls (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4))))
    (htail : ∀ (P : FVec Ideal Cert.ReferenceIdeal.S2x100x12544 .f32) (T : FVec Ideal Cert.ReferenceIdeal.S2x30x12544 .f32) (Cl : FVec Ideal Cert.ReferenceIdeal.S2x100x30 .f32)
      (b : Fin 2) (q : Fin 100) (t : Fin 30), tailR P T Cl (ix3 b q t)
        = Cert.CostSpec.costR (fun q p => P (ix3 b q p)) (fun t p => T (ix3 b t p)) (fun q t => Cl (ix3 b q t)) q t)
    (hVp : ∀ (m : (ℓ : Loc Cert.KernelIdeal.nD Cert.KernelIdeal.τ Cert.KernelIdeal.sig) → Buf (Elt Ideal) ℓ) (c : Dev Cert.KernelIdeal.nD),
      Cert.KernelIdeal.GenP.V m c Cert.KernelIdeal.main_v390
      = Cert.Bridge.K.pred (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
    (hVt : ∀ (m : (ℓ : Loc Cert.KernelIdeal.nD Cert.KernelIdeal.τ Cert.KernelIdeal.sig) → Buf (Elt Ideal) ℓ) (c : Dev Cert.KernelIdeal.nD),
      Cert.KernelIdeal.GenP.V m c Cert.KernelIdeal.main_v781
      = Cert.Bridge.K30.tgt (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    (hVc : ∀ (m : (ℓ : Loc Cert.KernelIdeal.nD Cert.KernelIdeal.τ Cert.KernelIdeal.sig) → Buf (Elt Ideal) ℓ) (c : Dev Cert.KernelIdeal.nD),
      Cert.KernelIdeal.GenP.V m c Cert.KernelIdeal.main_v800
      = Cert.Bridge.K30.cls (m ((c.tc : Thread Cert.KernelIdeal.nD Cert.KernelIdeal.τ).loc Cert.KernelIdeal.main_arg1)) (m ((c.tc : Thread Cert.KernelIdeal.nD Cert.KernelIdeal.τ).loc Cert.KernelIdeal.main_arg4))) :
    Cert.algebraic_KernelIdeal_ReferenceIdeal :=
  algebraic_of Cert.Bridge.R.pred Cert.Bridge.R.tgt Cert.Bridge.R.cls tailR hfold htail hVp hVt hVc
    Cert.Bridge.pred_eq Cert.Bridge.tgt_eq Cert.Bridge.cls_eq Cert.Bridge.R.pred_real Cert.Bridge.R.tgt_real

end Cert.Proof.Assembly

end
-- ==== Proof.KernelSamplingBlocks.lean ====
/-
  The kernel program's host operations, read block by block: what the ten buffers crossing each block boundary hold,
  and that the stretches after the first sampling pass leave its result buffer.

  The program's host operations before the region are a list of 145 stretches.  The buffer contents after a list of
  stretches are the contents after the last stretch started from the contents after the others, so the list is read
  stretch by stretch.  Every buffer is written once.  The first sampling pass is stretches 0 … 72: stretch 0 computes
  the coordinates and corner 0's words; then, per corner, nine stretches clip the three words, compute the flat index
  and the weight, mask the weight, fetch the voxels, and multiply, add and prepare the next corner's words.  Read nine
  stretches at a time, ten buffers cross each boundary: the cast volume, the three fractional parts, the three base
  words, the running sum, the corner's masked weight and its fetched voxels.  Each block lemma states those ten after
  its nine stretches from those ten before; each buffer is read off the fold of the operations' results and compared
  with its term by unfolding.  Stretches 73 … 144 do not write the result buffer.
-/
import proofs.«103167_j42614665511136_1_alg».proof.Proof.KernelSamplingDefs
import proofs.«103167_j42614665511136_1_alg».proof.Proof.Gen.KernelIdeal.Launch
import Idealize.ShloMosaic.Lib.StableHlo.Run

-- the long stretches' lists recurse past the default depth, as in the module that states them
set_option maxRecDepth 8440

noncomputable section

open Idealize.ShloMosaic Idealize.ShloMosaic.TcCoe Idealize.SL.Sem Idealize.ShloMosaic.StableHlo

namespace Cert.Bridge.K
open Cert.KernelIdeal Cert.KernelIdeal.Facts₀ Cert.KernelIdeal.Facts
variable [Cert.KernelIdeal.Facts]

/-- The contents after a list of stretches joined: the contents after the later stretches, started from the contents
    after the first. -/
theorem after_flatten_cons (l : List (HloOp τ sig (Elt Ideal))) (ls : List (List (HloOp τ sig (Elt Ideal))))
    (V : Valuation τ sig (Elt Ideal)) :
    after (List.flatten (l :: ls)) V = after (List.flatten ls) (after l V) := by
  rw [List.flatten_cons]
  induction l generalizing V with
  | nil => rfl
  | cons op l ih => exact ih (op.result V)

/-- The buffer contents after the nine stretches of host operations that end with corner 0's fetch, started from `V`. -/
@[reducible] def run0 (V : Valuation τ sig (Elt Ideal)) : Valuation τ sig (Elt Ideal) :=
  after (Gen.hostOps0_8 (F := Ideal)) (after (Gen.hostOps0_7 (F := Ideal)) (after (Gen.hostOps0_6 (F := Ideal)) (after (Gen.hostOps0_5 (F := Ideal)) (after (Gen.hostOps0_4 (F := Ideal)) (after (Gen.hostOps0_3 (F := Ideal)) (after (Gen.hostOps0_2 (F := Ideal)) (after (Gen.hostOps0_1 (F := Ideal)) (after (Gen.hostOps0 (F := Ideal)) V))))))))

set_option maxHeartbeats 4000000 in
/-- The coordinates, their floors, fractional parts and base words, the zero start, and corner 0's masked weight and
    fetched voxels: after stretches 0 … 8 the ten buffers the next stretches read hold the stated terms of the argument
    arrays. -/
theorem block0 (A0 : FVec Ideal S2x100x64x64x64 .f32) (A3 : FVec Ideal S2x12544x3 .f32) (V : Valuation τ sig (Elt Ideal))
    (hA0 : V (Proc.devRef .tc main_arg0) = A0)
    (hA3 : V (Proc.devRef .tc main_arg3) = A3) :
    (run0 V (Proc.devRef .tc main_v0) = vol A0) ∧
    (run0 V (Proc.devRef .tc main_v38) = frac0 A3) ∧
    (run0 V (Proc.devRef .tc main_v39) = frac1 A3) ∧
    (run0 V (Proc.devRef .tc main_v40) = frac2 A3) ∧
    (run0 V (Proc.devRef .tc main_v41) = base0 A3) ∧
    (run0 V (Proc.devRef .tc main_v42) = base1 A3) ∧
    (run0 V (Proc.devRef .tc main_v43) = base2 A3) ∧
    (run0 V (Proc.devRef .tc main_v44) = zeros) ∧
    (run0 V (Proc.devRef .tc main_v85) = maskedWeight (valid0 A3) (wgt0 A3)) ∧
    (run0 V (Proc.devRef .tc main_v86) = take100 (vol A0) (lin (zi0 A3) (yi0 A3) (xi0 A3))) := by
  unfold run0
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · first | rw [hA0] | simp only [hA0]
    all_goals rfl
  · first | rw [hA3] | simp only [hA3]
    all_goals rfl
  · first | rw [hA3] | simp only [hA3]
    all_goals rfl
  · first | rw [hA3] | simp only [hA3]
    all_goals rfl
  · first | rw [hA3] | simp only [hA3]
    all_goals rfl
  · first | rw [hA3] | simp only [hA3]
    all_goals rfl
  · first | rw [hA3] | simp only [hA3]
    all_goals rfl
  · rfl
  · first | rw [hA3] | simp only [hA3]
    all_goals rfl
  · first | rw [hA3, hA0] | simp only [hA3, hA0]
    all_goals rfl

/-- The buffer contents after the nine stretches of host operations that end with corner 1's fetch, started from `V`. -/
@[reducible] def run1 (V : Valuation τ sig (Elt Ideal)) : Valuation τ sig (Elt Ideal) :=
  after (Gen.hostOps0_17 (F := Ideal)) (after (Gen.hostOps0_16 (F := Ideal)) (after (Gen.hostOps0_15 (F := Ideal)) (after (Gen.hostOps0_14 (F := Ideal)) (after (Gen.hostOps0_13 (F := Ideal)) (after (Gen.hostOps0_12 (F := Ideal)) (after (Gen.hostOps0_11 (F := Ideal)) (after (Gen.hostOps0_10 (F := Ideal)) (after (Gen.hostOps0_9 (F := Ideal)) V))))))))

set_option maxHeartbeats 4000000 in
/-- Corner 0's contribution is added and corner 1's masked weight and fetched voxels are computed: after stretches
    9 … 17 the ten buffers the next stretches read hold the stated terms, given that before them the ten buffers
    these stretches read held the stated terms. -/
theorem block1 (A0 : FVec Ideal S2x100x64x64x64 .f32) (A3 : FVec Ideal S2x12544x3 .f32) (V : Valuation τ sig (Elt Ideal))
    (hvol : V (Proc.devRef .tc main_v0) = vol A0)
    (hf0 : V (Proc.devRef .tc main_v38) = frac0 A3)
    (hf1 : V (Proc.devRef .tc main_v39) = frac1 A3)
    (hf2 : V (Proc.devRef .tc main_v40) = frac2 A3)
    (hb0 : V (Proc.devRef .tc main_v41) = base0 A3)
    (hb1 : V (Proc.devRef .tc main_v42) = base1 A3)
    (hb2 : V (Proc.devRef .tc main_v43) = base2 A3)
    (hacc : V (Proc.devRef .tc main_v44) = zeros)
    (hmw : V (Proc.devRef .tc main_v85) = maskedWeight (valid0 A3) (wgt0 A3))
    (hvals : V (Proc.devRef .tc main_v86) = take100 (vol A0) (lin (zi0 A3) (yi0 A3) (xi0 A3))) :
    (run1 V (Proc.devRef .tc main_v0) = vol A0) ∧
    (run1 V (Proc.devRef .tc main_v38) = frac0 A3) ∧
    (run1 V (Proc.devRef .tc main_v39) = frac1 A3) ∧
    (run1 V (Proc.devRef .tc main_v40) = frac2 A3) ∧
    (run1 V (Proc.devRef .tc main_v41) = base0 A3) ∧
    (run1 V (Proc.devRef .tc main_v42) = base1 A3) ∧
    (run1 V (Proc.devRef .tc main_v43) = base2 A3) ∧
    (run1 V (Proc.devRef .tc main_v92) = accP1 A0 A3) ∧
    (run1 V (Proc.devRef .tc main_v131) = maskedWeight (valid1 A3) (wgt1 A3)) ∧
    (run1 V (Proc.devRef .tc main_v132) = take100 (vol A0) (lin (zi1 A3) (yi1 A3) (xi1 A3))) := by
  unfold run1
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · exact hvol
  · exact hf0
  · exact hf1
  · exact hf2
  · exact hb0
  · exact hb1
  · exact hb2
  · first | rw [hvals, hmw, hacc] | simp only [hvals, hmw, hacc]
    all_goals rfl
  · first | rw [hf0, hf1, hf2, hb0, hb1, hb2] | simp only [hf0, hf1, hf2, hb0, hb1, hb2]
    all_goals rfl
  · first | rw [hb0, hb1, hb2, hvol] | simp only [hb0, hb1, hb2, hvol]
    all_goals rfl

/-- The buffer contents after the nine stretches of host operations that end with corner 2's fetch, started from `V`. -/
@[reducible] def run2 (V : Valuation τ sig (Elt Ideal)) : Valuation τ sig (Elt Ideal) :=
  after (Gen.hostOps0_26 (F := Ideal)) (after (Gen.hostOps0_25 (F := Ideal)) (after (Gen.hostOps0_24 (F := Ideal)) (after (Gen.hostOps0_23 (F := Ideal)) (after (Gen.hostOps0_22 (F := Ideal)) (after (Gen.hostOps0_21 (F := Ideal)) (after (Gen.hostOps0_20 (F := Ideal)) (after (Gen.hostOps0_19 (F := Ideal)) (after (Gen.hostOps0_18 (F := Ideal)) V))))))))

set_option maxHeartbeats 4000000 in
/-- Corner 1's contribution is added and corner 2's masked weight and fetched voxels are computed: after stretches
    18 … 26 the ten buffers the next stretches read hold the stated terms, given that before them the ten buffers
    these stretches read held the stated terms. -/
theorem block2 (A0 : FVec Ideal S2x100x64x64x64 .f32) (A3 : FVec Ideal S2x12544x3 .f32) (V : Valuation τ sig (Elt Ideal))
    (hvol : V (Proc.devRef .tc main_v0) = vol A0)
    (hf0 : V (Proc.devRef .tc main_v38) = frac0 A3)
    (hf1 : V (Proc.devRef .tc main_v39) = frac1 A3)
    (hf2 : V (Proc.devRef .tc main_v40) = frac2 A3)
    (hb0 : V (Proc.devRef .tc main_v41) = base0 A3)
    (hb1 : V (Proc.devRef .tc main_v42) = base1 A3)
    (hb2 : V (Proc.devRef .tc main_v43) = base2 A3)
    (hacc : V (Proc.devRef .tc main_v92) = accP1 A0 A3)
    (hmw : V (Proc.devRef .tc main_v131) = maskedWeight (valid1 A3) (wgt1 A3))
    (hvals : V (Proc.devRef .tc main_v132) = take100 (vol A0) (lin (zi1 A3) (yi1 A3) (xi1 A3))) :
    (run2 V (Proc.devRef .tc main_v0) = vol A0) ∧
    (run2 V (Proc.devRef .tc main_v38) = frac0 A3) ∧
    (run2 V (Proc.devRef .tc main_v39) = frac1 A3) ∧
    (run2 V (Proc.devRef .tc main_v40) = frac2 A3) ∧
    (run2 V (Proc.devRef .tc main_v41) = base0 A3) ∧
    (run2 V (Proc.devRef .tc main_v42) = base1 A3) ∧
    (run2 V (Proc.devRef .tc main_v43) = base2 A3) ∧
    (run2 V (Proc.devRef .tc main_v136) = accP2 A0 A3) ∧
    (run2 V (Proc.devRef .tc main_v175) = maskedWeight (valid2 A3) (wgt2 A3)) ∧
    (run2 V (Proc.devRef .tc main_v176) = take100 (vol A0) (lin (zi2 A3) (yi2 A3) (xi2 A3))) := by
  unfold run2
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · exact hvol
  · exact hf0
  · exact hf1
  · exact hf2
  · exact hb0
  · exact hb1
  · exact hb2
  · first | rw [hvals, hmw, hacc] | simp only [hvals, hmw, hacc]
    all_goals rfl
  · first | rw [hf0, hf1, hf2, hb0, hb1, hb2] | simp only [hf0, hf1, hf2, hb0, hb1, hb2]
    all_goals rfl
  · first | rw [hb0, hb1, hb2, hvol] | simp only [hb0, hb1, hb2, hvol]
    all_goals rfl

/-- The buffer contents after the nine stretches of host operations that end with corner 3's fetch, started from `V`. -/
@[reducible] def run3 (V : Valuation τ sig (Elt Ideal)) : Valuation τ sig (Elt Ideal) :=
  after (Gen.hostOps0_35 (F := Ideal)) (after (Gen.hostOps0_34 (F := Ideal)) (after (Gen.hostOps0_33 (F := Ideal)) (after (Gen.hostOps0_32 (F := Ideal)) (after (Gen.hostOps0_31 (F := Ideal)) (after (Gen.hostOps0_30 (F := Ideal)) (after (Gen.hostOps0_29 (F := Ideal)) (after (Gen.hostOps0_28 (F := Ideal)) (after (Gen.hostOps0_27 (F := Ideal)) V))))))))

set_option maxHeartbeats 4000000 in
/-- Corner 2's contribution is added and corner 3's masked weight and fetched voxels are computed: after stretches
    27 … 35 the ten buffers the next stretches read hold the stated terms, given that before them the ten buffers
    these stretches read held the stated terms. -/
theorem block3 (A0 : FVec Ideal S2x100x64x64x64 .f32) (A3 : FVec Ideal S2x12544x3 .f32) (V : Valuation τ sig (Elt Ideal))
    (hvol : V (Proc.devRef .tc main_v0) = vol A0)
    (hf0 : V (Proc.devRef .tc main_v38) = frac0 A3)
    (hf1 : V (Proc.devRef .tc main_v39) = frac1 A3)
    (hf2 : V (Proc.devRef .tc main_v40) = frac2 A3)
    (hb0 : V (Proc.devRef .tc main_v41) = base0 A3)
    (hb1 : V (Proc.devRef .tc main_v42) = base1 A3)
    (hb2 : V (Proc.devRef .tc main_v43) = base2 A3)
    (hacc : V (Proc.devRef .tc main_v136) = accP2 A0 A3)
    (hmw : V (Proc.devRef .tc main_v175) = maskedWeight (valid2 A3) (wgt2 A3))
    (hvals : V (Proc.devRef .tc main_v176) = take100 (vol A0) (lin (zi2 A3) (yi2 A3) (xi2 A3))) :
    (run3 V (Proc.devRef .tc main_v0) = vol A0) ∧
    (run3 V (Proc.devRef .tc main_v38) = frac0 A3) ∧
    (run3 V (Proc.devRef .tc main_v39) = frac1 A3) ∧
    (run3 V (Proc.devRef .tc main_v40) = frac2 A3) ∧
    (run3 V (Proc.devRef .tc main_v41) = base0 A3) ∧
    (run3 V (Proc.devRef .tc main_v42) = base1 A3) ∧
    (run3 V (Proc.devRef .tc main_v43) = base2 A3) ∧
    (run3 V (Proc.devRef .tc main_v180) = accP3 A0 A3) ∧
    (run3 V (Proc.devRef .tc main_v217) = maskedWeight (valid3 A3) (wgt3 A3)) ∧
    (run3 V (Proc.devRef .tc main_v218) = take100 (vol A0) (lin (zi3 A3) (yi3 A3) (xi3 A3))) := by
  unfold run3
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · exact hvol
  · exact hf0
  · exact hf1
  · exact hf2
  · exact hb0
  · exact hb1
  · exact hb2
  · first | rw [hvals, hmw, hacc] | simp only [hvals, hmw, hacc]
    all_goals rfl
  · first | rw [hf0, hf1, hf2, hb0, hb1, hb2] | simp only [hf0, hf1, hf2, hb0, hb1, hb2]
    all_goals rfl
  · first | rw [hb0, hb1, hb2, hvol] | simp only [hb0, hb1, hb2, hvol]
    all_goals rfl

/-- The buffer contents after the nine stretches of host operations that end with corner 4's fetch, started from `V`. -/
@[reducible] def run4 (V : Valuation τ sig (Elt Ideal)) : Valuation τ sig (Elt Ideal) :=
  after (Gen.hostOps0_44 (F := Ideal)) (after (Gen.hostOps0_43 (F := Ideal)) (after (Gen.hostOps0_42 (F := Ideal)) (after (Gen.hostOps0_41 (F := Ideal)) (after (Gen.hostOps0_40 (F := Ideal)) (after (Gen.hostOps0_39 (F := Ideal)) (after (Gen.hostOps0_38 (F := Ideal)) (after (Gen.hostOps0_37 (F := Ideal)) (after (Gen.hostOps0_36 (F := Ideal)) V))))))))

set_option maxHeartbeats 4000000 in
/-- Corner 3's contribution is added and corner 4's masked weight and fetched voxels are computed: after stretches
    36 … 44 the ten buffers the next stretches read hold the stated terms, given that before them the ten buffers
    these stretches read held the stated terms. -/
theorem block4 (A0 : FVec Ideal S2x100x64x64x64 .f32) (A3 : FVec Ideal S2x12544x3 .f32) (V : Valuation τ sig (Elt Ideal))
    (hvol : V (Proc.devRef .tc main_v0) = vol A0)
    (hf0 : V (Proc.devRef .tc main_v38) = frac0 A3)
    (hf1 : V (Proc.devRef .tc main_v39) = frac1 A3)
    (hf2 : V (Proc.devRef .tc main_v40) = frac2 A3)
    (hb0 : V (Proc.devRef .tc main_v41) = base0 A3)
    (hb1 : V (Proc.devRef .tc main_v42) = base1 A3)
    (hb2 : V (Proc.devRef .tc main_v43) = base2 A3)
    (hacc : V (Proc.devRef .tc main_v180) = accP3 A0 A3)
    (hmw : V (Proc.devRef .tc main_v217) = maskedWeight (valid3 A3) (wgt3 A3))
    (hvals : V (Proc.devRef .tc main_v218) = take100 (vol A0) (lin (zi3 A3) (yi3 A3) (xi3 A3))) :
    (run4 V (Proc.devRef .tc main_v0) = vol A0) ∧
    (run4 V (Proc.devRef .tc main_v38) = frac0 A3) ∧
    (run4 V (Proc.devRef .tc main_v39) = frac1 A3) ∧
    (run4 V (Proc.devRef .tc main_v40) = frac2 A3) ∧
    (run4 V (Proc.devRef .tc main_v41) = base0 A3) ∧
    (run4 V (Proc.devRef .tc main_v42) = base1 A3) ∧
    (run4 V (Proc.devRef .tc main_v43) = base2 A3) ∧
    (run4 V (Proc.devRef .tc main_v222) = accP4 A0 A3) ∧
    (run4 V (Proc.devRef .tc main_v261) = maskedWeight (valid4 A3) (wgt4 A3)) ∧
    (run4 V (Proc.devRef .tc main_v262) = take100 (vol A0) (lin (zi4 A3) (yi4 A3) (xi4 A3))) := by
  unfold run4
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · exact hvol
  · exact hf0
  · exact hf1
  · exact hf2
  · exact hb0
  · exact hb1
  · exact hb2
  · first | rw [hvals, hmw, hacc] | simp only [hvals, hmw, hacc]
    all_goals rfl
  · first | rw [hf0, hf1, hf2, hb0, hb1, hb2] | simp only [hf0, hf1, hf2, hb0, hb1, hb2]
    all_goals rfl
  · first | rw [hb0, hb1, hb2, hvol] | simp only [hb0, hb1, hb2, hvol]
    all_goals rfl

/-- The buffer contents after the nine stretches of host operations that end with corner 5's fetch, started from `V`. -/
@[reducible] def run5 (V : Valuation τ sig (Elt Ideal)) : Valuation τ sig (Elt Ideal) :=
  after (Gen.hostOps0_53 (F := Ideal)) (after (Gen.hostOps0_52 (F := Ideal)) (after (Gen.hostOps0_51 (F := Ideal)) (after (Gen.hostOps0_50 (F := Ideal)) (after (Gen.hostOps0_49 (F := Ideal)) (after (Gen.hostOps0_48 (F := Ideal)) (after (Gen.hostOps0_47 (F := Ideal)) (after (Gen.hostOps0_46 (F := Ideal)) (after (Gen.hostOps0_45 (F := Ideal)) V))))))))

set_option maxHeartbeats 4000000 in
/-- Corner 4's contribution is added and corner 5's masked weight and fetched voxels are computed: after stretches
    45 … 53 the ten buffers the next stretches read hold the stated terms, given that before them the ten buffers
    these stretches read held the stated terms. -/
theorem block5 (A0 : FVec Ideal S2x100x64x64x64 .f32) (A3 : FVec Ideal S2x12544x3 .f32) (V : Valuation τ sig (Elt Ideal))
    (hvol : V (Proc.devRef .tc main_v0) = vol A0)
    (hf0 : V (Proc.devRef .tc main_v38) = frac0 A3)
    (hf1 : V (Proc.devRef .tc main_v39) = frac1 A3)
    (hf2 : V (Proc.devRef .tc main_v40) = frac2 A3)
    (hb0 : V (Proc.devRef .tc main_v41) = base0 A3)
    (hb1 : V (Proc.devRef .tc main_v42) = base1 A3)
    (hb2 : V (Proc.devRef .tc main_v43) = base2 A3)
    (hacc : V (Proc.devRef .tc main_v222) = accP4 A0 A3)
    (hmw : V (Proc.devRef .tc main_v261) = maskedWeight (valid4 A3) (wgt4 A3))
    (hvals : V (Proc.devRef .tc main_v262) = take100 (vol A0) (lin (zi4 A3) (yi4 A3) (xi4 A3))) :
    (run5 V (Proc.devRef .tc main_v0) = vol A0) ∧
    (run5 V (Proc.devRef .tc main_v38) = frac0 A3) ∧
    (run5 V (Proc.devRef .tc main_v39) = frac1 A3) ∧
    (run5 V (Proc.devRef .tc main_v40) = frac2 A3) ∧
    (run5 V (Proc.devRef .tc main_v41) = base0 A3) ∧
    (run5 V (Proc.devRef .tc main_v42) = base1 A3) ∧
    (run5 V (Proc.devRef .tc main_v43) = base2 A3) ∧
    (run5 V (Proc.devRef .tc main_v266) = accP5 A0 A3) ∧
    (run5 V (Proc.devRef .tc main_v303) = maskedWeight (valid5 A3) (wgt5 A3)) ∧
    (run5 V (Proc.devRef .tc main_v304) = take100 (vol A0) (lin (zi5 A3) (yi5 A3) (xi5 A3))) := by
  unfold run5
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · exact hvol
  · exact hf0
  · exact hf1
  · exact hf2
  · exact hb0
  · exact hb1
  · exact hb2
  · first | rw [hvals, hmw, hacc] | simp only [hvals, hmw, hacc]
    all_goals rfl
  · first | rw [hf0, hf1, hf2, hb0, hb1, hb2] | simp only [hf0, hf1, hf2, hb0, hb1, hb2]
    all_goals rfl
  · first | rw [hb0, hb1, hb2, hvol] | simp only [hb0, hb1, hb2, hvol]
    all_goals rfl

/-- The buffer contents after the nine stretches of host operations that end with corner 6's fetch, started from `V`. -/
@[reducible] def run6 (V : Valuation τ sig (Elt Ideal)) : Valuation τ sig (Elt Ideal) :=
  after (Gen.hostOps0_62 (F := Ideal)) (after (Gen.hostOps0_61 (F := Ideal)) (after (Gen.hostOps0_60 (F := Ideal)) (after (Gen.hostOps0_59 (F := Ideal)) (after (Gen.hostOps0_58 (F := Ideal)) (after (Gen.hostOps0_57 (F := Ideal)) (after (Gen.hostOps0_56 (F := Ideal)) (after (Gen.hostOps0_55 (F := Ideal)) (after (Gen.hostOps0_54 (F := Ideal)) V))))))))

set_option maxHeartbeats 4000000 in
/-- Corner 5's contribution is added and corner 6's masked weight and fetched voxels are computed: after stretches
    54 … 62 the ten buffers the next stretches read hold the stated terms, given that before them the ten buffers
    these stretches read held the stated terms. -/
theorem block6 (A0 : FVec Ideal S2x100x64x64x64 .f32) (A3 : FVec Ideal S2x12544x3 .f32) (V : Valuation τ sig (Elt Ideal))
    (hvol : V (Proc.devRef .tc main_v0) = vol A0)
    (hf0 : V (Proc.devRef .tc main_v38) = frac0 A3)
    (hf1 : V (Proc.devRef .tc main_v39) = frac1 A3)
    (hf2 : V (Proc.devRef .tc main_v40) = frac2 A3)
    (hb0 : V (Proc.devRef .tc main_v41) = base0 A3)
    (hb1 : V (Proc.devRef .tc main_v42) = base1 A3)
    (hb2 : V (Proc.devRef .tc main_v43) = base2 A3)
    (hacc : V (Proc.devRef .tc main_v266) = accP5 A0 A3)
    (hmw : V (Proc.devRef .tc main_v303) = maskedWeight (valid5 A3) (wgt5 A3))
    (hvals : V (Proc.devRef .tc main_v304) = take100 (vol A0) (lin (zi5 A3) (yi5 A3) (xi5 A3))) :
    (run6 V (Proc.devRef .tc main_v0) = vol A0) ∧
    (run6 V (Proc.devRef .tc main_v38) = frac0 A3) ∧
    (run6 V (Proc.devRef .tc main_v39) = frac1 A3) ∧
    (run6 V (Proc.devRef .tc main_v40) = frac2 A3) ∧
    (run6 V (Proc.devRef .tc main_v41) = base0 A3) ∧
    (run6 V (Proc.devRef .tc main_v42) = base1 A3) ∧
    (run6 V (Proc.devRef .tc main_v43) = base2 A3) ∧
    (run6 V (Proc.devRef .tc main_v308) = accP6 A0 A3) ∧
    (run6 V (Proc.devRef .tc main_v345) = maskedWeight (valid6 A3) (wgt6 A3)) ∧
    (run6 V (Proc.devRef .tc main_v346) = take100 (vol A0) (lin (zi6 A3) (yi6 A3) (xi6 A3))) := by
  unfold run6
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · exact hvol
  · exact hf0
  · exact hf1
  · exact hf2
  · exact hb0
  · exact hb1
  · exact hb2
  · first | rw [hvals, hmw, hacc] | simp only [hvals, hmw, hacc]
    all_goals rfl
  · first | rw [hf0, hf1, hf2, hb0, hb1, hb2] | simp only [hf0, hf1, hf2, hb0, hb1, hb2]
    all_goals rfl
  · first | rw [hb0, hb1, hb2, hvol] | simp only [hb0, hb1, hb2, hvol]
    all_goals rfl

/-- The buffer contents after the nine stretches of host operations that end with corner 7's fetch, started from `V`. -/
@[reducible] def run7 (V : Valuation τ sig (Elt Ideal)) : Valuation τ sig (Elt Ideal) :=
  after (Gen.hostOps0_71 (F := Ideal)) (after (Gen.hostOps0_70 (F := Ideal)) (after (Gen.hostOps0_69 (F := Ideal)) (after (Gen.hostOps0_68 (F := Ideal)) (after (Gen.hostOps0_67 (F := Ideal)) (after (Gen.hostOps0_66 (F := Ideal)) (after (Gen.hostOps0_65 (F := Ideal)) (after (Gen.hostOps0_64 (F := Ideal)) (after (Gen.hostOps0_63 (F := Ideal)) V))))))))

set_option maxHeartbeats 4000000 in
/-- Corner 6's contribution is added and corner 7's masked weight and fetched voxels are computed: after stretches
    63 … 71 the ten buffers the next stretches read hold the stated terms, given that before them the ten buffers
    these stretches read held the stated terms. -/
theorem block7 (A0 : FVec Ideal S2x100x64x64x64 .f32) (A3 : FVec Ideal S2x12544x3 .f32) (V : Valuation τ sig (Elt Ideal))
    (hvol : V (Proc.devRef .tc main_v0) = vol A0)
    (hf0 : V (Proc.devRef .tc main_v38) = frac0 A3)
    (hf1 : V (Proc.devRef .tc main_v39) = frac1 A3)
    (hf2 : V (Proc.devRef .tc main_v40) = frac2 A3)
    (hb0 : V (Proc.devRef .tc main_v41) = base0 A3)
    (hb1 : V (Proc.devRef .tc main_v42) = base1 A3)
    (hb2 : V (Proc.devRef .tc main_v43) = base2 A3)
    (hacc : V (Proc.devRef .tc main_v308) = accP6 A0 A3)
    (hmw : V (Proc.devRef .tc main_v345) = maskedWeight (valid6 A3) (wgt6 A3))
    (hvals : V (Proc.devRef .tc main_v346) = take100 (vol A0) (lin (zi6 A3) (yi6 A3) (xi6 A3))) :
    (run7 V (Proc.devRef .tc main_v0) = vol A0) ∧
    (run7 V (Proc.devRef .tc main_v38) = frac0 A3) ∧
    (run7 V (Proc.devRef .tc main_v39) = frac1 A3) ∧
    (run7 V (Proc.devRef .tc main_v40) = frac2 A3) ∧
    (run7 V (Proc.devRef .tc main_v41) = base0 A3) ∧
    (run7 V (Proc.devRef .tc main_v42) = base1 A3) ∧
    (run7 V (Proc.devRef .tc main_v43) = base2 A3) ∧
    (run7 V (Proc.devRef .tc main_v350) = accP7 A0 A3) ∧
    (run7 V (Proc.devRef .tc main_v385) = maskedWeight (valid7 A3) (wgt7 A3)) ∧
    (run7 V (Proc.devRef .tc main_v386) = take100 (vol A0) (lin (zi7 A3) (yi7 A3) (xi7 A3))) := by
  unfold run7
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · exact hvol
  · exact hf0
  · exact hf1
  · exact hf2
  · exact hb0
  · exact hb1
  · exact hb2
  · first | rw [hvals, hmw, hacc] | simp only [hvals, hmw, hacc]
    all_goals rfl
  · first | rw [hf0, hf1, hf2, hb0, hb1, hb2] | simp only [hf0, hf1, hf2, hb0, hb1, hb2]
    all_goals rfl
  · first | rw [hb0, hb1, hb2, hvol] | simp only [hb0, hb1, hb2, hvol]
    all_goals rfl

set_option maxHeartbeats 4000000 in
/-- Corner 7's contribution is added: after stretch 72 the result buffer holds the sum of all eight contributions. -/
theorem block8 (A0 : FVec Ideal S2x100x64x64x64 .f32) (A3 : FVec Ideal S2x12544x3 .f32) (V : Valuation τ sig (Elt Ideal))
    (hacc : V (Proc.devRef .tc main_v350) = accP7 A0 A3)
    (hmw : V (Proc.devRef .tc main_v385) = maskedWeight (valid7 A3) (wgt7 A3))
    (hvals : V (Proc.devRef .tc main_v386) = take100 (vol A0) (lin (zi7 A3) (yi7 A3) (xi7 A3))) :
    after (Gen.hostOps0_72 (F := Ideal)) V (Proc.devRef .tc main_v390) = pred A0 A3 := by
  after_results_simp
  first | rw [hvals, hmw, hacc] | simp only [hvals, hmw, hacc]
  all_goals rfl

set_option maxHeartbeats 4000000 in
/-- Stretch 73 does not write the first pass's result buffer. -/
theorem leaves73 (V : Valuation τ sig (Elt Ideal)) : after (Gen.hostOps0_73 (F := Ideal)) V (Proc.devRef .tc main_v390) = V (Proc.devRef .tc main_v390) := by
  after_results_simp

set_option maxHeartbeats 4000000 in
/-- Stretch 74 does not write the first pass's result buffer. -/
theorem leaves74 (V : Valuation τ sig (Elt Ideal)) : after (Gen.hostOps0_74 (F := Ideal)) V (Proc.devRef .tc main_v390) = V (Proc.devRef .tc main_v390) := by
  after_results_simp

set_option maxHeartbeats 4000000 in
/-- Stretch 75 does not write the first pass's result buffer. -/
theorem leaves75 (V : Valuation τ sig (Elt Ideal)) : after (Gen.hostOps0_75 (F := Ideal)) V (Proc.devRef .tc main_v390) = V (Proc.devRef .tc main_v390) := by
  after_results_simp

set_option maxHeartbeats 4000000 in
/-- Stretch 76 does not write the first pass's result buffer. -/
theorem leaves76 (V : Valuation τ sig (Elt Ideal)) : after (Gen.hostOps0_76 (F := Ideal)) V (Proc.devRef .tc main_v390) = V (Proc.devRef .tc main_v390) := by
  after_results_simp

set_option maxHeartbeats 4000000 in
/-- Stretch 77 does not write the first pass's result buffer. -/
theorem leaves77 (V : Valuation τ sig (Elt Ideal)) : after (Gen.hostOps0_77 (F := Ideal)) V (Proc.devRef .tc main_v390) = V (Proc.devRef .tc main_v390) := by
  after_results_simp

set_option maxHeartbeats 4000000 in
/-- Stretch 78 does not write the first pass's result buffer. -/
theorem leaves78 (V : Valuation τ sig (Elt Ideal)) : after (Gen.hostOps0_78 (F := Ideal)) V (Proc.devRef .tc main_v390) = V (Proc.devRef .tc main_v390) := by
  after_results_simp

set_option maxHeartbeats 4000000 in
/-- Stretch 79 does not write the first pass's result buffer. -/
theorem leaves79 (V : Valuation τ sig (Elt Ideal)) : after (Gen.hostOps0_79 (F := Ideal)) V (Proc.devRef .tc main_v390) = V (Proc.devRef .tc main_v390) := by
  after_results_simp

set_option maxHeartbeats 4000000 in
/-- Stretch 80 does not write the first pass's result buffer. -/
theorem leaves80 (V : Valuation τ sig (Elt Ideal)) : after (Gen.hostOps0_80 (F := Ideal)) V (Proc.devRef .tc main_v390) = V (Proc.devRef .tc main_v390) := by
  after_results_simp

set_option maxHeartbeats 4000000 in
/-- Stretch 81 does not write the first pass's result buffer. -/
theorem leaves81 (V : Valuation τ sig (Elt Ideal)) : after (Gen.hostOps0_81 (F := Ideal)) V (Proc.devRef .tc main_v390) = V (Proc.devRef .tc main_v390) := by
  after_results_simp

set_option maxHeartbeats 4000000 in
/-- Stretch 82 does not write the first pass's result buffer. -/
theorem leaves82 (V : Valuation τ sig (Elt Ideal)) : after (Gen.hostOps0_82 (F := Ideal)) V (Proc.devRef .tc main_v390) = V (Proc.devRef .tc main_v390) := by
  after_results_simp

set_option maxHeartbeats 4000000 in
/-- Stretch 83 does not write the first pass's result buffer. -/
theorem leaves83 (V : Valuation τ sig (Elt Ideal)) : after (Gen.hostOps0_83 (F := Ideal)) V (Proc.devRef .tc main_v390) = V (Proc.devRef .tc main_v390) := by
  after_results_simp

set_option maxHeartbeats 4000000 in
/-- Stretch 84 does not write the first pass's result buffer. -/
theorem leaves84 (V : Valuation τ sig (Elt Ideal)) : after (Gen.hostOps0_84 (F := Ideal)) V (Proc.devRef .tc main_v390) = V (Proc.devRef .tc main_v390) := by
  after_results_simp

set_option maxHeartbeats 4000000 in
/-- Stretch 85 does not write the first pass's result buffer. -/
theorem leaves85 (V : Valuation τ sig (Elt Ideal)) : after (Gen.hostOps0_85 (F := Ideal)) V (Proc.devRef .tc main_v390) = V (Proc.devRef .tc main_v390) := by
  after_results_simp

set_option maxHeartbeats 4000000 in
/-- Stretch 86 does not write the first pass's result buffer. -/
theorem leaves86 (V : Valuation τ sig (Elt Ideal)) : after (Gen.hostOps0_86 (F := Ideal)) V (Proc.devRef .tc main_v390) = V (Proc.devRef .tc main_v390) := by
  after_results_simp

set_option maxHeartbeats 4000000 in
/-- Stretch 87 does not write the first pass's result buffer. -/
theorem leaves87 (V : Valuation τ sig (Elt Ideal)) : after (Gen.hostOps0_87 (F := Ideal)) V (Proc.devRef .tc main_v390) = V (Proc.devRef .tc main_v390) := by
  after_results_simp

set_option maxHeartbeats 4000000 in
/-- Stretch 88 does not write the first pass's result buffer. -/
theorem leaves88 (V : Valuation τ sig (Elt Ideal)) : after (Gen.hostOps0_88 (F := Ideal)) V (Proc.devRef .tc main_v390) = V (Proc.devRef .tc main_v390) := by
  after_results_simp

set_option maxHeartbeats 4000000 in
/-- Stretch 89 does not write the first pass's result buffer. -/
theorem leaves89 (V : Valuation τ sig (Elt Ideal)) : after (Gen.hostOps0_89 (F := Ideal)) V (Proc.devRef .tc main_v390) = V (Proc.devRef .tc main_v390) := by
  after_results_simp

set_option maxHeartbeats 4000000 in
/-- Stretch 90 does not write the first pass's result buffer. -/
theorem leaves90 (V : Valuation τ sig (Elt Ideal)) : after (Gen.hostOps0_90 (F := Ideal)) V (Proc.devRef .tc main_v390) = V (Proc.devRef .tc main_v390) := by
  after_results_simp

set_option maxHeartbeats 4000000 in
/-- Stretch 91 does not write the first pass's result buffer. -/
theorem leaves91 (V : Valuation τ sig (Elt Ideal)) : after (Gen.hostOps0_91 (F := Ideal)) V (Proc.devRef .tc main_v390) = V (Proc.devRef .tc main_v390) := by
  after_results_simp

set_option maxHeartbeats 4000000 in
/-- Stretch 92 does not write the first pass's result buffer. -/
theorem leaves92 (V : Valuation τ sig (Elt Ideal)) : after (Gen.hostOps0_92 (F := Ideal)) V (Proc.devRef .tc main_v390) = V (Proc.devRef .tc main_v390) := by
  after_results_simp

set_option maxHeartbeats 4000000 in
/-- Stretch 93 does not write the first pass's result buffer. -/
theorem leaves93 (V : Valuation τ sig (Elt Ideal)) : after (Gen.hostOps0_93 (F := Ideal)) V (Proc.devRef .tc main_v390) = V (Proc.devRef .tc main_v390) := by
  after_results_simp

set_option maxHeartbeats 4000000 in
/-- Stretch 94 does not write the first pass's result buffer. -/
theorem leaves94 (V : Valuation τ sig (Elt Ideal)) : after (Gen.hostOps0_94 (F := Ideal)) V (Proc.devRef .tc main_v390) = V (Proc.devRef .tc main_v390) := by
  after_results_simp

set_option maxHeartbeats 4000000 in
/-- Stretch 95 does not write the first pass's result buffer. -/
theorem leaves95 (V : Valuation τ sig (Elt Ideal)) : after (Gen.hostOps0_95 (F := Ideal)) V (Proc.devRef .tc main_v390) = V (Proc.devRef .tc main_v390) := by
  after_results_simp

set_option maxHeartbeats 4000000 in
/-- Stretch 96 does not write the first pass's result buffer. -/
theorem leaves96 (V : Valuation τ sig (Elt Ideal)) : after (Gen.hostOps0_96 (F := Ideal)) V (Proc.devRef .tc main_v390) = V (Proc.devRef .tc main_v390) := by
  after_results_simp

set_option maxHeartbeats 4000000 in
/-- Stretch 97 does not write the first pass's result buffer. -/
theorem leaves97 (V : Valuation τ sig (Elt Ideal)) : after (Gen.hostOps0_97 (F := Ideal)) V (Proc.devRef .tc main_v390) = V (Proc.devRef .tc main_v390) := by
  after_results_simp

set_option maxHeartbeats 4000000 in
/-- Stretch 98 does not write the first pass's result buffer. -/
theorem leaves98 (V : Valuation τ sig (Elt Ideal)) : after (Gen.hostOps0_98 (F := Ideal)) V (Proc.devRef .tc main_v390) = V (Proc.devRef .tc main_v390) := by
  after_results_simp

set_option maxHeartbeats 4000000 in
/-- Stretch 99 does not write the first pass's result buffer. -/
theorem leaves99 (V : Valuation τ sig (Elt Ideal)) : after (Gen.hostOps0_99 (F := Ideal)) V (Proc.devRef .tc main_v390) = V (Proc.devRef .tc main_v390) := by
  after_results_simp

set_option maxHeartbeats 4000000 in
/-- Stretch 100 does not write the first pass's result buffer. -/
theorem leaves100 (V : Valuation τ sig (Elt Ideal)) : after (Gen.hostOps0_100 (F := Ideal)) V (Proc.devRef .tc main_v390) = V (Proc.devRef .tc main_v390) := by
  after_results_simp

set_option maxHeartbeats 4000000 in
/-- Stretch 101 does not write the first pass's result buffer. -/
theorem leaves101 (V : Valuation τ sig (Elt Ideal)) : after (Gen.hostOps0_101 (F := Ideal)) V (Proc.devRef .tc main_v390) = V (Proc.devRef .tc main_v390) := by
  after_results_simp

set_option maxHeartbeats 4000000 in
/-- Stretch 102 does not write the first pass's result buffer. -/
theorem leaves102 (V : Valuation τ sig (Elt Ideal)) : after (Gen.hostOps0_102 (F := Ideal)) V (Proc.devRef .tc main_v390) = V (Proc.devRef .tc main_v390) := by
  after_results_simp

set_option maxHeartbeats 4000000 in
/-- Stretch 103 does not write the first pass's result buffer. -/
theorem leaves103 (V : Valuation τ sig (Elt Ideal)) : after (Gen.hostOps0_103 (F := Ideal)) V (Proc.devRef .tc main_v390) = V (Proc.devRef .tc main_v390) := by
  after_results_simp

set_option maxHeartbeats 4000000 in
/-- Stretch 104 does not write the first pass's result buffer. -/
theorem leaves104 (V : Valuation τ sig (Elt Ideal)) : after (Gen.hostOps0_104 (F := Ideal)) V (Proc.devRef .tc main_v390) = V (Proc.devRef .tc main_v390) := by
  after_results_simp

set_option maxHeartbeats 4000000 in
/-- Stretch 105 does not write the first pass's result buffer. -/
theorem leaves105 (V : Valuation τ sig (Elt Ideal)) : after (Gen.hostOps0_105 (F := Ideal)) V (Proc.devRef .tc main_v390) = V (Proc.devRef .tc main_v390) := by
  after_results_simp

set_option maxHeartbeats 4000000 in
/-- Stretch 106 does not write the first pass's result buffer. -/
theorem leaves106 (V : Valuation τ sig (Elt Ideal)) : after (Gen.hostOps0_106 (F := Ideal)) V (Proc.devRef .tc main_v390) = V (Proc.devRef .tc main_v390) := by
  after_results_simp

set_option maxHeartbeats 4000000 in
/-- Stretch 107 does not write the first pass's result buffer. -/
theorem leaves107 (V : Valuation τ sig (Elt Ideal)) : after (Gen.hostOps0_107 (F := Ideal)) V (Proc.devRef .tc main_v390) = V (Proc.devRef .tc main_v390) := by
  after_results_simp

set_option maxHeartbeats 4000000 in
/-- Stretch 108 does not write the first pass's result buffer. -/
theorem leaves108 (V : Valuation τ sig (Elt Ideal)) : after (Gen.hostOps0_108 (F := Ideal)) V (Proc.devRef .tc main_v390) = V (Proc.devRef .tc main_v390) := by
  after_results_simp

set_option maxHeartbeats 4000000 in
/-- Stretch 109 does not write the first pass's result buffer. -/
theorem leaves109 (V : Valuation τ sig (Elt Ideal)) : after (Gen.hostOps0_109 (F := Ideal)) V (Proc.devRef .tc main_v390) = V (Proc.devRef .tc main_v390) := by
  after_results_simp

set_option maxHeartbeats 4000000 in
/-- Stretch 110 does not write the first pass's result buffer. -/
theorem leaves110 (V : Valuation τ sig (Elt Ideal)) : after (Gen.hostOps0_110 (F := Ideal)) V (Proc.devRef .tc main_v390) = V (Proc.devRef .tc main_v390) := by
  after_results_simp

set_option maxHeartbeats 4000000 in
/-- Stretch 111 does not write the first pass's result buffer. -/
theorem leaves111 (V : Valuation τ sig (Elt Ideal)) : after (Gen.hostOps0_111 (F := Ideal)) V (Proc.devRef .tc main_v390) = V (Proc.devRef .tc main_v390) := by
  after_results_simp

set_option maxHeartbeats 4000000 in
/-- Stretch 112 does not write the first pass's result buffer. -/
theorem leaves112 (V : Valuation τ sig (Elt Ideal)) : after (Gen.hostOps0_112 (F := Ideal)) V (Proc.devRef .tc main_v390) = V (Proc.devRef .tc main_v390) := by
  after_results_simp

set_option maxHeartbeats 4000000 in
/-- Stretch 113 does not write the first pass's result buffer. -/
theorem leaves113 (V : Valuation τ sig (Elt Ideal)) : after (Gen.hostOps0_113 (F := Ideal)) V (Proc.devRef .tc main_v390) = V (Proc.devRef .tc main_v390) := by
  after_results_simp

set_option maxHeartbeats 4000000 in
/-- Stretch 114 does not write the first pass's result buffer. -/
theorem leaves114 (V : Valuation τ sig (Elt Ideal)) : after (Gen.hostOps0_114 (F := Ideal)) V (Proc.devRef .tc main_v390) = V (Proc.devRef .tc main_v390) := by
  after_results_simp

set_option maxHeartbeats 4000000 in
/-- Stretch 115 does not write the first pass's result buffer. -/
theorem leaves115 (V : Valuation τ sig (Elt Ideal)) : after (Gen.hostOps0_115 (F := Ideal)) V (Proc.devRef .tc main_v390) = V (Proc.devRef .tc main_v390) := by
  after_results_simp

set_option maxHeartbeats 4000000 in
/-- Stretch 116 does not write the first pass's result buffer. -/
theorem leaves116 (V : Valuation τ sig (Elt Ideal)) : after (Gen.hostOps0_116 (F := Ideal)) V (Proc.devRef .tc main_v390) = V (Proc.devRef .tc main_v390) := by
  after_results_simp

set_option maxHeartbeats 4000000 in
/-- Stretch 117 does not write the first pass's result buffer. -/
theorem leaves117 (V : Valuation τ sig (Elt Ideal)) : after (Gen.hostOps0_117 (F := Ideal)) V (Proc.devRef .tc main_v390) = V (Proc.devRef .tc main_v390) := by
  after_results_simp

set_option maxHeartbeats 4000000 in
/-- Stretch 118 does not write the first pass's result buffer. -/
theorem leaves118 (V : Valuation τ sig (Elt Ideal)) : after (Gen.hostOps0_118 (F := Ideal)) V (Proc.devRef .tc main_v390) = V (Proc.devRef .tc main_v390) := by
  after_results_simp

set_option maxHeartbeats 4000000 in
/-- Stretch 119 does not write the first pass's result buffer. -/
theorem leaves119 (V : Valuation τ sig (Elt Ideal)) : after (Gen.hostOps0_119 (F := Ideal)) V (Proc.devRef .tc main_v390) = V (Proc.devRef .tc main_v390) := by
  after_results_simp

set_option maxHeartbeats 4000000 in
/-- Stretch 120 does not write the first pass's result buffer. -/
theorem leaves120 (V : Valuation τ sig (Elt Ideal)) : after (Gen.hostOps0_120 (F := Ideal)) V (Proc.devRef .tc main_v390) = V (Proc.devRef .tc main_v390) := by
  after_results_simp

set_option maxHeartbeats 4000000 in
/-- Stretch 121 does not write the first pass's result buffer. -/
theorem leaves121 (V : Valuation τ sig (Elt Ideal)) : after (Gen.hostOps0_121 (F := Ideal)) V (Proc.devRef .tc main_v390) = V (Proc.devRef .tc main_v390) := by
  after_results_simp

set_option maxHeartbeats 4000000 in
/-- Stretch 122 does not write the first pass's result buffer. -/
theorem leaves122 (V : Valuation τ sig (Elt Ideal)) : after (Gen.hostOps0_122 (F := Ideal)) V (Proc.devRef .tc main_v390) = V (Proc.devRef .tc main_v390) := by
  after_results_simp

set_option maxHeartbeats 4000000 in
/-- Stretch 123 does not write the first pass's result buffer. -/
theorem leaves123 (V : Valuation τ sig (Elt Ideal)) : after (Gen.hostOps0_123 (F := Ideal)) V (Proc.devRef .tc main_v390) = V (Proc.devRef .tc main_v390) := by
  after_results_simp

set_option maxHeartbeats 4000000 in
/-- Stretch 124 does not write the first pass's result buffer. -/
theorem leaves124 (V : Valuation τ sig (Elt Ideal)) : after (Gen.hostOps0_124 (F := Ideal)) V (Proc.devRef .tc main_v390) = V (Proc.devRef .tc main_v390) := by
  after_results_simp

set_option maxHeartbeats 4000000 in
/-- Stretch 125 does not write the first pass's result buffer. -/
theorem leaves125 (V : Valuation τ sig (Elt Ideal)) : after (Gen.hostOps0_125 (F := Ideal)) V (Proc.devRef .tc main_v390) = V (Proc.devRef .tc main_v390) := by
  after_results_simp

set_option maxHeartbeats 4000000 in
/-- Stretch 126 does not write the first pass's result buffer. -/
theorem leaves126 (V : Valuation τ sig (Elt Ideal)) : after (Gen.hostOps0_126 (F := Ideal)) V (Proc.devRef .tc main_v390) = V (Proc.devRef .tc main_v390) := by
  after_results_simp

set_option maxHeartbeats 4000000 in
/-- Stretch 127 does not write the first pass's result buffer. -/
theorem leaves127 (V : Valuation τ sig (Elt Ideal)) : after (Gen.hostOps0_127 (F := Ideal)) V (Proc.devRef .tc main_v390) = V (Proc.devRef .tc main_v390) := by
  after_results_simp

set_option maxHeartbeats 4000000 in
/-- Stretch 128 does not write the first pass's result buffer. -/
theorem leaves128 (V : Valuation τ sig (Elt Ideal)) : after (Gen.hostOps0_128 (F := Ideal)) V (Proc.devRef .tc main_v390) = V (Proc.devRef .tc main_v390) := by
  after_results_simp

set_option maxHeartbeats 4000000 in
/-- Stretch 129 does not write the first pass's result buffer. -/
theorem leaves129 (V : Valuation τ sig (Elt Ideal)) : after (Gen.hostOps0_129 (F := Ideal)) V (Proc.devRef .tc main_v390) = V (Proc.devRef .tc main_v390) := by
  after_results_simp

set_option maxHeartbeats 4000000 in
/-- Stretch 130 does not write the first pass's result buffer. -/
theorem leaves130 (V : Valuation τ sig (Elt Ideal)) : after (Gen.hostOps0_130 (F := Ideal)) V (Proc.devRef .tc main_v390) = V (Proc.devRef .tc main_v390) := by
  after_results_simp

set_option maxHeartbeats 4000000 in
/-- Stretch 131 does not write the first pass's result buffer. -/
theorem leaves131 (V : Valuation τ sig (Elt Ideal)) : after (Gen.hostOps0_131 (F := Ideal)) V (Proc.devRef .tc main_v390) = V (Proc.devRef .tc main_v390) := by
  after_results_simp

set_option maxHeartbeats 4000000 in
/-- Stretch 132 does not write the first pass's result buffer. -/
theorem leaves132 (V : Valuation τ sig (Elt Ideal)) : after (Gen.hostOps0_132 (F := Ideal)) V (Proc.devRef .tc main_v390) = V (Proc.devRef .tc main_v390) := by
  after_results_simp

set_option maxHeartbeats 4000000 in
/-- Stretch 133 does not write the first pass's result buffer. -/
theorem leaves133 (V : Valuation τ sig (Elt Ideal)) : after (Gen.hostOps0_133 (F := Ideal)) V (Proc.devRef .tc main_v390) = V (Proc.devRef .tc main_v390) := by
  after_results_simp

set_option maxHeartbeats 4000000 in
/-- Stretch 134 does not write the first pass's result buffer. -/
theorem leaves134 (V : Valuation τ sig (Elt Ideal)) : after (Gen.hostOps0_134 (F := Ideal)) V (Proc.devRef .tc main_v390) = V (Proc.devRef .tc main_v390) := by
  after_results_simp

set_option maxHeartbeats 4000000 in
/-- Stretch 135 does not write the first pass's result buffer. -/
theorem leaves135 (V : Valuation τ sig (Elt Ideal)) : after (Gen.hostOps0_135 (F := Ideal)) V (Proc.devRef .tc main_v390) = V (Proc.devRef .tc main_v390) := by
  after_results_simp

set_option maxHeartbeats 4000000 in
/-- Stretch 136 does not write the first pass's result buffer. -/
theorem leaves136 (V : Valuation τ sig (Elt Ideal)) : after (Gen.hostOps0_136 (F := Ideal)) V (Proc.devRef .tc main_v390) = V (Proc.devRef .tc main_v390) := by
  after_results_simp

set_option maxHeartbeats 4000000 in
/-- Stretch 137 does not write the first pass's result buffer. -/
theorem leaves137 (V : Valuation τ sig (Elt Ideal)) : after (Gen.hostOps0_137 (F := Ideal)) V (Proc.devRef .tc main_v390) = V (Proc.devRef .tc main_v390) := by
  after_results_simp

set_option maxHeartbeats 4000000 in
/-- Stretch 138 does not write the first pass's result buffer. -/
theorem leaves138 (V : Valuation τ sig (Elt Ideal)) : after (Gen.hostOps0_138 (F := Ideal)) V (Proc.devRef .tc main_v390) = V (Proc.devRef .tc main_v390) := by
  after_results_simp

set_option maxHeartbeats 4000000 in
/-- Stretch 139 does not write the first pass's result buffer. -/
theorem leaves139 (V : Valuation τ sig (Elt Ideal)) : after (Gen.hostOps0_139 (F := Ideal)) V (Proc.devRef .tc main_v390) = V (Proc.devRef .tc main_v390) := by
  after_results_simp

set_option maxHeartbeats 4000000 in
/-- Stretch 140 does not write the first pass's result buffer. -/
theorem leaves140 (V : Valuation τ sig (Elt Ideal)) : after (Gen.hostOps0_140 (F := Ideal)) V (Proc.devRef .tc main_v390) = V (Proc.devRef .tc main_v390) := by
  after_results_simp

set_option maxHeartbeats 4000000 in
/-- Stretch 141 does not write the first pass's result buffer. -/
theorem leaves141 (V : Valuation τ sig (Elt Ideal)) : after (Gen.hostOps0_141 (F := Ideal)) V (Proc.devRef .tc main_v390) = V (Proc.devRef .tc main_v390) := by
  after_results_simp

set_option maxHeartbeats 4000000 in
/-- Stretch 142 does not write the first pass's result buffer. -/
theorem leaves142 (V : Valuation τ sig (Elt Ideal)) : after (Gen.hostOps0_142 (F := Ideal)) V (Proc.devRef .tc main_v390) = V (Proc.devRef .tc main_v390) := by
  after_results_simp

set_option maxHeartbeats 4000000 in
/-- Stretch 143 does not write the first pass's result buffer. -/
theorem leaves143 (V : Valuation τ sig (Elt Ideal)) : after (Gen.hostOps0_143 (F := Ideal)) V (Proc.devRef .tc main_v390) = V (Proc.devRef .tc main_v390) := by
  after_results_simp

set_option maxHeartbeats 4000000 in
/-- Stretch 144 does not write the first pass's result buffer. -/
theorem leaves144 (V : Valuation τ sig (Elt Ideal)) : after (Gen.hostOps0_144 (F := Ideal)) V (Proc.devRef .tc main_v390) = V (Proc.devRef .tc main_v390) := by
  after_results_simp

end Cert.Bridge.K

end
-- ==== Proof.KernelSampling.lean ====
/-
  The kernel program's host operations, read: the buffer the first sampling pass leaves its result in holds
  `Cert.Bridge.K.pred` of the argument arrays.

  The list of 145 stretches is read stretch by stretch: the contents after a list of stretches joined are the contents
  after the later ones started from the contents after the first.  Stretches 73 … 144 leave the result buffer, so they
  are dropped one by one; stretches 0 … 72 are the nine blocks of the block lemmas, chained: each block's ten buffers
  are the next block's hypotheses.  Every step names the stretch it is about, so nothing is searched for.
-/
import proofs.«103167_j42614665511136_1_alg».proof.Proof.KernelSamplingBlocks

set_option maxRecDepth 8440

noncomputable section

open Idealize.ShloMosaic Idealize.ShloMosaic.TcCoe Idealize.SL.Sem Idealize.ShloMosaic.StableHlo

namespace Cert.Bridge.K
open Cert.KernelIdeal Cert.KernelIdeal.Facts₀ Cert.KernelIdeal.Facts
variable [Cert.KernelIdeal.Facts]

/-- `after_flatten_cons` read at one buffer. -/
theorem after_flatten_cons_apply (l : List (HloOp τ sig (Elt Ideal))) (ls : List (List (HloOp τ sig (Elt Ideal))))
    (V : Valuation τ sig (Elt Ideal)) (b : DevRef τ sig) :
    after (List.flatten (l :: ls)) V b = after (List.flatten ls) (after l V) b :=
  congrFun (after_flatten_cons l ls V) b

/-- No stretches left: the contents stay. -/
theorem after_flatten_nil_apply (V : Valuation τ sig (Elt Ideal)) (b : DevRef τ sig) :
    after (List.flatten ([] : List (List (HloOp τ sig (Elt Ideal))))) V b = V b := rfl

set_option maxHeartbeats 4000000 in
/-- After all the host operations before the region, the buffer of the first sampling pass holds `pred` of the volume
    argument and the point coordinates. -/
theorem V_pred (m : (ℓ : Loc nD τ sig) → Buf (Elt Ideal) ℓ) (c : Dev nD) :
    after (List.flatten [(Gen.hostOps0 (F := Ideal)), Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, Gen.hostOps0_34, Gen.hostOps0_35, Gen.hostOps0_36, Gen.hostOps0_37, Gen.hostOps0_38, Gen.hostOps0_39, Gen.hostOps0_40, Gen.hostOps0_41, Gen.hostOps0_42, Gen.hostOps0_43, Gen.hostOps0_44, Gen.hostOps0_45, Gen.hostOps0_46, Gen.hostOps0_47, Gen.hostOps0_48, Gen.hostOps0_49, Gen.hostOps0_50, Gen.hostOps0_51, Gen.hostOps0_52, Gen.hostOps0_53, Gen.hostOps0_54, Gen.hostOps0_55, Gen.hostOps0_56, Gen.hostOps0_57, Gen.hostOps0_58, Gen.hostOps0_59, Gen.hostOps0_60, Gen.hostOps0_61, Gen.hostOps0_62, Gen.hostOps0_63, Gen.hostOps0_64, Gen.hostOps0_65, Gen.hostOps0_66, Gen.hostOps0_67, Gen.hostOps0_68, Gen.hostOps0_69, Gen.hostOps0_70, Gen.hostOps0_71, Gen.hostOps0_72, Gen.hostOps0_73, Gen.hostOps0_74, Gen.hostOps0_75, Gen.hostOps0_76, Gen.hostOps0_77, Gen.hostOps0_78, Gen.hostOps0_79, Gen.hostOps0_80, Gen.hostOps0_81, Gen.hostOps0_82, Gen.hostOps0_83, Gen.hostOps0_84, Gen.hostOps0_85, Gen.hostOps0_86, Gen.hostOps0_87, Gen.hostOps0_88, Gen.hostOps0_89, Gen.hostOps0_90, Gen.hostOps0_91, Gen.hostOps0_92, Gen.hostOps0_93, Gen.hostOps0_94, Gen.hostOps0_95, Gen.hostOps0_96, Gen.hostOps0_97, Gen.hostOps0_98, Gen.hostOps0_99, Gen.hostOps0_100, Gen.hostOps0_101, Gen.hostOps0_102, Gen.hostOps0_103, Gen.hostOps0_104, Gen.hostOps0_105, Gen.hostOps0_106, Gen.hostOps0_107, Gen.hostOps0_108, Gen.hostOps0_109, Gen.hostOps0_110, Gen.hostOps0_111, Gen.hostOps0_112, Gen.hostOps0_113, Gen.hostOps0_114, Gen.hostOps0_115, Gen.hostOps0_116, Gen.hostOps0_117, Gen.hostOps0_118, Gen.hostOps0_119, Gen.hostOps0_120, Gen.hostOps0_121, Gen.hostOps0_122, Gen.hostOps0_123, Gen.hostOps0_124, Gen.hostOps0_125, Gen.hostOps0_126, Gen.hostOps0_127, Gen.hostOps0_128, Gen.hostOps0_129, Gen.hostOps0_130, Gen.hostOps0_131, Gen.hostOps0_132, Gen.hostOps0_133, Gen.hostOps0_134, Gen.hostOps0_135, Gen.hostOps0_136, Gen.hostOps0_137, Gen.hostOps0_138, Gen.hostOps0_139, Gen.hostOps0_140, Gen.hostOps0_141, Gen.hostOps0_142, Gen.hostOps0_143, Gen.hostOps0_144])
        (fun b => m (c, b)) (Proc.devRef .tc main_v390)
      = pred (m ((c : Thread nD τ).loc main_arg0)) (m ((c : Thread nD τ).loc main_arg3)) := by
  -- the 145 stretches, one after the other
  iterate 145 refine (after_flatten_cons_apply _ _ _ _).trans ?_
  refine (after_flatten_nil_apply _ _).trans ?_
  -- stretches 144 … 73 leave the buffer
  refine (leaves144 _).trans ?_
  refine (leaves143 _).trans ?_
  refine (leaves142 _).trans ?_
  refine (leaves141 _).trans ?_
  refine (leaves140 _).trans ?_
  refine (leaves139 _).trans ?_
  refine (leaves138 _).trans ?_
  refine (leaves137 _).trans ?_
  refine (leaves136 _).trans ?_
  refine (leaves135 _).trans ?_
  refine (leaves134 _).trans ?_
  refine (leaves133 _).trans ?_
  refine (leaves132 _).trans ?_
  refine (leaves131 _).trans ?_
  refine (leaves130 _).trans ?_
  refine (leaves129 _).trans ?_
  refine (leaves128 _).trans ?_
  refine (leaves127 _).trans ?_
  refine (leaves126 _).trans ?_
  refine (leaves125 _).trans ?_
  refine (leaves124 _).trans ?_
  refine (leaves123 _).trans ?_
  refine (leaves122 _).trans ?_
  refine (leaves121 _).trans ?_
  refine (leaves120 _).trans ?_
  refine (leaves119 _).trans ?_
  refine (leaves118 _).trans ?_
  refine (leaves117 _).trans ?_
  refine (leaves116 _).trans ?_
  refine (leaves115 _).trans ?_
  refine (leaves114 _).trans ?_
  refine (leaves113 _).trans ?_
  refine (leaves112 _).trans ?_
  refine (leaves111 _).trans ?_
  refine (leaves110 _).trans ?_
  refine (leaves109 _).trans ?_
  refine (leaves108 _).trans ?_
  refine (leaves107 _).trans ?_
  refine (leaves106 _).trans ?_
  refine (leaves105 _).trans ?_
  refine (leaves104 _).trans ?_
  refine (leaves103 _).trans ?_
  refine (leaves102 _).trans ?_
  refine (leaves101 _).trans ?_
  refine (leaves100 _).trans ?_
  refine (leaves99 _).trans ?_
  refine (leaves98 _).trans ?_
  refine (leaves97 _).trans ?_
  refine (leaves96 _).trans ?_
  refine (leaves95 _).trans ?_
  refine (leaves94 _).trans ?_
  refine (leaves93 _).trans ?_
  refine (leaves92 _).trans ?_
  refine (leaves91 _).trans ?_
  refine (leaves90 _).trans ?_
  refine (leaves89 _).trans ?_
  refine (leaves88 _).trans ?_
  refine (leaves87 _).trans ?_
  refine (leaves86 _).trans ?_
  refine (leaves85 _).trans ?_
  refine (leaves84 _).trans ?_
  refine (leaves83 _).trans ?_
  refine (leaves82 _).trans ?_
  refine (leaves81 _).trans ?_
  refine (leaves80 _).trans ?_
  refine (leaves79 _).trans ?_
  refine (leaves78 _).trans ?_
  refine (leaves77 _).trans ?_
  refine (leaves76 _).trans ?_
  refine (leaves75 _).trans ?_
  refine (leaves74 _).trans ?_
  refine (leaves73 _).trans ?_
  -- stretches 0 … 72, block by block
  obtain ⟨hvol0, hf00, hf10, hf20, hb00, hb10, hb20, hacc0, hmw0, hvals0⟩ := block0 (m ((c : Thread nD τ).loc main_arg0)) (m ((c : Thread nD τ).loc main_arg3)) (fun b => m (c, b)) rfl rfl
  obtain ⟨hvol1, hf01, hf11, hf21, hb01, hb11, hb21, hacc1, hmw1, hvals1⟩ := block1 _ _ _ hvol0 hf00 hf10 hf20 hb00 hb10 hb20 hacc0 hmw0 hvals0
  obtain ⟨hvol2, hf02, hf12, hf22, hb02, hb12, hb22, hacc2, hmw2, hvals2⟩ := block2 _ _ _ hvol1 hf01 hf11 hf21 hb01 hb11 hb21 hacc1 hmw1 hvals1
  obtain ⟨hvol3, hf03, hf13, hf23, hb03, hb13, hb23, hacc3, hmw3, hvals3⟩ := block3 _ _ _ hvol2 hf02 hf12 hf22 hb02 hb12 hb22 hacc2 hmw2 hvals2
  obtain ⟨hvol4, hf04, hf14, hf24, hb04, hb14, hb24, hacc4, hmw4, hvals4⟩ := block4 _ _ _ hvol3 hf03 hf13 hf23 hb03 hb13 hb23 hacc3 hmw3 hvals3
  obtain ⟨hvol5, hf05, hf15, hf25, hb05, hb15, hb25, hacc5, hmw5, hvals5⟩ := block5 _ _ _ hvol4 hf04 hf14 hf24 hb04 hb14 hb24 hacc4 hmw4 hvals4
  obtain ⟨hvol6, hf06, hf16, hf26, hb06, hb16, hb26, hacc6, hmw6, hvals6⟩ := block6 _ _ _ hvol5 hf05 hf15 hf25 hb05 hb15 hb25 hacc5 hmw5 hvals5
  obtain ⟨hvol7, hf07, hf17, hf27, hb07, hb17, hb27, hacc7, hmw7, hvals7⟩ := block7 _ _ _ hvol6 hf06 hf16 hf26 hb06 hb16 hb26 hacc6 hmw6 hvals6
  exact block8 _ _ _ hacc7 hmw7 hvals7

end Cert.Bridge.K

end
-- ==== Proof.LibAfterAppend.lean ====
/-
  A straight line of host operations run in two parts.

  The buffer contents after a line of operations are a fold of the operations' results over the starting contents, so
  after a line joined from two parts they are the second part's fold over the first part's: a long line can be read
  stretch by stretch, each stretch from whatever contents the stretches before it left.
-/
import Idealize.ShloMosaic.Lib.StableHlo.Run

noncomputable section

namespace Cert.LibAfter

open Idealize.ShloMosaic Idealize.ShloMosaic.StableHlo

variable {τ : Topo} {sig : RefSig} {Val : EltTy → Type}

/-- The contents after two lines joined are the contents after the second, started from the contents after the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfter

end
-- ==== Proof.KernelClsRead.lean ====
/-
  What the kernel's launch finds in the class-cost array.

  The class cost is computed by the last stretch of host operations before the launch: a softmax of the class logits
  over the 134 classes (the row maximum subtracted, the exponentials divided by their sum), the class labels wrapped by
  134 where negative, the softmax gathered at the labels, negated. That stretch reads only the class logits and the
  class labels, and no stretch before it writes either; so the array the launch finds is that chain of the two
  arguments as launched.
-/
import proofs.«103167_j42614665511136_1_alg».proof.Proof.KernelIdealFrameP
import proofs.«103167_j42614665511136_1_alg».proof.Proof.KernelSamplingTgt
import proofs.«103167_j42614665511136_1_alg».proof.Proof.LibAfterAppend
import Idealize.ShloMosaic.Lib.StableHlo.Run

noncomputable section

namespace Cert.Bridge.K30

open Cert.KernelIdeal Cert.KernelIdeal.Gen Idealize.ShloMosaic Idealize.ShloMosaic.TcCoe Idealize.ShloMosaic.StableHlo

/-- The host operations before the last stretch, joined. -/
def preOps : List (HloOp τ sig (Elt Ideal)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128, hostOps0_129, hostOps0_130, hostOps0_131, hostOps0_132, hostOps0_133, hostOps0_134, hostOps0_135, hostOps0_136, hostOps0_137, hostOps0_138, hostOps0_139, hostOps0_140, hostOps0_141, hostOps0_142, hostOps0_143]

/-- The host operations before the launch are those before the last stretch, then the last stretch. -/
theorem ops_split :
    (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128, hostOps0_129, hostOps0_130, hostOps0_131, hostOps0_132, hostOps0_133, hostOps0_134, hostOps0_135, hostOps0_136, hostOps0_137, hostOps0_138, hostOps0_139, hostOps0_140, hostOps0_141, hostOps0_142, hostOps0_143, hostOps0_144] : List (HloOp τ sig (Elt Ideal))) = preOps ++ hostOps0_144 := by
  have h : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128, hostOps0_129, hostOps0_130, hostOps0_131, hostOps0_132, hostOps0_133, hostOps0_134, hostOps0_135, hostOps0_136, hostOps0_137, hostOps0_138, hostOps0_139, hostOps0_140, hostOps0_141, hostOps0_142, hostOps0_143, hostOps0_144] : List (List (HloOp τ sig (Elt Ideal))))
      = [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128, hostOps0_129, hostOps0_130, hostOps0_131, hostOps0_132, hostOps0_133, hostOps0_134, hostOps0_135, hostOps0_136, hostOps0_137, hostOps0_138, hostOps0_139, hostOps0_140, hostOps0_141, hostOps0_142, hostOps0_143] ++ [hostOps0_144] := rfl
  rw [h, List.flatten_append, show List.flatten [(hostOps0_144 : List (HloOp τ sig (Elt Ideal)))] = hostOps0_144 from List.append_nil _]
  rfl

/-- The last stretch, from any contents: the class-cost array ends at the softmax-gather-negate chain of the class
    logits and the class labels those contents hold. -/
theorem last_cls (W : Valuation τ sig (Elt Ideal)) :
    after (hostOps0_144 : List (HloOp τ sig (Elt Ideal))) W (Proc.devRef .tc main_v800)
      = cls (W (Proc.devRef .tc main_arg1)) (W (Proc.devRef .tc main_arg4)) := by
  after_results_simp
  rfl

/-- The last stretch writes neither the class logits -/
theorem last_keeps_arg1 (W : Valuation τ sig (Elt Ideal)) :
    after (hostOps0_144 : List (HloOp τ sig (Elt Ideal))) W (Proc.devRef .tc main_arg1) = W (Proc.devRef .tc main_arg1) :=
  after_of_forall_not_mem (b := Proc.devRef .tc main_arg1) _ _ (List.forall_iff_forall_mem.mp (by
    simp only [hostOps0_144, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- nor the class labels. -/
theorem last_keeps_arg4 (W : Valuation τ sig (Elt Ideal)) :
    after (hostOps0_144 : List (HloOp τ sig (Elt Ideal))) W (Proc.devRef .tc main_arg4) = W (Proc.devRef .tc main_arg4) :=
  after_of_forall_not_mem (b := Proc.devRef .tc main_arg4) _ _ (List.forall_iff_forall_mem.mp (by
    simp only [hostOps0_144, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

variable (m : (ℓ : Loc nD τ sig) → Buf (Elt Ideal) ℓ)

/-- The contents the launch finds in a buffer, through the split. -/
theorem V_split (c : Dev nD) (b : Ref sig .tc) :
    GenP.V m c b = after (hostOps0_144 : List (HloOp τ sig (Elt Ideal))) (after preOps fun b => m (c, b)) (Proc.devRef .tc b) := by
  dsimp only [GenP.V]
  rw [ops_split, Cert.LibAfter.after_append]

/-- Before the last stretch the class logits are as launched: they are as launched after it, and it does not write them. -/
theorem pre_arg1 (c : Dev nD) :
    after preOps (fun b => m (c, b)) (Proc.devRef .tc main_arg1) = m ((c.tc : Thread nD τ).loc main_arg1) :=
  ((last_keeps_arg1 _).symm.trans (V_split m c main_arg1).symm).trans (GenP.V_main_arg1 m c)

/-- Before the last stretch the class labels are as launched. -/
theorem pre_arg4 (c : Dev nD) :
    after preOps (fun b => m (c, b)) (Proc.devRef .tc main_arg4) = m ((c.tc : Thread nD τ).loc main_arg4) :=
  ((last_keeps_arg4 _).symm.trans (V_split m c main_arg4).symm).trans (GenP.V_main_arg4 m c)

/-- WHAT THE LAUNCH FINDS IN THE CLASS-COST ARRAY: the softmax-gather-negate chain of the class logits and the class
    labels as launched. -/
theorem V_cls (c : Dev Cert.KernelIdeal.nD) :
    Cert.KernelIdeal.GenP.V m c Cert.KernelIdeal.main_v800
      = Cert.Bridge.K30.cls (m ((c.tc : Thread Cert.KernelIdeal.nD Cert.KernelIdeal.τ).loc Cert.KernelIdeal.main_arg1))
          (m ((c.tc : Thread Cert.KernelIdeal.nD Cert.KernelIdeal.τ).loc Cert.KernelIdeal.main_arg4)) := by
  rw [V_split, last_cls, pre_arg1, pre_arg4]

end Cert.Bridge.K30

end
-- ==== Proof.KernelTgtBlocks.lean ====
/-
  The kernel program's host operations, read: the buffer the second sampling pass leaves its result in holds
  `Cert.Bridge.K30.tgt` of the argument arrays.

  The program's host operations before the region are a list of 145 stretches, read stretch by stretch: the contents
  after a list of stretches are the contents after the last started from the contents after the others. The second
  sampling pass is stretches 72 … 144: stretch 72 computes the coordinates and corner 0's words; then, per corner, nine
  stretches clip the three words, compute the flat index and the weight, mask the weight, fetch the voxels, and
  multiply, add and prepare the next corner's words. Read nine stretches at a time, ten buffers cross each boundary:
  the cast volume, the three fractional parts, the three base words, the running sum, the corner's masked weight and
  its fetched voxels. Each block lemma states those ten after its nine stretches from those ten before. The pass reads
  only the target-mask volume and the point coordinates, which no stretch writes.
-/
import proofs.«103167_j42614665511136_1_alg».proof.Proof.KernelSamplingTgt
import proofs.«103167_j42614665511136_1_alg».proof.Proof.KernelIdealFrameP
import Idealize.ShloMosaic.Lib.StableHlo.Run

-- the long stretches' lists recurse past the default depth, as in the module that states them
set_option maxRecDepth 16384

noncomputable section

open Idealize.ShloMosaic Idealize.ShloMosaic.TcCoe Idealize.SL.Sem Idealize.ShloMosaic.StableHlo

namespace Cert.Bridge.K30c
open Cert.KernelIdeal Cert.KernelIdeal.Facts₀ Cert.KernelIdeal.Facts Cert.Bridge.K30

/-- The contents after a list of stretches joined: the contents after the later stretches, started from the contents
    after the first. -/
theorem after_flatten_cons (l : List (HloOp τ sig (Elt Ideal))) (ls : List (List (HloOp τ sig (Elt Ideal))))
    (V : Valuation τ sig (Elt Ideal)) :
    after (List.flatten (l :: ls)) V = after (List.flatten ls) (after l V) := by
  rw [List.flatten_cons]
  induction l generalizing V with
  | nil => rfl
  | cons op l ih => exact ih (op.result V)

/-- The buffer contents after the nine stretches of host operations that end with corner 0's fetch, started from `V`. -/
@[reducible] def run0 (V : Valuation τ sig (Elt Ideal)) : Valuation τ sig (Elt Ideal) :=
  after (Gen.hostOps0_80 (F := Ideal)) (after (Gen.hostOps0_79 (F := Ideal)) (after (Gen.hostOps0_78 (F := Ideal)) (after (Gen.hostOps0_77 (F := Ideal)) (after (Gen.hostOps0_76 (F := Ideal)) (after (Gen.hostOps0_75 (F := Ideal)) (after (Gen.hostOps0_74 (F := Ideal)) (after (Gen.hostOps0_73 (F := Ideal)) (after (Gen.hostOps0_72 (F := Ideal)) V))))))))

set_option maxHeartbeats 4000000 in
/-- The coordinates, their floors, fractional parts and base words, the zero start, and corner 0's masked weight and
    fetched voxels: after stretches 72 … 80 the ten buffers the next stretches read hold the stated terms of the argument
    arrays. -/
theorem block0 (A2 : FVec Ideal S2x30x64x64x64 .f32) (A3 : FVec Ideal S2x12544x3 .f32) (V : Valuation τ sig (Elt Ideal))
    (hA2 : V (Proc.devRef .tc main_arg2) = A2)
    (hA3 : V (Proc.devRef .tc main_arg3) = A3) :
    (run0 V (Proc.devRef .tc main_v391) = shapeCast S2x30x262144 A2 shapeCasts_S2x30x64x64x64_S2x30x262144) ∧
    (run0 V (Proc.devRef .tc main_v429) = frac0 A3) ∧
    (run0 V (Proc.devRef .tc main_v430) = frac1 A3) ∧
    (run0 V (Proc.devRef .tc main_v431) = frac2 A3) ∧
    (run0 V (Proc.devRef .tc main_v432) = base0 A3) ∧
    (run0 V (Proc.devRef .tc main_v433) = base1 A3) ∧
    (run0 V (Proc.devRef .tc main_v434) = base2 A3) ∧
    (run0 V (Proc.devRef .tc main_v435) = accT0) ∧
    (run0 V (Proc.devRef .tc main_v476) = K.maskedWeight (valid0 A3) (wgt0 A3)) ∧
    (run0 V (Proc.devRef .tc main_v477) = K.take30 (shapeCast S2x30x262144 A2 shapeCasts_S2x30x64x64x64_S2x30x262144) (K.lin (zi0 A3) (yi0 A3) (xi0 A3))) := by
  unfold run0
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · first | rw [hA2] | simp only [hA2]
    all_goals rfl
  · first | rw [hA3] | simp only [hA3]
    all_goals rfl
  · first | rw [hA3] | simp only [hA3]
    all_goals rfl
  · first | rw [hA3] | simp only [hA3]
    all_goals rfl
  · first | rw [hA3] | simp only [hA3]
    all_goals rfl
  · first | rw [hA3] | simp only [hA3]
    all_goals rfl
  · first | rw [hA3] | simp only [hA3]
    all_goals rfl
  · rfl
  · first | rw [hA3] | simp only [hA3]
    all_goals rfl
  · first | rw [hA3, hA2] | simp only [hA3, hA2]
    all_goals rfl

/-- The buffer contents after the nine stretches of host operations that end with corner 1's fetch, started from `V`. -/
@[reducible] def run1 (V : Valuation τ sig (Elt Ideal)) : Valuation τ sig (Elt Ideal) :=
  after (Gen.hostOps0_89 (F := Ideal)) (after (Gen.hostOps0_88 (F := Ideal)) (after (Gen.hostOps0_87 (F := Ideal)) (after (Gen.hostOps0_86 (F := Ideal)) (after (Gen.hostOps0_85 (F := Ideal)) (after (Gen.hostOps0_84 (F := Ideal)) (after (Gen.hostOps0_83 (F := Ideal)) (after (Gen.hostOps0_82 (F := Ideal)) (after (Gen.hostOps0_81 (F := Ideal)) V))))))))

set_option maxHeartbeats 4000000 in
/-- Corner 0's contribution is added and corner 1's masked weight and fetched voxels are computed: after stretches
    81 … 89 the ten buffers the next stretches read hold the stated terms, given that before them the ten buffers
    these stretches read held the stated terms. -/
theorem block1 (A2 : FVec Ideal S2x30x64x64x64 .f32) (A3 : FVec Ideal S2x12544x3 .f32) (V : Valuation τ sig (Elt Ideal))
    (hvol : V (Proc.devRef .tc main_v391) = shapeCast S2x30x262144 A2 shapeCasts_S2x30x64x64x64_S2x30x262144)
    (hf0 : V (Proc.devRef .tc main_v429) = frac0 A3)
    (hf1 : V (Proc.devRef .tc main_v430) = frac1 A3)
    (hf2 : V (Proc.devRef .tc main_v431) = frac2 A3)
    (hb0 : V (Proc.devRef .tc main_v432) = base0 A3)
    (hb1 : V (Proc.devRef .tc main_v433) = base1 A3)
    (hb2 : V (Proc.devRef .tc main_v434) = base2 A3)
    (hacc : V (Proc.devRef .tc main_v435) = accT0)
    (hmw : V (Proc.devRef .tc main_v476) = K.maskedWeight (valid0 A3) (wgt0 A3))
    (hvals : V (Proc.devRef .tc main_v477) = K.take30 (shapeCast S2x30x262144 A2 shapeCasts_S2x30x64x64x64_S2x30x262144) (K.lin (zi0 A3) (yi0 A3) (xi0 A3))) :
    (run1 V (Proc.devRef .tc main_v391) = shapeCast S2x30x262144 A2 shapeCasts_S2x30x64x64x64_S2x30x262144) ∧
    (run1 V (Proc.devRef .tc main_v429) = frac0 A3) ∧
    (run1 V (Proc.devRef .tc main_v430) = frac1 A3) ∧
    (run1 V (Proc.devRef .tc main_v431) = frac2 A3) ∧
    (run1 V (Proc.devRef .tc main_v432) = base0 A3) ∧
    (run1 V (Proc.devRef .tc main_v433) = base1 A3) ∧
    (run1 V (Proc.devRef .tc main_v434) = base2 A3) ∧
    (run1 V (Proc.devRef .tc main_v483) = accT1 A2 A3) ∧
    (run1 V (Proc.devRef .tc main_v522) = K.maskedWeight (valid1 A3) (wgt1 A3)) ∧
    (run1 V (Proc.devRef .tc main_v523) = K.take30 (shapeCast S2x30x262144 A2 shapeCasts_S2x30x64x64x64_S2x30x262144) (K.lin (zi1 A3) (yi1 A3) (xi1 A3))) := by
  unfold run1
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · exact hvol
  · exact hf0
  · exact hf1
  · exact hf2
  · exact hb0
  · exact hb1
  · exact hb2
  · first | rw [hvals, hmw, hacc] | simp only [hvals, hmw, hacc]
    all_goals rfl
  · first | rw [hf0, hf1, hf2, hb0, hb1, hb2] | simp only [hf0, hf1, hf2, hb0, hb1, hb2]
    all_goals rfl
  · first | rw [hb0, hb1, hb2, hvol] | simp only [hb0, hb1, hb2, hvol]
    all_goals rfl

/-- The buffer contents after the nine stretches of host operations that end with corner 2's fetch, started from `V`. -/
@[reducible] def run2 (V : Valuation τ sig (Elt Ideal)) : Valuation τ sig (Elt Ideal) :=
  after (Gen.hostOps0_98 (F := Ideal)) (after (Gen.hostOps0_97 (F := Ideal)) (after (Gen.hostOps0_96 (F := Ideal)) (after (Gen.hostOps0_95 (F := Ideal)) (after (Gen.hostOps0_94 (F := Ideal)) (after (Gen.hostOps0_93 (F := Ideal)) (after (Gen.hostOps0_92 (F := Ideal)) (after (Gen.hostOps0_91 (F := Ideal)) (after (Gen.hostOps0_90 (F := Ideal)) V))))))))

set_option maxHeartbeats 4000000 in
/-- Corner 1's contribution is added and corner 2's masked weight and fetched voxels are computed: after stretches
    90 … 98 the ten buffers the next stretches read hold the stated terms, given that before them the ten buffers
    these stretches read held the stated terms. -/
theorem block2 (A2 : FVec Ideal S2x30x64x64x64 .f32) (A3 : FVec Ideal S2x12544x3 .f32) (V : Valuation τ sig (Elt Ideal))
    (hvol : V (Proc.devRef .tc main_v391) = shapeCast S2x30x262144 A2 shapeCasts_S2x30x64x64x64_S2x30x262144)
    (hf0 : V (Proc.devRef .tc main_v429) = frac0 A3)
    (hf1 : V (Proc.devRef .tc main_v430) = frac1 A3)
    (hf2 : V (Proc.devRef .tc main_v431) = frac2 A3)
    (hb0 : V (Proc.devRef .tc main_v432) = base0 A3)
    (hb1 : V (Proc.devRef .tc main_v433) = base1 A3)
    (hb2 : V (Proc.devRef .tc main_v434) = base2 A3)
    (hacc : V (Proc.devRef .tc main_v483) = accT1 A2 A3)
    (hmw : V (Proc.devRef .tc main_v522) = K.maskedWeight (valid1 A3) (wgt1 A3))
    (hvals : V (Proc.devRef .tc main_v523) = K.take30 (shapeCast S2x30x262144 A2 shapeCasts_S2x30x64x64x64_S2x30x262144) (K.lin (zi1 A3) (yi1 A3) (xi1 A3))) :
    (run2 V (Proc.devRef .tc main_v391) = shapeCast S2x30x262144 A2 shapeCasts_S2x30x64x64x64_S2x30x262144) ∧
    (run2 V (Proc.devRef .tc main_v429) = frac0 A3) ∧
    (run2 V (Proc.devRef .tc main_v430) = frac1 A3) ∧
    (run2 V (Proc.devRef .tc main_v431) = frac2 A3) ∧
    (run2 V (Proc.devRef .tc main_v432) = base0 A3) ∧
    (run2 V (Proc.devRef .tc main_v433) = base1 A3) ∧
    (run2 V (Proc.devRef .tc main_v434) = base2 A3) ∧
    (run2 V (Proc.devRef .tc main_v527) = accT2 A2 A3) ∧
    (run2 V (Proc.devRef .tc main_v566) = K.maskedWeight (valid2 A3) (wgt2 A3)) ∧
    (run2 V (Proc.devRef .tc main_v567) = K.take30 (shapeCast S2x30x262144 A2 shapeCasts_S2x30x64x64x64_S2x30x262144) (K.lin (zi2 A3) (yi2 A3) (xi2 A3))) := by
  unfold run2
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · exact hvol
  · exact hf0
  · exact hf1
  · exact hf2
  · exact hb0
  · exact hb1
  · exact hb2
  · first | rw [hvals, hmw, hacc] | simp only [hvals, hmw, hacc]
    all_goals rfl
  · first | rw [hf0, hf1, hf2, hb0, hb1, hb2] | simp only [hf0, hf1, hf2, hb0, hb1, hb2]
    all_goals rfl
  · first | rw [hb0, hb1, hb2, hvol] | simp only [hb0, hb1, hb2, hvol]
    all_goals rfl

/-- The buffer contents after the nine stretches of host operations that end with corner 3's fetch, started from `V`. -/
@[reducible] def run3 (V : Valuation τ sig (Elt Ideal)) : Valuation τ sig (Elt Ideal) :=
  after (Gen.hostOps0_107 (F := Ideal)) (after (Gen.hostOps0_106 (F := Ideal)) (after (Gen.hostOps0_105 (F := Ideal)) (after (Gen.hostOps0_104 (F := Ideal)) (after (Gen.hostOps0_103 (F := Ideal)) (after (Gen.hostOps0_102 (F := Ideal)) (after (Gen.hostOps0_101 (F := Ideal)) (after (Gen.hostOps0_100 (F := Ideal)) (after (Gen.hostOps0_99 (F := Ideal)) V))))))))

set_option maxHeartbeats 4000000 in
/-- Corner 2's contribution is added and corner 3's masked weight and fetched voxels are computed: after stretches
    99 … 107 the ten buffers the next stretches read hold the stated terms, given that before them the ten buffers
    these stretches read held the stated terms. -/
theorem block3 (A2 : FVec Ideal S2x30x64x64x64 .f32) (A3 : FVec Ideal S2x12544x3 .f32) (V : Valuation τ sig (Elt Ideal))
    (hvol : V (Proc.devRef .tc main_v391) = shapeCast S2x30x262144 A2 shapeCasts_S2x30x64x64x64_S2x30x262144)
    (hf0 : V (Proc.devRef .tc main_v429) = frac0 A3)
    (hf1 : V (Proc.devRef .tc main_v430) = frac1 A3)
    (hf2 : V (Proc.devRef .tc main_v431) = frac2 A3)
    (hb0 : V (Proc.devRef .tc main_v432) = base0 A3)
    (hb1 : V (Proc.devRef .tc main_v433) = base1 A3)
    (hb2 : V (Proc.devRef .tc main_v434) = base2 A3)
    (hacc : V (Proc.devRef .tc main_v527) = accT2 A2 A3)
    (hmw : V (Proc.devRef .tc main_v566) = K.maskedWeight (valid2 A3) (wgt2 A3))
    (hvals : V (Proc.devRef .tc main_v567) = K.take30 (shapeCast S2x30x262144 A2 shapeCasts_S2x30x64x64x64_S2x30x262144) (K.lin (zi2 A3) (yi2 A3) (xi2 A3))) :
    (run3 V (Proc.devRef .tc main_v391) = shapeCast S2x30x262144 A2 shapeCasts_S2x30x64x64x64_S2x30x262144) ∧
    (run3 V (Proc.devRef .tc main_v429) = frac0 A3) ∧
    (run3 V (Proc.devRef .tc main_v430) = frac1 A3) ∧
    (run3 V (Proc.devRef .tc main_v431) = frac2 A3) ∧
    (run3 V (Proc.devRef .tc main_v432) = base0 A3) ∧
    (run3 V (Proc.devRef .tc main_v433) = base1 A3) ∧
    (run3 V (Proc.devRef .tc main_v434) = base2 A3) ∧
    (run3 V (Proc.devRef .tc main_v571) = accT3 A2 A3) ∧
    (run3 V (Proc.devRef .tc main_v608) = K.maskedWeight (valid3 A3) (wgt3 A3)) ∧
    (run3 V (Proc.devRef .tc main_v609) = K.take30 (shapeCast S2x30x262144 A2 shapeCasts_S2x30x64x64x64_S2x30x262144) (K.lin (zi3 A3) (yi3 A3) (xi3 A3))) := by
  unfold run3
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · exact hvol
  · exact hf0
  · exact hf1
  · exact hf2
  · exact hb0
  · exact hb1
  · exact hb2
  · first | rw [hvals, hmw, hacc] | simp only [hvals, hmw, hacc]
    all_goals rfl
  · first | rw [hf0, hf1, hf2, hb0, hb1, hb2] | simp only [hf0, hf1, hf2, hb0, hb1, hb2]
    all_goals rfl
  · first | rw [hb0, hb1, hb2, hvol] | simp only [hb0, hb1, hb2, hvol]
    all_goals rfl

/-- The buffer contents after the nine stretches of host operations that end with corner 4's fetch, started from `V`. -/
@[reducible] def run4 (V : Valuation τ sig (Elt Ideal)) : Valuation τ sig (Elt Ideal) :=
  after (Gen.hostOps0_116 (F := Ideal)) (after (Gen.hostOps0_115 (F := Ideal)) (after (Gen.hostOps0_114 (F := Ideal)) (after (Gen.hostOps0_113 (F := Ideal)) (after (Gen.hostOps0_112 (F := Ideal)) (after (Gen.hostOps0_111 (F := Ideal)) (after (Gen.hostOps0_110 (F := Ideal)) (after (Gen.hostOps0_109 (F := Ideal)) (after (Gen.hostOps0_108 (F := Ideal)) V))))))))

set_option maxHeartbeats 4000000 in
/-- Corner 3's contribution is added and corner 4's masked weight and fetched voxels are computed: after stretches
    108 … 116 the ten buffers the next stretches read hold the stated terms, given that before them the ten buffers
    these stretches read held the stated terms. -/
theorem block4 (A2 : FVec Ideal S2x30x64x64x64 .f32) (A3 : FVec Ideal S2x12544x3 .f32) (V : Valuation τ sig (Elt Ideal))
    (hvol : V (Proc.devRef .tc main_v391) = shapeCast S2x30x262144 A2 shapeCasts_S2x30x64x64x64_S2x30x262144)
    (hf0 : V (Proc.devRef .tc main_v429) = frac0 A3)
    (hf1 : V (Proc.devRef .tc main_v430) = frac1 A3)
    (hf2 : V (Proc.devRef .tc main_v431) = frac2 A3)
    (hb0 : V (Proc.devRef .tc main_v432) = base0 A3)
    (hb1 : V (Proc.devRef .tc main_v433) = base1 A3)
    (hb2 : V (Proc.devRef .tc main_v434) = base2 A3)
    (hacc : V (Proc.devRef .tc main_v571) = accT3 A2 A3)
    (hmw : V (Proc.devRef .tc main_v608) = K.maskedWeight (valid3 A3) (wgt3 A3))
    (hvals : V (Proc.devRef .tc main_v609) = K.take30 (shapeCast S2x30x262144 A2 shapeCasts_S2x30x64x64x64_S2x30x262144) (K.lin (zi3 A3) (yi3 A3) (xi3 A3))) :
    (run4 V (Proc.devRef .tc main_v391) = shapeCast S2x30x262144 A2 shapeCasts_S2x30x64x64x64_S2x30x262144) ∧
    (run4 V (Proc.devRef .tc main_v429) = frac0 A3) ∧
    (run4 V (Proc.devRef .tc main_v430) = frac1 A3) ∧
    (run4 V (Proc.devRef .tc main_v431) = frac2 A3) ∧
    (run4 V (Proc.devRef .tc main_v432) = base0 A3) ∧
    (run4 V (Proc.devRef .tc main_v433) = base1 A3) ∧
    (run4 V (Proc.devRef .tc main_v434) = base2 A3) ∧
    (run4 V (Proc.devRef .tc main_v613) = accT4 A2 A3) ∧
    (run4 V (Proc.devRef .tc main_v652) = K.maskedWeight (valid4 A3) (wgt4 A3)) ∧
    (run4 V (Proc.devRef .tc main_v653) = K.take30 (shapeCast S2x30x262144 A2 shapeCasts_S2x30x64x64x64_S2x30x262144) (K.lin (zi4 A3) (yi4 A3) (xi4 A3))) := by
  unfold run4
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · exact hvol
  · exact hf0
  · exact hf1
  · exact hf2
  · exact hb0
  · exact hb1
  · exact hb2
  · first | rw [hvals, hmw, hacc] | simp only [hvals, hmw, hacc]
    all_goals rfl
  · first | rw [hf0, hf1, hf2, hb0, hb1, hb2] | simp only [hf0, hf1, hf2, hb0, hb1, hb2]
    all_goals rfl
  · first | rw [hb0, hb1, hb2, hvol] | simp only [hb0, hb1, hb2, hvol]
    all_goals rfl

/-- The buffer contents after the nine stretches of host operations that end with corner 5's fetch, started from `V`. -/
@[reducible] def run5 (V : Valuation τ sig (Elt Ideal)) : Valuation τ sig (Elt Ideal) :=
  after (Gen.hostOps0_125 (F := Ideal)) (after (Gen.hostOps0_124 (F := Ideal)) (after (Gen.hostOps0_123 (F := Ideal)) (after (Gen.hostOps0_122 (F := Ideal)) (after (Gen.hostOps0_121 (F := Ideal)) (after (Gen.hostOps0_120 (F := Ideal)) (after (Gen.hostOps0_119 (F := Ideal)) (after (Gen.hostOps0_118 (F := Ideal)) (after (Gen.hostOps0_117 (F := Ideal)) V))))))))

set_option maxHeartbeats 4000000 in
/-- Corner 4's contribution is added and corner 5's masked weight and fetched voxels are computed: after stretches
    117 … 125 the ten buffers the next stretches read hold the stated terms, given that before them the ten buffers
    these stretches read held the stated terms. -/
theorem block5 (A2 : FVec Ideal S2x30x64x64x64 .f32) (A3 : FVec Ideal S2x12544x3 .f32) (V : Valuation τ sig (Elt Ideal))
    (hvol : V (Proc.devRef .tc main_v391) = shapeCast S2x30x262144 A2 shapeCasts_S2x30x64x64x64_S2x30x262144)
    (hf0 : V (Proc.devRef .tc main_v429) = frac0 A3)
    (hf1 : V (Proc.devRef .tc main_v430) = frac1 A3)
    (hf2 : V (Proc.devRef .tc main_v431) = frac2 A3)
    (hb0 : V (Proc.devRef .tc main_v432) = base0 A3)
    (hb1 : V (Proc.devRef .tc main_v433) = base1 A3)
    (hb2 : V (Proc.devRef .tc main_v434) = base2 A3)
    (hacc : V (Proc.devRef .tc main_v613) = accT4 A2 A3)
    (hmw : V (Proc.devRef .tc main_v652) = K.maskedWeight (valid4 A3) (wgt4 A3))
    (hvals : V (Proc.devRef .tc main_v653) = K.take30 (shapeCast S2x30x262144 A2 shapeCasts_S2x30x64x64x64_S2x30x262144) (K.lin (zi4 A3) (yi4 A3) (xi4 A3))) :
    (run5 V (Proc.devRef .tc main_v391) = shapeCast S2x30x262144 A2 shapeCasts_S2x30x64x64x64_S2x30x262144) ∧
    (run5 V (Proc.devRef .tc main_v429) = frac0 A3) ∧
    (run5 V (Proc.devRef .tc main_v430) = frac1 A3) ∧
    (run5 V (Proc.devRef .tc main_v431) = frac2 A3) ∧
    (run5 V (Proc.devRef .tc main_v432) = base0 A3) ∧
    (run5 V (Proc.devRef .tc main_v433) = base1 A3) ∧
    (run5 V (Proc.devRef .tc main_v434) = base2 A3) ∧
    (run5 V (Proc.devRef .tc main_v657) = accT5 A2 A3) ∧
    (run5 V (Proc.devRef .tc main_v694) = K.maskedWeight (valid5 A3) (wgt5 A3)) ∧
    (run5 V (Proc.devRef .tc main_v695) = K.take30 (shapeCast S2x30x262144 A2 shapeCasts_S2x30x64x64x64_S2x30x262144) (K.lin (zi5 A3) (yi5 A3) (xi5 A3))) := by
  unfold run5
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · exact hvol
  · exact hf0
  · exact hf1
  · exact hf2
  · exact hb0
  · exact hb1
  · exact hb2
  · first | rw [hvals, hmw, hacc] | simp only [hvals, hmw, hacc]
    all_goals rfl
  · first | rw [hf0, hf1, hf2, hb0, hb1, hb2] | simp only [hf0, hf1, hf2, hb0, hb1, hb2]
    all_goals rfl
  · first | rw [hb0, hb1, hb2, hvol] | simp only [hb0, hb1, hb2, hvol]
    all_goals rfl

/-- The buffer contents after the nine stretches of host operations that end with corner 6's fetch, started from `V`. -/
@[reducible] def run6 (V : Valuation τ sig (Elt Ideal)) : Valuation τ sig (Elt Ideal) :=
  after (Gen.hostOps0_134 (F := Ideal)) (after (Gen.hostOps0_133 (F := Ideal)) (after (Gen.hostOps0_132 (F := Ideal)) (after (Gen.hostOps0_131 (F := Ideal)) (after (Gen.hostOps0_130 (F := Ideal)) (after (Gen.hostOps0_129 (F := Ideal)) (after (Gen.hostOps0_128 (F := Ideal)) (after (Gen.hostOps0_127 (F := Ideal)) (after (Gen.hostOps0_126 (F := Ideal)) V))))))))

set_option maxHeartbeats 4000000 in
/-- Corner 5's contribution is added and corner 6's masked weight and fetched voxels are computed: after stretches
    126 … 134 the ten buffers the next stretches read hold the stated terms, given that before them the ten buffers
    these stretches read held the stated terms. -/
theorem block6 (A2 : FVec Ideal S2x30x64x64x64 .f32) (A3 : FVec Ideal S2x12544x3 .f32) (V : Valuation τ sig (Elt Ideal))
    (hvol : V (Proc.devRef .tc main_v391) = shapeCast S2x30x262144 A2 shapeCasts_S2x30x64x64x64_S2x30x262144)
    (hf0 : V (Proc.devRef .tc main_v429) = frac0 A3)
    (hf1 : V (Proc.devRef .tc main_v430) = frac1 A3)
    (hf2 : V (Proc.devRef .tc main_v431) = frac2 A3)
    (hb0 : V (Proc.devRef .tc main_v432) = base0 A3)
    (hb1 : V (Proc.devRef .tc main_v433) = base1 A3)
    (hb2 : V (Proc.devRef .tc main_v434) = base2 A3)
    (hacc : V (Proc.devRef .tc main_v657) = accT5 A2 A3)
    (hmw : V (Proc.devRef .tc main_v694) = K.maskedWeight (valid5 A3) (wgt5 A3))
    (hvals : V (Proc.devRef .tc main_v695) = K.take30 (shapeCast S2x30x262144 A2 shapeCasts_S2x30x64x64x64_S2x30x262144) (K.lin (zi5 A3) (yi5 A3) (xi5 A3))) :
    (run6 V (Proc.devRef .tc main_v391) = shapeCast S2x30x262144 A2 shapeCasts_S2x30x64x64x64_S2x30x262144) ∧
    (run6 V (Proc.devRef .tc main_v429) = frac0 A3) ∧
    (run6 V (Proc.devRef .tc main_v430) = frac1 A3) ∧
    (run6 V (Proc.devRef .tc main_v431) = frac2 A3) ∧
    (run6 V (Proc.devRef .tc main_v432) = base0 A3) ∧
    (run6 V (Proc.devRef .tc main_v433) = base1 A3) ∧
    (run6 V (Proc.devRef .tc main_v434) = base2 A3) ∧
    (run6 V (Proc.devRef .tc main_v699) = accT6 A2 A3) ∧
    (run6 V (Proc.devRef .tc main_v736) = K.maskedWeight (valid6 A3) (wgt6 A3)) ∧
    (run6 V (Proc.devRef .tc main_v737) = K.take30 (shapeCast S2x30x262144 A2 shapeCasts_S2x30x64x64x64_S2x30x262144) (K.lin (zi6 A3) (yi6 A3) (xi6 A3))) := by
  unfold run6
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · exact hvol
  · exact hf0
  · exact hf1
  · exact hf2
  · exact hb0
  · exact hb1
  · exact hb2
  · first | rw [hvals, hmw, hacc] | simp only [hvals, hmw, hacc]
    all_goals rfl
  · first | rw [hf0, hf1, hf2, hb0, hb1, hb2] | simp only [hf0, hf1, hf2, hb0, hb1, hb2]
    all_goals rfl
  · first | rw [hb0, hb1, hb2, hvol] | simp only [hb0, hb1, hb2, hvol]
    all_goals rfl

/-- The buffer contents after the nine stretches of host operations that end with corner 7's fetch, started from `V`. -/
@[reducible] def run7 (V : Valuation τ sig (Elt Ideal)) : Valuation τ sig (Elt Ideal) :=
  after (Gen.hostOps0_143 (F := Ideal)) (after (Gen.hostOps0_142 (F := Ideal)) (after (Gen.hostOps0_141 (F := Ideal)) (after (Gen.hostOps0_140 (F := Ideal)) (after (Gen.hostOps0_139 (F := Ideal)) (after (Gen.hostOps0_138 (F := Ideal)) (after (Gen.hostOps0_137 (F := Ideal)) (after (Gen.hostOps0_136 (F := Ideal)) (after (Gen.hostOps0_135 (F := Ideal)) V))))))))

set_option maxHeartbeats 4000000 in
/-- Corner 6's contribution is added and corner 7's masked weight and fetched voxels are computed: after stretches
    135 … 143 the ten buffers the next stretches read hold the stated terms, given that before them the ten buffers
    these stretches read held the stated terms. -/
theorem block7 (A2 : FVec Ideal S2x30x64x64x64 .f32) (A3 : FVec Ideal S2x12544x3 .f32) (V : Valuation τ sig (Elt Ideal))
    (hvol : V (Proc.devRef .tc main_v391) = shapeCast S2x30x262144 A2 shapeCasts_S2x30x64x64x64_S2x30x262144)
    (hf0 : V (Proc.devRef .tc main_v429) = frac0 A3)
    (hf1 : V (Proc.devRef .tc main_v430) = frac1 A3)
    (hf2 : V (Proc.devRef .tc main_v431) = frac2 A3)
    (hb0 : V (Proc.devRef .tc main_v432) = base0 A3)
    (hb1 : V (Proc.devRef .tc main_v433) = base1 A3)
    (hb2 : V (Proc.devRef .tc main_v434) = base2 A3)
    (hacc : V (Proc.devRef .tc main_v699) = accT6 A2 A3)
    (hmw : V (Proc.devRef .tc main_v736) = K.maskedWeight (valid6 A3) (wgt6 A3))
    (hvals : V (Proc.devRef .tc main_v737) = K.take30 (shapeCast S2x30x262144 A2 shapeCasts_S2x30x64x64x64_S2x30x262144) (K.lin (zi6 A3) (yi6 A3) (xi6 A3))) :
    (run7 V (Proc.devRef .tc main_v391) = shapeCast S2x30x262144 A2 shapeCasts_S2x30x64x64x64_S2x30x262144) ∧
    (run7 V (Proc.devRef .tc main_v429) = frac0 A3) ∧
    (run7 V (Proc.devRef .tc main_v430) = frac1 A3) ∧
    (run7 V (Proc.devRef .tc main_v431) = frac2 A3) ∧
    (run7 V (Proc.devRef .tc main_v432) = base0 A3) ∧
    (run7 V (Proc.devRef .tc main_v433) = base1 A3) ∧
    (run7 V (Proc.devRef .tc main_v434) = base2 A3) ∧
    (run7 V (Proc.devRef .tc main_v741) = accT7 A2 A3) ∧
    (run7 V (Proc.devRef .tc main_v776) = K.maskedWeight (valid7 A3) (wgt7 A3)) ∧
    (run7 V (Proc.devRef .tc main_v777) = K.take30 (shapeCast S2x30x262144 A2 shapeCasts_S2x30x64x64x64_S2x30x262144) (K.lin (zi7 A3) (yi7 A3) (xi7 A3))) := by
  unfold run7
  -- one pass reads all ten buffers off the fold of the operations' results
  after_results_simp
  -- the called functions' operations carry their operands along equations between equal types: drop the transports
  simp only [cast_eq]
  refine ⟨?_, ?_, ?_, ?_, ?_, ?_, ?_, ?_, ?_, ?_⟩
  · exact hvol
  · exact hf0
  · exact hf1
  · exact hf2
  · exact hb0
  · exact hb1
  · exact hb2
  · first | rw [hvals, hmw, hacc] | simp only [hvals, hmw, hacc]
    all_goals rfl
  · first | rw [hf0, hf1, hf2, hb0, hb1, hb2] | simp only [hf0, hf1, hf2, hb0, hb1, hb2]
    all_goals rfl
  · first | rw [hb0, hb1, hb2, hvol] | simp only [hb0, hb1, hb2, hvol]
    all_goals rfl

set_option maxHeartbeats 4000000 in
/-- Corner 7's contribution is added: after the last stretch the result buffer holds the sum of all eight contributions. -/
theorem block8 (A2 : FVec Ideal S2x30x64x64x64 .f32) (A3 : FVec Ideal S2x12544x3 .f32) (V : Valuation τ sig (Elt Ideal))
    (hacc : V (Proc.devRef .tc main_v741) = accT7 A2 A3)
    (hmw : V (Proc.devRef .tc main_v776) = K.maskedWeight (valid7 A3) (wgt7 A3))
    (hvals : V (Proc.devRef .tc main_v777) = K.take30 (shapeCast S2x30x262144 A2 shapeCasts_S2x30x64x64x64_S2x30x262144) (K.lin (zi7 A3) (yi7 A3) (xi7 A3))) :
    after (Gen.hostOps0_144 (F := Ideal)) V (Proc.devRef .tc main_v781) = tgt A2 A3 := by
  after_results_simp
  try simp only [cast_eq]
  first | rw [hvals, hmw, hacc] | simp only [hvals, hmw, hacc]
  all_goals rfl

set_option maxHeartbeats 4000000 in
/-- Stretch 72 writes neither the target-mask volume nor the point coordinates. -/
theorem keeps72 (V : Valuation τ sig (Elt Ideal)) : after (Gen.hostOps0_72 (F := Ideal)) V (Proc.devRef .tc main_arg2) = V (Proc.devRef .tc main_arg2)
    ∧ after (Gen.hostOps0_72 (F := Ideal)) V (Proc.devRef .tc main_arg3) = V (Proc.devRef .tc main_arg3) := by
  constructor <;> after_results_simp

set_option maxHeartbeats 4000000 in
/-- Stretch 73 writes neither the target-mask volume nor the point coordinates. -/
theorem keeps73 (V : Valuation τ sig (Elt Ideal)) : after (Gen.hostOps0_73 (F := Ideal)) V (Proc.devRef .tc main_arg2) = V (Proc.devRef .tc main_arg2)
    ∧ after (Gen.hostOps0_73 (F := Ideal)) V (Proc.devRef .tc main_arg3) = V (Proc.devRef .tc main_arg3) := by
  constructor <;> after_results_simp

set_option maxHeartbeats 4000000 in
/-- Stretch 74 writes neither the target-mask volume nor the point coordinates. -/
theorem keeps74 (V : Valuation τ sig (Elt Ideal)) : after (Gen.hostOps0_74 (F := Ideal)) V (Proc.devRef .tc main_arg2) = V (Proc.devRef .tc main_arg2)
    ∧ after (Gen.hostOps0_74 (F := Ideal)) V (Proc.devRef .tc main_arg3) = V (Proc.devRef .tc main_arg3) := by
  constructor <;> after_results_simp

set_option maxHeartbeats 4000000 in
/-- Stretch 75 writes neither the target-mask volume nor the point coordinates. -/
theorem keeps75 (V : Valuation τ sig (Elt Ideal)) : after (Gen.hostOps0_75 (F := Ideal)) V (Proc.devRef .tc main_arg2) = V (Proc.devRef .tc main_arg2)
    ∧ after (Gen.hostOps0_75 (F := Ideal)) V (Proc.devRef .tc main_arg3) = V (Proc.devRef .tc main_arg3) := by
  constructor <;> after_results_simp

set_option maxHeartbeats 4000000 in
/-- Stretch 76 writes neither the target-mask volume nor the point coordinates. -/
theorem keeps76 (V : Valuation τ sig (Elt Ideal)) : after (Gen.hostOps0_76 (F := Ideal)) V (Proc.devRef .tc main_arg2) = V (Proc.devRef .tc main_arg2)
    ∧ after (Gen.hostOps0_76 (F := Ideal)) V (Proc.devRef .tc main_arg3) = V (Proc.devRef .tc main_arg3) := by
  constructor <;> after_results_simp

set_option maxHeartbeats 4000000 in
/-- Stretch 77 writes neither the target-mask volume nor the point coordinates. -/
theorem keeps77 (V : Valuation τ sig (Elt Ideal)) : after (Gen.hostOps0_77 (F := Ideal)) V (Proc.devRef .tc main_arg2) = V (Proc.devRef .tc main_arg2)
    ∧ after (Gen.hostOps0_77 (F := Ideal)) V (Proc.devRef .tc main_arg3) = V (Proc.devRef .tc main_arg3) := by
  constructor <;> after_results_simp

set_option maxHeartbeats 4000000 in
/-- Stretch 78 writes neither the target-mask volume nor the point coordinates. -/
theorem keeps78 (V : Valuation τ sig (Elt Ideal)) : after (Gen.hostOps0_78 (F := Ideal)) V (Proc.devRef .tc main_arg2) = V (Proc.devRef .tc main_arg2)
    ∧ after (Gen.hostOps0_78 (F := Ideal)) V (Proc.devRef .tc main_arg3) = V (Proc.devRef .tc main_arg3) := by
  constructor <;> after_results_simp

set_option maxHeartbeats 4000000 in
/-- Stretch 79 writes neither the target-mask volume nor the point coordinates. -/
theorem keeps79 (V : Valuation τ sig (Elt Ideal)) : after (Gen.hostOps0_79 (F := Ideal)) V (Proc.devRef .tc main_arg2) = V (Proc.devRef .tc main_arg2)
    ∧ after (Gen.hostOps0_79 (F := Ideal)) V (Proc.devRef .tc main_arg3) = V (Proc.devRef .tc main_arg3) := by
  constructor <;> after_results_simp

set_option maxHeartbeats 4000000 in
/-- Stretch 80 writes neither the target-mask volume nor the point coordinates. -/
theorem keeps80 (V : Valuation τ sig (Elt Ideal)) : after (Gen.hostOps0_80 (F := Ideal)) V (Proc.devRef .tc main_arg2) = V (Proc.devRef .tc main_arg2)
    ∧ after (Gen.hostOps0_80 (F := Ideal)) V (Proc.devRef .tc main_arg3) = V (Proc.devRef .tc main_arg3) := by
  constructor <;> after_results_simp

set_option maxHeartbeats 4000000 in
/-- Stretch 81 writes neither the target-mask volume nor the point coordinates. -/
theorem keeps81 (V : Valuation τ sig (Elt Ideal)) : after (Gen.hostOps0_81 (F := Ideal)) V (Proc.devRef .tc main_arg2) = V (Proc.devRef .tc main_arg2)
    ∧ after (Gen.hostOps0_81 (F := Ideal)) V (Proc.devRef .tc main_arg3) = V (Proc.devRef .tc main_arg3) := by
  constructor <;> after_results_simp

set_option maxHeartbeats 4000000 in
/-- Stretch 82 writes neither the target-mask volume nor the point coordinates. -/
theorem keeps82 (V : Valuation τ sig (Elt Ideal)) : after (Gen.hostOps0_82 (F := Ideal)) V (Proc.devRef .tc main_arg2) = V (Proc.devRef .tc main_arg2)
    ∧ after (Gen.hostOps0_82 (F := Ideal)) V (Proc.devRef .tc main_arg3) = V (Proc.devRef .tc main_arg3) := by
  constructor <;> after_results_simp

set_option maxHeartbeats 4000000 in
/-- Stretch 83 writes neither the target-mask volume nor the point coordinates. -/
theorem keeps83 (V : Valuation τ sig (Elt Ideal)) : after (Gen.hostOps0_83 (F := Ideal)) V (Proc.devRef .tc main_arg2) = V (Proc.devRef .tc main_arg2)
    ∧ after (Gen.hostOps0_83 (F := Ideal)) V (Proc.devRef .tc main_arg3) = V (Proc.devRef .tc main_arg3) := by
  constructor <;> after_results_simp

set_option maxHeartbeats 4000000 in
/-- Stretch 84 writes neither the target-mask volume nor the point coordinates. -/
theorem keeps84 (V : Valuation τ sig (Elt Ideal)) : after (Gen.hostOps0_84 (F := Ideal)) V (Proc.devRef .tc main_arg2) = V (Proc.devRef .tc main_arg2)
    ∧ after (Gen.hostOps0_84 (F := Ideal)) V (Proc.devRef .tc main_arg3) = V (Proc.devRef .tc main_arg3) := by
  constructor <;> after_results_simp

set_option maxHeartbeats 4000000 in
/-- Stretch 85 writes neither the target-mask volume nor the point coordinates. -/
theorem keeps85 (V : Valuation τ sig (Elt Ideal)) : after (Gen.hostOps0_85 (F := Ideal)) V (Proc.devRef .tc main_arg2) = V (Proc.devRef .tc main_arg2)
    ∧ after (Gen.hostOps0_85 (F := Ideal)) V (Proc.devRef .tc main_arg3) = V (Proc.devRef .tc main_arg3) := by
  constructor <;> after_results_simp

set_option maxHeartbeats 4000000 in
/-- Stretch 86 writes neither the target-mask volume nor the point coordinates. -/
theorem keeps86 (V : Valuation τ sig (Elt Ideal)) : after (Gen.hostOps0_86 (F := Ideal)) V (Proc.devRef .tc main_arg2) = V (Proc.devRef .tc main_arg2)
    ∧ after (Gen.hostOps0_86 (F := Ideal)) V (Proc.devRef .tc main_arg3) = V (Proc.devRef .tc main_arg3) := by
  constructor <;> after_results_simp

set_option maxHeartbeats 4000000 in
/-- Stretch 87 writes neither the target-mask volume nor the point coordinates. -/
theorem keeps87 (V : Valuation τ sig (Elt Ideal)) : after (Gen.hostOps0_87 (F := Ideal)) V (Proc.devRef .tc main_arg2) = V (Proc.devRef .tc main_arg2)
    ∧ after (Gen.hostOps0_87 (F := Ideal)) V (Proc.devRef .tc main_arg3) = V (Proc.devRef .tc main_arg3) := by
  constructor <;> after_results_simp

set_option maxHeartbeats 4000000 in
/-- Stretch 88 writes neither the target-mask volume nor the point coordinates. -/
theorem keeps88 (V : Valuation τ sig (Elt Ideal)) : after (Gen.hostOps0_88 (F := Ideal)) V (Proc.devRef .tc main_arg2) = V (Proc.devRef .tc main_arg2)
    ∧ after (Gen.hostOps0_88 (F := Ideal)) V (Proc.devRef .tc main_arg3) = V (Proc.devRef .tc main_arg3) := by
  constructor <;> after_results_simp

set_option maxHeartbeats 4000000 in
/-- Stretch 89 writes neither the target-mask volume nor the point coordinates. -/
theorem keeps89 (V : Valuation τ sig (Elt Ideal)) : after (Gen.hostOps0_89 (F := Ideal)) V (Proc.devRef .tc main_arg2) = V (Proc.devRef .tc main_arg2)
    ∧ after (Gen.hostOps0_89 (F := Ideal)) V (Proc.devRef .tc main_arg3) = V (Proc.devRef .tc main_arg3) := by
  constructor <;> after_results_simp

set_option maxHeartbeats 4000000 in
/-- Stretch 90 writes neither the target-mask volume nor the point coordinates. -/
theorem keeps90 (V : Valuation τ sig (Elt Ideal)) : after (Gen.hostOps0_90 (F := Ideal)) V (Proc.devRef .tc main_arg2) = V (Proc.devRef .tc main_arg2)
    ∧ after (Gen.hostOps0_90 (F := Ideal)) V (Proc.devRef .tc main_arg3) = V (Proc.devRef .tc main_arg3) := by
  constructor <;> after_results_simp

set_option maxHeartbeats 4000000 in
/-- Stretch 91 writes neither the target-mask volume nor the point coordinates. -/
theorem keeps91 (V : Valuation τ sig (Elt Ideal)) : after (Gen.hostOps0_91 (F := Ideal)) V (Proc.devRef .tc main_arg2) = V (Proc.devRef .tc main_arg2)
    ∧ after (Gen.hostOps0_91 (F := Ideal)) V (Proc.devRef .tc main_arg3) = V (Proc.devRef .tc main_arg3) := by
  constructor <;> after_results_simp

set_option maxHeartbeats 4000000 in
/-- Stretch 92 writes neither the target-mask volume nor the point coordinates. -/
theorem keeps92 (V : Valuation τ sig (Elt Ideal)) : after (Gen.hostOps0_92 (F := Ideal)) V (Proc.devRef .tc main_arg2) = V (Proc.devRef .tc main_arg2)
    ∧ after (Gen.hostOps0_92 (F := Ideal)) V (Proc.devRef .tc main_arg3) = V (Proc.devRef .tc main_arg3) := by
  constructor <;> after_results_simp

set_option maxHeartbeats 4000000 in
/-- Stretch 93 writes neither the target-mask volume nor the point coordinates. -/
theorem keeps93 (V : Valuation τ sig (Elt Ideal)) : after (Gen.hostOps0_93 (F := Ideal)) V (Proc.devRef .tc main_arg2) = V (Proc.devRef .tc main_arg2)
    ∧ after (Gen.hostOps0_93 (F := Ideal)) V (Proc.devRef .tc main_arg3) = V (Proc.devRef .tc main_arg3) := by
  constructor <;> after_results_simp

set_option maxHeartbeats 4000000 in
/-- Stretch 94 writes neither the target-mask volume nor the point coordinates. -/
theorem keeps94 (V : Valuation τ sig (Elt Ideal)) : after (Gen.hostOps0_94 (F := Ideal)) V (Proc.devRef .tc main_arg2) = V (Proc.devRef .tc main_arg2)
    ∧ after (Gen.hostOps0_94 (F := Ideal)) V (Proc.devRef .tc main_arg3) = V (Proc.devRef .tc main_arg3) := by
  constructor <;> after_results_simp

set_option maxHeartbeats 4000000 in
/-- Stretch 95 writes neither the target-mask volume nor the point coordinates. -/
theorem keeps95 (V : Valuation τ sig (Elt Ideal)) : after (Gen.hostOps0_95 (F := Ideal)) V (Proc.devRef .tc main_arg2) = V (Proc.devRef .tc main_arg2)
    ∧ after (Gen.hostOps0_95 (F := Ideal)) V (Proc.devRef .tc main_arg3) = V (Proc.devRef .tc main_arg3) := by
  constructor <;> after_results_simp

set_option maxHeartbeats 4000000 in
/-- Stretch 96 writes neither the target-mask volume nor the point coordinates. -/
theorem keeps96 (V : Valuation τ sig (Elt Ideal)) : after (Gen.hostOps0_96 (F := Ideal)) V (Proc.devRef .tc main_arg2) = V (Proc.devRef .tc main_arg2)
    ∧ after (Gen.hostOps0_96 (F := Ideal)) V (Proc.devRef .tc main_arg3) = V (Proc.devRef .tc main_arg3) := by
  constructor <;> after_results_simp

set_option maxHeartbeats 4000000 in
/-- Stretch 97 writes neither the target-mask volume nor the point coordinates. -/
theorem keeps97 (V : Valuation τ sig (Elt Ideal)) : after (Gen.hostOps0_97 (F := Ideal)) V (Proc.devRef .tc main_arg2) = V (Proc.devRef .tc main_arg2)
    ∧ after (Gen.hostOps0_97 (F := Ideal)) V (Proc.devRef .tc main_arg3) = V (Proc.devRef .tc main_arg3) := by
  constructor <;> after_results_simp

set_option maxHeartbeats 4000000 in
/-- Stretch 98 writes neither the target-mask volume nor the point coordinates. -/
theorem keeps98 (V : Valuation τ sig (Elt Ideal)) : after (Gen.hostOps0_98 (F := Ideal)) V (Proc.devRef .tc main_arg2) = V (Proc.devRef .tc main_arg2)
    ∧ after (Gen.hostOps0_98 (F := Ideal)) V (Proc.devRef .tc main_arg3) = V (Proc.devRef .tc main_arg3) := by
  constructor <;> after_results_simp

set_option maxHeartbeats 4000000 in
/-- Stretch 99 writes neither the target-mask volume nor the point coordinates. -/
theorem keeps99 (V : Valuation τ sig (Elt Ideal)) : after (Gen.hostOps0_99 (F := Ideal)) V (Proc.devRef .tc main_arg2) = V (Proc.devRef .tc main_arg2)
    ∧ after (Gen.hostOps0_99 (F := Ideal)) V (Proc.devRef .tc main_arg3) = V (Proc.devRef .tc main_arg3) := by
  constructor <;> after_results_simp

set_option maxHeartbeats 4000000 in
/-- Stretch 100 writes neither the target-mask volume nor the point coordinates. -/
theorem keeps100 (V : Valuation τ sig (Elt Ideal)) : after (Gen.hostOps0_100 (F := Ideal)) V (Proc.devRef .tc main_arg2) = V (Proc.devRef .tc main_arg2)
    ∧ after (Gen.hostOps0_100 (F := Ideal)) V (Proc.devRef .tc main_arg3) = V (Proc.devRef .tc main_arg3) := by
  constructor <;> after_results_simp

set_option maxHeartbeats 4000000 in
/-- Stretch 101 writes neither the target-mask volume nor the point coordinates. -/
theorem keeps101 (V : Valuation τ sig (Elt Ideal)) : after (Gen.hostOps0_101 (F := Ideal)) V (Proc.devRef .tc main_arg2) = V (Proc.devRef .tc main_arg2)
    ∧ after (Gen.hostOps0_101 (F := Ideal)) V (Proc.devRef .tc main_arg3) = V (Proc.devRef .tc main_arg3) := by
  constructor <;> after_results_simp

set_option maxHeartbeats 4000000 in
/-- Stretch 102 writes neither the target-mask volume nor the point coordinates. -/
theorem keeps102 (V : Valuation τ sig (Elt Ideal)) : after (Gen.hostOps0_102 (F := Ideal)) V (Proc.devRef .tc main_arg2) = V (Proc.devRef .tc main_arg2)
    ∧ after (Gen.hostOps0_102 (F := Ideal)) V (Proc.devRef .tc main_arg3) = V (Proc.devRef .tc main_arg3) := by
  constructor <;> after_results_simp

set_option maxHeartbeats 4000000 in
/-- Stretch 103 writes neither the target-mask volume nor the point coordinates. -/
theorem keeps103 (V : Valuation τ sig (Elt Ideal)) : after (Gen.hostOps0_103 (F := Ideal)) V (Proc.devRef .tc main_arg2) = V (Proc.devRef .tc main_arg2)
    ∧ after (Gen.hostOps0_103 (F := Ideal)) V (Proc.devRef .tc main_arg3) = V (Proc.devRef .tc main_arg3) := by
  constructor <;> after_results_simp

set_option maxHeartbeats 4000000 in
/-- Stretch 104 writes neither the target-mask volume nor the point coordinates. -/
theorem keeps104 (V : Valuation τ sig (Elt Ideal)) : after (Gen.hostOps0_104 (F := Ideal)) V (Proc.devRef .tc main_arg2) = V (Proc.devRef .tc main_arg2)
    ∧ after (Gen.hostOps0_104 (F := Ideal)) V (Proc.devRef .tc main_arg3) = V (Proc.devRef .tc main_arg3) := by
  constructor <;> after_results_simp

set_option maxHeartbeats 4000000 in
/-- Stretch 105 writes neither the target-mask volume nor the point coordinates. -/
theorem keeps105 (V : Valuation τ sig (Elt Ideal)) : after (Gen.hostOps0_105 (F := Ideal)) V (Proc.devRef .tc main_arg2) = V (Proc.devRef .tc main_arg2)
    ∧ after (Gen.hostOps0_105 (F := Ideal)) V (Proc.devRef .tc main_arg3) = V (Proc.devRef .tc main_arg3) := by
  constructor <;> after_results_simp

set_option maxHeartbeats 4000000 in
/-- Stretch 106 writes neither the target-mask volume nor the point coordinates. -/
theorem keeps106 (V : Valuation τ sig (Elt Ideal)) : after (Gen.hostOps0_106 (F := Ideal)) V (Proc.devRef .tc main_arg2) = V (Proc.devRef .tc main_arg2)
    ∧ after (Gen.hostOps0_106 (F := Ideal)) V (Proc.devRef .tc main_arg3) = V (Proc.devRef .tc main_arg3) := by
  constructor <;> after_results_simp

set_option maxHeartbeats 4000000 in
/-- Stretch 107 writes neither the target-mask volume nor the point coordinates. -/
theorem keeps107 (V : Valuation τ sig (Elt Ideal)) : after (Gen.hostOps0_107 (F := Ideal)) V (Proc.devRef .tc main_arg2) = V (Proc.devRef .tc main_arg2)
    ∧ after (Gen.hostOps0_107 (F := Ideal)) V (Proc.devRef .tc main_arg3) = V (Proc.devRef .tc main_arg3) := by
  constructor <;> after_results_simp

set_option maxHeartbeats 4000000 in
/-- Stretch 108 writes neither the target-mask volume nor the point coordinates. -/
theorem keeps108 (V : Valuation τ sig (Elt Ideal)) : after (Gen.hostOps0_108 (F := Ideal)) V (Proc.devRef .tc main_arg2) = V (Proc.devRef .tc main_arg2)
    ∧ after (Gen.hostOps0_108 (F := Ideal)) V (Proc.devRef .tc main_arg3) = V (Proc.devRef .tc main_arg3) := by
  constructor <;> after_results_simp

set_option maxHeartbeats 4000000 in
/-- Stretch 109 writes neither the target-mask volume nor the point coordinates. -/
theorem keeps109 (V : Valuation τ sig (Elt Ideal)) : after (Gen.hostOps0_109 (F := Ideal)) V (Proc.devRef .tc main_arg2) = V (Proc.devRef .tc main_arg2)
    ∧ after (Gen.hostOps0_109 (F := Ideal)) V (Proc.devRef .tc main_arg3) = V (Proc.devRef .tc main_arg3) := by
  constructor <;> after_results_simp

set_option maxHeartbeats 4000000 in
/-- Stretch 110 writes neither the target-mask volume nor the point coordinates. -/
theorem keeps110 (V : Valuation τ sig (Elt Ideal)) : after (Gen.hostOps0_110 (F := Ideal)) V (Proc.devRef .tc main_arg2) = V (Proc.devRef .tc main_arg2)
    ∧ after (Gen.hostOps0_110 (F := Ideal)) V (Proc.devRef .tc main_arg3) = V (Proc.devRef .tc main_arg3) := by
  constructor <;> after_results_simp

set_option maxHeartbeats 4000000 in
/-- Stretch 111 writes neither the target-mask volume nor the point coordinates. -/
theorem keeps111 (V : Valuation τ sig (Elt Ideal)) : after (Gen.hostOps0_111 (F := Ideal)) V (Proc.devRef .tc main_arg2) = V (Proc.devRef .tc main_arg2)
    ∧ after (Gen.hostOps0_111 (F := Ideal)) V (Proc.devRef .tc main_arg3) = V (Proc.devRef .tc main_arg3) := by
  constructor <;> after_results_simp

set_option maxHeartbeats 4000000 in
/-- Stretch 112 writes neither the target-mask volume nor the point coordinates. -/
theorem keeps112 (V : Valuation τ sig (Elt Ideal)) : after (Gen.hostOps0_112 (F := Ideal)) V (Proc.devRef .tc main_arg2) = V (Proc.devRef .tc main_arg2)
    ∧ after (Gen.hostOps0_112 (F := Ideal)) V (Proc.devRef .tc main_arg3) = V (Proc.devRef .tc main_arg3) := by
  constructor <;> after_results_simp

set_option maxHeartbeats 4000000 in
/-- Stretch 113 writes neither the target-mask volume nor the point coordinates. -/
theorem keeps113 (V : Valuation τ sig (Elt Ideal)) : after (Gen.hostOps0_113 (F := Ideal)) V (Proc.devRef .tc main_arg2) = V (Proc.devRef .tc main_arg2)
    ∧ after (Gen.hostOps0_113 (F := Ideal)) V (Proc.devRef .tc main_arg3) = V (Proc.devRef .tc main_arg3) := by
  constructor <;> after_results_simp

set_option maxHeartbeats 4000000 in
/-- Stretch 114 writes neither the target-mask volume nor the point coordinates. -/
theorem keeps114 (V : Valuation τ sig (Elt Ideal)) : after (Gen.hostOps0_114 (F := Ideal)) V (Proc.devRef .tc main_arg2) = V (Proc.devRef .tc main_arg2)
    ∧ after (Gen.hostOps0_114 (F := Ideal)) V (Proc.devRef .tc main_arg3) = V (Proc.devRef .tc main_arg3) := by
  constructor <;> after_results_simp

set_option maxHeartbeats 4000000 in
/-- Stretch 115 writes neither the target-mask volume nor the point coordinates. -/
theorem keeps115 (V : Valuation τ sig (Elt Ideal)) : after (Gen.hostOps0_115 (F := Ideal)) V (Proc.devRef .tc main_arg2) = V (Proc.devRef .tc main_arg2)
    ∧ after (Gen.hostOps0_115 (F := Ideal)) V (Proc.devRef .tc main_arg3) = V (Proc.devRef .tc main_arg3) := by
  constructor <;> after_results_simp

set_option maxHeartbeats 4000000 in
/-- Stretch 116 writes neither the target-mask volume nor the point coordinates. -/
theorem keeps116 (V : Valuation τ sig (Elt Ideal)) : after (Gen.hostOps0_116 (F := Ideal)) V (Proc.devRef .tc main_arg2) = V (Proc.devRef .tc main_arg2)
    ∧ after (Gen.hostOps0_116 (F := Ideal)) V (Proc.devRef .tc main_arg3) = V (Proc.devRef .tc main_arg3) := by
  constructor <;> after_results_simp

set_option maxHeartbeats 4000000 in
/-- Stretch 117 writes neither the target-mask volume nor the point coordinates. -/
theorem keeps117 (V : Valuation τ sig (Elt Ideal)) : after (Gen.hostOps0_117 (F := Ideal)) V (Proc.devRef .tc main_arg2) = V (Proc.devRef .tc main_arg2)
    ∧ after (Gen.hostOps0_117 (F := Ideal)) V (Proc.devRef .tc main_arg3) = V (Proc.devRef .tc main_arg3) := by
  constructor <;> after_results_simp

set_option maxHeartbeats 4000000 in
/-- Stretch 118 writes neither the target-mask volume nor the point coordinates. -/
theorem keeps118 (V : Valuation τ sig (Elt Ideal)) : after (Gen.hostOps0_118 (F := Ideal)) V (Proc.devRef .tc main_arg2) = V (Proc.devRef .tc main_arg2)
    ∧ after (Gen.hostOps0_118 (F := Ideal)) V (Proc.devRef .tc main_arg3) = V (Proc.devRef .tc main_arg3) := by
  constructor <;> after_results_simp

set_option maxHeartbeats 4000000 in
/-- Stretch 119 writes neither the target-mask volume nor the point coordinates. -/
theorem keeps119 (V : Valuation τ sig (Elt Ideal)) : after (Gen.hostOps0_119 (F := Ideal)) V (Proc.devRef .tc main_arg2) = V (Proc.devRef .tc main_arg2)
    ∧ after (Gen.hostOps0_119 (F := Ideal)) V (Proc.devRef .tc main_arg3) = V (Proc.devRef .tc main_arg3) := by
  constructor <;> after_results_simp

set_option maxHeartbeats 4000000 in
/-- Stretch 120 writes neither the target-mask volume nor the point coordinates. -/
theorem keeps120 (V : Valuation τ sig (Elt Ideal)) : after (Gen.hostOps0_120 (F := Ideal)) V (Proc.devRef .tc main_arg2) = V (Proc.devRef .tc main_arg2)
    ∧ after (Gen.hostOps0_120 (F := Ideal)) V (Proc.devRef .tc main_arg3) = V (Proc.devRef .tc main_arg3) := by
  constructor <;> after_results_simp

set_option maxHeartbeats 4000000 in
/-- Stretch 121 writes neither the target-mask volume nor the point coordinates. -/
theorem keeps121 (V : Valuation τ sig (Elt Ideal)) : after (Gen.hostOps0_121 (F := Ideal)) V (Proc.devRef .tc main_arg2) = V (Proc.devRef .tc main_arg2)
    ∧ after (Gen.hostOps0_121 (F := Ideal)) V (Proc.devRef .tc main_arg3) = V (Proc.devRef .tc main_arg3) := by
  constructor <;> after_results_simp

set_option maxHeartbeats 4000000 in
/-- Stretch 122 writes neither the target-mask volume nor the point coordinates. -/
theorem keeps122 (V : Valuation τ sig (Elt Ideal)) : after (Gen.hostOps0_122 (F := Ideal)) V (Proc.devRef .tc main_arg2) = V (Proc.devRef .tc main_arg2)
    ∧ after (Gen.hostOps0_122 (F := Ideal)) V (Proc.devRef .tc main_arg3) = V (Proc.devRef .tc main_arg3) := by
  constructor <;> after_results_simp

set_option maxHeartbeats 4000000 in
/-- Stretch 123 writes neither the target-mask volume nor the point coordinates. -/
theorem keeps123 (V : Valuation τ sig (Elt Ideal)) : after (Gen.hostOps0_123 (F := Ideal)) V (Proc.devRef .tc main_arg2) = V (Proc.devRef .tc main_arg2)
    ∧ after (Gen.hostOps0_123 (F := Ideal)) V (Proc.devRef .tc main_arg3) = V (Proc.devRef .tc main_arg3) := by
  constructor <;> after_results_simp

set_option maxHeartbeats 4000000 in
/-- Stretch 124 writes neither the target-mask volume nor the point coordinates. -/
theorem keeps124 (V : Valuation τ sig (Elt Ideal)) : after (Gen.hostOps0_124 (F := Ideal)) V (Proc.devRef .tc main_arg2) = V (Proc.devRef .tc main_arg2)
    ∧ after (Gen.hostOps0_124 (F := Ideal)) V (Proc.devRef .tc main_arg3) = V (Proc.devRef .tc main_arg3) := by
  constructor <;> after_results_simp

set_option maxHeartbeats 4000000 in
/-- Stretch 125 writes neither the target-mask volume nor the point coordinates. -/
theorem keeps125 (V : Valuation τ sig (Elt Ideal)) : after (Gen.hostOps0_125 (F := Ideal)) V (Proc.devRef .tc main_arg2) = V (Proc.devRef .tc main_arg2)
    ∧ after (Gen.hostOps0_125 (F := Ideal)) V (Proc.devRef .tc main_arg3) = V (Proc.devRef .tc main_arg3) := by
  constructor <;> after_results_simp

set_option maxHeartbeats 4000000 in
/-- Stretch 126 writes neither the target-mask volume nor the point coordinates. -/
theorem keeps126 (V : Valuation τ sig (Elt Ideal)) : after (Gen.hostOps0_126 (F := Ideal)) V (Proc.devRef .tc main_arg2) = V (Proc.devRef .tc main_arg2)
    ∧ after (Gen.hostOps0_126 (F := Ideal)) V (Proc.devRef .tc main_arg3) = V (Proc.devRef .tc main_arg3) := by
  constructor <;> after_results_simp

set_option maxHeartbeats 4000000 in
/-- Stretch 127 writes neither the target-mask volume nor the point coordinates. -/
theorem keeps127 (V : Valuation τ sig (Elt Ideal)) : after (Gen.hostOps0_127 (F := Ideal)) V (Proc.devRef .tc main_arg2) = V (Proc.devRef .tc main_arg2)
    ∧ after (Gen.hostOps0_127 (F := Ideal)) V (Proc.devRef .tc main_arg3) = V (Proc.devRef .tc main_arg3) := by
  constructor <;> after_results_simp

set_option maxHeartbeats 4000000 in
/-- Stretch 128 writes neither the target-mask volume nor the point coordinates. -/
theorem keeps128 (V : Valuation τ sig (Elt Ideal)) : after (Gen.hostOps0_128 (F := Ideal)) V (Proc.devRef .tc main_arg2) = V (Proc.devRef .tc main_arg2)
    ∧ after (Gen.hostOps0_128 (F := Ideal)) V (Proc.devRef .tc main_arg3) = V (Proc.devRef .tc main_arg3) := by
  constructor <;> after_results_simp

set_option maxHeartbeats 4000000 in
/-- Stretch 129 writes neither the target-mask volume nor the point coordinates. -/
theorem keeps129 (V : Valuation τ sig (Elt Ideal)) : after (Gen.hostOps0_129 (F := Ideal)) V (Proc.devRef .tc main_arg2) = V (Proc.devRef .tc main_arg2)
    ∧ after (Gen.hostOps0_129 (F := Ideal)) V (Proc.devRef .tc main_arg3) = V (Proc.devRef .tc main_arg3) := by
  constructor <;> after_results_simp

set_option maxHeartbeats 4000000 in
/-- Stretch 130 writes neither the target-mask volume nor the point coordinates. -/
theorem keeps130 (V : Valuation τ sig (Elt Ideal)) : after (Gen.hostOps0_130 (F := Ideal)) V (Proc.devRef .tc main_arg2) = V (Proc.devRef .tc main_arg2)
    ∧ after (Gen.hostOps0_130 (F := Ideal)) V (Proc.devRef .tc main_arg3) = V (Proc.devRef .tc main_arg3) := by
  constructor <;> after_results_simp

set_option maxHeartbeats 4000000 in
/-- Stretch 131 writes neither the target-mask volume nor the point coordinates. -/
theorem keeps131 (V : Valuation τ sig (Elt Ideal)) : after (Gen.hostOps0_131 (F := Ideal)) V (Proc.devRef .tc main_arg2) = V (Proc.devRef .tc main_arg2)
    ∧ after (Gen.hostOps0_131 (F := Ideal)) V (Proc.devRef .tc main_arg3) = V (Proc.devRef .tc main_arg3) := by
  constructor <;> after_results_simp

set_option maxHeartbeats 4000000 in
/-- Stretch 132 writes neither the target-mask volume nor the point coordinates. -/
theorem keeps132 (V : Valuation τ sig (Elt Ideal)) : after (Gen.hostOps0_132 (F := Ideal)) V (Proc.devRef .tc main_arg2) = V (Proc.devRef .tc main_arg2)
    ∧ after (Gen.hostOps0_132 (F := Ideal)) V (Proc.devRef .tc main_arg3) = V (Proc.devRef .tc main_arg3) := by
  constructor <;> after_results_simp

set_option maxHeartbeats 4000000 in
/-- Stretch 133 writes neither the target-mask volume nor the point coordinates. -/
theorem keeps133 (V : Valuation τ sig (Elt Ideal)) : after (Gen.hostOps0_133 (F := Ideal)) V (Proc.devRef .tc main_arg2) = V (Proc.devRef .tc main_arg2)
    ∧ after (Gen.hostOps0_133 (F := Ideal)) V (Proc.devRef .tc main_arg3) = V (Proc.devRef .tc main_arg3) := by
  constructor <;> after_results_simp

set_option maxHeartbeats 4000000 in
/-- Stretch 134 writes neither the target-mask volume nor the point coordinates. -/
theorem keeps134 (V : Valuation τ sig (Elt Ideal)) : after (Gen.hostOps0_134 (F := Ideal)) V (Proc.devRef .tc main_arg2) = V (Proc.devRef .tc main_arg2)
    ∧ after (Gen.hostOps0_134 (F := Ideal)) V (Proc.devRef .tc main_arg3) = V (Proc.devRef .tc main_arg3) := by
  constructor <;> after_results_simp

set_option maxHeartbeats 4000000 in
/-- Stretch 135 writes neither the target-mask volume nor the point coordinates. -/
theorem keeps135 (V : Valuation τ sig (Elt Ideal)) : after (Gen.hostOps0_135 (F := Ideal)) V (Proc.devRef .tc main_arg2) = V (Proc.devRef .tc main_arg2)
    ∧ after (Gen.hostOps0_135 (F := Ideal)) V (Proc.devRef .tc main_arg3) = V (Proc.devRef .tc main_arg3) := by
  constructor <;> after_results_simp

set_option maxHeartbeats 4000000 in
/-- Stretch 136 writes neither the target-mask volume nor the point coordinates. -/
theorem keeps136 (V : Valuation τ sig (Elt Ideal)) : after (Gen.hostOps0_136 (F := Ideal)) V (Proc.devRef .tc main_arg2) = V (Proc.devRef .tc main_arg2)
    ∧ after (Gen.hostOps0_136 (F := Ideal)) V (Proc.devRef .tc main_arg3) = V (Proc.devRef .tc main_arg3) := by
  constructor <;> after_results_simp

set_option maxHeartbeats 4000000 in
/-- Stretch 137 writes neither the target-mask volume nor the point coordinates. -/
theorem keeps137 (V : Valuation τ sig (Elt Ideal)) : after (Gen.hostOps0_137 (F := Ideal)) V (Proc.devRef .tc main_arg2) = V (Proc.devRef .tc main_arg2)
    ∧ after (Gen.hostOps0_137 (F := Ideal)) V (Proc.devRef .tc main_arg3) = V (Proc.devRef .tc main_arg3) := by
  constructor <;> after_results_simp

set_option maxHeartbeats 4000000 in
/-- Stretch 138 writes neither the target-mask volume nor the point coordinates. -/
theorem keeps138 (V : Valuation τ sig (Elt Ideal)) : after (Gen.hostOps0_138 (F := Ideal)) V (Proc.devRef .tc main_arg2) = V (Proc.devRef .tc main_arg2)
    ∧ after (Gen.hostOps0_138 (F := Ideal)) V (Proc.devRef .tc main_arg3) = V (Proc.devRef .tc main_arg3) := by
  constructor <;> after_results_simp

set_option maxHeartbeats 4000000 in
/-- Stretch 139 writes neither the target-mask volume nor the point coordinates. -/
theorem keeps139 (V : Valuation τ sig (Elt Ideal)) : after (Gen.hostOps0_139 (F := Ideal)) V (Proc.devRef .tc main_arg2) = V (Proc.devRef .tc main_arg2)
    ∧ after (Gen.hostOps0_139 (F := Ideal)) V (Proc.devRef .tc main_arg3) = V (Proc.devRef .tc main_arg3) := by
  constructor <;> after_results_simp

set_option maxHeartbeats 4000000 in
/-- Stretch 140 writes neither the target-mask volume nor the point coordinates. -/
theorem keeps140 (V : Valuation τ sig (Elt Ideal)) : after (Gen.hostOps0_140 (F := Ideal)) V (Proc.devRef .tc main_arg2) = V (Proc.devRef .tc main_arg2)
    ∧ after (Gen.hostOps0_140 (F := Ideal)) V (Proc.devRef .tc main_arg3) = V (Proc.devRef .tc main_arg3) := by
  constructor <;> after_results_simp

set_option maxHeartbeats 4000000 in
/-- Stretch 141 writes neither the target-mask volume nor the point coordinates. -/
theorem keeps141 (V : Valuation τ sig (Elt Ideal)) : after (Gen.hostOps0_141 (F := Ideal)) V (Proc.devRef .tc main_arg2) = V (Proc.devRef .tc main_arg2)
    ∧ after (Gen.hostOps0_141 (F := Ideal)) V (Proc.devRef .tc main_arg3) = V (Proc.devRef .tc main_arg3) := by
  constructor <;> after_results_simp

set_option maxHeartbeats 4000000 in
/-- Stretch 142 writes neither the target-mask volume nor the point coordinates. -/
theorem keeps142 (V : Valuation τ sig (Elt Ideal)) : after (Gen.hostOps0_142 (F := Ideal)) V (Proc.devRef .tc main_arg2) = V (Proc.devRef .tc main_arg2)
    ∧ after (Gen.hostOps0_142 (F := Ideal)) V (Proc.devRef .tc main_arg3) = V (Proc.devRef .tc main_arg3) := by
  constructor <;> after_results_simp

set_option maxHeartbeats 4000000 in
/-- Stretch 143 writes neither the target-mask volume nor the point coordinates. -/
theorem keeps143 (V : Valuation τ sig (Elt Ideal)) : after (Gen.hostOps0_143 (F := Ideal)) V (Proc.devRef .tc main_arg2) = V (Proc.devRef .tc main_arg2)
    ∧ after (Gen.hostOps0_143 (F := Ideal)) V (Proc.devRef .tc main_arg3) = V (Proc.devRef .tc main_arg3) := by
  constructor <;> after_results_simp

set_option maxHeartbeats 4000000 in
/-- Stretch 144 writes neither the target-mask volume nor the point coordinates. -/
theorem keeps144 (V : Valuation τ sig (Elt Ideal)) : after (Gen.hostOps0_144 (F := Ideal)) V (Proc.devRef .tc main_arg2) = V (Proc.devRef .tc main_arg2)
    ∧ after (Gen.hostOps0_144 (F := Ideal)) V (Proc.devRef .tc main_arg3) = V (Proc.devRef .tc main_arg3) := by
  constructor <;> after_results_simp

end Cert.Bridge.K30c

end
-- ==== Proof.KernelTgtRead.lean ====
/-
  The kernel program's host operations, read: the buffer the second sampling pass leaves its result in holds
  `Cert.Bridge.K30.tgt` of the argument arrays.

  The list of 145 stretches is read stretch by stretch: the contents after a list of stretches joined are the contents
  after the later ones started from the contents after the first. Stretches 72 … 144 are the nine blocks of the block
  lemmas, chained: each block's ten buffers are the next block's hypotheses. The pass starts from the contents after
  stretches 0 … 71, of which it reads only the target-mask volume and the point coordinates; these are as launched after
  the whole list, and stretches 72 … 144 do not write them, so they are as launched there too.
-/
import proofs.«103167_j42614665511136_1_alg».proof.Proof.KernelTgtBlocks

set_option maxRecDepth 16384

noncomputable section

open Idealize.ShloMosaic Idealize.ShloMosaic.TcCoe Idealize.SL.Sem Idealize.ShloMosaic.StableHlo

namespace Cert.Bridge.K30c
open Cert.KernelIdeal Cert.KernelIdeal.Facts₀ Cert.KernelIdeal.Facts Cert.Bridge.K30

/-- `after_flatten_cons` read at one buffer. -/
theorem after_flatten_cons_apply (l : List (HloOp τ sig (Elt Ideal))) (ls : List (List (HloOp τ sig (Elt Ideal))))
    (V : Valuation τ sig (Elt Ideal)) (b : DevRef τ sig) :
    after (List.flatten (l :: ls)) V b = after (List.flatten ls) (after l V) b :=
  congrFun (after_flatten_cons l ls V) b

/-- No stretches left: the contents stay. -/
theorem after_flatten_nil_apply (V : Valuation τ sig (Elt Ideal)) (b : DevRef τ sig) :
    after (List.flatten ([] : List (List (HloOp τ sig (Elt Ideal))))) V b = V b := rfl

set_option maxHeartbeats 4000000 in
/-- WHAT THE LAUNCH FINDS IN THE SAMPLED-TARGETS ARRAY: `tgt` of the target-mask volume and the point coordinates as launched. -/
theorem V_tgt (m : (ℓ : Loc nD τ sig) → Buf (Elt Ideal) ℓ) (c : Dev Cert.KernelIdeal.nD) :
    Cert.KernelIdeal.GenP.V m c Cert.KernelIdeal.main_v781
      = Cert.Bridge.K30.tgt (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  -- before the second pass the two arguments are as launched
  have k2 : (after (Gen.hostOps0_71 (F := Ideal)) (after (Gen.hostOps0_70 (F := Ideal)) (after (Gen.hostOps0_69 (F := Ideal)) (after (Gen.hostOps0_68 (F := Ideal)) (after (Gen.hostOps0_67 (F := Ideal)) (after (Gen.hostOps0_66 (F := Ideal)) (after (Gen.hostOps0_65 (F := Ideal)) (after (Gen.hostOps0_64 (F := Ideal)) (after (Gen.hostOps0_63 (F := Ideal)) (after (Gen.hostOps0_62 (F := Ideal)) (after (Gen.hostOps0_61 (F := Ideal)) (after (Gen.hostOps0_60 (F := Ideal)) (after (Gen.hostOps0_59 (F := Ideal)) (after (Gen.hostOps0_58 (F := Ideal)) (after (Gen.hostOps0_57 (F := Ideal)) (after (Gen.hostOps0_56 (F := Ideal)) (after (Gen.hostOps0_55 (F := Ideal)) (after (Gen.hostOps0_54 (F := Ideal)) (after (Gen.hostOps0_53 (F := Ideal)) (after (Gen.hostOps0_52 (F := Ideal)) (after (Gen.hostOps0_51 (F := Ideal)) (after (Gen.hostOps0_50 (F := Ideal)) (after (Gen.hostOps0_49 (F := Ideal)) (after (Gen.hostOps0_48 (F := Ideal)) (after (Gen.hostOps0_47 (F := Ideal)) (after (Gen.hostOps0_46 (F := Ideal)) (after (Gen.hostOps0_45 (F := Ideal)) (after (Gen.hostOps0_44 (F := Ideal)) (after (Gen.hostOps0_43 (F := Ideal)) (after (Gen.hostOps0_42 (F := Ideal)) (after (Gen.hostOps0_41 (F := Ideal)) (after (Gen.hostOps0_40 (F := Ideal)) (after (Gen.hostOps0_39 (F := Ideal)) (after (Gen.hostOps0_38 (F := Ideal)) (after (Gen.hostOps0_37 (F := Ideal)) (after (Gen.hostOps0_36 (F := Ideal)) (after (Gen.hostOps0_35 (F := Ideal)) (after (Gen.hostOps0_34 (F := Ideal)) (after (Gen.hostOps0_33 (F := Ideal)) (after (Gen.hostOps0_32 (F := Ideal)) (after (Gen.hostOps0_31 (F := Ideal)) (after (Gen.hostOps0_30 (F := Ideal)) (after (Gen.hostOps0_29 (F := Ideal)) (after (Gen.hostOps0_28 (F := Ideal)) (after (Gen.hostOps0_27 (F := Ideal)) (after (Gen.hostOps0_26 (F := Ideal)) (after (Gen.hostOps0_25 (F := Ideal)) (after (Gen.hostOps0_24 (F := Ideal)) (after (Gen.hostOps0_23 (F := Ideal)) (after (Gen.hostOps0_22 (F := Ideal)) (after (Gen.hostOps0_21 (F := Ideal)) (after (Gen.hostOps0_20 (F := Ideal)) (after (Gen.hostOps0_19 (F := Ideal)) (after (Gen.hostOps0_18 (F := Ideal)) (after (Gen.hostOps0_17 (F := Ideal)) (after (Gen.hostOps0_16 (F := Ideal)) (after (Gen.hostOps0_15 (F := Ideal)) (after (Gen.hostOps0_14 (F := Ideal)) (after (Gen.hostOps0_13 (F := Ideal)) (after (Gen.hostOps0_12 (F := Ideal)) (after (Gen.hostOps0_11 (F := Ideal)) (after (Gen.hostOps0_10 (F := Ideal)) (after (Gen.hostOps0_9 (F := Ideal)) (after (Gen.hostOps0_8 (F := Ideal)) (after (Gen.hostOps0_7 (F := Ideal)) (after (Gen.hostOps0_6 (F := Ideal)) (after (Gen.hostOps0_5 (F := Ideal)) (after (Gen.hostOps0_4 (F := Ideal)) (after (Gen.hostOps0_3 (F := Ideal)) (after (Gen.hostOps0_2 (F := Ideal)) (after (Gen.hostOps0_1 (F := Ideal)) (after (Gen.hostOps0 (F := Ideal)) (fun b => m (c, b)))))))))))))))))))))))))))))))))))))))))))))))))))))))))))))))))))))))))) (Proc.devRef .tc main_arg2) = m ((c : Thread nD τ).loc main_arg2) := by
    refine Eq.trans (Eq.symm ?_) (Cert.KernelIdeal.GenP.V_main_arg2 m c)
    show after (List.flatten [(Gen.hostOps0 (F := Ideal)), Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, Gen.hostOps0_34, Gen.hostOps0_35, Gen.hostOps0_36, Gen.hostOps0_37, Gen.hostOps0_38, Gen.hostOps0_39, Gen.hostOps0_40, Gen.hostOps0_41, Gen.hostOps0_42, Gen.hostOps0_43, Gen.hostOps0_44, Gen.hostOps0_45, Gen.hostOps0_46, Gen.hostOps0_47, Gen.hostOps0_48, Gen.hostOps0_49, Gen.hostOps0_50, Gen.hostOps0_51, Gen.hostOps0_52, Gen.hostOps0_53, Gen.hostOps0_54, Gen.hostOps0_55, Gen.hostOps0_56, Gen.hostOps0_57, Gen.hostOps0_58, Gen.hostOps0_59, Gen.hostOps0_60, Gen.hostOps0_61, Gen.hostOps0_62, Gen.hostOps0_63, Gen.hostOps0_64, Gen.hostOps0_65, Gen.hostOps0_66, Gen.hostOps0_67, Gen.hostOps0_68, Gen.hostOps0_69, Gen.hostOps0_70, Gen.hostOps0_71, Gen.hostOps0_72, Gen.hostOps0_73, Gen.hostOps0_74, Gen.hostOps0_75, Gen.hostOps0_76, Gen.hostOps0_77, Gen.hostOps0_78, Gen.hostOps0_79, Gen.hostOps0_80, Gen.hostOps0_81, Gen.hostOps0_82, Gen.hostOps0_83, Gen.hostOps0_84, Gen.hostOps0_85, Gen.hostOps0_86, Gen.hostOps0_87, Gen.hostOps0_88, Gen.hostOps0_89, Gen.hostOps0_90, Gen.hostOps0_91, Gen.hostOps0_92, Gen.hostOps0_93, Gen.hostOps0_94, Gen.hostOps0_95, Gen.hostOps0_96, Gen.hostOps0_97, Gen.hostOps0_98, Gen.hostOps0_99, Gen.hostOps0_100, Gen.hostOps0_101, Gen.hostOps0_102, Gen.hostOps0_103, Gen.hostOps0_104, Gen.hostOps0_105, Gen.hostOps0_106, Gen.hostOps0_107, Gen.hostOps0_108, Gen.hostOps0_109, Gen.hostOps0_110, Gen.hostOps0_111, Gen.hostOps0_112, Gen.hostOps0_113, Gen.hostOps0_114, Gen.hostOps0_115, Gen.hostOps0_116, Gen.hostOps0_117, Gen.hostOps0_118, Gen.hostOps0_119, Gen.hostOps0_120, Gen.hostOps0_121, Gen.hostOps0_122, Gen.hostOps0_123, Gen.hostOps0_124, Gen.hostOps0_125, Gen.hostOps0_126, Gen.hostOps0_127, Gen.hostOps0_128, Gen.hostOps0_129, Gen.hostOps0_130, Gen.hostOps0_131, Gen.hostOps0_132, Gen.hostOps0_133, Gen.hostOps0_134, Gen.hostOps0_135, Gen.hostOps0_136, Gen.hostOps0_137, Gen.hostOps0_138, Gen.hostOps0_139, Gen.hostOps0_140, Gen.hostOps0_141, Gen.hostOps0_142, Gen.hostOps0_143, Gen.hostOps0_144]) (fun b => m (c, b)) (Proc.devRef .tc main_arg2) = _
    iterate 145 refine (after_flatten_cons_apply _ _ _ _).trans ?_
    refine (after_flatten_nil_apply _ _).trans ?_
    refine ((keeps144 _).1).trans ?_
    refine ((keeps143 _).1).trans ?_
    refine ((keeps142 _).1).trans ?_
    refine ((keeps141 _).1).trans ?_
    refine ((keeps140 _).1).trans ?_
    refine ((keeps139 _).1).trans ?_
    refine ((keeps138 _).1).trans ?_
    refine ((keeps137 _).1).trans ?_
    refine ((keeps136 _).1).trans ?_
    refine ((keeps135 _).1).trans ?_
    refine ((keeps134 _).1).trans ?_
    refine ((keeps133 _).1).trans ?_
    refine ((keeps132 _).1).trans ?_
    refine ((keeps131 _).1).trans ?_
    refine ((keeps130 _).1).trans ?_
    refine ((keeps129 _).1).trans ?_
    refine ((keeps128 _).1).trans ?_
    refine ((keeps127 _).1).trans ?_
    refine ((keeps126 _).1).trans ?_
    refine ((keeps125 _).1).trans ?_
    refine ((keeps124 _).1).trans ?_
    refine ((keeps123 _).1).trans ?_
    refine ((keeps122 _).1).trans ?_
    refine ((keeps121 _).1).trans ?_
    refine ((keeps120 _).1).trans ?_
    refine ((keeps119 _).1).trans ?_
    refine ((keeps118 _).1).trans ?_
    refine ((keeps117 _).1).trans ?_
    refine ((keeps116 _).1).trans ?_
    refine ((keeps115 _).1).trans ?_
    refine ((keeps114 _).1).trans ?_
    refine ((keeps113 _).1).trans ?_
    refine ((keeps112 _).1).trans ?_
    refine ((keeps111 _).1).trans ?_
    refine ((keeps110 _).1).trans ?_
    refine ((keeps109 _).1).trans ?_
    refine ((keeps108 _).1).trans ?_
    refine ((keeps107 _).1).trans ?_
    refine ((keeps106 _).1).trans ?_
    refine ((keeps105 _).1).trans ?_
    refine ((keeps104 _).1).trans ?_
    refine ((keeps103 _).1).trans ?_
    refine ((keeps102 _).1).trans ?_
    refine ((keeps101 _).1).trans ?_
    refine ((keeps100 _).1).trans ?_
    refine ((keeps99 _).1).trans ?_
    refine ((keeps98 _).1).trans ?_
    refine ((keeps97 _).1).trans ?_
    refine ((keeps96 _).1).trans ?_
    refine ((keeps95 _).1).trans ?_
    refine ((keeps94 _).1).trans ?_
    refine ((keeps93 _).1).trans ?_
    refine ((keeps92 _).1).trans ?_
    refine ((keeps91 _).1).trans ?_
    refine ((keeps90 _).1).trans ?_
    refine ((keeps89 _).1).trans ?_
    refine ((keeps88 _).1).trans ?_
    refine ((keeps87 _).1).trans ?_
    refine ((keeps86 _).1).trans ?_
    refine ((keeps85 _).1).trans ?_
    refine ((keeps84 _).1).trans ?_
    refine ((keeps83 _).1).trans ?_
    refine ((keeps82 _).1).trans ?_
    refine ((keeps81 _).1).trans ?_
    refine ((keeps80 _).1).trans ?_
    refine ((keeps79 _).1).trans ?_
    refine ((keeps78 _).1).trans ?_
    refine ((keeps77 _).1).trans ?_
    refine ((keeps76 _).1).trans ?_
    refine ((keeps75 _).1).trans ?_
    refine ((keeps74 _).1).trans ?_
    refine ((keeps73 _).1).trans ?_
    refine ((keeps72 _).1).trans ?_
    rfl
  have k3 : (after (Gen.hostOps0_71 (F := Ideal)) (after (Gen.hostOps0_70 (F := Ideal)) (after (Gen.hostOps0_69 (F := Ideal)) (after (Gen.hostOps0_68 (F := Ideal)) (after (Gen.hostOps0_67 (F := Ideal)) (after (Gen.hostOps0_66 (F := Ideal)) (after (Gen.hostOps0_65 (F := Ideal)) (after (Gen.hostOps0_64 (F := Ideal)) (after (Gen.hostOps0_63 (F := Ideal)) (after (Gen.hostOps0_62 (F := Ideal)) (after (Gen.hostOps0_61 (F := Ideal)) (after (Gen.hostOps0_60 (F := Ideal)) (after (Gen.hostOps0_59 (F := Ideal)) (after (Gen.hostOps0_58 (F := Ideal)) (after (Gen.hostOps0_57 (F := Ideal)) (after (Gen.hostOps0_56 (F := Ideal)) (after (Gen.hostOps0_55 (F := Ideal)) (after (Gen.hostOps0_54 (F := Ideal)) (after (Gen.hostOps0_53 (F := Ideal)) (after (Gen.hostOps0_52 (F := Ideal)) (after (Gen.hostOps0_51 (F := Ideal)) (after (Gen.hostOps0_50 (F := Ideal)) (after (Gen.hostOps0_49 (F := Ideal)) (after (Gen.hostOps0_48 (F := Ideal)) (after (Gen.hostOps0_47 (F := Ideal)) (after (Gen.hostOps0_46 (F := Ideal)) (after (Gen.hostOps0_45 (F := Ideal)) (after (Gen.hostOps0_44 (F := Ideal)) (after (Gen.hostOps0_43 (F := Ideal)) (after (Gen.hostOps0_42 (F := Ideal)) (after (Gen.hostOps0_41 (F := Ideal)) (after (Gen.hostOps0_40 (F := Ideal)) (after (Gen.hostOps0_39 (F := Ideal)) (after (Gen.hostOps0_38 (F := Ideal)) (after (Gen.hostOps0_37 (F := Ideal)) (after (Gen.hostOps0_36 (F := Ideal)) (after (Gen.hostOps0_35 (F := Ideal)) (after (Gen.hostOps0_34 (F := Ideal)) (after (Gen.hostOps0_33 (F := Ideal)) (after (Gen.hostOps0_32 (F := Ideal)) (after (Gen.hostOps0_31 (F := Ideal)) (after (Gen.hostOps0_30 (F := Ideal)) (after (Gen.hostOps0_29 (F := Ideal)) (after (Gen.hostOps0_28 (F := Ideal)) (after (Gen.hostOps0_27 (F := Ideal)) (after (Gen.hostOps0_26 (F := Ideal)) (after (Gen.hostOps0_25 (F := Ideal)) (after (Gen.hostOps0_24 (F := Ideal)) (after (Gen.hostOps0_23 (F := Ideal)) (after (Gen.hostOps0_22 (F := Ideal)) (after (Gen.hostOps0_21 (F := Ideal)) (after (Gen.hostOps0_20 (F := Ideal)) (after (Gen.hostOps0_19 (F := Ideal)) (after (Gen.hostOps0_18 (F := Ideal)) (after (Gen.hostOps0_17 (F := Ideal)) (after (Gen.hostOps0_16 (F := Ideal)) (after (Gen.hostOps0_15 (F := Ideal)) (after (Gen.hostOps0_14 (F := Ideal)) (after (Gen.hostOps0_13 (F := Ideal)) (after (Gen.hostOps0_12 (F := Ideal)) (after (Gen.hostOps0_11 (F := Ideal)) (after (Gen.hostOps0_10 (F := Ideal)) (after (Gen.hostOps0_9 (F := Ideal)) (after (Gen.hostOps0_8 (F := Ideal)) (after (Gen.hostOps0_7 (F := Ideal)) (after (Gen.hostOps0_6 (F := Ideal)) (after (Gen.hostOps0_5 (F := Ideal)) (after (Gen.hostOps0_4 (F := Ideal)) (after (Gen.hostOps0_3 (F := Ideal)) (after (Gen.hostOps0_2 (F := Ideal)) (after (Gen.hostOps0_1 (F := Ideal)) (after (Gen.hostOps0 (F := Ideal)) (fun b => m (c, b)))))))))))))))))))))))))))))))))))))))))))))))))))))))))))))))))))))))))) (Proc.devRef .tc main_arg3) = m ((c : Thread nD τ).loc main_arg3) := by
    refine Eq.trans (Eq.symm ?_) (Cert.KernelIdeal.GenP.V_main_arg3 m c)
    show after (List.flatten [(Gen.hostOps0 (F := Ideal)), Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, Gen.hostOps0_34, Gen.hostOps0_35, Gen.hostOps0_36, Gen.hostOps0_37, Gen.hostOps0_38, Gen.hostOps0_39, Gen.hostOps0_40, Gen.hostOps0_41, Gen.hostOps0_42, Gen.hostOps0_43, Gen.hostOps0_44, Gen.hostOps0_45, Gen.hostOps0_46, Gen.hostOps0_47, Gen.hostOps0_48, Gen.hostOps0_49, Gen.hostOps0_50, Gen.hostOps0_51, Gen.hostOps0_52, Gen.hostOps0_53, Gen.hostOps0_54, Gen.hostOps0_55, Gen.hostOps0_56, Gen.hostOps0_57, Gen.hostOps0_58, Gen.hostOps0_59, Gen.hostOps0_60, Gen.hostOps0_61, Gen.hostOps0_62, Gen.hostOps0_63, Gen.hostOps0_64, Gen.hostOps0_65, Gen.hostOps0_66, Gen.hostOps0_67, Gen.hostOps0_68, Gen.hostOps0_69, Gen.hostOps0_70, Gen.hostOps0_71, Gen.hostOps0_72, Gen.hostOps0_73, Gen.hostOps0_74, Gen.hostOps0_75, Gen.hostOps0_76, Gen.hostOps0_77, Gen.hostOps0_78, Gen.hostOps0_79, Gen.hostOps0_80, Gen.hostOps0_81, Gen.hostOps0_82, Gen.hostOps0_83, Gen.hostOps0_84, Gen.hostOps0_85, Gen.hostOps0_86, Gen.hostOps0_87, Gen.hostOps0_88, Gen.hostOps0_89, Gen.hostOps0_90, Gen.hostOps0_91, Gen.hostOps0_92, Gen.hostOps0_93, Gen.hostOps0_94, Gen.hostOps0_95, Gen.hostOps0_96, Gen.hostOps0_97, Gen.hostOps0_98, Gen.hostOps0_99, Gen.hostOps0_100, Gen.hostOps0_101, Gen.hostOps0_102, Gen.hostOps0_103, Gen.hostOps0_104, Gen.hostOps0_105, Gen.hostOps0_106, Gen.hostOps0_107, Gen.hostOps0_108, Gen.hostOps0_109, Gen.hostOps0_110, Gen.hostOps0_111, Gen.hostOps0_112, Gen.hostOps0_113, Gen.hostOps0_114, Gen.hostOps0_115, Gen.hostOps0_116, Gen.hostOps0_117, Gen.hostOps0_118, Gen.hostOps0_119, Gen.hostOps0_120, Gen.hostOps0_121, Gen.hostOps0_122, Gen.hostOps0_123, Gen.hostOps0_124, Gen.hostOps0_125, Gen.hostOps0_126, Gen.hostOps0_127, Gen.hostOps0_128, Gen.hostOps0_129, Gen.hostOps0_130, Gen.hostOps0_131, Gen.hostOps0_132, Gen.hostOps0_133, Gen.hostOps0_134, Gen.hostOps0_135, Gen.hostOps0_136, Gen.hostOps0_137, Gen.hostOps0_138, Gen.hostOps0_139, Gen.hostOps0_140, Gen.hostOps0_141, Gen.hostOps0_142, Gen.hostOps0_143, Gen.hostOps0_144]) (fun b => m (c, b)) (Proc.devRef .tc main_arg3) = _
    iterate 145 refine (after_flatten_cons_apply _ _ _ _).trans ?_
    refine (after_flatten_nil_apply _ _).trans ?_
    refine ((keeps144 _).2).trans ?_
    refine ((keeps143 _).2).trans ?_
    refine ((keeps142 _).2).trans ?_
    refine ((keeps141 _).2).trans ?_
    refine ((keeps140 _).2).trans ?_
    refine ((keeps139 _).2).trans ?_
    refine ((keeps138 _).2).trans ?_
    refine ((keeps137 _).2).trans ?_
    refine ((keeps136 _).2).trans ?_
    refine ((keeps135 _).2).trans ?_
    refine ((keeps134 _).2).trans ?_
    refine ((keeps133 _).2).trans ?_
    refine ((keeps132 _).2).trans ?_
    refine ((keeps131 _).2).trans ?_
    refine ((keeps130 _).2).trans ?_
    refine ((keeps129 _).2).trans ?_
    refine ((keeps128 _).2).trans ?_
    refine ((keeps127 _).2).trans ?_
    refine ((keeps126 _).2).trans ?_
    refine ((keeps125 _).2).trans ?_
    refine ((keeps124 _).2).trans ?_
    refine ((keeps123 _).2).trans ?_
    refine ((keeps122 _).2).trans ?_
    refine ((keeps121 _).2).trans ?_
    refine ((keeps120 _).2).trans ?_
    refine ((keeps119 _).2).trans ?_
    refine ((keeps118 _).2).trans ?_
    refine ((keeps117 _).2).trans ?_
    refine ((keeps116 _).2).trans ?_
    refine ((keeps115 _).2).trans ?_
    refine ((keeps114 _).2).trans ?_
    refine ((keeps113 _).2).trans ?_
    refine ((keeps112 _).2).trans ?_
    refine ((keeps111 _).2).trans ?_
    refine ((keeps110 _).2).trans ?_
    refine ((keeps109 _).2).trans ?_
    refine ((keeps108 _).2).trans ?_
    refine ((keeps107 _).2).trans ?_
    refine ((keeps106 _).2).trans ?_
    refine ((keeps105 _).2).trans ?_
    refine ((keeps104 _).2).trans ?_
    refine ((keeps103 _).2).trans ?_
    refine ((keeps102 _).2).trans ?_
    refine ((keeps101 _).2).trans ?_
    refine ((keeps100 _).2).trans ?_
    refine ((keeps99 _).2).trans ?_
    refine ((keeps98 _).2).trans ?_
    refine ((keeps97 _).2).trans ?_
    refine ((keeps96 _).2).trans ?_
    refine ((keeps95 _).2).trans ?_
    refine ((keeps94 _).2).trans ?_
    refine ((keeps93 _).2).trans ?_
    refine ((keeps92 _).2).trans ?_
    refine ((keeps91 _).2).trans ?_
    refine ((keeps90 _).2).trans ?_
    refine ((keeps89 _).2).trans ?_
    refine ((keeps88 _).2).trans ?_
    refine ((keeps87 _).2).trans ?_
    refine ((keeps86 _).2).trans ?_
    refine ((keeps85 _).2).trans ?_
    refine ((keeps84 _).2).trans ?_
    refine ((keeps83 _).2).trans ?_
    refine ((keeps82 _).2).trans ?_
    refine ((keeps81 _).2).trans ?_
    refine ((keeps80 _).2).trans ?_
    refine ((keeps79 _).2).trans ?_
    refine ((keeps78 _).2).trans ?_
    refine ((keeps77 _).2).trans ?_
    refine ((keeps76 _).2).trans ?_
    refine ((keeps75 _).2).trans ?_
    refine ((keeps74 _).2).trans ?_
    refine ((keeps73 _).2).trans ?_
    refine ((keeps72 _).2).trans ?_
    rfl
  show after (List.flatten [(Gen.hostOps0 (F := Ideal)), Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, Gen.hostOps0_34, Gen.hostOps0_35, Gen.hostOps0_36, Gen.hostOps0_37, Gen.hostOps0_38, Gen.hostOps0_39, Gen.hostOps0_40, Gen.hostOps0_41, Gen.hostOps0_42, Gen.hostOps0_43, Gen.hostOps0_44, Gen.hostOps0_45, Gen.hostOps0_46, Gen.hostOps0_47, Gen.hostOps0_48, Gen.hostOps0_49, Gen.hostOps0_50, Gen.hostOps0_51, Gen.hostOps0_52, Gen.hostOps0_53, Gen.hostOps0_54, Gen.hostOps0_55, Gen.hostOps0_56, Gen.hostOps0_57, Gen.hostOps0_58, Gen.hostOps0_59, Gen.hostOps0_60, Gen.hostOps0_61, Gen.hostOps0_62, Gen.hostOps0_63, Gen.hostOps0_64, Gen.hostOps0_65, Gen.hostOps0_66, Gen.hostOps0_67, Gen.hostOps0_68, Gen.hostOps0_69, Gen.hostOps0_70, Gen.hostOps0_71, Gen.hostOps0_72, Gen.hostOps0_73, Gen.hostOps0_74, Gen.hostOps0_75, Gen.hostOps0_76, Gen.hostOps0_77, Gen.hostOps0_78, Gen.hostOps0_79, Gen.hostOps0_80, Gen.hostOps0_81, Gen.hostOps0_82, Gen.hostOps0_83, Gen.hostOps0_84, Gen.hostOps0_85, Gen.hostOps0_86, Gen.hostOps0_87, Gen.hostOps0_88, Gen.hostOps0_89, Gen.hostOps0_90, Gen.hostOps0_91, Gen.hostOps0_92, Gen.hostOps0_93, Gen.hostOps0_94, Gen.hostOps0_95, Gen.hostOps0_96, Gen.hostOps0_97, Gen.hostOps0_98, Gen.hostOps0_99, Gen.hostOps0_100, Gen.hostOps0_101, Gen.hostOps0_102, Gen.hostOps0_103, Gen.hostOps0_104, Gen.hostOps0_105, Gen.hostOps0_106, Gen.hostOps0_107, Gen.hostOps0_108, Gen.hostOps0_109, Gen.hostOps0_110, Gen.hostOps0_111, Gen.hostOps0_112, Gen.hostOps0_113, Gen.hostOps0_114, Gen.hostOps0_115, Gen.hostOps0_116, Gen.hostOps0_117, Gen.hostOps0_118, Gen.hostOps0_119, Gen.hostOps0_120, Gen.hostOps0_121, Gen.hostOps0_122, Gen.hostOps0_123, Gen.hostOps0_124, Gen.hostOps0_125, Gen.hostOps0_126, Gen.hostOps0_127, Gen.hostOps0_128, Gen.hostOps0_129, Gen.hostOps0_130, Gen.hostOps0_131, Gen.hostOps0_132, Gen.hostOps0_133, Gen.hostOps0_134, Gen.hostOps0_135, Gen.hostOps0_136, Gen.hostOps0_137, Gen.hostOps0_138, Gen.hostOps0_139, Gen.hostOps0_140, Gen.hostOps0_141, Gen.hostOps0_142, Gen.hostOps0_143, Gen.hostOps0_144]) (fun b => m (c, b)) (Proc.devRef .tc main_v781) = _
  -- the 145 stretches, one after the other
  iterate 145 refine (after_flatten_cons_apply _ _ _ _).trans ?_
  refine (after_flatten_nil_apply _ _).trans ?_
  -- stretches 72 … 144, block by block
  obtain ⟨hvol0, hf00, hf10, hf20, hb00, hb10, hb20, hacc0, hmw0, hvals0⟩ := block0 _ _ _ k2 k3
  obtain ⟨hvol1, hf01, hf11, hf21, hb01, hb11, hb21, hacc1, hmw1, hvals1⟩ := block1 _ _ _ hvol0 hf00 hf10 hf20 hb00 hb10 hb20 hacc0 hmw0 hvals0
  obtain ⟨hvol2, hf02, hf12, hf22, hb02, hb12, hb22, hacc2, hmw2, hvals2⟩ := block2 _ _ _ hvol1 hf01 hf11 hf21 hb01 hb11 hb21 hacc1 hmw1 hvals1
  obtain ⟨hvol3, hf03, hf13, hf23, hb03, hb13, hb23, hacc3, hmw3, hvals3⟩ := block3 _ _ _ hvol2 hf02 hf12 hf22 hb02 hb12 hb22 hacc2 hmw2 hvals2
  obtain ⟨hvol4, hf04, hf14, hf24, hb04, hb14, hb24, hacc4, hmw4, hvals4⟩ := block4 _ _ _ hvol3 hf03 hf13 hf23 hb03 hb13 hb23 hacc3 hmw3 hvals3
  obtain ⟨hvol5, hf05, hf15, hf25, hb05, hb15, hb25, hacc5, hmw5, hvals5⟩ := block5 _ _ _ hvol4 hf04 hf14 hf24 hb04 hb14 hb24 hacc4 hmw4 hvals4
  obtain ⟨hvol6, hf06, hf16, hf26, hb06, hb16, hb26, hacc6, hmw6, hvals6⟩ := block6 _ _ _ hvol5 hf05 hf15 hf25 hb05 hb15 hb25 hacc5 hmw5 hvals5
  obtain ⟨hvol7, hf07, hf17, hf27, hb07, hb17, hb27, hacc7, hmw7, hvals7⟩ := block7 _ _ _ hvol6 hf06 hf16 hf26 hb06 hb16 hb26 hacc6 hmw6 hvals6
  exact block8 _ _ _ hacc7 hmw7 hvals7

end Cert.Bridge.K30c

end
-- ==== Proof.LibTypedRead.lean ====
/-
  Two identity functions that state the tensor type of an array.

  The contents of a buffer have the type the signature's tables give the buffer; an operation applied to them directly
  leaves the elaborator to recover the float instance and the format from that type, which it cannot do through the
  tables.  Reading the contents through one of these functions states the type once; they unfold to the identity.
-/
import Idealize.ShloMosaic.PureOps.Ideal

noncomputable section

namespace Cert.LibTypedRead

open Idealize.ShloMosaic

/-- A float array of shape `s` at the ideal instance, format `f32`: the identity. -/
abbrev asF (s : Shape) (x : FVec Ideal s .f32) : FVec Ideal s .f32 := x

/-- An integer array of shape `s` and width `w`: the identity. -/
abbrev asI (s : Shape) (w : Nat) (x : IVec s w) : IVec s w := x

end Cert.LibTypedRead

end
-- ==== Proof.RefFoldWinA.lean ====
/- The reference program's run read one window at a time, windows 0 … 5: for each window of @main's operations and each
   buffer the window writes that a later window reads, the buffer's contents after the window as a term over the contents
   before the window at the buffers the window reads from outside itself.  Each is the fold of the window's operations
   unfolded: an operation's result at its own buffer is its function of its operands' contents, and at any other
   buffer what was there. -/
import proofs.«103167_j42614665511136_1_alg».proof.Proof.RefRunP0
import proofs.«103167_j42614665511136_1_alg».proof.Proof.RefRunP1
import proofs.«103167_j42614665511136_1_alg».proof.Proof.RefRunP2
import proofs.«103167_j42614665511136_1_alg».proof.Proof.LibTypedRead
import Idealize.ShloMosaic.PureOps.Ideal

set_option maxRecDepth 8192

noncomputable section

namespace Cert.ReferenceIdeal.HandFold

open Cert.ReferenceIdeal Cert.ReferenceIdeal.Facts₀ Cert.ReferenceIdeal.Facts Cert.ReferenceIdeal.HandRun Idealize.ShloMosaic Idealize.ShloMosaic.TcCoe Idealize.SL.Sem Idealize.ShloMosaic.StableHlo Cert.LibTypedRead

variable [Cert.ReferenceIdeal.Facts]

set_option maxHeartbeats 4000000 in  -- the closing check sees through the typed references' transports of a called function's operations
/-- Window 0: the contents of main_v40 after the window's operations, over the contents before it. -/
theorem w0_v40 (V : Valuation τ sig (Elt Ideal)) :
    after (ops_part0 (F := Ideal)) V (Proc.devRef .tc main_v40) = (fptosi 32 (Host.floor (mulf (subf (mulf (addf (shapeCast S2x12544 (extractStridedSlice S2x12544x1 ![0, 0, 0] (subf (mulf (broadcastInDim S2x12544x3 ![] bcast_S_S2x12544x3 (constant (F := Ideal) S_ .f32 0x40000000#32)) (asF S2x12544x3 (V (Proc.devRef .tc main_arg3)))) (broadcastInDim S2x12544x3 ![] bcast_S_S2x12544x3 (constant (F := Ideal) S_ .f32 0x3F800000#32))) slices_S2x12544x3_S2x12544x1_0_0_0) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32)))) : IVec S2x12544 32) := by
  after_results_simp <;> rfl

set_option maxHeartbeats 4000000 in  -- the closing check sees through the typed references' transports of a called function's operations
/-- Window 0: the contents of main_v41 after the window's operations, over the contents before it. -/
theorem w0_v41 (V : Valuation τ sig (Elt Ideal)) :
    after (ops_part0 (F := Ideal)) V (Proc.devRef .tc main_v41) = (fptosi 32 (Host.floor (mulf (subf (mulf (addf (shapeCast S2x12544 (extractStridedSlice S2x12544x1 ![0, 0, 1] (subf (mulf (broadcastInDim S2x12544x3 ![] bcast_S_S2x12544x3 (constant (F := Ideal) S_ .f32 0x40000000#32)) (asF S2x12544x3 (V (Proc.devRef .tc main_arg3)))) (broadcastInDim S2x12544x3 ![] bcast_S_S2x12544x3 (constant (F := Ideal) S_ .f32 0x3F800000#32))) slices_S2x12544x3_S2x12544x1_0_0_1) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32)))) : IVec S2x12544 32) := by
  after_results_simp <;> rfl

set_option maxHeartbeats 4000000 in  -- the closing check sees through the typed references' transports of a called function's operations
/-- Window 0: the contents of main_v42 after the window's operations, over the contents before it. -/
theorem w0_v42 (V : Valuation τ sig (Elt Ideal)) :
    after (ops_part0 (F := Ideal)) V (Proc.devRef .tc main_v42) = (fptosi 32 (Host.floor (mulf (subf (mulf (addf (shapeCast S2x12544 (extractStridedSlice S2x12544x1 ![0, 0, 2] (subf (mulf (broadcastInDim S2x12544x3 ![] bcast_S_S2x12544x3 (constant (F := Ideal) S_ .f32 0x40000000#32)) (asF S2x12544x3 (V (Proc.devRef .tc main_arg3)))) (broadcastInDim S2x12544x3 ![] bcast_S_S2x12544x3 (constant (F := Ideal) S_ .f32 0x3F800000#32))) slices_S2x12544x3_S2x12544x1_0_0_2) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32)))) : IVec S2x12544 32) := by
  after_results_simp <;> rfl

set_option maxHeartbeats 4000000 in  -- the closing check sees through the typed references' transports of a called function's operations
/-- Window 0: the contents of main_v37 after the window's operations, over the contents before it. -/
theorem w0_v37 (V : Valuation τ sig (Elt Ideal)) :
    after (ops_part0 (F := Ideal)) V (Proc.devRef .tc main_v37) = (subf (mulf (subf (mulf (addf (shapeCast S2x12544 (extractStridedSlice S2x12544x1 ![0, 0, 0] (subf (mulf (broadcastInDim S2x12544x3 ![] bcast_S_S2x12544x3 (constant (F := Ideal) S_ .f32 0x40000000#32)) (asF S2x12544x3 (V (Proc.devRef .tc main_arg3)))) (broadcastInDim S2x12544x3 ![] bcast_S_S2x12544x3 (constant (F := Ideal) S_ .f32 0x3F800000#32))) slices_S2x12544x3_S2x12544x1_0_0_0) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))) (Host.floor (mulf (subf (mulf (addf (shapeCast S2x12544 (extractStridedSlice S2x12544x1 ![0, 0, 0] (subf (mulf (broadcastInDim S2x12544x3 ![] bcast_S_S2x12544x3 (constant (F := Ideal) S_ .f32 0x40000000#32)) (asF S2x12544x3 (V (Proc.devRef .tc main_arg3)))) (broadcastInDim S2x12544x3 ![] bcast_S_S2x12544x3 (constant (F := Ideal) S_ .f32 0x3F800000#32))) slices_S2x12544x3_S2x12544x1_0_0_0) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32)))) : FVec Ideal S2x12544 .f32) := by
  after_results_simp <;> rfl

set_option maxHeartbeats 4000000 in  -- the closing check sees through the typed references' transports of a called function's operations
/-- Window 0: the contents of main_v39 after the window's operations, over the contents before it. -/
theorem w0_v39 (V : Valuation τ sig (Elt Ideal)) :
    after (ops_part0 (F := Ideal)) V (Proc.devRef .tc main_v39) = (subf (mulf (subf (mulf (addf (shapeCast S2x12544 (extractStridedSlice S2x12544x1 ![0, 0, 2] (subf (mulf (broadcastInDim S2x12544x3 ![] bcast_S_S2x12544x3 (constant (F := Ideal) S_ .f32 0x40000000#32)) (asF S2x12544x3 (V (Proc.devRef .tc main_arg3)))) (broadcastInDim S2x12544x3 ![] bcast_S_S2x12544x3 (constant (F := Ideal) S_ .f32 0x3F800000#32))) slices_S2x12544x3_S2x12544x1_0_0_2) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))) (Host.floor (mulf (subf (mulf (addf (shapeCast S2x12544 (extractStridedSlice S2x12544x1 ![0, 0, 2] (subf (mulf (broadcastInDim S2x12544x3 ![] bcast_S_S2x12544x3 (constant (F := Ideal) S_ .f32 0x40000000#32)) (asF S2x12544x3 (V (Proc.devRef .tc main_arg3)))) (broadcastInDim S2x12544x3 ![] bcast_S_S2x12544x3 (constant (F := Ideal) S_ .f32 0x3F800000#32))) slices_S2x12544x3_S2x12544x1_0_0_2) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32)))) : FVec Ideal S2x12544 .f32) := by
  after_results_simp <;> rfl

set_option maxHeartbeats 4000000 in  -- the closing check sees through the typed references' transports of a called function's operations
/-- Window 0: the contents of main_v38 after the window's operations, over the contents before it. -/
theorem w0_v38 (V : Valuation τ sig (Elt Ideal)) :
    after (ops_part0 (F := Ideal)) V (Proc.devRef .tc main_v38) = (subf (mulf (subf (mulf (addf (shapeCast S2x12544 (extractStridedSlice S2x12544x1 ![0, 0, 1] (subf (mulf (broadcastInDim S2x12544x3 ![] bcast_S_S2x12544x3 (constant (F := Ideal) S_ .f32 0x40000000#32)) (asF S2x12544x3 (V (Proc.devRef .tc main_arg3)))) (broadcastInDim S2x12544x3 ![] bcast_S_S2x12544x3 (constant (F := Ideal) S_ .f32 0x3F800000#32))) slices_S2x12544x3_S2x12544x1_0_0_1) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))) (Host.floor (mulf (subf (mulf (addf (shapeCast S2x12544 (extractStridedSlice S2x12544x1 ![0, 0, 1] (subf (mulf (broadcastInDim S2x12544x3 ![] bcast_S_S2x12544x3 (constant (F := Ideal) S_ .f32 0x40000000#32)) (asF S2x12544x3 (V (Proc.devRef .tc main_arg3)))) (broadcastInDim S2x12544x3 ![] bcast_S_S2x12544x3 (constant (F := Ideal) S_ .f32 0x3F800000#32))) slices_S2x12544x3_S2x12544x1_0_0_1) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32)))) : FVec Ideal S2x12544 .f32) := by
  after_results_simp <;> rfl

set_option maxHeartbeats 4000000 in  -- the closing check sees through the typed references' transports of a called function's operations
/-- Window 0: the contents of main_cst_14 after the window's operations, over the contents before it. -/
theorem w0_cst_14 (V : Valuation τ sig (Elt Ideal)) :
    after (ops_part0 (F := Ideal)) V (Proc.devRef .tc main_cst_14) = (constant (F := Ideal) S_ .f32 0x3F800000#32 : FVec Ideal S_ .f32) := by
  after_results_simp <;> rfl

set_option maxHeartbeats 4000000 in  -- the closing check sees through the typed references' transports of a called function's operations
/-- Window 0: the contents of main_v43 after the window's operations, over the contents before it. -/
theorem w0_v43 (V : Valuation τ sig (Elt Ideal)) :
    after (ops_part0 (F := Ideal)) V (Proc.devRef .tc main_v43) = (broadcastInDim S12544 ![] bcast_S_S12544 (constant (F := Ideal) S_ .f32 0x00000000#32) : FVec Ideal S12544 .f32) := by
  after_results_simp <;> rfl

set_option maxHeartbeats 4000000 in  -- the closing check sees through the typed references' transports of a called function's operations
/-- Window 1: the contents of main_v77 after the window's operations, over the contents before it. -/
theorem w1_v77 (V : Valuation τ sig (Elt Ideal)) :
    after (ops_part1 (F := Ideal)) V (Proc.devRef .tc main_v77) = (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v40))) (broadcastInDim S2x12544 ![] bcast_S_S2x12544 (constantI S_ 32 0#32)))) : IVec S2x12544 32) := by
  after_results_simp <;> rfl

set_option maxHeartbeats 4000000 in  -- the closing check sees through the typed references' transports of a called function's operations
/-- Window 1: the contents of main_v76 after the window's operations, over the contents before it. -/
theorem w1_v76 (V : Valuation τ sig (Elt Ideal)) :
    after (ops_part1 (F := Ideal)) V (Proc.devRef .tc main_v76) = (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v41))) (broadcastInDim S2x12544 ![] bcast_S_S2x12544 (constantI S_ 32 0#32)))) : IVec S2x12544 32) := by
  after_results_simp <;> rfl

set_option maxHeartbeats 4000000 in  -- the closing check sees through the typed references' transports of a called function's operations
/-- Window 1: the contents of main_v83 after the window's operations, over the contents before it. -/
theorem w1_v83 (V : Valuation τ sig (Elt Ideal)) :
    after (ops_part1 (F := Ideal)) V (Proc.devRef .tc main_v83) = (broadcastInDim S2x12544 ![] bcast_S_S2x12544 (constantI S_ 32 0#32) : IVec S2x12544 32) := by
  after_results_simp <;> rfl

set_option maxHeartbeats 4000000 in  -- the closing check sees through the typed references' transports of a called function's operations
/-- Window 1: the contents of main_v82 after the window's operations, over the contents before it. -/
theorem w1_v82 (V : Valuation τ sig (Elt Ideal)) :
    after (ops_part1 (F := Ideal)) V (Proc.devRef .tc main_v82) = (select (cmpi .slt (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v42))) (broadcastInDim S2x12544 ![] bcast_S_S2x12544 (constantI S_ 32 0#32))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v42))) (broadcastInDim S2x12544 ![] bcast_S_S2x12544 (constantI S_ 32 0#32))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v42))) (broadcastInDim S2x12544 ![] bcast_S_S2x12544 (constantI S_ 32 0#32))))) : IVec S2x12544 32) := by
  after_results_simp <;> rfl

set_option maxHeartbeats 4000000 in  -- the closing check sees through the typed references' transports of a called function's operations
/-- Window 1: the contents of main_v74 after the window's operations, over the contents before it. -/
theorem w1_v74 (V : Valuation τ sig (Elt Ideal)) :
    after (ops_part1 (F := Ideal)) V (Proc.devRef .tc main_v74) = (andi (andi (andi (andi (andi (cmpi .sge (addi (asI S2x12544 32 (V (Proc.devRef .tc main_v42))) (broadcastInDim S2x12544 ![] bcast_S_S2x12544 (constantI S_ 32 0#32))) (broadcastInDim S2x12544 ![] bcast_S_S2x12544 (constantI S_ 32 0#32))) (cmpi .slt (addi (asI S2x12544 32 (V (Proc.devRef .tc main_v42))) (broadcastInDim S2x12544 ![] bcast_S_S2x12544 (constantI S_ 32 0#32))) (broadcastInDim S2x12544 ![] bcast_S_S2x12544 (constantI S_ 32 64#32)))) (cmpi .sge (addi (asI S2x12544 32 (V (Proc.devRef .tc main_v41))) (broadcastInDim S2x12544 ![] bcast_S_S2x12544 (constantI S_ 32 0#32))) (broadcastInDim S2x12544 ![] bcast_S_S2x12544 (constantI S_ 32 0#32)))) (cmpi .slt (addi (asI S2x12544 32 (V (Proc.devRef .tc main_v41))) (broadcastInDim S2x12544 ![] bcast_S_S2x12544 (constantI S_ 32 0#32))) (broadcastInDim S2x12544 ![] bcast_S_S2x12544 (constantI S_ 32 64#32)))) (cmpi .sge (addi (asI S2x12544 32 (V (Proc.devRef .tc main_v40))) (broadcastInDim S2x12544 ![] bcast_S_S2x12544 (constantI S_ 32 0#32))) (broadcastInDim S2x12544 ![] bcast_S_S2x12544 (constantI S_ 32 0#32)))) (cmpi .slt (addi (asI S2x12544 32 (V (Proc.devRef .tc main_v40))) (broadcastInDim S2x12544 ![] bcast_S_S2x12544 (constantI S_ 32 0#32))) (broadcastInDim S2x12544 ![] bcast_S_S2x12544 (constantI S_ 32 64#32))) : IVec S2x12544 1) := by
  after_results_simp <;> rfl

set_option maxHeartbeats 4000000 in  -- the closing check sees through the typed references' transports of a called function's operations
/-- Window 1: the contents of main_v51 after the window's operations, over the contents before it. -/
theorem w1_v51 (V : Valuation τ sig (Elt Ideal)) :
    after (ops_part1 (F := Ideal)) V (Proc.devRef .tc main_v51) = (mulf (mulf (subf (broadcastInDim S2x12544 ![] bcast_S_S2x12544 (asF S_ (V (Proc.devRef .tc main_cst_14)))) (asF S2x12544 (V (Proc.devRef .tc main_v39)))) (subf (broadcastInDim S2x12544 ![] bcast_S_S2x12544 (constant (F := Ideal) S_ .f32 0x3F800000#32)) (asF S2x12544 (V (Proc.devRef .tc main_v38))))) (subf (broadcastInDim S2x12544 ![] bcast_S_S2x12544 (constant (F := Ideal) S_ .f32 0x3F800000#32)) (asF S2x12544 (V (Proc.devRef .tc main_v37)))) : FVec Ideal S2x12544 .f32) := by
  after_results_simp <;> rfl

set_option maxHeartbeats 4000000 in  -- the closing check sees through the typed references' transports of a called function's operations
/-- Window 2: the contents of main_v105 after the window's operations, over the contents before it. -/
theorem w2_v105 (V : Valuation τ sig (Elt Ideal)) :
    after (ops_part2 (F := Ideal)) V (Proc.devRef .tc main_v105) = (addf (broadcastInDim S2x100x12544 ![0, 1, 2] bcast_S1x1x12544_S2x100x12544_0_1_2 (broadcastInDim S1x1x12544 ![1, 2] bcast_S1x12544_S1x1x12544_1_2 (broadcastInDim S1x12544 ![1] bcast_S12544_S1x12544_1 (asF S12544 (V (Proc.devRef .tc main_v43)))))) (mulf (broadcastInDim S2x100x12544 ![0, 1, 2] bcast_S2x1x12544_S2x100x12544_0_1_2 (broadcastInDim S2x1x12544 ![0, 2] bcast_S2x12544_S2x1x12544_0_2 (asF S2x12544 (V (Proc.devRef .tc main_v51))))) (select (broadcastInDim S2x100x12544 ![0, 2] bcast_S2x12544_S2x100x12544_0_2 (asI S2x12544 1 (V (Proc.devRef .tc main_v74)))) (Host.gather gather_S2x100x64x64x64_S2x12544x3_S2x100x12544_1_234_0_0_234_2_1100111 (asF S2x100x64x64x64 (V (Proc.devRef .tc main_arg0))) (concatenate S2x12544x3 2 [⟨S2x12544x1, (broadcastInDim S2x12544x1 ![0, 1] bcast_S2x12544_S2x12544x1_0_1 (asI S2x12544 32 (V (Proc.devRef .tc main_v82))))⟩, ⟨S2x12544x1, (broadcastInDim S2x12544x1 ![0, 1] bcast_S2x12544_S2x12544x1_0_1 (select (cmpi .slt (asI S2x12544 32 (V (Proc.devRef .tc main_v76))) (asI S2x12544 32 (V (Proc.devRef .tc main_v83)))) (addi (asI S2x12544 32 (V (Proc.devRef .tc main_v76))) (broadcastInDim S2x12544 ![] bcast_S_S2x12544 (constantI S_ 32 64#32))) (asI S2x12544 32 (V (Proc.devRef .tc main_v76)))))⟩, ⟨S2x12544x1, (broadcastInDim S2x12544x1 ![0, 1] bcast_S2x12544_S2x12544x1_0_1 (select (cmpi .slt (asI S2x12544 32 (V (Proc.devRef .tc main_v77))) (broadcastInDim S2x12544 ![] bcast_S_S2x12544 (constantI S_ 32 0#32))) (addi (asI S2x12544 32 (V (Proc.devRef .tc main_v77))) (broadcastInDim S2x12544 ![] bcast_S_S2x12544 (constantI S_ 32 64#32))) (asI S2x12544 32 (V (Proc.devRef .tc main_v77)))))⟩] concatenates_S2x12544x1_S2x12544x1_S2x12544x1_S2x12544x3_d2)) (broadcastInDim S2x100x12544 ![1, 2] bcast_S100x12544_S2x100x12544_1_2 (broadcastInDim S100x12544 ![1] bcast_S12544_S100x12544_1 (broadcastInDim S12544 ![] bcast_S_S12544 (constant (F := Ideal) S_ .f32 0x00000000#32)))))) : FVec Ideal S2x100x12544 .f32) := by
  after_results_simp <;> rfl

set_option maxHeartbeats 4000000 in  -- the closing check sees through the typed references' transports of a called function's operations
/-- Window 2: the contents of main_v117 after the window's operations, over the contents before it. -/
theorem w2_v117 (V : Valuation τ sig (Elt Ideal)) :
    after (ops_part2 (F := Ideal)) V (Proc.devRef .tc main_v117) = (addi (asI S2x12544 32 (V (Proc.devRef .tc main_v40))) (broadcastInDim S2x12544 ![] bcast_S_S2x12544 (constantI S_ 32 1#32)) : IVec S2x12544 32) := by
  after_results_simp <;> rfl

set_option maxHeartbeats 4000000 in  -- the closing check sees through the typed references' transports of a called function's operations
/-- Window 2: the contents of main_v115 after the window's operations, over the contents before it. -/
theorem w2_v115 (V : Valuation τ sig (Elt Ideal)) :
    after (ops_part2 (F := Ideal)) V (Proc.devRef .tc main_v115) = (addi (asI S2x12544 32 (V (Proc.devRef .tc main_v41))) (broadcastInDim S2x12544 ![] bcast_S_S2x12544 (constantI S_ 32 0#32)) : IVec S2x12544 32) := by
  after_results_simp <;> rfl

set_option maxHeartbeats 4000000 in  -- the closing check sees through the typed references' transports of a called function's operations
/-- Window 2: the contents of main_v113 after the window's operations, over the contents before it. -/
theorem w2_v113 (V : Valuation τ sig (Elt Ideal)) :
    after (ops_part2 (F := Ideal)) V (Proc.devRef .tc main_v113) = (addi (asI S2x12544 32 (V (Proc.devRef .tc main_v42))) (broadcastInDim S2x12544 ![] bcast_S_S2x12544 (constantI S_ 32 0#32)) : IVec S2x12544 32) := by
  after_results_simp <;> rfl

set_option maxHeartbeats 4000000 in  -- the closing check sees through the typed references' transports of a called function's operations
/-- Window 2: the contents of main_v128 after the window's operations, over the contents before it. -/
theorem w2_v128 (V : Valuation τ sig (Elt Ideal)) :
    after (ops_part2 (F := Ideal)) V (Proc.devRef .tc main_v128) = (andi (andi (andi (cmpi .sge (addi (asI S2x12544 32 (V (Proc.devRef .tc main_v42))) (broadcastInDim S2x12544 ![] bcast_S_S2x12544 (constantI S_ 32 0#32))) (broadcastInDim S2x12544 ![] bcast_S_S2x12544 (constantI S_ 32 0#32))) (cmpi .slt (addi (asI S2x12544 32 (V (Proc.devRef .tc main_v42))) (broadcastInDim S2x12544 ![] bcast_S_S2x12544 (constantI S_ 32 0#32))) (broadcastInDim S2x12544 ![] bcast_S_S2x12544 (constantI S_ 32 64#32)))) (cmpi .sge (addi (asI S2x12544 32 (V (Proc.devRef .tc main_v41))) (broadcastInDim S2x12544 ![] bcast_S_S2x12544 (constantI S_ 32 0#32))) (broadcastInDim S2x12544 ![] bcast_S_S2x12544 (constantI S_ 32 0#32)))) (cmpi .slt (addi (asI S2x12544 32 (V (Proc.devRef .tc main_v41))) (broadcastInDim S2x12544 ![] bcast_S_S2x12544 (constantI S_ 32 0#32))) (broadcastInDim S2x12544 ![] bcast_S_S2x12544 (constantI S_ 32 64#32))) : IVec S2x12544 1) := by
  after_results_simp <;> rfl

set_option maxHeartbeats 4000000 in  -- the closing check sees through the typed references' transports of a called function's operations
/-- Window 2: the contents of main_v129 after the window's operations, over the contents before it. -/
theorem w2_v129 (V : Valuation τ sig (Elt Ideal)) :
    after (ops_part2 (F := Ideal)) V (Proc.devRef .tc main_v129) = (broadcastInDim S2x12544 ![] bcast_S_S2x12544 (constantI S_ 32 0#32) : IVec S2x12544 32) := by
  after_results_simp <;> rfl

set_option maxHeartbeats 4000000 in  -- the closing check sees through the typed references' transports of a called function's operations
/-- Window 2: the contents of main_v111 after the window's operations, over the contents before it. -/
theorem w2_v111 (V : Valuation τ sig (Elt Ideal)) :
    after (ops_part2 (F := Ideal)) V (Proc.devRef .tc main_v111) = (mulf (mulf (subf (broadcastInDim S2x12544 ![] bcast_S_S2x12544 (constant (F := Ideal) S_ .f32 0x3F800000#32)) (asF S2x12544 (V (Proc.devRef .tc main_v39)))) (subf (broadcastInDim S2x12544 ![] bcast_S_S2x12544 (constant (F := Ideal) S_ .f32 0x3F800000#32)) (asF S2x12544 (V (Proc.devRef .tc main_v38))))) (asF S2x12544 (V (Proc.devRef .tc main_v37))) : FVec Ideal S2x12544 .f32) := by
  after_results_simp <;> rfl

set_option maxHeartbeats 4000000 in  -- the closing check sees through the typed references' transports of a called function's operations
/-- Window 3: the contents of main_v162 after the window's operations, over the contents before it. -/
theorem w3_v162 (V : Valuation τ sig (Elt Ideal)) :
    after (ops_part3 (F := Ideal)) V (Proc.devRef .tc main_v162) = (addf (asF S2x100x12544 (V (Proc.devRef .tc main_v105))) (mulf (broadcastInDim S2x100x12544 ![0, 1, 2] bcast_S2x1x12544_S2x100x12544_0_1_2 (broadcastInDim S2x1x12544 ![0, 2] bcast_S2x12544_S2x1x12544_0_2 (asF S2x12544 (V (Proc.devRef .tc main_v111))))) (select (broadcastInDim S2x100x12544 ![0, 2] bcast_S2x12544_S2x100x12544_0_2 (andi (andi (asI S2x12544 1 (V (Proc.devRef .tc main_v128))) (cmpi .sge (asI S2x12544 32 (V (Proc.devRef .tc main_v117))) (asI S2x12544 32 (V (Proc.devRef .tc main_v129))))) (cmpi .slt (asI S2x12544 32 (V (Proc.devRef .tc main_v117))) (broadcastInDim S2x12544 ![] bcast_S_S2x12544 (constantI S_ 32 64#32))))) (Host.gather gather_S2x100x64x64x64_S2x12544x3_S2x100x12544_1_234_0_0_234_2_1100111 (asF S2x100x64x64x64 (V (Proc.devRef .tc main_arg0))) (concatenate S2x12544x3 2 [⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v113))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v113))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v113)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v115))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v115))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v115)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v117))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v117))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v117)))))))⟩] concatenates_S2x12544x1_S2x12544x1_S2x12544x1_S2x12544x3_d2)) (broadcastInDim S2x100x12544 ![1, 2] bcast_S100x12544_S2x100x12544_1_2 (broadcastInDim S100x12544 ![1] bcast_S12544_S100x12544_1 (broadcastInDim S12544 ![] bcast_S_S12544 (constant (F := Ideal) S_ .f32 0x00000000#32)))))) : FVec Ideal S2x100x12544 .f32) := by
  after_results_simp <;> rfl

set_option maxHeartbeats 4000000 in  -- the closing check sees through the typed references' transports of a called function's operations
/-- Window 3: the contents of main_v171 after the window's operations, over the contents before it. -/
theorem w3_v171 (V : Valuation τ sig (Elt Ideal)) :
    after (ops_part3 (F := Ideal)) V (Proc.devRef .tc main_v171) = (broadcastInDim S2x12544 ![] bcast_S_S2x12544 (constantI S_ 32 1#32) : IVec S2x12544 32) := by
  after_results_simp <;> rfl

set_option maxHeartbeats 4000000 in  -- the closing check sees through the typed references' transports of a called function's operations
/-- Window 3: the contents of main_v170 after the window's operations, over the contents before it. -/
theorem w3_v170 (V : Valuation τ sig (Elt Ideal)) :
    after (ops_part3 (F := Ideal)) V (Proc.devRef .tc main_v170) = (addi (asI S2x12544 32 (V (Proc.devRef .tc main_v42))) (broadcastInDim S2x12544 ![] bcast_S_S2x12544 (constantI S_ 32 0#32)) : IVec S2x12544 32) := by
  after_results_simp <;> rfl

set_option maxHeartbeats 4000000 in  -- the closing check sees through the typed references' transports of a called function's operations
/-- Window 3: the contents of main_v168 after the window's operations, over the contents before it. -/
theorem w3_v168 (V : Valuation τ sig (Elt Ideal)) :
    after (ops_part3 (F := Ideal)) V (Proc.devRef .tc main_v168) = (mulf (mulf (subf (broadcastInDim S2x12544 ![] bcast_S_S2x12544 (constant (F := Ideal) S_ .f32 0x3F800000#32)) (asF S2x12544 (V (Proc.devRef .tc main_v39)))) (asF S2x12544 (V (Proc.devRef .tc main_v38)))) (subf (broadcastInDim S2x12544 ![] bcast_S_S2x12544 (constant (F := Ideal) S_ .f32 0x3F800000#32)) (asF S2x12544 (V (Proc.devRef .tc main_v37)))) : FVec Ideal S2x12544 .f32) := by
  after_results_simp <;> rfl

set_option maxHeartbeats 4000000 in  -- the closing check sees through the typed references' transports of a called function's operations
/-- Window 4: the contents of main_v210 after the window's operations, over the contents before it. -/
theorem w4_v210 (V : Valuation τ sig (Elt Ideal)) :
    after (ops_part4 (F := Ideal)) V (Proc.devRef .tc main_v210) = (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v170))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v170))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v170)))))) : IVec S2x12544x1 32) := by
  after_results_simp <;> rfl

set_option maxHeartbeats 4000000 in  -- the closing check sees through the typed references' transports of a called function's operations
/-- Window 4: the contents of main_v211 after the window's operations, over the contents before it. -/
theorem w4_v211 (V : Valuation τ sig (Elt Ideal)) :
    after (ops_part4 (F := Ideal)) V (Proc.devRef .tc main_v211) = (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v41))) (asI S2x12544 32 (V (Proc.devRef .tc main_v171)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v41))) (asI S2x12544 32 (V (Proc.devRef .tc main_v171)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v41))) (asI S2x12544 32 (V (Proc.devRef .tc main_v171))))))) : IVec S2x12544x1 32) := by
  after_results_simp <;> rfl

set_option maxHeartbeats 4000000 in  -- the closing check sees through the typed references' transports of a called function's operations
/-- Window 4: the contents of main_v212 after the window's operations, over the contents before it. -/
theorem w4_v212 (V : Valuation τ sig (Elt Ideal)) :
    after (ops_part4 (F := Ideal)) V (Proc.devRef .tc main_v212) = (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v40))) (broadcastInDim S2x12544 ![] bcast_S_S2x12544 (constantI S_ 32 0#32))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v40))) (broadcastInDim S2x12544 ![] bcast_S_S2x12544 (constantI S_ 32 0#32))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v40))) (broadcastInDim S2x12544 ![] bcast_S_S2x12544 (constantI S_ 32 0#32)))))) : IVec S2x12544x1 32) := by
  after_results_simp <;> rfl

set_option maxHeartbeats 4000000 in  -- the closing check sees through the typed references' transports of a called function's operations
/-- Window 4: the contents of main_v191 after the window's operations, over the contents before it. -/
theorem w4_v191 (V : Valuation τ sig (Elt Ideal)) :
    after (ops_part4 (F := Ideal)) V (Proc.devRef .tc main_v191) = (andi (andi (andi (andi (andi (cmpi .sge (asI S2x12544 32 (V (Proc.devRef .tc main_v170))) (broadcastInDim S2x12544 ![] bcast_S_S2x12544 (constantI S_ 32 0#32))) (cmpi .slt (asI S2x12544 32 (V (Proc.devRef .tc main_v170))) (broadcastInDim S2x12544 ![] bcast_S_S2x12544 (constantI S_ 32 64#32)))) (cmpi .sge (addi (asI S2x12544 32 (V (Proc.devRef .tc main_v41))) (asI S2x12544 32 (V (Proc.devRef .tc main_v171)))) (broadcastInDim S2x12544 ![] bcast_S_S2x12544 (constantI S_ 32 0#32)))) (cmpi .slt (addi (asI S2x12544 32 (V (Proc.devRef .tc main_v41))) (asI S2x12544 32 (V (Proc.devRef .tc main_v171)))) (broadcastInDim S2x12544 ![] bcast_S_S2x12544 (constantI S_ 32 64#32)))) (cmpi .sge (addi (asI S2x12544 32 (V (Proc.devRef .tc main_v40))) (broadcastInDim S2x12544 ![] bcast_S_S2x12544 (constantI S_ 32 0#32))) (broadcastInDim S2x12544 ![] bcast_S_S2x12544 (constantI S_ 32 0#32)))) (cmpi .slt (addi (asI S2x12544 32 (V (Proc.devRef .tc main_v40))) (broadcastInDim S2x12544 ![] bcast_S_S2x12544 (constantI S_ 32 0#32))) (broadcastInDim S2x12544 ![] bcast_S_S2x12544 (constantI S_ 32 64#32))) : IVec S2x12544 1) := by
  after_results_simp <;> rfl

set_option maxHeartbeats 4000000 in  -- the closing check sees through the typed references' transports of a called function's operations
/-- Window 5: the contents of main_v219 after the window's operations, over the contents before it. -/
theorem w5_v219 (V : Valuation τ sig (Elt Ideal)) :
    after (ops_part5 (F := Ideal)) V (Proc.devRef .tc main_v219) = (addf (asF S2x100x12544 (V (Proc.devRef .tc main_v162))) (mulf (broadcastInDim S2x100x12544 ![0, 1, 2] bcast_S2x1x12544_S2x100x12544_0_1_2 (broadcastInDim S2x1x12544 ![0, 2] bcast_S2x12544_S2x1x12544_0_2 (asF S2x12544 (V (Proc.devRef .tc main_v168))))) (select (broadcastInDim S2x100x12544 ![0, 2] bcast_S2x12544_S2x100x12544_0_2 (asI S2x12544 1 (V (Proc.devRef .tc main_v191)))) (Host.gather gather_S2x100x64x64x64_S2x12544x3_S2x100x12544_1_234_0_0_234_2_1100111 (asF S2x100x64x64x64 (V (Proc.devRef .tc main_arg0))) (concatenate S2x12544x3 2 [⟨S2x12544x1, (asI S2x12544x1 32 (V (Proc.devRef .tc main_v210)))⟩, ⟨S2x12544x1, (asI S2x12544x1 32 (V (Proc.devRef .tc main_v211)))⟩, ⟨S2x12544x1, (asI S2x12544x1 32 (V (Proc.devRef .tc main_v212)))⟩] concatenates_S2x12544x1_S2x12544x1_S2x12544x1_S2x12544x3_d2)) (broadcastInDim S2x100x12544 ![1, 2] bcast_S100x12544_S2x100x12544_1_2 (broadcastInDim S100x12544 ![1] bcast_S12544_S100x12544_1 (broadcastInDim S12544 ![] bcast_S_S12544 (constant (F := Ideal) S_ .f32 0x00000000#32)))))) : FVec Ideal S2x100x12544 .f32) := by
  after_results_simp <;> rfl

set_option maxHeartbeats 4000000 in  -- the closing check sees through the typed references' transports of a called function's operations
/-- Window 5: the contents of main_v249 after the window's operations, over the contents before it. -/
theorem w5_v249 (V : Valuation τ sig (Elt Ideal)) :
    after (ops_part5 (F := Ideal)) V (Proc.devRef .tc main_v249) = (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v40))) (broadcastInDim S2x12544 ![] bcast_S_S2x12544 (constantI S_ 32 1#32)))) : IVec S2x12544 32) := by
  after_results_simp <;> rfl

set_option maxHeartbeats 4000000 in  -- the closing check sees through the typed references' transports of a called function's operations
/-- Window 5: the contents of main_v248 after the window's operations, over the contents before it. -/
theorem w5_v248 (V : Valuation τ sig (Elt Ideal)) :
    after (ops_part5 (F := Ideal)) V (Proc.devRef .tc main_v248) = (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v41))) (broadcastInDim S2x12544 ![] bcast_S_S2x12544 (constantI S_ 32 1#32)))) : IVec S2x12544 32) := by
  after_results_simp <;> rfl

set_option maxHeartbeats 4000000 in  -- the closing check sees through the typed references' transports of a called function's operations
/-- Window 5: the contents of main_v251 after the window's operations, over the contents before it. -/
theorem w5_v251 (V : Valuation τ sig (Elt Ideal)) :
    after (ops_part5 (F := Ideal)) V (Proc.devRef .tc main_v251) = (cmpi .slt (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v42))) (broadcastInDim S2x12544 ![] bcast_S_S2x12544 (constantI S_ 32 0#32))))) (broadcastInDim S2x12544 ![] bcast_S_S2x12544 (constantI S_ 32 0#32)) : IVec S2x12544 1) := by
  after_results_simp <;> rfl

set_option maxHeartbeats 4000000 in  -- the closing check sees through the typed references' transports of a called function's operations
/-- Window 5: the contents of main_v253 after the window's operations, over the contents before it. -/
theorem w5_v253 (V : Valuation τ sig (Elt Ideal)) :
    after (ops_part5 (F := Ideal)) V (Proc.devRef .tc main_v253) = (addi (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v42))) (broadcastInDim S2x12544 ![] bcast_S_S2x12544 (constantI S_ 32 0#32))))) (broadcastInDim S2x12544 ![] bcast_S_S2x12544 (constantI S_ 32 64#32)) : IVec S2x12544 32) := by
  after_results_simp <;> rfl

set_option maxHeartbeats 4000000 in  -- the closing check sees through the typed references' transports of a called function's operations
/-- Window 5: the contents of main_v247 after the window's operations, over the contents before it. -/
theorem w5_v247 (V : Valuation τ sig (Elt Ideal)) :
    after (ops_part5 (F := Ideal)) V (Proc.devRef .tc main_v247) = (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v42))) (broadcastInDim S2x12544 ![] bcast_S_S2x12544 (constantI S_ 32 0#32)))) : IVec S2x12544 32) := by
  after_results_simp <;> rfl

set_option maxHeartbeats 4000000 in  -- the closing check sees through the typed references' transports of a called function's operations
/-- Window 5: the contents of main_v246 after the window's operations, over the contents before it. -/
theorem w5_v246 (V : Valuation τ sig (Elt Ideal)) :
    after (ops_part5 (F := Ideal)) V (Proc.devRef .tc main_v246) = (andi (andi (andi (andi (andi (cmpi .sge (addi (asI S2x12544 32 (V (Proc.devRef .tc main_v42))) (broadcastInDim S2x12544 ![] bcast_S_S2x12544 (constantI S_ 32 0#32))) (broadcastInDim S2x12544 ![] bcast_S_S2x12544 (constantI S_ 32 0#32))) (cmpi .slt (addi (asI S2x12544 32 (V (Proc.devRef .tc main_v42))) (broadcastInDim S2x12544 ![] bcast_S_S2x12544 (constantI S_ 32 0#32))) (broadcastInDim S2x12544 ![] bcast_S_S2x12544 (constantI S_ 32 64#32)))) (cmpi .sge (addi (asI S2x12544 32 (V (Proc.devRef .tc main_v41))) (broadcastInDim S2x12544 ![] bcast_S_S2x12544 (constantI S_ 32 1#32))) (broadcastInDim S2x12544 ![] bcast_S_S2x12544 (constantI S_ 32 0#32)))) (cmpi .slt (addi (asI S2x12544 32 (V (Proc.devRef .tc main_v41))) (broadcastInDim S2x12544 ![] bcast_S_S2x12544 (constantI S_ 32 1#32))) (broadcastInDim S2x12544 ![] bcast_S_S2x12544 (constantI S_ 32 64#32)))) (cmpi .sge (addi (asI S2x12544 32 (V (Proc.devRef .tc main_v40))) (broadcastInDim S2x12544 ![] bcast_S_S2x12544 (constantI S_ 32 1#32))) (broadcastInDim S2x12544 ![] bcast_S_S2x12544 (constantI S_ 32 0#32)))) (cmpi .slt (addi (asI S2x12544 32 (V (Proc.devRef .tc main_v40))) (broadcastInDim S2x12544 ![] bcast_S_S2x12544 (constantI S_ 32 1#32))) (broadcastInDim S2x12544 ![] bcast_S_S2x12544 (constantI S_ 32 64#32))) : IVec S2x12544 1) := by
  after_results_simp <;> rfl

set_option maxHeartbeats 4000000 in  -- the closing check sees through the typed references' transports of a called function's operations
/-- Window 5: the contents of main_v223 after the window's operations, over the contents before it. -/
theorem w5_v223 (V : Valuation τ sig (Elt Ideal)) :
    after (ops_part5 (F := Ideal)) V (Proc.devRef .tc main_v223) = (mulf (mulf (subf (broadcastInDim S2x12544 ![] bcast_S_S2x12544 (constant (F := Ideal) S_ .f32 0x3F800000#32)) (asF S2x12544 (V (Proc.devRef .tc main_v39)))) (asF S2x12544 (V (Proc.devRef .tc main_v38)))) (asF S2x12544 (V (Proc.devRef .tc main_v37))) : FVec Ideal S2x12544 .f32) := by
  after_results_simp <;> rfl

end Cert.ReferenceIdeal.HandFold

end
-- ==== Proof.RefFoldWinB.lean ====
/- The reference program's run read one window at a time, windows 6 … 11: for each window of @main's operations and each
   buffer the window writes that a later window reads, the buffer's contents after the window as a term over the contents
   before the window at the buffers the window reads from outside itself.  Each is the fold of the window's operations
   unfolded: an operation's result at its own buffer is its function of its operands' contents, and at any other
   buffer what was there. -/
import proofs.«103167_j42614665511136_1_alg».proof.Proof.RefRunP3
import proofs.«103167_j42614665511136_1_alg».proof.Proof.RefRunP4
import proofs.«103167_j42614665511136_1_alg».proof.Proof.RefRunP5
import proofs.«103167_j42614665511136_1_alg».proof.Proof.LibTypedRead
import Idealize.ShloMosaic.PureOps.Ideal

set_option maxRecDepth 8192

noncomputable section

namespace Cert.ReferenceIdeal.HandFold

open Cert.ReferenceIdeal Cert.ReferenceIdeal.Facts₀ Cert.ReferenceIdeal.Facts Cert.ReferenceIdeal.HandRun Idealize.ShloMosaic Idealize.ShloMosaic.TcCoe Idealize.SL.Sem Idealize.ShloMosaic.StableHlo Cert.LibTypedRead

variable [Cert.ReferenceIdeal.Facts]

set_option maxHeartbeats 4000000 in  -- the closing check sees through the typed references' transports of a called function's operations
/-- Window 6: the contents of main_v274 after the window's operations, over the contents before it. -/
theorem w6_v274 (V : Valuation τ sig (Elt Ideal)) :
    after (ops_part6 (F := Ideal)) V (Proc.devRef .tc main_v274) = (addf (asF S2x100x12544 (V (Proc.devRef .tc main_v219))) (mulf (broadcastInDim S2x100x12544 ![0, 1, 2] bcast_S2x1x12544_S2x100x12544_0_1_2 (broadcastInDim S2x1x12544 ![0, 2] bcast_S2x12544_S2x1x12544_0_2 (asF S2x12544 (V (Proc.devRef .tc main_v223))))) (select (broadcastInDim S2x100x12544 ![0, 2] bcast_S2x12544_S2x100x12544_0_2 (asI S2x12544 1 (V (Proc.devRef .tc main_v246)))) (Host.gather gather_S2x100x64x64x64_S2x12544x3_S2x100x12544_1_234_0_0_234_2_1100111 (asF S2x100x64x64x64 (V (Proc.devRef .tc main_arg0))) (concatenate S2x12544x3 2 [⟨S2x12544x1, (broadcastInDim S2x12544x1 ![0, 1] bcast_S2x12544_S2x12544x1_0_1 (select (asI S2x12544 1 (V (Proc.devRef .tc main_v251))) (asI S2x12544 32 (V (Proc.devRef .tc main_v253))) (asI S2x12544 32 (V (Proc.devRef .tc main_v247)))))⟩, ⟨S2x12544x1, (broadcastInDim S2x12544x1 ![0, 1] bcast_S2x12544_S2x12544x1_0_1 (select (cmpi .slt (asI S2x12544 32 (V (Proc.devRef .tc main_v248))) (broadcastInDim S2x12544 ![] bcast_S_S2x12544 (constantI S_ 32 0#32))) (addi (asI S2x12544 32 (V (Proc.devRef .tc main_v248))) (broadcastInDim S2x12544 ![] bcast_S_S2x12544 (constantI S_ 32 64#32))) (asI S2x12544 32 (V (Proc.devRef .tc main_v248)))))⟩, ⟨S2x12544x1, (broadcastInDim S2x12544x1 ![0, 1] bcast_S2x12544_S2x12544x1_0_1 (select (cmpi .slt (asI S2x12544 32 (V (Proc.devRef .tc main_v249))) (broadcastInDim S2x12544 ![] bcast_S_S2x12544 (constantI S_ 32 0#32))) (addi (asI S2x12544 32 (V (Proc.devRef .tc main_v249))) (broadcastInDim S2x12544 ![] bcast_S_S2x12544 (constantI S_ 32 64#32))) (asI S2x12544 32 (V (Proc.devRef .tc main_v249)))))⟩] concatenates_S2x12544x1_S2x12544x1_S2x12544x1_S2x12544x3_d2)) (broadcastInDim S2x100x12544 ![1, 2] bcast_S100x12544_S2x100x12544_1_2 (broadcastInDim S100x12544 ![1] bcast_S12544_S100x12544_1 (broadcastInDim S12544 ![] bcast_S_S12544 (constant (F := Ideal) S_ .f32 0x00000000#32)))))) : FVec Ideal S2x100x12544 .f32) := by
  after_results_simp <;> rfl

set_option maxHeartbeats 4000000 in  -- the closing check sees through the typed references' transports of a called function's operations
/-- Window 6: the contents of main_v286 after the window's operations, over the contents before it. -/
theorem w6_v286 (V : Valuation τ sig (Elt Ideal)) :
    after (ops_part6 (F := Ideal)) V (Proc.devRef .tc main_v286) = (addi (asI S2x12544 32 (V (Proc.devRef .tc main_v40))) (broadcastInDim S2x12544 ![] bcast_S_S2x12544 (constantI S_ 32 0#32)) : IVec S2x12544 32) := by
  after_results_simp <;> rfl

set_option maxHeartbeats 4000000 in  -- the closing check sees through the typed references' transports of a called function's operations
/-- Window 6: the contents of main_v284 after the window's operations, over the contents before it. -/
theorem w6_v284 (V : Valuation τ sig (Elt Ideal)) :
    after (ops_part6 (F := Ideal)) V (Proc.devRef .tc main_v284) = (addi (asI S2x12544 32 (V (Proc.devRef .tc main_v41))) (broadcastInDim S2x12544 ![] bcast_S_S2x12544 (constantI S_ 32 0#32)) : IVec S2x12544 32) := by
  after_results_simp <;> rfl

set_option maxHeartbeats 4000000 in  -- the closing check sees through the typed references' transports of a called function's operations
/-- Window 6: the contents of main_v282 after the window's operations, over the contents before it. -/
theorem w6_v282 (V : Valuation τ sig (Elt Ideal)) :
    after (ops_part6 (F := Ideal)) V (Proc.devRef .tc main_v282) = (addi (asI S2x12544 32 (V (Proc.devRef .tc main_v42))) (broadcastInDim S2x12544 ![] bcast_S_S2x12544 (constantI S_ 32 1#32)) : IVec S2x12544 32) := by
  after_results_simp <;> rfl

set_option maxHeartbeats 4000000 in  -- the closing check sees through the typed references' transports of a called function's operations
/-- Window 6: the contents of main_v297 after the window's operations, over the contents before it. -/
theorem w6_v297 (V : Valuation τ sig (Elt Ideal)) :
    after (ops_part6 (F := Ideal)) V (Proc.devRef .tc main_v297) = (andi (andi (andi (cmpi .sge (addi (asI S2x12544 32 (V (Proc.devRef .tc main_v42))) (broadcastInDim S2x12544 ![] bcast_S_S2x12544 (constantI S_ 32 1#32))) (broadcastInDim S2x12544 ![] bcast_S_S2x12544 (constantI S_ 32 0#32))) (cmpi .slt (addi (asI S2x12544 32 (V (Proc.devRef .tc main_v42))) (broadcastInDim S2x12544 ![] bcast_S_S2x12544 (constantI S_ 32 1#32))) (broadcastInDim S2x12544 ![] bcast_S_S2x12544 (constantI S_ 32 64#32)))) (cmpi .sge (addi (asI S2x12544 32 (V (Proc.devRef .tc main_v41))) (broadcastInDim S2x12544 ![] bcast_S_S2x12544 (constantI S_ 32 0#32))) (broadcastInDim S2x12544 ![] bcast_S_S2x12544 (constantI S_ 32 0#32)))) (cmpi .slt (addi (asI S2x12544 32 (V (Proc.devRef .tc main_v41))) (broadcastInDim S2x12544 ![] bcast_S_S2x12544 (constantI S_ 32 0#32))) (broadcastInDim S2x12544 ![] bcast_S_S2x12544 (constantI S_ 32 64#32))) : IVec S2x12544 1) := by
  after_results_simp <;> rfl

set_option maxHeartbeats 4000000 in  -- the closing check sees through the typed references' transports of a called function's operations
/-- Window 6: the contents of main_v298 after the window's operations, over the contents before it. -/
theorem w6_v298 (V : Valuation τ sig (Elt Ideal)) :
    after (ops_part6 (F := Ideal)) V (Proc.devRef .tc main_v298) = (broadcastInDim S2x12544 ![] bcast_S_S2x12544 (constantI S_ 32 0#32) : IVec S2x12544 32) := by
  after_results_simp <;> rfl

set_option maxHeartbeats 4000000 in  -- the closing check sees through the typed references' transports of a called function's operations
/-- Window 6: the contents of main_v280 after the window's operations, over the contents before it. -/
theorem w6_v280 (V : Valuation τ sig (Elt Ideal)) :
    after (ops_part6 (F := Ideal)) V (Proc.devRef .tc main_v280) = (mulf (mulf (asF S2x12544 (V (Proc.devRef .tc main_v39))) (subf (broadcastInDim S2x12544 ![] bcast_S_S2x12544 (constant (F := Ideal) S_ .f32 0x3F800000#32)) (asF S2x12544 (V (Proc.devRef .tc main_v38))))) (subf (broadcastInDim S2x12544 ![] bcast_S_S2x12544 (constant (F := Ideal) S_ .f32 0x3F800000#32)) (asF S2x12544 (V (Proc.devRef .tc main_v37)))) : FVec Ideal S2x12544 .f32) := by
  after_results_simp <;> rfl

set_option maxHeartbeats 4000000 in  -- the closing check sees through the typed references' transports of a called function's operations
/-- Window 7: the contents of main_v331 after the window's operations, over the contents before it. -/
theorem w7_v331 (V : Valuation τ sig (Elt Ideal)) :
    after (ops_part7 (F := Ideal)) V (Proc.devRef .tc main_v331) = (addf (asF S2x100x12544 (V (Proc.devRef .tc main_v274))) (mulf (broadcastInDim S2x100x12544 ![0, 1, 2] bcast_S2x1x12544_S2x100x12544_0_1_2 (broadcastInDim S2x1x12544 ![0, 2] bcast_S2x12544_S2x1x12544_0_2 (asF S2x12544 (V (Proc.devRef .tc main_v280))))) (select (broadcastInDim S2x100x12544 ![0, 2] bcast_S2x12544_S2x100x12544_0_2 (andi (andi (asI S2x12544 1 (V (Proc.devRef .tc main_v297))) (cmpi .sge (asI S2x12544 32 (V (Proc.devRef .tc main_v286))) (asI S2x12544 32 (V (Proc.devRef .tc main_v298))))) (cmpi .slt (asI S2x12544 32 (V (Proc.devRef .tc main_v286))) (broadcastInDim S2x12544 ![] bcast_S_S2x12544 (constantI S_ 32 64#32))))) (Host.gather gather_S2x100x64x64x64_S2x12544x3_S2x100x12544_1_234_0_0_234_2_1100111 (asF S2x100x64x64x64 (V (Proc.devRef .tc main_arg0))) (concatenate S2x12544x3 2 [⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v282))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v282))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v282)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v284))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v284))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v284)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v286))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v286))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v286)))))))⟩] concatenates_S2x12544x1_S2x12544x1_S2x12544x1_S2x12544x3_d2)) (broadcastInDim S2x100x12544 ![1, 2] bcast_S100x12544_S2x100x12544_1_2 (broadcastInDim S100x12544 ![1] bcast_S12544_S100x12544_1 (broadcastInDim S12544 ![] bcast_S_S12544 (constant (F := Ideal) S_ .f32 0x00000000#32)))))) : FVec Ideal S2x100x12544 .f32) := by
  after_results_simp <;> rfl

set_option maxHeartbeats 4000000 in  -- the closing check sees through the typed references' transports of a called function's operations
/-- Window 7: the contents of main_v340 after the window's operations, over the contents before it. -/
theorem w7_v340 (V : Valuation τ sig (Elt Ideal)) :
    after (ops_part7 (F := Ideal)) V (Proc.devRef .tc main_v340) = (broadcastInDim S2x12544 ![] bcast_S_S2x12544 (constantI S_ 32 1#32) : IVec S2x12544 32) := by
  after_results_simp <;> rfl

set_option maxHeartbeats 4000000 in  -- the closing check sees through the typed references' transports of a called function's operations
/-- Window 7: the contents of main_v339 after the window's operations, over the contents before it. -/
theorem w7_v339 (V : Valuation τ sig (Elt Ideal)) :
    after (ops_part7 (F := Ideal)) V (Proc.devRef .tc main_v339) = (addi (asI S2x12544 32 (V (Proc.devRef .tc main_v41))) (broadcastInDim S2x12544 ![] bcast_S_S2x12544 (constantI S_ 32 0#32)) : IVec S2x12544 32) := by
  after_results_simp <;> rfl

set_option maxHeartbeats 4000000 in  -- the closing check sees through the typed references' transports of a called function's operations
/-- Window 7: the contents of main_v337 after the window's operations, over the contents before it. -/
theorem w7_v337 (V : Valuation τ sig (Elt Ideal)) :
    after (ops_part7 (F := Ideal)) V (Proc.devRef .tc main_v337) = (addi (asI S2x12544 32 (V (Proc.devRef .tc main_v42))) (broadcastInDim S2x12544 ![] bcast_S_S2x12544 (constantI S_ 32 1#32)) : IVec S2x12544 32) := by
  after_results_simp <;> rfl

set_option maxHeartbeats 4000000 in  -- the closing check sees through the typed references' transports of a called function's operations
/-- Window 7: the contents of main_v335 after the window's operations, over the contents before it. -/
theorem w7_v335 (V : Valuation τ sig (Elt Ideal)) :
    after (ops_part7 (F := Ideal)) V (Proc.devRef .tc main_v335) = (mulf (mulf (asF S2x12544 (V (Proc.devRef .tc main_v39))) (subf (broadcastInDim S2x12544 ![] bcast_S_S2x12544 (constant (F := Ideal) S_ .f32 0x3F800000#32)) (asF S2x12544 (V (Proc.devRef .tc main_v38))))) (asF S2x12544 (V (Proc.devRef .tc main_v37))) : FVec Ideal S2x12544 .f32) := by
  after_results_simp <;> rfl

set_option maxHeartbeats 4000000 in  -- the closing check sees through the typed references' transports of a called function's operations
/-- Window 8: the contents of main_v381 after the window's operations, over the contents before it. -/
theorem w8_v381 (V : Valuation τ sig (Elt Ideal)) :
    after (ops_part8 (F := Ideal)) V (Proc.devRef .tc main_v381) = (Host.gather gather_S2x100x64x64x64_S2x12544x3_S2x100x12544_1_234_0_0_234_2_1100111 (asF S2x100x64x64x64 (V (Proc.devRef .tc main_arg0))) (concatenate S2x12544x3 2 [⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v337))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v337))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v337)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v339))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v339))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v339)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v40))) (asI S2x12544 32 (V (Proc.devRef .tc main_v340)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v40))) (asI S2x12544 32 (V (Proc.devRef .tc main_v340)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v40))) (asI S2x12544 32 (V (Proc.devRef .tc main_v340))))))))⟩] concatenates_S2x12544x1_S2x12544x1_S2x12544x1_S2x12544x3_d2) : FVec Ideal S2x100x12544 .f32) := by
  after_results_simp <;> rfl

set_option maxHeartbeats 4000000 in  -- the closing check sees through the typed references' transports of a called function's operations
/-- Window 8: the contents of main_cst_155 after the window's operations, over the contents before it. -/
theorem w8_cst_155 (V : Valuation τ sig (Elt Ideal)) :
    after (ops_part8 (F := Ideal)) V (Proc.devRef .tc main_cst_155) = (constant (F := Ideal) S_ .f32 0x00000000#32 : FVec Ideal S_ .f32) := by
  after_results_simp <;> rfl

set_option maxHeartbeats 4000000 in  -- the closing check sees through the typed references' transports of a called function's operations
/-- Window 8: the contents of main_v358 after the window's operations, over the contents before it. -/
theorem w8_v358 (V : Valuation τ sig (Elt Ideal)) :
    after (ops_part8 (F := Ideal)) V (Proc.devRef .tc main_v358) = (andi (andi (andi (andi (andi (cmpi .sge (asI S2x12544 32 (V (Proc.devRef .tc main_v337))) (broadcastInDim S2x12544 ![] bcast_S_S2x12544 (constantI S_ 32 0#32))) (cmpi .slt (asI S2x12544 32 (V (Proc.devRef .tc main_v337))) (broadcastInDim S2x12544 ![] bcast_S_S2x12544 (constantI S_ 32 64#32)))) (cmpi .sge (asI S2x12544 32 (V (Proc.devRef .tc main_v339))) (broadcastInDim S2x12544 ![] bcast_S_S2x12544 (constantI S_ 32 0#32)))) (cmpi .slt (asI S2x12544 32 (V (Proc.devRef .tc main_v339))) (broadcastInDim S2x12544 ![] bcast_S_S2x12544 (constantI S_ 32 64#32)))) (cmpi .sge (addi (asI S2x12544 32 (V (Proc.devRef .tc main_v40))) (asI S2x12544 32 (V (Proc.devRef .tc main_v340)))) (broadcastInDim S2x12544 ![] bcast_S_S2x12544 (constantI S_ 32 0#32)))) (cmpi .slt (addi (asI S2x12544 32 (V (Proc.devRef .tc main_v40))) (asI S2x12544 32 (V (Proc.devRef .tc main_v340)))) (broadcastInDim S2x12544 ![] bcast_S_S2x12544 (constantI S_ 32 64#32))) : IVec S2x12544 1) := by
  after_results_simp <;> rfl

set_option maxHeartbeats 4000000 in  -- the closing check sees through the typed references' transports of a called function's operations
/-- Window 9: the contents of main_v386 after the window's operations, over the contents before it. -/
theorem w9_v386 (V : Valuation τ sig (Elt Ideal)) :
    after (ops_part9 (F := Ideal)) V (Proc.devRef .tc main_v386) = (addf (asF S2x100x12544 (V (Proc.devRef .tc main_v331))) (mulf (broadcastInDim S2x100x12544 ![0, 1, 2] bcast_S2x1x12544_S2x100x12544_0_1_2 (broadcastInDim S2x1x12544 ![0, 2] bcast_S2x12544_S2x1x12544_0_2 (asF S2x12544 (V (Proc.devRef .tc main_v335))))) (select (broadcastInDim S2x100x12544 ![0, 2] bcast_S2x12544_S2x100x12544_0_2 (asI S2x12544 1 (V (Proc.devRef .tc main_v358)))) (asF S2x100x12544 (V (Proc.devRef .tc main_v381))) (broadcastInDim S2x100x12544 ![1, 2] bcast_S100x12544_S2x100x12544_1_2 (broadcastInDim S100x12544 ![1] bcast_S12544_S100x12544_1 (broadcastInDim S12544 ![] bcast_S_S12544 (asF S_ (V (Proc.devRef .tc main_cst_155)))))))) : FVec Ideal S2x100x12544 .f32) := by
  after_results_simp <;> rfl

set_option maxHeartbeats 4000000 in  -- the closing check sees through the typed references' transports of a called function's operations
/-- Window 9: the contents of main_v416 after the window's operations, over the contents before it. -/
theorem w9_v416 (V : Valuation τ sig (Elt Ideal)) :
    after (ops_part9 (F := Ideal)) V (Proc.devRef .tc main_v416) = (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v40))) (broadcastInDim S2x12544 ![] bcast_S_S2x12544 (constantI S_ 32 0#32)))) : IVec S2x12544 32) := by
  after_results_simp <;> rfl

set_option maxHeartbeats 4000000 in  -- the closing check sees through the typed references' transports of a called function's operations
/-- Window 9: the contents of main_v415 after the window's operations, over the contents before it. -/
theorem w9_v415 (V : Valuation τ sig (Elt Ideal)) :
    after (ops_part9 (F := Ideal)) V (Proc.devRef .tc main_v415) = (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v41))) (broadcastInDim S2x12544 ![] bcast_S_S2x12544 (constantI S_ 32 1#32)))) : IVec S2x12544 32) := by
  after_results_simp <;> rfl

set_option maxHeartbeats 4000000 in  -- the closing check sees through the typed references' transports of a called function's operations
/-- Window 9: the contents of main_v422 after the window's operations, over the contents before it. -/
theorem w9_v422 (V : Valuation τ sig (Elt Ideal)) :
    after (ops_part9 (F := Ideal)) V (Proc.devRef .tc main_v422) = (broadcastInDim S2x12544 ![] bcast_S_S2x12544 (constantI S_ 32 0#32) : IVec S2x12544 32) := by
  after_results_simp <;> rfl

set_option maxHeartbeats 4000000 in  -- the closing check sees through the typed references' transports of a called function's operations
/-- Window 9: the contents of main_v421 after the window's operations, over the contents before it. -/
theorem w9_v421 (V : Valuation τ sig (Elt Ideal)) :
    after (ops_part9 (F := Ideal)) V (Proc.devRef .tc main_v421) = (select (cmpi .slt (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v42))) (broadcastInDim S2x12544 ![] bcast_S_S2x12544 (constantI S_ 32 1#32))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v42))) (broadcastInDim S2x12544 ![] bcast_S_S2x12544 (constantI S_ 32 1#32))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v42))) (broadcastInDim S2x12544 ![] bcast_S_S2x12544 (constantI S_ 32 1#32))))) : IVec S2x12544 32) := by
  after_results_simp <;> rfl

set_option maxHeartbeats 4000000 in  -- the closing check sees through the typed references' transports of a called function's operations
/-- Window 9: the contents of main_v413 after the window's operations, over the contents before it. -/
theorem w9_v413 (V : Valuation τ sig (Elt Ideal)) :
    after (ops_part9 (F := Ideal)) V (Proc.devRef .tc main_v413) = (andi (andi (andi (andi (andi (cmpi .sge (addi (asI S2x12544 32 (V (Proc.devRef .tc main_v42))) (broadcastInDim S2x12544 ![] bcast_S_S2x12544 (constantI S_ 32 1#32))) (broadcastInDim S2x12544 ![] bcast_S_S2x12544 (constantI S_ 32 0#32))) (cmpi .slt (addi (asI S2x12544 32 (V (Proc.devRef .tc main_v42))) (broadcastInDim S2x12544 ![] bcast_S_S2x12544 (constantI S_ 32 1#32))) (broadcastInDim S2x12544 ![] bcast_S_S2x12544 (constantI S_ 32 64#32)))) (cmpi .sge (addi (asI S2x12544 32 (V (Proc.devRef .tc main_v41))) (broadcastInDim S2x12544 ![] bcast_S_S2x12544 (constantI S_ 32 1#32))) (broadcastInDim S2x12544 ![] bcast_S_S2x12544 (constantI S_ 32 0#32)))) (cmpi .slt (addi (asI S2x12544 32 (V (Proc.devRef .tc main_v41))) (broadcastInDim S2x12544 ![] bcast_S_S2x12544 (constantI S_ 32 1#32))) (broadcastInDim S2x12544 ![] bcast_S_S2x12544 (constantI S_ 32 64#32)))) (cmpi .sge (addi (asI S2x12544 32 (V (Proc.devRef .tc main_v40))) (broadcastInDim S2x12544 ![] bcast_S_S2x12544 (constantI S_ 32 0#32))) (broadcastInDim S2x12544 ![] bcast_S_S2x12544 (constantI S_ 32 0#32)))) (cmpi .slt (addi (asI S2x12544 32 (V (Proc.devRef .tc main_v40))) (broadcastInDim S2x12544 ![] bcast_S_S2x12544 (constantI S_ 32 0#32))) (broadcastInDim S2x12544 ![] bcast_S_S2x12544 (constantI S_ 32 64#32))) : IVec S2x12544 1) := by
  after_results_simp <;> rfl

set_option maxHeartbeats 4000000 in  -- the closing check sees through the typed references' transports of a called function's operations
/-- Window 9: the contents of main_v390 after the window's operations, over the contents before it. -/
theorem w9_v390 (V : Valuation τ sig (Elt Ideal)) :
    after (ops_part9 (F := Ideal)) V (Proc.devRef .tc main_v390) = (mulf (mulf (asF S2x12544 (V (Proc.devRef .tc main_v39))) (asF S2x12544 (V (Proc.devRef .tc main_v38)))) (subf (broadcastInDim S2x12544 ![] bcast_S_S2x12544 (constant (F := Ideal) S_ .f32 0x3F800000#32)) (asF S2x12544 (V (Proc.devRef .tc main_v37)))) : FVec Ideal S2x12544 .f32) := by
  after_results_simp <;> rfl

set_option maxHeartbeats 4000000 in  -- the closing check sees through the typed references' transports of a called function's operations
/-- Window 10: the contents of main_v441 after the window's operations, over the contents before it. -/
theorem w10_v441 (V : Valuation τ sig (Elt Ideal)) :
    after (ops_part10 (F := Ideal)) V (Proc.devRef .tc main_v441) = (addf (asF S2x100x12544 (V (Proc.devRef .tc main_v386))) (mulf (broadcastInDim S2x100x12544 ![0, 1, 2] bcast_S2x1x12544_S2x100x12544_0_1_2 (broadcastInDim S2x1x12544 ![0, 2] bcast_S2x12544_S2x1x12544_0_2 (asF S2x12544 (V (Proc.devRef .tc main_v390))))) (select (broadcastInDim S2x100x12544 ![0, 2] bcast_S2x12544_S2x100x12544_0_2 (asI S2x12544 1 (V (Proc.devRef .tc main_v413)))) (Host.gather gather_S2x100x64x64x64_S2x12544x3_S2x100x12544_1_234_0_0_234_2_1100111 (asF S2x100x64x64x64 (V (Proc.devRef .tc main_arg0))) (concatenate S2x12544x3 2 [⟨S2x12544x1, (broadcastInDim S2x12544x1 ![0, 1] bcast_S2x12544_S2x12544x1_0_1 (asI S2x12544 32 (V (Proc.devRef .tc main_v421))))⟩, ⟨S2x12544x1, (broadcastInDim S2x12544x1 ![0, 1] bcast_S2x12544_S2x12544x1_0_1 (select (cmpi .slt (asI S2x12544 32 (V (Proc.devRef .tc main_v415))) (asI S2x12544 32 (V (Proc.devRef .tc main_v422)))) (addi (asI S2x12544 32 (V (Proc.devRef .tc main_v415))) (broadcastInDim S2x12544 ![] bcast_S_S2x12544 (constantI S_ 32 64#32))) (asI S2x12544 32 (V (Proc.devRef .tc main_v415)))))⟩, ⟨S2x12544x1, (broadcastInDim S2x12544x1 ![0, 1] bcast_S2x12544_S2x12544x1_0_1 (select (cmpi .slt (asI S2x12544 32 (V (Proc.devRef .tc main_v416))) (broadcastInDim S2x12544 ![] bcast_S_S2x12544 (constantI S_ 32 0#32))) (addi (asI S2x12544 32 (V (Proc.devRef .tc main_v416))) (broadcastInDim S2x12544 ![] bcast_S_S2x12544 (constantI S_ 32 64#32))) (asI S2x12544 32 (V (Proc.devRef .tc main_v416)))))⟩] concatenates_S2x12544x1_S2x12544x1_S2x12544x1_S2x12544x3_d2)) (broadcastInDim S2x100x12544 ![1, 2] bcast_S100x12544_S2x100x12544_1_2 (broadcastInDim S100x12544 ![1] bcast_S12544_S100x12544_1 (broadcastInDim S12544 ![] bcast_S_S12544 (constant (F := Ideal) S_ .f32 0x00000000#32)))))) : FVec Ideal S2x100x12544 .f32) := by
  after_results_simp <;> rfl

set_option maxHeartbeats 4000000 in  -- the closing check sees through the typed references' transports of a called function's operations
/-- Window 10: the contents of main_v449 after the window's operations, over the contents before it. -/
theorem w10_v449 (V : Valuation τ sig (Elt Ideal)) :
    after (ops_part10 (F := Ideal)) V (Proc.devRef .tc main_v449) = (addi (asI S2x12544 32 (V (Proc.devRef .tc main_v40))) (broadcastInDim S2x12544 ![] bcast_S_S2x12544 (constantI S_ 32 1#32)) : IVec S2x12544 32) := by
  after_results_simp <;> rfl

set_option maxHeartbeats 4000000 in  -- the closing check sees through the typed references' transports of a called function's operations
/-- Window 10: the contents of main_v447 after the window's operations, over the contents before it. -/
theorem w10_v447 (V : Valuation τ sig (Elt Ideal)) :
    after (ops_part10 (F := Ideal)) V (Proc.devRef .tc main_v447) = (addi (asI S2x12544 32 (V (Proc.devRef .tc main_v41))) (broadcastInDim S2x12544 ![] bcast_S_S2x12544 (constantI S_ 32 1#32)) : IVec S2x12544 32) := by
  after_results_simp <;> rfl

set_option maxHeartbeats 4000000 in  -- the closing check sees through the typed references' transports of a called function's operations
/-- Window 10: the contents of main_v467 after the window's operations, over the contents before it. -/
theorem w10_v467 (V : Valuation τ sig (Elt Ideal)) :
    after (ops_part10 (F := Ideal)) V (Proc.devRef .tc main_v467) = (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v42))) (broadcastInDim S2x12544 ![] bcast_S_S2x12544 (constantI S_ 32 1#32)))) : IVec S2x12544 32) := by
  after_results_simp <;> rfl

set_option maxHeartbeats 4000000 in  -- the closing check sees through the typed references' transports of a called function's operations
/-- Window 10: the contents of main_v466 after the window's operations, over the contents before it. -/
theorem w10_v466 (V : Valuation τ sig (Elt Ideal)) :
    after (ops_part10 (F := Ideal)) V (Proc.devRef .tc main_v466) = (andi (andi (andi (andi (andi (cmpi .sge (addi (asI S2x12544 32 (V (Proc.devRef .tc main_v42))) (broadcastInDim S2x12544 ![] bcast_S_S2x12544 (constantI S_ 32 1#32))) (broadcastInDim S2x12544 ![] bcast_S_S2x12544 (constantI S_ 32 0#32))) (cmpi .slt (addi (asI S2x12544 32 (V (Proc.devRef .tc main_v42))) (broadcastInDim S2x12544 ![] bcast_S_S2x12544 (constantI S_ 32 1#32))) (broadcastInDim S2x12544 ![] bcast_S_S2x12544 (constantI S_ 32 64#32)))) (cmpi .sge (addi (asI S2x12544 32 (V (Proc.devRef .tc main_v41))) (broadcastInDim S2x12544 ![] bcast_S_S2x12544 (constantI S_ 32 1#32))) (broadcastInDim S2x12544 ![] bcast_S_S2x12544 (constantI S_ 32 0#32)))) (cmpi .slt (addi (asI S2x12544 32 (V (Proc.devRef .tc main_v41))) (broadcastInDim S2x12544 ![] bcast_S_S2x12544 (constantI S_ 32 1#32))) (broadcastInDim S2x12544 ![] bcast_S_S2x12544 (constantI S_ 32 64#32)))) (cmpi .sge (addi (asI S2x12544 32 (V (Proc.devRef .tc main_v40))) (broadcastInDim S2x12544 ![] bcast_S_S2x12544 (constantI S_ 32 1#32))) (broadcastInDim S2x12544 ![] bcast_S_S2x12544 (constantI S_ 32 0#32)))) (cmpi .slt (addi (asI S2x12544 32 (V (Proc.devRef .tc main_v40))) (broadcastInDim S2x12544 ![] bcast_S_S2x12544 (constantI S_ 32 1#32))) (broadcastInDim S2x12544 ![] bcast_S_S2x12544 (constantI S_ 32 64#32))) : IVec S2x12544 1) := by
  after_results_simp <;> rfl

set_option maxHeartbeats 4000000 in  -- the closing check sees through the typed references' transports of a called function's operations
/-- Window 10: the contents of main_v443 after the window's operations, over the contents before it. -/
theorem w10_v443 (V : Valuation τ sig (Elt Ideal)) :
    after (ops_part10 (F := Ideal)) V (Proc.devRef .tc main_v443) = (mulf (mulf (asF S2x12544 (V (Proc.devRef .tc main_v39))) (asF S2x12544 (V (Proc.devRef .tc main_v38)))) (asF S2x12544 (V (Proc.devRef .tc main_v37))) : FVec Ideal S2x12544 .f32) := by
  after_results_simp <;> rfl

set_option maxHeartbeats 4000000 in  -- the closing check sees through the typed references' transports of a called function's operations
/-- Window 11: the contents of main_v508 after the window's operations, over the contents before it. -/
theorem w11_v508 (V : Valuation τ sig (Elt Ideal)) :
    after (ops_part11 (F := Ideal)) V (Proc.devRef .tc main_v508) = (mulf (subf (mulf (addf (shapeCast S2x12544 (extractStridedSlice S2x12544x1 ![0, 0, 0] (subf (mulf (broadcastInDim S2x12544x3 ![] bcast_S_S2x12544x3 (constant (F := Ideal) S_ .f32 0x40000000#32)) (asF S2x12544x3 (V (Proc.devRef .tc main_arg3)))) (broadcastInDim S2x12544x3 ![] bcast_S_S2x12544x3 (constant (F := Ideal) S_ .f32 0x3F800000#32))) slices_S2x12544x3_S2x12544x1_0_0_0) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32)) : FVec Ideal S2x12544 .f32) := by
  after_results_simp <;> rfl

set_option maxHeartbeats 4000000 in  -- the closing check sees through the typed references' transports of a called function's operations
/-- Window 11: the contents of main_v510 after the window's operations, over the contents before it. -/
theorem w11_v510 (V : Valuation τ sig (Elt Ideal)) :
    after (ops_part11 (F := Ideal)) V (Proc.devRef .tc main_v510) = (shapeCast S2x12544 (extractStridedSlice S2x12544x1 ![0, 0, 1] (subf (mulf (broadcastInDim S2x12544x3 ![] bcast_S_S2x12544x3 (constant (F := Ideal) S_ .f32 0x40000000#32)) (asF S2x12544x3 (V (Proc.devRef .tc main_arg3)))) (broadcastInDim S2x12544x3 ![] bcast_S_S2x12544x3 (constant (F := Ideal) S_ .f32 0x3F800000#32))) slices_S2x12544x3_S2x12544x1_0_0_1) shapeCasts_S2x12544x1_S2x12544 : FVec Ideal S2x12544 .f32) := by
  after_results_simp <;> rfl

set_option maxHeartbeats 4000000 in  -- the closing check sees through the typed references' transports of a called function's operations
/-- Window 11: the contents of main_v498 after the window's operations, over the contents before it. -/
theorem w11_v498 (V : Valuation τ sig (Elt Ideal)) :
    after (ops_part11 (F := Ideal)) V (Proc.devRef .tc main_v498) = (subf (mulf (broadcastInDim S2x12544x3 ![] bcast_S_S2x12544x3 (constant (F := Ideal) S_ .f32 0x40000000#32)) (asF S2x12544x3 (V (Proc.devRef .tc main_arg3)))) (broadcastInDim S2x12544x3 ![] bcast_S_S2x12544x3 (constant (F := Ideal) S_ .f32 0x3F800000#32)) : FVec Ideal S2x12544x3 .f32) := by
  after_results_simp <;> rfl

set_option maxHeartbeats 4000000 in  -- the closing check sees through the typed references' transports of a called function's operations
/-- Window 11: the contents of main_v494 after the window's operations, over the contents before it. -/
theorem w11_v494 (V : Valuation τ sig (Elt Ideal)) :
    after (ops_part11 (F := Ideal)) V (Proc.devRef .tc main_v494) = (addf (asF S2x100x12544 (V (Proc.devRef .tc main_v441))) (mulf (broadcastInDim S2x100x12544 ![0, 1, 2] bcast_S2x1x12544_S2x100x12544_0_1_2 (broadcastInDim S2x1x12544 ![0, 2] bcast_S2x12544_S2x1x12544_0_2 (asF S2x12544 (V (Proc.devRef .tc main_v443))))) (select (broadcastInDim S2x100x12544 ![0, 2] bcast_S2x12544_S2x100x12544_0_2 (asI S2x12544 1 (V (Proc.devRef .tc main_v466)))) (Host.gather gather_S2x100x64x64x64_S2x12544x3_S2x100x12544_1_234_0_0_234_2_1100111 (asF S2x100x64x64x64 (V (Proc.devRef .tc main_arg0))) (concatenate S2x12544x3 2 [⟨S2x12544x1, (broadcastInDim S2x12544x1 ![0, 1] bcast_S2x12544_S2x12544x1_0_1 (select (cmpi .slt (asI S2x12544 32 (V (Proc.devRef .tc main_v467))) (broadcastInDim S2x12544 ![] bcast_S_S2x12544 (constantI S_ 32 0#32))) (addi (asI S2x12544 32 (V (Proc.devRef .tc main_v467))) (broadcastInDim S2x12544 ![] bcast_S_S2x12544 (constantI S_ 32 64#32))) (asI S2x12544 32 (V (Proc.devRef .tc main_v467)))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v447))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v447))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v447)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v449))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v449))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v449)))))))⟩] concatenates_S2x12544x1_S2x12544x1_S2x12544x1_S2x12544x3_d2)) (broadcastInDim S2x100x12544 ![1, 2] bcast_S100x12544_S2x100x12544_1_2 (broadcastInDim S100x12544 ![1] bcast_S12544_S100x12544_1 (broadcastInDim S12544 ![] bcast_S_S12544 (constant (F := Ideal) S_ .f32 0x00000000#32)))))) : FVec Ideal S2x100x12544 .f32) := by
  after_results_simp <;> rfl

end Cert.ReferenceIdeal.HandFold

end
-- ==== Proof.RefFoldWinC.lean ====
/- The reference program's run read one window at a time, windows 12 … 17: for each window of @main's operations and each
   buffer the window writes that a later window reads, the buffer's contents after the window as a term over the contents
   before the window at the buffers the window reads from outside itself.  Each is the fold of the window's operations
   unfolded: an operation's result at its own buffer is its function of its operands' contents, and at any other
   buffer what was there. -/
import proofs.«103167_j42614665511136_1_alg».proof.Proof.RefRunP6
import proofs.«103167_j42614665511136_1_alg».proof.Proof.RefRunP7
import proofs.«103167_j42614665511136_1_alg».proof.Proof.RefRunP8
import proofs.«103167_j42614665511136_1_alg».proof.Proof.LibTypedRead
import Idealize.ShloMosaic.PureOps.Ideal

set_option maxRecDepth 8192

noncomputable section

namespace Cert.ReferenceIdeal.HandFold

open Cert.ReferenceIdeal Cert.ReferenceIdeal.Facts₀ Cert.ReferenceIdeal.Facts Cert.ReferenceIdeal.HandRun Idealize.ShloMosaic Idealize.ShloMosaic.TcCoe Idealize.SL.Sem Idealize.ShloMosaic.StableHlo Cert.LibTypedRead

variable [Cert.ReferenceIdeal.Facts]

set_option maxHeartbeats 4000000 in  -- the closing check sees through the typed references' transports of a called function's operations
/-- Window 12: the contents of main_v535 after the window's operations, over the contents before it. -/
theorem w12_v535 (V : Valuation τ sig (Elt Ideal)) :
    after (ops_part12 (F := Ideal)) V (Proc.devRef .tc main_v535) = (fptosi 32 (Host.floor (asF S2x12544 (V (Proc.devRef .tc main_v508)))) : IVec S2x12544 32) := by
  after_results_simp <;> rfl

set_option maxHeartbeats 4000000 in  -- the closing check sees through the typed references' transports of a called function's operations
/-- Window 12: the contents of main_v536 after the window's operations, over the contents before it. -/
theorem w12_v536 (V : Valuation τ sig (Elt Ideal)) :
    after (ops_part12 (F := Ideal)) V (Proc.devRef .tc main_v536) = (fptosi 32 (Host.floor (mulf (subf (mulf (addf (asF S2x12544 (V (Proc.devRef .tc main_v510))) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32)))) : IVec S2x12544 32) := by
  after_results_simp <;> rfl

set_option maxHeartbeats 4000000 in  -- the closing check sees through the typed references' transports of a called function's operations
/-- Window 12: the contents of main_v537 after the window's operations, over the contents before it. -/
theorem w12_v537 (V : Valuation τ sig (Elt Ideal)) :
    after (ops_part12 (F := Ideal)) V (Proc.devRef .tc main_v537) = (fptosi 32 (Host.floor (mulf (subf (mulf (addf (shapeCast S2x12544 (extractStridedSlice S2x12544x1 ![0, 0, 2] (asF S2x12544x3 (V (Proc.devRef .tc main_v498))) slices_S2x12544x3_S2x12544x1_0_0_2) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32)))) : IVec S2x12544 32) := by
  after_results_simp <;> rfl

set_option maxHeartbeats 4000000 in  -- the closing check sees through the typed references' transports of a called function's operations
/-- Window 12: the contents of main_v532 after the window's operations, over the contents before it. -/
theorem w12_v532 (V : Valuation τ sig (Elt Ideal)) :
    after (ops_part12 (F := Ideal)) V (Proc.devRef .tc main_v532) = (subf (asF S2x12544 (V (Proc.devRef .tc main_v508))) (Host.floor (asF S2x12544 (V (Proc.devRef .tc main_v508)))) : FVec Ideal S2x12544 .f32) := by
  after_results_simp <;> rfl

set_option maxHeartbeats 4000000 in  -- the closing check sees through the typed references' transports of a called function's operations
/-- Window 12: the contents of main_v534 after the window's operations, over the contents before it. -/
theorem w12_v534 (V : Valuation τ sig (Elt Ideal)) :
    after (ops_part12 (F := Ideal)) V (Proc.devRef .tc main_v534) = (subf (mulf (subf (mulf (addf (shapeCast S2x12544 (extractStridedSlice S2x12544x1 ![0, 0, 2] (asF S2x12544x3 (V (Proc.devRef .tc main_v498))) slices_S2x12544x3_S2x12544x1_0_0_2) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))) (Host.floor (mulf (subf (mulf (addf (shapeCast S2x12544 (extractStridedSlice S2x12544x1 ![0, 0, 2] (asF S2x12544x3 (V (Proc.devRef .tc main_v498))) slices_S2x12544x3_S2x12544x1_0_0_2) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32)))) : FVec Ideal S2x12544 .f32) := by
  after_results_simp <;> rfl

set_option maxHeartbeats 4000000 in  -- the closing check sees through the typed references' transports of a called function's operations
/-- Window 12: the contents of main_v533 after the window's operations, over the contents before it. -/
theorem w12_v533 (V : Valuation τ sig (Elt Ideal)) :
    after (ops_part12 (F := Ideal)) V (Proc.devRef .tc main_v533) = (subf (mulf (subf (mulf (addf (asF S2x12544 (V (Proc.devRef .tc main_v510))) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))) (Host.floor (mulf (subf (mulf (addf (asF S2x12544 (V (Proc.devRef .tc main_v510))) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32)))) : FVec Ideal S2x12544 .f32) := by
  after_results_simp <;> rfl

set_option maxHeartbeats 4000000 in  -- the closing check sees through the typed references' transports of a called function's operations
/-- Window 12: the contents of main_v552 after the window's operations, over the contents before it. -/
theorem w12_v552 (V : Valuation τ sig (Elt Ideal)) :
    after (ops_part12 (F := Ideal)) V (Proc.devRef .tc main_v552) = (addi (fptosi 32 (Host.floor (asF S2x12544 (V (Proc.devRef .tc main_v508))))) (broadcastInDim S2x12544 ![] bcast_S_S2x12544 (constantI S_ 32 0#32)) : IVec S2x12544 32) := by
  after_results_simp <;> rfl

set_option maxHeartbeats 4000000 in  -- the closing check sees through the typed references' transports of a called function's operations
/-- Window 12: the contents of main_v550 after the window's operations, over the contents before it. -/
theorem w12_v550 (V : Valuation τ sig (Elt Ideal)) :
    after (ops_part12 (F := Ideal)) V (Proc.devRef .tc main_v550) = (addi (fptosi 32 (Host.floor (mulf (subf (mulf (addf (asF S2x12544 (V (Proc.devRef .tc main_v510))) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))))) (broadcastInDim S2x12544 ![] bcast_S_S2x12544 (constantI S_ 32 0#32)) : IVec S2x12544 32) := by
  after_results_simp <;> rfl

set_option maxHeartbeats 4000000 in  -- the closing check sees through the typed references' transports of a called function's operations
/-- Window 12: the contents of main_v548 after the window's operations, over the contents before it. -/
theorem w12_v548 (V : Valuation τ sig (Elt Ideal)) :
    after (ops_part12 (F := Ideal)) V (Proc.devRef .tc main_v548) = (addi (fptosi 32 (Host.floor (mulf (subf (mulf (addf (shapeCast S2x12544 (extractStridedSlice S2x12544x1 ![0, 0, 2] (asF S2x12544x3 (V (Proc.devRef .tc main_v498))) slices_S2x12544x3_S2x12544x1_0_0_2) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))))) (broadcastInDim S2x12544 ![] bcast_S_S2x12544 (constantI S_ 32 0#32)) : IVec S2x12544 32) := by
  after_results_simp <;> rfl

set_option maxHeartbeats 4000000 in  -- the closing check sees through the typed references' transports of a called function's operations
/-- Window 12: the contents of main_v554 after the window's operations, over the contents before it. -/
theorem w12_v554 (V : Valuation τ sig (Elt Ideal)) :
    after (ops_part12 (F := Ideal)) V (Proc.devRef .tc main_v554) = (cmpi .sge (addi (fptosi 32 (Host.floor (mulf (subf (mulf (addf (shapeCast S2x12544 (extractStridedSlice S2x12544x1 ![0, 0, 2] (asF S2x12544x3 (V (Proc.devRef .tc main_v498))) slices_S2x12544x3_S2x12544x1_0_0_2) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))))) (broadcastInDim S2x12544 ![] bcast_S_S2x12544 (constantI S_ 32 0#32))) (broadcastInDim S2x12544 ![] bcast_S_S2x12544 (constantI S_ 32 0#32)) : IVec S2x12544 1) := by
  after_results_simp <;> rfl

set_option maxHeartbeats 4000000 in  -- the closing check sees through the typed references' transports of a called function's operations
/-- Window 12: the contents of main_v546 after the window's operations, over the contents before it. -/
theorem w12_v546 (V : Valuation τ sig (Elt Ideal)) :
    after (ops_part12 (F := Ideal)) V (Proc.devRef .tc main_v546) = (mulf (mulf (subf (broadcastInDim S2x12544 ![] bcast_S_S2x12544 (constant (F := Ideal) S_ .f32 0x3F800000#32)) (subf (mulf (subf (mulf (addf (shapeCast S2x12544 (extractStridedSlice S2x12544x1 ![0, 0, 2] (asF S2x12544x3 (V (Proc.devRef .tc main_v498))) slices_S2x12544x3_S2x12544x1_0_0_2) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))) (Host.floor (mulf (subf (mulf (addf (shapeCast S2x12544 (extractStridedSlice S2x12544x1 ![0, 0, 2] (asF S2x12544x3 (V (Proc.devRef .tc main_v498))) slices_S2x12544x3_S2x12544x1_0_0_2) shapeCasts_S2x12544x1_S2x12544) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32)))))) (subf (broadcastInDim S2x12544 ![] bcast_S_S2x12544 (constant (F := Ideal) S_ .f32 0x3F800000#32)) (subf (mulf (subf (mulf (addf (asF S2x12544 (V (Proc.devRef .tc main_v510))) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))) (Host.floor (mulf (subf (mulf (addf (asF S2x12544 (V (Proc.devRef .tc main_v510))) (broadcastInDim S2x12544 ![] bcast_S_S2x12544 (constant (F := Ideal) S_ .f32 0x3F800000#32))) (broadcastInDim S2x12544 ![] bcast_S_S2x12544 (constant (F := Ideal) S_ .f32 0x42800000#32))) (broadcastInDim S2x12544 ![] bcast_S_S2x12544 (constant (F := Ideal) S_ .f32 0x3F800000#32))) (broadcastInDim S2x12544 ![] bcast_S_S2x12544 (constant (F := Ideal) S_ .f32 0x3F000000#32))))))) (subf (broadcastInDim S2x12544 ![] bcast_S_S2x12544 (constant (F := Ideal) S_ .f32 0x3F800000#32)) (subf (asF S2x12544 (V (Proc.devRef .tc main_v508))) (Host.floor (asF S2x12544 (V (Proc.devRef .tc main_v508)))))) : FVec Ideal S2x12544 .f32) := by
  after_results_simp <;> rfl

set_option maxHeartbeats 4000000 in  -- the closing check sees through the typed references' transports of a called function's operations
/-- Window 12: the contents of main_v538 after the window's operations, over the contents before it. -/
theorem w12_v538 (V : Valuation τ sig (Elt Ideal)) :
    after (ops_part12 (F := Ideal)) V (Proc.devRef .tc main_v538) = (broadcastInDim S12544 ![] bcast_S_S12544 (constant (F := Ideal) S_ .f32 0x00000000#32) : FVec Ideal S12544 .f32) := by
  after_results_simp <;> rfl

set_option maxHeartbeats 4000000 in  -- the closing check sees through the typed references' transports of a called function's operations
/-- Window 13: the contents of main_v596 after the window's operations, over the contents before it. -/
theorem w13_v596 (V : Valuation τ sig (Elt Ideal)) :
    after (ops_part13 (F := Ideal)) V (Proc.devRef .tc main_v596) = (mulf (broadcastInDim S2x30x12544 ![0, 1, 2] bcast_S2x1x12544_S2x30x12544_0_1_2 (broadcastInDim S2x1x12544 ![0, 2] bcast_S2x12544_S2x1x12544_0_2 (asF S2x12544 (V (Proc.devRef .tc main_v546))))) (select (broadcastInDim S2x30x12544 ![0, 2] bcast_S2x12544_S2x30x12544_0_2 (andi (andi (andi (andi (andi (asI S2x12544 1 (V (Proc.devRef .tc main_v554))) (cmpi .slt (asI S2x12544 32 (V (Proc.devRef .tc main_v548))) (broadcastInDim S2x12544 ![] bcast_S_S2x12544 (constantI S_ 32 64#32)))) (cmpi .sge (asI S2x12544 32 (V (Proc.devRef .tc main_v550))) (broadcastInDim S2x12544 ![] bcast_S_S2x12544 (constantI S_ 32 0#32)))) (cmpi .slt (asI S2x12544 32 (V (Proc.devRef .tc main_v550))) (broadcastInDim S2x12544 ![] bcast_S_S2x12544 (constantI S_ 32 64#32)))) (cmpi .sge (asI S2x12544 32 (V (Proc.devRef .tc main_v552))) (broadcastInDim S2x12544 ![] bcast_S_S2x12544 (constantI S_ 32 0#32)))) (cmpi .slt (asI S2x12544 32 (V (Proc.devRef .tc main_v552))) (broadcastInDim S2x12544 ![] bcast_S_S2x12544 (constantI S_ 32 64#32))))) (Host.gather gather_S2x30x64x64x64_S2x12544x3_S2x30x12544_1_234_0_0_234_2_130111 (asF S2x30x64x64x64 (V (Proc.devRef .tc main_arg2))) (concatenate S2x12544x3 2 [⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v548))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v548))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v548)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v550))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v550))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v550)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v552))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v552))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v552)))))))⟩] concatenates_S2x12544x1_S2x12544x1_S2x12544x1_S2x12544x3_d2)) (broadcastInDim S2x30x12544 ![1, 2] bcast_S30x12544_S2x30x12544_1_2 (broadcastInDim S30x12544 ![1] bcast_S12544_S30x12544_1 (broadcastInDim S12544 ![] bcast_S_S12544 (constant (F := Ideal) S_ .f32 0x00000000#32))))) : FVec Ideal S2x30x12544 .f32) := by
  after_results_simp <;> rfl

set_option maxHeartbeats 4000000 in  -- the closing check sees through the typed references' transports of a called function's operations
/-- Window 14: the contents of main_v600 after the window's operations, over the contents before it. -/
theorem w14_v600 (V : Valuation τ sig (Elt Ideal)) :
    after (ops_part14 (F := Ideal)) V (Proc.devRef .tc main_v600) = (addf (broadcastInDim S2x30x12544 ![0, 1, 2] bcast_S1x1x12544_S2x30x12544_0_1_2 (broadcastInDim S1x1x12544 ![1, 2] bcast_S1x12544_S1x1x12544_1_2 (broadcastInDim S1x12544 ![1] bcast_S12544_S1x12544_1 (asF S12544 (V (Proc.devRef .tc main_v538)))))) (asF S2x30x12544 (V (Proc.devRef .tc main_v596))) : FVec Ideal S2x30x12544 .f32) := by
  after_results_simp <;> rfl

set_option maxHeartbeats 4000000 in  -- the closing check sees through the typed references' transports of a called function's operations
/-- Window 14: the contents of main_v632 after the window's operations, over the contents before it. -/
theorem w14_v632 (V : Valuation τ sig (Elt Ideal)) :
    after (ops_part14 (F := Ideal)) V (Proc.devRef .tc main_v632) = (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v535))) (broadcastInDim S2x12544 ![] bcast_S_S2x12544 (constantI S_ 32 1#32)))) : IVec S2x12544 32) := by
  after_results_simp <;> rfl

set_option maxHeartbeats 4000000 in  -- the closing check sees through the typed references' transports of a called function's operations
/-- Window 14: the contents of main_v631 after the window's operations, over the contents before it. -/
theorem w14_v631 (V : Valuation τ sig (Elt Ideal)) :
    after (ops_part14 (F := Ideal)) V (Proc.devRef .tc main_v631) = (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v536))) (broadcastInDim S2x12544 ![] bcast_S_S2x12544 (constantI S_ 32 0#32)))) : IVec S2x12544 32) := by
  after_results_simp <;> rfl

set_option maxHeartbeats 4000000 in  -- the closing check sees through the typed references' transports of a called function's operations
/-- Window 14: the contents of main_v637 after the window's operations, over the contents before it. -/
theorem w14_v637 (V : Valuation τ sig (Elt Ideal)) :
    after (ops_part14 (F := Ideal)) V (Proc.devRef .tc main_v637) = (select (cmpi .slt (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v537))) (broadcastInDim S2x12544 ![] bcast_S_S2x12544 (constantI S_ 32 0#32))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v537))) (broadcastInDim S2x12544 ![] bcast_S_S2x12544 (constantI S_ 32 0#32))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v537))) (broadcastInDim S2x12544 ![] bcast_S_S2x12544 (constantI S_ 32 0#32))))) : IVec S2x12544 32) := by
  after_results_simp <;> rfl

set_option maxHeartbeats 4000000 in  -- the closing check sees through the typed references' transports of a called function's operations
/-- Window 14: the contents of main_v629 after the window's operations, over the contents before it. -/
theorem w14_v629 (V : Valuation τ sig (Elt Ideal)) :
    after (ops_part14 (F := Ideal)) V (Proc.devRef .tc main_v629) = (andi (andi (andi (andi (andi (cmpi .sge (addi (asI S2x12544 32 (V (Proc.devRef .tc main_v537))) (broadcastInDim S2x12544 ![] bcast_S_S2x12544 (constantI S_ 32 0#32))) (broadcastInDim S2x12544 ![] bcast_S_S2x12544 (constantI S_ 32 0#32))) (cmpi .slt (addi (asI S2x12544 32 (V (Proc.devRef .tc main_v537))) (broadcastInDim S2x12544 ![] bcast_S_S2x12544 (constantI S_ 32 0#32))) (broadcastInDim S2x12544 ![] bcast_S_S2x12544 (constantI S_ 32 64#32)))) (cmpi .sge (addi (asI S2x12544 32 (V (Proc.devRef .tc main_v536))) (broadcastInDim S2x12544 ![] bcast_S_S2x12544 (constantI S_ 32 0#32))) (broadcastInDim S2x12544 ![] bcast_S_S2x12544 (constantI S_ 32 0#32)))) (cmpi .slt (addi (asI S2x12544 32 (V (Proc.devRef .tc main_v536))) (broadcastInDim S2x12544 ![] bcast_S_S2x12544 (constantI S_ 32 0#32))) (broadcastInDim S2x12544 ![] bcast_S_S2x12544 (constantI S_ 32 64#32)))) (cmpi .sge (addi (asI S2x12544 32 (V (Proc.devRef .tc main_v535))) (broadcastInDim S2x12544 ![] bcast_S_S2x12544 (constantI S_ 32 1#32))) (broadcastInDim S2x12544 ![] bcast_S_S2x12544 (constantI S_ 32 0#32)))) (cmpi .slt (addi (asI S2x12544 32 (V (Proc.devRef .tc main_v535))) (broadcastInDim S2x12544 ![] bcast_S_S2x12544 (constantI S_ 32 1#32))) (broadcastInDim S2x12544 ![] bcast_S_S2x12544 (constantI S_ 32 64#32))) : IVec S2x12544 1) := by
  after_results_simp <;> rfl

set_option maxHeartbeats 4000000 in  -- the closing check sees through the typed references' transports of a called function's operations
/-- Window 14: the contents of main_v606 after the window's operations, over the contents before it. -/
theorem w14_v606 (V : Valuation τ sig (Elt Ideal)) :
    after (ops_part14 (F := Ideal)) V (Proc.devRef .tc main_v606) = (mulf (mulf (subf (broadcastInDim S2x12544 ![] bcast_S_S2x12544 (constant (F := Ideal) S_ .f32 0x3F800000#32)) (asF S2x12544 (V (Proc.devRef .tc main_v534)))) (subf (broadcastInDim S2x12544 ![] bcast_S_S2x12544 (constant (F := Ideal) S_ .f32 0x3F800000#32)) (asF S2x12544 (V (Proc.devRef .tc main_v533))))) (asF S2x12544 (V (Proc.devRef .tc main_v532))) : FVec Ideal S2x12544 .f32) := by
  after_results_simp <;> rfl

set_option maxHeartbeats 4000000 in  -- the closing check sees through the typed references' transports of a called function's operations
/-- Window 15: the contents of main_v657 after the window's operations, over the contents before it. -/
theorem w15_v657 (V : Valuation τ sig (Elt Ideal)) :
    after (ops_part15 (F := Ideal)) V (Proc.devRef .tc main_v657) = (addf (asF S2x30x12544 (V (Proc.devRef .tc main_v600))) (mulf (broadcastInDim S2x30x12544 ![0, 1, 2] bcast_S2x1x12544_S2x30x12544_0_1_2 (broadcastInDim S2x1x12544 ![0, 2] bcast_S2x12544_S2x1x12544_0_2 (asF S2x12544 (V (Proc.devRef .tc main_v606))))) (select (broadcastInDim S2x30x12544 ![0, 2] bcast_S2x12544_S2x30x12544_0_2 (asI S2x12544 1 (V (Proc.devRef .tc main_v629)))) (Host.gather gather_S2x30x64x64x64_S2x12544x3_S2x30x12544_1_234_0_0_234_2_130111 (asF S2x30x64x64x64 (V (Proc.devRef .tc main_arg2))) (concatenate S2x12544x3 2 [⟨S2x12544x1, (broadcastInDim S2x12544x1 ![0, 1] bcast_S2x12544_S2x12544x1_0_1 (asI S2x12544 32 (V (Proc.devRef .tc main_v637))))⟩, ⟨S2x12544x1, (broadcastInDim S2x12544x1 ![0, 1] bcast_S2x12544_S2x12544x1_0_1 (select (cmpi .slt (asI S2x12544 32 (V (Proc.devRef .tc main_v631))) (broadcastInDim S2x12544 ![] bcast_S_S2x12544 (constantI S_ 32 0#32))) (addi (asI S2x12544 32 (V (Proc.devRef .tc main_v631))) (broadcastInDim S2x12544 ![] bcast_S_S2x12544 (constantI S_ 32 64#32))) (asI S2x12544 32 (V (Proc.devRef .tc main_v631)))))⟩, ⟨S2x12544x1, (broadcastInDim S2x12544x1 ![0, 1] bcast_S2x12544_S2x12544x1_0_1 (select (cmpi .slt (asI S2x12544 32 (V (Proc.devRef .tc main_v632))) (broadcastInDim S2x12544 ![] bcast_S_S2x12544 (constantI S_ 32 0#32))) (addi (asI S2x12544 32 (V (Proc.devRef .tc main_v632))) (broadcastInDim S2x12544 ![] bcast_S_S2x12544 (constantI S_ 32 64#32))) (asI S2x12544 32 (V (Proc.devRef .tc main_v632)))))⟩] concatenates_S2x12544x1_S2x12544x1_S2x12544x1_S2x12544x3_d2)) (broadcastInDim S2x30x12544 ![1, 2] bcast_S30x12544_S2x30x12544_1_2 (broadcastInDim S30x12544 ![1] bcast_S12544_S30x12544_1 (broadcastInDim S12544 ![] bcast_S_S12544 (constant (F := Ideal) S_ .f32 0x00000000#32)))))) : FVec Ideal S2x30x12544 .f32) := by
  after_results_simp <;> rfl

set_option maxHeartbeats 4000000 in  -- the closing check sees through the typed references' transports of a called function's operations
/-- Window 15: the contents of main_v669 after the window's operations, over the contents before it. -/
theorem w15_v669 (V : Valuation τ sig (Elt Ideal)) :
    after (ops_part15 (F := Ideal)) V (Proc.devRef .tc main_v669) = (addi (asI S2x12544 32 (V (Proc.devRef .tc main_v535))) (broadcastInDim S2x12544 ![] bcast_S_S2x12544 (constantI S_ 32 0#32)) : IVec S2x12544 32) := by
  after_results_simp <;> rfl

set_option maxHeartbeats 4000000 in  -- the closing check sees through the typed references' transports of a called function's operations
/-- Window 15: the contents of main_v667 after the window's operations, over the contents before it. -/
theorem w15_v667 (V : Valuation τ sig (Elt Ideal)) :
    after (ops_part15 (F := Ideal)) V (Proc.devRef .tc main_v667) = (addi (asI S2x12544 32 (V (Proc.devRef .tc main_v536))) (broadcastInDim S2x12544 ![] bcast_S_S2x12544 (constantI S_ 32 1#32)) : IVec S2x12544 32) := by
  after_results_simp <;> rfl

set_option maxHeartbeats 4000000 in  -- the closing check sees through the typed references' transports of a called function's operations
/-- Window 15: the contents of main_v665 after the window's operations, over the contents before it. -/
theorem w15_v665 (V : Valuation τ sig (Elt Ideal)) :
    after (ops_part15 (F := Ideal)) V (Proc.devRef .tc main_v665) = (addi (asI S2x12544 32 (V (Proc.devRef .tc main_v537))) (broadcastInDim S2x12544 ![] bcast_S_S2x12544 (constantI S_ 32 0#32)) : IVec S2x12544 32) := by
  after_results_simp <;> rfl

set_option maxHeartbeats 4000000 in  -- the closing check sees through the typed references' transports of a called function's operations
/-- Window 15: the contents of main_v680 after the window's operations, over the contents before it. -/
theorem w15_v680 (V : Valuation τ sig (Elt Ideal)) :
    after (ops_part15 (F := Ideal)) V (Proc.devRef .tc main_v680) = (andi (andi (andi (cmpi .sge (addi (asI S2x12544 32 (V (Proc.devRef .tc main_v537))) (broadcastInDim S2x12544 ![] bcast_S_S2x12544 (constantI S_ 32 0#32))) (broadcastInDim S2x12544 ![] bcast_S_S2x12544 (constantI S_ 32 0#32))) (cmpi .slt (addi (asI S2x12544 32 (V (Proc.devRef .tc main_v537))) (broadcastInDim S2x12544 ![] bcast_S_S2x12544 (constantI S_ 32 0#32))) (broadcastInDim S2x12544 ![] bcast_S_S2x12544 (constantI S_ 32 64#32)))) (cmpi .sge (addi (asI S2x12544 32 (V (Proc.devRef .tc main_v536))) (broadcastInDim S2x12544 ![] bcast_S_S2x12544 (constantI S_ 32 1#32))) (broadcastInDim S2x12544 ![] bcast_S_S2x12544 (constantI S_ 32 0#32)))) (cmpi .slt (addi (asI S2x12544 32 (V (Proc.devRef .tc main_v536))) (broadcastInDim S2x12544 ![] bcast_S_S2x12544 (constantI S_ 32 1#32))) (broadcastInDim S2x12544 ![] bcast_S_S2x12544 (constantI S_ 32 64#32))) : IVec S2x12544 1) := by
  after_results_simp <;> rfl

set_option maxHeartbeats 4000000 in  -- the closing check sees through the typed references' transports of a called function's operations
/-- Window 15: the contents of main_v682 after the window's operations, over the contents before it. -/
theorem w15_v682 (V : Valuation τ sig (Elt Ideal)) :
    after (ops_part15 (F := Ideal)) V (Proc.devRef .tc main_v682) = (cmpi .sge (addi (asI S2x12544 32 (V (Proc.devRef .tc main_v535))) (broadcastInDim S2x12544 ![] bcast_S_S2x12544 (constantI S_ 32 0#32))) (broadcastInDim S2x12544 ![] bcast_S_S2x12544 (constantI S_ 32 0#32)) : IVec S2x12544 1) := by
  after_results_simp <;> rfl

set_option maxHeartbeats 4000000 in  -- the closing check sees through the typed references' transports of a called function's operations
/-- Window 15: the contents of main_v663 after the window's operations, over the contents before it. -/
theorem w15_v663 (V : Valuation τ sig (Elt Ideal)) :
    after (ops_part15 (F := Ideal)) V (Proc.devRef .tc main_v663) = (mulf (mulf (subf (broadcastInDim S2x12544 ![] bcast_S_S2x12544 (constant (F := Ideal) S_ .f32 0x3F800000#32)) (asF S2x12544 (V (Proc.devRef .tc main_v534)))) (asF S2x12544 (V (Proc.devRef .tc main_v533)))) (subf (broadcastInDim S2x12544 ![] bcast_S_S2x12544 (constant (F := Ideal) S_ .f32 0x3F800000#32)) (asF S2x12544 (V (Proc.devRef .tc main_v532)))) : FVec Ideal S2x12544 .f32) := by
  after_results_simp <;> rfl

set_option maxHeartbeats 4000000 in  -- the closing check sees through the typed references' transports of a called function's operations
/-- Window 16: the contents of main_v714 after the window's operations, over the contents before it. -/
theorem w16_v714 (V : Valuation τ sig (Elt Ideal)) :
    after (ops_part16 (F := Ideal)) V (Proc.devRef .tc main_v714) = (addf (asF S2x30x12544 (V (Proc.devRef .tc main_v657))) (mulf (broadcastInDim S2x30x12544 ![0, 1, 2] bcast_S2x1x12544_S2x30x12544_0_1_2 (broadcastInDim S2x1x12544 ![0, 2] bcast_S2x12544_S2x1x12544_0_2 (asF S2x12544 (V (Proc.devRef .tc main_v663))))) (select (broadcastInDim S2x30x12544 ![0, 2] bcast_S2x12544_S2x30x12544_0_2 (andi (andi (asI S2x12544 1 (V (Proc.devRef .tc main_v680))) (asI S2x12544 1 (V (Proc.devRef .tc main_v682)))) (cmpi .slt (asI S2x12544 32 (V (Proc.devRef .tc main_v669))) (broadcastInDim S2x12544 ![] bcast_S_S2x12544 (constantI S_ 32 64#32))))) (Host.gather gather_S2x30x64x64x64_S2x12544x3_S2x30x12544_1_234_0_0_234_2_130111 (asF S2x30x64x64x64 (V (Proc.devRef .tc main_arg2))) (concatenate S2x12544x3 2 [⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v665))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v665))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v665)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v667))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v667))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v667)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v669))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v669))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v669)))))))⟩] concatenates_S2x12544x1_S2x12544x1_S2x12544x1_S2x12544x3_d2)) (broadcastInDim S2x30x12544 ![1, 2] bcast_S30x12544_S2x30x12544_1_2 (broadcastInDim S30x12544 ![1] bcast_S12544_S30x12544_1 (broadcastInDim S12544 ![] bcast_S_S12544 (constant (F := Ideal) S_ .f32 0x00000000#32)))))) : FVec Ideal S2x30x12544 .f32) := by
  after_results_simp <;> rfl

set_option maxHeartbeats 4000000 in  -- the closing check sees through the typed references' transports of a called function's operations
/-- Window 16: the contents of main_v724 after the window's operations, over the contents before it. -/
theorem w16_v724 (V : Valuation τ sig (Elt Ideal)) :
    after (ops_part16 (F := Ideal)) V (Proc.devRef .tc main_v724) = (addi (asI S2x12544 32 (V (Proc.devRef .tc main_v535))) (broadcastInDim S2x12544 ![] bcast_S_S2x12544 (constantI S_ 32 1#32)) : IVec S2x12544 32) := by
  after_results_simp <;> rfl

set_option maxHeartbeats 4000000 in  -- the closing check sees through the typed references' transports of a called function's operations
/-- Window 16: the contents of main_v722 after the window's operations, over the contents before it. -/
theorem w16_v722 (V : Valuation τ sig (Elt Ideal)) :
    after (ops_part16 (F := Ideal)) V (Proc.devRef .tc main_v722) = (addi (asI S2x12544 32 (V (Proc.devRef .tc main_v536))) (broadcastInDim S2x12544 ![] bcast_S_S2x12544 (constantI S_ 32 1#32)) : IVec S2x12544 32) := by
  after_results_simp <;> rfl

set_option maxHeartbeats 4000000 in  -- the closing check sees through the typed references' transports of a called function's operations
/-- Window 16: the contents of main_v720 after the window's operations, over the contents before it. -/
theorem w16_v720 (V : Valuation τ sig (Elt Ideal)) :
    after (ops_part16 (F := Ideal)) V (Proc.devRef .tc main_v720) = (addi (asI S2x12544 32 (V (Proc.devRef .tc main_v537))) (broadcastInDim S2x12544 ![] bcast_S_S2x12544 (constantI S_ 32 0#32)) : IVec S2x12544 32) := by
  after_results_simp <;> rfl

set_option maxHeartbeats 4000000 in  -- the closing check sees through the typed references' transports of a called function's operations
/-- Window 16: the contents of main_v718 after the window's operations, over the contents before it. -/
theorem w16_v718 (V : Valuation τ sig (Elt Ideal)) :
    after (ops_part16 (F := Ideal)) V (Proc.devRef .tc main_v718) = (mulf (mulf (subf (broadcastInDim S2x12544 ![] bcast_S_S2x12544 (constant (F := Ideal) S_ .f32 0x3F800000#32)) (asF S2x12544 (V (Proc.devRef .tc main_v534)))) (asF S2x12544 (V (Proc.devRef .tc main_v533)))) (asF S2x12544 (V (Proc.devRef .tc main_v532))) : FVec Ideal S2x12544 .f32) := by
  after_results_simp <;> rfl

set_option maxHeartbeats 4000000 in  -- the closing check sees through the typed references' transports of a called function's operations
/-- Window 17: the contents of main_v765 after the window's operations, over the contents before it. -/
theorem w17_v765 (V : Valuation τ sig (Elt Ideal)) :
    after (ops_part17 (F := Ideal)) V (Proc.devRef .tc main_v765) = (select (broadcastInDim S2x30x12544 ![0, 2] bcast_S2x12544_S2x30x12544_0_2 (andi (andi (andi (andi (andi (cmpi .sge (asI S2x12544 32 (V (Proc.devRef .tc main_v720))) (broadcastInDim S2x12544 ![] bcast_S_S2x12544 (constantI S_ 32 0#32))) (cmpi .slt (asI S2x12544 32 (V (Proc.devRef .tc main_v720))) (broadcastInDim S2x12544 ![] bcast_S_S2x12544 (constantI S_ 32 64#32)))) (cmpi .sge (asI S2x12544 32 (V (Proc.devRef .tc main_v722))) (broadcastInDim S2x12544 ![] bcast_S_S2x12544 (constantI S_ 32 0#32)))) (cmpi .slt (asI S2x12544 32 (V (Proc.devRef .tc main_v722))) (broadcastInDim S2x12544 ![] bcast_S_S2x12544 (constantI S_ 32 64#32)))) (cmpi .sge (asI S2x12544 32 (V (Proc.devRef .tc main_v724))) (broadcastInDim S2x12544 ![] bcast_S_S2x12544 (constantI S_ 32 0#32)))) (cmpi .slt (asI S2x12544 32 (V (Proc.devRef .tc main_v724))) (broadcastInDim S2x12544 ![] bcast_S_S2x12544 (constantI S_ 32 64#32))))) (Host.gather gather_S2x30x64x64x64_S2x12544x3_S2x30x12544_1_234_0_0_234_2_130111 (asF S2x30x64x64x64 (V (Proc.devRef .tc main_arg2))) (concatenate S2x12544x3 2 [⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v720))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v720))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v720)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v722))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v722))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v722)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v724))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v724))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v724)))))))⟩] concatenates_S2x12544x1_S2x12544x1_S2x12544x1_S2x12544x3_d2)) (broadcastInDim S2x30x12544 ![1, 2] bcast_S30x12544_S2x30x12544_1_2 (broadcastInDim S30x12544 ![1] bcast_S12544_S30x12544_1 (broadcastInDim S12544 ![] bcast_S_S12544 (constant (F := Ideal) S_ .f32 0x00000000#32)))) : FVec Ideal S2x30x12544 .f32) := by
  after_results_simp <;> rfl

end Cert.ReferenceIdeal.HandFold

end
-- ==== Proof.RefFoldWinD.lean ====
/- The reference program's run read one window at a time, windows 18 … 23: for each window of @main's operations and each
   buffer the window writes that a later window reads, the buffer's contents after the window as a term over the contents
   before the window at the buffers the window reads from outside itself.  Each is the fold of the window's operations
   unfolded: an operation's result at its own buffer is its function of its operands' contents, and at any other
   buffer what was there. -/
import proofs.«103167_j42614665511136_1_alg».proof.Proof.RefRunP9
import proofs.«103167_j42614665511136_1_alg».proof.Proof.RefRunP10
import proofs.«103167_j42614665511136_1_alg».proof.Proof.RefRunP11
import proofs.«103167_j42614665511136_1_alg».proof.Proof.LibTypedRead
import Idealize.ShloMosaic.PureOps.Ideal

set_option maxRecDepth 8192

noncomputable section

namespace Cert.ReferenceIdeal.HandFold

open Cert.ReferenceIdeal Cert.ReferenceIdeal.Facts₀ Cert.ReferenceIdeal.Facts Cert.ReferenceIdeal.HandRun Idealize.ShloMosaic Idealize.ShloMosaic.TcCoe Idealize.SL.Sem Idealize.ShloMosaic.StableHlo Cert.LibTypedRead

variable [Cert.ReferenceIdeal.Facts]

set_option maxHeartbeats 4000000 in  -- the closing check sees through the typed references' transports of a called function's operations
/-- Window 18: the contents of main_v769 after the window's operations, over the contents before it. -/
theorem w18_v769 (V : Valuation τ sig (Elt Ideal)) :
    after (ops_part18 (F := Ideal)) V (Proc.devRef .tc main_v769) = (addf (asF S2x30x12544 (V (Proc.devRef .tc main_v714))) (mulf (broadcastInDim S2x30x12544 ![0, 1, 2] bcast_S2x1x12544_S2x30x12544_0_1_2 (broadcastInDim S2x1x12544 ![0, 2] bcast_S2x12544_S2x1x12544_0_2 (asF S2x12544 (V (Proc.devRef .tc main_v718))))) (asF S2x30x12544 (V (Proc.devRef .tc main_v765)))) : FVec Ideal S2x30x12544 .f32) := by
  after_results_simp <;> rfl

set_option maxHeartbeats 4000000 in  -- the closing check sees through the typed references' transports of a called function's operations
/-- Window 18: the contents of main_v801 after the window's operations, over the contents before it. -/
theorem w18_v801 (V : Valuation τ sig (Elt Ideal)) :
    after (ops_part18 (F := Ideal)) V (Proc.devRef .tc main_v801) = (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v535))) (broadcastInDim S2x12544 ![] bcast_S_S2x12544 (constantI S_ 32 0#32)))) : IVec S2x12544 32) := by
  after_results_simp <;> rfl

set_option maxHeartbeats 4000000 in  -- the closing check sees through the typed references' transports of a called function's operations
/-- Window 18: the contents of main_v800 after the window's operations, over the contents before it. -/
theorem w18_v800 (V : Valuation τ sig (Elt Ideal)) :
    after (ops_part18 (F := Ideal)) V (Proc.devRef .tc main_v800) = (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v536))) (broadcastInDim S2x12544 ![] bcast_S_S2x12544 (constantI S_ 32 0#32)))) : IVec S2x12544 32) := by
  after_results_simp <;> rfl

set_option maxHeartbeats 4000000 in  -- the closing check sees through the typed references' transports of a called function's operations
/-- Window 18: the contents of main_v806 after the window's operations, over the contents before it. -/
theorem w18_v806 (V : Valuation τ sig (Elt Ideal)) :
    after (ops_part18 (F := Ideal)) V (Proc.devRef .tc main_v806) = (select (cmpi .slt (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v537))) (broadcastInDim S2x12544 ![] bcast_S_S2x12544 (constantI S_ 32 1#32))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v537))) (broadcastInDim S2x12544 ![] bcast_S_S2x12544 (constantI S_ 32 1#32))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v537))) (broadcastInDim S2x12544 ![] bcast_S_S2x12544 (constantI S_ 32 1#32))))) : IVec S2x12544 32) := by
  after_results_simp <;> rfl

set_option maxHeartbeats 4000000 in  -- the closing check sees through the typed references' transports of a called function's operations
/-- Window 18: the contents of main_v798 after the window's operations, over the contents before it. -/
theorem w18_v798 (V : Valuation τ sig (Elt Ideal)) :
    after (ops_part18 (F := Ideal)) V (Proc.devRef .tc main_v798) = (andi (andi (andi (andi (andi (cmpi .sge (addi (asI S2x12544 32 (V (Proc.devRef .tc main_v537))) (broadcastInDim S2x12544 ![] bcast_S_S2x12544 (constantI S_ 32 1#32))) (broadcastInDim S2x12544 ![] bcast_S_S2x12544 (constantI S_ 32 0#32))) (cmpi .slt (addi (asI S2x12544 32 (V (Proc.devRef .tc main_v537))) (broadcastInDim S2x12544 ![] bcast_S_S2x12544 (constantI S_ 32 1#32))) (broadcastInDim S2x12544 ![] bcast_S_S2x12544 (constantI S_ 32 64#32)))) (cmpi .sge (addi (asI S2x12544 32 (V (Proc.devRef .tc main_v536))) (broadcastInDim S2x12544 ![] bcast_S_S2x12544 (constantI S_ 32 0#32))) (broadcastInDim S2x12544 ![] bcast_S_S2x12544 (constantI S_ 32 0#32)))) (cmpi .slt (addi (asI S2x12544 32 (V (Proc.devRef .tc main_v536))) (broadcastInDim S2x12544 ![] bcast_S_S2x12544 (constantI S_ 32 0#32))) (broadcastInDim S2x12544 ![] bcast_S_S2x12544 (constantI S_ 32 64#32)))) (cmpi .sge (addi (asI S2x12544 32 (V (Proc.devRef .tc main_v535))) (broadcastInDim S2x12544 ![] bcast_S_S2x12544 (constantI S_ 32 0#32))) (broadcastInDim S2x12544 ![] bcast_S_S2x12544 (constantI S_ 32 0#32)))) (cmpi .slt (addi (asI S2x12544 32 (V (Proc.devRef .tc main_v535))) (broadcastInDim S2x12544 ![] bcast_S_S2x12544 (constantI S_ 32 0#32))) (broadcastInDim S2x12544 ![] bcast_S_S2x12544 (constantI S_ 32 64#32))) : IVec S2x12544 1) := by
  after_results_simp <;> rfl

set_option maxHeartbeats 4000000 in  -- the closing check sees through the typed references' transports of a called function's operations
/-- Window 18: the contents of main_v775 after the window's operations, over the contents before it. -/
theorem w18_v775 (V : Valuation τ sig (Elt Ideal)) :
    after (ops_part18 (F := Ideal)) V (Proc.devRef .tc main_v775) = (mulf (mulf (asF S2x12544 (V (Proc.devRef .tc main_v534))) (subf (broadcastInDim S2x12544 ![] bcast_S_S2x12544 (constant (F := Ideal) S_ .f32 0x3F800000#32)) (asF S2x12544 (V (Proc.devRef .tc main_v533))))) (subf (broadcastInDim S2x12544 ![] bcast_S_S2x12544 (constant (F := Ideal) S_ .f32 0x3F800000#32)) (asF S2x12544 (V (Proc.devRef .tc main_v532)))) : FVec Ideal S2x12544 .f32) := by
  after_results_simp <;> rfl

set_option maxHeartbeats 4000000 in  -- the closing check sees through the typed references' transports of a called function's operations
/-- Window 19: the contents of main_v826 after the window's operations, over the contents before it. -/
theorem w19_v826 (V : Valuation τ sig (Elt Ideal)) :
    after (ops_part19 (F := Ideal)) V (Proc.devRef .tc main_v826) = (addf (asF S2x30x12544 (V (Proc.devRef .tc main_v769))) (mulf (broadcastInDim S2x30x12544 ![0, 1, 2] bcast_S2x1x12544_S2x30x12544_0_1_2 (broadcastInDim S2x1x12544 ![0, 2] bcast_S2x12544_S2x1x12544_0_2 (asF S2x12544 (V (Proc.devRef .tc main_v775))))) (select (broadcastInDim S2x30x12544 ![0, 2] bcast_S2x12544_S2x30x12544_0_2 (asI S2x12544 1 (V (Proc.devRef .tc main_v798)))) (Host.gather gather_S2x30x64x64x64_S2x12544x3_S2x30x12544_1_234_0_0_234_2_130111 (asF S2x30x64x64x64 (V (Proc.devRef .tc main_arg2))) (concatenate S2x12544x3 2 [⟨S2x12544x1, (broadcastInDim S2x12544x1 ![0, 1] bcast_S2x12544_S2x12544x1_0_1 (asI S2x12544 32 (V (Proc.devRef .tc main_v806))))⟩, ⟨S2x12544x1, (broadcastInDim S2x12544x1 ![0, 1] bcast_S2x12544_S2x12544x1_0_1 (select (cmpi .slt (asI S2x12544 32 (V (Proc.devRef .tc main_v800))) (broadcastInDim S2x12544 ![] bcast_S_S2x12544 (constantI S_ 32 0#32))) (addi (asI S2x12544 32 (V (Proc.devRef .tc main_v800))) (broadcastInDim S2x12544 ![] bcast_S_S2x12544 (constantI S_ 32 64#32))) (asI S2x12544 32 (V (Proc.devRef .tc main_v800)))))⟩, ⟨S2x12544x1, (broadcastInDim S2x12544x1 ![0, 1] bcast_S2x12544_S2x12544x1_0_1 (select (cmpi .slt (asI S2x12544 32 (V (Proc.devRef .tc main_v801))) (broadcastInDim S2x12544 ![] bcast_S_S2x12544 (constantI S_ 32 0#32))) (addi (asI S2x12544 32 (V (Proc.devRef .tc main_v801))) (broadcastInDim S2x12544 ![] bcast_S_S2x12544 (constantI S_ 32 64#32))) (asI S2x12544 32 (V (Proc.devRef .tc main_v801)))))⟩] concatenates_S2x12544x1_S2x12544x1_S2x12544x1_S2x12544x3_d2)) (broadcastInDim S2x30x12544 ![1, 2] bcast_S30x12544_S2x30x12544_1_2 (broadcastInDim S30x12544 ![1] bcast_S12544_S30x12544_1 (broadcastInDim S12544 ![] bcast_S_S12544 (constant (F := Ideal) S_ .f32 0x00000000#32)))))) : FVec Ideal S2x30x12544 .f32) := by
  after_results_simp <;> rfl

set_option maxHeartbeats 4000000 in  -- the closing check sees through the typed references' transports of a called function's operations
/-- Window 19: the contents of main_v836 after the window's operations, over the contents before it. -/
theorem w19_v836 (V : Valuation τ sig (Elt Ideal)) :
    after (ops_part19 (F := Ideal)) V (Proc.devRef .tc main_v836) = (addi (asI S2x12544 32 (V (Proc.devRef .tc main_v535))) (broadcastInDim S2x12544 ![] bcast_S_S2x12544 (constantI S_ 32 1#32)) : IVec S2x12544 32) := by
  after_results_simp <;> rfl

set_option maxHeartbeats 4000000 in  -- the closing check sees through the typed references' transports of a called function's operations
/-- Window 19: the contents of main_v834 after the window's operations, over the contents before it. -/
theorem w19_v834 (V : Valuation τ sig (Elt Ideal)) :
    after (ops_part19 (F := Ideal)) V (Proc.devRef .tc main_v834) = (addi (asI S2x12544 32 (V (Proc.devRef .tc main_v536))) (broadcastInDim S2x12544 ![] bcast_S_S2x12544 (constantI S_ 32 0#32)) : IVec S2x12544 32) := by
  after_results_simp <;> rfl

set_option maxHeartbeats 4000000 in  -- the closing check sees through the typed references' transports of a called function's operations
/-- Window 19: the contents of main_v832 after the window's operations, over the contents before it. -/
theorem w19_v832 (V : Valuation τ sig (Elt Ideal)) :
    after (ops_part19 (F := Ideal)) V (Proc.devRef .tc main_v832) = (addi (asI S2x12544 32 (V (Proc.devRef .tc main_v537))) (broadcastInDim S2x12544 ![] bcast_S_S2x12544 (constantI S_ 32 1#32)) : IVec S2x12544 32) := by
  after_results_simp <;> rfl

set_option maxHeartbeats 4000000 in  -- the closing check sees through the typed references' transports of a called function's operations
/-- Window 19: the contents of main_v850 after the window's operations, over the contents before it. -/
theorem w19_v850 (V : Valuation τ sig (Elt Ideal)) :
    after (ops_part19 (F := Ideal)) V (Proc.devRef .tc main_v850) = (andi (andi (andi (andi (cmpi .sge (addi (asI S2x12544 32 (V (Proc.devRef .tc main_v537))) (broadcastInDim S2x12544 ![] bcast_S_S2x12544 (constantI S_ 32 1#32))) (broadcastInDim S2x12544 ![] bcast_S_S2x12544 (constantI S_ 32 0#32))) (cmpi .slt (addi (asI S2x12544 32 (V (Proc.devRef .tc main_v537))) (broadcastInDim S2x12544 ![] bcast_S_S2x12544 (constantI S_ 32 1#32))) (broadcastInDim S2x12544 ![] bcast_S_S2x12544 (constantI S_ 32 64#32)))) (cmpi .sge (addi (asI S2x12544 32 (V (Proc.devRef .tc main_v536))) (broadcastInDim S2x12544 ![] bcast_S_S2x12544 (constantI S_ 32 0#32))) (broadcastInDim S2x12544 ![] bcast_S_S2x12544 (constantI S_ 32 0#32)))) (cmpi .slt (addi (asI S2x12544 32 (V (Proc.devRef .tc main_v536))) (broadcastInDim S2x12544 ![] bcast_S_S2x12544 (constantI S_ 32 0#32))) (broadcastInDim S2x12544 ![] bcast_S_S2x12544 (constantI S_ 32 64#32)))) (cmpi .sge (addi (asI S2x12544 32 (V (Proc.devRef .tc main_v535))) (broadcastInDim S2x12544 ![] bcast_S_S2x12544 (constantI S_ 32 1#32))) (broadcastInDim S2x12544 ![] bcast_S_S2x12544 (constantI S_ 32 0#32))) : IVec S2x12544 1) := by
  after_results_simp <;> rfl

set_option maxHeartbeats 4000000 in  -- the closing check sees through the typed references' transports of a called function's operations
/-- Window 19: the contents of main_v851 after the window's operations, over the contents before it. -/
theorem w19_v851 (V : Valuation τ sig (Elt Ideal)) :
    after (ops_part19 (F := Ideal)) V (Proc.devRef .tc main_v851) = (broadcastInDim S2x12544 ![] bcast_S_S2x12544 (constantI S_ 32 64#32) : IVec S2x12544 32) := by
  after_results_simp <;> rfl

set_option maxHeartbeats 4000000 in  -- the closing check sees through the typed references' transports of a called function's operations
/-- Window 19: the contents of main_v830 after the window's operations, over the contents before it. -/
theorem w19_v830 (V : Valuation τ sig (Elt Ideal)) :
    after (ops_part19 (F := Ideal)) V (Proc.devRef .tc main_v830) = (mulf (mulf (asF S2x12544 (V (Proc.devRef .tc main_v534))) (subf (broadcastInDim S2x12544 ![] bcast_S_S2x12544 (constant (F := Ideal) S_ .f32 0x3F800000#32)) (asF S2x12544 (V (Proc.devRef .tc main_v533))))) (asF S2x12544 (V (Proc.devRef .tc main_v532))) : FVec Ideal S2x12544 .f32) := by
  after_results_simp <;> rfl

set_option maxHeartbeats 4000000 in  -- the closing check sees through the typed references' transports of a called function's operations
/-- Window 20: the contents of main_v881 after the window's operations, over the contents before it. -/
theorem w20_v881 (V : Valuation τ sig (Elt Ideal)) :
    after (ops_part20 (F := Ideal)) V (Proc.devRef .tc main_v881) = (addf (asF S2x30x12544 (V (Proc.devRef .tc main_v826))) (mulf (broadcastInDim S2x30x12544 ![0, 1, 2] bcast_S2x1x12544_S2x30x12544_0_1_2 (broadcastInDim S2x1x12544 ![0, 2] bcast_S2x12544_S2x1x12544_0_2 (asF S2x12544 (V (Proc.devRef .tc main_v830))))) (select (broadcastInDim S2x30x12544 ![0, 2] bcast_S2x12544_S2x30x12544_0_2 (andi (asI S2x12544 1 (V (Proc.devRef .tc main_v850))) (cmpi .slt (asI S2x12544 32 (V (Proc.devRef .tc main_v836))) (asI S2x12544 32 (V (Proc.devRef .tc main_v851)))))) (Host.gather gather_S2x30x64x64x64_S2x12544x3_S2x30x12544_1_234_0_0_234_2_130111 (asF S2x30x64x64x64 (V (Proc.devRef .tc main_arg2))) (concatenate S2x12544x3 2 [⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v832))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v832))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v832)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v834))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v834))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v834)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v836))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v836))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v836)))))))⟩] concatenates_S2x12544x1_S2x12544x1_S2x12544x1_S2x12544x3_d2)) (broadcastInDim S2x30x12544 ![1, 2] bcast_S30x12544_S2x30x12544_1_2 (broadcastInDim S30x12544 ![1] bcast_S12544_S30x12544_1 (broadcastInDim S12544 ![] bcast_S_S12544 (constant (F := Ideal) S_ .f32 0x00000000#32)))))) : FVec Ideal S2x30x12544 .f32) := by
  after_results_simp <;> rfl

set_option maxHeartbeats 4000000 in  -- the closing check sees through the typed references' transports of a called function's operations
/-- Window 20: the contents of main_v891 after the window's operations, over the contents before it. -/
theorem w20_v891 (V : Valuation τ sig (Elt Ideal)) :
    after (ops_part20 (F := Ideal)) V (Proc.devRef .tc main_v891) = (addi (asI S2x12544 32 (V (Proc.devRef .tc main_v535))) (broadcastInDim S2x12544 ![] bcast_S_S2x12544 (constantI S_ 32 0#32)) : IVec S2x12544 32) := by
  after_results_simp <;> rfl

set_option maxHeartbeats 4000000 in  -- the closing check sees through the typed references' transports of a called function's operations
/-- Window 20: the contents of main_v889 after the window's operations, over the contents before it. -/
theorem w20_v889 (V : Valuation τ sig (Elt Ideal)) :
    after (ops_part20 (F := Ideal)) V (Proc.devRef .tc main_v889) = (addi (asI S2x12544 32 (V (Proc.devRef .tc main_v536))) (broadcastInDim S2x12544 ![] bcast_S_S2x12544 (constantI S_ 32 1#32)) : IVec S2x12544 32) := by
  after_results_simp <;> rfl

set_option maxHeartbeats 4000000 in  -- the closing check sees through the typed references' transports of a called function's operations
/-- Window 20: the contents of main_v887 after the window's operations, over the contents before it. -/
theorem w20_v887 (V : Valuation τ sig (Elt Ideal)) :
    after (ops_part20 (F := Ideal)) V (Proc.devRef .tc main_v887) = (addi (asI S2x12544 32 (V (Proc.devRef .tc main_v537))) (broadcastInDim S2x12544 ![] bcast_S_S2x12544 (constantI S_ 32 1#32)) : IVec S2x12544 32) := by
  after_results_simp <;> rfl

set_option maxHeartbeats 4000000 in  -- the closing check sees through the typed references' transports of a called function's operations
/-- Window 20: the contents of main_v893 after the window's operations, over the contents before it. -/
theorem w20_v893 (V : Valuation τ sig (Elt Ideal)) :
    after (ops_part20 (F := Ideal)) V (Proc.devRef .tc main_v893) = (cmpi .sge (addi (asI S2x12544 32 (V (Proc.devRef .tc main_v537))) (broadcastInDim S2x12544 ![] bcast_S_S2x12544 (constantI S_ 32 1#32))) (broadcastInDim S2x12544 ![] bcast_S_S2x12544 (constantI S_ 32 0#32)) : IVec S2x12544 1) := by
  after_results_simp <;> rfl

set_option maxHeartbeats 4000000 in  -- the closing check sees through the typed references' transports of a called function's operations
/-- Window 20: the contents of main_v885 after the window's operations, over the contents before it. -/
theorem w20_v885 (V : Valuation τ sig (Elt Ideal)) :
    after (ops_part20 (F := Ideal)) V (Proc.devRef .tc main_v885) = (mulf (mulf (asF S2x12544 (V (Proc.devRef .tc main_v534))) (asF S2x12544 (V (Proc.devRef .tc main_v533)))) (subf (broadcastInDim S2x12544 ![] bcast_S_S2x12544 (constant (F := Ideal) S_ .f32 0x3F800000#32)) (asF S2x12544 (V (Proc.devRef .tc main_v532)))) : FVec Ideal S2x12544 .f32) := by
  after_results_simp <;> rfl

set_option maxHeartbeats 4000000 in  -- the closing check sees through the typed references' transports of a called function's operations
/-- Window 21: the contents of main_v935 after the window's operations, over the contents before it. -/
theorem w21_v935 (V : Valuation τ sig (Elt Ideal)) :
    after (ops_part21 (F := Ideal)) V (Proc.devRef .tc main_v935) = (mulf (broadcastInDim S2x30x12544 ![0, 1, 2] bcast_S2x1x12544_S2x30x12544_0_1_2 (broadcastInDim S2x1x12544 ![0, 2] bcast_S2x12544_S2x1x12544_0_2 (asF S2x12544 (V (Proc.devRef .tc main_v885))))) (select (broadcastInDim S2x30x12544 ![0, 2] bcast_S2x12544_S2x30x12544_0_2 (andi (andi (andi (andi (andi (asI S2x12544 1 (V (Proc.devRef .tc main_v893))) (cmpi .slt (asI S2x12544 32 (V (Proc.devRef .tc main_v887))) (broadcastInDim S2x12544 ![] bcast_S_S2x12544 (constantI S_ 32 64#32)))) (cmpi .sge (asI S2x12544 32 (V (Proc.devRef .tc main_v889))) (broadcastInDim S2x12544 ![] bcast_S_S2x12544 (constantI S_ 32 0#32)))) (cmpi .slt (asI S2x12544 32 (V (Proc.devRef .tc main_v889))) (broadcastInDim S2x12544 ![] bcast_S_S2x12544 (constantI S_ 32 64#32)))) (cmpi .sge (asI S2x12544 32 (V (Proc.devRef .tc main_v891))) (broadcastInDim S2x12544 ![] bcast_S_S2x12544 (constantI S_ 32 0#32)))) (cmpi .slt (asI S2x12544 32 (V (Proc.devRef .tc main_v891))) (broadcastInDim S2x12544 ![] bcast_S_S2x12544 (constantI S_ 32 64#32))))) (Host.gather gather_S2x30x64x64x64_S2x12544x3_S2x30x12544_1_234_0_0_234_2_130111 (asF S2x30x64x64x64 (V (Proc.devRef .tc main_arg2))) (concatenate S2x12544x3 2 [⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v887))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v887))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v887)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v889))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v889))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v889)))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v891))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v891))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (asI S2x12544 32 (V (Proc.devRef .tc main_v891)))))))⟩] concatenates_S2x12544x1_S2x12544x1_S2x12544x1_S2x12544x3_d2)) (broadcastInDim S2x30x12544 ![1, 2] bcast_S30x12544_S2x30x12544_1_2 (broadcastInDim S30x12544 ![1] bcast_S12544_S30x12544_1 (broadcastInDim S12544 ![] bcast_S_S12544 (constant (F := Ideal) S_ .f32 0x00000000#32))))) : FVec Ideal S2x30x12544 .f32) := by
  after_results_simp <;> rfl

set_option maxHeartbeats 4000000 in  -- the closing check sees through the typed references' transports of a called function's operations
/-- Window 22: the contents of main_v936 after the window's operations, over the contents before it. -/
theorem w22_v936 (V : Valuation τ sig (Elt Ideal)) :
    after (ops_part22 (F := Ideal)) V (Proc.devRef .tc main_v936) = (addf (asF S2x30x12544 (V (Proc.devRef .tc main_v881))) (asF S2x30x12544 (V (Proc.devRef .tc main_v935))) : FVec Ideal S2x30x12544 .f32) := by
  after_results_simp <;> rfl

set_option maxHeartbeats 4000000 in  -- the closing check sees through the typed references' transports of a called function's operations
/-- Window 22: the contents of main_v964 after the window's operations, over the contents before it. -/
theorem w22_v964 (V : Valuation τ sig (Elt Ideal)) :
    after (ops_part22 (F := Ideal)) V (Proc.devRef .tc main_v964) = (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v535))) (broadcastInDim S2x12544 ![] bcast_S_S2x12544 (constantI S_ 32 1#32)))) : IVec S2x12544 32) := by
  after_results_simp <;> rfl

set_option maxHeartbeats 4000000 in  -- the closing check sees through the typed references' transports of a called function's operations
/-- Window 22: the contents of main_v975 after the window's operations, over the contents before it. -/
theorem w22_v975 (V : Valuation τ sig (Elt Ideal)) :
    after (ops_part22 (F := Ideal)) V (Proc.devRef .tc main_v975) = (broadcastInDim S2x12544 ![] bcast_S_S2x12544 (constantI S_ 32 0#32) : IVec S2x12544 32) := by
  after_results_simp <;> rfl

set_option maxHeartbeats 4000000 in  -- the closing check sees through the typed references' transports of a called function's operations
/-- Window 22: the contents of main_v974 after the window's operations, over the contents before it. -/
theorem w22_v974 (V : Valuation τ sig (Elt Ideal)) :
    after (ops_part22 (F := Ideal)) V (Proc.devRef .tc main_v974) = (select (cmpi .slt (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v536))) (broadcastInDim S2x12544 ![] bcast_S_S2x12544 (constantI S_ 32 1#32))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v536))) (broadcastInDim S2x12544 ![] bcast_S_S2x12544 (constantI S_ 32 1#32))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v536))) (broadcastInDim S2x12544 ![] bcast_S_S2x12544 (constantI S_ 32 1#32))))) : IVec S2x12544 32) := by
  after_results_simp <;> rfl

set_option maxHeartbeats 4000000 in  -- the closing check sees through the typed references' transports of a called function's operations
/-- Window 22: the contents of main_v969 after the window's operations, over the contents before it. -/
theorem w22_v969 (V : Valuation τ sig (Elt Ideal)) :
    after (ops_part22 (F := Ideal)) V (Proc.devRef .tc main_v969) = (select (cmpi .slt (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v537))) (broadcastInDim S2x12544 ![] bcast_S_S2x12544 (constantI S_ 32 1#32))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v537))) (broadcastInDim S2x12544 ![] bcast_S_S2x12544 (constantI S_ 32 1#32))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (addi (asI S2x12544 32 (V (Proc.devRef .tc main_v537))) (broadcastInDim S2x12544 ![] bcast_S_S2x12544 (constantI S_ 32 1#32))))) : IVec S2x12544 32) := by
  after_results_simp <;> rfl

set_option maxHeartbeats 4000000 in  -- the closing check sees through the typed references' transports of a called function's operations
/-- Window 22: the contents of main_v961 after the window's operations, over the contents before it. -/
theorem w22_v961 (V : Valuation τ sig (Elt Ideal)) :
    after (ops_part22 (F := Ideal)) V (Proc.devRef .tc main_v961) = (andi (andi (andi (andi (andi (cmpi .sge (addi (asI S2x12544 32 (V (Proc.devRef .tc main_v537))) (broadcastInDim S2x12544 ![] bcast_S_S2x12544 (constantI S_ 32 1#32))) (broadcastInDim S2x12544 ![] bcast_S_S2x12544 (constantI S_ 32 0#32))) (cmpi .slt (addi (asI S2x12544 32 (V (Proc.devRef .tc main_v537))) (broadcastInDim S2x12544 ![] bcast_S_S2x12544 (constantI S_ 32 1#32))) (broadcastInDim S2x12544 ![] bcast_S_S2x12544 (constantI S_ 32 64#32)))) (cmpi .sge (addi (asI S2x12544 32 (V (Proc.devRef .tc main_v536))) (broadcastInDim S2x12544 ![] bcast_S_S2x12544 (constantI S_ 32 1#32))) (broadcastInDim S2x12544 ![] bcast_S_S2x12544 (constantI S_ 32 0#32)))) (cmpi .slt (addi (asI S2x12544 32 (V (Proc.devRef .tc main_v536))) (broadcastInDim S2x12544 ![] bcast_S_S2x12544 (constantI S_ 32 1#32))) (broadcastInDim S2x12544 ![] bcast_S_S2x12544 (constantI S_ 32 64#32)))) (cmpi .sge (addi (asI S2x12544 32 (V (Proc.devRef .tc main_v535))) (broadcastInDim S2x12544 ![] bcast_S_S2x12544 (constantI S_ 32 1#32))) (broadcastInDim S2x12544 ![] bcast_S_S2x12544 (constantI S_ 32 0#32)))) (cmpi .slt (addi (asI S2x12544 32 (V (Proc.devRef .tc main_v535))) (broadcastInDim S2x12544 ![] bcast_S_S2x12544 (constantI S_ 32 1#32))) (broadcastInDim S2x12544 ![] bcast_S_S2x12544 (constantI S_ 32 64#32))) : IVec S2x12544 1) := by
  after_results_simp <;> rfl

set_option maxHeartbeats 4000000 in  -- the closing check sees through the typed references' transports of a called function's operations
/-- Window 22: the contents of main_v938 after the window's operations, over the contents before it. -/
theorem w22_v938 (V : Valuation τ sig (Elt Ideal)) :
    after (ops_part22 (F := Ideal)) V (Proc.devRef .tc main_v938) = (mulf (mulf (asF S2x12544 (V (Proc.devRef .tc main_v534))) (asF S2x12544 (V (Proc.devRef .tc main_v533)))) (asF S2x12544 (V (Proc.devRef .tc main_v532))) : FVec Ideal S2x12544 .f32) := by
  after_results_simp <;> rfl

set_option maxHeartbeats 4000000 in  -- the closing check sees through the typed references' transports of a called function's operations
/-- Window 23: the contents of main_v989 after the window's operations, over the contents before it. -/
theorem w23_v989 (V : Valuation τ sig (Elt Ideal)) :
    after (ops_part23 (F := Ideal)) V (Proc.devRef .tc main_v989) = (addf (asF S2x30x12544 (V (Proc.devRef .tc main_v936))) (mulf (broadcastInDim S2x30x12544 ![0, 1, 2] bcast_S2x1x12544_S2x30x12544_0_1_2 (broadcastInDim S2x1x12544 ![0, 2] bcast_S2x12544_S2x1x12544_0_2 (asF S2x12544 (V (Proc.devRef .tc main_v938))))) (select (broadcastInDim S2x30x12544 ![0, 2] bcast_S2x12544_S2x30x12544_0_2 (asI S2x12544 1 (V (Proc.devRef .tc main_v961)))) (Host.gather gather_S2x30x64x64x64_S2x12544x3_S2x30x12544_1_234_0_0_234_2_130111 (asF S2x30x64x64x64 (V (Proc.devRef .tc main_arg2))) (concatenate S2x12544x3 2 [⟨S2x12544x1, (broadcastInDim S2x12544x1 ![0, 1] bcast_S2x12544_S2x12544x1_0_1 (asI S2x12544 32 (V (Proc.devRef .tc main_v969))))⟩, ⟨S2x12544x1, (broadcastInDim S2x12544x1 ![0, 1] bcast_S2x12544_S2x12544x1_0_1 (asI S2x12544 32 (V (Proc.devRef .tc main_v974))))⟩, ⟨S2x12544x1, (broadcastInDim S2x12544x1 ![0, 1] bcast_S2x12544_S2x12544x1_0_1 (select (cmpi .slt (asI S2x12544 32 (V (Proc.devRef .tc main_v964))) (asI S2x12544 32 (V (Proc.devRef .tc main_v975)))) (addi (asI S2x12544 32 (V (Proc.devRef .tc main_v964))) (broadcastInDim S2x12544 ![] bcast_S_S2x12544 (constantI S_ 32 64#32))) (asI S2x12544 32 (V (Proc.devRef .tc main_v964)))))⟩] concatenates_S2x12544x1_S2x12544x1_S2x12544x1_S2x12544x3_d2)) (broadcastInDim S2x30x12544 ![1, 2] bcast_S30x12544_S2x30x12544_1_2 (broadcastInDim S30x12544 ![1] bcast_S12544_S30x12544_1 (broadcastInDim S12544 ![] bcast_S_S12544 (constant (F := Ideal) S_ .f32 0x00000000#32)))))) : FVec Ideal S2x30x12544 .f32) := by
  after_results_simp <;> rfl

end Cert.ReferenceIdeal.HandFold

end
-- ==== Proof.RefSamplingFold.lean ====
/- The reference program's two sampled arrays are the pure terms of Proof/RefSampling.lean.

   W b V is the buffer contents after the first b windows of @main's operations, from contents V.  For every window
   boundary b and every buffer written before b and read at or after b, the contents of the buffer in W b V is stated as
   its term over V at the argument buffers, in the vocabulary of Proof/RefSampling.lean (coordinates, corner words,
   validity, weights, partial sums): for a buffer the last window wrote, by that window's read lemma and the statements
   of the boundary before for the buffers it read; for an older buffer, because the last window does not write it.
   The last partial sums are the sampled arrays. -/
import proofs.«103167_j42614665511136_1_alg».proof.Proof.RefRun
import proofs.«103167_j42614665511136_1_alg».proof.Proof.RefSampling
import proofs.«103167_j42614665511136_1_alg».proof.Proof.RefFoldWinA
import proofs.«103167_j42614665511136_1_alg».proof.Proof.RefFoldWinB
import proofs.«103167_j42614665511136_1_alg».proof.Proof.RefFoldWinC
import proofs.«103167_j42614665511136_1_alg».proof.Proof.RefFoldWinD
import proofs.«103167_j42614665511136_1_alg».proof.Proof.LibTypedRead
import Idealize.ShloMosaic.PureOps.Ideal

set_option maxRecDepth 8192

noncomputable section

namespace Cert.ReferenceIdeal.HandFold

open Cert.ReferenceIdeal Cert.ReferenceIdeal.Facts₀ Cert.ReferenceIdeal.Facts Cert.ReferenceIdeal.HandRun Idealize.ShloMosaic Idealize.ShloMosaic.TcCoe Idealize.SL.Sem Idealize.ShloMosaic.StableHlo Cert.LibTypedRead

variable [Cert.ReferenceIdeal.Facts]

/-- The contents after the first b windows of @main's operations, from contents V (here b = 0). -/
def W0 (V : Valuation τ sig (Elt Ideal)) : Valuation τ sig (Elt Ideal) := V
/-- The contents after the first 1 windows. -/
def W1 (V : Valuation τ sig (Elt Ideal)) : Valuation τ sig (Elt Ideal) := after (ops_part0 (F := Ideal)) (W0 V)
/-- The contents after the first 2 windows. -/
def W2 (V : Valuation τ sig (Elt Ideal)) : Valuation τ sig (Elt Ideal) := after (ops_part1 (F := Ideal)) (W1 V)
/-- The contents after the first 3 windows. -/
def W3 (V : Valuation τ sig (Elt Ideal)) : Valuation τ sig (Elt Ideal) := after (ops_part2 (F := Ideal)) (W2 V)
/-- The contents after the first 4 windows. -/
def W4 (V : Valuation τ sig (Elt Ideal)) : Valuation τ sig (Elt Ideal) := after (ops_part3 (F := Ideal)) (W3 V)
/-- The contents after the first 5 windows. -/
def W5 (V : Valuation τ sig (Elt Ideal)) : Valuation τ sig (Elt Ideal) := after (ops_part4 (F := Ideal)) (W4 V)
/-- The contents after the first 6 windows. -/
def W6 (V : Valuation τ sig (Elt Ideal)) : Valuation τ sig (Elt Ideal) := after (ops_part5 (F := Ideal)) (W5 V)
/-- The contents after the first 7 windows. -/
def W7 (V : Valuation τ sig (Elt Ideal)) : Valuation τ sig (Elt Ideal) := after (ops_part6 (F := Ideal)) (W6 V)
/-- The contents after the first 8 windows. -/
def W8 (V : Valuation τ sig (Elt Ideal)) : Valuation τ sig (Elt Ideal) := after (ops_part7 (F := Ideal)) (W7 V)
/-- The contents after the first 9 windows. -/
def W9 (V : Valuation τ sig (Elt Ideal)) : Valuation τ sig (Elt Ideal) := after (ops_part8 (F := Ideal)) (W8 V)
/-- The contents after the first 10 windows. -/
def W10 (V : Valuation τ sig (Elt Ideal)) : Valuation τ sig (Elt Ideal) := after (ops_part9 (F := Ideal)) (W9 V)
/-- The contents after the first 11 windows. -/
def W11 (V : Valuation τ sig (Elt Ideal)) : Valuation τ sig (Elt Ideal) := after (ops_part10 (F := Ideal)) (W10 V)
/-- The contents after the first 12 windows. -/
def W12 (V : Valuation τ sig (Elt Ideal)) : Valuation τ sig (Elt Ideal) := after (ops_part11 (F := Ideal)) (W11 V)
/-- The contents after the first 13 windows. -/
def W13 (V : Valuation τ sig (Elt Ideal)) : Valuation τ sig (Elt Ideal) := after (ops_part12 (F := Ideal)) (W12 V)
/-- The contents after the first 14 windows. -/
def W14 (V : Valuation τ sig (Elt Ideal)) : Valuation τ sig (Elt Ideal) := after (ops_part13 (F := Ideal)) (W13 V)
/-- The contents after the first 15 windows. -/
def W15 (V : Valuation τ sig (Elt Ideal)) : Valuation τ sig (Elt Ideal) := after (ops_part14 (F := Ideal)) (W14 V)
/-- The contents after the first 16 windows. -/
def W16 (V : Valuation τ sig (Elt Ideal)) : Valuation τ sig (Elt Ideal) := after (ops_part15 (F := Ideal)) (W15 V)
/-- The contents after the first 17 windows. -/
def W17 (V : Valuation τ sig (Elt Ideal)) : Valuation τ sig (Elt Ideal) := after (ops_part16 (F := Ideal)) (W16 V)
/-- The contents after the first 18 windows. -/
def W18 (V : Valuation τ sig (Elt Ideal)) : Valuation τ sig (Elt Ideal) := after (ops_part17 (F := Ideal)) (W17 V)
/-- The contents after the first 19 windows. -/
def W19 (V : Valuation τ sig (Elt Ideal)) : Valuation τ sig (Elt Ideal) := after (ops_part18 (F := Ideal)) (W18 V)
/-- The contents after the first 20 windows. -/
def W20 (V : Valuation τ sig (Elt Ideal)) : Valuation τ sig (Elt Ideal) := after (ops_part19 (F := Ideal)) (W19 V)
/-- The contents after the first 21 windows. -/
def W21 (V : Valuation τ sig (Elt Ideal)) : Valuation τ sig (Elt Ideal) := after (ops_part20 (F := Ideal)) (W20 V)
/-- The contents after the first 22 windows. -/
def W22 (V : Valuation τ sig (Elt Ideal)) : Valuation τ sig (Elt Ideal) := after (ops_part21 (F := Ideal)) (W21 V)
/-- The contents after the first 23 windows. -/
def W23 (V : Valuation τ sig (Elt Ideal)) : Valuation τ sig (Elt Ideal) := after (ops_part22 (F := Ideal)) (W22 V)
/-- The contents after the first 24 windows. -/
def W24 (V : Valuation τ sig (Elt Ideal)) : Valuation τ sig (Elt Ideal) := after (ops_part23 (F := Ideal)) (W23 V)
/-- The contents after the first 25 windows. -/
def W25 (V : Valuation τ sig (Elt Ideal)) : Valuation τ sig (Elt Ideal) := after (ops_part24 (F := Ideal)) (W24 V)

/-! ### The argument buffers are never written -/

/-- Argument buffer main_arg0 before any window. -/
theorem at0_arg0 (V : Valuation τ sig (Elt Ideal)) : W0 V (Proc.devRef .tc main_arg0) = V (Proc.devRef .tc main_arg0) := rfl
/-- … and after 1 windows. -/
theorem at1_arg0 (V : Valuation τ sig (Elt Ideal)) : W1 V (Proc.devRef .tc main_arg0) = V (Proc.devRef .tc main_arg0) :=
  (after_of_writes_sub _ _ (ops_part0_writes (F := Ideal)) (by decide : main_arg0 ∉ ops_part0_W)).trans (at0_arg0 V)
/-- … and after 2 windows. -/
theorem at2_arg0 (V : Valuation τ sig (Elt Ideal)) : W2 V (Proc.devRef .tc main_arg0) = V (Proc.devRef .tc main_arg0) :=
  (after_of_writes_sub _ _ (ops_part1_writes (F := Ideal)) (by decide : main_arg0 ∉ ops_part1_W)).trans (at1_arg0 V)
/-- … and after 3 windows. -/
theorem at3_arg0 (V : Valuation τ sig (Elt Ideal)) : W3 V (Proc.devRef .tc main_arg0) = V (Proc.devRef .tc main_arg0) :=
  (after_of_writes_sub _ _ (ops_part2_writes (F := Ideal)) (by decide : main_arg0 ∉ ops_part2_W)).trans (at2_arg0 V)
/-- … and after 4 windows. -/
theorem at4_arg0 (V : Valuation τ sig (Elt Ideal)) : W4 V (Proc.devRef .tc main_arg0) = V (Proc.devRef .tc main_arg0) :=
  (after_of_writes_sub _ _ (ops_part3_writes (F := Ideal)) (by decide : main_arg0 ∉ ops_part3_W)).trans (at3_arg0 V)
/-- … and after 5 windows. -/
theorem at5_arg0 (V : Valuation τ sig (Elt Ideal)) : W5 V (Proc.devRef .tc main_arg0) = V (Proc.devRef .tc main_arg0) :=
  (after_of_writes_sub _ _ (ops_part4_writes (F := Ideal)) (by decide : main_arg0 ∉ ops_part4_W)).trans (at4_arg0 V)
/-- … and after 6 windows. -/
theorem at6_arg0 (V : Valuation τ sig (Elt Ideal)) : W6 V (Proc.devRef .tc main_arg0) = V (Proc.devRef .tc main_arg0) :=
  (after_of_writes_sub _ _ (ops_part5_writes (F := Ideal)) (by decide : main_arg0 ∉ ops_part5_W)).trans (at5_arg0 V)
/-- … and after 7 windows. -/
theorem at7_arg0 (V : Valuation τ sig (Elt Ideal)) : W7 V (Proc.devRef .tc main_arg0) = V (Proc.devRef .tc main_arg0) :=
  (after_of_writes_sub _ _ (ops_part6_writes (F := Ideal)) (by decide : main_arg0 ∉ ops_part6_W)).trans (at6_arg0 V)
/-- … and after 8 windows. -/
theorem at8_arg0 (V : Valuation τ sig (Elt Ideal)) : W8 V (Proc.devRef .tc main_arg0) = V (Proc.devRef .tc main_arg0) :=
  (after_of_writes_sub _ _ (ops_part7_writes (F := Ideal)) (by decide : main_arg0 ∉ ops_part7_W)).trans (at7_arg0 V)
/-- … and after 9 windows. -/
theorem at9_arg0 (V : Valuation τ sig (Elt Ideal)) : W9 V (Proc.devRef .tc main_arg0) = V (Proc.devRef .tc main_arg0) :=
  (after_of_writes_sub _ _ (ops_part8_writes (F := Ideal)) (by decide : main_arg0 ∉ ops_part8_W)).trans (at8_arg0 V)
/-- … and after 10 windows. -/
theorem at10_arg0 (V : Valuation τ sig (Elt Ideal)) : W10 V (Proc.devRef .tc main_arg0) = V (Proc.devRef .tc main_arg0) :=
  (after_of_writes_sub _ _ (ops_part9_writes (F := Ideal)) (by decide : main_arg0 ∉ ops_part9_W)).trans (at9_arg0 V)
/-- … and after 11 windows. -/
theorem at11_arg0 (V : Valuation τ sig (Elt Ideal)) : W11 V (Proc.devRef .tc main_arg0) = V (Proc.devRef .tc main_arg0) :=
  (after_of_writes_sub _ _ (ops_part10_writes (F := Ideal)) (by decide : main_arg0 ∉ ops_part10_W)).trans (at10_arg0 V)
/-- … and after 12 windows. -/
theorem at12_arg0 (V : Valuation τ sig (Elt Ideal)) : W12 V (Proc.devRef .tc main_arg0) = V (Proc.devRef .tc main_arg0) :=
  (after_of_writes_sub _ _ (ops_part11_writes (F := Ideal)) (by decide : main_arg0 ∉ ops_part11_W)).trans (at11_arg0 V)
/-- … and after 13 windows. -/
theorem at13_arg0 (V : Valuation τ sig (Elt Ideal)) : W13 V (Proc.devRef .tc main_arg0) = V (Proc.devRef .tc main_arg0) :=
  (after_of_writes_sub _ _ (ops_part12_writes (F := Ideal)) (by decide : main_arg0 ∉ ops_part12_W)).trans (at12_arg0 V)
/-- … and after 14 windows. -/
theorem at14_arg0 (V : Valuation τ sig (Elt Ideal)) : W14 V (Proc.devRef .tc main_arg0) = V (Proc.devRef .tc main_arg0) :=
  (after_of_writes_sub _ _ (ops_part13_writes (F := Ideal)) (by decide : main_arg0 ∉ ops_part13_W)).trans (at13_arg0 V)
/-- … and after 15 windows. -/
theorem at15_arg0 (V : Valuation τ sig (Elt Ideal)) : W15 V (Proc.devRef .tc main_arg0) = V (Proc.devRef .tc main_arg0) :=
  (after_of_writes_sub _ _ (ops_part14_writes (F := Ideal)) (by decide : main_arg0 ∉ ops_part14_W)).trans (at14_arg0 V)
/-- … and after 16 windows. -/
theorem at16_arg0 (V : Valuation τ sig (Elt Ideal)) : W16 V (Proc.devRef .tc main_arg0) = V (Proc.devRef .tc main_arg0) :=
  (after_of_writes_sub _ _ (ops_part15_writes (F := Ideal)) (by decide : main_arg0 ∉ ops_part15_W)).trans (at15_arg0 V)
/-- … and after 17 windows. -/
theorem at17_arg0 (V : Valuation τ sig (Elt Ideal)) : W17 V (Proc.devRef .tc main_arg0) = V (Proc.devRef .tc main_arg0) :=
  (after_of_writes_sub _ _ (ops_part16_writes (F := Ideal)) (by decide : main_arg0 ∉ ops_part16_W)).trans (at16_arg0 V)
/-- … and after 18 windows. -/
theorem at18_arg0 (V : Valuation τ sig (Elt Ideal)) : W18 V (Proc.devRef .tc main_arg0) = V (Proc.devRef .tc main_arg0) :=
  (after_of_writes_sub _ _ (ops_part17_writes (F := Ideal)) (by decide : main_arg0 ∉ ops_part17_W)).trans (at17_arg0 V)
/-- … and after 19 windows. -/
theorem at19_arg0 (V : Valuation τ sig (Elt Ideal)) : W19 V (Proc.devRef .tc main_arg0) = V (Proc.devRef .tc main_arg0) :=
  (after_of_writes_sub _ _ (ops_part18_writes (F := Ideal)) (by decide : main_arg0 ∉ ops_part18_W)).trans (at18_arg0 V)
/-- … and after 20 windows. -/
theorem at20_arg0 (V : Valuation τ sig (Elt Ideal)) : W20 V (Proc.devRef .tc main_arg0) = V (Proc.devRef .tc main_arg0) :=
  (after_of_writes_sub _ _ (ops_part19_writes (F := Ideal)) (by decide : main_arg0 ∉ ops_part19_W)).trans (at19_arg0 V)
/-- … and after 21 windows. -/
theorem at21_arg0 (V : Valuation τ sig (Elt Ideal)) : W21 V (Proc.devRef .tc main_arg0) = V (Proc.devRef .tc main_arg0) :=
  (after_of_writes_sub _ _ (ops_part20_writes (F := Ideal)) (by decide : main_arg0 ∉ ops_part20_W)).trans (at20_arg0 V)
/-- … and after 22 windows. -/
theorem at22_arg0 (V : Valuation τ sig (Elt Ideal)) : W22 V (Proc.devRef .tc main_arg0) = V (Proc.devRef .tc main_arg0) :=
  (after_of_writes_sub _ _ (ops_part21_writes (F := Ideal)) (by decide : main_arg0 ∉ ops_part21_W)).trans (at21_arg0 V)
/-- … and after 23 windows. -/
theorem at23_arg0 (V : Valuation τ sig (Elt Ideal)) : W23 V (Proc.devRef .tc main_arg0) = V (Proc.devRef .tc main_arg0) :=
  (after_of_writes_sub _ _ (ops_part22_writes (F := Ideal)) (by decide : main_arg0 ∉ ops_part22_W)).trans (at22_arg0 V)
/-- … and after 24 windows. -/
theorem at24_arg0 (V : Valuation τ sig (Elt Ideal)) : W24 V (Proc.devRef .tc main_arg0) = V (Proc.devRef .tc main_arg0) :=
  (after_of_writes_sub _ _ (ops_part23_writes (F := Ideal)) (by decide : main_arg0 ∉ ops_part23_W)).trans (at23_arg0 V)

/-- Argument buffer main_arg2 before any window. -/
theorem at0_arg2 (V : Valuation τ sig (Elt Ideal)) : W0 V (Proc.devRef .tc main_arg2) = V (Proc.devRef .tc main_arg2) := rfl
/-- … and after 1 windows. -/
theorem at1_arg2 (V : Valuation τ sig (Elt Ideal)) : W1 V (Proc.devRef .tc main_arg2) = V (Proc.devRef .tc main_arg2) :=
  (after_of_writes_sub _ _ (ops_part0_writes (F := Ideal)) (by decide : main_arg2 ∉ ops_part0_W)).trans (at0_arg2 V)
/-- … and after 2 windows. -/
theorem at2_arg2 (V : Valuation τ sig (Elt Ideal)) : W2 V (Proc.devRef .tc main_arg2) = V (Proc.devRef .tc main_arg2) :=
  (after_of_writes_sub _ _ (ops_part1_writes (F := Ideal)) (by decide : main_arg2 ∉ ops_part1_W)).trans (at1_arg2 V)
/-- … and after 3 windows. -/
theorem at3_arg2 (V : Valuation τ sig (Elt Ideal)) : W3 V (Proc.devRef .tc main_arg2) = V (Proc.devRef .tc main_arg2) :=
  (after_of_writes_sub _ _ (ops_part2_writes (F := Ideal)) (by decide : main_arg2 ∉ ops_part2_W)).trans (at2_arg2 V)
/-- … and after 4 windows. -/
theorem at4_arg2 (V : Valuation τ sig (Elt Ideal)) : W4 V (Proc.devRef .tc main_arg2) = V (Proc.devRef .tc main_arg2) :=
  (after_of_writes_sub _ _ (ops_part3_writes (F := Ideal)) (by decide : main_arg2 ∉ ops_part3_W)).trans (at3_arg2 V)
/-- … and after 5 windows. -/
theorem at5_arg2 (V : Valuation τ sig (Elt Ideal)) : W5 V (Proc.devRef .tc main_arg2) = V (Proc.devRef .tc main_arg2) :=
  (after_of_writes_sub _ _ (ops_part4_writes (F := Ideal)) (by decide : main_arg2 ∉ ops_part4_W)).trans (at4_arg2 V)
/-- … and after 6 windows. -/
theorem at6_arg2 (V : Valuation τ sig (Elt Ideal)) : W6 V (Proc.devRef .tc main_arg2) = V (Proc.devRef .tc main_arg2) :=
  (after_of_writes_sub _ _ (ops_part5_writes (F := Ideal)) (by decide : main_arg2 ∉ ops_part5_W)).trans (at5_arg2 V)
/-- … and after 7 windows. -/
theorem at7_arg2 (V : Valuation τ sig (Elt Ideal)) : W7 V (Proc.devRef .tc main_arg2) = V (Proc.devRef .tc main_arg2) :=
  (after_of_writes_sub _ _ (ops_part6_writes (F := Ideal)) (by decide : main_arg2 ∉ ops_part6_W)).trans (at6_arg2 V)
/-- … and after 8 windows. -/
theorem at8_arg2 (V : Valuation τ sig (Elt Ideal)) : W8 V (Proc.devRef .tc main_arg2) = V (Proc.devRef .tc main_arg2) :=
  (after_of_writes_sub _ _ (ops_part7_writes (F := Ideal)) (by decide : main_arg2 ∉ ops_part7_W)).trans (at7_arg2 V)
/-- … and after 9 windows. -/
theorem at9_arg2 (V : Valuation τ sig (Elt Ideal)) : W9 V (Proc.devRef .tc main_arg2) = V (Proc.devRef .tc main_arg2) :=
  (after_of_writes_sub _ _ (ops_part8_writes (F := Ideal)) (by decide : main_arg2 ∉ ops_part8_W)).trans (at8_arg2 V)
/-- … and after 10 windows. -/
theorem at10_arg2 (V : Valuation τ sig (Elt Ideal)) : W10 V (Proc.devRef .tc main_arg2) = V (Proc.devRef .tc main_arg2) :=
  (after_of_writes_sub _ _ (ops_part9_writes (F := Ideal)) (by decide : main_arg2 ∉ ops_part9_W)).trans (at9_arg2 V)
/-- … and after 11 windows. -/
theorem at11_arg2 (V : Valuation τ sig (Elt Ideal)) : W11 V (Proc.devRef .tc main_arg2) = V (Proc.devRef .tc main_arg2) :=
  (after_of_writes_sub _ _ (ops_part10_writes (F := Ideal)) (by decide : main_arg2 ∉ ops_part10_W)).trans (at10_arg2 V)
/-- … and after 12 windows. -/
theorem at12_arg2 (V : Valuation τ sig (Elt Ideal)) : W12 V (Proc.devRef .tc main_arg2) = V (Proc.devRef .tc main_arg2) :=
  (after_of_writes_sub _ _ (ops_part11_writes (F := Ideal)) (by decide : main_arg2 ∉ ops_part11_W)).trans (at11_arg2 V)
/-- … and after 13 windows. -/
theorem at13_arg2 (V : Valuation τ sig (Elt Ideal)) : W13 V (Proc.devRef .tc main_arg2) = V (Proc.devRef .tc main_arg2) :=
  (after_of_writes_sub _ _ (ops_part12_writes (F := Ideal)) (by decide : main_arg2 ∉ ops_part12_W)).trans (at12_arg2 V)
/-- … and after 14 windows. -/
theorem at14_arg2 (V : Valuation τ sig (Elt Ideal)) : W14 V (Proc.devRef .tc main_arg2) = V (Proc.devRef .tc main_arg2) :=
  (after_of_writes_sub _ _ (ops_part13_writes (F := Ideal)) (by decide : main_arg2 ∉ ops_part13_W)).trans (at13_arg2 V)
/-- … and after 15 windows. -/
theorem at15_arg2 (V : Valuation τ sig (Elt Ideal)) : W15 V (Proc.devRef .tc main_arg2) = V (Proc.devRef .tc main_arg2) :=
  (after_of_writes_sub _ _ (ops_part14_writes (F := Ideal)) (by decide : main_arg2 ∉ ops_part14_W)).trans (at14_arg2 V)
/-- … and after 16 windows. -/
theorem at16_arg2 (V : Valuation τ sig (Elt Ideal)) : W16 V (Proc.devRef .tc main_arg2) = V (Proc.devRef .tc main_arg2) :=
  (after_of_writes_sub _ _ (ops_part15_writes (F := Ideal)) (by decide : main_arg2 ∉ ops_part15_W)).trans (at15_arg2 V)
/-- … and after 17 windows. -/
theorem at17_arg2 (V : Valuation τ sig (Elt Ideal)) : W17 V (Proc.devRef .tc main_arg2) = V (Proc.devRef .tc main_arg2) :=
  (after_of_writes_sub _ _ (ops_part16_writes (F := Ideal)) (by decide : main_arg2 ∉ ops_part16_W)).trans (at16_arg2 V)
/-- … and after 18 windows. -/
theorem at18_arg2 (V : Valuation τ sig (Elt Ideal)) : W18 V (Proc.devRef .tc main_arg2) = V (Proc.devRef .tc main_arg2) :=
  (after_of_writes_sub _ _ (ops_part17_writes (F := Ideal)) (by decide : main_arg2 ∉ ops_part17_W)).trans (at17_arg2 V)
/-- … and after 19 windows. -/
theorem at19_arg2 (V : Valuation τ sig (Elt Ideal)) : W19 V (Proc.devRef .tc main_arg2) = V (Proc.devRef .tc main_arg2) :=
  (after_of_writes_sub _ _ (ops_part18_writes (F := Ideal)) (by decide : main_arg2 ∉ ops_part18_W)).trans (at18_arg2 V)
/-- … and after 20 windows. -/
theorem at20_arg2 (V : Valuation τ sig (Elt Ideal)) : W20 V (Proc.devRef .tc main_arg2) = V (Proc.devRef .tc main_arg2) :=
  (after_of_writes_sub _ _ (ops_part19_writes (F := Ideal)) (by decide : main_arg2 ∉ ops_part19_W)).trans (at19_arg2 V)
/-- … and after 21 windows. -/
theorem at21_arg2 (V : Valuation τ sig (Elt Ideal)) : W21 V (Proc.devRef .tc main_arg2) = V (Proc.devRef .tc main_arg2) :=
  (after_of_writes_sub _ _ (ops_part20_writes (F := Ideal)) (by decide : main_arg2 ∉ ops_part20_W)).trans (at20_arg2 V)
/-- … and after 22 windows. -/
theorem at22_arg2 (V : Valuation τ sig (Elt Ideal)) : W22 V (Proc.devRef .tc main_arg2) = V (Proc.devRef .tc main_arg2) :=
  (after_of_writes_sub _ _ (ops_part21_writes (F := Ideal)) (by decide : main_arg2 ∉ ops_part21_W)).trans (at21_arg2 V)
/-- … and after 23 windows. -/
theorem at23_arg2 (V : Valuation τ sig (Elt Ideal)) : W23 V (Proc.devRef .tc main_arg2) = V (Proc.devRef .tc main_arg2) :=
  (after_of_writes_sub _ _ (ops_part22_writes (F := Ideal)) (by decide : main_arg2 ∉ ops_part22_W)).trans (at22_arg2 V)
/-- … and after 24 windows. -/
theorem at24_arg2 (V : Valuation τ sig (Elt Ideal)) : W24 V (Proc.devRef .tc main_arg2) = V (Proc.devRef .tc main_arg2) :=
  (after_of_writes_sub _ _ (ops_part23_writes (F := Ideal)) (by decide : main_arg2 ∉ ops_part23_W)).trans (at23_arg2 V)

/-- Argument buffer main_arg3 before any window. -/
theorem at0_arg3 (V : Valuation τ sig (Elt Ideal)) : W0 V (Proc.devRef .tc main_arg3) = V (Proc.devRef .tc main_arg3) := rfl
/-- … and after 1 windows. -/
theorem at1_arg3 (V : Valuation τ sig (Elt Ideal)) : W1 V (Proc.devRef .tc main_arg3) = V (Proc.devRef .tc main_arg3) :=
  (after_of_writes_sub _ _ (ops_part0_writes (F := Ideal)) (by decide : main_arg3 ∉ ops_part0_W)).trans (at0_arg3 V)
/-- … and after 2 windows. -/
theorem at2_arg3 (V : Valuation τ sig (Elt Ideal)) : W2 V (Proc.devRef .tc main_arg3) = V (Proc.devRef .tc main_arg3) :=
  (after_of_writes_sub _ _ (ops_part1_writes (F := Ideal)) (by decide : main_arg3 ∉ ops_part1_W)).trans (at1_arg3 V)
/-- … and after 3 windows. -/
theorem at3_arg3 (V : Valuation τ sig (Elt Ideal)) : W3 V (Proc.devRef .tc main_arg3) = V (Proc.devRef .tc main_arg3) :=
  (after_of_writes_sub _ _ (ops_part2_writes (F := Ideal)) (by decide : main_arg3 ∉ ops_part2_W)).trans (at2_arg3 V)
/-- … and after 4 windows. -/
theorem at4_arg3 (V : Valuation τ sig (Elt Ideal)) : W4 V (Proc.devRef .tc main_arg3) = V (Proc.devRef .tc main_arg3) :=
  (after_of_writes_sub _ _ (ops_part3_writes (F := Ideal)) (by decide : main_arg3 ∉ ops_part3_W)).trans (at3_arg3 V)
/-- … and after 5 windows. -/
theorem at5_arg3 (V : Valuation τ sig (Elt Ideal)) : W5 V (Proc.devRef .tc main_arg3) = V (Proc.devRef .tc main_arg3) :=
  (after_of_writes_sub _ _ (ops_part4_writes (F := Ideal)) (by decide : main_arg3 ∉ ops_part4_W)).trans (at4_arg3 V)
/-- … and after 6 windows. -/
theorem at6_arg3 (V : Valuation τ sig (Elt Ideal)) : W6 V (Proc.devRef .tc main_arg3) = V (Proc.devRef .tc main_arg3) :=
  (after_of_writes_sub _ _ (ops_part5_writes (F := Ideal)) (by decide : main_arg3 ∉ ops_part5_W)).trans (at5_arg3 V)
/-- … and after 7 windows. -/
theorem at7_arg3 (V : Valuation τ sig (Elt Ideal)) : W7 V (Proc.devRef .tc main_arg3) = V (Proc.devRef .tc main_arg3) :=
  (after_of_writes_sub _ _ (ops_part6_writes (F := Ideal)) (by decide : main_arg3 ∉ ops_part6_W)).trans (at6_arg3 V)
/-- … and after 8 windows. -/
theorem at8_arg3 (V : Valuation τ sig (Elt Ideal)) : W8 V (Proc.devRef .tc main_arg3) = V (Proc.devRef .tc main_arg3) :=
  (after_of_writes_sub _ _ (ops_part7_writes (F := Ideal)) (by decide : main_arg3 ∉ ops_part7_W)).trans (at7_arg3 V)
/-- … and after 9 windows. -/
theorem at9_arg3 (V : Valuation τ sig (Elt Ideal)) : W9 V (Proc.devRef .tc main_arg3) = V (Proc.devRef .tc main_arg3) :=
  (after_of_writes_sub _ _ (ops_part8_writes (F := Ideal)) (by decide : main_arg3 ∉ ops_part8_W)).trans (at8_arg3 V)
/-- … and after 10 windows. -/
theorem at10_arg3 (V : Valuation τ sig (Elt Ideal)) : W10 V (Proc.devRef .tc main_arg3) = V (Proc.devRef .tc main_arg3) :=
  (after_of_writes_sub _ _ (ops_part9_writes (F := Ideal)) (by decide : main_arg3 ∉ ops_part9_W)).trans (at9_arg3 V)
/-- … and after 11 windows. -/
theorem at11_arg3 (V : Valuation τ sig (Elt Ideal)) : W11 V (Proc.devRef .tc main_arg3) = V (Proc.devRef .tc main_arg3) :=
  (after_of_writes_sub _ _ (ops_part10_writes (F := Ideal)) (by decide : main_arg3 ∉ ops_part10_W)).trans (at10_arg3 V)
/-- … and after 12 windows. -/
theorem at12_arg3 (V : Valuation τ sig (Elt Ideal)) : W12 V (Proc.devRef .tc main_arg3) = V (Proc.devRef .tc main_arg3) :=
  (after_of_writes_sub _ _ (ops_part11_writes (F := Ideal)) (by decide : main_arg3 ∉ ops_part11_W)).trans (at11_arg3 V)
/-- … and after 13 windows. -/
theorem at13_arg3 (V : Valuation τ sig (Elt Ideal)) : W13 V (Proc.devRef .tc main_arg3) = V (Proc.devRef .tc main_arg3) :=
  (after_of_writes_sub _ _ (ops_part12_writes (F := Ideal)) (by decide : main_arg3 ∉ ops_part12_W)).trans (at12_arg3 V)
/-- … and after 14 windows. -/
theorem at14_arg3 (V : Valuation τ sig (Elt Ideal)) : W14 V (Proc.devRef .tc main_arg3) = V (Proc.devRef .tc main_arg3) :=
  (after_of_writes_sub _ _ (ops_part13_writes (F := Ideal)) (by decide : main_arg3 ∉ ops_part13_W)).trans (at13_arg3 V)
/-- … and after 15 windows. -/
theorem at15_arg3 (V : Valuation τ sig (Elt Ideal)) : W15 V (Proc.devRef .tc main_arg3) = V (Proc.devRef .tc main_arg3) :=
  (after_of_writes_sub _ _ (ops_part14_writes (F := Ideal)) (by decide : main_arg3 ∉ ops_part14_W)).trans (at14_arg3 V)
/-- … and after 16 windows. -/
theorem at16_arg3 (V : Valuation τ sig (Elt Ideal)) : W16 V (Proc.devRef .tc main_arg3) = V (Proc.devRef .tc main_arg3) :=
  (after_of_writes_sub _ _ (ops_part15_writes (F := Ideal)) (by decide : main_arg3 ∉ ops_part15_W)).trans (at15_arg3 V)
/-- … and after 17 windows. -/
theorem at17_arg3 (V : Valuation τ sig (Elt Ideal)) : W17 V (Proc.devRef .tc main_arg3) = V (Proc.devRef .tc main_arg3) :=
  (after_of_writes_sub _ _ (ops_part16_writes (F := Ideal)) (by decide : main_arg3 ∉ ops_part16_W)).trans (at16_arg3 V)
/-- … and after 18 windows. -/
theorem at18_arg3 (V : Valuation τ sig (Elt Ideal)) : W18 V (Proc.devRef .tc main_arg3) = V (Proc.devRef .tc main_arg3) :=
  (after_of_writes_sub _ _ (ops_part17_writes (F := Ideal)) (by decide : main_arg3 ∉ ops_part17_W)).trans (at17_arg3 V)
/-- … and after 19 windows. -/
theorem at19_arg3 (V : Valuation τ sig (Elt Ideal)) : W19 V (Proc.devRef .tc main_arg3) = V (Proc.devRef .tc main_arg3) :=
  (after_of_writes_sub _ _ (ops_part18_writes (F := Ideal)) (by decide : main_arg3 ∉ ops_part18_W)).trans (at18_arg3 V)
/-- … and after 20 windows. -/
theorem at20_arg3 (V : Valuation τ sig (Elt Ideal)) : W20 V (Proc.devRef .tc main_arg3) = V (Proc.devRef .tc main_arg3) :=
  (after_of_writes_sub _ _ (ops_part19_writes (F := Ideal)) (by decide : main_arg3 ∉ ops_part19_W)).trans (at19_arg3 V)
/-- … and after 21 windows. -/
theorem at21_arg3 (V : Valuation τ sig (Elt Ideal)) : W21 V (Proc.devRef .tc main_arg3) = V (Proc.devRef .tc main_arg3) :=
  (after_of_writes_sub _ _ (ops_part20_writes (F := Ideal)) (by decide : main_arg3 ∉ ops_part20_W)).trans (at20_arg3 V)
/-- … and after 22 windows. -/
theorem at22_arg3 (V : Valuation τ sig (Elt Ideal)) : W22 V (Proc.devRef .tc main_arg3) = V (Proc.devRef .tc main_arg3) :=
  (after_of_writes_sub _ _ (ops_part21_writes (F := Ideal)) (by decide : main_arg3 ∉ ops_part21_W)).trans (at21_arg3 V)
/-- … and after 23 windows. -/
theorem at23_arg3 (V : Valuation τ sig (Elt Ideal)) : W23 V (Proc.devRef .tc main_arg3) = V (Proc.devRef .tc main_arg3) :=
  (after_of_writes_sub _ _ (ops_part22_writes (F := Ideal)) (by decide : main_arg3 ∉ ops_part22_W)).trans (at22_arg3 V)
/-- … and after 24 windows. -/
theorem at24_arg3 (V : Valuation τ sig (Elt Ideal)) : W24 V (Proc.devRef .tc main_arg3) = V (Proc.devRef .tc main_arg3) :=
  (after_of_writes_sub _ _ (ops_part23_writes (F := Ideal)) (by decide : main_arg3 ∉ ops_part23_W)).trans (at23_arg3 V)

/-! ### After 1 windows -/

/-- main_v40 after 1 windows. -/
theorem at1_v40 (V : Valuation τ sig (Elt Ideal)) : W1 V (Proc.devRef .tc main_v40) = ((Cert.Bridge.R.base0 (asF S2x12544x3 (V (Proc.devRef .tc main_arg3)))) : IVec S2x12544 32) := by
  show after (ops_part0 (F := Ideal)) (W0 V) (Proc.devRef .tc main_v40) = _
  refine (w0_v40 (W0 V)).trans ?_
  rw [at0_arg3 V]
  all_goals rfl
/-- main_v41 after 1 windows. -/
theorem at1_v41 (V : Valuation τ sig (Elt Ideal)) : W1 V (Proc.devRef .tc main_v41) = ((Cert.Bridge.R.base1 (asF S2x12544x3 (V (Proc.devRef .tc main_arg3)))) : IVec S2x12544 32) := by
  show after (ops_part0 (F := Ideal)) (W0 V) (Proc.devRef .tc main_v41) = _
  refine (w0_v41 (W0 V)).trans ?_
  rw [at0_arg3 V]
  all_goals rfl
/-- main_v42 after 1 windows. -/
theorem at1_v42 (V : Valuation τ sig (Elt Ideal)) : W1 V (Proc.devRef .tc main_v42) = ((Cert.Bridge.R.base2 (asF S2x12544x3 (V (Proc.devRef .tc main_arg3)))) : IVec S2x12544 32) := by
  show after (ops_part0 (F := Ideal)) (W0 V) (Proc.devRef .tc main_v42) = _
  refine (w0_v42 (W0 V)).trans ?_
  rw [at0_arg3 V]
  all_goals rfl
/-- main_v37 after 1 windows. -/
theorem at1_v37 (V : Valuation τ sig (Elt Ideal)) : W1 V (Proc.devRef .tc main_v37) = ((Cert.Bridge.R.frac0 (asF S2x12544x3 (V (Proc.devRef .tc main_arg3)))) : FVec Ideal S2x12544 .f32) := by
  show after (ops_part0 (F := Ideal)) (W0 V) (Proc.devRef .tc main_v37) = _
  refine (w0_v37 (W0 V)).trans ?_
  rw [at0_arg3 V]
  all_goals rfl
/-- main_v39 after 1 windows. -/
theorem at1_v39 (V : Valuation τ sig (Elt Ideal)) : W1 V (Proc.devRef .tc main_v39) = ((Cert.Bridge.R.frac2 (asF S2x12544x3 (V (Proc.devRef .tc main_arg3)))) : FVec Ideal S2x12544 .f32) := by
  show after (ops_part0 (F := Ideal)) (W0 V) (Proc.devRef .tc main_v39) = _
  refine (w0_v39 (W0 V)).trans ?_
  rw [at0_arg3 V]
  all_goals rfl
/-- main_v38 after 1 windows. -/
theorem at1_v38 (V : Valuation τ sig (Elt Ideal)) : W1 V (Proc.devRef .tc main_v38) = ((Cert.Bridge.R.frac1 (asF S2x12544x3 (V (Proc.devRef .tc main_arg3)))) : FVec Ideal S2x12544 .f32) := by
  show after (ops_part0 (F := Ideal)) (W0 V) (Proc.devRef .tc main_v38) = _
  refine (w0_v38 (W0 V)).trans ?_
  rw [at0_arg3 V]
  all_goals rfl
/-- main_cst_14 after 1 windows. -/
theorem at1_cst_14 (V : Valuation τ sig (Elt Ideal)) : W1 V (Proc.devRef .tc main_cst_14) = ((constant (F := Ideal) S_ .f32 0x3F800000#32) : FVec Ideal S_ .f32) := by
  show after (ops_part0 (F := Ideal)) (W0 V) (Proc.devRef .tc main_cst_14) = _
  refine (w0_cst_14 (W0 V)).trans ?_
  all_goals rfl
/-- main_v43 after 1 windows. -/
theorem at1_v43 (V : Valuation τ sig (Elt Ideal)) : W1 V (Proc.devRef .tc main_v43) = ((broadcastInDim S12544 ![] bcast_S_S12544 (constant (F := Ideal) S_ .f32 0x00000000#32)) : FVec Ideal S12544 .f32) := by
  show after (ops_part0 (F := Ideal)) (W0 V) (Proc.devRef .tc main_v43) = _
  refine (w0_v43 (W0 V)).trans ?_
  all_goals rfl

/-! ### After 2 windows -/

/-- main_v40 after 2 windows. -/
theorem at2_v40 (V : Valuation τ sig (Elt Ideal)) : W2 V (Proc.devRef .tc main_v40) = ((Cert.Bridge.R.base0 (asF S2x12544x3 (V (Proc.devRef .tc main_arg3)))) : IVec S2x12544 32) := by
  show after (ops_part1 (F := Ideal)) (W1 V) (Proc.devRef .tc main_v40) = _
  rw [after_of_writes_sub _ _ (ops_part1_writes (F := Ideal)) (by decide : main_v40 ∉ ops_part1_W)]
  exact at1_v40 V
/-- main_v41 after 2 windows. -/
theorem at2_v41 (V : Valuation τ sig (Elt Ideal)) : W2 V (Proc.devRef .tc main_v41) = ((Cert.Bridge.R.base1 (asF S2x12544x3 (V (Proc.devRef .tc main_arg3)))) : IVec S2x12544 32) := by
  show after (ops_part1 (F := Ideal)) (W1 V) (Proc.devRef .tc main_v41) = _
  rw [after_of_writes_sub _ _ (ops_part1_writes (F := Ideal)) (by decide : main_v41 ∉ ops_part1_W)]
  exact at1_v41 V
/-- main_v42 after 2 windows. -/
theorem at2_v42 (V : Valuation τ sig (Elt Ideal)) : W2 V (Proc.devRef .tc main_v42) = ((Cert.Bridge.R.base2 (asF S2x12544x3 (V (Proc.devRef .tc main_arg3)))) : IVec S2x12544 32) := by
  show after (ops_part1 (F := Ideal)) (W1 V) (Proc.devRef .tc main_v42) = _
  rw [after_of_writes_sub _ _ (ops_part1_writes (F := Ideal)) (by decide : main_v42 ∉ ops_part1_W)]
  exact at1_v42 V
/-- main_v37 after 2 windows. -/
theorem at2_v37 (V : Valuation τ sig (Elt Ideal)) : W2 V (Proc.devRef .tc main_v37) = ((Cert.Bridge.R.frac0 (asF S2x12544x3 (V (Proc.devRef .tc main_arg3)))) : FVec Ideal S2x12544 .f32) := by
  show after (ops_part1 (F := Ideal)) (W1 V) (Proc.devRef .tc main_v37) = _
  rw [after_of_writes_sub _ _ (ops_part1_writes (F := Ideal)) (by decide : main_v37 ∉ ops_part1_W)]
  exact at1_v37 V
/-- main_v39 after 2 windows. -/
theorem at2_v39 (V : Valuation τ sig (Elt Ideal)) : W2 V (Proc.devRef .tc main_v39) = ((Cert.Bridge.R.frac2 (asF S2x12544x3 (V (Proc.devRef .tc main_arg3)))) : FVec Ideal S2x12544 .f32) := by
  show after (ops_part1 (F := Ideal)) (W1 V) (Proc.devRef .tc main_v39) = _
  rw [after_of_writes_sub _ _ (ops_part1_writes (F := Ideal)) (by decide : main_v39 ∉ ops_part1_W)]
  exact at1_v39 V
/-- main_v38 after 2 windows. -/
theorem at2_v38 (V : Valuation τ sig (Elt Ideal)) : W2 V (Proc.devRef .tc main_v38) = ((Cert.Bridge.R.frac1 (asF S2x12544x3 (V (Proc.devRef .tc main_arg3)))) : FVec Ideal S2x12544 .f32) := by
  show after (ops_part1 (F := Ideal)) (W1 V) (Proc.devRef .tc main_v38) = _
  rw [after_of_writes_sub _ _ (ops_part1_writes (F := Ideal)) (by decide : main_v38 ∉ ops_part1_W)]
  exact at1_v38 V
/-- main_v77 after 2 windows. -/
theorem at2_v77 (V : Valuation τ sig (Elt Ideal)) : W2 V (Proc.devRef .tc main_v77) = ((minsi (broadcastInDim S2x12544 ![] bcast_S_S2x12544 (id (constantI S_ 32 63#32))) (maxsi (broadcastInDim S2x12544 ![] bcast_S_S2x12544 (id (constantI S_ 32 0#32))) (Cert.Bridge.R.xi0 (asF S2x12544x3 (V (Proc.devRef .tc main_arg3)))))) : IVec S2x12544 32) := by
  show after (ops_part1 (F := Ideal)) (W1 V) (Proc.devRef .tc main_v77) = _
  refine (w1_v77 (W1 V)).trans ?_
  rw [at1_v40 V]
  all_goals rfl
/-- main_v76 after 2 windows. -/
theorem at2_v76 (V : Valuation τ sig (Elt Ideal)) : W2 V (Proc.devRef .tc main_v76) = ((minsi (broadcastInDim S2x12544 ![] bcast_S_S2x12544 (id (constantI S_ 32 63#32))) (maxsi (broadcastInDim S2x12544 ![] bcast_S_S2x12544 (id (constantI S_ 32 0#32))) (Cert.Bridge.R.yi0 (asF S2x12544x3 (V (Proc.devRef .tc main_arg3)))))) : IVec S2x12544 32) := by
  show after (ops_part1 (F := Ideal)) (W1 V) (Proc.devRef .tc main_v76) = _
  refine (w1_v76 (W1 V)).trans ?_
  rw [at1_v41 V]
  all_goals rfl
/-- main_v83 after 2 windows. -/
theorem at2_v83 (V : Valuation τ sig (Elt Ideal)) : W2 V (Proc.devRef .tc main_v83) = ((broadcastInDim S2x12544 ![] bcast_S_S2x12544 (constantI S_ 32 0#32)) : IVec S2x12544 32) := by
  show after (ops_part1 (F := Ideal)) (W1 V) (Proc.devRef .tc main_v83) = _
  refine (w1_v83 (W1 V)).trans ?_
  all_goals rfl
/-- main_v82 after 2 windows. -/
theorem at2_v82 (V : Valuation τ sig (Elt Ideal)) : W2 V (Proc.devRef .tc main_v82) = ((select (cmpi .slt (minsi (broadcastInDim S2x12544 ![] bcast_S_S2x12544 (id (constantI S_ 32 63#32))) (maxsi (broadcastInDim S2x12544 ![] bcast_S_S2x12544 (id (constantI S_ 32 0#32))) (Cert.Bridge.R.zi0 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.zi0 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.zi0 (asF S2x12544x3 (V (Proc.devRef .tc main_arg3))))))) : IVec S2x12544 32) := by
  show after (ops_part1 (F := Ideal)) (W1 V) (Proc.devRef .tc main_v82) = _
  refine (w1_v82 (W1 V)).trans ?_
  rw [at1_v42 V]
  all_goals rfl
/-- main_v74 after 2 windows. -/
theorem at2_v74 (V : Valuation τ sig (Elt Ideal)) : W2 V (Proc.devRef .tc main_v74) = ((Cert.Bridge.R.valid0 (asF S2x12544x3 (V (Proc.devRef .tc main_arg3)))) : IVec S2x12544 1) := by
  show after (ops_part1 (F := Ideal)) (W1 V) (Proc.devRef .tc main_v74) = _
  refine (w1_v74 (W1 V)).trans ?_
  rw [at1_v42 V, at1_v41 V, at1_v40 V]
  all_goals rfl
/-- main_v51 after 2 windows. -/
theorem at2_v51 (V : Valuation τ sig (Elt Ideal)) : W2 V (Proc.devRef .tc main_v51) = ((Cert.Bridge.R.wgt0 (asF S2x12544x3 (V (Proc.devRef .tc main_arg3)))) : FVec Ideal S2x12544 .f32) := by
  show after (ops_part1 (F := Ideal)) (W1 V) (Proc.devRef .tc main_v51) = _
  refine (w1_v51 (W1 V)).trans ?_
  rw [at1_cst_14 V, at1_v39 V, at1_v38 V, at1_v37 V]
  all_goals rfl
/-- main_v43 after 2 windows. -/
theorem at2_v43 (V : Valuation τ sig (Elt Ideal)) : W2 V (Proc.devRef .tc main_v43) = ((broadcastInDim S12544 ![] bcast_S_S12544 (constant (F := Ideal) S_ .f32 0x00000000#32)) : FVec Ideal S12544 .f32) := by
  show after (ops_part1 (F := Ideal)) (W1 V) (Proc.devRef .tc main_v43) = _
  rw [after_of_writes_sub _ _ (ops_part1_writes (F := Ideal)) (by decide : main_v43 ∉ ops_part1_W)]
  exact at1_v43 V

/-! ### After 3 windows -/

/-- main_v40 after 3 windows. -/
theorem at3_v40 (V : Valuation τ sig (Elt Ideal)) : W3 V (Proc.devRef .tc main_v40) = ((Cert.Bridge.R.base0 (asF S2x12544x3 (V (Proc.devRef .tc main_arg3)))) : IVec S2x12544 32) := by
  show after (ops_part2 (F := Ideal)) (W2 V) (Proc.devRef .tc main_v40) = _
  rw [after_of_writes_sub _ _ (ops_part2_writes (F := Ideal)) (by decide : main_v40 ∉ ops_part2_W)]
  exact at2_v40 V
/-- main_v41 after 3 windows. -/
theorem at3_v41 (V : Valuation τ sig (Elt Ideal)) : W3 V (Proc.devRef .tc main_v41) = ((Cert.Bridge.R.base1 (asF S2x12544x3 (V (Proc.devRef .tc main_arg3)))) : IVec S2x12544 32) := by
  show after (ops_part2 (F := Ideal)) (W2 V) (Proc.devRef .tc main_v41) = _
  rw [after_of_writes_sub _ _ (ops_part2_writes (F := Ideal)) (by decide : main_v41 ∉ ops_part2_W)]
  exact at2_v41 V
/-- main_v42 after 3 windows. -/
theorem at3_v42 (V : Valuation τ sig (Elt Ideal)) : W3 V (Proc.devRef .tc main_v42) = ((Cert.Bridge.R.base2 (asF S2x12544x3 (V (Proc.devRef .tc main_arg3)))) : IVec S2x12544 32) := by
  show after (ops_part2 (F := Ideal)) (W2 V) (Proc.devRef .tc main_v42) = _
  rw [after_of_writes_sub _ _ (ops_part2_writes (F := Ideal)) (by decide : main_v42 ∉ ops_part2_W)]
  exact at2_v42 V
/-- main_v37 after 3 windows. -/
theorem at3_v37 (V : Valuation τ sig (Elt Ideal)) : W3 V (Proc.devRef .tc main_v37) = ((Cert.Bridge.R.frac0 (asF S2x12544x3 (V (Proc.devRef .tc main_arg3)))) : FVec Ideal S2x12544 .f32) := by
  show after (ops_part2 (F := Ideal)) (W2 V) (Proc.devRef .tc main_v37) = _
  rw [after_of_writes_sub _ _ (ops_part2_writes (F := Ideal)) (by decide : main_v37 ∉ ops_part2_W)]
  exact at2_v37 V
/-- main_v39 after 3 windows. -/
theorem at3_v39 (V : Valuation τ sig (Elt Ideal)) : W3 V (Proc.devRef .tc main_v39) = ((Cert.Bridge.R.frac2 (asF S2x12544x3 (V (Proc.devRef .tc main_arg3)))) : FVec Ideal S2x12544 .f32) := by
  show after (ops_part2 (F := Ideal)) (W2 V) (Proc.devRef .tc main_v39) = _
  rw [after_of_writes_sub _ _ (ops_part2_writes (F := Ideal)) (by decide : main_v39 ∉ ops_part2_W)]
  exact at2_v39 V
/-- main_v38 after 3 windows. -/
theorem at3_v38 (V : Valuation τ sig (Elt Ideal)) : W3 V (Proc.devRef .tc main_v38) = ((Cert.Bridge.R.frac1 (asF S2x12544x3 (V (Proc.devRef .tc main_arg3)))) : FVec Ideal S2x12544 .f32) := by
  show after (ops_part2 (F := Ideal)) (W2 V) (Proc.devRef .tc main_v38) = _
  rw [after_of_writes_sub _ _ (ops_part2_writes (F := Ideal)) (by decide : main_v38 ∉ ops_part2_W)]
  exact at2_v38 V
/-- main_v105 after 3 windows. -/
theorem at3_v105 (V : Valuation τ sig (Elt Ideal)) : W3 V (Proc.devRef .tc main_v105) = ((Cert.Bridge.R.accP1 (asF S2x100x64x64x64 (V (Proc.devRef .tc main_arg0))) (asF S2x12544x3 (V (Proc.devRef .tc main_arg3)))) : FVec Ideal S2x100x12544 .f32) := by
  show after (ops_part2 (F := Ideal)) (W2 V) (Proc.devRef .tc main_v105) = _
  refine (w2_v105 (W2 V)).trans ?_
  rw [at2_v43 V, at2_v51 V, at2_v74 V, at2_arg0 V, at2_v82 V, at2_v76 V, at2_v83 V, at2_v77 V]
  all_goals rfl
/-- main_v117 after 3 windows. -/
theorem at3_v117 (V : Valuation τ sig (Elt Ideal)) : W3 V (Proc.devRef .tc main_v117) = ((Cert.Bridge.R.xi1 (asF S2x12544x3 (V (Proc.devRef .tc main_arg3)))) : IVec S2x12544 32) := by
  show after (ops_part2 (F := Ideal)) (W2 V) (Proc.devRef .tc main_v117) = _
  refine (w2_v117 (W2 V)).trans ?_
  rw [at2_v40 V]
  all_goals rfl
/-- main_v115 after 3 windows. -/
theorem at3_v115 (V : Valuation τ sig (Elt Ideal)) : W3 V (Proc.devRef .tc main_v115) = ((Cert.Bridge.R.yi1 (asF S2x12544x3 (V (Proc.devRef .tc main_arg3)))) : IVec S2x12544 32) := by
  show after (ops_part2 (F := Ideal)) (W2 V) (Proc.devRef .tc main_v115) = _
  refine (w2_v115 (W2 V)).trans ?_
  rw [at2_v41 V]
  all_goals rfl
/-- main_v113 after 3 windows. -/
theorem at3_v113 (V : Valuation τ sig (Elt Ideal)) : W3 V (Proc.devRef .tc main_v113) = ((Cert.Bridge.R.zi1 (asF S2x12544x3 (V (Proc.devRef .tc main_arg3)))) : IVec S2x12544 32) := by
  show after (ops_part2 (F := Ideal)) (W2 V) (Proc.devRef .tc main_v113) = _
  refine (w2_v113 (W2 V)).trans ?_
  rw [at2_v42 V]
  all_goals rfl
/-- main_v128 after 3 windows. -/
theorem at3_v128 (V : Valuation τ sig (Elt Ideal)) : W3 V (Proc.devRef .tc main_v128) = ((andi (andi (andi (cmpi .sge (Cert.Bridge.R.zi1 (asF S2x12544x3 (V (Proc.devRef .tc main_arg3)))) (broadcastInDim S2x12544 ![] bcast_S_S2x12544 (constantI S_ 32 0#32))) (cmpi .slt (Cert.Bridge.R.zi1 (asF S2x12544x3 (V (Proc.devRef .tc main_arg3)))) (broadcastInDim S2x12544 ![] bcast_S_S2x12544 (constantI S_ 32 64#32)))) (cmpi .sge (Cert.Bridge.R.yi1 (asF S2x12544x3 (V (Proc.devRef .tc main_arg3)))) (broadcastInDim S2x12544 ![] bcast_S_S2x12544 (constantI S_ 32 0#32)))) (cmpi .slt (Cert.Bridge.R.yi1 (asF S2x12544x3 (V (Proc.devRef .tc main_arg3)))) (broadcastInDim S2x12544 ![] bcast_S_S2x12544 (constantI S_ 32 64#32)))) : IVec S2x12544 1) := by
  show after (ops_part2 (F := Ideal)) (W2 V) (Proc.devRef .tc main_v128) = _
  refine (w2_v128 (W2 V)).trans ?_
  rw [at2_v42 V, at2_v41 V]
  all_goals rfl
/-- main_v129 after 3 windows. -/
theorem at3_v129 (V : Valuation τ sig (Elt Ideal)) : W3 V (Proc.devRef .tc main_v129) = ((broadcastInDim S2x12544 ![] bcast_S_S2x12544 (constantI S_ 32 0#32)) : IVec S2x12544 32) := by
  show after (ops_part2 (F := Ideal)) (W2 V) (Proc.devRef .tc main_v129) = _
  refine (w2_v129 (W2 V)).trans ?_
  all_goals rfl
/-- main_v111 after 3 windows. -/
theorem at3_v111 (V : Valuation τ sig (Elt Ideal)) : W3 V (Proc.devRef .tc main_v111) = ((Cert.Bridge.R.wgt1 (asF S2x12544x3 (V (Proc.devRef .tc main_arg3)))) : FVec Ideal S2x12544 .f32) := by
  show after (ops_part2 (F := Ideal)) (W2 V) (Proc.devRef .tc main_v111) = _
  refine (w2_v111 (W2 V)).trans ?_
  rw [at2_v39 V, at2_v38 V, at2_v37 V]
  all_goals rfl

/-! ### After 4 windows -/

/-- main_v40 after 4 windows. -/
theorem at4_v40 (V : Valuation τ sig (Elt Ideal)) : W4 V (Proc.devRef .tc main_v40) = ((Cert.Bridge.R.base0 (asF S2x12544x3 (V (Proc.devRef .tc main_arg3)))) : IVec S2x12544 32) := by
  show after (ops_part3 (F := Ideal)) (W3 V) (Proc.devRef .tc main_v40) = _
  rw [after_of_writes_sub _ _ (ops_part3_writes (F := Ideal)) (by decide : main_v40 ∉ ops_part3_W)]
  exact at3_v40 V
/-- main_v41 after 4 windows. -/
theorem at4_v41 (V : Valuation τ sig (Elt Ideal)) : W4 V (Proc.devRef .tc main_v41) = ((Cert.Bridge.R.base1 (asF S2x12544x3 (V (Proc.devRef .tc main_arg3)))) : IVec S2x12544 32) := by
  show after (ops_part3 (F := Ideal)) (W3 V) (Proc.devRef .tc main_v41) = _
  rw [after_of_writes_sub _ _ (ops_part3_writes (F := Ideal)) (by decide : main_v41 ∉ ops_part3_W)]
  exact at3_v41 V
/-- main_v42 after 4 windows. -/
theorem at4_v42 (V : Valuation τ sig (Elt Ideal)) : W4 V (Proc.devRef .tc main_v42) = ((Cert.Bridge.R.base2 (asF S2x12544x3 (V (Proc.devRef .tc main_arg3)))) : IVec S2x12544 32) := by
  show after (ops_part3 (F := Ideal)) (W3 V) (Proc.devRef .tc main_v42) = _
  rw [after_of_writes_sub _ _ (ops_part3_writes (F := Ideal)) (by decide : main_v42 ∉ ops_part3_W)]
  exact at3_v42 V
/-- main_v37 after 4 windows. -/
theorem at4_v37 (V : Valuation τ sig (Elt Ideal)) : W4 V (Proc.devRef .tc main_v37) = ((Cert.Bridge.R.frac0 (asF S2x12544x3 (V (Proc.devRef .tc main_arg3)))) : FVec Ideal S2x12544 .f32) := by
  show after (ops_part3 (F := Ideal)) (W3 V) (Proc.devRef .tc main_v37) = _
  rw [after_of_writes_sub _ _ (ops_part3_writes (F := Ideal)) (by decide : main_v37 ∉ ops_part3_W)]
  exact at3_v37 V
/-- main_v39 after 4 windows. -/
theorem at4_v39 (V : Valuation τ sig (Elt Ideal)) : W4 V (Proc.devRef .tc main_v39) = ((Cert.Bridge.R.frac2 (asF S2x12544x3 (V (Proc.devRef .tc main_arg3)))) : FVec Ideal S2x12544 .f32) := by
  show after (ops_part3 (F := Ideal)) (W3 V) (Proc.devRef .tc main_v39) = _
  rw [after_of_writes_sub _ _ (ops_part3_writes (F := Ideal)) (by decide : main_v39 ∉ ops_part3_W)]
  exact at3_v39 V
/-- main_v38 after 4 windows. -/
theorem at4_v38 (V : Valuation τ sig (Elt Ideal)) : W4 V (Proc.devRef .tc main_v38) = ((Cert.Bridge.R.frac1 (asF S2x12544x3 (V (Proc.devRef .tc main_arg3)))) : FVec Ideal S2x12544 .f32) := by
  show after (ops_part3 (F := Ideal)) (W3 V) (Proc.devRef .tc main_v38) = _
  rw [after_of_writes_sub _ _ (ops_part3_writes (F := Ideal)) (by decide : main_v38 ∉ ops_part3_W)]
  exact at3_v38 V
/-- main_v162 after 4 windows. -/
theorem at4_v162 (V : Valuation τ sig (Elt Ideal)) : W4 V (Proc.devRef .tc main_v162) = ((Cert.Bridge.R.accP2 (asF S2x100x64x64x64 (V (Proc.devRef .tc main_arg0))) (asF S2x12544x3 (V (Proc.devRef .tc main_arg3)))) : FVec Ideal S2x100x12544 .f32) := by
  show after (ops_part3 (F := Ideal)) (W3 V) (Proc.devRef .tc main_v162) = _
  refine (w3_v162 (W3 V)).trans ?_
  rw [at3_v105 V, at3_v111 V, at3_v128 V, at3_v117 V, at3_v129 V, at3_arg0 V, at3_v113 V, at3_v115 V]
  all_goals rfl
/-- main_v171 after 4 windows. -/
theorem at4_v171 (V : Valuation τ sig (Elt Ideal)) : W4 V (Proc.devRef .tc main_v171) = ((broadcastInDim S2x12544 ![] bcast_S_S2x12544 (constantI S_ 32 1#32)) : IVec S2x12544 32) := by
  show after (ops_part3 (F := Ideal)) (W3 V) (Proc.devRef .tc main_v171) = _
  refine (w3_v171 (W3 V)).trans ?_
  all_goals rfl
/-- main_v170 after 4 windows. -/
theorem at4_v170 (V : Valuation τ sig (Elt Ideal)) : W4 V (Proc.devRef .tc main_v170) = ((Cert.Bridge.R.zi2 (asF S2x12544x3 (V (Proc.devRef .tc main_arg3)))) : IVec S2x12544 32) := by
  show after (ops_part3 (F := Ideal)) (W3 V) (Proc.devRef .tc main_v170) = _
  refine (w3_v170 (W3 V)).trans ?_
  rw [at3_v42 V]
  all_goals rfl
/-- main_v168 after 4 windows. -/
theorem at4_v168 (V : Valuation τ sig (Elt Ideal)) : W4 V (Proc.devRef .tc main_v168) = ((Cert.Bridge.R.wgt2 (asF S2x12544x3 (V (Proc.devRef .tc main_arg3)))) : FVec Ideal S2x12544 .f32) := by
  show after (ops_part3 (F := Ideal)) (W3 V) (Proc.devRef .tc main_v168) = _
  refine (w3_v168 (W3 V)).trans ?_
  rw [at3_v39 V, at3_v38 V, at3_v37 V]
  all_goals rfl

/-! ### After 5 windows -/

/-- main_v40 after 5 windows. -/
theorem at5_v40 (V : Valuation τ sig (Elt Ideal)) : W5 V (Proc.devRef .tc main_v40) = ((Cert.Bridge.R.base0 (asF S2x12544x3 (V (Proc.devRef .tc main_arg3)))) : IVec S2x12544 32) := by
  show after (ops_part4 (F := Ideal)) (W4 V) (Proc.devRef .tc main_v40) = _
  rw [after_of_writes_sub _ _ (ops_part4_writes (F := Ideal)) (by decide : main_v40 ∉ ops_part4_W)]
  exact at4_v40 V
/-- main_v41 after 5 windows. -/
theorem at5_v41 (V : Valuation τ sig (Elt Ideal)) : W5 V (Proc.devRef .tc main_v41) = ((Cert.Bridge.R.base1 (asF S2x12544x3 (V (Proc.devRef .tc main_arg3)))) : IVec S2x12544 32) := by
  show after (ops_part4 (F := Ideal)) (W4 V) (Proc.devRef .tc main_v41) = _
  rw [after_of_writes_sub _ _ (ops_part4_writes (F := Ideal)) (by decide : main_v41 ∉ ops_part4_W)]
  exact at4_v41 V
/-- main_v42 after 5 windows. -/
theorem at5_v42 (V : Valuation τ sig (Elt Ideal)) : W5 V (Proc.devRef .tc main_v42) = ((Cert.Bridge.R.base2 (asF S2x12544x3 (V (Proc.devRef .tc main_arg3)))) : IVec S2x12544 32) := by
  show after (ops_part4 (F := Ideal)) (W4 V) (Proc.devRef .tc main_v42) = _
  rw [after_of_writes_sub _ _ (ops_part4_writes (F := Ideal)) (by decide : main_v42 ∉ ops_part4_W)]
  exact at4_v42 V
/-- main_v37 after 5 windows. -/
theorem at5_v37 (V : Valuation τ sig (Elt Ideal)) : W5 V (Proc.devRef .tc main_v37) = ((Cert.Bridge.R.frac0 (asF S2x12544x3 (V (Proc.devRef .tc main_arg3)))) : FVec Ideal S2x12544 .f32) := by
  show after (ops_part4 (F := Ideal)) (W4 V) (Proc.devRef .tc main_v37) = _
  rw [after_of_writes_sub _ _ (ops_part4_writes (F := Ideal)) (by decide : main_v37 ∉ ops_part4_W)]
  exact at4_v37 V
/-- main_v39 after 5 windows. -/
theorem at5_v39 (V : Valuation τ sig (Elt Ideal)) : W5 V (Proc.devRef .tc main_v39) = ((Cert.Bridge.R.frac2 (asF S2x12544x3 (V (Proc.devRef .tc main_arg3)))) : FVec Ideal S2x12544 .f32) := by
  show after (ops_part4 (F := Ideal)) (W4 V) (Proc.devRef .tc main_v39) = _
  rw [after_of_writes_sub _ _ (ops_part4_writes (F := Ideal)) (by decide : main_v39 ∉ ops_part4_W)]
  exact at4_v39 V
/-- main_v38 after 5 windows. -/
theorem at5_v38 (V : Valuation τ sig (Elt Ideal)) : W5 V (Proc.devRef .tc main_v38) = ((Cert.Bridge.R.frac1 (asF S2x12544x3 (V (Proc.devRef .tc main_arg3)))) : FVec Ideal S2x12544 .f32) := by
  show after (ops_part4 (F := Ideal)) (W4 V) (Proc.devRef .tc main_v38) = _
  rw [after_of_writes_sub _ _ (ops_part4_writes (F := Ideal)) (by decide : main_v38 ∉ ops_part4_W)]
  exact at4_v38 V
/-- main_v162 after 5 windows. -/
theorem at5_v162 (V : Valuation τ sig (Elt Ideal)) : W5 V (Proc.devRef .tc main_v162) = ((Cert.Bridge.R.accP2 (asF S2x100x64x64x64 (V (Proc.devRef .tc main_arg0))) (asF S2x12544x3 (V (Proc.devRef .tc main_arg3)))) : FVec Ideal S2x100x12544 .f32) := by
  show after (ops_part4 (F := Ideal)) (W4 V) (Proc.devRef .tc main_v162) = _
  rw [after_of_writes_sub _ _ (ops_part4_writes (F := Ideal)) (by decide : main_v162 ∉ ops_part4_W)]
  exact at4_v162 V
/-- main_v210 after 5 windows. -/
theorem at5_v210 (V : Valuation τ sig (Elt Ideal)) : W5 V (Proc.devRef .tc main_v210) = ((broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (Cert.Bridge.R.zi2 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.zi2 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.zi2 (asF S2x12544x3 (V (Proc.devRef .tc main_arg3)))))))) : IVec S2x12544x1 32) := by
  show after (ops_part4 (F := Ideal)) (W4 V) (Proc.devRef .tc main_v210) = _
  refine (w4_v210 (W4 V)).trans ?_
  rw [at4_v170 V]
  all_goals rfl
/-- main_v211 after 5 windows. -/
theorem at5_v211 (V : Valuation τ sig (Elt Ideal)) : W5 V (Proc.devRef .tc main_v211) = ((broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (Cert.Bridge.R.yi2 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.yi2 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.yi2 (asF S2x12544x3 (V (Proc.devRef .tc main_arg3)))))))) : IVec S2x12544x1 32) := by
  show after (ops_part4 (F := Ideal)) (W4 V) (Proc.devRef .tc main_v211) = _
  refine (w4_v211 (W4 V)).trans ?_
  rw [at4_v41 V, at4_v171 V]
  all_goals rfl
/-- main_v212 after 5 windows. -/
theorem at5_v212 (V : Valuation τ sig (Elt Ideal)) : W5 V (Proc.devRef .tc main_v212) = ((broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (Cert.Bridge.R.xi2 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.xi2 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.xi2 (asF S2x12544x3 (V (Proc.devRef .tc main_arg3)))))))) : IVec S2x12544x1 32) := by
  show after (ops_part4 (F := Ideal)) (W4 V) (Proc.devRef .tc main_v212) = _
  refine (w4_v212 (W4 V)).trans ?_
  rw [at4_v40 V]
  all_goals rfl
/-- main_v191 after 5 windows. -/
theorem at5_v191 (V : Valuation τ sig (Elt Ideal)) : W5 V (Proc.devRef .tc main_v191) = ((Cert.Bridge.R.valid2 (asF S2x12544x3 (V (Proc.devRef .tc main_arg3)))) : IVec S2x12544 1) := by
  show after (ops_part4 (F := Ideal)) (W4 V) (Proc.devRef .tc main_v191) = _
  refine (w4_v191 (W4 V)).trans ?_
  rw [at4_v170 V, at4_v41 V, at4_v171 V, at4_v40 V]
  all_goals rfl
/-- main_v168 after 5 windows. -/
theorem at5_v168 (V : Valuation τ sig (Elt Ideal)) : W5 V (Proc.devRef .tc main_v168) = ((Cert.Bridge.R.wgt2 (asF S2x12544x3 (V (Proc.devRef .tc main_arg3)))) : FVec Ideal S2x12544 .f32) := by
  show after (ops_part4 (F := Ideal)) (W4 V) (Proc.devRef .tc main_v168) = _
  rw [after_of_writes_sub _ _ (ops_part4_writes (F := Ideal)) (by decide : main_v168 ∉ ops_part4_W)]
  exact at4_v168 V

/-! ### After 6 windows -/

/-- main_v40 after 6 windows. -/
theorem at6_v40 (V : Valuation τ sig (Elt Ideal)) : W6 V (Proc.devRef .tc main_v40) = ((Cert.Bridge.R.base0 (asF S2x12544x3 (V (Proc.devRef .tc main_arg3)))) : IVec S2x12544 32) := by
  show after (ops_part5 (F := Ideal)) (W5 V) (Proc.devRef .tc main_v40) = _
  rw [after_of_writes_sub _ _ (ops_part5_writes (F := Ideal)) (by decide : main_v40 ∉ ops_part5_W)]
  exact at5_v40 V
/-- main_v41 after 6 windows. -/
theorem at6_v41 (V : Valuation τ sig (Elt Ideal)) : W6 V (Proc.devRef .tc main_v41) = ((Cert.Bridge.R.base1 (asF S2x12544x3 (V (Proc.devRef .tc main_arg3)))) : IVec S2x12544 32) := by
  show after (ops_part5 (F := Ideal)) (W5 V) (Proc.devRef .tc main_v41) = _
  rw [after_of_writes_sub _ _ (ops_part5_writes (F := Ideal)) (by decide : main_v41 ∉ ops_part5_W)]
  exact at5_v41 V
/-- main_v42 after 6 windows. -/
theorem at6_v42 (V : Valuation τ sig (Elt Ideal)) : W6 V (Proc.devRef .tc main_v42) = ((Cert.Bridge.R.base2 (asF S2x12544x3 (V (Proc.devRef .tc main_arg3)))) : IVec S2x12544 32) := by
  show after (ops_part5 (F := Ideal)) (W5 V) (Proc.devRef .tc main_v42) = _
  rw [after_of_writes_sub _ _ (ops_part5_writes (F := Ideal)) (by decide : main_v42 ∉ ops_part5_W)]
  exact at5_v42 V
/-- main_v37 after 6 windows. -/
theorem at6_v37 (V : Valuation τ sig (Elt Ideal)) : W6 V (Proc.devRef .tc main_v37) = ((Cert.Bridge.R.frac0 (asF S2x12544x3 (V (Proc.devRef .tc main_arg3)))) : FVec Ideal S2x12544 .f32) := by
  show after (ops_part5 (F := Ideal)) (W5 V) (Proc.devRef .tc main_v37) = _
  rw [after_of_writes_sub _ _ (ops_part5_writes (F := Ideal)) (by decide : main_v37 ∉ ops_part5_W)]
  exact at5_v37 V
/-- main_v39 after 6 windows. -/
theorem at6_v39 (V : Valuation τ sig (Elt Ideal)) : W6 V (Proc.devRef .tc main_v39) = ((Cert.Bridge.R.frac2 (asF S2x12544x3 (V (Proc.devRef .tc main_arg3)))) : FVec Ideal S2x12544 .f32) := by
  show after (ops_part5 (F := Ideal)) (W5 V) (Proc.devRef .tc main_v39) = _
  rw [after_of_writes_sub _ _ (ops_part5_writes (F := Ideal)) (by decide : main_v39 ∉ ops_part5_W)]
  exact at5_v39 V
/-- main_v38 after 6 windows. -/
theorem at6_v38 (V : Valuation τ sig (Elt Ideal)) : W6 V (Proc.devRef .tc main_v38) = ((Cert.Bridge.R.frac1 (asF S2x12544x3 (V (Proc.devRef .tc main_arg3)))) : FVec Ideal S2x12544 .f32) := by
  show after (ops_part5 (F := Ideal)) (W5 V) (Proc.devRef .tc main_v38) = _
  rw [after_of_writes_sub _ _ (ops_part5_writes (F := Ideal)) (by decide : main_v38 ∉ ops_part5_W)]
  exact at5_v38 V
/-- main_v219 after 6 windows. -/
theorem at6_v219 (V : Valuation τ sig (Elt Ideal)) : W6 V (Proc.devRef .tc main_v219) = ((Cert.Bridge.R.accP3 (asF S2x100x64x64x64 (V (Proc.devRef .tc main_arg0))) (asF S2x12544x3 (V (Proc.devRef .tc main_arg3)))) : FVec Ideal S2x100x12544 .f32) := by
  show after (ops_part5 (F := Ideal)) (W5 V) (Proc.devRef .tc main_v219) = _
  refine (w5_v219 (W5 V)).trans ?_
  rw [at5_v162 V, at5_v168 V, at5_v191 V, at5_arg0 V, at5_v210 V, at5_v211 V, at5_v212 V]
  all_goals rfl
/-- main_v249 after 6 windows. -/
theorem at6_v249 (V : Valuation τ sig (Elt Ideal)) : W6 V (Proc.devRef .tc main_v249) = ((minsi (broadcastInDim S2x12544 ![] bcast_S_S2x12544 (id (constantI S_ 32 63#32))) (maxsi (broadcastInDim S2x12544 ![] bcast_S_S2x12544 (id (constantI S_ 32 0#32))) (Cert.Bridge.R.xi3 (asF S2x12544x3 (V (Proc.devRef .tc main_arg3)))))) : IVec S2x12544 32) := by
  show after (ops_part5 (F := Ideal)) (W5 V) (Proc.devRef .tc main_v249) = _
  refine (w5_v249 (W5 V)).trans ?_
  rw [at5_v40 V]
  all_goals rfl
/-- main_v248 after 6 windows. -/
theorem at6_v248 (V : Valuation τ sig (Elt Ideal)) : W6 V (Proc.devRef .tc main_v248) = ((minsi (broadcastInDim S2x12544 ![] bcast_S_S2x12544 (id (constantI S_ 32 63#32))) (maxsi (broadcastInDim S2x12544 ![] bcast_S_S2x12544 (id (constantI S_ 32 0#32))) (Cert.Bridge.R.yi3 (asF S2x12544x3 (V (Proc.devRef .tc main_arg3)))))) : IVec S2x12544 32) := by
  show after (ops_part5 (F := Ideal)) (W5 V) (Proc.devRef .tc main_v248) = _
  refine (w5_v248 (W5 V)).trans ?_
  rw [at5_v41 V]
  all_goals rfl
/-- main_v251 after 6 windows. -/
theorem at6_v251 (V : Valuation τ sig (Elt Ideal)) : W6 V (Proc.devRef .tc main_v251) = ((cmpi .slt (minsi (broadcastInDim S2x12544 ![] bcast_S_S2x12544 (id (constantI S_ 32 63#32))) (maxsi (broadcastInDim S2x12544 ![] bcast_S_S2x12544 (id (constantI S_ 32 0#32))) (Cert.Bridge.R.zi3 (asF S2x12544x3 (V (Proc.devRef .tc main_arg3)))))) (broadcastInDim S2x12544 ![] bcast_S_S2x12544 (constantI S_ 32 0#32))) : IVec S2x12544 1) := by
  show after (ops_part5 (F := Ideal)) (W5 V) (Proc.devRef .tc main_v251) = _
  refine (w5_v251 (W5 V)).trans ?_
  rw [at5_v42 V]
  all_goals rfl
/-- main_v253 after 6 windows. -/
theorem at6_v253 (V : Valuation τ sig (Elt Ideal)) : W6 V (Proc.devRef .tc main_v253) = ((addi (minsi (broadcastInDim S2x12544 ![] bcast_S_S2x12544 (id (constantI S_ 32 63#32))) (maxsi (broadcastInDim S2x12544 ![] bcast_S_S2x12544 (id (constantI S_ 32 0#32))) (Cert.Bridge.R.zi3 (asF S2x12544x3 (V (Proc.devRef .tc main_arg3)))))) (broadcastInDim S2x12544 ![] bcast_S_S2x12544 (constantI S_ 32 64#32))) : IVec S2x12544 32) := by
  show after (ops_part5 (F := Ideal)) (W5 V) (Proc.devRef .tc main_v253) = _
  refine (w5_v253 (W5 V)).trans ?_
  rw [at5_v42 V]
  all_goals rfl
/-- main_v247 after 6 windows. -/
theorem at6_v247 (V : Valuation τ sig (Elt Ideal)) : W6 V (Proc.devRef .tc main_v247) = ((minsi (broadcastInDim S2x12544 ![] bcast_S_S2x12544 (id (constantI S_ 32 63#32))) (maxsi (broadcastInDim S2x12544 ![] bcast_S_S2x12544 (id (constantI S_ 32 0#32))) (Cert.Bridge.R.zi3 (asF S2x12544x3 (V (Proc.devRef .tc main_arg3)))))) : IVec S2x12544 32) := by
  show after (ops_part5 (F := Ideal)) (W5 V) (Proc.devRef .tc main_v247) = _
  refine (w5_v247 (W5 V)).trans ?_
  rw [at5_v42 V]
  all_goals rfl
/-- main_v246 after 6 windows. -/
theorem at6_v246 (V : Valuation τ sig (Elt Ideal)) : W6 V (Proc.devRef .tc main_v246) = ((Cert.Bridge.R.valid3 (asF S2x12544x3 (V (Proc.devRef .tc main_arg3)))) : IVec S2x12544 1) := by
  show after (ops_part5 (F := Ideal)) (W5 V) (Proc.devRef .tc main_v246) = _
  refine (w5_v246 (W5 V)).trans ?_
  rw [at5_v42 V, at5_v41 V, at5_v40 V]
  all_goals rfl
/-- main_v223 after 6 windows. -/
theorem at6_v223 (V : Valuation τ sig (Elt Ideal)) : W6 V (Proc.devRef .tc main_v223) = ((Cert.Bridge.R.wgt3 (asF S2x12544x3 (V (Proc.devRef .tc main_arg3)))) : FVec Ideal S2x12544 .f32) := by
  show after (ops_part5 (F := Ideal)) (W5 V) (Proc.devRef .tc main_v223) = _
  refine (w5_v223 (W5 V)).trans ?_
  rw [at5_v39 V, at5_v38 V, at5_v37 V]
  all_goals rfl

/-! ### After 7 windows -/

/-- main_v40 after 7 windows. -/
theorem at7_v40 (V : Valuation τ sig (Elt Ideal)) : W7 V (Proc.devRef .tc main_v40) = ((Cert.Bridge.R.base0 (asF S2x12544x3 (V (Proc.devRef .tc main_arg3)))) : IVec S2x12544 32) := by
  show after (ops_part6 (F := Ideal)) (W6 V) (Proc.devRef .tc main_v40) = _
  rw [after_of_writes_sub _ _ (ops_part6_writes (F := Ideal)) (by decide : main_v40 ∉ ops_part6_W)]
  exact at6_v40 V
/-- main_v41 after 7 windows. -/
theorem at7_v41 (V : Valuation τ sig (Elt Ideal)) : W7 V (Proc.devRef .tc main_v41) = ((Cert.Bridge.R.base1 (asF S2x12544x3 (V (Proc.devRef .tc main_arg3)))) : IVec S2x12544 32) := by
  show after (ops_part6 (F := Ideal)) (W6 V) (Proc.devRef .tc main_v41) = _
  rw [after_of_writes_sub _ _ (ops_part6_writes (F := Ideal)) (by decide : main_v41 ∉ ops_part6_W)]
  exact at6_v41 V
/-- main_v42 after 7 windows. -/
theorem at7_v42 (V : Valuation τ sig (Elt Ideal)) : W7 V (Proc.devRef .tc main_v42) = ((Cert.Bridge.R.base2 (asF S2x12544x3 (V (Proc.devRef .tc main_arg3)))) : IVec S2x12544 32) := by
  show after (ops_part6 (F := Ideal)) (W6 V) (Proc.devRef .tc main_v42) = _
  rw [after_of_writes_sub _ _ (ops_part6_writes (F := Ideal)) (by decide : main_v42 ∉ ops_part6_W)]
  exact at6_v42 V
/-- main_v37 after 7 windows. -/
theorem at7_v37 (V : Valuation τ sig (Elt Ideal)) : W7 V (Proc.devRef .tc main_v37) = ((Cert.Bridge.R.frac0 (asF S2x12544x3 (V (Proc.devRef .tc main_arg3)))) : FVec Ideal S2x12544 .f32) := by
  show after (ops_part6 (F := Ideal)) (W6 V) (Proc.devRef .tc main_v37) = _
  rw [after_of_writes_sub _ _ (ops_part6_writes (F := Ideal)) (by decide : main_v37 ∉ ops_part6_W)]
  exact at6_v37 V
/-- main_v39 after 7 windows. -/
theorem at7_v39 (V : Valuation τ sig (Elt Ideal)) : W7 V (Proc.devRef .tc main_v39) = ((Cert.Bridge.R.frac2 (asF S2x12544x3 (V (Proc.devRef .tc main_arg3)))) : FVec Ideal S2x12544 .f32) := by
  show after (ops_part6 (F := Ideal)) (W6 V) (Proc.devRef .tc main_v39) = _
  rw [after_of_writes_sub _ _ (ops_part6_writes (F := Ideal)) (by decide : main_v39 ∉ ops_part6_W)]
  exact at6_v39 V
/-- main_v38 after 7 windows. -/
theorem at7_v38 (V : Valuation τ sig (Elt Ideal)) : W7 V (Proc.devRef .tc main_v38) = ((Cert.Bridge.R.frac1 (asF S2x12544x3 (V (Proc.devRef .tc main_arg3)))) : FVec Ideal S2x12544 .f32) := by
  show after (ops_part6 (F := Ideal)) (W6 V) (Proc.devRef .tc main_v38) = _
  rw [after_of_writes_sub _ _ (ops_part6_writes (F := Ideal)) (by decide : main_v38 ∉ ops_part6_W)]
  exact at6_v38 V
/-- main_v274 after 7 windows. -/
theorem at7_v274 (V : Valuation τ sig (Elt Ideal)) : W7 V (Proc.devRef .tc main_v274) = ((Cert.Bridge.R.accP4 (asF S2x100x64x64x64 (V (Proc.devRef .tc main_arg0))) (asF S2x12544x3 (V (Proc.devRef .tc main_arg3)))) : FVec Ideal S2x100x12544 .f32) := by
  show after (ops_part6 (F := Ideal)) (W6 V) (Proc.devRef .tc main_v274) = _
  refine (w6_v274 (W6 V)).trans ?_
  rw [at6_v219 V, at6_v223 V, at6_v246 V, at6_arg0 V, at6_v251 V, at6_v253 V, at6_v247 V, at6_v248 V, at6_v249 V]
  all_goals rfl
/-- main_v286 after 7 windows. -/
theorem at7_v286 (V : Valuation τ sig (Elt Ideal)) : W7 V (Proc.devRef .tc main_v286) = ((Cert.Bridge.R.xi4 (asF S2x12544x3 (V (Proc.devRef .tc main_arg3)))) : IVec S2x12544 32) := by
  show after (ops_part6 (F := Ideal)) (W6 V) (Proc.devRef .tc main_v286) = _
  refine (w6_v286 (W6 V)).trans ?_
  rw [at6_v40 V]
  all_goals rfl
/-- main_v284 after 7 windows. -/
theorem at7_v284 (V : Valuation τ sig (Elt Ideal)) : W7 V (Proc.devRef .tc main_v284) = ((Cert.Bridge.R.yi4 (asF S2x12544x3 (V (Proc.devRef .tc main_arg3)))) : IVec S2x12544 32) := by
  show after (ops_part6 (F := Ideal)) (W6 V) (Proc.devRef .tc main_v284) = _
  refine (w6_v284 (W6 V)).trans ?_
  rw [at6_v41 V]
  all_goals rfl
/-- main_v282 after 7 windows. -/
theorem at7_v282 (V : Valuation τ sig (Elt Ideal)) : W7 V (Proc.devRef .tc main_v282) = ((Cert.Bridge.R.zi4 (asF S2x12544x3 (V (Proc.devRef .tc main_arg3)))) : IVec S2x12544 32) := by
  show after (ops_part6 (F := Ideal)) (W6 V) (Proc.devRef .tc main_v282) = _
  refine (w6_v282 (W6 V)).trans ?_
  rw [at6_v42 V]
  all_goals rfl
/-- main_v297 after 7 windows. -/
theorem at7_v297 (V : Valuation τ sig (Elt Ideal)) : W7 V (Proc.devRef .tc main_v297) = ((andi (andi (andi (cmpi .sge (Cert.Bridge.R.zi4 (asF S2x12544x3 (V (Proc.devRef .tc main_arg3)))) (broadcastInDim S2x12544 ![] bcast_S_S2x12544 (constantI S_ 32 0#32))) (cmpi .slt (Cert.Bridge.R.zi4 (asF S2x12544x3 (V (Proc.devRef .tc main_arg3)))) (broadcastInDim S2x12544 ![] bcast_S_S2x12544 (constantI S_ 32 64#32)))) (cmpi .sge (Cert.Bridge.R.yi4 (asF S2x12544x3 (V (Proc.devRef .tc main_arg3)))) (broadcastInDim S2x12544 ![] bcast_S_S2x12544 (constantI S_ 32 0#32)))) (cmpi .slt (Cert.Bridge.R.yi4 (asF S2x12544x3 (V (Proc.devRef .tc main_arg3)))) (broadcastInDim S2x12544 ![] bcast_S_S2x12544 (constantI S_ 32 64#32)))) : IVec S2x12544 1) := by
  show after (ops_part6 (F := Ideal)) (W6 V) (Proc.devRef .tc main_v297) = _
  refine (w6_v297 (W6 V)).trans ?_
  rw [at6_v42 V, at6_v41 V]
  all_goals rfl
/-- main_v298 after 7 windows. -/
theorem at7_v298 (V : Valuation τ sig (Elt Ideal)) : W7 V (Proc.devRef .tc main_v298) = ((broadcastInDim S2x12544 ![] bcast_S_S2x12544 (constantI S_ 32 0#32)) : IVec S2x12544 32) := by
  show after (ops_part6 (F := Ideal)) (W6 V) (Proc.devRef .tc main_v298) = _
  refine (w6_v298 (W6 V)).trans ?_
  all_goals rfl
/-- main_v280 after 7 windows. -/
theorem at7_v280 (V : Valuation τ sig (Elt Ideal)) : W7 V (Proc.devRef .tc main_v280) = ((Cert.Bridge.R.wgt4 (asF S2x12544x3 (V (Proc.devRef .tc main_arg3)))) : FVec Ideal S2x12544 .f32) := by
  show after (ops_part6 (F := Ideal)) (W6 V) (Proc.devRef .tc main_v280) = _
  refine (w6_v280 (W6 V)).trans ?_
  rw [at6_v39 V, at6_v38 V, at6_v37 V]
  all_goals rfl

/-! ### After 8 windows -/

/-- main_v40 after 8 windows. -/
theorem at8_v40 (V : Valuation τ sig (Elt Ideal)) : W8 V (Proc.devRef .tc main_v40) = ((Cert.Bridge.R.base0 (asF S2x12544x3 (V (Proc.devRef .tc main_arg3)))) : IVec S2x12544 32) := by
  show after (ops_part7 (F := Ideal)) (W7 V) (Proc.devRef .tc main_v40) = _
  rw [after_of_writes_sub _ _ (ops_part7_writes (F := Ideal)) (by decide : main_v40 ∉ ops_part7_W)]
  exact at7_v40 V
/-- main_v41 after 8 windows. -/
theorem at8_v41 (V : Valuation τ sig (Elt Ideal)) : W8 V (Proc.devRef .tc main_v41) = ((Cert.Bridge.R.base1 (asF S2x12544x3 (V (Proc.devRef .tc main_arg3)))) : IVec S2x12544 32) := by
  show after (ops_part7 (F := Ideal)) (W7 V) (Proc.devRef .tc main_v41) = _
  rw [after_of_writes_sub _ _ (ops_part7_writes (F := Ideal)) (by decide : main_v41 ∉ ops_part7_W)]
  exact at7_v41 V
/-- main_v42 after 8 windows. -/
theorem at8_v42 (V : Valuation τ sig (Elt Ideal)) : W8 V (Proc.devRef .tc main_v42) = ((Cert.Bridge.R.base2 (asF S2x12544x3 (V (Proc.devRef .tc main_arg3)))) : IVec S2x12544 32) := by
  show after (ops_part7 (F := Ideal)) (W7 V) (Proc.devRef .tc main_v42) = _
  rw [after_of_writes_sub _ _ (ops_part7_writes (F := Ideal)) (by decide : main_v42 ∉ ops_part7_W)]
  exact at7_v42 V
/-- main_v37 after 8 windows. -/
theorem at8_v37 (V : Valuation τ sig (Elt Ideal)) : W8 V (Proc.devRef .tc main_v37) = ((Cert.Bridge.R.frac0 (asF S2x12544x3 (V (Proc.devRef .tc main_arg3)))) : FVec Ideal S2x12544 .f32) := by
  show after (ops_part7 (F := Ideal)) (W7 V) (Proc.devRef .tc main_v37) = _
  rw [after_of_writes_sub _ _ (ops_part7_writes (F := Ideal)) (by decide : main_v37 ∉ ops_part7_W)]
  exact at7_v37 V
/-- main_v39 after 8 windows. -/
theorem at8_v39 (V : Valuation τ sig (Elt Ideal)) : W8 V (Proc.devRef .tc main_v39) = ((Cert.Bridge.R.frac2 (asF S2x12544x3 (V (Proc.devRef .tc main_arg3)))) : FVec Ideal S2x12544 .f32) := by
  show after (ops_part7 (F := Ideal)) (W7 V) (Proc.devRef .tc main_v39) = _
  rw [after_of_writes_sub _ _ (ops_part7_writes (F := Ideal)) (by decide : main_v39 ∉ ops_part7_W)]
  exact at7_v39 V
/-- main_v38 after 8 windows. -/
theorem at8_v38 (V : Valuation τ sig (Elt Ideal)) : W8 V (Proc.devRef .tc main_v38) = ((Cert.Bridge.R.frac1 (asF S2x12544x3 (V (Proc.devRef .tc main_arg3)))) : FVec Ideal S2x12544 .f32) := by
  show after (ops_part7 (F := Ideal)) (W7 V) (Proc.devRef .tc main_v38) = _
  rw [after_of_writes_sub _ _ (ops_part7_writes (F := Ideal)) (by decide : main_v38 ∉ ops_part7_W)]
  exact at7_v38 V
/-- main_v331 after 8 windows. -/
theorem at8_v331 (V : Valuation τ sig (Elt Ideal)) : W8 V (Proc.devRef .tc main_v331) = ((Cert.Bridge.R.accP5 (asF S2x100x64x64x64 (V (Proc.devRef .tc main_arg0))) (asF S2x12544x3 (V (Proc.devRef .tc main_arg3)))) : FVec Ideal S2x100x12544 .f32) := by
  show after (ops_part7 (F := Ideal)) (W7 V) (Proc.devRef .tc main_v331) = _
  refine (w7_v331 (W7 V)).trans ?_
  rw [at7_v274 V, at7_v280 V, at7_v297 V, at7_v286 V, at7_v298 V, at7_arg0 V, at7_v282 V, at7_v284 V]
  all_goals rfl
/-- main_v340 after 8 windows. -/
theorem at8_v340 (V : Valuation τ sig (Elt Ideal)) : W8 V (Proc.devRef .tc main_v340) = ((broadcastInDim S2x12544 ![] bcast_S_S2x12544 (constantI S_ 32 1#32)) : IVec S2x12544 32) := by
  show after (ops_part7 (F := Ideal)) (W7 V) (Proc.devRef .tc main_v340) = _
  refine (w7_v340 (W7 V)).trans ?_
  all_goals rfl
/-- main_v339 after 8 windows. -/
theorem at8_v339 (V : Valuation τ sig (Elt Ideal)) : W8 V (Proc.devRef .tc main_v339) = ((Cert.Bridge.R.yi5 (asF S2x12544x3 (V (Proc.devRef .tc main_arg3)))) : IVec S2x12544 32) := by
  show after (ops_part7 (F := Ideal)) (W7 V) (Proc.devRef .tc main_v339) = _
  refine (w7_v339 (W7 V)).trans ?_
  rw [at7_v41 V]
  all_goals rfl
/-- main_v337 after 8 windows. -/
theorem at8_v337 (V : Valuation τ sig (Elt Ideal)) : W8 V (Proc.devRef .tc main_v337) = ((Cert.Bridge.R.zi5 (asF S2x12544x3 (V (Proc.devRef .tc main_arg3)))) : IVec S2x12544 32) := by
  show after (ops_part7 (F := Ideal)) (W7 V) (Proc.devRef .tc main_v337) = _
  refine (w7_v337 (W7 V)).trans ?_
  rw [at7_v42 V]
  all_goals rfl
/-- main_v335 after 8 windows. -/
theorem at8_v335 (V : Valuation τ sig (Elt Ideal)) : W8 V (Proc.devRef .tc main_v335) = ((Cert.Bridge.R.wgt5 (asF S2x12544x3 (V (Proc.devRef .tc main_arg3)))) : FVec Ideal S2x12544 .f32) := by
  show after (ops_part7 (F := Ideal)) (W7 V) (Proc.devRef .tc main_v335) = _
  refine (w7_v335 (W7 V)).trans ?_
  rw [at7_v39 V, at7_v38 V, at7_v37 V]
  all_goals rfl

/-! ### After 9 windows -/

/-- main_v40 after 9 windows. -/
theorem at9_v40 (V : Valuation τ sig (Elt Ideal)) : W9 V (Proc.devRef .tc main_v40) = ((Cert.Bridge.R.base0 (asF S2x12544x3 (V (Proc.devRef .tc main_arg3)))) : IVec S2x12544 32) := by
  show after (ops_part8 (F := Ideal)) (W8 V) (Proc.devRef .tc main_v40) = _
  rw [after_of_writes_sub _ _ (ops_part8_writes (F := Ideal)) (by decide : main_v40 ∉ ops_part8_W)]
  exact at8_v40 V
/-- main_v41 after 9 windows. -/
theorem at9_v41 (V : Valuation τ sig (Elt Ideal)) : W9 V (Proc.devRef .tc main_v41) = ((Cert.Bridge.R.base1 (asF S2x12544x3 (V (Proc.devRef .tc main_arg3)))) : IVec S2x12544 32) := by
  show after (ops_part8 (F := Ideal)) (W8 V) (Proc.devRef .tc main_v41) = _
  rw [after_of_writes_sub _ _ (ops_part8_writes (F := Ideal)) (by decide : main_v41 ∉ ops_part8_W)]
  exact at8_v41 V
/-- main_v42 after 9 windows. -/
theorem at9_v42 (V : Valuation τ sig (Elt Ideal)) : W9 V (Proc.devRef .tc main_v42) = ((Cert.Bridge.R.base2 (asF S2x12544x3 (V (Proc.devRef .tc main_arg3)))) : IVec S2x12544 32) := by
  show after (ops_part8 (F := Ideal)) (W8 V) (Proc.devRef .tc main_v42) = _
  rw [after_of_writes_sub _ _ (ops_part8_writes (F := Ideal)) (by decide : main_v42 ∉ ops_part8_W)]
  exact at8_v42 V
/-- main_v37 after 9 windows. -/
theorem at9_v37 (V : Valuation τ sig (Elt Ideal)) : W9 V (Proc.devRef .tc main_v37) = ((Cert.Bridge.R.frac0 (asF S2x12544x3 (V (Proc.devRef .tc main_arg3)))) : FVec Ideal S2x12544 .f32) := by
  show after (ops_part8 (F := Ideal)) (W8 V) (Proc.devRef .tc main_v37) = _
  rw [after_of_writes_sub _ _ (ops_part8_writes (F := Ideal)) (by decide : main_v37 ∉ ops_part8_W)]
  exact at8_v37 V
/-- main_v39 after 9 windows. -/
theorem at9_v39 (V : Valuation τ sig (Elt Ideal)) : W9 V (Proc.devRef .tc main_v39) = ((Cert.Bridge.R.frac2 (asF S2x12544x3 (V (Proc.devRef .tc main_arg3)))) : FVec Ideal S2x12544 .f32) := by
  show after (ops_part8 (F := Ideal)) (W8 V) (Proc.devRef .tc main_v39) = _
  rw [after_of_writes_sub _ _ (ops_part8_writes (F := Ideal)) (by decide : main_v39 ∉ ops_part8_W)]
  exact at8_v39 V
/-- main_v38 after 9 windows. -/
theorem at9_v38 (V : Valuation τ sig (Elt Ideal)) : W9 V (Proc.devRef .tc main_v38) = ((Cert.Bridge.R.frac1 (asF S2x12544x3 (V (Proc.devRef .tc main_arg3)))) : FVec Ideal S2x12544 .f32) := by
  show after (ops_part8 (F := Ideal)) (W8 V) (Proc.devRef .tc main_v38) = _
  rw [after_of_writes_sub _ _ (ops_part8_writes (F := Ideal)) (by decide : main_v38 ∉ ops_part8_W)]
  exact at8_v38 V
/-- main_v331 after 9 windows. -/
theorem at9_v331 (V : Valuation τ sig (Elt Ideal)) : W9 V (Proc.devRef .tc main_v331) = ((Cert.Bridge.R.accP5 (asF S2x100x64x64x64 (V (Proc.devRef .tc main_arg0))) (asF S2x12544x3 (V (Proc.devRef .tc main_arg3)))) : FVec Ideal S2x100x12544 .f32) := by
  show after (ops_part8 (F := Ideal)) (W8 V) (Proc.devRef .tc main_v331) = _
  rw [after_of_writes_sub _ _ (ops_part8_writes (F := Ideal)) (by decide : main_v331 ∉ ops_part8_W)]
  exact at8_v331 V
/-- main_v381 after 9 windows. -/
theorem at9_v381 (V : Valuation τ sig (Elt Ideal)) : W9 V (Proc.devRef .tc main_v381) = ((Host.gather gather_S2x100x64x64x64_S2x12544x3_S2x100x12544_1_234_0_0_234_2_1100111 (asF S2x100x64x64x64 (V (Proc.devRef .tc main_arg0))) (concatenate S2x12544x3 2 [⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (Cert.Bridge.R.zi5 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.zi5 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.zi5 (asF S2x12544x3 (V (Proc.devRef .tc main_arg3))))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (Cert.Bridge.R.yi5 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.yi5 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.yi5 (asF S2x12544x3 (V (Proc.devRef .tc main_arg3))))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (Cert.Bridge.R.xi5 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.xi5 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.xi5 (asF S2x12544x3 (V (Proc.devRef .tc main_arg3))))))))⟩] concatenates_S2x12544x1_S2x12544x1_S2x12544x1_S2x12544x3_d2)) : FVec Ideal S2x100x12544 .f32) := by
  show after (ops_part8 (F := Ideal)) (W8 V) (Proc.devRef .tc main_v381) = _
  refine (w8_v381 (W8 V)).trans ?_
  rw [at8_arg0 V, at8_v337 V, at8_v339 V, at8_v40 V, at8_v340 V]
  all_goals rfl
/-- main_cst_155 after 9 windows. -/
theorem at9_cst_155 (V : Valuation τ sig (Elt Ideal)) : W9 V (Proc.devRef .tc main_cst_155) = ((constant (F := Ideal) S_ .f32 0x00000000#32) : FVec Ideal S_ .f32) := by
  show after (ops_part8 (F := Ideal)) (W8 V) (Proc.devRef .tc main_cst_155) = _
  refine (w8_cst_155 (W8 V)).trans ?_
  all_goals rfl
/-- main_v358 after 9 windows. -/
theorem at9_v358 (V : Valuation τ sig (Elt Ideal)) : W9 V (Proc.devRef .tc main_v358) = ((Cert.Bridge.R.valid5 (asF S2x12544x3 (V (Proc.devRef .tc main_arg3)))) : IVec S2x12544 1) := by
  show after (ops_part8 (F := Ideal)) (W8 V) (Proc.devRef .tc main_v358) = _
  refine (w8_v358 (W8 V)).trans ?_
  rw [at8_v337 V, at8_v339 V, at8_v40 V, at8_v340 V]
  all_goals rfl
/-- main_v335 after 9 windows. -/
theorem at9_v335 (V : Valuation τ sig (Elt Ideal)) : W9 V (Proc.devRef .tc main_v335) = ((Cert.Bridge.R.wgt5 (asF S2x12544x3 (V (Proc.devRef .tc main_arg3)))) : FVec Ideal S2x12544 .f32) := by
  show after (ops_part8 (F := Ideal)) (W8 V) (Proc.devRef .tc main_v335) = _
  rw [after_of_writes_sub _ _ (ops_part8_writes (F := Ideal)) (by decide : main_v335 ∉ ops_part8_W)]
  exact at8_v335 V

/-! ### After 10 windows -/

/-- main_v40 after 10 windows. -/
theorem at10_v40 (V : Valuation τ sig (Elt Ideal)) : W10 V (Proc.devRef .tc main_v40) = ((Cert.Bridge.R.base0 (asF S2x12544x3 (V (Proc.devRef .tc main_arg3)))) : IVec S2x12544 32) := by
  show after (ops_part9 (F := Ideal)) (W9 V) (Proc.devRef .tc main_v40) = _
  rw [after_of_writes_sub _ _ (ops_part9_writes (F := Ideal)) (by decide : main_v40 ∉ ops_part9_W)]
  exact at9_v40 V
/-- main_v41 after 10 windows. -/
theorem at10_v41 (V : Valuation τ sig (Elt Ideal)) : W10 V (Proc.devRef .tc main_v41) = ((Cert.Bridge.R.base1 (asF S2x12544x3 (V (Proc.devRef .tc main_arg3)))) : IVec S2x12544 32) := by
  show after (ops_part9 (F := Ideal)) (W9 V) (Proc.devRef .tc main_v41) = _
  rw [after_of_writes_sub _ _ (ops_part9_writes (F := Ideal)) (by decide : main_v41 ∉ ops_part9_W)]
  exact at9_v41 V
/-- main_v42 after 10 windows. -/
theorem at10_v42 (V : Valuation τ sig (Elt Ideal)) : W10 V (Proc.devRef .tc main_v42) = ((Cert.Bridge.R.base2 (asF S2x12544x3 (V (Proc.devRef .tc main_arg3)))) : IVec S2x12544 32) := by
  show after (ops_part9 (F := Ideal)) (W9 V) (Proc.devRef .tc main_v42) = _
  rw [after_of_writes_sub _ _ (ops_part9_writes (F := Ideal)) (by decide : main_v42 ∉ ops_part9_W)]
  exact at9_v42 V
/-- main_v37 after 10 windows. -/
theorem at10_v37 (V : Valuation τ sig (Elt Ideal)) : W10 V (Proc.devRef .tc main_v37) = ((Cert.Bridge.R.frac0 (asF S2x12544x3 (V (Proc.devRef .tc main_arg3)))) : FVec Ideal S2x12544 .f32) := by
  show after (ops_part9 (F := Ideal)) (W9 V) (Proc.devRef .tc main_v37) = _
  rw [after_of_writes_sub _ _ (ops_part9_writes (F := Ideal)) (by decide : main_v37 ∉ ops_part9_W)]
  exact at9_v37 V
/-- main_v39 after 10 windows. -/
theorem at10_v39 (V : Valuation τ sig (Elt Ideal)) : W10 V (Proc.devRef .tc main_v39) = ((Cert.Bridge.R.frac2 (asF S2x12544x3 (V (Proc.devRef .tc main_arg3)))) : FVec Ideal S2x12544 .f32) := by
  show after (ops_part9 (F := Ideal)) (W9 V) (Proc.devRef .tc main_v39) = _
  rw [after_of_writes_sub _ _ (ops_part9_writes (F := Ideal)) (by decide : main_v39 ∉ ops_part9_W)]
  exact at9_v39 V
/-- main_v38 after 10 windows. -/
theorem at10_v38 (V : Valuation τ sig (Elt Ideal)) : W10 V (Proc.devRef .tc main_v38) = ((Cert.Bridge.R.frac1 (asF S2x12544x3 (V (Proc.devRef .tc main_arg3)))) : FVec Ideal S2x12544 .f32) := by
  show after (ops_part9 (F := Ideal)) (W9 V) (Proc.devRef .tc main_v38) = _
  rw [after_of_writes_sub _ _ (ops_part9_writes (F := Ideal)) (by decide : main_v38 ∉ ops_part9_W)]
  exact at9_v38 V
/-- main_v386 after 10 windows. -/
theorem at10_v386 (V : Valuation τ sig (Elt Ideal)) : W10 V (Proc.devRef .tc main_v386) = ((Cert.Bridge.R.accP6 (asF S2x100x64x64x64 (V (Proc.devRef .tc main_arg0))) (asF S2x12544x3 (V (Proc.devRef .tc main_arg3)))) : FVec Ideal S2x100x12544 .f32) := by
  show after (ops_part9 (F := Ideal)) (W9 V) (Proc.devRef .tc main_v386) = _
  refine (w9_v386 (W9 V)).trans ?_
  rw [at9_v331 V, at9_v335 V, at9_v358 V, at9_v381 V, at9_cst_155 V]
  all_goals rfl
/-- main_v416 after 10 windows. -/
theorem at10_v416 (V : Valuation τ sig (Elt Ideal)) : W10 V (Proc.devRef .tc main_v416) = ((minsi (broadcastInDim S2x12544 ![] bcast_S_S2x12544 (id (constantI S_ 32 63#32))) (maxsi (broadcastInDim S2x12544 ![] bcast_S_S2x12544 (id (constantI S_ 32 0#32))) (Cert.Bridge.R.xi6 (asF S2x12544x3 (V (Proc.devRef .tc main_arg3)))))) : IVec S2x12544 32) := by
  show after (ops_part9 (F := Ideal)) (W9 V) (Proc.devRef .tc main_v416) = _
  refine (w9_v416 (W9 V)).trans ?_
  rw [at9_v40 V]
  all_goals rfl
/-- main_v415 after 10 windows. -/
theorem at10_v415 (V : Valuation τ sig (Elt Ideal)) : W10 V (Proc.devRef .tc main_v415) = ((minsi (broadcastInDim S2x12544 ![] bcast_S_S2x12544 (id (constantI S_ 32 63#32))) (maxsi (broadcastInDim S2x12544 ![] bcast_S_S2x12544 (id (constantI S_ 32 0#32))) (Cert.Bridge.R.yi6 (asF S2x12544x3 (V (Proc.devRef .tc main_arg3)))))) : IVec S2x12544 32) := by
  show after (ops_part9 (F := Ideal)) (W9 V) (Proc.devRef .tc main_v415) = _
  refine (w9_v415 (W9 V)).trans ?_
  rw [at9_v41 V]
  all_goals rfl
/-- main_v422 after 10 windows. -/
theorem at10_v422 (V : Valuation τ sig (Elt Ideal)) : W10 V (Proc.devRef .tc main_v422) = ((broadcastInDim S2x12544 ![] bcast_S_S2x12544 (constantI S_ 32 0#32)) : IVec S2x12544 32) := by
  show after (ops_part9 (F := Ideal)) (W9 V) (Proc.devRef .tc main_v422) = _
  refine (w9_v422 (W9 V)).trans ?_
  all_goals rfl
/-- main_v421 after 10 windows. -/
theorem at10_v421 (V : Valuation τ sig (Elt Ideal)) : W10 V (Proc.devRef .tc main_v421) = ((select (cmpi .slt (minsi (broadcastInDim S2x12544 ![] bcast_S_S2x12544 (id (constantI S_ 32 63#32))) (maxsi (broadcastInDim S2x12544 ![] bcast_S_S2x12544 (id (constantI S_ 32 0#32))) (Cert.Bridge.R.zi6 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.zi6 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.zi6 (asF S2x12544x3 (V (Proc.devRef .tc main_arg3))))))) : IVec S2x12544 32) := by
  show after (ops_part9 (F := Ideal)) (W9 V) (Proc.devRef .tc main_v421) = _
  refine (w9_v421 (W9 V)).trans ?_
  rw [at9_v42 V]
  all_goals rfl
/-- main_v413 after 10 windows. -/
theorem at10_v413 (V : Valuation τ sig (Elt Ideal)) : W10 V (Proc.devRef .tc main_v413) = ((Cert.Bridge.R.valid6 (asF S2x12544x3 (V (Proc.devRef .tc main_arg3)))) : IVec S2x12544 1) := by
  show after (ops_part9 (F := Ideal)) (W9 V) (Proc.devRef .tc main_v413) = _
  refine (w9_v413 (W9 V)).trans ?_
  rw [at9_v42 V, at9_v41 V, at9_v40 V]
  all_goals rfl
/-- main_v390 after 10 windows. -/
theorem at10_v390 (V : Valuation τ sig (Elt Ideal)) : W10 V (Proc.devRef .tc main_v390) = ((Cert.Bridge.R.wgt6 (asF S2x12544x3 (V (Proc.devRef .tc main_arg3)))) : FVec Ideal S2x12544 .f32) := by
  show after (ops_part9 (F := Ideal)) (W9 V) (Proc.devRef .tc main_v390) = _
  refine (w9_v390 (W9 V)).trans ?_
  rw [at9_v39 V, at9_v38 V, at9_v37 V]
  all_goals rfl

/-! ### After 11 windows -/

/-- main_v441 after 11 windows. -/
theorem at11_v441 (V : Valuation τ sig (Elt Ideal)) : W11 V (Proc.devRef .tc main_v441) = ((Cert.Bridge.R.accP7 (asF S2x100x64x64x64 (V (Proc.devRef .tc main_arg0))) (asF S2x12544x3 (V (Proc.devRef .tc main_arg3)))) : FVec Ideal S2x100x12544 .f32) := by
  show after (ops_part10 (F := Ideal)) (W10 V) (Proc.devRef .tc main_v441) = _
  refine (w10_v441 (W10 V)).trans ?_
  rw [at10_v386 V, at10_v390 V, at10_v413 V, at10_arg0 V, at10_v421 V, at10_v415 V, at10_v422 V, at10_v416 V]
  all_goals rfl
/-- main_v449 after 11 windows. -/
theorem at11_v449 (V : Valuation τ sig (Elt Ideal)) : W11 V (Proc.devRef .tc main_v449) = ((Cert.Bridge.R.xi7 (asF S2x12544x3 (V (Proc.devRef .tc main_arg3)))) : IVec S2x12544 32) := by
  show after (ops_part10 (F := Ideal)) (W10 V) (Proc.devRef .tc main_v449) = _
  refine (w10_v449 (W10 V)).trans ?_
  rw [at10_v40 V]
  all_goals rfl
/-- main_v447 after 11 windows. -/
theorem at11_v447 (V : Valuation τ sig (Elt Ideal)) : W11 V (Proc.devRef .tc main_v447) = ((Cert.Bridge.R.yi7 (asF S2x12544x3 (V (Proc.devRef .tc main_arg3)))) : IVec S2x12544 32) := by
  show after (ops_part10 (F := Ideal)) (W10 V) (Proc.devRef .tc main_v447) = _
  refine (w10_v447 (W10 V)).trans ?_
  rw [at10_v41 V]
  all_goals rfl
/-- main_v467 after 11 windows. -/
theorem at11_v467 (V : Valuation τ sig (Elt Ideal)) : W11 V (Proc.devRef .tc main_v467) = ((minsi (broadcastInDim S2x12544 ![] bcast_S_S2x12544 (id (constantI S_ 32 63#32))) (maxsi (broadcastInDim S2x12544 ![] bcast_S_S2x12544 (id (constantI S_ 32 0#32))) (Cert.Bridge.R.zi7 (asF S2x12544x3 (V (Proc.devRef .tc main_arg3)))))) : IVec S2x12544 32) := by
  show after (ops_part10 (F := Ideal)) (W10 V) (Proc.devRef .tc main_v467) = _
  refine (w10_v467 (W10 V)).trans ?_
  rw [at10_v42 V]
  all_goals rfl
/-- main_v466 after 11 windows. -/
theorem at11_v466 (V : Valuation τ sig (Elt Ideal)) : W11 V (Proc.devRef .tc main_v466) = ((Cert.Bridge.R.valid7 (asF S2x12544x3 (V (Proc.devRef .tc main_arg3)))) : IVec S2x12544 1) := by
  show after (ops_part10 (F := Ideal)) (W10 V) (Proc.devRef .tc main_v466) = _
  refine (w10_v466 (W10 V)).trans ?_
  rw [at10_v42 V, at10_v41 V, at10_v40 V]
  all_goals rfl
/-- main_v443 after 11 windows. -/
theorem at11_v443 (V : Valuation τ sig (Elt Ideal)) : W11 V (Proc.devRef .tc main_v443) = ((Cert.Bridge.R.wgt7 (asF S2x12544x3 (V (Proc.devRef .tc main_arg3)))) : FVec Ideal S2x12544 .f32) := by
  show after (ops_part10 (F := Ideal)) (W10 V) (Proc.devRef .tc main_v443) = _
  refine (w10_v443 (W10 V)).trans ?_
  rw [at10_v39 V, at10_v38 V, at10_v37 V]
  all_goals rfl

/-! ### After 12 windows -/

/-- main_v508 after 12 windows. -/
theorem at12_v508 (V : Valuation τ sig (Elt Ideal)) : W12 V (Proc.devRef .tc main_v508) = ((Cert.Bridge.R.coord0 (asF S2x12544x3 (V (Proc.devRef .tc main_arg3)))) : FVec Ideal S2x12544 .f32) := by
  show after (ops_part11 (F := Ideal)) (W11 V) (Proc.devRef .tc main_v508) = _
  refine (w11_v508 (W11 V)).trans ?_
  rw [at11_arg3 V]
  all_goals rfl
/-- main_v510 after 12 windows. -/
theorem at12_v510 (V : Valuation τ sig (Elt Ideal)) : W12 V (Proc.devRef .tc main_v510) = ((shapeCast S2x12544 (extractStridedSlice S2x12544x1 ![0, 0, 1] (Cert.Bridge.R.pts (asF S2x12544x3 (V (Proc.devRef .tc main_arg3)))) slices_S2x12544x3_S2x12544x1_0_0_1) shapeCasts_S2x12544x1_S2x12544) : FVec Ideal S2x12544 .f32) := by
  show after (ops_part11 (F := Ideal)) (W11 V) (Proc.devRef .tc main_v510) = _
  refine (w11_v510 (W11 V)).trans ?_
  rw [at11_arg3 V]
  all_goals rfl
/-- main_v498 after 12 windows. -/
theorem at12_v498 (V : Valuation τ sig (Elt Ideal)) : W12 V (Proc.devRef .tc main_v498) = ((Cert.Bridge.R.pts (asF S2x12544x3 (V (Proc.devRef .tc main_arg3)))) : FVec Ideal S2x12544x3 .f32) := by
  show after (ops_part11 (F := Ideal)) (W11 V) (Proc.devRef .tc main_v498) = _
  refine (w11_v498 (W11 V)).trans ?_
  rw [at11_arg3 V]
  all_goals rfl
/-- main_v494 after 12 windows. -/
theorem at12_v494 (V : Valuation τ sig (Elt Ideal)) : W12 V (Proc.devRef .tc main_v494) = ((Cert.Bridge.R.accP8 (asF S2x100x64x64x64 (V (Proc.devRef .tc main_arg0))) (asF S2x12544x3 (V (Proc.devRef .tc main_arg3)))) : FVec Ideal S2x100x12544 .f32) := by
  show after (ops_part11 (F := Ideal)) (W11 V) (Proc.devRef .tc main_v494) = _
  refine (w11_v494 (W11 V)).trans ?_
  rw [at11_v441 V, at11_v443 V, at11_v466 V, at11_arg0 V, at11_v467 V, at11_v447 V, at11_v449 V]
  all_goals rfl

/-! ### After 13 windows -/

/-- main_v535 after 13 windows. -/
theorem at13_v535 (V : Valuation τ sig (Elt Ideal)) : W13 V (Proc.devRef .tc main_v535) = ((Cert.Bridge.R.base0 (asF S2x12544x3 (V (Proc.devRef .tc main_arg3)))) : IVec S2x12544 32) := by
  show after (ops_part12 (F := Ideal)) (W12 V) (Proc.devRef .tc main_v535) = _
  refine (w12_v535 (W12 V)).trans ?_
  rw [at12_v508 V]
  all_goals rfl
/-- main_v536 after 13 windows. -/
theorem at13_v536 (V : Valuation τ sig (Elt Ideal)) : W13 V (Proc.devRef .tc main_v536) = ((Cert.Bridge.R.base1 (asF S2x12544x3 (V (Proc.devRef .tc main_arg3)))) : IVec S2x12544 32) := by
  show after (ops_part12 (F := Ideal)) (W12 V) (Proc.devRef .tc main_v536) = _
  refine (w12_v536 (W12 V)).trans ?_
  rw [at12_v510 V]
  all_goals rfl
/-- main_v537 after 13 windows. -/
theorem at13_v537 (V : Valuation τ sig (Elt Ideal)) : W13 V (Proc.devRef .tc main_v537) = ((Cert.Bridge.R.base2 (asF S2x12544x3 (V (Proc.devRef .tc main_arg3)))) : IVec S2x12544 32) := by
  show after (ops_part12 (F := Ideal)) (W12 V) (Proc.devRef .tc main_v537) = _
  refine (w12_v537 (W12 V)).trans ?_
  rw [at12_v498 V]
  all_goals rfl
/-- main_v532 after 13 windows. -/
theorem at13_v532 (V : Valuation τ sig (Elt Ideal)) : W13 V (Proc.devRef .tc main_v532) = ((Cert.Bridge.R.frac0 (asF S2x12544x3 (V (Proc.devRef .tc main_arg3)))) : FVec Ideal S2x12544 .f32) := by
  show after (ops_part12 (F := Ideal)) (W12 V) (Proc.devRef .tc main_v532) = _
  refine (w12_v532 (W12 V)).trans ?_
  rw [at12_v508 V]
  all_goals rfl
/-- main_v534 after 13 windows. -/
theorem at13_v534 (V : Valuation τ sig (Elt Ideal)) : W13 V (Proc.devRef .tc main_v534) = ((Cert.Bridge.R.frac2 (asF S2x12544x3 (V (Proc.devRef .tc main_arg3)))) : FVec Ideal S2x12544 .f32) := by
  show after (ops_part12 (F := Ideal)) (W12 V) (Proc.devRef .tc main_v534) = _
  refine (w12_v534 (W12 V)).trans ?_
  rw [at12_v498 V]
  all_goals rfl
/-- main_v533 after 13 windows. -/
theorem at13_v533 (V : Valuation τ sig (Elt Ideal)) : W13 V (Proc.devRef .tc main_v533) = ((Cert.Bridge.R.frac1 (asF S2x12544x3 (V (Proc.devRef .tc main_arg3)))) : FVec Ideal S2x12544 .f32) := by
  show after (ops_part12 (F := Ideal)) (W12 V) (Proc.devRef .tc main_v533) = _
  refine (w12_v533 (W12 V)).trans ?_
  rw [at12_v510 V]
  all_goals rfl
/-- main_v552 after 13 windows. -/
theorem at13_v552 (V : Valuation τ sig (Elt Ideal)) : W13 V (Proc.devRef .tc main_v552) = ((Cert.Bridge.R.xi0 (asF S2x12544x3 (V (Proc.devRef .tc main_arg3)))) : IVec S2x12544 32) := by
  show after (ops_part12 (F := Ideal)) (W12 V) (Proc.devRef .tc main_v552) = _
  refine (w12_v552 (W12 V)).trans ?_
  rw [at12_v508 V]
  all_goals rfl
/-- main_v550 after 13 windows. -/
theorem at13_v550 (V : Valuation τ sig (Elt Ideal)) : W13 V (Proc.devRef .tc main_v550) = ((Cert.Bridge.R.yi0 (asF S2x12544x3 (V (Proc.devRef .tc main_arg3)))) : IVec S2x12544 32) := by
  show after (ops_part12 (F := Ideal)) (W12 V) (Proc.devRef .tc main_v550) = _
  refine (w12_v550 (W12 V)).trans ?_
  rw [at12_v510 V]
  all_goals rfl
/-- main_v548 after 13 windows. -/
theorem at13_v548 (V : Valuation τ sig (Elt Ideal)) : W13 V (Proc.devRef .tc main_v548) = ((Cert.Bridge.R.zi0 (asF S2x12544x3 (V (Proc.devRef .tc main_arg3)))) : IVec S2x12544 32) := by
  show after (ops_part12 (F := Ideal)) (W12 V) (Proc.devRef .tc main_v548) = _
  refine (w12_v548 (W12 V)).trans ?_
  rw [at12_v498 V]
  all_goals rfl
/-- main_v554 after 13 windows. -/
theorem at13_v554 (V : Valuation τ sig (Elt Ideal)) : W13 V (Proc.devRef .tc main_v554) = ((cmpi .sge (Cert.Bridge.R.zi0 (asF S2x12544x3 (V (Proc.devRef .tc main_arg3)))) (broadcastInDim S2x12544 ![] bcast_S_S2x12544 (constantI S_ 32 0#32))) : IVec S2x12544 1) := by
  show after (ops_part12 (F := Ideal)) (W12 V) (Proc.devRef .tc main_v554) = _
  refine (w12_v554 (W12 V)).trans ?_
  rw [at12_v498 V]
  all_goals rfl
/-- main_v546 after 13 windows. -/
theorem at13_v546 (V : Valuation τ sig (Elt Ideal)) : W13 V (Proc.devRef .tc main_v546) = ((Cert.Bridge.R.wgt0 (asF S2x12544x3 (V (Proc.devRef .tc main_arg3)))) : FVec Ideal S2x12544 .f32) := by
  show after (ops_part12 (F := Ideal)) (W12 V) (Proc.devRef .tc main_v546) = _
  refine (w12_v546 (W12 V)).trans ?_
  rw [at12_v498 V, at12_v510 V, at12_v508 V]
  all_goals rfl
/-- main_v538 after 13 windows. -/
theorem at13_v538 (V : Valuation τ sig (Elt Ideal)) : W13 V (Proc.devRef .tc main_v538) = ((broadcastInDim S12544 ![] bcast_S_S12544 (constant (F := Ideal) S_ .f32 0x00000000#32)) : FVec Ideal S12544 .f32) := by
  show after (ops_part12 (F := Ideal)) (W12 V) (Proc.devRef .tc main_v538) = _
  refine (w12_v538 (W12 V)).trans ?_
  all_goals rfl
/-- main_v494 after 13 windows. -/
theorem at13_v494 (V : Valuation τ sig (Elt Ideal)) : W13 V (Proc.devRef .tc main_v494) = ((Cert.Bridge.R.accP8 (asF S2x100x64x64x64 (V (Proc.devRef .tc main_arg0))) (asF S2x12544x3 (V (Proc.devRef .tc main_arg3)))) : FVec Ideal S2x100x12544 .f32) := by
  show after (ops_part12 (F := Ideal)) (W12 V) (Proc.devRef .tc main_v494) = _
  rw [after_of_writes_sub _ _ (ops_part12_writes (F := Ideal)) (by decide : main_v494 ∉ ops_part12_W)]
  exact at12_v494 V

/-! ### After 14 windows -/

/-- main_v535 after 14 windows. -/
theorem at14_v535 (V : Valuation τ sig (Elt Ideal)) : W14 V (Proc.devRef .tc main_v535) = ((Cert.Bridge.R.base0 (asF S2x12544x3 (V (Proc.devRef .tc main_arg3)))) : IVec S2x12544 32) := by
  show after (ops_part13 (F := Ideal)) (W13 V) (Proc.devRef .tc main_v535) = _
  rw [after_of_writes_sub _ _ (ops_part13_writes (F := Ideal)) (by decide : main_v535 ∉ ops_part13_W)]
  exact at13_v535 V
/-- main_v536 after 14 windows. -/
theorem at14_v536 (V : Valuation τ sig (Elt Ideal)) : W14 V (Proc.devRef .tc main_v536) = ((Cert.Bridge.R.base1 (asF S2x12544x3 (V (Proc.devRef .tc main_arg3)))) : IVec S2x12544 32) := by
  show after (ops_part13 (F := Ideal)) (W13 V) (Proc.devRef .tc main_v536) = _
  rw [after_of_writes_sub _ _ (ops_part13_writes (F := Ideal)) (by decide : main_v536 ∉ ops_part13_W)]
  exact at13_v536 V
/-- main_v537 after 14 windows. -/
theorem at14_v537 (V : Valuation τ sig (Elt Ideal)) : W14 V (Proc.devRef .tc main_v537) = ((Cert.Bridge.R.base2 (asF S2x12544x3 (V (Proc.devRef .tc main_arg3)))) : IVec S2x12544 32) := by
  show after (ops_part13 (F := Ideal)) (W13 V) (Proc.devRef .tc main_v537) = _
  rw [after_of_writes_sub _ _ (ops_part13_writes (F := Ideal)) (by decide : main_v537 ∉ ops_part13_W)]
  exact at13_v537 V
/-- main_v532 after 14 windows. -/
theorem at14_v532 (V : Valuation τ sig (Elt Ideal)) : W14 V (Proc.devRef .tc main_v532) = ((Cert.Bridge.R.frac0 (asF S2x12544x3 (V (Proc.devRef .tc main_arg3)))) : FVec Ideal S2x12544 .f32) := by
  show after (ops_part13 (F := Ideal)) (W13 V) (Proc.devRef .tc main_v532) = _
  rw [after_of_writes_sub _ _ (ops_part13_writes (F := Ideal)) (by decide : main_v532 ∉ ops_part13_W)]
  exact at13_v532 V
/-- main_v534 after 14 windows. -/
theorem at14_v534 (V : Valuation τ sig (Elt Ideal)) : W14 V (Proc.devRef .tc main_v534) = ((Cert.Bridge.R.frac2 (asF S2x12544x3 (V (Proc.devRef .tc main_arg3)))) : FVec Ideal S2x12544 .f32) := by
  show after (ops_part13 (F := Ideal)) (W13 V) (Proc.devRef .tc main_v534) = _
  rw [after_of_writes_sub _ _ (ops_part13_writes (F := Ideal)) (by decide : main_v534 ∉ ops_part13_W)]
  exact at13_v534 V
/-- main_v533 after 14 windows. -/
theorem at14_v533 (V : Valuation τ sig (Elt Ideal)) : W14 V (Proc.devRef .tc main_v533) = ((Cert.Bridge.R.frac1 (asF S2x12544x3 (V (Proc.devRef .tc main_arg3)))) : FVec Ideal S2x12544 .f32) := by
  show after (ops_part13 (F := Ideal)) (W13 V) (Proc.devRef .tc main_v533) = _
  rw [after_of_writes_sub _ _ (ops_part13_writes (F := Ideal)) (by decide : main_v533 ∉ ops_part13_W)]
  exact at13_v533 V
/-- main_v596 after 14 windows. -/
theorem at14_v596 (V : Valuation τ sig (Elt Ideal)) : W14 V (Proc.devRef .tc main_v596) = ((mulf (broadcastInDim S2x30x12544 ![0, 1, 2] bcast_S2x1x12544_S2x30x12544_0_1_2 (broadcastInDim S2x1x12544 ![0, 2] bcast_S2x12544_S2x1x12544_0_2 (Cert.Bridge.R.wgt0 (asF S2x12544x3 (V (Proc.devRef .tc main_arg3)))))) (select (broadcastInDim S2x30x12544 ![0, 2] bcast_S2x12544_S2x30x12544_0_2 (Cert.Bridge.R.valid0 (asF S2x12544x3 (V (Proc.devRef .tc main_arg3))))) (Host.gather gather_S2x30x64x64x64_S2x12544x3_S2x30x12544_1_234_0_0_234_2_130111 (asF S2x30x64x64x64 (V (Proc.devRef .tc main_arg2))) (concatenate S2x12544x3 2 [⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (Cert.Bridge.R.zi0 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.zi0 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.zi0 (asF S2x12544x3 (V (Proc.devRef .tc main_arg3))))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (Cert.Bridge.R.yi0 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.yi0 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.yi0 (asF S2x12544x3 (V (Proc.devRef .tc main_arg3))))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (Cert.Bridge.R.xi0 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.xi0 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.xi0 (asF S2x12544x3 (V (Proc.devRef .tc main_arg3))))))))⟩] concatenates_S2x12544x1_S2x12544x1_S2x12544x1_S2x12544x3_d2)) (broadcastInDim S2x30x12544 ![1, 2] bcast_S30x12544_S2x30x12544_1_2 (broadcastInDim S30x12544 ![1] bcast_S12544_S30x12544_1 (broadcastInDim S12544 ![] bcast_S_S12544 (constant (F := Ideal) S_ .f32 0x00000000#32)))))) : FVec Ideal S2x30x12544 .f32) := by
  show after (ops_part13 (F := Ideal)) (W13 V) (Proc.devRef .tc main_v596) = _
  refine (w13_v596 (W13 V)).trans ?_
  rw [at13_v546 V, at13_v554 V, at13_v548 V, at13_v550 V, at13_v552 V, at13_arg2 V]
  all_goals rfl
/-- main_v538 after 14 windows. -/
theorem at14_v538 (V : Valuation τ sig (Elt Ideal)) : W14 V (Proc.devRef .tc main_v538) = ((broadcastInDim S12544 ![] bcast_S_S12544 (constant (F := Ideal) S_ .f32 0x00000000#32)) : FVec Ideal S12544 .f32) := by
  show after (ops_part13 (F := Ideal)) (W13 V) (Proc.devRef .tc main_v538) = _
  rw [after_of_writes_sub _ _ (ops_part13_writes (F := Ideal)) (by decide : main_v538 ∉ ops_part13_W)]
  exact at13_v538 V
/-- main_v494 after 14 windows. -/
theorem at14_v494 (V : Valuation τ sig (Elt Ideal)) : W14 V (Proc.devRef .tc main_v494) = ((Cert.Bridge.R.accP8 (asF S2x100x64x64x64 (V (Proc.devRef .tc main_arg0))) (asF S2x12544x3 (V (Proc.devRef .tc main_arg3)))) : FVec Ideal S2x100x12544 .f32) := by
  show after (ops_part13 (F := Ideal)) (W13 V) (Proc.devRef .tc main_v494) = _
  rw [after_of_writes_sub _ _ (ops_part13_writes (F := Ideal)) (by decide : main_v494 ∉ ops_part13_W)]
  exact at13_v494 V

/-! ### After 15 windows -/

/-- main_v535 after 15 windows. -/
theorem at15_v535 (V : Valuation τ sig (Elt Ideal)) : W15 V (Proc.devRef .tc main_v535) = ((Cert.Bridge.R.base0 (asF S2x12544x3 (V (Proc.devRef .tc main_arg3)))) : IVec S2x12544 32) := by
  show after (ops_part14 (F := Ideal)) (W14 V) (Proc.devRef .tc main_v535) = _
  rw [after_of_writes_sub _ _ (ops_part14_writes (F := Ideal)) (by decide : main_v535 ∉ ops_part14_W)]
  exact at14_v535 V
/-- main_v536 after 15 windows. -/
theorem at15_v536 (V : Valuation τ sig (Elt Ideal)) : W15 V (Proc.devRef .tc main_v536) = ((Cert.Bridge.R.base1 (asF S2x12544x3 (V (Proc.devRef .tc main_arg3)))) : IVec S2x12544 32) := by
  show after (ops_part14 (F := Ideal)) (W14 V) (Proc.devRef .tc main_v536) = _
  rw [after_of_writes_sub _ _ (ops_part14_writes (F := Ideal)) (by decide : main_v536 ∉ ops_part14_W)]
  exact at14_v536 V
/-- main_v537 after 15 windows. -/
theorem at15_v537 (V : Valuation τ sig (Elt Ideal)) : W15 V (Proc.devRef .tc main_v537) = ((Cert.Bridge.R.base2 (asF S2x12544x3 (V (Proc.devRef .tc main_arg3)))) : IVec S2x12544 32) := by
  show after (ops_part14 (F := Ideal)) (W14 V) (Proc.devRef .tc main_v537) = _
  rw [after_of_writes_sub _ _ (ops_part14_writes (F := Ideal)) (by decide : main_v537 ∉ ops_part14_W)]
  exact at14_v537 V
/-- main_v532 after 15 windows. -/
theorem at15_v532 (V : Valuation τ sig (Elt Ideal)) : W15 V (Proc.devRef .tc main_v532) = ((Cert.Bridge.R.frac0 (asF S2x12544x3 (V (Proc.devRef .tc main_arg3)))) : FVec Ideal S2x12544 .f32) := by
  show after (ops_part14 (F := Ideal)) (W14 V) (Proc.devRef .tc main_v532) = _
  rw [after_of_writes_sub _ _ (ops_part14_writes (F := Ideal)) (by decide : main_v532 ∉ ops_part14_W)]
  exact at14_v532 V
/-- main_v534 after 15 windows. -/
theorem at15_v534 (V : Valuation τ sig (Elt Ideal)) : W15 V (Proc.devRef .tc main_v534) = ((Cert.Bridge.R.frac2 (asF S2x12544x3 (V (Proc.devRef .tc main_arg3)))) : FVec Ideal S2x12544 .f32) := by
  show after (ops_part14 (F := Ideal)) (W14 V) (Proc.devRef .tc main_v534) = _
  rw [after_of_writes_sub _ _ (ops_part14_writes (F := Ideal)) (by decide : main_v534 ∉ ops_part14_W)]
  exact at14_v534 V
/-- main_v533 after 15 windows. -/
theorem at15_v533 (V : Valuation τ sig (Elt Ideal)) : W15 V (Proc.devRef .tc main_v533) = ((Cert.Bridge.R.frac1 (asF S2x12544x3 (V (Proc.devRef .tc main_arg3)))) : FVec Ideal S2x12544 .f32) := by
  show after (ops_part14 (F := Ideal)) (W14 V) (Proc.devRef .tc main_v533) = _
  rw [after_of_writes_sub _ _ (ops_part14_writes (F := Ideal)) (by decide : main_v533 ∉ ops_part14_W)]
  exact at14_v533 V
/-- main_v600 after 15 windows. -/
theorem at15_v600 (V : Valuation τ sig (Elt Ideal)) : W15 V (Proc.devRef .tc main_v600) = ((Cert.Bridge.R.accT1 (asF S2x30x64x64x64 (V (Proc.devRef .tc main_arg2))) (asF S2x12544x3 (V (Proc.devRef .tc main_arg3)))) : FVec Ideal S2x30x12544 .f32) := by
  show after (ops_part14 (F := Ideal)) (W14 V) (Proc.devRef .tc main_v600) = _
  refine (w14_v600 (W14 V)).trans ?_
  rw [at14_v538 V, at14_v596 V]
  all_goals rfl
/-- main_v632 after 15 windows. -/
theorem at15_v632 (V : Valuation τ sig (Elt Ideal)) : W15 V (Proc.devRef .tc main_v632) = ((minsi (broadcastInDim S2x12544 ![] bcast_S_S2x12544 (id (constantI S_ 32 63#32))) (maxsi (broadcastInDim S2x12544 ![] bcast_S_S2x12544 (id (constantI S_ 32 0#32))) (Cert.Bridge.R.xi1 (asF S2x12544x3 (V (Proc.devRef .tc main_arg3)))))) : IVec S2x12544 32) := by
  show after (ops_part14 (F := Ideal)) (W14 V) (Proc.devRef .tc main_v632) = _
  refine (w14_v632 (W14 V)).trans ?_
  rw [at14_v535 V]
  all_goals rfl
/-- main_v631 after 15 windows. -/
theorem at15_v631 (V : Valuation τ sig (Elt Ideal)) : W15 V (Proc.devRef .tc main_v631) = ((minsi (broadcastInDim S2x12544 ![] bcast_S_S2x12544 (id (constantI S_ 32 63#32))) (maxsi (broadcastInDim S2x12544 ![] bcast_S_S2x12544 (id (constantI S_ 32 0#32))) (Cert.Bridge.R.yi1 (asF S2x12544x3 (V (Proc.devRef .tc main_arg3)))))) : IVec S2x12544 32) := by
  show after (ops_part14 (F := Ideal)) (W14 V) (Proc.devRef .tc main_v631) = _
  refine (w14_v631 (W14 V)).trans ?_
  rw [at14_v536 V]
  all_goals rfl
/-- main_v637 after 15 windows. -/
theorem at15_v637 (V : Valuation τ sig (Elt Ideal)) : W15 V (Proc.devRef .tc main_v637) = ((select (cmpi .slt (minsi (broadcastInDim S2x12544 ![] bcast_S_S2x12544 (id (constantI S_ 32 63#32))) (maxsi (broadcastInDim S2x12544 ![] bcast_S_S2x12544 (id (constantI S_ 32 0#32))) (Cert.Bridge.R.zi1 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.zi1 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.zi1 (asF S2x12544x3 (V (Proc.devRef .tc main_arg3))))))) : IVec S2x12544 32) := by
  show after (ops_part14 (F := Ideal)) (W14 V) (Proc.devRef .tc main_v637) = _
  refine (w14_v637 (W14 V)).trans ?_
  rw [at14_v537 V]
  all_goals rfl
/-- main_v629 after 15 windows. -/
theorem at15_v629 (V : Valuation τ sig (Elt Ideal)) : W15 V (Proc.devRef .tc main_v629) = ((Cert.Bridge.R.valid1 (asF S2x12544x3 (V (Proc.devRef .tc main_arg3)))) : IVec S2x12544 1) := by
  show after (ops_part14 (F := Ideal)) (W14 V) (Proc.devRef .tc main_v629) = _
  refine (w14_v629 (W14 V)).trans ?_
  rw [at14_v537 V, at14_v536 V, at14_v535 V]
  all_goals rfl
/-- main_v606 after 15 windows. -/
theorem at15_v606 (V : Valuation τ sig (Elt Ideal)) : W15 V (Proc.devRef .tc main_v606) = ((Cert.Bridge.R.wgt1 (asF S2x12544x3 (V (Proc.devRef .tc main_arg3)))) : FVec Ideal S2x12544 .f32) := by
  show after (ops_part14 (F := Ideal)) (W14 V) (Proc.devRef .tc main_v606) = _
  refine (w14_v606 (W14 V)).trans ?_
  rw [at14_v534 V, at14_v533 V, at14_v532 V]
  all_goals rfl
/-- main_v494 after 15 windows. -/
theorem at15_v494 (V : Valuation τ sig (Elt Ideal)) : W15 V (Proc.devRef .tc main_v494) = ((Cert.Bridge.R.accP8 (asF S2x100x64x64x64 (V (Proc.devRef .tc main_arg0))) (asF S2x12544x3 (V (Proc.devRef .tc main_arg3)))) : FVec Ideal S2x100x12544 .f32) := by
  show after (ops_part14 (F := Ideal)) (W14 V) (Proc.devRef .tc main_v494) = _
  rw [after_of_writes_sub _ _ (ops_part14_writes (F := Ideal)) (by decide : main_v494 ∉ ops_part14_W)]
  exact at14_v494 V

/-! ### After 16 windows -/

/-- main_v535 after 16 windows. -/
theorem at16_v535 (V : Valuation τ sig (Elt Ideal)) : W16 V (Proc.devRef .tc main_v535) = ((Cert.Bridge.R.base0 (asF S2x12544x3 (V (Proc.devRef .tc main_arg3)))) : IVec S2x12544 32) := by
  show after (ops_part15 (F := Ideal)) (W15 V) (Proc.devRef .tc main_v535) = _
  rw [after_of_writes_sub _ _ (ops_part15_writes (F := Ideal)) (by decide : main_v535 ∉ ops_part15_W)]
  exact at15_v535 V
/-- main_v536 after 16 windows. -/
theorem at16_v536 (V : Valuation τ sig (Elt Ideal)) : W16 V (Proc.devRef .tc main_v536) = ((Cert.Bridge.R.base1 (asF S2x12544x3 (V (Proc.devRef .tc main_arg3)))) : IVec S2x12544 32) := by
  show after (ops_part15 (F := Ideal)) (W15 V) (Proc.devRef .tc main_v536) = _
  rw [after_of_writes_sub _ _ (ops_part15_writes (F := Ideal)) (by decide : main_v536 ∉ ops_part15_W)]
  exact at15_v536 V
/-- main_v537 after 16 windows. -/
theorem at16_v537 (V : Valuation τ sig (Elt Ideal)) : W16 V (Proc.devRef .tc main_v537) = ((Cert.Bridge.R.base2 (asF S2x12544x3 (V (Proc.devRef .tc main_arg3)))) : IVec S2x12544 32) := by
  show after (ops_part15 (F := Ideal)) (W15 V) (Proc.devRef .tc main_v537) = _
  rw [after_of_writes_sub _ _ (ops_part15_writes (F := Ideal)) (by decide : main_v537 ∉ ops_part15_W)]
  exact at15_v537 V
/-- main_v532 after 16 windows. -/
theorem at16_v532 (V : Valuation τ sig (Elt Ideal)) : W16 V (Proc.devRef .tc main_v532) = ((Cert.Bridge.R.frac0 (asF S2x12544x3 (V (Proc.devRef .tc main_arg3)))) : FVec Ideal S2x12544 .f32) := by
  show after (ops_part15 (F := Ideal)) (W15 V) (Proc.devRef .tc main_v532) = _
  rw [after_of_writes_sub _ _ (ops_part15_writes (F := Ideal)) (by decide : main_v532 ∉ ops_part15_W)]
  exact at15_v532 V
/-- main_v534 after 16 windows. -/
theorem at16_v534 (V : Valuation τ sig (Elt Ideal)) : W16 V (Proc.devRef .tc main_v534) = ((Cert.Bridge.R.frac2 (asF S2x12544x3 (V (Proc.devRef .tc main_arg3)))) : FVec Ideal S2x12544 .f32) := by
  show after (ops_part15 (F := Ideal)) (W15 V) (Proc.devRef .tc main_v534) = _
  rw [after_of_writes_sub _ _ (ops_part15_writes (F := Ideal)) (by decide : main_v534 ∉ ops_part15_W)]
  exact at15_v534 V
/-- main_v533 after 16 windows. -/
theorem at16_v533 (V : Valuation τ sig (Elt Ideal)) : W16 V (Proc.devRef .tc main_v533) = ((Cert.Bridge.R.frac1 (asF S2x12544x3 (V (Proc.devRef .tc main_arg3)))) : FVec Ideal S2x12544 .f32) := by
  show after (ops_part15 (F := Ideal)) (W15 V) (Proc.devRef .tc main_v533) = _
  rw [after_of_writes_sub _ _ (ops_part15_writes (F := Ideal)) (by decide : main_v533 ∉ ops_part15_W)]
  exact at15_v533 V
/-- main_v657 after 16 windows. -/
theorem at16_v657 (V : Valuation τ sig (Elt Ideal)) : W16 V (Proc.devRef .tc main_v657) = ((Cert.Bridge.R.accT2 (asF S2x30x64x64x64 (V (Proc.devRef .tc main_arg2))) (asF S2x12544x3 (V (Proc.devRef .tc main_arg3)))) : FVec Ideal S2x30x12544 .f32) := by
  show after (ops_part15 (F := Ideal)) (W15 V) (Proc.devRef .tc main_v657) = _
  refine (w15_v657 (W15 V)).trans ?_
  rw [at15_v600 V, at15_v606 V, at15_v629 V, at15_arg2 V, at15_v637 V, at15_v631 V, at15_v632 V]
  all_goals rfl
/-- main_v669 after 16 windows. -/
theorem at16_v669 (V : Valuation τ sig (Elt Ideal)) : W16 V (Proc.devRef .tc main_v669) = ((Cert.Bridge.R.xi2 (asF S2x12544x3 (V (Proc.devRef .tc main_arg3)))) : IVec S2x12544 32) := by
  show after (ops_part15 (F := Ideal)) (W15 V) (Proc.devRef .tc main_v669) = _
  refine (w15_v669 (W15 V)).trans ?_
  rw [at15_v535 V]
  all_goals rfl
/-- main_v667 after 16 windows. -/
theorem at16_v667 (V : Valuation τ sig (Elt Ideal)) : W16 V (Proc.devRef .tc main_v667) = ((Cert.Bridge.R.yi2 (asF S2x12544x3 (V (Proc.devRef .tc main_arg3)))) : IVec S2x12544 32) := by
  show after (ops_part15 (F := Ideal)) (W15 V) (Proc.devRef .tc main_v667) = _
  refine (w15_v667 (W15 V)).trans ?_
  rw [at15_v536 V]
  all_goals rfl
/-- main_v665 after 16 windows. -/
theorem at16_v665 (V : Valuation τ sig (Elt Ideal)) : W16 V (Proc.devRef .tc main_v665) = ((Cert.Bridge.R.zi2 (asF S2x12544x3 (V (Proc.devRef .tc main_arg3)))) : IVec S2x12544 32) := by
  show after (ops_part15 (F := Ideal)) (W15 V) (Proc.devRef .tc main_v665) = _
  refine (w15_v665 (W15 V)).trans ?_
  rw [at15_v537 V]
  all_goals rfl
/-- main_v680 after 16 windows. -/
theorem at16_v680 (V : Valuation τ sig (Elt Ideal)) : W16 V (Proc.devRef .tc main_v680) = ((andi (andi (andi (cmpi .sge (Cert.Bridge.R.zi2 (asF S2x12544x3 (V (Proc.devRef .tc main_arg3)))) (broadcastInDim S2x12544 ![] bcast_S_S2x12544 (constantI S_ 32 0#32))) (cmpi .slt (Cert.Bridge.R.zi2 (asF S2x12544x3 (V (Proc.devRef .tc main_arg3)))) (broadcastInDim S2x12544 ![] bcast_S_S2x12544 (constantI S_ 32 64#32)))) (cmpi .sge (Cert.Bridge.R.yi2 (asF S2x12544x3 (V (Proc.devRef .tc main_arg3)))) (broadcastInDim S2x12544 ![] bcast_S_S2x12544 (constantI S_ 32 0#32)))) (cmpi .slt (Cert.Bridge.R.yi2 (asF S2x12544x3 (V (Proc.devRef .tc main_arg3)))) (broadcastInDim S2x12544 ![] bcast_S_S2x12544 (constantI S_ 32 64#32)))) : IVec S2x12544 1) := by
  show after (ops_part15 (F := Ideal)) (W15 V) (Proc.devRef .tc main_v680) = _
  refine (w15_v680 (W15 V)).trans ?_
  rw [at15_v537 V, at15_v536 V]
  all_goals rfl
/-- main_v682 after 16 windows. -/
theorem at16_v682 (V : Valuation τ sig (Elt Ideal)) : W16 V (Proc.devRef .tc main_v682) = ((cmpi .sge (Cert.Bridge.R.xi2 (asF S2x12544x3 (V (Proc.devRef .tc main_arg3)))) (broadcastInDim S2x12544 ![] bcast_S_S2x12544 (constantI S_ 32 0#32))) : IVec S2x12544 1) := by
  show after (ops_part15 (F := Ideal)) (W15 V) (Proc.devRef .tc main_v682) = _
  refine (w15_v682 (W15 V)).trans ?_
  rw [at15_v535 V]
  all_goals rfl
/-- main_v663 after 16 windows. -/
theorem at16_v663 (V : Valuation τ sig (Elt Ideal)) : W16 V (Proc.devRef .tc main_v663) = ((Cert.Bridge.R.wgt2 (asF S2x12544x3 (V (Proc.devRef .tc main_arg3)))) : FVec Ideal S2x12544 .f32) := by
  show after (ops_part15 (F := Ideal)) (W15 V) (Proc.devRef .tc main_v663) = _
  refine (w15_v663 (W15 V)).trans ?_
  rw [at15_v534 V, at15_v533 V, at15_v532 V]
  all_goals rfl
/-- main_v494 after 16 windows. -/
theorem at16_v494 (V : Valuation τ sig (Elt Ideal)) : W16 V (Proc.devRef .tc main_v494) = ((Cert.Bridge.R.accP8 (asF S2x100x64x64x64 (V (Proc.devRef .tc main_arg0))) (asF S2x12544x3 (V (Proc.devRef .tc main_arg3)))) : FVec Ideal S2x100x12544 .f32) := by
  show after (ops_part15 (F := Ideal)) (W15 V) (Proc.devRef .tc main_v494) = _
  rw [after_of_writes_sub _ _ (ops_part15_writes (F := Ideal)) (by decide : main_v494 ∉ ops_part15_W)]
  exact at15_v494 V

/-! ### After 17 windows -/

/-- main_v535 after 17 windows. -/
theorem at17_v535 (V : Valuation τ sig (Elt Ideal)) : W17 V (Proc.devRef .tc main_v535) = ((Cert.Bridge.R.base0 (asF S2x12544x3 (V (Proc.devRef .tc main_arg3)))) : IVec S2x12544 32) := by
  show after (ops_part16 (F := Ideal)) (W16 V) (Proc.devRef .tc main_v535) = _
  rw [after_of_writes_sub _ _ (ops_part16_writes (F := Ideal)) (by decide : main_v535 ∉ ops_part16_W)]
  exact at16_v535 V
/-- main_v536 after 17 windows. -/
theorem at17_v536 (V : Valuation τ sig (Elt Ideal)) : W17 V (Proc.devRef .tc main_v536) = ((Cert.Bridge.R.base1 (asF S2x12544x3 (V (Proc.devRef .tc main_arg3)))) : IVec S2x12544 32) := by
  show after (ops_part16 (F := Ideal)) (W16 V) (Proc.devRef .tc main_v536) = _
  rw [after_of_writes_sub _ _ (ops_part16_writes (F := Ideal)) (by decide : main_v536 ∉ ops_part16_W)]
  exact at16_v536 V
/-- main_v537 after 17 windows. -/
theorem at17_v537 (V : Valuation τ sig (Elt Ideal)) : W17 V (Proc.devRef .tc main_v537) = ((Cert.Bridge.R.base2 (asF S2x12544x3 (V (Proc.devRef .tc main_arg3)))) : IVec S2x12544 32) := by
  show after (ops_part16 (F := Ideal)) (W16 V) (Proc.devRef .tc main_v537) = _
  rw [after_of_writes_sub _ _ (ops_part16_writes (F := Ideal)) (by decide : main_v537 ∉ ops_part16_W)]
  exact at16_v537 V
/-- main_v532 after 17 windows. -/
theorem at17_v532 (V : Valuation τ sig (Elt Ideal)) : W17 V (Proc.devRef .tc main_v532) = ((Cert.Bridge.R.frac0 (asF S2x12544x3 (V (Proc.devRef .tc main_arg3)))) : FVec Ideal S2x12544 .f32) := by
  show after (ops_part16 (F := Ideal)) (W16 V) (Proc.devRef .tc main_v532) = _
  rw [after_of_writes_sub _ _ (ops_part16_writes (F := Ideal)) (by decide : main_v532 ∉ ops_part16_W)]
  exact at16_v532 V
/-- main_v534 after 17 windows. -/
theorem at17_v534 (V : Valuation τ sig (Elt Ideal)) : W17 V (Proc.devRef .tc main_v534) = ((Cert.Bridge.R.frac2 (asF S2x12544x3 (V (Proc.devRef .tc main_arg3)))) : FVec Ideal S2x12544 .f32) := by
  show after (ops_part16 (F := Ideal)) (W16 V) (Proc.devRef .tc main_v534) = _
  rw [after_of_writes_sub _ _ (ops_part16_writes (F := Ideal)) (by decide : main_v534 ∉ ops_part16_W)]
  exact at16_v534 V
/-- main_v533 after 17 windows. -/
theorem at17_v533 (V : Valuation τ sig (Elt Ideal)) : W17 V (Proc.devRef .tc main_v533) = ((Cert.Bridge.R.frac1 (asF S2x12544x3 (V (Proc.devRef .tc main_arg3)))) : FVec Ideal S2x12544 .f32) := by
  show after (ops_part16 (F := Ideal)) (W16 V) (Proc.devRef .tc main_v533) = _
  rw [after_of_writes_sub _ _ (ops_part16_writes (F := Ideal)) (by decide : main_v533 ∉ ops_part16_W)]
  exact at16_v533 V
/-- main_v714 after 17 windows. -/
theorem at17_v714 (V : Valuation τ sig (Elt Ideal)) : W17 V (Proc.devRef .tc main_v714) = ((Cert.Bridge.R.accT3 (asF S2x30x64x64x64 (V (Proc.devRef .tc main_arg2))) (asF S2x12544x3 (V (Proc.devRef .tc main_arg3)))) : FVec Ideal S2x30x12544 .f32) := by
  show after (ops_part16 (F := Ideal)) (W16 V) (Proc.devRef .tc main_v714) = _
  refine (w16_v714 (W16 V)).trans ?_
  rw [at16_v657 V, at16_v663 V, at16_v680 V, at16_v682 V, at16_v669 V, at16_arg2 V, at16_v665 V, at16_v667 V]
  all_goals rfl
/-- main_v724 after 17 windows. -/
theorem at17_v724 (V : Valuation τ sig (Elt Ideal)) : W17 V (Proc.devRef .tc main_v724) = ((Cert.Bridge.R.xi3 (asF S2x12544x3 (V (Proc.devRef .tc main_arg3)))) : IVec S2x12544 32) := by
  show after (ops_part16 (F := Ideal)) (W16 V) (Proc.devRef .tc main_v724) = _
  refine (w16_v724 (W16 V)).trans ?_
  rw [at16_v535 V]
  all_goals rfl
/-- main_v722 after 17 windows. -/
theorem at17_v722 (V : Valuation τ sig (Elt Ideal)) : W17 V (Proc.devRef .tc main_v722) = ((Cert.Bridge.R.yi3 (asF S2x12544x3 (V (Proc.devRef .tc main_arg3)))) : IVec S2x12544 32) := by
  show after (ops_part16 (F := Ideal)) (W16 V) (Proc.devRef .tc main_v722) = _
  refine (w16_v722 (W16 V)).trans ?_
  rw [at16_v536 V]
  all_goals rfl
/-- main_v720 after 17 windows. -/
theorem at17_v720 (V : Valuation τ sig (Elt Ideal)) : W17 V (Proc.devRef .tc main_v720) = ((Cert.Bridge.R.zi3 (asF S2x12544x3 (V (Proc.devRef .tc main_arg3)))) : IVec S2x12544 32) := by
  show after (ops_part16 (F := Ideal)) (W16 V) (Proc.devRef .tc main_v720) = _
  refine (w16_v720 (W16 V)).trans ?_
  rw [at16_v537 V]
  all_goals rfl
/-- main_v718 after 17 windows. -/
theorem at17_v718 (V : Valuation τ sig (Elt Ideal)) : W17 V (Proc.devRef .tc main_v718) = ((Cert.Bridge.R.wgt3 (asF S2x12544x3 (V (Proc.devRef .tc main_arg3)))) : FVec Ideal S2x12544 .f32) := by
  show after (ops_part16 (F := Ideal)) (W16 V) (Proc.devRef .tc main_v718) = _
  refine (w16_v718 (W16 V)).trans ?_
  rw [at16_v534 V, at16_v533 V, at16_v532 V]
  all_goals rfl
/-- main_v494 after 17 windows. -/
theorem at17_v494 (V : Valuation τ sig (Elt Ideal)) : W17 V (Proc.devRef .tc main_v494) = ((Cert.Bridge.R.accP8 (asF S2x100x64x64x64 (V (Proc.devRef .tc main_arg0))) (asF S2x12544x3 (V (Proc.devRef .tc main_arg3)))) : FVec Ideal S2x100x12544 .f32) := by
  show after (ops_part16 (F := Ideal)) (W16 V) (Proc.devRef .tc main_v494) = _
  rw [after_of_writes_sub _ _ (ops_part16_writes (F := Ideal)) (by decide : main_v494 ∉ ops_part16_W)]
  exact at16_v494 V

/-! ### After 18 windows -/

/-- main_v535 after 18 windows. -/
theorem at18_v535 (V : Valuation τ sig (Elt Ideal)) : W18 V (Proc.devRef .tc main_v535) = ((Cert.Bridge.R.base0 (asF S2x12544x3 (V (Proc.devRef .tc main_arg3)))) : IVec S2x12544 32) := by
  show after (ops_part17 (F := Ideal)) (W17 V) (Proc.devRef .tc main_v535) = _
  rw [after_of_writes_sub _ _ (ops_part17_writes (F := Ideal)) (by decide : main_v535 ∉ ops_part17_W)]
  exact at17_v535 V
/-- main_v536 after 18 windows. -/
theorem at18_v536 (V : Valuation τ sig (Elt Ideal)) : W18 V (Proc.devRef .tc main_v536) = ((Cert.Bridge.R.base1 (asF S2x12544x3 (V (Proc.devRef .tc main_arg3)))) : IVec S2x12544 32) := by
  show after (ops_part17 (F := Ideal)) (W17 V) (Proc.devRef .tc main_v536) = _
  rw [after_of_writes_sub _ _ (ops_part17_writes (F := Ideal)) (by decide : main_v536 ∉ ops_part17_W)]
  exact at17_v536 V
/-- main_v537 after 18 windows. -/
theorem at18_v537 (V : Valuation τ sig (Elt Ideal)) : W18 V (Proc.devRef .tc main_v537) = ((Cert.Bridge.R.base2 (asF S2x12544x3 (V (Proc.devRef .tc main_arg3)))) : IVec S2x12544 32) := by
  show after (ops_part17 (F := Ideal)) (W17 V) (Proc.devRef .tc main_v537) = _
  rw [after_of_writes_sub _ _ (ops_part17_writes (F := Ideal)) (by decide : main_v537 ∉ ops_part17_W)]
  exact at17_v537 V
/-- main_v532 after 18 windows. -/
theorem at18_v532 (V : Valuation τ sig (Elt Ideal)) : W18 V (Proc.devRef .tc main_v532) = ((Cert.Bridge.R.frac0 (asF S2x12544x3 (V (Proc.devRef .tc main_arg3)))) : FVec Ideal S2x12544 .f32) := by
  show after (ops_part17 (F := Ideal)) (W17 V) (Proc.devRef .tc main_v532) = _
  rw [after_of_writes_sub _ _ (ops_part17_writes (F := Ideal)) (by decide : main_v532 ∉ ops_part17_W)]
  exact at17_v532 V
/-- main_v534 after 18 windows. -/
theorem at18_v534 (V : Valuation τ sig (Elt Ideal)) : W18 V (Proc.devRef .tc main_v534) = ((Cert.Bridge.R.frac2 (asF S2x12544x3 (V (Proc.devRef .tc main_arg3)))) : FVec Ideal S2x12544 .f32) := by
  show after (ops_part17 (F := Ideal)) (W17 V) (Proc.devRef .tc main_v534) = _
  rw [after_of_writes_sub _ _ (ops_part17_writes (F := Ideal)) (by decide : main_v534 ∉ ops_part17_W)]
  exact at17_v534 V
/-- main_v533 after 18 windows. -/
theorem at18_v533 (V : Valuation τ sig (Elt Ideal)) : W18 V (Proc.devRef .tc main_v533) = ((Cert.Bridge.R.frac1 (asF S2x12544x3 (V (Proc.devRef .tc main_arg3)))) : FVec Ideal S2x12544 .f32) := by
  show after (ops_part17 (F := Ideal)) (W17 V) (Proc.devRef .tc main_v533) = _
  rw [after_of_writes_sub _ _ (ops_part17_writes (F := Ideal)) (by decide : main_v533 ∉ ops_part17_W)]
  exact at17_v533 V
/-- main_v714 after 18 windows. -/
theorem at18_v714 (V : Valuation τ sig (Elt Ideal)) : W18 V (Proc.devRef .tc main_v714) = ((Cert.Bridge.R.accT3 (asF S2x30x64x64x64 (V (Proc.devRef .tc main_arg2))) (asF S2x12544x3 (V (Proc.devRef .tc main_arg3)))) : FVec Ideal S2x30x12544 .f32) := by
  show after (ops_part17 (F := Ideal)) (W17 V) (Proc.devRef .tc main_v714) = _
  rw [after_of_writes_sub _ _ (ops_part17_writes (F := Ideal)) (by decide : main_v714 ∉ ops_part17_W)]
  exact at17_v714 V
/-- main_v765 after 18 windows. -/
theorem at18_v765 (V : Valuation τ sig (Elt Ideal)) : W18 V (Proc.devRef .tc main_v765) = ((select (broadcastInDim S2x30x12544 ![0, 2] bcast_S2x12544_S2x30x12544_0_2 (Cert.Bridge.R.valid3 (asF S2x12544x3 (V (Proc.devRef .tc main_arg3))))) (Host.gather gather_S2x30x64x64x64_S2x12544x3_S2x30x12544_1_234_0_0_234_2_130111 (asF S2x30x64x64x64 (V (Proc.devRef .tc main_arg2))) (concatenate S2x12544x3 2 [⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (Cert.Bridge.R.zi3 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.zi3 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.zi3 (asF S2x12544x3 (V (Proc.devRef .tc main_arg3))))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (Cert.Bridge.R.yi3 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.yi3 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.yi3 (asF S2x12544x3 (V (Proc.devRef .tc main_arg3))))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (Cert.Bridge.R.xi3 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.xi3 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.xi3 (asF S2x12544x3 (V (Proc.devRef .tc main_arg3))))))))⟩] concatenates_S2x12544x1_S2x12544x1_S2x12544x1_S2x12544x3_d2)) (broadcastInDim S2x30x12544 ![1, 2] bcast_S30x12544_S2x30x12544_1_2 (broadcastInDim S30x12544 ![1] bcast_S12544_S30x12544_1 (broadcastInDim S12544 ![] bcast_S_S12544 (constant (F := Ideal) S_ .f32 0x00000000#32))))) : FVec Ideal S2x30x12544 .f32) := by
  show after (ops_part17 (F := Ideal)) (W17 V) (Proc.devRef .tc main_v765) = _
  refine (w17_v765 (W17 V)).trans ?_
  rw [at17_v720 V, at17_v722 V, at17_v724 V, at17_arg2 V]
  all_goals rfl
/-- main_v718 after 18 windows. -/
theorem at18_v718 (V : Valuation τ sig (Elt Ideal)) : W18 V (Proc.devRef .tc main_v718) = ((Cert.Bridge.R.wgt3 (asF S2x12544x3 (V (Proc.devRef .tc main_arg3)))) : FVec Ideal S2x12544 .f32) := by
  show after (ops_part17 (F := Ideal)) (W17 V) (Proc.devRef .tc main_v718) = _
  rw [after_of_writes_sub _ _ (ops_part17_writes (F := Ideal)) (by decide : main_v718 ∉ ops_part17_W)]
  exact at17_v718 V
/-- main_v494 after 18 windows. -/
theorem at18_v494 (V : Valuation τ sig (Elt Ideal)) : W18 V (Proc.devRef .tc main_v494) = ((Cert.Bridge.R.accP8 (asF S2x100x64x64x64 (V (Proc.devRef .tc main_arg0))) (asF S2x12544x3 (V (Proc.devRef .tc main_arg3)))) : FVec Ideal S2x100x12544 .f32) := by
  show after (ops_part17 (F := Ideal)) (W17 V) (Proc.devRef .tc main_v494) = _
  rw [after_of_writes_sub _ _ (ops_part17_writes (F := Ideal)) (by decide : main_v494 ∉ ops_part17_W)]
  exact at17_v494 V

/-! ### After 19 windows -/

/-- main_v535 after 19 windows. -/
theorem at19_v535 (V : Valuation τ sig (Elt Ideal)) : W19 V (Proc.devRef .tc main_v535) = ((Cert.Bridge.R.base0 (asF S2x12544x3 (V (Proc.devRef .tc main_arg3)))) : IVec S2x12544 32) := by
  show after (ops_part18 (F := Ideal)) (W18 V) (Proc.devRef .tc main_v535) = _
  rw [after_of_writes_sub _ _ (ops_part18_writes (F := Ideal)) (by decide : main_v535 ∉ ops_part18_W)]
  exact at18_v535 V
/-- main_v536 after 19 windows. -/
theorem at19_v536 (V : Valuation τ sig (Elt Ideal)) : W19 V (Proc.devRef .tc main_v536) = ((Cert.Bridge.R.base1 (asF S2x12544x3 (V (Proc.devRef .tc main_arg3)))) : IVec S2x12544 32) := by
  show after (ops_part18 (F := Ideal)) (W18 V) (Proc.devRef .tc main_v536) = _
  rw [after_of_writes_sub _ _ (ops_part18_writes (F := Ideal)) (by decide : main_v536 ∉ ops_part18_W)]
  exact at18_v536 V
/-- main_v537 after 19 windows. -/
theorem at19_v537 (V : Valuation τ sig (Elt Ideal)) : W19 V (Proc.devRef .tc main_v537) = ((Cert.Bridge.R.base2 (asF S2x12544x3 (V (Proc.devRef .tc main_arg3)))) : IVec S2x12544 32) := by
  show after (ops_part18 (F := Ideal)) (W18 V) (Proc.devRef .tc main_v537) = _
  rw [after_of_writes_sub _ _ (ops_part18_writes (F := Ideal)) (by decide : main_v537 ∉ ops_part18_W)]
  exact at18_v537 V
/-- main_v532 after 19 windows. -/
theorem at19_v532 (V : Valuation τ sig (Elt Ideal)) : W19 V (Proc.devRef .tc main_v532) = ((Cert.Bridge.R.frac0 (asF S2x12544x3 (V (Proc.devRef .tc main_arg3)))) : FVec Ideal S2x12544 .f32) := by
  show after (ops_part18 (F := Ideal)) (W18 V) (Proc.devRef .tc main_v532) = _
  rw [after_of_writes_sub _ _ (ops_part18_writes (F := Ideal)) (by decide : main_v532 ∉ ops_part18_W)]
  exact at18_v532 V
/-- main_v534 after 19 windows. -/
theorem at19_v534 (V : Valuation τ sig (Elt Ideal)) : W19 V (Proc.devRef .tc main_v534) = ((Cert.Bridge.R.frac2 (asF S2x12544x3 (V (Proc.devRef .tc main_arg3)))) : FVec Ideal S2x12544 .f32) := by
  show after (ops_part18 (F := Ideal)) (W18 V) (Proc.devRef .tc main_v534) = _
  rw [after_of_writes_sub _ _ (ops_part18_writes (F := Ideal)) (by decide : main_v534 ∉ ops_part18_W)]
  exact at18_v534 V
/-- main_v533 after 19 windows. -/
theorem at19_v533 (V : Valuation τ sig (Elt Ideal)) : W19 V (Proc.devRef .tc main_v533) = ((Cert.Bridge.R.frac1 (asF S2x12544x3 (V (Proc.devRef .tc main_arg3)))) : FVec Ideal S2x12544 .f32) := by
  show after (ops_part18 (F := Ideal)) (W18 V) (Proc.devRef .tc main_v533) = _
  rw [after_of_writes_sub _ _ (ops_part18_writes (F := Ideal)) (by decide : main_v533 ∉ ops_part18_W)]
  exact at18_v533 V
/-- main_v769 after 19 windows. -/
theorem at19_v769 (V : Valuation τ sig (Elt Ideal)) : W19 V (Proc.devRef .tc main_v769) = ((Cert.Bridge.R.accT4 (asF S2x30x64x64x64 (V (Proc.devRef .tc main_arg2))) (asF S2x12544x3 (V (Proc.devRef .tc main_arg3)))) : FVec Ideal S2x30x12544 .f32) := by
  show after (ops_part18 (F := Ideal)) (W18 V) (Proc.devRef .tc main_v769) = _
  refine (w18_v769 (W18 V)).trans ?_
  rw [at18_v714 V, at18_v718 V, at18_v765 V]
  all_goals rfl
/-- main_v801 after 19 windows. -/
theorem at19_v801 (V : Valuation τ sig (Elt Ideal)) : W19 V (Proc.devRef .tc main_v801) = ((minsi (broadcastInDim S2x12544 ![] bcast_S_S2x12544 (id (constantI S_ 32 63#32))) (maxsi (broadcastInDim S2x12544 ![] bcast_S_S2x12544 (id (constantI S_ 32 0#32))) (Cert.Bridge.R.xi4 (asF S2x12544x3 (V (Proc.devRef .tc main_arg3)))))) : IVec S2x12544 32) := by
  show after (ops_part18 (F := Ideal)) (W18 V) (Proc.devRef .tc main_v801) = _
  refine (w18_v801 (W18 V)).trans ?_
  rw [at18_v535 V]
  all_goals rfl
/-- main_v800 after 19 windows. -/
theorem at19_v800 (V : Valuation τ sig (Elt Ideal)) : W19 V (Proc.devRef .tc main_v800) = ((minsi (broadcastInDim S2x12544 ![] bcast_S_S2x12544 (id (constantI S_ 32 63#32))) (maxsi (broadcastInDim S2x12544 ![] bcast_S_S2x12544 (id (constantI S_ 32 0#32))) (Cert.Bridge.R.yi4 (asF S2x12544x3 (V (Proc.devRef .tc main_arg3)))))) : IVec S2x12544 32) := by
  show after (ops_part18 (F := Ideal)) (W18 V) (Proc.devRef .tc main_v800) = _
  refine (w18_v800 (W18 V)).trans ?_
  rw [at18_v536 V]
  all_goals rfl
/-- main_v806 after 19 windows. -/
theorem at19_v806 (V : Valuation τ sig (Elt Ideal)) : W19 V (Proc.devRef .tc main_v806) = ((select (cmpi .slt (minsi (broadcastInDim S2x12544 ![] bcast_S_S2x12544 (id (constantI S_ 32 63#32))) (maxsi (broadcastInDim S2x12544 ![] bcast_S_S2x12544 (id (constantI S_ 32 0#32))) (Cert.Bridge.R.zi4 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.zi4 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.zi4 (asF S2x12544x3 (V (Proc.devRef .tc main_arg3))))))) : IVec S2x12544 32) := by
  show after (ops_part18 (F := Ideal)) (W18 V) (Proc.devRef .tc main_v806) = _
  refine (w18_v806 (W18 V)).trans ?_
  rw [at18_v537 V]
  all_goals rfl
/-- main_v798 after 19 windows. -/
theorem at19_v798 (V : Valuation τ sig (Elt Ideal)) : W19 V (Proc.devRef .tc main_v798) = ((Cert.Bridge.R.valid4 (asF S2x12544x3 (V (Proc.devRef .tc main_arg3)))) : IVec S2x12544 1) := by
  show after (ops_part18 (F := Ideal)) (W18 V) (Proc.devRef .tc main_v798) = _
  refine (w18_v798 (W18 V)).trans ?_
  rw [at18_v537 V, at18_v536 V, at18_v535 V]
  all_goals rfl
/-- main_v775 after 19 windows. -/
theorem at19_v775 (V : Valuation τ sig (Elt Ideal)) : W19 V (Proc.devRef .tc main_v775) = ((Cert.Bridge.R.wgt4 (asF S2x12544x3 (V (Proc.devRef .tc main_arg3)))) : FVec Ideal S2x12544 .f32) := by
  show after (ops_part18 (F := Ideal)) (W18 V) (Proc.devRef .tc main_v775) = _
  refine (w18_v775 (W18 V)).trans ?_
  rw [at18_v534 V, at18_v533 V, at18_v532 V]
  all_goals rfl
/-- main_v494 after 19 windows. -/
theorem at19_v494 (V : Valuation τ sig (Elt Ideal)) : W19 V (Proc.devRef .tc main_v494) = ((Cert.Bridge.R.accP8 (asF S2x100x64x64x64 (V (Proc.devRef .tc main_arg0))) (asF S2x12544x3 (V (Proc.devRef .tc main_arg3)))) : FVec Ideal S2x100x12544 .f32) := by
  show after (ops_part18 (F := Ideal)) (W18 V) (Proc.devRef .tc main_v494) = _
  rw [after_of_writes_sub _ _ (ops_part18_writes (F := Ideal)) (by decide : main_v494 ∉ ops_part18_W)]
  exact at18_v494 V

/-! ### After 20 windows -/

/-- main_v535 after 20 windows. -/
theorem at20_v535 (V : Valuation τ sig (Elt Ideal)) : W20 V (Proc.devRef .tc main_v535) = ((Cert.Bridge.R.base0 (asF S2x12544x3 (V (Proc.devRef .tc main_arg3)))) : IVec S2x12544 32) := by
  show after (ops_part19 (F := Ideal)) (W19 V) (Proc.devRef .tc main_v535) = _
  rw [after_of_writes_sub _ _ (ops_part19_writes (F := Ideal)) (by decide : main_v535 ∉ ops_part19_W)]
  exact at19_v535 V
/-- main_v536 after 20 windows. -/
theorem at20_v536 (V : Valuation τ sig (Elt Ideal)) : W20 V (Proc.devRef .tc main_v536) = ((Cert.Bridge.R.base1 (asF S2x12544x3 (V (Proc.devRef .tc main_arg3)))) : IVec S2x12544 32) := by
  show after (ops_part19 (F := Ideal)) (W19 V) (Proc.devRef .tc main_v536) = _
  rw [after_of_writes_sub _ _ (ops_part19_writes (F := Ideal)) (by decide : main_v536 ∉ ops_part19_W)]
  exact at19_v536 V
/-- main_v537 after 20 windows. -/
theorem at20_v537 (V : Valuation τ sig (Elt Ideal)) : W20 V (Proc.devRef .tc main_v537) = ((Cert.Bridge.R.base2 (asF S2x12544x3 (V (Proc.devRef .tc main_arg3)))) : IVec S2x12544 32) := by
  show after (ops_part19 (F := Ideal)) (W19 V) (Proc.devRef .tc main_v537) = _
  rw [after_of_writes_sub _ _ (ops_part19_writes (F := Ideal)) (by decide : main_v537 ∉ ops_part19_W)]
  exact at19_v537 V
/-- main_v532 after 20 windows. -/
theorem at20_v532 (V : Valuation τ sig (Elt Ideal)) : W20 V (Proc.devRef .tc main_v532) = ((Cert.Bridge.R.frac0 (asF S2x12544x3 (V (Proc.devRef .tc main_arg3)))) : FVec Ideal S2x12544 .f32) := by
  show after (ops_part19 (F := Ideal)) (W19 V) (Proc.devRef .tc main_v532) = _
  rw [after_of_writes_sub _ _ (ops_part19_writes (F := Ideal)) (by decide : main_v532 ∉ ops_part19_W)]
  exact at19_v532 V
/-- main_v534 after 20 windows. -/
theorem at20_v534 (V : Valuation τ sig (Elt Ideal)) : W20 V (Proc.devRef .tc main_v534) = ((Cert.Bridge.R.frac2 (asF S2x12544x3 (V (Proc.devRef .tc main_arg3)))) : FVec Ideal S2x12544 .f32) := by
  show after (ops_part19 (F := Ideal)) (W19 V) (Proc.devRef .tc main_v534) = _
  rw [after_of_writes_sub _ _ (ops_part19_writes (F := Ideal)) (by decide : main_v534 ∉ ops_part19_W)]
  exact at19_v534 V
/-- main_v533 after 20 windows. -/
theorem at20_v533 (V : Valuation τ sig (Elt Ideal)) : W20 V (Proc.devRef .tc main_v533) = ((Cert.Bridge.R.frac1 (asF S2x12544x3 (V (Proc.devRef .tc main_arg3)))) : FVec Ideal S2x12544 .f32) := by
  show after (ops_part19 (F := Ideal)) (W19 V) (Proc.devRef .tc main_v533) = _
  rw [after_of_writes_sub _ _ (ops_part19_writes (F := Ideal)) (by decide : main_v533 ∉ ops_part19_W)]
  exact at19_v533 V
/-- main_v826 after 20 windows. -/
theorem at20_v826 (V : Valuation τ sig (Elt Ideal)) : W20 V (Proc.devRef .tc main_v826) = ((Cert.Bridge.R.accT5 (asF S2x30x64x64x64 (V (Proc.devRef .tc main_arg2))) (asF S2x12544x3 (V (Proc.devRef .tc main_arg3)))) : FVec Ideal S2x30x12544 .f32) := by
  show after (ops_part19 (F := Ideal)) (W19 V) (Proc.devRef .tc main_v826) = _
  refine (w19_v826 (W19 V)).trans ?_
  rw [at19_v769 V, at19_v775 V, at19_v798 V, at19_arg2 V, at19_v806 V, at19_v800 V, at19_v801 V]
  all_goals rfl
/-- main_v836 after 20 windows. -/
theorem at20_v836 (V : Valuation τ sig (Elt Ideal)) : W20 V (Proc.devRef .tc main_v836) = ((Cert.Bridge.R.xi5 (asF S2x12544x3 (V (Proc.devRef .tc main_arg3)))) : IVec S2x12544 32) := by
  show after (ops_part19 (F := Ideal)) (W19 V) (Proc.devRef .tc main_v836) = _
  refine (w19_v836 (W19 V)).trans ?_
  rw [at19_v535 V]
  all_goals rfl
/-- main_v834 after 20 windows. -/
theorem at20_v834 (V : Valuation τ sig (Elt Ideal)) : W20 V (Proc.devRef .tc main_v834) = ((Cert.Bridge.R.yi5 (asF S2x12544x3 (V (Proc.devRef .tc main_arg3)))) : IVec S2x12544 32) := by
  show after (ops_part19 (F := Ideal)) (W19 V) (Proc.devRef .tc main_v834) = _
  refine (w19_v834 (W19 V)).trans ?_
  rw [at19_v536 V]
  all_goals rfl
/-- main_v832 after 20 windows. -/
theorem at20_v832 (V : Valuation τ sig (Elt Ideal)) : W20 V (Proc.devRef .tc main_v832) = ((Cert.Bridge.R.zi5 (asF S2x12544x3 (V (Proc.devRef .tc main_arg3)))) : IVec S2x12544 32) := by
  show after (ops_part19 (F := Ideal)) (W19 V) (Proc.devRef .tc main_v832) = _
  refine (w19_v832 (W19 V)).trans ?_
  rw [at19_v537 V]
  all_goals rfl
/-- main_v850 after 20 windows. -/
theorem at20_v850 (V : Valuation τ sig (Elt Ideal)) : W20 V (Proc.devRef .tc main_v850) = ((andi (andi (andi (andi (cmpi .sge (Cert.Bridge.R.zi5 (asF S2x12544x3 (V (Proc.devRef .tc main_arg3)))) (broadcastInDim S2x12544 ![] bcast_S_S2x12544 (constantI S_ 32 0#32))) (cmpi .slt (Cert.Bridge.R.zi5 (asF S2x12544x3 (V (Proc.devRef .tc main_arg3)))) (broadcastInDim S2x12544 ![] bcast_S_S2x12544 (constantI S_ 32 64#32)))) (cmpi .sge (Cert.Bridge.R.yi5 (asF S2x12544x3 (V (Proc.devRef .tc main_arg3)))) (broadcastInDim S2x12544 ![] bcast_S_S2x12544 (constantI S_ 32 0#32)))) (cmpi .slt (Cert.Bridge.R.yi5 (asF S2x12544x3 (V (Proc.devRef .tc main_arg3)))) (broadcastInDim S2x12544 ![] bcast_S_S2x12544 (constantI S_ 32 64#32)))) (cmpi .sge (Cert.Bridge.R.xi5 (asF S2x12544x3 (V (Proc.devRef .tc main_arg3)))) (broadcastInDim S2x12544 ![] bcast_S_S2x12544 (constantI S_ 32 0#32)))) : IVec S2x12544 1) := by
  show after (ops_part19 (F := Ideal)) (W19 V) (Proc.devRef .tc main_v850) = _
  refine (w19_v850 (W19 V)).trans ?_
  rw [at19_v537 V, at19_v536 V, at19_v535 V]
  all_goals rfl
/-- main_v851 after 20 windows. -/
theorem at20_v851 (V : Valuation τ sig (Elt Ideal)) : W20 V (Proc.devRef .tc main_v851) = ((broadcastInDim S2x12544 ![] bcast_S_S2x12544 (constantI S_ 32 64#32)) : IVec S2x12544 32) := by
  show after (ops_part19 (F := Ideal)) (W19 V) (Proc.devRef .tc main_v851) = _
  refine (w19_v851 (W19 V)).trans ?_
  all_goals rfl
/-- main_v830 after 20 windows. -/
theorem at20_v830 (V : Valuation τ sig (Elt Ideal)) : W20 V (Proc.devRef .tc main_v830) = ((Cert.Bridge.R.wgt5 (asF S2x12544x3 (V (Proc.devRef .tc main_arg3)))) : FVec Ideal S2x12544 .f32) := by
  show after (ops_part19 (F := Ideal)) (W19 V) (Proc.devRef .tc main_v830) = _
  refine (w19_v830 (W19 V)).trans ?_
  rw [at19_v534 V, at19_v533 V, at19_v532 V]
  all_goals rfl
/-- main_v494 after 20 windows. -/
theorem at20_v494 (V : Valuation τ sig (Elt Ideal)) : W20 V (Proc.devRef .tc main_v494) = ((Cert.Bridge.R.accP8 (asF S2x100x64x64x64 (V (Proc.devRef .tc main_arg0))) (asF S2x12544x3 (V (Proc.devRef .tc main_arg3)))) : FVec Ideal S2x100x12544 .f32) := by
  show after (ops_part19 (F := Ideal)) (W19 V) (Proc.devRef .tc main_v494) = _
  rw [after_of_writes_sub _ _ (ops_part19_writes (F := Ideal)) (by decide : main_v494 ∉ ops_part19_W)]
  exact at19_v494 V

/-! ### After 21 windows -/

/-- main_v535 after 21 windows. -/
theorem at21_v535 (V : Valuation τ sig (Elt Ideal)) : W21 V (Proc.devRef .tc main_v535) = ((Cert.Bridge.R.base0 (asF S2x12544x3 (V (Proc.devRef .tc main_arg3)))) : IVec S2x12544 32) := by
  show after (ops_part20 (F := Ideal)) (W20 V) (Proc.devRef .tc main_v535) = _
  rw [after_of_writes_sub _ _ (ops_part20_writes (F := Ideal)) (by decide : main_v535 ∉ ops_part20_W)]
  exact at20_v535 V
/-- main_v536 after 21 windows. -/
theorem at21_v536 (V : Valuation τ sig (Elt Ideal)) : W21 V (Proc.devRef .tc main_v536) = ((Cert.Bridge.R.base1 (asF S2x12544x3 (V (Proc.devRef .tc main_arg3)))) : IVec S2x12544 32) := by
  show after (ops_part20 (F := Ideal)) (W20 V) (Proc.devRef .tc main_v536) = _
  rw [after_of_writes_sub _ _ (ops_part20_writes (F := Ideal)) (by decide : main_v536 ∉ ops_part20_W)]
  exact at20_v536 V
/-- main_v537 after 21 windows. -/
theorem at21_v537 (V : Valuation τ sig (Elt Ideal)) : W21 V (Proc.devRef .tc main_v537) = ((Cert.Bridge.R.base2 (asF S2x12544x3 (V (Proc.devRef .tc main_arg3)))) : IVec S2x12544 32) := by
  show after (ops_part20 (F := Ideal)) (W20 V) (Proc.devRef .tc main_v537) = _
  rw [after_of_writes_sub _ _ (ops_part20_writes (F := Ideal)) (by decide : main_v537 ∉ ops_part20_W)]
  exact at20_v537 V
/-- main_v532 after 21 windows. -/
theorem at21_v532 (V : Valuation τ sig (Elt Ideal)) : W21 V (Proc.devRef .tc main_v532) = ((Cert.Bridge.R.frac0 (asF S2x12544x3 (V (Proc.devRef .tc main_arg3)))) : FVec Ideal S2x12544 .f32) := by
  show after (ops_part20 (F := Ideal)) (W20 V) (Proc.devRef .tc main_v532) = _
  rw [after_of_writes_sub _ _ (ops_part20_writes (F := Ideal)) (by decide : main_v532 ∉ ops_part20_W)]
  exact at20_v532 V
/-- main_v534 after 21 windows. -/
theorem at21_v534 (V : Valuation τ sig (Elt Ideal)) : W21 V (Proc.devRef .tc main_v534) = ((Cert.Bridge.R.frac2 (asF S2x12544x3 (V (Proc.devRef .tc main_arg3)))) : FVec Ideal S2x12544 .f32) := by
  show after (ops_part20 (F := Ideal)) (W20 V) (Proc.devRef .tc main_v534) = _
  rw [after_of_writes_sub _ _ (ops_part20_writes (F := Ideal)) (by decide : main_v534 ∉ ops_part20_W)]
  exact at20_v534 V
/-- main_v533 after 21 windows. -/
theorem at21_v533 (V : Valuation τ sig (Elt Ideal)) : W21 V (Proc.devRef .tc main_v533) = ((Cert.Bridge.R.frac1 (asF S2x12544x3 (V (Proc.devRef .tc main_arg3)))) : FVec Ideal S2x12544 .f32) := by
  show after (ops_part20 (F := Ideal)) (W20 V) (Proc.devRef .tc main_v533) = _
  rw [after_of_writes_sub _ _ (ops_part20_writes (F := Ideal)) (by decide : main_v533 ∉ ops_part20_W)]
  exact at20_v533 V
/-- main_v881 after 21 windows. -/
theorem at21_v881 (V : Valuation τ sig (Elt Ideal)) : W21 V (Proc.devRef .tc main_v881) = ((Cert.Bridge.R.accT6 (asF S2x30x64x64x64 (V (Proc.devRef .tc main_arg2))) (asF S2x12544x3 (V (Proc.devRef .tc main_arg3)))) : FVec Ideal S2x30x12544 .f32) := by
  show after (ops_part20 (F := Ideal)) (W20 V) (Proc.devRef .tc main_v881) = _
  refine (w20_v881 (W20 V)).trans ?_
  rw [at20_v826 V, at20_v830 V, at20_v850 V, at20_v836 V, at20_v851 V, at20_arg2 V, at20_v832 V, at20_v834 V]
  all_goals rfl
/-- main_v891 after 21 windows. -/
theorem at21_v891 (V : Valuation τ sig (Elt Ideal)) : W21 V (Proc.devRef .tc main_v891) = ((Cert.Bridge.R.xi6 (asF S2x12544x3 (V (Proc.devRef .tc main_arg3)))) : IVec S2x12544 32) := by
  show after (ops_part20 (F := Ideal)) (W20 V) (Proc.devRef .tc main_v891) = _
  refine (w20_v891 (W20 V)).trans ?_
  rw [at20_v535 V]
  all_goals rfl
/-- main_v889 after 21 windows. -/
theorem at21_v889 (V : Valuation τ sig (Elt Ideal)) : W21 V (Proc.devRef .tc main_v889) = ((Cert.Bridge.R.yi6 (asF S2x12544x3 (V (Proc.devRef .tc main_arg3)))) : IVec S2x12544 32) := by
  show after (ops_part20 (F := Ideal)) (W20 V) (Proc.devRef .tc main_v889) = _
  refine (w20_v889 (W20 V)).trans ?_
  rw [at20_v536 V]
  all_goals rfl
/-- main_v887 after 21 windows. -/
theorem at21_v887 (V : Valuation τ sig (Elt Ideal)) : W21 V (Proc.devRef .tc main_v887) = ((Cert.Bridge.R.zi6 (asF S2x12544x3 (V (Proc.devRef .tc main_arg3)))) : IVec S2x12544 32) := by
  show after (ops_part20 (F := Ideal)) (W20 V) (Proc.devRef .tc main_v887) = _
  refine (w20_v887 (W20 V)).trans ?_
  rw [at20_v537 V]
  all_goals rfl
/-- main_v893 after 21 windows. -/
theorem at21_v893 (V : Valuation τ sig (Elt Ideal)) : W21 V (Proc.devRef .tc main_v893) = ((cmpi .sge (Cert.Bridge.R.zi6 (asF S2x12544x3 (V (Proc.devRef .tc main_arg3)))) (broadcastInDim S2x12544 ![] bcast_S_S2x12544 (constantI S_ 32 0#32))) : IVec S2x12544 1) := by
  show after (ops_part20 (F := Ideal)) (W20 V) (Proc.devRef .tc main_v893) = _
  refine (w20_v893 (W20 V)).trans ?_
  rw [at20_v537 V]
  all_goals rfl
/-- main_v885 after 21 windows. -/
theorem at21_v885 (V : Valuation τ sig (Elt Ideal)) : W21 V (Proc.devRef .tc main_v885) = ((Cert.Bridge.R.wgt6 (asF S2x12544x3 (V (Proc.devRef .tc main_arg3)))) : FVec Ideal S2x12544 .f32) := by
  show after (ops_part20 (F := Ideal)) (W20 V) (Proc.devRef .tc main_v885) = _
  refine (w20_v885 (W20 V)).trans ?_
  rw [at20_v534 V, at20_v533 V, at20_v532 V]
  all_goals rfl
/-- main_v494 after 21 windows. -/
theorem at21_v494 (V : Valuation τ sig (Elt Ideal)) : W21 V (Proc.devRef .tc main_v494) = ((Cert.Bridge.R.accP8 (asF S2x100x64x64x64 (V (Proc.devRef .tc main_arg0))) (asF S2x12544x3 (V (Proc.devRef .tc main_arg3)))) : FVec Ideal S2x100x12544 .f32) := by
  show after (ops_part20 (F := Ideal)) (W20 V) (Proc.devRef .tc main_v494) = _
  rw [after_of_writes_sub _ _ (ops_part20_writes (F := Ideal)) (by decide : main_v494 ∉ ops_part20_W)]
  exact at20_v494 V

/-! ### After 22 windows -/

/-- main_v535 after 22 windows. -/
theorem at22_v535 (V : Valuation τ sig (Elt Ideal)) : W22 V (Proc.devRef .tc main_v535) = ((Cert.Bridge.R.base0 (asF S2x12544x3 (V (Proc.devRef .tc main_arg3)))) : IVec S2x12544 32) := by
  show after (ops_part21 (F := Ideal)) (W21 V) (Proc.devRef .tc main_v535) = _
  rw [after_of_writes_sub _ _ (ops_part21_writes (F := Ideal)) (by decide : main_v535 ∉ ops_part21_W)]
  exact at21_v535 V
/-- main_v536 after 22 windows. -/
theorem at22_v536 (V : Valuation τ sig (Elt Ideal)) : W22 V (Proc.devRef .tc main_v536) = ((Cert.Bridge.R.base1 (asF S2x12544x3 (V (Proc.devRef .tc main_arg3)))) : IVec S2x12544 32) := by
  show after (ops_part21 (F := Ideal)) (W21 V) (Proc.devRef .tc main_v536) = _
  rw [after_of_writes_sub _ _ (ops_part21_writes (F := Ideal)) (by decide : main_v536 ∉ ops_part21_W)]
  exact at21_v536 V
/-- main_v537 after 22 windows. -/
theorem at22_v537 (V : Valuation τ sig (Elt Ideal)) : W22 V (Proc.devRef .tc main_v537) = ((Cert.Bridge.R.base2 (asF S2x12544x3 (V (Proc.devRef .tc main_arg3)))) : IVec S2x12544 32) := by
  show after (ops_part21 (F := Ideal)) (W21 V) (Proc.devRef .tc main_v537) = _
  rw [after_of_writes_sub _ _ (ops_part21_writes (F := Ideal)) (by decide : main_v537 ∉ ops_part21_W)]
  exact at21_v537 V
/-- main_v532 after 22 windows. -/
theorem at22_v532 (V : Valuation τ sig (Elt Ideal)) : W22 V (Proc.devRef .tc main_v532) = ((Cert.Bridge.R.frac0 (asF S2x12544x3 (V (Proc.devRef .tc main_arg3)))) : FVec Ideal S2x12544 .f32) := by
  show after (ops_part21 (F := Ideal)) (W21 V) (Proc.devRef .tc main_v532) = _
  rw [after_of_writes_sub _ _ (ops_part21_writes (F := Ideal)) (by decide : main_v532 ∉ ops_part21_W)]
  exact at21_v532 V
/-- main_v534 after 22 windows. -/
theorem at22_v534 (V : Valuation τ sig (Elt Ideal)) : W22 V (Proc.devRef .tc main_v534) = ((Cert.Bridge.R.frac2 (asF S2x12544x3 (V (Proc.devRef .tc main_arg3)))) : FVec Ideal S2x12544 .f32) := by
  show after (ops_part21 (F := Ideal)) (W21 V) (Proc.devRef .tc main_v534) = _
  rw [after_of_writes_sub _ _ (ops_part21_writes (F := Ideal)) (by decide : main_v534 ∉ ops_part21_W)]
  exact at21_v534 V
/-- main_v533 after 22 windows. -/
theorem at22_v533 (V : Valuation τ sig (Elt Ideal)) : W22 V (Proc.devRef .tc main_v533) = ((Cert.Bridge.R.frac1 (asF S2x12544x3 (V (Proc.devRef .tc main_arg3)))) : FVec Ideal S2x12544 .f32) := by
  show after (ops_part21 (F := Ideal)) (W21 V) (Proc.devRef .tc main_v533) = _
  rw [after_of_writes_sub _ _ (ops_part21_writes (F := Ideal)) (by decide : main_v533 ∉ ops_part21_W)]
  exact at21_v533 V
/-- main_v881 after 22 windows. -/
theorem at22_v881 (V : Valuation τ sig (Elt Ideal)) : W22 V (Proc.devRef .tc main_v881) = ((Cert.Bridge.R.accT6 (asF S2x30x64x64x64 (V (Proc.devRef .tc main_arg2))) (asF S2x12544x3 (V (Proc.devRef .tc main_arg3)))) : FVec Ideal S2x30x12544 .f32) := by
  show after (ops_part21 (F := Ideal)) (W21 V) (Proc.devRef .tc main_v881) = _
  rw [after_of_writes_sub _ _ (ops_part21_writes (F := Ideal)) (by decide : main_v881 ∉ ops_part21_W)]
  exact at21_v881 V
/-- main_v935 after 22 windows. -/
theorem at22_v935 (V : Valuation τ sig (Elt Ideal)) : W22 V (Proc.devRef .tc main_v935) = ((mulf (broadcastInDim S2x30x12544 ![0, 1, 2] bcast_S2x1x12544_S2x30x12544_0_1_2 (broadcastInDim S2x1x12544 ![0, 2] bcast_S2x12544_S2x1x12544_0_2 (Cert.Bridge.R.wgt6 (asF S2x12544x3 (V (Proc.devRef .tc main_arg3)))))) (select (broadcastInDim S2x30x12544 ![0, 2] bcast_S2x12544_S2x30x12544_0_2 (Cert.Bridge.R.valid6 (asF S2x12544x3 (V (Proc.devRef .tc main_arg3))))) (Host.gather gather_S2x30x64x64x64_S2x12544x3_S2x30x12544_1_234_0_0_234_2_130111 (asF S2x30x64x64x64 (V (Proc.devRef .tc main_arg2))) (concatenate S2x12544x3 2 [⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (Cert.Bridge.R.zi6 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.zi6 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.zi6 (asF S2x12544x3 (V (Proc.devRef .tc main_arg3))))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (Cert.Bridge.R.yi6 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.yi6 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.yi6 (asF S2x12544x3 (V (Proc.devRef .tc main_arg3))))))))⟩, ⟨S2x12544x1, (broadcastInDim S2x12544x1 ![0, 1] bcast_S2x12544_S2x12544x1_0_1 (select (cmpi .slt (minsi (broadcastInDim S2x12544 ![] bcast_S_S2x12544 (id (constantI S_ 32 63#32))) (maxsi (broadcastInDim S2x12544 ![] bcast_S_S2x12544 (id (constantI S_ 32 0#32))) (Cert.Bridge.R.xi6 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.xi6 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.xi6 (asF S2x12544x3 (V (Proc.devRef .tc main_arg3))))))))⟩] concatenates_S2x12544x1_S2x12544x1_S2x12544x1_S2x12544x3_d2)) (broadcastInDim S2x30x12544 ![1, 2] bcast_S30x12544_S2x30x12544_1_2 (broadcastInDim S30x12544 ![1] bcast_S12544_S30x12544_1 (broadcastInDim S12544 ![] bcast_S_S12544 (constant (F := Ideal) S_ .f32 0x00000000#32)))))) : FVec Ideal S2x30x12544 .f32) := by
  show after (ops_part21 (F := Ideal)) (W21 V) (Proc.devRef .tc main_v935) = _
  refine (w21_v935 (W21 V)).trans ?_
  rw [at21_v885 V, at21_v893 V, at21_v887 V, at21_v889 V, at21_v891 V, at21_arg2 V]
  all_goals rfl
/-- main_v494 after 22 windows. -/
theorem at22_v494 (V : Valuation τ sig (Elt Ideal)) : W22 V (Proc.devRef .tc main_v494) = ((Cert.Bridge.R.accP8 (asF S2x100x64x64x64 (V (Proc.devRef .tc main_arg0))) (asF S2x12544x3 (V (Proc.devRef .tc main_arg3)))) : FVec Ideal S2x100x12544 .f32) := by
  show after (ops_part21 (F := Ideal)) (W21 V) (Proc.devRef .tc main_v494) = _
  rw [after_of_writes_sub _ _ (ops_part21_writes (F := Ideal)) (by decide : main_v494 ∉ ops_part21_W)]
  exact at21_v494 V

/-! ### After 23 windows -/

/-- main_v936 after 23 windows. -/
theorem at23_v936 (V : Valuation τ sig (Elt Ideal)) : W23 V (Proc.devRef .tc main_v936) = ((Cert.Bridge.R.accT7 (asF S2x30x64x64x64 (V (Proc.devRef .tc main_arg2))) (asF S2x12544x3 (V (Proc.devRef .tc main_arg3)))) : FVec Ideal S2x30x12544 .f32) := by
  show after (ops_part22 (F := Ideal)) (W22 V) (Proc.devRef .tc main_v936) = _
  refine (w22_v936 (W22 V)).trans ?_
  rw [at22_v881 V, at22_v935 V]
  all_goals rfl
/-- main_v964 after 23 windows. -/
theorem at23_v964 (V : Valuation τ sig (Elt Ideal)) : W23 V (Proc.devRef .tc main_v964) = ((minsi (broadcastInDim S2x12544 ![] bcast_S_S2x12544 (id (constantI S_ 32 63#32))) (maxsi (broadcastInDim S2x12544 ![] bcast_S_S2x12544 (id (constantI S_ 32 0#32))) (Cert.Bridge.R.xi7 (asF S2x12544x3 (V (Proc.devRef .tc main_arg3)))))) : IVec S2x12544 32) := by
  show after (ops_part22 (F := Ideal)) (W22 V) (Proc.devRef .tc main_v964) = _
  refine (w22_v964 (W22 V)).trans ?_
  rw [at22_v535 V]
  all_goals rfl
/-- main_v975 after 23 windows. -/
theorem at23_v975 (V : Valuation τ sig (Elt Ideal)) : W23 V (Proc.devRef .tc main_v975) = ((broadcastInDim S2x12544 ![] bcast_S_S2x12544 (constantI S_ 32 0#32)) : IVec S2x12544 32) := by
  show after (ops_part22 (F := Ideal)) (W22 V) (Proc.devRef .tc main_v975) = _
  refine (w22_v975 (W22 V)).trans ?_
  all_goals rfl
/-- main_v974 after 23 windows. -/
theorem at23_v974 (V : Valuation τ sig (Elt Ideal)) : W23 V (Proc.devRef .tc main_v974) = ((select (cmpi .slt (minsi (broadcastInDim S2x12544 ![] bcast_S_S2x12544 (id (constantI S_ 32 63#32))) (maxsi (broadcastInDim S2x12544 ![] bcast_S_S2x12544 (id (constantI S_ 32 0#32))) (Cert.Bridge.R.yi7 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.yi7 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.yi7 (asF S2x12544x3 (V (Proc.devRef .tc main_arg3))))))) : IVec S2x12544 32) := by
  show after (ops_part22 (F := Ideal)) (W22 V) (Proc.devRef .tc main_v974) = _
  refine (w22_v974 (W22 V)).trans ?_
  rw [at22_v536 V]
  all_goals rfl
/-- main_v969 after 23 windows. -/
theorem at23_v969 (V : Valuation τ sig (Elt Ideal)) : W23 V (Proc.devRef .tc main_v969) = ((select (cmpi .slt (minsi (broadcastInDim S2x12544 ![] bcast_S_S2x12544 (id (constantI S_ 32 63#32))) (maxsi (broadcastInDim S2x12544 ![] bcast_S_S2x12544 (id (constantI S_ 32 0#32))) (Cert.Bridge.R.zi7 (asF S2x12544x3 (V (Proc.devRef .tc main_arg3)))))) (broadcastInDim S2x12544 ![] bcast_S_S2x12544 (constantI S_ 32 0#32))) (addi (minsi (broadcastInDim S2x12544 ![] bcast_S_S2x12544 (id (constantI S_ 32 63#32))) (maxsi (broadcastInDim S2x12544 ![] bcast_S_S2x12544 (id (constantI S_ 32 0#32))) (Cert.Bridge.R.zi7 (asF S2x12544x3 (V (Proc.devRef .tc main_arg3)))))) (broadcastInDim S2x12544 ![] bcast_S_S2x12544 (constantI S_ 32 64#32))) (minsi (broadcastInDim S2x12544 ![] bcast_S_S2x12544 (id (constantI S_ 32 63#32))) (maxsi (broadcastInDim S2x12544 ![] bcast_S_S2x12544 (id (constantI S_ 32 0#32))) (Cert.Bridge.R.zi7 (asF S2x12544x3 (V (Proc.devRef .tc main_arg3))))))) : IVec S2x12544 32) := by
  show after (ops_part22 (F := Ideal)) (W22 V) (Proc.devRef .tc main_v969) = _
  refine (w22_v969 (W22 V)).trans ?_
  rw [at22_v537 V]
  all_goals rfl
/-- main_v961 after 23 windows. -/
theorem at23_v961 (V : Valuation τ sig (Elt Ideal)) : W23 V (Proc.devRef .tc main_v961) = ((Cert.Bridge.R.valid7 (asF S2x12544x3 (V (Proc.devRef .tc main_arg3)))) : IVec S2x12544 1) := by
  show after (ops_part22 (F := Ideal)) (W22 V) (Proc.devRef .tc main_v961) = _
  refine (w22_v961 (W22 V)).trans ?_
  rw [at22_v537 V, at22_v536 V, at22_v535 V]
  all_goals rfl
/-- main_v938 after 23 windows. -/
theorem at23_v938 (V : Valuation τ sig (Elt Ideal)) : W23 V (Proc.devRef .tc main_v938) = ((Cert.Bridge.R.wgt7 (asF S2x12544x3 (V (Proc.devRef .tc main_arg3)))) : FVec Ideal S2x12544 .f32) := by
  show after (ops_part22 (F := Ideal)) (W22 V) (Proc.devRef .tc main_v938) = _
  refine (w22_v938 (W22 V)).trans ?_
  rw [at22_v534 V, at22_v533 V, at22_v532 V]
  all_goals rfl
/-- main_v494 after 23 windows. -/
theorem at23_v494 (V : Valuation τ sig (Elt Ideal)) : W23 V (Proc.devRef .tc main_v494) = ((Cert.Bridge.R.accP8 (asF S2x100x64x64x64 (V (Proc.devRef .tc main_arg0))) (asF S2x12544x3 (V (Proc.devRef .tc main_arg3)))) : FVec Ideal S2x100x12544 .f32) := by
  show after (ops_part22 (F := Ideal)) (W22 V) (Proc.devRef .tc main_v494) = _
  rw [after_of_writes_sub _ _ (ops_part22_writes (F := Ideal)) (by decide : main_v494 ∉ ops_part22_W)]
  exact at22_v494 V

/-! ### After 24 windows -/

/-- main_v494 after 24 windows. -/
theorem at24_v494 (V : Valuation τ sig (Elt Ideal)) : W24 V (Proc.devRef .tc main_v494) = ((Cert.Bridge.R.accP8 (asF S2x100x64x64x64 (V (Proc.devRef .tc main_arg0))) (asF S2x12544x3 (V (Proc.devRef .tc main_arg3)))) : FVec Ideal S2x100x12544 .f32) := by
  show after (ops_part23 (F := Ideal)) (W23 V) (Proc.devRef .tc main_v494) = _
  rw [after_of_writes_sub _ _ (ops_part23_writes (F := Ideal)) (by decide : main_v494 ∉ ops_part23_W)]
  exact at23_v494 V
/-- main_v989 after 24 windows. -/
theorem at24_v989 (V : Valuation τ sig (Elt Ideal)) : W24 V (Proc.devRef .tc main_v989) = ((Cert.Bridge.R.accT8 (asF S2x30x64x64x64 (V (Proc.devRef .tc main_arg2))) (asF S2x12544x3 (V (Proc.devRef .tc main_arg3)))) : FVec Ideal S2x30x12544 .f32) := by
  show after (ops_part23 (F := Ideal)) (W23 V) (Proc.devRef .tc main_v989) = _
  refine (w23_v989 (W23 V)).trans ?_
  rw [at23_v936 V, at23_v938 V, at23_v961 V, at23_arg2 V, at23_v969 V, at23_v974 V, at23_v964 V, at23_v975 V]
  all_goals rfl

/-! ### After 25 windows -/

/-- main_v494 after 25 windows. -/
theorem at25_v494 (V : Valuation τ sig (Elt Ideal)) : W25 V (Proc.devRef .tc main_v494) = ((Cert.Bridge.R.accP8 (asF S2x100x64x64x64 (V (Proc.devRef .tc main_arg0))) (asF S2x12544x3 (V (Proc.devRef .tc main_arg3)))) : FVec Ideal S2x100x12544 .f32) := by
  show after (ops_part24 (F := Ideal)) (W24 V) (Proc.devRef .tc main_v494) = _
  rw [after_of_writes_sub _ _ (ops_part24_writes (F := Ideal)) (by decide : main_v494 ∉ ops_part24_W)]
  exact at24_v494 V
/-- main_v989 after 25 windows. -/
theorem at25_v989 (V : Valuation τ sig (Elt Ideal)) : W25 V (Proc.devRef .tc main_v989) = ((Cert.Bridge.R.accT8 (asF S2x30x64x64x64 (V (Proc.devRef .tc main_arg2))) (asF S2x12544x3 (V (Proc.devRef .tc main_arg3)))) : FVec Ideal S2x30x12544 .f32) := by
  show after (ops_part24 (F := Ideal)) (W24 V) (Proc.devRef .tc main_v989) = _
  rw [after_of_writes_sub _ _ (ops_part24_writes (F := Ideal)) (by decide : main_v989 ∉ ops_part24_W)]
  exact at24_v989 V

/-! ### The two sampled arrays -/

/-- THE REFERENCE'S SAMPLED QUERY MASKS (the buffer of %494 after @main's operations) ARE THE PURE TERM pred OF THE ARGUMENT ARRAYS. -/
theorem fold_pred (V0 : Valuation τ sig (Elt Ideal)) :
    after (HandRun.ops (F := Ideal)) V0 (Proc.devRef .tc main_v494)
      = Cert.Bridge.R.pred (V0 (Proc.devRef .tc main_arg0)) (V0 (Proc.devRef .tc main_arg3)) := by
  rw [after_ops]
  exact at25_v494 V0

/-- THE REFERENCE'S SAMPLED TARGET MASKS (the buffer of %989 after @main's operations) ARE THE PURE TERM tgt OF THE ARGUMENT ARRAYS. -/
theorem fold_tgt (V0 : Valuation τ sig (Elt Ideal)) :
    after (HandRun.ops (F := Ideal)) V0 (Proc.devRef .tc main_v989)
      = Cert.Bridge.R.tgt (V0 (Proc.devRef .tc main_arg2)) (V0 (Proc.devRef .tc main_arg3)) := by
  rw [after_ops]
  exact at25_v989 V0

end Cert.ReferenceIdeal.HandFold

end
-- ==== Proof.RefTail.lean ====
/-
  The reference's last stretch as one function of the three arrays it reads, and that function read at an index.

  From the sampled query logits `P : [2, 100, 12544]`, the sampled targets `T : [2, 30, 12544]` and the negated class
  probabilities `Cl : [2, 100, 30]` the reference computes the matching cost `[2, 100, 30]`: two softplus arrays divided
  by the number of points and contracted with the targets and with one minus the targets (the cross-entropy part), the
  logistic array contracted with the targets and summed (the dice part), the three parts added with unit weights, the
  sum clamped to [-1e10, 1e10] and passed through the replacement of NaN and of the two infinities.
  `tailR` is that stretch, operation by operation (the four helper functions it calls are `softplusR`, `clipR`,
  `whereR` and `nanToNumR`); `tailR_apply` reads it at batch `b`, query `q`, target `t`: the value is the
  specification's `costR` of batch `b`'s slices of the three arrays.
-/
import proofs.«103167_j42614665511136_1_alg».proof.ReferenceIdeal
import proofs.«103167_j42614665511136_1_alg».proof.Proof.CostSpec
import Idealize.ShloMosaic.Lib.ValueIdx
import Idealize.ShloMosaic.Lib.IdealHost
import Idealize.ShloMosaic.Lib.StackMember
import Idealize.ShloMosaic.Lib.Pipeline.Value
import Idealize.ShloMosaic.PureOps.Ideal.Laws

noncomputable section

namespace Cert.ReferenceIdeal.HandTail

open Idealize.ShloMosaic Idealize.ShloMosaic.ValueIdx Cert.ReferenceIdeal
open Cert.ReferenceIdeal.Facts₀ Cert.ReferenceIdeal.Facts
open scoped BigOperators

variable [Cert.ReferenceIdeal.Facts]

/-- The body of the reference's softplus helper over its argument: max(x, 0) + log1p(exp(-|x - 0|)), under a select
    that returns x + 0 where x - 0 is unordered with itself. -/
def softplusR (x : FVec Ideal S2x100x12544 .f32) : FVec Ideal S2x100x12544 .f32 :=
  let cst : FVec Ideal S_ .f32 := constant (F := Ideal) S_ .f32 0x00000000#32
  let v0 := broadcastInDim S2x100x12544 ![] bcast_S_S2x100x12544 cst
  let v1 := maximumf x v0
  let v2 := broadcastInDim S2x100x12544 ![] bcast_S_S2x100x12544 cst
  let v3 := subf x v2
  let v4 := cmpf .une v3 v3
  let v5 := broadcastInDim S2x100x12544 ![] bcast_S_S2x100x12544 cst
  let v6 := addf x v5
  let v7 := Host.absf v3
  let v8 := Host.negf v7
  let v9 := Host.exp v8
  let v10 := Host.log1p v9
  let v11 := addf v1 v10
  select v4 v6 v11

/-- The body of the reference's clip helper: the minimum of the broadcast upper bound and the maximum of the broadcast
    lower bound and the argument. -/
def clipR (x : FVec Ideal S2x100x30 .f32) (lo hi : FVec Ideal S_ .f32) : FVec Ideal S2x100x30 .f32 :=
  let v0 : FVec Ideal S_ .f32 := id lo
  let v1 := broadcastInDim S2x100x30 ![] bcast_S_S2x100x30 v0
  let v2 := maximumf v1 x
  let v3 : FVec Ideal S_ .f32 := id hi
  let v4 := broadcastInDim S2x100x30 ![] bcast_S_S2x100x30 v3
  minimumf v4 v2

/-- The body of the reference's where helper: a scalar broadcast in two steps to the array's shape, selected where the
    condition holds, the array elsewhere. -/
def whereR (c : IVec S2x100x30 1) (v : FVec Ideal S_ .f32) (x : FVec Ideal S2x100x30 .f32) : FVec Ideal S2x100x30 .f32 :=
  let v0 := broadcastInDim S100x30 ![] bcast_S_S100x30 v
  let v1 := broadcastInDim S2x100x30 ![1, 2] bcast_S100x30_S2x100x30_1_2 v0
  select c v1 x

/-- The body of the reference's NaN-and-infinity replacement: a value unordered with itself becomes the given scalar,
    one equal to +infinity the largest finite number, one equal to -infinity the smallest. -/
def nanToNumR (x : FVec Ideal S2x100x30 .f32) (v : FVec Ideal S_ .f32) : FVec Ideal S2x100x30 .f32 :=
  let v0 := cmpf .une x x
  let v1 : FVec Ideal S_ .f32 := id v
  let v2 := whereR v0 v1 x
  let cst : FVec Ideal S_ .f32 := constant (F := Ideal) S_ .f32 0x7F800000#32
  let v3 := broadcastInDim S2x100x30 ![] bcast_S_S2x100x30 cst
  let v4 := cmpf .oeq v2 v3
  let cst_0 : FVec Ideal S_ .f32 := constant (F := Ideal) S_ .f32 0x7F7FFFFF#32
  let v5 := whereR v4 cst_0 v2
  let cst_1 : FVec Ideal S_ .f32 := constant (F := Ideal) S_ .f32 0xFF800000#32
  let v6 := broadcastInDim S2x100x30 ![] bcast_S_S2x100x30 cst_1
  let v7 := cmpf .oeq v5 v6
  let cst_2 : FVec Ideal S_ .f32 := constant (F := Ideal) S_ .f32 0xFF7FFFFF#32
  whereR v7 cst_2 v5

/-- The reference's last stretch, operation by operation in the printed order, as a function of the sampled query
    logits `P`, the sampled targets `T` and the negated class probabilities `Cl`. -/
def tailR (P : FVec Ideal S2x100x12544 .f32) (T : FVec Ideal S2x30x12544 .f32) (Cl : FVec Ideal S2x100x30 .f32) :
    FVec Ideal S2x100x30 .f32 :=
  let v1009 := Host.negf P
  let v1010 := softplusR v1009
  let cst_409 : FVec Ideal S_ .f32 := constant (F := Ideal) S_ .f32 0x46440000#32
  let v1011 := broadcastInDim S2x100x12544 ![] bcast_S_S2x100x12544 cst_409
  let v1012 := Host.divf v1010 v1011
  let v1013 := softplusR P
  let cst_410 : FVec Ideal S_ .f32 := constant (F := Ideal) S_ .f32 0x46440000#32
  let v1014 := broadcastInDim S2x100x12544 ![] bcast_S_S2x100x12544 cst_410
  let v1015 := Host.divf v1013 v1014
  let v1016 := transpose S2x12544x30 [0, 2, 1] T transposes_S2x30x12544_S2x12544x30_0_2_1
  let v1017 := Host.dotGeneral dot_S2x100x12544_S2x12544x30_S2x100x30_2_1_1_2_0_0 none v1012 v1016
  let cst_411 : FVec Ideal S_ .f32 := constant (F := Ideal) S_ .f32 0x3F800000#32
  let v1018 := broadcastInDim S2x30x12544 ![] bcast_S_S2x30x12544 cst_411
  let v1019 := subf v1018 T
  let v1020 := transpose S2x12544x30 [0, 2, 1] v1019 transposes_S2x30x12544_S2x12544x30_0_2_1
  let v1021 := Host.dotGeneral dot_S2x100x12544_S2x12544x30_S2x100x30_2_1_1_2_0_0 none v1015 v1020
  let v1022 := addf v1017 v1021
  let v1023 := Host.negf P
  let v1024 := Host.exp v1023
  let cst_412 : FVec Ideal S_ .f32 := constant (F := Ideal) S_ .f32 0x3F800000#32
  let v1025 := broadcastInDim S2x100x12544 ![] bcast_S_S2x100x12544 cst_412
  let v1026 := addf v1025 v1024
  let cst_413 : FVec Ideal S_ .f32 := constant (F := Ideal) S_ .f32 0x3F800000#32
  let v1027 := broadcastInDim S2x100x12544 ![] bcast_S_S2x100x12544 cst_413
  let v1028 := Host.divf v1027 v1026
  let v1029 := transpose S2x12544x30 [0, 2, 1] T transposes_S2x30x12544_S2x12544x30_0_2_1
  let v1030 := Host.dotGeneral dot_S2x100x12544_S2x12544x30_S2x100x30_2_1_1_2_0_0 none v1028 v1029
  let cst_414 : FVec Ideal S_ .f32 := constant (F := Ideal) S_ .f32 0x40000000#32
  let v1031 := broadcastInDim S2x100x30 ![] bcast_S_S2x100x30 cst_414
  let v1032 := mulf v1031 v1030
  let cst_415 : FVec Ideal S_ .f32 := constant (F := Ideal) S_ .f32 0x00000000#32
  let v1033 := Host.reduceAdd v1028 cst_415 reducesTo_S2x100x12544_S2x100_d2 h_S_
  let v1034 := broadcastInDim S2x100x1 ![0, 1] bcast_S2x100_S2x100x1_0_1 v1033
  let cst_416 : FVec Ideal S_ .f32 := constant (F := Ideal) S_ .f32 0x00000000#32
  let v1035 := Host.reduceAdd T cst_416 reducesTo_S2x30x12544_S2x30_d2 h_S_
  let v1036 := broadcastInDim S2x1x30 ![0, 2] bcast_S2x30_S2x1x30_0_2 v1035
  let v1037 := broadcastInDim S2x100x30 ![0, 1, 2] bcast_S2x100x1_S2x100x30_0_1_2 v1034
  let v1038 := broadcastInDim S2x100x30 ![0, 1, 2] bcast_S2x1x30_S2x100x30_0_1_2 v1036
  let v1039 := addf v1037 v1038
  let cst_417 : FVec Ideal S_ .f32 := constant (F := Ideal) S_ .f32 0x3F800000#32
  let v1040 := broadcastInDim S2x100x30 ![] bcast_S_S2x100x30 cst_417
  let v1041 := addf v1032 v1040
  let cst_418 : FVec Ideal S_ .f32 := constant (F := Ideal) S_ .f32 0x3F800000#32
  let v1042 := broadcastInDim S2x100x30 ![] bcast_S_S2x100x30 cst_418
  let v1043 := addf v1039 v1042
  let v1044 := Host.divf v1041 v1043
  let cst_419 : FVec Ideal S_ .f32 := constant (F := Ideal) S_ .f32 0x3F800000#32
  let v1045 := broadcastInDim S2x100x30 ![] bcast_S_S2x100x30 cst_419
  let v1046 := subf v1045 v1044
  let cst_420 : FVec Ideal S_ .f32 := constant (F := Ideal) S_ .f32 0x3F800000#32
  let v1047 := broadcastInDim S2x100x30 ![] bcast_S_S2x100x30 cst_420
  let v1048 := mulf v1047 v1022
  let cst_421 : FVec Ideal S_ .f32 := constant (F := Ideal) S_ .f32 0x3F800000#32
  let v1049 := broadcastInDim S2x100x30 ![] bcast_S_S2x100x30 cst_421
  let v1050 := mulf v1049 Cl
  let v1051 := addf v1048 v1050
  let cst_422 : FVec Ideal S_ .f32 := constant (F := Ideal) S_ .f32 0x3F800000#32
  let v1052 := broadcastInDim S2x100x30 ![] bcast_S_S2x100x30 cst_422
  let v1053 := mulf v1052 v1046
  let v1054 := addf v1051 v1053
  let cst_423 : FVec Ideal S_ .f32 := constant (F := Ideal) S_ .f32 0xD01502F9#32
  let cst_424 : FVec Ideal S_ .f32 := constant (F := Ideal) S_ .f32 0x501502F9#32
  let v1055 := clipR v1054 cst_423 cst_424
  let cst_425 : FVec Ideal S_ .f32 := constant (F := Ideal) S_ .f32 0x00000000#32
  nanToNumR v1055 cst_425

/-! ## The layout operations of the stretch read at an index -/

/-- The transpose of the last two axes of a `[2, 30, 12544]` array, read at `(b, p, t)`, is the array at `(b, t, p)`. -/
theorem transposeT_apply {α : Type} (X : S2x30x12544.Idx → α) (b : Fin 2) (p : Fin 12544) (t : Fin 30) :
    transpose S2x12544x30 [0, 2, 1] X transposes_S2x30x12544_S2x12544x30_0_2_1 (ix3 b p t) = X (ix3 b t p) :=
  transpose_apply _ X _ _ _ (fun a => match a with | ⟨0, _⟩ => rfl | ⟨1, _⟩ => rfl | ⟨2, _⟩ => rfl)

/-- The batched product of a `[2, 100, 12544]` by a `[2, 12544, 30]` array, read at `(b, q, t)`, is the sum over the
    points of the products of the entries of batch `b`. -/
theorem dotR_apply (A : FVec Ideal S2x100x12544 .f32) (B : FVec Ideal S2x12544x30 .f32) (b : Fin 2) (q : Fin 100) (t : Fin 30) :
    Host.dotGeneral dot_S2x100x12544_S2x12544x30_S2x100x30_2_1_1_2_0_0 none A B (ix3 b q t)
      = ∑ p : Fin 12544, A (ix3 b q p) * B (ix3 b p t) :=
  StackMember.dotGeneral_stack_apply dot_S2x100x12544_S2x12544x30_S2x100x30_2_1_1_2_0_0_wf none A B b q t

/-- The sum over the points of a `[2, 100, 12544]` array from a scalar initial value, read at `(b, q)`: the initial
    value plus the sum of row `(b, q)`. -/
theorem reduceP_apply (X : FVec Ideal S2x100x12544 .f32) (c : FVec Ideal S_ .f32) (b : Fin 2) (q : Fin 100) :
    Host.reduceAdd X c reducesTo_S2x100x12544_S2x100_d2 h_S_ (ix2 b q) = c ix0 + ∑ p : Fin 12544, X (ix3 b q p) := by
  have hR : S2x100x12544.Reduces [2] S2x100 := by decide
  rw [hostReduceAdd_apply, Ideal.hostReduceAdd_single _ hR]
  have e0 : Shape.Idx.first h_S_ = (ix0 : S_.Idx) := funext fun a => a.elim0
  rw [e0]
  refine congrArg (c ix0 + ·) (Finset.sum_congr rfl fun p _ => congrArg X ?_)
  funext a; apply Fin.ext
  match a with
  | ⟨0, _⟩ => rfl
  | ⟨1, _⟩ => rfl
  | ⟨2, _⟩ => rfl

/-- The sum over the points of a `[2, 30, 12544]` array from a scalar initial value, read at `(b, t)`: the initial
    value plus the sum of row `(b, t)`. -/
theorem reduceT_apply (X : FVec Ideal S2x30x12544 .f32) (c : FVec Ideal S_ .f32) (b : Fin 2) (t : Fin 30) :
    Host.reduceAdd X c reducesTo_S2x30x12544_S2x30_d2 h_S_ (ix2 b t) = c ix0 + ∑ p : Fin 12544, X (ix3 b t p) := by
  have hR : S2x30x12544.Reduces [2] S2x30 := by decide
  rw [hostReduceAdd_apply, Ideal.hostReduceAdd_single _ hR]
  have e0 : Shape.Idx.first h_S_ = (ix0 : S_.Idx) := funext fun a => a.elim0
  rw [e0]
  refine congrArg (c ix0 + ·) (Finset.sum_congr rfl fun p _ => congrArg X ?_)
  funext a; apply Fin.ext
  match a with
  | ⟨0, _⟩ => rfl
  | ⟨1, _⟩ => rfl
  | ⟨2, _⟩ => rfl

/-- A `[2, 100]` array given a unit last axis and then copied along the targets to `[2, 100, 30]`, read at `(b, q, t)`,
    is the array at `(b, q)`. -/
theorem bcastQ_apply {α : Type} (X : S2x100.Idx → α) (b : Fin 2) (q : Fin 100) (t : Fin 30) :
    broadcastInDim S2x100x30 ![0, 1, 2] bcast_S2x100x1_S2x100x30_0_1_2
        (broadcastInDim S2x100x1 ![0, 1] bcast_S2x100_S2x100x1_0_1 X) (ix3 b q t) = X (ix2 b q) := by
  rw [broadcastInDim_apply _ _ _ _ (ix3 b q (0 : Fin 1))
    (fun a => match a with | ⟨0, _⟩ => rfl | ⟨1, _⟩ => rfl | ⟨2, _⟩ => rfl)]
  exact broadcastInDim_apply _ _ _ _ (ix2 b q) (fun a => match a with | ⟨0, _⟩ => rfl | ⟨1, _⟩ => rfl)

/-- A `[2, 30]` array given a unit middle axis and then copied along the queries to `[2, 100, 30]`, read at
    `(b, q, t)`, is the array at `(b, t)`. -/
theorem bcastT_apply {α : Type} (X : S2x30.Idx → α) (b : Fin 2) (q : Fin 100) (t : Fin 30) :
    broadcastInDim S2x100x30 ![0, 1, 2] bcast_S2x1x30_S2x100x30_0_1_2
        (broadcastInDim S2x1x30 ![0, 2] bcast_S2x30_S2x1x30_0_2 X) (ix3 b q t) = X (ix2 b t) := by
  rw [broadcastInDim_apply _ _ _ _ (ix3 b (0 : Fin 1) t)
    (fun a => match a with | ⟨0, _⟩ => rfl | ⟨1, _⟩ => rfl | ⟨2, _⟩ => rfl)]
  exact broadcastInDim_apply _ _ _ _ (ix2 b t) (fun a => match a with | ⟨0, _⟩ => rfl | ⟨1, _⟩ => rfl)

/-! ## A comparison at an index, at the ideal values (by definition) -/

/-- A float comparison of two arrays read at an index compares the two extended reals. -/
private theorem hCmp {s : Shape} {φ : FTy} (p : CmpFPredicate) (a b : FVec Ideal s φ) (i : s.Idx) :
    cmpf p a b i = Ideal.cmp p (a i) (b i) := rfl

/-- The zero word added on the left changes nothing. -/
private theorem zero_word_add (x : EReal) : Ideal.ofBits .f32 0x00000000#32 + x = x := by
  rw [Ideal.ofBits_zero_f32, zero_add]

/-! ## The helpers' bodies at an index -/

/-- The softplus helper at an index is the specification's softplus of the element. -/
theorem softplusR_apply (x : FVec Ideal S2x100x12544 .f32) (i : S2x100x12544.Idx) :
    softplusR x i = Cert.CostSpec.softR (x i) := rfl

/-- The where helper at an index selects between the scalar and the element. -/
theorem whereR_apply (c : IVec S2x100x30 1) (v : FVec Ideal S_ .f32) (x : FVec Ideal S2x100x30 .f32) (i : S2x100x30.Idx) :
    whereR c v x i = Scalar.select (c i) (v ix0) (x i) := by
  show Scalar.select (c i) (broadcastInDim S2x100x30 ![1, 2] bcast_S100x30_S2x100x30_1_2
    (broadcastInDim S100x30 ![] bcast_S_S100x30 v) i) (x i) = _
  congr 1
  unfold broadcastInDim
  exact congrArg v (funext fun a => a.elim0)

/-- The clip helper at an index is the element clamped between the two scalars. -/
theorem clipR_apply (x : FVec Ideal S2x100x30 .f32) (lo hi : FVec Ideal S_ .f32) (i : S2x100x30.Idx) :
    clipR x lo hi i = min (hi ix0) (max (lo ix0) (x i)) := by
  show min (broadcastInDim S2x100x30 ![] bcast_S_S2x100x30 (id hi) i)
    (max (broadcastInDim S2x100x30 ![] bcast_S_S2x100x30 (id lo) i) (x i)) = _
  rw [broadcastInDim_scalar_apply, broadcastInDim_scalar_apply]
  rfl

/-- The NaN-and-infinity replacement at an index: three selects in a row on the element. -/
theorem nanToNumR_apply (x : FVec Ideal S2x100x30 .f32) (v : FVec Ideal S_ .f32) (i : S2x100x30.Idx) :
    nanToNumR x v i =
      Scalar.select (Ideal.cmp .oeq
          (Scalar.select (Ideal.cmp .oeq (Scalar.select (Ideal.cmp .une (x i) (x i)) (v ix0) (x i)) Cert.CostSpec.pInf)
            Cert.CostSpec.fMax (Scalar.select (Ideal.cmp .une (x i) (x i)) (v ix0) (x i)))
          Cert.CostSpec.nInf)
        Cert.CostSpec.fMin
        (Scalar.select (Ideal.cmp .oeq (Scalar.select (Ideal.cmp .une (x i) (x i)) (v ix0) (x i)) Cert.CostSpec.pInf)
          Cert.CostSpec.fMax (Scalar.select (Ideal.cmp .une (x i) (x i)) (v ix0) (x i))) := by
  unfold nanToNumR
  simp only [whereR_apply, hCmp, constant_apply, id_eq]
  rfl

/-! ## The stretch at an index -/

/-- The cost as a function of its five sums over the points and of the class term: what the stretch computes at an
    index once its three batched products and its two reductions, read there, are named. -/
def costF (m1 m2 dn s1 s2 c : EReal) : EReal :=
  let mask := m1 + m2
  let dice := Cert.CostSpec.o1 - Ideal.div (Cert.CostSpec.t2 * dn + Cert.CostSpec.o1) ((s1 + s2) + Cert.CostSpec.o1)
  let cc := (Cert.CostSpec.o1 * mask + Cert.CostSpec.o1 * c) + Cert.CostSpec.o1 * dice
  let cl := min Cert.CostSpec.hi (max Cert.CostSpec.lo cc)
  let a := Scalar.select (Ideal.cmp .une cl cl) Cert.CostSpec.z0 cl
  let b := Scalar.select (Ideal.cmp .oeq a Cert.CostSpec.pInf) Cert.CostSpec.fMax a
  Scalar.select (Ideal.cmp .oeq b Cert.CostSpec.nInf) Cert.CostSpec.fMin b

/-- Every operation of the stretch but the three products and the two reductions is pointwise (a broadcast scalar
    reads its word everywhere), so at an index the stretch is `costF` of the products and the broadcast reductions
    read at that index: the pointwise operations read through at the index one by one. -/
theorem tailR_pointwise (P : FVec Ideal S2x100x12544 .f32) (T : FVec Ideal S2x30x12544 .f32) (Cl : FVec Ideal S2x100x30 .f32)
    (i : S2x100x30.Idx) :
    tailR P T Cl i
      = costF ((Host.dotGeneral dot_S2x100x12544_S2x12544x30_S2x100x30_2_1_1_2_0_0 none (Host.divf (softplusR (Host.negf P)) (broadcastInDim S2x100x12544 ![] bcast_S_S2x100x12544 (constant (F := Ideal) S_ .f32 0x46440000#32))) (transpose S2x12544x30 [0, 2, 1] T transposes_S2x30x12544_S2x12544x30_0_2_1)) i)
          ((Host.dotGeneral dot_S2x100x12544_S2x12544x30_S2x100x30_2_1_1_2_0_0 none (Host.divf (softplusR P) (broadcastInDim S2x100x12544 ![] bcast_S_S2x100x12544 (constant (F := Ideal) S_ .f32 0x46440000#32))) (transpose S2x12544x30 [0, 2, 1] (subf (broadcastInDim S2x30x12544 ![] bcast_S_S2x30x12544 (constant (F := Ideal) S_ .f32 0x3F800000#32)) T) transposes_S2x30x12544_S2x12544x30_0_2_1)) i)
          ((Host.dotGeneral dot_S2x100x12544_S2x12544x30_S2x100x30_2_1_1_2_0_0 none (Host.divf (broadcastInDim S2x100x12544 ![] bcast_S_S2x100x12544 (constant (F := Ideal) S_ .f32 0x3F800000#32)) (addf (broadcastInDim S2x100x12544 ![] bcast_S_S2x100x12544 (constant (F := Ideal) S_ .f32 0x3F800000#32)) (Host.exp (Host.negf P)))) (transpose S2x12544x30 [0, 2, 1] T transposes_S2x30x12544_S2x12544x30_0_2_1)) i)
          ((broadcastInDim S2x100x30 ![0, 1, 2] bcast_S2x100x1_S2x100x30_0_1_2 (broadcastInDim S2x100x1 ![0, 1] bcast_S2x100_S2x100x1_0_1 (Host.reduceAdd (Host.divf (broadcastInDim S2x100x12544 ![] bcast_S_S2x100x12544 (constant (F := Ideal) S_ .f32 0x3F800000#32)) (addf (broadcastInDim S2x100x12544 ![] bcast_S_S2x100x12544 (constant (F := Ideal) S_ .f32 0x3F800000#32)) (Host.exp (Host.negf P)))) (constant (F := Ideal) S_ .f32 0x00000000#32) reducesTo_S2x100x12544_S2x100_d2 h_S_))) i)
          ((broadcastInDim S2x100x30 ![0, 1, 2] bcast_S2x1x30_S2x100x30_0_1_2 (broadcastInDim S2x1x30 ![0, 2] bcast_S2x30_S2x1x30_0_2 (Host.reduceAdd T (constant (F := Ideal) S_ .f32 0x00000000#32) reducesTo_S2x30x12544_S2x30_d2 h_S_))) i)
          (Cl i) := by
  unfold tailR costF
  simp only [nanToNumR_apply, clipR_apply, constant_apply, addf_apply, mulf_apply, subf_apply, hostDivf_apply]
  rw [broadcastInDim_scalar_apply bcast_S_S2x100x30 (constant (F := Ideal) S_ .f32 0x3F800000#32) i,
    broadcastInDim_scalar_apply bcast_S_S2x100x30 (constant (F := Ideal) S_ .f32 0x40000000#32) i]
  simp only [constant_apply]
  all_goals with_reducible rfl

/-- The first product read at `(b, q, t)`: the positive cross-entropy terms against the targets. -/
theorem dot1_apply (P : FVec Ideal S2x100x12544 .f32) (T : FVec Ideal S2x30x12544 .f32) (b : Fin 2) (q : Fin 100) (t : Fin 30) :
    (Host.dotGeneral dot_S2x100x12544_S2x12544x30_S2x100x30_2_1_1_2_0_0 none (Host.divf (softplusR (Host.negf P)) (broadcastInDim S2x100x12544 ![] bcast_S_S2x100x12544 (constant (F := Ideal) S_ .f32 0x46440000#32))) (transpose S2x12544x30 [0, 2, 1] T transposes_S2x30x12544_S2x12544x30_0_2_1)) (ix3 b q t)
      = ∑ p : Fin 12544, Ideal.div (Cert.CostSpec.softR (-(P (ix3 b q p)))) Cert.CostSpec.nP * T (ix3 b t p) := by
  rw [dotR_apply]
  refine Finset.sum_congr rfl fun p _ => ?_
  rw [transposeT_apply T b p t]
  rfl

/-- The second product read at `(b, q, t)`: the negative cross-entropy terms against one minus the targets. -/
theorem dot2_apply (P : FVec Ideal S2x100x12544 .f32) (T : FVec Ideal S2x30x12544 .f32) (b : Fin 2) (q : Fin 100) (t : Fin 30) :
    (Host.dotGeneral dot_S2x100x12544_S2x12544x30_S2x100x30_2_1_1_2_0_0 none (Host.divf (softplusR P) (broadcastInDim S2x100x12544 ![] bcast_S_S2x100x12544 (constant (F := Ideal) S_ .f32 0x46440000#32))) (transpose S2x12544x30 [0, 2, 1] (subf (broadcastInDim S2x30x12544 ![] bcast_S_S2x30x12544 (constant (F := Ideal) S_ .f32 0x3F800000#32)) T) transposes_S2x30x12544_S2x12544x30_0_2_1)) (ix3 b q t)
      = ∑ p : Fin 12544, Ideal.div (Cert.CostSpec.softR (P (ix3 b q p))) Cert.CostSpec.nP * (Cert.CostSpec.o1 - T (ix3 b t p)) := by
  rw [dotR_apply]
  refine Finset.sum_congr rfl fun p _ => ?_
  rw [transposeT_apply (subf (broadcastInDim S2x30x12544 ![] bcast_S_S2x30x12544 (constant (F := Ideal) S_ .f32 0x3F800000#32)) T) b p t]
  rfl

/-- The third product read at `(b, q, t)`: the logistic of the logits against the targets. -/
theorem dot3_apply (P : FVec Ideal S2x100x12544 .f32) (T : FVec Ideal S2x30x12544 .f32) (b : Fin 2) (q : Fin 100) (t : Fin 30) :
    (Host.dotGeneral dot_S2x100x12544_S2x12544x30_S2x100x30_2_1_1_2_0_0 none (Host.divf (broadcastInDim S2x100x12544 ![] bcast_S_S2x100x12544 (constant (F := Ideal) S_ .f32 0x3F800000#32)) (addf (broadcastInDim S2x100x12544 ![] bcast_S_S2x100x12544 (constant (F := Ideal) S_ .f32 0x3F800000#32)) (Host.exp (Host.negf P)))) (transpose S2x12544x30 [0, 2, 1] T transposes_S2x30x12544_S2x12544x30_0_2_1)) (ix3 b q t)
      = ∑ p : Fin 12544, Ideal.div Cert.CostSpec.o1 (Cert.CostSpec.o1 + Ideal.exp (-(P (ix3 b q p)))) * T (ix3 b t p) := by
  rw [dotR_apply]
  refine Finset.sum_congr rfl fun p _ => ?_
  rw [transposeT_apply T b p t]
  rfl

/-- The broadcast sum of the logistic over the points read at `(b, q, t)`: the zero word is zero, so just the sum. -/
theorem red1_apply (P : FVec Ideal S2x100x12544 .f32) (b : Fin 2) (q : Fin 100) (t : Fin 30) :
    (broadcastInDim S2x100x30 ![0, 1, 2] bcast_S2x100x1_S2x100x30_0_1_2 (broadcastInDim S2x100x1 ![0, 1] bcast_S2x100_S2x100x1_0_1 (Host.reduceAdd (Host.divf (broadcastInDim S2x100x12544 ![] bcast_S_S2x100x12544 (constant (F := Ideal) S_ .f32 0x3F800000#32)) (addf (broadcastInDim S2x100x12544 ![] bcast_S_S2x100x12544 (constant (F := Ideal) S_ .f32 0x3F800000#32)) (Host.exp (Host.negf P)))) (constant (F := Ideal) S_ .f32 0x00000000#32) reducesTo_S2x100x12544_S2x100_d2 h_S_))) (ix3 b q t)
      = ∑ p : Fin 12544, Ideal.div Cert.CostSpec.o1 (Cert.CostSpec.o1 + Ideal.exp (-(P (ix3 b q p)))) := by
  rw [bcastQ_apply _ b q t, reduceP_apply]
  show Ideal.ofBits .f32 0x00000000#32 + _ = _
  rw [zero_word_add]
  rfl

/-- The broadcast sum of the targets over the points read at `(b, q, t)`. -/
theorem red2_apply (T : FVec Ideal S2x30x12544 .f32) (b : Fin 2) (q : Fin 100) (t : Fin 30) :
    (broadcastInDim S2x100x30 ![0, 1, 2] bcast_S2x1x30_S2x100x30_0_1_2 (broadcastInDim S2x1x30 ![0, 2] bcast_S2x30_S2x1x30_0_2 (Host.reduceAdd T (constant (F := Ideal) S_ .f32 0x00000000#32) reducesTo_S2x30x12544_S2x30_d2 h_S_))) (ix3 b q t)
      = ∑ p : Fin 12544, T (ix3 b t p) := by
  rw [bcastT_apply _ b q t, reduceT_apply]
  show Ideal.ofBits .f32 0x00000000#32 + _ = _
  rw [zero_word_add]

/-- The reference's last stretch read at batch `b`, query `q`, target `t` is the specification's cost of batch `b`'s
    slices of the three arrays: pointwise it is `costF` of three products and two broadcast reductions; each product
    is the sum over the points of the products of the entries, each reduction the zero word plus the sum over the
    points, and the zero word is the extended real zero. -/
theorem tailR_apply (P : FVec Ideal S2x100x12544 .f32) (T : FVec Ideal S2x30x12544 .f32) (Cl : FVec Ideal S2x100x30 .f32)
    (b : Fin 2) (q : Fin 100) (t : Fin 30) :
    tailR P T Cl (ix3 b q t)
      = Cert.CostSpec.costR (fun q p => P (ix3 b q p)) (fun t p => T (ix3 b t p)) (fun q t => Cl (ix3 b q t)) q t := by
  rw [tailR_pointwise, dot1_apply, dot2_apply, dot3_apply, red1_apply, red2_apply]
  rfl

end Cert.ReferenceIdeal.HandTail

end
-- ==== Proof.RefFoldTail.lean ====
/- The end of the reference's fold. Window 23's list is cut in three (the end of the sampled targets' sum, the class
   term, the beginning of the last stretch); the class term is read off its part as the definition of the class array,
   and the result buffer is read off the last part and window 24 together as the last stretch's function of the three
   arrays it reads. A part that does not write a buffer leaves it as it was, which carries both readings to the whole
   list's fold from any starting contents. -/
import proofs.«103167_j42614665511136_1_alg».proof.Proof.RefRun
import proofs.«103167_j42614665511136_1_alg».proof.Proof.RefSampling
import proofs.«103167_j42614665511136_1_alg».proof.Proof.RefTail

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo Idealize.ShloMosaic.ValueIdx Cert.LibSeqChunks

variable {F : FTy → Type} [FloatOps F]

set_option maxRecDepth 8192 in
set_option maxHeartbeats 4000000 in
/-- Window main_part23's operations that are the end of the sampled targets' sum (20 of its 90), in order. -/
abbrev ops_part23a : List (HloOp τ sig (Elt F)) :=
  [ StableHlo.binary main_v964 main_v975 main_v976 (cmpi .slt : (⟨S2x12544, .i32⟩ : BufTy).Contents (Elt F) → (⟨S2x12544, .i32⟩ : BufTy).Contents (Elt F) → (⟨S2x12544, .i1⟩ : BufTy).Contents (Elt F)),
    StableHlo.nullary main_c_402 (constantI S_ 32 64#32),
    StableHlo.unary main_c_402 main_v977 (broadcastInDim S2x12544 ![] bcast_S_S2x12544 : (⟨S_, .i32⟩ : BufTy).Contents (Elt F) → (⟨S2x12544, .i32⟩ : BufTy).Contents (Elt F)),
    StableHlo.binary main_v964 main_v977 main_v978 (addi : (⟨S2x12544, .i32⟩ : BufTy).Contents (Elt F) → (⟨S2x12544, .i32⟩ : BufTy).Contents (Elt F) → (⟨S2x12544, .i32⟩ : BufTy).Contents (Elt F)),
    StableHlo.ternary main_v976 main_v978 main_v964 main_v979 (select : (⟨S2x12544, .i1⟩ : BufTy).Contents (Elt F) → (⟨S2x12544, .i32⟩ : BufTy).Contents (Elt F) → (⟨S2x12544, .i32⟩ : BufTy).Contents (Elt F) → (⟨S2x12544, .i32⟩ : BufTy).Contents (Elt F)),
    StableHlo.unary main_v969 main_v980 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v974 main_v981 (broadcastInDim S2x12544x1 ![0, 1] bcast_S2x12544_S2x12544x1_0_1 : (⟨S2x12544, .i32⟩ : BufTy).Contents (Elt F) → (⟨S2x12544x1, .i32⟩ : BufTy).Contents (Elt F)),
    StableHlo.unary main_v979 main_v982 (broadcastInDim S2x12544x1 ![0, 1] bcast_S2x12544_S2x12544x1_0_1 : (⟨S2x12544, .i32⟩ : BufTy).Contents (Elt F) → (⟨S2x12544x1, .i32⟩ : BufTy).Contents (Elt F)),
    StableHlo.nary ![main_v980, main_v981, main_v982] main_v983 (fun u => concatenate S2x12544x3 2 [⟨S2x12544x1, u 0⟩, ⟨S2x12544x1, u 1⟩, ⟨S2x12544x1, u 2⟩] concatenates_S2x12544x1_S2x12544x1_S2x12544x1_S2x12544x3_d2),
    StableHlo.binary main_arg2 main_v983 main_v984 ((fun x i => Host.gather gather_S2x30x64x64x64_S2x12544x3_S2x30x12544_1_234_0_0_234_2_130111 x i) : (⟨S2x30x64x64x64, .f32⟩ : BufTy).Contents (Elt F) → (⟨S2x12544x3, .i32⟩ : BufTy).Contents (Elt F) → (⟨S2x30x12544, .f32⟩ : BufTy).Contents (Elt F)),
    StableHlo.nullary main_cst_403 (constant S_ .f32 0x00000000#32),
    StableHlo.TRef.unary (.of main_cst_403 : StableHlo.TRef sig ⟨S_, .f32⟩) (.of main_call63_v0 : StableHlo.TRef sig ⟨S12544, .f32⟩) (broadcastInDim S12544 ![] bcast_S_S12544),
    StableHlo.TRef.unary (.of main_v961 : StableHlo.TRef sig ⟨S2x12544, .i1⟩) (.of main_call63_v1 : StableHlo.TRef sig ⟨S2x30x12544, .i1⟩) (broadcastInDim S2x30x12544 ![0, 2] bcast_S2x12544_S2x30x12544_0_2),
    StableHlo.TRef.unary (.of main_call63_v0 : StableHlo.TRef sig ⟨S12544, .f32⟩) (.of main_call63_v2 : StableHlo.TRef sig ⟨S30x12544, .f32⟩) (broadcastInDim S30x12544 ![1] bcast_S12544_S30x12544_1),
    StableHlo.TRef.unary (.of main_call63_v2 : StableHlo.TRef sig ⟨S30x12544, .f32⟩) (.of main_call63_v3 : StableHlo.TRef sig ⟨S2x30x12544, .f32⟩) (broadcastInDim S2x30x12544 ![1, 2] bcast_S30x12544_S2x30x12544_1_2),
    StableHlo.TRef.ternary (.of main_call63_v1 : StableHlo.TRef sig ⟨S2x30x12544, .i1⟩) (.of main_v984 : StableHlo.TRef sig ⟨S2x30x12544, .f32⟩) (.of main_call63_v3 : StableHlo.TRef sig ⟨S2x30x12544, .f32⟩) (.of main_v985 : StableHlo.TRef sig ⟨S2x30x12544, .f32⟩) select,
    StableHlo.unary main_v938 main_v986 (broadcastInDim S2x1x12544 ![0, 2] bcast_S2x12544_S2x1x12544_0_2 : (⟨S2x12544, .f32⟩ : BufTy).Contents (Elt F) → (⟨S2x1x12544, .f32⟩ : BufTy).Contents (Elt F)),
    StableHlo.unary main_v986 main_v987 (broadcastInDim S2x30x12544 ![0, 1, 2] bcast_S2x1x12544_S2x30x12544_0_1_2 : (⟨S2x1x12544, .f32⟩ : BufTy).Contents (Elt F) → (⟨S2x30x12544, .f32⟩ : BufTy).Contents (Elt F)),
    StableHlo.binary main_v987 main_v985 main_v988 (mulf : (⟨S2x30x12544, .f32⟩ : BufTy).Contents (Elt F) → (⟨S2x30x12544, .f32⟩ : BufTy).Contents (Elt F) → (⟨S2x30x12544, .f32⟩ : BufTy).Contents (Elt F)),
    StableHlo.binary main_v936 main_v988 main_v989 (addf : (⟨S2x30x12544, .f32⟩ : BufTy).Contents (Elt F) → (⟨S2x30x12544, .f32⟩ : BufTy).Contents (Elt F) → (⟨S2x30x12544, .f32⟩ : BufTy).Contents (Elt F)) ]

/-- The buffers these operations write, in order. -/
abbrev ops_part23a_W : List (Ref sig .tc) := [main_v976, main_c_402, main_v977, main_v978, main_v979, main_v980, main_v981, main_v982, main_v983, main_v984, main_cst_403, main_call63_v0, main_call63_v1, main_call63_v2, main_call63_v3, main_v985, main_v986, main_v987, main_v988, main_v989]

set_option maxRecDepth 8192 in
/-- Each of these operations writes one buffer of that list. -/
theorem ops_part23a_writes : (ops_part23a : List (HloOp τ sig (Elt F))).Forall fun op => op.writes ⊆ (ops_part23a_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

set_option maxRecDepth 8192 in
set_option maxHeartbeats 4000000 in
/-- Window main_part23's operations that are the class term: softmax, class gather, negation (24 of its 90), in order. -/
abbrev ops_part23b : List (HloOp τ sig (Elt F)) :=
  [ StableHlo.nullary main_cst_404 (constant S_ .f32 0xFF800000#32),
    StableHlo.binary main_arg1 main_cst_404 main_v990 ((fun x v => Host.reduce FloatOps.maximumf x v reducesTo_S2x100x134_S2x100_d2 h_S_) : (⟨S2x100x134, .f32⟩ : BufTy).Contents (Elt F) → (⟨S_, .f32⟩ : BufTy).Contents (Elt F) → (⟨S2x100, .f32⟩ : BufTy).Contents (Elt F)),
    StableHlo.nullary main_cst_405 (constant S_ .f32 0xFF800000#32),
    StableHlo.unary main_cst_405 main_v991 (broadcastInDim S2x100 ![] bcast_S_S2x100 : (⟨S_, .f32⟩ : BufTy).Contents (Elt F) → (⟨S2x100, .f32⟩ : BufTy).Contents (Elt F)),
    StableHlo.binary main_v991 main_v990 main_v992 (maximumf : (⟨S2x100, .f32⟩ : BufTy).Contents (Elt F) → (⟨S2x100, .f32⟩ : BufTy).Contents (Elt F) → (⟨S2x100, .f32⟩ : BufTy).Contents (Elt F)),
    StableHlo.unary main_v992 main_v993 (broadcastInDim S2x100x1 ![0, 1] bcast_S2x100_S2x100x1_0_1 : (⟨S2x100, .f32⟩ : BufTy).Contents (Elt F) → (⟨S2x100x1, .f32⟩ : BufTy).Contents (Elt F)),
    StableHlo.unary main_v993 main_v994 (broadcastInDim S2x100x134 ![0, 1, 2] bcast_S2x100x1_S2x100x134_0_1_2 : (⟨S2x100x1, .f32⟩ : BufTy).Contents (Elt F) → (⟨S2x100x134, .f32⟩ : BufTy).Contents (Elt F)),
    StableHlo.binary main_arg1 main_v994 main_v995 (subf : (⟨S2x100x134, .f32⟩ : BufTy).Contents (Elt F) → (⟨S2x100x134, .f32⟩ : BufTy).Contents (Elt F) → (⟨S2x100x134, .f32⟩ : BufTy).Contents (Elt F)),
    StableHlo.unary main_v995 main_v996 (Host.exp : (⟨S2x100x134, .f32⟩ : BufTy).Contents (Elt F) → (⟨S2x100x134, .f32⟩ : BufTy).Contents (Elt F)),
    StableHlo.nullary main_cst_406 (constant S_ .f32 0x00000000#32),
    StableHlo.binary main_v996 main_cst_406 main_v997 ((fun x v => Host.reduceAdd x v reducesTo_S2x100x134_S2x100_d2 h_S_) : (⟨S2x100x134, .f32⟩ : BufTy).Contents (Elt F) → (⟨S_, .f32⟩ : BufTy).Contents (Elt F) → (⟨S2x100, .f32⟩ : BufTy).Contents (Elt F)),
    StableHlo.unary main_v997 main_v998 (broadcastInDim S2x100x1 ![0, 1] bcast_S2x100_S2x100x1_0_1 : (⟨S2x100, .f32⟩ : BufTy).Contents (Elt F) → (⟨S2x100x1, .f32⟩ : BufTy).Contents (Elt F)),
    StableHlo.unary main_v998 main_v999 (broadcastInDim S2x100x134 ![0, 1, 2] bcast_S2x100x1_S2x100x134_0_1_2 : (⟨S2x100x1, .f32⟩ : BufTy).Contents (Elt F) → (⟨S2x100x134, .f32⟩ : BufTy).Contents (Elt F)),
    StableHlo.binary main_v996 main_v999 main_v1000 (Host.divf : (⟨S2x100x134, .f32⟩ : BufTy).Contents (Elt F) → (⟨S2x100x134, .f32⟩ : BufTy).Contents (Elt F) → (⟨S2x100x134, .f32⟩ : BufTy).Contents (Elt F)),
    StableHlo.nullary main_c_407 (constantI S_ 32 0#32),
    StableHlo.unary main_c_407 main_v1001 (broadcastInDim S2x30 ![] bcast_S_S2x30 : (⟨S_, .i32⟩ : BufTy).Contents (Elt F) → (⟨S2x30, .i32⟩ : BufTy).Contents (Elt F)),
    StableHlo.binary main_arg4 main_v1001 main_v1002 (cmpi .slt : (⟨S2x30, .i32⟩ : BufTy).Contents (Elt F) → (⟨S2x30, .i32⟩ : BufTy).Contents (Elt F) → (⟨S2x30, .i1⟩ : BufTy).Contents (Elt F)),
    StableHlo.nullary main_c_408 (constantI S_ 32 134#32),
    StableHlo.unary main_c_408 main_v1003 (broadcastInDim S2x30 ![] bcast_S_S2x30 : (⟨S_, .i32⟩ : BufTy).Contents (Elt F) → (⟨S2x30, .i32⟩ : BufTy).Contents (Elt F)),
    StableHlo.binary main_arg4 main_v1003 main_v1004 (addi : (⟨S2x30, .i32⟩ : BufTy).Contents (Elt F) → (⟨S2x30, .i32⟩ : BufTy).Contents (Elt F) → (⟨S2x30, .i32⟩ : BufTy).Contents (Elt F)),
    StableHlo.ternary main_v1002 main_v1004 main_arg4 main_v1005 (select : (⟨S2x30, .i1⟩ : BufTy).Contents (Elt F) → (⟨S2x30, .i32⟩ : BufTy).Contents (Elt F) → (⟨S2x30, .i32⟩ : BufTy).Contents (Elt F) → (⟨S2x30, .i32⟩ : BufTy).Contents (Elt F)),
    StableHlo.unary main_v1005 main_v1006 (broadcastInDim S2x30x1 ![0, 1] bcast_S2x30_S2x30x1_0_1 : (⟨S2x30, .i32⟩ : BufTy).Contents (Elt F) → (⟨S2x30x1, .i32⟩ : BufTy).Contents (Elt F)),
    StableHlo.binary main_v1000 main_v1006 main_v1007 ((fun x i => Host.gather gather_S2x100x134_S2x30x1_S2x100x30_1_2_0_0_2_2_11001 x i) : (⟨S2x100x134, .f32⟩ : BufTy).Contents (Elt F) → (⟨S2x30x1, .i32⟩ : BufTy).Contents (Elt F) → (⟨S2x100x30, .f32⟩ : BufTy).Contents (Elt F)),
    StableHlo.unary main_v1007 main_v1008 (Host.negf : (⟨S2x100x30, .f32⟩ : BufTy).Contents (Elt F) → (⟨S2x100x30, .f32⟩ : BufTy).Contents (Elt F)) ]

/-- The buffers these operations write, in order. -/
abbrev ops_part23b_W : List (Ref sig .tc) := [main_cst_404, main_v990, main_cst_405, main_v991, main_v992, main_v993, main_v994, main_v995, main_v996, main_cst_406, main_v997, main_v998, main_v999, main_v1000, main_c_407, main_v1001, main_v1002, main_c_408, main_v1003, main_v1004, main_v1005, main_v1006, main_v1007, main_v1008]

set_option maxRecDepth 8192 in
/-- Each of these operations writes one buffer of that list. -/
theorem ops_part23b_writes : (ops_part23b : List (HloOp τ sig (Elt F))).Forall fun op => op.writes ⊆ (ops_part23b_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

set_option maxRecDepth 8192 in
set_option maxHeartbeats 4000000 in
/-- Window main_part23's operations that are the first operations of the last stretch (46 of its 90), in order. -/
abbrev ops_part23c : List (HloOp τ sig (Elt F)) :=
  [ StableHlo.unary main_v494 main_v1009 (Host.negf : (⟨S2x100x12544, .f32⟩ : BufTy).Contents (Elt F) → (⟨S2x100x12544, .f32⟩ : BufTy).Contents (Elt F)),
    StableHlo.TRef.nullary (.of main_call64_cst : StableHlo.TRef sig ⟨S_, .f32⟩) (constant S_ .f32 0x00000000#32),
    StableHlo.TRef.unary (.of main_call64_cst : StableHlo.TRef sig ⟨S_, .f32⟩) (.of main_call64_v0 : StableHlo.TRef sig ⟨S2x100x12544, .f32⟩) (broadcastInDim S2x100x12544 ![] bcast_S_S2x100x12544),
    StableHlo.TRef.binary (.of main_v1009 : StableHlo.TRef sig ⟨S2x100x12544, .f32⟩) (.of main_call64_v0 : StableHlo.TRef sig ⟨S2x100x12544, .f32⟩) (.of main_call64_v1 : StableHlo.TRef sig ⟨S2x100x12544, .f32⟩) maximumf,
    StableHlo.TRef.unary (.of main_call64_cst : StableHlo.TRef sig ⟨S_, .f32⟩) (.of main_call64_v2 : StableHlo.TRef sig ⟨S2x100x12544, .f32⟩) (broadcastInDim S2x100x12544 ![] bcast_S_S2x100x12544),
    StableHlo.TRef.binary (.of main_v1009 : StableHlo.TRef sig ⟨S2x100x12544, .f32⟩) (.of main_call64_v2 : StableHlo.TRef sig ⟨S2x100x12544, .f32⟩) (.of main_call64_v3 : StableHlo.TRef sig ⟨S2x100x12544, .f32⟩) subf,
    StableHlo.TRef.binary (.of main_call64_v3 : StableHlo.TRef sig ⟨S2x100x12544, .f32⟩) (.of main_call64_v3 : StableHlo.TRef sig ⟨S2x100x12544, .f32⟩) (.of main_call64_v4 : StableHlo.TRef sig ⟨S2x100x12544, .i1⟩) (cmpf .une),
    StableHlo.TRef.unary (.of main_call64_cst : StableHlo.TRef sig ⟨S_, .f32⟩) (.of main_call64_v5 : StableHlo.TRef sig ⟨S2x100x12544, .f32⟩) (broadcastInDim S2x100x12544 ![] bcast_S_S2x100x12544),
    StableHlo.TRef.binary (.of main_v1009 : StableHlo.TRef sig ⟨S2x100x12544, .f32⟩) (.of main_call64_v5 : StableHlo.TRef sig ⟨S2x100x12544, .f32⟩) (.of main_call64_v6 : StableHlo.TRef sig ⟨S2x100x12544, .f32⟩) addf,
    StableHlo.TRef.unary (.of main_call64_v3 : StableHlo.TRef sig ⟨S2x100x12544, .f32⟩) (.of main_call64_v7 : StableHlo.TRef sig ⟨S2x100x12544, .f32⟩) Host.absf,
    StableHlo.TRef.unary (.of main_call64_v7 : StableHlo.TRef sig ⟨S2x100x12544, .f32⟩) (.of main_call64_v8 : StableHlo.TRef sig ⟨S2x100x12544, .f32⟩) Host.negf,
    StableHlo.TRef.unary (.of main_call64_v8 : StableHlo.TRef sig ⟨S2x100x12544, .f32⟩) (.of main_call64_v9 : StableHlo.TRef sig ⟨S2x100x12544, .f32⟩) Host.exp,
    StableHlo.TRef.unary (.of main_call64_v9 : StableHlo.TRef sig ⟨S2x100x12544, .f32⟩) (.of main_call64_v10 : StableHlo.TRef sig ⟨S2x100x12544, .f32⟩) Host.log1p,
    StableHlo.TRef.binary (.of main_call64_v1 : StableHlo.TRef sig ⟨S2x100x12544, .f32⟩) (.of main_call64_v10 : StableHlo.TRef sig ⟨S2x100x12544, .f32⟩) (.of main_call64_v11 : StableHlo.TRef sig ⟨S2x100x12544, .f32⟩) addf,
    StableHlo.TRef.ternary (.of main_call64_v4 : StableHlo.TRef sig ⟨S2x100x12544, .i1⟩) (.of main_call64_v6 : StableHlo.TRef sig ⟨S2x100x12544, .f32⟩) (.of main_call64_v11 : StableHlo.TRef sig ⟨S2x100x12544, .f32⟩) (.of main_v1010 : StableHlo.TRef sig ⟨S2x100x12544, .f32⟩) select,
    StableHlo.nullary main_cst_409 (constant S_ .f32 0x46440000#32),
    StableHlo.unary main_cst_409 main_v1011 (broadcastInDim S2x100x12544 ![] bcast_S_S2x100x12544 : (⟨S_, .f32⟩ : BufTy).Contents (Elt F) → (⟨S2x100x12544, .f32⟩ : BufTy).Contents (Elt F)),
    StableHlo.binary main_v1010 main_v1011 main_v1012 (Host.divf : (⟨S2x100x12544, .f32⟩ : BufTy).Contents (Elt F) → (⟨S2x100x12544, .f32⟩ : BufTy).Contents (Elt F) → (⟨S2x100x12544, .f32⟩ : BufTy).Contents (Elt F)),
    StableHlo.TRef.nullary (.of main_call65_cst : StableHlo.TRef sig ⟨S_, .f32⟩) (constant S_ .f32 0x00000000#32),
    StableHlo.TRef.unary (.of main_call65_cst : StableHlo.TRef sig ⟨S_, .f32⟩) (.of main_call65_v0 : StableHlo.TRef sig ⟨S2x100x12544, .f32⟩) (broadcastInDim S2x100x12544 ![] bcast_S_S2x100x12544),
    StableHlo.TRef.binary (.of main_v494 : StableHlo.TRef sig ⟨S2x100x12544, .f32⟩) (.of main_call65_v0 : StableHlo.TRef sig ⟨S2x100x12544, .f32⟩) (.of main_call65_v1 : StableHlo.TRef sig ⟨S2x100x12544, .f32⟩) maximumf,
    StableHlo.TRef.unary (.of main_call65_cst : StableHlo.TRef sig ⟨S_, .f32⟩) (.of main_call65_v2 : StableHlo.TRef sig ⟨S2x100x12544, .f32⟩) (broadcastInDim S2x100x12544 ![] bcast_S_S2x100x12544),
    StableHlo.TRef.binary (.of main_v494 : StableHlo.TRef sig ⟨S2x100x12544, .f32⟩) (.of main_call65_v2 : StableHlo.TRef sig ⟨S2x100x12544, .f32⟩) (.of main_call65_v3 : StableHlo.TRef sig ⟨S2x100x12544, .f32⟩) subf,
    StableHlo.TRef.binary (.of main_call65_v3 : StableHlo.TRef sig ⟨S2x100x12544, .f32⟩) (.of main_call65_v3 : StableHlo.TRef sig ⟨S2x100x12544, .f32⟩) (.of main_call65_v4 : StableHlo.TRef sig ⟨S2x100x12544, .i1⟩) (cmpf .une),
    StableHlo.TRef.unary (.of main_call65_cst : StableHlo.TRef sig ⟨S_, .f32⟩) (.of main_call65_v5 : StableHlo.TRef sig ⟨S2x100x12544, .f32⟩) (broadcastInDim S2x100x12544 ![] bcast_S_S2x100x12544),
    StableHlo.TRef.binary (.of main_v494 : StableHlo.TRef sig ⟨S2x100x12544, .f32⟩) (.of main_call65_v5 : StableHlo.TRef sig ⟨S2x100x12544, .f32⟩) (.of main_call65_v6 : StableHlo.TRef sig ⟨S2x100x12544, .f32⟩) addf,
    StableHlo.TRef.unary (.of main_call65_v3 : StableHlo.TRef sig ⟨S2x100x12544, .f32⟩) (.of main_call65_v7 : StableHlo.TRef sig ⟨S2x100x12544, .f32⟩) Host.absf,
    StableHlo.TRef.unary (.of main_call65_v7 : StableHlo.TRef sig ⟨S2x100x12544, .f32⟩) (.of main_call65_v8 : StableHlo.TRef sig ⟨S2x100x12544, .f32⟩) Host.negf,
    StableHlo.TRef.unary (.of main_call65_v8 : StableHlo.TRef sig ⟨S2x100x12544, .f32⟩) (.of main_call65_v9 : StableHlo.TRef sig ⟨S2x100x12544, .f32⟩) Host.exp,
    StableHlo.TRef.unary (.of main_call65_v9 : StableHlo.TRef sig ⟨S2x100x12544, .f32⟩) (.of main_call65_v10 : StableHlo.TRef sig ⟨S2x100x12544, .f32⟩) Host.log1p,
    StableHlo.TRef.binary (.of main_call65_v1 : StableHlo.TRef sig ⟨S2x100x12544, .f32⟩) (.of main_call65_v10 : StableHlo.TRef sig ⟨S2x100x12544, .f32⟩) (.of main_call65_v11 : StableHlo.TRef sig ⟨S2x100x12544, .f32⟩) addf,
    StableHlo.TRef.ternary (.of main_call65_v4 : StableHlo.TRef sig ⟨S2x100x12544, .i1⟩) (.of main_call65_v6 : StableHlo.TRef sig ⟨S2x100x12544, .f32⟩) (.of main_call65_v11 : StableHlo.TRef sig ⟨S2x100x12544, .f32⟩) (.of main_v1013 : StableHlo.TRef sig ⟨S2x100x12544, .f32⟩) select,
    StableHlo.nullary main_cst_410 (constant S_ .f32 0x46440000#32),
    StableHlo.unary main_cst_410 main_v1014 (broadcastInDim S2x100x12544 ![] bcast_S_S2x100x12544 : (⟨S_, .f32⟩ : BufTy).Contents (Elt F) → (⟨S2x100x12544, .f32⟩ : BufTy).Contents (Elt F)),
    StableHlo.binary main_v1013 main_v1014 main_v1015 (Host.divf : (⟨S2x100x12544, .f32⟩ : BufTy).Contents (Elt F) → (⟨S2x100x12544, .f32⟩ : BufTy).Contents (Elt F) → (⟨S2x100x12544, .f32⟩ : BufTy).Contents (Elt F)),
    StableHlo.unary main_v989 main_v1016 ((transpose S2x12544x30 [0, 2, 1] · transposes_S2x30x12544_S2x12544x30_0_2_1) : (⟨S2x30x12544, .f32⟩ : BufTy).Contents (Elt F) → (⟨S2x12544x30, .f32⟩ : BufTy).Contents (Elt F)),
    StableHlo.binary main_v1012 main_v1016 main_v1017 ((fun l r => Host.dotGeneral dot_S2x100x12544_S2x12544x30_S2x100x30_2_1_1_2_0_0 none l r) : (⟨S2x100x12544, .f32⟩ : BufTy).Contents (Elt F) → (⟨S2x12544x30, .f32⟩ : BufTy).Contents (Elt F) → (⟨S2x100x30, .f32⟩ : BufTy).Contents (Elt F)),
    StableHlo.nullary main_cst_411 (constant S_ .f32 0x3F800000#32),
    StableHlo.unary main_cst_411 main_v1018 (broadcastInDim S2x30x12544 ![] bcast_S_S2x30x12544 : (⟨S_, .f32⟩ : BufTy).Contents (Elt F) → (⟨S2x30x12544, .f32⟩ : BufTy).Contents (Elt F)),
    StableHlo.binary main_v1018 main_v989 main_v1019 (subf : (⟨S2x30x12544, .f32⟩ : BufTy).Contents (Elt F) → (⟨S2x30x12544, .f32⟩ : BufTy).Contents (Elt F) → (⟨S2x30x12544, .f32⟩ : BufTy).Contents (Elt F)),
    StableHlo.unary main_v1019 main_v1020 ((transpose S2x12544x30 [0, 2, 1] · transposes_S2x30x12544_S2x12544x30_0_2_1) : (⟨S2x30x12544, .f32⟩ : BufTy).Contents (Elt F) → (⟨S2x12544x30, .f32⟩ : BufTy).Contents (Elt F)),
    StableHlo.binary main_v1015 main_v1020 main_v1021 ((fun l r => Host.dotGeneral dot_S2x100x12544_S2x12544x30_S2x100x30_2_1_1_2_0_0 none l r) : (⟨S2x100x12544, .f32⟩ : BufTy).Contents (Elt F) → (⟨S2x12544x30, .f32⟩ : BufTy).Contents (Elt F) → (⟨S2x100x30, .f32⟩ : BufTy).Contents (Elt F)),
    StableHlo.binary main_v1017 main_v1021 main_v1022 (addf : (⟨S2x100x30, .f32⟩ : BufTy).Contents (Elt F) → (⟨S2x100x30, .f32⟩ : BufTy).Contents (Elt F) → (⟨S2x100x30, .f32⟩ : BufTy).Contents (Elt F)),
    StableHlo.unary main_v494 main_v1023 (Host.negf : (⟨S2x100x12544, .f32⟩ : BufTy).Contents (Elt F) → (⟨S2x100x12544, .f32⟩ : BufTy).Contents (Elt F)),
    StableHlo.unary main_v1023 main_v1024 (Host.exp : (⟨S2x100x12544, .f32⟩ : BufTy).Contents (Elt F) → (⟨S2x100x12544, .f32⟩ : BufTy).Contents (Elt F)),
    StableHlo.nullary main_cst_412 (constant S_ .f32 0x3F800000#32) ]

/-- The buffers these operations write, in order. -/
abbrev ops_part23c_W : List (Ref sig .tc) := [main_v1009, main_call64_cst, main_call64_v0, main_call64_v1, main_call64_v2, main_call64_v3, main_call64_v4, main_call64_v5, main_call64_v6, main_call64_v7, main_call64_v8, main_call64_v9, main_call64_v10, main_call64_v11, main_v1010, main_cst_409, main_v1011, main_v1012, main_call65_cst, main_call65_v0, main_call65_v1, main_call65_v2, main_call65_v3, main_call65_v4, main_call65_v5, main_call65_v6, main_call65_v7, main_call65_v8, main_call65_v9, main_call65_v10, main_call65_v11, main_v1013, main_cst_410, main_v1014, main_v1015, main_v1016, main_v1017, main_cst_411, main_v1018, main_v1019, main_v1020, main_v1021, main_v1022, main_v1023, main_v1024, main_cst_412]

set_option maxRecDepth 8192 in
/-- Each of these operations writes one buffer of that list. -/
theorem ops_part23c_writes : (ops_part23c : List (HloOp τ sig (Elt F))).Forall fun op => op.writes ⊆ (ops_part23c_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

set_option maxRecDepth 8192 in
/-- Window 23's list is its three parts joined. -/
theorem ops_part23_split : (ops_part23 : List (HloOp τ sig (Elt F))) = ops_part23a ++ (ops_part23b ++ ops_part23c) := rfl

/-- The contents after window 23 are the three parts' folds composed. -/
theorem after_part23 (V : Valuation τ sig (Elt F)) :
    after ops_part23 V = after ops_part23c (after ops_part23b (after ops_part23a V)) := by
  rw [ops_part23_split, Cert.LibSeqChunks.after_append, Cert.LibSeqChunks.after_append]

set_option maxRecDepth 8192 in
set_option maxHeartbeats 40000000 in
/-- The class term's part, from any contents, leaves in its last buffer the class array of the contents of the class
    logits and the class labels: each operation's result read in turn, the composed term is the definition's. -/
theorem read_cls (W : Valuation τ sig (Elt Ideal)) :
    after ops_part23b W (Proc.devRef .tc main_v1008)
      = Cert.Bridge.R.cls (W (Proc.devRef .tc main_arg1)) (W (Proc.devRef .tc main_arg4)) := by
  simp only [ops_part23b]
  after_results_simp <;> rfl

set_option maxRecDepth 8192 in
set_option maxHeartbeats 4000000 in
/-- Window main_part24's operations that are the last stretch up to the weighted sum of the three parts (40 of its 68), in order. -/
abbrev ops_part24a : List (HloOp τ sig (Elt F)) :=
  [ StableHlo.unary main_cst_412 main_v1025 (broadcastInDim S2x100x12544 ![] bcast_S_S2x100x12544 : (⟨S_, .f32⟩ : BufTy).Contents (Elt F) → (⟨S2x100x12544, .f32⟩ : BufTy).Contents (Elt F)),
    StableHlo.binary main_v1025 main_v1024 main_v1026 (addf : (⟨S2x100x12544, .f32⟩ : BufTy).Contents (Elt F) → (⟨S2x100x12544, .f32⟩ : BufTy).Contents (Elt F) → (⟨S2x100x12544, .f32⟩ : BufTy).Contents (Elt F)),
    StableHlo.nullary main_cst_413 (constant S_ .f32 0x3F800000#32),
    StableHlo.unary main_cst_413 main_v1027 (broadcastInDim S2x100x12544 ![] bcast_S_S2x100x12544 : (⟨S_, .f32⟩ : BufTy).Contents (Elt F) → (⟨S2x100x12544, .f32⟩ : BufTy).Contents (Elt F)),
    StableHlo.binary main_v1027 main_v1026 main_v1028 (Host.divf : (⟨S2x100x12544, .f32⟩ : BufTy).Contents (Elt F) → (⟨S2x100x12544, .f32⟩ : BufTy).Contents (Elt F) → (⟨S2x100x12544, .f32⟩ : BufTy).Contents (Elt F)),
    StableHlo.unary main_v989 main_v1029 ((transpose S2x12544x30 [0, 2, 1] · transposes_S2x30x12544_S2x12544x30_0_2_1) : (⟨S2x30x12544, .f32⟩ : BufTy).Contents (Elt F) → (⟨S2x12544x30, .f32⟩ : BufTy).Contents (Elt F)),
    StableHlo.binary main_v1028 main_v1029 main_v1030 ((fun l r => Host.dotGeneral dot_S2x100x12544_S2x12544x30_S2x100x30_2_1_1_2_0_0 none l r) : (⟨S2x100x12544, .f32⟩ : BufTy).Contents (Elt F) → (⟨S2x12544x30, .f32⟩ : BufTy).Contents (Elt F) → (⟨S2x100x30, .f32⟩ : BufTy).Contents (Elt F)),
    StableHlo.nullary main_cst_414 (constant S_ .f32 0x40000000#32),
    StableHlo.unary main_cst_414 main_v1031 (broadcastInDim S2x100x30 ![] bcast_S_S2x100x30 : (⟨S_, .f32⟩ : BufTy).Contents (Elt F) → (⟨S2x100x30, .f32⟩ : BufTy).Contents (Elt F)),
    StableHlo.binary main_v1031 main_v1030 main_v1032 (mulf : (⟨S2x100x30, .f32⟩ : BufTy).Contents (Elt F) → (⟨S2x100x30, .f32⟩ : BufTy).Contents (Elt F) → (⟨S2x100x30, .f32⟩ : BufTy).Contents (Elt F)),
    StableHlo.nullary main_cst_415 (constant S_ .f32 0x00000000#32),
    StableHlo.binary main_v1028 main_cst_415 main_v1033 ((fun x v => Host.reduceAdd x v reducesTo_S2x100x12544_S2x100_d2 h_S_) : (⟨S2x100x12544, .f32⟩ : BufTy).Contents (Elt F) → (⟨S_, .f32⟩ : BufTy).Contents (Elt F) → (⟨S2x100, .f32⟩ : BufTy).Contents (Elt F)),
    StableHlo.unary main_v1033 main_v1034 (broadcastInDim S2x100x1 ![0, 1] bcast_S2x100_S2x100x1_0_1 : (⟨S2x100, .f32⟩ : BufTy).Contents (Elt F) → (⟨S2x100x1, .f32⟩ : BufTy).Contents (Elt F)),
    StableHlo.nullary main_cst_416 (constant S_ .f32 0x00000000#32),
    StableHlo.binary main_v989 main_cst_416 main_v1035 ((fun x v => Host.reduceAdd x v reducesTo_S2x30x12544_S2x30_d2 h_S_) : (⟨S2x30x12544, .f32⟩ : BufTy).Contents (Elt F) → (⟨S_, .f32⟩ : BufTy).Contents (Elt F) → (⟨S2x30, .f32⟩ : BufTy).Contents (Elt F)),
    StableHlo.unary main_v1035 main_v1036 (broadcastInDim S2x1x30 ![0, 2] bcast_S2x30_S2x1x30_0_2 : (⟨S2x30, .f32⟩ : BufTy).Contents (Elt F) → (⟨S2x1x30, .f32⟩ : BufTy).Contents (Elt F)),
    StableHlo.unary main_v1034 main_v1037 (broadcastInDim S2x100x30 ![0, 1, 2] bcast_S2x100x1_S2x100x30_0_1_2 : (⟨S2x100x1, .f32⟩ : BufTy).Contents (Elt F) → (⟨S2x100x30, .f32⟩ : BufTy).Contents (Elt F)),
    StableHlo.unary main_v1036 main_v1038 (broadcastInDim S2x100x30 ![0, 1, 2] bcast_S2x1x30_S2x100x30_0_1_2 : (⟨S2x1x30, .f32⟩ : BufTy).Contents (Elt F) → (⟨S2x100x30, .f32⟩ : BufTy).Contents (Elt F)),
    StableHlo.binary main_v1037 main_v1038 main_v1039 (addf : (⟨S2x100x30, .f32⟩ : BufTy).Contents (Elt F) → (⟨S2x100x30, .f32⟩ : BufTy).Contents (Elt F) → (⟨S2x100x30, .f32⟩ : BufTy).Contents (Elt F)),
    StableHlo.nullary main_cst_417 (constant S_ .f32 0x3F800000#32),
    StableHlo.unary main_cst_417 main_v1040 (broadcastInDim S2x100x30 ![] bcast_S_S2x100x30 : (⟨S_, .f32⟩ : BufTy).Contents (Elt F) → (⟨S2x100x30, .f32⟩ : BufTy).Contents (Elt F)),
    StableHlo.binary main_v1032 main_v1040 main_v1041 (addf : (⟨S2x100x30, .f32⟩ : BufTy).Contents (Elt F) → (⟨S2x100x30, .f32⟩ : BufTy).Contents (Elt F) → (⟨S2x100x30, .f32⟩ : BufTy).Contents (Elt F)),
    StableHlo.nullary main_cst_418 (constant S_ .f32 0x3F800000#32),
    StableHlo.unary main_cst_418 main_v1042 (broadcastInDim S2x100x30 ![] bcast_S_S2x100x30 : (⟨S_, .f32⟩ : BufTy).Contents (Elt F) → (⟨S2x100x30, .f32⟩ : BufTy).Contents (Elt F)),
    StableHlo.binary main_v1039 main_v1042 main_v1043 (addf : (⟨S2x100x30, .f32⟩ : BufTy).Contents (Elt F) → (⟨S2x100x30, .f32⟩ : BufTy).Contents (Elt F) → (⟨S2x100x30, .f32⟩ : BufTy).Contents (Elt F)),
    StableHlo.binary main_v1041 main_v1043 main_v1044 (Host.divf : (⟨S2x100x30, .f32⟩ : BufTy).Contents (Elt F) → (⟨S2x100x30, .f32⟩ : BufTy).Contents (Elt F) → (⟨S2x100x30, .f32⟩ : BufTy).Contents (Elt F)),
    StableHlo.nullary main_cst_419 (constant S_ .f32 0x3F800000#32),
    StableHlo.unary main_cst_419 main_v1045 (broadcastInDim S2x100x30 ![] bcast_S_S2x100x30 : (⟨S_, .f32⟩ : BufTy).Contents (Elt F) → (⟨S2x100x30, .f32⟩ : BufTy).Contents (Elt F)),
    StableHlo.binary main_v1045 main_v1044 main_v1046 (subf : (⟨S2x100x30, .f32⟩ : BufTy).Contents (Elt F) → (⟨S2x100x30, .f32⟩ : BufTy).Contents (Elt F) → (⟨S2x100x30, .f32⟩ : BufTy).Contents (Elt F)),
    StableHlo.nullary main_cst_420 (constant S_ .f32 0x3F800000#32),
    StableHlo.unary main_cst_420 main_v1047 (broadcastInDim S2x100x30 ![] bcast_S_S2x100x30 : (⟨S_, .f32⟩ : BufTy).Contents (Elt F) → (⟨S2x100x30, .f32⟩ : BufTy).Contents (Elt F)),
    StableHlo.binary main_v1047 main_v1022 main_v1048 (mulf : (⟨S2x100x30, .f32⟩ : BufTy).Contents (Elt F) → (⟨S2x100x30, .f32⟩ : BufTy).Contents (Elt F) → (⟨S2x100x30, .f32⟩ : BufTy).Contents (Elt F)),
    StableHlo.nullary main_cst_421 (constant S_ .f32 0x3F800000#32),
    StableHlo.unary main_cst_421 main_v1049 (broadcastInDim S2x100x30 ![] bcast_S_S2x100x30 : (⟨S_, .f32⟩ : BufTy).Contents (Elt F) → (⟨S2x100x30, .f32⟩ : BufTy).Contents (Elt F)),
    StableHlo.binary main_v1049 main_v1008 main_v1050 (mulf : (⟨S2x100x30, .f32⟩ : BufTy).Contents (Elt F) → (⟨S2x100x30, .f32⟩ : BufTy).Contents (Elt F) → (⟨S2x100x30, .f32⟩ : BufTy).Contents (Elt F)),
    StableHlo.binary main_v1048 main_v1050 main_v1051 (addf : (⟨S2x100x30, .f32⟩ : BufTy).Contents (Elt F) → (⟨S2x100x30, .f32⟩ : BufTy).Contents (Elt F) → (⟨S2x100x30, .f32⟩ : BufTy).Contents (Elt F)),
    StableHlo.nullary main_cst_422 (constant S_ .f32 0x3F800000#32),
    StableHlo.unary main_cst_422 main_v1052 (broadcastInDim S2x100x30 ![] bcast_S_S2x100x30 : (⟨S_, .f32⟩ : BufTy).Contents (Elt F) → (⟨S2x100x30, .f32⟩ : BufTy).Contents (Elt F)),
    StableHlo.binary main_v1052 main_v1046 main_v1053 (mulf : (⟨S2x100x30, .f32⟩ : BufTy).Contents (Elt F) → (⟨S2x100x30, .f32⟩ : BufTy).Contents (Elt F) → (⟨S2x100x30, .f32⟩ : BufTy).Contents (Elt F)),
    StableHlo.binary main_v1051 main_v1053 main_v1054 (addf : (⟨S2x100x30, .f32⟩ : BufTy).Contents (Elt F) → (⟨S2x100x30, .f32⟩ : BufTy).Contents (Elt F) → (⟨S2x100x30, .f32⟩ : BufTy).Contents (Elt F)) ]

set_option maxRecDepth 8192 in
set_option maxHeartbeats 4000000 in
/-- Window main_part24's operations that are the clamp and the replacement of NaN and of the infinities (28 of its 68), in order. -/
abbrev ops_part24b : List (HloOp τ sig (Elt F)) :=
  [ StableHlo.nullary main_cst_423 (constant S_ .f32 0xD01502F9#32),
    StableHlo.nullary main_cst_424 (constant S_ .f32 0x501502F9#32),
    StableHlo.TRef.unary (.of main_cst_423 : StableHlo.TRef sig ⟨S_, .f32⟩) (.of main_call66_v0 : StableHlo.TRef sig ⟨S_, .f32⟩) id,
    StableHlo.TRef.unary (.of main_call66_v0 : StableHlo.TRef sig ⟨S_, .f32⟩) (.of main_call66_v1 : StableHlo.TRef sig ⟨S2x100x30, .f32⟩) (broadcastInDim S2x100x30 ![] bcast_S_S2x100x30),
    StableHlo.TRef.binary (.of main_call66_v1 : StableHlo.TRef sig ⟨S2x100x30, .f32⟩) (.of main_v1054 : StableHlo.TRef sig ⟨S2x100x30, .f32⟩) (.of main_call66_v2 : StableHlo.TRef sig ⟨S2x100x30, .f32⟩) maximumf,
    StableHlo.TRef.unary (.of main_cst_424 : StableHlo.TRef sig ⟨S_, .f32⟩) (.of main_call66_v3 : StableHlo.TRef sig ⟨S_, .f32⟩) id,
    StableHlo.TRef.unary (.of main_call66_v3 : StableHlo.TRef sig ⟨S_, .f32⟩) (.of main_call66_v4 : StableHlo.TRef sig ⟨S2x100x30, .f32⟩) (broadcastInDim S2x100x30 ![] bcast_S_S2x100x30),
    StableHlo.TRef.binary (.of main_call66_v4 : StableHlo.TRef sig ⟨S2x100x30, .f32⟩) (.of main_call66_v2 : StableHlo.TRef sig ⟨S2x100x30, .f32⟩) (.of main_v1055 : StableHlo.TRef sig ⟨S2x100x30, .f32⟩) minimumf,
    StableHlo.nullary main_cst_425 (constant S_ .f32 0x00000000#32),
    StableHlo.TRef.binary (.of main_v1055 : StableHlo.TRef sig ⟨S2x100x30, .f32⟩) (.of main_v1055 : StableHlo.TRef sig ⟨S2x100x30, .f32⟩) (.of main_call67_v0 : StableHlo.TRef sig ⟨S2x100x30, .i1⟩) (cmpf .une),
    StableHlo.TRef.unary (.of main_cst_425 : StableHlo.TRef sig ⟨S_, .f32⟩) (.of main_call67_v1 : StableHlo.TRef sig ⟨S_, .f32⟩) id,
    StableHlo.TRef.unary (.of main_call67_v1 : StableHlo.TRef sig ⟨S_, .f32⟩) (.of main_call67_call0_v0 : StableHlo.TRef sig ⟨S100x30, .f32⟩) (broadcastInDim S100x30 ![] bcast_S_S100x30),
    StableHlo.TRef.unary (.of main_call67_call0_v0 : StableHlo.TRef sig ⟨S100x30, .f32⟩) (.of main_call67_call0_v1 : StableHlo.TRef sig ⟨S2x100x30, .f32⟩) (broadcastInDim S2x100x30 ![1, 2] bcast_S100x30_S2x100x30_1_2),
    StableHlo.TRef.ternary (.of main_call67_v0 : StableHlo.TRef sig ⟨S2x100x30, .i1⟩) (.of main_call67_call0_v1 : StableHlo.TRef sig ⟨S2x100x30, .f32⟩) (.of main_v1055 : StableHlo.TRef sig ⟨S2x100x30, .f32⟩) (.of main_call67_v2 : StableHlo.TRef sig ⟨S2x100x30, .f32⟩) select,
    StableHlo.TRef.nullary (.of main_call67_cst : StableHlo.TRef sig ⟨S_, .f32⟩) (constant S_ .f32 0x7F800000#32),
    StableHlo.TRef.unary (.of main_call67_cst : StableHlo.TRef sig ⟨S_, .f32⟩) (.of main_call67_v3 : StableHlo.TRef sig ⟨S2x100x30, .f32⟩) (broadcastInDim S2x100x30 ![] bcast_S_S2x100x30),
    StableHlo.TRef.binary (.of main_call67_v2 : StableHlo.TRef sig ⟨S2x100x30, .f32⟩) (.of main_call67_v3 : StableHlo.TRef sig ⟨S2x100x30, .f32⟩) (.of main_call67_v4 : StableHlo.TRef sig ⟨S2x100x30, .i1⟩) (cmpf .oeq),
    StableHlo.TRef.nullary (.of main_call67_cst_0 : StableHlo.TRef sig ⟨S_, .f32⟩) (constant S_ .f32 0x7F7FFFFF#32),
    StableHlo.TRef.unary (.of main_call67_cst_0 : StableHlo.TRef sig ⟨S_, .f32⟩) (.of main_call67_call1_v0 : StableHlo.TRef sig ⟨S100x30, .f32⟩) (broadcastInDim S100x30 ![] bcast_S_S100x30),
    StableHlo.TRef.unary (.of main_call67_call1_v0 : StableHlo.TRef sig ⟨S100x30, .f32⟩) (.of main_call67_call1_v1 : StableHlo.TRef sig ⟨S2x100x30, .f32⟩) (broadcastInDim S2x100x30 ![1, 2] bcast_S100x30_S2x100x30_1_2),
    StableHlo.TRef.ternary (.of main_call67_v4 : StableHlo.TRef sig ⟨S2x100x30, .i1⟩) (.of main_call67_call1_v1 : StableHlo.TRef sig ⟨S2x100x30, .f32⟩) (.of main_call67_v2 : StableHlo.TRef sig ⟨S2x100x30, .f32⟩) (.of main_call67_v5 : StableHlo.TRef sig ⟨S2x100x30, .f32⟩) select,
    StableHlo.TRef.nullary (.of main_call67_cst_1 : StableHlo.TRef sig ⟨S_, .f32⟩) (constant S_ .f32 0xFF800000#32),
    StableHlo.TRef.unary (.of main_call67_cst_1 : StableHlo.TRef sig ⟨S_, .f32⟩) (.of main_call67_v6 : StableHlo.TRef sig ⟨S2x100x30, .f32⟩) (broadcastInDim S2x100x30 ![] bcast_S_S2x100x30),
    StableHlo.TRef.binary (.of main_call67_v5 : StableHlo.TRef sig ⟨S2x100x30, .f32⟩) (.of main_call67_v6 : StableHlo.TRef sig ⟨S2x100x30, .f32⟩) (.of main_call67_v7 : StableHlo.TRef sig ⟨S2x100x30, .i1⟩) (cmpf .oeq),
    StableHlo.TRef.nullary (.of main_call67_cst_2 : StableHlo.TRef sig ⟨S_, .f32⟩) (constant S_ .f32 0xFF7FFFFF#32),
    StableHlo.TRef.unary (.of main_call67_cst_2 : StableHlo.TRef sig ⟨S_, .f32⟩) (.of main_call67_call2_v0 : StableHlo.TRef sig ⟨S100x30, .f32⟩) (broadcastInDim S100x30 ![] bcast_S_S100x30),
    StableHlo.TRef.unary (.of main_call67_call2_v0 : StableHlo.TRef sig ⟨S100x30, .f32⟩) (.of main_call67_call2_v1 : StableHlo.TRef sig ⟨S2x100x30, .f32⟩) (broadcastInDim S2x100x30 ![1, 2] bcast_S100x30_S2x100x30_1_2),
    StableHlo.TRef.ternary (.of main_call67_v7 : StableHlo.TRef sig ⟨S2x100x30, .i1⟩) (.of main_call67_call2_v1 : StableHlo.TRef sig ⟨S2x100x30, .f32⟩) (.of main_call67_v5 : StableHlo.TRef sig ⟨S2x100x30, .f32⟩) (.of main_v1056 : StableHlo.TRef sig ⟨S2x100x30, .f32⟩) select ]

set_option maxRecDepth 8192 in
/-- Window 24's list is its two parts joined. -/
theorem ops_part24_split : (ops_part24 : List (HloOp τ sig (Elt F))) = ops_part24a ++ ops_part24b := rfl

/-- The contents after window 24 are the two parts' folds composed. -/
theorem after_part24 (V : Valuation τ sig (Elt F)) : after ops_part24 V = after ops_part24b (after ops_part24a V) := by
  rw [ops_part24_split, Cert.LibSeqChunks.after_append]

/-- The cross-entropy part of the last stretch as a function of the sampled query logits and the sampled targets: the
    softplus of minus the logits, divided by the number of points, contracted over the points with the targets, plus the
    softplus of the logits, divided likewise, contracted with one minus the targets. -/
def maskR (P : FVec Ideal S2x100x12544 .f32) (T : FVec Ideal S2x30x12544 .f32) : FVec Ideal S2x100x30 .f32 :=
  addf (Host.dotGeneral dot_S2x100x12544_S2x12544x30_S2x100x30_2_1_1_2_0_0 none (Host.divf (Cert.ReferenceIdeal.HandTail.softplusR (Host.negf P)) (broadcastInDim S2x100x12544 ![] bcast_S_S2x100x12544 (constant (F := Ideal) S_ .f32 0x46440000#32))) (transpose S2x12544x30 [0, 2, 1] T transposes_S2x30x12544_S2x12544x30_0_2_1))
    (Host.dotGeneral dot_S2x100x12544_S2x12544x30_S2x100x30_2_1_1_2_0_0 none (Host.divf (Cert.ReferenceIdeal.HandTail.softplusR P) (broadcastInDim S2x100x12544 ![] bcast_S_S2x100x12544 (constant (F := Ideal) S_ .f32 0x46440000#32))) (transpose S2x12544x30 [0, 2, 1] (subf (broadcastInDim S2x30x12544 ![] bcast_S_S2x30x12544 (constant (F := Ideal) S_ .f32 0x3F800000#32)) T) transposes_S2x30x12544_S2x12544x30_0_2_1))

/-- The last stretch up to the weighted sum of its three parts (before the clamp), operation by operation, as a
    function of the sampled query logits, the sampled targets and the class term. -/
def tailPreR (P : FVec Ideal S2x100x12544 .f32) (T : FVec Ideal S2x30x12544 .f32) (Cl : FVec Ideal S2x100x30 .f32) :
    FVec Ideal S2x100x30 .f32 :=
  let v1009 := Host.negf P
  let v1010 := Cert.ReferenceIdeal.HandTail.softplusR v1009
  let cst_409 : FVec Ideal S_ .f32 := constant (F := Ideal) S_ .f32 0x46440000#32
  let v1011 := broadcastInDim S2x100x12544 ![] bcast_S_S2x100x12544 cst_409
  let v1012 := Host.divf v1010 v1011
  let v1013 := Cert.ReferenceIdeal.HandTail.softplusR P
  let cst_410 : FVec Ideal S_ .f32 := constant (F := Ideal) S_ .f32 0x46440000#32
  let v1014 := broadcastInDim S2x100x12544 ![] bcast_S_S2x100x12544 cst_410
  let v1015 := Host.divf v1013 v1014
  let v1016 := transpose S2x12544x30 [0, 2, 1] T transposes_S2x30x12544_S2x12544x30_0_2_1
  let v1017 := Host.dotGeneral dot_S2x100x12544_S2x12544x30_S2x100x30_2_1_1_2_0_0 none v1012 v1016
  let cst_411 : FVec Ideal S_ .f32 := constant (F := Ideal) S_ .f32 0x3F800000#32
  let v1018 := broadcastInDim S2x30x12544 ![] bcast_S_S2x30x12544 cst_411
  let v1019 := subf v1018 T
  let v1020 := transpose S2x12544x30 [0, 2, 1] v1019 transposes_S2x30x12544_S2x12544x30_0_2_1
  let v1021 := Host.dotGeneral dot_S2x100x12544_S2x12544x30_S2x100x30_2_1_1_2_0_0 none v1015 v1020
  let v1022 := addf v1017 v1021
  let v1023 := Host.negf P
  let v1024 := Host.exp v1023
  let cst_412 : FVec Ideal S_ .f32 := constant (F := Ideal) S_ .f32 0x3F800000#32
  let v1025 := broadcastInDim S2x100x12544 ![] bcast_S_S2x100x12544 cst_412
  let v1026 := addf v1025 v1024
  let cst_413 : FVec Ideal S_ .f32 := constant (F := Ideal) S_ .f32 0x3F800000#32
  let v1027 := broadcastInDim S2x100x12544 ![] bcast_S_S2x100x12544 cst_413
  let v1028 := Host.divf v1027 v1026
  let v1029 := transpose S2x12544x30 [0, 2, 1] T transposes_S2x30x12544_S2x12544x30_0_2_1
  let v1030 := Host.dotGeneral dot_S2x100x12544_S2x12544x30_S2x100x30_2_1_1_2_0_0 none v1028 v1029
  let cst_414 : FVec Ideal S_ .f32 := constant (F := Ideal) S_ .f32 0x40000000#32
  let v1031 := broadcastInDim S2x100x30 ![] bcast_S_S2x100x30 cst_414
  let v1032 := mulf v1031 v1030
  let cst_415 : FVec Ideal S_ .f32 := constant (F := Ideal) S_ .f32 0x00000000#32
  let v1033 := Host.reduceAdd v1028 cst_415 reducesTo_S2x100x12544_S2x100_d2 h_S_
  let v1034 := broadcastInDim S2x100x1 ![0, 1] bcast_S2x100_S2x100x1_0_1 v1033
  let cst_416 : FVec Ideal S_ .f32 := constant (F := Ideal) S_ .f32 0x00000000#32
  let v1035 := Host.reduceAdd T cst_416 reducesTo_S2x30x12544_S2x30_d2 h_S_
  let v1036 := broadcastInDim S2x1x30 ![0, 2] bcast_S2x30_S2x1x30_0_2 v1035
  let v1037 := broadcastInDim S2x100x30 ![0, 1, 2] bcast_S2x100x1_S2x100x30_0_1_2 v1034
  let v1038 := broadcastInDim S2x100x30 ![0, 1, 2] bcast_S2x1x30_S2x100x30_0_1_2 v1036
  let v1039 := addf v1037 v1038
  let cst_417 : FVec Ideal S_ .f32 := constant (F := Ideal) S_ .f32 0x3F800000#32
  let v1040 := broadcastInDim S2x100x30 ![] bcast_S_S2x100x30 cst_417
  let v1041 := addf v1032 v1040
  let cst_418 : FVec Ideal S_ .f32 := constant (F := Ideal) S_ .f32 0x3F800000#32
  let v1042 := broadcastInDim S2x100x30 ![] bcast_S_S2x100x30 cst_418
  let v1043 := addf v1039 v1042
  let v1044 := Host.divf v1041 v1043
  let cst_419 : FVec Ideal S_ .f32 := constant (F := Ideal) S_ .f32 0x3F800000#32
  let v1045 := broadcastInDim S2x100x30 ![] bcast_S_S2x100x30 cst_419
  let v1046 := subf v1045 v1044
  let cst_420 : FVec Ideal S_ .f32 := constant (F := Ideal) S_ .f32 0x3F800000#32
  let v1047 := broadcastInDim S2x100x30 ![] bcast_S_S2x100x30 cst_420
  let v1048 := mulf v1047 v1022
  let cst_421 : FVec Ideal S_ .f32 := constant (F := Ideal) S_ .f32 0x3F800000#32
  let v1049 := broadcastInDim S2x100x30 ![] bcast_S_S2x100x30 cst_421
  let v1050 := mulf v1049 Cl
  let v1051 := addf v1048 v1050
  let cst_422 : FVec Ideal S_ .f32 := constant (F := Ideal) S_ .f32 0x3F800000#32
  let v1052 := broadcastInDim S2x100x30 ![] bcast_S_S2x100x30 cst_422
  let v1053 := mulf v1052 v1046
  let v1054 := addf v1051 v1053
  v1054

set_option maxRecDepth 16384 in
set_option maxHeartbeats 40000000 in
/-- The beginning of the last stretch leaves the scalar one in its last buffer. -/
theorem read_cst412 (W : Valuation τ sig (Elt Ideal)) :
    after ops_part23c W (Proc.devRef .tc main_cst_412) = constant (F := Ideal) S_ .f32 0x3F800000#32 := by
  simp only [ops_part23c]
  after_results_simp <;> rfl

set_option maxRecDepth 16384 in
set_option maxHeartbeats 40000000 in
/-- The beginning of the last stretch leaves the exponential of minus the sampled query logits in its buffer. -/
theorem read_v1024 (W : Valuation τ sig (Elt Ideal)) :
    after ops_part23c W (Proc.devRef .tc main_v1024) = (Host.exp (Host.negf (W (Proc.devRef .tc main_v494))) : FVec Ideal S2x100x12544 .f32) := by
  simp only [ops_part23c]
  after_results_simp <;> rfl

set_option maxRecDepth 16384 in
set_option maxHeartbeats 40000000 in
/-- The beginning of the last stretch leaves the cross-entropy part in its buffer: each operation's result read in turn, the composed term is the definition's. -/
theorem read_v1022 (W : Valuation τ sig (Elt Ideal)) :
    after ops_part23c W (Proc.devRef .tc main_v1022) = maskR (W (Proc.devRef .tc main_v494)) (W (Proc.devRef .tc main_v989)) := by
  simp only [ops_part23c]
  after_results_simp <;> rfl

set_option maxRecDepth 16384 in
set_option maxHeartbeats 100000000 in
/-- Window 24's first part, from contents that hold the scalar one, the exponential of minus the logits, the
    cross-entropy part, the sampled targets and the class term in the five buffers it reads, leaves the weighted sum of
    the three parts in its last buffer: each operation's result read in turn, the five buffers replaced by what they
    hold, the composed term is the definition unfolded. -/
theorem read_24a (Z : Valuation τ sig (Elt Ideal)) (P : FVec Ideal S2x100x12544 .f32) (T : FVec Ideal S2x30x12544 .f32)
    (Cl : FVec Ideal S2x100x30 .f32)
    (h412 : Z (Proc.devRef .tc main_cst_412) = constant (F := Ideal) S_ .f32 0x3F800000#32)
    (h1024 : Z (Proc.devRef .tc main_v1024) = Host.exp (Host.negf P))
    (h1022 : Z (Proc.devRef .tc main_v1022) = maskR P T)
    (h989 : Z (Proc.devRef .tc main_v989) = T) (h1008 : Z (Proc.devRef .tc main_v1008) = Cl) :
    after ops_part24a Z (Proc.devRef .tc main_v1054) = tailPreR P T Cl := by
  simp only [ops_part24a]
  after_results_simp
  rw [h412, h1024, h1022, h989, h1008]
  rfl

set_option maxRecDepth 16384 in
set_option maxHeartbeats 40000000 in
/-- Window 24's second part, from any contents, leaves in the result buffer the weighted sum's buffer clamped to the two
    finite bounds and passed through the replacement of NaN and of the two infinities. -/
theorem read_24b (Z : Valuation τ sig (Elt Ideal)) :
    after ops_part24b Z (Proc.devRef .tc main_v1056)
      = Cert.ReferenceIdeal.HandTail.nanToNumR (Cert.ReferenceIdeal.HandTail.clipR (Z (Proc.devRef .tc main_v1054))
          (constant (F := Ideal) S_ .f32 0xD01502F9#32) (constant (F := Ideal) S_ .f32 0x501502F9#32)) (constant (F := Ideal) S_ .f32 0x00000000#32) := by
  simp only [ops_part24b]
  after_results_simp <;> rfl

/-- The last stretch is the clamp and the replacement applied to its weighted sum. -/
theorem tailR_eq (P : FVec Ideal S2x100x12544 .f32) (T : FVec Ideal S2x30x12544 .f32) (Cl : FVec Ideal S2x100x30 .f32) :
    Cert.ReferenceIdeal.HandTail.tailR P T Cl
      = Cert.ReferenceIdeal.HandTail.nanToNumR (Cert.ReferenceIdeal.HandTail.clipR (tailPreR P T Cl)
          (constant (F := Ideal) S_ .f32 0xD01502F9#32) (constant (F := Ideal) S_ .f32 0x501502F9#32)) (constant (F := Ideal) S_ .f32 0x00000000#32) := rfl

/-- The last stretch (the end of window 23 and window 24), from any contents, leaves in the result buffer the last
    stretch's function of the contents of the sampled query logits, the sampled targets and the class term. -/
theorem read_tail (W : Valuation τ sig (Elt Ideal)) :
    after ops_part24 (after ops_part23c W) (Proc.devRef .tc main_v1056)
      = Cert.ReferenceIdeal.HandTail.tailR (W (Proc.devRef .tc main_v494)) (W (Proc.devRef .tc main_v989)) (W (Proc.devRef .tc main_v1008)) := by
  rw [after_part24, read_24b, tailR_eq,
    read_24a (after ops_part23c W) (W (Proc.devRef .tc main_v494)) (W (Proc.devRef .tc main_v989)) (W (Proc.devRef .tc main_v1008))
      (read_cst412 W) (read_v1024 W) (read_v1022 W)
      (after_keep (ops_part23c_writes (F := Ideal)) (show main_v989 ∉ ops_part23c_W by decide) W)
      (after_keep (ops_part23c_writes (F := Ideal)) (show main_v1008 ∉ ops_part23c_W by decide) W)]

set_option maxRecDepth 8192 in
/-- After the whole of @main's operations, from any contents, the class term's buffer holds the class array of the
    starting contents of the class logits and the class labels: the windows after the class term's part do not write
    that buffer, and no operation writes the two arguments. -/
theorem fold_cls (V0 : Valuation τ sig (Elt Ideal)) :
    after ops V0 (Proc.devRef .tc main_v1008)
      = Cert.Bridge.R.cls (V0 (Proc.devRef .tc main_arg1)) (V0 (Proc.devRef .tc main_arg4)) := by
  rw [← after_keep (ops_writes (F := Ideal)) main_arg1_not_written V0, ← after_keep (ops_writes (F := Ideal)) main_arg4_not_written V0, after_ops]
  generalize after ops_part22 (after ops_part21 (after ops_part20 (after ops_part19 (after ops_part18 (after ops_part17 (after ops_part16 (after ops_part15 (after ops_part14 (after ops_part13 (after ops_part12 (after ops_part11 (after ops_part10 (after ops_part9 (after ops_part8 (after ops_part7 (after ops_part6 (after ops_part5 (after ops_part4 (after ops_part3 (after ops_part2 (after ops_part1 (after ops_part0 (V0))))))))))))))))))))))) = X
  rw [after_part23]
  generalize after ops_part23a X = Y
  rw [after_keep (ops_part24_writes (F := Ideal)) (show main_v1008 ∉ ops_part24_W by decide),
    after_keep (ops_part24_writes (F := Ideal)) (show main_arg1 ∉ ops_part24_W by decide),
    after_keep (ops_part24_writes (F := Ideal)) (show main_arg4 ∉ ops_part24_W by decide),
    after_keep (ops_part23c_writes (F := Ideal)) (show main_v1008 ∉ ops_part23c_W by decide),
    after_keep (ops_part23c_writes (F := Ideal)) (show main_arg1 ∉ ops_part23c_W by decide),
    after_keep (ops_part23c_writes (F := Ideal)) (show main_arg4 ∉ ops_part23c_W by decide),
    after_keep (ops_part23b_writes (F := Ideal)) (show main_arg1 ∉ ops_part23b_W by decide),
    after_keep (ops_part23b_writes (F := Ideal)) (show main_arg4 ∉ ops_part23b_W by decide)]
  exact read_cls Y

set_option maxRecDepth 8192 in
/-- After the whole of @main's operations, from any contents, the result buffer holds the last stretch's function of
    what the fold leaves in the buffers of the sampled query logits, the sampled targets and the class term: none of
    the three is written after its own part. -/
theorem fold_out (V0 : Valuation τ sig (Elt Ideal)) :
    after ops V0 (Proc.devRef .tc main_v1056)
      = Cert.ReferenceIdeal.HandTail.tailR (after ops V0 (Proc.devRef .tc main_v494)) (after ops V0 (Proc.devRef .tc main_v989))
          (after ops V0 (Proc.devRef .tc main_v1008)) := by
  rw [after_ops]
  generalize after ops_part22 (after ops_part21 (after ops_part20 (after ops_part19 (after ops_part18 (after ops_part17 (after ops_part16 (after ops_part15 (after ops_part14 (after ops_part13 (after ops_part12 (after ops_part11 (after ops_part10 (after ops_part9 (after ops_part8 (after ops_part7 (after ops_part6 (after ops_part5 (after ops_part4 (after ops_part3 (after ops_part2 (after ops_part1 (after ops_part0 (V0))))))))))))))))))))))) = X
  rw [after_part23]
  generalize after ops_part23b (after ops_part23a X) = Y
  rw [after_keep (ops_part24_writes (F := Ideal)) (show main_v494 ∉ ops_part24_W by decide),
    after_keep (ops_part24_writes (F := Ideal)) (show main_v989 ∉ ops_part24_W by decide),
    after_keep (ops_part24_writes (F := Ideal)) (show main_v1008 ∉ ops_part24_W by decide),
    after_keep (ops_part23c_writes (F := Ideal)) (show main_v494 ∉ ops_part23c_W by decide),
    after_keep (ops_part23c_writes (F := Ideal)) (show main_v989 ∉ ops_part23c_W by decide),
    after_keep (ops_part23c_writes (F := Ideal)) (show main_v1008 ∉ ops_part23c_W by decide)]
  exact read_tail Y

end Cert.ReferenceIdeal.HandRun

end
-- ==== Proof.lean ====
/-
  The certificate's proof: the three frames, the sanctioned-idealization claim, and the equivalence at the ideal instance.

  The kernel program samples two volumes at 12544 points (eight corners each) by host operations, computes the class cost,
  and hands the three arrays to one kernel per batch, which computes the pairwise matching cost
      cost_pos + (rowsum(ce_neg) - ce_neg @ tgt^T) + cls + dice,   clamped.
  The reference computes the same three arrays (fetching each voxel by three coordinates where the kernel program uses one
  flat index, and masking the voxel where the kernel program masks the weight) and then
      ce_pos @ tgt^T + ce_neg @ (1 - tgt)^T + cls + dice,   clamped, non-finite values replaced.
  On the extended reals the two are equal when the sampled values are real numbers, which they are when the inputs are:
  the sum of a_p (1 - b_p) is the sum of a_p minus the sum of a_p b_p; the kernel's constant stands for 1/12544 and the
  reference divides by 12544; there is no NaN, and a clamped value is never infinite.

  The parts: the cost as two index-by-index functions and their equality (CostSpec, CostAlgebra); the kernel's run with its
  result array as the kernel arrangement over the region-entry arrays (KernelPayload, CostArray, KernelValue); the reference's
  run (RefRun) and its last stretch as the reference arrangement (RefTail); the three arrays before the cost as pure terms of
  the arguments on both sides, identified with each program's host operations (KernelSampling*, RefSampling*, RefFold*), equal
  corner by corner (CornerDefs, CornerEq, SamplingEq) and real-valued on finite inputs (RefSamplingReal, PreFinite).
-/
import proofs.«103167_j42614665511136_1_alg».proof.Defs
import proofs.«103167_j42614665511136_1_alg».proof.Proof.Gen.Kernel
import proofs.«103167_j42614665511136_1_alg».proof.Proof.Gen.KernelIdeal
import proofs.«103167_j42614665511136_1_alg».proof.Proof.Gen.ReferenceIdeal
import proofs.«103167_j42614665511136_1_alg».proof.Proof.Gen.Pre_finite_inputs
import proofs.«103167_j42614665511136_1_alg».proof.Proof.KernelFrameP
import proofs.«103167_j42614665511136_1_alg».proof.Proof.KernelIdealFrameP
import proofs.«103167_j42614665511136_1_alg».proof.Proof.RefRun
import proofs.«103167_j42614665511136_1_alg».proof.Proof.ClaimParts
import proofs.«103167_j42614665511136_1_alg».proof.Proof.Assembly
import proofs.«103167_j42614665511136_1_alg».proof.Proof.KernelSampling
import proofs.«103167_j42614665511136_1_alg».proof.Proof.KernelClsRead
import proofs.«103167_j42614665511136_1_alg».proof.Proof.KernelTgtRead
import proofs.«103167_j42614665511136_1_alg».proof.Proof.RefSamplingFold
import proofs.«103167_j42614665511136_1_alg».proof.Proof.RefFoldTail
import proofs.«103167_j42614665511136_1_alg».proof.Proof.RefTail

noncomputable section

namespace Cert.Proof

open Idealize.ShloMosaic Idealize.SL.Sem

/-- The kernel program as printed runs and leaves its arguments unchanged: its frame certificate. -/
theorem frame_k : Cert.frame_Kernel := fun m ρ _ => Cert.Kernel.GenP.frame m ρ

/-- The idealized kernel program runs and leaves its arguments unchanged: its frame certificate at the ideal instance. -/
theorem frame_ki : Cert.frame_KernelIdeal := fun m ρ _ => Cert.KernelIdeal.GenP.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The reference's result, read off its run: the last stretch applied to the three sampled arrays, each a pure term of
    the arguments. -/
theorem ref_result (m' : (ℓ : Loc Cert.ReferenceIdeal.nD Cert.ReferenceIdeal.τ Cert.ReferenceIdeal.sig) → Buf (Elt Ideal) ℓ)
    (c : Dev Cert.ReferenceIdeal.nD) :
    StableHlo.after (Cert.ReferenceIdeal.HandRun.ops (F := Ideal)) (fun b => m' (c, b)) (Proc.devRef .tc Cert.ReferenceIdeal.main_v1056)
      = Cert.ReferenceIdeal.HandTail.tailR
          (Cert.Bridge.R.pred (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg3)))
          (Cert.Bridge.R.tgt (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3)))
          (Cert.Bridge.R.cls (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg4))) := by
  rw [Cert.ReferenceIdeal.HandRun.fold_out, Cert.ReferenceIdeal.HandFold.fold_pred, Cert.ReferenceIdeal.HandFold.fold_tgt, Cert.ReferenceIdeal.HandRun.fold_cls]

/-- From memories that agree on the arguments both idealized programs run, and end with equal results. -/
theorem algebraic : Cert.algebraic_KernelIdeal_ReferenceIdeal :=
  Assembly.algebraic_R Cert.ReferenceIdeal.HandTail.tailR ref_result Cert.ReferenceIdeal.HandTail.tailR_apply
    (fun m c => Cert.Bridge.K.V_pred m c) (fun m c => Cert.Bridge.K30c.V_tgt m c) (fun m c => Cert.Bridge.K30.V_cls m c)

theorem claim : Cert.Claim :=
  ⟨Cert.Kernel.Gen.facts, Cert.KernelIdeal.Gen.facts, Cert.ReferenceIdeal.Gen.facts, Cert.Pre_finite_inputs.Gen.facts,
    frame_k, frame_ki, frame_ri, Parts.preserves, algebraic⟩

end Cert.Proof

end
